-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33)) (m ((c.tc : Thread Cert.Kernel.nD Cert.Kernel.τ).loc Cert.Kernel.main_arg34)) (m ((c.tc : Thread Cert.Kernel.nD Cert.Kernel.τ).loc Cert.Kernel.main_arg35)) (m ((c.tc : Thread Cert.Kernel.nD Cert.Kernel.τ).loc Cert.Kernel.main_arg36)) (m ((c.tc : Thread Cert.Kernel.nD Cert.Kernel.τ).loc Cert.Kernel.main_arg37)) (m ((c.tc : Thread Cert.Kernel.nD Cert.Kernel.τ).loc Cert.Kernel.main_arg38)) (m ((c.tc : Thread Cert.Kernel.nD Cert.Kernel.τ).loc Cert.Kernel.main_arg39)) (m ((c.tc : Thread Cert.Kernel.nD Cert.Kernel.τ).loc Cert.Kernel.main_arg40)) (m ((c.tc : Thread Cert.Kernel.nD Cert.Kernel.τ).loc Cert.Kernel.main_arg41)) (m ((c.tc : Thread Cert.Kernel.nD Cert.Kernel.τ).loc Cert.Kernel.main_arg42)) (m ((c.tc : Thread Cert.Kernel.nD Cert.Kernel.τ).loc Cert.Kernel.main_arg43)) (m ((c.tc : Thread Cert.Kernel.nD Cert.Kernel.τ).loc Cert.Kernel.main_arg44)) (m ((c.tc : Thread Cert.Kernel.nD Cert.Kernel.τ).loc Cert.Kernel.main_arg45)) (m ((c.tc : Thread Cert.Kernel.nD Cert.Kernel.τ).loc Cert.Kernel.main_arg46)) (m ((c.tc : Thread Cert.Kernel.nD Cert.Kernel.τ).loc Cert.Kernel.main_arg47)) (m ((c.tc : Thread Cert.Kernel.nD Cert.Kernel.τ).loc Cert.Kernel.main_arg48)) (m ((c.tc : Thread Cert.Kernel.nD Cert.Kernel.τ).loc Cert.Kernel.main_arg49)) (m ((c.tc : Thread Cert.Kernel.nD Cert.Kernel.τ).loc Cert.Kernel.main_arg50)) (m ((c.tc : Thread Cert.Kernel.nD Cert.Kernel.τ).loc Cert.Kernel.main_arg51)) (m ((c.tc : Thread Cert.Kernel.nD Cert.Kernel.τ).loc Cert.Kernel.main_arg52)) (m ((c.tc : Thread Cert.Kernel.nD Cert.Kernel.τ).loc Cert.Kernel.main_arg53)) (m ((c.tc : Thread Cert.Kernel.nD Cert.Kernel.τ).loc Cert.Kernel.main_arg54)) (m ((c.tc : Thread Cert.Kernel.nD Cert.Kernel.τ).loc Cert.Kernel.main_arg55)) (m ((c.tc : Thread Cert.Kernel.nD Cert.Kernel.τ).loc Cert.Kernel.main_arg56)) (m ((c.tc : Thread Cert.Kernel.nD Cert.Kernel.τ).loc Cert.Kernel.main_arg57)) (m ((c.tc : Thread Cert.Kernel.nD Cert.Kernel.τ).loc Cert.Kernel.main_arg58)) (m ((c.tc : Thread Cert.Kernel.nD Cert.Kernel.τ).loc Cert.Kernel.main_arg59)) (m ((c.tc : Thread Cert.Kernel.nD Cert.Kernel.τ).loc Cert.Kernel.main_arg60))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35)) (m ((c.tc : Thread Cert.KernelIdeal.nD Cert.KernelIdeal.τ).loc Cert.KernelIdeal.main_arg36)) (m ((c.tc : Thread Cert.KernelIdeal.nD Cert.KernelIdeal.τ).loc Cert.KernelIdeal.main_arg37)) (m ((c.tc : Thread Cert.KernelIdeal.nD Cert.KernelIdeal.τ).loc Cert.KernelIdeal.main_arg38)) (m ((c.tc : Thread Cert.KernelIdeal.nD Cert.KernelIdeal.τ).loc Cert.KernelIdeal.main_arg39)) (m ((c.tc : Thread Cert.KernelIdeal.nD Cert.KernelIdeal.τ).loc Cert.KernelIdeal.main_arg40)) (m ((c.tc : Thread Cert.KernelIdeal.nD Cert.KernelIdeal.τ).loc Cert.KernelIdeal.main_arg41)) (m ((c.tc : Thread Cert.KernelIdeal.nD Cert.KernelIdeal.τ).loc Cert.KernelIdeal.main_arg42)) (m ((c.tc : Thread Cert.KernelIdeal.nD Cert.KernelIdeal.τ).loc Cert.KernelIdeal.main_arg43)) (m ((c.tc : Thread Cert.KernelIdeal.nD Cert.KernelIdeal.τ).loc Cert.KernelIdeal.main_arg44)) (m ((c.tc : Thread Cert.KernelIdeal.nD Cert.KernelIdeal.τ).loc Cert.KernelIdeal.main_arg45)) (m ((c.tc : Thread Cert.KernelIdeal.nD Cert.KernelIdeal.τ).loc Cert.KernelIdeal.main_arg46)) (m ((c.tc : Thread Cert.KernelIdeal.nD Cert.KernelIdeal.τ).loc Cert.KernelIdeal.main_arg47)) (m ((c.tc : Thread Cert.KernelIdeal.nD Cert.KernelIdeal.τ).loc Cert.KernelIdeal.main_arg48)) (m ((c.tc : Thread Cert.KernelIdeal.nD Cert.KernelIdeal.τ).loc Cert.KernelIdeal.main_arg49)) (m ((c.tc : Thread Cert.KernelIdeal.nD Cert.KernelIdeal.τ).loc Cert.KernelIdeal.main_arg50)) (m ((c.tc : Thread Cert.KernelIdeal.nD Cert.KernelIdeal.τ).loc Cert.KernelIdeal.main_arg51)) (m ((c.tc : Thread Cert.KernelIdeal.nD Cert.KernelIdeal.τ).loc Cert.KernelIdeal.main_arg52)) (m ((c.tc : Thread Cert.KernelIdeal.nD Cert.KernelIdeal.τ).loc Cert.KernelIdeal.main_arg53)) (m ((c.tc : Thread Cert.KernelIdeal.nD Cert.KernelIdeal.τ).loc Cert.KernelIdeal.main_arg54)) (m ((c.tc : Thread Cert.KernelIdeal.nD Cert.KernelIdeal.τ).loc Cert.KernelIdeal.main_arg55)) (m ((c.tc : Thread Cert.KernelIdeal.nD Cert.KernelIdeal.τ).loc Cert.KernelIdeal.main_arg56)) (m ((c.tc : Thread Cert.KernelIdeal.nD Cert.KernelIdeal.τ).loc Cert.KernelIdeal.main_arg57)) (m ((c.tc : Thread Cert.KernelIdeal.nD Cert.KernelIdeal.τ).loc Cert.KernelIdeal.main_arg58)) (m ((c.tc : Thread Cert.KernelIdeal.nD Cert.KernelIdeal.τ).loc Cert.KernelIdeal.main_arg59)) (m ((c.tc : Thread Cert.KernelIdeal.nD Cert.KernelIdeal.τ).loc Cert.KernelIdeal.main_arg60))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34)) (m ((c.tc : Thread Cert.ReferenceIdeal.nD Cert.ReferenceIdeal.τ).loc Cert.ReferenceIdeal.main_arg35)) (m ((c.tc : Thread Cert.ReferenceIdeal.nD Cert.ReferenceIdeal.τ).loc Cert.ReferenceIdeal.main_arg36)) (m ((c.tc : Thread Cert.ReferenceIdeal.nD Cert.ReferenceIdeal.τ).loc Cert.ReferenceIdeal.main_arg37)) (m ((c.tc : Thread Cert.ReferenceIdeal.nD Cert.ReferenceIdeal.τ).loc Cert.ReferenceIdeal.main_arg38)) (m ((c.tc : Thread Cert.ReferenceIdeal.nD Cert.ReferenceIdeal.τ).loc Cert.ReferenceIdeal.main_arg39)) (m ((c.tc : Thread Cert.ReferenceIdeal.nD Cert.ReferenceIdeal.τ).loc Cert.ReferenceIdeal.main_arg40)) (m ((c.tc : Thread Cert.ReferenceIdeal.nD Cert.ReferenceIdeal.τ).loc Cert.ReferenceIdeal.main_arg41)) (m ((c.tc : Thread Cert.ReferenceIdeal.nD Cert.ReferenceIdeal.τ).loc Cert.ReferenceIdeal.main_arg42)) (m ((c.tc : Thread Cert.ReferenceIdeal.nD Cert.ReferenceIdeal.τ).loc Cert.ReferenceIdeal.main_arg43)) (m ((c.tc : Thread Cert.ReferenceIdeal.nD Cert.ReferenceIdeal.τ).loc Cert.ReferenceIdeal.main_arg44)) (m ((c.tc : Thread Cert.ReferenceIdeal.nD Cert.ReferenceIdeal.τ).loc Cert.ReferenceIdeal.main_arg45)) (m ((c.tc : Thread Cert.ReferenceIdeal.nD Cert.ReferenceIdeal.τ).loc Cert.ReferenceIdeal.main_arg46)) (m ((c.tc : Thread Cert.ReferenceIdeal.nD Cert.ReferenceIdeal.τ).loc Cert.ReferenceIdeal.main_arg47)) (m ((c.tc : Thread Cert.ReferenceIdeal.nD Cert.ReferenceIdeal.τ).loc Cert.ReferenceIdeal.main_arg48)) (m ((c.tc : Thread Cert.ReferenceIdeal.nD Cert.ReferenceIdeal.τ).loc Cert.ReferenceIdeal.main_arg49)) (m ((c.tc : Thread Cert.ReferenceIdeal.nD Cert.ReferenceIdeal.τ).loc Cert.ReferenceIdeal.main_arg50)) (m ((c.tc : Thread Cert.ReferenceIdeal.nD Cert.ReferenceIdeal.τ).loc Cert.ReferenceIdeal.main_arg51)) (m ((c.tc : Thread Cert.ReferenceIdeal.nD Cert.ReferenceIdeal.τ).loc Cert.ReferenceIdeal.main_arg52)) (m ((c.tc : Thread Cert.ReferenceIdeal.nD Cert.ReferenceIdeal.τ).loc Cert.ReferenceIdeal.main_arg53)) (m ((c.tc : Thread Cert.ReferenceIdeal.nD Cert.ReferenceIdeal.τ).loc Cert.ReferenceIdeal.main_arg54)) (m ((c.tc : Thread Cert.ReferenceIdeal.nD Cert.ReferenceIdeal.τ).loc Cert.ReferenceIdeal.main_arg55)) (m ((c.tc : Thread Cert.ReferenceIdeal.nD Cert.ReferenceIdeal.τ).loc Cert.ReferenceIdeal.main_arg56)) (m ((c.tc : Thread Cert.ReferenceIdeal.nD Cert.ReferenceIdeal.τ).loc Cert.ReferenceIdeal.main_arg57)) (m ((c.tc : Thread Cert.ReferenceIdeal.nD Cert.ReferenceIdeal.τ).loc Cert.ReferenceIdeal.main_arg58)) (m ((c.tc : Thread Cert.ReferenceIdeal.nD Cert.ReferenceIdeal.τ).loc Cert.ReferenceIdeal.main_arg59)) (m ((c.tc : Thread Cert.ReferenceIdeal.nD Cert.ReferenceIdeal.τ).loc Cert.ReferenceIdeal.main_arg60))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34)
      ∧ r.2.mem ((c.tc : Thread Cert.Kernel.nD Cert.Kernel.τ).loc Cert.Kernel.main_arg35) = m ((c.tc : Thread Cert.Kernel.nD Cert.Kernel.τ).loc Cert.Kernel.main_arg35)
      ∧ r.2.mem ((c.tc : Thread Cert.Kernel.nD Cert.Kernel.τ).loc Cert.Kernel.main_arg36) = m ((c.tc : Thread Cert.Kernel.nD Cert.Kernel.τ).loc Cert.Kernel.main_arg36)
      ∧ r.2.mem ((c.tc : Thread Cert.Kernel.nD Cert.Kernel.τ).loc Cert.Kernel.main_arg37) = m ((c.tc : Thread Cert.Kernel.nD Cert.Kernel.τ).loc Cert.Kernel.main_arg37)
      ∧ r.2.mem ((c.tc : Thread Cert.Kernel.nD Cert.Kernel.τ).loc Cert.Kernel.main_arg38) = m ((c.tc : Thread Cert.Kernel.nD Cert.Kernel.τ).loc Cert.Kernel.main_arg38)
      ∧ r.2.mem ((c.tc : Thread Cert.Kernel.nD Cert.Kernel.τ).loc Cert.Kernel.main_arg39) = m ((c.tc : Thread Cert.Kernel.nD Cert.Kernel.τ).loc Cert.Kernel.main_arg39)
      ∧ r.2.mem ((c.tc : Thread Cert.Kernel.nD Cert.Kernel.τ).loc Cert.Kernel.main_arg40) = m ((c.tc : Thread Cert.Kernel.nD Cert.Kernel.τ).loc Cert.Kernel.main_arg40)
      ∧ r.2.mem ((c.tc : Thread Cert.Kernel.nD Cert.Kernel.τ).loc Cert.Kernel.main_arg41) = m ((c.tc : Thread Cert.Kernel.nD Cert.Kernel.τ).loc Cert.Kernel.main_arg41)
      ∧ r.2.mem ((c.tc : Thread Cert.Kernel.nD Cert.Kernel.τ).loc Cert.Kernel.main_arg42) = m ((c.tc : Thread Cert.Kernel.nD Cert.Kernel.τ).loc Cert.Kernel.main_arg42)
      ∧ r.2.mem ((c.tc : Thread Cert.Kernel.nD Cert.Kernel.τ).loc Cert.Kernel.main_arg43) = m ((c.tc : Thread Cert.Kernel.nD Cert.Kernel.τ).loc Cert.Kernel.main_arg43)
      ∧ r.2.mem ((c.tc : Thread Cert.Kernel.nD Cert.Kernel.τ).loc Cert.Kernel.main_arg44) = m ((c.tc : Thread Cert.Kernel.nD Cert.Kernel.τ).loc Cert.Kernel.main_arg44)
      ∧ r.2.mem ((c.tc : Thread Cert.Kernel.nD Cert.Kernel.τ).loc Cert.Kernel.main_arg45) = m ((c.tc : Thread Cert.Kernel.nD Cert.Kernel.τ).loc Cert.Kernel.main_arg45)
      ∧ r.2.mem ((c.tc : Thread Cert.Kernel.nD Cert.Kernel.τ).loc Cert.Kernel.main_arg46) = m ((c.tc : Thread Cert.Kernel.nD Cert.Kernel.τ).loc Cert.Kernel.main_arg46)
      ∧ r.2.mem ((c.tc : Thread Cert.Kernel.nD Cert.Kernel.τ).loc Cert.Kernel.main_arg47) = m ((c.tc : Thread Cert.Kernel.nD Cert.Kernel.τ).loc Cert.Kernel.main_arg47)
      ∧ r.2.mem ((c.tc : Thread Cert.Kernel.nD Cert.Kernel.τ).loc Cert.Kernel.main_arg48) = m ((c.tc : Thread Cert.Kernel.nD Cert.Kernel.τ).loc Cert.Kernel.main_arg48)
      ∧ r.2.mem ((c.tc : Thread Cert.Kernel.nD Cert.Kernel.τ).loc Cert.Kernel.main_arg49) = m ((c.tc : Thread Cert.Kernel.nD Cert.Kernel.τ).loc Cert.Kernel.main_arg49)
      ∧ r.2.mem ((c.tc : Thread Cert.Kernel.nD Cert.Kernel.τ).loc Cert.Kernel.main_arg50) = m ((c.tc : Thread Cert.Kernel.nD Cert.Kernel.τ).loc Cert.Kernel.main_arg50)
      ∧ r.2.mem ((c.tc : Thread Cert.Kernel.nD Cert.Kernel.τ).loc Cert.Kernel.main_arg51) = m ((c.tc : Thread Cert.Kernel.nD Cert.Kernel.τ).loc Cert.Kernel.main_arg51)
      ∧ r.2.mem ((c.tc : Thread Cert.Kernel.nD Cert.Kernel.τ).loc Cert.Kernel.main_arg52) = m ((c.tc : Thread Cert.Kernel.nD Cert.Kernel.τ).loc Cert.Kernel.main_arg52)
      ∧ r.2.mem ((c.tc : Thread Cert.Kernel.nD Cert.Kernel.τ).loc Cert.Kernel.main_arg53) = m ((c.tc : Thread Cert.Kernel.nD Cert.Kernel.τ).loc Cert.Kernel.main_arg53)
      ∧ r.2.mem ((c.tc : Thread Cert.Kernel.nD Cert.Kernel.τ).loc Cert.Kernel.main_arg54) = m ((c.tc : Thread Cert.Kernel.nD Cert.Kernel.τ).loc Cert.Kernel.main_arg54)
      ∧ r.2.mem ((c.tc : Thread Cert.Kernel.nD Cert.Kernel.τ).loc Cert.Kernel.main_arg55) = m ((c.tc : Thread Cert.Kernel.nD Cert.Kernel.τ).loc Cert.Kernel.main_arg55)
      ∧ r.2.mem ((c.tc : Thread Cert.Kernel.nD Cert.Kernel.τ).loc Cert.Kernel.main_arg56) = m ((c.tc : Thread Cert.Kernel.nD Cert.Kernel.τ).loc Cert.Kernel.main_arg56)
      ∧ r.2.mem ((c.tc : Thread Cert.Kernel.nD Cert.Kernel.τ).loc Cert.Kernel.main_arg57) = m ((c.tc : Thread Cert.Kernel.nD Cert.Kernel.τ).loc Cert.Kernel.main_arg57)
      ∧ r.2.mem ((c.tc : Thread Cert.Kernel.nD Cert.Kernel.τ).loc Cert.Kernel.main_arg58) = m ((c.tc : Thread Cert.Kernel.nD Cert.Kernel.τ).loc Cert.Kernel.main_arg58)
      ∧ r.2.mem ((c.tc : Thread Cert.Kernel.nD Cert.Kernel.τ).loc Cert.Kernel.main_arg59) = m ((c.tc : Thread Cert.Kernel.nD Cert.Kernel.τ).loc Cert.Kernel.main_arg59)
      ∧ r.2.mem ((c.tc : Thread Cert.Kernel.nD Cert.Kernel.τ).loc Cert.Kernel.main_arg60) = m ((c.tc : Thread Cert.Kernel.nD Cert.Kernel.τ).loc Cert.Kernel.main_arg60))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
      ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
      ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
      ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
      ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38)
      ∧ r.2.mem ((c.tc : Thread Cert.KernelIdeal.nD Cert.KernelIdeal.τ).loc Cert.KernelIdeal.main_arg39) = m ((c.tc : Thread Cert.KernelIdeal.nD Cert.KernelIdeal.τ).loc Cert.KernelIdeal.main_arg39)
      ∧ r.2.mem ((c.tc : Thread Cert.KernelIdeal.nD Cert.KernelIdeal.τ).loc Cert.KernelIdeal.main_arg40) = m ((c.tc : Thread Cert.KernelIdeal.nD Cert.KernelIdeal.τ).loc Cert.KernelIdeal.main_arg40)
      ∧ r.2.mem ((c.tc : Thread Cert.KernelIdeal.nD Cert.KernelIdeal.τ).loc Cert.KernelIdeal.main_arg41) = m ((c.tc : Thread Cert.KernelIdeal.nD Cert.KernelIdeal.τ).loc Cert.KernelIdeal.main_arg41)
      ∧ r.2.mem ((c.tc : Thread Cert.KernelIdeal.nD Cert.KernelIdeal.τ).loc Cert.KernelIdeal.main_arg42) = m ((c.tc : Thread Cert.KernelIdeal.nD Cert.KernelIdeal.τ).loc Cert.KernelIdeal.main_arg42)
      ∧ r.2.mem ((c.tc : Thread Cert.KernelIdeal.nD Cert.KernelIdeal.τ).loc Cert.KernelIdeal.main_arg43) = m ((c.tc : Thread Cert.KernelIdeal.nD Cert.KernelIdeal.τ).loc Cert.KernelIdeal.main_arg43)
      ∧ r.2.mem ((c.tc : Thread Cert.KernelIdeal.nD Cert.KernelIdeal.τ).loc Cert.KernelIdeal.main_arg44) = m ((c.tc : Thread Cert.KernelIdeal.nD Cert.KernelIdeal.τ).loc Cert.KernelIdeal.main_arg44)
      ∧ r.2.mem ((c.tc : Thread Cert.KernelIdeal.nD Cert.KernelIdeal.τ).loc Cert.KernelIdeal.main_arg45) = m ((c.tc : Thread Cert.KernelIdeal.nD Cert.KernelIdeal.τ).loc Cert.KernelIdeal.main_arg45)
      ∧ r.2.mem ((c.tc : Thread Cert.KernelIdeal.nD Cert.KernelIdeal.τ).loc Cert.KernelIdeal.main_arg46) = m ((c.tc : Thread Cert.KernelIdeal.nD Cert.KernelIdeal.τ).loc Cert.KernelIdeal.main_arg46)
      ∧ r.2.mem ((c.tc : Thread Cert.KernelIdeal.nD Cert.KernelIdeal.τ).loc Cert.KernelIdeal.main_arg47) = m ((c.tc : Thread Cert.KernelIdeal.nD Cert.KernelIdeal.τ).loc Cert.KernelIdeal.main_arg47)
      ∧ r.2.mem ((c.tc : Thread Cert.KernelIdeal.nD Cert.KernelIdeal.τ).loc Cert.KernelIdeal.main_arg48) = m ((c.tc : Thread Cert.KernelIdeal.nD Cert.KernelIdeal.τ).loc Cert.KernelIdeal.main_arg48)
      ∧ r.2.mem ((c.tc : Thread Cert.KernelIdeal.nD Cert.KernelIdeal.τ).loc Cert.KernelIdeal.main_arg49) = m ((c.tc : Thread Cert.KernelIdeal.nD Cert.KernelIdeal.τ).loc Cert.KernelIdeal.main_arg49)
      ∧ r.2.mem ((c.tc : Thread Cert.KernelIdeal.nD Cert.KernelIdeal.τ).loc Cert.KernelIdeal.main_arg50) = m ((c.tc : Thread Cert.KernelIdeal.nD Cert.KernelIdeal.τ).loc Cert.KernelIdeal.main_arg50)
      ∧ r.2.mem ((c.tc : Thread Cert.KernelIdeal.nD Cert.KernelIdeal.τ).loc Cert.KernelIdeal.main_arg51) = m ((c.tc : Thread Cert.KernelIdeal.nD Cert.KernelIdeal.τ).loc Cert.KernelIdeal.main_arg51)
      ∧ r.2.mem ((c.tc : Thread Cert.KernelIdeal.nD Cert.KernelIdeal.τ).loc Cert.KernelIdeal.main_arg52) = m ((c.tc : Thread Cert.KernelIdeal.nD Cert.KernelIdeal.τ).loc Cert.KernelIdeal.main_arg52)
      ∧ r.2.mem ((c.tc : Thread Cert.KernelIdeal.nD Cert.KernelIdeal.τ).loc Cert.KernelIdeal.main_arg53) = m ((c.tc : Thread Cert.KernelIdeal.nD Cert.KernelIdeal.τ).loc Cert.KernelIdeal.main_arg53)
      ∧ r.2.mem ((c.tc : Thread Cert.KernelIdeal.nD Cert.KernelIdeal.τ).loc Cert.KernelIdeal.main_arg54) = m ((c.tc : Thread Cert.KernelIdeal.nD Cert.KernelIdeal.τ).loc Cert.KernelIdeal.main_arg54)
      ∧ r.2.mem ((c.tc : Thread Cert.KernelIdeal.nD Cert.KernelIdeal.τ).loc Cert.KernelIdeal.main_arg55) = m ((c.tc : Thread Cert.KernelIdeal.nD Cert.KernelIdeal.τ).loc Cert.KernelIdeal.main_arg55)
      ∧ r.2.mem ((c.tc : Thread Cert.KernelIdeal.nD Cert.KernelIdeal.τ).loc Cert.KernelIdeal.main_arg56) = m ((c.tc : Thread Cert.KernelIdeal.nD Cert.KernelIdeal.τ).loc Cert.KernelIdeal.main_arg56)
      ∧ r.2.mem ((c.tc : Thread Cert.KernelIdeal.nD Cert.KernelIdeal.τ).loc Cert.KernelIdeal.main_arg57) = m ((c.tc : Thread Cert.KernelIdeal.nD Cert.KernelIdeal.τ).loc Cert.KernelIdeal.main_arg57)
      ∧ r.2.mem ((c.tc : Thread Cert.KernelIdeal.nD Cert.KernelIdeal.τ).loc Cert.KernelIdeal.main_arg58) = m ((c.tc : Thread Cert.KernelIdeal.nD Cert.KernelIdeal.τ).loc Cert.KernelIdeal.main_arg58)
      ∧ r.2.mem ((c.tc : Thread Cert.KernelIdeal.nD Cert.KernelIdeal.τ).loc Cert.KernelIdeal.main_arg59) = m ((c.tc : Thread Cert.KernelIdeal.nD Cert.KernelIdeal.τ).loc Cert.KernelIdeal.main_arg59)
      ∧ r.2.mem ((c.tc : Thread Cert.KernelIdeal.nD Cert.KernelIdeal.τ).loc Cert.KernelIdeal.main_arg60) = m ((c.tc : Thread Cert.KernelIdeal.nD Cert.KernelIdeal.τ).loc Cert.KernelIdeal.main_arg60))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34)
      ∧ r.2.mem ((c.tc : Thread Cert.ReferenceIdeal.nD Cert.ReferenceIdeal.τ).loc Cert.ReferenceIdeal.main_arg35) = m ((c.tc : Thread Cert.ReferenceIdeal.nD Cert.ReferenceIdeal.τ).loc Cert.ReferenceIdeal.main_arg35)
      ∧ r.2.mem ((c.tc : Thread Cert.ReferenceIdeal.nD Cert.ReferenceIdeal.τ).loc Cert.ReferenceIdeal.main_arg36) = m ((c.tc : Thread Cert.ReferenceIdeal.nD Cert.ReferenceIdeal.τ).loc Cert.ReferenceIdeal.main_arg36)
      ∧ r.2.mem ((c.tc : Thread Cert.ReferenceIdeal.nD Cert.ReferenceIdeal.τ).loc Cert.ReferenceIdeal.main_arg37) = m ((c.tc : Thread Cert.ReferenceIdeal.nD Cert.ReferenceIdeal.τ).loc Cert.ReferenceIdeal.main_arg37)
      ∧ r.2.mem ((c.tc : Thread Cert.ReferenceIdeal.nD Cert.ReferenceIdeal.τ).loc Cert.ReferenceIdeal.main_arg38) = m ((c.tc : Thread Cert.ReferenceIdeal.nD Cert.ReferenceIdeal.τ).loc Cert.ReferenceIdeal.main_arg38)
      ∧ r.2.mem ((c.tc : Thread Cert.ReferenceIdeal.nD Cert.ReferenceIdeal.τ).loc Cert.ReferenceIdeal.main_arg39) = m ((c.tc : Thread Cert.ReferenceIdeal.nD Cert.ReferenceIdeal.τ).loc Cert.ReferenceIdeal.main_arg39)
      ∧ r.2.mem ((c.tc : Thread Cert.ReferenceIdeal.nD Cert.ReferenceIdeal.τ).loc Cert.ReferenceIdeal.main_arg40) = m ((c.tc : Thread Cert.ReferenceIdeal.nD Cert.ReferenceIdeal.τ).loc Cert.ReferenceIdeal.main_arg40)
      ∧ r.2.mem ((c.tc : Thread Cert.ReferenceIdeal.nD Cert.ReferenceIdeal.τ).loc Cert.ReferenceIdeal.main_arg41) = m ((c.tc : Thread Cert.ReferenceIdeal.nD Cert.ReferenceIdeal.τ).loc Cert.ReferenceIdeal.main_arg41)
      ∧ r.2.mem ((c.tc : Thread Cert.ReferenceIdeal.nD Cert.ReferenceIdeal.τ).loc Cert.ReferenceIdeal.main_arg42) = m ((c.tc : Thread Cert.ReferenceIdeal.nD Cert.ReferenceIdeal.τ).loc Cert.ReferenceIdeal.main_arg42)
      ∧ r.2.mem ((c.tc : Thread Cert.ReferenceIdeal.nD Cert.ReferenceIdeal.τ).loc Cert.ReferenceIdeal.main_arg43) = m ((c.tc : Thread Cert.ReferenceIdeal.nD Cert.ReferenceIdeal.τ).loc Cert.ReferenceIdeal.main_arg43)
      ∧ r.2.mem ((c.tc : Thread Cert.ReferenceIdeal.nD Cert.ReferenceIdeal.τ).loc Cert.ReferenceIdeal.main_arg44) = m ((c.tc : Thread Cert.ReferenceIdeal.nD Cert.ReferenceIdeal.τ).loc Cert.ReferenceIdeal.main_arg44)
      ∧ r.2.mem ((c.tc : Thread Cert.ReferenceIdeal.nD Cert.ReferenceIdeal.τ).loc Cert.ReferenceIdeal.main_arg45) = m ((c.tc : Thread Cert.ReferenceIdeal.nD Cert.ReferenceIdeal.τ).loc Cert.ReferenceIdeal.main_arg45)
      ∧ r.2.mem ((c.tc : Thread Cert.ReferenceIdeal.nD Cert.ReferenceIdeal.τ).loc Cert.ReferenceIdeal.main_arg46) = m ((c.tc : Thread Cert.ReferenceIdeal.nD Cert.ReferenceIdeal.τ).loc Cert.ReferenceIdeal.main_arg46)
      ∧ r.2.mem ((c.tc : Thread Cert.ReferenceIdeal.nD Cert.ReferenceIdeal.τ).loc Cert.ReferenceIdeal.main_arg47) = m ((c.tc : Thread Cert.ReferenceIdeal.nD Cert.ReferenceIdeal.τ).loc Cert.ReferenceIdeal.main_arg47)
      ∧ r.2.mem ((c.tc : Thread Cert.ReferenceIdeal.nD Cert.ReferenceIdeal.τ).loc Cert.ReferenceIdeal.main_arg48) = m ((c.tc : Thread Cert.ReferenceIdeal.nD Cert.ReferenceIdeal.τ).loc Cert.ReferenceIdeal.main_arg48)
      ∧ r.2.mem ((c.tc : Thread Cert.ReferenceIdeal.nD Cert.ReferenceIdeal.τ).loc Cert.ReferenceIdeal.main_arg49) = m ((c.tc : Thread Cert.ReferenceIdeal.nD Cert.ReferenceIdeal.τ).loc Cert.ReferenceIdeal.main_arg49)
      ∧ r.2.mem ((c.tc : Thread Cert.ReferenceIdeal.nD Cert.ReferenceIdeal.τ).loc Cert.ReferenceIdeal.main_arg50) = m ((c.tc : Thread Cert.ReferenceIdeal.nD Cert.ReferenceIdeal.τ).loc Cert.ReferenceIdeal.main_arg50)
      ∧ r.2.mem ((c.tc : Thread Cert.ReferenceIdeal.nD Cert.ReferenceIdeal.τ).loc Cert.ReferenceIdeal.main_arg51) = m ((c.tc : Thread Cert.ReferenceIdeal.nD Cert.ReferenceIdeal.τ).loc Cert.ReferenceIdeal.main_arg51)
      ∧ r.2.mem ((c.tc : Thread Cert.ReferenceIdeal.nD Cert.ReferenceIdeal.τ).loc Cert.ReferenceIdeal.main_arg52) = m ((c.tc : Thread Cert.ReferenceIdeal.nD Cert.ReferenceIdeal.τ).loc Cert.ReferenceIdeal.main_arg52)
      ∧ r.2.mem ((c.tc : Thread Cert.ReferenceIdeal.nD Cert.ReferenceIdeal.τ).loc Cert.ReferenceIdeal.main_arg53) = m ((c.tc : Thread Cert.ReferenceIdeal.nD Cert.ReferenceIdeal.τ).loc Cert.ReferenceIdeal.main_arg53)
      ∧ r.2.mem ((c.tc : Thread Cert.ReferenceIdeal.nD Cert.ReferenceIdeal.τ).loc Cert.ReferenceIdeal.main_arg54) = m ((c.tc : Thread Cert.ReferenceIdeal.nD Cert.ReferenceIdeal.τ).loc Cert.ReferenceIdeal.main_arg54)
      ∧ r.2.mem ((c.tc : Thread Cert.ReferenceIdeal.nD Cert.ReferenceIdeal.τ).loc Cert.ReferenceIdeal.main_arg55) = m ((c.tc : Thread Cert.ReferenceIdeal.nD Cert.ReferenceIdeal.τ).loc Cert.ReferenceIdeal.main_arg55)
      ∧ r.2.mem ((c.tc : Thread Cert.ReferenceIdeal.nD Cert.ReferenceIdeal.τ).loc Cert.ReferenceIdeal.main_arg56) = m ((c.tc : Thread Cert.ReferenceIdeal.nD Cert.ReferenceIdeal.τ).loc Cert.ReferenceIdeal.main_arg56)
      ∧ r.2.mem ((c.tc : Thread Cert.ReferenceIdeal.nD Cert.ReferenceIdeal.τ).loc Cert.ReferenceIdeal.main_arg57) = m ((c.tc : Thread Cert.ReferenceIdeal.nD Cert.ReferenceIdeal.τ).loc Cert.ReferenceIdeal.main_arg57)
      ∧ r.2.mem ((c.tc : Thread Cert.ReferenceIdeal.nD Cert.ReferenceIdeal.τ).loc Cert.ReferenceIdeal.main_arg58) = m ((c.tc : Thread Cert.ReferenceIdeal.nD Cert.ReferenceIdeal.τ).loc Cert.ReferenceIdeal.main_arg58)
      ∧ r.2.mem ((c.tc : Thread Cert.ReferenceIdeal.nD Cert.ReferenceIdeal.τ).loc Cert.ReferenceIdeal.main_arg59) = m ((c.tc : Thread Cert.ReferenceIdeal.nD Cert.ReferenceIdeal.τ).loc Cert.ReferenceIdeal.main_arg59)
      ∧ r.2.mem ((c.tc : Thread Cert.ReferenceIdeal.nD Cert.ReferenceIdeal.τ).loc Cert.ReferenceIdeal.main_arg60) = m ((c.tc : Thread Cert.ReferenceIdeal.nD Cert.ReferenceIdeal.τ).loc Cert.ReferenceIdeal.main_arg60))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)
      ∧ m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36)
      ∧ m' ((c.tc : Thread Cert.ReferenceIdeal.nD Cert.ReferenceIdeal.τ).loc Cert.ReferenceIdeal.main_arg37) = m ((c.tc : Thread Cert.KernelIdeal.nD Cert.KernelIdeal.τ).loc Cert.KernelIdeal.main_arg37)
      ∧ m' ((c.tc : Thread Cert.ReferenceIdeal.nD Cert.ReferenceIdeal.τ).loc Cert.ReferenceIdeal.main_arg38) = m ((c.tc : Thread Cert.KernelIdeal.nD Cert.KernelIdeal.τ).loc Cert.KernelIdeal.main_arg38)
      ∧ m' ((c.tc : Thread Cert.ReferenceIdeal.nD Cert.ReferenceIdeal.τ).loc Cert.ReferenceIdeal.main_arg39) = m ((c.tc : Thread Cert.KernelIdeal.nD Cert.KernelIdeal.τ).loc Cert.KernelIdeal.main_arg39)
      ∧ m' ((c.tc : Thread Cert.ReferenceIdeal.nD Cert.ReferenceIdeal.τ).loc Cert.ReferenceIdeal.main_arg40) = m ((c.tc : Thread Cert.KernelIdeal.nD Cert.KernelIdeal.τ).loc Cert.KernelIdeal.main_arg40)
      ∧ m' ((c.tc : Thread Cert.ReferenceIdeal.nD Cert.ReferenceIdeal.τ).loc Cert.ReferenceIdeal.main_arg41) = m ((c.tc : Thread Cert.KernelIdeal.nD Cert.KernelIdeal.τ).loc Cert.KernelIdeal.main_arg41)
      ∧ m' ((c.tc : Thread Cert.ReferenceIdeal.nD Cert.ReferenceIdeal.τ).loc Cert.ReferenceIdeal.main_arg42) = m ((c.tc : Thread Cert.KernelIdeal.nD Cert.KernelIdeal.τ).loc Cert.KernelIdeal.main_arg42)
      ∧ m' ((c.tc : Thread Cert.ReferenceIdeal.nD Cert.ReferenceIdeal.τ).loc Cert.ReferenceIdeal.main_arg43) = m ((c.tc : Thread Cert.KernelIdeal.nD Cert.KernelIdeal.τ).loc Cert.KernelIdeal.main_arg43)
      ∧ m' ((c.tc : Thread Cert.ReferenceIdeal.nD Cert.ReferenceIdeal.τ).loc Cert.ReferenceIdeal.main_arg44) = m ((c.tc : Thread Cert.KernelIdeal.nD Cert.KernelIdeal.τ).loc Cert.KernelIdeal.main_arg44)
      ∧ m' ((c.tc : Thread Cert.ReferenceIdeal.nD Cert.ReferenceIdeal.τ).loc Cert.ReferenceIdeal.main_arg45) = m ((c.tc : Thread Cert.KernelIdeal.nD Cert.KernelIdeal.τ).loc Cert.KernelIdeal.main_arg45)
      ∧ m' ((c.tc : Thread Cert.ReferenceIdeal.nD Cert.ReferenceIdeal.τ).loc Cert.ReferenceIdeal.main_arg46) = m ((c.tc : Thread Cert.KernelIdeal.nD Cert.KernelIdeal.τ).loc Cert.KernelIdeal.main_arg46)
      ∧ m' ((c.tc : Thread Cert.ReferenceIdeal.nD Cert.ReferenceIdeal.τ).loc Cert.ReferenceIdeal.main_arg47) = m ((c.tc : Thread Cert.KernelIdeal.nD Cert.KernelIdeal.τ).loc Cert.KernelIdeal.main_arg47)
      ∧ m' ((c.tc : Thread Cert.ReferenceIdeal.nD Cert.ReferenceIdeal.τ).loc Cert.ReferenceIdeal.main_arg48) = m ((c.tc : Thread Cert.KernelIdeal.nD Cert.KernelIdeal.τ).loc Cert.KernelIdeal.main_arg48)
      ∧ m' ((c.tc : Thread Cert.ReferenceIdeal.nD Cert.ReferenceIdeal.τ).loc Cert.ReferenceIdeal.main_arg49) = m ((c.tc : Thread Cert.KernelIdeal.nD Cert.KernelIdeal.τ).loc Cert.KernelIdeal.main_arg49)
      ∧ m' ((c.tc : Thread Cert.ReferenceIdeal.nD Cert.ReferenceIdeal.τ).loc Cert.ReferenceIdeal.main_arg50) = m ((c.tc : Thread Cert.KernelIdeal.nD Cert.KernelIdeal.τ).loc Cert.KernelIdeal.main_arg50)
      ∧ m' ((c.tc : Thread Cert.ReferenceIdeal.nD Cert.ReferenceIdeal.τ).loc Cert.ReferenceIdeal.main_arg51) = m ((c.tc : Thread Cert.KernelIdeal.nD Cert.KernelIdeal.τ).loc Cert.KernelIdeal.main_arg51)
      ∧ m' ((c.tc : Thread Cert.ReferenceIdeal.nD Cert.ReferenceIdeal.τ).loc Cert.ReferenceIdeal.main_arg52) = m ((c.tc : Thread Cert.KernelIdeal.nD Cert.KernelIdeal.τ).loc Cert.KernelIdeal.main_arg52)
      ∧ m' ((c.tc : Thread Cert.ReferenceIdeal.nD Cert.ReferenceIdeal.τ).loc Cert.ReferenceIdeal.main_arg53) = m ((c.tc : Thread Cert.KernelIdeal.nD Cert.KernelIdeal.τ).loc Cert.KernelIdeal.main_arg53)
      ∧ m' ((c.tc : Thread Cert.ReferenceIdeal.nD Cert.ReferenceIdeal.τ).loc Cert.ReferenceIdeal.main_arg54) = m ((c.tc : Thread Cert.KernelIdeal.nD Cert.KernelIdeal.τ).loc Cert.KernelIdeal.main_arg54)
      ∧ m' ((c.tc : Thread Cert.ReferenceIdeal.nD Cert.ReferenceIdeal.τ).loc Cert.ReferenceIdeal.main_arg55) = m ((c.tc : Thread Cert.KernelIdeal.nD Cert.KernelIdeal.τ).loc Cert.KernelIdeal.main_arg55)
      ∧ m' ((c.tc : Thread Cert.ReferenceIdeal.nD Cert.ReferenceIdeal.τ).loc Cert.ReferenceIdeal.main_arg56) = m ((c.tc : Thread Cert.KernelIdeal.nD Cert.KernelIdeal.τ).loc Cert.KernelIdeal.main_arg56)
      ∧ m' ((c.tc : Thread Cert.ReferenceIdeal.nD Cert.ReferenceIdeal.τ).loc Cert.ReferenceIdeal.main_arg57) = m ((c.tc : Thread Cert.KernelIdeal.nD Cert.KernelIdeal.τ).loc Cert.KernelIdeal.main_arg57)
      ∧ m' ((c.tc : Thread Cert.ReferenceIdeal.nD Cert.ReferenceIdeal.τ).loc Cert.ReferenceIdeal.main_arg58) = m ((c.tc : Thread Cert.KernelIdeal.nD Cert.KernelIdeal.τ).loc Cert.KernelIdeal.main_arg58)
      ∧ m' ((c.tc : Thread Cert.ReferenceIdeal.nD Cert.ReferenceIdeal.τ).loc Cert.ReferenceIdeal.main_arg59) = m ((c.tc : Thread Cert.KernelIdeal.nD Cert.KernelIdeal.τ).loc Cert.KernelIdeal.main_arg59)
      ∧ m' ((c.tc : Thread Cert.ReferenceIdeal.nD Cert.ReferenceIdeal.τ).loc Cert.ReferenceIdeal.main_arg60) = m ((c.tc : Thread Cert.KernelIdeal.nD Cert.KernelIdeal.τ).loc Cert.KernelIdeal.main_arg60)) →
    ∃ (v0 : (c : Dev Cert.KernelIdeal.nD) → Buf (Elt Ideal) ((c.tc : Thread Cert.KernelIdeal.nD Cert.KernelIdeal.τ).loc Cert.KernelIdeal.main_arg4)) (v1 : (c : Dev Cert.KernelIdeal.nD) → Buf (Elt Ideal) ((c.tc : Thread Cert.KernelIdeal.nD Cert.KernelIdeal.τ).loc Cert.KernelIdeal.main_arg3)) (v2 : (c : Dev Cert.KernelIdeal.nD) → Buf (Elt Ideal) ((c.tc : Thread Cert.KernelIdeal.nD Cert.KernelIdeal.τ).loc Cert.KernelIdeal.main_v96_0)) (v3 : (c : Dev Cert.KernelIdeal.nD) → Buf (Elt Ideal) ((c.tc : Thread Cert.KernelIdeal.nD Cert.KernelIdeal.τ).loc Cert.KernelIdeal.main_v107)) (v4 : (c : Dev Cert.KernelIdeal.nD) → Buf (Elt Ideal) ((c.tc : Thread Cert.KernelIdeal.nD Cert.KernelIdeal.τ).loc Cert.KernelIdeal.main_v103_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg4) = v0 c
          ∧ r.2.mem ((c.tc : Thread Cert.KernelIdeal.nD Cert.KernelIdeal.τ).loc Cert.KernelIdeal.main_arg3) = v1 c
          ∧ r.2.mem ((c.tc : Thread Cert.KernelIdeal.nD Cert.KernelIdeal.τ).loc Cert.KernelIdeal.main_v96_0) = v2 c
          ∧ r.2.mem ((c.tc : Thread Cert.KernelIdeal.nD Cert.KernelIdeal.τ).loc Cert.KernelIdeal.main_v107) = v3 c
          ∧ r.2.mem ((c.tc : Thread Cert.KernelIdeal.nD Cert.KernelIdeal.τ).loc Cert.KernelIdeal.main_v103_0) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
          ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
          ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
          ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
          ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38)
          ∧ r.2.mem ((c.tc : Thread Cert.KernelIdeal.nD Cert.KernelIdeal.τ).loc Cert.KernelIdeal.main_arg39) = m ((c.tc : Thread Cert.KernelIdeal.nD Cert.KernelIdeal.τ).loc Cert.KernelIdeal.main_arg39)
          ∧ r.2.mem ((c.tc : Thread Cert.KernelIdeal.nD Cert.KernelIdeal.τ).loc Cert.KernelIdeal.main_arg40) = m ((c.tc : Thread Cert.KernelIdeal.nD Cert.KernelIdeal.τ).loc Cert.KernelIdeal.main_arg40)
          ∧ r.2.mem ((c.tc : Thread Cert.KernelIdeal.nD Cert.KernelIdeal.τ).loc Cert.KernelIdeal.main_arg41) = m ((c.tc : Thread Cert.KernelIdeal.nD Cert.KernelIdeal.τ).loc Cert.KernelIdeal.main_arg41)
          ∧ r.2.mem ((c.tc : Thread Cert.KernelIdeal.nD Cert.KernelIdeal.τ).loc Cert.KernelIdeal.main_arg42) = m ((c.tc : Thread Cert.KernelIdeal.nD Cert.KernelIdeal.τ).loc Cert.KernelIdeal.main_arg42)
          ∧ r.2.mem ((c.tc : Thread Cert.KernelIdeal.nD Cert.KernelIdeal.τ).loc Cert.KernelIdeal.main_arg43) = m ((c.tc : Thread Cert.KernelIdeal.nD Cert.KernelIdeal.τ).loc Cert.KernelIdeal.main_arg43)
          ∧ r.2.mem ((c.tc : Thread Cert.KernelIdeal.nD Cert.KernelIdeal.τ).loc Cert.KernelIdeal.main_arg44) = m ((c.tc : Thread Cert.KernelIdeal.nD Cert.KernelIdeal.τ).loc Cert.KernelIdeal.main_arg44)
          ∧ r.2.mem ((c.tc : Thread Cert.KernelIdeal.nD Cert.KernelIdeal.τ).loc Cert.KernelIdeal.main_arg45) = m ((c.tc : Thread Cert.KernelIdeal.nD Cert.KernelIdeal.τ).loc Cert.KernelIdeal.main_arg45)
          ∧ r.2.mem ((c.tc : Thread Cert.KernelIdeal.nD Cert.KernelIdeal.τ).loc Cert.KernelIdeal.main_arg46) = m ((c.tc : Thread Cert.KernelIdeal.nD Cert.KernelIdeal.τ).loc Cert.KernelIdeal.main_arg46)
          ∧ r.2.mem ((c.tc : Thread Cert.KernelIdeal.nD Cert.KernelIdeal.τ).loc Cert.KernelIdeal.main_arg47) = m ((c.tc : Thread Cert.KernelIdeal.nD Cert.KernelIdeal.τ).loc Cert.KernelIdeal.main_arg47)
          ∧ r.2.mem ((c.tc : Thread Cert.KernelIdeal.nD Cert.KernelIdeal.τ).loc Cert.KernelIdeal.main_arg48) = m ((c.tc : Thread Cert.KernelIdeal.nD Cert.KernelIdeal.τ).loc Cert.KernelIdeal.main_arg48)
          ∧ r.2.mem ((c.tc : Thread Cert.KernelIdeal.nD Cert.KernelIdeal.τ).loc Cert.KernelIdeal.main_arg49) = m ((c.tc : Thread Cert.KernelIdeal.nD Cert.KernelIdeal.τ).loc Cert.KernelIdeal.main_arg49)
          ∧ r.2.mem ((c.tc : Thread Cert.KernelIdeal.nD Cert.KernelIdeal.τ).loc Cert.KernelIdeal.main_arg50) = m ((c.tc : Thread Cert.KernelIdeal.nD Cert.KernelIdeal.τ).loc Cert.KernelIdeal.main_arg50)
          ∧ r.2.mem ((c.tc : Thread Cert.KernelIdeal.nD Cert.KernelIdeal.τ).loc Cert.KernelIdeal.main_arg51) = m ((c.tc : Thread Cert.KernelIdeal.nD Cert.KernelIdeal.τ).loc Cert.KernelIdeal.main_arg51)
          ∧ r.2.mem ((c.tc : Thread Cert.KernelIdeal.nD Cert.KernelIdeal.τ).loc Cert.KernelIdeal.main_arg52) = m ((c.tc : Thread Cert.KernelIdeal.nD Cert.KernelIdeal.τ).loc Cert.KernelIdeal.main_arg52)
          ∧ r.2.mem ((c.tc : Thread Cert.KernelIdeal.nD Cert.KernelIdeal.τ).loc Cert.KernelIdeal.main_arg53) = m ((c.tc : Thread Cert.KernelIdeal.nD Cert.KernelIdeal.τ).loc Cert.KernelIdeal.main_arg53)
          ∧ r.2.mem ((c.tc : Thread Cert.KernelIdeal.nD Cert.KernelIdeal.τ).loc Cert.KernelIdeal.main_arg54) = m ((c.tc : Thread Cert.KernelIdeal.nD Cert.KernelIdeal.τ).loc Cert.KernelIdeal.main_arg54)
          ∧ r.2.mem ((c.tc : Thread Cert.KernelIdeal.nD Cert.KernelIdeal.τ).loc Cert.KernelIdeal.main_arg55) = m ((c.tc : Thread Cert.KernelIdeal.nD Cert.KernelIdeal.τ).loc Cert.KernelIdeal.main_arg55)
          ∧ r.2.mem ((c.tc : Thread Cert.KernelIdeal.nD Cert.KernelIdeal.τ).loc Cert.KernelIdeal.main_arg56) = m ((c.tc : Thread Cert.KernelIdeal.nD Cert.KernelIdeal.τ).loc Cert.KernelIdeal.main_arg56)
          ∧ r.2.mem ((c.tc : Thread Cert.KernelIdeal.nD Cert.KernelIdeal.τ).loc Cert.KernelIdeal.main_arg57) = m ((c.tc : Thread Cert.KernelIdeal.nD Cert.KernelIdeal.τ).loc Cert.KernelIdeal.main_arg57)
          ∧ r.2.mem ((c.tc : Thread Cert.KernelIdeal.nD Cert.KernelIdeal.τ).loc Cert.KernelIdeal.main_arg58) = m ((c.tc : Thread Cert.KernelIdeal.nD Cert.KernelIdeal.τ).loc Cert.KernelIdeal.main_arg58)
          ∧ r.2.mem ((c.tc : Thread Cert.KernelIdeal.nD Cert.KernelIdeal.τ).loc Cert.KernelIdeal.main_arg59) = m ((c.tc : Thread Cert.KernelIdeal.nD Cert.KernelIdeal.τ).loc Cert.KernelIdeal.main_arg59)
          ∧ r.2.mem ((c.tc : Thread Cert.KernelIdeal.nD Cert.KernelIdeal.τ).loc Cert.KernelIdeal.main_arg60) = m ((c.tc : Thread Cert.KernelIdeal.nD Cert.KernelIdeal.τ).loc Cert.KernelIdeal.main_arg60))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg4) = v0 c
          ∧ r.2.mem ((c.tc : Thread Cert.ReferenceIdeal.nD Cert.ReferenceIdeal.τ).loc Cert.ReferenceIdeal.main_arg3) = v1 c
          ∧ r.2.mem ((c.tc : Thread Cert.ReferenceIdeal.nD Cert.ReferenceIdeal.τ).loc Cert.ReferenceIdeal.main_v40_0) = v2 c
          ∧ r.2.mem ((c.tc : Thread Cert.ReferenceIdeal.nD Cert.ReferenceIdeal.τ).loc Cert.ReferenceIdeal.main_v63) = v3 c
          ∧ r.2.mem ((c.tc : Thread Cert.ReferenceIdeal.nD Cert.ReferenceIdeal.τ).loc Cert.ReferenceIdeal.main_v56_0) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34)
          ∧ r.2.mem ((c.tc : Thread Cert.ReferenceIdeal.nD Cert.ReferenceIdeal.τ).loc Cert.ReferenceIdeal.main_arg35) = m' ((c.tc : Thread Cert.ReferenceIdeal.nD Cert.ReferenceIdeal.τ).loc Cert.ReferenceIdeal.main_arg35)
          ∧ r.2.mem ((c.tc : Thread Cert.ReferenceIdeal.nD Cert.ReferenceIdeal.τ).loc Cert.ReferenceIdeal.main_arg36) = m' ((c.tc : Thread Cert.ReferenceIdeal.nD Cert.ReferenceIdeal.τ).loc Cert.ReferenceIdeal.main_arg36)
          ∧ r.2.mem ((c.tc : Thread Cert.ReferenceIdeal.nD Cert.ReferenceIdeal.τ).loc Cert.ReferenceIdeal.main_arg37) = m' ((c.tc : Thread Cert.ReferenceIdeal.nD Cert.ReferenceIdeal.τ).loc Cert.ReferenceIdeal.main_arg37)
          ∧ r.2.mem ((c.tc : Thread Cert.ReferenceIdeal.nD Cert.ReferenceIdeal.τ).loc Cert.ReferenceIdeal.main_arg38) = m' ((c.tc : Thread Cert.ReferenceIdeal.nD Cert.ReferenceIdeal.τ).loc Cert.ReferenceIdeal.main_arg38)
          ∧ r.2.mem ((c.tc : Thread Cert.ReferenceIdeal.nD Cert.ReferenceIdeal.τ).loc Cert.ReferenceIdeal.main_arg39) = m' ((c.tc : Thread Cert.ReferenceIdeal.nD Cert.ReferenceIdeal.τ).loc Cert.ReferenceIdeal.main_arg39)
          ∧ r.2.mem ((c.tc : Thread Cert.ReferenceIdeal.nD Cert.ReferenceIdeal.τ).loc Cert.ReferenceIdeal.main_arg40) = m' ((c.tc : Thread Cert.ReferenceIdeal.nD Cert.ReferenceIdeal.τ).loc Cert.ReferenceIdeal.main_arg40)
          ∧ r.2.mem ((c.tc : Thread Cert.ReferenceIdeal.nD Cert.ReferenceIdeal.τ).loc Cert.ReferenceIdeal.main_arg41) = m' ((c.tc : Thread Cert.ReferenceIdeal.nD Cert.ReferenceIdeal.τ).loc Cert.ReferenceIdeal.main_arg41)
          ∧ r.2.mem ((c.tc : Thread Cert.ReferenceIdeal.nD Cert.ReferenceIdeal.τ).loc Cert.ReferenceIdeal.main_arg42) = m' ((c.tc : Thread Cert.ReferenceIdeal.nD Cert.ReferenceIdeal.τ).loc Cert.ReferenceIdeal.main_arg42)
          ∧ r.2.mem ((c.tc : Thread Cert.ReferenceIdeal.nD Cert.ReferenceIdeal.τ).loc Cert.ReferenceIdeal.main_arg43) = m' ((c.tc : Thread Cert.ReferenceIdeal.nD Cert.ReferenceIdeal.τ).loc Cert.ReferenceIdeal.main_arg43)
          ∧ r.2.mem ((c.tc : Thread Cert.ReferenceIdeal.nD Cert.ReferenceIdeal.τ).loc Cert.ReferenceIdeal.main_arg44) = m' ((c.tc : Thread Cert.ReferenceIdeal.nD Cert.ReferenceIdeal.τ).loc Cert.ReferenceIdeal.main_arg44)
          ∧ r.2.mem ((c.tc : Thread Cert.ReferenceIdeal.nD Cert.ReferenceIdeal.τ).loc Cert.ReferenceIdeal.main_arg45) = m' ((c.tc : Thread Cert.ReferenceIdeal.nD Cert.ReferenceIdeal.τ).loc Cert.ReferenceIdeal.main_arg45)
          ∧ r.2.mem ((c.tc : Thread Cert.ReferenceIdeal.nD Cert.ReferenceIdeal.τ).loc Cert.ReferenceIdeal.main_arg46) = m' ((c.tc : Thread Cert.ReferenceIdeal.nD Cert.ReferenceIdeal.τ).loc Cert.ReferenceIdeal.main_arg46)
          ∧ r.2.mem ((c.tc : Thread Cert.ReferenceIdeal.nD Cert.ReferenceIdeal.τ).loc Cert.ReferenceIdeal.main_arg47) = m' ((c.tc : Thread Cert.ReferenceIdeal.nD Cert.ReferenceIdeal.τ).loc Cert.ReferenceIdeal.main_arg47)
          ∧ r.2.mem ((c.tc : Thread Cert.ReferenceIdeal.nD Cert.ReferenceIdeal.τ).loc Cert.ReferenceIdeal.main_arg48) = m' ((c.tc : Thread Cert.ReferenceIdeal.nD Cert.ReferenceIdeal.τ).loc Cert.ReferenceIdeal.main_arg48)
          ∧ r.2.mem ((c.tc : Thread Cert.ReferenceIdeal.nD Cert.ReferenceIdeal.τ).loc Cert.ReferenceIdeal.main_arg49) = m' ((c.tc : Thread Cert.ReferenceIdeal.nD Cert.ReferenceIdeal.τ).loc Cert.ReferenceIdeal.main_arg49)
          ∧ r.2.mem ((c.tc : Thread Cert.ReferenceIdeal.nD Cert.ReferenceIdeal.τ).loc Cert.ReferenceIdeal.main_arg50) = m' ((c.tc : Thread Cert.ReferenceIdeal.nD Cert.ReferenceIdeal.τ).loc Cert.ReferenceIdeal.main_arg50)
          ∧ r.2.mem ((c.tc : Thread Cert.ReferenceIdeal.nD Cert.ReferenceIdeal.τ).loc Cert.ReferenceIdeal.main_arg51) = m' ((c.tc : Thread Cert.ReferenceIdeal.nD Cert.ReferenceIdeal.τ).loc Cert.ReferenceIdeal.main_arg51)
          ∧ r.2.mem ((c.tc : Thread Cert.ReferenceIdeal.nD Cert.ReferenceIdeal.τ).loc Cert.ReferenceIdeal.main_arg52) = m' ((c.tc : Thread Cert.ReferenceIdeal.nD Cert.ReferenceIdeal.τ).loc Cert.ReferenceIdeal.main_arg52)
          ∧ r.2.mem ((c.tc : Thread Cert.ReferenceIdeal.nD Cert.ReferenceIdeal.τ).loc Cert.ReferenceIdeal.main_arg53) = m' ((c.tc : Thread Cert.ReferenceIdeal.nD Cert.ReferenceIdeal.τ).loc Cert.ReferenceIdeal.main_arg53)
          ∧ r.2.mem ((c.tc : Thread Cert.ReferenceIdeal.nD Cert.ReferenceIdeal.τ).loc Cert.ReferenceIdeal.main_arg54) = m' ((c.tc : Thread Cert.ReferenceIdeal.nD Cert.ReferenceIdeal.τ).loc Cert.ReferenceIdeal.main_arg54)
          ∧ r.2.mem ((c.tc : Thread Cert.ReferenceIdeal.nD Cert.ReferenceIdeal.τ).loc Cert.ReferenceIdeal.main_arg55) = m' ((c.tc : Thread Cert.ReferenceIdeal.nD Cert.ReferenceIdeal.τ).loc Cert.ReferenceIdeal.main_arg55)
          ∧ r.2.mem ((c.tc : Thread Cert.ReferenceIdeal.nD Cert.ReferenceIdeal.τ).loc Cert.ReferenceIdeal.main_arg56) = m' ((c.tc : Thread Cert.ReferenceIdeal.nD Cert.ReferenceIdeal.τ).loc Cert.ReferenceIdeal.main_arg56)
          ∧ r.2.mem ((c.tc : Thread Cert.ReferenceIdeal.nD Cert.ReferenceIdeal.τ).loc Cert.ReferenceIdeal.main_arg57) = m' ((c.tc : Thread Cert.ReferenceIdeal.nD Cert.ReferenceIdeal.τ).loc Cert.ReferenceIdeal.main_arg57)
          ∧ r.2.mem ((c.tc : Thread Cert.ReferenceIdeal.nD Cert.ReferenceIdeal.τ).loc Cert.ReferenceIdeal.main_arg58) = m' ((c.tc : Thread Cert.ReferenceIdeal.nD Cert.ReferenceIdeal.τ).loc Cert.ReferenceIdeal.main_arg58)
          ∧ r.2.mem ((c.tc : Thread Cert.ReferenceIdeal.nD Cert.ReferenceIdeal.τ).loc Cert.ReferenceIdeal.main_arg59) = m' ((c.tc : Thread Cert.ReferenceIdeal.nD Cert.ReferenceIdeal.τ).loc Cert.ReferenceIdeal.main_arg59)
          ∧ r.2.mem ((c.tc : Thread Cert.ReferenceIdeal.nD Cert.ReferenceIdeal.τ).loc Cert.ReferenceIdeal.main_arg60) = m' ((c.tc : Thread Cert.ReferenceIdeal.nD Cert.ReferenceIdeal.τ).loc Cert.ReferenceIdeal.main_arg60))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S65536x128 : Shape := ⟨2, ![65536, 128]⟩
abbrev S131072x128 : Shape := ⟨2, ![131072, 128]⟩
abbrev S2x65536 : Shape := ⟨2, ![2, 65536]⟩
abbrev S2x131072 : Shape := ⟨2, ![2, 131072]⟩
abbrev S128x128 : Shape := ⟨2, ![128, 128]⟩
abbrev S1x128 : Shape := ⟨2, ![1, 128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S65536x128 : S_.BroadcastsInDim S65536x128 (![] : Fin 0 → Fin S65536x128.rank)
  reducesTo_S65536x128_S_d0_1 : S65536x128.ReducesTo [0, 1] S_
  bcast_S_S131072x128 : S_.BroadcastsInDim S131072x128 (![] : Fin 0 → Fin S131072x128.rank)
  reducesTo_S131072x128_S_d0_1 : S131072x128.ReducesTo [0, 1] S_
  bcast_S_S128x128 : S_.BroadcastsInDim S128x128 (![] : Fin 0 → Fin S128x128.rank)
  reducesTo_S128x128_S_d0_1 : S128x128.ReducesTo [0, 1] S_
  bcast_S_S1x128 : S_.BroadcastsInDim S1x128 (![] : Fin 0 → Fin S1x128.rank)
  reducesTo_S1x128_S_d0_1 : S1x128.ReducesTo [0, 1] S_
  bcast_S_S2x65536 : S_.BroadcastsInDim S2x65536 (![] : Fin 0 → Fin S2x65536.rank)
  reducesTo_S2x65536_S_d0_1 : S2x65536.ReducesTo [0, 1] S_
  bcast_S_S2x131072 : S_.BroadcastsInDim S2x131072 (![] : Fin 0 → Fin S2x131072.rank)
  reducesTo_S2x131072_S_d0_1 : S2x131072.ReducesTo [0, 1] S_

variable [Facts]

def fn_part17 {F : FTy → Type} [FloatOps F] (main_arg3 : IVec S2x65536 32) (main_arg4 : IVec S2x131072 32) (main_v288 : IVec S_ 1) (main_v289 : FVec F S1x128 .f32) (main_v290 : FVec F S1x128 .f32) : IVec S_ 1 :=
  let main_v291 : IVec S1x128 1 := cmpf .olt main_v289 main_v290
  let main_c_115 : IVec S_ 1 := constantI S_ 1 1#1
  let main_v292 : IVec S_ 1 := (fun x v => Host.reduce IntOp.andi x v reducesTo_S1x128_S_d0_1 h_S_) main_v291 main_c_115
  let main_v293 : IVec S_ 1 := andi main_v288 main_v292
  let main_c_116 : IVec S_ 32 := constantI S_ 32 0#32
  let main_v294 : IVec S2x65536 32 := broadcastInDim S2x65536 ![] bcast_S_S2x65536 main_c_116
  let main_v295 : IVec S2x65536 1 := cmpi .sge main_arg3 main_v294
  let main_c_117 : IVec S_ 32 := constantI S_ 32 16384#32
  let main_v296 : IVec S2x65536 32 := broadcastInDim S2x65536 ![] bcast_S_S2x65536 main_c_117
  let main_v297 : IVec S2x65536 1 := cmpi .slt main_arg3 main_v296
  let main_v298 : IVec S2x65536 1 := andi main_v295 main_v297
  let main_c_118 : IVec S_ 1 := constantI S_ 1 1#1
  let main_v299 : IVec S_ 1 := (fun x v => Host.reduce IntOp.andi x v reducesTo_S2x65536_S_d0_1 h_S_) main_v298 main_c_118
  let main_v300 : IVec S_ 1 := andi main_v293 main_v299
  let main_c_119 : IVec S_ 32 := constantI S_ 32 0#32
  let main_v301 : IVec S2x131072 32 := broadcastInDim S2x131072 ![] bcast_S_S2x131072 main_c_119
  let main_v302 : IVec S2x131072 1 := cmpi .sge main_arg4 main_v301
  let main_c_120 : IVec S_ 32 := constantI S_ 32 65536#32
  let main_v303 : IVec S2x131072 32 := broadcastInDim S2x131072 ![] bcast_S_S2x131072 main_c_120
  let main_v304 : IVec S2x131072 1 := cmpi .slt main_arg4 main_v303
  let main_v305 : IVec S2x131072 1 := andi main_v302 main_v304
  let main_c_121 : IVec S_ 1 := constantI S_ 1 1#1
  let main_v306 : IVec S_ 1 := (fun x v => Host.reduce IntOp.andi x v reducesTo_S2x131072_S_d0_1 h_S_) main_v305 main_c_121
  let main_v307 : IVec S_ 1 := andi main_v300 main_v306
  main_v307

def fn_part16 {F : FTy → Type} [FloatOps F] (main_arg3 : IVec S2x65536 32) (main_arg4 : IVec S2x131072 32) (main_arg57 : FVec F S1x128 .f32) (main_arg58 : FVec F S1x128 .f32) (main_arg59 : FVec F S1x128 .f32) (main_arg60 : FVec F S1x128 .f32) (main_v273 : IVec S_ 1) : IVec S_ 1 :=
  let main_v274 : FVec F S1x128 .f32 := Host.absf main_arg57
  let main_cst_108 : FVec F S_ .f32 := constant S_ .f32 0x7F800000#32
  let main_v275 : FVec F S1x128 .f32 := broadcastInDim S1x128 ![] bcast_S_S1x128 main_cst_108
  let main_v276 : IVec S1x128 1 := cmpf .olt main_v274 main_v275
  let main_c_109 : IVec S_ 1 := constantI S_ 1 1#1
  let main_v277 : IVec S_ 1 := (fun x v => Host.reduce IntOp.andi x v reducesTo_S1x128_S_d0_1 h_S_) main_v276 main_c_109
  let main_v278 : IVec S_ 1 := andi main_v273 main_v277
  let main_v279 : FVec F S1x128 .f32 := Host.absf main_arg58
  let main_cst_110 : FVec F S_ .f32 := constant S_ .f32 0x7F800000#32
  let main_v280 : FVec F S1x128 .f32 := broadcastInDim S1x128 ![] bcast_S_S1x128 main_cst_110
  let main_v281 : IVec S1x128 1 := cmpf .olt main_v279 main_v280
  let main_c_111 : IVec S_ 1 := constantI S_ 1 1#1
  let main_v282 : IVec S_ 1 := (fun x v => Host.reduce IntOp.andi x v reducesTo_S1x128_S_d0_1 h_S_) main_v281 main_c_111
  let main_v283 : IVec S_ 1 := andi main_v278 main_v282
  let main_v284 : FVec F S1x128 .f32 := Host.absf main_arg59
  let main_cst_112 : FVec F S_ .f32 := constant S_ .f32 0x7F800000#32
  let main_v285 : FVec F S1x128 .f32 := broadcastInDim S1x128 ![] bcast_S_S1x128 main_cst_112
  let main_v286 : IVec S1x128 1 := cmpf .olt main_v284 main_v285
  let main_c_113 : IVec S_ 1 := constantI S_ 1 1#1
  let main_v287 : IVec S_ 1 := (fun x v => Host.reduce IntOp.andi x v reducesTo_S1x128_S_d0_1 h_S_) main_v286 main_c_113
  let main_v288 : IVec S_ 1 := andi main_v283 main_v287
  let main_v289 : FVec F S1x128 .f32 := Host.absf main_arg60
  let main_cst_114 : FVec F S_ .f32 := constant S_ .f32 0x7F800000#32
  let main_v290 : FVec F S1x128 .f32 := broadcastInDim S1x128 ![] bcast_S_S1x128 main_cst_114
  fn_part17 (F := F) main_arg3 main_arg4 main_v288 main_v289 main_v290

def fn_part15 {F : FTy → Type} [FloatOps F] (main_arg3 : IVec S2x65536 32) (main_arg4 : IVec S2x131072 32) (main_arg54 : FVec F S1x128 .f32) (main_arg55 : FVec F S128x128 .f32) (main_arg56 : FVec F S1x128 .f32) (main_arg57 : FVec F S1x128 .f32) (main_arg58 : FVec F S1x128 .f32) (main_arg59 : FVec F S1x128 .f32) (main_arg60 : FVec F S1x128 .f32) (main_v253 : IVec S_ 1) (main_v256 : IVec S128x128 1) : IVec S_ 1 :=
  let main_c_101 : IVec S_ 1 := constantI S_ 1 1#1
  let main_v257 : IVec S_ 1 := (fun x v => Host.reduce IntOp.andi x v reducesTo_S128x128_S_d0_1 h_S_) main_v256 main_c_101
  let main_v258 : IVec S_ 1 := andi main_v253 main_v257
  let main_v259 : FVec F S1x128 .f32 := Host.absf main_arg54
  let main_cst_102 : FVec F S_ .f32 := constant S_ .f32 0x7F800000#32
  let main_v260 : FVec F S1x128 .f32 := broadcastInDim S1x128 ![] bcast_S_S1x128 main_cst_102
  let main_v261 : IVec S1x128 1 := cmpf .olt main_v259 main_v260
  let main_c_103 : IVec S_ 1 := constantI S_ 1 1#1
  let main_v262 : IVec S_ 1 := (fun x v => Host.reduce IntOp.andi x v reducesTo_S1x128_S_d0_1 h_S_) main_v261 main_c_103
  let main_v263 : IVec S_ 1 := andi main_v258 main_v262
  let main_v264 : FVec F S128x128 .f32 := Host.absf main_arg55
  let main_cst_104 : FVec F S_ .f32 := constant S_ .f32 0x7F800000#32
  let main_v265 : FVec F S128x128 .f32 := broadcastInDim S128x128 ![] bcast_S_S128x128 main_cst_104
  let main_v266 : IVec S128x128 1 := cmpf .olt main_v264 main_v265
  let main_c_105 : IVec S_ 1 := constantI S_ 1 1#1
  let main_v267 : IVec S_ 1 := (fun x v => Host.reduce IntOp.andi x v reducesTo_S128x128_S_d0_1 h_S_) main_v266 main_c_105
  let main_v268 : IVec S_ 1 := andi main_v263 main_v267
  let main_v269 : FVec F S1x128 .f32 := Host.absf main_arg56
  let main_cst_106 : FVec F S_ .f32 := constant S_ .f32 0x7F800000#32
  let main_v270 : FVec F S1x128 .f32 := broadcastInDim S1x128 ![] bcast_S_S1x128 main_cst_106
  let main_v271 : IVec S1x128 1 := cmpf .olt main_v269 main_v270
  let main_c_107 : IVec S_ 1 := constantI S_ 1 1#1
  let main_v272 : IVec S_ 1 := (fun x v => Host.reduce IntOp.andi x v reducesTo_S1x128_S_d0_1 h_S_) main_v271 main_c_107
  let main_v273 : IVec S_ 1 := andi main_v268 main_v272
  fn_part16 (F := F) main_arg3 main_arg4 main_arg57 main_arg58 main_arg59 main_arg60 main_v273

def fn_part14 {F : FTy → Type} [FloatOps F] (main_arg3 : IVec S2x65536 32) (main_arg4 : IVec S2x131072 32) (main_arg51 : FVec F S128x128 .f32) (main_arg52 : FVec F S1x128 .f32) (main_arg53 : FVec F S128x128 .f32) (main_arg54 : FVec F S1x128 .f32) (main_arg55 : FVec F S128x128 .f32) (main_arg56 : FVec F S1x128 .f32) (main_arg57 : FVec F S1x128 .f32) (main_arg58 : FVec F S1x128 .f32) (main_arg59 : FVec F S1x128 .f32) (main_arg60 : FVec F S1x128 .f32) (main_v238 : IVec S_ 1) (main_v239 : FVec F S1x128 .f32) : IVec S_ 1 :=
  let main_cst_94 : FVec F S_ .f32 := constant S_ .f32 0x7F800000#32
  let main_v240 : FVec F S1x128 .f32 := broadcastInDim S1x128 ![] bcast_S_S1x128 main_cst_94
  let main_v241 : IVec S1x128 1 := cmpf .olt main_v239 main_v240
  let main_c_95 : IVec S_ 1 := constantI S_ 1 1#1
  let main_v242 : IVec S_ 1 := (fun x v => Host.reduce IntOp.andi x v reducesTo_S1x128_S_d0_1 h_S_) main_v241 main_c_95
  let main_v243 : IVec S_ 1 := andi main_v238 main_v242
  let main_v244 : FVec F S128x128 .f32 := Host.absf main_arg51
  let main_cst_96 : FVec F S_ .f32 := constant S_ .f32 0x7F800000#32
  let main_v245 : FVec F S128x128 .f32 := broadcastInDim S128x128 ![] bcast_S_S128x128 main_cst_96
  let main_v246 : IVec S128x128 1 := cmpf .olt main_v244 main_v245
  let main_c_97 : IVec S_ 1 := constantI S_ 1 1#1
  let main_v247 : IVec S_ 1 := (fun x v => Host.reduce IntOp.andi x v reducesTo_S128x128_S_d0_1 h_S_) main_v246 main_c_97
  let main_v248 : IVec S_ 1 := andi main_v243 main_v247
  let main_v249 : FVec F S1x128 .f32 := Host.absf main_arg52
  let main_cst_98 : FVec F S_ .f32 := constant S_ .f32 0x7F800000#32
  let main_v250 : FVec F S1x128 .f32 := broadcastInDim S1x128 ![] bcast_S_S1x128 main_cst_98
  let main_v251 : IVec S1x128 1 := cmpf .olt main_v249 main_v250
  let main_c_99 : IVec S_ 1 := constantI S_ 1 1#1
  let main_v252 : IVec S_ 1 := (fun x v => Host.reduce IntOp.andi x v reducesTo_S1x128_S_d0_1 h_S_) main_v251 main_c_99
  let main_v253 : IVec S_ 1 := andi main_v248 main_v252
  let main_v254 : FVec F S128x128 .f32 := Host.absf main_arg53
  let main_cst_100 : FVec F S_ .f32 := constant S_ .f32 0x7F800000#32
  let main_v255 : FVec F S128x128 .f32 := broadcastInDim S128x128 ![] bcast_S_S128x128 main_cst_100
  let main_v256 : IVec S128x128 1 := cmpf .olt main_v254 main_v255
  fn_part15 (F := F) main_arg3 main_arg4 main_arg54 main_arg55 main_arg56 main_arg57 main_arg58 main_arg59 main_arg60 main_v253 main_v256

def fn_part13 {F : FTy → Type} [FloatOps F] (main_arg3 : IVec S2x65536 32) (main_arg4 : IVec S2x131072 32) (main_arg47 : FVec F S128x128 .f32) (main_arg48 : FVec F S1x128 .f32) (main_arg49 : FVec F S128x128 .f32) (main_arg50 : FVec F S1x128 .f32) (main_arg51 : FVec F S128x128 .f32) (main_arg52 : FVec F S1x128 .f32) (main_arg53 : FVec F S128x128 .f32) (main_arg54 : FVec F S1x128 .f32) (main_arg55 : FVec F S128x128 .f32) (main_arg56 : FVec F S1x128 .f32) (main_arg57 : FVec F S1x128 .f32) (main_arg58 : FVec F S1x128 .f32) (main_arg59 : FVec F S1x128 .f32) (main_arg60 : FVec F S1x128 .f32) (main_v218 : IVec S_ 1) (main_v221 : IVec S1x128 1) (main_c_87 : IVec S_ 1) : IVec S_ 1 :=
  let main_v222 : IVec S_ 1 := (fun x v => Host.reduce IntOp.andi x v reducesTo_S1x128_S_d0_1 h_S_) main_v221 main_c_87
  let main_v223 : IVec S_ 1 := andi main_v218 main_v222
  let main_v224 : FVec F S128x128 .f32 := Host.absf main_arg47
  let main_cst_88 : FVec F S_ .f32 := constant S_ .f32 0x7F800000#32
  let main_v225 : FVec F S128x128 .f32 := broadcastInDim S128x128 ![] bcast_S_S128x128 main_cst_88
  let main_v226 : IVec S128x128 1 := cmpf .olt main_v224 main_v225
  let main_c_89 : IVec S_ 1 := constantI S_ 1 1#1
  let main_v227 : IVec S_ 1 := (fun x v => Host.reduce IntOp.andi x v reducesTo_S128x128_S_d0_1 h_S_) main_v226 main_c_89
  let main_v228 : IVec S_ 1 := andi main_v223 main_v227
  let main_v229 : FVec F S1x128 .f32 := Host.absf main_arg48
  let main_cst_90 : FVec F S_ .f32 := constant S_ .f32 0x7F800000#32
  let main_v230 : FVec F S1x128 .f32 := broadcastInDim S1x128 ![] bcast_S_S1x128 main_cst_90
  let main_v231 : IVec S1x128 1 := cmpf .olt main_v229 main_v230
  let main_c_91 : IVec S_ 1 := constantI S_ 1 1#1
  let main_v232 : IVec S_ 1 := (fun x v => Host.reduce IntOp.andi x v reducesTo_S1x128_S_d0_1 h_S_) main_v231 main_c_91
  let main_v233 : IVec S_ 1 := andi main_v228 main_v232
  let main_v234 : FVec F S128x128 .f32 := Host.absf main_arg49
  let main_cst_92 : FVec F S_ .f32 := constant S_ .f32 0x7F800000#32
  let main_v235 : FVec F S128x128 .f32 := broadcastInDim S128x128 ![] bcast_S_S128x128 main_cst_92
  let main_v236 : IVec S128x128 1 := cmpf .olt main_v234 main_v235
  let main_c_93 : IVec S_ 1 := constantI S_ 1 1#1
  let main_v237 : IVec S_ 1 := (fun x v => Host.reduce IntOp.andi x v reducesTo_S128x128_S_d0_1 h_S_) main_v236 main_c_93
  let main_v238 : IVec S_ 1 := andi main_v233 main_v237
  let main_v239 : FVec F S1x128 .f32 := Host.absf main_arg50
  fn_part14 (F := F) main_arg3 main_arg4 main_arg51 main_arg52 main_arg53 main_arg54 main_arg55 main_arg56 main_arg57 main_arg58 main_arg59 main_arg60 main_v238 main_v239

def fn_part12 {F : FTy → Type} [FloatOps F] (main_arg3 : IVec S2x65536 32) (main_arg4 : IVec S2x131072 32) (main_arg44 : FVec F S1x128 .f32) (main_arg45 : FVec F S1x128 .f32) (main_arg46 : FVec F S1x128 .f32) (main_arg47 : FVec F S128x128 .f32) (main_arg48 : FVec F S1x128 .f32) (main_arg49 : FVec F S128x128 .f32) (main_arg50 : FVec F S1x128 .f32) (main_arg51 : FVec F S128x128 .f32) (main_arg52 : FVec F S1x128 .f32) (main_arg53 : FVec F S128x128 .f32) (main_arg54 : FVec F S1x128 .f32) (main_arg55 : FVec F S128x128 .f32) (main_arg56 : FVec F S1x128 .f32) (main_arg57 : FVec F S1x128 .f32) (main_arg58 : FVec F S1x128 .f32) (main_arg59 : FVec F S1x128 .f32) (main_arg60 : FVec F S1x128 .f32) (main_v203 : IVec S_ 1) (main_v204 : FVec F S1x128 .f32) (main_cst_80 : FVec F S_ .f32) : IVec S_ 1 :=
  let main_v205 : FVec F S1x128 .f32 := broadcastInDim S1x128 ![] bcast_S_S1x128 main_cst_80
  let main_v206 : IVec S1x128 1 := cmpf .olt main_v204 main_v205
  let main_c_81 : IVec S_ 1 := constantI S_ 1 1#1
  let main_v207 : IVec S_ 1 := (fun x v => Host.reduce IntOp.andi x v reducesTo_S1x128_S_d0_1 h_S_) main_v206 main_c_81
  let main_v208 : IVec S_ 1 := andi main_v203 main_v207
  let main_v209 : FVec F S1x128 .f32 := Host.absf main_arg44
  let main_cst_82 : FVec F S_ .f32 := constant S_ .f32 0x7F800000#32
  let main_v210 : FVec F S1x128 .f32 := broadcastInDim S1x128 ![] bcast_S_S1x128 main_cst_82
  let main_v211 : IVec S1x128 1 := cmpf .olt main_v209 main_v210
  let main_c_83 : IVec S_ 1 := constantI S_ 1 1#1
  let main_v212 : IVec S_ 1 := (fun x v => Host.reduce IntOp.andi x v reducesTo_S1x128_S_d0_1 h_S_) main_v211 main_c_83
  let main_v213 : IVec S_ 1 := andi main_v208 main_v212
  let main_v214 : FVec F S1x128 .f32 := Host.absf main_arg45
  let main_cst_84 : FVec F S_ .f32 := constant S_ .f32 0x7F800000#32
  let main_v215 : FVec F S1x128 .f32 := broadcastInDim S1x128 ![] bcast_S_S1x128 main_cst_84
  let main_v216 : IVec S1x128 1 := cmpf .olt main_v214 main_v215
  let main_c_85 : IVec S_ 1 := constantI S_ 1 1#1
  let main_v217 : IVec S_ 1 := (fun x v => Host.reduce IntOp.andi x v reducesTo_S1x128_S_d0_1 h_S_) main_v216 main_c_85
  let main_v218 : IVec S_ 1 := andi main_v213 main_v217
  let main_v219 : FVec F S1x128 .f32 := Host.absf main_arg46
  let main_cst_86 : FVec F S_ .f32 := constant S_ .f32 0x7F800000#32
  let main_v220 : FVec F S1x128 .f32 := broadcastInDim S1x128 ![] bcast_S_S1x128 main_cst_86
  let main_v221 : IVec S1x128 1 := cmpf .olt main_v219 main_v220
  let main_c_87 : IVec S_ 1 := constantI S_ 1 1#1
  fn_part13 (F := F) main_arg3 main_arg4 main_arg47 main_arg48 main_arg49 main_arg50 main_arg51 main_arg52 main_arg53 main_arg54 main_arg55 main_arg56 main_arg57 main_arg58 main_arg59 main_arg60 main_v218 main_v221 main_c_87

def fn_part11 {F : FTy → Type} [FloatOps F] (main_arg3 : IVec S2x65536 32) (main_arg4 : IVec S2x131072 32) (main_arg40 : FVec F S1x128 .f32) (main_arg41 : FVec F S128x128 .f32) (main_arg42 : FVec F S1x128 .f32) (main_arg43 : FVec F S1x128 .f32) (main_arg44 : FVec F S1x128 .f32) (main_arg45 : FVec F S1x128 .f32) (main_arg46 : FVec F S1x128 .f32) (main_arg47 : FVec F S128x128 .f32) (main_arg48 : FVec F S1x128 .f32) (main_arg49 : FVec F S128x128 .f32) (main_arg50 : FVec F S1x128 .f32) (main_arg51 : FVec F S128x128 .f32) (main_arg52 : FVec F S1x128 .f32) (main_arg53 : FVec F S128x128 .f32) (main_arg54 : FVec F S1x128 .f32) (main_arg55 : FVec F S128x128 .f32) (main_arg56 : FVec F S1x128 .f32) (main_arg57 : FVec F S1x128 .f32) (main_arg58 : FVec F S1x128 .f32) (main_arg59 : FVec F S1x128 .f32) (main_arg60 : FVec F S1x128 .f32) (main_v183 : IVec S_ 1) (main_v187 : IVec S_ 1) : IVec S_ 1 :=
  let main_v188 : IVec S_ 1 := andi main_v183 main_v187
  let main_v189 : FVec F S1x128 .f32 := Host.absf main_arg40
  let main_cst_74 : FVec F S_ .f32 := constant S_ .f32 0x7F800000#32
  let main_v190 : FVec F S1x128 .f32 := broadcastInDim S1x128 ![] bcast_S_S1x128 main_cst_74
  let main_v191 : IVec S1x128 1 := cmpf .olt main_v189 main_v190
  let main_c_75 : IVec S_ 1 := constantI S_ 1 1#1
  let main_v192 : IVec S_ 1 := (fun x v => Host.reduce IntOp.andi x v reducesTo_S1x128_S_d0_1 h_S_) main_v191 main_c_75
  let main_v193 : IVec S_ 1 := andi main_v188 main_v192
  let main_v194 : FVec F S128x128 .f32 := Host.absf main_arg41
  let main_cst_76 : FVec F S_ .f32 := constant S_ .f32 0x7F800000#32
  let main_v195 : FVec F S128x128 .f32 := broadcastInDim S128x128 ![] bcast_S_S128x128 main_cst_76
  let main_v196 : IVec S128x128 1 := cmpf .olt main_v194 main_v195
  let main_c_77 : IVec S_ 1 := constantI S_ 1 1#1
  let main_v197 : IVec S_ 1 := (fun x v => Host.reduce IntOp.andi x v reducesTo_S128x128_S_d0_1 h_S_) main_v196 main_c_77
  let main_v198 : IVec S_ 1 := andi main_v193 main_v197
  let main_v199 : FVec F S1x128 .f32 := Host.absf main_arg42
  let main_cst_78 : FVec F S_ .f32 := constant S_ .f32 0x7F800000#32
  let main_v200 : FVec F S1x128 .f32 := broadcastInDim S1x128 ![] bcast_S_S1x128 main_cst_78
  let main_v201 : IVec S1x128 1 := cmpf .olt main_v199 main_v200
  let main_c_79 : IVec S_ 1 := constantI S_ 1 1#1
  let main_v202 : IVec S_ 1 := (fun x v => Host.reduce IntOp.andi x v reducesTo_S1x128_S_d0_1 h_S_) main_v201 main_c_79
  let main_v203 : IVec S_ 1 := andi main_v198 main_v202
  let main_v204 : FVec F S1x128 .f32 := Host.absf main_arg43
  let main_cst_80 : FVec F S_ .f32 := constant S_ .f32 0x7F800000#32
  fn_part12 (F := F) main_arg3 main_arg4 main_arg44 main_arg45 main_arg46 main_arg47 main_arg48 main_arg49 main_arg50 main_arg51 main_arg52 main_arg53 main_arg54 main_arg55 main_arg56 main_arg57 main_arg58 main_arg59 main_arg60 main_v203 main_v204 main_cst_80

def fn_part10 {F : FTy → Type} [FloatOps F] (main_arg3 : IVec S2x65536 32) (main_arg4 : IVec S2x131072 32) (main_arg37 : FVec F S128x128 .f32) (main_arg38 : FVec F S1x128 .f32) (main_arg39 : FVec F S128x128 .f32) (main_arg40 : FVec F S1x128 .f32) (main_arg41 : FVec F S128x128 .f32) (main_arg42 : FVec F S1x128 .f32) (main_arg43 : FVec F S1x128 .f32) (main_arg44 : FVec F S1x128 .f32) (main_arg45 : FVec F S1x128 .f32) (main_arg46 : FVec F S1x128 .f32) (main_arg47 : FVec F S128x128 .f32) (main_arg48 : FVec F S1x128 .f32) (main_arg49 : FVec F S128x128 .f32) (main_arg50 : FVec F S1x128 .f32) (main_arg51 : FVec F S128x128 .f32) (main_arg52 : FVec F S1x128 .f32) (main_arg53 : FVec F S128x128 .f32) (main_arg54 : FVec F S1x128 .f32) (main_arg55 : FVec F S128x128 .f32) (main_arg56 : FVec F S1x128 .f32) (main_arg57 : FVec F S1x128 .f32) (main_arg58 : FVec F S1x128 .f32) (main_arg59 : FVec F S1x128 .f32) (main_arg60 : FVec F S1x128 .f32) (main_v168 : IVec S_ 1) (main_v169 : FVec F S1x128 .f32) (main_v170 : FVec F S1x128 .f32) : IVec S_ 1 :=
  let main_v171 : IVec S1x128 1 := cmpf .olt main_v169 main_v170
  let main_c_67 : IVec S_ 1 := constantI S_ 1 1#1
  let main_v172 : IVec S_ 1 := (fun x v => Host.reduce IntOp.andi x v reducesTo_S1x128_S_d0_1 h_S_) main_v171 main_c_67
  let main_v173 : IVec S_ 1 := andi main_v168 main_v172
  let main_v174 : FVec F S128x128 .f32 := Host.absf main_arg37
  let main_cst_68 : FVec F S_ .f32 := constant S_ .f32 0x7F800000#32
  let main_v175 : FVec F S128x128 .f32 := broadcastInDim S128x128 ![] bcast_S_S128x128 main_cst_68
  let main_v176 : IVec S128x128 1 := cmpf .olt main_v174 main_v175
  let main_c_69 : IVec S_ 1 := constantI S_ 1 1#1
  let main_v177 : IVec S_ 1 := (fun x v => Host.reduce IntOp.andi x v reducesTo_S128x128_S_d0_1 h_S_) main_v176 main_c_69
  let main_v178 : IVec S_ 1 := andi main_v173 main_v177
  let main_v179 : FVec F S1x128 .f32 := Host.absf main_arg38
  let main_cst_70 : FVec F S_ .f32 := constant S_ .f32 0x7F800000#32
  let main_v180 : FVec F S1x128 .f32 := broadcastInDim S1x128 ![] bcast_S_S1x128 main_cst_70
  let main_v181 : IVec S1x128 1 := cmpf .olt main_v179 main_v180
  let main_c_71 : IVec S_ 1 := constantI S_ 1 1#1
  let main_v182 : IVec S_ 1 := (fun x v => Host.reduce IntOp.andi x v reducesTo_S1x128_S_d0_1 h_S_) main_v181 main_c_71
  let main_v183 : IVec S_ 1 := andi main_v178 main_v182
  let main_v184 : FVec F S128x128 .f32 := Host.absf main_arg39
  let main_cst_72 : FVec F S_ .f32 := constant S_ .f32 0x7F800000#32
  let main_v185 : FVec F S128x128 .f32 := broadcastInDim S128x128 ![] bcast_S_S128x128 main_cst_72
  let main_v186 : IVec S128x128 1 := cmpf .olt main_v184 main_v185
  let main_c_73 : IVec S_ 1 := constantI S_ 1 1#1
  let main_v187 : IVec S_ 1 := (fun x v => Host.reduce IntOp.andi x v reducesTo_S128x128_S_d0_1 h_S_) main_v186 main_c_73
  fn_part11 (F := F) main_arg3 main_arg4 main_arg40 main_arg41 main_arg42 main_arg43 main_arg44 main_arg45 main_arg46 main_arg47 main_arg48 main_arg49 main_arg50 main_arg51 main_arg52 main_arg53 main_arg54 main_arg55 main_arg56 main_arg57 main_arg58 main_arg59 main_arg60 main_v183 main_v187

def fn_part9 {F : FTy → Type} [FloatOps F] (main_arg3 : IVec S2x65536 32) (main_arg4 : IVec S2x131072 32) (main_arg33 : FVec F S128x128 .f32) (main_arg34 : FVec F S1x128 .f32) (main_arg35 : FVec F S128x128 .f32) (main_arg36 : FVec F S1x128 .f32) (main_arg37 : FVec F S128x128 .f32) (main_arg38 : FVec F S1x128 .f32) (main_arg39 : FVec F S128x128 .f32) (main_arg40 : FVec F S1x128 .f32) (main_arg41 : FVec F S128x128 .f32) (main_arg42 : FVec F S1x128 .f32) (main_arg43 : FVec F S1x128 .f32) (main_arg44 : FVec F S1x128 .f32) (main_arg45 : FVec F S1x128 .f32) (main_arg46 : FVec F S1x128 .f32) (main_arg47 : FVec F S128x128 .f32) (main_arg48 : FVec F S1x128 .f32) (main_arg49 : FVec F S128x128 .f32) (main_arg50 : FVec F S1x128 .f32) (main_arg51 : FVec F S128x128 .f32) (main_arg52 : FVec F S1x128 .f32) (main_arg53 : FVec F S128x128 .f32) (main_arg54 : FVec F S1x128 .f32) (main_arg55 : FVec F S128x128 .f32) (main_arg56 : FVec F S1x128 .f32) (main_arg57 : FVec F S1x128 .f32) (main_arg58 : FVec F S1x128 .f32) (main_arg59 : FVec F S1x128 .f32) (main_arg60 : FVec F S1x128 .f32) (main_v153 : IVec S_ 1) : IVec S_ 1 :=
  let main_v154 : FVec F S128x128 .f32 := Host.absf main_arg33
  let main_cst_60 : FVec F S_ .f32 := constant S_ .f32 0x7F800000#32
  let main_v155 : FVec F S128x128 .f32 := broadcastInDim S128x128 ![] bcast_S_S128x128 main_cst_60
  let main_v156 : IVec S128x128 1 := cmpf .olt main_v154 main_v155
  let main_c_61 : IVec S_ 1 := constantI S_ 1 1#1
  let main_v157 : IVec S_ 1 := (fun x v => Host.reduce IntOp.andi x v reducesTo_S128x128_S_d0_1 h_S_) main_v156 main_c_61
  let main_v158 : IVec S_ 1 := andi main_v153 main_v157
  let main_v159 : FVec F S1x128 .f32 := Host.absf main_arg34
  let main_cst_62 : FVec F S_ .f32 := constant S_ .f32 0x7F800000#32
  let main_v160 : FVec F S1x128 .f32 := broadcastInDim S1x128 ![] bcast_S_S1x128 main_cst_62
  let main_v161 : IVec S1x128 1 := cmpf .olt main_v159 main_v160
  let main_c_63 : IVec S_ 1 := constantI S_ 1 1#1
  let main_v162 : IVec S_ 1 := (fun x v => Host.reduce IntOp.andi x v reducesTo_S1x128_S_d0_1 h_S_) main_v161 main_c_63
  let main_v163 : IVec S_ 1 := andi main_v158 main_v162
  let main_v164 : FVec F S128x128 .f32 := Host.absf main_arg35
  let main_cst_64 : FVec F S_ .f32 := constant S_ .f32 0x7F800000#32
  let main_v165 : FVec F S128x128 .f32 := broadcastInDim S128x128 ![] bcast_S_S128x128 main_cst_64
  let main_v166 : IVec S128x128 1 := cmpf .olt main_v164 main_v165
  let main_c_65 : IVec S_ 1 := constantI S_ 1 1#1
  let main_v167 : IVec S_ 1 := (fun x v => Host.reduce IntOp.andi x v reducesTo_S128x128_S_d0_1 h_S_) main_v166 main_c_65
  let main_v168 : IVec S_ 1 := andi main_v163 main_v167
  let main_v169 : FVec F S1x128 .f32 := Host.absf main_arg36
  let main_cst_66 : FVec F S_ .f32 := constant S_ .f32 0x7F800000#32
  let main_v170 : FVec F S1x128 .f32 := broadcastInDim S1x128 ![] bcast_S_S1x128 main_cst_66
  fn_part10 (F := F) main_arg3 main_arg4 main_arg37 main_arg38 main_arg39 main_arg40 main_arg41 main_arg42 main_arg43 main_arg44 main_arg45 main_arg46 main_arg47 main_arg48 main_arg49 main_arg50 main_arg51 main_arg52 main_arg53 main_arg54 main_arg55 main_arg56 main_arg57 main_arg58 main_arg59 main_arg60 main_v168 main_v169 main_v170

def fn_part8 {F : FTy → Type} [FloatOps F] (main_arg3 : IVec S2x65536 32) (main_arg4 : IVec S2x131072 32) (main_arg30 : FVec F S1x128 .f32) (main_arg31 : FVec F S1x128 .f32) (main_arg32 : FVec F S1x128 .f32) (main_arg33 : FVec F S128x128 .f32) (main_arg34 : FVec F S1x128 .f32) (main_arg35 : FVec F S128x128 .f32) (main_arg36 : FVec F S1x128 .f32) (main_arg37 : FVec F S128x128 .f32) (main_arg38 : FVec F S1x128 .f32) (main_arg39 : FVec F S128x128 .f32) (main_arg40 : FVec F S1x128 .f32) (main_arg41 : FVec F S128x128 .f32) (main_arg42 : FVec F S1x128 .f32) (main_arg43 : FVec F S1x128 .f32) (main_arg44 : FVec F S1x128 .f32) (main_arg45 : FVec F S1x128 .f32) (main_arg46 : FVec F S1x128 .f32) (main_arg47 : FVec F S128x128 .f32) (main_arg48 : FVec F S1x128 .f32) (main_arg49 : FVec F S128x128 .f32) (main_arg50 : FVec F S1x128 .f32) (main_arg51 : FVec F S128x128 .f32) (main_arg52 : FVec F S1x128 .f32) (main_arg53 : FVec F S128x128 .f32) (main_arg54 : FVec F S1x128 .f32) (main_arg55 : FVec F S128x128 .f32) (main_arg56 : FVec F S1x128 .f32) (main_arg57 : FVec F S1x128 .f32) (main_arg58 : FVec F S1x128 .f32) (main_arg59 : FVec F S1x128 .f32) (main_arg60 : FVec F S1x128 .f32) (main_v133 : IVec S_ 1) (main_v136 : IVec S1x128 1) : IVec S_ 1 :=
  let main_c_53 : IVec S_ 1 := constantI S_ 1 1#1
  let main_v137 : IVec S_ 1 := (fun x v => Host.reduce IntOp.andi x v reducesTo_S1x128_S_d0_1 h_S_) main_v136 main_c_53
  let main_v138 : IVec S_ 1 := andi main_v133 main_v137
  let main_v139 : FVec F S1x128 .f32 := Host.absf main_arg30
  let main_cst_54 : FVec F S_ .f32 := constant S_ .f32 0x7F800000#32
  let main_v140 : FVec F S1x128 .f32 := broadcastInDim S1x128 ![] bcast_S_S1x128 main_cst_54
  let main_v141 : IVec S1x128 1 := cmpf .olt main_v139 main_v140
  let main_c_55 : IVec S_ 1 := constantI S_ 1 1#1
  let main_v142 : IVec S_ 1 := (fun x v => Host.reduce IntOp.andi x v reducesTo_S1x128_S_d0_1 h_S_) main_v141 main_c_55
  let main_v143 : IVec S_ 1 := andi main_v138 main_v142
  let main_v144 : FVec F S1x128 .f32 := Host.absf main_arg31
  let main_cst_56 : FVec F S_ .f32 := constant S_ .f32 0x7F800000#32
  let main_v145 : FVec F S1x128 .f32 := broadcastInDim S1x128 ![] bcast_S_S1x128 main_cst_56
  let main_v146 : IVec S1x128 1 := cmpf .olt main_v144 main_v145
  let main_c_57 : IVec S_ 1 := constantI S_ 1 1#1
  let main_v147 : IVec S_ 1 := (fun x v => Host.reduce IntOp.andi x v reducesTo_S1x128_S_d0_1 h_S_) main_v146 main_c_57
  let main_v148 : IVec S_ 1 := andi main_v143 main_v147
  let main_v149 : FVec F S1x128 .f32 := Host.absf main_arg32
  let main_cst_58 : FVec F S_ .f32 := constant S_ .f32 0x7F800000#32
  let main_v150 : FVec F S1x128 .f32 := broadcastInDim S1x128 ![] bcast_S_S1x128 main_cst_58
  let main_v151 : IVec S1x128 1 := cmpf .olt main_v149 main_v150
  let main_c_59 : IVec S_ 1 := constantI S_ 1 1#1
  let main_v152 : IVec S_ 1 := (fun x v => Host.reduce IntOp.andi x v reducesTo_S1x128_S_d0_1 h_S_) main_v151 main_c_59
  let main_v153 : IVec S_ 1 := andi main_v148 main_v152
  fn_part9 (F := F) main_arg3 main_arg4 main_arg33 main_arg34 main_arg35 main_arg36 main_arg37 main_arg38 main_arg39 main_arg40 main_arg41 main_arg42 main_arg43 main_arg44 main_arg45 main_arg46 main_arg47 main_arg48 main_arg49 main_arg50 main_arg51 main_arg52 main_arg53 main_arg54 main_arg55 main_arg56 main_arg57 main_arg58 main_arg59 main_arg60 main_v153

def fn_part7 {F : FTy → Type} [FloatOps F] (main_arg3 : IVec S2x65536 32) (main_arg4 : IVec S2x131072 32) (main_arg27 : FVec F S128x128 .f32) (main_arg28 : FVec F S1x128 .f32) (main_arg29 : FVec F S1x128 .f32) (main_arg30 : FVec F S1x128 .f32) (main_arg31 : FVec F S1x128 .f32) (main_arg32 : FVec F S1x128 .f32) (main_arg33 : FVec F S128x128 .f32) (main_arg34 : FVec F S1x128 .f32) (main_arg35 : FVec F S128x128 .f32) (main_arg36 : FVec F S1x128 .f32) (main_arg37 : FVec F S128x128 .f32) (main_arg38 : FVec F S1x128 .f32) (main_arg39 : FVec F S128x128 .f32) (main_arg40 : FVec F S1x128 .f32) (main_arg41 : FVec F S128x128 .f32) (main_arg42 : FVec F S1x128 .f32) (main_arg43 : FVec F S1x128 .f32) (main_arg44 : FVec F S1x128 .f32) (main_arg45 : FVec F S1x128 .f32) (main_arg46 : FVec F S1x128 .f32) (main_arg47 : FVec F S128x128 .f32) (main_arg48 : FVec F S1x128 .f32) (main_arg49 : FVec F S128x128 .f32) (main_arg50 : FVec F S1x128 .f32) (main_arg51 : FVec F S128x128 .f32) (main_arg52 : FVec F S1x128 .f32) (main_arg53 : FVec F S128x128 .f32) (main_arg54 : FVec F S1x128 .f32) (main_arg55 : FVec F S128x128 .f32) (main_arg56 : FVec F S1x128 .f32) (main_arg57 : FVec F S1x128 .f32) (main_arg58 : FVec F S1x128 .f32) (main_arg59 : FVec F S1x128 .f32) (main_arg60 : FVec F S1x128 .f32) (main_v118 : IVec S_ 1) (main_v119 : FVec F S1x128 .f32) : IVec S_ 1 :=
  let main_cst_46 : FVec F S_ .f32 := constant S_ .f32 0x7F800000#32
  let main_v120 : FVec F S1x128 .f32 := broadcastInDim S1x128 ![] bcast_S_S1x128 main_cst_46
  let main_v121 : IVec S1x128 1 := cmpf .olt main_v119 main_v120
  let main_c_47 : IVec S_ 1 := constantI S_ 1 1#1
  let main_v122 : IVec S_ 1 := (fun x v => Host.reduce IntOp.andi x v reducesTo_S1x128_S_d0_1 h_S_) main_v121 main_c_47
  let main_v123 : IVec S_ 1 := andi main_v118 main_v122
  let main_v124 : FVec F S128x128 .f32 := Host.absf main_arg27
  let main_cst_48 : FVec F S_ .f32 := constant S_ .f32 0x7F800000#32
  let main_v125 : FVec F S128x128 .f32 := broadcastInDim S128x128 ![] bcast_S_S128x128 main_cst_48
  let main_v126 : IVec S128x128 1 := cmpf .olt main_v124 main_v125
  let main_c_49 : IVec S_ 1 := constantI S_ 1 1#1
  let main_v127 : IVec S_ 1 := (fun x v => Host.reduce IntOp.andi x v reducesTo_S128x128_S_d0_1 h_S_) main_v126 main_c_49
  let main_v128 : IVec S_ 1 := andi main_v123 main_v127
  let main_v129 : FVec F S1x128 .f32 := Host.absf main_arg28
  let main_cst_50 : FVec F S_ .f32 := constant S_ .f32 0x7F800000#32
  let main_v130 : FVec F S1x128 .f32 := broadcastInDim S1x128 ![] bcast_S_S1x128 main_cst_50
  let main_v131 : IVec S1x128 1 := cmpf .olt main_v129 main_v130
  let main_c_51 : IVec S_ 1 := constantI S_ 1 1#1
  let main_v132 : IVec S_ 1 := (fun x v => Host.reduce IntOp.andi x v reducesTo_S1x128_S_d0_1 h_S_) main_v131 main_c_51
  let main_v133 : IVec S_ 1 := andi main_v128 main_v132
  let main_v134 : FVec F S1x128 .f32 := Host.absf main_arg29
  let main_cst_52 : FVec F S_ .f32 := constant S_ .f32 0x7F800000#32
  let main_v135 : FVec F S1x128 .f32 := broadcastInDim S1x128 ![] bcast_S_S1x128 main_cst_52
  let main_v136 : IVec S1x128 1 := cmpf .olt main_v134 main_v135
  fn_part8 (F := F) main_arg3 main_arg4 main_arg30 main_arg31 main_arg32 main_arg33 main_arg34 main_arg35 main_arg36 main_arg37 main_arg38 main_arg39 main_arg40 main_arg41 main_arg42 main_arg43 main_arg44 main_arg45 main_arg46 main_arg47 main_arg48 main_arg49 main_arg50 main_arg51 main_arg52 main_arg53 main_arg54 main_arg55 main_arg56 main_arg57 main_arg58 main_arg59 main_arg60 main_v133 main_v136

def fn_part6 {F : FTy → Type} [FloatOps F] (main_arg3 : IVec S2x65536 32) (main_arg4 : IVec S2x131072 32) (main_arg23 : FVec F S128x128 .f32) (main_arg24 : FVec F S1x128 .f32) (main_arg25 : FVec F S128x128 .f32) (main_arg26 : FVec F S1x128 .f32) (main_arg27 : FVec F S128x128 .f32) (main_arg28 : FVec F S1x128 .f32) (main_arg29 : FVec F S1x128 .f32) (main_arg30 : FVec F S1x128 .f32) (main_arg31 : FVec F S1x128 .f32) (main_arg32 : FVec F S1x128 .f32) (main_arg33 : FVec F S128x128 .f32) (main_arg34 : FVec F S1x128 .f32) (main_arg35 : FVec F S128x128 .f32) (main_arg36 : FVec F S1x128 .f32) (main_arg37 : FVec F S128x128 .f32) (main_arg38 : FVec F S1x128 .f32) (main_arg39 : FVec F S128x128 .f32) (main_arg40 : FVec F S1x128 .f32) (main_arg41 : FVec F S128x128 .f32) (main_arg42 : FVec F S1x128 .f32) (main_arg43 : FVec F S1x128 .f32) (main_arg44 : FVec F S1x128 .f32) (main_arg45 : FVec F S1x128 .f32) (main_arg46 : FVec F S1x128 .f32) (main_arg47 : FVec F S128x128 .f32) (main_arg48 : FVec F S1x128 .f32) (main_arg49 : FVec F S128x128 .f32) (main_arg50 : FVec F S1x128 .f32) (main_arg51 : FVec F S128x128 .f32) (main_arg52 : FVec F S1x128 .f32) (main_arg53 : FVec F S128x128 .f32) (main_arg54 : FVec F S1x128 .f32) (main_arg55 : FVec F S128x128 .f32) (main_arg56 : FVec F S1x128 .f32) (main_arg57 : FVec F S1x128 .f32) (main_arg58 : FVec F S1x128 .f32) (main_arg59 : FVec F S1x128 .f32) (main_arg60 : FVec F S1x128 .f32) (main_v98 : IVec S_ 1) (main_v101 : IVec S1x128 1) (main_c_39 : IVec S_ 1) : IVec S_ 1 :=
  let main_v102 : IVec S_ 1 := (fun x v => Host.reduce IntOp.andi x v reducesTo_S1x128_S_d0_1 h_S_) main_v101 main_c_39
  let main_v103 : IVec S_ 1 := andi main_v98 main_v102
  let main_v104 : FVec F S128x128 .f32 := Host.absf main_arg23
  let main_cst_40 : FVec F S_ .f32 := constant S_ .f32 0x7F800000#32
  let main_v105 : FVec F S128x128 .f32 := broadcastInDim S128x128 ![] bcast_S_S128x128 main_cst_40
  let main_v106 : IVec S128x128 1 := cmpf .olt main_v104 main_v105
  let main_c_41 : IVec S_ 1 := constantI S_ 1 1#1
  let main_v107 : IVec S_ 1 := (fun x v => Host.reduce IntOp.andi x v reducesTo_S128x128_S_d0_1 h_S_) main_v106 main_c_41
  let main_v108 : IVec S_ 1 := andi main_v103 main_v107
  let main_v109 : FVec F S1x128 .f32 := Host.absf main_arg24
  let main_cst_42 : FVec F S_ .f32 := constant S_ .f32 0x7F800000#32
  let main_v110 : FVec F S1x128 .f32 := broadcastInDim S1x128 ![] bcast_S_S1x128 main_cst_42
  let main_v111 : IVec S1x128 1 := cmpf .olt main_v109 main_v110
  let main_c_43 : IVec S_ 1 := constantI S_ 1 1#1
  let main_v112 : IVec S_ 1 := (fun x v => Host.reduce IntOp.andi x v reducesTo_S1x128_S_d0_1 h_S_) main_v111 main_c_43
  let main_v113 : IVec S_ 1 := andi main_v108 main_v112
  let main_v114 : FVec F S128x128 .f32 := Host.absf main_arg25
  let main_cst_44 : FVec F S_ .f32 := constant S_ .f32 0x7F800000#32
  let main_v115 : FVec F S128x128 .f32 := broadcastInDim S128x128 ![] bcast_S_S128x128 main_cst_44
  let main_v116 : IVec S128x128 1 := cmpf .olt main_v114 main_v115
  let main_c_45 : IVec S_ 1 := constantI S_ 1 1#1
  let main_v117 : IVec S_ 1 := (fun x v => Host.reduce IntOp.andi x v reducesTo_S128x128_S_d0_1 h_S_) main_v116 main_c_45
  let main_v118 : IVec S_ 1 := andi main_v113 main_v117
  let main_v119 : FVec F S1x128 .f32 := Host.absf main_arg26
  fn_part7 (F := F) main_arg3 main_arg4 main_arg27 main_arg28 main_arg29 main_arg30 main_arg31 main_arg32 main_arg33 main_arg34 main_arg35 main_arg36 main_arg37 main_arg38 main_arg39 main_arg40 main_arg41 main_arg42 main_arg43 main_arg44 main_arg45 main_arg46 main_arg47 main_arg48 main_arg49 main_arg50 main_arg51 main_arg52 main_arg53 main_arg54 main_arg55 main_arg56 main_arg57 main_arg58 main_arg59 main_arg60 main_v118 main_v119

def fn_part5 {F : FTy → Type} [FloatOps F] (main_arg3 : IVec S2x65536 32) (main_arg4 : IVec S2x131072 32) (main_arg20 : FVec F S1x128 .f32) (main_arg21 : FVec F S128x128 .f32) (main_arg22 : FVec F S1x128 .f32) (main_arg23 : FVec F S128x128 .f32) (main_arg24 : FVec F S1x128 .f32) (main_arg25 : FVec F S128x128 .f32) (main_arg26 : FVec F S1x128 .f32) (main_arg27 : FVec F S128x128 .f32) (main_arg28 : FVec F S1x128 .f32) (main_arg29 : FVec F S1x128 .f32) (main_arg30 : FVec F S1x128 .f32) (main_arg31 : FVec F S1x128 .f32) (main_arg32 : FVec F S1x128 .f32) (main_arg33 : FVec F S128x128 .f32) (main_arg34 : FVec F S1x128 .f32) (main_arg35 : FVec F S128x128 .f32) (main_arg36 : FVec F S1x128 .f32) (main_arg37 : FVec F S128x128 .f32) (main_arg38 : FVec F S1x128 .f32) (main_arg39 : FVec F S128x128 .f32) (main_arg40 : FVec F S1x128 .f32) (main_arg41 : FVec F S128x128 .f32) (main_arg42 : FVec F S1x128 .f32) (main_arg43 : FVec F S1x128 .f32) (main_arg44 : FVec F S1x128 .f32) (main_arg45 : FVec F S1x128 .f32) (main_arg46 : FVec F S1x128 .f32) (main_arg47 : FVec F S128x128 .f32) (main_arg48 : FVec F S1x128 .f32) (main_arg49 : FVec F S128x128 .f32) (main_arg50 : FVec F S1x128 .f32) (main_arg51 : FVec F S128x128 .f32) (main_arg52 : FVec F S1x128 .f32) (main_arg53 : FVec F S128x128 .f32) (main_arg54 : FVec F S1x128 .f32) (main_arg55 : FVec F S128x128 .f32) (main_arg56 : FVec F S1x128 .f32) (main_arg57 : FVec F S1x128 .f32) (main_arg58 : FVec F S1x128 .f32) (main_arg59 : FVec F S1x128 .f32) (main_arg60 : FVec F S1x128 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S1x128 .f32 := Host.absf main_arg20
  let main_cst_34 : FVec F S_ .f32 := constant S_ .f32 0x7F800000#32
  let main_v90 : FVec F S1x128 .f32 := broadcastInDim S1x128 ![] bcast_S_S1x128 main_cst_34
  let main_v91 : IVec S1x128 1 := cmpf .olt main_v89 main_v90
  let main_c_35 : IVec S_ 1 := constantI S_ 1 1#1
  let main_v92 : IVec S_ 1 := (fun x v => Host.reduce IntOp.andi x v reducesTo_S1x128_S_d0_1 h_S_) main_v91 main_c_35
  let main_v93 : IVec S_ 1 := andi main_v88 main_v92
  let main_v94 : FVec F S128x128 .f32 := Host.absf main_arg21
  let main_cst_36 : FVec F S_ .f32 := constant S_ .f32 0x7F800000#32
  let main_v95 : FVec F S128x128 .f32 := broadcastInDim S128x128 ![] bcast_S_S128x128 main_cst_36
  let main_v96 : IVec S128x128 1 := cmpf .olt main_v94 main_v95
  let main_c_37 : IVec S_ 1 := constantI S_ 1 1#1
  let main_v97 : IVec S_ 1 := (fun x v => Host.reduce IntOp.andi x v reducesTo_S128x128_S_d0_1 h_S_) main_v96 main_c_37
  let main_v98 : IVec S_ 1 := andi main_v93 main_v97
  let main_v99 : FVec F S1x128 .f32 := Host.absf main_arg22
  let main_cst_38 : FVec F S_ .f32 := constant S_ .f32 0x7F800000#32
  let main_v100 : FVec F S1x128 .f32 := broadcastInDim S1x128 ![] bcast_S_S1x128 main_cst_38
  let main_v101 : IVec S1x128 1 := cmpf .olt main_v99 main_v100
  let main_c_39 : IVec S_ 1 := constantI S_ 1 1#1
  fn_part6 (F := F) main_arg3 main_arg4 main_arg23 main_arg24 main_arg25 main_arg26 main_arg27 main_arg28 main_arg29 main_arg30 main_arg31 main_arg32 main_arg33 main_arg34 main_arg35 main_arg36 main_arg37 main_arg38 main_arg39 main_arg40 main_arg41 main_arg42 main_arg43 main_arg44 main_arg45 main_arg46 main_arg47 main_arg48 main_arg49 main_arg50 main_arg51 main_arg52 main_arg53 main_arg54 main_arg55 main_arg56 main_arg57 main_arg58 main_arg59 main_arg60 main_v98 main_v101 main_c_39

def fn_part4 {F : FTy → Type} [FloatOps F] (main_arg3 : IVec S2x65536 32) (main_arg4 : IVec S2x131072 32) (main_arg16 : FVec F S1x128 .f32) (main_arg17 : FVec F S1x128 .f32) (main_arg18 : FVec F S1x128 .f32) (main_arg19 : FVec F S128x128 .f32) (main_arg20 : FVec F S1x128 .f32) (main_arg21 : FVec F S128x128 .f32) (main_arg22 : FVec F S1x128 .f32) (main_arg23 : FVec F S128x128 .f32) (main_arg24 : FVec F S1x128 .f32) (main_arg25 : FVec F S128x128 .f32) (main_arg26 : FVec F S1x128 .f32) (main_arg27 : FVec F S128x128 .f32) (main_arg28 : FVec F S1x128 .f32) (main_arg29 : FVec F S1x128 .f32) (main_arg30 : FVec F S1x128 .f32) (main_arg31 : FVec F S1x128 .f32) (main_arg32 : FVec F S1x128 .f32) (main_arg33 : FVec F S128x128 .f32) (main_arg34 : FVec F S1x128 .f32) (main_arg35 : FVec F S128x128 .f32) (main_arg36 : FVec F S1x128 .f32) (main_arg37 : FVec F S128x128 .f32) (main_arg38 : FVec F S1x128 .f32) (main_arg39 : FVec F S128x128 .f32) (main_arg40 : FVec F S1x128 .f32) (main_arg41 : FVec F S128x128 .f32) (main_arg42 : FVec F S1x128 .f32) (main_arg43 : FVec F S1x128 .f32) (main_arg44 : FVec F S1x128 .f32) (main_arg45 : FVec F S1x128 .f32) (main_arg46 : FVec F S1x128 .f32) (main_arg47 : FVec F S128x128 .f32) (main_arg48 : FVec F S1x128 .f32) (main_arg49 : FVec F S128x128 .f32) (main_arg50 : FVec F S1x128 .f32) (main_arg51 : FVec F S128x128 .f32) (main_arg52 : FVec F S1x128 .f32) (main_arg53 : FVec F S128x128 .f32) (main_arg54 : FVec F S1x128 .f32) (main_arg55 : FVec F S128x128 .f32) (main_arg56 : FVec F S1x128 .f32) (main_arg57 : FVec F S1x128 .f32) (main_arg58 : FVec F S1x128 .f32) (main_arg59 : FVec F S1x128 .f32) (main_arg60 : FVec F S1x128 .f32) (main_v63 : IVec S_ 1) (main_v67 : IVec S_ 1) : IVec S_ 1 :=
  let main_v68 : IVec S_ 1 := andi main_v63 main_v67
  let main_v69 : FVec F S1x128 .f32 := Host.absf main_arg16
  let main_cst_26 : FVec F S_ .f32 := constant S_ .f32 0x7F800000#32
  let main_v70 : FVec F S1x128 .f32 := broadcastInDim S1x128 ![] bcast_S_S1x128 main_cst_26
  let main_v71 : IVec S1x128 1 := cmpf .olt main_v69 main_v70
  let main_c_27 : IVec S_ 1 := constantI S_ 1 1#1
  let main_v72 : IVec S_ 1 := (fun x v => Host.reduce IntOp.andi x v reducesTo_S1x128_S_d0_1 h_S_) main_v71 main_c_27
  let main_v73 : IVec S_ 1 := andi main_v68 main_v72
  let main_v74 : FVec F S1x128 .f32 := Host.absf main_arg17
  let main_cst_28 : FVec F S_ .f32 := constant S_ .f32 0x7F800000#32
  let main_v75 : FVec F S1x128 .f32 := broadcastInDim S1x128 ![] bcast_S_S1x128 main_cst_28
  let main_v76 : IVec S1x128 1 := cmpf .olt main_v74 main_v75
  let main_c_29 : IVec S_ 1 := constantI S_ 1 1#1
  let main_v77 : IVec S_ 1 := (fun x v => Host.reduce IntOp.andi x v reducesTo_S1x128_S_d0_1 h_S_) main_v76 main_c_29
  let main_v78 : IVec S_ 1 := andi main_v73 main_v77
  let main_v79 : FVec F S1x128 .f32 := Host.absf main_arg18
  let main_cst_30 : FVec F S_ .f32 := constant S_ .f32 0x7F800000#32
  let main_v80 : FVec F S1x128 .f32 := broadcastInDim S1x128 ![] bcast_S_S1x128 main_cst_30
  let main_v81 : IVec S1x128 1 := cmpf .olt main_v79 main_v80
  let main_c_31 : IVec S_ 1 := constantI S_ 1 1#1
  let main_v82 : IVec S_ 1 := (fun x v => Host.reduce IntOp.andi x v reducesTo_S1x128_S_d0_1 h_S_) main_v81 main_c_31
  let main_v83 : IVec S_ 1 := andi main_v78 main_v82
  let main_v84 : FVec F S128x128 .f32 := Host.absf main_arg19
  let main_cst_32 : FVec F S_ .f32 := constant S_ .f32 0x7F800000#32
  fn_part5 (F := F) main_arg3 main_arg4 main_arg20 main_arg21 main_arg22 main_arg23 main_arg24 main_arg25 main_arg26 main_arg27 main_arg28 main_arg29 main_arg30 main_arg31 main_arg32 main_arg33 main_arg34 main_arg35 main_arg36 main_arg37 main_arg38 main_arg39 main_arg40 main_arg41 main_arg42 main_arg43 main_arg44 main_arg45 main_arg46 main_arg47 main_arg48 main_arg49 main_arg50 main_arg51 main_arg52 main_arg53 main_arg54 main_arg55 main_arg56 main_arg57 main_arg58 main_arg59 main_arg60 main_v83 main_v84 main_cst_32

def fn_part3 {F : FTy → Type} [FloatOps F] (main_arg3 : IVec S2x65536 32) (main_arg4 : IVec S2x131072 32) (main_arg13 : FVec F S128x128 .f32) (main_arg14 : FVec F S1x128 .f32) (main_arg15 : FVec F S1x128 .f32) (main_arg16 : FVec F S1x128 .f32) (main_arg17 : FVec F S1x128 .f32) (main_arg18 : FVec F S1x128 .f32) (main_arg19 : FVec F S128x128 .f32) (main_arg20 : FVec F S1x128 .f32) (main_arg21 : FVec F S128x128 .f32) (main_arg22 : FVec F S1x128 .f32) (main_arg23 : FVec F S128x128 .f32) (main_arg24 : FVec F S1x128 .f32) (main_arg25 : FVec F S128x128 .f32) (main_arg26 : FVec F S1x128 .f32) (main_arg27 : FVec F S128x128 .f32) (main_arg28 : FVec F S1x128 .f32) (main_arg29 : FVec F S1x128 .f32) (main_arg30 : FVec F S1x128 .f32) (main_arg31 : FVec F S1x128 .f32) (main_arg32 : FVec F S1x128 .f32) (main_arg33 : FVec F S128x128 .f32) (main_arg34 : FVec F S1x128 .f32) (main_arg35 : FVec F S128x128 .f32) (main_arg36 : FVec F S1x128 .f32) (main_arg37 : FVec F S128x128 .f32) (main_arg38 : FVec F S1x128 .f32) (main_arg39 : FVec F S128x128 .f32) (main_arg40 : FVec F S1x128 .f32) (main_arg41 : FVec F S128x128 .f32) (main_arg42 : FVec F S1x128 .f32) (main_arg43 : FVec F S1x128 .f32) (main_arg44 : FVec F S1x128 .f32) (main_arg45 : FVec F S1x128 .f32) (main_arg46 : FVec F S1x128 .f32) (main_arg47 : FVec F S128x128 .f32) (main_arg48 : FVec F S1x128 .f32) (main_arg49 : FVec F S128x128 .f32) (main_arg50 : FVec F S1x128 .f32) (main_arg51 : FVec F S128x128 .f32) (main_arg52 : FVec F S1x128 .f32) (main_arg53 : FVec F S128x128 .f32) (main_arg54 : FVec F S1x128 .f32) (main_arg55 : FVec F S128x128 .f32) (main_arg56 : FVec F S1x128 .f32) (main_arg57 : FVec F S1x128 .f32) (main_arg58 : FVec F S1x128 .f32) (main_arg59 : FVec F S1x128 .f32) (main_arg60 : FVec F S1x128 .f32) (main_v48 : IVec S_ 1) (main_v49 : FVec F S1x128 .f32) (main_v50 : FVec F S1x128 .f32) : IVec S_ 1 :=
  let main_v51 : IVec S1x128 1 := cmpf .olt main_v49 main_v50
  let main_c_19 : IVec S_ 1 := constantI S_ 1 1#1
  let main_v52 : IVec S_ 1 := (fun x v => Host.reduce IntOp.andi x v reducesTo_S1x128_S_d0_1 h_S_) main_v51 main_c_19
  let main_v53 : IVec S_ 1 := andi main_v48 main_v52
  let main_v54 : FVec F S128x128 .f32 := Host.absf main_arg13
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S1x128 .f32 := Host.absf main_arg14
  let main_cst_22 : FVec F S_ .f32 := constant S_ .f32 0x7F800000#32
  let main_v60 : FVec F S1x128 .f32 := broadcastInDim S1x128 ![] bcast_S_S1x128 main_cst_22
  let main_v61 : IVec S1x128 1 := cmpf .olt main_v59 main_v60
  let main_c_23 : IVec S_ 1 := constantI S_ 1 1#1
  let main_v62 : IVec S_ 1 := (fun x v => Host.reduce IntOp.andi x v reducesTo_S1x128_S_d0_1 h_S_) main_v61 main_c_23
  let main_v63 : IVec S_ 1 := andi main_v58 main_v62
  let main_v64 : FVec F S1x128 .f32 := Host.absf main_arg15
  let main_cst_24 : FVec F S_ .f32 := constant S_ .f32 0x7F800000#32
  let main_v65 : FVec F S1x128 .f32 := broadcastInDim S1x128 ![] bcast_S_S1x128 main_cst_24
  let main_v66 : IVec S1x128 1 := cmpf .olt main_v64 main_v65
  let main_c_25 : IVec S_ 1 := constantI S_ 1 1#1
  let main_v67 : IVec S_ 1 := (fun x v => Host.reduce IntOp.andi x v reducesTo_S1x128_S_d0_1 h_S_) main_v66 main_c_25
  fn_part4 (F := F) main_arg3 main_arg4 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_arg39 main_arg40 main_arg41 main_arg42 main_arg43 main_arg44 main_arg45 main_arg46 main_arg47 main_arg48 main_arg49 main_arg50 main_arg51 main_arg52 main_arg53 main_arg54 main_arg55 main_arg56 main_arg57 main_arg58 main_arg59 main_arg60 main_v63 main_v67

def fn_part2 {F : FTy → Type} [FloatOps F] (main_arg3 : IVec S2x65536 32) (main_arg4 : IVec S2x131072 32) (main_arg9 : FVec F S128x128 .f32) (main_arg10 : FVec F S1x128 .f32) (main_arg11 : FVec F S128x128 .f32) (main_arg12 : FVec F S1x128 .f32) (main_arg13 : FVec F S128x128 .f32) (main_arg14 : FVec F S1x128 .f32) (main_arg15 : FVec F S1x128 .f32) (main_arg16 : FVec F S1x128 .f32) (main_arg17 : FVec F S1x128 .f32) (main_arg18 : FVec F S1x128 .f32) (main_arg19 : FVec F S128x128 .f32) (main_arg20 : FVec F S1x128 .f32) (main_arg21 : FVec F S128x128 .f32) (main_arg22 : FVec F S1x128 .f32) (main_arg23 : FVec F S128x128 .f32) (main_arg24 : FVec F S1x128 .f32) (main_arg25 : FVec F S128x128 .f32) (main_arg26 : FVec F S1x128 .f32) (main_arg27 : FVec F S128x128 .f32) (main_arg28 : FVec F S1x128 .f32) (main_arg29 : FVec F S1x128 .f32) (main_arg30 : FVec F S1x128 .f32) (main_arg31 : FVec F S1x128 .f32) (main_arg32 : FVec F S1x128 .f32) (main_arg33 : FVec F S128x128 .f32) (main_arg34 : FVec F S1x128 .f32) (main_arg35 : FVec F S128x128 .f32) (main_arg36 : FVec F S1x128 .f32) (main_arg37 : FVec F S128x128 .f32) (main_arg38 : FVec F S1x128 .f32) (main_arg39 : FVec F S128x128 .f32) (main_arg40 : FVec F S1x128 .f32) (main_arg41 : FVec F S128x128 .f32) (main_arg42 : FVec F S1x128 .f32) (main_arg43 : FVec F S1x128 .f32) (main_arg44 : FVec F S1x128 .f32) (main_arg45 : FVec F S1x128 .f32) (main_arg46 : FVec F S1x128 .f32) (main_arg47 : FVec F S128x128 .f32) (main_arg48 : FVec F S1x128 .f32) (main_arg49 : FVec F S128x128 .f32) (main_arg50 : FVec F S1x128 .f32) (main_arg51 : FVec F S128x128 .f32) (main_arg52 : FVec F S1x128 .f32) (main_arg53 : FVec F S128x128 .f32) (main_arg54 : FVec F S1x128 .f32) (main_arg55 : FVec F S128x128 .f32) (main_arg56 : FVec F S1x128 .f32) (main_arg57 : FVec F S1x128 .f32) (main_arg58 : FVec F S1x128 .f32) (main_arg59 : FVec F S1x128 .f32) (main_arg60 : FVec F S1x128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S1x128 .f32 := Host.absf main_arg10
  let main_cst_14 : FVec F S_ .f32 := constant S_ .f32 0x7F800000#32
  let main_v40 : FVec F S1x128 .f32 := broadcastInDim S1x128 ![] bcast_S_S1x128 main_cst_14
  let main_v41 : IVec S1x128 1 := cmpf .olt main_v39 main_v40
  let main_c_15 : IVec S_ 1 := constantI S_ 1 1#1
  let main_v42 : IVec S_ 1 := (fun x v => Host.reduce IntOp.andi x v reducesTo_S1x128_S_d0_1 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S1x128 .f32 := Host.absf main_arg12
  let main_cst_18 : FVec F S_ .f32 := constant S_ .f32 0x7F800000#32
  let main_v50 : FVec F S1x128 .f32 := broadcastInDim S1x128 ![] bcast_S_S1x128 main_cst_18
  fn_part3 (F := F) main_arg3 main_arg4 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_arg39 main_arg40 main_arg41 main_arg42 main_arg43 main_arg44 main_arg45 main_arg46 main_arg47 main_arg48 main_arg49 main_arg50 main_arg51 main_arg52 main_arg53 main_arg54 main_arg55 main_arg56 main_arg57 main_arg58 main_arg59 main_arg60 main_v48 main_v49 main_v50

def fn_part1 {F : FTy → Type} [FloatOps F] (main_arg3 : IVec S2x65536 32) (main_arg4 : IVec S2x131072 32) (main_arg6 : FVec F S1x128 .f32) (main_arg7 : FVec F S128x128 .f32) (main_arg8 : FVec F S1x128 .f32) (main_arg9 : FVec F S128x128 .f32) (main_arg10 : FVec F S1x128 .f32) (main_arg11 : FVec F S128x128 .f32) (main_arg12 : FVec F S1x128 .f32) (main_arg13 : FVec F S128x128 .f32) (main_arg14 : FVec F S1x128 .f32) (main_arg15 : FVec F S1x128 .f32) (main_arg16 : FVec F S1x128 .f32) (main_arg17 : FVec F S1x128 .f32) (main_arg18 : FVec F S1x128 .f32) (main_arg19 : FVec F S128x128 .f32) (main_arg20 : FVec F S1x128 .f32) (main_arg21 : FVec F S128x128 .f32) (main_arg22 : FVec F S1x128 .f32) (main_arg23 : FVec F S128x128 .f32) (main_arg24 : FVec F S1x128 .f32) (main_arg25 : FVec F S128x128 .f32) (main_arg26 : FVec F S1x128 .f32) (main_arg27 : FVec F S128x128 .f32) (main_arg28 : FVec F S1x128 .f32) (main_arg29 : FVec F S1x128 .f32) (main_arg30 : FVec F S1x128 .f32) (main_arg31 : FVec F S1x128 .f32) (main_arg32 : FVec F S1x128 .f32) (main_arg33 : FVec F S128x128 .f32) (main_arg34 : FVec F S1x128 .f32) (main_arg35 : FVec F S128x128 .f32) (main_arg36 : FVec F S1x128 .f32) (main_arg37 : FVec F S128x128 .f32) (main_arg38 : FVec F S1x128 .f32) (main_arg39 : FVec F S128x128 .f32) (main_arg40 : FVec F S1x128 .f32) (main_arg41 : FVec F S128x128 .f32) (main_arg42 : FVec F S1x128 .f32) (main_arg43 : FVec F S1x128 .f32) (main_arg44 : FVec F S1x128 .f32) (main_arg45 : FVec F S1x128 .f32) (main_arg46 : FVec F S1x128 .f32) (main_arg47 : FVec F S128x128 .f32) (main_arg48 : FVec F S1x128 .f32) (main_arg49 : FVec F S128x128 .f32) (main_arg50 : FVec F S1x128 .f32) (main_arg51 : FVec F S128x128 .f32) (main_arg52 : FVec F S1x128 .f32) (main_arg53 : FVec F S128x128 .f32) (main_arg54 : FVec F S1x128 .f32) (main_arg55 : FVec F S128x128 .f32) (main_arg56 : FVec F S1x128 .f32) (main_arg57 : FVec F S1x128 .f32) (main_arg58 : FVec F S1x128 .f32) (main_arg59 : FVec F S1x128 .f32) (main_arg60 : FVec F S1x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S1x128 .f32 := Host.absf main_arg6
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S1x128 .f32 := Host.absf main_arg8
  let main_cst_10 : FVec F S_ .f32 := constant S_ .f32 0x7F800000#32
  let main_v30 : FVec F S1x128 .f32 := broadcastInDim S1x128 ![] bcast_S_S1x128 main_cst_10
  let main_v31 : IVec S1x128 1 := cmpf .olt main_v29 main_v30
  let main_c_11 : IVec S_ 1 := constantI S_ 1 1#1
  let main_v32 : IVec S_ 1 := (fun x v => Host.reduce IntOp.andi x v reducesTo_S1x128_S_d0_1 h_S_) main_v31 main_c_11
  let main_v33 : IVec S_ 1 := andi main_v28 main_v32
  fn_part2 (F := F) main_arg3 main_arg4 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_arg39 main_arg40 main_arg41 main_arg42 main_arg43 main_arg44 main_arg45 main_arg46 main_arg47 main_arg48 main_arg49 main_arg50 main_arg51 main_arg52 main_arg53 main_arg54 main_arg55 main_arg56 main_arg57 main_arg58 main_arg59 main_arg60 main_v33

def fn {F : FTy → Type} [FloatOps F] (main_arg0 : FVec F S16384x128 .f32) (main_arg1 : FVec F S65536x128 .f32) (main_arg2 : FVec F S131072x128 .f32) (main_arg3 : IVec S2x65536 32) (main_arg4 : IVec S2x131072 32) (main_arg5 : FVec F S128x128 .f32) (main_arg6 : FVec F S1x128 .f32) (main_arg7 : FVec F S128x128 .f32) (main_arg8 : FVec F S1x128 .f32) (main_arg9 : FVec F S128x128 .f32) (main_arg10 : FVec F S1x128 .f32) (main_arg11 : FVec F S128x128 .f32) (main_arg12 : FVec F S1x128 .f32) (main_arg13 : FVec F S128x128 .f32) (main_arg14 : FVec F S1x128 .f32) (main_arg15 : FVec F S1x128 .f32) (main_arg16 : FVec F S1x128 .f32) (main_arg17 : FVec F S1x128 .f32) (main_arg18 : FVec F S1x128 .f32) (main_arg19 : FVec F S128x128 .f32) (main_arg20 : FVec F S1x128 .f32) (main_arg21 : FVec F S128x128 .f32) (main_arg22 : FVec F S1x128 .f32) (main_arg23 : FVec F S128x128 .f32) (main_arg24 : FVec F S1x128 .f32) (main_arg25 : FVec F S128x128 .f32) (main_arg26 : FVec F S1x128 .f32) (main_arg27 : FVec F S128x128 .f32) (main_arg28 : FVec F S1x128 .f32) (main_arg29 : FVec F S1x128 .f32) (main_arg30 : FVec F S1x128 .f32) (main_arg31 : FVec F S1x128 .f32) (main_arg32 : FVec F S1x128 .f32) (main_arg33 : FVec F S128x128 .f32) (main_arg34 : FVec F S1x128 .f32) (main_arg35 : FVec F S128x128 .f32) (main_arg36 : FVec F S1x128 .f32) (main_arg37 : FVec F S128x128 .f32) (main_arg38 : FVec F S1x128 .f32) (main_arg39 : FVec F S128x128 .f32) (main_arg40 : FVec F S1x128 .f32) (main_arg41 : FVec F S128x128 .f32) (main_arg42 : FVec F S1x128 .f32) (main_arg43 : FVec F S1x128 .f32) (main_arg44 : FVec F S1x128 .f32) (main_arg45 : FVec F S1x128 .f32) (main_arg46 : FVec F S1x128 .f32) (main_arg47 : FVec F S128x128 .f32) (main_arg48 : FVec F S1x128 .f32) (main_arg49 : FVec F S128x128 .f32) (main_arg50 : FVec F S1x128 .f32) (main_arg51 : FVec F S128x128 .f32) (main_arg52 : FVec F S1x128 .f32) (main_arg53 : FVec F S128x128 .f32) (main_arg54 : FVec F S1x128 .f32) (main_arg55 : FVec F S128x128 .f32) (main_arg56 : FVec F S1x128 .f32) (main_arg57 : FVec F S1x128 .f32) (main_arg58 : FVec F S1x128 .f32) (main_arg59 : FVec F S1x128 .f32) (main_arg60 : FVec F S1x128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S65536x128 .f32 := Host.absf main_arg1
  let main_cst_0 : FVec F S_ .f32 := constant S_ .f32 0x7F800000#32
  let main_v5 : FVec F S65536x128 .f32 := broadcastInDim S65536x128 ![] bcast_S_S65536x128 main_cst_0
  let main_v6 : IVec S65536x128 1 := cmpf .olt main_v4 main_v5
  let main_c_1 : IVec S_ 1 := constantI S_ 1 1#1
  let main_v7 : IVec S_ 1 := (fun x v => Host.reduce IntOp.andi x v reducesTo_S65536x128_S_d0_1 h_S_) main_v6 main_c_1
  let main_v8 : IVec S_ 1 := andi main_v3 main_v7
  let main_v9 : FVec F S131072x128 .f32 := Host.absf main_arg2
  let main_cst_2 : FVec F S_ .f32 := constant S_ .f32 0x7F800000#32
  let main_v10 : FVec F S131072x128 .f32 := broadcastInDim S131072x128 ![] bcast_S_S131072x128 main_cst_2
  let main_v11 : IVec S131072x128 1 := cmpf .olt main_v9 main_v10
  let main_c_3 : IVec S_ 1 := constantI S_ 1 1#1
  let main_v12 : IVec S_ 1 := (fun x v => Host.reduce IntOp.andi x v reducesTo_S131072x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg3 main_arg4 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_arg39 main_arg40 main_arg41 main_arg42 main_arg43 main_arg44 main_arg45 main_arg46 main_arg47 main_arg48 main_arg49 main_arg50 main_arg51 main_arg52 main_arg53 main_arg54 main_arg55 main_arg56 main_arg57 main_arg58 main_arg59 main_arg60 main_v13 main_v16
-- ==== Kernel.lean ====
abbrev S16384x128 : Shape := ⟨2, ![16384, 128]⟩
abbrev S65536x128 : Shape := ⟨2, ![65536, 128]⟩
abbrev S131072x128 : Shape := ⟨2, ![131072, 128]⟩
abbrev S2x65536 : Shape := ⟨2, ![2, 65536]⟩
abbrev S2x131072 : Shape := ⟨2, ![2, 131072]⟩
abbrev S128x128 : Shape := ⟨2, ![128, 128]⟩
abbrev S1x128 : Shape := ⟨2, ![1, 128]⟩
abbrev S1x131072 : Shape := ⟨2, ![1, 131072]⟩
abbrev S131072 : Shape := ⟨1, ![131072]⟩
abbrev S1x65536 : Shape := ⟨2, ![1, 65536]⟩
abbrev S65536 : Shape := ⟨1, ![65536]⟩
abbrev S128x512 : Shape := ⟨2, ![128, 512]⟩
abbrev S_ : Shape := ⟨0, ![]⟩
abbrev S1x512 : Shape := ⟨2, ![1, 512]⟩
abbrev S65536x256 : Shape := ⟨2, ![65536, 256]⟩
abbrev S1024x128 : Shape := ⟨2, ![1024, 128]⟩
abbrev S1024x256 : Shape := ⟨2, ![1024, 256]⟩
abbrev S1024x512 : Shape := ⟨2, ![1024, 512]⟩
abbrev S131072x1 : Shape := ⟨2, ![131072, 1]⟩
abbrev S131072x256 : Shape := ⟨2, ![131072, 256]⟩
abbrev S16384x256 : Shape := ⟨2, ![16384, 256]⟩
abbrev S65536x1 : Shape := ⟨2, ![65536, 1]⟩
abbrev S1024 : Shape := ⟨1, ![1024]⟩
abbrev S1024x1 : Shape := ⟨2, ![1024, 1]⟩

abbrev nBuf : Space → Nat
  | .hbm => 205
  | .vmem => 136
  | .smem => 0
  | _ => 0

abbrev hbmTy0_0 (i : Nat) : BufTy := match i % 128 with
  | 0 => ⟨S16384x128, .f32⟩
  | 1 => ⟨S65536x128, .f32⟩
  | 2 => ⟨S131072x128, .f32⟩
  | 3 => ⟨S2x65536, .i32⟩
  | 4 => ⟨S2x131072, .i32⟩
  | 5 => ⟨S128x128, .f32⟩
  | 6 => ⟨S1x128, .f32⟩
  | 7 => ⟨S128x128, .f32⟩
  | 8 => ⟨S1x128, .f32⟩
  | 9 => ⟨S128x128, .f32⟩
  | 10 => ⟨S1x128, .f32⟩
  | 11 => ⟨S128x128, .f32⟩
  | 12 => ⟨S1x128, .f32⟩
  | 13 => ⟨S128x128, .f32⟩
  | 14 => ⟨S1x128, .f32⟩
  | 15 => ⟨S1x128, .f32⟩
  | 16 => ⟨S1x128, .f32⟩
  | 17 => ⟨S1x128, .f32⟩
  | 18 => ⟨S1x128, .f32⟩
  | 19 => ⟨S128x128, .f32⟩
  | 20 => ⟨S1x128, .f32⟩
  | 21 => ⟨S128x128, .f32⟩
  | 22 => ⟨S1x128, .f32⟩
  | 23 => ⟨S128x128, .f32⟩
  | 24 => ⟨S1x128, .f32⟩
  | 25 => ⟨S128x128, .f32⟩
  | 26 => ⟨S1x128, .f32⟩
  | 27 => ⟨S128x128, .f32⟩
  | 28 => ⟨S1x128, .f32⟩
  | 29 => ⟨S1x128, .f32⟩
  | 30 => ⟨S1x128, .f32⟩
  | 31 => ⟨S1x128, .f32⟩
  | 32 => ⟨S1x128, .f32⟩
  | 33 => ⟨S128x128, .f32⟩
  | 34 => ⟨S1x128, .f32⟩
  | 35 => ⟨S128x128, .f32⟩
  | 36 => ⟨S1x128, .f32⟩
  | 37 => ⟨S128x128, .f32⟩
  | 38 => ⟨S1x128, .f32⟩
  | 39 => ⟨S128x128, .f32⟩
  | 40 => ⟨S1x128, .f32⟩
  | 41 => ⟨S128x128, .f32⟩
  | 42 => ⟨S1x128, .f32⟩
  | 43 => ⟨S1x128, .f32⟩
  | 44 => ⟨S1x128, .f32⟩
  | 45 => ⟨S1x128, .f32⟩
  | 46 => ⟨S1x128, .f32⟩
  | 47 => ⟨S128x128, .f32⟩
  | 48 => ⟨S1x128, .f32⟩
  | 49 => ⟨S128x128, .f32⟩
  | 50 => ⟨S1x128, .f32⟩
  | 51 => ⟨S128x128, .f32⟩
  | 52 => ⟨S1x128, .f32⟩
  | 53 => ⟨S128x128, .f32⟩
  | 54 => ⟨S1x128, .f32⟩
  | 55 => ⟨S128x128, .f32⟩
  | 56 => ⟨S1x128, .f32⟩
  | 57 => ⟨S1x128, .f32⟩
  | 58 => ⟨S1x128, .f32⟩
  | 59 => ⟨S1x128, .f32⟩
  | 60 => ⟨S1x128, .f32⟩
  | 61 => ⟨S1x131072, .i32⟩
  | 62 => ⟨S131072, .i32⟩
  | 63 => ⟨S1x131072, .i32⟩
  | 64 => ⟨S131072, .i32⟩
  | 65 => ⟨S1x65536, .i32⟩
  | 66 => ⟨S65536, .i32⟩
  | 67 => ⟨S1x65536, .i32⟩
  | 68 => ⟨S65536, .i32⟩
  | 69 => ⟨S128x512, .f32⟩
  | 70 => ⟨S_, .f32⟩
  | 71 => ⟨S1x128, .f32⟩
  | 72 => ⟨S1x512, .f32⟩
  | 73 => ⟨S65536x128, .f32⟩
  | 74 => ⟨S65536x256, .f32⟩
  | 75 => ⟨S65536x256, .f32⟩
  | 76 => ⟨S_, .i32⟩
  | 77 => ⟨S131072, .i32⟩
  | 78 => ⟨S131072, .i1⟩
  | 79 => ⟨S_, .i32⟩
  | 80 => ⟨S131072, .i32⟩
  | 81 => ⟨S131072, .i32⟩
  | 82 => ⟨S131072, .i32⟩
  | 83 => ⟨S131072x1, .i32⟩
  | 84 => ⟨S131072x256, .f32⟩
  | 85 => ⟨S_, .i32⟩
  | 86 => ⟨S131072, .i32⟩
  | 87 => ⟨S131072, .i1⟩
  | 88 => ⟨S_, .i32⟩
  | 89 => ⟨S131072, .i32⟩
  | 90 => ⟨S131072, .i32⟩
  | 91 => ⟨S131072, .i32⟩
  | 92 => ⟨S131072x1, .i32⟩
  | 93 => ⟨S131072x256, .f32⟩
  | 94 => ⟨S128x512, .f32⟩
  | 95 => ⟨S_, .f32⟩
  | 96 => ⟨S1x128, .f32⟩
  | 97 => ⟨S1x512, .f32⟩
  | 98 => ⟨S16384x128, .f32⟩
  | 99 => ⟨S16384x128, .f32⟩
  | 100 => ⟨S16384x256, .f32⟩
  | 101 => ⟨S_, .i32⟩
  | 102 => ⟨S65536, .i32⟩
  | 103 => ⟨S65536, .i1⟩
  | 104 => ⟨S_, .i32⟩
  | 105 => ⟨S65536, .i32⟩
  | 106 => ⟨S65536, .i32⟩
  | 107 => ⟨S65536, .i32⟩
  | 108 => ⟨S65536x1, .i32⟩
  | 109 => ⟨S65536x128, .f32⟩
  | 110 => ⟨S_, .i32⟩
  | 111 => ⟨S65536, .i32⟩
  | 112 => ⟨S65536, .i1⟩
  | 113 => ⟨S_, .i32⟩
  | 114 => ⟨S65536, .i32⟩
  | 115 => ⟨S65536, .i32⟩
  | 116 => ⟨S65536, .i32⟩
  | 117 => ⟨S65536x1, .i32⟩
  | 118 => ⟨S65536x256, .f32⟩
  | 119 => ⟨S1x128, .f32⟩
  | 120 => ⟨S1x128, .f32⟩
  | 121 => ⟨S131072x128, .f32⟩
  | 122 => ⟨S131072x256, .f32⟩
  | 123 => ⟨S_, .f32⟩
  | 124 => ⟨S65536x256, .f32⟩
  | 125 => ⟨S131072x1, .i32⟩
  | 126 => ⟨S65536x256, .f32⟩
  | 127 => ⟨S65536x128, .f32⟩
  | _ => ⟨S16384x128, .f32⟩

abbrev hbmTy0_1 (i : Nat) : BufTy := match i % 128 with
  | 0 => ⟨S1x128, .f32⟩
  | 1 => ⟨S1x128, .f32⟩
  | 2 => ⟨S65536x128, .f32⟩
  | 3 => ⟨S65536x256, .f32⟩
  | 4 => ⟨S128x512, .f32⟩
  | 5 => ⟨S_, .f32⟩
  | 6 => ⟨S1x128, .f32⟩
  | 7 => ⟨S1x512, .f32⟩
  | 8 => ⟨S65536x128, .f32⟩
  | 9 => ⟨S65536x256, .f32⟩
  | 10 => ⟨S65536x256, .f32⟩
  | 11 => ⟨S_, .i32⟩
  | 12 => ⟨S131072, .i32⟩
  | 13 => ⟨S131072, .i1⟩
  | 14 => ⟨S_, .i32⟩
  | 15 => ⟨S131072, .i32⟩
  | 16 => ⟨S131072, .i32⟩
  | 17 => ⟨S131072, .i32⟩
  | 18 => ⟨S131072x1, .i32⟩
  | 19 => ⟨S131072x256, .f32⟩
  | 20 => ⟨S_, .i32⟩
  | 21 => ⟨S131072, .i32⟩
  | 22 => ⟨S131072, .i1⟩
  | 23 => ⟨S_, .i32⟩
  | 24 => ⟨S131072, .i32⟩
  | 25 => ⟨S131072, .i32⟩
  | 26 => ⟨S131072, .i32⟩
  | 27 => ⟨S131072x1, .i32⟩
  | 28 => ⟨S131072x256, .f32⟩
  | 29 => ⟨S_, .f32⟩
  | 30 => ⟨S16384x256, .f32⟩
  | 31 => ⟨S65536x1, .i32⟩
  | 32 => ⟨S16384x256, .f32⟩
  | 33 => ⟨S16384x128, .f32⟩
  | 34 => ⟨S128x512, .f32⟩
  | 35 => ⟨S_, .f32⟩
  | 36 => ⟨S1x128, .f32⟩
  | 37 => ⟨S1x512, .f32⟩
  | 38 => ⟨S16384x128, .f32⟩
  | 39 => ⟨S16384x128, .f32⟩
  | 40 => ⟨S16384x256, .f32⟩
  | 41 => ⟨S_, .i32⟩
  | 42 => ⟨S65536, .i32⟩
  | 43 => ⟨S65536, .i1⟩
  | 44 => ⟨S_, .i32⟩
  | 45 => ⟨S65536, .i32⟩
  | 46 => ⟨S65536, .i32⟩
  | 47 => ⟨S65536, .i32⟩
  | 48 => ⟨S65536x1, .i32⟩
  | 49 => ⟨S65536x128, .f32⟩
  | 50 => ⟨S_, .i32⟩
  | 51 => ⟨S65536, .i32⟩
  | 52 => ⟨S65536, .i1⟩
  | 53 => ⟨S_, .i32⟩
  | 54 => ⟨S65536, .i32⟩
  | 55 => ⟨S65536, .i32⟩
  | 56 => ⟨S65536, .i32⟩
  | 57 => ⟨S65536x1, .i32⟩
  | 58 => ⟨S65536x256, .f32⟩
  | 59 => ⟨S1x128, .f32⟩
  | 60 => ⟨S1x128, .f32⟩
  | 61 => ⟨S131072x128, .f32⟩
  | 62 => ⟨S131072x256, .f32⟩
  | 63 => ⟨S_, .f32⟩
  | 64 => ⟨S65536x256, .f32⟩
  | 65 => ⟨S131072x1, .i32⟩
  | 66 => ⟨S65536x256, .f32⟩
  | 67 => ⟨S65536x128, .f32⟩
  | 68 => ⟨S1x128, .f32⟩
  | 69 => ⟨S1x128, .f32⟩
  | 70 => ⟨S65536x128, .f32⟩
  | 71 => ⟨S65536x256, .f32⟩
  | 72 => ⟨S_, .f32⟩
  | 73 => ⟨S16384x256, .f32⟩
  | 74 => ⟨S65536x1, .i32⟩
  | 75 => ⟨S16384x256, .f32⟩
  | 76 => ⟨S16384x128, .f32⟩
  | _ => ⟨S16384x128, .f32⟩

abbrev hbmTy (i : Nat) : BufTy := match i / 128 with
  | 0 => hbmTy0_0 i
  | 1 => hbmTy0_1 i
  | _ => ⟨S16384x128, .f32⟩

abbrev vmemTy0_0 (i : Nat) : BufTy := match i % 128 with
  | 0 => ⟨S1024x128, .f32⟩
  | 1 => ⟨S1024x128, .f32⟩
  | 2 => ⟨S128x512, .f32⟩
  | 3 => ⟨S1x512, .f32⟩
  | 4 => ⟨S1024x128, .f32⟩
  | 5 => ⟨S1024x128, .f32⟩
  | 6 => ⟨S1024x256, .f32⟩
  | 7 => ⟨S1024x256, .f32⟩
  | 8 => ⟨S1024x256, .f32⟩
  | 9 => ⟨S1024x256, .f32⟩
  | 10 => ⟨S1024x128, .f32⟩
  | 11 => ⟨S1024x128, .f32⟩
  | 12 => ⟨S128x512, .f32⟩
  | 13 => ⟨S1x512, .f32⟩
  | 14 => ⟨S1024x128, .f32⟩
  | 15 => ⟨S1024x128, .f32⟩
  | 16 => ⟨S1024x128, .f32⟩
  | 17 => ⟨S1024x128, .f32⟩
  | 18 => ⟨S1024x256, .f32⟩
  | 19 => ⟨S1024x256, .f32⟩
  | 20 => ⟨S1024x128, .f32⟩
  | 21 => ⟨S1024x128, .f32⟩
  | 22 => ⟨S1024x128, .f32⟩
  | 23 => ⟨S1024x128, .f32⟩
  | 24 => ⟨S1024x256, .f32⟩
  | 25 => ⟨S1024x256, .f32⟩
  | 26 => ⟨S128x128, .f32⟩
  | 27 => ⟨S1x128, .f32⟩
  | 28 => ⟨S1x128, .f32⟩
  | 29 => ⟨S1x128, .f32⟩
  | 30 => ⟨S1024x128, .f32⟩
  | 31 => ⟨S1024x128, .f32⟩
  | 32 => ⟨S1024x256, .f32⟩
  | 33 => ⟨S1024x256, .f32⟩
  | 34 => ⟨S1024x128, .f32⟩
  | 35 => ⟨S1024x128, .f32⟩
  | 36 => ⟨S1024x128, .f32⟩
  | 37 => ⟨S1024x128, .f32⟩
  | 38 => ⟨S1024x256, .f32⟩
  | 39 => ⟨S1024x256, .f32⟩
  | 40 => ⟨S1x128, .f32⟩
  | 41 => ⟨S1x128, .f32⟩
  | 42 => ⟨S1024x128, .f32⟩
  | 43 => ⟨S1024x128, .f32⟩
  | 44 => ⟨S1024x128, .f32⟩
  | 45 => ⟨S1024x128, .f32⟩
  | 46 => ⟨S1024x128, .f32⟩
  | 47 => ⟨S1024x128, .f32⟩
  | 48 => ⟨S1024x256, .f32⟩
  | 49 => ⟨S1024x256, .f32⟩
  | 50 => ⟨S128x128, .f32⟩
  | 51 => ⟨S1x128, .f32⟩
  | 52 => ⟨S1x128, .f32⟩
  | 53 => ⟨S1x128, .f32⟩
  | 54 => ⟨S1024x128, .f32⟩
  | 55 => ⟨S1024x128, .f32⟩
  | 56 => ⟨S1024x256, .f32⟩
  | 57 => ⟨S1024x256, .f32⟩
  | 58 => ⟨S1024x128, .f32⟩
  | 59 => ⟨S1024x128, .f32⟩
  | 60 => ⟨S128x512, .f32⟩
  | 61 => ⟨S1x512, .f32⟩
  | 62 => ⟨S1024x128, .f32⟩
  | 63 => ⟨S1024x128, .f32⟩
  | 64 => ⟨S1024x256, .f32⟩
  | 65 => ⟨S1024x256, .f32⟩
  | 66 => ⟨S1024x256, .f32⟩
  | 67 => ⟨S1024x256, .f32⟩
  | 68 => ⟨S1024x128, .f32⟩
  | 69 => ⟨S1024x128, .f32⟩
  | 70 => ⟨S1024x128, .f32⟩
  | 71 => ⟨S1024x128, .f32⟩
  | 72 => ⟨S1024x256, .f32⟩
  | 73 => ⟨S1024x256, .f32⟩
  | 74 => ⟨S1x128, .f32⟩
  | 75 => ⟨S1x128, .f32⟩
  | 76 => ⟨S1024x128, .f32⟩
  | 77 => ⟨S1024x128, .f32⟩
  | 78 => ⟨S1024x128, .f32⟩
  | 79 => ⟨S1024x128, .f32⟩
  | 80 => ⟨S128x512, .f32⟩
  | 81 => ⟨S1x512, .f32⟩
  | 82 => ⟨S1024x128, .f32⟩
  | 83 => ⟨S1024x128, .f32⟩
  | 84 => ⟨S1024x128, .f32⟩
  | 85 => ⟨S1024x128, .f32⟩
  | 86 => ⟨S1024x256, .f32⟩
  | 87 => ⟨S1024x256, .f32⟩
  | 88 => ⟨S1024x128, .f32⟩
  | 89 => ⟨S1024x128, .f32⟩
  | 90 => ⟨S1024x128, .f32⟩
  | 91 => ⟨S1024x128, .f32⟩
  | 92 => ⟨S1024x256, .f32⟩
  | 93 => ⟨S1024x256, .f32⟩
  | 94 => ⟨S128x128, .f32⟩
  | 95 => ⟨S1x128, .f32⟩
  | 96 => ⟨S1x128, .f32⟩
  | 97 => ⟨S1x128, .f32⟩
  | 98 => ⟨S1024x128, .f32⟩
  | 99 => ⟨S1024x128, .f32⟩
  | 100 => ⟨S1024x256, .f32⟩
  | 101 => ⟨S1024x256, .f32⟩
  | 102 => ⟨S1024x128, .f32⟩
  | 103 => ⟨S1024x128, .f32⟩
  | 104 => ⟨S1024x128, .f32⟩
  | 105 => ⟨S1024x128, .f32⟩
  | 106 => ⟨S1024x256, .f32⟩
  | 107 => ⟨S1024x256, .f32⟩
  | 108 => ⟨S1x128, .f32⟩
  | 109 => ⟨S1x128, .f32⟩
  | 110 => ⟨S1024x128, .f32⟩
  | 111 => ⟨S1024x128, .f32⟩
  | 112 => ⟨S1024x128, .f32⟩
  | 113 => ⟨S1024x128, .f32⟩
  | 114 => ⟨S1024x128, .f32⟩
  | 115 => ⟨S1024x128, .f32⟩
  | 116 => ⟨S1024x256, .f32⟩
  | 117 => ⟨S1024x256, .f32⟩
  | 118 => ⟨S128x128, .f32⟩
  | 119 => ⟨S1x128, .f32⟩
  | 120 => ⟨S1x128, .f32⟩
  | 121 => ⟨S1x128, .f32⟩
  | 122 => ⟨S1024x128, .f32⟩
  | 123 => ⟨S1024x128, .f32⟩
  | 124 => ⟨S1024x256, .f32⟩
  | 125 => ⟨S1024x256, .f32⟩
  | 126 => ⟨S1024x128, .f32⟩
  | 127 => ⟨S1024x128, .f32⟩
  | _ => ⟨S16384x128, .f32⟩

abbrev vmemTy0_1 (i : Nat) : BufTy := match i % 128 with
  | 0 => ⟨S1024x128, .f32⟩
  | 1 => ⟨S1024x128, .f32⟩
  | 2 => ⟨S1024x256, .f32⟩
  | 3 => ⟨S1024x256, .f32⟩
  | 4 => ⟨S1x128, .f32⟩
  | 5 => ⟨S1x128, .f32⟩
  | 6 => ⟨S1024x128, .f32⟩
  | 7 => ⟨S1024x128, .f32⟩
  | _ => ⟨S16384x128, .f32⟩

abbrev vmemTy (i : Nat) : BufTy := match i / 128 with
  | 0 => vmemTy0_0 i
  | 1 => vmemTy0_1 i
  | _ => ⟨S16384x128, .f32⟩

abbrev bufTy : (tb : Table) → Fin (tcTables nBuf tb) → BufTy
  | .hbm, ⟨i, _⟩ => hbmTy i
  | .local _ .vmem, ⟨i, _⟩ => vmemTy i
  | _, _ => ⟨S16384x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 136 → Bool
  | ⟨i, _⟩ => dmaSemScopedAt i

abbrev sig : RefSig :=
  ofTc nBuf bufTy 0 136 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_arg56 : Ref sig .tc := ⟨.hbm, 56, rfl⟩
abbrev main_arg57 : Ref sig .tc := ⟨.hbm, 57, rfl⟩
abbrev main_arg58 : Ref sig .tc := ⟨.hbm, 58, rfl⟩
abbrev main_arg59 : Ref sig .tc := ⟨.hbm, 59, rfl⟩
abbrev main_arg60 : Ref sig .tc := ⟨.hbm, 60, rfl⟩
abbrev main_v0 : Ref sig .tc := ⟨.hbm, 61, rfl⟩
abbrev main_v1 : Ref sig .tc := ⟨.hbm, 62, rfl⟩
abbrev main_v2 : Ref sig .tc := ⟨.hbm, 63, rfl⟩
abbrev main_v3 : Ref sig .tc := ⟨.hbm, 64, rfl⟩
abbrev main_v4 : Ref sig .tc := ⟨.hbm, 65, rfl⟩
abbrev main_v5 : Ref sig .tc := ⟨.hbm, 66, rfl⟩
abbrev main_v6 : Ref sig .tc := ⟨.hbm, 67, rfl⟩
abbrev main_v7 : Ref sig .tc := ⟨.hbm, 68, rfl⟩
abbrev main_v8 : Ref sig .tc := ⟨.hbm, 69, rfl⟩
abbrev main_cst : Ref sig .tc := ⟨.hbm, 70, rfl⟩
abbrev main_v9 : Ref sig .tc := ⟨.hbm, 71, rfl⟩
abbrev main_v10 : Ref sig .tc := ⟨.hbm, 72, rfl⟩
abbrev main_v11_0 : Ref sig .tc := ⟨.hbm, 73, rfl⟩
abbrev main_v11_1 : Ref sig .tc := ⟨.hbm, 74, rfl⟩
abbrev main_v11_2 : Ref sig .tc := ⟨.hbm, 75, rfl⟩
abbrev main_c : Ref sig .tc := ⟨.hbm, 76, rfl⟩
abbrev main_v12 : Ref sig .tc := ⟨.hbm, 77, rfl⟩
abbrev main_v13 : Ref sig .tc := ⟨.hbm, 78, rfl⟩
abbrev main_c_0 : Ref sig .tc := ⟨.hbm, 79, rfl⟩
abbrev main_v14 : Ref sig .tc := ⟨.hbm, 80, rfl⟩
abbrev main_v15 : Ref sig .tc := ⟨.hbm, 81, rfl⟩
abbrev main_v16 : Ref sig .tc := ⟨.hbm, 82, rfl⟩
abbrev main_v17 : Ref sig .tc := ⟨.hbm, 83, rfl⟩
abbrev main_v18 : Ref sig .tc := ⟨.hbm, 84, rfl⟩
abbrev main_c_1 : Ref sig .tc := ⟨.hbm, 85, rfl⟩
abbrev main_v19 : Ref sig .tc := ⟨.hbm, 86, rfl⟩
abbrev main_v20 : Ref sig .tc := ⟨.hbm, 87, rfl⟩
abbrev main_c_2 : Ref sig .tc := ⟨.hbm, 88, rfl⟩
abbrev main_v21 : Ref sig .tc := ⟨.hbm, 89, rfl⟩
abbrev main_v22 : Ref sig .tc := ⟨.hbm, 90, rfl⟩
abbrev main_v23 : Ref sig .tc := ⟨.hbm, 91, rfl⟩
abbrev main_v24 : Ref sig .tc := ⟨.hbm, 92, rfl⟩
abbrev main_v25 : Ref sig .tc := ⟨.hbm, 93, rfl⟩
abbrev main_v26 : Ref sig .tc := ⟨.hbm, 94, rfl⟩
abbrev main_cst_3 : Ref sig .tc := ⟨.hbm, 95, rfl⟩
abbrev main_v27 : Ref sig .tc := ⟨.hbm, 96, rfl⟩
abbrev main_v28 : Ref sig .tc := ⟨.hbm, 97, rfl⟩
abbrev main_v29_0 : Ref sig .tc := ⟨.hbm, 98, rfl⟩
abbrev main_v29_1 : Ref sig .tc := ⟨.hbm, 99, rfl⟩
abbrev main_v29_2 : Ref sig .tc := ⟨.hbm, 100, rfl⟩
abbrev main_c_4 : Ref sig .tc := ⟨.hbm, 101, rfl⟩
abbrev main_v30 : Ref sig .tc := ⟨.hbm, 102, rfl⟩
abbrev main_v31 : Ref sig .tc := ⟨.hbm, 103, rfl⟩
abbrev main_c_5 : Ref sig .tc := ⟨.hbm, 104, rfl⟩
abbrev main_v32 : Ref sig .tc := ⟨.hbm, 105, rfl⟩
abbrev main_v33 : Ref sig .tc := ⟨.hbm, 106, rfl⟩
abbrev main_v34 : Ref sig .tc := ⟨.hbm, 107, rfl⟩
abbrev main_v35 : Ref sig .tc := ⟨.hbm, 108, rfl⟩
abbrev main_v36 : Ref sig .tc := ⟨.hbm, 109, rfl⟩
abbrev main_c_6 : Ref sig .tc := ⟨.hbm, 110, rfl⟩
abbrev main_v37 : Ref sig .tc := ⟨.hbm, 111, rfl⟩
abbrev main_v38 : Ref sig .tc := ⟨.hbm, 112, rfl⟩
abbrev main_c_7 : Ref sig .tc := ⟨.hbm, 113, rfl⟩
abbrev main_v39 : Ref sig .tc := ⟨.hbm, 114, rfl⟩
abbrev main_v40 : Ref sig .tc := ⟨.hbm, 115, rfl⟩
abbrev main_v41 : Ref sig .tc := ⟨.hbm, 116, rfl⟩
abbrev main_v42 : Ref sig .tc := ⟨.hbm, 117, rfl⟩
abbrev main_v43 : Ref sig .tc := ⟨.hbm, 118, rfl⟩
abbrev main_v44 : Ref sig .tc := ⟨.hbm, 119, rfl⟩
abbrev main_v45 : Ref sig .tc := ⟨.hbm, 120, rfl⟩
abbrev main_v46_0 : Ref sig .tc := ⟨.hbm, 121, rfl⟩
abbrev main_v46_1 : Ref sig .tc := ⟨.hbm, 122, rfl⟩
abbrev main_cst_8 : Ref sig .tc := ⟨.hbm, 123, rfl⟩
abbrev main_v47 : Ref sig .tc := ⟨.hbm, 124, rfl⟩
abbrev main_v48 : Ref sig .tc := ⟨.hbm, 125, rfl⟩
abbrev main_v49 : Ref sig .tc := ⟨.hbm, 126, rfl⟩
abbrev main_v50 : Ref sig .tc := ⟨.hbm, 127, rfl⟩
abbrev main_v51 : Ref sig .tc := ⟨.hbm, 128, rfl⟩
abbrev main_v52 : Ref sig .tc := ⟨.hbm, 129, rfl⟩
abbrev main_v53_0 : Ref sig .tc := ⟨.hbm, 130, rfl⟩
abbrev main_v53_1 : Ref sig .tc := ⟨.hbm, 131, rfl⟩
abbrev main_v54 : Ref sig .tc := ⟨.hbm, 132, rfl⟩
abbrev main_cst_9 : Ref sig .tc := ⟨.hbm, 133, rfl⟩
abbrev main_v55 : Ref sig .tc := ⟨.hbm, 134, rfl⟩
abbrev main_v56 : Ref sig .tc := ⟨.hbm, 135, rfl⟩
abbrev main_v57_0 : Ref sig .tc := ⟨.hbm, 136, rfl⟩
abbrev main_v57_1 : Ref sig .tc := ⟨.hbm, 137, rfl⟩
abbrev main_v57_2 : Ref sig .tc := ⟨.hbm, 138, rfl⟩
abbrev main_c_10 : Ref sig .tc := ⟨.hbm, 139, rfl⟩
abbrev main_v58 : Ref sig .tc := ⟨.hbm, 140, rfl⟩
abbrev main_v59 : Ref sig .tc := ⟨.hbm, 141, rfl⟩
abbrev main_c_11 : Ref sig .tc := ⟨.hbm, 142, rfl⟩
abbrev main_v60 : Ref sig .tc := ⟨.hbm, 143, rfl⟩
abbrev main_v61 : Ref sig .tc := ⟨.hbm, 144, rfl⟩
abbrev main_v62 : Ref sig .tc := ⟨.hbm, 145, rfl⟩
abbrev main_v63 : Ref sig .tc := ⟨.hbm, 146, rfl⟩
abbrev main_v64 : Ref sig .tc := ⟨.hbm, 147, rfl⟩
abbrev main_c_12 : Ref sig .tc := ⟨.hbm, 148, rfl⟩
abbrev main_v65 : Ref sig .tc := ⟨.hbm, 149, rfl⟩
abbrev main_v66 : Ref sig .tc := ⟨.hbm, 150, rfl⟩
abbrev main_c_13 : Ref sig .tc := ⟨.hbm, 151, rfl⟩
abbrev main_v67 : Ref sig .tc := ⟨.hbm, 152, rfl⟩
abbrev main_v68 : Ref sig .tc := ⟨.hbm, 153, rfl⟩
abbrev main_v69 : Ref sig .tc := ⟨.hbm, 154, rfl⟩
abbrev main_v70 : Ref sig .tc := ⟨.hbm, 155, rfl⟩
abbrev main_v71 : Ref sig .tc := ⟨.hbm, 156, rfl⟩
abbrev main_cst_14 : Ref sig .tc := ⟨.hbm, 157, rfl⟩
abbrev main_v72 : Ref sig .tc := ⟨.hbm, 158, rfl⟩
abbrev main_v73 : Ref sig .tc := ⟨.hbm, 159, rfl⟩
abbrev main_v74 : Ref sig .tc := ⟨.hbm, 160, rfl⟩
abbrev main_v75 : Ref sig .tc := ⟨.hbm, 161, rfl⟩
abbrev main_v76 : Ref sig .tc := ⟨.hbm, 162, rfl⟩
abbrev main_cst_15 : Ref sig .tc := ⟨.hbm, 163, rfl⟩
abbrev main_v77 : Ref sig .tc := ⟨.hbm, 164, rfl⟩
abbrev main_v78 : Ref sig .tc := ⟨.hbm, 165, rfl⟩
abbrev main_v79_0 : Ref sig .tc := ⟨.hbm, 166, rfl⟩
abbrev main_v79_1 : Ref sig .tc := ⟨.hbm, 167, rfl⟩
abbrev main_v79_2 : Ref sig .tc := ⟨.hbm, 168, rfl⟩
abbrev main_c_16 : Ref sig .tc := ⟨.hbm, 169, rfl⟩
abbrev main_v80 : Ref sig .tc := ⟨.hbm, 170, rfl⟩
abbrev main_v81 : Ref sig .tc := ⟨.hbm, 171, rfl⟩
abbrev main_c_17 : Ref sig .tc := ⟨.hbm, 172, rfl⟩
abbrev main_v82 : Ref sig .tc := ⟨.hbm, 173, rfl⟩
abbrev main_v83 : Ref sig .tc := ⟨.hbm, 174, rfl⟩
abbrev main_v84 : Ref sig .tc := ⟨.hbm, 175, rfl⟩
abbrev main_v85 : Ref sig .tc := ⟨.hbm, 176, rfl⟩
abbrev main_v86 : Ref sig .tc := ⟨.hbm, 177, rfl⟩
abbrev main_c_18 : Ref sig .tc := ⟨.hbm, 178, rfl⟩
abbrev main_v87 : Ref sig .tc := ⟨.hbm, 179, rfl⟩
abbrev main_v88 : Ref sig .tc := ⟨.hbm, 180, rfl⟩
abbrev main_c_19 : Ref sig .tc := ⟨.hbm, 181, rfl⟩
abbrev main_v89 : Ref sig .tc := ⟨.hbm, 182, rfl⟩
abbrev main_v90 : Ref sig .tc := ⟨.hbm, 183, rfl⟩
abbrev main_v91 : Ref sig .tc := ⟨.hbm, 184, rfl⟩
abbrev main_v92 : Ref sig .tc := ⟨.hbm, 185, rfl⟩
abbrev main_v93 : Ref sig .tc := ⟨.hbm, 186, rfl⟩
abbrev main_v94 : Ref sig .tc := ⟨.hbm, 187, rfl⟩
abbrev main_v95 : Ref sig .tc := ⟨.hbm, 188, rfl⟩
abbrev main_v96_0 : Ref sig .tc := ⟨.hbm, 189, rfl⟩
abbrev main_v96_1 : Ref sig .tc := ⟨.hbm, 190, rfl⟩
abbrev main_cst_20 : Ref sig .tc := ⟨.hbm, 191, rfl⟩
abbrev main_v97 : Ref sig .tc := ⟨.hbm, 192, rfl⟩
abbrev main_v98 : Ref sig .tc := ⟨.hbm, 193, rfl⟩
abbrev main_v99 : Ref sig .tc := ⟨.hbm, 194, rfl⟩
abbrev main_v100 : Ref sig .tc := ⟨.hbm, 195, rfl⟩
abbrev main_v101 : Ref sig .tc := ⟨.hbm, 196, rfl⟩
abbrev main_v102 : Ref sig .tc := ⟨.hbm, 197, rfl⟩
abbrev main_v103_0 : Ref sig .tc := ⟨.hbm, 198, rfl⟩
abbrev main_v103_1 : Ref sig .tc := ⟨.hbm, 199, rfl⟩
abbrev main_cst_21 : Ref sig .tc := ⟨.hbm, 200, rfl⟩
abbrev main_v104 : Ref sig .tc := ⟨.hbm, 201, rfl⟩
abbrev main_v105 : Ref sig .tc := ⟨.hbm, 202, rfl⟩
abbrev main_v106 : Ref sig .tc := ⟨.hbm, 203, rfl⟩
abbrev main_v107 : Ref sig .tc := ⟨.hbm, 204, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg7_0 : Ref sig .tc := ⟨.vmem, 30, rfl⟩
abbrev cc2_stg7_1 : Ref sig .tc := ⟨.vmem, 31, rfl⟩
abbrev cc2_stg8_0 : Ref sig .tc := ⟨.vmem, 32, rfl⟩
abbrev cc2_stg8_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg1_1 : Ref sig .tc := ⟨.vmem, 37, rfl⟩
abbrev cc3_stg2_0 : Ref sig .tc := ⟨.vmem, 38, rfl⟩
abbrev cc3_stg2_1 : Ref sig .tc := ⟨.vmem, 39, rfl⟩
abbrev cc3_stg3_0 : Ref sig .tc := ⟨.vmem, 40, rfl⟩
abbrev cc3_stg4_0 : Ref sig .tc := ⟨.vmem, 41, rfl⟩
abbrev cc3_stg5_0 : Ref sig .tc := ⟨.vmem, 42, rfl⟩
abbrev cc3_stg5_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg2_1 : Ref sig .tc := ⟨.vmem, 49, rfl⟩
abbrev cc4_stg3_0 : Ref sig .tc := ⟨.vmem, 50, rfl⟩
abbrev cc4_stg4_0 : Ref sig .tc := ⟨.vmem, 51, rfl⟩
abbrev cc4_stg5_0 : Ref sig .tc := ⟨.vmem, 52, rfl⟩
abbrev cc4_stg6_0 : Ref sig .tc := ⟨.vmem, 53, rfl⟩
abbrev cc4_stg7_0 : Ref sig .tc := ⟨.vmem, 54, rfl⟩
abbrev cc4_stg7_1 : Ref sig .tc := ⟨.vmem, 55, rfl⟩
abbrev cc4_stg8_0 : Ref sig .tc := ⟨.vmem, 56, rfl⟩
abbrev cc4_stg8_1 : Ref sig .tc := ⟨.vmem, 57, rfl⟩
abbrev cc5_stg0_0 : Ref sig .tc := ⟨.vmem, 58, rfl⟩
abbrev cc5_stg0_1 : Ref sig .tc := ⟨.vmem, 59, rfl⟩
abbrev cc5_stg1_0 : Ref sig .tc := ⟨.vmem, 60, rfl⟩
abbrev cc5_stg2_0 : Ref sig .tc := ⟨.vmem, 61, rfl⟩
abbrev cc5_stg3_0 : Ref sig .tc := ⟨.vmem, 62, rfl⟩
abbrev cc5_stg3_1 : Ref sig .tc := ⟨.vmem, 63, rfl⟩
abbrev cc5_stg4_0 : Ref sig .tc := ⟨.vmem, 64, rfl⟩
abbrev cc5_stg4_1 : Ref sig .tc := ⟨.vmem, 65, rfl⟩
abbrev cc5_stg5_0 : Ref sig .tc := ⟨.vmem, 66, rfl⟩
abbrev cc5_stg5_1 : Ref sig .tc := ⟨.vmem, 67, rfl⟩
abbrev cc6_stg0_0 : Ref sig .tc := ⟨.vmem, 68, rfl⟩
abbrev cc6_stg0_1 : Ref sig .tc := ⟨.vmem, 69, rfl⟩
abbrev cc6_stg1_0 : Ref sig .tc := ⟨.vmem, 70, rfl⟩
abbrev cc6_stg1_1 : Ref sig .tc := ⟨.vmem, 71, rfl⟩
abbrev cc6_stg2_0 : Ref sig .tc := ⟨.vmem, 72, rfl⟩
abbrev cc6_stg2_1 : Ref sig .tc := ⟨.vmem, 73, rfl⟩
abbrev cc6_stg3_0 : Ref sig .tc := ⟨.vmem, 74, rfl⟩
abbrev cc6_stg4_0 : Ref sig .tc := ⟨.vmem, 75, rfl⟩
abbrev cc6_stg5_0 : Ref sig .tc := ⟨.vmem, 76, rfl⟩
abbrev cc6_stg5_1 : Ref sig .tc := ⟨.vmem, 77, rfl⟩
abbrev cc7_stg0_0 : Ref sig .tc := ⟨.vmem, 78, rfl⟩
abbrev cc7_stg0_1 : Ref sig .tc := ⟨.vmem, 79, rfl⟩
abbrev cc7_stg1_0 : Ref sig .tc := ⟨.vmem, 80, rfl⟩
abbrev cc7_stg2_0 : Ref sig .tc := ⟨.vmem, 81, rfl⟩
abbrev cc7_stg3_0 : Ref sig .tc := ⟨.vmem, 82, rfl⟩
abbrev cc7_stg3_1 : Ref sig .tc := ⟨.vmem, 83, rfl⟩
abbrev cc7_stg4_0 : Ref sig .tc := ⟨.vmem, 84, rfl⟩
abbrev cc7_stg4_1 : Ref sig .tc := ⟨.vmem, 85, rfl⟩
abbrev cc7_stg5_0 : Ref sig .tc := ⟨.vmem, 86, rfl⟩
abbrev cc7_stg5_1 : Ref sig .tc := ⟨.vmem, 87, rfl⟩
abbrev cc8_stg0_0 : Ref sig .tc := ⟨.vmem, 88, rfl⟩
abbrev cc8_stg0_1 : Ref sig .tc := ⟨.vmem, 89, rfl⟩
abbrev cc8_stg1_0 : Ref sig .tc := ⟨.vmem, 90, rfl⟩
abbrev cc8_stg1_1 : Ref sig .tc := ⟨.vmem, 91, rfl⟩
abbrev cc8_stg2_0 : Ref sig .tc := ⟨.vmem, 92, rfl⟩
abbrev cc8_stg2_1 : Ref sig .tc := ⟨.vmem, 93, rfl⟩
abbrev cc8_stg3_0 : Ref sig .tc := ⟨.vmem, 94, rfl⟩
abbrev cc8_stg4_0 : Ref sig .tc := ⟨.vmem, 95, rfl⟩
abbrev cc8_stg5_0 : Ref sig .tc := ⟨.vmem, 96, rfl⟩
abbrev cc8_stg6_0 : Ref sig .tc := ⟨.vmem, 97, rfl⟩
abbrev cc8_stg7_0 : Ref sig .tc := ⟨.vmem, 98, rfl⟩
abbrev cc8_stg7_1 : Ref sig .tc := ⟨.vmem, 99, rfl⟩
abbrev cc8_stg8_0 : Ref sig .tc := ⟨.vmem, 100, rfl⟩
abbrev cc8_stg8_1 : Ref sig .tc := ⟨.vmem, 101, rfl⟩
abbrev cc9_stg0_0 : Ref sig .tc := ⟨.vmem, 102, rfl⟩
abbrev cc9_stg0_1 : Ref sig .tc := ⟨.vmem, 103, rfl⟩
abbrev cc9_stg1_0 : Ref sig .tc := ⟨.vmem, 104, rfl⟩
abbrev cc9_stg1_1 : Ref sig .tc := ⟨.vmem, 105, rfl⟩
abbrev cc9_stg2_0 : Ref sig .tc := ⟨.vmem, 106, rfl⟩
abbrev cc9_stg2_1 : Ref sig .tc := ⟨.vmem, 107, rfl⟩
abbrev cc9_stg3_0 : Ref sig .tc := ⟨.vmem, 108, rfl⟩
abbrev cc9_stg4_0 : Ref sig .tc := ⟨.vmem, 109, rfl⟩
abbrev cc9_stg5_0 : Ref sig .tc := ⟨.vmem, 110, rfl⟩
abbrev cc9_stg5_1 : Ref sig .tc := ⟨.vmem, 111, rfl⟩
abbrev cc10_stg0_0 : Ref sig .tc := ⟨.vmem, 112, rfl⟩
abbrev cc10_stg0_1 : Ref sig .tc := ⟨.vmem, 113, rfl⟩
abbrev cc10_stg1_0 : Ref sig .tc := ⟨.vmem, 114, rfl⟩
abbrev cc10_stg1_1 : Ref sig .tc := ⟨.vmem, 115, rfl⟩
abbrev cc10_stg2_0 : Ref sig .tc := ⟨.vmem, 116, rfl⟩
abbrev cc10_stg2_1 : Ref sig .tc := ⟨.vmem, 117, rfl⟩
abbrev cc10_stg3_0 : Ref sig .tc := ⟨.vmem, 118, rfl⟩
abbrev cc10_stg4_0 : Ref sig .tc := ⟨.vmem, 119, rfl⟩
abbrev cc10_stg5_0 : Ref sig .tc := ⟨.vmem, 120, rfl⟩
abbrev cc10_stg6_0 : Ref sig .tc := ⟨.vmem, 121, rfl⟩
abbrev cc10_stg7_0 : Ref sig .tc := ⟨.vmem, 122, rfl⟩
abbrev cc10_stg7_1 : Ref sig .tc := ⟨.vmem, 123, rfl⟩
abbrev cc10_stg8_0 : Ref sig .tc := ⟨.vmem, 124, rfl⟩
abbrev cc10_stg8_1 : Ref sig .tc := ⟨.vmem, 125, rfl⟩
abbrev cc11_stg0_0 : Ref sig .tc := ⟨.vmem, 126, rfl⟩
abbrev cc11_stg0_1 : Ref sig .tc := ⟨.vmem, 127, rfl⟩
abbrev cc11_stg1_0 : Ref sig .tc := ⟨.vmem, 128, rfl⟩
abbrev cc11_stg1_1 : Ref sig .tc := ⟨.vmem, 129, rfl⟩
abbrev cc11_stg2_0 : Ref sig .tc := ⟨.vmem, 130, rfl⟩
abbrev cc11_stg2_1 : Ref sig .tc := ⟨.vmem, 131, rfl⟩
abbrev cc11_stg3_0 : Ref sig .tc := ⟨.vmem, 132, rfl⟩
abbrev cc11_stg4_0 : Ref sig .tc := ⟨.vmem, 133, rfl⟩
abbrev cc11_stg5_0 : Ref sig .tc := ⟨.vmem, 134, rfl⟩
abbrev cc11_stg5_1 : Ref sig .tc := ⟨.vmem, 135, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem4_0 : DmaSem sig := 27
abbrev cc2_sem5_0 : DmaSem sig := 28
abbrev cc2_sem6_0 : DmaSem sig := 29
abbrev cc2_sem7_0 : DmaSem sig := 30
abbrev cc2_sem7_1 : DmaSem sig := 31
abbrev cc2_sem8_0 : DmaSem sig := 32
abbrev cc2_sem8_1 : DmaSem sig := 33
abbrev cc3_sem0_0 : DmaSem sig := 34
abbrev cc3_sem0_1 : DmaSem sig := 35
abbrev cc3_sem1_0 : DmaSem sig := 36
abbrev cc3_sem1_1 : DmaSem sig := 37
abbrev cc3_sem2_0 : DmaSem sig := 38
abbrev cc3_sem2_1 : DmaSem sig := 39
abbrev cc3_sem3_0 : DmaSem sig := 40
abbrev cc3_sem4_0 : DmaSem sig := 41
abbrev cc3_sem5_0 : DmaSem sig := 42
abbrev cc3_sem5_1 : DmaSem sig := 43
abbrev cc4_sem0_0 : DmaSem sig := 44
abbrev cc4_sem0_1 : DmaSem sig := 45
abbrev cc4_sem1_0 : DmaSem sig := 46
abbrev cc4_sem1_1 : DmaSem sig := 47
abbrev cc4_sem2_0 : DmaSem sig := 48
abbrev cc4_sem2_1 : DmaSem sig := 49
abbrev cc4_sem3_0 : DmaSem sig := 50
abbrev cc4_sem4_0 : DmaSem sig := 51
abbrev cc4_sem5_0 : DmaSem sig := 52
abbrev cc4_sem6_0 : DmaSem sig := 53
abbrev cc4_sem7_0 : DmaSem sig := 54
abbrev cc4_sem7_1 : DmaSem sig := 55
abbrev cc4_sem8_0 : DmaSem sig := 56
abbrev cc4_sem8_1 : DmaSem sig := 57
abbrev cc5_sem0_0 : DmaSem sig := 58
abbrev cc5_sem0_1 : DmaSem sig := 59
abbrev cc5_sem1_0 : DmaSem sig := 60
abbrev cc5_sem2_0 : DmaSem sig := 61
abbrev cc5_sem3_0 : DmaSem sig := 62
abbrev cc5_sem3_1 : DmaSem sig := 63
abbrev cc5_sem4_0 : DmaSem sig := 64
abbrev cc5_sem4_1 : DmaSem sig := 65
abbrev cc5_sem5_0 : DmaSem sig := 66
abbrev cc5_sem5_1 : DmaSem sig := 67
abbrev cc6_sem0_0 : DmaSem sig := 68
abbrev cc6_sem0_1 : DmaSem sig := 69
abbrev cc6_sem1_0 : DmaSem sig := 70
abbrev cc6_sem1_1 : DmaSem sig := 71
abbrev cc6_sem2_0 : DmaSem sig := 72
abbrev cc6_sem2_1 : DmaSem sig := 73
abbrev cc6_sem3_0 : DmaSem sig := 74
abbrev cc6_sem4_0 : DmaSem sig := 75
abbrev cc6_sem5_0 : DmaSem sig := 76
abbrev cc6_sem5_1 : DmaSem sig := 77
abbrev cc7_sem0_0 : DmaSem sig := 78
abbrev cc7_sem0_1 : DmaSem sig := 79
abbrev cc7_sem1_0 : DmaSem sig := 80
abbrev cc7_sem2_0 : DmaSem sig := 81
abbrev cc7_sem3_0 : DmaSem sig := 82
abbrev cc7_sem3_1 : DmaSem sig := 83
abbrev cc7_sem4_0 : DmaSem sig := 84
abbrev cc7_sem4_1 : DmaSem sig := 85
abbrev cc7_sem5_0 : DmaSem sig := 86
abbrev cc7_sem5_1 : DmaSem sig := 87
abbrev cc8_sem0_0 : DmaSem sig := 88
abbrev cc8_sem0_1 : DmaSem sig := 89
abbrev cc8_sem1_0 : DmaSem sig := 90
abbrev cc8_sem1_1 : DmaSem sig := 91
abbrev cc8_sem2_0 : DmaSem sig := 92
abbrev cc8_sem2_1 : DmaSem sig := 93
abbrev cc8_sem3_0 : DmaSem sig := 94
abbrev cc8_sem4_0 : DmaSem sig := 95
abbrev cc8_sem5_0 : DmaSem sig := 96
abbrev cc8_sem6_0 : DmaSem sig := 97
abbrev cc8_sem7_0 : DmaSem sig := 98
abbrev cc8_sem7_1 : DmaSem sig := 99
abbrev cc8_sem8_0 : DmaSem sig := 100
abbrev cc8_sem8_1 : DmaSem sig := 101
abbrev cc9_sem0_0 : DmaSem sig := 102
abbrev cc9_sem0_1 : DmaSem sig := 103
abbrev cc9_sem1_0 : DmaSem sig := 104
abbrev cc9_sem1_1 : DmaSem sig := 105
abbrev cc9_sem2_0 : DmaSem sig := 106
abbrev cc9_sem2_1 : DmaSem sig := 107
abbrev cc9_sem3_0 : DmaSem sig := 108
abbrev cc9_sem4_0 : DmaSem sig := 109
abbrev cc9_sem5_0 : DmaSem sig := 110
abbrev cc9_sem5_1 : DmaSem sig := 111
abbrev cc10_sem0_0 : DmaSem sig := 112
abbrev cc10_sem0_1 : DmaSem sig := 113
abbrev cc10_sem1_0 : DmaSem sig := 114
abbrev cc10_sem1_1 : DmaSem sig := 115
abbrev cc10_sem2_0 : DmaSem sig := 116
abbrev cc10_sem2_1 : DmaSem sig := 117
abbrev cc10_sem3_0 : DmaSem sig := 118
abbrev cc10_sem4_0 : DmaSem sig := 119
abbrev cc10_sem5_0 : DmaSem sig := 120
abbrev cc10_sem6_0 : DmaSem sig := 121
abbrev cc10_sem7_0 : DmaSem sig := 122
abbrev cc10_sem7_1 : DmaSem sig := 123
abbrev cc10_sem8_0 : DmaSem sig := 124
abbrev cc10_sem8_1 : DmaSem sig := 125
abbrev cc11_sem0_0 : DmaSem sig := 126
abbrev cc11_sem0_1 : DmaSem sig := 127
abbrev cc11_sem1_0 : DmaSem sig := 128
abbrev cc11_sem1_1 : DmaSem sig := 129
abbrev cc11_sem2_0 : DmaSem sig := 130
abbrev cc11_sem2_1 : DmaSem sig := 131
abbrev cc11_sem3_0 : DmaSem sig := 132
abbrev cc11_sem4_0 : DmaSem sig := 133
abbrev cc11_sem5_0 : DmaSem sig := 134
abbrev cc11_sem5_1 : DmaSem sig := 135

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1024x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1024x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![128], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1024x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S1024x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S1024x256 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![64], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1024x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1024x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S1024x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![64], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1024x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1024x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S1024x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S1024x256 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev grid5 : Pipeline.Grid := ⟨1, ![64], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1024x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x512 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x512 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S1024x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S1024x256 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S1024x256 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![16], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1024x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S1024x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S1024x256 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S1024x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![16], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S1024x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x512 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x512 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S1024x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S1024x128 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 2 → Memref sig .tc .vmem S1024x256 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![128], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_8 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S1024x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S1024x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S1024x256 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S128x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S1x128 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 2 → Memref sig .tc .vmem S1024x128 .f32 := fun | 0 => Memref.whole cc8_stg7_0 | 1 => Memref.whole cc8_stg7_1 | ⟨_ + 2, h⟩ => absurd h (Nat.not_lt.2 (Nat.le_add_left _ _))
abbrev sem8_7 : Fin 2 → DmaSem sig := fun | 0 => cc8_sem7_0 | 1 => cc8_sem7_1 | ⟨_ + 2, h⟩ => absurd h (Nat.not_lt.2 (Nat.le_add_left _ _))
abbrev reads8_7 : Fin grid8.rank → Bool := ![true]

abbrev stage8_8 : Fin 2 → Memref sig .tc .vmem S1024x256 .f32 := fun | 0 => Memref.whole cc8_stg8_0 | 1 => Memref.whole cc8_stg8_1 | ⟨_ + 2, h⟩ => absurd h (Nat.not_lt.2 (Nat.le_add_left _ _))
abbrev sem8_8 : Fin 2 → DmaSem sig := fun | 0 => cc8_sem8_0 | 1 => cc8_sem8_1 | ⟨_ + 2, h⟩ => absurd h (Nat.not_lt.2 (Nat.le_add_left _ _))
abbrev reads8_8 : Fin grid8.rank → Bool := ![true]

abbrev grid9 : Pipeline.Grid := ⟨1, ![64], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S1024x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S1024x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S1024x256 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S1024x128 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev grid10 : Pipeline.Grid := ⟨1, ![64], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_7 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_8 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S1024x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S1024x128 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S1024x256 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 1 → Memref sig .tc .vmem S128x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x128 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S1x128 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 1 → Memref sig .tc .vmem S1x128 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]

abbrev stage10_7 : Fin 2 → Memref sig .tc .vmem S1024x128 .f32 := fun | 0 => Memref.whole cc10_stg7_0 | 1 => Memref.whole cc10_stg7_1 | ⟨_ + 2, h⟩ => absurd h (Nat.not_lt.2 (Nat.le_add_left _ _))
abbrev sem10_7 : Fin 2 → DmaSem sig := fun | 0 => cc10_sem7_0 | 1 => cc10_sem7_1 | ⟨_ + 2, h⟩ => absurd h (Nat.not_lt.2 (Nat.le_add_left _ _))
abbrev reads10_7 : Fin grid10.rank → Bool := ![true]

abbrev stage10_8 : Fin 2 → Memref sig .tc .vmem S1024x256 .f32 := fun | 0 => Memref.whole cc10_stg8_0 | 1 => Memref.whole cc10_stg8_1 | ⟨_ + 2, h⟩ => absurd h (Nat.not_lt.2 (Nat.le_add_left _ _))
abbrev sem10_8 : Fin 2 → DmaSem sig := fun | 0 => cc10_sem8_0 | 1 => cc10_sem8_1 | ⟨_ + 2, h⟩ => absurd h (Nat.not_lt.2 (Nat.le_add_left _ _))
abbrev reads10_8 : Fin grid10.rank → Bool := ![true]

abbrev grid11 : Pipeline.Grid := ⟨1, ![16], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S1024x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S1024x128 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 2 → Memref sig .tc .vmem S1024x256 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev stage11_3 : Fin 1 → Memref sig .tc .vmem S1x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x128 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S1024x128 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

class Facts₀ : Prop where
  slices_S2x131072_S1x131072_0_0 : S2x131072.Slices ![0, 0] S1x131072
  shapeCasts_S1x131072_S131072 : S1x131072.ShapeCasts S131072
  slices_S2x131072_S1x131072_1_0 : S2x131072.Slices ![1, 0] S1x131072
  slices_S2x65536_S1x65536_0_0 : S2x65536.Slices ![0, 0] S1x65536
  shapeCasts_S1x65536_S65536 : S1x65536.ShapeCasts S65536
  slices_S2x65536_S1x65536_1_0 : S2x65536.Slices ![1, 0] S1x65536
  concatenates_S128x128_S128x128_S128x128_S128x128_S128x512_d1 : Shape.Concatenates [S128x128, S128x128, S128x128, S128x128] S128x512 1
  bcast_S_S1x128 : S_.BroadcastsInDim S1x128 (![] : Fin 0 → Fin S1x128.rank)
  concatenates_S1x128_S1x128_S1x128_S1x128_S1x512_d1 : Shape.Concatenates [S1x128, S1x128, S1x128, S1x128] S1x512 1
  inb_S1024x128_S1024x128_0_0 : ∀ a, (![0, 0] : Fin 2 → Nat) a + S1024x128.size a ≤ S1024x128.size a
  h_S1024x128 : 0 < S1024x128.numel
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  slices_S1024x512_o0_0_S1024x128 : S1024x512.Slices ![0, 0] S1024x128
  slices_S1024x512_o0_128_S1024x256 : S1024x512.Slices ![0, 128] S1024x256
  inb_S1024x256_S1024x256_0_0 : ∀ a, (![0, 0] : Fin 2 → Nat) a + S1024x256.size a ≤ S1024x256.size a
  h_S1024x256 : 0 < S1024x256.numel
  slices_S1024x512_o0_384_S1024x128 : S1024x512.Slices ![0, 384] S1024x128
  inb_S1024x256_S1024x128_0_0 : ∀ a, (![0, 0] : Fin 2 → Nat) a + S1024x128.size a ≤ S1024x256.size a
  inb_S1024x256_S1024x128_0_128 : ∀ a, (![0, 128] : Fin 2 → Nat) a + S1024x128.size a ≤ S1024x256.size a
  bcast_S_S131072 : S_.BroadcastsInDim S131072 (![] : Fin 0 → Fin S131072.rank)
  bcast_S131072_S131072x1_0 : S131072.BroadcastsInDim S131072x1 (![0] : Fin 1 → Fin S131072x1.rank)
  bcast_S_S65536 : S_.BroadcastsInDim S65536 (![] : Fin 0 → Fin S65536.rank)
  bcast_S65536_S65536x1_0 : S65536.BroadcastsInDim S65536x1 (![0] : Fin 1 → Fin S65536x1.rank)
  shapeCasts_S1024x256_S1024x256 : S1024x256.ShapeCasts S1024x256
  inb_S128x128_S128x128_0_0 : ∀ a, (![0, 0] : Fin 2 → Nat) a + S128x128.size a ≤ S128x128.size a
  h_S128x128 : 0 < S128x128.numel
  shapeCasts_S1024x128_S1024x128 : S1024x128.ShapeCasts S1024x128
  slices_S1024x256_o0_128_S1024x128 : S1024x256.Slices ![0, 128] S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  reduces_S1024x128_S1024 : S1024x128.Reduces [1] S1024
  shapeCasts_S1024_S1024x1 : S1024.ShapeCasts S1024x1
  broadcasts_S1024x1_S1024x128 : S1024x1.Broadcasts S1024x128
  slices_S1024x256_o0_0_S1024x128 : S1024x256.Slices ![0, 0] S1024x128
  bcast_S_S65536x256 : S_.BroadcastsInDim S65536x256 (![] : Fin 0 → Fin S65536x256.rank)
  bcast_S_S16384x256 : S_.BroadcastsInDim S16384x256 (![] : Fin 0 → Fin S16384x256.rank)
  dot_S1024x128_S128x512_S1024x512_1_0_0_1_n_n_wf : DotDims.WF S1024x128 S128x512 S1024x512 [1] [0] [0] [1] [] []
  gather_S65536x256_S131072x1_S131072x256_1_0_n_n_0_1_1256_wf : GatherDims.WF S65536x256 S131072x1 S131072x256 [1] [0] [] [0] [] 1 ![1, 256]
  gather_S16384x128_S65536x1_S65536x128_1_0_n_n_0_1_1128_wf : GatherDims.WF S16384x128 S65536x1 S65536x128 [1] [0] [] [0] [] 1 ![1, 128]
  gather_S16384x256_S65536x1_S65536x256_1_0_n_n_0_1_1256_wf : GatherDims.WF S16384x256 S65536x1 S65536x256 [1] [0] [] [0] [] 1 ![1, 256]
  dot_S1024x128_S128x128_S1024x128_1_0_0_1_n_n_wf : DotDims.WF S1024x128 S128x128 S1024x128 [1] [0] [0] [1] [] []
  scatter_S65536x256_S131072x1_S131072x256_1_0_0_1_wf : ScatterDims.WF S65536x256 S131072x1 S131072x256 [1] [0] [0] 1
  scatter_S16384x256_S65536x1_S65536x256_1_0_0_1_wf : ScatterDims.WF S16384x256 S65536x1 S65536x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S65536x128.size a
  hwx0_0 : ∀ i : grid0.Coords, EltTy.bits .f32 = 32 ∨ (Rect.block (s := S65536x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S65536x128.size a
  hwx0_3 : ∀ i : grid0.Coords, EltTy.bits .f32 = 32 ∨ (Rect.block (s := S65536x128) S1024x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S65536x256.size a
  hwx0_4 : ∀ i : grid0.Coords, EltTy.bits .f32 = 32 ∨ (Rect.block (s := S65536x256) S1024x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S65536x256.size a
  hwx0_5 : ∀ i : grid0.Coords, EltTy.bits .f32 = 32 ∨ (Rect.block (s := S65536x256) S1024x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S16384x128.size a
  hwx1_0 : ∀ i : grid1.Coords, EltTy.bits .f32 = 32 ∨ (Rect.block (s := S16384x128) S1024x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x512.size a ≤ S128x512.size a
  hwx1_1 : ∀ i : grid1.Coords, EltTy.bits .f32 = 32 ∨ (Rect.block (s := S128x512) S128x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x128.size a ≤ S16384x128.size a
  hwx1_3 : ∀ i : grid1.Coords, EltTy.bits .f32 = 32 ∨ (Rect.block (s := S16384x128) S1024x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x128.size a ≤ S16384x128.size a
  hwx1_4 : ∀ i : grid1.Coords, EltTy.bits .f32 = 32 ∨ (Rect.block (s := S16384x128) S1024x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x256.size a ≤ S16384x256.size a
  hwx1_5 : ∀ i : grid1.Coords, EltTy.bits .f32 = 32 ∨ (Rect.block (s := S16384x256) S1024x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x128.size a ≤ S131072x128.size a
  hwx2_0 : ∀ i : grid2.Coords, EltTy.bits .f32 = 32 ∨ (Rect.block (s := S131072x128) S1024x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x128.size a ≤ S131072x256.size a
  hwx2_1 : ∀ i : grid2.Coords, EltTy.bits .f32 = 32 ∨ (Rect.block (s := S131072x256) S1024x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x256.size a ≤ S131072x256.size a
  hwx2_2 : ∀ i : grid2.Coords, EltTy.bits .f32 = 32 ∨ (Rect.block (s := S131072x256) S1024x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1024x128.size a ≤ S131072x128.size a
  hwx2_7 : ∀ i : grid2.Coords, EltTy.bits .f32 = 32 ∨ (Rect.block (s := S131072x128) S1024x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S1024x256.size a ≤ S131072x256.size a
  hwx2_8 : ∀ i : grid2.Coords, EltTy.bits .f32 = 32 ∨ (Rect.block (s := S131072x256) S1024x256.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x128.size a ≤ S65536x128.size a
  hwx3_0 : ∀ i : grid3.Coords, EltTy.bits .f32 = 32 ∨ (Rect.block (s := S65536x128) S1024x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x128.size a ≤ S65536x128.size a
  hwx3_1 : ∀ i : grid3.Coords, EltTy.bits .f32 = 32 ∨ (Rect.block (s := S65536x128) S1024x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x256.size a ≤ S65536x256.size a
  hwx3_2 : ∀ i : grid3.Coords, EltTy.bits .f32 = 32 ∨ (Rect.block (s := S65536x256) S1024x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1024x128.size a ≤ S65536x128.size a
  hwx3_5 : ∀ i : grid3.Coords, EltTy.bits .f32 = 32 ∨ (Rect.block (s := S65536x128) S1024x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x128.size a ≤ S65536x128.size a
  hwx4_0 : ∀ i : grid4.Coords, EltTy.bits .f32 = 32 ∨ (Rect.block (s := S65536x128) S1024x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x128.size a ≤ S65536x128.size a
  hwx4_1 : ∀ i : grid4.Coords, EltTy.bits .f32 = 32 ∨ (Rect.block (s := S65536x128) S1024x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x256.size a ≤ S65536x256.size a
  hwx4_2 : ∀ i : grid4.Coords, EltTy.bits .f32 = 32 ∨ (Rect.block (s := S65536x256) S1024x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S1024x128.size a ≤ S65536x128.size a
  hwx4_7 : ∀ i : grid4.Coords, EltTy.bits .f32 = 32 ∨ (Rect.block (s := S65536x128) S1024x128.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S1024x256.size a ≤ S65536x256.size a
  hwx4_8 : ∀ i : grid4.Coords, EltTy.bits .f32 = 32 ∨ (Rect.block (s := S65536x256) S1024x256.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x128.size a ≤ S65536x128.size a
  hwx5_0 : ∀ i : grid5.Coords, EltTy.bits .f32 = 32 ∨ (Rect.block (s := S65536x128) S1024x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x512.size a ≤ S128x512.size a
  hwx5_1 : ∀ i : grid5.Coords, EltTy.bits .f32 = 32 ∨ (Rect.block (s := S128x512) S128x512.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x512.size a ≤ S1x512.size a
  hwx5_2 : ∀ i : grid5.Coords, EltTy.bits .f32 = 32 ∨ (Rect.block (s := S1x512) S1x512.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1024x128.size a ≤ S65536x128.size a
  hwx5_3 : ∀ i : grid5.Coords, EltTy.bits .f32 = 32 ∨ (Rect.block (s := S65536x128) S1024x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S1024x256.size a ≤ S65536x256.size a
  hwx5_4 : ∀ i : grid5.Coords, EltTy.bits .f32 = 32 ∨ (Rect.block (s := S65536x256) S1024x256.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S1024x256.size a ≤ S65536x256.size a
  hwx5_5 : ∀ i : grid5.Coords, EltTy.bits .f32 = 32 ∨ (Rect.block (s := S65536x256) S1024x256.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1024x128.size a ≤ S16384x128.size a
  hwx6_0 : ∀ i : grid6.Coords, EltTy.bits .f32 = 32 ∨ (Rect.block (s := S16384x128) S1024x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1024x128.size a ≤ S16384x128.size a
  hwx6_1 : ∀ i : grid6.Coords, EltTy.bits .f32 = 32 ∨ (Rect.block (s := S16384x128) S1024x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1024x256.size a ≤ S16384x256.size a
  hwx6_2 : ∀ i : grid6.Coords, EltTy.bits .f32 = 32 ∨ (Rect.block (s := S16384x256) S1024x256.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S1024x128.size a ≤ S16384x128.size a
  hwx6_5 : ∀ i : grid6.Coords, EltTy.bits .f32 = 32 ∨ (Rect.block (s := S16384x128) S1024x128.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1024x128.size a ≤ S16384x128.size a
  hwx7_0 : ∀ i : grid7.Coords, EltTy.bits .f32 = 32 ∨ (Rect.block (s := S16384x128) S1024x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x512.size a ≤ S128x512.size a
  hwx7_1 : ∀ i : grid7.Coords, EltTy.bits .f32 = 32 ∨ (Rect.block (s := S128x512) S128x512.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x512.size a ≤ S1x512.size a
  hwx7_2 : ∀ i : grid7.Coords, EltTy.bits .f32 = 32 ∨ (Rect.block (s := S1x512) S1x512.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S1024x128.size a ≤ S16384x128.size a
  hwx7_3 : ∀ i : grid7.Coords, EltTy.bits .f32 = 32 ∨ (Rect.block (s := S16384x128) S1024x128.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S1024x128.size a ≤ S16384x128.size a
  hwx7_4 : ∀ i : grid7.Coords, EltTy.bits .f32 = 32 ∨ (Rect.block (s := S16384x128) S1024x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S1024x256.size a ≤ S16384x256.size a
  hwx7_5 : ∀ i : grid7.Coords, EltTy.bits .f32 = 32 ∨ (Rect.block (s := S16384x256) S1024x256.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1024x128.size a ≤ S131072x128.size a
  hwx8_0 : ∀ i : grid8.Coords, EltTy.bits .f32 = 32 ∨ (Rect.block (s := S131072x128) S1024x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S1024x128.size a ≤ S131072x256.size a
  hwx8_1 : ∀ i : grid8.Coords, EltTy.bits .f32 = 32 ∨ (Rect.block (s := S131072x256) S1024x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S1024x256.size a ≤ S131072x256.size a
  hwx8_2 : ∀ i : grid8.Coords, EltTy.bits .f32 = 32 ∨ (Rect.block (s := S131072x256) S1024x256.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S128x128.size a ≤ S128x128.size a
  hwx8_3 : ∀ i : grid8.Coords, EltTy.bits .f32 = 32 ∨ (Rect.block (s := S128x128) S128x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x128.size a ≤ S1x128.size a
  hwx8_5 : ∀ i : grid8.Coords, EltTy.bits .f32 = 32 ∨ (Rect.block (s := S1x128) S1x128.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1x128.size a ≤ S1x128.size a
  hwx8_6 : ∀ i : grid8.Coords, EltTy.bits .f32 = 32 ∨ (Rect.block (s := S1x128) S1x128.size (cc8_transform_6 i) (hinb8_6 i)).WholeWords (EltTy.packing .f32)
  hstage8_7 : ∀ j, (stage8_7 j).IsWhole
  nbuf8_7 : grid8.bufCount reads8_7 false = 2
  hreads8_7 : ∀ i i' : grid8.Coords, (∀ a, reads8_7 a = true → i a = i' a) → cc8_transform_7 i = cc8_transform_7 i'
  hinb8_7 : ∀ (i : grid8.Coords) a, (cc8_transform_7 i a + 1) * S1024x128.size a ≤ S131072x128.size a
  hwx8_7 : ∀ i : grid8.Coords, EltTy.bits .f32 = 32 ∨ (Rect.block (s := S131072x128) S1024x128.size (cc8_transform_7 i) (hinb8_7 i)).WholeWords (EltTy.packing .f32)
  hstage8_8 : ∀ j, (stage8_8 j).IsWhole
  nbuf8_8 : grid8.bufCount reads8_8 false = 2
  hreads8_8 : ∀ i i' : grid8.Coords, (∀ a, reads8_8 a = true → i a = i' a) → cc8_transform_8 i = cc8_transform_8 i'
  hinb8_8 : ∀ (i : grid8.Coords) a, (cc8_transform_8 i a + 1) * S1024x256.size a ≤ S131072x256.size a
  hwx8_8 : ∀ i : grid8.Coords, EltTy.bits .f32 = 32 ∨ (Rect.block (s := S131072x256) S1024x256.size (cc8_transform_8 i) (hinb8_8 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S1024x128.size a ≤ S65536x128.size a
  hwx9_0 : ∀ i : grid9.Coords, EltTy.bits .f32 = 32 ∨ (Rect.block (s := S65536x128) S1024x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S1024x128.size a ≤ S65536x128.size a
  hwx9_1 : ∀ i : grid9.Coords, EltTy.bits .f32 = 32 ∨ (Rect.block (s := S65536x128) S1024x128.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S1024x256.size a ≤ S65536x256.size a
  hwx9_2 : ∀ i : grid9.Coords, EltTy.bits .f32 = 32 ∨ (Rect.block (s := S65536x256) S1024x256.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x128.size a ≤ S1x128.size a
  hwx9_4 : ∀ i : grid9.Coords, EltTy.bits .f32 = 32 ∨ (Rect.block (s := S1x128) S1x128.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S1024x128.size a ≤ S65536x128.size a
  hwx9_5 : ∀ i : grid9.Coords, EltTy.bits .f32 = 32 ∨ (Rect.block (s := S65536x128) S1024x128.size (cc9_transform_5 i) (hinb9_5 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S1024x128.size a ≤ S65536x128.size a
  hwx10_0 : ∀ i : grid10.Coords, EltTy.bits .f32 = 32 ∨ (Rect.block (s := S65536x128) S1024x128.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S1024x128.size a ≤ S65536x128.size a
  hwx10_1 : ∀ i : grid10.Coords, EltTy.bits .f32 = 32 ∨ (Rect.block (s := S65536x128) S1024x128.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S1024x256.size a ≤ S65536x256.size a
  hwx10_2 : ∀ i : grid10.Coords, EltTy.bits .f32 = 32 ∨ (Rect.block (s := S65536x256) S1024x256.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S128x128.size a ≤ S128x128.size a
  hwx10_3 : ∀ i : grid10.Coords, EltTy.bits .f32 = 32 ∨ (Rect.block (s := S128x128) S128x128.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x128.size a ≤ S1x128.size a
  hwx10_4 : ∀ i : grid10.Coords, EltTy.bits .f32 = 32 ∨ (Rect.block (s := S1x128) S1x128.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S1x128.size a ≤ S1x128.size a
  hwx10_5 : ∀ i : grid10.Coords, EltTy.bits .f32 = 32 ∨ (Rect.block (s := S1x128) S1x128.size (cc10_transform_5 i) (hinb10_5 i)).WholeWords (EltTy.packing .f32)
  hstage10_6 : ∀ j, (stage10_6 j).IsWhole
  nbuf10_6 : grid10.bufCount reads10_6 true = 1
  hreads10_6 : ∀ i i' : grid10.Coords, (∀ a, reads10_6 a = true → i a = i' a) → cc10_transform_6 i = cc10_transform_6 i'
  hinb10_6 : ∀ (i : grid10.Coords) a, (cc10_transform_6 i a + 1) * S1x128.size a ≤ S1x128.size a
  hwx10_6 : ∀ i : grid10.Coords, EltTy.bits .f32 = 32 ∨ (Rect.block (s := S1x128) S1x128.size (cc10_transform_6 i) (hinb10_6 i)).WholeWords (EltTy.packing .f32)
  hstage10_7 : ∀ j, (stage10_7 j).IsWhole
  nbuf10_7 : grid10.bufCount reads10_7 false = 2
  hreads10_7 : ∀ i i' : grid10.Coords, (∀ a, reads10_7 a = true → i a = i' a) → cc10_transform_7 i = cc10_transform_7 i'
  hinb10_7 : ∀ (i : grid10.Coords) a, (cc10_transform_7 i a + 1) * S1024x128.size a ≤ S65536x128.size a
  hwx10_7 : ∀ i : grid10.Coords, EltTy.bits .f32 = 32 ∨ (Rect.block (s := S65536x128) S1024x128.size (cc10_transform_7 i) (hinb10_7 i)).WholeWords (EltTy.packing .f32)
  hstage10_8 : ∀ j, (stage10_8 j).IsWhole
  nbuf10_8 : grid10.bufCount reads10_8 false = 2
  hreads10_8 : ∀ i i' : grid10.Coords, (∀ a, reads10_8 a = true → i a = i' a) → cc10_transform_8 i = cc10_transform_8 i'
  hinb10_8 : ∀ (i : grid10.Coords) a, (cc10_transform_8 i a + 1) * S1024x256.size a ≤ S65536x256.size a
  hwx10_8 : ∀ i : grid10.Coords, EltTy.bits .f32 = 32 ∨ (Rect.block (s := S65536x256) S1024x256.size (cc10_transform_8 i) (hinb10_8 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S1024x128.size a ≤ S16384x128.size a
  hwx11_0 : ∀ i : grid11.Coords, EltTy.bits .f32 = 32 ∨ (Rect.block (s := S16384x128) S1024x128.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S1024x128.size a ≤ S16384x128.size a
  hwx11_1 : ∀ i : grid11.Coords, EltTy.bits .f32 = 32 ∨ (Rect.block (s := S16384x128) S1024x128.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S1024x256.size a ≤ S16384x256.size a
  hwx11_2 : ∀ i : grid11.Coords, EltTy.bits .f32 = 32 ∨ (Rect.block (s := S16384x256) S1024x256.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x128.size a ≤ S1x128.size a
  hwx11_3 : ∀ i : grid11.Coords, EltTy.bits .f32 = 32 ∨ (Rect.block (s := S1x128) S1x128.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x128.size a ≤ S1x128.size a
  hwx11_4 : ∀ i : grid11.Coords, EltTy.bits .f32 = 32 ∨ (Rect.block (s := S1x128) S1x128.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S1024x128.size a ≤ S16384x128.size a
  hwx11_5 : ∀ i : grid11.Coords, EltTy.bits .f32 = 32 ∨ (Rect.block (s := S16384x128) S1024x128.size (cc11_transform_5 i) (hinb11_5 i)).WholeWords (EltTy.packing .f32)

variable [Facts₀]

def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf
def gather_S65536x256_S131072x1_S131072x256_1_0_n_n_0_1_1256 : GatherDims S65536x256 S131072x1 S131072x256 where
  offsetDims := [1]
  collapsedSliceDims := [0]
  operandBatchingDims := []
  startIndicesBatchingDims := []
  startIndexMap := [0]
  indexVectorDim := 1
  sliceSizes := ![1, 256]
  wf := gather_S65536x256_S131072x1_S131072x256_1_0_n_n_0_1_1256_wf
def gather_S16384x128_S65536x1_S65536x128_1_0_n_n_0_1_1128 : GatherDims S16384x128 S65536x1 S65536x128 where
  offsetDims := [1]
  collapsedSliceDims := [0]
  operandBatchingDims := []
  startIndicesBatchingDims := []
  startIndexMap := [0]
  indexVectorDim := 1
  sliceSizes := ![1, 128]
  wf := gather_S16384x128_S65536x1_S65536x128_1_0_n_n_0_1_1128_wf
def gather_S16384x256_S65536x1_S65536x256_1_0_n_n_0_1_1256 : GatherDims S16384x256 S65536x1 S65536x256 where
  offsetDims := [1]
  collapsedSliceDims := [0]
  operandBatchingDims := []
  startIndicesBatchingDims := []
  startIndexMap := [0]
  indexVectorDim := 1
  sliceSizes := ![1, 256]
  wf := gather_S16384x256_S65536x1_S65536x256_1_0_n_n_0_1_1256_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def scatter_S65536x256_S131072x1_S131072x256_1_0_0_1 : ScatterDims S65536x256 S131072x1 S131072x256 where
  updateWindowDims := [1]
  insertedWindowDims := [0]
  scatterDimsToOperandDims := [0]
  indexVectorDim := 1
  wf := scatter_S65536x256_S131072x1_S131072x256_1_0_0_1_wf
def scatter_S16384x256_S65536x1_S65536x256_1_0_0_1 : ScatterDims S16384x256 S65536x1 S65536x256 where
  updateWindowDims := [1]
  insertedWindowDims := [0]
  scatterDimsToOperandDims := [0]
  indexVectorDim := 1
  wf := scatter_S16384x256_S65536x1_S65536x256_1_0_0_1_wf

abbrev win0_0 : Pipeline.Window sig grid0 :=
  Pipeline.Window.ofSpec (Memref.whole main_arg1) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11_0) S1024x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11_1) S1024x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v11_2) S1024x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S128x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29_0) S1024x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v29_1) S1024x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v29_2) S1024x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_arg2) S1024x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S1024x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v25) S1024x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg13) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v45) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg17) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg18) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v46_0) S1024x128.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v46_1) S1024x256.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_arg1) S1024x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v11_0) S1024x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v49) S1024x256.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg15) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg16) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v50) S1024x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v50) S1024x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v36) S1024x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v43) S1024x256.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg41) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v52) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg45) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_arg46) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v53_0) S1024x128.size cc4_transform_7 reads4_7 true false 2 stage4_7 sem4_7
    hrank4 hreads4_7 hinb4_7 nbuf4_7 (Memref.isWhole_whole _) hwx4_7 hstage4_7

abbrev win4_8 : Pipeline.Window sig grid4 :=
  Pipeline.Window.ofSpec (Memref.whole main_v53_1) S1024x256.size cc4_transform_8 reads4_8 true false 2 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev win5_0 : Pipeline.Window sig grid5 :=
  Pipeline.Window.ofSpec (Memref.whole main_v53_0) S1024x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v54) S128x512.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v56) S1x512.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v57_0) S1024x128.size cc5_transform_3 reads5_3 true false 2 stage5_3 sem5_3
    hrank5 hreads5_3 hinb5_3 nbuf5_3 (Memref.isWhole_whole _) hwx5_3 hstage5_3

abbrev win5_4 : Pipeline.Window sig grid5 :=
  Pipeline.Window.ofSpec (Memref.whole main_v57_1) S1024x256.size cc5_transform_4 reads5_4 true false 2 stage5_4 sem5_4
    hrank5 hreads5_4 hinb5_4 nbuf5_4 (Memref.isWhole_whole _) hwx5_4 hstage5_4

abbrev win5_5 : Pipeline.Window sig grid5 :=
  Pipeline.Window.ofSpec (Memref.whole main_v57_2) S1024x256.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_arg0) S1024x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v29_0) S1024x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v74) S1024x256.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_arg43) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_arg44) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v75) S1024x128.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v75) S1024x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v76) S128x512.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v78) S1x512.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v79_0) S1024x128.size cc7_transform_3 reads7_3 true false 2 stage7_3 sem7_3
    hrank7 hreads7_3 hinb7_3 nbuf7_3 (Memref.isWhole_whole _) hwx7_3 hstage7_3

abbrev win7_4 : Pipeline.Window sig grid7 :=
  Pipeline.Window.ofSpec (Memref.whole main_v79_1) S1024x128.size cc7_transform_4 reads7_4 true false 2 stage7_4 sem7_4
    hrank7 hreads7_4 hinb7_4 nbuf7_4 (Memref.isWhole_whole _) hwx7_4 hstage7_4

abbrev win7_5 : Pipeline.Window sig grid7 :=
  Pipeline.Window.ofSpec (Memref.whole main_v79_2) S1024x256.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v46_0) S1024x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v64) S1024x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v71) S1024x256.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_arg27) S128x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v95) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_arg31) S1x128.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_arg32) S1x128.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_v96_0) S1024x128.size cc8_transform_7 reads8_7 true false 2 stage8_7 sem8_7
    hrank8 hreads8_7 hinb8_7 nbuf8_7 (Memref.isWhole_whole _) hwx8_7 hstage8_7

abbrev win8_8 : Pipeline.Window sig grid8 :=
  Pipeline.Window.ofSpec (Memref.whole main_v96_1) S1024x256.size cc8_transform_8 reads8_8 true false 2 stage8_8 sem8_8
    hrank8 hreads8_8 hinb8_8 nbuf8_8 (Memref.isWhole_whole _) hwx8_8 hstage8_8

abbrev win8 : Fin 9 → Pipeline.Window sig grid8 := fun | 0 => win8_0 | 1 => win8_1 | 2 => win8_2 | 3 => win8_3 | 4 => win8_4 | 5 => win8_5 | 6 => win8_6 | 7 => win8_7 | 8 => win8_8 | ⟨_ + 9, h⟩ => absurd h (Nat.not_lt.2 (Nat.le_add_left _ _))
abbrev spec8 : Fin 9 → Pipeline.WinSpec sig grid8.rank := fun w => (win8 w).toWinSpec

abbrev win9_0 : Pipeline.Window sig grid9 :=
  Pipeline.Window.ofSpec (Memref.whole main_v53_0) S1024x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v57_0) S1024x128.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v99) S1024x256.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_arg29) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_arg30) S1x128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v100) S1024x128.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_v100) S1024x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v86) S1024x128.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v93) S1024x256.size cc10_transform_2 reads10_2 false false 2 stage10_2 sem10_2
    hrank10 hreads10_2 hinb10_2 nbuf10_2 (Memref.isWhole_whole _) hwx10_2 hstage10_2

abbrev win10_3 : Pipeline.Window sig grid10 :=
  Pipeline.Window.ofSpec (Memref.whole main_arg55) S128x128.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v102) S1x128.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_arg59) S1x128.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_arg60) S1x128.size cc10_transform_6 reads10_6 false true 1 stage10_6 sem10_6
    hrank10 hreads10_6 hinb10_6 nbuf10_6 (Memref.isWhole_whole _) hwx10_6 hstage10_6

abbrev win10_7 : Pipeline.Window sig grid10 :=
  Pipeline.Window.ofSpec (Memref.whole main_v103_0) S1024x128.size cc10_transform_7 reads10_7 true false 2 stage10_7 sem10_7
    hrank10 hreads10_7 hinb10_7 nbuf10_7 (Memref.isWhole_whole _) hwx10_7 hstage10_7

abbrev win10_8 : Pipeline.Window sig grid10 :=
  Pipeline.Window.ofSpec (Memref.whole main_v103_1) S1024x256.size cc10_transform_8 reads10_8 true false 2 stage10_8 sem10_8
    hrank10 hreads10_8 hinb10_8 nbuf10_8 (Memref.isWhole_whole _) hwx10_8 hstage10_8

abbrev win10 : Fin 9 → Pipeline.Window sig grid10 := fun | 0 => win10_0 | 1 => win10_1 | 2 => win10_2 | 3 => win10_3 | 4 => win10_4 | 5 => win10_5 | 6 => win10_6 | 7 => win10_7 | 8 => win10_8 | ⟨_ + 9, h⟩ => absurd h (Nat.not_lt.2 (Nat.le_add_left _ _))
abbrev spec10 : Fin 9 → Pipeline.WinSpec sig grid10.rank := fun w => (win10 w).toWinSpec

abbrev win11_0 : Pipeline.Window sig grid11 :=
  Pipeline.Window.ofSpec (Memref.whole main_v75) S1024x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v79_0) S1024x128.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v106) S1024x256.size cc11_transform_2 reads11_2 false false 2 stage11_2 sem11_2
    hrank11 hreads11_2 hinb11_2 nbuf11_2 (Memref.isWhole_whole _) hwx11_2 hstage11_2

abbrev win11_3 : Pipeline.Window sig grid11 :=
  Pipeline.Window.ofSpec (Memref.whole main_arg57) S1x128.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_arg58) S1x128.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v107) S1024x128.size cc11_transform_5 reads11_5 true false 2 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

class Facts : Prop extends Facts₀ where

variable [Facts]
-- ==== ReferenceIdeal.lean ====
abbrev S16384x128 : Shape := ⟨2, ![16384, 128]⟩
abbrev S65536x128 : Shape := ⟨2, ![65536, 128]⟩
abbrev S131072x128 : Shape := ⟨2, ![131072, 128]⟩
abbrev S2x65536 : Shape := ⟨2, ![2, 65536]⟩
abbrev S2x131072 : Shape := ⟨2, ![2, 131072]⟩
abbrev S128x128 : Shape := ⟨2, ![128, 128]⟩
abbrev S1x128 : Shape := ⟨2, ![1, 128]⟩
abbrev S1x131072 : Shape := ⟨2, ![1, 131072]⟩
abbrev S131072 : Shape := ⟨1, ![131072]⟩
abbrev S256x128 : Shape := ⟨2, ![256, 128]⟩
abbrev S_ : Shape := ⟨0, ![]⟩
abbrev S131072x1 : Shape := ⟨2, ![131072, 1]⟩
abbrev S1 : Shape := ⟨1, ![1]⟩
abbrev S1x1 : Shape := ⟨2, ![1, 1]⟩
abbrev S256 : Shape := ⟨1, ![256]⟩
abbrev S256x1 : Shape := ⟨2, ![256, 1]⟩
abbrev S1x65536 : Shape := ⟨2, ![1, 65536]⟩
abbrev S65536 : Shape := ⟨1, ![65536]⟩
abbrev S65536x1 : Shape := ⟨2, ![65536, 1]⟩

abbrev nBuf : Space → Nat
  | .hbm => 409
  | .vmem => 176
  | .smem => 0
  | _ => 0

abbrev hbmTy0_0 (i : Nat) : BufTy := match i % 128 with
  | 0 => ⟨S16384x128, .f32⟩
  | 1 => ⟨S65536x128, .f32⟩
  | 2 => ⟨S131072x128, .f32⟩
  | 3 => ⟨S2x65536, .i32⟩
  | 4 => ⟨S2x131072, .i32⟩
  | 5 => ⟨S128x128, .f32⟩
  | 6 => ⟨S1x128, .f32⟩
  | 7 => ⟨S128x128, .f32⟩
  | 8 => ⟨S1x128, .f32⟩
  | 9 => ⟨S128x128, .f32⟩
  | 10 => ⟨S1x128, .f32⟩
  | 11 => ⟨S128x128, .f32⟩
  | 12 => ⟨S1x128, .f32⟩
  | 13 => ⟨S128x128, .f32⟩
  | 14 => ⟨S1x128, .f32⟩
  | 15 => ⟨S1x128, .f32⟩
  | 16 => ⟨S1x128, .f32⟩
  | 17 => ⟨S1x128, .f32⟩
  | 18 => ⟨S1x128, .f32⟩
  | 19 => ⟨S128x128, .f32⟩
  | 20 => ⟨S1x128, .f32⟩
  | 21 => ⟨S128x128, .f32⟩
  | 22 => ⟨S1x128, .f32⟩
  | 23 => ⟨S128x128, .f32⟩
  | 24 => ⟨S1x128, .f32⟩
  | 25 => ⟨S128x128, .f32⟩
  | 26 => ⟨S1x128, .f32⟩
  | 27 => ⟨S128x128, .f32⟩
  | 28 => ⟨S1x128, .f32⟩
  | 29 => ⟨S1x128, .f32⟩
  | 30 => ⟨S1x128, .f32⟩
  | 31 => ⟨S1x128, .f32⟩
  | 32 => ⟨S1x128, .f32⟩
  | 33 => ⟨S128x128, .f32⟩
  | 34 => ⟨S1x128, .f32⟩
  | 35 => ⟨S128x128, .f32⟩
  | 36 => ⟨S1x128, .f32⟩
  | 37 => ⟨S128x128, .f32⟩
  | 38 => ⟨S1x128, .f32⟩
  | 39 => ⟨S128x128, .f32⟩
  | 40 => ⟨S1x128, .f32⟩
  | 41 => ⟨S128x128, .f32⟩
  | 42 => ⟨S1x128, .f32⟩
  | 43 => ⟨S1x128, .f32⟩
  | 44 => ⟨S1x128, .f32⟩
  | 45 => ⟨S1x128, .f32⟩
  | 46 => ⟨S1x128, .f32⟩
  | 47 => ⟨S128x128, .f32⟩
  | 48 => ⟨S1x128, .f32⟩
  | 49 => ⟨S128x128, .f32⟩
  | 50 => ⟨S1x128, .f32⟩
  | 51 => ⟨S128x128, .f32⟩
  | 52 => ⟨S1x128, .f32⟩
  | 53 => ⟨S128x128, .f32⟩
  | 54 => ⟨S1x128, .f32⟩
  | 55 => ⟨S128x128, .f32⟩
  | 56 => ⟨S1x128, .f32⟩
  | 57 => ⟨S1x128, .f32⟩
  | 58 => ⟨S1x128, .f32⟩
  | 59 => ⟨S1x128, .f32⟩
  | 60 => ⟨S1x128, .f32⟩
  | 61 => ⟨S1x131072, .i32⟩
  | 62 => ⟨S131072, .i32⟩
  | 63 => ⟨S1x131072, .i32⟩
  | 64 => ⟨S131072, .i32⟩
  | 65 => ⟨S65536x128, .f32⟩
  | 66 => ⟨S65536x128, .f32⟩
  | 67 => ⟨S_, .i32⟩
  | 68 => ⟨S131072, .i32⟩
  | 69 => ⟨S131072, .i1⟩
  | 70 => ⟨S_, .i32⟩
  | 71 => ⟨S131072, .i32⟩
  | 72 => ⟨S131072, .i32⟩
  | 73 => ⟨S131072, .i32⟩
  | 74 => ⟨S131072x1, .i32⟩
  | 75 => ⟨S1, .i32⟩
  | 76 => ⟨S_, .i32⟩
  | 77 => ⟨S131072x1, .i32⟩
  | 78 => ⟨S131072x1, .i1⟩
  | 79 => ⟨S1x1, .i32⟩
  | 80 => ⟨S131072x1, .i32⟩
  | 81 => ⟨S131072x1, .i1⟩
  | 82 => ⟨S131072x1, .i1⟩
  | 83 => ⟨S_, .i1⟩
  | 84 => ⟨S131072, .i1⟩
  | 85 => ⟨S131072x128, .f32⟩
  | 86 => ⟨S131072x128, .i1⟩
  | 87 => ⟨S_, .f32⟩
  | 88 => ⟨S131072x128, .f32⟩
  | 89 => ⟨S131072x128, .f32⟩
  | 90 => ⟨S_, .i32⟩
  | 91 => ⟨S131072, .i32⟩
  | 92 => ⟨S131072, .i1⟩
  | 93 => ⟨S_, .i32⟩
  | 94 => ⟨S131072, .i32⟩
  | 95 => ⟨S131072, .i32⟩
  | 96 => ⟨S131072, .i32⟩
  | 97 => ⟨S131072x1, .i32⟩
  | 98 => ⟨S1, .i32⟩
  | 99 => ⟨S_, .i32⟩
  | 100 => ⟨S131072x1, .i32⟩
  | 101 => ⟨S131072x1, .i1⟩
  | 102 => ⟨S1x1, .i32⟩
  | 103 => ⟨S131072x1, .i32⟩
  | 104 => ⟨S131072x1, .i1⟩
  | 105 => ⟨S131072x1, .i1⟩
  | 106 => ⟨S_, .i1⟩
  | 107 => ⟨S131072, .i1⟩
  | 108 => ⟨S131072x128, .f32⟩
  | 109 => ⟨S131072x128, .i1⟩
  | 110 => ⟨S_, .f32⟩
  | 111 => ⟨S131072x128, .f32⟩
  | 112 => ⟨S131072x128, .f32⟩
  | 113 => ⟨S_, .i32⟩
  | 114 => ⟨S131072, .i32⟩
  | 115 => ⟨S131072, .i1⟩
  | 116 => ⟨S_, .i32⟩
  | 117 => ⟨S131072, .i32⟩
  | 118 => ⟨S131072, .i32⟩
  | 119 => ⟨S131072, .i32⟩
  | 120 => ⟨S131072x1, .i32⟩
  | 121 => ⟨S1, .i32⟩
  | 122 => ⟨S_, .i32⟩
  | 123 => ⟨S131072x1, .i32⟩
  | 124 => ⟨S131072x1, .i1⟩
  | 125 => ⟨S1x1, .i32⟩
  | 126 => ⟨S131072x1, .i32⟩
  | 127 => ⟨S131072x1, .i1⟩
  | _ => ⟨S16384x128, .f32⟩

abbrev hbmTy0_1 (i : Nat) : BufTy := match i % 128 with
  | 0 => ⟨S131072x1, .i1⟩
  | 1 => ⟨S_, .i1⟩
  | 2 => ⟨S131072, .i1⟩
  | 3 => ⟨S131072x128, .f32⟩
  | 4 => ⟨S131072x128, .i1⟩
  | 5 => ⟨S_, .f32⟩
  | 6 => ⟨S131072x128, .f32⟩
  | 7 => ⟨S131072x128, .f32⟩
  | 8 => ⟨S131072x128, .f32⟩
  | 9 => ⟨S131072x128, .f32⟩
  | 10 => ⟨S131072x128, .f32⟩
  | 11 => ⟨S_, .f32⟩
  | 12 => ⟨S65536x128, .f32⟩
  | 13 => ⟨S131072x1, .i32⟩
  | 14 => ⟨S65536x128, .f32⟩
  | 15 => ⟨S_, .f32⟩
  | 16 => ⟨S65536x128, .f32⟩
  | 17 => ⟨S131072x1, .i32⟩
  | 18 => ⟨S65536x128, .f32⟩
  | 19 => ⟨S65536x128, .f32⟩
  | 20 => ⟨S1x65536, .i32⟩
  | 21 => ⟨S65536, .i32⟩
  | 22 => ⟨S1x65536, .i32⟩
  | 23 => ⟨S65536, .i32⟩
  | 24 => ⟨S16384x128, .f32⟩
  | 25 => ⟨S16384x128, .f32⟩
  | 26 => ⟨S_, .i32⟩
  | 27 => ⟨S65536, .i32⟩
  | 28 => ⟨S65536, .i1⟩
  | 29 => ⟨S_, .i32⟩
  | 30 => ⟨S65536, .i32⟩
  | 31 => ⟨S65536, .i32⟩
  | 32 => ⟨S65536, .i32⟩
  | 33 => ⟨S65536x1, .i32⟩
  | 34 => ⟨S1, .i32⟩
  | 35 => ⟨S_, .i32⟩
  | 36 => ⟨S65536x1, .i32⟩
  | 37 => ⟨S65536x1, .i1⟩
  | 38 => ⟨S1x1, .i32⟩
  | 39 => ⟨S65536x1, .i32⟩
  | 40 => ⟨S65536x1, .i1⟩
  | 41 => ⟨S65536x1, .i1⟩
  | 42 => ⟨S_, .i1⟩
  | 43 => ⟨S65536, .i1⟩
  | 44 => ⟨S65536x128, .f32⟩
  | 45 => ⟨S65536x128, .i1⟩
  | 46 => ⟨S_, .f32⟩
  | 47 => ⟨S65536x128, .f32⟩
  | 48 => ⟨S65536x128, .f32⟩
  | 49 => ⟨S_, .i32⟩
  | 50 => ⟨S65536, .i32⟩
  | 51 => ⟨S65536, .i1⟩
  | 52 => ⟨S_, .i32⟩
  | 53 => ⟨S65536, .i32⟩
  | 54 => ⟨S65536, .i32⟩
  | 55 => ⟨S65536, .i32⟩
  | 56 => ⟨S65536x1, .i32⟩
  | 57 => ⟨S1, .i32⟩
  | 58 => ⟨S_, .i32⟩
  | 59 => ⟨S65536x1, .i32⟩
  | 60 => ⟨S65536x1, .i1⟩
  | 61 => ⟨S1x1, .i32⟩
  | 62 => ⟨S65536x1, .i32⟩
  | 63 => ⟨S65536x1, .i1⟩
  | 64 => ⟨S65536x1, .i1⟩
  | 65 => ⟨S_, .i1⟩
  | 66 => ⟨S65536, .i1⟩
  | 67 => ⟨S65536x128, .f32⟩
  | 68 => ⟨S65536x128, .i1⟩
  | 69 => ⟨S_, .f32⟩
  | 70 => ⟨S65536x128, .f32⟩
  | 71 => ⟨S65536x128, .f32⟩
  | 72 => ⟨S_, .i32⟩
  | 73 => ⟨S65536, .i32⟩
  | 74 => ⟨S65536, .i1⟩
  | 75 => ⟨S_, .i32⟩
  | 76 => ⟨S65536, .i32⟩
  | 77 => ⟨S65536, .i32⟩
  | 78 => ⟨S65536, .i32⟩
  | 79 => ⟨S65536x1, .i32⟩
  | 80 => ⟨S1, .i32⟩
  | 81 => ⟨S_, .i32⟩
  | 82 => ⟨S65536x1, .i32⟩
  | 83 => ⟨S65536x1, .i1⟩
  | 84 => ⟨S1x1, .i32⟩
  | 85 => ⟨S65536x1, .i32⟩
  | 86 => ⟨S65536x1, .i1⟩
  | 87 => ⟨S65536x1, .i1⟩
  | 88 => ⟨S_, .i1⟩
  | 89 => ⟨S65536, .i1⟩
  | 90 => ⟨S65536x128, .f32⟩
  | 91 => ⟨S65536x128, .i1⟩
  | 92 => ⟨S_, .f32⟩
  | 93 => ⟨S65536x128, .f32⟩
  | 94 => ⟨S65536x128, .f32⟩
  | 95 => ⟨S65536x128, .f32⟩
  | 96 => ⟨S65536x128, .f32⟩
  | 97 => ⟨S65536x128, .f32⟩
  | 98 => ⟨S_, .f32⟩
  | 99 => ⟨S16384x128, .f32⟩
  | 100 => ⟨S65536x1, .i32⟩
  | 101 => ⟨S16384x128, .f32⟩
  | 102 => ⟨S_, .f32⟩
  | 103 => ⟨S16384x128, .f32⟩
  | 104 => ⟨S65536x1, .i32⟩
  | 105 => ⟨S16384x128, .f32⟩
  | 106 => ⟨S16384x128, .f32⟩
  | 107 => ⟨S1x131072, .i32⟩
  | 108 => ⟨S131072, .i32⟩
  | 109 => ⟨S1x131072, .i32⟩
  | 110 => ⟨S131072, .i32⟩
  | 111 => ⟨S65536x128, .f32⟩
  | 112 => ⟨S65536x128, .f32⟩
  | 113 => ⟨S_, .i32⟩
  | 114 => ⟨S131072, .i32⟩
  | 115 => ⟨S131072, .i1⟩
  | 116 => ⟨S_, .i32⟩
  | 117 => ⟨S131072, .i32⟩
  | 118 => ⟨S131072, .i32⟩
  | 119 => ⟨S131072, .i32⟩
  | 120 => ⟨S131072x1, .i32⟩
  | 121 => ⟨S1, .i32⟩
  | 122 => ⟨S_, .i32⟩
  | 123 => ⟨S131072x1, .i32⟩
  | 124 => ⟨S131072x1, .i1⟩
  | 125 => ⟨S1x1, .i32⟩
  | 126 => ⟨S131072x1, .i32⟩
  | 127 => ⟨S131072x1, .i1⟩
  | _ => ⟨S16384x128, .f32⟩

abbrev hbmTy0_2 (i : Nat) : BufTy := match i % 128 with
  | 0 => ⟨S131072x1, .i1⟩
  | 1 => ⟨S_, .i1⟩
  | 2 => ⟨S131072, .i1⟩
  | 3 => ⟨S131072x128, .f32⟩
  | 4 => ⟨S131072x128, .i1⟩
  | 5 => ⟨S_, .f32⟩
  | 6 => ⟨S131072x128, .f32⟩
  | 7 => ⟨S131072x128, .f32⟩
  | 8 => ⟨S_, .i32⟩
  | 9 => ⟨S131072, .i32⟩
  | 10 => ⟨S131072, .i1⟩
  | 11 => ⟨S_, .i32⟩
  | 12 => ⟨S131072, .i32⟩
  | 13 => ⟨S131072, .i32⟩
  | 14 => ⟨S131072, .i32⟩
  | 15 => ⟨S131072x1, .i32⟩
  | 16 => ⟨S1, .i32⟩
  | 17 => ⟨S_, .i32⟩
  | 18 => ⟨S131072x1, .i32⟩
  | 19 => ⟨S131072x1, .i1⟩
  | 20 => ⟨S1x1, .i32⟩
  | 21 => ⟨S131072x1, .i32⟩
  | 22 => ⟨S131072x1, .i1⟩
  | 23 => ⟨S131072x1, .i1⟩
  | 24 => ⟨S_, .i1⟩
  | 25 => ⟨S131072, .i1⟩
  | 26 => ⟨S131072x128, .f32⟩
  | 27 => ⟨S131072x128, .i1⟩
  | 28 => ⟨S_, .f32⟩
  | 29 => ⟨S131072x128, .f32⟩
  | 30 => ⟨S131072x128, .f32⟩
  | 31 => ⟨S_, .i32⟩
  | 32 => ⟨S131072, .i32⟩
  | 33 => ⟨S131072, .i1⟩
  | 34 => ⟨S_, .i32⟩
  | 35 => ⟨S131072, .i32⟩
  | 36 => ⟨S131072, .i32⟩
  | 37 => ⟨S131072, .i32⟩
  | 38 => ⟨S131072x1, .i32⟩
  | 39 => ⟨S1, .i32⟩
  | 40 => ⟨S_, .i32⟩
  | 41 => ⟨S131072x1, .i32⟩
  | 42 => ⟨S131072x1, .i1⟩
  | 43 => ⟨S1x1, .i32⟩
  | 44 => ⟨S131072x1, .i32⟩
  | 45 => ⟨S131072x1, .i1⟩
  | 46 => ⟨S131072x1, .i1⟩
  | 47 => ⟨S_, .i1⟩
  | 48 => ⟨S131072, .i1⟩
  | 49 => ⟨S131072x128, .f32⟩
  | 50 => ⟨S131072x128, .i1⟩
  | 51 => ⟨S_, .f32⟩
  | 52 => ⟨S131072x128, .f32⟩
  | 53 => ⟨S131072x128, .f32⟩
  | 54 => ⟨S131072x128, .f32⟩
  | 55 => ⟨S131072x128, .f32⟩
  | 56 => ⟨S131072x128, .f32⟩
  | 57 => ⟨S_, .f32⟩
  | 58 => ⟨S65536x128, .f32⟩
  | 59 => ⟨S131072x1, .i32⟩
  | 60 => ⟨S65536x128, .f32⟩
  | 61 => ⟨S_, .f32⟩
  | 62 => ⟨S65536x128, .f32⟩
  | 63 => ⟨S131072x1, .i32⟩
  | 64 => ⟨S65536x128, .f32⟩
  | 65 => ⟨S65536x128, .f32⟩
  | 66 => ⟨S1x65536, .i32⟩
  | 67 => ⟨S65536, .i32⟩
  | 68 => ⟨S1x65536, .i32⟩
  | 69 => ⟨S65536, .i32⟩
  | 70 => ⟨S16384x128, .f32⟩
  | 71 => ⟨S16384x128, .f32⟩
  | 72 => ⟨S_, .i32⟩
  | 73 => ⟨S65536, .i32⟩
  | 74 => ⟨S65536, .i1⟩
  | 75 => ⟨S_, .i32⟩
  | 76 => ⟨S65536, .i32⟩
  | 77 => ⟨S65536, .i32⟩
  | 78 => ⟨S65536, .i32⟩
  | 79 => ⟨S65536x1, .i32⟩
  | 80 => ⟨S1, .i32⟩
  | 81 => ⟨S_, .i32⟩
  | 82 => ⟨S65536x1, .i32⟩
  | 83 => ⟨S65536x1, .i1⟩
  | 84 => ⟨S1x1, .i32⟩
  | 85 => ⟨S65536x1, .i32⟩
  | 86 => ⟨S65536x1, .i1⟩
  | 87 => ⟨S65536x1, .i1⟩
  | 88 => ⟨S_, .i1⟩
  | 89 => ⟨S65536, .i1⟩
  | 90 => ⟨S65536x128, .f32⟩
  | 91 => ⟨S65536x128, .i1⟩
  | 92 => ⟨S_, .f32⟩
  | 93 => ⟨S65536x128, .f32⟩
  | 94 => ⟨S65536x128, .f32⟩
  | 95 => ⟨S_, .i32⟩
  | 96 => ⟨S65536, .i32⟩
  | 97 => ⟨S65536, .i1⟩
  | 98 => ⟨S_, .i32⟩
  | 99 => ⟨S65536, .i32⟩
  | 100 => ⟨S65536, .i32⟩
  | 101 => ⟨S65536, .i32⟩
  | 102 => ⟨S65536x1, .i32⟩
  | 103 => ⟨S1, .i32⟩
  | 104 => ⟨S_, .i32⟩
  | 105 => ⟨S65536x1, .i32⟩
  | 106 => ⟨S65536x1, .i1⟩
  | 107 => ⟨S1x1, .i32⟩
  | 108 => ⟨S65536x1, .i32⟩
  | 109 => ⟨S65536x1, .i1⟩
  | 110 => ⟨S65536x1, .i1⟩
  | 111 => ⟨S_, .i1⟩
  | 112 => ⟨S65536, .i1⟩
  | 113 => ⟨S65536x128, .f32⟩
  | 114 => ⟨S65536x128, .i1⟩
  | 115 => ⟨S_, .f32⟩
  | 116 => ⟨S65536x128, .f32⟩
  | 117 => ⟨S65536x128, .f32⟩
  | 118 => ⟨S_, .i32⟩
  | 119 => ⟨S65536, .i32⟩
  | 120 => ⟨S65536, .i1⟩
  | 121 => ⟨S_, .i32⟩
  | 122 => ⟨S65536, .i32⟩
  | 123 => ⟨S65536, .i32⟩
  | 124 => ⟨S65536, .i32⟩
  | 125 => ⟨S65536x1, .i32⟩
  | 126 => ⟨S1, .i32⟩
  | 127 => ⟨S_, .i32⟩
  | _ => ⟨S16384x128, .f32⟩

abbrev hbmTy0_3 (i : Nat) : BufTy := match i % 128 with
  | 0 => ⟨S65536x1, .i32⟩
  | 1 => ⟨S65536x1, .i1⟩
  | 2 => ⟨S1x1, .i32⟩
  | 3 => ⟨S65536x1, .i32⟩
  | 4 => ⟨S65536x1, .i1⟩
  | 5 => ⟨S65536x1, .i1⟩
  | 6 => ⟨S_, .i1⟩
  | 7 => ⟨S65536, .i1⟩
  | 8 => ⟨S65536x128, .f32⟩
  | 9 => ⟨S65536x128, .i1⟩
  | 10 => ⟨S_, .f32⟩
  | 11 => ⟨S65536x128, .f32⟩
  | 12 => ⟨S65536x128, .f32⟩
  | 13 => ⟨S65536x128, .f32⟩
  | 14 => ⟨S65536x128, .f32⟩
  | 15 => ⟨S65536x128, .f32⟩
  | 16 => ⟨S_, .f32⟩
  | 17 => ⟨S16384x128, .f32⟩
  | 18 => ⟨S65536x1, .i32⟩
  | 19 => ⟨S16384x128, .f32⟩
  | 20 => ⟨S_, .f32⟩
  | 21 => ⟨S16384x128, .f32⟩
  | 22 => ⟨S65536x1, .i32⟩
  | 23 => ⟨S16384x128, .f32⟩
  | 24 => ⟨S16384x128, .f32⟩
  | _ => ⟨S16384x128, .f32⟩

abbrev hbmTy (i : Nat) : BufTy := match i / 128 with
  | 0 => hbmTy0_0 i
  | 1 => hbmTy0_1 i
  | 2 => hbmTy0_2 i
  | 3 => hbmTy0_3 i
  | _ => ⟨S16384x128, .f32⟩

abbrev vmemTy0_0 (i : Nat) : BufTy := match i % 128 with
  | 0 => ⟨S256x128, .f32⟩
  | 1 => ⟨S256x128, .f32⟩
  | 2 => ⟨S128x128, .f32⟩
  | 3 => ⟨S1x128, .f32⟩
  | 4 => ⟨S128x128, .f32⟩
  | 5 => ⟨S1x128, .f32⟩
  | 6 => ⟨S256x128, .f32⟩
  | 7 => ⟨S256x128, .f32⟩
  | 8 => ⟨S256x128, .f32⟩
  | 9 => ⟨S256x128, .f32⟩
  | 10 => ⟨S256x128, .f32⟩
  | 11 => ⟨S256x128, .f32⟩
  | 12 => ⟨S256x128, .f32⟩
  | 13 => ⟨S256x128, .f32⟩
  | 14 => ⟨S256x128, .f32⟩
  | 15 => ⟨S256x128, .f32⟩
  | 16 => ⟨S256x128, .f32⟩
  | 17 => ⟨S256x128, .f32⟩
  | 18 => ⟨S128x128, .f32⟩
  | 19 => ⟨S1x128, .f32⟩
  | 20 => ⟨S128x128, .f32⟩
  | 21 => ⟨S1x128, .f32⟩
  | 22 => ⟨S128x128, .f32⟩
  | 23 => ⟨S1x128, .f32⟩
  | 24 => ⟨S1x128, .f32⟩
  | 25 => ⟨S1x128, .f32⟩
  | 26 => ⟨S256x128, .f32⟩
  | 27 => ⟨S256x128, .f32⟩
  | 28 => ⟨S256x128, .f32⟩
  | 29 => ⟨S256x128, .f32⟩
  | 30 => ⟨S256x128, .f32⟩
  | 31 => ⟨S256x128, .f32⟩
  | 32 => ⟨S256x128, .f32⟩
  | 33 => ⟨S256x128, .f32⟩
  | 34 => ⟨S256x128, .f32⟩
  | 35 => ⟨S256x128, .f32⟩
  | 36 => ⟨S256x128, .f32⟩
  | 37 => ⟨S256x128, .f32⟩
  | 38 => ⟨S256x128, .f32⟩
  | 39 => ⟨S256x128, .f32⟩
  | 40 => ⟨S1x128, .f32⟩
  | 41 => ⟨S1x128, .f32⟩
  | 42 => ⟨S256x128, .f32⟩
  | 43 => ⟨S256x128, .f32⟩
  | 44 => ⟨S256x128, .f32⟩
  | 45 => ⟨S256x128, .f32⟩
  | 46 => ⟨S128x128, .f32⟩
  | 47 => ⟨S1x128, .f32⟩
  | 48 => ⟨S128x128, .f32⟩
  | 49 => ⟨S1x128, .f32⟩
  | 50 => ⟨S256x128, .f32⟩
  | 51 => ⟨S256x128, .f32⟩
  | 52 => ⟨S256x128, .f32⟩
  | 53 => ⟨S256x128, .f32⟩
  | 54 => ⟨S256x128, .f32⟩
  | 55 => ⟨S256x128, .f32⟩
  | 56 => ⟨S256x128, .f32⟩
  | 57 => ⟨S256x128, .f32⟩
  | 58 => ⟨S256x128, .f32⟩
  | 59 => ⟨S256x128, .f32⟩
  | 60 => ⟨S256x128, .f32⟩
  | 61 => ⟨S256x128, .f32⟩
  | 62 => ⟨S128x128, .f32⟩
  | 63 => ⟨S1x128, .f32⟩
  | 64 => ⟨S128x128, .f32⟩
  | 65 => ⟨S1x128, .f32⟩
  | 66 => ⟨S128x128, .f32⟩
  | 67 => ⟨S1x128, .f32⟩
  | 68 => ⟨S1x128, .f32⟩
  | 69 => ⟨S1x128, .f32⟩
  | 70 => ⟨S256x128, .f32⟩
  | 71 => ⟨S256x128, .f32⟩
  | 72 => ⟨S256x128, .f32⟩
  | 73 => ⟨S256x128, .f32⟩
  | 74 => ⟨S256x128, .f32⟩
  | 75 => ⟨S256x128, .f32⟩
  | 76 => ⟨S256x128, .f32⟩
  | 77 => ⟨S256x128, .f32⟩
  | 78 => ⟨S256x128, .f32⟩
  | 79 => ⟨S256x128, .f32⟩
  | 80 => ⟨S256x128, .f32⟩
  | 81 => ⟨S256x128, .f32⟩
  | 82 => ⟨S256x128, .f32⟩
  | 83 => ⟨S256x128, .f32⟩
  | 84 => ⟨S1x128, .f32⟩
  | 85 => ⟨S1x128, .f32⟩
  | 86 => ⟨S256x128, .f32⟩
  | 87 => ⟨S256x128, .f32⟩
  | 88 => ⟨S256x128, .f32⟩
  | 89 => ⟨S256x128, .f32⟩
  | 90 => ⟨S128x128, .f32⟩
  | 91 => ⟨S1x128, .f32⟩
  | 92 => ⟨S128x128, .f32⟩
  | 93 => ⟨S1x128, .f32⟩
  | 94 => ⟨S256x128, .f32⟩
  | 95 => ⟨S256x128, .f32⟩
  | 96 => ⟨S256x128, .f32⟩
  | 97 => ⟨S256x128, .f32⟩
  | 98 => ⟨S256x128, .f32⟩
  | 99 => ⟨S256x128, .f32⟩
  | 100 => ⟨S256x128, .f32⟩
  | 101 => ⟨S256x128, .f32⟩
  | 102 => ⟨S256x128, .f32⟩
  | 103 => ⟨S256x128, .f32⟩
  | 104 => ⟨S256x128, .f32⟩
  | 105 => ⟨S256x128, .f32⟩
  | 106 => ⟨S128x128, .f32⟩
  | 107 => ⟨S1x128, .f32⟩
  | 108 => ⟨S128x128, .f32⟩
  | 109 => ⟨S1x128, .f32⟩
  | 110 => ⟨S128x128, .f32⟩
  | 111 => ⟨S1x128, .f32⟩
  | 112 => ⟨S1x128, .f32⟩
  | 113 => ⟨S1x128, .f32⟩
  | 114 => ⟨S256x128, .f32⟩
  | 115 => ⟨S256x128, .f32⟩
  | 116 => ⟨S256x128, .f32⟩
  | 117 => ⟨S256x128, .f32⟩
  | 118 => ⟨S256x128, .f32⟩
  | 119 => ⟨S256x128, .f32⟩
  | 120 => ⟨S256x128, .f32⟩
  | 121 => ⟨S256x128, .f32⟩
  | 122 => ⟨S256x128, .f32⟩
  | 123 => ⟨S256x128, .f32⟩
  | 124 => ⟨S256x128, .f32⟩
  | 125 => ⟨S256x128, .f32⟩
  | 126 => ⟨S256x128, .f32⟩
  | 127 => ⟨S256x128, .f32⟩
  | _ => ⟨S16384x128, .f32⟩

abbrev vmemTy0_1 (i : Nat) : BufTy := match i % 128 with
  | 0 => ⟨S1x128, .f32⟩
  | 1 => ⟨S1x128, .f32⟩
  | 2 => ⟨S256x128, .f32⟩
  | 3 => ⟨S256x128, .f32⟩
  | 4 => ⟨S256x128, .f32⟩
  | 5 => ⟨S256x128, .f32⟩
  | 6 => ⟨S128x128, .f32⟩
  | 7 => ⟨S1x128, .f32⟩
  | 8 => ⟨S128x128, .f32⟩
  | 9 => ⟨S1x128, .f32⟩
  | 10 => ⟨S256x128, .f32⟩
  | 11 => ⟨S256x128, .f32⟩
  | 12 => ⟨S256x128, .f32⟩
  | 13 => ⟨S256x128, .f32⟩
  | 14 => ⟨S256x128, .f32⟩
  | 15 => ⟨S256x128, .f32⟩
  | 16 => ⟨S256x128, .f32⟩
  | 17 => ⟨S256x128, .f32⟩
  | 18 => ⟨S256x128, .f32⟩
  | 19 => ⟨S256x128, .f32⟩
  | 20 => ⟨S256x128, .f32⟩
  | 21 => ⟨S256x128, .f32⟩
  | 22 => ⟨S128x128, .f32⟩
  | 23 => ⟨S1x128, .f32⟩
  | 24 => ⟨S128x128, .f32⟩
  | 25 => ⟨S1x128, .f32⟩
  | 26 => ⟨S128x128, .f32⟩
  | 27 => ⟨S1x128, .f32⟩
  | 28 => ⟨S1x128, .f32⟩
  | 29 => ⟨S1x128, .f32⟩
  | 30 => ⟨S256x128, .f32⟩
  | 31 => ⟨S256x128, .f32⟩
  | 32 => ⟨S256x128, .f32⟩
  | 33 => ⟨S256x128, .f32⟩
  | 34 => ⟨S256x128, .f32⟩
  | 35 => ⟨S256x128, .f32⟩
  | 36 => ⟨S256x128, .f32⟩
  | 37 => ⟨S256x128, .f32⟩
  | 38 => ⟨S256x128, .f32⟩
  | 39 => ⟨S256x128, .f32⟩
  | 40 => ⟨S256x128, .f32⟩
  | 41 => ⟨S256x128, .f32⟩
  | 42 => ⟨S256x128, .f32⟩
  | 43 => ⟨S256x128, .f32⟩
  | 44 => ⟨S1x128, .f32⟩
  | 45 => ⟨S1x128, .f32⟩
  | 46 => ⟨S256x128, .f32⟩
  | 47 => ⟨S256x128, .f32⟩
  | _ => ⟨S16384x128, .f32⟩

abbrev vmemTy (i : Nat) : BufTy := match i / 128 with
  | 0 => vmemTy0_0 i
  | 1 => vmemTy0_1 i
  | _ => ⟨S16384x128, .f32⟩

abbrev bufTy : (tb : Table) → Fin (tcTables nBuf tb) → BufTy
  | .hbm, ⟨i, _⟩ => hbmTy i
  | .local _ .vmem, ⟨i, _⟩ => vmemTy i
  | _, _ => ⟨S16384x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 176 → Bool
  | ⟨i, _⟩ => dmaSemScopedAt i

abbrev sig : RefSig :=
  ofTc nBuf bufTy 0 176 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_arg56 : Ref sig .tc := ⟨.hbm, 56, rfl⟩
abbrev main_arg57 : Ref sig .tc := ⟨.hbm, 57, rfl⟩
abbrev main_arg58 : Ref sig .tc := ⟨.hbm, 58, rfl⟩
abbrev main_arg59 : Ref sig .tc := ⟨.hbm, 59, rfl⟩
abbrev main_arg60 : Ref sig .tc := ⟨.hbm, 60, rfl⟩
abbrev main_v0 : Ref sig .tc := ⟨.hbm, 61, rfl⟩
abbrev main_v1 : Ref sig .tc := ⟨.hbm, 62, rfl⟩
abbrev main_v2 : Ref sig .tc := ⟨.hbm, 63, rfl⟩
abbrev main_v3 : Ref sig .tc := ⟨.hbm, 64, rfl⟩
abbrev main_v4_0 : Ref sig .tc := ⟨.hbm, 65, rfl⟩
abbrev main_v4_1 : Ref sig .tc := ⟨.hbm, 66, rfl⟩
abbrev main_call0_c : Ref sig .tc := ⟨.hbm, 67, rfl⟩
abbrev main_call0_v0 : Ref sig .tc := ⟨.hbm, 68, rfl⟩
abbrev main_call0_v1 : Ref sig .tc := ⟨.hbm, 69, rfl⟩
abbrev main_call0_c_0 : Ref sig .tc := ⟨.hbm, 70, rfl⟩
abbrev main_call0_v2 : Ref sig .tc := ⟨.hbm, 71, rfl⟩
abbrev main_call0_v3 : Ref sig .tc := ⟨.hbm, 72, rfl⟩
abbrev main_call0_v4 : Ref sig .tc := ⟨.hbm, 73, rfl⟩
abbrev main_call0_v5 : Ref sig .tc := ⟨.hbm, 74, rfl⟩
abbrev main_call0_c_1 : Ref sig .tc := ⟨.hbm, 75, rfl⟩
abbrev main_call0_c_2 : Ref sig .tc := ⟨.hbm, 76, rfl⟩
abbrev main_call0_v6 : Ref sig .tc := ⟨.hbm, 77, rfl⟩
abbrev main_call0_v7 : Ref sig .tc := ⟨.hbm, 78, rfl⟩
abbrev main_call0_v8 : Ref sig .tc := ⟨.hbm, 79, rfl⟩
abbrev main_call0_v9 : Ref sig .tc := ⟨.hbm, 80, rfl⟩
abbrev main_call0_v10 : Ref sig .tc := ⟨.hbm, 81, rfl⟩
abbrev main_call0_v11 : Ref sig .tc := ⟨.hbm, 82, rfl⟩
abbrev main_call0_c_3 : Ref sig .tc := ⟨.hbm, 83, rfl⟩
abbrev main_call0_v12 : Ref sig .tc := ⟨.hbm, 84, rfl⟩
abbrev main_call0_v13 : Ref sig .tc := ⟨.hbm, 85, rfl⟩
abbrev main_call0_v14 : Ref sig .tc := ⟨.hbm, 86, rfl⟩
abbrev main_call0_cst : Ref sig .tc := ⟨.hbm, 87, rfl⟩
abbrev main_call0_v15 : Ref sig .tc := ⟨.hbm, 88, rfl⟩
abbrev main_v5 : Ref sig .tc := ⟨.hbm, 89, rfl⟩
abbrev main_call1_c : Ref sig .tc := ⟨.hbm, 90, rfl⟩
abbrev main_call1_v0 : Ref sig .tc := ⟨.hbm, 91, rfl⟩
abbrev main_call1_v1 : Ref sig .tc := ⟨.hbm, 92, rfl⟩
abbrev main_call1_c_0 : Ref sig .tc := ⟨.hbm, 93, rfl⟩
abbrev main_call1_v2 : Ref sig .tc := ⟨.hbm, 94, rfl⟩
abbrev main_call1_v3 : Ref sig .tc := ⟨.hbm, 95, rfl⟩
abbrev main_call1_v4 : Ref sig .tc := ⟨.hbm, 96, rfl⟩
abbrev main_call1_v5 : Ref sig .tc := ⟨.hbm, 97, rfl⟩
abbrev main_call1_c_1 : Ref sig .tc := ⟨.hbm, 98, rfl⟩
abbrev main_call1_c_2 : Ref sig .tc := ⟨.hbm, 99, rfl⟩
abbrev main_call1_v6 : Ref sig .tc := ⟨.hbm, 100, rfl⟩
abbrev main_call1_v7 : Ref sig .tc := ⟨.hbm, 101, rfl⟩
abbrev main_call1_v8 : Ref sig .tc := ⟨.hbm, 102, rfl⟩
abbrev main_call1_v9 : Ref sig .tc := ⟨.hbm, 103, rfl⟩
abbrev main_call1_v10 : Ref sig .tc := ⟨.hbm, 104, rfl⟩
abbrev main_call1_v11 : Ref sig .tc := ⟨.hbm, 105, rfl⟩
abbrev main_call1_c_3 : Ref sig .tc := ⟨.hbm, 106, rfl⟩
abbrev main_call1_v12 : Ref sig .tc := ⟨.hbm, 107, rfl⟩
abbrev main_call1_v13 : Ref sig .tc := ⟨.hbm, 108, rfl⟩
abbrev main_call1_v14 : Ref sig .tc := ⟨.hbm, 109, rfl⟩
abbrev main_call1_cst : Ref sig .tc := ⟨.hbm, 110, rfl⟩
abbrev main_call1_v15 : Ref sig .tc := ⟨.hbm, 111, rfl⟩
abbrev main_v6 : Ref sig .tc := ⟨.hbm, 112, rfl⟩
abbrev main_call2_c : Ref sig .tc := ⟨.hbm, 113, rfl⟩
abbrev main_call2_v0 : Ref sig .tc := ⟨.hbm, 114, rfl⟩
abbrev main_call2_v1 : Ref sig .tc := ⟨.hbm, 115, rfl⟩
abbrev main_call2_c_0 : Ref sig .tc := ⟨.hbm, 116, rfl⟩
abbrev main_call2_v2 : Ref sig .tc := ⟨.hbm, 117, rfl⟩
abbrev main_call2_v3 : Ref sig .tc := ⟨.hbm, 118, rfl⟩
abbrev main_call2_v4 : Ref sig .tc := ⟨.hbm, 119, rfl⟩
abbrev main_call2_v5 : Ref sig .tc := ⟨.hbm, 120, rfl⟩
abbrev main_call2_c_1 : Ref sig .tc := ⟨.hbm, 121, rfl⟩
abbrev main_call2_c_2 : Ref sig .tc := ⟨.hbm, 122, rfl⟩
abbrev main_call2_v6 : Ref sig .tc := ⟨.hbm, 123, rfl⟩
abbrev main_call2_v7 : Ref sig .tc := ⟨.hbm, 124, rfl⟩
abbrev main_call2_v8 : Ref sig .tc := ⟨.hbm, 125, rfl⟩
abbrev main_call2_v9 : Ref sig .tc := ⟨.hbm, 126, rfl⟩
abbrev main_call2_v10 : Ref sig .tc := ⟨.hbm, 127, rfl⟩
abbrev main_call2_v11 : Ref sig .tc := ⟨.hbm, 128, rfl⟩
abbrev main_call2_c_3 : Ref sig .tc := ⟨.hbm, 129, rfl⟩
abbrev main_call2_v12 : Ref sig .tc := ⟨.hbm, 130, rfl⟩
abbrev main_call2_v13 : Ref sig .tc := ⟨.hbm, 131, rfl⟩
abbrev main_call2_v14 : Ref sig .tc := ⟨.hbm, 132, rfl⟩
abbrev main_call2_cst : Ref sig .tc := ⟨.hbm, 133, rfl⟩
abbrev main_call2_v15 : Ref sig .tc := ⟨.hbm, 134, rfl⟩
abbrev main_v7 : Ref sig .tc := ⟨.hbm, 135, rfl⟩
abbrev main_v8_0 : Ref sig .tc := ⟨.hbm, 136, rfl⟩
abbrev main_v8_1 : Ref sig .tc := ⟨.hbm, 137, rfl⟩
abbrev main_v8_2 : Ref sig .tc := ⟨.hbm, 138, rfl⟩
abbrev main_cst : Ref sig .tc := ⟨.hbm, 139, rfl⟩
abbrev main_v9 : Ref sig .tc := ⟨.hbm, 140, rfl⟩
abbrev main_v10 : Ref sig .tc := ⟨.hbm, 141, rfl⟩
abbrev main_v11 : Ref sig .tc := ⟨.hbm, 142, rfl⟩
abbrev main_cst_0 : Ref sig .tc := ⟨.hbm, 143, rfl⟩
abbrev main_v12 : Ref sig .tc := ⟨.hbm, 144, rfl⟩
abbrev main_v13 : Ref sig .tc := ⟨.hbm, 145, rfl⟩
abbrev main_v14 : Ref sig .tc := ⟨.hbm, 146, rfl⟩
abbrev main_v15 : Ref sig .tc := ⟨.hbm, 147, rfl⟩
abbrev main_v16 : Ref sig .tc := ⟨.hbm, 148, rfl⟩
abbrev main_v17 : Ref sig .tc := ⟨.hbm, 149, rfl⟩
abbrev main_v18 : Ref sig .tc := ⟨.hbm, 150, rfl⟩
abbrev main_v19 : Ref sig .tc := ⟨.hbm, 151, rfl⟩
abbrev main_v20_0 : Ref sig .tc := ⟨.hbm, 152, rfl⟩
abbrev main_v20_1 : Ref sig .tc := ⟨.hbm, 153, rfl⟩
abbrev main_call3_c : Ref sig .tc := ⟨.hbm, 154, rfl⟩
abbrev main_call3_v0 : Ref sig .tc := ⟨.hbm, 155, rfl⟩
abbrev main_call3_v1 : Ref sig .tc := ⟨.hbm, 156, rfl⟩
abbrev main_call3_c_0 : Ref sig .tc := ⟨.hbm, 157, rfl⟩
abbrev main_call3_v2 : Ref sig .tc := ⟨.hbm, 158, rfl⟩
abbrev main_call3_v3 : Ref sig .tc := ⟨.hbm, 159, rfl⟩
abbrev main_call3_v4 : Ref sig .tc := ⟨.hbm, 160, rfl⟩
abbrev main_call3_v5 : Ref sig .tc := ⟨.hbm, 161, rfl⟩
abbrev main_call3_c_1 : Ref sig .tc := ⟨.hbm, 162, rfl⟩
abbrev main_call3_c_2 : Ref sig .tc := ⟨.hbm, 163, rfl⟩
abbrev main_call3_v6 : Ref sig .tc := ⟨.hbm, 164, rfl⟩
abbrev main_call3_v7 : Ref sig .tc := ⟨.hbm, 165, rfl⟩
abbrev main_call3_v8 : Ref sig .tc := ⟨.hbm, 166, rfl⟩
abbrev main_call3_v9 : Ref sig .tc := ⟨.hbm, 167, rfl⟩
abbrev main_call3_v10 : Ref sig .tc := ⟨.hbm, 168, rfl⟩
abbrev main_call3_v11 : Ref sig .tc := ⟨.hbm, 169, rfl⟩
abbrev main_call3_c_3 : Ref sig .tc := ⟨.hbm, 170, rfl⟩
abbrev main_call3_v12 : Ref sig .tc := ⟨.hbm, 171, rfl⟩
abbrev main_call3_v13 : Ref sig .tc := ⟨.hbm, 172, rfl⟩
abbrev main_call3_v14 : Ref sig .tc := ⟨.hbm, 173, rfl⟩
abbrev main_call3_cst : Ref sig .tc := ⟨.hbm, 174, rfl⟩
abbrev main_call3_v15 : Ref sig .tc := ⟨.hbm, 175, rfl⟩
abbrev main_v21 : Ref sig .tc := ⟨.hbm, 176, rfl⟩
abbrev main_call4_c : Ref sig .tc := ⟨.hbm, 177, rfl⟩
abbrev main_call4_v0 : Ref sig .tc := ⟨.hbm, 178, rfl⟩
abbrev main_call4_v1 : Ref sig .tc := ⟨.hbm, 179, rfl⟩
abbrev main_call4_c_0 : Ref sig .tc := ⟨.hbm, 180, rfl⟩
abbrev main_call4_v2 : Ref sig .tc := ⟨.hbm, 181, rfl⟩
abbrev main_call4_v3 : Ref sig .tc := ⟨.hbm, 182, rfl⟩
abbrev main_call4_v4 : Ref sig .tc := ⟨.hbm, 183, rfl⟩
abbrev main_call4_v5 : Ref sig .tc := ⟨.hbm, 184, rfl⟩
abbrev main_call4_c_1 : Ref sig .tc := ⟨.hbm, 185, rfl⟩
abbrev main_call4_c_2 : Ref sig .tc := ⟨.hbm, 186, rfl⟩
abbrev main_call4_v6 : Ref sig .tc := ⟨.hbm, 187, rfl⟩
abbrev main_call4_v7 : Ref sig .tc := ⟨.hbm, 188, rfl⟩
abbrev main_call4_v8 : Ref sig .tc := ⟨.hbm, 189, rfl⟩
abbrev main_call4_v9 : Ref sig .tc := ⟨.hbm, 190, rfl⟩
abbrev main_call4_v10 : Ref sig .tc := ⟨.hbm, 191, rfl⟩
abbrev main_call4_v11 : Ref sig .tc := ⟨.hbm, 192, rfl⟩
abbrev main_call4_c_3 : Ref sig .tc := ⟨.hbm, 193, rfl⟩
abbrev main_call4_v12 : Ref sig .tc := ⟨.hbm, 194, rfl⟩
abbrev main_call4_v13 : Ref sig .tc := ⟨.hbm, 195, rfl⟩
abbrev main_call4_v14 : Ref sig .tc := ⟨.hbm, 196, rfl⟩
abbrev main_call4_cst : Ref sig .tc := ⟨.hbm, 197, rfl⟩
abbrev main_call4_v15 : Ref sig .tc := ⟨.hbm, 198, rfl⟩
abbrev main_v22 : Ref sig .tc := ⟨.hbm, 199, rfl⟩
abbrev main_call5_c : Ref sig .tc := ⟨.hbm, 200, rfl⟩
abbrev main_call5_v0 : Ref sig .tc := ⟨.hbm, 201, rfl⟩
abbrev main_call5_v1 : Ref sig .tc := ⟨.hbm, 202, rfl⟩
abbrev main_call5_c_0 : Ref sig .tc := ⟨.hbm, 203, rfl⟩
abbrev main_call5_v2 : Ref sig .tc := ⟨.hbm, 204, rfl⟩
abbrev main_call5_v3 : Ref sig .tc := ⟨.hbm, 205, rfl⟩
abbrev main_call5_v4 : Ref sig .tc := ⟨.hbm, 206, rfl⟩
abbrev main_call5_v5 : Ref sig .tc := ⟨.hbm, 207, rfl⟩
abbrev main_call5_c_1 : Ref sig .tc := ⟨.hbm, 208, rfl⟩
abbrev main_call5_c_2 : Ref sig .tc := ⟨.hbm, 209, rfl⟩
abbrev main_call5_v6 : Ref sig .tc := ⟨.hbm, 210, rfl⟩
abbrev main_call5_v7 : Ref sig .tc := ⟨.hbm, 211, rfl⟩
abbrev main_call5_v8 : Ref sig .tc := ⟨.hbm, 212, rfl⟩
abbrev main_call5_v9 : Ref sig .tc := ⟨.hbm, 213, rfl⟩
abbrev main_call5_v10 : Ref sig .tc := ⟨.hbm, 214, rfl⟩
abbrev main_call5_v11 : Ref sig .tc := ⟨.hbm, 215, rfl⟩
abbrev main_call5_c_3 : Ref sig .tc := ⟨.hbm, 216, rfl⟩
abbrev main_call5_v12 : Ref sig .tc := ⟨.hbm, 217, rfl⟩
abbrev main_call5_v13 : Ref sig .tc := ⟨.hbm, 218, rfl⟩
abbrev main_call5_v14 : Ref sig .tc := ⟨.hbm, 219, rfl⟩
abbrev main_call5_cst : Ref sig .tc := ⟨.hbm, 220, rfl⟩
abbrev main_call5_v15 : Ref sig .tc := ⟨.hbm, 221, rfl⟩
abbrev main_v23 : Ref sig .tc := ⟨.hbm, 222, rfl⟩
abbrev main_v24_0 : Ref sig .tc := ⟨.hbm, 223, rfl⟩
abbrev main_v24_1 : Ref sig .tc := ⟨.hbm, 224, rfl⟩
abbrev main_v24_2 : Ref sig .tc := ⟨.hbm, 225, rfl⟩
abbrev main_cst_1 : Ref sig .tc := ⟨.hbm, 226, rfl⟩
abbrev main_v25 : Ref sig .tc := ⟨.hbm, 227, rfl⟩
abbrev main_v26 : Ref sig .tc := ⟨.hbm, 228, rfl⟩
abbrev main_v27 : Ref sig .tc := ⟨.hbm, 229, rfl⟩
abbrev main_cst_2 : Ref sig .tc := ⟨.hbm, 230, rfl⟩
abbrev main_v28 : Ref sig .tc := ⟨.hbm, 231, rfl⟩
abbrev main_v29 : Ref sig .tc := ⟨.hbm, 232, rfl⟩
abbrev main_v30 : Ref sig .tc := ⟨.hbm, 233, rfl⟩
abbrev main_v31 : Ref sig .tc := ⟨.hbm, 234, rfl⟩
abbrev main_v32 : Ref sig .tc := ⟨.hbm, 235, rfl⟩
abbrev main_v33 : Ref sig .tc := ⟨.hbm, 236, rfl⟩
abbrev main_v34 : Ref sig .tc := ⟨.hbm, 237, rfl⟩
abbrev main_v35 : Ref sig .tc := ⟨.hbm, 238, rfl⟩
abbrev main_v36_0 : Ref sig .tc := ⟨.hbm, 239, rfl⟩
abbrev main_v36_1 : Ref sig .tc := ⟨.hbm, 240, rfl⟩
abbrev main_call6_c : Ref sig .tc := ⟨.hbm, 241, rfl⟩
abbrev main_call6_v0 : Ref sig .tc := ⟨.hbm, 242, rfl⟩
abbrev main_call6_v1 : Ref sig .tc := ⟨.hbm, 243, rfl⟩
abbrev main_call6_c_0 : Ref sig .tc := ⟨.hbm, 244, rfl⟩
abbrev main_call6_v2 : Ref sig .tc := ⟨.hbm, 245, rfl⟩
abbrev main_call6_v3 : Ref sig .tc := ⟨.hbm, 246, rfl⟩
abbrev main_call6_v4 : Ref sig .tc := ⟨.hbm, 247, rfl⟩
abbrev main_call6_v5 : Ref sig .tc := ⟨.hbm, 248, rfl⟩
abbrev main_call6_c_1 : Ref sig .tc := ⟨.hbm, 249, rfl⟩
abbrev main_call6_c_2 : Ref sig .tc := ⟨.hbm, 250, rfl⟩
abbrev main_call6_v6 : Ref sig .tc := ⟨.hbm, 251, rfl⟩
abbrev main_call6_v7 : Ref sig .tc := ⟨.hbm, 252, rfl⟩
abbrev main_call6_v8 : Ref sig .tc := ⟨.hbm, 253, rfl⟩
abbrev main_call6_v9 : Ref sig .tc := ⟨.hbm, 254, rfl⟩
abbrev main_call6_v10 : Ref sig .tc := ⟨.hbm, 255, rfl⟩
abbrev main_call6_v11 : Ref sig .tc := ⟨.hbm, 256, rfl⟩
abbrev main_call6_c_3 : Ref sig .tc := ⟨.hbm, 257, rfl⟩
abbrev main_call6_v12 : Ref sig .tc := ⟨.hbm, 258, rfl⟩
abbrev main_call6_v13 : Ref sig .tc := ⟨.hbm, 259, rfl⟩
abbrev main_call6_v14 : Ref sig .tc := ⟨.hbm, 260, rfl⟩
abbrev main_call6_cst : Ref sig .tc := ⟨.hbm, 261, rfl⟩
abbrev main_call6_v15 : Ref sig .tc := ⟨.hbm, 262, rfl⟩
abbrev main_v37 : Ref sig .tc := ⟨.hbm, 263, rfl⟩
abbrev main_call7_c : Ref sig .tc := ⟨.hbm, 264, rfl⟩
abbrev main_call7_v0 : Ref sig .tc := ⟨.hbm, 265, rfl⟩
abbrev main_call7_v1 : Ref sig .tc := ⟨.hbm, 266, rfl⟩
abbrev main_call7_c_0 : Ref sig .tc := ⟨.hbm, 267, rfl⟩
abbrev main_call7_v2 : Ref sig .tc := ⟨.hbm, 268, rfl⟩
abbrev main_call7_v3 : Ref sig .tc := ⟨.hbm, 269, rfl⟩
abbrev main_call7_v4 : Ref sig .tc := ⟨.hbm, 270, rfl⟩
abbrev main_call7_v5 : Ref sig .tc := ⟨.hbm, 271, rfl⟩
abbrev main_call7_c_1 : Ref sig .tc := ⟨.hbm, 272, rfl⟩
abbrev main_call7_c_2 : Ref sig .tc := ⟨.hbm, 273, rfl⟩
abbrev main_call7_v6 : Ref sig .tc := ⟨.hbm, 274, rfl⟩
abbrev main_call7_v7 : Ref sig .tc := ⟨.hbm, 275, rfl⟩
abbrev main_call7_v8 : Ref sig .tc := ⟨.hbm, 276, rfl⟩
abbrev main_call7_v9 : Ref sig .tc := ⟨.hbm, 277, rfl⟩
abbrev main_call7_v10 : Ref sig .tc := ⟨.hbm, 278, rfl⟩
abbrev main_call7_v11 : Ref sig .tc := ⟨.hbm, 279, rfl⟩
abbrev main_call7_c_3 : Ref sig .tc := ⟨.hbm, 280, rfl⟩
abbrev main_call7_v12 : Ref sig .tc := ⟨.hbm, 281, rfl⟩
abbrev main_call7_v13 : Ref sig .tc := ⟨.hbm, 282, rfl⟩
abbrev main_call7_v14 : Ref sig .tc := ⟨.hbm, 283, rfl⟩
abbrev main_call7_cst : Ref sig .tc := ⟨.hbm, 284, rfl⟩
abbrev main_call7_v15 : Ref sig .tc := ⟨.hbm, 285, rfl⟩
abbrev main_v38 : Ref sig .tc := ⟨.hbm, 286, rfl⟩
abbrev main_call8_c : Ref sig .tc := ⟨.hbm, 287, rfl⟩
abbrev main_call8_v0 : Ref sig .tc := ⟨.hbm, 288, rfl⟩
abbrev main_call8_v1 : Ref sig .tc := ⟨.hbm, 289, rfl⟩
abbrev main_call8_c_0 : Ref sig .tc := ⟨.hbm, 290, rfl⟩
abbrev main_call8_v2 : Ref sig .tc := ⟨.hbm, 291, rfl⟩
abbrev main_call8_v3 : Ref sig .tc := ⟨.hbm, 292, rfl⟩
abbrev main_call8_v4 : Ref sig .tc := ⟨.hbm, 293, rfl⟩
abbrev main_call8_v5 : Ref sig .tc := ⟨.hbm, 294, rfl⟩
abbrev main_call8_c_1 : Ref sig .tc := ⟨.hbm, 295, rfl⟩
abbrev main_call8_c_2 : Ref sig .tc := ⟨.hbm, 296, rfl⟩
abbrev main_call8_v6 : Ref sig .tc := ⟨.hbm, 297, rfl⟩
abbrev main_call8_v7 : Ref sig .tc := ⟨.hbm, 298, rfl⟩
abbrev main_call8_v8 : Ref sig .tc := ⟨.hbm, 299, rfl⟩
abbrev main_call8_v9 : Ref sig .tc := ⟨.hbm, 300, rfl⟩
abbrev main_call8_v10 : Ref sig .tc := ⟨.hbm, 301, rfl⟩
abbrev main_call8_v11 : Ref sig .tc := ⟨.hbm, 302, rfl⟩
abbrev main_call8_c_3 : Ref sig .tc := ⟨.hbm, 303, rfl⟩
abbrev main_call8_v12 : Ref sig .tc := ⟨.hbm, 304, rfl⟩
abbrev main_call8_v13 : Ref sig .tc := ⟨.hbm, 305, rfl⟩
abbrev main_call8_v14 : Ref sig .tc := ⟨.hbm, 306, rfl⟩
abbrev main_call8_cst : Ref sig .tc := ⟨.hbm, 307, rfl⟩
abbrev main_call8_v15 : Ref sig .tc := ⟨.hbm, 308, rfl⟩
abbrev main_v39 : Ref sig .tc := ⟨.hbm, 309, rfl⟩
abbrev main_v40_0 : Ref sig .tc := ⟨.hbm, 310, rfl⟩
abbrev main_v40_1 : Ref sig .tc := ⟨.hbm, 311, rfl⟩
abbrev main_v40_2 : Ref sig .tc := ⟨.hbm, 312, rfl⟩
abbrev main_cst_3 : Ref sig .tc := ⟨.hbm, 313, rfl⟩
abbrev main_v41 : Ref sig .tc := ⟨.hbm, 314, rfl⟩
abbrev main_v42 : Ref sig .tc := ⟨.hbm, 315, rfl⟩
abbrev main_v43 : Ref sig .tc := ⟨.hbm, 316, rfl⟩
abbrev main_cst_4 : Ref sig .tc := ⟨.hbm, 317, rfl⟩
abbrev main_v44 : Ref sig .tc := ⟨.hbm, 318, rfl⟩
abbrev main_v45 : Ref sig .tc := ⟨.hbm, 319, rfl⟩
abbrev main_v46 : Ref sig .tc := ⟨.hbm, 320, rfl⟩
abbrev main_v47 : Ref sig .tc := ⟨.hbm, 321, rfl⟩
abbrev main_v48 : Ref sig .tc := ⟨.hbm, 322, rfl⟩
abbrev main_v49 : Ref sig .tc := ⟨.hbm, 323, rfl⟩
abbrev main_v50 : Ref sig .tc := ⟨.hbm, 324, rfl⟩
abbrev main_v51 : Ref sig .tc := ⟨.hbm, 325, rfl⟩
abbrev main_v52_0 : Ref sig .tc := ⟨.hbm, 326, rfl⟩
abbrev main_v52_1 : Ref sig .tc := ⟨.hbm, 327, rfl⟩
abbrev main_call9_c : Ref sig .tc := ⟨.hbm, 328, rfl⟩
abbrev main_call9_v0 : Ref sig .tc := ⟨.hbm, 329, rfl⟩
abbrev main_call9_v1 : Ref sig .tc := ⟨.hbm, 330, rfl⟩
abbrev main_call9_c_0 : Ref sig .tc := ⟨.hbm, 331, rfl⟩
abbrev main_call9_v2 : Ref sig .tc := ⟨.hbm, 332, rfl⟩
abbrev main_call9_v3 : Ref sig .tc := ⟨.hbm, 333, rfl⟩
abbrev main_call9_v4 : Ref sig .tc := ⟨.hbm, 334, rfl⟩
abbrev main_call9_v5 : Ref sig .tc := ⟨.hbm, 335, rfl⟩
abbrev main_call9_c_1 : Ref sig .tc := ⟨.hbm, 336, rfl⟩
abbrev main_call9_c_2 : Ref sig .tc := ⟨.hbm, 337, rfl⟩
abbrev main_call9_v6 : Ref sig .tc := ⟨.hbm, 338, rfl⟩
abbrev main_call9_v7 : Ref sig .tc := ⟨.hbm, 339, rfl⟩
abbrev main_call9_v8 : Ref sig .tc := ⟨.hbm, 340, rfl⟩
abbrev main_call9_v9 : Ref sig .tc := ⟨.hbm, 341, rfl⟩
abbrev main_call9_v10 : Ref sig .tc := ⟨.hbm, 342, rfl⟩
abbrev main_call9_v11 : Ref sig .tc := ⟨.hbm, 343, rfl⟩
abbrev main_call9_c_3 : Ref sig .tc := ⟨.hbm, 344, rfl⟩
abbrev main_call9_v12 : Ref sig .tc := ⟨.hbm, 345, rfl⟩
abbrev main_call9_v13 : Ref sig .tc := ⟨.hbm, 346, rfl⟩
abbrev main_call9_v14 : Ref sig .tc := ⟨.hbm, 347, rfl⟩
abbrev main_call9_cst : Ref sig .tc := ⟨.hbm, 348, rfl⟩
abbrev main_call9_v15 : Ref sig .tc := ⟨.hbm, 349, rfl⟩
abbrev main_v53 : Ref sig .tc := ⟨.hbm, 350, rfl⟩
abbrev main_call10_c : Ref sig .tc := ⟨.hbm, 351, rfl⟩
abbrev main_call10_v0 : Ref sig .tc := ⟨.hbm, 352, rfl⟩
abbrev main_call10_v1 : Ref sig .tc := ⟨.hbm, 353, rfl⟩
abbrev main_call10_c_0 : Ref sig .tc := ⟨.hbm, 354, rfl⟩
abbrev main_call10_v2 : Ref sig .tc := ⟨.hbm, 355, rfl⟩
abbrev main_call10_v3 : Ref sig .tc := ⟨.hbm, 356, rfl⟩
abbrev main_call10_v4 : Ref sig .tc := ⟨.hbm, 357, rfl⟩
abbrev main_call10_v5 : Ref sig .tc := ⟨.hbm, 358, rfl⟩
abbrev main_call10_c_1 : Ref sig .tc := ⟨.hbm, 359, rfl⟩
abbrev main_call10_c_2 : Ref sig .tc := ⟨.hbm, 360, rfl⟩
abbrev main_call10_v6 : Ref sig .tc := ⟨.hbm, 361, rfl⟩
abbrev main_call10_v7 : Ref sig .tc := ⟨.hbm, 362, rfl⟩
abbrev main_call10_v8 : Ref sig .tc := ⟨.hbm, 363, rfl⟩
abbrev main_call10_v9 : Ref sig .tc := ⟨.hbm, 364, rfl⟩
abbrev main_call10_v10 : Ref sig .tc := ⟨.hbm, 365, rfl⟩
abbrev main_call10_v11 : Ref sig .tc := ⟨.hbm, 366, rfl⟩
abbrev main_call10_c_3 : Ref sig .tc := ⟨.hbm, 367, rfl⟩
abbrev main_call10_v12 : Ref sig .tc := ⟨.hbm, 368, rfl⟩
abbrev main_call10_v13 : Ref sig .tc := ⟨.hbm, 369, rfl⟩
abbrev main_call10_v14 : Ref sig .tc := ⟨.hbm, 370, rfl⟩
abbrev main_call10_cst : Ref sig .tc := ⟨.hbm, 371, rfl⟩
abbrev main_call10_v15 : Ref sig .tc := ⟨.hbm, 372, rfl⟩
abbrev main_v54 : Ref sig .tc := ⟨.hbm, 373, rfl⟩
abbrev main_call11_c : Ref sig .tc := ⟨.hbm, 374, rfl⟩
abbrev main_call11_v0 : Ref sig .tc := ⟨.hbm, 375, rfl⟩
abbrev main_call11_v1 : Ref sig .tc := ⟨.hbm, 376, rfl⟩
abbrev main_call11_c_0 : Ref sig .tc := ⟨.hbm, 377, rfl⟩
abbrev main_call11_v2 : Ref sig .tc := ⟨.hbm, 378, rfl⟩
abbrev main_call11_v3 : Ref sig .tc := ⟨.hbm, 379, rfl⟩
abbrev main_call11_v4 : Ref sig .tc := ⟨.hbm, 380, rfl⟩
abbrev main_call11_v5 : Ref sig .tc := ⟨.hbm, 381, rfl⟩
abbrev main_call11_c_1 : Ref sig .tc := ⟨.hbm, 382, rfl⟩
abbrev main_call11_c_2 : Ref sig .tc := ⟨.hbm, 383, rfl⟩
abbrev main_call11_v6 : Ref sig .tc := ⟨.hbm, 384, rfl⟩
abbrev main_call11_v7 : Ref sig .tc := ⟨.hbm, 385, rfl⟩
abbrev main_call11_v8 : Ref sig .tc := ⟨.hbm, 386, rfl⟩
abbrev main_call11_v9 : Ref sig .tc := ⟨.hbm, 387, rfl⟩
abbrev main_call11_v10 : Ref sig .tc := ⟨.hbm, 388, rfl⟩
abbrev main_call11_v11 : Ref sig .tc := ⟨.hbm, 389, rfl⟩
abbrev main_call11_c_3 : Ref sig .tc := ⟨.hbm, 390, rfl⟩
abbrev main_call11_v12 : Ref sig .tc := ⟨.hbm, 391, rfl⟩
abbrev main_call11_v13 : Ref sig .tc := ⟨.hbm, 392, rfl⟩
abbrev main_call11_v14 : Ref sig .tc := ⟨.hbm, 393, rfl⟩
abbrev main_call11_cst : Ref sig .tc := ⟨.hbm, 394, rfl⟩
abbrev main_call11_v15 : Ref sig .tc := ⟨.hbm, 395, rfl⟩
abbrev main_v55 : Ref sig .tc := ⟨.hbm, 396, rfl⟩
abbrev main_v56_0 : Ref sig .tc := ⟨.hbm, 397, rfl⟩
abbrev main_v56_1 : Ref sig .tc := ⟨.hbm, 398, rfl⟩
abbrev main_v56_2 : Ref sig .tc := ⟨.hbm, 399, rfl⟩
abbrev main_cst_5 : Ref sig .tc := ⟨.hbm, 400, rfl⟩
abbrev main_v57 : Ref sig .tc := ⟨.hbm, 401, rfl⟩
abbrev main_v58 : Ref sig .tc := ⟨.hbm, 402, rfl⟩
abbrev main_v59 : Ref sig .tc := ⟨.hbm, 403, rfl⟩
abbrev main_cst_6 : Ref sig .tc := ⟨.hbm, 404, rfl⟩
abbrev main_v60 : Ref sig .tc := ⟨.hbm, 405, rfl⟩
abbrev main_v61 : Ref sig .tc := ⟨.hbm, 406, rfl⟩
abbrev main_v62 : Ref sig .tc := ⟨.hbm, 407, rfl⟩
abbrev main_v63 : Ref sig .tc := ⟨.hbm, 408, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg9_0 : Ref sig .tc := ⟨.vmem, 23, rfl⟩
abbrev cc1_stg10_0 : Ref sig .tc := ⟨.vmem, 24, rfl⟩
abbrev cc1_stg11_0 : Ref sig .tc := ⟨.vmem, 25, rfl⟩
abbrev cc1_stg12_0 : Ref sig .tc := ⟨.vmem, 26, rfl⟩
abbrev cc1_stg12_1 : Ref sig .tc := ⟨.vmem, 27, rfl⟩
abbrev cc1_stg13_0 : Ref sig .tc := ⟨.vmem, 28, rfl⟩
abbrev cc1_stg13_1 : Ref sig .tc := ⟨.vmem, 29, rfl⟩
abbrev cc1_stg14_0 : Ref sig .tc := ⟨.vmem, 30, rfl⟩
abbrev cc1_stg14_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg3_1 : Ref sig .tc := ⟨.vmem, 39, rfl⟩
abbrev cc2_stg4_0 : Ref sig .tc := ⟨.vmem, 40, rfl⟩
abbrev cc2_stg5_0 : Ref sig .tc := ⟨.vmem, 41, rfl⟩
abbrev cc2_stg6_0 : Ref sig .tc := ⟨.vmem, 42, rfl⟩
abbrev cc2_stg6_1 : Ref sig .tc := ⟨.vmem, 43, rfl⟩
abbrev cc3_stg0_0 : Ref sig .tc := ⟨.vmem, 44, rfl⟩
abbrev cc3_stg0_1 : Ref sig .tc := ⟨.vmem, 45, rfl⟩
abbrev cc3_stg1_0 : Ref sig .tc := ⟨.vmem, 46, rfl⟩
abbrev cc3_stg2_0 : Ref sig .tc := ⟨.vmem, 47, rfl⟩
abbrev cc3_stg3_0 : Ref sig .tc := ⟨.vmem, 48, rfl⟩
abbrev cc3_stg4_0 : Ref sig .tc := ⟨.vmem, 49, rfl⟩
abbrev cc3_stg5_0 : Ref sig .tc := ⟨.vmem, 50, rfl⟩
abbrev cc3_stg5_1 : Ref sig .tc := ⟨.vmem, 51, rfl⟩
abbrev cc3_stg6_0 : Ref sig .tc := ⟨.vmem, 52, rfl⟩
abbrev cc3_stg6_1 : Ref sig .tc := ⟨.vmem, 53, rfl⟩
abbrev cc4_stg0_0 : Ref sig .tc := ⟨.vmem, 54, rfl⟩
abbrev cc4_stg0_1 : Ref sig .tc := ⟨.vmem, 55, rfl⟩
abbrev cc4_stg1_0 : Ref sig .tc := ⟨.vmem, 56, rfl⟩
abbrev cc4_stg1_1 : Ref sig .tc := ⟨.vmem, 57, rfl⟩
abbrev cc4_stg2_0 : Ref sig .tc := ⟨.vmem, 58, rfl⟩
abbrev cc4_stg2_1 : Ref sig .tc := ⟨.vmem, 59, rfl⟩
abbrev cc4_stg3_0 : Ref sig .tc := ⟨.vmem, 60, rfl⟩
abbrev cc4_stg3_1 : Ref sig .tc := ⟨.vmem, 61, rfl⟩
abbrev cc4_stg4_0 : Ref sig .tc := ⟨.vmem, 62, rfl⟩
abbrev cc4_stg5_0 : Ref sig .tc := ⟨.vmem, 63, rfl⟩
abbrev cc4_stg6_0 : Ref sig .tc := ⟨.vmem, 64, rfl⟩
abbrev cc4_stg7_0 : Ref sig .tc := ⟨.vmem, 65, rfl⟩
abbrev cc4_stg8_0 : Ref sig .tc := ⟨.vmem, 66, rfl⟩
abbrev cc4_stg9_0 : Ref sig .tc := ⟨.vmem, 67, rfl⟩
abbrev cc4_stg10_0 : Ref sig .tc := ⟨.vmem, 68, rfl⟩
abbrev cc4_stg11_0 : Ref sig .tc := ⟨.vmem, 69, rfl⟩
abbrev cc4_stg12_0 : Ref sig .tc := ⟨.vmem, 70, rfl⟩
abbrev cc4_stg12_1 : Ref sig .tc := ⟨.vmem, 71, rfl⟩
abbrev cc4_stg13_0 : Ref sig .tc := ⟨.vmem, 72, rfl⟩
abbrev cc4_stg13_1 : Ref sig .tc := ⟨.vmem, 73, rfl⟩
abbrev cc4_stg14_0 : Ref sig .tc := ⟨.vmem, 74, rfl⟩
abbrev cc4_stg14_1 : Ref sig .tc := ⟨.vmem, 75, rfl⟩
abbrev cc5_stg0_0 : Ref sig .tc := ⟨.vmem, 76, rfl⟩
abbrev cc5_stg0_1 : Ref sig .tc := ⟨.vmem, 77, rfl⟩
abbrev cc5_stg1_0 : Ref sig .tc := ⟨.vmem, 78, rfl⟩
abbrev cc5_stg1_1 : Ref sig .tc := ⟨.vmem, 79, rfl⟩
abbrev cc5_stg2_0 : Ref sig .tc := ⟨.vmem, 80, rfl⟩
abbrev cc5_stg2_1 : Ref sig .tc := ⟨.vmem, 81, rfl⟩
abbrev cc5_stg3_0 : Ref sig .tc := ⟨.vmem, 82, rfl⟩
abbrev cc5_stg3_1 : Ref sig .tc := ⟨.vmem, 83, rfl⟩
abbrev cc5_stg4_0 : Ref sig .tc := ⟨.vmem, 84, rfl⟩
abbrev cc5_stg5_0 : Ref sig .tc := ⟨.vmem, 85, rfl⟩
abbrev cc5_stg6_0 : Ref sig .tc := ⟨.vmem, 86, rfl⟩
abbrev cc5_stg6_1 : Ref sig .tc := ⟨.vmem, 87, rfl⟩
abbrev cc6_stg0_0 : Ref sig .tc := ⟨.vmem, 88, rfl⟩
abbrev cc6_stg0_1 : Ref sig .tc := ⟨.vmem, 89, rfl⟩
abbrev cc6_stg1_0 : Ref sig .tc := ⟨.vmem, 90, rfl⟩
abbrev cc6_stg2_0 : Ref sig .tc := ⟨.vmem, 91, rfl⟩
abbrev cc6_stg3_0 : Ref sig .tc := ⟨.vmem, 92, rfl⟩
abbrev cc6_stg4_0 : Ref sig .tc := ⟨.vmem, 93, rfl⟩
abbrev cc6_stg5_0 : Ref sig .tc := ⟨.vmem, 94, rfl⟩
abbrev cc6_stg5_1 : Ref sig .tc := ⟨.vmem, 95, rfl⟩
abbrev cc6_stg6_0 : Ref sig .tc := ⟨.vmem, 96, rfl⟩
abbrev cc6_stg6_1 : Ref sig .tc := ⟨.vmem, 97, rfl⟩
abbrev cc7_stg0_0 : Ref sig .tc := ⟨.vmem, 98, rfl⟩
abbrev cc7_stg0_1 : Ref sig .tc := ⟨.vmem, 99, rfl⟩
abbrev cc7_stg1_0 : Ref sig .tc := ⟨.vmem, 100, rfl⟩
abbrev cc7_stg1_1 : Ref sig .tc := ⟨.vmem, 101, rfl⟩
abbrev cc7_stg2_0 : Ref sig .tc := ⟨.vmem, 102, rfl⟩
abbrev cc7_stg2_1 : Ref sig .tc := ⟨.vmem, 103, rfl⟩
abbrev cc7_stg3_0 : Ref sig .tc := ⟨.vmem, 104, rfl⟩
abbrev cc7_stg3_1 : Ref sig .tc := ⟨.vmem, 105, rfl⟩
abbrev cc7_stg4_0 : Ref sig .tc := ⟨.vmem, 106, rfl⟩
abbrev cc7_stg5_0 : Ref sig .tc := ⟨.vmem, 107, rfl⟩
abbrev cc7_stg6_0 : Ref sig .tc := ⟨.vmem, 108, rfl⟩
abbrev cc7_stg7_0 : Ref sig .tc := ⟨.vmem, 109, rfl⟩
abbrev cc7_stg8_0 : Ref sig .tc := ⟨.vmem, 110, rfl⟩
abbrev cc7_stg9_0 : Ref sig .tc := ⟨.vmem, 111, rfl⟩
abbrev cc7_stg10_0 : Ref sig .tc := ⟨.vmem, 112, rfl⟩
abbrev cc7_stg11_0 : Ref sig .tc := ⟨.vmem, 113, rfl⟩
abbrev cc7_stg12_0 : Ref sig .tc := ⟨.vmem, 114, rfl⟩
abbrev cc7_stg12_1 : Ref sig .tc := ⟨.vmem, 115, rfl⟩
abbrev cc7_stg13_0 : Ref sig .tc := ⟨.vmem, 116, rfl⟩
abbrev cc7_stg13_1 : Ref sig .tc := ⟨.vmem, 117, rfl⟩
abbrev cc7_stg14_0 : Ref sig .tc := ⟨.vmem, 118, rfl⟩
abbrev cc7_stg14_1 : Ref sig .tc := ⟨.vmem, 119, rfl⟩
abbrev cc8_stg0_0 : Ref sig .tc := ⟨.vmem, 120, rfl⟩
abbrev cc8_stg0_1 : Ref sig .tc := ⟨.vmem, 121, rfl⟩
abbrev cc8_stg1_0 : Ref sig .tc := ⟨.vmem, 122, rfl⟩
abbrev cc8_stg1_1 : Ref sig .tc := ⟨.vmem, 123, rfl⟩
abbrev cc8_stg2_0 : Ref sig .tc := ⟨.vmem, 124, rfl⟩
abbrev cc8_stg2_1 : Ref sig .tc := ⟨.vmem, 125, rfl⟩
abbrev cc8_stg3_0 : Ref sig .tc := ⟨.vmem, 126, rfl⟩
abbrev cc8_stg3_1 : Ref sig .tc := ⟨.vmem, 127, rfl⟩
abbrev cc8_stg4_0 : Ref sig .tc := ⟨.vmem, 128, rfl⟩
abbrev cc8_stg5_0 : Ref sig .tc := ⟨.vmem, 129, rfl⟩
abbrev cc8_stg6_0 : Ref sig .tc := ⟨.vmem, 130, rfl⟩
abbrev cc8_stg6_1 : Ref sig .tc := ⟨.vmem, 131, rfl⟩
abbrev cc9_stg0_0 : Ref sig .tc := ⟨.vmem, 132, rfl⟩
abbrev cc9_stg0_1 : Ref sig .tc := ⟨.vmem, 133, rfl⟩
abbrev cc9_stg1_0 : Ref sig .tc := ⟨.vmem, 134, rfl⟩
abbrev cc9_stg2_0 : Ref sig .tc := ⟨.vmem, 135, rfl⟩
abbrev cc9_stg3_0 : Ref sig .tc := ⟨.vmem, 136, rfl⟩
abbrev cc9_stg4_0 : Ref sig .tc := ⟨.vmem, 137, rfl⟩
abbrev cc9_stg5_0 : Ref sig .tc := ⟨.vmem, 138, rfl⟩
abbrev cc9_stg5_1 : Ref sig .tc := ⟨.vmem, 139, rfl⟩
abbrev cc9_stg6_0 : Ref sig .tc := ⟨.vmem, 140, rfl⟩
abbrev cc9_stg6_1 : Ref sig .tc := ⟨.vmem, 141, rfl⟩
abbrev cc10_stg0_0 : Ref sig .tc := ⟨.vmem, 142, rfl⟩
abbrev cc10_stg0_1 : Ref sig .tc := ⟨.vmem, 143, rfl⟩
abbrev cc10_stg1_0 : Ref sig .tc := ⟨.vmem, 144, rfl⟩
abbrev cc10_stg1_1 : Ref sig .tc := ⟨.vmem, 145, rfl⟩
abbrev cc10_stg2_0 : Ref sig .tc := ⟨.vmem, 146, rfl⟩
abbrev cc10_stg2_1 : Ref sig .tc := ⟨.vmem, 147, rfl⟩
abbrev cc10_stg3_0 : Ref sig .tc := ⟨.vmem, 148, rfl⟩
abbrev cc10_stg3_1 : Ref sig .tc := ⟨.vmem, 149, rfl⟩
abbrev cc10_stg4_0 : Ref sig .tc := ⟨.vmem, 150, rfl⟩
abbrev cc10_stg5_0 : Ref sig .tc := ⟨.vmem, 151, rfl⟩
abbrev cc10_stg6_0 : Ref sig .tc := ⟨.vmem, 152, rfl⟩
abbrev cc10_stg7_0 : Ref sig .tc := ⟨.vmem, 153, rfl⟩
abbrev cc10_stg8_0 : Ref sig .tc := ⟨.vmem, 154, rfl⟩
abbrev cc10_stg9_0 : Ref sig .tc := ⟨.vmem, 155, rfl⟩
abbrev cc10_stg10_0 : Ref sig .tc := ⟨.vmem, 156, rfl⟩
abbrev cc10_stg11_0 : Ref sig .tc := ⟨.vmem, 157, rfl⟩
abbrev cc10_stg12_0 : Ref sig .tc := ⟨.vmem, 158, rfl⟩
abbrev cc10_stg12_1 : Ref sig .tc := ⟨.vmem, 159, rfl⟩
abbrev cc10_stg13_0 : Ref sig .tc := ⟨.vmem, 160, rfl⟩
abbrev cc10_stg13_1 : Ref sig .tc := ⟨.vmem, 161, rfl⟩
abbrev cc10_stg14_0 : Ref sig .tc := ⟨.vmem, 162, rfl⟩
abbrev cc10_stg14_1 : Ref sig .tc := ⟨.vmem, 163, rfl⟩
abbrev cc11_stg0_0 : Ref sig .tc := ⟨.vmem, 164, rfl⟩
abbrev cc11_stg0_1 : Ref sig .tc := ⟨.vmem, 165, rfl⟩
abbrev cc11_stg1_0 : Ref sig .tc := ⟨.vmem, 166, rfl⟩
abbrev cc11_stg1_1 : Ref sig .tc := ⟨.vmem, 167, rfl⟩
abbrev cc11_stg2_0 : Ref sig .tc := ⟨.vmem, 168, rfl⟩
abbrev cc11_stg2_1 : Ref sig .tc := ⟨.vmem, 169, rfl⟩
abbrev cc11_stg3_0 : Ref sig .tc := ⟨.vmem, 170, rfl⟩
abbrev cc11_stg3_1 : Ref sig .tc := ⟨.vmem, 171, rfl⟩
abbrev cc11_stg4_0 : Ref sig .tc := ⟨.vmem, 172, rfl⟩
abbrev cc11_stg5_0 : Ref sig .tc := ⟨.vmem, 173, rfl⟩
abbrev cc11_stg6_0 : Ref sig .tc := ⟨.vmem, 174, rfl⟩
abbrev cc11_stg6_1 : Ref sig .tc := ⟨.vmem, 175, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem9_0 : DmaSem sig := 23
abbrev cc1_sem10_0 : DmaSem sig := 24
abbrev cc1_sem11_0 : DmaSem sig := 25
abbrev cc1_sem12_0 : DmaSem sig := 26
abbrev cc1_sem12_1 : DmaSem sig := 27
abbrev cc1_sem13_0 : DmaSem sig := 28
abbrev cc1_sem13_1 : DmaSem sig := 29
abbrev cc1_sem14_0 : DmaSem sig := 30
abbrev cc1_sem14_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem3_1 : DmaSem sig := 39
abbrev cc2_sem4_0 : DmaSem sig := 40
abbrev cc2_sem5_0 : DmaSem sig := 41
abbrev cc2_sem6_0 : DmaSem sig := 42
abbrev cc2_sem6_1 : DmaSem sig := 43
abbrev cc3_sem0_0 : DmaSem sig := 44
abbrev cc3_sem0_1 : DmaSem sig := 45
abbrev cc3_sem1_0 : DmaSem sig := 46
abbrev cc3_sem2_0 : DmaSem sig := 47
abbrev cc3_sem3_0 : DmaSem sig := 48
abbrev cc3_sem4_0 : DmaSem sig := 49
abbrev cc3_sem5_0 : DmaSem sig := 50
abbrev cc3_sem5_1 : DmaSem sig := 51
abbrev cc3_sem6_0 : DmaSem sig := 52
abbrev cc3_sem6_1 : DmaSem sig := 53
abbrev cc4_sem0_0 : DmaSem sig := 54
abbrev cc4_sem0_1 : DmaSem sig := 55
abbrev cc4_sem1_0 : DmaSem sig := 56
abbrev cc4_sem1_1 : DmaSem sig := 57
abbrev cc4_sem2_0 : DmaSem sig := 58
abbrev cc4_sem2_1 : DmaSem sig := 59
abbrev cc4_sem3_0 : DmaSem sig := 60
abbrev cc4_sem3_1 : DmaSem sig := 61
abbrev cc4_sem4_0 : DmaSem sig := 62
abbrev cc4_sem5_0 : DmaSem sig := 63
abbrev cc4_sem6_0 : DmaSem sig := 64
abbrev cc4_sem7_0 : DmaSem sig := 65
abbrev cc4_sem8_0 : DmaSem sig := 66
abbrev cc4_sem9_0 : DmaSem sig := 67
abbrev cc4_sem10_0 : DmaSem sig := 68
abbrev cc4_sem11_0 : DmaSem sig := 69
abbrev cc4_sem12_0 : DmaSem sig := 70
abbrev cc4_sem12_1 : DmaSem sig := 71
abbrev cc4_sem13_0 : DmaSem sig := 72
abbrev cc4_sem13_1 : DmaSem sig := 73
abbrev cc4_sem14_0 : DmaSem sig := 74
abbrev cc4_sem14_1 : DmaSem sig := 75
abbrev cc5_sem0_0 : DmaSem sig := 76
abbrev cc5_sem0_1 : DmaSem sig := 77
abbrev cc5_sem1_0 : DmaSem sig := 78
abbrev cc5_sem1_1 : DmaSem sig := 79
abbrev cc5_sem2_0 : DmaSem sig := 80
abbrev cc5_sem2_1 : DmaSem sig := 81
abbrev cc5_sem3_0 : DmaSem sig := 82
abbrev cc5_sem3_1 : DmaSem sig := 83
abbrev cc5_sem4_0 : DmaSem sig := 84
abbrev cc5_sem5_0 : DmaSem sig := 85
abbrev cc5_sem6_0 : DmaSem sig := 86
abbrev cc5_sem6_1 : DmaSem sig := 87
abbrev cc6_sem0_0 : DmaSem sig := 88
abbrev cc6_sem0_1 : DmaSem sig := 89
abbrev cc6_sem1_0 : DmaSem sig := 90
abbrev cc6_sem2_0 : DmaSem sig := 91
abbrev cc6_sem3_0 : DmaSem sig := 92
abbrev cc6_sem4_0 : DmaSem sig := 93
abbrev cc6_sem5_0 : DmaSem sig := 94
abbrev cc6_sem5_1 : DmaSem sig := 95
abbrev cc6_sem6_0 : DmaSem sig := 96
abbrev cc6_sem6_1 : DmaSem sig := 97
abbrev cc7_sem0_0 : DmaSem sig := 98
abbrev cc7_sem0_1 : DmaSem sig := 99
abbrev cc7_sem1_0 : DmaSem sig := 100
abbrev cc7_sem1_1 : DmaSem sig := 101
abbrev cc7_sem2_0 : DmaSem sig := 102
abbrev cc7_sem2_1 : DmaSem sig := 103
abbrev cc7_sem3_0 : DmaSem sig := 104
abbrev cc7_sem3_1 : DmaSem sig := 105
abbrev cc7_sem4_0 : DmaSem sig := 106
abbrev cc7_sem5_0 : DmaSem sig := 107
abbrev cc7_sem6_0 : DmaSem sig := 108
abbrev cc7_sem7_0 : DmaSem sig := 109
abbrev cc7_sem8_0 : DmaSem sig := 110
abbrev cc7_sem9_0 : DmaSem sig := 111
abbrev cc7_sem10_0 : DmaSem sig := 112
abbrev cc7_sem11_0 : DmaSem sig := 113
abbrev cc7_sem12_0 : DmaSem sig := 114
abbrev cc7_sem12_1 : DmaSem sig := 115
abbrev cc7_sem13_0 : DmaSem sig := 116
abbrev cc7_sem13_1 : DmaSem sig := 117
abbrev cc7_sem14_0 : DmaSem sig := 118
abbrev cc7_sem14_1 : DmaSem sig := 119
abbrev cc8_sem0_0 : DmaSem sig := 120
abbrev cc8_sem0_1 : DmaSem sig := 121
abbrev cc8_sem1_0 : DmaSem sig := 122
abbrev cc8_sem1_1 : DmaSem sig := 123
abbrev cc8_sem2_0 : DmaSem sig := 124
abbrev cc8_sem2_1 : DmaSem sig := 125
abbrev cc8_sem3_0 : DmaSem sig := 126
abbrev cc8_sem3_1 : DmaSem sig := 127
abbrev cc8_sem4_0 : DmaSem sig := 128
abbrev cc8_sem5_0 : DmaSem sig := 129
abbrev cc8_sem6_0 : DmaSem sig := 130
abbrev cc8_sem6_1 : DmaSem sig := 131
abbrev cc9_sem0_0 : DmaSem sig := 132
abbrev cc9_sem0_1 : DmaSem sig := 133
abbrev cc9_sem1_0 : DmaSem sig := 134
abbrev cc9_sem2_0 : DmaSem sig := 135
abbrev cc9_sem3_0 : DmaSem sig := 136
abbrev cc9_sem4_0 : DmaSem sig := 137
abbrev cc9_sem5_0 : DmaSem sig := 138
abbrev cc9_sem5_1 : DmaSem sig := 139
abbrev cc9_sem6_0 : DmaSem sig := 140
abbrev cc9_sem6_1 : DmaSem sig := 141
abbrev cc10_sem0_0 : DmaSem sig := 142
abbrev cc10_sem0_1 : DmaSem sig := 143
abbrev cc10_sem1_0 : DmaSem sig := 144
abbrev cc10_sem1_1 : DmaSem sig := 145
abbrev cc10_sem2_0 : DmaSem sig := 146
abbrev cc10_sem2_1 : DmaSem sig := 147
abbrev cc10_sem3_0 : DmaSem sig := 148
abbrev cc10_sem3_1 : DmaSem sig := 149
abbrev cc10_sem4_0 : DmaSem sig := 150
abbrev cc10_sem5_0 : DmaSem sig := 151
abbrev cc10_sem6_0 : DmaSem sig := 152
abbrev cc10_sem7_0 : DmaSem sig := 153
abbrev cc10_sem8_0 : DmaSem sig := 154
abbrev cc10_sem9_0 : DmaSem sig := 155
abbrev cc10_sem10_0 : DmaSem sig := 156
abbrev cc10_sem11_0 : DmaSem sig := 157
abbrev cc10_sem12_0 : DmaSem sig := 158
abbrev cc10_sem12_1 : DmaSem sig := 159
abbrev cc10_sem13_0 : DmaSem sig := 160
abbrev cc10_sem13_1 : DmaSem sig := 161
abbrev cc10_sem14_0 : DmaSem sig := 162
abbrev cc10_sem14_1 : DmaSem sig := 163
abbrev cc11_sem0_0 : DmaSem sig := 164
abbrev cc11_sem0_1 : DmaSem sig := 165
abbrev cc11_sem1_0 : DmaSem sig := 166
abbrev cc11_sem1_1 : DmaSem sig := 167
abbrev cc11_sem2_0 : DmaSem sig := 168
abbrev cc11_sem2_1 : DmaSem sig := 169
abbrev cc11_sem3_0 : DmaSem sig := 170
abbrev cc11_sem3_1 : DmaSem sig := 171
abbrev cc11_sem4_0 : DmaSem sig := 172
abbrev cc11_sem5_0 : DmaSem sig := 173
abbrev cc11_sem6_0 : DmaSem sig := 174
abbrev cc11_sem6_1 : DmaSem sig := 175

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![512], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S256x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S256x128 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S256x128 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev grid2 : Pipeline.Grid := ⟨1, ![256], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S256x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![64], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S256x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S256x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![256], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_12 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_13 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_14 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S256x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S256x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S256x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S256x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S128x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S128x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S1x128 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S1x128 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 1 → Memref sig .tc .vmem S1x128 .f32 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))
abbrev reads4_11 : Fin grid4.rank → Bool := ![false]

abbrev stage4_12 : Fin 2 → Memref sig .tc .vmem S256x128 .f32 := fun | 0 => Memref.whole cc4_stg12_0 | 1 => Memref.whole cc4_stg12_1 | ⟨_ + 2, h⟩ => absurd h (Nat.not_lt.2 (Nat.le_add_left _ _))
abbrev sem4_12 : Fin 2 → DmaSem sig := fun | 0 => cc4_sem12_0 | 1 => cc4_sem12_1 | ⟨_ + 2, h⟩ => absurd h (Nat.not_lt.2 (Nat.le_add_left _ _))
abbrev reads4_12 : Fin grid4.rank → Bool := ![true]

abbrev stage4_13 : Fin 2 → Memref sig .tc .vmem S256x128 .f32 := fun | 0 => Memref.whole cc4_stg13_0 | 1 => Memref.whole cc4_stg13_1 | ⟨_ + 2, h⟩ => absurd h (Nat.not_lt.2 (Nat.le_add_left _ _))
abbrev sem4_13 : Fin 2 → DmaSem sig := fun | 0 => cc4_sem13_0 | 1 => cc4_sem13_1 | ⟨_ + 2, h⟩ => absurd h (Nat.not_lt.2 (Nat.le_add_left _ _))
abbrev reads4_13 : Fin grid4.rank → Bool := ![true]

abbrev stage4_14 : Fin 2 → Memref sig .tc .vmem S256x128 .f32 := fun | 0 => Memref.whole cc4_stg14_0 | 1 => Memref.whole cc4_stg14_1 | ⟨_ + 2, h⟩ => absurd h (Nat.not_lt.2 (Nat.le_add_left _ _))
abbrev sem4_14 : Fin 2 → DmaSem sig := fun | 0 => cc4_sem14_0 | 1 => cc4_sem14_1 | ⟨_ + 2, h⟩ => absurd h (Nat.not_lt.2 (Nat.le_add_left _ _))
abbrev reads4_14 : Fin grid4.rank → Bool := ![true]

abbrev grid5 : Pipeline.Grid := ⟨1, ![64], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S256x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S256x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S256x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S256x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S256x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![256], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S256x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S256x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S256x128 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![512], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_8 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_9 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_10 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_11 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_12 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_13 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_14 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S256x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S256x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S256x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S256x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 1 → Memref sig .tc .vmem S128x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S128x128 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S1x128 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev stage7_8 : Fin 1 → Memref sig .tc .vmem S128x128 .f32 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![false]

abbrev stage7_9 : Fin 1 → Memref sig .tc .vmem S1x128 .f32 := fun | 0 => Memref.whole cc7_stg9_0 | ⟨_ + 1, h⟩ => absurd h (Nat.not_lt.2 (Nat.le_add_left _ _))
abbrev sem7_9 : Fin 1 → DmaSem sig := fun | 0 => cc7_sem9_0 | ⟨_ + 1, h⟩ => absurd h (Nat.not_lt.2 (Nat.le_add_left _ _))
abbrev reads7_9 : Fin grid7.rank → Bool := ![false]

abbrev stage7_10 : Fin 1 → Memref sig .tc .vmem S1x128 .f32 := fun | 0 => Memref.whole cc7_stg10_0 | ⟨_ + 1, h⟩ => absurd h (Nat.not_lt.2 (Nat.le_add_left _ _))
abbrev sem7_10 : Fin 1 → DmaSem sig := fun | 0 => cc7_sem10_0 | ⟨_ + 1, h⟩ => absurd h (Nat.not_lt.2 (Nat.le_add_left _ _))
abbrev reads7_10 : Fin grid7.rank → Bool := ![false]

abbrev stage7_11 : Fin 1 → Memref sig .tc .vmem S1x128 .f32 := fun | 0 => Memref.whole cc7_stg11_0 | ⟨_ + 1, h⟩ => absurd h (Nat.not_lt.2 (Nat.le_add_left _ _))
abbrev sem7_11 : Fin 1 → DmaSem sig := fun | 0 => cc7_sem11_0 | ⟨_ + 1, h⟩ => absurd h (Nat.not_lt.2 (Nat.le_add_left _ _))
abbrev reads7_11 : Fin grid7.rank → Bool := ![false]

abbrev stage7_12 : Fin 2 → Memref sig .tc .vmem S256x128 .f32 := fun | 0 => Memref.whole cc7_stg12_0 | 1 => Memref.whole cc7_stg12_1 | ⟨_ + 2, h⟩ => absurd h (Nat.not_lt.2 (Nat.le_add_left _ _))
abbrev sem7_12 : Fin 2 → DmaSem sig := fun | 0 => cc7_sem12_0 | 1 => cc7_sem12_1 | ⟨_ + 2, h⟩ => absurd h (Nat.not_lt.2 (Nat.le_add_left _ _))
abbrev reads7_12 : Fin grid7.rank → Bool := ![true]

abbrev stage7_13 : Fin 2 → Memref sig .tc .vmem S256x128 .f32 := fun | 0 => Memref.whole cc7_stg13_0 | 1 => Memref.whole cc7_stg13_1 | ⟨_ + 2, h⟩ => absurd h (Nat.not_lt.2 (Nat.le_add_left _ _))
abbrev sem7_13 : Fin 2 → DmaSem sig := fun | 0 => cc7_sem13_0 | 1 => cc7_sem13_1 | ⟨_ + 2, h⟩ => absurd h (Nat.not_lt.2 (Nat.le_add_left _ _))
abbrev reads7_13 : Fin grid7.rank → Bool := ![true]

abbrev stage7_14 : Fin 2 → Memref sig .tc .vmem S256x128 .f32 := fun | 0 => Memref.whole cc7_stg14_0 | 1 => Memref.whole cc7_stg14_1 | ⟨_ + 2, h⟩ => absurd h (Nat.not_lt.2 (Nat.le_add_left _ _))
abbrev sem7_14 : Fin 2 → DmaSem sig := fun | 0 => cc7_sem14_0 | 1 => cc7_sem14_1 | ⟨_ + 2, h⟩ => absurd h (Nat.not_lt.2 (Nat.le_add_left _ _))
abbrev reads7_14 : Fin grid7.rank → Bool := ![true]

abbrev grid8 : Pipeline.Grid := ⟨1, ![256], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S256x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S256x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S256x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S256x128 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 2 → Memref sig .tc .vmem S256x128 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev grid9 : Pipeline.Grid := ⟨1, ![64], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_6 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S256x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S128x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S128x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S256x128 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev stage9_6 : Fin 2 → Memref sig .tc .vmem S256x128 .f32 := fun | 0 => Memref.whole cc9_stg6_0 | 1 => Memref.whole cc9_stg6_1 | ⟨_ + 2, h⟩ => absurd h (Nat.not_lt.2 (Nat.le_add_left _ _))
abbrev sem9_6 : Fin 2 → DmaSem sig := fun | 0 => cc9_sem6_0 | 1 => cc9_sem6_1 | ⟨_ + 2, h⟩ => absurd h (Nat.not_lt.2 (Nat.le_add_left _ _))
abbrev reads9_6 : Fin grid9.rank → Bool := ![true]

abbrev grid10 : Pipeline.Grid := ⟨1, ![256], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_7 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_8 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_9 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_10 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_11 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_12 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_13 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_14 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S256x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S256x128 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S256x128 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 2 → Memref sig .tc .vmem S256x128 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev stage10_4 : Fin 1 → Memref sig .tc .vmem S128x128 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S1x128 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 1 → Memref sig .tc .vmem S128x128 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]

abbrev stage10_7 : Fin 1 → Memref sig .tc .vmem S1x128 .f32 := fun | 0 => Memref.whole cc10_stg7_0 | ⟨_ + 1, h⟩ => absurd h (Nat.not_lt.2 (Nat.le_add_left _ _))
abbrev sem10_7 : Fin 1 → DmaSem sig := fun | 0 => cc10_sem7_0 | ⟨_ + 1, h⟩ => absurd h (Nat.not_lt.2 (Nat.le_add_left _ _))
abbrev reads10_7 : Fin grid10.rank → Bool := ![false]

abbrev stage10_8 : Fin 1 → Memref sig .tc .vmem S128x128 .f32 := fun | 0 => Memref.whole cc10_stg8_0 | ⟨_ + 1, h⟩ => absurd h (Nat.not_lt.2 (Nat.le_add_left _ _))
abbrev sem10_8 : Fin 1 → DmaSem sig := fun | 0 => cc10_sem8_0 | ⟨_ + 1, h⟩ => absurd h (Nat.not_lt.2 (Nat.le_add_left _ _))
abbrev reads10_8 : Fin grid10.rank → Bool := ![false]

abbrev stage10_9 : Fin 1 → Memref sig .tc .vmem S1x128 .f32 := fun | 0 => Memref.whole cc10_stg9_0 | ⟨_ + 1, h⟩ => absurd h (Nat.not_lt.2 (Nat.le_add_left _ _))
abbrev sem10_9 : Fin 1 → DmaSem sig := fun | 0 => cc10_sem9_0 | ⟨_ + 1, h⟩ => absurd h (Nat.not_lt.2 (Nat.le_add_left _ _))
abbrev reads10_9 : Fin grid10.rank → Bool := ![false]

abbrev stage10_10 : Fin 1 → Memref sig .tc .vmem S1x128 .f32 := fun | 0 => Memref.whole cc10_stg10_0 | ⟨_ + 1, h⟩ => absurd h (Nat.not_lt.2 (Nat.le_add_left _ _))
abbrev sem10_10 : Fin 1 → DmaSem sig := fun | 0 => cc10_sem10_0 | ⟨_ + 1, h⟩ => absurd h (Nat.not_lt.2 (Nat.le_add_left _ _))
abbrev reads10_10 : Fin grid10.rank → Bool := ![false]

abbrev stage10_11 : Fin 1 → Memref sig .tc .vmem S1x128 .f32 := fun | 0 => Memref.whole cc10_stg11_0 | ⟨_ + 1, h⟩ => absurd h (Nat.not_lt.2 (Nat.le_add_left _ _))
abbrev sem10_11 : Fin 1 → DmaSem sig := fun | 0 => cc10_sem11_0 | ⟨_ + 1, h⟩ => absurd h (Nat.not_lt.2 (Nat.le_add_left _ _))
abbrev reads10_11 : Fin grid10.rank → Bool := ![false]

abbrev stage10_12 : Fin 2 → Memref sig .tc .vmem S256x128 .f32 := fun | 0 => Memref.whole cc10_stg12_0 | 1 => Memref.whole cc10_stg12_1 | ⟨_ + 2, h⟩ => absurd h (Nat.not_lt.2 (Nat.le_add_left _ _))
abbrev sem10_12 : Fin 2 → DmaSem sig := fun | 0 => cc10_sem12_0 | 1 => cc10_sem12_1 | ⟨_ + 2, h⟩ => absurd h (Nat.not_lt.2 (Nat.le_add_left _ _))
abbrev reads10_12 : Fin grid10.rank → Bool := ![true]

abbrev stage10_13 : Fin 2 → Memref sig .tc .vmem S256x128 .f32 := fun | 0 => Memref.whole cc10_stg13_0 | 1 => Memref.whole cc10_stg13_1 | ⟨_ + 2, h⟩ => absurd h (Nat.not_lt.2 (Nat.le_add_left _ _))
abbrev sem10_13 : Fin 2 → DmaSem sig := fun | 0 => cc10_sem13_0 | 1 => cc10_sem13_1 | ⟨_ + 2, h⟩ => absurd h (Nat.not_lt.2 (Nat.le_add_left _ _))
abbrev reads10_13 : Fin grid10.rank → Bool := ![true]

abbrev stage10_14 : Fin 2 → Memref sig .tc .vmem S256x128 .f32 := fun | 0 => Memref.whole cc10_stg14_0 | 1 => Memref.whole cc10_stg14_1 | ⟨_ + 2, h⟩ => absurd h (Nat.not_lt.2 (Nat.le_add_left _ _))
abbrev sem10_14 : Fin 2 → DmaSem sig := fun | 0 => cc10_sem14_0 | 1 => cc10_sem14_1 | ⟨_ + 2, h⟩ => absurd h (Nat.not_lt.2 (Nat.le_add_left _ _))
abbrev reads10_14 : Fin grid10.rank → Bool := ![true]

abbrev grid11 : Pipeline.Grid := ⟨1, ![64], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_6 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S256x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S256x128 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 2 → Memref sig .tc .vmem S256x128 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev stage11_3 : Fin 2 → Memref sig .tc .vmem S256x128 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev stage11_4 : Fin 1 → Memref sig .tc .vmem S1x128 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 1 → Memref sig .tc .vmem S1x128 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

abbrev stage11_6 : Fin 2 → Memref sig .tc .vmem S256x128 .f32 := fun | 0 => Memref.whole cc11_stg6_0 | 1 => Memref.whole cc11_stg6_1 | ⟨_ + 2, h⟩ => absurd h (Nat.not_lt.2 (Nat.le_add_left _ _))
abbrev sem11_6 : Fin 2 → DmaSem sig := fun | 0 => cc11_sem6_0 | 1 => cc11_sem6_1 | ⟨_ + 2, h⟩ => absurd h (Nat.not_lt.2 (Nat.le_add_left _ _))
abbrev reads11_6 : Fin grid11.rank → Bool := ![true]

class Facts₀ : Prop where
  slices_S2x131072_S1x131072_0_0 : S2x131072.Slices ![0, 0] S1x131072
  shapeCasts_S1x131072_S131072 : S1x131072.ShapeCasts S131072
  slices_S2x131072_S1x131072_1_0 : S2x131072.Slices ![1, 0] S1x131072
  inb_S256x128_S256x128_0_0 : ∀ a, (![0, 0] : Fin 2 → Nat) a + S256x128.size a ≤ S256x128.size a
  h_S256x128 : 0 < S256x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  broadcasts_S1x128_S256x128 : S1x128.Broadcasts S256x128
  bcast_S_S131072 : S_.BroadcastsInDim S131072 (![] : Fin 0 → Fin S131072.rank)
  bcast_S131072_S131072x1_0 : S131072.BroadcastsInDim S131072x1 (![0] : Fin 1 → Fin S131072x1.rank)
  bcast_S_S131072x1 : S_.BroadcastsInDim S131072x1 (![] : Fin 0 → Fin S131072x1.rank)
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  reducesTo_S131072x1_S131072_d1 : S131072x1.ReducesTo [1] S131072
  h_S_ : 0 < S_.numel
  bcast_S131072_S131072x128_0 : S131072.BroadcastsInDim S131072x128 (![0] : Fin 1 → Fin S131072x128.rank)
  bcast_S_S131072x128 : S_.BroadcastsInDim S131072x128 (![] : Fin 0 → Fin S131072x128.rank)
  shapeCasts_S256x128_S256x128 : S256x128.ShapeCasts S256x128
  reduces_S256x128_S256 : S256x128.Reduces [1] S256
  shapeCasts_S256_S256x1 : S256.ShapeCasts S256x1
  broadcasts_S256x1_S256x128 : S256x1.Broadcasts S256x128
  iota_S256x1_d0_w32 : S256x1.Iotas .tc 32 [0]
  natLt_1_32 : 1 < 32
  bcast_S_S65536x128 : S_.BroadcastsInDim S65536x128 (![] : Fin 0 → Fin S65536x128.rank)
  slices_S2x65536_S1x65536_0_0 : S2x65536.Slices ![0, 0] S1x65536
  shapeCasts_S1x65536_S65536 : S1x65536.ShapeCasts S65536
  slices_S2x65536_S1x65536_1_0 : S2x65536.Slices ![1, 0] S1x65536
  bcast_S_S65536 : S_.BroadcastsInDim S65536 (![] : Fin 0 → Fin S65536.rank)
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S1x1_S65536x1_0_1 : S1x1.BroadcastsInDim S65536x1 (![0, 1] : Fin 2 → Fin S65536x1.rank)
  reducesTo_S65536x1_S65536_d1 : S65536x1.ReducesTo [1] S65536
  bcast_S65536_S65536x128_0 : S65536.BroadcastsInDim S65536x128 (![0] : Fin 1 → Fin S65536x128.rank)
  bcast_S_S16384x128 : S_.BroadcastsInDim S16384x128 (![] : Fin 0 → Fin S16384x128.rank)
  dot_S256x128_S128x128_S256x128_1_0_0_1_n_n_wf : DotDims.WF S256x128 S128x128 S256x128 [1] [0] [0] [1] [] []
  gather_S65536x128_S131072x1_S131072x128_1_0_n_n_0_1_1128_wf : GatherDims.WF S65536x128 S131072x1 S131072x128 [1] [0] [] [0] [] 1 ![1, 128]
  scatter_S65536x128_S131072x1_S131072x128_1_0_0_1_wf : ScatterDims.WF S65536x128 S131072x1 S131072x128 [1] [0] [0] 1
  gather_S16384x128_S65536x1_S65536x128_1_0_n_n_0_1_1128_wf : GatherDims.WF S16384x128 S65536x1 S65536x128 [1] [0] [] [0] [] 1 ![1, 128]
  scatter_S16384x128_S65536x1_S65536x128_1_0_0_1_wf : ScatterDims.WF S16384x128 S65536x1 S65536x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S65536x128.size a
  hwx0_0 : ∀ i : grid0.Coords, EltTy.bits .f32 = 32 ∨ (Rect.block (s := S65536x128) S256x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S65536x128.size a
  hwx0_5 : ∀ i : grid0.Coords, EltTy.bits .f32 = 32 ∨ (Rect.block (s := S65536x128) S256x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x128.size a ≤ S65536x128.size a
  hwx0_6 : ∀ i : grid0.Coords, EltTy.bits .f32 = 32 ∨ (Rect.block (s := S65536x128) S256x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x128.size a ≤ S131072x128.size a
  hwx1_0 : ∀ i : grid1.Coords, EltTy.bits .f32 = 32 ∨ (Rect.block (s := S131072x128) S256x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S131072x128.size a
  hwx1_1 : ∀ i : grid1.Coords, EltTy.bits .f32 = 32 ∨ (Rect.block (s := S131072x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S131072x128.size a
  hwx1_2 : ∀ i : grid1.Coords, EltTy.bits .f32 = 32 ∨ (Rect.block (s := S131072x128) S256x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S131072x128.size a
  hwx1_3 : ∀ i : grid1.Coords, EltTy.bits .f32 = 32 ∨ (Rect.block (s := S131072x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S128x128.size a
  hwx1_8 : ∀ i : grid1.Coords, EltTy.bits .f32 = 32 ∨ (Rect.block (s := S128x128) S128x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x128.size a ≤ S1x128.size a
  hwx1_10 : ∀ i : grid1.Coords, EltTy.bits .f32 = 32 ∨ (Rect.block (s := S1x128) S1x128.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x128.size a ≤ S1x128.size a
  hwx1_11 : ∀ i : grid1.Coords, EltTy.bits .f32 = 32 ∨ (Rect.block (s := S1x128) S1x128.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S256x128.size a ≤ S131072x128.size a
  hwx1_12 : ∀ i : grid1.Coords, EltTy.bits .f32 = 32 ∨ (Rect.block (s := S131072x128) S256x128.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S256x128.size a ≤ S131072x128.size a
  hwx1_13 : ∀ i : grid1.Coords, EltTy.bits .f32 = 32 ∨ (Rect.block (s := S131072x128) S256x128.size (cc1_transform_13 i) (hinb1_13 i)).WholeWords (EltTy.packing .f32)
  hstage1_14 : ∀ j, (stage1_14 j).IsWhole
  nbuf1_14 : grid1.bufCount reads1_14 false = 2
  hreads1_14 : ∀ i i' : grid1.Coords, (∀ a, reads1_14 a = true → i a = i' a) → cc1_transform_14 i = cc1_transform_14 i'
  hinb1_14 : ∀ (i : grid1.Coords) a, (cc1_transform_14 i a + 1) * S256x128.size a ≤ S131072x128.size a
  hwx1_14 : ∀ i : grid1.Coords, EltTy.bits .f32 = 32 ∨ (Rect.block (s := S131072x128) S256x128.size (cc1_transform_14 i) (hinb1_14 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x128.size a ≤ S65536x128.size a
  hwx2_0 : ∀ i : grid2.Coords, EltTy.bits .f32 = 32 ∨ (Rect.block (s := S65536x128) S256x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S65536x128.size a
  hwx2_1 : ∀ i : grid2.Coords, EltTy.bits .f32 = 32 ∨ (Rect.block (s := S65536x128) S256x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x128.size a ≤ S65536x128.size a
  hwx2_2 : ∀ i : grid2.Coords, EltTy.bits .f32 = 32 ∨ (Rect.block (s := S65536x128) S256x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x128.size a ≤ S65536x128.size a
  hwx2_3 : ∀ i : grid2.Coords, EltTy.bits .f32 = 32 ∨ (Rect.block (s := S65536x128) S256x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S256x128.size a ≤ S65536x128.size a
  hwx2_6 : ∀ i : grid2.Coords, EltTy.bits .f32 = 32 ∨ (Rect.block (s := S65536x128) S256x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x128.size a ≤ S16384x128.size a
  hwx3_0 : ∀ i : grid3.Coords, EltTy.bits .f32 = 32 ∨ (Rect.block (s := S16384x128) S256x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S256x128.size a ≤ S16384x128.size a
  hwx3_5 : ∀ i : grid3.Coords, EltTy.bits .f32 = 32 ∨ (Rect.block (s := S16384x128) S256x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S256x128.size a ≤ S16384x128.size a
  hwx3_6 : ∀ i : grid3.Coords, EltTy.bits .f32 = 32 ∨ (Rect.block (s := S16384x128) S256x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S256x128.size a ≤ S65536x128.size a
  hwx4_0 : ∀ i : grid4.Coords, EltTy.bits .f32 = 32 ∨ (Rect.block (s := S65536x128) S256x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S256x128.size a ≤ S65536x128.size a
  hwx4_1 : ∀ i : grid4.Coords, EltTy.bits .f32 = 32 ∨ (Rect.block (s := S65536x128) S256x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S256x128.size a ≤ S65536x128.size a
  hwx4_2 : ∀ i : grid4.Coords, EltTy.bits .f32 = 32 ∨ (Rect.block (s := S65536x128) S256x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S256x128.size a ≤ S65536x128.size a
  hwx4_3 : ∀ i : grid4.Coords, EltTy.bits .f32 = 32 ∨ (Rect.block (s := S65536x128) S256x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S128x128.size a ≤ S128x128.size a
  hwx4_6 : ∀ i : grid4.Coords, EltTy.bits .f32 = 32 ∨ (Rect.block (s := S128x128) S128x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x128.size a ≤ S1x128.size a
  hwx4_7 : ∀ i : grid4.Coords, EltTy.bits .f32 = 32 ∨ (Rect.block (s := S1x128) S1x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S128x128.size a ≤ S128x128.size a
  hwx4_8 : ∀ i : grid4.Coords, EltTy.bits .f32 = 32 ∨ (Rect.block (s := S128x128) S128x128.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S1x128.size a ≤ S1x128.size a
  hwx4_9 : ∀ i : grid4.Coords, EltTy.bits .f32 = 32 ∨ (Rect.block (s := S1x128) S1x128.size (cc4_transform_9 i) (hinb4_9 i)).WholeWords (EltTy.packing .f32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S1x128.size a ≤ S1x128.size a
  hwx4_10 : ∀ i : grid4.Coords, EltTy.bits .f32 = 32 ∨ (Rect.block (s := S1x128) S1x128.size (cc4_transform_10 i) (hinb4_10 i)).WholeWords (EltTy.packing .f32)
  hstage4_11 : ∀ j, (stage4_11 j).IsWhole
  nbuf4_11 : grid4.bufCount reads4_11 true = 1
  hreads4_11 : ∀ i i' : grid4.Coords, (∀ a, reads4_11 a = true → i a = i' a) → cc4_transform_11 i = cc4_transform_11 i'
  hinb4_11 : ∀ (i : grid4.Coords) a, (cc4_transform_11 i a + 1) * S1x128.size a ≤ S1x128.size a
  hwx4_11 : ∀ i : grid4.Coords, EltTy.bits .f32 = 32 ∨ (Rect.block (s := S1x128) S1x128.size (cc4_transform_11 i) (hinb4_11 i)).WholeWords (EltTy.packing .f32)
  hstage4_12 : ∀ j, (stage4_12 j).IsWhole
  nbuf4_12 : grid4.bufCount reads4_12 false = 2
  hreads4_12 : ∀ i i' : grid4.Coords, (∀ a, reads4_12 a = true → i a = i' a) → cc4_transform_12 i = cc4_transform_12 i'
  hinb4_12 : ∀ (i : grid4.Coords) a, (cc4_transform_12 i a + 1) * S256x128.size a ≤ S65536x128.size a
  hwx4_12 : ∀ i : grid4.Coords, EltTy.bits .f32 = 32 ∨ (Rect.block (s := S65536x128) S256x128.size (cc4_transform_12 i) (hinb4_12 i)).WholeWords (EltTy.packing .f32)
  hstage4_13 : ∀ j, (stage4_13 j).IsWhole
  nbuf4_13 : grid4.bufCount reads4_13 false = 2
  hreads4_13 : ∀ i i' : grid4.Coords, (∀ a, reads4_13 a = true → i a = i' a) → cc4_transform_13 i = cc4_transform_13 i'
  hinb4_13 : ∀ (i : grid4.Coords) a, (cc4_transform_13 i a + 1) * S256x128.size a ≤ S65536x128.size a
  hwx4_13 : ∀ i : grid4.Coords, EltTy.bits .f32 = 32 ∨ (Rect.block (s := S65536x128) S256x128.size (cc4_transform_13 i) (hinb4_13 i)).WholeWords (EltTy.packing .f32)
  hstage4_14 : ∀ j, (stage4_14 j).IsWhole
  nbuf4_14 : grid4.bufCount reads4_14 false = 2
  hreads4_14 : ∀ i i' : grid4.Coords, (∀ a, reads4_14 a = true → i a = i' a) → cc4_transform_14 i = cc4_transform_14 i'
  hinb4_14 : ∀ (i : grid4.Coords) a, (cc4_transform_14 i a + 1) * S256x128.size a ≤ S65536x128.size a
  hwx4_14 : ∀ i : grid4.Coords, EltTy.bits .f32 = 32 ∨ (Rect.block (s := S65536x128) S256x128.size (cc4_transform_14 i) (hinb4_14 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S256x128.size a ≤ S16384x128.size a
  hwx5_0 : ∀ i : grid5.Coords, EltTy.bits .f32 = 32 ∨ (Rect.block (s := S16384x128) S256x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S256x128.size a ≤ S16384x128.size a
  hwx5_1 : ∀ i : grid5.Coords, EltTy.bits .f32 = 32 ∨ (Rect.block (s := S16384x128) S256x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S256x128.size a ≤ S16384x128.size a
  hwx5_2 : ∀ i : grid5.Coords, EltTy.bits .f32 = 32 ∨ (Rect.block (s := S16384x128) S256x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S256x128.size a ≤ S16384x128.size a
  hwx5_3 : ∀ i : grid5.Coords, EltTy.bits .f32 = 32 ∨ (Rect.block (s := S16384x128) S256x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S256x128.size a ≤ S16384x128.size a
  hwx5_6 : ∀ i : grid5.Coords, EltTy.bits .f32 = 32 ∨ (Rect.block (s := S16384x128) S256x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S256x128.size a ≤ S65536x128.size a
  hwx6_0 : ∀ i : grid6.Coords, EltTy.bits .f32 = 32 ∨ (Rect.block (s := S65536x128) S256x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x128.size a ≤ S128x128.size a
  hwx6_3 : ∀ i : grid6.Coords, EltTy.bits .f32 = 32 ∨ (Rect.block (s := S128x128) S128x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S256x128.size a ≤ S65536x128.size a
  hwx6_5 : ∀ i : grid6.Coords, EltTy.bits .f32 = 32 ∨ (Rect.block (s := S65536x128) S256x128.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S256x128.size a ≤ S65536x128.size a
  hwx6_6 : ∀ i : grid6.Coords, EltTy.bits .f32 = 32 ∨ (Rect.block (s := S65536x128) S256x128.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S256x128.size a ≤ S131072x128.size a
  hwx7_0 : ∀ i : grid7.Coords, EltTy.bits .f32 = 32 ∨ (Rect.block (s := S131072x128) S256x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S256x128.size a ≤ S131072x128.size a
  hwx7_1 : ∀ i : grid7.Coords, EltTy.bits .f32 = 32 ∨ (Rect.block (s := S131072x128) S256x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S256x128.size a ≤ S131072x128.size a
  hwx7_2 : ∀ i : grid7.Coords, EltTy.bits .f32 = 32 ∨ (Rect.block (s := S131072x128) S256x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S256x128.size a ≤ S131072x128.size a
  hwx7_3 : ∀ i : grid7.Coords, EltTy.bits .f32 = 32 ∨ (Rect.block (s := S131072x128) S256x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S128x128.size a ≤ S128x128.size a
  hwx7_4 : ∀ i : grid7.Coords, EltTy.bits .f32 = 32 ∨ (Rect.block (s := S128x128) S128x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x128.size a ≤ S1x128.size a
  hwx7_5 : ∀ i : grid7.Coords, EltTy.bits .f32 = 32 ∨ (Rect.block (s := S1x128) S1x128.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S128x128.size a ≤ S128x128.size a
  hwx7_6 : ∀ i : grid7.Coords, EltTy.bits .f32 = 32 ∨ (Rect.block (s := S128x128) S128x128.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S1x128.size a ≤ S1x128.size a
  hwx7_7 : ∀ i : grid7.Coords, EltTy.bits .f32 = 32 ∨ (Rect.block (s := S1x128) S1x128.size (cc7_transform_7 i) (hinb7_7 i)).WholeWords (EltTy.packing .f32)
  hstage7_8 : ∀ j, (stage7_8 j).IsWhole
  nbuf7_8 : grid7.bufCount reads7_8 true = 1
  hreads7_8 : ∀ i i' : grid7.Coords, (∀ a, reads7_8 a = true → i a = i' a) → cc7_transform_8 i = cc7_transform_8 i'
  hinb7_8 : ∀ (i : grid7.Coords) a, (cc7_transform_8 i a + 1) * S128x128.size a ≤ S128x128.size a
  hwx7_8 : ∀ i : grid7.Coords, EltTy.bits .f32 = 32 ∨ (Rect.block (s := S128x128) S128x128.size (cc7_transform_8 i) (hinb7_8 i)).WholeWords (EltTy.packing .f32)
  hstage7_9 : ∀ j, (stage7_9 j).IsWhole
  nbuf7_9 : grid7.bufCount reads7_9 true = 1
  hreads7_9 : ∀ i i' : grid7.Coords, (∀ a, reads7_9 a = true → i a = i' a) → cc7_transform_9 i = cc7_transform_9 i'
  hinb7_9 : ∀ (i : grid7.Coords) a, (cc7_transform_9 i a + 1) * S1x128.size a ≤ S1x128.size a
  hwx7_9 : ∀ i : grid7.Coords, EltTy.bits .f32 = 32 ∨ (Rect.block (s := S1x128) S1x128.size (cc7_transform_9 i) (hinb7_9 i)).WholeWords (EltTy.packing .f32)
  hstage7_10 : ∀ j, (stage7_10 j).IsWhole
  nbuf7_10 : grid7.bufCount reads7_10 true = 1
  hreads7_10 : ∀ i i' : grid7.Coords, (∀ a, reads7_10 a = true → i a = i' a) → cc7_transform_10 i = cc7_transform_10 i'
  hinb7_10 : ∀ (i : grid7.Coords) a, (cc7_transform_10 i a + 1) * S1x128.size a ≤ S1x128.size a
  hwx7_10 : ∀ i : grid7.Coords, EltTy.bits .f32 = 32 ∨ (Rect.block (s := S1x128) S1x128.size (cc7_transform_10 i) (hinb7_10 i)).WholeWords (EltTy.packing .f32)
  hstage7_11 : ∀ j, (stage7_11 j).IsWhole
  nbuf7_11 : grid7.bufCount reads7_11 true = 1
  hreads7_11 : ∀ i i' : grid7.Coords, (∀ a, reads7_11 a = true → i a = i' a) → cc7_transform_11 i = cc7_transform_11 i'
  hinb7_11 : ∀ (i : grid7.Coords) a, (cc7_transform_11 i a + 1) * S1x128.size a ≤ S1x128.size a
  hwx7_11 : ∀ i : grid7.Coords, EltTy.bits .f32 = 32 ∨ (Rect.block (s := S1x128) S1x128.size (cc7_transform_11 i) (hinb7_11 i)).WholeWords (EltTy.packing .f32)
  hstage7_12 : ∀ j, (stage7_12 j).IsWhole
  nbuf7_12 : grid7.bufCount reads7_12 false = 2
  hreads7_12 : ∀ i i' : grid7.Coords, (∀ a, reads7_12 a = true → i a = i' a) → cc7_transform_12 i = cc7_transform_12 i'
  hinb7_12 : ∀ (i : grid7.Coords) a, (cc7_transform_12 i a + 1) * S256x128.size a ≤ S131072x128.size a
  hwx7_12 : ∀ i : grid7.Coords, EltTy.bits .f32 = 32 ∨ (Rect.block (s := S131072x128) S256x128.size (cc7_transform_12 i) (hinb7_12 i)).WholeWords (EltTy.packing .f32)
  hstage7_13 : ∀ j, (stage7_13 j).IsWhole
  nbuf7_13 : grid7.bufCount reads7_13 false = 2
  hreads7_13 : ∀ i i' : grid7.Coords, (∀ a, reads7_13 a = true → i a = i' a) → cc7_transform_13 i = cc7_transform_13 i'
  hinb7_13 : ∀ (i : grid7.Coords) a, (cc7_transform_13 i a + 1) * S256x128.size a ≤ S131072x128.size a
  hwx7_13 : ∀ i : grid7.Coords, EltTy.bits .f32 = 32 ∨ (Rect.block (s := S131072x128) S256x128.size (cc7_transform_13 i) (hinb7_13 i)).WholeWords (EltTy.packing .f32)
  hstage7_14 : ∀ j, (stage7_14 j).IsWhole
  nbuf7_14 : grid7.bufCount reads7_14 false = 2
  hreads7_14 : ∀ i i' : grid7.Coords, (∀ a, reads7_14 a = true → i a = i' a) → cc7_transform_14 i = cc7_transform_14 i'
  hinb7_14 : ∀ (i : grid7.Coords) a, (cc7_transform_14 i a + 1) * S256x128.size a ≤ S131072x128.size a
  hwx7_14 : ∀ i : grid7.Coords, EltTy.bits .f32 = 32 ∨ (Rect.block (s := S131072x128) S256x128.size (cc7_transform_14 i) (hinb7_14 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S256x128.size a ≤ S65536x128.size a
  hwx8_0 : ∀ i : grid8.Coords, EltTy.bits .f32 = 32 ∨ (Rect.block (s := S65536x128) S256x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S256x128.size a ≤ S65536x128.size a
  hwx8_1 : ∀ i : grid8.Coords, EltTy.bits .f32 = 32 ∨ (Rect.block (s := S65536x128) S256x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S256x128.size a ≤ S65536x128.size a
  hwx8_2 : ∀ i : grid8.Coords, EltTy.bits .f32 = 32 ∨ (Rect.block (s := S65536x128) S256x128.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S256x128.size a ≤ S65536x128.size a
  hwx8_3 : ∀ i : grid8.Coords, EltTy.bits .f32 = 32 ∨ (Rect.block (s := S65536x128) S256x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x128.size a ≤ S1x128.size a
  hwx8_5 : ∀ i : grid8.Coords, EltTy.bits .f32 = 32 ∨ (Rect.block (s := S1x128) S1x128.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S256x128.size a ≤ S65536x128.size a
  hwx8_6 : ∀ i : grid8.Coords, EltTy.bits .f32 = 32 ∨ (Rect.block (s := S65536x128) S256x128.size (cc8_transform_6 i) (hinb8_6 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S256x128.size a ≤ S16384x128.size a
  hwx9_0 : ∀ i : grid9.Coords, EltTy.bits .f32 = 32 ∨ (Rect.block (s := S16384x128) S256x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128x128.size a ≤ S128x128.size a
  hwx9_1 : ∀ i : grid9.Coords, EltTy.bits .f32 = 32 ∨ (Rect.block (s := S128x128) S128x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S128x128.size a ≤ S128x128.size a
  hwx9_3 : ∀ i : grid9.Coords, EltTy.bits .f32 = 32 ∨ (Rect.block (s := S128x128) S128x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x128.size a ≤ S1x128.size a
  hwx9_4 : ∀ i : grid9.Coords, EltTy.bits .f32 = 32 ∨ (Rect.block (s := S1x128) S1x128.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S256x128.size a ≤ S16384x128.size a
  hwx9_5 : ∀ i : grid9.Coords, EltTy.bits .f32 = 32 ∨ (Rect.block (s := S16384x128) S256x128.size (cc9_transform_5 i) (hinb9_5 i)).WholeWords (EltTy.packing .f32)
  hstage9_6 : ∀ j, (stage9_6 j).IsWhole
  nbuf9_6 : grid9.bufCount reads9_6 false = 2
  hreads9_6 : ∀ i i' : grid9.Coords, (∀ a, reads9_6 a = true → i a = i' a) → cc9_transform_6 i = cc9_transform_6 i'
  hinb9_6 : ∀ (i : grid9.Coords) a, (cc9_transform_6 i a + 1) * S256x128.size a ≤ S16384x128.size a
  hwx9_6 : ∀ i : grid9.Coords, EltTy.bits .f32 = 32 ∨ (Rect.block (s := S16384x128) S256x128.size (cc9_transform_6 i) (hinb9_6 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S256x128.size a ≤ S65536x128.size a
  hwx10_0 : ∀ i : grid10.Coords, EltTy.bits .f32 = 32 ∨ (Rect.block (s := S65536x128) S256x128.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S256x128.size a ≤ S65536x128.size a
  hwx10_1 : ∀ i : grid10.Coords, EltTy.bits .f32 = 32 ∨ (Rect.block (s := S65536x128) S256x128.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S256x128.size a ≤ S65536x128.size a
  hwx10_2 : ∀ i : grid10.Coords, EltTy.bits .f32 = 32 ∨ (Rect.block (s := S65536x128) S256x128.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S256x128.size a ≤ S65536x128.size a
  hwx10_3 : ∀ i : grid10.Coords, EltTy.bits .f32 = 32 ∨ (Rect.block (s := S65536x128) S256x128.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S128x128.size a ≤ S128x128.size a
  hwx10_4 : ∀ i : grid10.Coords, EltTy.bits .f32 = 32 ∨ (Rect.block (s := S128x128) S128x128.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S1x128.size a ≤ S1x128.size a
  hwx10_5 : ∀ i : grid10.Coords, EltTy.bits .f32 = 32 ∨ (Rect.block (s := S1x128) S1x128.size (cc10_transform_5 i) (hinb10_5 i)).WholeWords (EltTy.packing .f32)
  hstage10_6 : ∀ j, (stage10_6 j).IsWhole
  nbuf10_6 : grid10.bufCount reads10_6 true = 1
  hreads10_6 : ∀ i i' : grid10.Coords, (∀ a, reads10_6 a = true → i a = i' a) → cc10_transform_6 i = cc10_transform_6 i'
  hinb10_6 : ∀ (i : grid10.Coords) a, (cc10_transform_6 i a + 1) * S128x128.size a ≤ S128x128.size a
  hwx10_6 : ∀ i : grid10.Coords, EltTy.bits .f32 = 32 ∨ (Rect.block (s := S128x128) S128x128.size (cc10_transform_6 i) (hinb10_6 i)).WholeWords (EltTy.packing .f32)
  hstage10_7 : ∀ j, (stage10_7 j).IsWhole
  nbuf10_7 : grid10.bufCount reads10_7 true = 1
  hreads10_7 : ∀ i i' : grid10.Coords, (∀ a, reads10_7 a = true → i a = i' a) → cc10_transform_7 i = cc10_transform_7 i'
  hinb10_7 : ∀ (i : grid10.Coords) a, (cc10_transform_7 i a + 1) * S1x128.size a ≤ S1x128.size a
  hwx10_7 : ∀ i : grid10.Coords, EltTy.bits .f32 = 32 ∨ (Rect.block (s := S1x128) S1x128.size (cc10_transform_7 i) (hinb10_7 i)).WholeWords (EltTy.packing .f32)
  hstage10_8 : ∀ j, (stage10_8 j).IsWhole
  nbuf10_8 : grid10.bufCount reads10_8 true = 1
  hreads10_8 : ∀ i i' : grid10.Coords, (∀ a, reads10_8 a = true → i a = i' a) → cc10_transform_8 i = cc10_transform_8 i'
  hinb10_8 : ∀ (i : grid10.Coords) a, (cc10_transform_8 i a + 1) * S128x128.size a ≤ S128x128.size a
  hwx10_8 : ∀ i : grid10.Coords, EltTy.bits .f32 = 32 ∨ (Rect.block (s := S128x128) S128x128.size (cc10_transform_8 i) (hinb10_8 i)).WholeWords (EltTy.packing .f32)
  hstage10_9 : ∀ j, (stage10_9 j).IsWhole
  nbuf10_9 : grid10.bufCount reads10_9 true = 1
  hreads10_9 : ∀ i i' : grid10.Coords, (∀ a, reads10_9 a = true → i a = i' a) → cc10_transform_9 i = cc10_transform_9 i'
  hinb10_9 : ∀ (i : grid10.Coords) a, (cc10_transform_9 i a + 1) * S1x128.size a ≤ S1x128.size a
  hwx10_9 : ∀ i : grid10.Coords, EltTy.bits .f32 = 32 ∨ (Rect.block (s := S1x128) S1x128.size (cc10_transform_9 i) (hinb10_9 i)).WholeWords (EltTy.packing .f32)
  hstage10_10 : ∀ j, (stage10_10 j).IsWhole
  nbuf10_10 : grid10.bufCount reads10_10 true = 1
  hreads10_10 : ∀ i i' : grid10.Coords, (∀ a, reads10_10 a = true → i a = i' a) → cc10_transform_10 i = cc10_transform_10 i'
  hinb10_10 : ∀ (i : grid10.Coords) a, (cc10_transform_10 i a + 1) * S1x128.size a ≤ S1x128.size a
  hwx10_10 : ∀ i : grid10.Coords, EltTy.bits .f32 = 32 ∨ (Rect.block (s := S1x128) S1x128.size (cc10_transform_10 i) (hinb10_10 i)).WholeWords (EltTy.packing .f32)
  hstage10_11 : ∀ j, (stage10_11 j).IsWhole
  nbuf10_11 : grid10.bufCount reads10_11 true = 1
  hreads10_11 : ∀ i i' : grid10.Coords, (∀ a, reads10_11 a = true → i a = i' a) → cc10_transform_11 i = cc10_transform_11 i'
  hinb10_11 : ∀ (i : grid10.Coords) a, (cc10_transform_11 i a + 1) * S1x128.size a ≤ S1x128.size a
  hwx10_11 : ∀ i : grid10.Coords, EltTy.bits .f32 = 32 ∨ (Rect.block (s := S1x128) S1x128.size (cc10_transform_11 i) (hinb10_11 i)).WholeWords (EltTy.packing .f32)
  hstage10_12 : ∀ j, (stage10_12 j).IsWhole
  nbuf10_12 : grid10.bufCount reads10_12 false = 2
  hreads10_12 : ∀ i i' : grid10.Coords, (∀ a, reads10_12 a = true → i a = i' a) → cc10_transform_12 i = cc10_transform_12 i'
  hinb10_12 : ∀ (i : grid10.Coords) a, (cc10_transform_12 i a + 1) * S256x128.size a ≤ S65536x128.size a
  hwx10_12 : ∀ i : grid10.Coords, EltTy.bits .f32 = 32 ∨ (Rect.block (s := S65536x128) S256x128.size (cc10_transform_12 i) (hinb10_12 i)).WholeWords (EltTy.packing .f32)
  hstage10_13 : ∀ j, (stage10_13 j).IsWhole
  nbuf10_13 : grid10.bufCount reads10_13 false = 2
  hreads10_13 : ∀ i i' : grid10.Coords, (∀ a, reads10_13 a = true → i a = i' a) → cc10_transform_13 i = cc10_transform_13 i'
  hinb10_13 : ∀ (i : grid10.Coords) a, (cc10_transform_13 i a + 1) * S256x128.size a ≤ S65536x128.size a
  hwx10_13 : ∀ i : grid10.Coords, EltTy.bits .f32 = 32 ∨ (Rect.block (s := S65536x128) S256x128.size (cc10_transform_13 i) (hinb10_13 i)).WholeWords (EltTy.packing .f32)
  hstage10_14 : ∀ j, (stage10_14 j).IsWhole
  nbuf10_14 : grid10.bufCount reads10_14 false = 2
  hreads10_14 : ∀ i i' : grid10.Coords, (∀ a, reads10_14 a = true → i a = i' a) → cc10_transform_14 i = cc10_transform_14 i'
  hinb10_14 : ∀ (i : grid10.Coords) a, (cc10_transform_14 i a + 1) * S256x128.size a ≤ S65536x128.size a
  hwx10_14 : ∀ i : grid10.Coords, EltTy.bits .f32 = 32 ∨ (Rect.block (s := S65536x128) S256x128.size (cc10_transform_14 i) (hinb10_14 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S256x128.size a ≤ S16384x128.size a
  hwx11_0 : ∀ i : grid11.Coords, EltTy.bits .f32 = 32 ∨ (Rect.block (s := S16384x128) S256x128.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S256x128.size a ≤ S16384x128.size a
  hwx11_1 : ∀ i : grid11.Coords, EltTy.bits .f32 = 32 ∨ (Rect.block (s := S16384x128) S256x128.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S256x128.size a ≤ S16384x128.size a
  hwx11_2 : ∀ i : grid11.Coords, EltTy.bits .f32 = 32 ∨ (Rect.block (s := S16384x128) S256x128.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S256x128.size a ≤ S16384x128.size a
  hwx11_3 : ∀ i : grid11.Coords, EltTy.bits .f32 = 32 ∨ (Rect.block (s := S16384x128) S256x128.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x128.size a ≤ S1x128.size a
  hwx11_4 : ∀ i : grid11.Coords, EltTy.bits .f32 = 32 ∨ (Rect.block (s := S1x128) S1x128.size (cc11_transform_4 i) (hinb11_4 i)).WholeWords (EltTy.packing .f32)
  hstage11_5 : ∀ j, (stage11_5 j).IsWhole
  nbuf11_5 : grid11.bufCount reads11_5 true = 1
  hreads11_5 : ∀ i i' : grid11.Coords, (∀ a, reads11_5 a = true → i a = i' a) → cc11_transform_5 i = cc11_transform_5 i'
  hinb11_5 : ∀ (i : grid11.Coords) a, (cc11_transform_5 i a + 1) * S1x128.size a ≤ S1x128.size a
  hwx11_5 : ∀ i : grid11.Coords, EltTy.bits .f32 = 32 ∨ (Rect.block (s := S1x128) S1x128.size (cc11_transform_5 i) (hinb11_5 i)).WholeWords (EltTy.packing .f32)
  hstage11_6 : ∀ j, (stage11_6 j).IsWhole
  nbuf11_6 : grid11.bufCount reads11_6 false = 2
  hreads11_6 : ∀ i i' : grid11.Coords, (∀ a, reads11_6 a = true → i a = i' a) → cc11_transform_6 i = cc11_transform_6 i'
  hinb11_6 : ∀ (i : grid11.Coords) a, (cc11_transform_6 i a + 1) * S256x128.size a ≤ S16384x128.size a
  hwx11_6 : ∀ i : grid11.Coords, EltTy.bits .f32 = 32 ∨ (Rect.block (s := S16384x128) S256x128.size (cc11_transform_6 i) (hinb11_6 i)).WholeWords (EltTy.packing .f32)

variable [Facts₀]

def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def gather_S65536x128_S131072x1_S131072x128_1_0_n_n_0_1_1128 : GatherDims S65536x128 S131072x1 S131072x128 where
  offsetDims := [1]
  collapsedSliceDims := [0]
  operandBatchingDims := []
  startIndicesBatchingDims := []
  startIndexMap := [0]
  indexVectorDim := 1
  sliceSizes := ![1, 128]
  wf := gather_S65536x128_S131072x1_S131072x128_1_0_n_n_0_1_1128_wf
def scatter_S65536x128_S131072x1_S131072x128_1_0_0_1 : ScatterDims S65536x128 S131072x1 S131072x128 where
  updateWindowDims := [1]
  insertedWindowDims := [0]
  scatterDimsToOperandDims := [0]
  indexVectorDim := 1
  wf := scatter_S65536x128_S131072x1_S131072x128_1_0_0_1_wf
def gather_S16384x128_S65536x1_S65536x128_1_0_n_n_0_1_1128 : GatherDims S16384x128 S65536x1 S65536x128 where
  offsetDims := [1]
  collapsedSliceDims := [0]
  operandBatchingDims := []
  startIndicesBatchingDims := []
  startIndexMap := [0]
  indexVectorDim := 1
  sliceSizes := ![1, 128]
  wf := gather_S16384x128_S65536x1_S65536x128_1_0_n_n_0_1_1128_wf
def scatter_S16384x128_S65536x1_S65536x128_1_0_0_1 : ScatterDims S16384x128 S65536x1 S65536x128 where
  updateWindowDims := [1]
  insertedWindowDims := [0]
  scatterDimsToOperandDims := [0]
  indexVectorDim := 1
  wf := scatter_S16384x128_S65536x1_S65536x128_1_0_0_1_wf

abbrev win0_0 : Pipeline.Window sig grid0 :=
  Pipeline.Window.ofSpec (Memref.whole main_arg1) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4_0) S256x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_1) S256x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v5) S256x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S256x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S256x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S256x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg11) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg12) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg13) S128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg14) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg17) S1x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg18) S1x128.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v8_0) S256x128.size cc1_transform_12 reads1_12 true false 2 stage1_12 sem1_12
    hrank1 hreads1_12 hinb1_12 nbuf1_12 (Memref.isWhole_whole _) hwx1_12 hstage1_12

abbrev win1_13 : Pipeline.Window sig grid1 :=
  Pipeline.Window.ofSpec (Memref.whole main_v8_1) S256x128.size cc1_transform_13 reads1_13 true false 2 stage1_13 sem1_13
    hrank1 hreads1_13 hinb1_13 nbuf1_13 (Memref.isWhole_whole _) hwx1_13 hstage1_13

abbrev win1_14 : Pipeline.Window sig grid1 :=
  Pipeline.Window.ofSpec (Memref.whole main_v8_2) S256x128.size cc1_transform_14 reads1_14 true false 2 stage1_14 sem1_14
    hrank1 hreads1_14 hinb1_14 nbuf1_14 (Memref.isWhole_whole _) hwx1_14 hstage1_14

abbrev win1 : Fin 15 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | ⟨_ + 15, h⟩ => absurd h (Nat.not_lt.2 (Nat.le_add_left _ _))
abbrev spec1 : Fin 15 → Pipeline.WinSpec sig grid1.rank := fun w => (win1 w).toWinSpec

abbrev win2_0 : Pipeline.Window sig grid2 :=
  Pipeline.Window.ofSpec (Memref.whole main_arg1) S256x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4_0) S256x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S256x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v14) S256x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg15) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg16) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v15) S256x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_arg0) S256x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg33) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg34) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg35) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg36) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v20_0) S256x128.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v20_1) S256x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v21) S256x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v22) S256x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v15) S256x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v23) S256x128.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_arg37) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg38) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_arg39) S128x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_arg40) S1x128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_arg41) S128x128.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_arg42) S1x128.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_arg45) S1x128.size cc4_transform_10 reads4_10 false true 1 stage4_10 sem4_10
    hrank4 hreads4_10 hinb4_10 nbuf4_10 (Memref.isWhole_whole _) hwx4_10 hstage4_10

abbrev win4_11 : Pipeline.Window sig grid4 :=
  Pipeline.Window.ofSpec (Memref.whole main_arg46) S1x128.size cc4_transform_11 reads4_11 false true 1 stage4_11 sem4_11
    hrank4 hreads4_11 hinb4_11 nbuf4_11 (Memref.isWhole_whole _) hwx4_11 hstage4_11

abbrev win4_12 : Pipeline.Window sig grid4 :=
  Pipeline.Window.ofSpec (Memref.whole main_v24_0) S256x128.size cc4_transform_12 reads4_12 true false 2 stage4_12 sem4_12
    hrank4 hreads4_12 hinb4_12 nbuf4_12 (Memref.isWhole_whole _) hwx4_12 hstage4_12

abbrev win4_13 : Pipeline.Window sig grid4 :=
  Pipeline.Window.ofSpec (Memref.whole main_v24_1) S256x128.size cc4_transform_13 reads4_13 true false 2 stage4_13 sem4_13
    hrank4 hreads4_13 hinb4_13 nbuf4_13 (Memref.isWhole_whole _) hwx4_13 hstage4_13

abbrev win4_14 : Pipeline.Window sig grid4 :=
  Pipeline.Window.ofSpec (Memref.whole main_v24_2) S256x128.size cc4_transform_14 reads4_14 true false 2 stage4_14 sem4_14
    hrank4 hreads4_14 hinb4_14 nbuf4_14 (Memref.isWhole_whole _) hwx4_14 hstage4_14

abbrev win4 : Fin 15 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | 12 => win4_12 | 13 => win4_13 | 14 => win4_14 | ⟨_ + 15, h⟩ => absurd h (Nat.not_lt.2 (Nat.le_add_left _ _))
abbrev spec4 : Fin 15 → Pipeline.WinSpec sig grid4.rank := fun w => (win4 w).toWinSpec

abbrev win5_0 : Pipeline.Window sig grid5 :=
  Pipeline.Window.ofSpec (Memref.whole main_arg0) S256x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v20_0) S256x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v27) S256x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v30) S256x128.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_arg43) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg44) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v31) S256x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v24_0) S256x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg19) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_arg20) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg21) S128x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_arg22) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v36_0) S256x128.size cc6_transform_5 reads6_5 true false 2 stage6_5 sem6_5
    hrank6 hreads6_5 hinb6_5 nbuf6_5 (Memref.isWhole_whole _) hwx6_5 hstage6_5

abbrev win6_6 : Pipeline.Window sig grid6 :=
  Pipeline.Window.ofSpec (Memref.whole main_v36_1) S256x128.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v37) S256x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v38) S256x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v8_0) S256x128.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v39) S256x128.size cc7_transform_3 reads7_3 false false 2 stage7_3 sem7_3
    hrank7 hreads7_3 hinb7_3 nbuf7_3 (Memref.isWhole_whole _) hwx7_3 hstage7_3

abbrev win7_4 : Pipeline.Window sig grid7 :=
  Pipeline.Window.ofSpec (Memref.whole main_arg23) S128x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_arg24) S1x128.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_arg25) S128x128.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_arg26) S1x128.size cc7_transform_7 reads7_7 false true 1 stage7_7 sem7_7
    hrank7 hreads7_7 hinb7_7 nbuf7_7 (Memref.isWhole_whole _) hwx7_7 hstage7_7

abbrev win7_8 : Pipeline.Window sig grid7 :=
  Pipeline.Window.ofSpec (Memref.whole main_arg27) S128x128.size cc7_transform_8 reads7_8 false true 1 stage7_8 sem7_8
    hrank7 hreads7_8 hinb7_8 nbuf7_8 (Memref.isWhole_whole _) hwx7_8 hstage7_8

abbrev win7_9 : Pipeline.Window sig grid7 :=
  Pipeline.Window.ofSpec (Memref.whole main_arg28) S1x128.size cc7_transform_9 reads7_9 false true 1 stage7_9 sem7_9
    hrank7 hreads7_9 hinb7_9 nbuf7_9 (Memref.isWhole_whole _) hwx7_9 hstage7_9

abbrev win7_10 : Pipeline.Window sig grid7 :=
  Pipeline.Window.ofSpec (Memref.whole main_arg31) S1x128.size cc7_transform_10 reads7_10 false true 1 stage7_10 sem7_10
    hrank7 hreads7_10 hinb7_10 nbuf7_10 (Memref.isWhole_whole _) hwx7_10 hstage7_10

abbrev win7_11 : Pipeline.Window sig grid7 :=
  Pipeline.Window.ofSpec (Memref.whole main_arg32) S1x128.size cc7_transform_11 reads7_11 false true 1 stage7_11 sem7_11
    hrank7 hreads7_11 hinb7_11 nbuf7_11 (Memref.isWhole_whole _) hwx7_11 hstage7_11

abbrev win7_12 : Pipeline.Window sig grid7 :=
  Pipeline.Window.ofSpec (Memref.whole main_v40_0) S256x128.size cc7_transform_12 reads7_12 true false 2 stage7_12 sem7_12
    hrank7 hreads7_12 hinb7_12 nbuf7_12 (Memref.isWhole_whole _) hwx7_12 hstage7_12

abbrev win7_13 : Pipeline.Window sig grid7 :=
  Pipeline.Window.ofSpec (Memref.whole main_v40_1) S256x128.size cc7_transform_13 reads7_13 true false 2 stage7_13 sem7_13
    hrank7 hreads7_13 hinb7_13 nbuf7_13 (Memref.isWhole_whole _) hwx7_13 hstage7_13

abbrev win7_14 : Pipeline.Window sig grid7 :=
  Pipeline.Window.ofSpec (Memref.whole main_v40_2) S256x128.size cc7_transform_14 reads7_14 true false 2 stage7_14 sem7_14
    hrank7 hreads7_14 hinb7_14 nbuf7_14 (Memref.isWhole_whole _) hwx7_14 hstage7_14

abbrev win7 : Fin 15 → Pipeline.Window sig grid7 := fun | 0 => win7_0 | 1 => win7_1 | 2 => win7_2 | 3 => win7_3 | 4 => win7_4 | 5 => win7_5 | 6 => win7_6 | 7 => win7_7 | 8 => win7_8 | 9 => win7_9 | 10 => win7_10 | 11 => win7_11 | 12 => win7_12 | 13 => win7_13 | 14 => win7_14 | ⟨_ + 15, h⟩ => absurd h (Nat.not_lt.2 (Nat.le_add_left _ _))
abbrev spec7 : Fin 15 → Pipeline.WinSpec sig grid7.rank := fun w => (win7 w).toWinSpec

abbrev win8_0 : Pipeline.Window sig grid8 :=
  Pipeline.Window.ofSpec (Memref.whole main_v24_0) S256x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v36_0) S256x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v43) S256x128.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v46) S256x128.size cc8_transform_3 reads8_3 false false 2 stage8_3 sem8_3
    hrank8 hreads8_3 hinb8_3 nbuf8_3 (Memref.isWhole_whole _) hwx8_3 hstage8_3

abbrev win8_4 : Pipeline.Window sig grid8 :=
  Pipeline.Window.ofSpec (Memref.whole main_arg29) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_arg30) S1x128.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v47) S256x128.size cc8_transform_6 reads8_6 true false 2 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

abbrev win9_0 : Pipeline.Window sig grid9 :=
  Pipeline.Window.ofSpec (Memref.whole main_v31) S256x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg47) S128x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_arg48) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_arg49) S128x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_arg50) S1x128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v52_0) S256x128.size cc9_transform_5 reads9_5 true false 2 stage9_5 sem9_5
    hrank9 hreads9_5 hinb9_5 nbuf9_5 (Memref.isWhole_whole _) hwx9_5 hstage9_5

abbrev win9_6 : Pipeline.Window sig grid9 :=
  Pipeline.Window.ofSpec (Memref.whole main_v52_1) S256x128.size cc9_transform_6 reads9_6 true false 2 stage9_6 sem9_6
    hrank9 hreads9_6 hinb9_6 nbuf9_6 (Memref.isWhole_whole _) hwx9_6 hstage9_6

abbrev win9 : Fin 7 → Pipeline.Window sig grid9 := fun | 0 => win9_0 | 1 => win9_1 | 2 => win9_2 | 3 => win9_3 | 4 => win9_4 | 5 => win9_5 | 6 => win9_6 | ⟨_ + 7, h⟩ => absurd h (Nat.not_lt.2 (Nat.le_add_left _ _))
abbrev spec9 : Fin 7 → Pipeline.WinSpec sig grid9.rank := fun w => (win9 w).toWinSpec

abbrev win10_0 : Pipeline.Window sig grid10 :=
  Pipeline.Window.ofSpec (Memref.whole main_v53) S256x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v54) S256x128.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v47) S256x128.size cc10_transform_2 reads10_2 false false 2 stage10_2 sem10_2
    hrank10 hreads10_2 hinb10_2 nbuf10_2 (Memref.isWhole_whole _) hwx10_2 hstage10_2

abbrev win10_3 : Pipeline.Window sig grid10 :=
  Pipeline.Window.ofSpec (Memref.whole main_v55) S256x128.size cc10_transform_3 reads10_3 false false 2 stage10_3 sem10_3
    hrank10 hreads10_3 hinb10_3 nbuf10_3 (Memref.isWhole_whole _) hwx10_3 hstage10_3

abbrev win10_4 : Pipeline.Window sig grid10 :=
  Pipeline.Window.ofSpec (Memref.whole main_arg51) S128x128.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_arg52) S1x128.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_arg53) S128x128.size cc10_transform_6 reads10_6 false true 1 stage10_6 sem10_6
    hrank10 hreads10_6 hinb10_6 nbuf10_6 (Memref.isWhole_whole _) hwx10_6 hstage10_6

abbrev win10_7 : Pipeline.Window sig grid10 :=
  Pipeline.Window.ofSpec (Memref.whole main_arg54) S1x128.size cc10_transform_7 reads10_7 false true 1 stage10_7 sem10_7
    hrank10 hreads10_7 hinb10_7 nbuf10_7 (Memref.isWhole_whole _) hwx10_7 hstage10_7

abbrev win10_8 : Pipeline.Window sig grid10 :=
  Pipeline.Window.ofSpec (Memref.whole main_arg55) S128x128.size cc10_transform_8 reads10_8 false true 1 stage10_8 sem10_8
    hrank10 hreads10_8 hinb10_8 nbuf10_8 (Memref.isWhole_whole _) hwx10_8 hstage10_8

abbrev win10_9 : Pipeline.Window sig grid10 :=
  Pipeline.Window.ofSpec (Memref.whole main_arg56) S1x128.size cc10_transform_9 reads10_9 false true 1 stage10_9 sem10_9
    hrank10 hreads10_9 hinb10_9 nbuf10_9 (Memref.isWhole_whole _) hwx10_9 hstage10_9

abbrev win10_10 : Pipeline.Window sig grid10 :=
  Pipeline.Window.ofSpec (Memref.whole main_arg59) S1x128.size cc10_transform_10 reads10_10 false true 1 stage10_10 sem10_10
    hrank10 hreads10_10 hinb10_10 nbuf10_10 (Memref.isWhole_whole _) hwx10_10 hstage10_10

abbrev win10_11 : Pipeline.Window sig grid10 :=
  Pipeline.Window.ofSpec (Memref.whole main_arg60) S1x128.size cc10_transform_11 reads10_11 false true 1 stage10_11 sem10_11
    hrank10 hreads10_11 hinb10_11 nbuf10_11 (Memref.isWhole_whole _) hwx10_11 hstage10_11

abbrev win10_12 : Pipeline.Window sig grid10 :=
  Pipeline.Window.ofSpec (Memref.whole main_v56_0) S256x128.size cc10_transform_12 reads10_12 true false 2 stage10_12 sem10_12
    hrank10 hreads10_12 hinb10_12 nbuf10_12 (Memref.isWhole_whole _) hwx10_12 hstage10_12

abbrev win10_13 : Pipeline.Window sig grid10 :=
  Pipeline.Window.ofSpec (Memref.whole main_v56_1) S256x128.size cc10_transform_13 reads10_13 true false 2 stage10_13 sem10_13
    hrank10 hreads10_13 hinb10_13 nbuf10_13 (Memref.isWhole_whole _) hwx10_13 hstage10_13

abbrev win10_14 : Pipeline.Window sig grid10 :=
  Pipeline.Window.ofSpec (Memref.whole main_v56_2) S256x128.size cc10_transform_14 reads10_14 true false 2 stage10_14 sem10_14
    hrank10 hreads10_14 hinb10_14 nbuf10_14 (Memref.isWhole_whole _) hwx10_14 hstage10_14

abbrev win10 : Fin 15 → Pipeline.Window sig grid10 := fun | 0 => win10_0 | 1 => win10_1 | 2 => win10_2 | 3 => win10_3 | 4 => win10_4 | 5 => win10_5 | 6 => win10_6 | 7 => win10_7 | 8 => win10_8 | 9 => win10_9 | 10 => win10_10 | 11 => win10_11 | 12 => win10_12 | 13 => win10_13 | 14 => win10_14 | ⟨_ + 15, h⟩ => absurd h (Nat.not_lt.2 (Nat.le_add_left _ _))
abbrev spec10 : Fin 15 → Pipeline.WinSpec sig grid10.rank := fun w => (win10 w).toWinSpec

abbrev win11_0 : Pipeline.Window sig grid11 :=
  Pipeline.Window.ofSpec (Memref.whole main_v31) S256x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v52_0) S256x128.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v59) S256x128.size cc11_transform_2 reads11_2 false false 2 stage11_2 sem11_2
    hrank11 hreads11_2 hinb11_2 nbuf11_2 (Memref.isWhole_whole _) hwx11_2 hstage11_2

abbrev win11_3 : Pipeline.Window sig grid11 :=
  Pipeline.Window.ofSpec (Memref.whole main_v62) S256x128.size cc11_transform_3 reads11_3 false false 2 stage11_3 sem11_3
    hrank11 hreads11_3 hinb11_3 nbuf11_3 (Memref.isWhole_whole _) hwx11_3 hstage11_3

abbrev win11_4 : Pipeline.Window sig grid11 :=
  Pipeline.Window.ofSpec (Memref.whole main_arg57) S1x128.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_arg58) S1x128.size cc11_transform_5 reads11_5 false true 1 stage11_5 sem11_5
    hrank11 hreads11_5 hinb11_5 nbuf11_5 (Memref.isWhole_whole _) hwx11_5 hstage11_5

abbrev win11_6 : Pipeline.Window sig grid11 :=
  Pipeline.Window.ofSpec (Memref.whole main_v63) S256x128.size cc11_transform_6 reads11_6 true false 2 stage11_6 sem11_6
    hrank11 hreads11_6 hinb11_6 nbuf11_6 (Memref.isWhole_whole _) hwx11_6 hstage11_6

abbrev win11 : Fin 7 → Pipeline.Window sig grid11 := fun | 0 => win11_0 | 1 => win11_1 | 2 => win11_2 | 3 => win11_3 | 4 => win11_4 | 5 => win11_5 | 6 => win11_6 | ⟨_ + 7, h⟩ => absurd h (Nat.not_lt.2 (Nat.le_add_left _ _))
abbrev spec11 : Fin 7 → Pipeline.WinSpec sig grid11.rank := fun w => (win11 w).toWinSpec

class Facts : Prop extends Facts₀ where

variable [Facts]
-- ==== Proof.K.Half0Body.lean ====
import proofs.«117664_g2000706958607885_pallasbulk_534_41_alg».proof.Proof.Gen.Kernel.Launch
import proofs.«117664_g2000706958607885_pallasbulk_534_41_alg».proof.Proof.Gen.Kernel.Skeleton
import proofs.«117664_g2000706958607885_pallasbulk_534_41_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Pipeline 0, `cc0__node_proj_kernel`: what one call of the body leaves, and its triple

The body reads a 1024-row block `x`, a 128×512 weight `w` and a 1×512 bias `b`, forms the 1024×512
projection `x · w + b` once, and stores three column slices of it: lanes 0–127 into window 3, lanes 384–511 into
window 4 (twice, side by side), and lanes 128–383 into window 5. -/

/-! ## The body's accesses -/

/-- the whole 1024×128 block (the read of `x`, the store of window 3), -/
abbrev rx0 : Rect S1024x128 := Rect.unit (s := S1024x128) ![0, 0] S1024x128.size inb_S1024x128_S1024x128_0_0
/-- the whole weight, -/
abbrev rw0 : Rect S128x512 := Rect.unit (s := S128x512) ![0, 0] S128x512.size inb_S128x512_S128x512_0_0
/-- the whole bias row, -/
abbrev rb0 : Rect S1x512 := Rect.unit (s := S1x512) ![0, 0] S1x512.size inb_S1x512_S1x512_0_0
/-- the whole 1024×256 block (the store of window 5), -/
abbrev rq0 : Rect S1024x256 := Rect.unit (s := S1024x256) ![0, 0] S1024x256.size inb_S1024x256_S1024x256_0_0
/-- lanes 0–127 of a 1024×256 block, -/
abbrev rlo0 : Rect S1024x256 := Rect.unit (s := S1024x256) ![0, 0] S1024x128.size inb_S1024x256_S1024x128_0_0
/-- and its lanes 128–255. -/
abbrev rhi0 : Rect S1024x256 := Rect.unit (s := S1024x256) ![0, 128] S1024x128.size inb_S1024x256_S1024x128_0_128

/-! ## What the body leaves in each output window's buffer -/

/-- Window 3's buffer after the body, from the input blocks: the first 128 lanes of the projection, one store. -/
def out0_3 (x0 : Vec F S1024x128 .f32) (x1 : Vec F S128x512 .f32) (x2 : Vec F S1x512 .f32) : Vec F S1024x128 .f32 :=
  View.canon [⟨rx0, k0_pay2 (View.ld x0 rx0) (View.ld x1 rw0) (View.ld x2 rb0)⟩]

/-- One whole-block store covers the block. -/
theorem cover0_3 (p0 : Vec F S1024x128 .f32) (y : S1024x128.Idx) :
    ∃ pc ∈ ([⟨rx0, p0⟩] : List (View.Piece (Elt F) S1024x128 .f32)), y ∈ pc.1.set :=
  View.cover_of_tiled [⟨rx0, p0⟩] S1024x128.size (by rfl) y

/-- Window 4's buffer after the body: its two 128-lane halves, each holding the last 128 lanes of the projection, written by two stores, the later store listed first. -/
def out0_4 (x0 : Vec F S1024x128 .f32) (x1 : Vec F S128x512 .f32) (x2 : Vec F S1x512 .f32) : Vec F S1024x256 .f32 :=
  View.canon [⟨rhi0, k0_pay4 (View.ld x0 rx0) (View.ld x1 rw0) (View.ld x2 rb0)⟩, ⟨rlo0, k0_pay4 (View.ld x0 rx0) (View.ld x1 rw0) (View.ld x2 rb0)⟩]

/-- The two 128-lane halves tile the 256-lane block (two blocks of 1024×128, one at each lane offset), so they cover it. -/
theorem cover0_4 (p0 p1 : Vec F S1024x128 .f32) (y : S1024x256.Idx) :
    ∃ pc ∈ ([⟨rhi0, p0⟩, ⟨rlo0, p1⟩] : List (View.Piece (Elt F) S1024x256 .f32)), y ∈ pc.1.set :=
  View.cover_of_tiled [⟨rhi0, p0⟩, ⟨rlo0, p1⟩] S1024x128.size (by rfl) y

/-- Window 5's buffer after the body: lanes 128–383 of the projection, one store. -/
def out0_5 (x0 : Vec F S1024x128 .f32) (x1 : Vec F S128x512 .f32) (x2 : Vec F S1x512 .f32) : Vec F S1024x256 .f32 :=
  View.canon [⟨rq0, k0_pay3 (View.ld x0 rx0) (View.ld x1 rw0) (View.ld x2 rb0)⟩]

/-- One whole-block store covers the block. -/
theorem cover0_5 (p0 : Vec F S1024x256 .f32) (y : S1024x256.Idx) :
    ∃ pc ∈ ([⟨rq0, p0⟩] : List (View.Piece (Elt F) S1024x256 .f32)), y ∈ pc.1.set :=
  View.cover_of_tiled [⟨rq0, p0⟩] S1024x256.size (by rfl) y

/-! ## The body's triple -/

set_option maxHeartbeats 4000000 in
/-- The body on whole staging memrefs — the inputs' holding `x0 x1 x2`, the outputs' holding anything — runs to the
    continuation with the inputs' unchanged and each output's holding `out0_W x0 x1 x2`. The body's loads of the
    output buffers before each store are of values it never uses; after the stores each buffer reads as the overlay
    of its stores, since they cover it. -/
theorem sound_kernel0 (c : Dev nD) (E : Set ℕ) (i : grid0.Coords) (arg1 : Memref sig .tc .vmem S1024x128 .f32) (harg1 : arg1.IsWhole) (arg2 : Memref sig .tc .vmem S128x512 .f32) (harg2 : arg2.IsWhole) (arg3 : Memref sig .tc .vmem S1x512 .f32) (harg3 : arg3.IsWhole) (arg4 : Memref sig .tc .vmem S1024x128 .f32) (harg4 : arg4.IsWhole) (arg5 : Memref sig .tc .vmem S1024x256 .f32) (harg5 : arg5.IsWhole) (arg6 : Memref sig .tc .vmem S1024x256 .f32) (harg6 : arg6.IsWhole)
    (x0 : Vec F S1024x128 .f32) (x1 : Vec F S128x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2) ∗ owns (c : Thread nD τ) arg5 fullShare (out0_4 x0 x1 x2) ∗ owns (c : Thread nD τ) arg6 fullShare (out0_5 x0 x1 x2)) -∗ K ⟨⟩))
      ⊢ wp frame (wpE (defs₀ (F := F)) Variants.none c none) E (cc0__node_proj_kernel i arg1 harg1 arg2 harg2 arg3 harg3 arg4 harg4 arg5 harg5 arg6 harg6) K := by
  simp only [cc0__node_proj_kernel_eq_skeleton]; unfold cc0__node_proj_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  isplitl [H4]
  · iexists _; isplitr
    swap; · iexact H4
    ipureintro
    exact View.read_writes_eq_canon _ _ _ (cover0_4 _ _)
  iexists _; isplitr
  swap; · iexact H5
  ipureintro
  exact View.read_writes_eq_canon _ _ _ (cover0_5 _)

end Cert.Kernel.Fr
-- ==== Proof.K.Half0.lean ====
import proofs.«117664_g2000706958607885_pallasbulk_534_41_alg».proof.Proof.K.Half0Body
import proofs.«117664_g2000706958607885_pallasbulk_534_41_alg».proof.Proof.Gen.Kernel.Launch
import proofs.«117664_g2000706958607885_pallasbulk_534_41_alg».proof.Proof.Gen.Kernel.Skeleton
import proofs.«117664_g2000706958607885_pallasbulk_534_41_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the pipeline is entered: the parameter this half is stated at
variable (V : (c : Dev nD) → (b : Ref sig .tc) → Buf (Elt F) ((c : Thread nD τ).loc b))

/-! # Pipeline 0, `cc0__node_proj_kernel`, at the entry contents `V` -/

/-! ## The windows' blocks -/

/-- Window `w`'s block at grid point `t`, read off its array as the pipeline finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the 1024-row block of x): its current staging buffer holds its block at every point, whether it was fetched
    there or kept from an earlier point whose block index is the same, for any proof data whose array is `V`'s
    (`hA`) and whose body leaves the block in place (`hafter`). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 (the weight): its current staging buffer holds its block at every point, whether it was fetched
    there or kept from an earlier point whose block index is the same, for any proof data whose array is `V`'s
    (`hA`) and whose body leaves the block in place (`hafter`). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2 (the bias row): its current staging buffer holds its block at every point, whether it was fetched
    there or kept from an earlier point whose block index is the same, for any proof data whose array is `V`'s
    (`hA`) and whose body leaves the block in place (`hafter`). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The pipeline's proof data -/

/-- The proof data of pipeline 0 on core `c`: the arrays as the pipeline finds them (`V`); after the body at point `t`
    each input's buffer holds its block and each output's holds `out0_W` of the input blocks; the invariant is the
    untouched rest of the core's state; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks (`before0_W`), so the body's triple applies; the
    invariant and what is owed pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline's proof data, at every point. -/
theorem body_obligation0 (c : Dev nD) : BodyObligation (dat0 (F := F) V c) (defs₀ (F := F)) Variants.none () Set.univ := fun t => by
  rw [bigSep_W0, bigSep_W0]
  exact sound_body0 V c t

end Regions

end Cert.Kernel.Fr
-- ==== Proof.K.Half1Body.lean ====
import proofs.«117664_g2000706958607885_pallasbulk_534_41_alg».proof.Proof.Gen.Kernel.Launch
import proofs.«117664_g2000706958607885_pallasbulk_534_41_alg».proof.Proof.Gen.Kernel.Skeleton
import proofs.«117664_g2000706958607885_pallasbulk_534_41_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Pipeline 1, `cc1__node_proj_kernel`: what one call of the body leaves, and its triple

The body reads a 1024-row block `x`, a 128×512 weight `w` and a 1×512 bias `b`, forms the 1024×512
projection `x · w + b` once, and stores three column slices of it: lanes 0–127 into window 3, lanes 384–511 into
window 4 (once), and lanes 128–383 into window 5. -/

/-! ## The body's accesses -/

/-- the whole 1024×128 block (the read of `x`, the store of window 3 and of window 4), -/
abbrev rx1 : Rect S1024x128 := Rect.unit (s := S1024x128) ![0, 0] S1024x128.size inb_S1024x128_S1024x128_0_0
/-- the whole weight, -/
abbrev rw1 : Rect S128x512 := Rect.unit (s := S128x512) ![0, 0] S128x512.size inb_S128x512_S128x512_0_0
/-- the whole bias row, -/
abbrev rb1 : Rect S1x512 := Rect.unit (s := S1x512) ![0, 0] S1x512.size inb_S1x512_S1x512_0_0
/-- the whole 1024×256 block (the store of window 5). -/
abbrev rq1 : Rect S1024x256 := Rect.unit (s := S1024x256) ![0, 0] S1024x256.size inb_S1024x256_S1024x256_0_0

/-! ## What the body leaves in each output window's buffer -/

/-- Window 3's buffer after the body, from the input blocks: the first 128 lanes of the projection, one store. -/
def out1_3 (x0 : Vec F S1024x128 .f32) (x1 : Vec F S128x512 .f32) (x2 : Vec F S1x512 .f32) : Vec F S1024x128 .f32 :=
  View.canon [⟨rx1, k1_pay2 (View.ld x0 rx1) (View.ld x1 rw1) (View.ld x2 rb1)⟩]

/-- One whole-block store covers the block. -/
theorem cover1_3 (p0 : Vec F S1024x128 .f32) (y : S1024x128.Idx) :
    ∃ pc ∈ ([⟨rx1, p0⟩] : List (View.Piece (Elt F) S1024x128 .f32)), y ∈ pc.1.set :=
  View.cover_of_tiled [⟨rx1, p0⟩] S1024x128.size (by rfl) y

/-- Window 4's buffer after the body: the last 128 lanes of the projection, one store. -/
def out1_4 (x0 : Vec F S1024x128 .f32) (x1 : Vec F S128x512 .f32) (x2 : Vec F S1x512 .f32) : Vec F S1024x128 .f32 :=
  View.canon [⟨rx1, k1_pay4 (View.ld x0 rx1) (View.ld x1 rw1) (View.ld x2 rb1)⟩]

/-- One whole-block store covers the block. -/
theorem cover1_4 (p0 : Vec F S1024x128 .f32) (y : S1024x128.Idx) :
    ∃ pc ∈ ([⟨rx1, p0⟩] : List (View.Piece (Elt F) S1024x128 .f32)), y ∈ pc.1.set :=
  View.cover_of_tiled [⟨rx1, p0⟩] S1024x128.size (by rfl) y

/-- Window 5's buffer after the body: lanes 128–383 of the projection, one store. -/
def out1_5 (x0 : Vec F S1024x128 .f32) (x1 : Vec F S128x512 .f32) (x2 : Vec F S1x512 .f32) : Vec F S1024x256 .f32 :=
  View.canon [⟨rq1, k1_pay3 (View.ld x0 rx1) (View.ld x1 rw1) (View.ld x2 rb1)⟩]

/-- One whole-block store covers the block. -/
theorem cover1_5 (p0 : Vec F S1024x256 .f32) (y : S1024x256.Idx) :
    ∃ pc ∈ ([⟨rq1, p0⟩] : List (View.Piece (Elt F) S1024x256 .f32)), y ∈ pc.1.set :=
  View.cover_of_tiled [⟨rq1, p0⟩] S1024x256.size (by rfl) y

/-! ## The body's triple -/

set_option maxHeartbeats 4000000 in
/-- The body on whole staging memrefs — the inputs' holding `x0 x1 x2`, the outputs' holding anything — runs to the
    continuation with the inputs' unchanged and each output's holding `out1_W x0 x1 x2`. The body's loads of the
    output buffers before each store are of values it never uses; after the stores each buffer reads as the overlay
    of its stores, since they cover it. -/
theorem sound_kernel1 (c : Dev nD) (E : Set ℕ) (i : grid1.Coords) (arg1 : Memref sig .tc .vmem S1024x128 .f32) (harg1 : arg1.IsWhole) (arg2 : Memref sig .tc .vmem S128x512 .f32) (harg2 : arg2.IsWhole) (arg3 : Memref sig .tc .vmem S1x512 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x256 .f32) (harg6 : arg6.IsWhole)
    (x0 : Vec F S1024x128 .f32) (x1 : Vec F S128x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2) ∗ owns (c : Thread nD τ) arg5 fullShare (out1_4 x0 x1 x2) ∗ owns (c : Thread nD τ) arg6 fullShare (out1_5 x0 x1 x2)) -∗ K ⟨⟩))
      ⊢ wp frame (wpE (defs₀ (F := F)) Variants.none c none) E (cc1__node_proj_kernel i arg1 harg1 arg2 harg2 arg3 harg3 arg4 harg4 arg5 harg5 arg6 harg6) K := by
  simp only [cc1__node_proj_kernel_eq_skeleton]; unfold cc1__node_proj_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_3 _)
  isplitl [H4]
  · iexists _; isplitr
    swap; · iexact H4
    ipureintro
    exact View.read_writes_eq_canon _ _ _ (cover1_4 _)
  iexists _; isplitr
  swap; · iexact H5
  ipureintro
  exact View.read_writes_eq_canon _ _ _ (cover1_5 _)

end Cert.Kernel.Fr
-- ==== Proof.K.Half1.lean ====
import proofs.«117664_g2000706958607885_pallasbulk_534_41_alg».proof.Proof.K.Half1Body
import proofs.«117664_g2000706958607885_pallasbulk_534_41_alg».proof.Proof.Gen.Kernel.Launch
import proofs.«117664_g2000706958607885_pallasbulk_534_41_alg».proof.Proof.Gen.Kernel.Skeleton
import proofs.«117664_g2000706958607885_pallasbulk_534_41_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the pipeline is entered: the parameter this half is stated at
variable (V : (c : Dev nD) → (b : Ref sig .tc) → Buf (Elt F) ((c : Thread nD τ).loc b))

/-! # Pipeline 1, `cc1__node_proj_kernel`, at the entry contents `V` -/

/-! ## The windows' blocks -/

/-- Window `w`'s block at grid point `t`, read off its array as the pipeline finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the 1024-row block of x): its current staging buffer holds its block at every point, whether it was fetched
    there or kept from an earlier point whose block index is the same, for any proof data whose array is `V`'s
    (`hA`) and whose body leaves the block in place (`hafter`). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1 (the weight): its current staging buffer holds its block at every point, whether it was fetched
    there or kept from an earlier point whose block index is the same, for any proof data whose array is `V`'s
    (`hA`) and whose body leaves the block in place (`hafter`). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2 (the bias row): its current staging buffer holds its block at every point, whether it was fetched
    there or kept from an earlier point whose block index is the same, for any proof data whose array is `V`'s
    (`hA`) and whose body leaves the block in place (`hafter`). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The pipeline's proof data -/

/-- The proof data of pipeline 1 on core `c`: the arrays as the pipeline finds them (`V`); after the body at point `t`
    each input's buffer holds its block and each output's holds `out1_W` of the input blocks; the invariant is the
    untouched rest of the core's state; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
    | ⟨4, _⟩ => out1_4 (iblk1 V c 0 t) (iblk1 V c 1 t) (iblk1 V c 2 t)
    | ⟨5, _⟩ => out1_5 (iblk1 V c 0 t) (iblk1 V c 1 t) (iblk1 V c 2 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]
theorem after1_4 (c : Dev nD) (t : Fin cfg1.N) : (dat1 V c).after 4 t = out1_4 (iblk1 V c 0 t) (iblk1 V c 1 t) (iblk1 V c 2 t) := by dsimp only [dat1]
theorem after1_5 (c : Dev nD) (t : Fin cfg1.N) : (dat1 V c).after 5 t = out1_5 (iblk1 V c 0 t) (iblk1 V c 1 t) (iblk1 V c 2 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks (`before1_W`), so the body's triple applies; the
    invariant and what is owed pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline's proof data, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Fr
-- ==== Proof.K.Half2Body.lean ====
import proofs.«117664_g2000706958607885_pallasbulk_534_41_alg».proof.Proof.Gen.Kernel.Launch
import proofs.«117664_g2000706958607885_pallasbulk_534_41_alg».proof.Proof.Gen.Kernel.Skeleton
import proofs.«117664_g2000706958607885_pallasbulk_534_41_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding membership in a rectangle of 1024-row extent recurses once per coordinate of the long axis
set_option maxRecDepth 16384

noncomputable section

namespace Cert.Kernel.Fr

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body of pipeline 2 (`cc2__edge_kernel`) on whole staging buffers -/

/-! ## The rectangles the body reads and writes through -/

abbrev r2_0 : Rect S1024x128 := Rect.unit (s := S1024x128) ![0, 0] S1024x128.size inb_S1024x128_S1024x128_0_0
abbrev r2_1 : Rect S1024x256 := Rect.unit (s := S1024x256) ![0, 0] S1024x256.size inb_S1024x256_S1024x256_0_0
abbrev r2_2 : Rect S128x128 := Rect.unit (s := S128x128) ![0, 0] S128x128.size inb_S128x128_S128x128_0_0
abbrev r2_3 : Rect S1x128 := Rect.unit (s := S1x128) ![0, 0] S1x128.size inb_S1x128_S1x128_0_0
abbrev r2_4 : Rect S1024x256 := Rect.unit (s := S1024x256) ![0, 0] S1024x128.size inb_S1024x256_S1024x128_0_0
abbrev r2_5 : Rect S1024x256 := Rect.unit (s := S1024x256) ![0, 128] S1024x128.size inb_S1024x256_S1024x128_0_128

/-! ## What the body leaves in each output window's buffer -/

/-- Window 7's buffer after the body as a function of the input blocks: the one store over the whole block. -/
def out2_7 (x0 : Vec F S1024x128 .f32) (x1 : Vec F S1024x128 .f32) (x2 : Vec F S1024x256 .f32) (x3 : Vec F S128x128 .f32) (x4 : Vec F S1x128 .f32) (x5 : Vec F S1x128 .f32) (x6 : Vec F S1x128 .f32) : Vec F S1024x128 .f32 :=
  View.canon [⟨r2_0, k2_pay1 (View.ld x0 r2_0) (k2_pay6 (View.ld x0 r2_0) (View.ld x2 r2_1) (View.ld x3 r2_2) (View.ld x1 r2_0) (View.ld x4 r2_3) (View.ld x5 r2_3) (View.ld x6 r2_3)) (k2_pay7 (View.ld x0 r2_0) (View.ld x2 r2_1) (View.ld x3 r2_2) (View.ld x1 r2_0) (View.ld x4 r2_3) (View.ld x5 r2_3) (View.ld x6 r2_3))⟩]

/-- One store of the whole block tiles it, so it covers it. -/
theorem cover2_7 (p0 : r2_0.shape.Idx → Elt F .f32) (y : S1024x128.Idx) :
    ∃ pc ∈ ([⟨r2_0, p0⟩] : List (View.Piece (Elt F) S1024x128 .f32)), y ∈ pc.1.set :=
  View.cover_of_tiled [⟨r2_0, p0⟩] S1024x128.size (by rfl) y

/-- Window 8's buffer after the body as a function of the input blocks: its two 128-lane halves, the later store first. -/
def out2_8 (x0 : Vec F S1024x128 .f32) (x1 : Vec F S1024x128 .f32) (x2 : Vec F S1024x256 .f32) (x3 : Vec F S128x128 .f32) (x4 : Vec F S1x128 .f32) (x5 : Vec F S1x128 .f32) (x6 : Vec F S1x128 .f32) : Vec F S1024x256 .f32 :=
  View.canon [⟨r2_5, k2_pay2 (k2_pay5 (View.ld x0 r2_0) (View.ld x2 r2_1) (View.ld x3 r2_2) (View.ld x1 r2_0) (View.ld x4 r2_3))⟩, ⟨r2_4, k2_pay3 (k2_pay4 (View.ld x2 r2_1)) (k2_pay5 (View.ld x0 r2_0) (View.ld x2 r2_1) (View.ld x3 r2_2) (View.ld x1 r2_0) (View.ld x4 r2_3))⟩]

/-- The two 128-lane halves tile the 256-lane block, so they cover it. -/
theorem cover2_8 (p1 : r2_5.shape.Idx → Elt F .f32) (p0 : r2_4.shape.Idx → Elt F .f32) (y : S1024x256.Idx) :
    ∃ pc ∈ ([⟨r2_5, p1⟩, ⟨r2_4, p0⟩] : List (View.Piece (Elt F) S1024x256 .f32)), y ∈ pc.1.set :=
  View.cover_of_tiled [⟨r2_5, p1⟩, ⟨r2_4, p0⟩] S1024x128.size (by rfl) y

/-! ## The body's triple -/

set_option maxHeartbeats 1000000 in
/-- Run on whole staging buffers, the inputs' holding `xW` and the outputs' anything, the body ends with the inputs'
    unchanged and each output's holding `out2_W` of the inputs: the body is a sequence of loads, pure payloads and
    stores, executed symbolically; what the stores leave is the canonical contents of a covering list of writes. -/
theorem sound_kernel2 (c : Dev nD) (E : Set ℕ) (i : grid2.Coords) (arg1 : Memref sig .tc .vmem S1024x128 .f32) (harg1 : arg1.IsWhole) (arg2 : Memref sig .tc .vmem S1024x128 .f32) (harg2 : arg2.IsWhole) (arg3 : Memref sig .tc .vmem S1024x256 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x256 .f32) (harg9 : arg9.IsWhole)
    (x0 : Vec F S1024x128 .f32) (x1 : Vec F S1024x128 .f32) (x2 : Vec F S1024x256 .f32) (x3 : Vec F S128x128 .f32) (x4 : Vec F S1x128 .f32) (x5 : Vec F S1x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out2_7 x0 x1 x2 x3 x4 x5 x6) ∗ owns (c : Thread nD τ) arg9 fullShare (out2_8 x0 x1 x2 x3 x4 x5 x6)) -∗ K ⟨⟩))
      ⊢ wp frame (wpE (defs₀ (F := F)) Variants.none c none) E (cc2__edge_kernel i arg1 harg1 arg2 harg2 arg3 harg3 arg4 harg4 arg5 harg5 arg6 harg6 arg7 harg7 arg8 harg8 arg9 harg9) K := by
  simp only [cc2__edge_kernel_eq_skeleton]; unfold cc2__edge_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (cover2_7 _)
  iexists _; isplitr
  swap; · iexact H8
  ipureintro
  try dsimp only
  exact View.read_writes_eq_canon _ _ _ (cover2_8 _ _)

end Cert.Kernel.Fr
-- ==== Proof.K.Half2.lean ====
import proofs.«117664_g2000706958607885_pallasbulk_534_41_alg».proof.Proof.Gen.Kernel.Launch
import proofs.«117664_g2000706958607885_pallasbulk_534_41_alg».proof.Proof.Gen.Kernel.Skeleton
import proofs.«117664_g2000706958607885_pallasbulk_534_41_alg».proof.Proof.Gen.Kernel.Points
import proofs.«117664_g2000706958607885_pallasbulk_534_41_alg».proof.Proof.K.Half2Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding membership in a rectangle of 1024-row extent recurses once per coordinate of the long axis
set_option maxRecDepth 16384

noncomputable section

namespace Cert.Kernel.Fr

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Pipeline 2 (`cc2__edge_kernel`) entered at the buffer contents `V` -/

/-! ## The windows' blocks -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether fetched there or carried over
    (the block index then has not moved), for any proof data over `V`'s array whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- An input window's current staging buffer holds its block at every point, whether fetched there or carried over
    (the block index then has not moved), for any proof data over `V`'s array whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- An input window's current staging buffer holds its block at every point, whether fetched there or carried over
    (the block index then has not moved), for any proof data over `V`'s array whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- An input window's current staging buffer holds its block at every point, whether fetched there or carried over
    (the block index then has not moved), for any proof data over `V`'s array whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- An input window's current staging buffer holds its block at every point, whether fetched there or carried over
    (the block index then has not moved), for any proof data over `V`'s array whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- An input window's current staging buffer holds its block at every point, whether fetched there or carried over
    (the block index then has not moved), for any proof data over `V`'s array whose body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- An input window's current staging buffer holds its block at every point, whether fetched there or carried over
    (the block index then has not moved), for any proof data over `V`'s array whose body leaves the block in place. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The pipeline's proof data -/

/-- The proof data of pipeline 2 on core `c`: the arrays as the region finds them; after the body at point `t`
    each input's buffer at its block and each output's at `out2_W` of the input blocks; the invariant is the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
    | ⟨8, _⟩ => out2_8 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]
theorem after2_8 (c : Dev nD) (t : Fin cfg2.N) : (dat2 V c).after 8 t = out2_8 (iblk2 V c 0 t) (iblk2 V c 1 t) (iblk2 V c 2 t) (iblk2 V c 3 t) (iblk2 V c 4 t) (iblk2 V c 5 t) (iblk2 V c 6 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

/-- The body at any point: the inputs' buffers hold their blocks, so the body's triple applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ (grid2.coords t) _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation of the pipeline, at every point. -/
theorem body_obligation2 (c : Dev nD) : BodyObligation (dat2 (F := F) V c) (defs₀ (F := F)) Variants.none () Set.univ := fun t => by
  rw [bigSep_W2, bigSep_W2]
  exact sound_body2 V c t

end Cert.Kernel.Fr
-- ==== Proof.K.Half3Body.lean ====
import proofs.«117664_g2000706958607885_pallasbulk_534_41_alg».proof.Proof.Gen.Kernel.Launch
import proofs.«117664_g2000706958607885_pallasbulk_534_41_alg».proof.Proof.Gen.Kernel.Skeleton
import proofs.«117664_g2000706958607885_pallasbulk_534_41_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The node-update body of pallas_call 3, run once on whole staging buffers

The body reads five buffers in full (two of 1024 × 128, one of 1024 × 256, two rows of 128) and overwrites a
sixth, of 1024 × 128, with one full-buffer store.  This module
names the rectangles it touches, the value the store leaves, and proves the separation-logic triple of the body. -/

-- membership of an index in a rectangle with 1024 rows is decided structurally, one step per row
set_option maxRecDepth 16384

noncomputable section

namespace Cert.Kernel.Fr

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes: each is a whole buffer -/

/-- all of a 1024 × 256 buffer -/
abbrev r3_0 : Rect S1024x256 := Rect.unit (s := S1024x256) ![0, 0] S1024x256.size inb_S1024x256_S1024x256_0_0
/-- all of a 1024 × 128 buffer -/
abbrev r3_1 : Rect S1024x128 := Rect.unit (s := S1024x128) ![0, 0] S1024x128.size inb_S1024x128_S1024x128_0_0
/-- all of a 1 × 128 buffer -/
abbrev r3_2 : Rect S1x128 := Rect.unit (s := S1x128) ![0, 0] S1x128.size inb_S1x128_S1x128_0_0

/-! ## The value left in the output buffer -/

/-- The output buffer after the body, as a function of the five input buffers' contents: the single store's
    payload, as the skeleton names it — with `a`, `b` the two lane halves of `x2`, `u = x1 + a / (b + ε)`, `n` the
    row-wise normalisation of `u` scaled by `x3` and shifted by `x4`, the value `x0 + n · logistic n` — laid over
    the whole buffer. -/
def out3_5 (x0 : Vec F S1024x128 .f32) (x1 : Vec F S1024x128 .f32) (x2 : Vec F S1024x256 .f32) (x3 : Vec F S1x128 .f32) (x4 : Vec F S1x128 .f32) : Vec F S1024x128 .f32 :=
  View.canon [⟨r3_1, k3_pay1 (View.ld x2 r3_0) (View.ld x1 r3_1) (View.ld x0 r3_1) (View.ld x3 r3_2) (View.ld x4 r3_2)⟩]

/-- The one stored rectangle is the whole buffer, so every index of the buffer lies in a stored piece. -/
theorem cover3_5 (p0 : Vec F S1024x128 .f32) (y : S1024x128.Idx) :
    ∃ pc ∈ ([⟨r3_1, p0⟩] : List (View.Piece (Elt F) S1024x128 .f32)), y ∈ pc.1.set :=
  View.cover_of_tiled [⟨r3_1, p0⟩] S1024x128.size (by rfl) y

/-! ## The body's triple -/

set_option maxHeartbeats 1000000 in
/-- Given full ownership of the five input buffers at contents `x0 … x4` and of the output buffer at any
    contents, the body runs to its continuation with the inputs unchanged and the output at `out3_5 x0 … x4`:
    the body is its skeleton of loads and one store, which symbolic execution walks; the final contents are the
    canonical form of the store list because the store covers the buffer. -/
theorem sound_kernel3 (c : Dev nD) (E : Set ℕ) (i : grid3.Coords) (arg1 : Memref sig .tc .vmem S1024x128 .f32) (harg1 : arg1.IsWhole) (arg2 : Memref sig .tc .vmem S1024x128 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1024x128 .f32) (harg6 : arg6.IsWhole)
    (x0 : Vec F S1024x128 .f32) (x1 : Vec F S1024x128 .f32) (x2 : Vec F S1024x256 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3__node_upd_kernel i arg1 harg1 arg2 harg2 arg3 harg3 arg4 harg4 arg5 harg5 arg6 harg6) K := by
  simp only [cc3__node_upd_kernel_eq_skeleton]; unfold cc3__node_upd_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover3_5 _)

end Cert.Kernel.Fr
-- ==== Proof.K.Half3.lean ====
import proofs.«117664_g2000706958607885_pallasbulk_534_41_alg».proof.Proof.K.Half3Body

/-! # Pallas_call 3 (node update): the pipeline's proof data and its body obligation, at entry contents `V`

Five input windows (0–4) and one output window (5).  At every grid point the inputs' staging buffers hold the
blocks of their arrays as the region found them, and the body leaves in the output's staging buffer the value
`out3_5` of those blocks. -/

set_option maxRecDepth 16384

noncomputable section

namespace Cert.Kernel.Fr

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
-- the TensorCore's buffer contents when the region is entered
variable (V : (c : Dev nD) → (b : Ref sig .tc) → Buf (Elt F) ((c : Thread nD τ).loc b))

/-! ## The windows' blocks -/

/-- Window `w`'s block at grid point `t`, read through the window's view of its array as `V` has it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0: whatever proof data has `V`'s array for it and a body that leaves its block in place, the
    current staging buffer holds the block of the point, whether the pipeline fetched there or kept the previous
    fetch (an unfetched point has the same block index as its predecessor). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1: whatever proof data has `V`'s array for it and a body that leaves its block in place, the
    current staging buffer holds the block of the point, whether the pipeline fetched there or kept the previous
    fetch (an unfetched point has the same block index as its predecessor). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2: whatever proof data has `V`'s array for it and a body that leaves its block in place, the
    current staging buffer holds the block of the point, whether the pipeline fetched there or kept the previous
    fetch (an unfetched point has the same block index as its predecessor). -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3: whatever proof data has `V`'s array for it and a body that leaves its block in place, the
    current staging buffer holds the block of the point, whether the pipeline fetched there or kept the previous
    fetch (an unfetched point has the same block index as its predecessor). -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4: whatever proof data has `V`'s array for it and a body that leaves its block in place, the
    current staging buffer holds the block of the point, whether the pipeline fetched there or kept the previous
    fetch (an unfetched point has the same block index as its predecessor). -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The pipeline's proof data -/

/-- Proof data of the pipeline on core `c`: arrays as `V` has them; after the body at point `t` every input
    buffer still at its block and the output buffer at `out3_5` of the input blocks; the class invariant
    (scoped rest and generator register untouched); nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the entry contents. -/
theorem A_eq3 (c : Dev nD) (w : Fin cfg3.W) : (dat3 V c).A w = V c (Pipeline.arrRef spec3 w) := by
  dsimp only [dat3]

/-- What the body leaves, window by window (the definition's case split reduced at each numeral). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation at a generic point -/

/-- What the body is handed at point `t`: the invariant, the owed transfers, and the six current staging buffers. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- What it hands back. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' buffers hold their blocks, so the body's triple applies with those blocks;
    the invariant and the owed transfers are framed around it. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation: the triple above at every point, the windows' separating product spelt out. -/
theorem body_obligation3 (c : Dev nD) : BodyObligation (dat3 (F := F) V c) (defs₀ (F := F)) Variants.none () Set.univ := fun t => by
  rw [bigSep_W3, bigSep_W3]
  exact sound_body3 V c t

end Region3

end Cert.Kernel.Fr
-- ==== Proof.K.Half4Body.lean ====
import proofs.«117664_g2000706958607885_pallasbulk_534_41_alg».proof.Proof.Gen.Kernel.Launch
import proofs.«117664_g2000706958607885_pallasbulk_534_41_alg».proof.Proof.Gen.Kernel.Skeleton
import proofs.«117664_g2000706958607885_pallasbulk_534_41_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding membership in a rectangle of 1024-row extent recurses once per coordinate of the long axis
set_option maxRecDepth 16384

noncomputable section

namespace Cert.Kernel.Fr

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body of pipeline 4 (`cc4__edge_kernel`) on whole staging buffers -/

/-! ## The rectangles the body reads and writes through -/

abbrev r4_0 : Rect S1024x128 := Rect.unit (s := S1024x128) ![0, 0] S1024x128.size inb_S1024x128_S1024x128_0_0
abbrev r4_1 : Rect S1024x256 := Rect.unit (s := S1024x256) ![0, 0] S1024x256.size inb_S1024x256_S1024x256_0_0
abbrev r4_2 : Rect S128x128 := Rect.unit (s := S128x128) ![0, 0] S128x128.size inb_S128x128_S128x128_0_0
abbrev r4_3 : Rect S1x128 := Rect.unit (s := S1x128) ![0, 0] S1x128.size inb_S1x128_S1x128_0_0
abbrev r4_4 : Rect S1024x256 := Rect.unit (s := S1024x256) ![0, 0] S1024x128.size inb_S1024x256_S1024x128_0_0
abbrev r4_5 : Rect S1024x256 := Rect.unit (s := S1024x256) ![0, 128] S1024x128.size inb_S1024x256_S1024x128_0_128

/-! ## What the body leaves in each output window's buffer -/

/-- Window 7's buffer after the body as a function of the input blocks: the one store over the whole block. -/
def out4_7 (x0 : Vec F S1024x128 .f32) (x1 : Vec F S1024x128 .f32) (x2 : Vec F S1024x256 .f32) (x3 : Vec F S128x128 .f32) (x4 : Vec F S1x128 .f32) (x5 : Vec F S1x128 .f32) (x6 : Vec F S1x128 .f32) : Vec F S1024x128 .f32 :=
  View.canon [⟨r4_0, k4_pay1 (k4_pay4 (View.ld x0 r4_0)) (k4_pay7 (View.ld x0 r4_0) (View.ld x2 r4_1) (View.ld x3 r4_2) (View.ld x1 r4_0) (View.ld x4 r4_3) (View.ld x5 r4_3) (View.ld x6 r4_3))⟩]

/-- One store of the whole block tiles it, so it covers it. -/
theorem cover4_7 (p0 : r4_0.shape.Idx → Elt F .f32) (y : S1024x128.Idx) :
    ∃ pc ∈ ([⟨r4_0, p0⟩] : List (View.Piece (Elt F) S1024x128 .f32)), y ∈ pc.1.set :=
  View.cover_of_tiled [⟨r4_0, p0⟩] S1024x128.size (by rfl) y

/-- Window 8's buffer after the body as a function of the input blocks: its two 128-lane halves, the later store first. -/
def out4_8 (x0 : Vec F S1024x128 .f32) (x1 : Vec F S1024x128 .f32) (x2 : Vec F S1024x256 .f32) (x3 : Vec F S128x128 .f32) (x4 : Vec F S1x128 .f32) (x5 : Vec F S1x128 .f32) (x6 : Vec F S1x128 .f32) : Vec F S1024x256 .f32 :=
  View.canon [⟨r4_5, k4_pay2 (k4_pay6 (View.ld x0 r4_0) (View.ld x2 r4_1) (View.ld x3 r4_2) (View.ld x1 r4_0) (View.ld x4 r4_3))⟩, ⟨r4_4, k4_pay3 (k4_pay5 (View.ld x2 r4_1)) (k4_pay6 (View.ld x0 r4_0) (View.ld x2 r4_1) (View.ld x3 r4_2) (View.ld x1 r4_0) (View.ld x4 r4_3))⟩]

/-- The two 128-lane halves tile the 256-lane block, so they cover it. -/
theorem cover4_8 (p1 : r4_5.shape.Idx → Elt F .f32) (p0 : r4_4.shape.Idx → Elt F .f32) (y : S1024x256.Idx) :
    ∃ pc ∈ ([⟨r4_5, p1⟩, ⟨r4_4, p0⟩] : List (View.Piece (Elt F) S1024x256 .f32)), y ∈ pc.1.set :=
  View.cover_of_tiled [⟨r4_5, p1⟩, ⟨r4_4, p0⟩] S1024x128.size (by rfl) y

/-! ## The body's triple -/

set_option maxHeartbeats 1000000 in
/-- Run on whole staging buffers, the inputs' holding `xW` and the outputs' anything, the body ends with the inputs'
    unchanged and each output's holding `out4_W` of the inputs: the body is a sequence of loads, pure payloads and
    stores, executed symbolically; what the stores leave is the canonical contents of a covering list of writes. -/
theorem sound_kernel4 (c : Dev nD) (E : Set ℕ) (i : grid4.Coords) (arg1 : Memref sig .tc .vmem S1024x128 .f32) (harg1 : arg1.IsWhole) (arg2 : Memref sig .tc .vmem S1024x128 .f32) (harg2 : arg2.IsWhole) (arg3 : Memref sig .tc .vmem S1024x256 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x256 .f32) (harg9 : arg9.IsWhole)
    (x0 : Vec F S1024x128 .f32) (x1 : Vec F S1024x128 .f32) (x2 : Vec F S1024x256 .f32) (x3 : Vec F S128x128 .f32) (x4 : Vec F S1x128 .f32) (x5 : Vec F S1x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out4_7 x0 x1 x2 x3 x4 x5 x6) ∗ owns (c : Thread nD τ) arg9 fullShare (out4_8 x0 x1 x2 x3 x4 x5 x6)) -∗ K ⟨⟩))
      ⊢ wp frame (wpE (defs₀ (F := F)) Variants.none c none) E (cc4__edge_kernel i arg1 harg1 arg2 harg2 arg3 harg3 arg4 harg4 arg5 harg5 arg6 harg6 arg7 harg7 arg8 harg8 arg9 harg9) K := by
  simp only [cc4__edge_kernel_eq_skeleton]; unfold cc4__edge_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (cover4_7 _)
  iexists _; isplitr
  swap; · iexact H8
  ipureintro
  try dsimp only
  exact View.read_writes_eq_canon _ _ _ (cover4_8 _ _)

end Cert.Kernel.Fr
-- ==== Proof.K.Half4.lean ====
import proofs.«117664_g2000706958607885_pallasbulk_534_41_alg».proof.Proof.Gen.Kernel.Launch
import proofs.«117664_g2000706958607885_pallasbulk_534_41_alg».proof.Proof.Gen.Kernel.Skeleton
import proofs.«117664_g2000706958607885_pallasbulk_534_41_alg».proof.Proof.Gen.Kernel.Points
import proofs.«117664_g2000706958607885_pallasbulk_534_41_alg».proof.Proof.K.Half4Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding membership in a rectangle of 1024-row extent recurses once per coordinate of the long axis
set_option maxRecDepth 16384

noncomputable section

namespace Cert.Kernel.Fr

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Pipeline 4 (`cc4__edge_kernel`) entered at the buffer contents `V` -/

/-! ## The windows' blocks -/

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, whether fetched there or carried over
    (the block index then has not moved), for any proof data over `V`'s array whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- An input window's current staging buffer holds its block at every point, whether fetched there or carried over
    (the block index then has not moved), for any proof data over `V`'s array whose body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- An input window's current staging buffer holds its block at every point, whether fetched there or carried over
    (the block index then has not moved), for any proof data over `V`'s array whose body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
/-- An input window's current staging buffer holds its block at every point, whether fetched there or carried over
    (the block index then has not moved), for any proof data over `V`'s array whose body leaves the block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
/-- An input window's current staging buffer holds its block at every point, whether fetched there or carried over
    (the block index then has not moved), for any proof data over `V`'s array whose body leaves the block in place. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
/-- An input window's current staging buffer holds its block at every point, whether fetched there or carried over
    (the block index then has not moved), for any proof data over `V`'s array whose body leaves the block in place. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)
/-- An input window's current staging buffer holds its block at every point, whether fetched there or carried over
    (the block index then has not moved), for any proof data over `V`'s array whose body leaves the block in place. -/
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

/-! ## The pipeline's proof data -/

/-- The proof data of pipeline 4 on core `c`: the arrays as the region finds them; after the body at point `t`
    each input's buffer at its block and each output's at `out4_W` of the input blocks; the invariant is the scoped
    rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => out4_7 (iblk4 V c 0 t) (iblk4 V c 1 t) (iblk4 V c 2 t) (iblk4 V c 3 t) (iblk4 V c 4 t) (iblk4 V c 5 t) (iblk4 V c 6 t)
    | ⟨8, _⟩ => out4_8 (iblk4 V c 0 t) (iblk4 V c 1 t) (iblk4 V c 2 t) (iblk4 V c 3 t) (iblk4 V c 4 t) (iblk4 V c 5 t) (iblk4 V c 6 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = out4_7 (iblk4 V c 0 t) (iblk4 V c 1 t) (iblk4 V c 2 t) (iblk4 V c 3 t) (iblk4 V c 4 t) (iblk4 V c 5 t) (iblk4 V c 6 t) := by dsimp only [dat4]
theorem after4_8 (c : Dev nD) (t : Fin cfg4.N) : (dat4 V c).after 8 t = out4_8 (iblk4 V c 0 t) (iblk4 V c 1 t) (iblk4 V c 2 t) (iblk4 V c 3 t) (iblk4 V c 4 t) (iblk4 V c 5 t) (iblk4 V c 6 t) := by dsimp only [dat4]

/-- Each input's current staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t))

/-- The body at any point: the inputs' buffers hold their blocks, so the body's triple applies; the invariant and
    what the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel4 c Set.univ (grid4.coords t) _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation of the pipeline, at every point. -/
theorem body_obligation4 (c : Dev nD) : BodyObligation (dat4 (F := F) V c) (defs₀ (F := F)) Variants.none () Set.univ := fun t => by
  rw [bigSep_W4, bigSep_W4]
  exact sound_body4 V c t

end Cert.Kernel.Fr
-- ==== Proof.K.Half5Body.lean ====
import proofs.«117664_g2000706958607885_pallasbulk_534_41_alg».proof.Proof.Gen.Kernel.Launch
import proofs.«117664_g2000706958607885_pallasbulk_534_41_alg».proof.Proof.Gen.Kernel.Skeleton
import proofs.«117664_g2000706958607885_pallasbulk_534_41_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Pipeline 5, `cc5__node_proj_kernel`: what one call of the body leaves, and its triple

The body reads a 1024-row block `x`, a 128×512 weight `w` and a 1×512 bias `b`, forms the 1024×512
projection `x · w + b` once, and stores three column slices of it: lanes 0–127 into window 3, lanes 384–511 into
window 4 (twice, side by side), and lanes 128–383 into window 5. -/

/-! ## The body's accesses -/

/-- the whole 1024×128 block (the read of `x`, the store of window 3), -/
abbrev rx5 : Rect S1024x128 := Rect.unit (s := S1024x128) ![0, 0] S1024x128.size inb_S1024x128_S1024x128_0_0
/-- the whole weight, -/
abbrev rw5 : Rect S128x512 := Rect.unit (s := S128x512) ![0, 0] S128x512.size inb_S128x512_S128x512_0_0
/-- the whole bias row, -/
abbrev rb5 : Rect S1x512 := Rect.unit (s := S1x512) ![0, 0] S1x512.size inb_S1x512_S1x512_0_0
/-- the whole 1024×256 block (the store of window 5), -/
abbrev rq5 : Rect S1024x256 := Rect.unit (s := S1024x256) ![0, 0] S1024x256.size inb_S1024x256_S1024x256_0_0
/-- lanes 0–127 of a 1024×256 block, -/
abbrev rlo5 : Rect S1024x256 := Rect.unit (s := S1024x256) ![0, 0] S1024x128.size inb_S1024x256_S1024x128_0_0
/-- and its lanes 128–255. -/
abbrev rhi5 : Rect S1024x256 := Rect.unit (s := S1024x256) ![0, 128] S1024x128.size inb_S1024x256_S1024x128_0_128

/-! ## What the body leaves in each output window's buffer -/

/-- Window 3's buffer after the body, from the input blocks: the first 128 lanes of the projection, one store. -/
def out5_3 (x0 : Vec F S1024x128 .f32) (x1 : Vec F S128x512 .f32) (x2 : Vec F S1x512 .f32) : Vec F S1024x128 .f32 :=
  View.canon [⟨rx5, k5_pay2 (View.ld x0 rx5) (View.ld x1 rw5) (View.ld x2 rb5)⟩]

/-- One whole-block store covers the block. -/
theorem cover5_3 (p0 : Vec F S1024x128 .f32) (y : S1024x128.Idx) :
    ∃ pc ∈ ([⟨rx5, p0⟩] : List (View.Piece (Elt F) S1024x128 .f32)), y ∈ pc.1.set :=
  View.cover_of_tiled [⟨rx5, p0⟩] S1024x128.size (by rfl) y

/-- Window 4's buffer after the body: its two 128-lane halves, each holding the last 128 lanes of the projection, written by two stores, the later store listed first. -/
def out5_4 (x0 : Vec F S1024x128 .f32) (x1 : Vec F S128x512 .f32) (x2 : Vec F S1x512 .f32) : Vec F S1024x256 .f32 :=
  View.canon [⟨rhi5, k5_pay4 (View.ld x0 rx5) (View.ld x1 rw5) (View.ld x2 rb5)⟩, ⟨rlo5, k5_pay4 (View.ld x0 rx5) (View.ld x1 rw5) (View.ld x2 rb5)⟩]

/-- The two 128-lane halves tile the 256-lane block (two blocks of 1024×128, one at each lane offset), so they cover it. -/
theorem cover5_4 (p0 p1 : Vec F S1024x128 .f32) (y : S1024x256.Idx) :
    ∃ pc ∈ ([⟨rhi5, p0⟩, ⟨rlo5, p1⟩] : List (View.Piece (Elt F) S1024x256 .f32)), y ∈ pc.1.set :=
  View.cover_of_tiled [⟨rhi5, p0⟩, ⟨rlo5, p1⟩] S1024x128.size (by rfl) y

/-- Window 5's buffer after the body: lanes 128–383 of the projection, one store. -/
def out5_5 (x0 : Vec F S1024x128 .f32) (x1 : Vec F S128x512 .f32) (x2 : Vec F S1x512 .f32) : Vec F S1024x256 .f32 :=
  View.canon [⟨rq5, k5_pay3 (View.ld x0 rx5) (View.ld x1 rw5) (View.ld x2 rb5)⟩]

/-- One whole-block store covers the block. -/
theorem cover5_5 (p0 : Vec F S1024x256 .f32) (y : S1024x256.Idx) :
    ∃ pc ∈ ([⟨rq5, p0⟩] : List (View.Piece (Elt F) S1024x256 .f32)), y ∈ pc.1.set :=
  View.cover_of_tiled [⟨rq5, p0⟩] S1024x256.size (by rfl) y

/-! ## The body's triple -/

set_option maxHeartbeats 4000000 in
/-- The body on whole staging memrefs — the inputs' holding `x0 x1 x2`, the outputs' holding anything — runs to the
    continuation with the inputs' unchanged and each output's holding `out5_W x0 x1 x2`. The body's loads of the
    output buffers before each store are of values it never uses; after the stores each buffer reads as the overlay
    of its stores, since they cover it. -/
theorem sound_kernel5 (c : Dev nD) (E : Set ℕ) (i : grid5.Coords) (arg1 : Memref sig .tc .vmem S1024x128 .f32) (harg1 : arg1.IsWhole) (arg2 : Memref sig .tc .vmem S128x512 .f32) (harg2 : arg2.IsWhole) (arg3 : Memref sig .tc .vmem S1x512 .f32) (harg3 : arg3.IsWhole) (arg4 : Memref sig .tc .vmem S1024x128 .f32) (harg4 : arg4.IsWhole) (arg5 : Memref sig .tc .vmem S1024x256 .f32) (harg5 : arg5.IsWhole) (arg6 : Memref sig .tc .vmem S1024x256 .f32) (harg6 : arg6.IsWhole)
    (x0 : Vec F S1024x128 .f32) (x1 : Vec F S128x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out5_3 x0 x1 x2) ∗ owns (c : Thread nD τ) arg5 fullShare (out5_4 x0 x1 x2) ∗ owns (c : Thread nD τ) arg6 fullShare (out5_5 x0 x1 x2)) -∗ K ⟨⟩))
      ⊢ wp frame (wpE (defs₀ (F := F)) Variants.none c none) E (cc5__node_proj_kernel i arg1 harg1 arg2 harg2 arg3 harg3 arg4 harg4 arg5 harg5 arg6 harg6) K := by
  simp only [cc5__node_proj_kernel_eq_skeleton]; unfold cc5__node_proj_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover5_3 _)
  isplitl [H4]
  · iexists _; isplitr
    swap; · iexact H4
    ipureintro
    exact View.read_writes_eq_canon _ _ _ (cover5_4 _ _)
  iexists _; isplitr
  swap; · iexact H5
  ipureintro
  exact View.read_writes_eq_canon _ _ _ (cover5_5 _)

end Cert.Kernel.Fr
-- ==== Proof.K.Half5.lean ====
import proofs.«117664_g2000706958607885_pallasbulk_534_41_alg».proof.Proof.K.Half5Body
import proofs.«117664_g2000706958607885_pallasbulk_534_41_alg».proof.Proof.Gen.Kernel.Launch
import proofs.«117664_g2000706958607885_pallasbulk_534_41_alg».proof.Proof.Gen.Kernel.Skeleton
import proofs.«117664_g2000706958607885_pallasbulk_534_41_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the pipeline is entered: the parameter this half is stated at
variable (V : (c : Dev nD) → (b : Ref sig .tc) → Buf (Elt F) ((c : Thread nD τ).loc b))

/-! # Pipeline 5, `cc5__node_proj_kernel`, at the entry contents `V` -/

/-! ## The windows' blocks -/

/-- Window `w`'s block at grid point `t`, read off its array as the pipeline finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0 (the 1024-row block of x): its current staging buffer holds its block at every point, whether it was fetched
    there or kept from an earlier point whose block index is the same, for any proof data whose array is `V`'s
    (`hA`) and whose body leaves the block in place (`hafter`). -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1 (the weight): its current staging buffer holds its block at every point, whether it was fetched
    there or kept from an earlier point whose block index is the same, for any proof data whose array is `V`'s
    (`hA`) and whose body leaves the block in place (`hafter`). -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2 (the bias row): its current staging buffer holds its block at every point, whether it was fetched
    there or kept from an earlier point whose block index is the same, for any proof data whose array is `V`'s
    (`hA`) and whose body leaves the block in place (`hafter`). -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The pipeline's proof data -/

/-- The proof data of pipeline 5 on core `c`: the arrays as the pipeline finds them (`V`); after the body at point `t`
    each input's buffer holds its block and each output's holds `out5_W` of the input blocks; the invariant is the
    untouched rest of the core's state; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
    | ⟨4, _⟩ => out5_4 (iblk5 V c 0 t) (iblk5 V c 1 t) (iblk5 V c 2 t)
    | ⟨5, _⟩ => out5_5 (iblk5 V c 0 t) (iblk5 V c 1 t) (iblk5 V c 2 t)
  Φ _ := Pipeline.ΦA spec5 c
  q _ := fullShare
  owed _ := 0

/-- The proof data's arrays are the entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]
theorem after5_4 (c : Dev nD) (t : Fin cfg5.N) : (dat5 V c).after 4 t = out5_4 (iblk5 V c 0 t) (iblk5 V c 1 t) (iblk5 V c 2 t) := by dsimp only [dat5]
theorem after5_5 (c : Dev nD) (t : Fin cfg5.N) : (dat5 V c).after 5 t = out5_5 (iblk5 V c 0 t) (iblk5 V c 1 t) (iblk5 V c 2 t) := by dsimp only [dat5]

/-- Each input's current staging buffer holds its block at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' memrefs hold their blocks (`before5_W`), so the body's triple applies; the
    invariant and what is owed pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline's proof data, at every point. -/
theorem body_obligation5 (c : Dev nD) : BodyObligation (dat5 (F := F) V c) (defs₀ (F := F)) Variants.none () Set.univ := fun t => by
  rw [bigSep_W5, bigSep_W5]
  exact sound_body5 V c t

end Regions

end Cert.Kernel.Fr
-- ==== Proof.K.Half6Body.lean ====
import proofs.«117664_g2000706958607885_pallasbulk_534_41_alg».proof.Proof.Gen.Kernel.Launch
import proofs.«117664_g2000706958607885_pallasbulk_534_41_alg».proof.Proof.Gen.Kernel.Skeleton
import proofs.«117664_g2000706958607885_pallasbulk_534_41_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The node-update body of pallas_call 6, run once on whole staging buffers

The body reads five buffers in full (two of 1024 × 128, one of 1024 × 256, two rows of 128) and overwrites a
sixth, of 1024 × 128, with one full-buffer store.  This module
names the rectangles it touches, the value the store leaves, and proves the separation-logic triple of the body. -/

-- membership of an index in a rectangle with 1024 rows is decided structurally, one step per row
set_option maxRecDepth 16384

noncomputable section

namespace Cert.Kernel.Fr

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes: each is a whole buffer -/

/-- all of a 1024 × 256 buffer -/
abbrev r6_0 : Rect S1024x256 := Rect.unit (s := S1024x256) ![0, 0] S1024x256.size inb_S1024x256_S1024x256_0_0
/-- all of a 1024 × 128 buffer -/
abbrev r6_1 : Rect S1024x128 := Rect.unit (s := S1024x128) ![0, 0] S1024x128.size inb_S1024x128_S1024x128_0_0
/-- all of a 1 × 128 buffer -/
abbrev r6_2 : Rect S1x128 := Rect.unit (s := S1x128) ![0, 0] S1x128.size inb_S1x128_S1x128_0_0

/-! ## The value left in the output buffer -/

/-- The output buffer after the body, as a function of the five input buffers' contents: the single store's
    payload, as the skeleton names it — with `a`, `b` the two lane halves of `x2`, `u = x1 + a / (b + ε)`, `n` the
    row-wise normalisation of `u` scaled by `x3` and shifted by `x4`, the value `x0 + n · logistic n` — laid over
    the whole buffer. -/
def out6_5 (x0 : Vec F S1024x128 .f32) (x1 : Vec F S1024x128 .f32) (x2 : Vec F S1024x256 .f32) (x3 : Vec F S1x128 .f32) (x4 : Vec F S1x128 .f32) : Vec F S1024x128 .f32 :=
  View.canon [⟨r6_1, k6_pay1 (View.ld x2 r6_0) (View.ld x1 r6_1) (View.ld x0 r6_1) (View.ld x3 r6_2) (View.ld x4 r6_2)⟩]

/-- The one stored rectangle is the whole buffer, so every index of the buffer lies in a stored piece. -/
theorem cover6_5 (p0 : Vec F S1024x128 .f32) (y : S1024x128.Idx) :
    ∃ pc ∈ ([⟨r6_1, p0⟩] : List (View.Piece (Elt F) S1024x128 .f32)), y ∈ pc.1.set :=
  View.cover_of_tiled [⟨r6_1, p0⟩] S1024x128.size (by rfl) y

/-! ## The body's triple -/

set_option maxHeartbeats 1000000 in
/-- Given full ownership of the five input buffers at contents `x0 … x4` and of the output buffer at any
    contents, the body runs to its continuation with the inputs unchanged and the output at `out6_5 x0 … x4`:
    the body is its skeleton of loads and one store, which symbolic execution walks; the final contents are the
    canonical form of the store list because the store covers the buffer. -/
theorem sound_kernel6 (c : Dev nD) (E : Set ℕ) (i : grid6.Coords) (arg1 : Memref sig .tc .vmem S1024x128 .f32) (harg1 : arg1.IsWhole) (arg2 : Memref sig .tc .vmem S1024x128 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1024x128 .f32) (harg6 : arg6.IsWhole)
    (x0 : Vec F S1024x128 .f32) (x1 : Vec F S1024x128 .f32) (x2 : Vec F S1024x256 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out6_5 x0 x1 x2 x3 x4)) -∗ K ⟨⟩))
      ⊢ wp frame (wpE (defs₀ (F := F)) Variants.none c none) E (cc6__node_upd_kernel i arg1 harg1 arg2 harg2 arg3 harg3 arg4 harg4 arg5 harg5 arg6 harg6) K := by
  simp only [cc6__node_upd_kernel_eq_skeleton]; unfold cc6__node_upd_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover6_5 _)

end Cert.Kernel.Fr
-- ==== Proof.K.Half6.lean ====
import proofs.«117664_g2000706958607885_pallasbulk_534_41_alg».proof.Proof.K.Half6Body

/-! # Pallas_call 6 (node update): the pipeline's proof data and its body obligation, at entry contents `V`

Five input windows (0–4) and one output window (5).  At every grid point the inputs' staging buffers hold the
blocks of their arrays as the region found them, and the body leaves in the output's staging buffer the value
`out6_5` of those blocks. -/

set_option maxRecDepth 16384

noncomputable section

namespace Cert.Kernel.Fr

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region6
-- the TensorCore's buffer contents when the region is entered
variable (V : (c : Dev nD) → (b : Ref sig .tc) → Buf (Elt F) ((c : Thread nD τ).loc b))

/-! ## The windows' blocks -/

/-- Window `w`'s block at grid point `t`, read through the window's view of its array as `V` has it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0: whatever proof data has `V`'s array for it and a body that leaves its block in place, the
    current staging buffer holds the block of the point, whether the pipeline fetched there or kept the previous
    fetch (an unfetched point has the same block index as its predecessor). -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- Input window 1: whatever proof data has `V`'s array for it and a body that leaves its block in place, the
    current staging buffer holds the block of the point, whether the pipeline fetched there or kept the previous
    fetch (an unfetched point has the same block index as its predecessor). -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
/-- Input window 2: whatever proof data has `V`'s array for it and a body that leaves its block in place, the
    current staging buffer holds the block of the point, whether the pipeline fetched there or kept the previous
    fetch (an unfetched point has the same block index as its predecessor). -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
/-- Input window 3: whatever proof data has `V`'s array for it and a body that leaves its block in place, the
    current staging buffer holds the block of the point, whether the pipeline fetched there or kept the previous
    fetch (an unfetched point has the same block index as its predecessor). -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
/-- Input window 4: whatever proof data has `V`'s array for it and a body that leaves its block in place, the
    current staging buffer holds the block of the point, whether the pipeline fetched there or kept the previous
    fetch (an unfetched point has the same block index as its predecessor). -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-! ## The pipeline's proof data -/

/-- Proof data of the pipeline on core `c`: arrays as `V` has them; after the body at point `t` every input
    buffer still at its block and the output buffer at `out6_5` of the input blocks; the class invariant
    (scoped rest and generator register untouched); nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

/-- The proof data's arrays are the entry contents. -/
theorem A_eq6 (c : Dev nD) (w : Fin cfg6.W) : (dat6 V c).A w = V c (Pipeline.arrRef spec6 w) := by
  dsimp only [dat6]

/-- What the body leaves, window by window (the definition's case split reduced at each numeral). -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = out6_5 (iblk6 V c 0 t) (iblk6 V c 1 t) (iblk6 V c 2 t) (iblk6 V c 3 t) (iblk6 V c 4 t) := by dsimp only [dat6]

/-- Each input's current staging buffer holds its block at every point. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-! ## The body obligation at a generic point -/

/-- What the body is handed at point `t`: the invariant, the owed transfers, and the six current staging buffers. -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

/-- What it hands back. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

/-- The body at any point: the inputs' buffers hold their blocks, so the body's triple applies with those blocks;
    the invariant and the owed transfers are framed around it. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ (grid6.coords t) _ _ _ _ _ _ _ _ _ _ _ _ (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation: the triple above at every point, the windows' separating product spelt out. -/
theorem body_obligation6 (c : Dev nD) : BodyObligation (dat6 (F := F) V c) (defs₀ (F := F)) Variants.none () Set.univ := fun t => by
  rw [bigSep_W6, bigSep_W6]
  exact sound_body6 V c t

end Region6

end Cert.Kernel.Fr
-- ==== Proof.K.Half7Body.lean ====
import proofs.«117664_g2000706958607885_pallasbulk_534_41_alg».proof.Proof.Gen.Kernel.Launch
import proofs.«117664_g2000706958607885_pallasbulk_534_41_alg».proof.Proof.Gen.Kernel.Skeleton
import proofs.«117664_g2000706958607885_pallasbulk_534_41_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Pipeline 7, `cc7__node_proj_kernel`: what one call of the body leaves, and its triple

The body reads a 1024-row block `x`, a 128×512 weight `w` and a 1×512 bias `b`, forms the 1024×512
projection `x · w + b` once, and stores three column slices of it: lanes 0–127 into window 3, lanes 384–511 into
window 4 (once), and lanes 128–383 into window 5. -/

/-! ## The body's accesses -/

/-- the whole 1024×128 block (the read of `x`, the store of window 3 and of window 4), -/
abbrev rx7 : Rect S1024x128 := Rect.unit (s := S1024x128) ![0, 0] S1024x128.size inb_S1024x128_S1024x128_0_0
/-- the whole weight, -/
abbrev rw7 : Rect S128x512 := Rect.unit (s := S128x512) ![0, 0] S128x512.size inb_S128x512_S128x512_0_0
/-- the whole bias row, -/
abbrev rb7 : Rect S1x512 := Rect.unit (s := S1x512) ![0, 0] S1x512.size inb_S1x512_S1x512_0_0
/-- the whole 1024×256 block (the store of window 5). -/
abbrev rq7 : Rect S1024x256 := Rect.unit (s := S1024x256) ![0, 0] S1024x256.size inb_S1024x256_S1024x256_0_0

/-! ## What the body leaves in each output window's buffer -/

/-- Window 3's buffer after the body, from the input blocks: the first 128 lanes of the projection, one store. -/
def out7_3 (x0 : Vec F S1024x128 .f32) (x1 : Vec F S128x512 .f32) (x2 : Vec F S1x512 .f32) : Vec F S1024x128 .f32 :=
  View.canon [⟨rx7, k7_pay2 (View.ld x0 rx7) (View.ld x1 rw7) (View.ld x2 rb7)⟩]

/-- One whole-block store covers the block. -/
theorem cover7_3 (p0 : Vec F S1024x128 .f32) (y : S1024x128.Idx) :
    ∃ pc ∈ ([⟨rx7, p0⟩] : List (View.Piece (Elt F) S1024x128 .f32)), y ∈ pc.1.set :=
  View.cover_of_tiled [⟨rx7, p0⟩] S1024x128.size (by rfl) y

/-- Window 4's buffer after the body: the last 128 lanes of the projection, one store. -/
def out7_4 (x0 : Vec F S1024x128 .f32) (x1 : Vec F S128x512 .f32) (x2 : Vec F S1x512 .f32) : Vec F S1024x128 .f32 :=
  View.canon [⟨rx7, k7_pay4 (View.ld x0 rx7) (View.ld x1 rw7) (View.ld x2 rb7)⟩]

/-- One whole-block store covers the block. -/
theorem cover7_4 (p0 : Vec F S1024x128 .f32) (y : S1024x128.Idx) :
    ∃ pc ∈ ([⟨rx7, p0⟩] : List (View.Piece (Elt F) S1024x128 .f32)), y ∈ pc.1.set :=
  View.cover_of_tiled [⟨rx7, p0⟩] S1024x128.size (by rfl) y

/-- Window 5's buffer after the body: lanes 128–383 of the projection, one store. -/
def out7_5 (x0 : Vec F S1024x128 .f32) (x1 : Vec F S128x512 .f32) (x2 : Vec F S1x512 .f32) : Vec F S1024x256 .f32 :=
  View.canon [⟨rq7, k7_pay3 (View.ld x0 rx7) (View.ld x1 rw7) (View.ld x2 rb7)⟩]

/-- One whole-block store covers the block. -/
theorem cover7_5 (p0 : Vec F S1024x256 .f32) (y : S1024x256.Idx) :
    ∃ pc ∈ ([⟨rq7, p0⟩] : List (View.Piece (Elt F) S1024x256 .f32)), y ∈ pc.1.set :=
  View.cover_of_tiled [⟨rq7, p0⟩] S1024x256.size (by rfl) y

/-! ## The body's triple -/

set_option maxHeartbeats 4000000 in
/-- The body on whole staging memrefs — the inputs' holding `x0 x1 x2`, the outputs' holding anything — runs to the
    continuation with the inputs' unchanged and each output's holding `out7_W x0 x1 x2`. The body's loads of the
    output buffers before each store are of values it never uses; after the stores each buffer reads as the overlay
    of its stores, since they cover it. -/
theorem sound_kernel7 (c : Dev nD) (E : Set ℕ) (i : grid7.Coords) (arg1 : Memref sig .tc .vmem S1024x128 .f32) (harg1 : arg1.IsWhole) (arg2 : Memref sig .tc .vmem S128x512 .f32) (harg2 : arg2.IsWhole) (arg3 : Memref sig .tc .vmem S1x512 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x256 .f32) (harg6 : arg6.IsWhole)
    (x0 : Vec F S1024x128 .f32) (x1 : Vec F S128x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out7_3 x0 x1 x2) ∗ owns (c : Thread nD τ) arg5 fullShare (out7_4 x0 x1 x2) ∗ owns (c : Thread nD τ) arg6 fullShare (out7_5 x0 x1 x2)) -∗ K ⟨⟩))
      ⊢ wp frame (wpE (defs₀ (F := F)) Variants.none c none) E (cc7__node_proj_kernel i arg1 harg1 arg2 harg2 arg3 harg3 arg4 harg4 arg5 harg5 arg6 harg6) K := by
  simp only [cc7__node_proj_kernel_eq_skeleton]; unfold cc7__node_proj_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover7_3 _)
  isplitl [H4]
  · iexists _; isplitr
    swap; · iexact H4
    ipureintro
    exact View.read_writes_eq_canon _ _ _ (cover7_4 _)
  iexists _; isplitr
  swap; · iexact H5
  ipureintro
  exact View.read_writes_eq_canon _ _ _ (cover7_5 _)

end Cert.Kernel.Fr
-- ==== Proof.K.Half7.lean ====
import proofs.«117664_g2000706958607885_pallasbulk_534_41_alg».proof.Proof.K.Half7Body
import proofs.«117664_g2000706958607885_pallasbulk_534_41_alg».proof.Proof.Gen.Kernel.Launch
import proofs.«117664_g2000706958607885_pallasbulk_534_41_alg».proof.Proof.Gen.Kernel.Skeleton
import proofs.«117664_g2000706958607885_pallasbulk_534_41_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the pipeline is entered: the parameter this half is stated at
variable (V : (c : Dev nD) → (b : Ref sig .tc) → Buf (Elt F) ((c : Thread nD τ).loc b))

/-! # Pipeline 7, `cc7__node_proj_kernel`, at the entry contents `V` -/

/-! ## The windows' blocks -/

/-- Window `w`'s block at grid point `t`, read off its array as the pipeline finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0 (the 1024-row block of x): its current staging buffer holds its block at every point, whether it was fetched
    there or kept from an earlier point whose block index is the same, for any proof data whose array is `V`'s
    (`hA`) and whose body leaves the block in place (`hafter`). -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
/-- Input window 1 (the weight): its current staging buffer holds its block at every point, whether it was fetched
    there or kept from an earlier point whose block index is the same, for any proof data whose array is `V`'s
    (`hA`) and whose body leaves the block in place (`hafter`). -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
/-- Input window 2 (the bias row): its current staging buffer holds its block at every point, whether it was fetched
    there or kept from an earlier point whose block index is the same, for any proof data whose array is `V`'s
    (`hA`) and whose body leaves the block in place (`hafter`). -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-! ## The pipeline's proof data -/

/-- The proof data of pipeline 7 on core `c`: the arrays as the pipeline finds them (`V`); after the body at point `t`
    each input's buffer holds its block and each output's holds `out7_W` of the input blocks; the invariant is the
    untouched rest of the core's state; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
    | ⟨4, _⟩ => out7_4 (iblk7 V c 0 t) (iblk7 V c 1 t) (iblk7 V c 2 t)
    | ⟨5, _⟩ => out7_5 (iblk7 V c 0 t) (iblk7 V c 1 t) (iblk7 V c 2 t)
  Φ _ := Pipeline.ΦA spec7 c
  q _ := fullShare
  owed _ := 0

/-- The proof data's arrays are the entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = out7_3 (iblk7 V c 0 t) (iblk7 V c 1 t) (iblk7 V c 2 t) := by dsimp only [dat7]
theorem after7_4 (c : Dev nD) (t : Fin cfg7.N) : (dat7 V c).after 4 t = out7_4 (iblk7 V c 0 t) (iblk7 V c 1 t) (iblk7 V c 2 t) := by dsimp only [dat7]
theorem after7_5 (c : Dev nD) (t : Fin cfg7.N) : (dat7 V c).after 5 t = out7_5 (iblk7 V c 0 t) (iblk7 V c 1 t) (iblk7 V c 2 t) := by dsimp only [dat7]

/-- Each input's current staging buffer holds its block at every point. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t))

/-- The body at any point: the inputs' memrefs hold their blocks (`before7_W`), so the body's triple applies; the
    invariant and what is owed pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3, after7_4, after7_5]
  iintro ⟨HΦ, Ho, ⟨%d0, H0⟩, ⟨%d1, H1⟩, ⟨%d2, H2⟩, ⟨%d3, H3⟩, ⟨%d4, H4⟩, ⟨%d5, H5⟩⟩
  iapply (sound_kernel7 c Set.univ (grid7.coords t) _ _ _ _ _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline's proof data, at every point. -/
theorem body_obligation7 (c : Dev nD) : BodyObligation (dat7 (F := F) V c) (defs₀ (F := F)) Variants.none () Set.univ := fun t => by
  rw [bigSep_W7, bigSep_W7]
  exact sound_body7 V c t

end Regions

end Cert.Kernel.Fr
-- ==== Proof.K.Half8Body.lean ====
import proofs.«117664_g2000706958607885_pallasbulk_534_41_alg».proof.Proof.Gen.Kernel.Launch
import proofs.«117664_g2000706958607885_pallasbulk_534_41_alg».proof.Proof.Gen.Kernel.Skeleton
import proofs.«117664_g2000706958607885_pallasbulk_534_41_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding membership in a rectangle of 1024-row extent recurses once per coordinate of the long axis
set_option maxRecDepth 16384

noncomputable section

namespace Cert.Kernel.Fr

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body of pipeline 8 (`cc8__edge_kernel`) on whole staging buffers -/

/-! ## The rectangles the body reads and writes through -/

abbrev r8_0 : Rect S1024x128 := Rect.unit (s := S1024x128) ![0, 0] S1024x128.size inb_S1024x128_S1024x128_0_0
abbrev r8_1 : Rect S1024x256 := Rect.unit (s := S1024x256) ![0, 0] S1024x256.size inb_S1024x256_S1024x256_0_0
abbrev r8_2 : Rect S128x128 := Rect.unit (s := S128x128) ![0, 0] S128x128.size inb_S128x128_S128x128_0_0
abbrev r8_3 : Rect S1x128 := Rect.unit (s := S1x128) ![0, 0] S1x128.size inb_S1x128_S1x128_0_0
abbrev r8_4 : Rect S1024x256 := Rect.unit (s := S1024x256) ![0, 0] S1024x128.size inb_S1024x256_S1024x128_0_0
abbrev r8_5 : Rect S1024x256 := Rect.unit (s := S1024x256) ![0, 128] S1024x128.size inb_S1024x256_S1024x128_0_128

/-! ## What the body leaves in each output window's buffer -/

/-- Window 7's buffer after the body as a function of the input blocks: the one store over the whole block. -/
def out8_7 (x0 : Vec F S1024x128 .f32) (x1 : Vec F S1024x128 .f32) (x2 : Vec F S1024x256 .f32) (x3 : Vec F S128x128 .f32) (x4 : Vec F S1x128 .f32) (x5 : Vec F S1x128 .f32) (x6 : Vec F S1x128 .f32) : Vec F S1024x128 .f32 :=
  View.canon [⟨r8_0, k8_pay1 (k8_pay4 (View.ld x0 r8_0)) (k8_pay7 (View.ld x0 r8_0) (View.ld x2 r8_1) (View.ld x3 r8_2) (View.ld x1 r8_0) (View.ld x4 r8_3) (View.ld x5 r8_3) (View.ld x6 r8_3))⟩]

/-- One store of the whole block tiles it, so it covers it. -/
theorem cover8_7 (p0 : r8_0.shape.Idx → Elt F .f32) (y : S1024x128.Idx) :
    ∃ pc ∈ ([⟨r8_0, p0⟩] : List (View.Piece (Elt F) S1024x128 .f32)), y ∈ pc.1.set :=
  View.cover_of_tiled [⟨r8_0, p0⟩] S1024x128.size (by rfl) y

/-- Window 8's buffer after the body as a function of the input blocks: its two 128-lane halves, the later store first. -/
def out8_8 (x0 : Vec F S1024x128 .f32) (x1 : Vec F S1024x128 .f32) (x2 : Vec F S1024x256 .f32) (x3 : Vec F S128x128 .f32) (x4 : Vec F S1x128 .f32) (x5 : Vec F S1x128 .f32) (x6 : Vec F S1x128 .f32) : Vec F S1024x256 .f32 :=
  View.canon [⟨r8_5, k8_pay2 (k8_pay6 (View.ld x0 r8_0) (View.ld x2 r8_1) (View.ld x3 r8_2) (View.ld x1 r8_0) (View.ld x4 r8_3))⟩, ⟨r8_4, k8_pay3 (k8_pay5 (View.ld x2 r8_1)) (k8_pay6 (View.ld x0 r8_0) (View.ld x2 r8_1) (View.ld x3 r8_2) (View.ld x1 r8_0) (View.ld x4 r8_3))⟩]

/-- The two 128-lane halves tile the 256-lane block, so they cover it. -/
theorem cover8_8 (p1 : r8_5.shape.Idx → Elt F .f32) (p0 : r8_4.shape.Idx → Elt F .f32) (y : S1024x256.Idx) :
    ∃ pc ∈ ([⟨r8_5, p1⟩, ⟨r8_4, p0⟩] : List (View.Piece (Elt F) S1024x256 .f32)), y ∈ pc.1.set :=
  View.cover_of_tiled [⟨r8_5, p1⟩, ⟨r8_4, p0⟩] S1024x128.size (by rfl) y

/-! ## The body's triple -/

set_option maxHeartbeats 1000000 in
/-- Run on whole staging buffers, the inputs' holding `xW` and the outputs' anything, the body ends with the inputs'
    unchanged and each output's holding `out8_W` of the inputs: the body is a sequence of loads, pure payloads and
    stores, executed symbolically; what the stores leave is the canonical contents of a covering list of writes. -/
theorem sound_kernel8 (c : Dev nD) (E : Set ℕ) (i : grid8.Coords) (arg1 : Memref sig .tc .vmem S1024x128 .f32) (harg1 : arg1.IsWhole) (arg2 : Memref sig .tc .vmem S1024x128 .f32) (harg2 : arg2.IsWhole) (arg3 : Memref sig .tc .vmem S1024x256 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x256 .f32) (harg9 : arg9.IsWhole)
    (x0 : Vec F S1024x128 .f32) (x1 : Vec F S1024x128 .f32) (x2 : Vec F S1024x256 .f32) (x3 : Vec F S128x128 .f32) (x4 : Vec F S1x128 .f32) (x5 : Vec F S1x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out8_7 x0 x1 x2 x3 x4 x5 x6) ∗ owns (c : Thread nD τ) arg9 fullShare (out8_8 x0 x1 x2 x3 x4 x5 x6)) -∗ K ⟨⟩))
      ⊢ wp frame (wpE (defs₀ (F := F)) Variants.none c none) E (cc8__edge_kernel i arg1 harg1 arg2 harg2 arg3 harg3 arg4 harg4 arg5 harg5 arg6 harg6 arg7 harg7 arg8 harg8 arg9 harg9) K := by
  simp only [cc8__edge_kernel_eq_skeleton]; unfold cc8__edge_kernel_skel
  simp only [k8_part1_eq_skeleton]; unfold k8_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (cover8_7 _)
  iexists _; isplitr
  swap; · iexact H8
  ipureintro
  try dsimp only
  exact View.read_writes_eq_canon _ _ _ (cover8_8 _ _)

end Cert.Kernel.Fr
-- ==== Proof.K.Half8.lean ====
import proofs.«117664_g2000706958607885_pallasbulk_534_41_alg».proof.Proof.Gen.Kernel.Launch
import proofs.«117664_g2000706958607885_pallasbulk_534_41_alg».proof.Proof.Gen.Kernel.Skeleton
import proofs.«117664_g2000706958607885_pallasbulk_534_41_alg».proof.Proof.Gen.Kernel.Points
import proofs.«117664_g2000706958607885_pallasbulk_534_41_alg».proof.Proof.K.Half8Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding membership in a rectangle of 1024-row extent recurses once per coordinate of the long axis
set_option maxRecDepth 16384

noncomputable section

namespace Cert.Kernel.Fr

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Pipeline 8 (`cc8__edge_kernel`) entered at the buffer contents `V` -/

/-! ## The windows' blocks -/

/-- Window `w`'s block at grid point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input window's current staging buffer holds its block at every point, whether fetched there or carried over
    (the block index then has not moved), for any proof data over `V`'s array whose body leaves the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
/-- An input window's current staging buffer holds its block at every point, whether fetched there or carried over
    (the block index then has not moved), for any proof data over `V`'s array whose body leaves the block in place. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
/-- An input window's current staging buffer holds its block at every point, whether fetched there or carried over
    (the block index then has not moved), for any proof data over `V`'s array whose body leaves the block in place. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)
/-- An input window's current staging buffer holds its block at every point, whether fetched there or carried over
    (the block index then has not moved), for any proof data over `V`'s array whose body leaves the block in place. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)
/-- An input window's current staging buffer holds its block at every point, whether fetched there or carried over
    (the block index then has not moved), for any proof data over `V`'s array whose body leaves the block in place. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)
/-- An input window's current staging buffer holds its block at every point, whether fetched there or carried over
    (the block index then has not moved), for any proof data over `V`'s array whose body leaves the block in place. -/
theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)
/-- An input window's current staging buffer holds its block at every point, whether fetched there or carried over
    (the block index then has not moved), for any proof data over `V`'s array whose body leaves the block in place. -/
theorem before8_6_of {c : Dev nD} (dat : Dat τ (Elt F) Unit ℕ (UR sig nD τ) ℕ cfg8 c) (hA : dat.A 6 = V c (Pipeline.arrRef spec8 6))
    (hafter : ∀ t, dat.after 6 t = iblk8 V c 6 t) (t : Fin cfg8.N) (d) : dat.before 6 t d = iblk8 V c 6 t :=
  (dat.before_in_eq_fetched 6 rfl (fun _ => rfl) (fun _ _ _ => rfl) (fun t => by rw [hafter]; unfold Dat.blockOf iblk8; rw [hA]; try rfl) t d).trans
    (by unfold Dat.fetched Dat.blockOf iblk8; rw [hA]; try rfl)

/-! ## The pipeline's proof data -/

/-- The proof data of pipeline 8 on core `c`: the arrays as the region finds them; after the body at point `t`
    each input's buffer at its block and each output's at `out8_W` of the input blocks; the invariant is the scoped
    rest and the generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => iblk8 V c 6 t
    | ⟨7, _⟩ => out8_7 (iblk8 V c 0 t) (iblk8 V c 1 t) (iblk8 V c 2 t) (iblk8 V c 3 t) (iblk8 V c 4 t) (iblk8 V c 5 t) (iblk8 V c 6 t)
    | ⟨8, _⟩ => out8_8 (iblk8 V c 0 t) (iblk8 V c 1 t) (iblk8 V c 2 t) (iblk8 V c 3 t) (iblk8 V c 4 t) (iblk8 V c 5 t) (iblk8 V c 6 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = iblk8 V c 6 t := by dsimp only [dat8]
theorem after8_7 (c : Dev nD) (t : Fin cfg8.N) : (dat8 V c).after 7 t = out8_7 (iblk8 V c 0 t) (iblk8 V c 1 t) (iblk8 V c 2 t) (iblk8 V c 3 t) (iblk8 V c 4 t) (iblk8 V c 5 t) (iblk8 V c 6 t) := by dsimp only [dat8]
theorem after8_8 (c : Dev nD) (t : Fin cfg8.N) : (dat8 V c).after 8 t = out8_8 (iblk8 V c 0 t) (iblk8 V c 1 t) (iblk8 V c 2 t) (iblk8 V c 3 t) (iblk8 V c 4 t) (iblk8 V c 5 t) (iblk8 V c 6 t) := by dsimp only [dat8]

/-- Each input's current staging buffer holds its block at every point. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d
theorem before8_6 (c : Dev nD) (t : Fin cfg8.N) (d) : (dat8 V c).before 6 t d = iblk8 V c 6 t :=
  before8_6_of V (dat8 V c) (A_eq8 V c 6) (after8_6 V c) t d

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d))
    ∗ (∃ d, owns (c : Thread nD τ) (st8_7 t) fullShare ((dat8 V c).before 7 t d))
    ∗ (∃ d, owns (c : Thread nD τ) (st8_8 t) fullShare ((dat8 V c).before 8 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t)
    ∗ owns (c : Thread nD τ) (st8_7 t) fullShare ((dat8 V c).after 7 t)
    ∗ owns (c : Thread nD τ) (st8_8 t) fullShare ((dat8 V c).after 8 t))

/-- The body at any point: the inputs' buffers hold their blocks, so the body's triple applies; the invariant and
    what the core owes pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5, before8_6]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6, after8_7, after8_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel8 c Set.univ (grid8.coords t) _ _ _ _ _ _ _ _ _ _ _ _ _ _ _ _ _ _ (iblk8 V c 0 t) (iblk8 V c 1 t) (iblk8 V c 2 t) (iblk8 V c 3 t) (iblk8 V c 4 t) (iblk8 V c 5 t) (iblk8 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation of the pipeline, at every point. -/
theorem body_obligation8 (c : Dev nD) : BodyObligation (dat8 (F := F) V c) (defs₀ (F := F)) Variants.none () Set.univ := fun t => by
  rw [bigSep_W8, bigSep_W8]
  exact sound_body8 V c t

end Cert.Kernel.Fr
-- ==== Proof.K.Half9Body.lean ====
import proofs.«117664_g2000706958607885_pallasbulk_534_41_alg».proof.Proof.Gen.Kernel.Launch
import proofs.«117664_g2000706958607885_pallasbulk_534_41_alg».proof.Proof.Gen.Kernel.Skeleton
import proofs.«117664_g2000706958607885_pallasbulk_534_41_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The node-update body of pallas_call 9, run once on whole staging buffers

The body reads five buffers in full (two of 1024 × 128, one of 1024 × 256, two rows of 128) and overwrites a
sixth, of 1024 × 128, with one full-buffer store.  This module
names the rectangles it touches, the value the store leaves, and proves the separation-logic triple of the body. -/

-- membership of an index in a rectangle with 1024 rows is decided structurally, one step per row
set_option maxRecDepth 16384

noncomputable section

namespace Cert.Kernel.Fr

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes: each is a whole buffer -/

/-- all of a 1024 × 256 buffer -/
abbrev r9_0 : Rect S1024x256 := Rect.unit (s := S1024x256) ![0, 0] S1024x256.size inb_S1024x256_S1024x256_0_0
/-- all of a 1024 × 128 buffer -/
abbrev r9_1 : Rect S1024x128 := Rect.unit (s := S1024x128) ![0, 0] S1024x128.size inb_S1024x128_S1024x128_0_0
/-- all of a 1 × 128 buffer -/
abbrev r9_2 : Rect S1x128 := Rect.unit (s := S1x128) ![0, 0] S1x128.size inb_S1x128_S1x128_0_0

/-! ## The value left in the output buffer -/

/-- The output buffer after the body, as a function of the five input buffers' contents: the single store's
    payload, as the skeleton names it — with `a`, `b` the two lane halves of `x2`, `u = x1 + a / (b + ε)`, `n` the
    row-wise normalisation of `u` scaled by `x3` and shifted by `x4`, the value `x0 + n · logistic n` — laid over
    the whole buffer. -/
def out9_5 (x0 : Vec F S1024x128 .f32) (x1 : Vec F S1024x128 .f32) (x2 : Vec F S1024x256 .f32) (x3 : Vec F S1x128 .f32) (x4 : Vec F S1x128 .f32) : Vec F S1024x128 .f32 :=
  View.canon [⟨r9_1, k9_pay1 (View.ld x2 r9_0) (View.ld x1 r9_1) (View.ld x0 r9_1) (View.ld x3 r9_2) (View.ld x4 r9_2)⟩]

/-- The one stored rectangle is the whole buffer, so every index of the buffer lies in a stored piece. -/
theorem cover9_5 (p0 : Vec F S1024x128 .f32) (y : S1024x128.Idx) :
    ∃ pc ∈ ([⟨r9_1, p0⟩] : List (View.Piece (Elt F) S1024x128 .f32)), y ∈ pc.1.set :=
  View.cover_of_tiled [⟨r9_1, p0⟩] S1024x128.size (by rfl) y

/-! ## The body's triple -/

set_option maxHeartbeats 1000000 in
/-- Given full ownership of the five input buffers at contents `x0 … x4` and of the output buffer at any
    contents, the body runs to its continuation with the inputs unchanged and the output at `out9_5 x0 … x4`:
    the body is its skeleton of loads and one store, which symbolic execution walks; the final contents are the
    canonical form of the store list because the store covers the buffer. -/
theorem sound_kernel9 (c : Dev nD) (E : Set ℕ) (i : grid9.Coords) (arg1 : Memref sig .tc .vmem S1024x128 .f32) (harg1 : arg1.IsWhole) (arg2 : Memref sig .tc .vmem S1024x128 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1024x128 .f32) (harg6 : arg6.IsWhole)
    (x0 : Vec F S1024x128 .f32) (x1 : Vec F S1024x128 .f32) (x2 : Vec F S1024x256 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out9_5 x0 x1 x2 x3 x4)) -∗ K ⟨⟩))
      ⊢ wp frame (wpE (defs₀ (F := F)) Variants.none c none) E (cc9__node_upd_kernel i arg1 harg1 arg2 harg2 arg3 harg3 arg4 harg4 arg5 harg5 arg6 harg6) K := by
  simp only [cc9__node_upd_kernel_eq_skeleton]; unfold cc9__node_upd_kernel_skel
  simp only [k9_part1_eq_skeleton]; unfold k9_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover9_5 _)

end Cert.Kernel.Fr
-- ==== Proof.K.Half9.lean ====
import proofs.«117664_g2000706958607885_pallasbulk_534_41_alg».proof.Proof.K.Half9Body

/-! # Pallas_call 9 (node update): the pipeline's proof data and its body obligation, at entry contents `V`

Five input windows (0–4) and one output window (5).  At every grid point the inputs' staging buffers hold the
blocks of their arrays as the region found them, and the body leaves in the output's staging buffer the value
`out9_5` of those blocks. -/

set_option maxRecDepth 16384

noncomputable section

namespace Cert.Kernel.Fr

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region9
-- the TensorCore's buffer contents when the region is entered
variable (V : (c : Dev nD) → (b : Ref sig .tc) → Buf (Elt F) ((c : Thread nD τ).loc b))

/-! ## The windows' blocks -/

/-- Window `w`'s block at grid point `t`, read through the window's view of its array as `V` has it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0: whatever proof data has `V`'s array for it and a body that leaves its block in place, the
    current staging buffer holds the block of the point, whether the pipeline fetched there or kept the previous
    fetch (an unfetched point has the same block index as its predecessor). -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
/-- Input window 1: whatever proof data has `V`'s array for it and a body that leaves its block in place, the
    current staging buffer holds the block of the point, whether the pipeline fetched there or kept the previous
    fetch (an unfetched point has the same block index as its predecessor). -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)
/-- Input window 2: whatever proof data has `V`'s array for it and a body that leaves its block in place, the
    current staging buffer holds the block of the point, whether the pipeline fetched there or kept the previous
    fetch (an unfetched point has the same block index as its predecessor). -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)
/-- Input window 3: whatever proof data has `V`'s array for it and a body that leaves its block in place, the
    current staging buffer holds the block of the point, whether the pipeline fetched there or kept the previous
    fetch (an unfetched point has the same block index as its predecessor). -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)
/-- Input window 4: whatever proof data has `V`'s array for it and a body that leaves its block in place, the
    current staging buffer holds the block of the point, whether the pipeline fetched there or kept the previous
    fetch (an unfetched point has the same block index as its predecessor). -/
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

/-! ## The pipeline's proof data -/

/-- Proof data of the pipeline on core `c`: arrays as `V` has them; after the body at point `t` every input
    buffer still at its block and the output buffer at `out9_5` of the input blocks; the class invariant
    (scoped rest and generator register untouched); nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => out9_5 (iblk9 V c 0 t) (iblk9 V c 1 t) (iblk9 V c 2 t) (iblk9 V c 3 t) (iblk9 V c 4 t)
  Φ _ := Pipeline.ΦA spec9 c
  q _ := fullShare
  owed _ := 0

/-- The proof data's arrays are the entry contents. -/
theorem A_eq9 (c : Dev nD) (w : Fin cfg9.W) : (dat9 V c).A w = V c (Pipeline.arrRef spec9 w) := by
  dsimp only [dat9]

/-- What the body leaves, window by window (the definition's case split reduced at each numeral). -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = out9_5 (iblk9 V c 0 t) (iblk9 V c 1 t) (iblk9 V c 2 t) (iblk9 V c 3 t) (iblk9 V c 4 t) := by dsimp only [dat9]

/-- Each input's current staging buffer holds its block at every point. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d

/-! ## The body obligation at a generic point -/

/-- What the body is handed at point `t`: the invariant, the owed transfers, and the six current staging buffers. -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d)))

/-- What it hands back. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t))

/-- The body at any point: the inputs' buffers hold their blocks, so the body's triple applies with those blocks;
    the invariant and the owed transfers are framed around it. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4]
  rw [show (dat9 V c).Φ t.succ = (dat9 V c).Φ t.castSucc from rfl,
    show (dat9 V c).owesAt () t.succ = (dat9 V c).owesAt () t.castSucc from rfl,
    after9_0, after9_1, after9_2, after9_3, after9_4, after9_5]
  iintro ⟨HΦ, Ho, ⟨%d0, H0⟩, ⟨%d1, H1⟩, ⟨%d2, H2⟩, ⟨%d3, H3⟩, ⟨%d4, H4⟩, ⟨%d5, H5⟩⟩
  iapply (sound_kernel9 c Set.univ (grid9.coords t) _ _ _ _ _ _ _ _ _ _ _ _ (iblk9 V c 0 t) (iblk9 V c 1 t) (iblk9 V c 2 t) (iblk9 V c 3 t) (iblk9 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation: the triple above at every point, the windows' separating product spelt out. -/
theorem body_obligation9 (c : Dev nD) : BodyObligation (dat9 (F := F) V c) (defs₀ (F := F)) Variants.none () Set.univ := fun t => by
  rw [bigSep_W9, bigSep_W9]
  exact sound_body9 V c t

end Region9

end Cert.Kernel.Fr
-- ==== Proof.K.Half10Body.lean ====
import proofs.«117664_g2000706958607885_pallasbulk_534_41_alg».proof.Proof.Gen.Kernel.Launch
import proofs.«117664_g2000706958607885_pallasbulk_534_41_alg».proof.Proof.Gen.Kernel.Skeleton
import proofs.«117664_g2000706958607885_pallasbulk_534_41_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding membership in a rectangle of 1024-row extent recurses once per coordinate of the long axis
set_option maxRecDepth 16384

noncomputable section

namespace Cert.Kernel.Fr

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body of pipeline 10 (`cc10__edge_kernel`) on whole staging buffers -/

/-! ## The rectangles the body reads and writes through -/

abbrev r10_0 : Rect S1024x128 := Rect.unit (s := S1024x128) ![0, 0] S1024x128.size inb_S1024x128_S1024x128_0_0
abbrev r10_1 : Rect S1024x256 := Rect.unit (s := S1024x256) ![0, 0] S1024x256.size inb_S1024x256_S1024x256_0_0
abbrev r10_2 : Rect S128x128 := Rect.unit (s := S128x128) ![0, 0] S128x128.size inb_S128x128_S128x128_0_0
abbrev r10_3 : Rect S1x128 := Rect.unit (s := S1x128) ![0, 0] S1x128.size inb_S1x128_S1x128_0_0
abbrev r10_4 : Rect S1024x256 := Rect.unit (s := S1024x256) ![0, 0] S1024x128.size inb_S1024x256_S1024x128_0_0
abbrev r10_5 : Rect S1024x256 := Rect.unit (s := S1024x256) ![0, 128] S1024x128.size inb_S1024x256_S1024x128_0_128

/-! ## What the body leaves in each output window's buffer -/

/-- Window 7's buffer after the body as a function of the input blocks: the one store over the whole block. -/
def out10_7 (x0 : Vec F S1024x128 .f32) (x1 : Vec F S1024x128 .f32) (x2 : Vec F S1024x256 .f32) (x3 : Vec F S128x128 .f32) (x4 : Vec F S1x128 .f32) (x5 : Vec F S1x128 .f32) (x6 : Vec F S1x128 .f32) : Vec F S1024x128 .f32 :=
  View.canon [⟨r10_0, k10_pay1 (k10_pay4 (View.ld x0 r10_0)) (k10_pay7 (View.ld x0 r10_0) (View.ld x2 r10_1) (View.ld x3 r10_2) (View.ld x1 r10_0) (View.ld x4 r10_3) (View.ld x5 r10_3) (View.ld x6 r10_3))⟩]

/-- One store of the whole block tiles it, so it covers it. -/
theorem cover10_7 (p0 : r10_0.shape.Idx → Elt F .f32) (y : S1024x128.Idx) :
    ∃ pc ∈ ([⟨r10_0, p0⟩] : List (View.Piece (Elt F) S1024x128 .f32)), y ∈ pc.1.set :=
  View.cover_of_tiled [⟨r10_0, p0⟩] S1024x128.size (by rfl) y

/-- Window 8's buffer after the body as a function of the input blocks: its two 128-lane halves, the later store first. -/
def out10_8 (x0 : Vec F S1024x128 .f32) (x1 : Vec F S1024x128 .f32) (x2 : Vec F S1024x256 .f32) (x3 : Vec F S128x128 .f32) (x4 : Vec F S1x128 .f32) (x5 : Vec F S1x128 .f32) (x6 : Vec F S1x128 .f32) : Vec F S1024x256 .f32 :=
  View.canon [⟨r10_5, k10_pay2 (k10_pay6 (View.ld x0 r10_0) (View.ld x2 r10_1) (View.ld x3 r10_2) (View.ld x1 r10_0) (View.ld x4 r10_3))⟩, ⟨r10_4, k10_pay3 (k10_pay5 (View.ld x2 r10_1)) (k10_pay6 (View.ld x0 r10_0) (View.ld x2 r10_1) (View.ld x3 r10_2) (View.ld x1 r10_0) (View.ld x4 r10_3))⟩]

/-- The two 128-lane halves tile the 256-lane block, so they cover it. -/
theorem cover10_8 (p1 : r10_5.shape.Idx → Elt F .f32) (p0 : r10_4.shape.Idx → Elt F .f32) (y : S1024x256.Idx) :
    ∃ pc ∈ ([⟨r10_5, p1⟩, ⟨r10_4, p0⟩] : List (View.Piece (Elt F) S1024x256 .f32)), y ∈ pc.1.set :=
  View.cover_of_tiled [⟨r10_5, p1⟩, ⟨r10_4, p0⟩] S1024x128.size (by rfl) y

/-! ## The body's triple -/

set_option maxHeartbeats 1000000 in
/-- Run on whole staging buffers, the inputs' holding `xW` and the outputs' anything, the body ends with the inputs'
    unchanged and each output's holding `out10_W` of the inputs: the body is a sequence of loads, pure payloads and
    stores, executed symbolically; what the stores leave is the canonical contents of a covering list of writes. -/
theorem sound_kernel10 (c : Dev nD) (E : Set ℕ) (i : grid10.Coords) (arg1 : Memref sig .tc .vmem S1024x128 .f32) (harg1 : arg1.IsWhole) (arg2 : Memref sig .tc .vmem S1024x128 .f32) (harg2 : arg2.IsWhole) (arg3 : Memref sig .tc .vmem S1024x256 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x256 .f32) (harg9 : arg9.IsWhole)
    (x0 : Vec F S1024x128 .f32) (x1 : Vec F S1024x128 .f32) (x2 : Vec F S1024x256 .f32) (x3 : Vec F S128x128 .f32) (x4 : Vec F S1x128 .f32) (x5 : Vec F S1x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out10_7 x0 x1 x2 x3 x4 x5 x6) ∗ owns (c : Thread nD τ) arg9 fullShare (out10_8 x0 x1 x2 x3 x4 x5 x6)) -∗ K ⟨⟩))
      ⊢ wp frame (wpE (defs₀ (F := F)) Variants.none c none) E (cc10__edge_kernel i arg1 harg1 arg2 harg2 arg3 harg3 arg4 harg4 arg5 harg5 arg6 harg6 arg7 harg7 arg8 harg8 arg9 harg9) K := by
  simp only [cc10__edge_kernel_eq_skeleton]; unfold cc10__edge_kernel_skel
  simp only [k10_part1_eq_skeleton]; unfold k10_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (cover10_7 _)
  iexists _; isplitr
  swap; · iexact H8
  ipureintro
  try dsimp only
  exact View.read_writes_eq_canon _ _ _ (cover10_8 _ _)

end Cert.Kernel.Fr
-- ==== Proof.K.Half10.lean ====
import proofs.«117664_g2000706958607885_pallasbulk_534_41_alg».proof.Proof.Gen.Kernel.Launch
import proofs.«117664_g2000706958607885_pallasbulk_534_41_alg».proof.Proof.Gen.Kernel.Skeleton
import proofs.«117664_g2000706958607885_pallasbulk_534_41_alg».proof.Proof.Gen.Kernel.Points
import proofs.«117664_g2000706958607885_pallasbulk_534_41_alg».proof.Proof.K.Half10Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding membership in a rectangle of 1024-row extent recurses once per coordinate of the long axis
set_option maxRecDepth 16384

noncomputable section

namespace Cert.Kernel.Fr

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Pipeline 10 (`cc10__edge_kernel`) entered at the buffer contents `V` -/

/-! ## The windows' blocks -/

/-- Window `w`'s block at grid point `t`, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- An input window's current staging buffer holds its block at every point, whether fetched there or carried over
    (the block index then has not moved), for any proof data over `V`'s array whose body leaves the block in place. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)
/-- An input window's current staging buffer holds its block at every point, whether fetched there or carried over
    (the block index then has not moved), for any proof data over `V`'s array whose body leaves the block in place. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)
/-- An input window's current staging buffer holds its block at every point, whether fetched there or carried over
    (the block index then has not moved), for any proof data over `V`'s array whose body leaves the block in place. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)
/-- An input window's current staging buffer holds its block at every point, whether fetched there or carried over
    (the block index then has not moved), for any proof data over `V`'s array whose body leaves the block in place. -/
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)
/-- An input window's current staging buffer holds its block at every point, whether fetched there or carried over
    (the block index then has not moved), for any proof data over `V`'s array whose body leaves the block in place. -/
theorem before10_4_of {c : Dev nD} (dat : Dat τ (Elt F) Unit ℕ (UR sig nD τ) ℕ cfg10 c) (hA : dat.A 4 = V c (Pipeline.arrRef spec10 4))
    (hafter : ∀ t, dat.after 4 t = iblk10 V c 4 t) (t : Fin cfg10.N) (d) : dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)
/-- An input window's current staging buffer holds its block at every point, whether fetched there or carried over
    (the block index then has not moved), for any proof data over `V`'s array whose body leaves the block in place. -/
theorem before10_5_of {c : Dev nD} (dat : Dat τ (Elt F) Unit ℕ (UR sig nD τ) ℕ cfg10 c) (hA : dat.A 5 = V c (Pipeline.arrRef spec10 5))
    (hafter : ∀ t, dat.after 5 t = iblk10 V c 5 t) (t : Fin cfg10.N) (d) : dat.before 5 t d = iblk10 V c 5 t :=
  (dat.before_in_eq_fetched 5 rfl (fun _ => rfl) (fun _ _ _ => rfl) (fun t => by rw [hafter]; unfold Dat.blockOf iblk10; rw [hA]; try rfl) t d).trans
    (by unfold Dat.fetched Dat.blockOf iblk10; rw [hA]; try rfl)
/-- An input window's current staging buffer holds its block at every point, whether fetched there or carried over
    (the block index then has not moved), for any proof data over `V`'s array whose body leaves the block in place. -/
theorem before10_6_of {c : Dev nD} (dat : Dat τ (Elt F) Unit ℕ (UR sig nD τ) ℕ cfg10 c) (hA : dat.A 6 = V c (Pipeline.arrRef spec10 6))
    (hafter : ∀ t, dat.after 6 t = iblk10 V c 6 t) (t : Fin cfg10.N) (d) : dat.before 6 t d = iblk10 V c 6 t :=
  (dat.before_in_eq_fetched 6 rfl (fun _ => rfl) (fun _ _ _ => rfl) (fun t => by rw [hafter]; unfold Dat.blockOf iblk10; rw [hA]; try rfl) t d).trans
    (by unfold Dat.fetched Dat.blockOf iblk10; rw [hA]; try rfl)

/-! ## The pipeline's proof data -/

/-- The proof data of pipeline 10 on core `c`: the arrays as the region finds them; after the body at point `t`
    each input's buffer at its block and each output's at `out10_W` of the input blocks; the invariant is the scoped
    rest and the generator register, untouched; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => iblk10 V c 5 t
    | ⟨6, _⟩ => iblk10 V c 6 t
    | ⟨7, _⟩ => out10_7 (iblk10 V c 0 t) (iblk10 V c 1 t) (iblk10 V c 2 t) (iblk10 V c 3 t) (iblk10 V c 4 t) (iblk10 V c 5 t) (iblk10 V c 6 t)
    | ⟨8, _⟩ => out10_8 (iblk10 V c 0 t) (iblk10 V c 1 t) (iblk10 V c 2 t) (iblk10 V c 3 t) (iblk10 V c 4 t) (iblk10 V c 5 t) (iblk10 V c 6 t)
  Φ _ := Pipeline.ΦA spec10 c
  q _ := fullShare
  owed _ := 0

/-- The proof data's arrays are the region-entry contents. -/
theorem A_eq10 (c : Dev nD) (w : Fin cfg10.W) : (dat10 V c).A w = V c (Pipeline.arrRef spec10 w) := by
  dsimp only [dat10]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) : (dat10 V c).after 5 t = iblk10 V c 5 t := by dsimp only [dat10]
theorem after10_6 (c : Dev nD) (t : Fin cfg10.N) : (dat10 V c).after 6 t = iblk10 V c 6 t := by dsimp only [dat10]
theorem after10_7 (c : Dev nD) (t : Fin cfg10.N) : (dat10 V c).after 7 t = out10_7 (iblk10 V c 0 t) (iblk10 V c 1 t) (iblk10 V c 2 t) (iblk10 V c 3 t) (iblk10 V c 4 t) (iblk10 V c 5 t) (iblk10 V c 6 t) := by dsimp only [dat10]
theorem after10_8 (c : Dev nD) (t : Fin cfg10.N) : (dat10 V c).after 8 t = out10_8 (iblk10 V c 0 t) (iblk10 V c 1 t) (iblk10 V c 2 t) (iblk10 V c 3 t) (iblk10 V c 4 t) (iblk10 V c 5 t) (iblk10 V c 6 t) := by dsimp only [dat10]

/-- Each input's current staging buffer holds its block at every point. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d
theorem before10_4 (c : Dev nD) (t : Fin cfg10.N) (d) : (dat10 V c).before 4 t d = iblk10 V c 4 t :=
  before10_4_of V (dat10 V c) (A_eq10 V c 4) (after10_4 V c) t d
theorem before10_5 (c : Dev nD) (t : Fin cfg10.N) (d) : (dat10 V c).before 5 t d = iblk10 V c 5 t :=
  before10_5_of V (dat10 V c) (A_eq10 V c 5) (after10_5 V c) t d
theorem before10_6 (c : Dev nD) (t : Fin cfg10.N) (d) : (dat10 V c).before 6 t d = iblk10 V c 6 t :=
  before10_6_of V (dat10 V c) (A_eq10 V c 6) (after10_6 V c) t d

/-! ## The body obligation, at a generic point -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d))
    ∗ (∃ d, owns (c : Thread nD τ) (st10_6 t) fullShare ((dat10 V c).before 6 t d))
    ∗ (∃ d, owns (c : Thread nD τ) (st10_7 t) fullShare ((dat10 V c).before 7 t d))
    ∗ (∃ d, owns (c : Thread nD τ) (st10_8 t) fullShare ((dat10 V c).before 8 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t)
    ∗ owns (c : Thread nD τ) (st10_5 t) fullShare ((dat10 V c).after 5 t)
    ∗ owns (c : Thread nD τ) (st10_6 t) fullShare ((dat10 V c).after 6 t)
    ∗ owns (c : Thread nD τ) (st10_7 t) fullShare ((dat10 V c).after 7 t)
    ∗ owns (c : Thread nD τ) (st10_8 t) fullShare ((dat10 V c).after 8 t))

/-- The body at any point: the inputs' buffers hold their blocks, so the body's triple applies; the invariant and
    what the core owes pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4, before10_5, before10_6]
  rw [show (dat10 V c).Φ t.succ = (dat10 V c).Φ t.castSucc from rfl,
    show (dat10 V c).owesAt () t.succ = (dat10 V c).owesAt () t.castSucc from rfl,
    after10_0, after10_1, after10_2, after10_3, after10_4, after10_5, after10_6, after10_7, after10_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel10 c Set.univ (grid10.coords t) _ _ _ _ _ _ _ _ _ _ _ _ _ _ _ _ _ _ (iblk10 V c 0 t) (iblk10 V c 1 t) (iblk10 V c 2 t) (iblk10 V c 3 t) (iblk10 V c 4 t) (iblk10 V c 5 t) (iblk10 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation of the pipeline, at every point. -/
theorem body_obligation10 (c : Dev nD) : BodyObligation (dat10 (F := F) V c) (defs₀ (F := F)) Variants.none () Set.univ := fun t => by
  rw [bigSep_W10, bigSep_W10]
  exact sound_body10 V c t

end Cert.Kernel.Fr
-- ==== Proof.K.Half11Body.lean ====
import proofs.«117664_g2000706958607885_pallasbulk_534_41_alg».proof.Proof.Gen.Kernel.Launch
import proofs.«117664_g2000706958607885_pallasbulk_534_41_alg».proof.Proof.Gen.Kernel.Skeleton
import proofs.«117664_g2000706958607885_pallasbulk_534_41_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The node-update body of pallas_call 11, run once on whole staging buffers

The body reads five buffers in full (two of 1024 × 128, one of 1024 × 256, two rows of 128) and overwrites a
sixth, of 1024 × 128, with one full-buffer store.  This module
names the rectangles it touches, the value the store leaves, and proves the separation-logic triple of the body. -/

-- membership of an index in a rectangle with 1024 rows is decided structurally, one step per row
set_option maxRecDepth 16384

noncomputable section

namespace Cert.Kernel.Fr

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes: each is a whole buffer -/

/-- all of a 1024 × 256 buffer -/
abbrev r11_0 : Rect S1024x256 := Rect.unit (s := S1024x256) ![0, 0] S1024x256.size inb_S1024x256_S1024x256_0_0
/-- all of a 1024 × 128 buffer -/
abbrev r11_1 : Rect S1024x128 := Rect.unit (s := S1024x128) ![0, 0] S1024x128.size inb_S1024x128_S1024x128_0_0
/-- all of a 1 × 128 buffer -/
abbrev r11_2 : Rect S1x128 := Rect.unit (s := S1x128) ![0, 0] S1x128.size inb_S1x128_S1x128_0_0

/-! ## The value left in the output buffer -/

/-- The output buffer after the body, as a function of the five input buffers' contents: the single store's
    payload, as the skeleton names it — with `a`, `b` the two lane halves of `x2`, `u = x1 + a / (b + ε)`, `n` the
    row-wise normalisation of `u` scaled by `x3` and shifted by `x4`, the value `x0 + n · logistic n` — laid over
    the whole buffer. -/
def out11_5 (x0 : Vec F S1024x128 .f32) (x1 : Vec F S1024x128 .f32) (x2 : Vec F S1024x256 .f32) (x3 : Vec F S1x128 .f32) (x4 : Vec F S1x128 .f32) : Vec F S1024x128 .f32 :=
  View.canon [⟨r11_1, k11_pay1 (View.ld x2 r11_0) (View.ld x1 r11_1) (View.ld x0 r11_1) (View.ld x3 r11_2) (View.ld x4 r11_2)⟩]

/-- The one stored rectangle is the whole buffer, so every index of the buffer lies in a stored piece. -/
theorem cover11_5 (p0 : Vec F S1024x128 .f32) (y : S1024x128.Idx) :
    ∃ pc ∈ ([⟨r11_1, p0⟩] : List (View.Piece (Elt F) S1024x128 .f32)), y ∈ pc.1.set :=
  View.cover_of_tiled [⟨r11_1, p0⟩] S1024x128.size (by rfl) y

/-! ## The body's triple -/

set_option maxHeartbeats 1000000 in
/-- Given full ownership of the five input buffers at contents `x0 … x4` and of the output buffer at any
    contents, the body runs to its continuation with the inputs unchanged and the output at `out11_5 x0 … x4`:
    the body is its skeleton of loads and one store, which symbolic execution walks; the final contents are the
    canonical form of the store list because the store covers the buffer. -/
theorem sound_kernel11 (c : Dev nD) (E : Set ℕ) (i : grid11.Coords) (arg1 : Memref sig .tc .vmem S1024x128 .f32) (harg1 : arg1.IsWhole) (arg2 : Memref sig .tc .vmem S1024x128 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1024x128 .f32) (harg6 : arg6.IsWhole)
    (x0 : Vec F S1024x128 .f32) (x1 : Vec F S1024x128 .f32) (x2 : Vec F S1024x256 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out11_5 x0 x1 x2 x3 x4)) -∗ K ⟨⟩))
      ⊢ wp frame (wpE (defs₀ (F := F)) Variants.none c none) E (cc11__node_upd_kernel i arg1 harg1 arg2 harg2 arg3 harg3 arg4 harg4 arg5 harg5 arg6 harg6) K := by
  simp only [cc11__node_upd_kernel_eq_skeleton]; unfold cc11__node_upd_kernel_skel
  simp only [k11_part1_eq_skeleton]; unfold k11_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover11_5 _)

end Cert.Kernel.Fr
-- ==== Proof.K.Half11.lean ====
import proofs.«117664_g2000706958607885_pallasbulk_534_41_alg».proof.Proof.K.Half11Body

/-! # Pallas_call 11 (node update): the pipeline's proof data and its body obligation, at entry contents `V`

Five input windows (0–4) and one output window (5).  At every grid point the inputs' staging buffers hold the
blocks of their arrays as the region found them, and the body leaves in the output's staging buffer the value
`out11_5` of those blocks. -/

set_option maxRecDepth 16384

noncomputable section

namespace Cert.Kernel.Fr

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region11
-- the TensorCore's buffer contents when the region is entered
variable (V : (c : Dev nD) → (b : Ref sig .tc) → Buf (Elt F) ((c : Thread nD τ).loc b))

/-! ## The windows' blocks -/

/-- Window `w`'s block at grid point `t`, read through the window's view of its array as `V` has it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0: whatever proof data has `V`'s array for it and a body that leaves its block in place, the
    current staging buffer holds the block of the point, whether the pipeline fetched there or kept the previous
    fetch (an unfetched point has the same block index as its predecessor). -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
/-- Input window 1: whatever proof data has `V`'s array for it and a body that leaves its block in place, the
    current staging buffer holds the block of the point, whether the pipeline fetched there or kept the previous
    fetch (an unfetched point has the same block index as its predecessor). -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)
/-- Input window 2: whatever proof data has `V`'s array for it and a body that leaves its block in place, the
    current staging buffer holds the block of the point, whether the pipeline fetched there or kept the previous
    fetch (an unfetched point has the same block index as its predecessor). -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)
/-- Input window 3: whatever proof data has `V`'s array for it and a body that leaves its block in place, the
    current staging buffer holds the block of the point, whether the pipeline fetched there or kept the previous
    fetch (an unfetched point has the same block index as its predecessor). -/
theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)
/-- Input window 4: whatever proof data has `V`'s array for it and a body that leaves its block in place, the
    current staging buffer holds the block of the point, whether the pipeline fetched there or kept the previous
    fetch (an unfetched point has the same block index as its predecessor). -/
theorem before11_4_of {c : Dev nD} (dat : Dat τ (Elt F) Unit ℕ (UR sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)

/-! ## The pipeline's proof data -/

/-- Proof data of the pipeline on core `c`: arrays as `V` has them; after the body at point `t` every input
    buffer still at its block and the output buffer at `out11_5` of the input blocks; the class invariant
    (scoped rest and generator register untouched); nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => out11_5 (iblk11 V c 0 t) (iblk11 V c 1 t) (iblk11 V c 2 t) (iblk11 V c 3 t) (iblk11 V c 4 t)
  Φ _ := Pipeline.ΦA spec11 c
  q _ := fullShare
  owed _ := 0

/-- The proof data's arrays are the entry contents. -/
theorem A_eq11 (c : Dev nD) (w : Fin cfg11.W) : (dat11 V c).A w = V c (Pipeline.arrRef spec11 w) := by
  dsimp only [dat11]

/-- What the body leaves, window by window (the definition's case split reduced at each numeral). -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t = out11_5 (iblk11 V c 0 t) (iblk11 V c 1 t) (iblk11 V c 2 t) (iblk11 V c 3 t) (iblk11 V c 4 t) := by dsimp only [dat11]

/-- Each input's current staging buffer holds its block at every point. -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d
theorem before11_4 (c : Dev nD) (t : Fin cfg11.N) (d) : (dat11 V c).before 4 t d = iblk11 V c 4 t :=
  before11_4_of V (dat11 V c) (A_eq11 V c 4) (after11_4 V c) t d

/-! ## The body obligation at a generic point -/

/-- What the body is handed at point `t`: the invariant, the owed transfers, and the six current staging buffers. -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d)))

/-- What it hands back. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t))

/-- The body at any point: the inputs' buffers hold their blocks, so the body's triple applies with those blocks;
    the invariant and the owed transfers are framed around it. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4]
  rw [show (dat11 V c).Φ t.succ = (dat11 V c).Φ t.castSucc from rfl,
    show (dat11 V c).owesAt () t.succ = (dat11 V c).owesAt () t.castSucc from rfl,
    after11_0, after11_1, after11_2, after11_3, after11_4, after11_5]
  iintro ⟨HΦ, Ho, ⟨%d0, H0⟩, ⟨%d1, H1⟩, ⟨%d2, H2⟩, ⟨%d3, H3⟩, ⟨%d4, H4⟩, ⟨%d5, H5⟩⟩
  iapply (sound_kernel11 c Set.univ (grid11.coords t) _ _ _ _ _ _ _ _ _ _ _ _ (iblk11 V c 0 t) (iblk11 V c 1 t) (iblk11 V c 2 t) (iblk11 V c 3 t) (iblk11 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation: the triple above at every point, the windows' separating product spelt out. -/
theorem body_obligation11 (c : Dev nD) : BodyObligation (dat11 (F := F) V c) (defs₀ (F := F)) Variants.none () Set.univ := fun t => by
  rw [bigSep_W11, bigSep_W11]
  exact sound_body11 V c t

end Region11

end Cert.Kernel.Fr
-- ==== Proof.K.RunDefs.lean ====
import proofs.«117664_g2000706958607885_pallasbulk_534_41_alg».proof.Proof.K.Half0
import proofs.«117664_g2000706958607885_pallasbulk_534_41_alg».proof.Proof.K.Half1
import proofs.«117664_g2000706958607885_pallasbulk_534_41_alg».proof.Proof.K.Half2
import proofs.«117664_g2000706958607885_pallasbulk_534_41_alg».proof.Proof.K.Half3
import proofs.«117664_g2000706958607885_pallasbulk_534_41_alg».proof.Proof.K.Half4
import proofs.«117664_g2000706958607885_pallasbulk_534_41_alg».proof.Proof.K.Half5
import proofs.«117664_g2000706958607885_pallasbulk_534_41_alg».proof.Proof.K.Half6
import proofs.«117664_g2000706958607885_pallasbulk_534_41_alg».proof.Proof.K.Half7
import proofs.«117664_g2000706958607885_pallasbulk_534_41_alg».proof.Proof.K.Half8
import proofs.«117664_g2000706958607885_pallasbulk_534_41_alg».proof.Proof.K.Half9
import proofs.«117664_g2000706958607885_pallasbulk_534_41_alg».proof.Proof.K.Half10
import proofs.«117664_g2000706958607885_pallasbulk_534_41_alg».proof.Proof.K.Half11
import proofs.«117664_g2000706958607885_pallasbulk_534_41_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding which window's array a reference is, over the program's few hundred references
set_option maxRecDepth 16384

noncomputable section

namespace Cert.Kernel.Fr

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The buffer contents at each boundary of @main, as a plain chain

`X0` is what the launch finds; an odd step runs a host stretch (`StableHlo.after`); an even step `2K+2` leaves region `K`:
the region's arrays at what its pipeline leaves (`Dat.arrAt … N`), every other buffer as entered. Nothing here mentions
the unknowns the conditional frame is stated over: they are read off this chain afterwards. -/

/-- A buffer that is the array of no window of the pipeline is left as it was. -/
theorem withArrays_of_not_arr {gr W : Nat} (win : Fin W → Pipeline.WinSpec sig gr) (c : Dev nD)
    (V : Valuation τ sig (Elt F)) (A : (w : Fin W) → Buf (Elt F) ((win w).arr.view.loc (c.tc : Thread nD τ)))
    (b : DevRef τ sig) (hb : ∀ w, Proc.devRef .tc (Pipeline.arrRef win w) ≠ b) :
    Pipeline.withArrays win c V A b = V b := by
  unfold Pipeline.withArrays
  rw [dif_neg]
  rintro ⟨w, e⟩
  exact hb w e

/-- Core `c`'s buffers at launch. -/
abbrev X0 (c : Dev nD) : Valuation τ sig (Elt F) := V0 m c

/-! ## Region 0: entered at `X1`, left at `X2` -/

/-- After the host stretch `hostOps0` (region 0's entry). -/
abbrev X1 (c : Dev nD) : Valuation τ sig (Elt F) := StableHlo.after hostOps0 (X0 m c)
/-- The same read at the TensorCore's references (what region 0's proof data take). -/
abbrev XT1 : (c : Dev nD) → (b : Ref sig .tc) → Buf (Elt F) ((c : Thread nD τ).loc b) := fun c b => X1 m c b
/-- At region 0's exit: its arrays at what the pipeline leaves, every other buffer as entered. -/
def X2 (c : Dev nD) : Valuation τ sig (Elt F) :=
  Pipeline.withArrays spec0 c (X1 m c) fun w => (dat0 (XT1 m) c).arrAt w cfg0.N
theorem X2_arr (c : Dev nD) (w : Fin cfg0.W) :
    X2 m c (Proc.devRef .tc (Pipeline.arrRef spec0 w)) = (dat0 (XT1 m) c).arrAt w cfg0.N := by
  unfold X2; exact Pipeline.withArrays_arr spec0 launch0.win.arr_inj c _ _ w
theorem X2_of_ne (c : Dev nD) (b : Ref sig .tc) (hb : ∀ w, Pipeline.arrRef spec0 w ≠ b) :
    X2 m c (Proc.devRef .tc b) = X1 m c (Proc.devRef .tc b) := by
  unfold X2; exact Pipeline.withArrays_of_ne spec0 c _ _ b hb
/-- The same read at the TensorCore's references (region 0's exit contents). -/
abbrev XT2 : (c : Dev nD) → (b : Ref sig .tc) → Buf (Elt F) ((c : Thread nD τ).loc b) := fun c b => X2 m c b
/-- At the exit each array of the region holds what the pipeline leaves, and every other buffer what it held at entry. -/
theorem hF0 (c : Dev nD) (w : Fin cfg0.W) : (dat0 (XT1 m) c).arrAt w cfg0.N = XT2 m c (Pipeline.arrRef spec0 w) :=
  (X2_arr m c w).symm
theorem hrest0 (c : Dev nD) : ∀ b, b ∉ Finset.univ.image (Pipeline.arrRef spec0) → XT2 m c b = XT1 m c b :=
  fun b hb => X2_of_ne m c b fun w e => hb (Finset.mem_image.mpr ⟨w, Finset.mem_univ _, e⟩)
/-- An input window's array is never written back: it is left as entered. -/
theorem X2_in (c : Dev nD) (w : Fin cfg0.W) (hin : (cfg0.win w).isOut = false) :
    X2 m c (Proc.devRef .tc (Pipeline.arrRef spec0 w)) = X1 m c (Proc.devRef .tc (Pipeline.arrRef spec0 w)) :=
  (X2_arr m c w).trans (((dat0 (XT1 m) c).arrAt_in w hin cfg0.N).trans (A_eq0 (XT1 m) c w))
/-- So whatever is not the array of an OUTPUT window is left as entered. -/
theorem X2_keep (c : Dev nD) (b : DevRef τ sig)
    (hb : ∀ w, (cfg0.win w).isOut = true → Proc.devRef .tc (Pipeline.arrRef spec0 w) ≠ b) : X2 m c b = X1 m c b := by
  by_cases h : ∃ w, Proc.devRef .tc (Pipeline.arrRef spec0 w) = b
  · obtain ⟨w, rfl⟩ := h
    cases hio : (cfg0.win w).isOut with
    | false => exact X2_in m c w hio
    | true => exact absurd rfl (hb w hio)
  · unfold X2
    exact withArrays_of_not_arr _ _ _ _ b fun w e => h ⟨w, e⟩
/-- The output windows' arrays, by name. -/
theorem outArr0 : ∀ w : Fin cfg0.W, (cfg0.win w).isOut = true →
    Pipeline.arrRef spec0 w = main_v11_0 ∨ Pipeline.arrRef spec0 w = main_v11_1 ∨ Pipeline.arrRef spec0 w = main_v11_2 := by decide

/-! ## Region 1: entered at `X3`, left at `X4` -/

/-- After the host stretch `hostOps1` (region 1's entry). -/
abbrev X3 (c : Dev nD) : Valuation τ sig (Elt F) := StableHlo.after hostOps1 (X2 m c)
/-- The same read at the TensorCore's references (what region 1's proof data take). -/
abbrev XT3 : (c : Dev nD) → (b : Ref sig .tc) → Buf (Elt F) ((c : Thread nD τ).loc b) := fun c b => X3 m c b
/-- At region 1's exit: its arrays at what the pipeline leaves, every other buffer as entered. -/
def X4 (c : Dev nD) : Valuation τ sig (Elt F) :=
  Pipeline.withArrays spec1 c (X3 m c) fun w => (dat1 (XT3 m) c).arrAt w cfg1.N
theorem X4_arr (c : Dev nD) (w : Fin cfg1.W) :
    X4 m c (Proc.devRef .tc (Pipeline.arrRef spec1 w)) = (dat1 (XT3 m) c).arrAt w cfg1.N := by
  unfold X4; exact Pipeline.withArrays_arr spec1 launch1.win.arr_inj c _ _ w
theorem X4_of_ne (c : Dev nD) (b : Ref sig .tc) (hb : ∀ w, Pipeline.arrRef spec1 w ≠ b) :
    X4 m c (Proc.devRef .tc b) = X3 m c (Proc.devRef .tc b) := by
  unfold X4; exact Pipeline.withArrays_of_ne spec1 c _ _ b hb
/-- The same read at the TensorCore's references (region 1's exit contents). -/
abbrev XT4 : (c : Dev nD) → (b : Ref sig .tc) → Buf (Elt F) ((c : Thread nD τ).loc b) := fun c b => X4 m c b
/-- At the exit each array of the region holds what the pipeline leaves, and every other buffer what it held at entry. -/
theorem hF1 (c : Dev nD) (w : Fin cfg1.W) : (dat1 (XT3 m) c).arrAt w cfg1.N = XT4 m c (Pipeline.arrRef spec1 w) :=
  (X4_arr m c w).symm
theorem hrest1 (c : Dev nD) : ∀ b, b ∉ Finset.univ.image (Pipeline.arrRef spec1) → XT4 m c b = XT3 m c b :=
  fun b hb => X4_of_ne m c b fun w e => hb (Finset.mem_image.mpr ⟨w, Finset.mem_univ _, e⟩)
/-- An input window's array is never written back: it is left as entered. -/
theorem X4_in (c : Dev nD) (w : Fin cfg1.W) (hin : (cfg1.win w).isOut = false) :
    X4 m c (Proc.devRef .tc (Pipeline.arrRef spec1 w)) = X3 m c (Proc.devRef .tc (Pipeline.arrRef spec1 w)) :=
  (X4_arr m c w).trans (((dat1 (XT3 m) c).arrAt_in w hin cfg1.N).trans (A_eq1 (XT3 m) c w))
/-- So whatever is not the array of an OUTPUT window is left as entered. -/
theorem X4_keep (c : Dev nD) (b : DevRef τ sig)
    (hb : ∀ w, (cfg1.win w).isOut = true → Proc.devRef .tc (Pipeline.arrRef spec1 w) ≠ b) : X4 m c b = X3 m c b := by
  by_cases h : ∃ w, Proc.devRef .tc (Pipeline.arrRef spec1 w) = b
  · obtain ⟨w, rfl⟩ := h
    cases hio : (cfg1.win w).isOut with
    | false => exact X4_in m c w hio
    | true => exact absurd rfl (hb w hio)
  · unfold X4
    exact withArrays_of_not_arr _ _ _ _ b fun w e => h ⟨w, e⟩
/-- The output windows' arrays, by name. -/
theorem outArr1 : ∀ w : Fin cfg1.W, (cfg1.win w).isOut = true →
    Pipeline.arrRef spec1 w = main_v29_0 ∨ Pipeline.arrRef spec1 w = main_v29_1 ∨ Pipeline.arrRef spec1 w = main_v29_2 := by decide

/-! ## Region 2: entered at `X5`, left at `X6` -/

/-- After the host stretch `hostOps2` (region 2's entry). -/
abbrev X5 (c : Dev nD) : Valuation τ sig (Elt F) := StableHlo.after hostOps2 (X4 m c)
/-- The same read at the TensorCore's references (what region 2's proof data take). -/
abbrev XT5 : (c : Dev nD) → (b : Ref sig .tc) → Buf (Elt F) ((c : Thread nD τ).loc b) := fun c b => X5 m c b
/-- At region 2's exit: its arrays at what the pipeline leaves, every other buffer as entered. -/
def X6 (c : Dev nD) : Valuation τ sig (Elt F) :=
  Pipeline.withArrays spec2 c (X5 m c) fun w => (dat2 (XT5 m) c).arrAt w cfg2.N
theorem X6_arr (c : Dev nD) (w : Fin cfg2.W) :
    X6 m c (Proc.devRef .tc (Pipeline.arrRef spec2 w)) = (dat2 (XT5 m) c).arrAt w cfg2.N := by
  unfold X6; exact Pipeline.withArrays_arr spec2 launch2.win.arr_inj c _ _ w
theorem X6_of_ne (c : Dev nD) (b : Ref sig .tc) (hb : ∀ w, Pipeline.arrRef spec2 w ≠ b) :
    X6 m c (Proc.devRef .tc b) = X5 m c (Proc.devRef .tc b) := by
  unfold X6; exact Pipeline.withArrays_of_ne spec2 c _ _ b hb
/-- The same read at the TensorCore's references (region 2's exit contents). -/
abbrev XT6 : (c : Dev nD) → (b : Ref sig .tc) → Buf (Elt F) ((c : Thread nD τ).loc b) := fun c b => X6 m c b
/-- At the exit each array of the region holds what the pipeline leaves, and every other buffer what it held at entry. -/
theorem hF2 (c : Dev nD) (w : Fin cfg2.W) : (dat2 (XT5 m) c).arrAt w cfg2.N = XT6 m c (Pipeline.arrRef spec2 w) :=
  (X6_arr m c w).symm
theorem hrest2 (c : Dev nD) : ∀ b, b ∉ Finset.univ.image (Pipeline.arrRef spec2) → XT6 m c b = XT5 m c b :=
  fun b hb => X6_of_ne m c b fun w e => hb (Finset.mem_image.mpr ⟨w, Finset.mem_univ _, e⟩)
/-- An input window's array is never written back: it is left as entered. -/
theorem X6_in (c : Dev nD) (w : Fin cfg2.W) (hin : (cfg2.win w).isOut = false) :
    X6 m c (Proc.devRef .tc (Pipeline.arrRef spec2 w)) = X5 m c (Proc.devRef .tc (Pipeline.arrRef spec2 w)) :=
  (X6_arr m c w).trans (((dat2 (XT5 m) c).arrAt_in w hin cfg2.N).trans (A_eq2 (XT5 m) c w))
/-- So whatever is not the array of an OUTPUT window is left as entered. -/
theorem X6_keep (c : Dev nD) (b : DevRef τ sig)
    (hb : ∀ w, (cfg2.win w).isOut = true → Proc.devRef .tc (Pipeline.arrRef spec2 w) ≠ b) : X6 m c b = X5 m c b := by
  by_cases h : ∃ w, Proc.devRef .tc (Pipeline.arrRef spec2 w) = b
  · obtain ⟨w, rfl⟩ := h
    cases hio : (cfg2.win w).isOut with
    | false => exact X6_in m c w hio
    | true => exact absurd rfl (hb w hio)
  · unfold X6
    exact withArrays_of_not_arr _ _ _ _ b fun w e => h ⟨w, e⟩
/-- The output windows' arrays, by name. -/
theorem outArr2 : ∀ w : Fin cfg2.W, (cfg2.win w).isOut = true →
    Pipeline.arrRef spec2 w = main_v46_0 ∨ Pipeline.arrRef spec2 w = main_v46_1 := by decide

/-! ## Region 3: entered at `X7`, left at `X8` -/

/-- After the host stretch `hostOps3` (region 3's entry). -/
abbrev X7 (c : Dev nD) : Valuation τ sig (Elt F) := StableHlo.after hostOps3 (X6 m c)
/-- The same read at the TensorCore's references (what region 3's proof data take). -/
abbrev XT7 : (c : Dev nD) → (b : Ref sig .tc) → Buf (Elt F) ((c : Thread nD τ).loc b) := fun c b => X7 m c b
/-- At region 3's exit: its arrays at what the pipeline leaves, every other buffer as entered. -/
def X8 (c : Dev nD) : Valuation τ sig (Elt F) :=
  Pipeline.withArrays spec3 c (X7 m c) fun w => (dat3 (XT7 m) c).arrAt w cfg3.N
theorem X8_arr (c : Dev nD) (w : Fin cfg3.W) :
    X8 m c (Proc.devRef .tc (Pipeline.arrRef spec3 w)) = (dat3 (XT7 m) c).arrAt w cfg3.N := by
  unfold X8; exact Pipeline.withArrays_arr spec3 launch3.win.arr_inj c _ _ w
theorem X8_of_ne (c : Dev nD) (b : Ref sig .tc) (hb : ∀ w, Pipeline.arrRef spec3 w ≠ b) :
    X8 m c (Proc.devRef .tc b) = X7 m c (Proc.devRef .tc b) := by
  unfold X8; exact Pipeline.withArrays_of_ne spec3 c _ _ b hb
/-- The same read at the TensorCore's references (region 3's exit contents). -/
abbrev XT8 : (c : Dev nD) → (b : Ref sig .tc) → Buf (Elt F) ((c : Thread nD τ).loc b) := fun c b => X8 m c b
/-- At the exit each array of the region holds what the pipeline leaves, and every other buffer what it held at entry. -/
theorem hF3 (c : Dev nD) (w : Fin cfg3.W) : (dat3 (XT7 m) c).arrAt w cfg3.N = XT8 m c (Pipeline.arrRef spec3 w) :=
  (X8_arr m c w).symm
theorem hrest3 (c : Dev nD) : ∀ b, b ∉ Finset.univ.image (Pipeline.arrRef spec3) → XT8 m c b = XT7 m c b :=
  fun b hb => X8_of_ne m c b fun w e => hb (Finset.mem_image.mpr ⟨w, Finset.mem_univ _, e⟩)
/-- An input window's array is never written back: it is left as entered. -/
theorem X8_in (c : Dev nD) (w : Fin cfg3.W) (hin : (cfg3.win w).isOut = false) :
    X8 m c (Proc.devRef .tc (Pipeline.arrRef spec3 w)) = X7 m c (Proc.devRef .tc (Pipeline.arrRef spec3 w)) :=
  (X8_arr m c w).trans (((dat3 (XT7 m) c).arrAt_in w hin cfg3.N).trans (A_eq3 (XT7 m) c w))
/-- So whatever is not the array of an OUTPUT window is left as entered. -/
theorem X8_keep (c : Dev nD) (b : DevRef τ sig)
    (hb : ∀ w, (cfg3.win w).isOut = true → Proc.devRef .tc (Pipeline.arrRef spec3 w) ≠ b) : X8 m c b = X7 m c b := by
  by_cases h : ∃ w, Proc.devRef .tc (Pipeline.arrRef spec3 w) = b
  · obtain ⟨w, rfl⟩ := h
    cases hio : (cfg3.win w).isOut with
    | false => exact X8_in m c w hio
    | true => exact absurd rfl (hb w hio)
  · unfold X8
    exact withArrays_of_not_arr _ _ _ _ b fun w e => h ⟨w, e⟩
/-- The output windows' arrays, by name. -/
theorem outArr3 : ∀ w : Fin cfg3.W, (cfg3.win w).isOut = true →
    Pipeline.arrRef spec3 w = main_v50 := by decide

/-! ## Region 4: entered at `X9`, left at `X10` -/

/-- After the host stretch `hostOps4` (region 4's entry). -/
abbrev X9 (c : Dev nD) : Valuation τ sig (Elt F) := StableHlo.after hostOps4 (X8 m c)
/-- The same read at the TensorCore's references (what region 4's proof data take). -/
abbrev XT9 : (c : Dev nD) → (b : Ref sig .tc) → Buf (Elt F) ((c : Thread nD τ).loc b) := fun c b => X9 m c b
/-- At region 4's exit: its arrays at what the pipeline leaves, every other buffer as entered. -/
def X10 (c : Dev nD) : Valuation τ sig (Elt F) :=
  Pipeline.withArrays spec4 c (X9 m c) fun w => (dat4 (XT9 m) c).arrAt w cfg4.N
theorem X10_arr (c : Dev nD) (w : Fin cfg4.W) :
    X10 m c (Proc.devRef .tc (Pipeline.arrRef spec4 w)) = (dat4 (XT9 m) c).arrAt w cfg4.N := by
  unfold X10; exact Pipeline.withArrays_arr spec4 launch4.win.arr_inj c _ _ w
theorem X10_of_ne (c : Dev nD) (b : Ref sig .tc) (hb : ∀ w, Pipeline.arrRef spec4 w ≠ b) :
    X10 m c (Proc.devRef .tc b) = X9 m c (Proc.devRef .tc b) := by
  unfold X10; exact Pipeline.withArrays_of_ne spec4 c _ _ b hb
/-- The same read at the TensorCore's references (region 4's exit contents). -/
abbrev XT10 : (c : Dev nD) → (b : Ref sig .tc) → Buf (Elt F) ((c : Thread nD τ).loc b) := fun c b => X10 m c b
/-- At the exit each array of the region holds what the pipeline leaves, and every other buffer what it held at entry. -/
theorem hF4 (c : Dev nD) (w : Fin cfg4.W) : (dat4 (XT9 m) c).arrAt w cfg4.N = XT10 m c (Pipeline.arrRef spec4 w) :=
  (X10_arr m c w).symm
theorem hrest4 (c : Dev nD) : ∀ b, b ∉ Finset.univ.image (Pipeline.arrRef spec4) → XT10 m c b = XT9 m c b :=
  fun b hb => X10_of_ne m c b fun w e => hb (Finset.mem_image.mpr ⟨w, Finset.mem_univ _, e⟩)
/-- An input window's array is never written back: it is left as entered. -/
theorem X10_in (c : Dev nD) (w : Fin cfg4.W) (hin : (cfg4.win w).isOut = false) :
    X10 m c (Proc.devRef .tc (Pipeline.arrRef spec4 w)) = X9 m c (Proc.devRef .tc (Pipeline.arrRef spec4 w)) :=
  (X10_arr m c w).trans (((dat4 (XT9 m) c).arrAt_in w hin cfg4.N).trans (A_eq4 (XT9 m) c w))
/-- So whatever is not the array of an OUTPUT window is left as entered. -/
theorem X10_keep (c : Dev nD) (b : DevRef τ sig)
    (hb : ∀ w, (cfg4.win w).isOut = true → Proc.devRef .tc (Pipeline.arrRef spec4 w) ≠ b) : X10 m c b = X9 m c b := by
  by_cases h : ∃ w, Proc.devRef .tc (Pipeline.arrRef spec4 w) = b
  · obtain ⟨w, rfl⟩ := h
    cases hio : (cfg4.win w).isOut with
    | false => exact X10_in m c w hio
    | true => exact absurd rfl (hb w hio)
  · unfold X10
    exact withArrays_of_not_arr _ _ _ _ b fun w e => h ⟨w, e⟩
/-- The output windows' arrays, by name. -/
theorem outArr4 : ∀ w : Fin cfg4.W, (cfg4.win w).isOut = true →
    Pipeline.arrRef spec4 w = main_v53_0 ∨ Pipeline.arrRef spec4 w = main_v53_1 := by decide

/-! ## Region 5: entered at `X11`, left at `X12` -/

/-- After the host stretch `hostOps5` (region 5's entry). -/
abbrev X11 (c : Dev nD) : Valuation τ sig (Elt F) := StableHlo.after hostOps5 (X10 m c)
/-- The same read at the TensorCore's references (what region 5's proof data take). -/
abbrev XT11 : (c : Dev nD) → (b : Ref sig .tc) → Buf (Elt F) ((c : Thread nD τ).loc b) := fun c b => X11 m c b
/-- At region 5's exit: its arrays at what the pipeline leaves, every other buffer as entered. -/
def X12 (c : Dev nD) : Valuation τ sig (Elt F) :=
  Pipeline.withArrays spec5 c (X11 m c) fun w => (dat5 (XT11 m) c).arrAt w cfg5.N
theorem X12_arr (c : Dev nD) (w : Fin cfg5.W) :
    X12 m c (Proc.devRef .tc (Pipeline.arrRef spec5 w)) = (dat5 (XT11 m) c).arrAt w cfg5.N := by
  unfold X12; exact Pipeline.withArrays_arr spec5 launch5.win.arr_inj c _ _ w
theorem X12_of_ne (c : Dev nD) (b : Ref sig .tc) (hb : ∀ w, Pipeline.arrRef spec5 w ≠ b) :
    X12 m c (Proc.devRef .tc b) = X11 m c (Proc.devRef .tc b) := by
  unfold X12; exact Pipeline.withArrays_of_ne spec5 c _ _ b hb
/-- The same read at the TensorCore's references (region 5's exit contents). -/
abbrev XT12 : (c : Dev nD) → (b : Ref sig .tc) → Buf (Elt F) ((c : Thread nD τ).loc b) := fun c b => X12 m c b
/-- At the exit each array of the region holds what the pipeline leaves, and every other buffer what it held at entry. -/
theorem hF5 (c : Dev nD) (w : Fin cfg5.W) : (dat5 (XT11 m) c).arrAt w cfg5.N = XT12 m c (Pipeline.arrRef spec5 w) :=
  (X12_arr m c w).symm
theorem hrest5 (c : Dev nD) : ∀ b, b ∉ Finset.univ.image (Pipeline.arrRef spec5) → XT12 m c b = XT11 m c b :=
  fun b hb => X12_of_ne m c b fun w e => hb (Finset.mem_image.mpr ⟨w, Finset.mem_univ _, e⟩)
/-- An input window's array is never written back: it is left as entered. -/
theorem X12_in (c : Dev nD) (w : Fin cfg5.W) (hin : (cfg5.win w).isOut = false) :
    X12 m c (Proc.devRef .tc (Pipeline.arrRef spec5 w)) = X11 m c (Proc.devRef .tc (Pipeline.arrRef spec5 w)) :=
  (X12_arr m c w).trans (((dat5 (XT11 m) c).arrAt_in w hin cfg5.N).trans (A_eq5 (XT11 m) c w))
/-- So whatever is not the array of an OUTPUT window is left as entered. -/
theorem X12_keep (c : Dev nD) (b : DevRef τ sig)
    (hb : ∀ w, (cfg5.win w).isOut = true → Proc.devRef .tc (Pipeline.arrRef spec5 w) ≠ b) : X12 m c b = X11 m c b := by
  by_cases h : ∃ w, Proc.devRef .tc (Pipeline.arrRef spec5 w) = b
  · obtain ⟨w, rfl⟩ := h
    cases hio : (cfg5.win w).isOut with
    | false => exact X12_in m c w hio
    | true => exact absurd rfl (hb w hio)
  · unfold X12
    exact withArrays_of_not_arr _ _ _ _ b fun w e => h ⟨w, e⟩
/-- The output windows' arrays, by name. -/
theorem outArr5 : ∀ w : Fin cfg5.W, (cfg5.win w).isOut = true →
    Pipeline.arrRef spec5 w = main_v57_0 ∨ Pipeline.arrRef spec5 w = main_v57_1 ∨ Pipeline.arrRef spec5 w = main_v57_2 := by decide

/-! ## Region 6: entered at `X13`, left at `X14` -/

/-- After the host stretch `hostOps6` (region 6's entry). -/
abbrev X13 (c : Dev nD) : Valuation τ sig (Elt F) := StableHlo.after hostOps6 (X12 m c)
/-- The same read at the TensorCore's references (what region 6's proof data take). -/
abbrev XT13 : (c : Dev nD) → (b : Ref sig .tc) → Buf (Elt F) ((c : Thread nD τ).loc b) := fun c b => X13 m c b
/-- At region 6's exit: its arrays at what the pipeline leaves, every other buffer as entered. -/
def X14 (c : Dev nD) : Valuation τ sig (Elt F) :=
  Pipeline.withArrays spec6 c (X13 m c) fun w => (dat6 (XT13 m) c).arrAt w cfg6.N
theorem X14_arr (c : Dev nD) (w : Fin cfg6.W) :
    X14 m c (Proc.devRef .tc (Pipeline.arrRef spec6 w)) = (dat6 (XT13 m) c).arrAt w cfg6.N := by
  unfold X14; exact Pipeline.withArrays_arr spec6 launch6.win.arr_inj c _ _ w
theorem X14_of_ne (c : Dev nD) (b : Ref sig .tc) (hb : ∀ w, Pipeline.arrRef spec6 w ≠ b) :
    X14 m c (Proc.devRef .tc b) = X13 m c (Proc.devRef .tc b) := by
  unfold X14; exact Pipeline.withArrays_of_ne spec6 c _ _ b hb
/-- The same read at the TensorCore's references (region 6's exit contents). -/
abbrev XT14 : (c : Dev nD) → (b : Ref sig .tc) → Buf (Elt F) ((c : Thread nD τ).loc b) := fun c b => X14 m c b
/-- At the exit each array of the region holds what the pipeline leaves, and every other buffer what it held at entry. -/
theorem hF6 (c : Dev nD) (w : Fin cfg6.W) : (dat6 (XT13 m) c).arrAt w cfg6.N = XT14 m c (Pipeline.arrRef spec6 w) :=
  (X14_arr m c w).symm
theorem hrest6 (c : Dev nD) : ∀ b, b ∉ Finset.univ.image (Pipeline.arrRef spec6) → XT14 m c b = XT13 m c b :=
  fun b hb => X14_of_ne m c b fun w e => hb (Finset.mem_image.mpr ⟨w, Finset.mem_univ _, e⟩)
/-- An input window's array is never written back: it is left as entered. -/
theorem X14_in (c : Dev nD) (w : Fin cfg6.W) (hin : (cfg6.win w).isOut = false) :
    X14 m c (Proc.devRef .tc (Pipeline.arrRef spec6 w)) = X13 m c (Proc.devRef .tc (Pipeline.arrRef spec6 w)) :=
  (X14_arr m c w).trans (((dat6 (XT13 m) c).arrAt_in w hin cfg6.N).trans (A_eq6 (XT13 m) c w))
/-- So whatever is not the array of an OUTPUT window is left as entered. -/
theorem X14_keep (c : Dev nD) (b : DevRef τ sig)
    (hb : ∀ w, (cfg6.win w).isOut = true → Proc.devRef .tc (Pipeline.arrRef spec6 w) ≠ b) : X14 m c b = X13 m c b := by
  by_cases h : ∃ w, Proc.devRef .tc (Pipeline.arrRef spec6 w) = b
  · obtain ⟨w, rfl⟩ := h
    cases hio : (cfg6.win w).isOut with
    | false => exact X14_in m c w hio
    | true => exact absurd rfl (hb w hio)
  · unfold X14
    exact withArrays_of_not_arr _ _ _ _ b fun w e => h ⟨w, e⟩
/-- The output windows' arrays, by name. -/
theorem outArr6 : ∀ w : Fin cfg6.W, (cfg6.win w).isOut = true →
    Pipeline.arrRef spec6 w = main_v75 := by decide

/-! ## Region 7: entered at `X15`, left at `X16` -/

/-- After the host stretch `hostOps7` (region 7's entry). -/
abbrev X15 (c : Dev nD) : Valuation τ sig (Elt F) := StableHlo.after hostOps7 (X14 m c)
/-- The same read at the TensorCore's references (what region 7's proof data take). -/
abbrev XT15 : (c : Dev nD) → (b : Ref sig .tc) → Buf (Elt F) ((c : Thread nD τ).loc b) := fun c b => X15 m c b
/-- At region 7's exit: its arrays at what the pipeline leaves, every other buffer as entered. -/
def X16 (c : Dev nD) : Valuation τ sig (Elt F) :=
  Pipeline.withArrays spec7 c (X15 m c) fun w => (dat7 (XT15 m) c).arrAt w cfg7.N
theorem X16_arr (c : Dev nD) (w : Fin cfg7.W) :
    X16 m c (Proc.devRef .tc (Pipeline.arrRef spec7 w)) = (dat7 (XT15 m) c).arrAt w cfg7.N := by
  unfold X16; exact Pipeline.withArrays_arr spec7 launch7.win.arr_inj c _ _ w
theorem X16_of_ne (c : Dev nD) (b : Ref sig .tc) (hb : ∀ w, Pipeline.arrRef spec7 w ≠ b) :
    X16 m c (Proc.devRef .tc b) = X15 m c (Proc.devRef .tc b) := by
  unfold X16; exact Pipeline.withArrays_of_ne spec7 c _ _ b hb
/-- The same read at the TensorCore's references (region 7's exit contents). -/
abbrev XT16 : (c : Dev nD) → (b : Ref sig .tc) → Buf (Elt F) ((c : Thread nD τ).loc b) := fun c b => X16 m c b
/-- At the exit each array of the region holds what the pipeline leaves, and every other buffer what it held at entry. -/
theorem hF7 (c : Dev nD) (w : Fin cfg7.W) : (dat7 (XT15 m) c).arrAt w cfg7.N = XT16 m c (Pipeline.arrRef spec7 w) :=
  (X16_arr m c w).symm
theorem hrest7 (c : Dev nD) : ∀ b, b ∉ Finset.univ.image (Pipeline.arrRef spec7) → XT16 m c b = XT15 m c b :=
  fun b hb => X16_of_ne m c b fun w e => hb (Finset.mem_image.mpr ⟨w, Finset.mem_univ _, e⟩)
/-- An input window's array is never written back: it is left as entered. -/
theorem X16_in (c : Dev nD) (w : Fin cfg7.W) (hin : (cfg7.win w).isOut = false) :
    X16 m c (Proc.devRef .tc (Pipeline.arrRef spec7 w)) = X15 m c (Proc.devRef .tc (Pipeline.arrRef spec7 w)) :=
  (X16_arr m c w).trans (((dat7 (XT15 m) c).arrAt_in w hin cfg7.N).trans (A_eq7 (XT15 m) c w))
/-- So whatever is not the array of an OUTPUT window is left as entered. -/
theorem X16_keep (c : Dev nD) (b : DevRef τ sig)
    (hb : ∀ w, (cfg7.win w).isOut = true → Proc.devRef .tc (Pipeline.arrRef spec7 w) ≠ b) : X16 m c b = X15 m c b := by
  by_cases h : ∃ w, Proc.devRef .tc (Pipeline.arrRef spec7 w) = b
  · obtain ⟨w, rfl⟩ := h
    cases hio : (cfg7.win w).isOut with
    | false => exact X16_in m c w hio
    | true => exact absurd rfl (hb w hio)
  · unfold X16
    exact withArrays_of_not_arr _ _ _ _ b fun w e => h ⟨w, e⟩
/-- The output windows' arrays, by name. -/
theorem outArr7 : ∀ w : Fin cfg7.W, (cfg7.win w).isOut = true →
    Pipeline.arrRef spec7 w = main_v79_0 ∨ Pipeline.arrRef spec7 w = main_v79_1 ∨ Pipeline.arrRef spec7 w = main_v79_2 := by decide

/-! ## Region 8: entered at `X17`, left at `X18` -/

/-- After the host stretch `hostOps8` (region 8's entry). -/
abbrev X17 (c : Dev nD) : Valuation τ sig (Elt F) := StableHlo.after hostOps8 (X16 m c)
/-- The same read at the TensorCore's references (what region 8's proof data take). -/
abbrev XT17 : (c : Dev nD) → (b : Ref sig .tc) → Buf (Elt F) ((c : Thread nD τ).loc b) := fun c b => X17 m c b
/-- At region 8's exit: its arrays at what the pipeline leaves, every other buffer as entered. -/
def X18 (c : Dev nD) : Valuation τ sig (Elt F) :=
  Pipeline.withArrays spec8 c (X17 m c) fun w => (dat8 (XT17 m) c).arrAt w cfg8.N
theorem X18_arr (c : Dev nD) (w : Fin cfg8.W) :
    X18 m c (Proc.devRef .tc (Pipeline.arrRef spec8 w)) = (dat8 (XT17 m) c).arrAt w cfg8.N := by
  unfold X18; exact Pipeline.withArrays_arr spec8 launch8.win.arr_inj c _ _ w
theorem X18_of_ne (c : Dev nD) (b : Ref sig .tc) (hb : ∀ w, Pipeline.arrRef spec8 w ≠ b) :
    X18 m c (Proc.devRef .tc b) = X17 m c (Proc.devRef .tc b) := by
  unfold X18; exact Pipeline.withArrays_of_ne spec8 c _ _ b hb
/-- The same read at the TensorCore's references (region 8's exit contents). -/
abbrev XT18 : (c : Dev nD) → (b : Ref sig .tc) → Buf (Elt F) ((c : Thread nD τ).loc b) := fun c b => X18 m c b
/-- At the exit each array of the region holds what the pipeline leaves, and every other buffer what it held at entry. -/
theorem hF8 (c : Dev nD) (w : Fin cfg8.W) : (dat8 (XT17 m) c).arrAt w cfg8.N = XT18 m c (Pipeline.arrRef spec8 w) :=
  (X18_arr m c w).symm
theorem hrest8 (c : Dev nD) : ∀ b, b ∉ Finset.univ.image (Pipeline.arrRef spec8) → XT18 m c b = XT17 m c b :=
  fun b hb => X18_of_ne m c b fun w e => hb (Finset.mem_image.mpr ⟨w, Finset.mem_univ _, e⟩)
/-- An input window's array is never written back: it is left as entered. -/
theorem X18_in (c : Dev nD) (w : Fin cfg8.W) (hin : (cfg8.win w).isOut = false) :
    X18 m c (Proc.devRef .tc (Pipeline.arrRef spec8 w)) = X17 m c (Proc.devRef .tc (Pipeline.arrRef spec8 w)) :=
  (X18_arr m c w).trans (((dat8 (XT17 m) c).arrAt_in w hin cfg8.N).trans (A_eq8 (XT17 m) c w))
/-- So whatever is not the array of an OUTPUT window is left as entered. -/
theorem X18_keep (c : Dev nD) (b : DevRef τ sig)
    (hb : ∀ w, (cfg8.win w).isOut = true → Proc.devRef .tc (Pipeline.arrRef spec8 w) ≠ b) : X18 m c b = X17 m c b := by
  by_cases h : ∃ w, Proc.devRef .tc (Pipeline.arrRef spec8 w) = b
  · obtain ⟨w, rfl⟩ := h
    cases hio : (cfg8.win w).isOut with
    | false => exact X18_in m c w hio
    | true => exact absurd rfl (hb w hio)
  · unfold X18
    exact withArrays_of_not_arr _ _ _ _ b fun w e => h ⟨w, e⟩
/-- The output windows' arrays, by name. -/
theorem outArr8 : ∀ w : Fin cfg8.W, (cfg8.win w).isOut = true →
    Pipeline.arrRef spec8 w = main_v96_0 ∨ Pipeline.arrRef spec8 w = main_v96_1 := by decide

/-! ## Region 9: entered at `X19`, left at `X20` -/

/-- After the host stretch `hostOps9` (region 9's entry). -/
abbrev X19 (c : Dev nD) : Valuation τ sig (Elt F) := StableHlo.after hostOps9 (X18 m c)
/-- The same read at the TensorCore's references (what region 9's proof data take). -/
abbrev XT19 : (c : Dev nD) → (b : Ref sig .tc) → Buf (Elt F) ((c : Thread nD τ).loc b) := fun c b => X19 m c b
/-- At region 9's exit: its arrays at what the pipeline leaves, every other buffer as entered. -/
def X20 (c : Dev nD) : Valuation τ sig (Elt F) :=
  Pipeline.withArrays spec9 c (X19 m c) fun w => (dat9 (XT19 m) c).arrAt w cfg9.N
theorem X20_arr (c : Dev nD) (w : Fin cfg9.W) :
    X20 m c (Proc.devRef .tc (Pipeline.arrRef spec9 w)) = (dat9 (XT19 m) c).arrAt w cfg9.N := by
  unfold X20; exact Pipeline.withArrays_arr spec9 launch9.win.arr_inj c _ _ w
theorem X20_of_ne (c : Dev nD) (b : Ref sig .tc) (hb : ∀ w, Pipeline.arrRef spec9 w ≠ b) :
    X20 m c (Proc.devRef .tc b) = X19 m c (Proc.devRef .tc b) := by
  unfold X20; exact Pipeline.withArrays_of_ne spec9 c _ _ b hb
/-- The same read at the TensorCore's references (region 9's exit contents). -/
abbrev XT20 : (c : Dev nD) → (b : Ref sig .tc) → Buf (Elt F) ((c : Thread nD τ).loc b) := fun c b => X20 m c b
/-- At the exit each array of the region holds what the pipeline leaves, and every other buffer what it held at entry. -/
theorem hF9 (c : Dev nD) (w : Fin cfg9.W) : (dat9 (XT19 m) c).arrAt w cfg9.N = XT20 m c (Pipeline.arrRef spec9 w) :=
  (X20_arr m c w).symm
theorem hrest9 (c : Dev nD) : ∀ b, b ∉ Finset.univ.image (Pipeline.arrRef spec9) → XT20 m c b = XT19 m c b :=
  fun b hb => X20_of_ne m c b fun w e => hb (Finset.mem_image.mpr ⟨w, Finset.mem_univ _, e⟩)
/-- An input window's array is never written back: it is left as entered. -/
theorem X20_in (c : Dev nD) (w : Fin cfg9.W) (hin : (cfg9.win w).isOut = false) :
    X20 m c (Proc.devRef .tc (Pipeline.arrRef spec9 w)) = X19 m c (Proc.devRef .tc (Pipeline.arrRef spec9 w)) :=
  (X20_arr m c w).trans (((dat9 (XT19 m) c).arrAt_in w hin cfg9.N).trans (A_eq9 (XT19 m) c w))
/-- So whatever is not the array of an OUTPUT window is left as entered. -/
theorem X20_keep (c : Dev nD) (b : DevRef τ sig)
    (hb : ∀ w, (cfg9.win w).isOut = true → Proc.devRef .tc (Pipeline.arrRef spec9 w) ≠ b) : X20 m c b = X19 m c b := by
  by_cases h : ∃ w, Proc.devRef .tc (Pipeline.arrRef spec9 w) = b
  · obtain ⟨w, rfl⟩ := h
    cases hio : (cfg9.win w).isOut with
    | false => exact X20_in m c w hio
    | true => exact absurd rfl (hb w hio)
  · unfold X20
    exact withArrays_of_not_arr _ _ _ _ b fun w e => h ⟨w, e⟩
/-- The output windows' arrays, by name. -/
theorem outArr9 : ∀ w : Fin cfg9.W, (cfg9.win w).isOut = true →
    Pipeline.arrRef spec9 w = main_v100 := by decide

/-! ## Region 10: entered at `X21`, left at `X22` -/

/-- After the host stretch `hostOps10` (region 10's entry). -/
abbrev X21 (c : Dev nD) : Valuation τ sig (Elt F) := StableHlo.after hostOps10 (X20 m c)
/-- The same read at the TensorCore's references (what region 10's proof data take). -/
abbrev XT21 : (c : Dev nD) → (b : Ref sig .tc) → Buf (Elt F) ((c : Thread nD τ).loc b) := fun c b => X21 m c b
/-- At region 10's exit: its arrays at what the pipeline leaves, every other buffer as entered. -/
def X22 (c : Dev nD) : Valuation τ sig (Elt F) :=
  Pipeline.withArrays spec10 c (X21 m c) fun w => (dat10 (XT21 m) c).arrAt w cfg10.N
theorem X22_arr (c : Dev nD) (w : Fin cfg10.W) :
    X22 m c (Proc.devRef .tc (Pipeline.arrRef spec10 w)) = (dat10 (XT21 m) c).arrAt w cfg10.N := by
  unfold X22; exact Pipeline.withArrays_arr spec10 launch10.win.arr_inj c _ _ w
theorem X22_of_ne (c : Dev nD) (b : Ref sig .tc) (hb : ∀ w, Pipeline.arrRef spec10 w ≠ b) :
    X22 m c (Proc.devRef .tc b) = X21 m c (Proc.devRef .tc b) := by
  unfold X22; exact Pipeline.withArrays_of_ne spec10 c _ _ b hb
/-- The same read at the TensorCore's references (region 10's exit contents). -/
abbrev XT22 : (c : Dev nD) → (b : Ref sig .tc) → Buf (Elt F) ((c : Thread nD τ).loc b) := fun c b => X22 m c b
/-- At the exit each array of the region holds what the pipeline leaves, and every other buffer what it held at entry. -/
theorem hF10 (c : Dev nD) (w : Fin cfg10.W) : (dat10 (XT21 m) c).arrAt w cfg10.N = XT22 m c (Pipeline.arrRef spec10 w) :=
  (X22_arr m c w).symm
theorem hrest10 (c : Dev nD) : ∀ b, b ∉ Finset.univ.image (Pipeline.arrRef spec10) → XT22 m c b = XT21 m c b :=
  fun b hb => X22_of_ne m c b fun w e => hb (Finset.mem_image.mpr ⟨w, Finset.mem_univ _, e⟩)
/-- An input window's array is never written back: it is left as entered. -/
theorem X22_in (c : Dev nD) (w : Fin cfg10.W) (hin : (cfg10.win w).isOut = false) :
    X22 m c (Proc.devRef .tc (Pipeline.arrRef spec10 w)) = X21 m c (Proc.devRef .tc (Pipeline.arrRef spec10 w)) :=
  (X22_arr m c w).trans (((dat10 (XT21 m) c).arrAt_in w hin cfg10.N).trans (A_eq10 (XT21 m) c w))
/-- So whatever is not the array of an OUTPUT window is left as entered. -/
theorem X22_keep (c : Dev nD) (b : DevRef τ sig)
    (hb : ∀ w, (cfg10.win w).isOut = true → Proc.devRef .tc (Pipeline.arrRef spec10 w) ≠ b) : X22 m c b = X21 m c b := by
  by_cases h : ∃ w, Proc.devRef .tc (Pipeline.arrRef spec10 w) = b
  · obtain ⟨w, rfl⟩ := h
    cases hio : (cfg10.win w).isOut with
    | false => exact X22_in m c w hio
    | true => exact absurd rfl (hb w hio)
  · unfold X22
    exact withArrays_of_not_arr _ _ _ _ b fun w e => h ⟨w, e⟩
/-- The output windows' arrays, by name. -/
theorem outArr10 : ∀ w : Fin cfg10.W, (cfg10.win w).isOut = true →
    Pipeline.arrRef spec10 w = main_v103_0 ∨ Pipeline.arrRef spec10 w = main_v103_1 := by decide

/-! ## Region 11: entered at `X23`, left at `X24` -/

/-- After the host stretch `hostOps11` (region 11's entry). -/
abbrev X23 (c : Dev nD) : Valuation τ sig (Elt F) := StableHlo.after hostOps11 (X22 m c)
/-- The same read at the TensorCore's references (what region 11's proof data take). -/
abbrev XT23 : (c : Dev nD) → (b : Ref sig .tc) → Buf (Elt F) ((c : Thread nD τ).loc b) := fun c b => X23 m c b
/-- At region 11's exit: its arrays at what the pipeline leaves, every other buffer as entered. -/
def X24 (c : Dev nD) : Valuation τ sig (Elt F) :=
  Pipeline.withArrays spec11 c (X23 m c) fun w => (dat11 (XT23 m) c).arrAt w cfg11.N
theorem X24_arr (c : Dev nD) (w : Fin cfg11.W) :
    X24 m c (Proc.devRef .tc (Pipeline.arrRef spec11 w)) = (dat11 (XT23 m) c).arrAt w cfg11.N := by
  unfold X24; exact Pipeline.withArrays_arr spec11 launch11.win.arr_inj c _ _ w
theorem X24_of_ne (c : Dev nD) (b : Ref sig .tc) (hb : ∀ w, Pipeline.arrRef spec11 w ≠ b) :
    X24 m c (Proc.devRef .tc b) = X23 m c (Proc.devRef .tc b) := by
  unfold X24; exact Pipeline.withArrays_of_ne spec11 c _ _ b hb
/-- The same read at the TensorCore's references (region 11's exit contents). -/
abbrev XT24 : (c : Dev nD) → (b : Ref sig .tc) → Buf (Elt F) ((c : Thread nD τ).loc b) := fun c b => X24 m c b
/-- At the exit each array of the region holds what the pipeline leaves, and every other buffer what it held at entry. -/
theorem hF11 (c : Dev nD) (w : Fin cfg11.W) : (dat11 (XT23 m) c).arrAt w cfg11.N = XT24 m c (Pipeline.arrRef spec11 w) :=
  (X24_arr m c w).symm
theorem hrest11 (c : Dev nD) : ∀ b, b ∉ Finset.univ.image (Pipeline.arrRef spec11) → XT24 m c b = XT23 m c b :=
  fun b hb => X24_of_ne m c b fun w e => hb (Finset.mem_image.mpr ⟨w, Finset.mem_univ _, e⟩)
/-- An input window's array is never written back: it is left as entered. -/
theorem X24_in (c : Dev nD) (w : Fin cfg11.W) (hin : (cfg11.win w).isOut = false) :
    X24 m c (Proc.devRef .tc (Pipeline.arrRef spec11 w)) = X23 m c (Proc.devRef .tc (Pipeline.arrRef spec11 w)) :=
  (X24_arr m c w).trans (((dat11 (XT23 m) c).arrAt_in w hin cfg11.N).trans (A_eq11 (XT23 m) c w))
/-- So whatever is not the array of an OUTPUT window is left as entered. -/
theorem X24_keep (c : Dev nD) (b : DevRef τ sig)
    (hb : ∀ w, (cfg11.win w).isOut = true → Proc.devRef .tc (Pipeline.arrRef spec11 w) ≠ b) : X24 m c b = X23 m c b := by
  by_cases h : ∃ w, Proc.devRef .tc (Pipeline.arrRef spec11 w) = b
  · obtain ⟨w, rfl⟩ := h
    cases hio : (cfg11.win w).isOut with
    | false => exact X24_in m c w hio
    | true => exact absurd rfl (hb w hio)
  · unfold X24
    exact withArrays_of_not_arr _ _ _ _ b fun w e => h ⟨w, e⟩
/-- The output windows' arrays, by name. -/
theorem outArr11 : ∀ w : Fin cfg11.W, (cfg11.win w).isOut = true →
    Pipeline.arrRef spec11 w = main_v107 := by decide

/-! # What the regions leave, read off the chain

`outs J r c` is the contents of `r` on core `c` after item `J − 1`; the conditional frame reads it only at a region's
output arrays, at the even `J` after that region. -/
def outs : Outs (F := F) := fun J r c => match J with
  | 2 => X2 m c r
  | 4 => X4 m c r
  | 6 => X6 m c r
  | 8 => X8 m c r
  | 10 => X10 m c r
  | 12 => X12 m c r
  | 14 => X14 m c r
  | 16 => X16 m c r
  | 18 => X18 m c r
  | 20 => X20 m c r
  | 22 => X22 m c r
  | 24 => X24 m c r
  | _ => X0 m c r

/-! # The conditional frame's valuations, at these `outs`, are the chain -/

theorem V1_eq (c : Dev nD) : V1 m c = X1 m c := rfl
theorem V2_eq (c : Dev nD) : V2 m (outs m) c = X2 m c := by
  funext b
  show (Function.update (Function.update (Function.update (V1 m c) (Proc.devRef .tc main_v11_0) (outs m 2 main_v11_0 c)) (Proc.devRef .tc main_v11_1) (outs m 2 main_v11_1 c)) (Proc.devRef .tc main_v11_2) (outs m 2 main_v11_2 c) : Valuation τ sig (Elt F)) b = _
  by_cases h0 : b = Proc.devRef .tc main_v11_2
  · subst h0; rw [Function.update_self]; rfl
  rw [Function.update_of_ne h0]
  by_cases h1 : b = Proc.devRef .tc main_v11_1
  · subst h1; rw [Function.update_self]; rfl
  rw [Function.update_of_ne h1]
  by_cases h2 : b = Proc.devRef .tc main_v11_0
  · subst h2; rw [Function.update_self]; rfl
  rw [Function.update_of_ne h2]
  refine (congrFun (V1_eq m c) b).trans (X2_keep m c b fun w hw e => ?_).symm
  rcases outArr0 w hw with h | h | h
  all_goals (rw [h] at e)
  all_goals first | exact h0 e.symm | exact h1 e.symm | exact h2 e.symm
theorem V3_eq (c : Dev nD) : V3 m (outs m) c = X3 m c := congrArg (StableHlo.after hostOps1) (V2_eq m c)
theorem V4_eq (c : Dev nD) : V4 m (outs m) c = X4 m c := by
  funext b
  show (Function.update (Function.update (Function.update (V3 m (outs m) c) (Proc.devRef .tc main_v29_0) (outs m 4 main_v29_0 c)) (Proc.devRef .tc main_v29_1) (outs m 4 main_v29_1 c)) (Proc.devRef .tc main_v29_2) (outs m 4 main_v29_2 c) : Valuation τ sig (Elt F)) b = _
  by_cases h0 : b = Proc.devRef .tc main_v29_2
  · subst h0; rw [Function.update_self]; rfl
  rw [Function.update_of_ne h0]
  by_cases h1 : b = Proc.devRef .tc main_v29_1
  · subst h1; rw [Function.update_self]; rfl
  rw [Function.update_of_ne h1]
  by_cases h2 : b = Proc.devRef .tc main_v29_0
  · subst h2; rw [Function.update_self]; rfl
  rw [Function.update_of_ne h2]
  refine (congrFun (V3_eq m c) b).trans (X4_keep m c b fun w hw e => ?_).symm
  rcases outArr1 w hw with h | h | h
  all_goals (rw [h] at e)
  all_goals first | exact h0 e.symm | exact h1 e.symm | exact h2 e.symm
theorem V5_eq (c : Dev nD) : V5 m (outs m) c = X5 m c := congrArg (StableHlo.after hostOps2) (V4_eq m c)
theorem V6_eq (c : Dev nD) : V6 m (outs m) c = X6 m c := by
  funext b
  show (Function.update (Function.update (V5 m (outs m) c) (Proc.devRef .tc main_v46_0) (outs m 6 main_v46_0 c)) (Proc.devRef .tc main_v46_1) (outs m 6 main_v46_1 c) : Valuation τ sig (Elt F)) b = _
  by_cases h0 : b = Proc.devRef .tc main_v46_1
  · subst h0; rw [Function.update_self]; rfl
  rw [Function.update_of_ne h0]
  by_cases h1 : b = Proc.devRef .tc main_v46_0
  · subst h1; rw [Function.update_self]; rfl
  rw [Function.update_of_ne h1]
  refine (congrFun (V5_eq m c) b).trans (X6_keep m c b fun w hw e => ?_).symm
  rcases outArr2 w hw with h | h
  all_goals (rw [h] at e)
  all_goals first | exact h0 e.symm | exact h1 e.symm
theorem V7_eq (c : Dev nD) : V7 m (outs m) c = X7 m c := congrArg (StableHlo.after hostOps3) (V6_eq m c)
theorem V8_eq (c : Dev nD) : V8 m (outs m) c = X8 m c := by
  funext b
  show (Function.update (V7 m (outs m) c) (Proc.devRef .tc main_v50) (outs m 8 main_v50 c) : Valuation τ sig (Elt F)) b = _
  by_cases h0 : b = Proc.devRef .tc main_v50
  · subst h0; rw [Function.update_self]; rfl
  rw [Function.update_of_ne h0]
  refine (congrFun (V7_eq m c) b).trans (X8_keep m c b fun w hw e => ?_).symm
  rcases outArr3 w hw with h
  all_goals (rw [h] at e)
  all_goals first | exact h0 e.symm
theorem V9_eq (c : Dev nD) : V9 m (outs m) c = X9 m c := congrArg (StableHlo.after hostOps4) (V8_eq m c)
theorem V10_eq (c : Dev nD) : V10 m (outs m) c = X10 m c := by
  funext b
  show (Function.update (Function.update (V9 m (outs m) c) (Proc.devRef .tc main_v53_0) (outs m 10 main_v53_0 c)) (Proc.devRef .tc main_v53_1) (outs m 10 main_v53_1 c) : Valuation τ sig (Elt F)) b = _
  by_cases h0 : b = Proc.devRef .tc main_v53_1
  · subst h0; rw [Function.update_self]; rfl
  rw [Function.update_of_ne h0]
  by_cases h1 : b = Proc.devRef .tc main_v53_0
  · subst h1; rw [Function.update_self]; rfl
  rw [Function.update_of_ne h1]
  refine (congrFun (V9_eq m c) b).trans (X10_keep m c b fun w hw e => ?_).symm
  rcases outArr4 w hw with h | h
  all_goals (rw [h] at e)
  all_goals first | exact h0 e.symm | exact h1 e.symm
theorem V11_eq (c : Dev nD) : V11 m (outs m) c = X11 m c := congrArg (StableHlo.after hostOps5) (V10_eq m c)
theorem V12_eq (c : Dev nD) : V12 m (outs m) c = X12 m c := by
  funext b
  show (Function.update (Function.update (Function.update (V11 m (outs m) c) (Proc.devRef .tc main_v57_0) (outs m 12 main_v57_0 c)) (Proc.devRef .tc main_v57_1) (outs m 12 main_v57_1 c)) (Proc.devRef .tc main_v57_2) (outs m 12 main_v57_2 c) : Valuation τ sig (Elt F)) b = _
  by_cases h0 : b = Proc.devRef .tc main_v57_2
  · subst h0; rw [Function.update_self]; rfl
  rw [Function.update_of_ne h0]
  by_cases h1 : b = Proc.devRef .tc main_v57_1
  · subst h1; rw [Function.update_self]; rfl
  rw [Function.update_of_ne h1]
  by_cases h2 : b = Proc.devRef .tc main_v57_0
  · subst h2; rw [Function.update_self]; rfl
  rw [Function.update_of_ne h2]
  refine (congrFun (V11_eq m c) b).trans (X12_keep m c b fun w hw e => ?_).symm
  rcases outArr5 w hw with h | h | h
  all_goals (rw [h] at e)
  all_goals first | exact h0 e.symm | exact h1 e.symm | exact h2 e.symm
theorem V13_eq (c : Dev nD) : V13 m (outs m) c = X13 m c := congrArg (StableHlo.after hostOps6) (V12_eq m c)
theorem V14_eq (c : Dev nD) : V14 m (outs m) c = X14 m c := by
  funext b
  show (Function.update (V13 m (outs m) c) (Proc.devRef .tc main_v75) (outs m 14 main_v75 c) : Valuation τ sig (Elt F)) b = _
  by_cases h0 : b = Proc.devRef .tc main_v75
  · subst h0; rw [Function.update_self]; rfl
  rw [Function.update_of_ne h0]
  refine (congrFun (V13_eq m c) b).trans (X14_keep m c b fun w hw e => ?_).symm
  rcases outArr6 w hw with h
  all_goals (rw [h] at e)
  all_goals first | exact h0 e.symm
theorem V15_eq (c : Dev nD) : V15 m (outs m) c = X15 m c := congrArg (StableHlo.after hostOps7) (V14_eq m c)
theorem V16_eq (c : Dev nD) : V16 m (outs m) c = X16 m c := by
  funext b
  show (Function.update (Function.update (Function.update (V15 m (outs m) c) (Proc.devRef .tc main_v79_0) (outs m 16 main_v79_0 c)) (Proc.devRef .tc main_v79_1) (outs m 16 main_v79_1 c)) (Proc.devRef .tc main_v79_2) (outs m 16 main_v79_2 c) : Valuation τ sig (Elt F)) b = _
  by_cases h0 : b = Proc.devRef .tc main_v79_2
  · subst h0; rw [Function.update_self]; rfl
  rw [Function.update_of_ne h0]
  by_cases h1 : b = Proc.devRef .tc main_v79_1
  · subst h1; rw [Function.update_self]; rfl
  rw [Function.update_of_ne h1]
  by_cases h2 : b = Proc.devRef .tc main_v79_0
  · subst h2; rw [Function.update_self]; rfl
  rw [Function.update_of_ne h2]
  refine (congrFun (V15_eq m c) b).trans (X16_keep m c b fun w hw e => ?_).symm
  rcases outArr7 w hw with h | h | h
  all_goals (rw [h] at e)
  all_goals first | exact h0 e.symm | exact h1 e.symm | exact h2 e.symm
theorem V17_eq (c : Dev nD) : V17 m (outs m) c = X17 m c := congrArg (StableHlo.after hostOps8) (V16_eq m c)
theorem V18_eq (c : Dev nD) : V18 m (outs m) c = X18 m c := by
  funext b
  show (Function.update (Function.update (V17 m (outs m) c) (Proc.devRef .tc main_v96_0) (outs m 18 main_v96_0 c)) (Proc.devRef .tc main_v96_1) (outs m 18 main_v96_1 c) : Valuation τ sig (Elt F)) b = _
  by_cases h0 : b = Proc.devRef .tc main_v96_1
  · subst h0; rw [Function.update_self]; rfl
  rw [Function.update_of_ne h0]
  by_cases h1 : b = Proc.devRef .tc main_v96_0
  · subst h1; rw [Function.update_self]; rfl
  rw [Function.update_of_ne h1]
  refine (congrFun (V17_eq m c) b).trans (X18_keep m c b fun w hw e => ?_).symm
  rcases outArr8 w hw with h | h
  all_goals (rw [h] at e)
  all_goals first | exact h0 e.symm | exact h1 e.symm
theorem V19_eq (c : Dev nD) : V19 m (outs m) c = X19 m c := congrArg (StableHlo.after hostOps9) (V18_eq m c)
theorem V20_eq (c : Dev nD) : V20 m (outs m) c = X20 m c := by
  funext b
  show (Function.update (V19 m (outs m) c) (Proc.devRef .tc main_v100) (outs m 20 main_v100 c) : Valuation τ sig (Elt F)) b = _
  by_cases h0 : b = Proc.devRef .tc main_v100
  · subst h0; rw [Function.update_self]; rfl
  rw [Function.update_of_ne h0]
  refine (congrFun (V19_eq m c) b).trans (X20_keep m c b fun w hw e => ?_).symm
  rcases outArr9 w hw with h
  all_goals (rw [h] at e)
  all_goals first | exact h0 e.symm
theorem V21_eq (c : Dev nD) : V21 m (outs m) c = X21 m c := congrArg (StableHlo.after hostOps10) (V20_eq m c)
theorem V22_eq (c : Dev nD) : V22 m (outs m) c = X22 m c := by
  funext b
  show (Function.update (Function.update (V21 m (outs m) c) (Proc.devRef .tc main_v103_0) (outs m 22 main_v103_0 c)) (Proc.devRef .tc main_v103_1) (outs m 22 main_v103_1 c) : Valuation τ sig (Elt F)) b = _
  by_cases h0 : b = Proc.devRef .tc main_v103_1
  · subst h0; rw [Function.update_self]; rfl
  rw [Function.update_of_ne h0]
  by_cases h1 : b = Proc.devRef .tc main_v103_0
  · subst h1; rw [Function.update_self]; rfl
  rw [Function.update_of_ne h1]
  refine (congrFun (V21_eq m c) b).trans (X22_keep m c b fun w hw e => ?_).symm
  rcases outArr10 w hw with h | h
  all_goals (rw [h] at e)
  all_goals first | exact h0 e.symm | exact h1 e.symm
theorem V23_eq (c : Dev nD) : V23 m (outs m) c = X23 m c := congrArg (StableHlo.after hostOps11) (V22_eq m c)
theorem V24_eq (c : Dev nD) : V24 m (outs m) c = X24 m c := by
  funext b
  show (Function.update (V23 m (outs m) c) (Proc.devRef .tc main_v107) (outs m 24 main_v107 c) : Valuation τ sig (Elt F)) b = _
  by_cases h0 : b = Proc.devRef .tc main_v107
  · subst h0; rw [Function.update_self]; rfl
  rw [Function.update_of_ne h0]
  refine (congrFun (V23_eq m c) b).trans (X24_keep m c b fun w hw e => ?_).symm
  rcases outArr11 w hw with h
  all_goals (rw [h] at e)
  all_goals first | exact h0 e.symm

/-! # The proof data family and what rides beside the buffers -/

/-- Every pipeline's proof data, each at its region's entry contents — a literal `match`, so that the family at a numeral
    reduces to that region's data. -/
def pdats : (p : Fin 12) → (c : Dev nD) → Dat τ (Elt F) Unit ℕ (UR sig nD τ) ℕ (Pipeline.pin (pcfgs (F := F)) adm p) c
  | ⟨0, _⟩ => fun c => dat0 (XT1 m) c
  | ⟨1, _⟩ => fun c => dat1 (XT3 m) c
  | ⟨2, _⟩ => fun c => dat2 (XT5 m) c
  | ⟨3, _⟩ => fun c => dat3 (XT7 m) c
  | ⟨4, _⟩ => fun c => dat4 (XT9 m) c
  | ⟨5, _⟩ => fun c => dat5 (XT11 m) c
  | ⟨6, _⟩ => fun c => dat6 (XT13 m) c
  | ⟨7, _⟩ => fun c => dat7 (XT15 m) c
  | ⟨8, _⟩ => fun c => dat8 (XT17 m) c
  | ⟨9, _⟩ => fun c => dat9 (XT19 m) c
  | ⟨10, _⟩ => fun c => dat10 (XT21 m) c
  | ⟨11, _⟩ => fun c => dat11 (XT23 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)

end Cert.Kernel.Fr

end
-- ==== Proof.K.Run1.lean ====
import proofs.«117664_g2000706958607885_pallasbulk_534_41_alg».proof.Proof.K.RunDefs

set_option maxRecDepth 16384

noncomputable section

namespace Cert.Kernel.Fr

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The regions as segments of the run -/

set_option backward.isDefEq.respectTransparency.types false in
/-- REGION 0 over the thread state: entered with every unscoped buffer at `X1`, left with them at `X2`. Its arrays
    are split out of the unscoped buffers at entry and put back at the exit contents; the generator register goes into
    the pipeline's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (XT1 m) c).loose
  hwaits := Pipeline.hwaits_of_owed_zero _ _ _ _ L lv 0 fun _ _ => rfl
  pre c := iprop(StableHlo.held (c : Thread nD τ) (Pipeline.ucRefs τ sig) (X1 m c) ∗ R c)
  post c := iprop(StableHlo.held (c : Thread nD τ) (Pipeline.ucRefs τ sig) (X2 m c) ∗ R c)
  X c := iprop(∃ r, prngReg c r)
  Y c := iprop(∃ r, prngReg c r)
  Z c := Pipeline.unscopedRest (Ix := Unit) (Name := ℕ) (U := UR sig nD τ) (Lvl := ℕ) spec0 c (XT1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (XT1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (XT1 m c) (XT2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered with every unscoped buffer at `X3`, left with them at `X4`. Its arrays
    are split out of the unscoped buffers at entry and put back at the exit contents; the generator register goes into
    the pipeline's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (XT3 m) c).loose
  hwaits := Pipeline.hwaits_of_owed_zero _ _ _ _ L lv 1 fun _ _ => rfl
  pre c := iprop(StableHlo.held (c : Thread nD τ) (Pipeline.ucRefs τ sig) (X3 m c) ∗ R c)
  post c := iprop(StableHlo.held (c : Thread nD τ) (Pipeline.ucRefs τ sig) (X4 m c) ∗ R c)
  X c := iprop(∃ r, prngReg c r)
  Y c := iprop(∃ r, prngReg c r)
  Z c := Pipeline.unscopedRest (Ix := Unit) (Name := ℕ) (U := UR sig nD τ) (Lvl := ℕ) spec1 c (XT3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (XT3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (XT3 m c) (XT4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered with every unscoped buffer at `X5`, left with them at `X6`. Its arrays
    are split out of the unscoped buffers at entry and put back at the exit contents; the generator register goes into
    the pipeline's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (XT5 m) c).loose
  hwaits := Pipeline.hwaits_of_owed_zero _ _ _ _ L lv 2 fun _ _ => rfl
  pre c := iprop(StableHlo.held (c : Thread nD τ) (Pipeline.ucRefs τ sig) (X5 m c) ∗ R c)
  post c := iprop(StableHlo.held (c : Thread nD τ) (Pipeline.ucRefs τ sig) (X6 m c) ∗ R c)
  X c := iprop(∃ r, prngReg c r)
  Y c := iprop(∃ r, prngReg c r)
  Z c := Pipeline.unscopedRest (Ix := Unit) (Name := ℕ) (U := UR sig nD τ) (Lvl := ℕ) spec2 c (XT5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (XT5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (XT5 m c) (XT6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered with every unscoped buffer at `X7`, left with them at `X8`. Its arrays
    are split out of the unscoped buffers at entry and put back at the exit contents; the generator register goes into
    the pipeline's invariant and comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (XT7 m) c).loose
  hwaits := Pipeline.hwaits_of_owed_zero _ _ _ _ L lv 3 fun _ _ => rfl
  pre c := iprop(StableHlo.held (c : Thread nD τ) (Pipeline.ucRefs τ sig) (X7 m c) ∗ R c)
  post c := iprop(StableHlo.held (c : Thread nD τ) (Pipeline.ucRefs τ sig) (X8 m c) ∗ R c)
  X c := iprop(∃ r, prngReg c r)
  Y c := iprop(∃ r, prngReg c r)
  Z c := Pipeline.unscopedRest (Ix := Unit) (Name := ℕ) (U := UR sig nD τ) (Lvl := ℕ) spec3 c (XT7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (XT7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (XT7 m c) (XT8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.K.Run2.lean ====
import proofs.«117664_g2000706958607885_pallasbulk_534_41_alg».proof.Proof.K.RunDefs

set_option maxRecDepth 16384

noncomputable section

namespace Cert.Kernel.Fr

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The regions as segments of the run -/

set_option backward.isDefEq.respectTransparency.types false in
/-- REGION 4 over the thread state: entered with every unscoped buffer at `X9`, left with them at `X10`. Its arrays
    are split out of the unscoped buffers at entry and put back at the exit contents; the generator register goes into
    the pipeline's invariant and comes back; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (XT9 m) c).loose
  hwaits := Pipeline.hwaits_of_owed_zero _ _ _ _ L lv 4 fun _ _ => rfl
  pre c := iprop(StableHlo.held (c : Thread nD τ) (Pipeline.ucRefs τ sig) (X9 m c) ∗ R c)
  post c := iprop(StableHlo.held (c : Thread nD τ) (Pipeline.ucRefs τ sig) (X10 m c) ∗ R c)
  X c := iprop(∃ r, prngReg c r)
  Y c := iprop(∃ r, prngReg c r)
  Z c := Pipeline.unscopedRest (Ix := Unit) (Name := ℕ) (U := UR sig nD τ) (Lvl := ℕ) spec4 c (XT9 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (XT9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (XT9 m c) (XT10 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 5 over the thread state: entered with every unscoped buffer at `X11`, left with them at `X12`. Its arrays
    are split out of the unscoped buffers at entry and put back at the exit contents; the generator register goes into
    the pipeline's invariant and comes back; nothing is owed; the kernel has no semaphore of its own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (XT11 m) c).loose
  hwaits := Pipeline.hwaits_of_owed_zero _ _ _ _ L lv 5 fun _ _ => rfl
  pre c := iprop(StableHlo.held (c : Thread nD τ) (Pipeline.ucRefs τ sig) (X11 m c) ∗ R c)
  post c := iprop(StableHlo.held (c : Thread nD τ) (Pipeline.ucRefs τ sig) (X12 m c) ∗ R c)
  X c := iprop(∃ r, prngReg c r)
  Y c := iprop(∃ r, prngReg c r)
  Z c := Pipeline.unscopedRest (Ix := Unit) (Name := ℕ) (U := UR sig nD τ) (Lvl := ℕ) spec5 c (XT11 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (XT11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (XT11 m c) (XT12 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 6 over the thread state: entered with every unscoped buffer at `X13`, left with them at `X14`. Its arrays
    are split out of the unscoped buffers at entry and put back at the exit contents; the generator register goes into
    the pipeline's invariant and comes back; nothing is owed; the kernel has no semaphore of its own. -/
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (XT13 m) c).loose
  hwaits := Pipeline.hwaits_of_owed_zero _ _ _ _ L lv 6 fun _ _ => rfl
  pre c := iprop(StableHlo.held (c : Thread nD τ) (Pipeline.ucRefs τ sig) (X13 m c) ∗ R c)
  post c := iprop(StableHlo.held (c : Thread nD τ) (Pipeline.ucRefs τ sig) (X14 m c) ∗ R c)
  X c := iprop(∃ r, prngReg c r)
  Y c := iprop(∃ r, prngReg c r)
  Z c := Pipeline.unscopedRest (Ix := Unit) (Name := ℕ) (U := UR sig nD τ) (Lvl := ℕ) spec6 c (XT13 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (XT13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (XT13 m c) (XT14 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 7 over the thread state: entered with every unscoped buffer at `X15`, left with them at `X16`. Its arrays
    are split out of the unscoped buffers at entry and put back at the exit contents; the generator register goes into
    the pipeline's invariant and comes back; nothing is owed; the kernel has no semaphore of its own. -/
def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (XT15 m) c).loose
  hwaits := Pipeline.hwaits_of_owed_zero _ _ _ _ L lv 7 fun _ _ => rfl
  pre c := iprop(StableHlo.held (c : Thread nD τ) (Pipeline.ucRefs τ sig) (X15 m c) ∗ R c)
  post c := iprop(StableHlo.held (c : Thread nD τ) (Pipeline.ucRefs τ sig) (X16 m c) ∗ R c)
  X c := iprop(∃ r, prngReg c r)
  Y c := iprop(∃ r, prngReg c r)
  Z c := Pipeline.unscopedRest (Ix := Unit) (Name := ℕ) (U := UR sig nD τ) (Lvl := ℕ) spec7 c (XT15 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (XT15 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (XT15 m c) (XT16 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.K.Run3.lean ====
import proofs.«117664_g2000706958607885_pallasbulk_534_41_alg».proof.Proof.K.RunDefs

set_option maxRecDepth 16384

noncomputable section

namespace Cert.Kernel.Fr

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The regions as segments of the run -/

set_option backward.isDefEq.respectTransparency.types false in
/-- REGION 8 over the thread state: entered with every unscoped buffer at `X17`, left with them at `X18`. Its arrays
    are split out of the unscoped buffers at entry and put back at the exit contents; the generator register goes into
    the pipeline's invariant and comes back; nothing is owed; the kernel has no semaphore of its own. -/
def reg8 : Pipeline.RegionSeg (pcfgs (F := F)) adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (XT17 m) c).loose
  hwaits := Pipeline.hwaits_of_owed_zero _ _ _ _ L lv 8 fun _ _ => rfl
  pre c := iprop(StableHlo.held (c : Thread nD τ) (Pipeline.ucRefs τ sig) (X17 m c) ∗ R c)
  post c := iprop(StableHlo.held (c : Thread nD τ) (Pipeline.ucRefs τ sig) (X18 m c) ∗ R c)
  X c := iprop(∃ r, prngReg c r)
  Y c := iprop(∃ r, prngReg c r)
  Z c := Pipeline.unscopedRest (Ix := Unit) (Name := ℕ) (U := UR sig nD τ) (Lvl := ℕ) spec8 c (XT17 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (XT17 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (XT17 m c) (XT18 m c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 9 over the thread state: entered with every unscoped buffer at `X19`, left with them at `X20`. Its arrays
    are split out of the unscoped buffers at entry and put back at the exit contents; the generator register goes into
    the pipeline's invariant and comes back; nothing is owed; the kernel has no semaphore of its own. -/
def reg9 : Pipeline.RegionSeg (pcfgs (F := F)) adm (pdats m) () defs₀ 𝒱₀ L lv 9 where
  win := launch9.win.to₀
  block_pos := launch9.block_pos
  stage_whole := launch9.stage_whole
  K := PEmpty
  osem k := k.elim
  ho := Pipeline.OwnSemFacts.none _
  hbody c := (body_obligation9 (XT19 m) c).loose
  hwaits := Pipeline.hwaits_of_owed_zero _ _ _ _ L lv 9 fun _ _ => rfl
  pre c := iprop(StableHlo.held (c : Thread nD τ) (Pipeline.ucRefs τ sig) (X19 m c) ∗ R c)
  post c := iprop(StableHlo.held (c : Thread nD τ) (Pipeline.ucRefs τ sig) (X20 m c) ∗ R c)
  X c := iprop(∃ r, prngReg c r)
  Y c := iprop(∃ r, prngReg c r)
  Z c := Pipeline.unscopedRest (Ix := Unit) (Name := ℕ) (U := UR sig nD τ) (Lvl := ℕ) spec9 c (XT19 m c)
  hentry c := by
    rw [Pipeline.ownSems0_none]
    have hsplit := Pipeline.arrays_of_unscopedBufs (p := 9) (pcfgs (F := F)) adm (pdats m) launch9.win launch9.arr_whole c
      ((pdats m 9 c).share_full fun _ => rfl) (XT19 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (XT19 m c) (XT20 m c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 10 over the thread state: entered with every unscoped buffer at `X21`, left with them at `X22`. Its arrays
    are split out of the unscoped buffers at entry and put back at the exit contents; the generator register goes into
    the pipeline's invariant and comes back; nothing is owed; the kernel has no semaphore of its own. -/
def reg10 : Pipeline.RegionSeg (pcfgs (F := F)) adm (pdats m) () defs₀ 𝒱₀ L lv 10 where
  win := launch10.win.to₀
  block_pos := launch10.block_pos
  stage_whole := launch10.stage_whole
  K := PEmpty
  osem k := k.elim
  ho := Pipeline.OwnSemFacts.none _
  hbody c := (body_obligation10 (XT21 m) c).loose
  hwaits := Pipeline.hwaits_of_owed_zero _ _ _ _ L lv 10 fun _ _ => rfl
  pre c := iprop(StableHlo.held (c : Thread nD τ) (Pipeline.ucRefs τ sig) (X21 m c) ∗ R c)
  post c := iprop(StableHlo.held (c : Thread nD τ) (Pipeline.ucRefs τ sig) (X22 m c) ∗ R c)
  X c := iprop(∃ r, prngReg c r)
  Y c := iprop(∃ r, prngReg c r)
  Z c := Pipeline.unscopedRest (Ix := Unit) (Name := ℕ) (U := UR sig nD τ) (Lvl := ℕ) spec10 c (XT21 m c)
  hentry c := by
    rw [Pipeline.ownSems0_none]
    have hsplit := Pipeline.arrays_of_unscopedBufs (p := 10) (pcfgs (F := F)) adm (pdats m) launch10.win launch10.arr_whole c
      ((pdats m 10 c).share_full fun _ => rfl) (XT21 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m) ((pdats m 10 c).share_full fun _ => rfl)
      (XT21 m c) (XT22 m c) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 11 over the thread state: entered with every unscoped buffer at `X23`, left with them at `X24`. Its arrays
    are split out of the unscoped buffers at entry and put back at the exit contents; the generator register goes into
    the pipeline's invariant and comes back; nothing is owed; the kernel has no semaphore of its own. -/
def reg11 : Pipeline.RegionSeg (pcfgs (F := F)) adm (pdats m) () defs₀ 𝒱₀ L lv 11 where
  win := launch11.win.to₀
  block_pos := launch11.block_pos
  stage_whole := launch11.stage_whole
  K := PEmpty
  osem k := k.elim
  ho := Pipeline.OwnSemFacts.none _
  hbody c := (body_obligation11 (XT23 m) c).loose
  hwaits := Pipeline.hwaits_of_owed_zero _ _ _ _ L lv 11 fun _ _ => rfl
  pre c := iprop(StableHlo.held (c : Thread nD τ) (Pipeline.ucRefs τ sig) (X23 m c) ∗ R c)
  post c := iprop(StableHlo.held (c : Thread nD τ) (Pipeline.ucRefs τ sig) (X24 m c) ∗ R c)
  X c := iprop(∃ r, prngReg c r)
  Y c := iprop(∃ r, prngReg c r)
  Z c := Pipeline.unscopedRest (Ix := Unit) (Name := ℕ) (U := UR sig nD τ) (Lvl := ℕ) spec11 c (XT23 m c)
  hentry c := by
    rw [Pipeline.ownSems0_none]
    have hsplit := Pipeline.arrays_of_unscopedBufs (p := 11) (pcfgs (F := F)) adm (pdats m) launch11.win launch11.arr_whole c
      ((pdats m 11 c).share_full fun _ => rfl) (XT23 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m) ((pdats m 11 c).share_full fun _ => rfl)
      (XT23 m c) (XT24 m c) ((pdats m 11 c).arrAt · cfg11.N) (hF11 m c) (hrest11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.K.Run.lean ====
import proofs.«117664_g2000706958607885_pallasbulk_534_41_alg».proof.Proof.K.Run1
import proofs.«117664_g2000706958607885_pallasbulk_534_41_alg».proof.Proof.K.Run2
import proofs.«117664_g2000706958607885_pallasbulk_534_41_alg».proof.Proof.K.Run3

set_option maxRecDepth 16384

noncomputable section

namespace Cert.Kernel.Fr

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

/-! # The frame of the program

The conditional frame asks, per region, for a segment record entered from its valuation before the region and left at
the one after it. At the contents the regions leave as read off the chain (`outs`) those valuations are the chain
(`V<j>_eq`), so each record `reg<K>` fits as it stands; beside the buffers every item carries the generator register
and the core's dues at nothing. -/

/-- What the launch hands each core, less the buffers, makes the rest state. -/
theorem launch_rest (c : Dev nD) :
    (iprop(unscopedSems0 c ∗ owes (c : Thread nD τ) (0 : CellTallies nD τ sig Unit) ∅
      ∗ Pipeline.launchCred (fun _ : Dev nD => (0 : CellTallies nD τ sig Unit)) c ∗ prngReg c (ρ c) ∗ emp) : sProp 𝕄) ⊢ R c := by
  iintro ⟨-, HO, -, Hp, -⟩
  isplitl [Hp]; · iexists _; iexact Hp
  iexists ∅; iexact HO

/-- The same on every core at once. -/
theorem launch_rests :
    ((bigSep Finset.univ fun c : Dev nD => iprop(unscopedSems0 c ∗ owes (c : Thread nD τ) (0 : CellTallies nD τ sig Unit) ∅
      ∗ Pipeline.launchCred (fun _ : Dev nD => (0 : CellTallies nD τ sig Unit)) c ∗ prngReg c (ρ c) ∗ emp)) : sProp 𝕄)
      ⊢ bigSep Finset.univ fun c : Dev nD => (R c : sProp 𝕄) :=
  bigSep_mono fun c _ => launch_rest ρ c

/-! ## Each region's record is entered from, and left at, the conditional frame's valuations -/

theorem pre_fit0 (c : Dev nD) :
    (iprop(StableHlo.held (c : Thread nD τ) (Pipeline.ucRefs τ sig) (V1 m c) ∗ R c) : sProp 𝕄) ⊢ (reg0 m).pre c := by
  rw [V1_eq m c]; exact .rfl
theorem post_fit0 (c : Dev nD) :
    (reg0 m).post c ⊢ (iprop(StableHlo.held (c : Thread nD τ) (Pipeline.ucRefs τ sig) (V2 m (outs m) c) ∗ R c) : sProp 𝕄) := by
  rw [V2_eq m c]; exact .rfl

theorem pre_fit1 (c : Dev nD) :
    (iprop(StableHlo.held (c : Thread nD τ) (Pipeline.ucRefs τ sig) (V3 m (outs m) c) ∗ R c) : sProp 𝕄) ⊢ (reg1 m).pre c := by
  rw [V3_eq m c]; exact .rfl
theorem post_fit1 (c : Dev nD) :
    (reg1 m).post c ⊢ (iprop(StableHlo.held (c : Thread nD τ) (Pipeline.ucRefs τ sig) (V4 m (outs m) c) ∗ R c) : sProp 𝕄) := by
  rw [V4_eq m c]; exact .rfl

theorem pre_fit2 (c : Dev nD) :
    (iprop(StableHlo.held (c : Thread nD τ) (Pipeline.ucRefs τ sig) (V5 m (outs m) c) ∗ R c) : sProp 𝕄) ⊢ (reg2 m).pre c := by
  rw [V5_eq m c]; exact .rfl
theorem post_fit2 (c : Dev nD) :
    (reg2 m).post c ⊢ (iprop(StableHlo.held (c : Thread nD τ) (Pipeline.ucRefs τ sig) (V6 m (outs m) c) ∗ R c) : sProp 𝕄) := by
  rw [V6_eq m c]; exact .rfl

theorem pre_fit3 (c : Dev nD) :
    (iprop(StableHlo.held (c : Thread nD τ) (Pipeline.ucRefs τ sig) (V7 m (outs m) c) ∗ R c) : sProp 𝕄) ⊢ (reg3 m).pre c := by
  rw [V7_eq m c]; exact .rfl
theorem post_fit3 (c : Dev nD) :
    (reg3 m).post c ⊢ (iprop(StableHlo.held (c : Thread nD τ) (Pipeline.ucRefs τ sig) (V8 m (outs m) c) ∗ R c) : sProp 𝕄) := by
  rw [V8_eq m c]; exact .rfl

theorem pre_fit4 (c : Dev nD) :
    (iprop(StableHlo.held (c : Thread nD τ) (Pipeline.ucRefs τ sig) (V9 m (outs m) c) ∗ R c) : sProp 𝕄) ⊢ (reg4 m).pre c := by
  rw [V9_eq m c]; exact .rfl
theorem post_fit4 (c : Dev nD) :
    (reg4 m).post c ⊢ (iprop(StableHlo.held (c : Thread nD τ) (Pipeline.ucRefs τ sig) (V10 m (outs m) c) ∗ R c) : sProp 𝕄) := by
  rw [V10_eq m c]; exact .rfl

theorem pre_fit5 (c : Dev nD) :
    (iprop(StableHlo.held (c : Thread nD τ) (Pipeline.ucRefs τ sig) (V11 m (outs m) c) ∗ R c) : sProp 𝕄) ⊢ (reg5 m).pre c := by
  rw [V11_eq m c]; exact .rfl
theorem post_fit5 (c : Dev nD) :
    (reg5 m).post c ⊢ (iprop(StableHlo.held (c : Thread nD τ) (Pipeline.ucRefs τ sig) (V12 m (outs m) c) ∗ R c) : sProp 𝕄) := by
  rw [V12_eq m c]; exact .rfl

theorem pre_fit6 (c : Dev nD) :
    (iprop(StableHlo.held (c : Thread nD τ) (Pipeline.ucRefs τ sig) (V13 m (outs m) c) ∗ R c) : sProp 𝕄) ⊢ (reg6 m).pre c := by
  rw [V13_eq m c]; exact .rfl
theorem post_fit6 (c : Dev nD) :
    (reg6 m).post c ⊢ (iprop(StableHlo.held (c : Thread nD τ) (Pipeline.ucRefs τ sig) (V14 m (outs m) c) ∗ R c) : sProp 𝕄) := by
  rw [V14_eq m c]; exact .rfl

theorem pre_fit7 (c : Dev nD) :
    (iprop(StableHlo.held (c : Thread nD τ) (Pipeline.ucRefs τ sig) (V15 m (outs m) c) ∗ R c) : sProp 𝕄) ⊢ (reg7 m).pre c := by
  rw [V15_eq m c]; exact .rfl
theorem post_fit7 (c : Dev nD) :
    (reg7 m).post c ⊢ (iprop(StableHlo.held (c : Thread nD τ) (Pipeline.ucRefs τ sig) (V16 m (outs m) c) ∗ R c) : sProp 𝕄) := by
  rw [V16_eq m c]; exact .rfl

theorem pre_fit8 (c : Dev nD) :
    (iprop(StableHlo.held (c : Thread nD τ) (Pipeline.ucRefs τ sig) (V17 m (outs m) c) ∗ R c) : sProp 𝕄) ⊢ (reg8 m).pre c := by
  rw [V17_eq m c]; exact .rfl
theorem post_fit8 (c : Dev nD) :
    (reg8 m).post c ⊢ (iprop(StableHlo.held (c : Thread nD τ) (Pipeline.ucRefs τ sig) (V18 m (outs m) c) ∗ R c) : sProp 𝕄) := by
  rw [V18_eq m c]; exact .rfl

theorem pre_fit9 (c : Dev nD) :
    (iprop(StableHlo.held (c : Thread nD τ) (Pipeline.ucRefs τ sig) (V19 m (outs m) c) ∗ R c) : sProp 𝕄) ⊢ (reg9 m).pre c := by
  rw [V19_eq m c]; exact .rfl
theorem post_fit9 (c : Dev nD) :
    (reg9 m).post c ⊢ (iprop(StableHlo.held (c : Thread nD τ) (Pipeline.ucRefs τ sig) (V20 m (outs m) c) ∗ R c) : sProp 𝕄) := by
  rw [V20_eq m c]; exact .rfl

theorem pre_fit10 (c : Dev nD) :
    (iprop(StableHlo.held (c : Thread nD τ) (Pipeline.ucRefs τ sig) (V21 m (outs m) c) ∗ R c) : sProp 𝕄) ⊢ (reg10 m).pre c := by
  rw [V21_eq m c]; exact .rfl
theorem post_fit10 (c : Dev nD) :
    (reg10 m).post c ⊢ (iprop(StableHlo.held (c : Thread nD τ) (Pipeline.ucRefs τ sig) (V22 m (outs m) c) ∗ R c) : sProp 𝕄) := by
  rw [V22_eq m c]; exact .rfl

theorem pre_fit11 (c : Dev nD) :
    (iprop(StableHlo.held (c : Thread nD τ) (Pipeline.ucRefs τ sig) (V23 m (outs m) c) ∗ R c) : sProp 𝕄) ⊢ (reg11 m).pre c := by
  rw [V23_eq m c]; exact .rfl
theorem post_fit11 (c : Dev nD) :
    (reg11 m).post c ⊢ (iprop(StableHlo.held (c : Thread nD τ) (Pipeline.ucRefs τ sig) (V24 m (outs m) c) ∗ R c) : sProp 𝕄) := by
  rw [V24_eq m c]; exact .rfl

set_option backward.isDefEq.respectTransparency.types false in
/-- THE FRAME, at any float instance: from any memory with zero counters every weakly fair execution of @main on the
    TensorCores terminates and every final memory holds each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39)
      ∧ r.2.mem ((c.tc : Thread nD τ).loc main_arg40) = m ((c.tc : Thread nD τ).loc main_arg40)
      ∧ r.2.mem ((c.tc : Thread nD τ).loc main_arg41) = m ((c.tc : Thread nD τ).loc main_arg41)
      ∧ r.2.mem ((c.tc : Thread nD τ).loc main_arg42) = m ((c.tc : Thread nD τ).loc main_arg42)
      ∧ r.2.mem ((c.tc : Thread nD τ).loc main_arg43) = m ((c.tc : Thread nD τ).loc main_arg43)
      ∧ r.2.mem ((c.tc : Thread nD τ).loc main_arg44) = m ((c.tc : Thread nD τ).loc main_arg44)
      ∧ r.2.mem ((c.tc : Thread nD τ).loc main_arg45) = m ((c.tc : Thread nD τ).loc main_arg45)
      ∧ r.2.mem ((c.tc : Thread nD τ).loc main_arg46) = m ((c.tc : Thread nD τ).loc main_arg46)
      ∧ r.2.mem ((c.tc : Thread nD τ).loc main_arg47) = m ((c.tc : Thread nD τ).loc main_arg47)
      ∧ r.2.mem ((c.tc : Thread nD τ).loc main_arg48) = m ((c.tc : Thread nD τ).loc main_arg48)
      ∧ r.2.mem ((c.tc : Thread nD τ).loc main_arg49) = m ((c.tc : Thread nD τ).loc main_arg49)
      ∧ r.2.mem ((c.tc : Thread nD τ).loc main_arg50) = m ((c.tc : Thread nD τ).loc main_arg50)
      ∧ r.2.mem ((c.tc : Thread nD τ).loc main_arg51) = m ((c.tc : Thread nD τ).loc main_arg51)
      ∧ r.2.mem ((c.tc : Thread nD τ).loc main_arg52) = m ((c.tc : Thread nD τ).loc main_arg52)
      ∧ r.2.mem ((c.tc : Thread nD τ).loc main_arg53) = m ((c.tc : Thread nD τ).loc main_arg53)
      ∧ r.2.mem ((c.tc : Thread nD τ).loc main_arg54) = m ((c.tc : Thread nD τ).loc main_arg54)
      ∧ r.2.mem ((c.tc : Thread nD τ).loc main_arg55) = m ((c.tc : Thread nD τ).loc main_arg55)
      ∧ r.2.mem ((c.tc : Thread nD τ).loc main_arg56) = m ((c.tc : Thread nD τ).loc main_arg56)
      ∧ r.2.mem ((c.tc : Thread nD τ).loc main_arg57) = m ((c.tc : Thread nD τ).loc main_arg57)
      ∧ r.2.mem ((c.tc : Thread nD τ).loc main_arg58) = m ((c.tc : Thread nD τ).loc main_arg58)
      ∧ r.2.mem ((c.tc : Thread nD τ).loc main_arg59) = m ((c.tc : Thread nD τ).loc main_arg59)
      ∧ r.2.mem ((c.tc : Thread nD τ).loc main_arg60) = m ((c.tc : Thread nD τ).loc main_arg60)) :=
  frame_cond m (EP := emb₁) (ι := ()) (𝒱₀ := 𝒱₀) (L := L) (lv := lv) (hL := fun _ _ => rfl) (ρ := ρ) (outs := outs m)
    (pdats := pdats m) (O₀ := fun _ => 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      iintro ⟨H, -⟩
      imodintro
      iapply (launch_rests ρ)
      iexact H)
    (hE12 := fun c => by iintro ⟨-, H⟩; iexact H)
    (R0 := reg0 m) (hpre0 := pre_fit0 m) (hpost0 := post_fit0 m)
    (R1 := reg1 m) (hpre1 := pre_fit1 m) (hpost1 := post_fit1 m)
    (R2 := reg2 m) (hpre2 := pre_fit2 m) (hpost2 := post_fit2 m)
    (R3 := reg3 m) (hpre3 := pre_fit3 m) (hpost3 := post_fit3 m)
    (R4 := reg4 m) (hpre4 := pre_fit4 m) (hpost4 := post_fit4 m)
    (R5 := reg5 m) (hpre5 := pre_fit5 m) (hpost5 := post_fit5 m)
    (R6 := reg6 m) (hpre6 := pre_fit6 m) (hpost6 := post_fit6 m)
    (R7 := reg7 m) (hpre7 := pre_fit7 m) (hpost7 := post_fit7 m)
    (R8 := reg8 m) (hpre8 := pre_fit8 m) (hpost8 := post_fit8 m)
    (R9 := reg9 m) (hpre9 := pre_fit9 m) (hpost9 := post_fit9 m)
    (R10 := reg10 m) (hpre10 := pre_fit10 m) (hpost10 := post_fit10 m)
    (R11 := reg11 m) (hpre11 := pre_fit11 m) (hpost11 := post_fit11 m)

end Cert.Kernel.Fr

end
-- ==== Proof.KI.Half0Body.lean ====
import proofs.«117664_g2000706958607885_pallasbulk_534_41_alg».proof.Proof.Gen.KernelIdeal.Launch
import proofs.«117664_g2000706958607885_pallasbulk_534_41_alg».proof.Proof.Gen.KernelIdeal.Skeleton
import proofs.«117664_g2000706958607885_pallasbulk_534_41_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Pipeline 0, `cc0__node_proj_kernel`: what one call of the body leaves, and its triple

The body reads a 1024-row block `x`, a 128×512 weight `w` and a 1×512 bias `b`, forms the 1024×512
projection `x · w + b` once, and stores three column slices of it: lanes 0–127 into window 3, lanes 384–511 into
window 4 (twice, side by side), and lanes 128–383 into window 5. -/

/-! ## The body's accesses -/

/-- the whole 1024×128 block (the read of `x`, the store of window 3), -/
abbrev rx0 : Rect S1024x128 := Rect.unit (s := S1024x128) ![0, 0] S1024x128.size inb_S1024x128_S1024x128_0_0
/-- the whole weight, -/
abbrev rw0 : Rect S128x512 := Rect.unit (s := S128x512) ![0, 0] S128x512.size inb_S128x512_S128x512_0_0
/-- the whole bias row, -/
abbrev rb0 : Rect S1x512 := Rect.unit (s := S1x512) ![0, 0] S1x512.size inb_S1x512_S1x512_0_0
/-- the whole 1024×256 block (the store of window 5), -/
abbrev rq0 : Rect S1024x256 := Rect.unit (s := S1024x256) ![0, 0] S1024x256.size inb_S1024x256_S1024x256_0_0
/-- lanes 0–127 of a 1024×256 block, -/
abbrev rlo0 : Rect S1024x256 := Rect.unit (s := S1024x256) ![0, 0] S1024x128.size inb_S1024x256_S1024x128_0_0
/-- and its lanes 128–255. -/
abbrev rhi0 : Rect S1024x256 := Rect.unit (s := S1024x256) ![0, 128] S1024x128.size inb_S1024x256_S1024x128_0_128

/-! ## What the body leaves in each output window's buffer -/

/-- Window 3's buffer after the body, from the input blocks: the first 128 lanes of the projection, one store. -/
def out0_3 (x0 : Vec F S1024x128 .f32) (x1 : Vec F S128x512 .f32) (x2 : Vec F S1x512 .f32) : Vec F S1024x128 .f32 :=
  View.canon [⟨rx0, k0_pay2 (View.ld x0 rx0) (View.ld x1 rw0) (View.ld x2 rb0)⟩]

/-- One whole-block store covers the block. -/
theorem cover0_3 (p0 : Vec F S1024x128 .f32) (y : S1024x128.Idx) :
    ∃ pc ∈ ([⟨rx0, p0⟩] : List (View.Piece (Elt F) S1024x128 .f32)), y ∈ pc.1.set :=
  View.cover_of_tiled [⟨rx0, p0⟩] S1024x128.size (by rfl) y

/-- Window 4's buffer after the body: its two 128-lane halves, each holding the last 128 lanes of the projection, written by two stores, the later store listed first. -/
def out0_4 (x0 : Vec F S1024x128 .f32) (x1 : Vec F S128x512 .f32) (x2 : Vec F S1x512 .f32) : Vec F S1024x256 .f32 :=
  View.canon [⟨rhi0, k0_pay4 (View.ld x0 rx0) (View.ld x1 rw0) (View.ld x2 rb0)⟩, ⟨rlo0, k0_pay4 (View.ld x0 rx0) (View.ld x1 rw0) (View.ld x2 rb0)⟩]

/-- The two 128-lane halves tile the 256-lane block (two blocks of 1024×128, one at each lane offset), so they cover it. -/
theorem cover0_4 (p0 p1 : Vec F S1024x128 .f32) (y : S1024x256.Idx) :
    ∃ pc ∈ ([⟨rhi0, p0⟩, ⟨rlo0, p1⟩] : List (View.Piece (Elt F) S1024x256 .f32)), y ∈ pc.1.set :=
  View.cover_of_tiled [⟨rhi0, p0⟩, ⟨rlo0, p1⟩] S1024x128.size (by rfl) y

/-- Window 5's buffer after the body: lanes 128–383 of the projection, one store. -/
def out0_5 (x0 : Vec F S1024x128 .f32) (x1 : Vec F S128x512 .f32) (x2 : Vec F S1x512 .f32) : Vec F S1024x256 .f32 :=
  View.canon [⟨rq0, k0_pay3 (View.ld x0 rx0) (View.ld x1 rw0) (View.ld x2 rb0)⟩]

/-- One whole-block store covers the block. -/
theorem cover0_5 (p0 : Vec F S1024x256 .f32) (y : S1024x256.Idx) :
    ∃ pc ∈ ([⟨rq0, p0⟩] : List (View.Piece (Elt F) S1024x256 .f32)), y ∈ pc.1.set :=
  View.cover_of_tiled [⟨rq0, p0⟩] S1024x256.size (by rfl) y

/-! ## The body's triple -/

set_option maxHeartbeats 4000000 in
/-- The body on whole staging memrefs — the inputs' holding `x0 x1 x2`, the outputs' holding anything — runs to the
    continuation with the inputs' unchanged and each output's holding `out0_W x0 x1 x2`. The body's loads of the
    output buffers before each store are of values it never uses; after the stores each buffer reads as the overlay
    of its stores, since they cover it. -/
theorem sound_kernel0 (c : Dev nD) (E : Set ℕ) (i : grid0.Coords) (arg1 : Memref sig .tc .vmem S1024x128 .f32) (harg1 : arg1.IsWhole) (arg2 : Memref sig .tc .vmem S128x512 .f32) (harg2 : arg2.IsWhole) (arg3 : Memref sig .tc .vmem S1x512 .f32) (harg3 : arg3.IsWhole) (arg4 : Memref sig .tc .vmem S1024x128 .f32) (harg4 : arg4.IsWhole) (arg5 : Memref sig .tc .vmem S1024x256 .f32) (harg5 : arg5.IsWhole) (arg6 : Memref sig .tc .vmem S1024x256 .f32) (harg6 : arg6.IsWhole)
    (x0 : Vec F S1024x128 .f32) (x1 : Vec F S128x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2) ∗ owns (c : Thread nD τ) arg5 fullShare (out0_4 x0 x1 x2) ∗ owns (c : Thread nD τ) arg6 fullShare (out0_5 x0 x1 x2)) -∗ K ⟨⟩))
      ⊢ wp frame (wpE (defs₀ (F := F)) Variants.none c none) E (cc0__node_proj_kernel i arg1 harg1 arg2 harg2 arg3 harg3 arg4 harg4 arg5 harg5 arg6 harg6) K := by
  simp only [cc0__node_proj_kernel_eq_skeleton]; unfold cc0__node_proj_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  isplitl [H4]
  · iexists _; isplitr
    swap; · iexact H4
    ipureintro
    exact View.read_writes_eq_canon _ _ _ (cover0_4 _ _)
  iexists _; isplitr
  swap; · iexact H5
  ipureintro
  exact View.read_writes_eq_canon _ _ _ (cover0_5 _)

end Cert.KernelIdeal.Fr
-- ==== Proof.KI.Half0.lean ====
import proofs.«117664_g2000706958607885_pallasbulk_534_41_alg».proof.Proof.KI.Half0Body
import proofs.«117664_g2000706958607885_pallasbulk_534_41_alg».proof.Proof.Gen.KernelIdeal.Launch
import proofs.«117664_g2000706958607885_pallasbulk_534_41_alg».proof.Proof.Gen.KernelIdeal.Skeleton
import proofs.«117664_g2000706958607885_pallasbulk_534_41_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the pipeline is entered: the parameter this half is stated at
variable (V : (c : Dev nD) → (b : Ref sig .tc) → Buf (Elt F) ((c : Thread nD τ).loc b))

/-! # Pipeline 0, `cc0__node_proj_kernel`, at the entry contents `V` -/

/-! ## The windows' blocks -/

/-- Window `w`'s block at grid point `t`, read off its array as the pipeline finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the 1024-row block of x): its current staging buffer holds its block at every point, whether it was fetched
    there or kept from an earlier point whose block index is the same, for any proof data whose array is `V`'s
    (`hA`) and whose body leaves the block in place (`hafter`). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 (the weight): its current staging buffer holds its block at every point, whether it was fetched
    there or kept from an earlier point whose block index is the same, for any proof data whose array is `V`'s
    (`hA`) and whose body leaves the block in place (`hafter`). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2 (the bias row): its current staging buffer holds its block at every point, whether it was fetched
    there or kept from an earlier point whose block index is the same, for any proof data whose array is `V`'s
    (`hA`) and whose body leaves the block in place (`hafter`). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The pipeline's proof data -/

/-- The proof data of pipeline 0 on core `c`: the arrays as the pipeline finds them (`V`); after the body at point `t`
    each input's buffer holds its block and each output's holds `out0_W` of the input blocks; the invariant is the
    untouched rest of the core's state; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks (`before0_W`), so the body's triple applies; the
    invariant and what is owed pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline's proof data, at every point. -/
theorem body_obligation0 (c : Dev nD) : BodyObligation (dat0 (F := F) V c) (defs₀ (F := F)) Variants.none () Set.univ := fun t => by
  rw [bigSep_W0, bigSep_W0]
  exact sound_body0 V c t

end Regions

end Cert.KernelIdeal.Fr
-- ==== Proof.KI.Half1Body.lean ====
import proofs.«117664_g2000706958607885_pallasbulk_534_41_alg».proof.Proof.Gen.KernelIdeal.Launch
import proofs.«117664_g2000706958607885_pallasbulk_534_41_alg».proof.Proof.Gen.KernelIdeal.Skeleton
import proofs.«117664_g2000706958607885_pallasbulk_534_41_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Pipeline 1, `cc1__node_proj_kernel`: what one call of the body leaves, and its triple

The body reads a 1024-row block `x`, a 128×512 weight `w` and a 1×512 bias `b`, forms the 1024×512
projection `x · w + b` once, and stores three column slices of it: lanes 0–127 into window 3, lanes 384–511 into
window 4 (once), and lanes 128–383 into window 5. -/

/-! ## The body's accesses -/

/-- the whole 1024×128 block (the read of `x`, the store of window 3 and of window 4), -/
abbrev rx1 : Rect S1024x128 := Rect.unit (s := S1024x128) ![0, 0] S1024x128.size inb_S1024x128_S1024x128_0_0
/-- the whole weight, -/
abbrev rw1 : Rect S128x512 := Rect.unit (s := S128x512) ![0, 0] S128x512.size inb_S128x512_S128x512_0_0
/-- the whole bias row, -/
abbrev rb1 : Rect S1x512 := Rect.unit (s := S1x512) ![0, 0] S1x512.size inb_S1x512_S1x512_0_0
/-- the whole 1024×256 block (the store of window 5). -/
abbrev rq1 : Rect S1024x256 := Rect.unit (s := S1024x256) ![0, 0] S1024x256.size inb_S1024x256_S1024x256_0_0

/-! ## What the body leaves in each output window's buffer -/

/-- Window 3's buffer after the body, from the input blocks: the first 128 lanes of the projection, one store. -/
def out1_3 (x0 : Vec F S1024x128 .f32) (x1 : Vec F S128x512 .f32) (x2 : Vec F S1x512 .f32) : Vec F S1024x128 .f32 :=
  View.canon [⟨rx1, k1_pay2 (View.ld x0 rx1) (View.ld x1 rw1) (View.ld x2 rb1)⟩]

/-- One whole-block store covers the block. -/
theorem cover1_3 (p0 : Vec F S1024x128 .f32) (y : S1024x128.Idx) :
    ∃ pc ∈ ([⟨rx1, p0⟩] : List (View.Piece (Elt F) S1024x128 .f32)), y ∈ pc.1.set :=
  View.cover_of_tiled [⟨rx1, p0⟩] S1024x128.size (by rfl) y

/-- Window 4's buffer after the body: the last 128 lanes of the projection, one store. -/
def out1_4 (x0 : Vec F S1024x128 .f32) (x1 : Vec F S128x512 .f32) (x2 : Vec F S1x512 .f32) : Vec F S1024x128 .f32 :=
  View.canon [⟨rx1, k1_pay4 (View.ld x0 rx1) (View.ld x1 rw1) (View.ld x2 rb1)⟩]

/-- One whole-block store covers the block. -/
theorem cover1_4 (p0 : Vec F S1024x128 .f32) (y : S1024x128.Idx) :
    ∃ pc ∈ ([⟨rx1, p0⟩] : List (View.Piece (Elt F) S1024x128 .f32)), y ∈ pc.1.set :=
  View.cover_of_tiled [⟨rx1, p0⟩] S1024x128.size (by rfl) y

/-- Window 5's buffer after the body: lanes 128–383 of the projection, one store. -/
def out1_5 (x0 : Vec F S1024x128 .f32) (x1 : Vec F S128x512 .f32) (x2 : Vec F S1x512 .f32) : Vec F S1024x256 .f32 :=
  View.canon [⟨rq1, k1_pay3 (View.ld x0 rx1) (View.ld x1 rw1) (View.ld x2 rb1)⟩]

/-- One whole-block store covers the block. -/
theorem cover1_5 (p0 : Vec F S1024x256 .f32) (y : S1024x256.Idx) :
    ∃ pc ∈ ([⟨rq1, p0⟩] : List (View.Piece (Elt F) S1024x256 .f32)), y ∈ pc.1.set :=
  View.cover_of_tiled [⟨rq1, p0⟩] S1024x256.size (by rfl) y

/-! ## The body's triple -/

set_option maxHeartbeats 4000000 in
/-- The body on whole staging memrefs — the inputs' holding `x0 x1 x2`, the outputs' holding anything — runs to the
    continuation with the inputs' unchanged and each output's holding `out1_W x0 x1 x2`. The body's loads of the
    output buffers before each store are of values it never uses; after the stores each buffer reads as the overlay
    of its stores, since they cover it. -/
theorem sound_kernel1 (c : Dev nD) (E : Set ℕ) (i : grid1.Coords) (arg1 : Memref sig .tc .vmem S1024x128 .f32) (harg1 : arg1.IsWhole) (arg2 : Memref sig .tc .vmem S128x512 .f32) (harg2 : arg2.IsWhole) (arg3 : Memref sig .tc .vmem S1x512 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x256 .f32) (harg6 : arg6.IsWhole)
    (x0 : Vec F S1024x128 .f32) (x1 : Vec F S128x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2) ∗ owns (c : Thread nD τ) arg5 fullShare (out1_4 x0 x1 x2) ∗ owns (c : Thread nD τ) arg6 fullShare (out1_5 x0 x1 x2)) -∗ K ⟨⟩))
      ⊢ wp frame (wpE (defs₀ (F := F)) Variants.none c none) E (cc1__node_proj_kernel i arg1 harg1 arg2 harg2 arg3 harg3 arg4 harg4 arg5 harg5 arg6 harg6) K := by
  simp only [cc1__node_proj_kernel_eq_skeleton]; unfold cc1__node_proj_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_3 _)
  isplitl [H4]
  · iexists _; isplitr
    swap; · iexact H4
    ipureintro
    exact View.read_writes_eq_canon _ _ _ (cover1_4 _)
  iexists _; isplitr
  swap; · iexact H5
  ipureintro
  exact View.read_writes_eq_canon _ _ _ (cover1_5 _)

end Cert.KernelIdeal.Fr
-- ==== Proof.KI.Half1.lean ====
import proofs.«117664_g2000706958607885_pallasbulk_534_41_alg».proof.Proof.KI.Half1Body
import proofs.«117664_g2000706958607885_pallasbulk_534_41_alg».proof.Proof.Gen.KernelIdeal.Launch
import proofs.«117664_g2000706958607885_pallasbulk_534_41_alg».proof.Proof.Gen.KernelIdeal.Skeleton
import proofs.«117664_g2000706958607885_pallasbulk_534_41_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the pipeline is entered: the parameter this half is stated at
variable (V : (c : Dev nD) → (b : Ref sig .tc) → Buf (Elt F) ((c : Thread nD τ).loc b))

/-! # Pipeline 1, `cc1__node_proj_kernel`, at the entry contents `V` -/

/-! ## The windows' blocks -/

/-- Window `w`'s block at grid point `t`, read off its array as the pipeline finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the 1024-row block of x): its current staging buffer holds its block at every point, whether it was fetched
    there or kept from an earlier point whose block index is the same, for any proof data whose array is `V`'s
    (`hA`) and whose body leaves the block in place (`hafter`). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1 (the weight): its current staging buffer holds its block at every point, whether it was fetched
    there or kept from an earlier point whose block index is the same, for any proof data whose array is `V`'s
    (`hA`) and whose body leaves the block in place (`hafter`). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2 (the bias row): its current staging buffer holds its block at every point, whether it was fetched
    there or kept from an earlier point whose block index is the same, for any proof data whose array is `V`'s
    (`hA`) and whose body leaves the block in place (`hafter`). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The pipeline's proof data -/

/-- The proof data of pipeline 1 on core `c`: the arrays as the pipeline finds them (`V`); after the body at point `t`
    each input's buffer holds its block and each output's holds `out1_W` of the input blocks; the invariant is the
    untouched rest of the core's state; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
    | ⟨4, _⟩ => out1_4 (iblk1 V c 0 t) (iblk1 V c 1 t) (iblk1 V c 2 t)
    | ⟨5, _⟩ => out1_5 (iblk1 V c 0 t) (iblk1 V c 1 t) (iblk1 V c 2 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]
theorem after1_4 (c : Dev nD) (t : Fin cfg1.N) : (dat1 V c).after 4 t = out1_4 (iblk1 V c 0 t) (iblk1 V c 1 t) (iblk1 V c 2 t) := by dsimp only [dat1]
theorem after1_5 (c : Dev nD) (t : Fin cfg1.N) : (dat1 V c).after 5 t = out1_5 (iblk1 V c 0 t) (iblk1 V c 1 t) (iblk1 V c 2 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks (`before1_W`), so the body's triple applies; the
    invariant and what is owed pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline's proof data, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Fr
-- ==== Proof.KI.Half2Body.lean ====
import proofs.«117664_g2000706958607885_pallasbulk_534_41_alg».proof.Proof.Gen.KernelIdeal.Launch
import proofs.«117664_g2000706958607885_pallasbulk_534_41_alg».proof.Proof.Gen.KernelIdeal.Skeleton
import proofs.«117664_g2000706958607885_pallasbulk_534_41_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding membership in a rectangle of 1024-row extent recurses once per coordinate of the long axis
set_option maxRecDepth 16384

noncomputable section

namespace Cert.KernelIdeal.Fr

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body of pipeline 2 (`cc2__edge_kernel`) on whole staging buffers -/

/-! ## The rectangles the body reads and writes through -/

abbrev r2_0 : Rect S1024x128 := Rect.unit (s := S1024x128) ![0, 0] S1024x128.size inb_S1024x128_S1024x128_0_0
abbrev r2_1 : Rect S1024x256 := Rect.unit (s := S1024x256) ![0, 0] S1024x256.size inb_S1024x256_S1024x256_0_0
abbrev r2_2 : Rect S128x128 := Rect.unit (s := S128x128) ![0, 0] S128x128.size inb_S128x128_S128x128_0_0
abbrev r2_3 : Rect S1x128 := Rect.unit (s := S1x128) ![0, 0] S1x128.size inb_S1x128_S1x128_0_0
abbrev r2_4 : Rect S1024x256 := Rect.unit (s := S1024x256) ![0, 0] S1024x128.size inb_S1024x256_S1024x128_0_0
abbrev r2_5 : Rect S1024x256 := Rect.unit (s := S1024x256) ![0, 128] S1024x128.size inb_S1024x256_S1024x128_0_128

/-! ## What the body leaves in each output window's buffer -/

/-- Window 7's buffer after the body as a function of the input blocks: the one store over the whole block. -/
def out2_7 (x0 : Vec F S1024x128 .f32) (x1 : Vec F S1024x128 .f32) (x2 : Vec F S1024x256 .f32) (x3 : Vec F S128x128 .f32) (x4 : Vec F S1x128 .f32) (x5 : Vec F S1x128 .f32) (x6 : Vec F S1x128 .f32) : Vec F S1024x128 .f32 :=
  View.canon [⟨r2_0, k2_pay1 (View.ld x0 r2_0) (k2_pay6 (View.ld x0 r2_0) (View.ld x2 r2_1) (View.ld x3 r2_2) (View.ld x1 r2_0) (View.ld x4 r2_3) (View.ld x5 r2_3) (View.ld x6 r2_3)) (k2_pay7 (View.ld x0 r2_0) (View.ld x2 r2_1) (View.ld x3 r2_2) (View.ld x1 r2_0) (View.ld x4 r2_3) (View.ld x5 r2_3) (View.ld x6 r2_3))⟩]

/-- One store of the whole block tiles it, so it covers it. -/
theorem cover2_7 (p0 : r2_0.shape.Idx → Elt F .f32) (y : S1024x128.Idx) :
    ∃ pc ∈ ([⟨r2_0, p0⟩] : List (View.Piece (Elt F) S1024x128 .f32)), y ∈ pc.1.set :=
  View.cover_of_tiled [⟨r2_0, p0⟩] S1024x128.size (by rfl) y

/-- Window 8's buffer after the body as a function of the input blocks: its two 128-lane halves, the later store first. -/
def out2_8 (x0 : Vec F S1024x128 .f32) (x1 : Vec F S1024x128 .f32) (x2 : Vec F S1024x256 .f32) (x3 : Vec F S128x128 .f32) (x4 : Vec F S1x128 .f32) (x5 : Vec F S1x128 .f32) (x6 : Vec F S1x128 .f32) : Vec F S1024x256 .f32 :=
  View.canon [⟨r2_5, k2_pay2 (k2_pay5 (View.ld x0 r2_0) (View.ld x2 r2_1) (View.ld x3 r2_2) (View.ld x1 r2_0) (View.ld x4 r2_3))⟩, ⟨r2_4, k2_pay3 (k2_pay4 (View.ld x2 r2_1)) (k2_pay5 (View.ld x0 r2_0) (View.ld x2 r2_1) (View.ld x3 r2_2) (View.ld x1 r2_0) (View.ld x4 r2_3))⟩]

/-- The two 128-lane halves tile the 256-lane block, so they cover it. -/
theorem cover2_8 (p1 : r2_5.shape.Idx → Elt F .f32) (p0 : r2_4.shape.Idx → Elt F .f32) (y : S1024x256.Idx) :
    ∃ pc ∈ ([⟨r2_5, p1⟩, ⟨r2_4, p0⟩] : List (View.Piece (Elt F) S1024x256 .f32)), y ∈ pc.1.set :=
  View.cover_of_tiled [⟨r2_5, p1⟩, ⟨r2_4, p0⟩] S1024x128.size (by rfl) y

/-! ## The body's triple -/

set_option maxHeartbeats 1000000 in
/-- Run on whole staging buffers, the inputs' holding `xW` and the outputs' anything, the body ends with the inputs'
    unchanged and each output's holding `out2_W` of the inputs: the body is a sequence of loads, pure payloads and
    stores, executed symbolically; what the stores leave is the canonical contents of a covering list of writes. -/
theorem sound_kernel2 (c : Dev nD) (E : Set ℕ) (i : grid2.Coords) (arg1 : Memref sig .tc .vmem S1024x128 .f32) (harg1 : arg1.IsWhole) (arg2 : Memref sig .tc .vmem S1024x128 .f32) (harg2 : arg2.IsWhole) (arg3 : Memref sig .tc .vmem S1024x256 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x256 .f32) (harg9 : arg9.IsWhole)
    (x0 : Vec F S1024x128 .f32) (x1 : Vec F S1024x128 .f32) (x2 : Vec F S1024x256 .f32) (x3 : Vec F S128x128 .f32) (x4 : Vec F S1x128 .f32) (x5 : Vec F S1x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out2_7 x0 x1 x2 x3 x4 x5 x6) ∗ owns (c : Thread nD τ) arg9 fullShare (out2_8 x0 x1 x2 x3 x4 x5 x6)) -∗ K ⟨⟩))
      ⊢ wp frame (wpE (defs₀ (F := F)) Variants.none c none) E (cc2__edge_kernel i arg1 harg1 arg2 harg2 arg3 harg3 arg4 harg4 arg5 harg5 arg6 harg6 arg7 harg7 arg8 harg8 arg9 harg9) K := by
  simp only [cc2__edge_kernel_eq_skeleton]; unfold cc2__edge_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (cover2_7 _)
  iexists _; isplitr
  swap; · iexact H8
  ipureintro
  try dsimp only
  exact View.read_writes_eq_canon _ _ _ (cover2_8 _ _)

end Cert.KernelIdeal.Fr
-- ==== Proof.KI.Half2.lean ====
import proofs.«117664_g2000706958607885_pallasbulk_534_41_alg».proof.Proof.Gen.KernelIdeal.Launch
import proofs.«117664_g2000706958607885_pallasbulk_534_41_alg».proof.Proof.Gen.KernelIdeal.Skeleton
import proofs.«117664_g2000706958607885_pallasbulk_534_41_alg».proof.Proof.Gen.KernelIdeal.Points
import proofs.«117664_g2000706958607885_pallasbulk_534_41_alg».proof.Proof.KI.Half2Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding membership in a rectangle of 1024-row extent recurses once per coordinate of the long axis
set_option maxRecDepth 16384

noncomputable section

namespace Cert.KernelIdeal.Fr

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Pipeline 2 (`cc2__edge_kernel`) entered at the buffer contents `V` -/

/-! ## The windows' blocks -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether fetched there or carried over
    (the block index then has not moved), for any proof data over `V`'s array whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- An input window's current staging buffer holds its block at every point, whether fetched there or carried over
    (the block index then has not moved), for any proof data over `V`'s array whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- An input window's current staging buffer holds its block at every point, whether fetched there or carried over
    (the block index then has not moved), for any proof data over `V`'s array whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- An input window's current staging buffer holds its block at every point, whether fetched there or carried over
    (the block index then has not moved), for any proof data over `V`'s array whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- An input window's current staging buffer holds its block at every point, whether fetched there or carried over
    (the block index then has not moved), for any proof data over `V`'s array whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- An input window's current staging buffer holds its block at every point, whether fetched there or carried over
    (the block index then has not moved), for any proof data over `V`'s array whose body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- An input window's current staging buffer holds its block at every point, whether fetched there or carried over
    (the block index then has not moved), for any proof data over `V`'s array whose body leaves the block in place. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The pipeline's proof data -/

/-- The proof data of pipeline 2 on core `c`: the arrays as the region finds them; after the body at point `t`
    each input's buffer at its block and each output's at `out2_W` of the input blocks; the invariant is the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
    | ⟨8, _⟩ => out2_8 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]
theorem after2_8 (c : Dev nD) (t : Fin cfg2.N) : (dat2 V c).after 8 t = out2_8 (iblk2 V c 0 t) (iblk2 V c 1 t) (iblk2 V c 2 t) (iblk2 V c 3 t) (iblk2 V c 4 t) (iblk2 V c 5 t) (iblk2 V c 6 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

/-- The body at any point: the inputs' buffers hold their blocks, so the body's triple applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ (grid2.coords t) _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation of the pipeline, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr
-- ==== Proof.KI.Half3Body.lean ====
import proofs.«117664_g2000706958607885_pallasbulk_534_41_alg».proof.Proof.Gen.KernelIdeal.Launch
import proofs.«117664_g2000706958607885_pallasbulk_534_41_alg».proof.Proof.Gen.KernelIdeal.Skeleton
import proofs.«117664_g2000706958607885_pallasbulk_534_41_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The node-update body of pallas_call 3, run once on whole staging buffers

The body reads five buffers in full (two of 1024 × 128, one of 1024 × 256, two rows of 128) and overwrites a
sixth, of 1024 × 128, with one full-buffer store.  This module
names the rectangles it touches, the value the store leaves, and proves the separation-logic triple of the body. -/

-- membership of an index in a rectangle with 1024 rows is decided structurally, one step per row
set_option maxRecDepth 16384

noncomputable section

namespace Cert.KernelIdeal.Fr

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes: each is a whole buffer -/

/-- all of a 1024 × 256 buffer -/
abbrev r3_0 : Rect S1024x256 := Rect.unit (s := S1024x256) ![0, 0] S1024x256.size inb_S1024x256_S1024x256_0_0
/-- all of a 1024 × 128 buffer -/
abbrev r3_1 : Rect S1024x128 := Rect.unit (s := S1024x128) ![0, 0] S1024x128.size inb_S1024x128_S1024x128_0_0
/-- all of a 1 × 128 buffer -/
abbrev r3_2 : Rect S1x128 := Rect.unit (s := S1x128) ![0, 0] S1x128.size inb_S1x128_S1x128_0_0

/-! ## The value left in the output buffer -/

/-- The output buffer after the body, as a function of the five input buffers' contents: the single store's
    payload, as the skeleton names it — with `a`, `b` the two lane halves of `x2`, `u = x1 + a / (b + ε)`, `n` the
    row-wise normalisation of `u` scaled by `x3` and shifted by `x4`, the value `x0 + n · logistic n` — laid over
    the whole buffer. -/
def out3_5 (x0 : Vec F S1024x128 .f32) (x1 : Vec F S1024x128 .f32) (x2 : Vec F S1024x256 .f32) (x3 : Vec F S1x128 .f32) (x4 : Vec F S1x128 .f32) : Vec F S1024x128 .f32 :=
  View.canon [⟨r3_1, k3_pay1 (View.ld x2 r3_0) (View.ld x1 r3_1) (View.ld x0 r3_1) (View.ld x3 r3_2) (View.ld x4 r3_2)⟩]

/-- The one stored rectangle is the whole buffer, so every index of the buffer lies in a stored piece. -/
theorem cover3_5 (p0 : Vec F S1024x128 .f32) (y : S1024x128.Idx) :
    ∃ pc ∈ ([⟨r3_1, p0⟩] : List (View.Piece (Elt F) S1024x128 .f32)), y ∈ pc.1.set :=
  View.cover_of_tiled [⟨r3_1, p0⟩] S1024x128.size (by rfl) y

/-! ## The body's triple -/

set_option maxHeartbeats 1000000 in
/-- Given full ownership of the five input buffers at contents `x0 … x4` and of the output buffer at any
    contents, the body runs to its continuation with the inputs unchanged and the output at `out3_5 x0 … x4`:
    the body is its skeleton of loads and one store, which symbolic execution walks; the final contents are the
    canonical form of the store list because the store covers the buffer. -/
theorem sound_kernel3 (c : Dev nD) (E : Set ℕ) (i : grid3.Coords) (arg1 : Memref sig .tc .vmem S1024x128 .f32) (harg1 : arg1.IsWhole) (arg2 : Memref sig .tc .vmem S1024x128 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1024x128 .f32) (harg6 : arg6.IsWhole)
    (x0 : Vec F S1024x128 .f32) (x1 : Vec F S1024x128 .f32) (x2 : Vec F S1024x256 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3__node_upd_kernel i arg1 harg1 arg2 harg2 arg3 harg3 arg4 harg4 arg5 harg5 arg6 harg6) K := by
  simp only [cc3__node_upd_kernel_eq_skeleton]; unfold cc3__node_upd_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover3_5 _)

end Cert.KernelIdeal.Fr
-- ==== Proof.KI.Half3.lean ====
import proofs.«117664_g2000706958607885_pallasbulk_534_41_alg».proof.Proof.KI.Half3Body

/-! # Pallas_call 3 (node update): the pipeline's proof data and its body obligation, at entry contents `V`

Five input windows (0–4) and one output window (5).  At every grid point the inputs' staging buffers hold the
blocks of their arrays as the region found them, and the body leaves in the output's staging buffer the value
`out3_5` of those blocks. -/

set_option maxRecDepth 16384

noncomputable section

namespace Cert.KernelIdeal.Fr

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
-- the TensorCore's buffer contents when the region is entered
variable (V : (c : Dev nD) → (b : Ref sig .tc) → Buf (Elt F) ((c : Thread nD τ).loc b))

/-! ## The windows' blocks -/

/-- Window `w`'s block at grid point `t`, read through the window's view of its array as `V` has it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0: whatever proof data has `V`'s array for it and a body that leaves its block in place, the
    current staging buffer holds the block of the point, whether the pipeline fetched there or kept the previous
    fetch (an unfetched point has the same block index as its predecessor). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1: whatever proof data has `V`'s array for it and a body that leaves its block in place, the
    current staging buffer holds the block of the point, whether the pipeline fetched there or kept the previous
    fetch (an unfetched point has the same block index as its predecessor). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2: whatever proof data has `V`'s array for it and a body that leaves its block in place, the
    current staging buffer holds the block of the point, whether the pipeline fetched there or kept the previous
    fetch (an unfetched point has the same block index as its predecessor). -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3: whatever proof data has `V`'s array for it and a body that leaves its block in place, the
    current staging buffer holds the block of the point, whether the pipeline fetched there or kept the previous
    fetch (an unfetched point has the same block index as its predecessor). -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4: whatever proof data has `V`'s array for it and a body that leaves its block in place, the
    current staging buffer holds the block of the point, whether the pipeline fetched there or kept the previous
    fetch (an unfetched point has the same block index as its predecessor). -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The pipeline's proof data -/

/-- Proof data of the pipeline on core `c`: arrays as `V` has them; after the body at point `t` every input
    buffer still at its block and the output buffer at `out3_5` of the input blocks; the class invariant
    (scoped rest and generator register untouched); nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the entry contents. -/
theorem A_eq3 (c : Dev nD) (w : Fin cfg3.W) : (dat3 V c).A w = V c (Pipeline.arrRef spec3 w) := by
  dsimp only [dat3]

/-- What the body leaves, window by window (the definition's case split reduced at each numeral). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation at a generic point -/

/-- What the body is handed at point `t`: the invariant, the owed transfers, and the six current staging buffers. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- What it hands back. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' buffers hold their blocks, so the body's triple applies with those blocks;
    the invariant and the owed transfers are framed around it. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation: the triple above at every point, the windows' separating product spelt out. -/
theorem body_obligation3 (c : Dev nD) : BodyObligation (dat3 (F := F) V c) (defs₀ (F := F)) Variants.none () Set.univ := fun t => by
  rw [bigSep_W3, bigSep_W3]
  exact sound_body3 V c t

end Region3

end Cert.KernelIdeal.Fr
-- ==== Proof.KI.Half4Body.lean ====
import proofs.«117664_g2000706958607885_pallasbulk_534_41_alg».proof.Proof.Gen.KernelIdeal.Launch
import proofs.«117664_g2000706958607885_pallasbulk_534_41_alg».proof.Proof.Gen.KernelIdeal.Skeleton
import proofs.«117664_g2000706958607885_pallasbulk_534_41_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding membership in a rectangle of 1024-row extent recurses once per coordinate of the long axis
set_option maxRecDepth 16384

noncomputable section

namespace Cert.KernelIdeal.Fr

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body of pipeline 4 (`cc4__edge_kernel`) on whole staging buffers -/

/-! ## The rectangles the body reads and writes through -/

abbrev r4_0 : Rect S1024x128 := Rect.unit (s := S1024x128) ![0, 0] S1024x128.size inb_S1024x128_S1024x128_0_0
abbrev r4_1 : Rect S1024x256 := Rect.unit (s := S1024x256) ![0, 0] S1024x256.size inb_S1024x256_S1024x256_0_0
abbrev r4_2 : Rect S128x128 := Rect.unit (s := S128x128) ![0, 0] S128x128.size inb_S128x128_S128x128_0_0
abbrev r4_3 : Rect S1x128 := Rect.unit (s := S1x128) ![0, 0] S1x128.size inb_S1x128_S1x128_0_0
abbrev r4_4 : Rect S1024x256 := Rect.unit (s := S1024x256) ![0, 0] S1024x128.size inb_S1024x256_S1024x128_0_0
abbrev r4_5 : Rect S1024x256 := Rect.unit (s := S1024x256) ![0, 128] S1024x128.size inb_S1024x256_S1024x128_0_128

/-! ## What the body leaves in each output window's buffer -/

/-- Window 7's buffer after the body as a function of the input blocks: the one store over the whole block. -/
def out4_7 (x0 : Vec F S1024x128 .f32) (x1 : Vec F S1024x128 .f32) (x2 : Vec F S1024x256 .f32) (x3 : Vec F S128x128 .f32) (x4 : Vec F S1x128 .f32) (x5 : Vec F S1x128 .f32) (x6 : Vec F S1x128 .f32) : Vec F S1024x128 .f32 :=
  View.canon [⟨r4_0, k4_pay1 (k4_pay4 (View.ld x0 r4_0)) (k4_pay7 (View.ld x0 r4_0) (View.ld x2 r4_1) (View.ld x3 r4_2) (View.ld x1 r4_0) (View.ld x4 r4_3) (View.ld x5 r4_3) (View.ld x6 r4_3))⟩]

/-- One store of the whole block tiles it, so it covers it. -/
theorem cover4_7 (p0 : r4_0.shape.Idx → Elt F .f32) (y : S1024x128.Idx) :
    ∃ pc ∈ ([⟨r4_0, p0⟩] : List (View.Piece (Elt F) S1024x128 .f32)), y ∈ pc.1.set :=
  View.cover_of_tiled [⟨r4_0, p0⟩] S1024x128.size (by rfl) y

/-- Window 8's buffer after the body as a function of the input blocks: its two 128-lane halves, the later store first. -/
def out4_8 (x0 : Vec F S1024x128 .f32) (x1 : Vec F S1024x128 .f32) (x2 : Vec F S1024x256 .f32) (x3 : Vec F S128x128 .f32) (x4 : Vec F S1x128 .f32) (x5 : Vec F S1x128 .f32) (x6 : Vec F S1x128 .f32) : Vec F S1024x256 .f32 :=
  View.canon [⟨r4_5, k4_pay2 (k4_pay6 (View.ld x0 r4_0) (View.ld x2 r4_1) (View.ld x3 r4_2) (View.ld x1 r4_0) (View.ld x4 r4_3))⟩, ⟨r4_4, k4_pay3 (k4_pay5 (View.ld x2 r4_1)) (k4_pay6 (View.ld x0 r4_0) (View.ld x2 r4_1) (View.ld x3 r4_2) (View.ld x1 r4_0) (View.ld x4 r4_3))⟩]

/-- The two 128-lane halves tile the 256-lane block, so they cover it. -/
theorem cover4_8 (p1 : r4_5.shape.Idx → Elt F .f32) (p0 : r4_4.shape.Idx → Elt F .f32) (y : S1024x256.Idx) :
    ∃ pc ∈ ([⟨r4_5, p1⟩, ⟨r4_4, p0⟩] : List (View.Piece (Elt F) S1024x256 .f32)), y ∈ pc.1.set :=
  View.cover_of_tiled [⟨r4_5, p1⟩, ⟨r4_4, p0⟩] S1024x128.size (by rfl) y

/-! ## The body's triple -/

set_option maxHeartbeats 1000000 in
/-- Run on whole staging buffers, the inputs' holding `xW` and the outputs' anything, the body ends with the inputs'
    unchanged and each output's holding `out4_W` of the inputs: the body is a sequence of loads, pure payloads and
    stores, executed symbolically; what the stores leave is the canonical contents of a covering list of writes. -/
theorem sound_kernel4 (c : Dev nD) (E : Set ℕ) (i : grid4.Coords) (arg1 : Memref sig .tc .vmem S1024x128 .f32) (harg1 : arg1.IsWhole) (arg2 : Memref sig .tc .vmem S1024x128 .f32) (harg2 : arg2.IsWhole) (arg3 : Memref sig .tc .vmem S1024x256 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x256 .f32) (harg9 : arg9.IsWhole)
    (x0 : Vec F S1024x128 .f32) (x1 : Vec F S1024x128 .f32) (x2 : Vec F S1024x256 .f32) (x3 : Vec F S128x128 .f32) (x4 : Vec F S1x128 .f32) (x5 : Vec F S1x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out4_7 x0 x1 x2 x3 x4 x5 x6) ∗ owns (c : Thread nD τ) arg9 fullShare (out4_8 x0 x1 x2 x3 x4 x5 x6)) -∗ K ⟨⟩))
      ⊢ wp frame (wpE (defs₀ (F := F)) Variants.none c none) E (cc4__edge_kernel i arg1 harg1 arg2 harg2 arg3 harg3 arg4 harg4 arg5 harg5 arg6 harg6 arg7 harg7 arg8 harg8 arg9 harg9) K := by
  simp only [cc4__edge_kernel_eq_skeleton]; unfold cc4__edge_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (cover4_7 _)
  iexists _; isplitr
  swap; · iexact H8
  ipureintro
  try dsimp only
  exact View.read_writes_eq_canon _ _ _ (cover4_8 _ _)

end Cert.KernelIdeal.Fr
-- ==== Proof.KI.Half4.lean ====
import proofs.«117664_g2000706958607885_pallasbulk_534_41_alg».proof.Proof.Gen.KernelIdeal.Launch
import proofs.«117664_g2000706958607885_pallasbulk_534_41_alg».proof.Proof.Gen.KernelIdeal.Skeleton
import proofs.«117664_g2000706958607885_pallasbulk_534_41_alg».proof.Proof.Gen.KernelIdeal.Points
import proofs.«117664_g2000706958607885_pallasbulk_534_41_alg».proof.Proof.KI.Half4Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding membership in a rectangle of 1024-row extent recurses once per coordinate of the long axis
set_option maxRecDepth 16384

noncomputable section

namespace Cert.KernelIdeal.Fr

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Pipeline 4 (`cc4__edge_kernel`) entered at the buffer contents `V` -/

/-! ## The windows' blocks -/

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, whether fetched there or carried over
    (the block index then has not moved), for any proof data over `V`'s array whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- An input window's current staging buffer holds its block at every point, whether fetched there or carried over
    (the block index then has not moved), for any proof data over `V`'s array whose body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- An input window's current staging buffer holds its block at every point, whether fetched there or carried over
    (the block index then has not moved), for any proof data over `V`'s array whose body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
/-- An input window's current staging buffer holds its block at every point, whether fetched there or carried over
    (the block index then has not moved), for any proof data over `V`'s array whose body leaves the block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
/-- An input window's current staging buffer holds its block at every point, whether fetched there or carried over
    (the block index then has not moved), for any proof data over `V`'s array whose body leaves the block in place. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
/-- An input window's current staging buffer holds its block at every point, whether fetched there or carried over
    (the block index then has not moved), for any proof data over `V`'s array whose body leaves the block in place. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)
/-- An input window's current staging buffer holds its block at every point, whether fetched there or carried over
    (the block index then has not moved), for any proof data over `V`'s array whose body leaves the block in place. -/
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

/-! ## The pipeline's proof data -/

/-- The proof data of pipeline 4 on core `c`: the arrays as the region finds them; after the body at point `t`
    each input's buffer at its block and each output's at `out4_W` of the input blocks; the invariant is the scoped
    rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => out4_7 (iblk4 V c 0 t) (iblk4 V c 1 t) (iblk4 V c 2 t) (iblk4 V c 3 t) (iblk4 V c 4 t) (iblk4 V c 5 t) (iblk4 V c 6 t)
    | ⟨8, _⟩ => out4_8 (iblk4 V c 0 t) (iblk4 V c 1 t) (iblk4 V c 2 t) (iblk4 V c 3 t) (iblk4 V c 4 t) (iblk4 V c 5 t) (iblk4 V c 6 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = out4_7 (iblk4 V c 0 t) (iblk4 V c 1 t) (iblk4 V c 2 t) (iblk4 V c 3 t) (iblk4 V c 4 t) (iblk4 V c 5 t) (iblk4 V c 6 t) := by dsimp only [dat4]
theorem after4_8 (c : Dev nD) (t : Fin cfg4.N) : (dat4 V c).after 8 t = out4_8 (iblk4 V c 0 t) (iblk4 V c 1 t) (iblk4 V c 2 t) (iblk4 V c 3 t) (iblk4 V c 4 t) (iblk4 V c 5 t) (iblk4 V c 6 t) := by dsimp only [dat4]

/-- Each input's current staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t))

/-- The body at any point: the inputs' buffers hold their blocks, so the body's triple applies; the invariant and
    what the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel4 c Set.univ (grid4.coords t) _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation of the pipeline, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Fr
-- ==== Proof.KI.Half5Body.lean ====
import proofs.«117664_g2000706958607885_pallasbulk_534_41_alg».proof.Proof.Gen.KernelIdeal.Launch
import proofs.«117664_g2000706958607885_pallasbulk_534_41_alg».proof.Proof.Gen.KernelIdeal.Skeleton
import proofs.«117664_g2000706958607885_pallasbulk_534_41_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Pipeline 5, `cc5__node_proj_kernel`: what one call of the body leaves, and its triple

The body reads a 1024-row block `x`, a 128×512 weight `w` and a 1×512 bias `b`, forms the 1024×512
projection `x · w + b` once, and stores three column slices of it: lanes 0–127 into window 3, lanes 384–511 into
window 4 (twice, side by side), and lanes 128–383 into window 5. -/

/-! ## The body's accesses -/

/-- the whole 1024×128 block (the read of `x`, the store of window 3), -/
abbrev rx5 : Rect S1024x128 := Rect.unit (s := S1024x128) ![0, 0] S1024x128.size inb_S1024x128_S1024x128_0_0
/-- the whole weight, -/
abbrev rw5 : Rect S128x512 := Rect.unit (s := S128x512) ![0, 0] S128x512.size inb_S128x512_S128x512_0_0
/-- the whole bias row, -/
abbrev rb5 : Rect S1x512 := Rect.unit (s := S1x512) ![0, 0] S1x512.size inb_S1x512_S1x512_0_0
/-- the whole 1024×256 block (the store of window 5), -/
abbrev rq5 : Rect S1024x256 := Rect.unit (s := S1024x256) ![0, 0] S1024x256.size inb_S1024x256_S1024x256_0_0
/-- lanes 0–127 of a 1024×256 block, -/
abbrev rlo5 : Rect S1024x256 := Rect.unit (s := S1024x256) ![0, 0] S1024x128.size inb_S1024x256_S1024x128_0_0
/-- and its lanes 128–255. -/
abbrev rhi5 : Rect S1024x256 := Rect.unit (s := S1024x256) ![0, 128] S1024x128.size inb_S1024x256_S1024x128_0_128

/-! ## What the body leaves in each output window's buffer -/

/-- Window 3's buffer after the body, from the input blocks: the first 128 lanes of the projection, one store. -/
def out5_3 (x0 : Vec F S1024x128 .f32) (x1 : Vec F S128x512 .f32) (x2 : Vec F S1x512 .f32) : Vec F S1024x128 .f32 :=
  View.canon [⟨rx5, k5_pay2 (View.ld x0 rx5) (View.ld x1 rw5) (View.ld x2 rb5)⟩]

/-- One whole-block store covers the block. -/
theorem cover5_3 (p0 : Vec F S1024x128 .f32) (y : S1024x128.Idx) :
    ∃ pc ∈ ([⟨rx5, p0⟩] : List (View.Piece (Elt F) S1024x128 .f32)), y ∈ pc.1.set :=
  View.cover_of_tiled [⟨rx5, p0⟩] S1024x128.size (by rfl) y

/-- Window 4's buffer after the body: its two 128-lane halves, each holding the last 128 lanes of the projection, written by two stores, the later store listed first. -/
def out5_4 (x0 : Vec F S1024x128 .f32) (x1 : Vec F S128x512 .f32) (x2 : Vec F S1x512 .f32) : Vec F S1024x256 .f32 :=
  View.canon [⟨rhi5, k5_pay4 (View.ld x0 rx5) (View.ld x1 rw5) (View.ld x2 rb5)⟩, ⟨rlo5, k5_pay4 (View.ld x0 rx5) (View.ld x1 rw5) (View.ld x2 rb5)⟩]

/-- The two 128-lane halves tile the 256-lane block (two blocks of 1024×128, one at each lane offset), so they cover it. -/
theorem cover5_4 (p0 p1 : Vec F S1024x128 .f32) (y : S1024x256.Idx) :
    ∃ pc ∈ ([⟨rhi5, p0⟩, ⟨rlo5, p1⟩] : List (View.Piece (Elt F) S1024x256 .f32)), y ∈ pc.1.set :=
  View.cover_of_tiled [⟨rhi5, p0⟩, ⟨rlo5, p1⟩] S1024x128.size (by rfl) y

/-- Window 5's buffer after the body: lanes 128–383 of the projection, one store. -/
def out5_5 (x0 : Vec F S1024x128 .f32) (x1 : Vec F S128x512 .f32) (x2 : Vec F S1x512 .f32) : Vec F S1024x256 .f32 :=
  View.canon [⟨rq5, k5_pay3 (View.ld x0 rx5) (View.ld x1 rw5) (View.ld x2 rb5)⟩]

/-- One whole-block store covers the block. -/
theorem cover5_5 (p0 : Vec F S1024x256 .f32) (y : S1024x256.Idx) :
    ∃ pc ∈ ([⟨rq5, p0⟩] : List (View.Piece (Elt F) S1024x256 .f32)), y ∈ pc.1.set :=
  View.cover_of_tiled [⟨rq5, p0⟩] S1024x256.size (by rfl) y

/-! ## The body's triple -/

set_option maxHeartbeats 4000000 in
/-- The body on whole staging memrefs — the inputs' holding `x0 x1 x2`, the outputs' holding anything — runs to the
    continuation with the inputs' unchanged and each output's holding `out5_W x0 x1 x2`. The body's loads of the
    output buffers before each store are of values it never uses; after the stores each buffer reads as the overlay
    of its stores, since they cover it. -/
theorem sound_kernel5 (c : Dev nD) (E : Set ℕ) (i : grid5.Coords) (arg1 : Memref sig .tc .vmem S1024x128 .f32) (harg1 : arg1.IsWhole) (arg2 : Memref sig .tc .vmem S128x512 .f32) (harg2 : arg2.IsWhole) (arg3 : Memref sig .tc .vmem S1x512 .f32) (harg3 : arg3.IsWhole) (arg4 : Memref sig .tc .vmem S1024x128 .f32) (harg4 : arg4.IsWhole) (arg5 : Memref sig .tc .vmem S1024x256 .f32) (harg5 : arg5.IsWhole) (arg6 : Memref sig .tc .vmem S1024x256 .f32) (harg6 : arg6.IsWhole)
    (x0 : Vec F S1024x128 .f32) (x1 : Vec F S128x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out5_3 x0 x1 x2) ∗ owns (c : Thread nD τ) arg5 fullShare (out5_4 x0 x1 x2) ∗ owns (c : Thread nD τ) arg6 fullShare (out5_5 x0 x1 x2)) -∗ K ⟨⟩))
      ⊢ wp frame (wpE (defs₀ (F := F)) Variants.none c none) E (cc5__node_proj_kernel i arg1 harg1 arg2 harg2 arg3 harg3 arg4 harg4 arg5 harg5 arg6 harg6) K := by
  simp only [cc5__node_proj_kernel_eq_skeleton]; unfold cc5__node_proj_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover5_3 _)
  isplitl [H4]
  · iexists _; isplitr
    swap; · iexact H4
    ipureintro
    exact View.read_writes_eq_canon _ _ _ (cover5_4 _ _)
  iexists _; isplitr
  swap; · iexact H5
  ipureintro
  exact View.read_writes_eq_canon _ _ _ (cover5_5 _)

end Cert.KernelIdeal.Fr
-- ==== Proof.KI.Half5.lean ====
import proofs.«117664_g2000706958607885_pallasbulk_534_41_alg».proof.Proof.KI.Half5Body
import proofs.«117664_g2000706958607885_pallasbulk_534_41_alg».proof.Proof.Gen.KernelIdeal.Launch
import proofs.«117664_g2000706958607885_pallasbulk_534_41_alg».proof.Proof.Gen.KernelIdeal.Skeleton
import proofs.«117664_g2000706958607885_pallasbulk_534_41_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the pipeline is entered: the parameter this half is stated at
variable (V : (c : Dev nD) → (b : Ref sig .tc) → Buf (Elt F) ((c : Thread nD τ).loc b))

/-! # Pipeline 5, `cc5__node_proj_kernel`, at the entry contents `V` -/

/-! ## The windows' blocks -/

/-- Window `w`'s block at grid point `t`, read off its array as the pipeline finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0 (the 1024-row block of x): its current staging buffer holds its block at every point, whether it was fetched
    there or kept from an earlier point whose block index is the same, for any proof data whose array is `V`'s
    (`hA`) and whose body leaves the block in place (`hafter`). -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1 (the weight): its current staging buffer holds its block at every point, whether it was fetched
    there or kept from an earlier point whose block index is the same, for any proof data whose array is `V`'s
    (`hA`) and whose body leaves the block in place (`hafter`). -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2 (the bias row): its current staging buffer holds its block at every point, whether it was fetched
    there or kept from an earlier point whose block index is the same, for any proof data whose array is `V`'s
    (`hA`) and whose body leaves the block in place (`hafter`). -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The pipeline's proof data -/

/-- The proof data of pipeline 5 on core `c`: the arrays as the pipeline finds them (`V`); after the body at point `t`
    each input's buffer holds its block and each output's holds `out5_W` of the input blocks; the invariant is the
    untouched rest of the core's state; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
    | ⟨4, _⟩ => out5_4 (iblk5 V c 0 t) (iblk5 V c 1 t) (iblk5 V c 2 t)
    | ⟨5, _⟩ => out5_5 (iblk5 V c 0 t) (iblk5 V c 1 t) (iblk5 V c 2 t)
  Φ _ := Pipeline.ΦA spec5 c
  q _ := fullShare
  owed _ := 0

/-- The proof data's arrays are the entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]
theorem after5_4 (c : Dev nD) (t : Fin cfg5.N) : (dat5 V c).after 4 t = out5_4 (iblk5 V c 0 t) (iblk5 V c 1 t) (iblk5 V c 2 t) := by dsimp only [dat5]
theorem after5_5 (c : Dev nD) (t : Fin cfg5.N) : (dat5 V c).after 5 t = out5_5 (iblk5 V c 0 t) (iblk5 V c 1 t) (iblk5 V c 2 t) := by dsimp only [dat5]

/-- Each input's current staging buffer holds its block at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' memrefs hold their blocks (`before5_W`), so the body's triple applies; the
    invariant and what is owed pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline's proof data, at every point. -/
theorem body_obligation5 (c : Dev nD) : BodyObligation (dat5 (F := F) V c) (defs₀ (F := F)) Variants.none () Set.univ := fun t => by
  rw [bigSep_W5, bigSep_W5]
  exact sound_body5 V c t

end Regions

end Cert.KernelIdeal.Fr
-- ==== Proof.KI.Half6Body.lean ====
import proofs.«117664_g2000706958607885_pallasbulk_534_41_alg».proof.Proof.Gen.KernelIdeal.Launch
import proofs.«117664_g2000706958607885_pallasbulk_534_41_alg».proof.Proof.Gen.KernelIdeal.Skeleton
import proofs.«117664_g2000706958607885_pallasbulk_534_41_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The node-update body of pallas_call 6, run once on whole staging buffers

The body reads five buffers in full (two of 1024 × 128, one of 1024 × 256, two rows of 128) and overwrites a
sixth, of 1024 × 128, with one full-buffer store.  This module
names the rectangles it touches, the value the store leaves, and proves the separation-logic triple of the body. -/

-- membership of an index in a rectangle with 1024 rows is decided structurally, one step per row
set_option maxRecDepth 16384

noncomputable section

namespace Cert.KernelIdeal.Fr

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes: each is a whole buffer -/

/-- all of a 1024 × 256 buffer -/
abbrev r6_0 : Rect S1024x256 := Rect.unit (s := S1024x256) ![0, 0] S1024x256.size inb_S1024x256_S1024x256_0_0
/-- all of a 1024 × 128 buffer -/
abbrev r6_1 : Rect S1024x128 := Rect.unit (s := S1024x128) ![0, 0] S1024x128.size inb_S1024x128_S1024x128_0_0
/-- all of a 1 × 128 buffer -/
abbrev r6_2 : Rect S1x128 := Rect.unit (s := S1x128) ![0, 0] S1x128.size inb_S1x128_S1x128_0_0

/-! ## The value left in the output buffer -/

/-- The output buffer after the body, as a function of the five input buffers' contents: the single store's
    payload, as the skeleton names it — with `a`, `b` the two lane halves of `x2`, `u = x1 + a / (b + ε)`, `n` the
    row-wise normalisation of `u` scaled by `x3` and shifted by `x4`, the value `x0 + n · logistic n` — laid over
    the whole buffer. -/
def out6_5 (x0 : Vec F S1024x128 .f32) (x1 : Vec F S1024x128 .f32) (x2 : Vec F S1024x256 .f32) (x3 : Vec F S1x128 .f32) (x4 : Vec F S1x128 .f32) : Vec F S1024x128 .f32 :=
  View.canon [⟨r6_1, k6_pay1 (View.ld x2 r6_0) (View.ld x1 r6_1) (View.ld x0 r6_1) (View.ld x3 r6_2) (View.ld x4 r6_2)⟩]

/-- The one stored rectangle is the whole buffer, so every index of the buffer lies in a stored piece. -/
theorem cover6_5 (p0 : Vec F S1024x128 .f32) (y : S1024x128.Idx) :
    ∃ pc ∈ ([⟨r6_1, p0⟩] : List (View.Piece (Elt F) S1024x128 .f32)), y ∈ pc.1.set :=
  View.cover_of_tiled [⟨r6_1, p0⟩] S1024x128.size (by rfl) y

/-! ## The body's triple -/

set_option maxHeartbeats 1000000 in
/-- Given full ownership of the five input buffers at contents `x0 … x4` and of the output buffer at any
    contents, the body runs to its continuation with the inputs unchanged and the output at `out6_5 x0 … x4`:
    the body is its skeleton of loads and one store, which symbolic execution walks; the final contents are the
    canonical form of the store list because the store covers the buffer. -/
theorem sound_kernel6 (c : Dev nD) (E : Set ℕ) (i : grid6.Coords) (arg1 : Memref sig .tc .vmem S1024x128 .f32) (harg1 : arg1.IsWhole) (arg2 : Memref sig .tc .vmem S1024x128 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1024x128 .f32) (harg6 : arg6.IsWhole)
    (x0 : Vec F S1024x128 .f32) (x1 : Vec F S1024x128 .f32) (x2 : Vec F S1024x256 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out6_5 x0 x1 x2 x3 x4)) -∗ K ⟨⟩))
      ⊢ wp frame (wpE (defs₀ (F := F)) Variants.none c none) E (cc6__node_upd_kernel i arg1 harg1 arg2 harg2 arg3 harg3 arg4 harg4 arg5 harg5 arg6 harg6) K := by
  simp only [cc6__node_upd_kernel_eq_skeleton]; unfold cc6__node_upd_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover6_5 _)

end Cert.KernelIdeal.Fr
-- ==== Proof.KI.Half6.lean ====
import proofs.«117664_g2000706958607885_pallasbulk_534_41_alg».proof.Proof.KI.Half6Body

/-! # Pallas_call 6 (node update): the pipeline's proof data and its body obligation, at entry contents `V`

Five input windows (0–4) and one output window (5).  At every grid point the inputs' staging buffers hold the
blocks of their arrays as the region found them, and the body leaves in the output's staging buffer the value
`out6_5` of those blocks. -/

set_option maxRecDepth 16384

noncomputable section

namespace Cert.KernelIdeal.Fr

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region6
-- the TensorCore's buffer contents when the region is entered
variable (V : (c : Dev nD) → (b : Ref sig .tc) → Buf (Elt F) ((c : Thread nD τ).loc b))

/-! ## The windows' blocks -/

/-- Window `w`'s block at grid point `t`, read through the window's view of its array as `V` has it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0: whatever proof data has `V`'s array for it and a body that leaves its block in place, the
    current staging buffer holds the block of the point, whether the pipeline fetched there or kept the previous
    fetch (an unfetched point has the same block index as its predecessor). -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- Input window 1: whatever proof data has `V`'s array for it and a body that leaves its block in place, the
    current staging buffer holds the block of the point, whether the pipeline fetched there or kept the previous
    fetch (an unfetched point has the same block index as its predecessor). -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
/-- Input window 2: whatever proof data has `V`'s array for it and a body that leaves its block in place, the
    current staging buffer holds the block of the point, whether the pipeline fetched there or kept the previous
    fetch (an unfetched point has the same block index as its predecessor). -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
/-- Input window 3: whatever proof data has `V`'s array for it and a body that leaves its block in place, the
    current staging buffer holds the block of the point, whether the pipeline fetched there or kept the previous
    fetch (an unfetched point has the same block index as its predecessor). -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
/-- Input window 4: whatever proof data has `V`'s array for it and a body that leaves its block in place, the
    current staging buffer holds the block of the point, whether the pipeline fetched there or kept the previous
    fetch (an unfetched point has the same block index as its predecessor). -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-! ## The pipeline's proof data -/

/-- Proof data of the pipeline on core `c`: arrays as `V` has them; after the body at point `t` every input
    buffer still at its block and the output buffer at `out6_5` of the input blocks; the class invariant
    (scoped rest and generator register untouched); nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

/-- The proof data's arrays are the entry contents. -/
theorem A_eq6 (c : Dev nD) (w : Fin cfg6.W) : (dat6 V c).A w = V c (Pipeline.arrRef spec6 w) := by
  dsimp only [dat6]

/-- What the body leaves, window by window (the definition's case split reduced at each numeral). -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = out6_5 (iblk6 V c 0 t) (iblk6 V c 1 t) (iblk6 V c 2 t) (iblk6 V c 3 t) (iblk6 V c 4 t) := by dsimp only [dat6]

/-- Each input's current staging buffer holds its block at every point. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-! ## The body obligation at a generic point -/

/-- What the body is handed at point `t`: the invariant, the owed transfers, and the six current staging buffers. -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

/-- What it hands back. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

/-- The body at any point: the inputs' buffers hold their blocks, so the body's triple applies with those blocks;
    the invariant and the owed transfers are framed around it. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ (grid6.coords t) _ _ _ _ _ _ _ _ _ _ _ _ (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation: the triple above at every point, the windows' separating product spelt out. -/
theorem body_obligation6 (c : Dev nD) : BodyObligation (dat6 (F := F) V c) (defs₀ (F := F)) Variants.none () Set.univ := fun t => by
  rw [bigSep_W6, bigSep_W6]
  exact sound_body6 V c t

end Region6

end Cert.KernelIdeal.Fr
-- ==== Proof.KI.Half7Body.lean ====
import proofs.«117664_g2000706958607885_pallasbulk_534_41_alg».proof.Proof.Gen.KernelIdeal.Launch
import proofs.«117664_g2000706958607885_pallasbulk_534_41_alg».proof.Proof.Gen.KernelIdeal.Skeleton
import proofs.«117664_g2000706958607885_pallasbulk_534_41_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Pipeline 7, `cc7__node_proj_kernel`: what one call of the body leaves, and its triple

The body reads a 1024-row block `x`, a 128×512 weight `w` and a 1×512 bias `b`, forms the 1024×512
projection `x · w + b` once, and stores three column slices of it: lanes 0–127 into window 3, lanes 384–511 into
window 4 (once), and lanes 128–383 into window 5. -/

/-! ## The body's accesses -/

/-- the whole 1024×128 block (the read of `x`, the store of window 3 and of window 4), -/
abbrev rx7 : Rect S1024x128 := Rect.unit (s := S1024x128) ![0, 0] S1024x128.size inb_S1024x128_S1024x128_0_0
/-- the whole weight, -/
abbrev rw7 : Rect S128x512 := Rect.unit (s := S128x512) ![0, 0] S128x512.size inb_S128x512_S128x512_0_0
/-- the whole bias row, -/
abbrev rb7 : Rect S1x512 := Rect.unit (s := S1x512) ![0, 0] S1x512.size inb_S1x512_S1x512_0_0
/-- the whole 1024×256 block (the store of window 5). -/
abbrev rq7 : Rect S1024x256 := Rect.unit (s := S1024x256) ![0, 0] S1024x256.size inb_S1024x256_S1024x256_0_0

/-! ## What the body leaves in each output window's buffer -/

/-- Window 3's buffer after the body, from the input blocks: the first 128 lanes of the projection, one store. -/
def out7_3 (x0 : Vec F S1024x128 .f32) (x1 : Vec F S128x512 .f32) (x2 : Vec F S1x512 .f32) : Vec F S1024x128 .f32 :=
  View.canon [⟨rx7, k7_pay2 (View.ld x0 rx7) (View.ld x1 rw7) (View.ld x2 rb7)⟩]

/-- One whole-block store covers the block. -/
theorem cover7_3 (p0 : Vec F S1024x128 .f32) (y : S1024x128.Idx) :
    ∃ pc ∈ ([⟨rx7, p0⟩] : List (View.Piece (Elt F) S1024x128 .f32)), y ∈ pc.1.set :=
  View.cover_of_tiled [⟨rx7, p0⟩] S1024x128.size (by rfl) y

/-- Window 4's buffer after the body: the last 128 lanes of the projection, one store. -/
def out7_4 (x0 : Vec F S1024x128 .f32) (x1 : Vec F S128x512 .f32) (x2 : Vec F S1x512 .f32) : Vec F S1024x128 .f32 :=
  View.canon [⟨rx7, k7_pay4 (View.ld x0 rx7) (View.ld x1 rw7) (View.ld x2 rb7)⟩]

/-- One whole-block store covers the block. -/
theorem cover7_4 (p0 : Vec F S1024x128 .f32) (y : S1024x128.Idx) :
    ∃ pc ∈ ([⟨rx7, p0⟩] : List (View.Piece (Elt F) S1024x128 .f32)), y ∈ pc.1.set :=
  View.cover_of_tiled [⟨rx7, p0⟩] S1024x128.size (by rfl) y

/-- Window 5's buffer after the body: lanes 128–383 of the projection, one store. -/
def out7_5 (x0 : Vec F S1024x128 .f32) (x1 : Vec F S128x512 .f32) (x2 : Vec F S1x512 .f32) : Vec F S1024x256 .f32 :=
  View.canon [⟨rq7, k7_pay3 (View.ld x0 rx7) (View.ld x1 rw7) (View.ld x2 rb7)⟩]

/-- One whole-block store covers the block. -/
theorem cover7_5 (p0 : Vec F S1024x256 .f32) (y : S1024x256.Idx) :
    ∃ pc ∈ ([⟨rq7, p0⟩] : List (View.Piece (Elt F) S1024x256 .f32)), y ∈ pc.1.set :=
  View.cover_of_tiled [⟨rq7, p0⟩] S1024x256.size (by rfl) y

/-! ## The body's triple -/

set_option maxHeartbeats 4000000 in
/-- The body on whole staging memrefs — the inputs' holding `x0 x1 x2`, the outputs' holding anything — runs to the
    continuation with the inputs' unchanged and each output's holding `out7_W x0 x1 x2`. The body's loads of the
    output buffers before each store are of values it never uses; after the stores each buffer reads as the overlay
    of its stores, since they cover it. -/
theorem sound_kernel7 (c : Dev nD) (E : Set ℕ) (i : grid7.Coords) (arg1 : Memref sig .tc .vmem S1024x128 .f32) (harg1 : arg1.IsWhole) (arg2 : Memref sig .tc .vmem S128x512 .f32) (harg2 : arg2.IsWhole) (arg3 : Memref sig .tc .vmem S1x512 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x256 .f32) (harg6 : arg6.IsWhole)
    (x0 : Vec F S1024x128 .f32) (x1 : Vec F S128x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out7_3 x0 x1 x2) ∗ owns (c : Thread nD τ) arg5 fullShare (out7_4 x0 x1 x2) ∗ owns (c : Thread nD τ) arg6 fullShare (out7_5 x0 x1 x2)) -∗ K ⟨⟩))
      ⊢ wp frame (wpE (defs₀ (F := F)) Variants.none c none) E (cc7__node_proj_kernel i arg1 harg1 arg2 harg2 arg3 harg3 arg4 harg4 arg5 harg5 arg6 harg6) K := by
  simp only [cc7__node_proj_kernel_eq_skeleton]; unfold cc7__node_proj_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover7_3 _)
  isplitl [H4]
  · iexists _; isplitr
    swap; · iexact H4
    ipureintro
    exact View.read_writes_eq_canon _ _ _ (cover7_4 _)
  iexists _; isplitr
  swap; · iexact H5
  ipureintro
  exact View.read_writes_eq_canon _ _ _ (cover7_5 _)

end Cert.KernelIdeal.Fr
-- ==== Proof.KI.Half7.lean ====
import proofs.«117664_g2000706958607885_pallasbulk_534_41_alg».proof.Proof.KI.Half7Body
import proofs.«117664_g2000706958607885_pallasbulk_534_41_alg».proof.Proof.Gen.KernelIdeal.Launch
import proofs.«117664_g2000706958607885_pallasbulk_534_41_alg».proof.Proof.Gen.KernelIdeal.Skeleton
import proofs.«117664_g2000706958607885_pallasbulk_534_41_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the pipeline is entered: the parameter this half is stated at
variable (V : (c : Dev nD) → (b : Ref sig .tc) → Buf (Elt F) ((c : Thread nD τ).loc b))

/-! # Pipeline 7, `cc7__node_proj_kernel`, at the entry contents `V` -/

/-! ## The windows' blocks -/

/-- Window `w`'s block at grid point `t`, read off its array as the pipeline finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0 (the 1024-row block of x): its current staging buffer holds its block at every point, whether it was fetched
    there or kept from an earlier point whose block index is the same, for any proof data whose array is `V`'s
    (`hA`) and whose body leaves the block in place (`hafter`). -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
/-- Input window 1 (the weight): its current staging buffer holds its block at every point, whether it was fetched
    there or kept from an earlier point whose block index is the same, for any proof data whose array is `V`'s
    (`hA`) and whose body leaves the block in place (`hafter`). -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
/-- Input window 2 (the bias row): its current staging buffer holds its block at every point, whether it was fetched
    there or kept from an earlier point whose block index is the same, for any proof data whose array is `V`'s
    (`hA`) and whose body leaves the block in place (`hafter`). -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-! ## The pipeline's proof data -/

/-- The proof data of pipeline 7 on core `c`: the arrays as the pipeline finds them (`V`); after the body at point `t`
    each input's buffer holds its block and each output's holds `out7_W` of the input blocks; the invariant is the
    untouched rest of the core's state; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
    | ⟨4, _⟩ => out7_4 (iblk7 V c 0 t) (iblk7 V c 1 t) (iblk7 V c 2 t)
    | ⟨5, _⟩ => out7_5 (iblk7 V c 0 t) (iblk7 V c 1 t) (iblk7 V c 2 t)
  Φ _ := Pipeline.ΦA spec7 c
  q _ := fullShare
  owed _ := 0

/-- The proof data's arrays are the entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = out7_3 (iblk7 V c 0 t) (iblk7 V c 1 t) (iblk7 V c 2 t) := by dsimp only [dat7]
theorem after7_4 (c : Dev nD) (t : Fin cfg7.N) : (dat7 V c).after 4 t = out7_4 (iblk7 V c 0 t) (iblk7 V c 1 t) (iblk7 V c 2 t) := by dsimp only [dat7]
theorem after7_5 (c : Dev nD) (t : Fin cfg7.N) : (dat7 V c).after 5 t = out7_5 (iblk7 V c 0 t) (iblk7 V c 1 t) (iblk7 V c 2 t) := by dsimp only [dat7]

/-- Each input's current staging buffer holds its block at every point. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t))

/-- The body at any point: the inputs' memrefs hold their blocks (`before7_W`), so the body's triple applies; the
    invariant and what is owed pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3, after7_4, after7_5]
  iintro ⟨HΦ, Ho, ⟨%d0, H0⟩, ⟨%d1, H1⟩, ⟨%d2, H2⟩, ⟨%d3, H3⟩, ⟨%d4, H4⟩, ⟨%d5, H5⟩⟩
  iapply (sound_kernel7 c Set.univ (grid7.coords t) _ _ _ _ _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline's proof data, at every point. -/
theorem body_obligation7 (c : Dev nD) : BodyObligation (dat7 (F := F) V c) (defs₀ (F := F)) Variants.none () Set.univ := fun t => by
  rw [bigSep_W7, bigSep_W7]
  exact sound_body7 V c t

end Regions

end Cert.KernelIdeal.Fr
-- ==== Proof.KI.Half8Body.lean ====
import proofs.«117664_g2000706958607885_pallasbulk_534_41_alg».proof.Proof.Gen.KernelIdeal.Launch
import proofs.«117664_g2000706958607885_pallasbulk_534_41_alg».proof.Proof.Gen.KernelIdeal.Skeleton
import proofs.«117664_g2000706958607885_pallasbulk_534_41_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding membership in a rectangle of 1024-row extent recurses once per coordinate of the long axis
set_option maxRecDepth 16384

noncomputable section

namespace Cert.KernelIdeal.Fr

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body of pipeline 8 (`cc8__edge_kernel`) on whole staging buffers -/

/-! ## The rectangles the body reads and writes through -/

abbrev r8_0 : Rect S1024x128 := Rect.unit (s := S1024x128) ![0, 0] S1024x128.size inb_S1024x128_S1024x128_0_0
abbrev r8_1 : Rect S1024x256 := Rect.unit (s := S1024x256) ![0, 0] S1024x256.size inb_S1024x256_S1024x256_0_0
abbrev r8_2 : Rect S128x128 := Rect.unit (s := S128x128) ![0, 0] S128x128.size inb_S128x128_S128x128_0_0
abbrev r8_3 : Rect S1x128 := Rect.unit (s := S1x128) ![0, 0] S1x128.size inb_S1x128_S1x128_0_0
abbrev r8_4 : Rect S1024x256 := Rect.unit (s := S1024x256) ![0, 0] S1024x128.size inb_S1024x256_S1024x128_0_0
abbrev r8_5 : Rect S1024x256 := Rect.unit (s := S1024x256) ![0, 128] S1024x128.size inb_S1024x256_S1024x128_0_128

/-! ## What the body leaves in each output window's buffer -/

/-- Window 7's buffer after the body as a function of the input blocks: the one store over the whole block. -/
def out8_7 (x0 : Vec F S1024x128 .f32) (x1 : Vec F S1024x128 .f32) (x2 : Vec F S1024x256 .f32) (x3 : Vec F S128x128 .f32) (x4 : Vec F S1x128 .f32) (x5 : Vec F S1x128 .f32) (x6 : Vec F S1x128 .f32) : Vec F S1024x128 .f32 :=
  View.canon [⟨r8_0, k8_pay1 (k8_pay4 (View.ld x0 r8_0)) (k8_pay7 (View.ld x0 r8_0) (View.ld x2 r8_1) (View.ld x3 r8_2) (View.ld x1 r8_0) (View.ld x4 r8_3) (View.ld x5 r8_3) (View.ld x6 r8_3))⟩]

/-- One store of the whole block tiles it, so it covers it. -/
theorem cover8_7 (p0 : r8_0.shape.Idx → Elt F .f32) (y : S1024x128.Idx) :
    ∃ pc ∈ ([⟨r8_0, p0⟩] : List (View.Piece (Elt F) S1024x128 .f32)), y ∈ pc.1.set :=
  View.cover_of_tiled [⟨r8_0, p0⟩] S1024x128.size (by rfl) y

/-- Window 8's buffer after the body as a function of the input blocks: its two 128-lane halves, the later store first. -/
def out8_8 (x0 : Vec F S1024x128 .f32) (x1 : Vec F S1024x128 .f32) (x2 : Vec F S1024x256 .f32) (x3 : Vec F S128x128 .f32) (x4 : Vec F S1x128 .f32) (x5 : Vec F S1x128 .f32) (x6 : Vec F S1x128 .f32) : Vec F S1024x256 .f32 :=
  View.canon [⟨r8_5, k8_pay2 (k8_pay6 (View.ld x0 r8_0) (View.ld x2 r8_1) (View.ld x3 r8_2) (View.ld x1 r8_0) (View.ld x4 r8_3))⟩, ⟨r8_4, k8_pay3 (k8_pay5 (View.ld x2 r8_1)) (k8_pay6 (View.ld x0 r8_0) (View.ld x2 r8_1) (View.ld x3 r8_2) (View.ld x1 r8_0) (View.ld x4 r8_3))⟩]

/-- The two 128-lane halves tile the 256-lane block, so they cover it. -/
theorem cover8_8 (p1 : r8_5.shape.Idx → Elt F .f32) (p0 : r8_4.shape.Idx → Elt F .f32) (y : S1024x256.Idx) :
    ∃ pc ∈ ([⟨r8_5, p1⟩, ⟨r8_4, p0⟩] : List (View.Piece (Elt F) S1024x256 .f32)), y ∈ pc.1.set :=
  View.cover_of_tiled [⟨r8_5, p1⟩, ⟨r8_4, p0⟩] S1024x128.size (by rfl) y

/-! ## The body's triple -/

set_option maxHeartbeats 1000000 in
/-- Run on whole staging buffers, the inputs' holding `xW` and the outputs' anything, the body ends with the inputs'
    unchanged and each output's holding `out8_W` of the inputs: the body is a sequence of loads, pure payloads and
    stores, executed symbolically; what the stores leave is the canonical contents of a covering list of writes. -/
theorem sound_kernel8 (c : Dev nD) (E : Set ℕ) (i : grid8.Coords) (arg1 : Memref sig .tc .vmem S1024x128 .f32) (harg1 : arg1.IsWhole) (arg2 : Memref sig .tc .vmem S1024x128 .f32) (harg2 : arg2.IsWhole) (arg3 : Memref sig .tc .vmem S1024x256 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x256 .f32) (harg9 : arg9.IsWhole)
    (x0 : Vec F S1024x128 .f32) (x1 : Vec F S1024x128 .f32) (x2 : Vec F S1024x256 .f32) (x3 : Vec F S128x128 .f32) (x4 : Vec F S1x128 .f32) (x5 : Vec F S1x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out8_7 x0 x1 x2 x3 x4 x5 x6) ∗ owns (c : Thread nD τ) arg9 fullShare (out8_8 x0 x1 x2 x3 x4 x5 x6)) -∗ K ⟨⟩))
      ⊢ wp frame (wpE (defs₀ (F := F)) Variants.none c none) E (cc8__edge_kernel i arg1 harg1 arg2 harg2 arg3 harg3 arg4 harg4 arg5 harg5 arg6 harg6 arg7 harg7 arg8 harg8 arg9 harg9) K := by
  simp only [cc8__edge_kernel_eq_skeleton]; unfold cc8__edge_kernel_skel
  simp only [k8_part1_eq_skeleton]; unfold k8_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (cover8_7 _)
  iexists _; isplitr
  swap; · iexact H8
  ipureintro
  try dsimp only
  exact View.read_writes_eq_canon _ _ _ (cover8_8 _ _)

end Cert.KernelIdeal.Fr
-- ==== Proof.KI.Half8.lean ====
import proofs.«117664_g2000706958607885_pallasbulk_534_41_alg».proof.Proof.Gen.KernelIdeal.Launch
import proofs.«117664_g2000706958607885_pallasbulk_534_41_alg».proof.Proof.Gen.KernelIdeal.Skeleton
import proofs.«117664_g2000706958607885_pallasbulk_534_41_alg».proof.Proof.Gen.KernelIdeal.Points
import proofs.«117664_g2000706958607885_pallasbulk_534_41_alg».proof.Proof.KI.Half8Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding membership in a rectangle of 1024-row extent recurses once per coordinate of the long axis
set_option maxRecDepth 16384

noncomputable section

namespace Cert.KernelIdeal.Fr

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Pipeline 8 (`cc8__edge_kernel`) entered at the buffer contents `V` -/

/-! ## The windows' blocks -/

/-- Window `w`'s block at grid point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input window's current staging buffer holds its block at every point, whether fetched there or carried over
    (the block index then has not moved), for any proof data over `V`'s array whose body leaves the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
/-- An input window's current staging buffer holds its block at every point, whether fetched there or carried over
    (the block index then has not moved), for any proof data over `V`'s array whose body leaves the block in place. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
/-- An input window's current staging buffer holds its block at every point, whether fetched there or carried over
    (the block index then has not moved), for any proof data over `V`'s array whose body leaves the block in place. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)
/-- An input window's current staging buffer holds its block at every point, whether fetched there or carried over
    (the block index then has not moved), for any proof data over `V`'s array whose body leaves the block in place. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)
/-- An input window's current staging buffer holds its block at every point, whether fetched there or carried over
    (the block index then has not moved), for any proof data over `V`'s array whose body leaves the block in place. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)
/-- An input window's current staging buffer holds its block at every point, whether fetched there or carried over
    (the block index then has not moved), for any proof data over `V`'s array whose body leaves the block in place. -/
theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)
/-- An input window's current staging buffer holds its block at every point, whether fetched there or carried over
    (the block index then has not moved), for any proof data over `V`'s array whose body leaves the block in place. -/
theorem before8_6_of {c : Dev nD} (dat : Dat τ (Elt F) Unit ℕ (UR sig nD τ) ℕ cfg8 c) (hA : dat.A 6 = V c (Pipeline.arrRef spec8 6))
    (hafter : ∀ t, dat.after 6 t = iblk8 V c 6 t) (t : Fin cfg8.N) (d) : dat.before 6 t d = iblk8 V c 6 t :=
  (dat.before_in_eq_fetched 6 rfl (fun _ => rfl) (fun _ _ _ => rfl) (fun t => by rw [hafter]; unfold Dat.blockOf iblk8; rw [hA]; try rfl) t d).trans
    (by unfold Dat.fetched Dat.blockOf iblk8; rw [hA]; try rfl)

/-! ## The pipeline's proof data -/

/-- The proof data of pipeline 8 on core `c`: the arrays as the region finds them; after the body at point `t`
    each input's buffer at its block and each output's at `out8_W` of the input blocks; the invariant is the scoped
    rest and the generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => iblk8 V c 6 t
    | ⟨7, _⟩ => out8_7 (iblk8 V c 0 t) (iblk8 V c 1 t) (iblk8 V c 2 t) (iblk8 V c 3 t) (iblk8 V c 4 t) (iblk8 V c 5 t) (iblk8 V c 6 t)
    | ⟨8, _⟩ => out8_8 (iblk8 V c 0 t) (iblk8 V c 1 t) (iblk8 V c 2 t) (iblk8 V c 3 t) (iblk8 V c 4 t) (iblk8 V c 5 t) (iblk8 V c 6 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = iblk8 V c 6 t := by dsimp only [dat8]
theorem after8_7 (c : Dev nD) (t : Fin cfg8.N) : (dat8 V c).after 7 t = out8_7 (iblk8 V c 0 t) (iblk8 V c 1 t) (iblk8 V c 2 t) (iblk8 V c 3 t) (iblk8 V c 4 t) (iblk8 V c 5 t) (iblk8 V c 6 t) := by dsimp only [dat8]
theorem after8_8 (c : Dev nD) (t : Fin cfg8.N) : (dat8 V c).after 8 t = out8_8 (iblk8 V c 0 t) (iblk8 V c 1 t) (iblk8 V c 2 t) (iblk8 V c 3 t) (iblk8 V c 4 t) (iblk8 V c 5 t) (iblk8 V c 6 t) := by dsimp only [dat8]

/-- Each input's current staging buffer holds its block at every point. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d
theorem before8_6 (c : Dev nD) (t : Fin cfg8.N) (d) : (dat8 V c).before 6 t d = iblk8 V c 6 t :=
  before8_6_of V (dat8 V c) (A_eq8 V c 6) (after8_6 V c) t d

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d))
    ∗ (∃ d, owns (c : Thread nD τ) (st8_7 t) fullShare ((dat8 V c).before 7 t d))
    ∗ (∃ d, owns (c : Thread nD τ) (st8_8 t) fullShare ((dat8 V c).before 8 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t)
    ∗ owns (c : Thread nD τ) (st8_7 t) fullShare ((dat8 V c).after 7 t)
    ∗ owns (c : Thread nD τ) (st8_8 t) fullShare ((dat8 V c).after 8 t))

/-- The body at any point: the inputs' buffers hold their blocks, so the body's triple applies; the invariant and
    what the core owes pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5, before8_6]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6, after8_7, after8_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel8 c Set.univ (grid8.coords t) _ _ _ _ _ _ _ _ _ _ _ _ _ _ _ _ _ _ (iblk8 V c 0 t) (iblk8 V c 1 t) (iblk8 V c 2 t) (iblk8 V c 3 t) (iblk8 V c 4 t) (iblk8 V c 5 t) (iblk8 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation of the pipeline, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Fr
-- ==== Proof.KI.Half9Body.lean ====
import proofs.«117664_g2000706958607885_pallasbulk_534_41_alg».proof.Proof.Gen.KernelIdeal.Launch
import proofs.«117664_g2000706958607885_pallasbulk_534_41_alg».proof.Proof.Gen.KernelIdeal.Skeleton
import proofs.«117664_g2000706958607885_pallasbulk_534_41_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The node-update body of pallas_call 9, run once on whole staging buffers

The body reads five buffers in full (two of 1024 × 128, one of 1024 × 256, two rows of 128) and overwrites a
sixth, of 1024 × 128, with one full-buffer store.  This module
names the rectangles it touches, the value the store leaves, and proves the separation-logic triple of the body. -/

-- membership of an index in a rectangle with 1024 rows is decided structurally, one step per row
set_option maxRecDepth 16384

noncomputable section

namespace Cert.KernelIdeal.Fr

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes: each is a whole buffer -/

/-- all of a 1024 × 256 buffer -/
abbrev r9_0 : Rect S1024x256 := Rect.unit (s := S1024x256) ![0, 0] S1024x256.size inb_S1024x256_S1024x256_0_0
/-- all of a 1024 × 128 buffer -/
abbrev r9_1 : Rect S1024x128 := Rect.unit (s := S1024x128) ![0, 0] S1024x128.size inb_S1024x128_S1024x128_0_0
/-- all of a 1 × 128 buffer -/
abbrev r9_2 : Rect S1x128 := Rect.unit (s := S1x128) ![0, 0] S1x128.size inb_S1x128_S1x128_0_0

/-! ## The value left in the output buffer -/

/-- The output buffer after the body, as a function of the five input buffers' contents: the single store's
    payload, as the skeleton names it — with `a`, `b` the two lane halves of `x2`, `u = x1 + a / (b + ε)`, `n` the
    row-wise normalisation of `u` scaled by `x3` and shifted by `x4`, the value `x0 + n · logistic n` — laid over
    the whole buffer. -/
def out9_5 (x0 : Vec F S1024x128 .f32) (x1 : Vec F S1024x128 .f32) (x2 : Vec F S1024x256 .f32) (x3 : Vec F S1x128 .f32) (x4 : Vec F S1x128 .f32) : Vec F S1024x128 .f32 :=
  View.canon [⟨r9_1, k9_pay1 (View.ld x2 r9_0) (View.ld x1 r9_1) (View.ld x0 r9_1) (View.ld x3 r9_2) (View.ld x4 r9_2)⟩]

/-- The one stored rectangle is the whole buffer, so every index of the buffer lies in a stored piece. -/
theorem cover9_5 (p0 : Vec F S1024x128 .f32) (y : S1024x128.Idx) :
    ∃ pc ∈ ([⟨r9_1, p0⟩] : List (View.Piece (Elt F) S1024x128 .f32)), y ∈ pc.1.set :=
  View.cover_of_tiled [⟨r9_1, p0⟩] S1024x128.size (by rfl) y

/-! ## The body's triple -/

set_option maxHeartbeats 1000000 in
/-- Given full ownership of the five input buffers at contents `x0 … x4` and of the output buffer at any
    contents, the body runs to its continuation with the inputs unchanged and the output at `out9_5 x0 … x4`:
    the body is its skeleton of loads and one store, which symbolic execution walks; the final contents are the
    canonical form of the store list because the store covers the buffer. -/
theorem sound_kernel9 (c : Dev nD) (E : Set ℕ) (i : grid9.Coords) (arg1 : Memref sig .tc .vmem S1024x128 .f32) (harg1 : arg1.IsWhole) (arg2 : Memref sig .tc .vmem S1024x128 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1024x128 .f32) (harg6 : arg6.IsWhole)
    (x0 : Vec F S1024x128 .f32) (x1 : Vec F S1024x128 .f32) (x2 : Vec F S1024x256 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out9_5 x0 x1 x2 x3 x4)) -∗ K ⟨⟩))
      ⊢ wp frame (wpE (defs₀ (F := F)) Variants.none c none) E (cc9__node_upd_kernel i arg1 harg1 arg2 harg2 arg3 harg3 arg4 harg4 arg5 harg5 arg6 harg6) K := by
  simp only [cc9__node_upd_kernel_eq_skeleton]; unfold cc9__node_upd_kernel_skel
  simp only [k9_part1_eq_skeleton]; unfold k9_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover9_5 _)

end Cert.KernelIdeal.Fr
-- ==== Proof.KI.Half9.lean ====
import proofs.«117664_g2000706958607885_pallasbulk_534_41_alg».proof.Proof.KI.Half9Body

/-! # Pallas_call 9 (node update): the pipeline's proof data and its body obligation, at entry contents `V`

Five input windows (0–4) and one output window (5).  At every grid point the inputs' staging buffers hold the
blocks of their arrays as the region found them, and the body leaves in the output's staging buffer the value
`out9_5` of those blocks. -/

set_option maxRecDepth 16384

noncomputable section

namespace Cert.KernelIdeal.Fr

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region9
-- the TensorCore's buffer contents when the region is entered
variable (V : (c : Dev nD) → (b : Ref sig .tc) → Buf (Elt F) ((c : Thread nD τ).loc b))

/-! ## The windows' blocks -/

/-- Window `w`'s block at grid point `t`, read through the window's view of its array as `V` has it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0: whatever proof data has `V`'s array for it and a body that leaves its block in place, the
    current staging buffer holds the block of the point, whether the pipeline fetched there or kept the previous
    fetch (an unfetched point has the same block index as its predecessor). -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
/-- Input window 1: whatever proof data has `V`'s array for it and a body that leaves its block in place, the
    current staging buffer holds the block of the point, whether the pipeline fetched there or kept the previous
    fetch (an unfetched point has the same block index as its predecessor). -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)
/-- Input window 2: whatever proof data has `V`'s array for it and a body that leaves its block in place, the
    current staging buffer holds the block of the point, whether the pipeline fetched there or kept the previous
    fetch (an unfetched point has the same block index as its predecessor). -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)
/-- Input window 3: whatever proof data has `V`'s array for it and a body that leaves its block in place, the
    current staging buffer holds the block of the point, whether the pipeline fetched there or kept the previous
    fetch (an unfetched point has the same block index as its predecessor). -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)
/-- Input window 4: whatever proof data has `V`'s array for it and a body that leaves its block in place, the
    current staging buffer holds the block of the point, whether the pipeline fetched there or kept the previous
    fetch (an unfetched point has the same block index as its predecessor). -/
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

/-! ## The pipeline's proof data -/

/-- Proof data of the pipeline on core `c`: arrays as `V` has them; after the body at point `t` every input
    buffer still at its block and the output buffer at `out9_5` of the input blocks; the class invariant
    (scoped rest and generator register untouched); nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => out9_5 (iblk9 V c 0 t) (iblk9 V c 1 t) (iblk9 V c 2 t) (iblk9 V c 3 t) (iblk9 V c 4 t)
  Φ _ := Pipeline.ΦA spec9 c
  q _ := fullShare
  owed _ := 0

/-- The proof data's arrays are the entry contents. -/
theorem A_eq9 (c : Dev nD) (w : Fin cfg9.W) : (dat9 V c).A w = V c (Pipeline.arrRef spec9 w) := by
  dsimp only [dat9]

/-- What the body leaves, window by window (the definition's case split reduced at each numeral). -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = out9_5 (iblk9 V c 0 t) (iblk9 V c 1 t) (iblk9 V c 2 t) (iblk9 V c 3 t) (iblk9 V c 4 t) := by dsimp only [dat9]

/-- Each input's current staging buffer holds its block at every point. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d

/-! ## The body obligation at a generic point -/

/-- What the body is handed at point `t`: the invariant, the owed transfers, and the six current staging buffers. -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d)))

/-- What it hands back. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t))

/-- The body at any point: the inputs' buffers hold their blocks, so the body's triple applies with those blocks;
    the invariant and the owed transfers are framed around it. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4]
  rw [show (dat9 V c).Φ t.succ = (dat9 V c).Φ t.castSucc from rfl,
    show (dat9 V c).owesAt () t.succ = (dat9 V c).owesAt () t.castSucc from rfl,
    after9_0, after9_1, after9_2, after9_3, after9_4, after9_5]
  iintro ⟨HΦ, Ho, ⟨%d0, H0⟩, ⟨%d1, H1⟩, ⟨%d2, H2⟩, ⟨%d3, H3⟩, ⟨%d4, H4⟩, ⟨%d5, H5⟩⟩
  iapply (sound_kernel9 c Set.univ (grid9.coords t) _ _ _ _ _ _ _ _ _ _ _ _ (iblk9 V c 0 t) (iblk9 V c 1 t) (iblk9 V c 2 t) (iblk9 V c 3 t) (iblk9 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation: the triple above at every point, the windows' separating product spelt out. -/
theorem body_obligation9 (c : Dev nD) : BodyObligation (dat9 (F := F) V c) (defs₀ (F := F)) Variants.none () Set.univ := fun t => by
  rw [bigSep_W9, bigSep_W9]
  exact sound_body9 V c t

end Region9

end Cert.KernelIdeal.Fr
-- ==== Proof.KI.Half10Body.lean ====
import proofs.«117664_g2000706958607885_pallasbulk_534_41_alg».proof.Proof.Gen.KernelIdeal.Launch
import proofs.«117664_g2000706958607885_pallasbulk_534_41_alg».proof.Proof.Gen.KernelIdeal.Skeleton
import proofs.«117664_g2000706958607885_pallasbulk_534_41_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding membership in a rectangle of 1024-row extent recurses once per coordinate of the long axis
set_option maxRecDepth 16384

noncomputable section

namespace Cert.KernelIdeal.Fr

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body of pipeline 10 (`cc10__edge_kernel`) on whole staging buffers -/

/-! ## The rectangles the body reads and writes through -/

abbrev r10_0 : Rect S1024x128 := Rect.unit (s := S1024x128) ![0, 0] S1024x128.size inb_S1024x128_S1024x128_0_0
abbrev r10_1 : Rect S1024x256 := Rect.unit (s := S1024x256) ![0, 0] S1024x256.size inb_S1024x256_S1024x256_0_0
abbrev r10_2 : Rect S128x128 := Rect.unit (s := S128x128) ![0, 0] S128x128.size inb_S128x128_S128x128_0_0
abbrev r10_3 : Rect S1x128 := Rect.unit (s := S1x128) ![0, 0] S1x128.size inb_S1x128_S1x128_0_0
abbrev r10_4 : Rect S1024x256 := Rect.unit (s := S1024x256) ![0, 0] S1024x128.size inb_S1024x256_S1024x128_0_0
abbrev r10_5 : Rect S1024x256 := Rect.unit (s := S1024x256) ![0, 128] S1024x128.size inb_S1024x256_S1024x128_0_128

/-! ## What the body leaves in each output window's buffer -/

/-- Window 7's buffer after the body as a function of the input blocks: the one store over the whole block. -/
def out10_7 (x0 : Vec F S1024x128 .f32) (x1 : Vec F S1024x128 .f32) (x2 : Vec F S1024x256 .f32) (x3 : Vec F S128x128 .f32) (x4 : Vec F S1x128 .f32) (x5 : Vec F S1x128 .f32) (x6 : Vec F S1x128 .f32) : Vec F S1024x128 .f32 :=
  View.canon [⟨r10_0, k10_pay1 (k10_pay4 (View.ld x0 r10_0)) (k10_pay7 (View.ld x0 r10_0) (View.ld x2 r10_1) (View.ld x3 r10_2) (View.ld x1 r10_0) (View.ld x4 r10_3) (View.ld x5 r10_3) (View.ld x6 r10_3))⟩]

/-- One store of the whole block tiles it, so it covers it. -/
theorem cover10_7 (p0 : r10_0.shape.Idx → Elt F .f32) (y : S1024x128.Idx) :
    ∃ pc ∈ ([⟨r10_0, p0⟩] : List (View.Piece (Elt F) S1024x128 .f32)), y ∈ pc.1.set :=
  View.cover_of_tiled [⟨r10_0, p0⟩] S1024x128.size (by rfl) y

/-- Window 8's buffer after the body as a function of the input blocks: its two 128-lane halves, the later store first. -/
def out10_8 (x0 : Vec F S1024x128 .f32) (x1 : Vec F S1024x128 .f32) (x2 : Vec F S1024x256 .f32) (x3 : Vec F S128x128 .f32) (x4 : Vec F S1x128 .f32) (x5 : Vec F S1x128 .f32) (x6 : Vec F S1x128 .f32) : Vec F S1024x256 .f32 :=
  View.canon [⟨r10_5, k10_pay2 (k10_pay6 (View.ld x0 r10_0) (View.ld x2 r10_1) (View.ld x3 r10_2) (View.ld x1 r10_0) (View.ld x4 r10_3))⟩, ⟨r10_4, k10_pay3 (k10_pay5 (View.ld x2 r10_1)) (k10_pay6 (View.ld x0 r10_0) (View.ld x2 r10_1) (View.ld x3 r10_2) (View.ld x1 r10_0) (View.ld x4 r10_3))⟩]

/-- The two 128-lane halves tile the 256-lane block, so they cover it. -/
theorem cover10_8 (p1 : r10_5.shape.Idx → Elt F .f32) (p0 : r10_4.shape.Idx → Elt F .f32) (y : S1024x256.Idx) :
    ∃ pc ∈ ([⟨r10_5, p1⟩, ⟨r10_4, p0⟩] : List (View.Piece (Elt F) S1024x256 .f32)), y ∈ pc.1.set :=
  View.cover_of_tiled [⟨r10_5, p1⟩, ⟨r10_4, p0⟩] S1024x128.size (by rfl) y

/-! ## The body's triple -/

set_option maxHeartbeats 1000000 in
/-- Run on whole staging buffers, the inputs' holding `xW` and the outputs' anything, the body ends with the inputs'
    unchanged and each output's holding `out10_W` of the inputs: the body is a sequence of loads, pure payloads and
    stores, executed symbolically; what the stores leave is the canonical contents of a covering list of writes. -/
theorem sound_kernel10 (c : Dev nD) (E : Set ℕ) (i : grid10.Coords) (arg1 : Memref sig .tc .vmem S1024x128 .f32) (harg1 : arg1.IsWhole) (arg2 : Memref sig .tc .vmem S1024x128 .f32) (harg2 : arg2.IsWhole) (arg3 : Memref sig .tc .vmem S1024x256 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x256 .f32) (harg9 : arg9.IsWhole)
    (x0 : Vec F S1024x128 .f32) (x1 : Vec F S1024x128 .f32) (x2 : Vec F S1024x256 .f32) (x3 : Vec F S128x128 .f32) (x4 : Vec F S1x128 .f32) (x5 : Vec F S1x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out10_7 x0 x1 x2 x3 x4 x5 x6) ∗ owns (c : Thread nD τ) arg9 fullShare (out10_8 x0 x1 x2 x3 x4 x5 x6)) -∗ K ⟨⟩))
      ⊢ wp frame (wpE (defs₀ (F := F)) Variants.none c none) E (cc10__edge_kernel i arg1 harg1 arg2 harg2 arg3 harg3 arg4 harg4 arg5 harg5 arg6 harg6 arg7 harg7 arg8 harg8 arg9 harg9) K := by
  simp only [cc10__edge_kernel_eq_skeleton]; unfold cc10__edge_kernel_skel
  simp only [k10_part1_eq_skeleton]; unfold k10_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (cover10_7 _)
  iexists _; isplitr
  swap; · iexact H8
  ipureintro
  try dsimp only
  exact View.read_writes_eq_canon _ _ _ (cover10_8 _ _)

end Cert.KernelIdeal.Fr
-- ==== Proof.KI.Half10.lean ====
import proofs.«117664_g2000706958607885_pallasbulk_534_41_alg».proof.Proof.Gen.KernelIdeal.Launch
import proofs.«117664_g2000706958607885_pallasbulk_534_41_alg».proof.Proof.Gen.KernelIdeal.Skeleton
import proofs.«117664_g2000706958607885_pallasbulk_534_41_alg».proof.Proof.Gen.KernelIdeal.Points
import proofs.«117664_g2000706958607885_pallasbulk_534_41_alg».proof.Proof.KI.Half10Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding membership in a rectangle of 1024-row extent recurses once per coordinate of the long axis
set_option maxRecDepth 16384

noncomputable section

namespace Cert.KernelIdeal.Fr

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Pipeline 10 (`cc10__edge_kernel`) entered at the buffer contents `V` -/

/-! ## The windows' blocks -/

/-- Window `w`'s block at grid point `t`, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- An input window's current staging buffer holds its block at every point, whether fetched there or carried over
    (the block index then has not moved), for any proof data over `V`'s array whose body leaves the block in place. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)
/-- An input window's current staging buffer holds its block at every point, whether fetched there or carried over
    (the block index then has not moved), for any proof data over `V`'s array whose body leaves the block in place. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)
/-- An input window's current staging buffer holds its block at every point, whether fetched there or carried over
    (the block index then has not moved), for any proof data over `V`'s array whose body leaves the block in place. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)
/-- An input window's current staging buffer holds its block at every point, whether fetched there or carried over
    (the block index then has not moved), for any proof data over `V`'s array whose body leaves the block in place. -/
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)
/-- An input window's current staging buffer holds its block at every point, whether fetched there or carried over
    (the block index then has not moved), for any proof data over `V`'s array whose body leaves the block in place. -/
theorem before10_4_of {c : Dev nD} (dat : Dat τ (Elt F) Unit ℕ (UR sig nD τ) ℕ cfg10 c) (hA : dat.A 4 = V c (Pipeline.arrRef spec10 4))
    (hafter : ∀ t, dat.after 4 t = iblk10 V c 4 t) (t : Fin cfg10.N) (d) : dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)
/-- An input window's current staging buffer holds its block at every point, whether fetched there or carried over
    (the block index then has not moved), for any proof data over `V`'s array whose body leaves the block in place. -/
theorem before10_5_of {c : Dev nD} (dat : Dat τ (Elt F) Unit ℕ (UR sig nD τ) ℕ cfg10 c) (hA : dat.A 5 = V c (Pipeline.arrRef spec10 5))
    (hafter : ∀ t, dat.after 5 t = iblk10 V c 5 t) (t : Fin cfg10.N) (d) : dat.before 5 t d = iblk10 V c 5 t :=
  (dat.before_in_eq_fetched 5 rfl (fun _ => rfl) (fun _ _ _ => rfl) (fun t => by rw [hafter]; unfold Dat.blockOf iblk10; rw [hA]; try rfl) t d).trans
    (by unfold Dat.fetched Dat.blockOf iblk10; rw [hA]; try rfl)
/-- An input window's current staging buffer holds its block at every point, whether fetched there or carried over
    (the block index then has not moved), for any proof data over `V`'s array whose body leaves the block in place. -/
theorem before10_6_of {c : Dev nD} (dat : Dat τ (Elt F) Unit ℕ (UR sig nD τ) ℕ cfg10 c) (hA : dat.A 6 = V c (Pipeline.arrRef spec10 6))
    (hafter : ∀ t, dat.after 6 t = iblk10 V c 6 t) (t : Fin cfg10.N) (d) : dat.before 6 t d = iblk10 V c 6 t :=
  (dat.before_in_eq_fetched 6 rfl (fun _ => rfl) (fun _ _ _ => rfl) (fun t => by rw [hafter]; unfold Dat.blockOf iblk10; rw [hA]; try rfl) t d).trans
    (by unfold Dat.fetched Dat.blockOf iblk10; rw [hA]; try rfl)

/-! ## The pipeline's proof data -/

/-- The proof data of pipeline 10 on core `c`: the arrays as the region finds them; after the body at point `t`
    each input's buffer at its block and each output's at `out10_W` of the input blocks; the invariant is the scoped
    rest and the generator register, untouched; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => iblk10 V c 5 t
    | ⟨6, _⟩ => iblk10 V c 6 t
    | ⟨7, _⟩ => out10_7 (iblk10 V c 0 t) (iblk10 V c 1 t) (iblk10 V c 2 t) (iblk10 V c 3 t) (iblk10 V c 4 t) (iblk10 V c 5 t) (iblk10 V c 6 t)
    | ⟨8, _⟩ => out10_8 (iblk10 V c 0 t) (iblk10 V c 1 t) (iblk10 V c 2 t) (iblk10 V c 3 t) (iblk10 V c 4 t) (iblk10 V c 5 t) (iblk10 V c 6 t)
  Φ _ := Pipeline.ΦA spec10 c
  q _ := fullShare
  owed _ := 0

/-- The proof data's arrays are the region-entry contents. -/
theorem A_eq10 (c : Dev nD) (w : Fin cfg10.W) : (dat10 V c).A w = V c (Pipeline.arrRef spec10 w) := by
  dsimp only [dat10]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) : (dat10 V c).after 5 t = iblk10 V c 5 t := by dsimp only [dat10]
theorem after10_6 (c : Dev nD) (t : Fin cfg10.N) : (dat10 V c).after 6 t = iblk10 V c 6 t := by dsimp only [dat10]
theorem after10_7 (c : Dev nD) (t : Fin cfg10.N) : (dat10 V c).after 7 t = out10_7 (iblk10 V c 0 t) (iblk10 V c 1 t) (iblk10 V c 2 t) (iblk10 V c 3 t) (iblk10 V c 4 t) (iblk10 V c 5 t) (iblk10 V c 6 t) := by dsimp only [dat10]
theorem after10_8 (c : Dev nD) (t : Fin cfg10.N) : (dat10 V c).after 8 t = out10_8 (iblk10 V c 0 t) (iblk10 V c 1 t) (iblk10 V c 2 t) (iblk10 V c 3 t) (iblk10 V c 4 t) (iblk10 V c 5 t) (iblk10 V c 6 t) := by dsimp only [dat10]

/-- Each input's current staging buffer holds its block at every point. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d
theorem before10_4 (c : Dev nD) (t : Fin cfg10.N) (d) : (dat10 V c).before 4 t d = iblk10 V c 4 t :=
  before10_4_of V (dat10 V c) (A_eq10 V c 4) (after10_4 V c) t d
theorem before10_5 (c : Dev nD) (t : Fin cfg10.N) (d) : (dat10 V c).before 5 t d = iblk10 V c 5 t :=
  before10_5_of V (dat10 V c) (A_eq10 V c 5) (after10_5 V c) t d
theorem before10_6 (c : Dev nD) (t : Fin cfg10.N) (d) : (dat10 V c).before 6 t d = iblk10 V c 6 t :=
  before10_6_of V (dat10 V c) (A_eq10 V c 6) (after10_6 V c) t d

/-! ## The body obligation, at a generic point -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d))
    ∗ (∃ d, owns (c : Thread nD τ) (st10_6 t) fullShare ((dat10 V c).before 6 t d))
    ∗ (∃ d, owns (c : Thread nD τ) (st10_7 t) fullShare ((dat10 V c).before 7 t d))
    ∗ (∃ d, owns (c : Thread nD τ) (st10_8 t) fullShare ((dat10 V c).before 8 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t)
    ∗ owns (c : Thread nD τ) (st10_5 t) fullShare ((dat10 V c).after 5 t)
    ∗ owns (c : Thread nD τ) (st10_6 t) fullShare ((dat10 V c).after 6 t)
    ∗ owns (c : Thread nD τ) (st10_7 t) fullShare ((dat10 V c).after 7 t)
    ∗ owns (c : Thread nD τ) (st10_8 t) fullShare ((dat10 V c).after 8 t))

/-- The body at any point: the inputs' buffers hold their blocks, so the body's triple applies; the invariant and
    what the core owes pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4, before10_5, before10_6]
  rw [show (dat10 V c).Φ t.succ = (dat10 V c).Φ t.castSucc from rfl,
    show (dat10 V c).owesAt () t.succ = (dat10 V c).owesAt () t.castSucc from rfl,
    after10_0, after10_1, after10_2, after10_3, after10_4, after10_5, after10_6, after10_7, after10_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel10 c Set.univ (grid10.coords t) _ _ _ _ _ _ _ _ _ _ _ _ _ _ _ _ _ _ (iblk10 V c 0 t) (iblk10 V c 1 t) (iblk10 V c 2 t) (iblk10 V c 3 t) (iblk10 V c 4 t) (iblk10 V c 5 t) (iblk10 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation of the pipeline, at every point. -/
theorem body_obligation10 (c : Dev nD) : BodyObligation (dat10 (F := F) V c) (defs₀ (F := F)) Variants.none () Set.univ := fun t => by
  rw [bigSep_W10, bigSep_W10]
  exact sound_body10 V c t

end Cert.KernelIdeal.Fr
-- ==== Proof.KI.Half11Body.lean ====
import proofs.«117664_g2000706958607885_pallasbulk_534_41_alg».proof.Proof.Gen.KernelIdeal.Launch
import proofs.«117664_g2000706958607885_pallasbulk_534_41_alg».proof.Proof.Gen.KernelIdeal.Skeleton
import proofs.«117664_g2000706958607885_pallasbulk_534_41_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The node-update body of pallas_call 11, run once on whole staging buffers

The body reads five buffers in full (two of 1024 × 128, one of 1024 × 256, two rows of 128) and overwrites a
sixth, of 1024 × 128, with one full-buffer store.  This module
names the rectangles it touches, the value the store leaves, and proves the separation-logic triple of the body. -/

-- membership of an index in a rectangle with 1024 rows is decided structurally, one step per row
set_option maxRecDepth 16384

noncomputable section

namespace Cert.KernelIdeal.Fr

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes: each is a whole buffer -/

/-- all of a 1024 × 256 buffer -/
abbrev r11_0 : Rect S1024x256 := Rect.unit (s := S1024x256) ![0, 0] S1024x256.size inb_S1024x256_S1024x256_0_0
/-- all of a 1024 × 128 buffer -/
abbrev r11_1 : Rect S1024x128 := Rect.unit (s := S1024x128) ![0, 0] S1024x128.size inb_S1024x128_S1024x128_0_0
/-- all of a 1 × 128 buffer -/
abbrev r11_2 : Rect S1x128 := Rect.unit (s := S1x128) ![0, 0] S1x128.size inb_S1x128_S1x128_0_0

/-! ## The value left in the output buffer -/

/-- The output buffer after the body, as a function of the five input buffers' contents: the single store's
    payload, as the skeleton names it — with `a`, `b` the two lane halves of `x2`, `u = x1 + a / (b + ε)`, `n` the
    row-wise normalisation of `u` scaled by `x3` and shifted by `x4`, the value `x0 + n · logistic n` — laid over
    the whole buffer. -/
def out11_5 (x0 : Vec F S1024x128 .f32) (x1 : Vec F S1024x128 .f32) (x2 : Vec F S1024x256 .f32) (x3 : Vec F S1x128 .f32) (x4 : Vec F S1x128 .f32) : Vec F S1024x128 .f32 :=
  View.canon [⟨r11_1, k11_pay1 (View.ld x2 r11_0) (View.ld x1 r11_1) (View.ld x0 r11_1) (View.ld x3 r11_2) (View.ld x4 r11_2)⟩]

/-- The one stored rectangle is the whole buffer, so every index of the buffer lies in a stored piece. -/
theorem cover11_5 (p0 : Vec F S1024x128 .f32) (y : S1024x128.Idx) :
    ∃ pc ∈ ([⟨r11_1, p0⟩] : List (View.Piece (Elt F) S1024x128 .f32)), y ∈ pc.1.set :=
  View.cover_of_tiled [⟨r11_1, p0⟩] S1024x128.size (by rfl) y

/-! ## The body's triple -/

set_option maxHeartbeats 1000000 in
/-- Given full ownership of the five input buffers at contents `x0 … x4` and of the output buffer at any
    contents, the body runs to its continuation with the inputs unchanged and the output at `out11_5 x0 … x4`:
    the body is its skeleton of loads and one store, which symbolic execution walks; the final contents are the
    canonical form of the store list because the store covers the buffer. -/
theorem sound_kernel11 (c : Dev nD) (E : Set ℕ) (i : grid11.Coords) (arg1 : Memref sig .tc .vmem S1024x128 .f32) (harg1 : arg1.IsWhole) (arg2 : Memref sig .tc .vmem S1024x128 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1024x128 .f32) (harg6 : arg6.IsWhole)
    (x0 : Vec F S1024x128 .f32) (x1 : Vec F S1024x128 .f32) (x2 : Vec F S1024x256 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out11_5 x0 x1 x2 x3 x4)) -∗ K ⟨⟩))
      ⊢ wp frame (wpE (defs₀ (F := F)) Variants.none c none) E (cc11__node_upd_kernel i arg1 harg1 arg2 harg2 arg3 harg3 arg4 harg4 arg5 harg5 arg6 harg6) K := by
  simp only [cc11__node_upd_kernel_eq_skeleton]; unfold cc11__node_upd_kernel_skel
  simp only [k11_part1_eq_skeleton]; unfold k11_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover11_5 _)

end Cert.KernelIdeal.Fr
-- ==== Proof.KI.Half11.lean ====
import proofs.«117664_g2000706958607885_pallasbulk_534_41_alg».proof.Proof.KI.Half11Body

/-! # Pallas_call 11 (node update): the pipeline's proof data and its body obligation, at entry contents `V`

Five input windows (0–4) and one output window (5).  At every grid point the inputs' staging buffers hold the
blocks of their arrays as the region found them, and the body leaves in the output's staging buffer the value
`out11_5` of those blocks. -/

set_option maxRecDepth 16384

noncomputable section

namespace Cert.KernelIdeal.Fr

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region11
-- the TensorCore's buffer contents when the region is entered
variable (V : (c : Dev nD) → (b : Ref sig .tc) → Buf (Elt F) ((c : Thread nD τ).loc b))

/-! ## The windows' blocks -/

/-- Window `w`'s block at grid point `t`, read through the window's view of its array as `V` has it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0: whatever proof data has `V`'s array for it and a body that leaves its block in place, the
    current staging buffer holds the block of the point, whether the pipeline fetched there or kept the previous
    fetch (an unfetched point has the same block index as its predecessor). -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
/-- Input window 1: whatever proof data has `V`'s array for it and a body that leaves its block in place, the
    current staging buffer holds the block of the point, whether the pipeline fetched there or kept the previous
    fetch (an unfetched point has the same block index as its predecessor). -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)
/-- Input window 2: whatever proof data has `V`'s array for it and a body that leaves its block in place, the
    current staging buffer holds the block of the point, whether the pipeline fetched there or kept the previous
    fetch (an unfetched point has the same block index as its predecessor). -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)
/-- Input window 3: whatever proof data has `V`'s array for it and a body that leaves its block in place, the
    current staging buffer holds the block of the point, whether the pipeline fetched there or kept the previous
    fetch (an unfetched point has the same block index as its predecessor). -/
theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)
/-- Input window 4: whatever proof data has `V`'s array for it and a body that leaves its block in place, the
    current staging buffer holds the block of the point, whether the pipeline fetched there or kept the previous
    fetch (an unfetched point has the same block index as its predecessor). -/
theorem before11_4_of {c : Dev nD} (dat : Dat τ (Elt F) Unit ℕ (UR sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)

/-! ## The pipeline's proof data -/

/-- Proof data of the pipeline on core `c`: arrays as `V` has them; after the body at point `t` every input
    buffer still at its block and the output buffer at `out11_5` of the input blocks; the class invariant
    (scoped rest and generator register untouched); nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => out11_5 (iblk11 V c 0 t) (iblk11 V c 1 t) (iblk11 V c 2 t) (iblk11 V c 3 t) (iblk11 V c 4 t)
  Φ _ := Pipeline.ΦA spec11 c
  q _ := fullShare
  owed _ := 0

/-- The proof data's arrays are the entry contents. -/
theorem A_eq11 (c : Dev nD) (w : Fin cfg11.W) : (dat11 V c).A w = V c (Pipeline.arrRef spec11 w) := by
  dsimp only [dat11]

/-- What the body leaves, window by window (the definition's case split reduced at each numeral). -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t = out11_5 (iblk11 V c 0 t) (iblk11 V c 1 t) (iblk11 V c 2 t) (iblk11 V c 3 t) (iblk11 V c 4 t) := by dsimp only [dat11]

/-- Each input's current staging buffer holds its block at every point. -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d
theorem before11_4 (c : Dev nD) (t : Fin cfg11.N) (d) : (dat11 V c).before 4 t d = iblk11 V c 4 t :=
  before11_4_of V (dat11 V c) (A_eq11 V c 4) (after11_4 V c) t d

/-! ## The body obligation at a generic point -/

/-- What the body is handed at point `t`: the invariant, the owed transfers, and the six current staging buffers. -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d)))

/-- What it hands back. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t))

/-- The body at any point: the inputs' buffers hold their blocks, so the body's triple applies with those blocks;
    the invariant and the owed transfers are framed around it. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4]
  rw [show (dat11 V c).Φ t.succ = (dat11 V c).Φ t.castSucc from rfl,
    show (dat11 V c).owesAt () t.succ = (dat11 V c).owesAt () t.castSucc from rfl,
    after11_0, after11_1, after11_2, after11_3, after11_4, after11_5]
  iintro ⟨HΦ, Ho, ⟨%d0, H0⟩, ⟨%d1, H1⟩, ⟨%d2, H2⟩, ⟨%d3, H3⟩, ⟨%d4, H4⟩, ⟨%d5, H5⟩⟩
  iapply (sound_kernel11 c Set.univ (grid11.coords t) _ _ _ _ _ _ _ _ _ _ _ _ (iblk11 V c 0 t) (iblk11 V c 1 t) (iblk11 V c 2 t) (iblk11 V c 3 t) (iblk11 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation: the triple above at every point, the windows' separating product spelt out. -/
theorem body_obligation11 (c : Dev nD) : BodyObligation (dat11 (F := F) V c) (defs₀ (F := F)) Variants.none () Set.univ := fun t => by
  rw [bigSep_W11, bigSep_W11]
  exact sound_body11 V c t

end Region11

end Cert.KernelIdeal.Fr
-- ==== Proof.KI.RunDefs.lean ====
import proofs.«117664_g2000706958607885_pallasbulk_534_41_alg».proof.Proof.KI.Half0
import proofs.«117664_g2000706958607885_pallasbulk_534_41_alg».proof.Proof.KI.Half1
import proofs.«117664_g2000706958607885_pallasbulk_534_41_alg».proof.Proof.KI.Half2
import proofs.«117664_g2000706958607885_pallasbulk_534_41_alg».proof.Proof.KI.Half3
import proofs.«117664_g2000706958607885_pallasbulk_534_41_alg».proof.Proof.KI.Half4
import proofs.«117664_g2000706958607885_pallasbulk_534_41_alg».proof.Proof.KI.Half5
import proofs.«117664_g2000706958607885_pallasbulk_534_41_alg».proof.Proof.KI.Half6
import proofs.«117664_g2000706958607885_pallasbulk_534_41_alg».proof.Proof.KI.Half7
import proofs.«117664_g2000706958607885_pallasbulk_534_41_alg».proof.Proof.KI.Half8
import proofs.«117664_g2000706958607885_pallasbulk_534_41_alg».proof.Proof.KI.Half9
import proofs.«117664_g2000706958607885_pallasbulk_534_41_alg».proof.Proof.KI.Half10
import proofs.«117664_g2000706958607885_pallasbulk_534_41_alg».proof.Proof.KI.Half11
import proofs.«117664_g2000706958607885_pallasbulk_534_41_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding which window's array a reference is, over the program's few hundred references
set_option maxRecDepth 16384

noncomputable section

namespace Cert.KernelIdeal.Fr

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The buffer contents at each boundary of @main, as a plain chain

`X0` is what the launch finds; an odd step runs a host stretch (`StableHlo.after`); an even step `2K+2` leaves region `K`:
the region's arrays at what its pipeline leaves (`Dat.arrAt … N`), every other buffer as entered. Nothing here mentions
the unknowns the conditional frame is stated over: they are read off this chain afterwards. -/

/-- A buffer that is the array of no window of the pipeline is left as it was. -/
theorem withArrays_of_not_arr {gr W : Nat} (win : Fin W → Pipeline.WinSpec sig gr) (c : Dev nD)
    (V : Valuation τ sig (Elt F)) (A : (w : Fin W) → Buf (Elt F) ((win w).arr.view.loc (c.tc : Thread nD τ)))
    (b : DevRef τ sig) (hb : ∀ w, Proc.devRef .tc (Pipeline.arrRef win w) ≠ b) :
    Pipeline.withArrays win c V A b = V b := by
  unfold Pipeline.withArrays
  rw [dif_neg]
  rintro ⟨w, e⟩
  exact hb w e

/-- Core `c`'s buffers at launch. -/
abbrev X0 (c : Dev nD) : Valuation τ sig (Elt F) := V0 m c

/-! ## Region 0: entered at `X1`, left at `X2` -/

/-- After the host stretch `hostOps0` (region 0's entry). -/
abbrev X1 (c : Dev nD) : Valuation τ sig (Elt F) := StableHlo.after hostOps0 (X0 m c)
/-- The same read at the TensorCore's references (what region 0's proof data take). -/
abbrev XT1 : (c : Dev nD) → (b : Ref sig .tc) → Buf (Elt F) ((c : Thread nD τ).loc b) := fun c b => X1 m c b
/-- At region 0's exit: its arrays at what the pipeline leaves, every other buffer as entered. -/
def X2 (c : Dev nD) : Valuation τ sig (Elt F) :=
  Pipeline.withArrays spec0 c (X1 m c) fun w => (dat0 (XT1 m) c).arrAt w cfg0.N
theorem X2_arr (c : Dev nD) (w : Fin cfg0.W) :
    X2 m c (Proc.devRef .tc (Pipeline.arrRef spec0 w)) = (dat0 (XT1 m) c).arrAt w cfg0.N := by
  unfold X2; exact Pipeline.withArrays_arr spec0 launch0.win.arr_inj c _ _ w
theorem X2_of_ne (c : Dev nD) (b : Ref sig .tc) (hb : ∀ w, Pipeline.arrRef spec0 w ≠ b) :
    X2 m c (Proc.devRef .tc b) = X1 m c (Proc.devRef .tc b) := by
  unfold X2; exact Pipeline.withArrays_of_ne spec0 c _ _ b hb
/-- The same read at the TensorCore's references (region 0's exit contents). -/
abbrev XT2 : (c : Dev nD) → (b : Ref sig .tc) → Buf (Elt F) ((c : Thread nD τ).loc b) := fun c b => X2 m c b
/-- At the exit each array of the region holds what the pipeline leaves, and every other buffer what it held at entry. -/
theorem hF0 (c : Dev nD) (w : Fin cfg0.W) : (dat0 (XT1 m) c).arrAt w cfg0.N = XT2 m c (Pipeline.arrRef spec0 w) :=
  (X2_arr m c w).symm
theorem hrest0 (c : Dev nD) : ∀ b, b ∉ Finset.univ.image (Pipeline.arrRef spec0) → XT2 m c b = XT1 m c b :=
  fun b hb => X2_of_ne m c b fun w e => hb (Finset.mem_image.mpr ⟨w, Finset.mem_univ _, e⟩)
/-- An input window's array is never written back: it is left as entered. -/
theorem X2_in (c : Dev nD) (w : Fin cfg0.W) (hin : (cfg0.win w).isOut = false) :
    X2 m c (Proc.devRef .tc (Pipeline.arrRef spec0 w)) = X1 m c (Proc.devRef .tc (Pipeline.arrRef spec0 w)) :=
  (X2_arr m c w).trans (((dat0 (XT1 m) c).arrAt_in w hin cfg0.N).trans (A_eq0 (XT1 m) c w))
/-- So whatever is not the array of an OUTPUT window is left as entered. -/
theorem X2_keep (c : Dev nD) (b : DevRef τ sig)
    (hb : ∀ w, (cfg0.win w).isOut = true → Proc.devRef .tc (Pipeline.arrRef spec0 w) ≠ b) : X2 m c b = X1 m c b := by
  by_cases h : ∃ w, Proc.devRef .tc (Pipeline.arrRef spec0 w) = b
  · obtain ⟨w, rfl⟩ := h
    cases hio : (cfg0.win w).isOut with
    | false => exact X2_in m c w hio
    | true => exact absurd rfl (hb w hio)
  · unfold X2
    exact withArrays_of_not_arr _ _ _ _ b fun w e => h ⟨w, e⟩
/-- The output windows' arrays, by name. -/
theorem outArr0 : ∀ w : Fin cfg0.W, (cfg0.win w).isOut = true →
    Pipeline.arrRef spec0 w = main_v11_0 ∨ Pipeline.arrRef spec0 w = main_v11_1 ∨ Pipeline.arrRef spec0 w = main_v11_2 := by decide

/-! ## Region 1: entered at `X3`, left at `X4` -/

/-- After the host stretch `hostOps1` (region 1's entry). -/
abbrev X3 (c : Dev nD) : Valuation τ sig (Elt F) := StableHlo.after hostOps1 (X2 m c)
/-- The same read at the TensorCore's references (what region 1's proof data take). -/
abbrev XT3 : (c : Dev nD) → (b : Ref sig .tc) → Buf (Elt F) ((c : Thread nD τ).loc b) := fun c b => X3 m c b
/-- At region 1's exit: its arrays at what the pipeline leaves, every other buffer as entered. -/
def X4 (c : Dev nD) : Valuation τ sig (Elt F) :=
  Pipeline.withArrays spec1 c (X3 m c) fun w => (dat1 (XT3 m) c).arrAt w cfg1.N
theorem X4_arr (c : Dev nD) (w : Fin cfg1.W) :
    X4 m c (Proc.devRef .tc (Pipeline.arrRef spec1 w)) = (dat1 (XT3 m) c).arrAt w cfg1.N := by
  unfold X4; exact Pipeline.withArrays_arr spec1 launch1.win.arr_inj c _ _ w
theorem X4_of_ne (c : Dev nD) (b : Ref sig .tc) (hb : ∀ w, Pipeline.arrRef spec1 w ≠ b) :
    X4 m c (Proc.devRef .tc b) = X3 m c (Proc.devRef .tc b) := by
  unfold X4; exact Pipeline.withArrays_of_ne spec1 c _ _ b hb
/-- The same read at the TensorCore's references (region 1's exit contents). -/
abbrev XT4 : (c : Dev nD) → (b : Ref sig .tc) → Buf (Elt F) ((c : Thread nD τ).loc b) := fun c b => X4 m c b
/-- At the exit each array of the region holds what the pipeline leaves, and every other buffer what it held at entry. -/
theorem hF1 (c : Dev nD) (w : Fin cfg1.W) : (dat1 (XT3 m) c).arrAt w cfg1.N = XT4 m c (Pipeline.arrRef spec1 w) :=
  (X4_arr m c w).symm
theorem hrest1 (c : Dev nD) : ∀ b, b ∉ Finset.univ.image (Pipeline.arrRef spec1) → XT4 m c b = XT3 m c b :=
  fun b hb => X4_of_ne m c b fun w e => hb (Finset.mem_image.mpr ⟨w, Finset.mem_univ _, e⟩)
/-- An input window's array is never written back: it is left as entered. -/
theorem X4_in (c : Dev nD) (w : Fin cfg1.W) (hin : (cfg1.win w).isOut = false) :
    X4 m c (Proc.devRef .tc (Pipeline.arrRef spec1 w)) = X3 m c (Proc.devRef .tc (Pipeline.arrRef spec1 w)) :=
  (X4_arr m c w).trans (((dat1 (XT3 m) c).arrAt_in w hin cfg1.N).trans (A_eq1 (XT3 m) c w))
/-- So whatever is not the array of an OUTPUT window is left as entered. -/
theorem X4_keep (c : Dev nD) (b : DevRef τ sig)
    (hb : ∀ w, (cfg1.win w).isOut = true → Proc.devRef .tc (Pipeline.arrRef spec1 w) ≠ b) : X4 m c b = X3 m c b := by
  by_cases h : ∃ w, Proc.devRef .tc (Pipeline.arrRef spec1 w) = b
  · obtain ⟨w, rfl⟩ := h
    cases hio : (cfg1.win w).isOut with
    | false => exact X4_in m c w hio
    | true => exact absurd rfl (hb w hio)
  · unfold X4
    exact withArrays_of_not_arr _ _ _ _ b fun w e => h ⟨w, e⟩
/-- The output windows' arrays, by name. -/
theorem outArr1 : ∀ w : Fin cfg1.W, (cfg1.win w).isOut = true →
    Pipeline.arrRef spec1 w = main_v29_0 ∨ Pipeline.arrRef spec1 w = main_v29_1 ∨ Pipeline.arrRef spec1 w = main_v29_2 := by decide

/-! ## Region 2: entered at `X5`, left at `X6` -/

/-- After the host stretch `hostOps2` (region 2's entry). -/
abbrev X5 (c : Dev nD) : Valuation τ sig (Elt F) := StableHlo.after hostOps2 (X4 m c)
/-- The same read at the TensorCore's references (what region 2's proof data take). -/
abbrev XT5 : (c : Dev nD) → (b : Ref sig .tc) → Buf (Elt F) ((c : Thread nD τ).loc b) := fun c b => X5 m c b
/-- At region 2's exit: its arrays at what the pipeline leaves, every other buffer as entered. -/
def X6 (c : Dev nD) : Valuation τ sig (Elt F) :=
  Pipeline.withArrays spec2 c (X5 m c) fun w => (dat2 (XT5 m) c).arrAt w cfg2.N
theorem X6_arr (c : Dev nD) (w : Fin cfg2.W) :
    X6 m c (Proc.devRef .tc (Pipeline.arrRef spec2 w)) = (dat2 (XT5 m) c).arrAt w cfg2.N := by
  unfold X6; exact Pipeline.withArrays_arr spec2 launch2.win.arr_inj c _ _ w
theorem X6_of_ne (c : Dev nD) (b : Ref sig .tc) (hb : ∀ w, Pipeline.arrRef spec2 w ≠ b) :
    X6 m c (Proc.devRef .tc b) = X5 m c (Proc.devRef .tc b) := by
  unfold X6; exact Pipeline.withArrays_of_ne spec2 c _ _ b hb
/-- The same read at the TensorCore's references (region 2's exit contents). -/
abbrev XT6 : (c : Dev nD) → (b : Ref sig .tc) → Buf (Elt F) ((c : Thread nD τ).loc b) := fun c b => X6 m c b
/-- At the exit each array of the region holds what the pipeline leaves, and every other buffer what it held at entry. -/
theorem hF2 (c : Dev nD) (w : Fin cfg2.W) : (dat2 (XT5 m) c).arrAt w cfg2.N = XT6 m c (Pipeline.arrRef spec2 w) :=
  (X6_arr m c w).symm
theorem hrest2 (c : Dev nD) : ∀ b, b ∉ Finset.univ.image (Pipeline.arrRef spec2) → XT6 m c b = XT5 m c b :=
  fun b hb => X6_of_ne m c b fun w e => hb (Finset.mem_image.mpr ⟨w, Finset.mem_univ _, e⟩)
/-- An input window's array is never written back: it is left as entered. -/
theorem X6_in (c : Dev nD) (w : Fin cfg2.W) (hin : (cfg2.win w).isOut = false) :
    X6 m c (Proc.devRef .tc (Pipeline.arrRef spec2 w)) = X5 m c (Proc.devRef .tc (Pipeline.arrRef spec2 w)) :=
  (X6_arr m c w).trans (((dat2 (XT5 m) c).arrAt_in w hin cfg2.N).trans (A_eq2 (XT5 m) c w))
/-- So whatever is not the array of an OUTPUT window is left as entered. -/
theorem X6_keep (c : Dev nD) (b : DevRef τ sig)
    (hb : ∀ w, (cfg2.win w).isOut = true → Proc.devRef .tc (Pipeline.arrRef spec2 w) ≠ b) : X6 m c b = X5 m c b := by
  by_cases h : ∃ w, Proc.devRef .tc (Pipeline.arrRef spec2 w) = b
  · obtain ⟨w, rfl⟩ := h
    cases hio : (cfg2.win w).isOut with
    | false => exact X6_in m c w hio
    | true => exact absurd rfl (hb w hio)
  · unfold X6
    exact withArrays_of_not_arr _ _ _ _ b fun w e => h ⟨w, e⟩
/-- The output windows' arrays, by name. -/
theorem outArr2 : ∀ w : Fin cfg2.W, (cfg2.win w).isOut = true →
    Pipeline.arrRef spec2 w = main_v46_0 ∨ Pipeline.arrRef spec2 w = main_v46_1 := by decide

/-! ## Region 3: entered at `X7`, left at `X8` -/

/-- After the host stretch `hostOps3` (region 3's entry). -/
abbrev X7 (c : Dev nD) : Valuation τ sig (Elt F) := StableHlo.after hostOps3 (X6 m c)
/-- The same read at the TensorCore's references (what region 3's proof data take). -/
abbrev XT7 : (c : Dev nD) → (b : Ref sig .tc) → Buf (Elt F) ((c : Thread nD τ).loc b) := fun c b => X7 m c b
/-- At region 3's exit: its arrays at what the pipeline leaves, every other buffer as entered. -/
def X8 (c : Dev nD) : Valuation τ sig (Elt F) :=
  Pipeline.withArrays spec3 c (X7 m c) fun w => (dat3 (XT7 m) c).arrAt w cfg3.N
theorem X8_arr (c : Dev nD) (w : Fin cfg3.W) :
    X8 m c (Proc.devRef .tc (Pipeline.arrRef spec3 w)) = (dat3 (XT7 m) c).arrAt w cfg3.N := by
  unfold X8; exact Pipeline.withArrays_arr spec3 launch3.win.arr_inj c _ _ w
theorem X8_of_ne (c : Dev nD) (b : Ref sig .tc) (hb : ∀ w, Pipeline.arrRef spec3 w ≠ b) :
    X8 m c (Proc.devRef .tc b) = X7 m c (Proc.devRef .tc b) := by
  unfold X8; exact Pipeline.withArrays_of_ne spec3 c _ _ b hb
/-- The same read at the TensorCore's references (region 3's exit contents). -/
abbrev XT8 : (c : Dev nD) → (b : Ref sig .tc) → Buf (Elt F) ((c : Thread nD τ).loc b) := fun c b => X8 m c b
/-- At the exit each array of the region holds what the pipeline leaves, and every other buffer what it held at entry. -/
theorem hF3 (c : Dev nD) (w : Fin cfg3.W) : (dat3 (XT7 m) c).arrAt w cfg3.N = XT8 m c (Pipeline.arrRef spec3 w) :=
  (X8_arr m c w).symm
theorem hrest3 (c : Dev nD) : ∀ b, b ∉ Finset.univ.image (Pipeline.arrRef spec3) → XT8 m c b = XT7 m c b :=
  fun b hb => X8_of_ne m c b fun w e => hb (Finset.mem_image.mpr ⟨w, Finset.mem_univ _, e⟩)
/-- An input window's array is never written back: it is left as entered. -/
theorem X8_in (c : Dev nD) (w : Fin cfg3.W) (hin : (cfg3.win w).isOut = false) :
    X8 m c (Proc.devRef .tc (Pipeline.arrRef spec3 w)) = X7 m c (Proc.devRef .tc (Pipeline.arrRef spec3 w)) :=
  (X8_arr m c w).trans (((dat3 (XT7 m) c).arrAt_in w hin cfg3.N).trans (A_eq3 (XT7 m) c w))
/-- So whatever is not the array of an OUTPUT window is left as entered. -/
theorem X8_keep (c : Dev nD) (b : DevRef τ sig)
    (hb : ∀ w, (cfg3.win w).isOut = true → Proc.devRef .tc (Pipeline.arrRef spec3 w) ≠ b) : X8 m c b = X7 m c b := by
  by_cases h : ∃ w, Proc.devRef .tc (Pipeline.arrRef spec3 w) = b
  · obtain ⟨w, rfl⟩ := h
    cases hio : (cfg3.win w).isOut with
    | false => exact X8_in m c w hio
    | true => exact absurd rfl (hb w hio)
  · unfold X8
    exact withArrays_of_not_arr _ _ _ _ b fun w e => h ⟨w, e⟩
/-- The output windows' arrays, by name. -/
theorem outArr3 : ∀ w : Fin cfg3.W, (cfg3.win w).isOut = true →
    Pipeline.arrRef spec3 w = main_v50 := by decide

/-! ## Region 4: entered at `X9`, left at `X10` -/

/-- After the host stretch `hostOps4` (region 4's entry). -/
abbrev X9 (c : Dev nD) : Valuation τ sig (Elt F) := StableHlo.after hostOps4 (X8 m c)
/-- The same read at the TensorCore's references (what region 4's proof data take). -/
abbrev XT9 : (c : Dev nD) → (b : Ref sig .tc) → Buf (Elt F) ((c : Thread nD τ).loc b) := fun c b => X9 m c b
/-- At region 4's exit: its arrays at what the pipeline leaves, every other buffer as entered. -/
def X10 (c : Dev nD) : Valuation τ sig (Elt F) :=
  Pipeline.withArrays spec4 c (X9 m c) fun w => (dat4 (XT9 m) c).arrAt w cfg4.N
theorem X10_arr (c : Dev nD) (w : Fin cfg4.W) :
    X10 m c (Proc.devRef .tc (Pipeline.arrRef spec4 w)) = (dat4 (XT9 m) c).arrAt w cfg4.N := by
  unfold X10; exact Pipeline.withArrays_arr spec4 launch4.win.arr_inj c _ _ w
theorem X10_of_ne (c : Dev nD) (b : Ref sig .tc) (hb : ∀ w, Pipeline.arrRef spec4 w ≠ b) :
    X10 m c (Proc.devRef .tc b) = X9 m c (Proc.devRef .tc b) := by
  unfold X10; exact Pipeline.withArrays_of_ne spec4 c _ _ b hb
/-- The same read at the TensorCore's references (region 4's exit contents). -/
abbrev XT10 : (c : Dev nD) → (b : Ref sig .tc) → Buf (Elt F) ((c : Thread nD τ).loc b) := fun c b => X10 m c b
/-- At the exit each array of the region holds what the pipeline leaves, and every other buffer what it held at entry. -/
theorem hF4 (c : Dev nD) (w : Fin cfg4.W) : (dat4 (XT9 m) c).arrAt w cfg4.N = XT10 m c (Pipeline.arrRef spec4 w) :=
  (X10_arr m c w).symm
theorem hrest4 (c : Dev nD) : ∀ b, b ∉ Finset.univ.image (Pipeline.arrRef spec4) → XT10 m c b = XT9 m c b :=
  fun b hb => X10_of_ne m c b fun w e => hb (Finset.mem_image.mpr ⟨w, Finset.mem_univ _, e⟩)
/-- An input window's array is never written back: it is left as entered. -/
theorem X10_in (c : Dev nD) (w : Fin cfg4.W) (hin : (cfg4.win w).isOut = false) :
    X10 m c (Proc.devRef .tc (Pipeline.arrRef spec4 w)) = X9 m c (Proc.devRef .tc (Pipeline.arrRef spec4 w)) :=
  (X10_arr m c w).trans (((dat4 (XT9 m) c).arrAt_in w hin cfg4.N).trans (A_eq4 (XT9 m) c w))
/-- So whatever is not the array of an OUTPUT window is left as entered. -/
theorem X10_keep (c : Dev nD) (b : DevRef τ sig)
    (hb : ∀ w, (cfg4.win w).isOut = true → Proc.devRef .tc (Pipeline.arrRef spec4 w) ≠ b) : X10 m c b = X9 m c b := by
  by_cases h : ∃ w, Proc.devRef .tc (Pipeline.arrRef spec4 w) = b
  · obtain ⟨w, rfl⟩ := h
    cases hio : (cfg4.win w).isOut with
    | false => exact X10_in m c w hio
    | true => exact absurd rfl (hb w hio)
  · unfold X10
    exact withArrays_of_not_arr _ _ _ _ b fun w e => h ⟨w, e⟩
/-- The output windows' arrays, by name. -/
theorem outArr4 : ∀ w : Fin cfg4.W, (cfg4.win w).isOut = true →
    Pipeline.arrRef spec4 w = main_v53_0 ∨ Pipeline.arrRef spec4 w = main_v53_1 := by decide

/-! ## Region 5: entered at `X11`, left at `X12` -/

/-- After the host stretch `hostOps5` (region 5's entry). -/
abbrev X11 (c : Dev nD) : Valuation τ sig (Elt F) := StableHlo.after hostOps5 (X10 m c)
/-- The same read at the TensorCore's references (what region 5's proof data take). -/
abbrev XT11 : (c : Dev nD) → (b : Ref sig .tc) → Buf (Elt F) ((c : Thread nD τ).loc b) := fun c b => X11 m c b
/-- At region 5's exit: its arrays at what the pipeline leaves, every other buffer as entered. -/
def X12 (c : Dev nD) : Valuation τ sig (Elt F) :=
  Pipeline.withArrays spec5 c (X11 m c) fun w => (dat5 (XT11 m) c).arrAt w cfg5.N
theorem X12_arr (c : Dev nD) (w : Fin cfg5.W) :
    X12 m c (Proc.devRef .tc (Pipeline.arrRef spec5 w)) = (dat5 (XT11 m) c).arrAt w cfg5.N := by
  unfold X12; exact Pipeline.withArrays_arr spec5 launch5.win.arr_inj c _ _ w
theorem X12_of_ne (c : Dev nD) (b : Ref sig .tc) (hb : ∀ w, Pipeline.arrRef spec5 w ≠ b) :
    X12 m c (Proc.devRef .tc b) = X11 m c (Proc.devRef .tc b) := by
  unfold X12; exact Pipeline.withArrays_of_ne spec5 c _ _ b hb
/-- The same read at the TensorCore's references (region 5's exit contents). -/
abbrev XT12 : (c : Dev nD) → (b : Ref sig .tc) → Buf (Elt F) ((c : Thread nD τ).loc b) := fun c b => X12 m c b
/-- At the exit each array of the region holds what the pipeline leaves, and every other buffer what it held at entry. -/
theorem hF5 (c : Dev nD) (w : Fin cfg5.W) : (dat5 (XT11 m) c).arrAt w cfg5.N = XT12 m c (Pipeline.arrRef spec5 w) :=
  (X12_arr m c w).symm
theorem hrest5 (c : Dev nD) : ∀ b, b ∉ Finset.univ.image (Pipeline.arrRef spec5) → XT12 m c b = XT11 m c b :=
  fun b hb => X12_of_ne m c b fun w e => hb (Finset.mem_image.mpr ⟨w, Finset.mem_univ _, e⟩)
/-- An input window's array is never written back: it is left as entered. -/
theorem X12_in (c : Dev nD) (w : Fin cfg5.W) (hin : (cfg5.win w).isOut = false) :
    X12 m c (Proc.devRef .tc (Pipeline.arrRef spec5 w)) = X11 m c (Proc.devRef .tc (Pipeline.arrRef spec5 w)) :=
  (X12_arr m c w).trans (((dat5 (XT11 m) c).arrAt_in w hin cfg5.N).trans (A_eq5 (XT11 m) c w))
/-- So whatever is not the array of an OUTPUT window is left as entered. -/
theorem X12_keep (c : Dev nD) (b : DevRef τ sig)
    (hb : ∀ w, (cfg5.win w).isOut = true → Proc.devRef .tc (Pipeline.arrRef spec5 w) ≠ b) : X12 m c b = X11 m c b := by
  by_cases h : ∃ w, Proc.devRef .tc (Pipeline.arrRef spec5 w) = b
  · obtain ⟨w, rfl⟩ := h
    cases hio : (cfg5.win w).isOut with
    | false => exact X12_in m c w hio
    | true => exact absurd rfl (hb w hio)
  · unfold X12
    exact withArrays_of_not_arr _ _ _ _ b fun w e => h ⟨w, e⟩
/-- The output windows' arrays, by name. -/
theorem outArr5 : ∀ w : Fin cfg5.W, (cfg5.win w).isOut = true →
    Pipeline.arrRef spec5 w = main_v57_0 ∨ Pipeline.arrRef spec5 w = main_v57_1 ∨ Pipeline.arrRef spec5 w = main_v57_2 := by decide

/-! ## Region 6: entered at `X13`, left at `X14` -/

/-- After the host stretch `hostOps6` (region 6's entry). -/
abbrev X13 (c : Dev nD) : Valuation τ sig (Elt F) := StableHlo.after hostOps6 (X12 m c)
/-- The same read at the TensorCore's references (what region 6's proof data take). -/
abbrev XT13 : (c : Dev nD) → (b : Ref sig .tc) → Buf (Elt F) ((c : Thread nD τ).loc b) := fun c b => X13 m c b
/-- At region 6's exit: its arrays at what the pipeline leaves, every other buffer as entered. -/
def X14 (c : Dev nD) : Valuation τ sig (Elt F) :=
  Pipeline.withArrays spec6 c (X13 m c) fun w => (dat6 (XT13 m) c).arrAt w cfg6.N
theorem X14_arr (c : Dev nD) (w : Fin cfg6.W) :
    X14 m c (Proc.devRef .tc (Pipeline.arrRef spec6 w)) = (dat6 (XT13 m) c).arrAt w cfg6.N := by
  unfold X14; exact Pipeline.withArrays_arr spec6 launch6.win.arr_inj c _ _ w
theorem X14_of_ne (c : Dev nD) (b : Ref sig .tc) (hb : ∀ w, Pipeline.arrRef spec6 w ≠ b) :
    X14 m c (Proc.devRef .tc b) = X13 m c (Proc.devRef .tc b) := by
  unfold X14; exact Pipeline.withArrays_of_ne spec6 c _ _ b hb
/-- The same read at the TensorCore's references (region 6's exit contents). -/
abbrev XT14 : (c : Dev nD) → (b : Ref sig .tc) → Buf (Elt F) ((c : Thread nD τ).loc b) := fun c b => X14 m c b
/-- At the exit each array of the region holds what the pipeline leaves, and every other buffer what it held at entry. -/
theorem hF6 (c : Dev nD) (w : Fin cfg6.W) : (dat6 (XT13 m) c).arrAt w cfg6.N = XT14 m c (Pipeline.arrRef spec6 w) :=
  (X14_arr m c w).symm
theorem hrest6 (c : Dev nD) : ∀ b, b ∉ Finset.univ.image (Pipeline.arrRef spec6) → XT14 m c b = XT13 m c b :=
  fun b hb => X14_of_ne m c b fun w e => hb (Finset.mem_image.mpr ⟨w, Finset.mem_univ _, e⟩)
/-- An input window's array is never written back: it is left as entered. -/
theorem X14_in (c : Dev nD) (w : Fin cfg6.W) (hin : (cfg6.win w).isOut = false) :
    X14 m c (Proc.devRef .tc (Pipeline.arrRef spec6 w)) = X13 m c (Proc.devRef .tc (Pipeline.arrRef spec6 w)) :=
  (X14_arr m c w).trans (((dat6 (XT13 m) c).arrAt_in w hin cfg6.N).trans (A_eq6 (XT13 m) c w))
/-- So whatever is not the array of an OUTPUT window is left as entered. -/
theorem X14_keep (c : Dev nD) (b : DevRef τ sig)
    (hb : ∀ w, (cfg6.win w).isOut = true → Proc.devRef .tc (Pipeline.arrRef spec6 w) ≠ b) : X14 m c b = X13 m c b := by
  by_cases h : ∃ w, Proc.devRef .tc (Pipeline.arrRef spec6 w) = b
  · obtain ⟨w, rfl⟩ := h
    cases hio : (cfg6.win w).isOut with
    | false => exact X14_in m c w hio
    | true => exact absurd rfl (hb w hio)
  · unfold X14
    exact withArrays_of_not_arr _ _ _ _ b fun w e => h ⟨w, e⟩
/-- The output windows' arrays, by name. -/
theorem outArr6 : ∀ w : Fin cfg6.W, (cfg6.win w).isOut = true →
    Pipeline.arrRef spec6 w = main_v75 := by decide

/-! ## Region 7: entered at `X15`, left at `X16` -/

/-- After the host stretch `hostOps7` (region 7's entry). -/
abbrev X15 (c : Dev nD) : Valuation τ sig (Elt F) := StableHlo.after hostOps7 (X14 m c)
/-- The same read at the TensorCore's references (what region 7's proof data take). -/
abbrev XT15 : (c : Dev nD) → (b : Ref sig .tc) → Buf (Elt F) ((c : Thread nD τ).loc b) := fun c b => X15 m c b
/-- At region 7's exit: its arrays at what the pipeline leaves, every other buffer as entered. -/
def X16 (c : Dev nD) : Valuation τ sig (Elt F) :=
  Pipeline.withArrays spec7 c (X15 m c) fun w => (dat7 (XT15 m) c).arrAt w cfg7.N
theorem X16_arr (c : Dev nD) (w : Fin cfg7.W) :
    X16 m c (Proc.devRef .tc (Pipeline.arrRef spec7 w)) = (dat7 (XT15 m) c).arrAt w cfg7.N := by
  unfold X16; exact Pipeline.withArrays_arr spec7 launch7.win.arr_inj c _ _ w
theorem X16_of_ne (c : Dev nD) (b : Ref sig .tc) (hb : ∀ w, Pipeline.arrRef spec7 w ≠ b) :
    X16 m c (Proc.devRef .tc b) = X15 m c (Proc.devRef .tc b) := by
  unfold X16; exact Pipeline.withArrays_of_ne spec7 c _ _ b hb
/-- The same read at the TensorCore's references (region 7's exit contents). -/
abbrev XT16 : (c : Dev nD) → (b : Ref sig .tc) → Buf (Elt F) ((c : Thread nD τ).loc b) := fun c b => X16 m c b
/-- At the exit each array of the region holds what the pipeline leaves, and every other buffer what it held at entry. -/
theorem hF7 (c : Dev nD) (w : Fin cfg7.W) : (dat7 (XT15 m) c).arrAt w cfg7.N = XT16 m c (Pipeline.arrRef spec7 w) :=
  (X16_arr m c w).symm
theorem hrest7 (c : Dev nD) : ∀ b, b ∉ Finset.univ.image (Pipeline.arrRef spec7) → XT16 m c b = XT15 m c b :=
  fun b hb => X16_of_ne m c b fun w e => hb (Finset.mem_image.mpr ⟨w, Finset.mem_univ _, e⟩)
/-- An input window's array is never written back: it is left as entered. -/
theorem X16_in (c : Dev nD) (w : Fin cfg7.W) (hin : (cfg7.win w).isOut = false) :
    X16 m c (Proc.devRef .tc (Pipeline.arrRef spec7 w)) = X15 m c (Proc.devRef .tc (Pipeline.arrRef spec7 w)) :=
  (X16_arr m c w).trans (((dat7 (XT15 m) c).arrAt_in w hin cfg7.N).trans (A_eq7 (XT15 m) c w))
/-- So whatever is not the array of an OUTPUT window is left as entered. -/
theorem X16_keep (c : Dev nD) (b : DevRef τ sig)
    (hb : ∀ w, (cfg7.win w).isOut = true → Proc.devRef .tc (Pipeline.arrRef spec7 w) ≠ b) : X16 m c b = X15 m c b := by
  by_cases h : ∃ w, Proc.devRef .tc (Pipeline.arrRef spec7 w) = b
  · obtain ⟨w, rfl⟩ := h
    cases hio : (cfg7.win w).isOut with
    | false => exact X16_in m c w hio
    | true => exact absurd rfl (hb w hio)
  · unfold X16
    exact withArrays_of_not_arr _ _ _ _ b fun w e => h ⟨w, e⟩
/-- The output windows' arrays, by name. -/
theorem outArr7 : ∀ w : Fin cfg7.W, (cfg7.win w).isOut = true →
    Pipeline.arrRef spec7 w = main_v79_0 ∨ Pipeline.arrRef spec7 w = main_v79_1 ∨ Pipeline.arrRef spec7 w = main_v79_2 := by decide

/-! ## Region 8: entered at `X17`, left at `X18` -/

/-- After the host stretch `hostOps8` (region 8's entry). -/
abbrev X17 (c : Dev nD) : Valuation τ sig (Elt F) := StableHlo.after hostOps8 (X16 m c)
/-- The same read at the TensorCore's references (what region 8's proof data take). -/
abbrev XT17 : (c : Dev nD) → (b : Ref sig .tc) → Buf (Elt F) ((c : Thread nD τ).loc b) := fun c b => X17 m c b
/-- At region 8's exit: its arrays at what the pipeline leaves, every other buffer as entered. -/
def X18 (c : Dev nD) : Valuation τ sig (Elt F) :=
  Pipeline.withArrays spec8 c (X17 m c) fun w => (dat8 (XT17 m) c).arrAt w cfg8.N
theorem X18_arr (c : Dev nD) (w : Fin cfg8.W) :
    X18 m c (Proc.devRef .tc (Pipeline.arrRef spec8 w)) = (dat8 (XT17 m) c).arrAt w cfg8.N := by
  unfold X18; exact Pipeline.withArrays_arr spec8 launch8.win.arr_inj c _ _ w
theorem X18_of_ne (c : Dev nD) (b : Ref sig .tc) (hb : ∀ w, Pipeline.arrRef spec8 w ≠ b) :
    X18 m c (Proc.devRef .tc b) = X17 m c (Proc.devRef .tc b) := by
  unfold X18; exact Pipeline.withArrays_of_ne spec8 c _ _ b hb
/-- The same read at the TensorCore's references (region 8's exit contents). -/
abbrev XT18 : (c : Dev nD) → (b : Ref sig .tc) → Buf (Elt F) ((c : Thread nD τ).loc b) := fun c b => X18 m c b
/-- At the exit each array of the region holds what the pipeline leaves, and every other buffer what it held at entry. -/
theorem hF8 (c : Dev nD) (w : Fin cfg8.W) : (dat8 (XT17 m) c).arrAt w cfg8.N = XT18 m c (Pipeline.arrRef spec8 w) :=
  (X18_arr m c w).symm
theorem hrest8 (c : Dev nD) : ∀ b, b ∉ Finset.univ.image (Pipeline.arrRef spec8) → XT18 m c b = XT17 m c b :=
  fun b hb => X18_of_ne m c b fun w e => hb (Finset.mem_image.mpr ⟨w, Finset.mem_univ _, e⟩)
/-- An input window's array is never written back: it is left as entered. -/
theorem X18_in (c : Dev nD) (w : Fin cfg8.W) (hin : (cfg8.win w).isOut = false) :
    X18 m c (Proc.devRef .tc (Pipeline.arrRef spec8 w)) = X17 m c (Proc.devRef .tc (Pipeline.arrRef spec8 w)) :=
  (X18_arr m c w).trans (((dat8 (XT17 m) c).arrAt_in w hin cfg8.N).trans (A_eq8 (XT17 m) c w))
/-- So whatever is not the array of an OUTPUT window is left as entered. -/
theorem X18_keep (c : Dev nD) (b : DevRef τ sig)
    (hb : ∀ w, (cfg8.win w).isOut = true → Proc.devRef .tc (Pipeline.arrRef spec8 w) ≠ b) : X18 m c b = X17 m c b := by
  by_cases h : ∃ w, Proc.devRef .tc (Pipeline.arrRef spec8 w) = b
  · obtain ⟨w, rfl⟩ := h
    cases hio : (cfg8.win w).isOut with
    | false => exact X18_in m c w hio
    | true => exact absurd rfl (hb w hio)
  · unfold X18
    exact withArrays_of_not_arr _ _ _ _ b fun w e => h ⟨w, e⟩
/-- The output windows' arrays, by name. -/
theorem outArr8 : ∀ w : Fin cfg8.W, (cfg8.win w).isOut = true →
    Pipeline.arrRef spec8 w = main_v96_0 ∨ Pipeline.arrRef spec8 w = main_v96_1 := by decide

/-! ## Region 9: entered at `X19`, left at `X20` -/

/-- After the host stretch `hostOps9` (region 9's entry). -/
abbrev X19 (c : Dev nD) : Valuation τ sig (Elt F) := StableHlo.after hostOps9 (X18 m c)
/-- The same read at the TensorCore's references (what region 9's proof data take). -/
abbrev XT19 : (c : Dev nD) → (b : Ref sig .tc) → Buf (Elt F) ((c : Thread nD τ).loc b) := fun c b => X19 m c b
/-- At region 9's exit: its arrays at what the pipeline leaves, every other buffer as entered. -/
def X20 (c : Dev nD) : Valuation τ sig (Elt F) :=
  Pipeline.withArrays spec9 c (X19 m c) fun w => (dat9 (XT19 m) c).arrAt w cfg9.N
theorem X20_arr (c : Dev nD) (w : Fin cfg9.W) :
    X20 m c (Proc.devRef .tc (Pipeline.arrRef spec9 w)) = (dat9 (XT19 m) c).arrAt w cfg9.N := by
  unfold X20; exact Pipeline.withArrays_arr spec9 launch9.win.arr_inj c _ _ w
theorem X20_of_ne (c : Dev nD) (b : Ref sig .tc) (hb : ∀ w, Pipeline.arrRef spec9 w ≠ b) :
    X20 m c (Proc.devRef .tc b) = X19 m c (Proc.devRef .tc b) := by
  unfold X20; exact Pipeline.withArrays_of_ne spec9 c _ _ b hb
/-- The same read at the TensorCore's references (region 9's exit contents). -/
abbrev XT20 : (c : Dev nD) → (b : Ref sig .tc) → Buf (Elt F) ((c : Thread nD τ).loc b) := fun c b => X20 m c b
/-- At the exit each array of the region holds what the pipeline leaves, and every other buffer what it held at entry. -/
theorem hF9 (c : Dev nD) (w : Fin cfg9.W) : (dat9 (XT19 m) c).arrAt w cfg9.N = XT20 m c (Pipeline.arrRef spec9 w) :=
  (X20_arr m c w).symm
theorem hrest9 (c : Dev nD) : ∀ b, b ∉ Finset.univ.image (Pipeline.arrRef spec9) → XT20 m c b = XT19 m c b :=
  fun b hb => X20_of_ne m c b fun w e => hb (Finset.mem_image.mpr ⟨w, Finset.mem_univ _, e⟩)
/-- An input window's array is never written back: it is left as entered. -/
theorem X20_in (c : Dev nD) (w : Fin cfg9.W) (hin : (cfg9.win w).isOut = false) :
    X20 m c (Proc.devRef .tc (Pipeline.arrRef spec9 w)) = X19 m c (Proc.devRef .tc (Pipeline.arrRef spec9 w)) :=
  (X20_arr m c w).trans (((dat9 (XT19 m) c).arrAt_in w hin cfg9.N).trans (A_eq9 (XT19 m) c w))
/-- So whatever is not the array of an OUTPUT window is left as entered. -/
theorem X20_keep (c : Dev nD) (b : DevRef τ sig)
    (hb : ∀ w, (cfg9.win w).isOut = true → Proc.devRef .tc (Pipeline.arrRef spec9 w) ≠ b) : X20 m c b = X19 m c b := by
  by_cases h : ∃ w, Proc.devRef .tc (Pipeline.arrRef spec9 w) = b
  · obtain ⟨w, rfl⟩ := h
    cases hio : (cfg9.win w).isOut with
    | false => exact X20_in m c w hio
    | true => exact absurd rfl (hb w hio)
  · unfold X20
    exact withArrays_of_not_arr _ _ _ _ b fun w e => h ⟨w, e⟩
/-- The output windows' arrays, by name. -/
theorem outArr9 : ∀ w : Fin cfg9.W, (cfg9.win w).isOut = true →
    Pipeline.arrRef spec9 w = main_v100 := by decide

/-! ## Region 10: entered at `X21`, left at `X22` -/

/-- After the host stretch `hostOps10` (region 10's entry). -/
abbrev X21 (c : Dev nD) : Valuation τ sig (Elt F) := StableHlo.after hostOps10 (X20 m c)
/-- The same read at the TensorCore's references (what region 10's proof data take). -/
abbrev XT21 : (c : Dev nD) → (b : Ref sig .tc) → Buf (Elt F) ((c : Thread nD τ).loc b) := fun c b => X21 m c b
/-- At region 10's exit: its arrays at what the pipeline leaves, every other buffer as entered. -/
def X22 (c : Dev nD) : Valuation τ sig (Elt F) :=
  Pipeline.withArrays spec10 c (X21 m c) fun w => (dat10 (XT21 m) c).arrAt w cfg10.N
theorem X22_arr (c : Dev nD) (w : Fin cfg10.W) :
    X22 m c (Proc.devRef .tc (Pipeline.arrRef spec10 w)) = (dat10 (XT21 m) c).arrAt w cfg10.N := by
  unfold X22; exact Pipeline.withArrays_arr spec10 launch10.win.arr_inj c _ _ w
theorem X22_of_ne (c : Dev nD) (b : Ref sig .tc) (hb : ∀ w, Pipeline.arrRef spec10 w ≠ b) :
    X22 m c (Proc.devRef .tc b) = X21 m c (Proc.devRef .tc b) := by
  unfold X22; exact Pipeline.withArrays_of_ne spec10 c _ _ b hb
/-- The same read at the TensorCore's references (region 10's exit contents). -/
abbrev XT22 : (c : Dev nD) → (b : Ref sig .tc) → Buf (Elt F) ((c : Thread nD τ).loc b) := fun c b => X22 m c b
/-- At the exit each array of the region holds what the pipeline leaves, and every other buffer what it held at entry. -/
theorem hF10 (c : Dev nD) (w : Fin cfg10.W) : (dat10 (XT21 m) c).arrAt w cfg10.N = XT22 m c (Pipeline.arrRef spec10 w) :=
  (X22_arr m c w).symm
theorem hrest10 (c : Dev nD) : ∀ b, b ∉ Finset.univ.image (Pipeline.arrRef spec10) → XT22 m c b = XT21 m c b :=
  fun b hb => X22_of_ne m c b fun w e => hb (Finset.mem_image.mpr ⟨w, Finset.mem_univ _, e⟩)
/-- An input window's array is never written back: it is left as entered. -/
theorem X22_in (c : Dev nD) (w : Fin cfg10.W) (hin : (cfg10.win w).isOut = false) :
    X22 m c (Proc.devRef .tc (Pipeline.arrRef spec10 w)) = X21 m c (Proc.devRef .tc (Pipeline.arrRef spec10 w)) :=
  (X22_arr m c w).trans (((dat10 (XT21 m) c).arrAt_in w hin cfg10.N).trans (A_eq10 (XT21 m) c w))
/-- So whatever is not the array of an OUTPUT window is left as entered. -/
theorem X22_keep (c : Dev nD) (b : DevRef τ sig)
    (hb : ∀ w, (cfg10.win w).isOut = true → Proc.devRef .tc (Pipeline.arrRef spec10 w) ≠ b) : X22 m c b = X21 m c b := by
  by_cases h : ∃ w, Proc.devRef .tc (Pipeline.arrRef spec10 w) = b
  · obtain ⟨w, rfl⟩ := h
    cases hio : (cfg10.win w).isOut with
    | false => exact X22_in m c w hio
    | true => exact absurd rfl (hb w hio)
  · unfold X22
    exact withArrays_of_not_arr _ _ _ _ b fun w e => h ⟨w, e⟩
/-- The output windows' arrays, by name. -/
theorem outArr10 : ∀ w : Fin cfg10.W, (cfg10.win w).isOut = true →
    Pipeline.arrRef spec10 w = main_v103_0 ∨ Pipeline.arrRef spec10 w = main_v103_1 := by decide

/-! ## Region 11: entered at `X23`, left at `X24` -/

/-- After the host stretch `hostOps11` (region 11's entry). -/
abbrev X23 (c : Dev nD) : Valuation τ sig (Elt F) := StableHlo.after hostOps11 (X22 m c)
/-- The same read at the TensorCore's references (what region 11's proof data take). -/
abbrev XT23 : (c : Dev nD) → (b : Ref sig .tc) → Buf (Elt F) ((c : Thread nD τ).loc b) := fun c b => X23 m c b
/-- At region 11's exit: its arrays at what the pipeline leaves, every other buffer as entered. -/
def X24 (c : Dev nD) : Valuation τ sig (Elt F) :=
  Pipeline.withArrays spec11 c (X23 m c) fun w => (dat11 (XT23 m) c).arrAt w cfg11.N
theorem X24_arr (c : Dev nD) (w : Fin cfg11.W) :
    X24 m c (Proc.devRef .tc (Pipeline.arrRef spec11 w)) = (dat11 (XT23 m) c).arrAt w cfg11.N := by
  unfold X24; exact Pipeline.withArrays_arr spec11 launch11.win.arr_inj c _ _ w
theorem X24_of_ne (c : Dev nD) (b : Ref sig .tc) (hb : ∀ w, Pipeline.arrRef spec11 w ≠ b) :
    X24 m c (Proc.devRef .tc b) = X23 m c (Proc.devRef .tc b) := by
  unfold X24; exact Pipeline.withArrays_of_ne spec11 c _ _ b hb
/-- The same read at the TensorCore's references (region 11's exit contents). -/
abbrev XT24 : (c : Dev nD) → (b : Ref sig .tc) → Buf (Elt F) ((c : Thread nD τ).loc b) := fun c b => X24 m c b
/-- At the exit each array of the region holds what the pipeline leaves, and every other buffer what it held at entry. -/
theorem hF11 (c : Dev nD) (w : Fin cfg11.W) : (dat11 (XT23 m) c).arrAt w cfg11.N = XT24 m c (Pipeline.arrRef spec11 w) :=
  (X24_arr m c w).symm
theorem hrest11 (c : Dev nD) : ∀ b, b ∉ Finset.univ.image (Pipeline.arrRef spec11) → XT24 m c b = XT23 m c b :=
  fun b hb => X24_of_ne m c b fun w e => hb (Finset.mem_image.mpr ⟨w, Finset.mem_univ _, e⟩)
/-- An input window's array is never written back: it is left as entered. -/
theorem X24_in (c : Dev nD) (w : Fin cfg11.W) (hin : (cfg11.win w).isOut = false) :
    X24 m c (Proc.devRef .tc (Pipeline.arrRef spec11 w)) = X23 m c (Proc.devRef .tc (Pipeline.arrRef spec11 w)) :=
  (X24_arr m c w).trans (((dat11 (XT23 m) c).arrAt_in w hin cfg11.N).trans (A_eq11 (XT23 m) c w))
/-- So whatever is not the array of an OUTPUT window is left as entered. -/
theorem X24_keep (c : Dev nD) (b : DevRef τ sig)
    (hb : ∀ w, (cfg11.win w).isOut = true → Proc.devRef .tc (Pipeline.arrRef spec11 w) ≠ b) : X24 m c b = X23 m c b := by
  by_cases h : ∃ w, Proc.devRef .tc (Pipeline.arrRef spec11 w) = b
  · obtain ⟨w, rfl⟩ := h
    cases hio : (cfg11.win w).isOut with
    | false => exact X24_in m c w hio
    | true => exact absurd rfl (hb w hio)
  · unfold X24
    exact withArrays_of_not_arr _ _ _ _ b fun w e => h ⟨w, e⟩
/-- The output windows' arrays, by name. -/
theorem outArr11 : ∀ w : Fin cfg11.W, (cfg11.win w).isOut = true →
    Pipeline.arrRef spec11 w = main_v107 := by decide

/-! # What the regions leave, read off the chain

`outs J r c` is the contents of `r` on core `c` after item `J − 1`; the conditional frame reads it only at a region's
output arrays, at the even `J` after that region. -/
def outs : Outs (F := F) := fun J r c => match J with
  | 2 => X2 m c r
  | 4 => X4 m c r
  | 6 => X6 m c r
  | 8 => X8 m c r
  | 10 => X10 m c r
  | 12 => X12 m c r
  | 14 => X14 m c r
  | 16 => X16 m c r
  | 18 => X18 m c r
  | 20 => X20 m c r
  | 22 => X22 m c r
  | 24 => X24 m c r
  | _ => X0 m c r

/-! # The conditional frame's valuations, at these `outs`, are the chain -/

theorem V1_eq (c : Dev nD) : V1 m c = X1 m c := rfl
theorem V2_eq (c : Dev nD) : V2 m (outs m) c = X2 m c := by
  funext b
  show (Function.update (Function.update (Function.update (V1 m c) (Proc.devRef .tc main_v11_0) (outs m 2 main_v11_0 c)) (Proc.devRef .tc main_v11_1) (outs m 2 main_v11_1 c)) (Proc.devRef .tc main_v11_2) (outs m 2 main_v11_2 c) : Valuation τ sig (Elt F)) b = _
  by_cases h0 : b = Proc.devRef .tc main_v11_2
  · subst h0; rw [Function.update_self]; rfl
  rw [Function.update_of_ne h0]
  by_cases h1 : b = Proc.devRef .tc main_v11_1
  · subst h1; rw [Function.update_self]; rfl
  rw [Function.update_of_ne h1]
  by_cases h2 : b = Proc.devRef .tc main_v11_0
  · subst h2; rw [Function.update_self]; rfl
  rw [Function.update_of_ne h2]
  refine (congrFun (V1_eq m c) b).trans (X2_keep m c b fun w hw e => ?_).symm
  rcases outArr0 w hw with h | h | h
  all_goals (rw [h] at e)
  all_goals first | exact h0 e.symm | exact h1 e.symm | exact h2 e.symm
theorem V3_eq (c : Dev nD) : V3 m (outs m) c = X3 m c := congrArg (StableHlo.after hostOps1) (V2_eq m c)
theorem V4_eq (c : Dev nD) : V4 m (outs m) c = X4 m c := by
  funext b
  show (Function.update (Function.update (Function.update (V3 m (outs m) c) (Proc.devRef .tc main_v29_0) (outs m 4 main_v29_0 c)) (Proc.devRef .tc main_v29_1) (outs m 4 main_v29_1 c)) (Proc.devRef .tc main_v29_2) (outs m 4 main_v29_2 c) : Valuation τ sig (Elt F)) b = _
  by_cases h0 : b = Proc.devRef .tc main_v29_2
  · subst h0; rw [Function.update_self]; rfl
  rw [Function.update_of_ne h0]
  by_cases h1 : b = Proc.devRef .tc main_v29_1
  · subst h1; rw [Function.update_self]; rfl
  rw [Function.update_of_ne h1]
  by_cases h2 : b = Proc.devRef .tc main_v29_0
  · subst h2; rw [Function.update_self]; rfl
  rw [Function.update_of_ne h2]
  refine (congrFun (V3_eq m c) b).trans (X4_keep m c b fun w hw e => ?_).symm
  rcases outArr1 w hw with h | h | h
  all_goals (rw [h] at e)
  all_goals first | exact h0 e.symm | exact h1 e.symm | exact h2 e.symm
theorem V5_eq (c : Dev nD) : V5 m (outs m) c = X5 m c := congrArg (StableHlo.after hostOps2) (V4_eq m c)
theorem V6_eq (c : Dev nD) : V6 m (outs m) c = X6 m c := by
  funext b
  show (Function.update (Function.update (V5 m (outs m) c) (Proc.devRef .tc main_v46_0) (outs m 6 main_v46_0 c)) (Proc.devRef .tc main_v46_1) (outs m 6 main_v46_1 c) : Valuation τ sig (Elt F)) b = _
  by_cases h0 : b = Proc.devRef .tc main_v46_1
  · subst h0; rw [Function.update_self]; rfl
  rw [Function.update_of_ne h0]
  by_cases h1 : b = Proc.devRef .tc main_v46_0
  · subst h1; rw [Function.update_self]; rfl
  rw [Function.update_of_ne h1]
  refine (congrFun (V5_eq m c) b).trans (X6_keep m c b fun w hw e => ?_).symm
  rcases outArr2 w hw with h | h
  all_goals (rw [h] at e)
  all_goals first | exact h0 e.symm | exact h1 e.symm
theorem V7_eq (c : Dev nD) : V7 m (outs m) c = X7 m c := congrArg (StableHlo.after hostOps3) (V6_eq m c)
theorem V8_eq (c : Dev nD) : V8 m (outs m) c = X8 m c := by
  funext b
  show (Function.update (V7 m (outs m) c) (Proc.devRef .tc main_v50) (outs m 8 main_v50 c) : Valuation τ sig (Elt F)) b = _
  by_cases h0 : b = Proc.devRef .tc main_v50
  · subst h0; rw [Function.update_self]; rfl
  rw [Function.update_of_ne h0]
  refine (congrFun (V7_eq m c) b).trans (X8_keep m c b fun w hw e => ?_).symm
  rcases outArr3 w hw with h
  all_goals (rw [h] at e)
  all_goals first | exact h0 e.symm
theorem V9_eq (c : Dev nD) : V9 m (outs m) c = X9 m c := congrArg (StableHlo.after hostOps4) (V8_eq m c)
theorem V10_eq (c : Dev nD) : V10 m (outs m) c = X10 m c := by
  funext b
  show (Function.update (Function.update (V9 m (outs m) c) (Proc.devRef .tc main_v53_0) (outs m 10 main_v53_0 c)) (Proc.devRef .tc main_v53_1) (outs m 10 main_v53_1 c) : Valuation τ sig (Elt F)) b = _
  by_cases h0 : b = Proc.devRef .tc main_v53_1
  · subst h0; rw [Function.update_self]; rfl
  rw [Function.update_of_ne h0]
  by_cases h1 : b = Proc.devRef .tc main_v53_0
  · subst h1; rw [Function.update_self]; rfl
  rw [Function.update_of_ne h1]
  refine (congrFun (V9_eq m c) b).trans (X10_keep m c b fun w hw e => ?_).symm
  rcases outArr4 w hw with h | h
  all_goals (rw [h] at e)
  all_goals first | exact h0 e.symm | exact h1 e.symm
theorem V11_eq (c : Dev nD) : V11 m (outs m) c = X11 m c := congrArg (StableHlo.after hostOps5) (V10_eq m c)
theorem V12_eq (c : Dev nD) : V12 m (outs m) c = X12 m c := by
  funext b
  show (Function.update (Function.update (Function.update (V11 m (outs m) c) (Proc.devRef .tc main_v57_0) (outs m 12 main_v57_0 c)) (Proc.devRef .tc main_v57_1) (outs m 12 main_v57_1 c)) (Proc.devRef .tc main_v57_2) (outs m 12 main_v57_2 c) : Valuation τ sig (Elt F)) b = _
  by_cases h0 : b = Proc.devRef .tc main_v57_2
  · subst h0; rw [Function.update_self]; rfl
  rw [Function.update_of_ne h0]
  by_cases h1 : b = Proc.devRef .tc main_v57_1
  · subst h1; rw [Function.update_self]; rfl
  rw [Function.update_of_ne h1]
  by_cases h2 : b = Proc.devRef .tc main_v57_0
  · subst h2; rw [Function.update_self]; rfl
  rw [Function.update_of_ne h2]
  refine (congrFun (V11_eq m c) b).trans (X12_keep m c b fun w hw e => ?_).symm
  rcases outArr5 w hw with h | h | h
  all_goals (rw [h] at e)
  all_goals first | exact h0 e.symm | exact h1 e.symm | exact h2 e.symm
theorem V13_eq (c : Dev nD) : V13 m (outs m) c = X13 m c := congrArg (StableHlo.after hostOps6) (V12_eq m c)
theorem V14_eq (c : Dev nD) : V14 m (outs m) c = X14 m c := by
  funext b
  show (Function.update (V13 m (outs m) c) (Proc.devRef .tc main_v75) (outs m 14 main_v75 c) : Valuation τ sig (Elt F)) b = _
  by_cases h0 : b = Proc.devRef .tc main_v75
  · subst h0; rw [Function.update_self]; rfl
  rw [Function.update_of_ne h0]
  refine (congrFun (V13_eq m c) b).trans (X14_keep m c b fun w hw e => ?_).symm
  rcases outArr6 w hw with h
  all_goals (rw [h] at e)
  all_goals first | exact h0 e.symm
theorem V15_eq (c : Dev nD) : V15 m (outs m) c = X15 m c := congrArg (StableHlo.after hostOps7) (V14_eq m c)
theorem V16_eq (c : Dev nD) : V16 m (outs m) c = X16 m c := by
  funext b
  show (Function.update (Function.update (Function.update (V15 m (outs m) c) (Proc.devRef .tc main_v79_0) (outs m 16 main_v79_0 c)) (Proc.devRef .tc main_v79_1) (outs m 16 main_v79_1 c)) (Proc.devRef .tc main_v79_2) (outs m 16 main_v79_2 c) : Valuation τ sig (Elt F)) b = _
  by_cases h0 : b = Proc.devRef .tc main_v79_2
  · subst h0; rw [Function.update_self]; rfl
  rw [Function.update_of_ne h0]
  by_cases h1 : b = Proc.devRef .tc main_v79_1
  · subst h1; rw [Function.update_self]; rfl
  rw [Function.update_of_ne h1]
  by_cases h2 : b = Proc.devRef .tc main_v79_0
  · subst h2; rw [Function.update_self]; rfl
  rw [Function.update_of_ne h2]
  refine (congrFun (V15_eq m c) b).trans (X16_keep m c b fun w hw e => ?_).symm
  rcases outArr7 w hw with h | h | h
  all_goals (rw [h] at e)
  all_goals first | exact h0 e.symm | exact h1 e.symm | exact h2 e.symm
theorem V17_eq (c : Dev nD) : V17 m (outs m) c = X17 m c := congrArg (StableHlo.after hostOps8) (V16_eq m c)
theorem V18_eq (c : Dev nD) : V18 m (outs m) c = X18 m c := by
  funext b
  show (Function.update (Function.update (V17 m (outs m) c) (Proc.devRef .tc main_v96_0) (outs m 18 main_v96_0 c)) (Proc.devRef .tc main_v96_1) (outs m 18 main_v96_1 c) : Valuation τ sig (Elt F)) b = _
  by_cases h0 : b = Proc.devRef .tc main_v96_1
  · subst h0; rw [Function.update_self]; rfl
  rw [Function.update_of_ne h0]
  by_cases h1 : b = Proc.devRef .tc main_v96_0
  · subst h1; rw [Function.update_self]; rfl
  rw [Function.update_of_ne h1]
  refine (congrFun (V17_eq m c) b).trans (X18_keep m c b fun w hw e => ?_).symm
  rcases outArr8 w hw with h | h
  all_goals (rw [h] at e)
  all_goals first | exact h0 e.symm | exact h1 e.symm
theorem V19_eq (c : Dev nD) : V19 m (outs m) c = X19 m c := congrArg (StableHlo.after hostOps9) (V18_eq m c)
theorem V20_eq (c : Dev nD) : V20 m (outs m) c = X20 m c := by
  funext b
  show (Function.update (V19 m (outs m) c) (Proc.devRef .tc main_v100) (outs m 20 main_v100 c) : Valuation τ sig (Elt F)) b = _
  by_cases h0 : b = Proc.devRef .tc main_v100
  · subst h0; rw [Function.update_self]; rfl
  rw [Function.update_of_ne h0]
  refine (congrFun (V19_eq m c) b).trans (X20_keep m c b fun w hw e => ?_).symm
  rcases outArr9 w hw with h
  all_goals (rw [h] at e)
  all_goals first | exact h0 e.symm
theorem V21_eq (c : Dev nD) : V21 m (outs m) c = X21 m c := congrArg (StableHlo.after hostOps10) (V20_eq m c)
theorem V22_eq (c : Dev nD) : V22 m (outs m) c = X22 m c := by
  funext b
  show (Function.update (Function.update (V21 m (outs m) c) (Proc.devRef .tc main_v103_0) (outs m 22 main_v103_0 c)) (Proc.devRef .tc main_v103_1) (outs m 22 main_v103_1 c) : Valuation τ sig (Elt F)) b = _
  by_cases h0 : b = Proc.devRef .tc main_v103_1
  · subst h0; rw [Function.update_self]; rfl
  rw [Function.update_of_ne h0]
  by_cases h1 : b = Proc.devRef .tc main_v103_0
  · subst h1; rw [Function.update_self]; rfl
  rw [Function.update_of_ne h1]
  refine (congrFun (V21_eq m c) b).trans (X22_keep m c b fun w hw e => ?_).symm
  rcases outArr10 w hw with h | h
  all_goals (rw [h] at e)
  all_goals first | exact h0 e.symm | exact h1 e.symm
theorem V23_eq (c : Dev nD) : V23 m (outs m) c = X23 m c := congrArg (StableHlo.after hostOps11) (V22_eq m c)
theorem V24_eq (c : Dev nD) : V24 m (outs m) c = X24 m c := by
  funext b
  show (Function.update (V23 m (outs m) c) (Proc.devRef .tc main_v107) (outs m 24 main_v107 c) : Valuation τ sig (Elt F)) b = _
  by_cases h0 : b = Proc.devRef .tc main_v107
  · subst h0; rw [Function.update_self]; rfl
  rw [Function.update_of_ne h0]
  refine (congrFun (V23_eq m c) b).trans (X24_keep m c b fun w hw e => ?_).symm
  rcases outArr11 w hw with h
  all_goals (rw [h] at e)
  all_goals first | exact h0 e.symm

/-! # The proof data family and what rides beside the buffers -/

/-- Every pipeline's proof data, each at its region's entry contents — a literal `match`, so that the family at a numeral
    reduces to that region's data. -/
def pdats : (p : Fin 12) → (c : Dev nD) → Dat τ (Elt F) Unit ℕ (UR sig nD τ) ℕ (Pipeline.pin (pcfgs (F := F)) adm p) c
  | ⟨0, _⟩ => fun c => dat0 (XT1 m) c
  | ⟨1, _⟩ => fun c => dat1 (XT3 m) c
  | ⟨2, _⟩ => fun c => dat2 (XT5 m) c
  | ⟨3, _⟩ => fun c => dat3 (XT7 m) c
  | ⟨4, _⟩ => fun c => dat4 (XT9 m) c
  | ⟨5, _⟩ => fun c => dat5 (XT11 m) c
  | ⟨6, _⟩ => fun c => dat6 (XT13 m) c
  | ⟨7, _⟩ => fun c => dat7 (XT15 m) c
  | ⟨8, _⟩ => fun c => dat8 (XT17 m) c
  | ⟨9, _⟩ => fun c => dat9 (XT19 m) c
  | ⟨10, _⟩ => fun c => dat10 (XT21 m) c
  | ⟨11, _⟩ => fun c => dat11 (XT23 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)

end Cert.KernelIdeal.Fr

end
-- ==== Proof.KI.Run1.lean ====
import proofs.«117664_g2000706958607885_pallasbulk_534_41_alg».proof.Proof.KI.RunDefs

set_option maxRecDepth 16384

noncomputable section

namespace Cert.KernelIdeal.Fr

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The regions as segments of the run -/

set_option backward.isDefEq.respectTransparency.types false in
/-- REGION 0 over the thread state: entered with every unscoped buffer at `X1`, left with them at `X2`. Its arrays
    are split out of the unscoped buffers at entry and put back at the exit contents; the generator register goes into
    the pipeline's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (XT1 m) c).loose
  hwaits := Pipeline.hwaits_of_owed_zero _ _ _ _ L lv 0 fun _ _ => rfl
  pre c := iprop(StableHlo.held (c : Thread nD τ) (Pipeline.ucRefs τ sig) (X1 m c) ∗ R c)
  post c := iprop(StableHlo.held (c : Thread nD τ) (Pipeline.ucRefs τ sig) (X2 m c) ∗ R c)
  X c := iprop(∃ r, prngReg c r)
  Y c := iprop(∃ r, prngReg c r)
  Z c := Pipeline.unscopedRest (Ix := Unit) (Name := ℕ) (U := UR sig nD τ) (Lvl := ℕ) spec0 c (XT1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (XT1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (XT1 m c) (XT2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered with every unscoped buffer at `X3`, left with them at `X4`. Its arrays
    are split out of the unscoped buffers at entry and put back at the exit contents; the generator register goes into
    the pipeline's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (XT3 m) c).loose
  hwaits := Pipeline.hwaits_of_owed_zero _ _ _ _ L lv 1 fun _ _ => rfl
  pre c := iprop(StableHlo.held (c : Thread nD τ) (Pipeline.ucRefs τ sig) (X3 m c) ∗ R c)
  post c := iprop(StableHlo.held (c : Thread nD τ) (Pipeline.ucRefs τ sig) (X4 m c) ∗ R c)
  X c := iprop(∃ r, prngReg c r)
  Y c := iprop(∃ r, prngReg c r)
  Z c := Pipeline.unscopedRest (Ix := Unit) (Name := ℕ) (U := UR sig nD τ) (Lvl := ℕ) spec1 c (XT3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (XT3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (XT3 m c) (XT4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered with every unscoped buffer at `X5`, left with them at `X6`. Its arrays
    are split out of the unscoped buffers at entry and put back at the exit contents; the generator register goes into
    the pipeline's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (XT5 m) c).loose
  hwaits := Pipeline.hwaits_of_owed_zero _ _ _ _ L lv 2 fun _ _ => rfl
  pre c := iprop(StableHlo.held (c : Thread nD τ) (Pipeline.ucRefs τ sig) (X5 m c) ∗ R c)
  post c := iprop(StableHlo.held (c : Thread nD τ) (Pipeline.ucRefs τ sig) (X6 m c) ∗ R c)
  X c := iprop(∃ r, prngReg c r)
  Y c := iprop(∃ r, prngReg c r)
  Z c := Pipeline.unscopedRest (Ix := Unit) (Name := ℕ) (U := UR sig nD τ) (Lvl := ℕ) spec2 c (XT5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (XT5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (XT5 m c) (XT6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered with every unscoped buffer at `X7`, left with them at `X8`. Its arrays
    are split out of the unscoped buffers at entry and put back at the exit contents; the generator register goes into
    the pipeline's invariant and comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (XT7 m) c).loose
  hwaits := Pipeline.hwaits_of_owed_zero _ _ _ _ L lv 3 fun _ _ => rfl
  pre c := iprop(StableHlo.held (c : Thread nD τ) (Pipeline.ucRefs τ sig) (X7 m c) ∗ R c)
  post c := iprop(StableHlo.held (c : Thread nD τ) (Pipeline.ucRefs τ sig) (X8 m c) ∗ R c)
  X c := iprop(∃ r, prngReg c r)
  Y c := iprop(∃ r, prngReg c r)
  Z c := Pipeline.unscopedRest (Ix := Unit) (Name := ℕ) (U := UR sig nD τ) (Lvl := ℕ) spec3 c (XT7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (XT7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (XT7 m c) (XT8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Run2.lean ====
import proofs.«117664_g2000706958607885_pallasbulk_534_41_alg».proof.Proof.KI.RunDefs

set_option maxRecDepth 16384

noncomputable section

namespace Cert.KernelIdeal.Fr

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The regions as segments of the run -/

set_option backward.isDefEq.respectTransparency.types false in
/-- REGION 4 over the thread state: entered with every unscoped buffer at `X9`, left with them at `X10`. Its arrays
    are split out of the unscoped buffers at entry and put back at the exit contents; the generator register goes into
    the pipeline's invariant and comes back; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (XT9 m) c).loose
  hwaits := Pipeline.hwaits_of_owed_zero _ _ _ _ L lv 4 fun _ _ => rfl
  pre c := iprop(StableHlo.held (c : Thread nD τ) (Pipeline.ucRefs τ sig) (X9 m c) ∗ R c)
  post c := iprop(StableHlo.held (c : Thread nD τ) (Pipeline.ucRefs τ sig) (X10 m c) ∗ R c)
  X c := iprop(∃ r, prngReg c r)
  Y c := iprop(∃ r, prngReg c r)
  Z c := Pipeline.unscopedRest (Ix := Unit) (Name := ℕ) (U := UR sig nD τ) (Lvl := ℕ) spec4 c (XT9 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (XT9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (XT9 m c) (XT10 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 5 over the thread state: entered with every unscoped buffer at `X11`, left with them at `X12`. Its arrays
    are split out of the unscoped buffers at entry and put back at the exit contents; the generator register goes into
    the pipeline's invariant and comes back; nothing is owed; the kernel has no semaphore of its own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (XT11 m) c).loose
  hwaits := Pipeline.hwaits_of_owed_zero _ _ _ _ L lv 5 fun _ _ => rfl
  pre c := iprop(StableHlo.held (c : Thread nD τ) (Pipeline.ucRefs τ sig) (X11 m c) ∗ R c)
  post c := iprop(StableHlo.held (c : Thread nD τ) (Pipeline.ucRefs τ sig) (X12 m c) ∗ R c)
  X c := iprop(∃ r, prngReg c r)
  Y c := iprop(∃ r, prngReg c r)
  Z c := Pipeline.unscopedRest (Ix := Unit) (Name := ℕ) (U := UR sig nD τ) (Lvl := ℕ) spec5 c (XT11 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (XT11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (XT11 m c) (XT12 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 6 over the thread state: entered with every unscoped buffer at `X13`, left with them at `X14`. Its arrays
    are split out of the unscoped buffers at entry and put back at the exit contents; the generator register goes into
    the pipeline's invariant and comes back; nothing is owed; the kernel has no semaphore of its own. -/
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (XT13 m) c).loose
  hwaits := Pipeline.hwaits_of_owed_zero _ _ _ _ L lv 6 fun _ _ => rfl
  pre c := iprop(StableHlo.held (c : Thread nD τ) (Pipeline.ucRefs τ sig) (X13 m c) ∗ R c)
  post c := iprop(StableHlo.held (c : Thread nD τ) (Pipeline.ucRefs τ sig) (X14 m c) ∗ R c)
  X c := iprop(∃ r, prngReg c r)
  Y c := iprop(∃ r, prngReg c r)
  Z c := Pipeline.unscopedRest (Ix := Unit) (Name := ℕ) (U := UR sig nD τ) (Lvl := ℕ) spec6 c (XT13 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (XT13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (XT13 m c) (XT14 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 7 over the thread state: entered with every unscoped buffer at `X15`, left with them at `X16`. Its arrays
    are split out of the unscoped buffers at entry and put back at the exit contents; the generator register goes into
    the pipeline's invariant and comes back; nothing is owed; the kernel has no semaphore of its own. -/
def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (XT15 m) c).loose
  hwaits := Pipeline.hwaits_of_owed_zero _ _ _ _ L lv 7 fun _ _ => rfl
  pre c := iprop(StableHlo.held (c : Thread nD τ) (Pipeline.ucRefs τ sig) (X15 m c) ∗ R c)
  post c := iprop(StableHlo.held (c : Thread nD τ) (Pipeline.ucRefs τ sig) (X16 m c) ∗ R c)
  X c := iprop(∃ r, prngReg c r)
  Y c := iprop(∃ r, prngReg c r)
  Z c := Pipeline.unscopedRest (Ix := Unit) (Name := ℕ) (U := UR sig nD τ) (Lvl := ℕ) spec7 c (XT15 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (XT15 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (XT15 m c) (XT16 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Run3.lean ====
import proofs.«117664_g2000706958607885_pallasbulk_534_41_alg».proof.Proof.KI.RunDefs

set_option maxRecDepth 16384

noncomputable section

namespace Cert.KernelIdeal.Fr

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The regions as segments of the run -/

set_option backward.isDefEq.respectTransparency.types false in
/-- REGION 8 over the thread state: entered with every unscoped buffer at `X17`, left with them at `X18`. Its arrays
    are split out of the unscoped buffers at entry and put back at the exit contents; the generator register goes into
    the pipeline's invariant and comes back; nothing is owed; the kernel has no semaphore of its own. -/
def reg8 : Pipeline.RegionSeg (pcfgs (F := F)) adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (XT17 m) c).loose
  hwaits := Pipeline.hwaits_of_owed_zero _ _ _ _ L lv 8 fun _ _ => rfl
  pre c := iprop(StableHlo.held (c : Thread nD τ) (Pipeline.ucRefs τ sig) (X17 m c) ∗ R c)
  post c := iprop(StableHlo.held (c : Thread nD τ) (Pipeline.ucRefs τ sig) (X18 m c) ∗ R c)
  X c := iprop(∃ r, prngReg c r)
  Y c := iprop(∃ r, prngReg c r)
  Z c := Pipeline.unscopedRest (Ix := Unit) (Name := ℕ) (U := UR sig nD τ) (Lvl := ℕ) spec8 c (XT17 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (XT17 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (XT17 m c) (XT18 m c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 9 over the thread state: entered with every unscoped buffer at `X19`, left with them at `X20`. Its arrays
    are split out of the unscoped buffers at entry and put back at the exit contents; the generator register goes into
    the pipeline's invariant and comes back; nothing is owed; the kernel has no semaphore of its own. -/
def reg9 : Pipeline.RegionSeg (pcfgs (F := F)) adm (pdats m) () defs₀ 𝒱₀ L lv 9 where
  win := launch9.win.to₀
  block_pos := launch9.block_pos
  stage_whole := launch9.stage_whole
  K := PEmpty
  osem k := k.elim
  ho := Pipeline.OwnSemFacts.none _
  hbody c := (body_obligation9 (XT19 m) c).loose
  hwaits := Pipeline.hwaits_of_owed_zero _ _ _ _ L lv 9 fun _ _ => rfl
  pre c := iprop(StableHlo.held (c : Thread nD τ) (Pipeline.ucRefs τ sig) (X19 m c) ∗ R c)
  post c := iprop(StableHlo.held (c : Thread nD τ) (Pipeline.ucRefs τ sig) (X20 m c) ∗ R c)
  X c := iprop(∃ r, prngReg c r)
  Y c := iprop(∃ r, prngReg c r)
  Z c := Pipeline.unscopedRest (Ix := Unit) (Name := ℕ) (U := UR sig nD τ) (Lvl := ℕ) spec9 c (XT19 m c)
  hentry c := by
    rw [Pipeline.ownSems0_none]
    have hsplit := Pipeline.arrays_of_unscopedBufs (p := 9) (pcfgs (F := F)) adm (pdats m) launch9.win launch9.arr_whole c
      ((pdats m 9 c).share_full fun _ => rfl) (XT19 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (XT19 m c) (XT20 m c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 10 over the thread state: entered with every unscoped buffer at `X21`, left with them at `X22`. Its arrays
    are split out of the unscoped buffers at entry and put back at the exit contents; the generator register goes into
    the pipeline's invariant and comes back; nothing is owed; the kernel has no semaphore of its own. -/
def reg10 : Pipeline.RegionSeg (pcfgs (F := F)) adm (pdats m) () defs₀ 𝒱₀ L lv 10 where
  win := launch10.win.to₀
  block_pos := launch10.block_pos
  stage_whole := launch10.stage_whole
  K := PEmpty
  osem k := k.elim
  ho := Pipeline.OwnSemFacts.none _
  hbody c := (body_obligation10 (XT21 m) c).loose
  hwaits := Pipeline.hwaits_of_owed_zero _ _ _ _ L lv 10 fun _ _ => rfl
  pre c := iprop(StableHlo.held (c : Thread nD τ) (Pipeline.ucRefs τ sig) (X21 m c) ∗ R c)
  post c := iprop(StableHlo.held (c : Thread nD τ) (Pipeline.ucRefs τ sig) (X22 m c) ∗ R c)
  X c := iprop(∃ r, prngReg c r)
  Y c := iprop(∃ r, prngReg c r)
  Z c := Pipeline.unscopedRest (Ix := Unit) (Name := ℕ) (U := UR sig nD τ) (Lvl := ℕ) spec10 c (XT21 m c)
  hentry c := by
    rw [Pipeline.ownSems0_none]
    have hsplit := Pipeline.arrays_of_unscopedBufs (p := 10) (pcfgs (F := F)) adm (pdats m) launch10.win launch10.arr_whole c
      ((pdats m 10 c).share_full fun _ => rfl) (XT21 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m) ((pdats m 10 c).share_full fun _ => rfl)
      (XT21 m c) (XT22 m c) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 11 over the thread state: entered with every unscoped buffer at `X23`, left with them at `X24`. Its arrays
    are split out of the unscoped buffers at entry and put back at the exit contents; the generator register goes into
    the pipeline's invariant and comes back; nothing is owed; the kernel has no semaphore of its own. -/
def reg11 : Pipeline.RegionSeg (pcfgs (F := F)) adm (pdats m) () defs₀ 𝒱₀ L lv 11 where
  win := launch11.win.to₀
  block_pos := launch11.block_pos
  stage_whole := launch11.stage_whole
  K := PEmpty
  osem k := k.elim
  ho := Pipeline.OwnSemFacts.none _
  hbody c := (body_obligation11 (XT23 m) c).loose
  hwaits := Pipeline.hwaits_of_owed_zero _ _ _ _ L lv 11 fun _ _ => rfl
  pre c := iprop(StableHlo.held (c : Thread nD τ) (Pipeline.ucRefs τ sig) (X23 m c) ∗ R c)
  post c := iprop(StableHlo.held (c : Thread nD τ) (Pipeline.ucRefs τ sig) (X24 m c) ∗ R c)
  X c := iprop(∃ r, prngReg c r)
  Y c := iprop(∃ r, prngReg c r)
  Z c := Pipeline.unscopedRest (Ix := Unit) (Name := ℕ) (U := UR sig nD τ) (Lvl := ℕ) spec11 c (XT23 m c)
  hentry c := by
    rw [Pipeline.ownSems0_none]
    have hsplit := Pipeline.arrays_of_unscopedBufs (p := 11) (pcfgs (F := F)) adm (pdats m) launch11.win launch11.arr_whole c
      ((pdats m 11 c).share_full fun _ => rfl) (XT23 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m) ((pdats m 11 c).share_full fun _ => rfl)
      (XT23 m c) (XT24 m c) ((pdats m 11 c).arrAt · cfg11.N) (hF11 m c) (hrest11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Run.lean ====
import proofs.«117664_g2000706958607885_pallasbulk_534_41_alg».proof.Proof.KI.Run1
import proofs.«117664_g2000706958607885_pallasbulk_534_41_alg».proof.Proof.KI.Run2
import proofs.«117664_g2000706958607885_pallasbulk_534_41_alg».proof.Proof.KI.Run3

set_option maxRecDepth 16384

noncomputable section

namespace Cert.KernelIdeal.Fr

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

/-! # The frame of the program

The conditional frame asks, per region, for a segment record entered from its valuation before the region and left at
the one after it. At the contents the regions leave as read off the chain (`outs`) those valuations are the chain
(`V<j>_eq`), so each record `reg<K>` fits as it stands; beside the buffers every item carries the generator register
and the core's dues at nothing. -/

/-- What the launch hands each core, less the buffers, makes the rest state. -/
theorem launch_rest (c : Dev nD) :
    (iprop(unscopedSems0 c ∗ owes (c : Thread nD τ) (0 : CellTallies nD τ sig Unit) ∅
      ∗ Pipeline.launchCred (fun _ : Dev nD => (0 : CellTallies nD τ sig Unit)) c ∗ prngReg c (ρ c) ∗ emp) : sProp 𝕄) ⊢ R c := by
  iintro ⟨-, HO, -, Hp, -⟩
  isplitl [Hp]; · iexists _; iexact Hp
  iexists ∅; iexact HO

/-- The same on every core at once. -/
theorem launch_rests :
    ((bigSep Finset.univ fun c : Dev nD => iprop(unscopedSems0 c ∗ owes (c : Thread nD τ) (0 : CellTallies nD τ sig Unit) ∅
      ∗ Pipeline.launchCred (fun _ : Dev nD => (0 : CellTallies nD τ sig Unit)) c ∗ prngReg c (ρ c) ∗ emp)) : sProp 𝕄)
      ⊢ bigSep Finset.univ fun c : Dev nD => (R c : sProp 𝕄) :=
  bigSep_mono fun c _ => launch_rest ρ c

/-! ## Each region's record is entered from, and left at, the conditional frame's valuations -/

theorem pre_fit0 (c : Dev nD) :
    (iprop(StableHlo.held (c : Thread nD τ) (Pipeline.ucRefs τ sig) (V1 m c) ∗ R c) : sProp 𝕄) ⊢ (reg0 m).pre c := by
  rw [V1_eq m c]; exact .rfl
theorem post_fit0 (c : Dev nD) :
    (reg0 m).post c ⊢ (iprop(StableHlo.held (c : Thread nD τ) (Pipeline.ucRefs τ sig) (V2 m (outs m) c) ∗ R c) : sProp 𝕄) := by
  rw [V2_eq m c]; exact .rfl

theorem pre_fit1 (c : Dev nD) :
    (iprop(StableHlo.held (c : Thread nD τ) (Pipeline.ucRefs τ sig) (V3 m (outs m) c) ∗ R c) : sProp 𝕄) ⊢ (reg1 m).pre c := by
  rw [V3_eq m c]; exact .rfl
theorem post_fit1 (c : Dev nD) :
    (reg1 m).post c ⊢ (iprop(StableHlo.held (c : Thread nD τ) (Pipeline.ucRefs τ sig) (V4 m (outs m) c) ∗ R c) : sProp 𝕄) := by
  rw [V4_eq m c]; exact .rfl

theorem pre_fit2 (c : Dev nD) :
    (iprop(StableHlo.held (c : Thread nD τ) (Pipeline.ucRefs τ sig) (V5 m (outs m) c) ∗ R c) : sProp 𝕄) ⊢ (reg2 m).pre c := by
  rw [V5_eq m c]; exact .rfl
theorem post_fit2 (c : Dev nD) :
    (reg2 m).post c ⊢ (iprop(StableHlo.held (c : Thread nD τ) (Pipeline.ucRefs τ sig) (V6 m (outs m) c) ∗ R c) : sProp 𝕄) := by
  rw [V6_eq m c]; exact .rfl

theorem pre_fit3 (c : Dev nD) :
    (iprop(StableHlo.held (c : Thread nD τ) (Pipeline.ucRefs τ sig) (V7 m (outs m) c) ∗ R c) : sProp 𝕄) ⊢ (reg3 m).pre c := by
  rw [V7_eq m c]; exact .rfl
theorem post_fit3 (c : Dev nD) :
    (reg3 m).post c ⊢ (iprop(StableHlo.held (c : Thread nD τ) (Pipeline.ucRefs τ sig) (V8 m (outs m) c) ∗ R c) : sProp 𝕄) := by
  rw [V8_eq m c]; exact .rfl

theorem pre_fit4 (c : Dev nD) :
    (iprop(StableHlo.held (c : Thread nD τ) (Pipeline.ucRefs τ sig) (V9 m (outs m) c) ∗ R c) : sProp 𝕄) ⊢ (reg4 m).pre c := by
  rw [V9_eq m c]; exact .rfl
theorem post_fit4 (c : Dev nD) :
    (reg4 m).post c ⊢ (iprop(StableHlo.held (c : Thread nD τ) (Pipeline.ucRefs τ sig) (V10 m (outs m) c) ∗ R c) : sProp 𝕄) := by
  rw [V10_eq m c]; exact .rfl

theorem pre_fit5 (c : Dev nD) :
    (iprop(StableHlo.held (c : Thread nD τ) (Pipeline.ucRefs τ sig) (V11 m (outs m) c) ∗ R c) : sProp 𝕄) ⊢ (reg5 m).pre c := by
  rw [V11_eq m c]; exact .rfl
theorem post_fit5 (c : Dev nD) :
    (reg5 m).post c ⊢ (iprop(StableHlo.held (c : Thread nD τ) (Pipeline.ucRefs τ sig) (V12 m (outs m) c) ∗ R c) : sProp 𝕄) := by
  rw [V12_eq m c]; exact .rfl

theorem pre_fit6 (c : Dev nD) :
    (iprop(StableHlo.held (c : Thread nD τ) (Pipeline.ucRefs τ sig) (V13 m (outs m) c) ∗ R c) : sProp 𝕄) ⊢ (reg6 m).pre c := by
  rw [V13_eq m c]; exact .rfl
theorem post_fit6 (c : Dev nD) :
    (reg6 m).post c ⊢ (iprop(StableHlo.held (c : Thread nD τ) (Pipeline.ucRefs τ sig) (V14 m (outs m) c) ∗ R c) : sProp 𝕄) := by
  rw [V14_eq m c]; exact .rfl

theorem pre_fit7 (c : Dev nD) :
    (iprop(StableHlo.held (c : Thread nD τ) (Pipeline.ucRefs τ sig) (V15 m (outs m) c) ∗ R c) : sProp 𝕄) ⊢ (reg7 m).pre c := by
  rw [V15_eq m c]; exact .rfl
theorem post_fit7 (c : Dev nD) :
    (reg7 m).post c ⊢ (iprop(StableHlo.held (c : Thread nD τ) (Pipeline.ucRefs τ sig) (V16 m (outs m) c) ∗ R c) : sProp 𝕄) := by
  rw [V16_eq m c]; exact .rfl

theorem pre_fit8 (c : Dev nD) :
    (iprop(StableHlo.held (c : Thread nD τ) (Pipeline.ucRefs τ sig) (V17 m (outs m) c) ∗ R c) : sProp 𝕄) ⊢ (reg8 m).pre c := by
  rw [V17_eq m c]; exact .rfl
theorem post_fit8 (c : Dev nD) :
    (reg8 m).post c ⊢ (iprop(StableHlo.held (c : Thread nD τ) (Pipeline.ucRefs τ sig) (V18 m (outs m) c) ∗ R c) : sProp 𝕄) := by
  rw [V18_eq m c]; exact .rfl

theorem pre_fit9 (c : Dev nD) :
    (iprop(StableHlo.held (c : Thread nD τ) (Pipeline.ucRefs τ sig) (V19 m (outs m) c) ∗ R c) : sProp 𝕄) ⊢ (reg9 m).pre c := by
  rw [V19_eq m c]; exact .rfl
theorem post_fit9 (c : Dev nD) :
    (reg9 m).post c ⊢ (iprop(StableHlo.held (c : Thread nD τ) (Pipeline.ucRefs τ sig) (V20 m (outs m) c) ∗ R c) : sProp 𝕄) := by
  rw [V20_eq m c]; exact .rfl

theorem pre_fit10 (c : Dev nD) :
    (iprop(StableHlo.held (c : Thread nD τ) (Pipeline.ucRefs τ sig) (V21 m (outs m) c) ∗ R c) : sProp 𝕄) ⊢ (reg10 m).pre c := by
  rw [V21_eq m c]; exact .rfl
theorem post_fit10 (c : Dev nD) :
    (reg10 m).post c ⊢ (iprop(StableHlo.held (c : Thread nD τ) (Pipeline.ucRefs τ sig) (V22 m (outs m) c) ∗ R c) : sProp 𝕄) := by
  rw [V22_eq m c]; exact .rfl

theorem pre_fit11 (c : Dev nD) :
    (iprop(StableHlo.held (c : Thread nD τ) (Pipeline.ucRefs τ sig) (V23 m (outs m) c) ∗ R c) : sProp 𝕄) ⊢ (reg11 m).pre c := by
  rw [V23_eq m c]; exact .rfl
theorem post_fit11 (c : Dev nD) :
    (reg11 m).post c ⊢ (iprop(StableHlo.held (c : Thread nD τ) (Pipeline.ucRefs τ sig) (V24 m (outs m) c) ∗ R c) : sProp 𝕄) := by
  rw [V24_eq m c]; exact .rfl

set_option backward.isDefEq.respectTransparency.types false in
/-- THE FRAME, at any float instance: from any memory with zero counters every weakly fair execution of @main on the
    TensorCores terminates and every final memory holds each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39)
      ∧ r.2.mem ((c.tc : Thread nD τ).loc main_arg40) = m ((c.tc : Thread nD τ).loc main_arg40)
      ∧ r.2.mem ((c.tc : Thread nD τ).loc main_arg41) = m ((c.tc : Thread nD τ).loc main_arg41)
      ∧ r.2.mem ((c.tc : Thread nD τ).loc main_arg42) = m ((c.tc : Thread nD τ).loc main_arg42)
      ∧ r.2.mem ((c.tc : Thread nD τ).loc main_arg43) = m ((c.tc : Thread nD τ).loc main_arg43)
      ∧ r.2.mem ((c.tc : Thread nD τ).loc main_arg44) = m ((c.tc : Thread nD τ).loc main_arg44)
      ∧ r.2.mem ((c.tc : Thread nD τ).loc main_arg45) = m ((c.tc : Thread nD τ).loc main_arg45)
      ∧ r.2.mem ((c.tc : Thread nD τ).loc main_arg46) = m ((c.tc : Thread nD τ).loc main_arg46)
      ∧ r.2.mem ((c.tc : Thread nD τ).loc main_arg47) = m ((c.tc : Thread nD τ).loc main_arg47)
      ∧ r.2.mem ((c.tc : Thread nD τ).loc main_arg48) = m ((c.tc : Thread nD τ).loc main_arg48)
      ∧ r.2.mem ((c.tc : Thread nD τ).loc main_arg49) = m ((c.tc : Thread nD τ).loc main_arg49)
      ∧ r.2.mem ((c.tc : Thread nD τ).loc main_arg50) = m ((c.tc : Thread nD τ).loc main_arg50)
      ∧ r.2.mem ((c.tc : Thread nD τ).loc main_arg51) = m ((c.tc : Thread nD τ).loc main_arg51)
      ∧ r.2.mem ((c.tc : Thread nD τ).loc main_arg52) = m ((c.tc : Thread nD τ).loc main_arg52)
      ∧ r.2.mem ((c.tc : Thread nD τ).loc main_arg53) = m ((c.tc : Thread nD τ).loc main_arg53)
      ∧ r.2.mem ((c.tc : Thread nD τ).loc main_arg54) = m ((c.tc : Thread nD τ).loc main_arg54)
      ∧ r.2.mem ((c.tc : Thread nD τ).loc main_arg55) = m ((c.tc : Thread nD τ).loc main_arg55)
      ∧ r.2.mem ((c.tc : Thread nD τ).loc main_arg56) = m ((c.tc : Thread nD τ).loc main_arg56)
      ∧ r.2.mem ((c.tc : Thread nD τ).loc main_arg57) = m ((c.tc : Thread nD τ).loc main_arg57)
      ∧ r.2.mem ((c.tc : Thread nD τ).loc main_arg58) = m ((c.tc : Thread nD τ).loc main_arg58)
      ∧ r.2.mem ((c.tc : Thread nD τ).loc main_arg59) = m ((c.tc : Thread nD τ).loc main_arg59)
      ∧ r.2.mem ((c.tc : Thread nD τ).loc main_arg60) = m ((c.tc : Thread nD τ).loc main_arg60)) :=
  frame_cond m (EP := emb₁) (ι := ()) (𝒱₀ := 𝒱₀) (L := L) (lv := lv) (hL := fun _ _ => rfl) (ρ := ρ) (outs := outs m)
    (pdats := pdats m) (O₀ := fun _ => 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      iintro ⟨H, -⟩
      imodintro
      iapply (launch_rests ρ)
      iexact H)
    (hE12 := fun c => by iintro ⟨-, H⟩; iexact H)
    (R0 := reg0 m) (hpre0 := pre_fit0 m) (hpost0 := post_fit0 m)
    (R1 := reg1 m) (hpre1 := pre_fit1 m) (hpost1 := post_fit1 m)
    (R2 := reg2 m) (hpre2 := pre_fit2 m) (hpost2 := post_fit2 m)
    (R3 := reg3 m) (hpre3 := pre_fit3 m) (hpost3 := post_fit3 m)
    (R4 := reg4 m) (hpre4 := pre_fit4 m) (hpost4 := post_fit4 m)
    (R5 := reg5 m) (hpre5 := pre_fit5 m) (hpost5 := post_fit5 m)
    (R6 := reg6 m) (hpre6 := pre_fit6 m) (hpost6 := post_fit6 m)
    (R7 := reg7 m) (hpre7 := pre_fit7 m) (hpost7 := post_fit7 m)
    (R8 := reg8 m) (hpre8 := pre_fit8 m) (hpost8 := post_fit8 m)
    (R9 := reg9 m) (hpre9 := pre_fit9 m) (hpost9 := post_fit9 m)
    (R10 := reg10 m) (hpre10 := pre_fit10 m) (hpost10 := post_fit10 m)
    (R11 := reg11 m) (hpre11 := pre_fit11 m) (hpost11 := post_fit11 m)

end Cert.KernelIdeal.Fr

end
-- ==== Proof.RV.Run.lean ====
/-
  The reference program's run, with its final memory named: every weakly fair execution of the reference
  terminates, and in every final state each core's buffers hold the last valuation of the fold through
  the program's segments (twelve pipelined regions and the host stretches between them).
-/
import proofs.«117664_g2000706958607885_pallasbulk_534_41_alg».proof.Proof.RefFrame

set_option maxRecDepth 16384

noncomputable section

namespace Cert.ReferenceIdeal.Val

open Cert.ReferenceIdeal Cert.ReferenceIdeal.Gen Cert.ReferenceIdeal.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the reference on the TensorCores terminates,
    and every final state holds, at each of a core's buffers, the value the fold through the segments ends with:
    the launch over the segments, the last thread state read against the final state. -/
theorem run_vals : θ_run defs (onTc (τ := τ) (main (F := F))) ⟨m, fun _ => 0, ρ⟩ (fun r => ∀ c : Dev nD,
      ∀ b ∈ Pipeline.ucRefs τ sig, r.2.mem (((c : Thread nD τ)).1, b) = W32 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W32 m ρ c b)
    (hfin := fun c s' => by
      iintro ⟨⟨Hh, -⟩, HSI⟩
      unfold StableHlo.held
      imodintro
      iapply (pointsTo_read_all (Pipeline.ucRefs τ sig) (fun b => (((c : Thread nD τ)).1, b)) (W32 m ρ c) s')
      isplitl [Hh] <;> iassumption)
    (hQ := fun _ h => h)

end Cert.ReferenceIdeal.Val

end
-- ==== Proof.Pre.lean ====
/-
  What the precondition says of the two index arrays: every entry, read signed, is a valid row number
  (nonnegative and below 16384 for the first array, below 65536 for the second).
  The precondition is a conjunction, by "and" of one-bit words, of one all-reduction per argument;
  the index arrays' two are the outermost conjuncts.
-/
import proofs.«117664_g2000706958607885_pallasbulk_534_41_alg».proof.Proof.Gen.Pre_finite_inputs
import Idealize.ShloMosaic.Lib.ReduceAll
import Idealize.ShloMosaic.PureOps.Ideal

namespace Cert.PreRead

open Idealize.ShloMosaic Cert.Pre_finite_inputs

/-- The last part of the chain: its result is 1 only if both index arrays are in range. -/
theorem part17_idx {F : FTy → Type} [FloatOps F] (a3 : IVec S2x65536 32) (a4 : IVec S2x131072 32)
    (v288 : IVec S_ 1) (v289 v290 : FVec F S1x128 .f32)
    (h : fn_part17 (F := F) a3 a4 v288 v289 v290 = fun _ => 1#1) :
    (∀ i, 0 ≤ (a3 i).toInt ∧ (a3 i).toInt < 16384) ∧ (∀ i, 0 ≤ (a4 i).toInt ∧ (a4 i).toInt < 65536) := by
  have h0 := congrFun h (fun a => a.elim0)
  unfold fn_part17 at h0
  dsimp only at h0
  change IntOp.andi (IntOp.andi _ _) _ = 1#1 at h0
  obtain ⟨h1, hB⟩ := IntOp.andi_eq_one.1 h0
  obtain ⟨_, hA⟩ := IntOp.andi_eq_one.1 h1
  refine ⟨fun i => ?_, fun i => ?_⟩
  · have hi := Host.reduce_andi_all _ _ _ _ _ hA i
    obtain ⟨g1, g2⟩ := IntOp.andi_eq_one.1 hi
    have g1' := IntOp.cmpi_sge.1 g1
    have g2' := IntOp.cmpi_slt.1 g2
    exact ⟨g1', g2'⟩
  · have hi := Host.reduce_andi_all _ _ _ _ _ hB i
    obtain ⟨g1, g2⟩ := IntOp.andi_eq_one.1 hi
    have g1' := IntOp.cmpi_sge.1 g1
    have g2' := IntOp.cmpi_slt.1 g2
    exact ⟨g1', g2'⟩

/-- The whole chain ends in its last part, applied to the two index arrays. -/
theorem fn_eq_part17 (a0 : FVec Ideal S16384x128 .f32) (a1 : FVec Ideal S65536x128 .f32) (a2 : FVec Ideal S131072x128 .f32) (a3 : IVec S2x65536 32) (a4 : IVec S2x131072 32) (a5 : FVec Ideal S128x128 .f32) (a6 : FVec Ideal S1x128 .f32) (a7 : FVec Ideal S128x128 .f32) (a8 : FVec Ideal S1x128 .f32) (a9 : FVec Ideal S128x128 .f32) (a10 : FVec Ideal S1x128 .f32) (a11 : FVec Ideal S128x128 .f32) (a12 : FVec Ideal S1x128 .f32) (a13 : FVec Ideal S128x128 .f32) (a14 : FVec Ideal S1x128 .f32) (a15 : FVec Ideal S1x128 .f32) (a16 : FVec Ideal S1x128 .f32) (a17 : FVec Ideal S1x128 .f32) (a18 : FVec Ideal S1x128 .f32) (a19 : FVec Ideal S128x128 .f32) (a20 : FVec Ideal S1x128 .f32) (a21 : FVec Ideal S128x128 .f32) (a22 : FVec Ideal S1x128 .f32) (a23 : FVec Ideal S128x128 .f32) (a24 : FVec Ideal S1x128 .f32) (a25 : FVec Ideal S128x128 .f32) (a26 : FVec Ideal S1x128 .f32) (a27 : FVec Ideal S128x128 .f32) (a28 : FVec Ideal S1x128 .f32) (a29 : FVec Ideal S1x128 .f32) (a30 : FVec Ideal S1x128 .f32) (a31 : FVec Ideal S1x128 .f32) (a32 : FVec Ideal S1x128 .f32) (a33 : FVec Ideal S128x128 .f32) (a34 : FVec Ideal S1x128 .f32) (a35 : FVec Ideal S128x128 .f32) (a36 : FVec Ideal S1x128 .f32) (a37 : FVec Ideal S128x128 .f32) (a38 : FVec Ideal S1x128 .f32) (a39 : FVec Ideal S128x128 .f32) (a40 : FVec Ideal S1x128 .f32) (a41 : FVec Ideal S128x128 .f32) (a42 : FVec Ideal S1x128 .f32) (a43 : FVec Ideal S1x128 .f32) (a44 : FVec Ideal S1x128 .f32) (a45 : FVec Ideal S1x128 .f32) (a46 : FVec Ideal S1x128 .f32) (a47 : FVec Ideal S128x128 .f32) (a48 : FVec Ideal S1x128 .f32) (a49 : FVec Ideal S128x128 .f32) (a50 : FVec Ideal S1x128 .f32) (a51 : FVec Ideal S128x128 .f32) (a52 : FVec Ideal S1x128 .f32) (a53 : FVec Ideal S128x128 .f32) (a54 : FVec Ideal S1x128 .f32) (a55 : FVec Ideal S128x128 .f32) (a56 : FVec Ideal S1x128 .f32) (a57 : FVec Ideal S1x128 .f32) (a58 : FVec Ideal S1x128 .f32) (a59 : FVec Ideal S1x128 .f32) (a60 : FVec Ideal S1x128 .f32) :
    ∃ (v288 : IVec S_ 1) (v289 v290 : FVec Ideal S1x128 .f32),
      fn (F := Ideal) a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45 a46 a47 a48 a49 a50 a51 a52 a53 a54 a55 a56 a57 a58 a59 a60 = fn_part17 (F := Ideal) a3 a4 v288 v289 v290 :=
  ⟨_, _, _, rfl⟩

/-- Under the precondition every entry of both index arrays is a valid row number. -/
theorem idx_in_range (a0 : FVec Ideal S16384x128 .f32) (a1 : FVec Ideal S65536x128 .f32) (a2 : FVec Ideal S131072x128 .f32) (a3 : IVec S2x65536 32) (a4 : IVec S2x131072 32) (a5 : FVec Ideal S128x128 .f32) (a6 : FVec Ideal S1x128 .f32) (a7 : FVec Ideal S128x128 .f32) (a8 : FVec Ideal S1x128 .f32) (a9 : FVec Ideal S128x128 .f32) (a10 : FVec Ideal S1x128 .f32) (a11 : FVec Ideal S128x128 .f32) (a12 : FVec Ideal S1x128 .f32) (a13 : FVec Ideal S128x128 .f32) (a14 : FVec Ideal S1x128 .f32) (a15 : FVec Ideal S1x128 .f32) (a16 : FVec Ideal S1x128 .f32) (a17 : FVec Ideal S1x128 .f32) (a18 : FVec Ideal S1x128 .f32) (a19 : FVec Ideal S128x128 .f32) (a20 : FVec Ideal S1x128 .f32) (a21 : FVec Ideal S128x128 .f32) (a22 : FVec Ideal S1x128 .f32) (a23 : FVec Ideal S128x128 .f32) (a24 : FVec Ideal S1x128 .f32) (a25 : FVec Ideal S128x128 .f32) (a26 : FVec Ideal S1x128 .f32) (a27 : FVec Ideal S128x128 .f32) (a28 : FVec Ideal S1x128 .f32) (a29 : FVec Ideal S1x128 .f32) (a30 : FVec Ideal S1x128 .f32) (a31 : FVec Ideal S1x128 .f32) (a32 : FVec Ideal S1x128 .f32) (a33 : FVec Ideal S128x128 .f32) (a34 : FVec Ideal S1x128 .f32) (a35 : FVec Ideal S128x128 .f32) (a36 : FVec Ideal S1x128 .f32) (a37 : FVec Ideal S128x128 .f32) (a38 : FVec Ideal S1x128 .f32) (a39 : FVec Ideal S128x128 .f32) (a40 : FVec Ideal S1x128 .f32) (a41 : FVec Ideal S128x128 .f32) (a42 : FVec Ideal S1x128 .f32) (a43 : FVec Ideal S1x128 .f32) (a44 : FVec Ideal S1x128 .f32) (a45 : FVec Ideal S1x128 .f32) (a46 : FVec Ideal S1x128 .f32) (a47 : FVec Ideal S128x128 .f32) (a48 : FVec Ideal S1x128 .f32) (a49 : FVec Ideal S128x128 .f32) (a50 : FVec Ideal S1x128 .f32) (a51 : FVec Ideal S128x128 .f32) (a52 : FVec Ideal S1x128 .f32) (a53 : FVec Ideal S128x128 .f32) (a54 : FVec Ideal S1x128 .f32) (a55 : FVec Ideal S128x128 .f32) (a56 : FVec Ideal S1x128 .f32) (a57 : FVec Ideal S1x128 .f32) (a58 : FVec Ideal S1x128 .f32) (a59 : FVec Ideal S1x128 .f32) (a60 : FVec Ideal S1x128 .f32)
    (h : fn (F := Ideal) a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45 a46 a47 a48 a49 a50 a51 a52 a53 a54 a55 a56 a57 a58 a59 a60 = fun _ => 1#1) :
    (∀ i, 0 ≤ (a3 i).toInt ∧ (a3 i).toInt < 16384) ∧ (∀ i, 0 ≤ (a4 i).toInt ∧ (a4 i).toInt < 65536) := by
  obtain ⟨v288, v289, v290, e⟩ := fn_eq_part17 a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45 a46 a47 a48 a49 a50 a51 a52 a53 a54 a55 a56 a57 a58 a59 a60
  rw [e] at h
  exact part17_idx a3 a4 v288 v289 v290 h

end Cert.PreRead
-- ==== Proof.Spec.lean ====
/-
  The mathematics both programs are compared against, on plain functions of extended reals.
  A row is 128 lanes. Every definition below is spelled exactly as the operations read at an index:
  a lane sum is a sum over the 128 lanes, the mean is a quotient by 128, the layer normalisation is
  ((v - mean) * rsqrt (var + ε)) * g + b, the sigmoid-weighted unit is x * logistic x.
-/
import Idealize.ShloMosaic.PureOps.Ideal
import Idealize.ShloMosaic.PureOps.Ideal.Laws
import Idealize.ShloMosaic.Lib.ValueIdx

noncomputable section

namespace Cert.Spec

open Idealize.ShloMosaic
open scoped BigOperators

/-- A row of 128 lanes of extended reals. -/
abbrev Row : Type := Fin 128 → EReal

/-- The literal 128.0 (the lane count the means divide by). -/
def c128 : EReal := Ideal.ofBits .f32 0x43000000#32
/-- The literal 9.99999974e-6: the ε of the layer normalisation and of the aggregation's denominator. -/
def cEps : EReal := Ideal.ofBits .f32 0x3727C5AC#32
/-- The literal 0.0. -/
def cZero : EReal := Ideal.ofBits .f32 0x00000000#32

theorem cZero_eq : cZero = 0 := Ideal.ofBits_zero_f32

/-- A row times a 128 × n matrix, at output lane `q`: the sum over the contracted lane. -/
def dot {n : Nat} (x : Row) (W : Fin 128 → Fin n → EReal) (q : Fin n) : EReal := ∑ k : Fin 128, x k * W k q

/-- The mean of a row: the lane sum divided by 128. -/
def rowMean (v : Row) : EReal := Ideal.div (∑ k : Fin 128, v k) c128

/-- The variance of a row: the mean of the squared deviations from the mean. -/
def rowVar (v : Row) : EReal := Ideal.div (∑ k : Fin 128, (v k - rowMean v) * (v k - rowMean v)) c128

/-- Layer normalisation of the row `v` with scale `g` and shift `b`. -/
def layerNorm (v g b : Row) : Row :=
  fun q => (v q - rowMean v) * Ideal.rsqrt (rowVar v + cEps) * g q + b q

/-- x · logistic x. -/
def silu (x : EReal) : EReal := x * Ideal.logistic x

/-- The residual update  x + silu (LN v). -/
def resid (x v g b : Row) : Row := fun q => x q + silu (layerNorm v g b q)

/-- The gate: the logistic function lane by lane. -/
def gate (v : Row) : Row := fun q => Ideal.logistic (v q)

/-- The gated aggregate  num / (den + ε), lane by lane. -/
def aggDiv (num den : Row) : Row := fun q => Ideal.div (num q) (den q + cEps)

/-- The node update's normalised row: hs + num / (den + ε). -/
def nodeRow (hs num den : Row) : Row := fun q => hs q + aggDiv num den q

/-! ### The pre-activation of an edge, as each program computes it -/

/-- The reference's: ((((xd·W_A + b_A) + xs·W_B) + b_B) + e·W_C) + b_C. -/
def refEhat (xd xs e : Row) (WA WB WC : Fin 128 → Fin 128 → EReal) (bA bB bC : Row) : Row :=
  fun q => dot xd WA q + bA q + dot xs WB q + bB q + dot e WC q + bC q

/-- The kernel's: ((e·W_C + gd) + gsB) + bsum, on the gathered projections. -/
def kerEhat (e gd gsB : Row) (WC : Fin 128 → Fin 128 → EReal) (bsum : Row) : Row :=
  fun q => dot e WC q + gd q + gsB q + bsum q

/-- The two agree when the gathered projections are the projections of the gathered rows
    (with the zero bias the wide product adds) and the bias is the sum of the three. -/
theorem kerEhat_eq_refEhat (xd xs e : Row) (WA WB WC : Fin 128 → Fin 128 → EReal) (bA bB bC : Row)
    (gd gsB bsum : Row)
    (hgd : ∀ q, gd q = dot xd WA q + cZero) (hgs : ∀ q, gsB q = dot xs WB q + cZero)
    (hb : ∀ q, bsum q = bA q + bB q + bC q) :
    kerEhat e gd gsB WC bsum = refEhat xd xs e WA WB WC bA bB bC := by
  funext q
  simp only [kerEhat, refEhat, hgd q, hgs q, hb q, cZero_eq, add_zero]
  ac_rfl

end Cert.Spec
-- ==== Proof.Bridge.lean ====
/-
  One graph-convolution layer as each program computes it, on plain functions of rows, and the proof that
  the two agree; then the four layers in the order both programs run them.

  A layer takes node rows x : Fin N → Row, edge rows e : Fin E → Row, the edges' source and destination
  nodes, and the layer's parameters. One program projects the gathered node rows on the edge side and
  adds the three biases one by one; the other projects every node row once, gathers the projections
  (whose bias is the literal zero), and adds the sum of the three biases. A gathered row of a product is
  the product of the gathered row, so the two pre-activations differ only by the order of a sum and by
  zeros, and addition of extended reals is commutative and associative.
-/
import proofs.«117664_g2000706958607885_pallasbulk_534_41_alg».proof.Proof.Spec

noncomputable section

namespace Cert.Bridge

open Cert.Spec
open scoped BigOperators

/-- The parameters of one layer. -/
structure Params where
  Wself : Fin 128 → Fin 128 → EReal
  Wnbr : Fin 128 → Fin 128 → EReal
  WA : Fin 128 → Fin 128 → EReal
  WB : Fin 128 → Fin 128 → EReal
  WC : Fin 128 → Fin 128 → EReal
  bself : Row
  bnbr : Row
  bA : Row
  bB : Row
  bC : Row
  gx : Row
  bx : Row
  ge : Row
  be : Row

variable {N E : Nat}

/-- The sum, into a zero row, of the edge rows whose destination is the node n. -/
def segSum (dst : Fin E → Fin N) (v : Fin E → Row) (n : Fin N) : Row :=
  fun q => cZero + ∑ j : Fin E, if dst j = n then v j q else 0

theorem segSum_congr (dst : Fin E → Fin N) (v v' : Fin E → Row) (h : ∀ j, v j = v' j) :
    segSum dst v = segSum dst v' := by
  have : v = v' := funext h
  rw [this]

/-- x·W_self + b_self at node n. -/
def hs (P : Params) (x : Fin N → Row) (n : Fin N) : Row := fun q => dot (x n) P.Wself q + P.bself q
/-- x·W_nbr + b_nbr at node n. -/
def hn (P : Params) (x : Fin N → Row) (n : Fin N) : Row := fun q => dot (x n) P.Wnbr q + P.bnbr q

/-! ### The first program's layer (projections on the edge side) -/

def ehatR (P : Params) (x : Fin N → Row) (e : Fin E → Row) (src dst : Fin E → Fin N) (j : Fin E) : Row :=
  refEhat (x (dst j)) (x (src j)) (e j) P.WA P.WB P.WC P.bA P.bB P.bC

def eNewR (P : Params) (x : Fin N → Row) (e : Fin E → Row) (src dst : Fin E → Fin N) (j : Fin E) : Row :=
  resid (e j) (ehatR P x e src dst j) P.ge P.be

def sigR (P : Params) (x : Fin N → Row) (e : Fin E → Row) (src dst : Fin E → Fin N) (j : Fin E) : Row :=
  gate (ehatR P x e src dst j)

def msgR (P : Params) (x : Fin N → Row) (e : Fin E → Row) (src dst : Fin E → Fin N) (j : Fin E) : Row :=
  fun q => sigR P x e src dst j q * hn P x (src j) q

def xNewR (P : Params) (x : Fin N → Row) (e : Fin E → Row) (src dst : Fin E → Fin N) (n : Fin N) : Row :=
  resid (x n) (nodeRow (hs P x n) (segSum dst (msgR P x e src dst) n) (segSum dst (sigR P x e src dst) n)) P.gx P.bx

/-! ### The second program's layer (projections on the node side, gathered) -/

/-- x·W_A with the zero bias, at node n. -/
def pd (P : Params) (x : Fin N → Row) (n : Fin N) : Row := fun q => dot (x n) P.WA q + cZero
/-- x·W_B with the zero bias, at node n. -/
def psB (P : Params) (x : Fin N → Row) (n : Fin N) : Row := fun q => dot (x n) P.WB q + cZero
/-- b_A + b_B + b_C. -/
def bsum (P : Params) : Row := fun q => P.bA q + P.bB q + P.bC q

def ehatK (P : Params) (x : Fin N → Row) (e : Fin E → Row) (src dst : Fin E → Fin N) (j : Fin E) : Row :=
  kerEhat (e j) (pd P x (dst j)) (psB P x (src j)) P.WC (bsum P)

def eNewK (P : Params) (x : Fin N → Row) (e : Fin E → Row) (src dst : Fin E → Fin N) (j : Fin E) : Row :=
  resid (e j) (ehatK P x e src dst j) P.ge P.be

/-- The low half of the message array: gate · gathered (x·W_nbr + b_nbr). -/
def msLoK (P : Params) (x : Fin N → Row) (e : Fin E → Row) (src dst : Fin E → Fin N) (j : Fin E) : Row :=
  fun q => gate (ehatK P x e src dst j) q * hn P x (src j) q

/-- The high half of the message array: the gate. -/
def msHiK (P : Params) (x : Fin N → Row) (e : Fin E → Row) (src dst : Fin E → Fin N) (j : Fin E) : Row :=
  gate (ehatK P x e src dst j)

def xNewK (P : Params) (x : Fin N → Row) (e : Fin E → Row) (src dst : Fin E → Fin N) (n : Fin N) : Row :=
  resid (x n) (nodeRow (hs P x n) (segSum dst (msLoK P x e src dst) n) (segSum dst (msHiK P x e src dst) n)) P.gx P.bx

/-! ### The two layers agree -/

theorem ehatK_eq_ehatR (P : Params) (x : Fin N → Row) (e : Fin E → Row) (src dst : Fin E → Fin N) (j : Fin E) :
    ehatK P x e src dst j = ehatR P x e src dst j :=
  kerEhat_eq_refEhat _ _ _ _ _ _ _ _ _ _ _ _ (fun _ => rfl) (fun _ => rfl) (fun _ => rfl)

theorem eNewK_eq_eNewR (P : Params) (x : Fin N → Row) (e : Fin E → Row) (src dst : Fin E → Fin N) :
    eNewK P x e src dst = eNewR P x e src dst := by
  funext j
  unfold eNewK eNewR
  rw [ehatK_eq_ehatR]

theorem xNewK_eq_xNewR (P : Params) (x : Fin N → Row) (e : Fin E → Row) (src dst : Fin E → Fin N) :
    xNewK P x e src dst = xNewR P x e src dst := by
  funext n
  unfold xNewK xNewR
  have h1 : segSum dst (msLoK P x e src dst) = segSum dst (msgR P x e src dst) :=
    segSum_congr dst _ _ fun j => by
      unfold msLoK msgR sigR
      rw [ehatK_eq_ehatR]
  have h2 : segSum dst (msHiK P x e src dst) = segSum dst (sigR P x e src dst) :=
    segSum_congr dst _ _ fun j => by
      unfold msHiK sigR
      rw [ehatK_eq_ehatR]
  rw [h1, h2]

/-! ### The four layers

Three arrays of rows: a (16384 rows), b (65536 rows), g (131072 rows). A round updates (b, g) by a layer
whose nodes are b and whose edges are g, then (a, b) by a layer whose nodes are a and whose edges are b;
two rounds are run. -/

structure St where
  a : Fin 16384 → Row
  b : Fin 65536 → Row
  g : Fin 131072 → Row

/-- One round, with the layer given as its two result functions. -/
def round
    (xNew : ∀ {N E : Nat}, Params → (Fin N → Row) → (Fin E → Row) → (Fin E → Fin N) → (Fin E → Fin N) → Fin N → Row)
    (eNew : ∀ {N E : Nat}, Params → (Fin N → Row) → (Fin E → Row) → (Fin E → Fin N) → (Fin E → Fin N) → Fin E → Row)
    (Pbg Pab : Params) (srcA dstA : Fin 131072 → Fin 65536) (srcG dstG : Fin 65536 → Fin 16384) (s : St) : St :=
  let b1 := xNew Pbg s.b s.g srcA dstA
  let g1 := eNew Pbg s.b s.g srcA dstA
  let a1 := xNew Pab s.a b1 srcG dstG
  let b2 := eNew Pab s.a b1 srcG dstG
  ⟨a1, b2, g1⟩

def roundR := round (fun {N E} => @xNewR N E) (fun {N E} => @eNewR N E)
def roundK := round (fun {N E} => @xNewK N E) (fun {N E} => @eNewK N E)

theorem roundK_eq_roundR : roundK = roundR := by
  unfold roundK roundR
  have hx : (fun {N E : Nat} => @xNewK N E) = (fun {N E : Nat} => @xNewR N E) := by
    funext N E P x e src dst; exact xNewK_eq_xNewR P x e src dst
  have he : (fun {N E : Nat} => @eNewK N E) = (fun {N E : Nat} => @eNewR N E) := by
    funext N E P x e src dst; exact eNewK_eq_eNewR P x e src dst
  rw [hx, he]

/-- Two rounds. -/
def netR (P0bg P0ab P1bg P1ab : Params) (srcA dstA : Fin 131072 → Fin 65536) (srcG dstG : Fin 65536 → Fin 16384)
    (s : St) : St :=
  roundR P1bg P1ab srcA dstA srcG dstG (roundR P0bg P0ab srcA dstA srcG dstG s)

def netK (P0bg P0ab P1bg P1ab : Params) (srcA dstA : Fin 131072 → Fin 65536) (srcG dstG : Fin 65536 → Fin 16384)
    (s : St) : St :=
  roundK P1bg P1ab srcA dstA srcG dstG (roundK P0bg P0ab srcA dstA srcG dstG s)

theorem netK_eq_netR : netK = netR := by
  unfold netK netR
  rw [roundK_eq_roundR]

end Cert.Bridge
-- ==== Proof.ResultsSpec.lean ====
/-
  The statement language of the two "results" theorems: how the 61 argument arrays become the
  arguments of the four-layer function on rows (Bridge), and what that function returns.

  Arguments in order: a0 (16384 × 128), a1 (65536 × 128), a2 (131072 × 128) the three arrays of rows;
  a3 (2 × 65536) and a4 (2 × 131072) the index arrays, row 0 the sources and row 1 the destinations;
  then four groups of fourteen parameter arrays, each group in the order
  W_self b_self W_nbr b_nbr W_A b_A W_B b_B W_C b_C g_x b_x g_e b_e; the groups are, in order,
  the first round's (b, g) layer, the second round's (b, g) layer, the first round's (a, b) layer,
  the second round's (a, b) layer.
-/
import proofs.«117664_g2000706958607885_pallasbulk_534_41_alg».proof.Proof.Bridge

noncomputable section

namespace Cert.ResultsSpec

open Idealize.ShloMosaic Idealize.ShloMosaic.ValueIdx
open Cert.Spec Cert.Bridge

/-- An N × C array of extended reals, indexed as the programs' buffers are. -/
abbrev A (N C : Nat) : Type := (⟨2, ![N, C]⟩ : Shape).Idx → EReal

/-- The rows of an N × 128 array. -/
def rows {N : Nat} (X : A N 128) : Fin N → Row := fun n q => X (ix2 n q)
/-- A 128 × 128 array as a matrix. -/
def mat (W : A 128 128) : Fin 128 → Fin 128 → EReal := fun k q => W (ix2 k q)
/-- A 1 × 128 array as a row. -/
def vec (b : A 1 128) : Row := fun q => b (ix2 (0 : Fin 1) q)

/-- Row r of a 2 × E index array as a function into Fin N: the entry read signed (reduced modulo N,
    which changes nothing when the entry is a valid row number). -/
def idxFn {E : Nat} (N : Nat) (hN : 0 < N) (ei : IVec ⟨2, ![2, E]⟩ 32) (r : Fin 2) : Fin E → Fin N :=
  fun t => ⟨(ei (ix2 r t)).toInt.toNat % N, Nat.mod_lt _ hN⟩

theorem idxFn_val {E : Nat} (N : Nat) (hN : 0 < N) (ei : IVec ⟨2, ![2, E]⟩ 32) (r : Fin 2) (t : Fin E)
    (h0 : 0 ≤ (ei (ix2 r t)).toInt) (h1 : (ei (ix2 r t)).toInt < (N : Int)) :
    ((idxFn N hN ei r t).val : Int) = (ei (ix2 r t)).toInt := by
  show (((ei (ix2 r t)).toInt.toNat % N : Nat) : Int) = _
  rw [Nat.mod_eq_of_lt (by omega)]
  omega

/-- One layer's fourteen parameter arrays, in the programs' order. -/
structure LayerArgs where
  Wself : A 128 128
  bself : A 1 128
  Wnbr : A 128 128
  bnbr : A 1 128
  WA : A 128 128
  bA : A 1 128
  WB : A 128 128
  bB : A 1 128
  WC : A 128 128
  bC : A 1 128
  gx : A 1 128
  bx : A 1 128
  ge : A 1 128
  be : A 1 128

/-- The layer's parameters as matrices and rows. -/
def LayerArgs.params (L : LayerArgs) : Params where
  Wself := mat L.Wself
  Wnbr := mat L.Wnbr
  WA := mat L.WA
  WB := mat L.WB
  WC := mat L.WC
  bself := vec L.bself
  bnbr := vec L.bnbr
  bA := vec L.bA
  bB := vec L.bB
  bC := vec L.bC
  gx := vec L.gx
  bx := vec L.bx
  ge := vec L.ge
  be := vec L.be

/-- The 61 arguments. -/
structure Args where
  a : A 16384 128
  b : A 65536 128
  g : A 131072 128
  eiG : IVec ⟨2, ![2, 65536]⟩ 32
  eiA : IVec ⟨2, ![2, 131072]⟩ 32
  bg0 : LayerArgs
  bg1 : LayerArgs
  ab0 : LayerArgs
  ab1 : LayerArgs

/-- The 61 arguments, by position. -/
def Args.ofArrays (a0 : A 16384 128) (a1 : A 65536 128) (a2 : A 131072 128) (a3 : IVec ⟨2, ![2, 65536]⟩ 32) (a4 : IVec ⟨2, ![2, 131072]⟩ 32) (a5 : A 128 128) (a6 : A 1 128) (a7 : A 128 128) (a8 : A 1 128) (a9 : A 128 128) (a10 : A 1 128) (a11 : A 128 128) (a12 : A 1 128) (a13 : A 128 128) (a14 : A 1 128) (a15 : A 1 128) (a16 : A 1 128) (a17 : A 1 128) (a18 : A 1 128) (a19 : A 128 128) (a20 : A 1 128) (a21 : A 128 128) (a22 : A 1 128) (a23 : A 128 128) (a24 : A 1 128) (a25 : A 128 128) (a26 : A 1 128) (a27 : A 128 128) (a28 : A 1 128) (a29 : A 1 128) (a30 : A 1 128) (a31 : A 1 128) (a32 : A 1 128) (a33 : A 128 128) (a34 : A 1 128) (a35 : A 128 128) (a36 : A 1 128) (a37 : A 128 128) (a38 : A 1 128) (a39 : A 128 128) (a40 : A 1 128) (a41 : A 128 128) (a42 : A 1 128) (a43 : A 1 128) (a44 : A 1 128) (a45 : A 1 128) (a46 : A 1 128) (a47 : A 128 128) (a48 : A 1 128) (a49 : A 128 128) (a50 : A 1 128) (a51 : A 128 128) (a52 : A 1 128) (a53 : A 128 128) (a54 : A 1 128) (a55 : A 128 128) (a56 : A 1 128) (a57 : A 1 128) (a58 : A 1 128) (a59 : A 1 128) (a60 : A 1 128) : Args :=
  ⟨a0, a1, a2, a3, a4, ⟨a5, a6, a7, a8, a9, a10, a11, a12, a13, a14, a15, a16, a17, a18⟩, ⟨a19, a20, a21, a22, a23, a24, a25, a26, a27, a28, a29, a30, a31, a32⟩, ⟨a33, a34, a35, a36, a37, a38, a39, a40, a41, a42, a43, a44, a45, a46⟩, ⟨a47, a48, a49, a50, a51, a52, a53, a54, a55, a56, a57, a58, a59, a60⟩⟩

def Args.srcA (x : Args) : Fin 131072 → Fin 65536 := idxFn 65536 (by decide) x.eiA 0
def Args.dstA (x : Args) : Fin 131072 → Fin 65536 := idxFn 65536 (by decide) x.eiA 1
def Args.srcG (x : Args) : Fin 65536 → Fin 16384 := idxFn 16384 (by decide) x.eiG 0
def Args.dstG (x : Args) : Fin 65536 → Fin 16384 := idxFn 16384 (by decide) x.eiG 1

/-- The three arrays of rows at the start. -/
def Args.st (x : Args) : St := ⟨rows x.a, rows x.b, rows x.g⟩

/-- What the program with node-side projections returns. -/
def Args.outK (x : Args) : St :=
  netK x.bg0.params x.ab0.params x.bg1.params x.ab1.params x.srcA x.dstA x.srcG x.dstG x.st

/-- What the program with edge-side projections returns. -/
def Args.outR (x : Args) : St :=
  netR x.bg0.params x.ab0.params x.bg1.params x.ab1.params x.srcA x.dstA x.srcG x.dstG x.st

theorem Args.outK_eq_outR (x : Args) : x.outK = x.outR := by
  unfold Args.outK Args.outR
  rw [netK_eq_netR]

/-- The form of a results theorem: three final arrays hold, entry by entry, the three components of `out`. -/
def Holds (out : St) (fa : A 16384 128) (fb : A 65536 128) (fg : A 131072 128) : Prop :=
  (∀ r q, fa (ix2 r q) = out.a r q) ∧ (∀ r q, fb (ix2 r q) = out.b r q) ∧ (∀ r q, fg (ix2 r q) = out.g r q)

/-- Two triples of arrays that hold the same components are equal. -/
theorem Holds.ext {out : St} {fa fa' : A 16384 128} {fb fb' : A 65536 128} {fg fg' : A 131072 128}
    (h : Holds out fa fb fg) (h' : Holds out fa' fb' fg') : fa = fa' ∧ fb = fb' ∧ fg = fg' := by
  refine ⟨funext fun i => ?_, funext fun i => ?_, funext fun i => ?_⟩
  · exact (congrArg fa (eq_ix2 i)).trans (((h.1 (i 0) (i 1)).trans (h'.1 (i 0) (i 1)).symm).trans (congrArg fa' (eq_ix2 i)).symm)
  · exact (congrArg fb (eq_ix2 i)).trans (((h.2.1 (i 0) (i 1)).trans (h'.2.1 (i 0) (i 1)).symm).trans (congrArg fb' (eq_ix2 i)).symm)
  · exact (congrArg fg (eq_ix2 i)).trans (((h.2.2 (i 0) (i 1)).trans (h'.2.2 (i 0) (i 1)).symm).trans (congrArg fg' (eq_ix2 i)).symm)

end Cert.ResultsSpec
-- ==== Proof.FinalCore.lean ====
/-
  The two programs agree: from the two runs with their final memories named, the two readings of the
  results as the four-layer function on rows, the equality of the two four-layer functions, and the
  precondition's index facts.
-/
import proofs.«117664_g2000706958607885_pallasbulk_534_41_alg».proof.Defs
import proofs.«117664_g2000706958607885_pallasbulk_534_41_alg».proof.Proof.Gen.KernelIdeal
import proofs.«117664_g2000706958607885_pallasbulk_534_41_alg».proof.Proof.RV.Run
import proofs.«117664_g2000706958607885_pallasbulk_534_41_alg».proof.Proof.Pre
import proofs.«117664_g2000706958607885_pallasbulk_534_41_alg».proof.Proof.ResultsSpec

set_option maxRecDepth 16384

noncomputable section

namespace Cert.Final

open Idealize.ShloMosaic Idealize.ShloMosaic.TcCoe Idealize.SL.Sem
open Cert.ResultsSpec

/-- An unscoped TensorCore buffer of the first program is among those the last thread state holds. -/
theorem mem_ucK (b : Ref Cert.KernelIdeal.sig .tc) (h : ¬ (Proc.devRef .tc b : DevRef Cert.KernelIdeal.τ Cert.KernelIdeal.sig).isScoped) :
    Proc.devRef .tc b ∈ Pipeline.ucRefs Cert.KernelIdeal.τ Cert.KernelIdeal.sig :=
  Finset.mem_filter.mpr ⟨StableHlo.devRef_mem_tcRefs b, h⟩

/-- The same for the second program. -/
theorem mem_ucR (b : Ref Cert.ReferenceIdeal.sig .tc) (h : ¬ (Proc.devRef .tc b : DevRef Cert.ReferenceIdeal.τ Cert.ReferenceIdeal.sig).isScoped) :
    Proc.devRef .tc b ∈ Pipeline.ucRefs Cert.ReferenceIdeal.τ Cert.ReferenceIdeal.sig :=
  Finset.mem_filter.mpr ⟨StableHlo.devRef_mem_tcRefs b, h⟩

/-- The first program's final contents, as a function of the launch memory and the core (the run theorem names it). -/
abbrev FinK : Type :=
  ((ℓ : Loc Cert.KernelIdeal.nD Cert.KernelIdeal.τ Cert.KernelIdeal.sig) → Buf (Elt Ideal) ℓ) → Dev Cert.KernelIdeal.nD → Valuation Cert.KernelIdeal.τ Cert.KernelIdeal.sig (Elt Ideal)

/-- The first program runs and ends with its unscoped buffers at `XK`. -/
def RunK (XK : FinK) : Prop :=
  ∀ (m : (ℓ : Loc Cert.KernelIdeal.nD Cert.KernelIdeal.τ Cert.KernelIdeal.sig) → Buf (Elt Ideal) ℓ) (g : Dev Cert.KernelIdeal.nD → PrngReg),
    θ_run (Cert.KernelIdeal.defs (F := Ideal)) (onTc (τ := Cert.KernelIdeal.τ) (Cert.KernelIdeal.main (F := Ideal))) ⟨m, fun _ => 0, g⟩
      (fun r => ∀ c : Dev Cert.KernelIdeal.nD, ∀ b ∈ Pipeline.ucRefs Cert.KernelIdeal.τ Cert.KernelIdeal.sig,
        r.2.mem ((c : Thread Cert.KernelIdeal.nD Cert.KernelIdeal.τ).1, b) = XK m c b)

/-- At the end every argument array is as launched. -/
def ArgsKeptK (XK : FinK) : Prop :=
  ∀ (m : (ℓ : Loc Cert.KernelIdeal.nD Cert.KernelIdeal.τ Cert.KernelIdeal.sig) → Buf (Elt Ideal) ℓ) (c : Dev Cert.KernelIdeal.nD),
    XK m c Cert.KernelIdeal.main_arg0 = m ((c.tc : Thread Cert.KernelIdeal.nD Cert.KernelIdeal.τ).loc Cert.KernelIdeal.main_arg0)
    ∧ XK m c Cert.KernelIdeal.main_arg1 = m ((c.tc : Thread Cert.KernelIdeal.nD Cert.KernelIdeal.τ).loc Cert.KernelIdeal.main_arg1)
    ∧ XK m c Cert.KernelIdeal.main_arg2 = m ((c.tc : Thread Cert.KernelIdeal.nD Cert.KernelIdeal.τ).loc Cert.KernelIdeal.main_arg2)
    ∧ XK m c Cert.KernelIdeal.main_arg3 = m ((c.tc : Thread Cert.KernelIdeal.nD Cert.KernelIdeal.τ).loc Cert.KernelIdeal.main_arg3)
    ∧ XK m c Cert.KernelIdeal.main_arg4 = m ((c.tc : Thread Cert.KernelIdeal.nD Cert.KernelIdeal.τ).loc Cert.KernelIdeal.main_arg4)
    ∧ XK m c Cert.KernelIdeal.main_arg5 = m ((c.tc : Thread Cert.KernelIdeal.nD Cert.KernelIdeal.τ).loc Cert.KernelIdeal.main_arg5)
    ∧ XK m c Cert.KernelIdeal.main_arg6 = m ((c.tc : Thread Cert.KernelIdeal.nD Cert.KernelIdeal.τ).loc Cert.KernelIdeal.main_arg6)
    ∧ XK m c Cert.KernelIdeal.main_arg7 = m ((c.tc : Thread Cert.KernelIdeal.nD Cert.KernelIdeal.τ).loc Cert.KernelIdeal.main_arg7)
    ∧ XK m c Cert.KernelIdeal.main_arg8 = m ((c.tc : Thread Cert.KernelIdeal.nD Cert.KernelIdeal.τ).loc Cert.KernelIdeal.main_arg8)
    ∧ XK m c Cert.KernelIdeal.main_arg9 = m ((c.tc : Thread Cert.KernelIdeal.nD Cert.KernelIdeal.τ).loc Cert.KernelIdeal.main_arg9)
    ∧ XK m c Cert.KernelIdeal.main_arg10 = m ((c.tc : Thread Cert.KernelIdeal.nD Cert.KernelIdeal.τ).loc Cert.KernelIdeal.main_arg10)
    ∧ XK m c Cert.KernelIdeal.main_arg11 = m ((c.tc : Thread Cert.KernelIdeal.nD Cert.KernelIdeal.τ).loc Cert.KernelIdeal.main_arg11)
    ∧ XK m c Cert.KernelIdeal.main_arg12 = m ((c.tc : Thread Cert.KernelIdeal.nD Cert.KernelIdeal.τ).loc Cert.KernelIdeal.main_arg12)
    ∧ XK m c Cert.KernelIdeal.main_arg13 = m ((c.tc : Thread Cert.KernelIdeal.nD Cert.KernelIdeal.τ).loc Cert.KernelIdeal.main_arg13)
    ∧ XK m c Cert.KernelIdeal.main_arg14 = m ((c.tc : Thread Cert.KernelIdeal.nD Cert.KernelIdeal.τ).loc Cert.KernelIdeal.main_arg14)
    ∧ XK m c Cert.KernelIdeal.main_arg15 = m ((c.tc : Thread Cert.KernelIdeal.nD Cert.KernelIdeal.τ).loc Cert.KernelIdeal.main_arg15)
    ∧ XK m c Cert.KernelIdeal.main_arg16 = m ((c.tc : Thread Cert.KernelIdeal.nD Cert.KernelIdeal.τ).loc Cert.KernelIdeal.main_arg16)
    ∧ XK m c Cert.KernelIdeal.main_arg17 = m ((c.tc : Thread Cert.KernelIdeal.nD Cert.KernelIdeal.τ).loc Cert.KernelIdeal.main_arg17)
    ∧ XK m c Cert.KernelIdeal.main_arg18 = m ((c.tc : Thread Cert.KernelIdeal.nD Cert.KernelIdeal.τ).loc Cert.KernelIdeal.main_arg18)
    ∧ XK m c Cert.KernelIdeal.main_arg19 = m ((c.tc : Thread Cert.KernelIdeal.nD Cert.KernelIdeal.τ).loc Cert.KernelIdeal.main_arg19)
    ∧ XK m c Cert.KernelIdeal.main_arg20 = m ((c.tc : Thread Cert.KernelIdeal.nD Cert.KernelIdeal.τ).loc Cert.KernelIdeal.main_arg20)
    ∧ XK m c Cert.KernelIdeal.main_arg21 = m ((c.tc : Thread Cert.KernelIdeal.nD Cert.KernelIdeal.τ).loc Cert.KernelIdeal.main_arg21)
    ∧ XK m c Cert.KernelIdeal.main_arg22 = m ((c.tc : Thread Cert.KernelIdeal.nD Cert.KernelIdeal.τ).loc Cert.KernelIdeal.main_arg22)
    ∧ XK m c Cert.KernelIdeal.main_arg23 = m ((c.tc : Thread Cert.KernelIdeal.nD Cert.KernelIdeal.τ).loc Cert.KernelIdeal.main_arg23)
    ∧ XK m c Cert.KernelIdeal.main_arg24 = m ((c.tc : Thread Cert.KernelIdeal.nD Cert.KernelIdeal.τ).loc Cert.KernelIdeal.main_arg24)
    ∧ XK m c Cert.KernelIdeal.main_arg25 = m ((c.tc : Thread Cert.KernelIdeal.nD Cert.KernelIdeal.τ).loc Cert.KernelIdeal.main_arg25)
    ∧ XK m c Cert.KernelIdeal.main_arg26 = m ((c.tc : Thread Cert.KernelIdeal.nD Cert.KernelIdeal.τ).loc Cert.KernelIdeal.main_arg26)
    ∧ XK m c Cert.KernelIdeal.main_arg27 = m ((c.tc : Thread Cert.KernelIdeal.nD Cert.KernelIdeal.τ).loc Cert.KernelIdeal.main_arg27)
    ∧ XK m c Cert.KernelIdeal.main_arg28 = m ((c.tc : Thread Cert.KernelIdeal.nD Cert.KernelIdeal.τ).loc Cert.KernelIdeal.main_arg28)
    ∧ XK m c Cert.KernelIdeal.main_arg29 = m ((c.tc : Thread Cert.KernelIdeal.nD Cert.KernelIdeal.τ).loc Cert.KernelIdeal.main_arg29)
    ∧ XK m c Cert.KernelIdeal.main_arg30 = m ((c.tc : Thread Cert.KernelIdeal.nD Cert.KernelIdeal.τ).loc Cert.KernelIdeal.main_arg30)
    ∧ XK m c Cert.KernelIdeal.main_arg31 = m ((c.tc : Thread Cert.KernelIdeal.nD Cert.KernelIdeal.τ).loc Cert.KernelIdeal.main_arg31)
    ∧ XK m c Cert.KernelIdeal.main_arg32 = m ((c.tc : Thread Cert.KernelIdeal.nD Cert.KernelIdeal.τ).loc Cert.KernelIdeal.main_arg32)
    ∧ XK m c Cert.KernelIdeal.main_arg33 = m ((c.tc : Thread Cert.KernelIdeal.nD Cert.KernelIdeal.τ).loc Cert.KernelIdeal.main_arg33)
    ∧ XK m c Cert.KernelIdeal.main_arg34 = m ((c.tc : Thread Cert.KernelIdeal.nD Cert.KernelIdeal.τ).loc Cert.KernelIdeal.main_arg34)
    ∧ XK m c Cert.KernelIdeal.main_arg35 = m ((c.tc : Thread Cert.KernelIdeal.nD Cert.KernelIdeal.τ).loc Cert.KernelIdeal.main_arg35)
    ∧ XK m c Cert.KernelIdeal.main_arg36 = m ((c.tc : Thread Cert.KernelIdeal.nD Cert.KernelIdeal.τ).loc Cert.KernelIdeal.main_arg36)
    ∧ XK m c Cert.KernelIdeal.main_arg37 = m ((c.tc : Thread Cert.KernelIdeal.nD Cert.KernelIdeal.τ).loc Cert.KernelIdeal.main_arg37)
    ∧ XK m c Cert.KernelIdeal.main_arg38 = m ((c.tc : Thread Cert.KernelIdeal.nD Cert.KernelIdeal.τ).loc Cert.KernelIdeal.main_arg38)
    ∧ XK m c Cert.KernelIdeal.main_arg39 = m ((c.tc : Thread Cert.KernelIdeal.nD Cert.KernelIdeal.τ).loc Cert.KernelIdeal.main_arg39)
    ∧ XK m c Cert.KernelIdeal.main_arg40 = m ((c.tc : Thread Cert.KernelIdeal.nD Cert.KernelIdeal.τ).loc Cert.KernelIdeal.main_arg40)
    ∧ XK m c Cert.KernelIdeal.main_arg41 = m ((c.tc : Thread Cert.KernelIdeal.nD Cert.KernelIdeal.τ).loc Cert.KernelIdeal.main_arg41)
    ∧ XK m c Cert.KernelIdeal.main_arg42 = m ((c.tc : Thread Cert.KernelIdeal.nD Cert.KernelIdeal.τ).loc Cert.KernelIdeal.main_arg42)
    ∧ XK m c Cert.KernelIdeal.main_arg43 = m ((c.tc : Thread Cert.KernelIdeal.nD Cert.KernelIdeal.τ).loc Cert.KernelIdeal.main_arg43)
    ∧ XK m c Cert.KernelIdeal.main_arg44 = m ((c.tc : Thread Cert.KernelIdeal.nD Cert.KernelIdeal.τ).loc Cert.KernelIdeal.main_arg44)
    ∧ XK m c Cert.KernelIdeal.main_arg45 = m ((c.tc : Thread Cert.KernelIdeal.nD Cert.KernelIdeal.τ).loc Cert.KernelIdeal.main_arg45)
    ∧ XK m c Cert.KernelIdeal.main_arg46 = m ((c.tc : Thread Cert.KernelIdeal.nD Cert.KernelIdeal.τ).loc Cert.KernelIdeal.main_arg46)
    ∧ XK m c Cert.KernelIdeal.main_arg47 = m ((c.tc : Thread Cert.KernelIdeal.nD Cert.KernelIdeal.τ).loc Cert.KernelIdeal.main_arg47)
    ∧ XK m c Cert.KernelIdeal.main_arg48 = m ((c.tc : Thread Cert.KernelIdeal.nD Cert.KernelIdeal.τ).loc Cert.KernelIdeal.main_arg48)
    ∧ XK m c Cert.KernelIdeal.main_arg49 = m ((c.tc : Thread Cert.KernelIdeal.nD Cert.KernelIdeal.τ).loc Cert.KernelIdeal.main_arg49)
    ∧ XK m c Cert.KernelIdeal.main_arg50 = m ((c.tc : Thread Cert.KernelIdeal.nD Cert.KernelIdeal.τ).loc Cert.KernelIdeal.main_arg50)
    ∧ XK m c Cert.KernelIdeal.main_arg51 = m ((c.tc : Thread Cert.KernelIdeal.nD Cert.KernelIdeal.τ).loc Cert.KernelIdeal.main_arg51)
    ∧ XK m c Cert.KernelIdeal.main_arg52 = m ((c.tc : Thread Cert.KernelIdeal.nD Cert.KernelIdeal.τ).loc Cert.KernelIdeal.main_arg52)
    ∧ XK m c Cert.KernelIdeal.main_arg53 = m ((c.tc : Thread Cert.KernelIdeal.nD Cert.KernelIdeal.τ).loc Cert.KernelIdeal.main_arg53)
    ∧ XK m c Cert.KernelIdeal.main_arg54 = m ((c.tc : Thread Cert.KernelIdeal.nD Cert.KernelIdeal.τ).loc Cert.KernelIdeal.main_arg54)
    ∧ XK m c Cert.KernelIdeal.main_arg55 = m ((c.tc : Thread Cert.KernelIdeal.nD Cert.KernelIdeal.τ).loc Cert.KernelIdeal.main_arg55)
    ∧ XK m c Cert.KernelIdeal.main_arg56 = m ((c.tc : Thread Cert.KernelIdeal.nD Cert.KernelIdeal.τ).loc Cert.KernelIdeal.main_arg56)
    ∧ XK m c Cert.KernelIdeal.main_arg57 = m ((c.tc : Thread Cert.KernelIdeal.nD Cert.KernelIdeal.τ).loc Cert.KernelIdeal.main_arg57)
    ∧ XK m c Cert.KernelIdeal.main_arg58 = m ((c.tc : Thread Cert.KernelIdeal.nD Cert.KernelIdeal.τ).loc Cert.KernelIdeal.main_arg58)
    ∧ XK m c Cert.KernelIdeal.main_arg59 = m ((c.tc : Thread Cert.KernelIdeal.nD Cert.KernelIdeal.τ).loc Cert.KernelIdeal.main_arg59)
    ∧ XK m c Cert.KernelIdeal.main_arg60 = m ((c.tc : Thread Cert.KernelIdeal.nD Cert.KernelIdeal.τ).loc Cert.KernelIdeal.main_arg60)

/-- The first program's 61 arguments on core c, as the arguments of the four-layer function. -/
def argsK (m : (ℓ : Loc Cert.KernelIdeal.nD Cert.KernelIdeal.τ Cert.KernelIdeal.sig) → Buf (Elt Ideal) ℓ) (c : Dev Cert.KernelIdeal.nD) : Args :=
  Args.ofArrays
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
        (m ((c.tc : Thread Cert.KernelIdeal.nD Cert.KernelIdeal.τ).loc Cert.KernelIdeal.main_arg13))
        (m ((c.tc : Thread Cert.KernelIdeal.nD Cert.KernelIdeal.τ).loc Cert.KernelIdeal.main_arg14))
        (m ((c.tc : Thread Cert.KernelIdeal.nD Cert.KernelIdeal.τ).loc Cert.KernelIdeal.main_arg15))
        (m ((c.tc : Thread Cert.KernelIdeal.nD Cert.KernelIdeal.τ).loc Cert.KernelIdeal.main_arg16))
        (m ((c.tc : Thread Cert.KernelIdeal.nD Cert.KernelIdeal.τ).loc Cert.KernelIdeal.main_arg17))
        (m ((c.tc : Thread Cert.KernelIdeal.nD Cert.KernelIdeal.τ).loc Cert.KernelIdeal.main_arg18))
        (m ((c.tc : Thread Cert.KernelIdeal.nD Cert.KernelIdeal.τ).loc Cert.KernelIdeal.main_arg19))
        (m ((c.tc : Thread Cert.KernelIdeal.nD Cert.KernelIdeal.τ).loc Cert.KernelIdeal.main_arg20))
        (m ((c.tc : Thread Cert.KernelIdeal.nD Cert.KernelIdeal.τ).loc Cert.KernelIdeal.main_arg21))
        (m ((c.tc : Thread Cert.KernelIdeal.nD Cert.KernelIdeal.τ).loc Cert.KernelIdeal.main_arg22))
        (m ((c.tc : Thread Cert.KernelIdeal.nD Cert.KernelIdeal.τ).loc Cert.KernelIdeal.main_arg23))
        (m ((c.tc : Thread Cert.KernelIdeal.nD Cert.KernelIdeal.τ).loc Cert.KernelIdeal.main_arg24))
        (m ((c.tc : Thread Cert.KernelIdeal.nD Cert.KernelIdeal.τ).loc Cert.KernelIdeal.main_arg25))
        (m ((c.tc : Thread Cert.KernelIdeal.nD Cert.KernelIdeal.τ).loc Cert.KernelIdeal.main_arg26))
        (m ((c.tc : Thread Cert.KernelIdeal.nD Cert.KernelIdeal.τ).loc Cert.KernelIdeal.main_arg27))
        (m ((c.tc : Thread Cert.KernelIdeal.nD Cert.KernelIdeal.τ).loc Cert.KernelIdeal.main_arg28))
        (m ((c.tc : Thread Cert.KernelIdeal.nD Cert.KernelIdeal.τ).loc Cert.KernelIdeal.main_arg29))
        (m ((c.tc : Thread Cert.KernelIdeal.nD Cert.KernelIdeal.τ).loc Cert.KernelIdeal.main_arg30))
        (m ((c.tc : Thread Cert.KernelIdeal.nD Cert.KernelIdeal.τ).loc Cert.KernelIdeal.main_arg31))
        (m ((c.tc : Thread Cert.KernelIdeal.nD Cert.KernelIdeal.τ).loc Cert.KernelIdeal.main_arg32))
        (m ((c.tc : Thread Cert.KernelIdeal.nD Cert.KernelIdeal.τ).loc Cert.KernelIdeal.main_arg33))
        (m ((c.tc : Thread Cert.KernelIdeal.nD Cert.KernelIdeal.τ).loc Cert.KernelIdeal.main_arg34))
        (m ((c.tc : Thread Cert.KernelIdeal.nD Cert.KernelIdeal.τ).loc Cert.KernelIdeal.main_arg35))
        (m ((c.tc : Thread Cert.KernelIdeal.nD Cert.KernelIdeal.τ).loc Cert.KernelIdeal.main_arg36))
        (m ((c.tc : Thread Cert.KernelIdeal.nD Cert.KernelIdeal.τ).loc Cert.KernelIdeal.main_arg37))
        (m ((c.tc : Thread Cert.KernelIdeal.nD Cert.KernelIdeal.τ).loc Cert.KernelIdeal.main_arg38))
        (m ((c.tc : Thread Cert.KernelIdeal.nD Cert.KernelIdeal.τ).loc Cert.KernelIdeal.main_arg39))
        (m ((c.tc : Thread Cert.KernelIdeal.nD Cert.KernelIdeal.τ).loc Cert.KernelIdeal.main_arg40))
        (m ((c.tc : Thread Cert.KernelIdeal.nD Cert.KernelIdeal.τ).loc Cert.KernelIdeal.main_arg41))
        (m ((c.tc : Thread Cert.KernelIdeal.nD Cert.KernelIdeal.τ).loc Cert.KernelIdeal.main_arg42))
        (m ((c.tc : Thread Cert.KernelIdeal.nD Cert.KernelIdeal.τ).loc Cert.KernelIdeal.main_arg43))
        (m ((c.tc : Thread Cert.KernelIdeal.nD Cert.KernelIdeal.τ).loc Cert.KernelIdeal.main_arg44))
        (m ((c.tc : Thread Cert.KernelIdeal.nD Cert.KernelIdeal.τ).loc Cert.KernelIdeal.main_arg45))
        (m ((c.tc : Thread Cert.KernelIdeal.nD Cert.KernelIdeal.τ).loc Cert.KernelIdeal.main_arg46))
        (m ((c.tc : Thread Cert.KernelIdeal.nD Cert.KernelIdeal.τ).loc Cert.KernelIdeal.main_arg47))
        (m ((c.tc : Thread Cert.KernelIdeal.nD Cert.KernelIdeal.τ).loc Cert.KernelIdeal.main_arg48))
        (m ((c.tc : Thread Cert.KernelIdeal.nD Cert.KernelIdeal.τ).loc Cert.KernelIdeal.main_arg49))
        (m ((c.tc : Thread Cert.KernelIdeal.nD Cert.KernelIdeal.τ).loc Cert.KernelIdeal.main_arg50))
        (m ((c.tc : Thread Cert.KernelIdeal.nD Cert.KernelIdeal.τ).loc Cert.KernelIdeal.main_arg51))
        (m ((c.tc : Thread Cert.KernelIdeal.nD Cert.KernelIdeal.τ).loc Cert.KernelIdeal.main_arg52))
        (m ((c.tc : Thread Cert.KernelIdeal.nD Cert.KernelIdeal.τ).loc Cert.KernelIdeal.main_arg53))
        (m ((c.tc : Thread Cert.KernelIdeal.nD Cert.KernelIdeal.τ).loc Cert.KernelIdeal.main_arg54))
        (m ((c.tc : Thread Cert.KernelIdeal.nD Cert.KernelIdeal.τ).loc Cert.KernelIdeal.main_arg55))
        (m ((c.tc : Thread Cert.KernelIdeal.nD Cert.KernelIdeal.τ).loc Cert.KernelIdeal.main_arg56))
        (m ((c.tc : Thread Cert.KernelIdeal.nD Cert.KernelIdeal.τ).loc Cert.KernelIdeal.main_arg57))
        (m ((c.tc : Thread Cert.KernelIdeal.nD Cert.KernelIdeal.τ).loc Cert.KernelIdeal.main_arg58))
        (m ((c.tc : Thread Cert.KernelIdeal.nD Cert.KernelIdeal.τ).loc Cert.KernelIdeal.main_arg59))
        (m ((c.tc : Thread Cert.KernelIdeal.nD Cert.KernelIdeal.τ).loc Cert.KernelIdeal.main_arg60))

/-- The second program's 61 arguments on core c. -/
def argsR (m' : (ℓ : Loc Cert.ReferenceIdeal.nD Cert.ReferenceIdeal.τ Cert.ReferenceIdeal.sig) → Buf (Elt Ideal) ℓ) (c : Dev Cert.ReferenceIdeal.nD) : Args :=
  Args.ofArrays
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8))
        (m' ((c.tc : Thread Cert.ReferenceIdeal.nD Cert.ReferenceIdeal.τ).loc Cert.ReferenceIdeal.main_arg9))
        (m' ((c.tc : Thread Cert.ReferenceIdeal.nD Cert.ReferenceIdeal.τ).loc Cert.ReferenceIdeal.main_arg10))
        (m' ((c.tc : Thread Cert.ReferenceIdeal.nD Cert.ReferenceIdeal.τ).loc Cert.ReferenceIdeal.main_arg11))
        (m' ((c.tc : Thread Cert.ReferenceIdeal.nD Cert.ReferenceIdeal.τ).loc Cert.ReferenceIdeal.main_arg12))
        (m' ((c.tc : Thread Cert.ReferenceIdeal.nD Cert.ReferenceIdeal.τ).loc Cert.ReferenceIdeal.main_arg13))
        (m' ((c.tc : Thread Cert.ReferenceIdeal.nD Cert.ReferenceIdeal.τ).loc Cert.ReferenceIdeal.main_arg14))
        (m' ((c.tc : Thread Cert.ReferenceIdeal.nD Cert.ReferenceIdeal.τ).loc Cert.ReferenceIdeal.main_arg15))
        (m' ((c.tc : Thread Cert.ReferenceIdeal.nD Cert.ReferenceIdeal.τ).loc Cert.ReferenceIdeal.main_arg16))
        (m' ((c.tc : Thread Cert.ReferenceIdeal.nD Cert.ReferenceIdeal.τ).loc Cert.ReferenceIdeal.main_arg17))
        (m' ((c.tc : Thread Cert.ReferenceIdeal.nD Cert.ReferenceIdeal.τ).loc Cert.ReferenceIdeal.main_arg18))
        (m' ((c.tc : Thread Cert.ReferenceIdeal.nD Cert.ReferenceIdeal.τ).loc Cert.ReferenceIdeal.main_arg19))
        (m' ((c.tc : Thread Cert.ReferenceIdeal.nD Cert.ReferenceIdeal.τ).loc Cert.ReferenceIdeal.main_arg20))
        (m' ((c.tc : Thread Cert.ReferenceIdeal.nD Cert.ReferenceIdeal.τ).loc Cert.ReferenceIdeal.main_arg21))
        (m' ((c.tc : Thread Cert.ReferenceIdeal.nD Cert.ReferenceIdeal.τ).loc Cert.ReferenceIdeal.main_arg22))
        (m' ((c.tc : Thread Cert.ReferenceIdeal.nD Cert.ReferenceIdeal.τ).loc Cert.ReferenceIdeal.main_arg23))
        (m' ((c.tc : Thread Cert.ReferenceIdeal.nD Cert.ReferenceIdeal.τ).loc Cert.ReferenceIdeal.main_arg24))
        (m' ((c.tc : Thread Cert.ReferenceIdeal.nD Cert.ReferenceIdeal.τ).loc Cert.ReferenceIdeal.main_arg25))
        (m' ((c.tc : Thread Cert.ReferenceIdeal.nD Cert.ReferenceIdeal.τ).loc Cert.ReferenceIdeal.main_arg26))
        (m' ((c.tc : Thread Cert.ReferenceIdeal.nD Cert.ReferenceIdeal.τ).loc Cert.ReferenceIdeal.main_arg27))
        (m' ((c.tc : Thread Cert.ReferenceIdeal.nD Cert.ReferenceIdeal.τ).loc Cert.ReferenceIdeal.main_arg28))
        (m' ((c.tc : Thread Cert.ReferenceIdeal.nD Cert.ReferenceIdeal.τ).loc Cert.ReferenceIdeal.main_arg29))
        (m' ((c.tc : Thread Cert.ReferenceIdeal.nD Cert.ReferenceIdeal.τ).loc Cert.ReferenceIdeal.main_arg30))
        (m' ((c.tc : Thread Cert.ReferenceIdeal.nD Cert.ReferenceIdeal.τ).loc Cert.ReferenceIdeal.main_arg31))
        (m' ((c.tc : Thread Cert.ReferenceIdeal.nD Cert.ReferenceIdeal.τ).loc Cert.ReferenceIdeal.main_arg32))
        (m' ((c.tc : Thread Cert.ReferenceIdeal.nD Cert.ReferenceIdeal.τ).loc Cert.ReferenceIdeal.main_arg33))
        (m' ((c.tc : Thread Cert.ReferenceIdeal.nD Cert.ReferenceIdeal.τ).loc Cert.ReferenceIdeal.main_arg34))
        (m' ((c.tc : Thread Cert.ReferenceIdeal.nD Cert.ReferenceIdeal.τ).loc Cert.ReferenceIdeal.main_arg35))
        (m' ((c.tc : Thread Cert.ReferenceIdeal.nD Cert.ReferenceIdeal.τ).loc Cert.ReferenceIdeal.main_arg36))
        (m' ((c.tc : Thread Cert.ReferenceIdeal.nD Cert.ReferenceIdeal.τ).loc Cert.ReferenceIdeal.main_arg37))
        (m' ((c.tc : Thread Cert.ReferenceIdeal.nD Cert.ReferenceIdeal.τ).loc Cert.ReferenceIdeal.main_arg38))
        (m' ((c.tc : Thread Cert.ReferenceIdeal.nD Cert.ReferenceIdeal.τ).loc Cert.ReferenceIdeal.main_arg39))
        (m' ((c.tc : Thread Cert.ReferenceIdeal.nD Cert.ReferenceIdeal.τ).loc Cert.ReferenceIdeal.main_arg40))
        (m' ((c.tc : Thread Cert.ReferenceIdeal.nD Cert.ReferenceIdeal.τ).loc Cert.ReferenceIdeal.main_arg41))
        (m' ((c.tc : Thread Cert.ReferenceIdeal.nD Cert.ReferenceIdeal.τ).loc Cert.ReferenceIdeal.main_arg42))
        (m' ((c.tc : Thread Cert.ReferenceIdeal.nD Cert.ReferenceIdeal.τ).loc Cert.ReferenceIdeal.main_arg43))
        (m' ((c.tc : Thread Cert.ReferenceIdeal.nD Cert.ReferenceIdeal.τ).loc Cert.ReferenceIdeal.main_arg44))
        (m' ((c.tc : Thread Cert.ReferenceIdeal.nD Cert.ReferenceIdeal.τ).loc Cert.ReferenceIdeal.main_arg45))
        (m' ((c.tc : Thread Cert.ReferenceIdeal.nD Cert.ReferenceIdeal.τ).loc Cert.ReferenceIdeal.main_arg46))
        (m' ((c.tc : Thread Cert.ReferenceIdeal.nD Cert.ReferenceIdeal.τ).loc Cert.ReferenceIdeal.main_arg47))
        (m' ((c.tc : Thread Cert.ReferenceIdeal.nD Cert.ReferenceIdeal.τ).loc Cert.ReferenceIdeal.main_arg48))
        (m' ((c.tc : Thread Cert.ReferenceIdeal.nD Cert.ReferenceIdeal.τ).loc Cert.ReferenceIdeal.main_arg49))
        (m' ((c.tc : Thread Cert.ReferenceIdeal.nD Cert.ReferenceIdeal.τ).loc Cert.ReferenceIdeal.main_arg50))
        (m' ((c.tc : Thread Cert.ReferenceIdeal.nD Cert.ReferenceIdeal.τ).loc Cert.ReferenceIdeal.main_arg51))
        (m' ((c.tc : Thread Cert.ReferenceIdeal.nD Cert.ReferenceIdeal.τ).loc Cert.ReferenceIdeal.main_arg52))
        (m' ((c.tc : Thread Cert.ReferenceIdeal.nD Cert.ReferenceIdeal.τ).loc Cert.ReferenceIdeal.main_arg53))
        (m' ((c.tc : Thread Cert.ReferenceIdeal.nD Cert.ReferenceIdeal.τ).loc Cert.ReferenceIdeal.main_arg54))
        (m' ((c.tc : Thread Cert.ReferenceIdeal.nD Cert.ReferenceIdeal.τ).loc Cert.ReferenceIdeal.main_arg55))
        (m' ((c.tc : Thread Cert.ReferenceIdeal.nD Cert.ReferenceIdeal.τ).loc Cert.ReferenceIdeal.main_arg56))
        (m' ((c.tc : Thread Cert.ReferenceIdeal.nD Cert.ReferenceIdeal.τ).loc Cert.ReferenceIdeal.main_arg57))
        (m' ((c.tc : Thread Cert.ReferenceIdeal.nD Cert.ReferenceIdeal.τ).loc Cert.ReferenceIdeal.main_arg58))
        (m' ((c.tc : Thread Cert.ReferenceIdeal.nD Cert.ReferenceIdeal.τ).loc Cert.ReferenceIdeal.main_arg59))
        (m' ((c.tc : Thread Cert.ReferenceIdeal.nD Cert.ReferenceIdeal.τ).loc Cert.ReferenceIdeal.main_arg60))

/-- What the first program's results theorem says. -/
def ResultsK (XK : FinK) : Prop :=
  ∀ (m : (ℓ : Loc Cert.KernelIdeal.nD Cert.KernelIdeal.τ Cert.KernelIdeal.sig) → Buf (Elt Ideal) ℓ) (c : Dev Cert.KernelIdeal.nD),
    (∀ i, 0 ≤ ((m ((c.tc : Thread Cert.KernelIdeal.nD Cert.KernelIdeal.τ).loc Cert.KernelIdeal.main_arg3) : IVec ⟨2, ![2, 65536]⟩ 32) i).toInt ∧ ((m ((c.tc : Thread Cert.KernelIdeal.nD Cert.KernelIdeal.τ).loc Cert.KernelIdeal.main_arg3) : IVec ⟨2, ![2, 65536]⟩ 32) i).toInt < 16384) →
    (∀ i, 0 ≤ ((m ((c.tc : Thread Cert.KernelIdeal.nD Cert.KernelIdeal.τ).loc Cert.KernelIdeal.main_arg4) : IVec ⟨2, ![2, 131072]⟩ 32) i).toInt ∧ ((m ((c.tc : Thread Cert.KernelIdeal.nD Cert.KernelIdeal.τ).loc Cert.KernelIdeal.main_arg4) : IVec ⟨2, ![2, 131072]⟩ 32) i).toInt < 65536) →
    Holds (argsK m c).outK (XK m c Cert.KernelIdeal.main_v107) (XK m c Cert.KernelIdeal.main_v103_0) (XK m c Cert.KernelIdeal.main_v96_0)

/-- What the second program's results theorem says. -/
def ResultsR : Prop :=
  ∀ (m' : (ℓ : Loc Cert.ReferenceIdeal.nD Cert.ReferenceIdeal.τ Cert.ReferenceIdeal.sig) → Buf (Elt Ideal) ℓ) (g' : Dev Cert.ReferenceIdeal.nD → PrngReg) (c : Dev Cert.ReferenceIdeal.nD),
    (∀ i, 0 ≤ ((m' ((c.tc : Thread Cert.ReferenceIdeal.nD Cert.ReferenceIdeal.τ).loc Cert.ReferenceIdeal.main_arg3) : IVec ⟨2, ![2, 65536]⟩ 32) i).toInt ∧ ((m' ((c.tc : Thread Cert.ReferenceIdeal.nD Cert.ReferenceIdeal.τ).loc Cert.ReferenceIdeal.main_arg3) : IVec ⟨2, ![2, 65536]⟩ 32) i).toInt < 16384) →
    (∀ i, 0 ≤ ((m' ((c.tc : Thread Cert.ReferenceIdeal.nD Cert.ReferenceIdeal.τ).loc Cert.ReferenceIdeal.main_arg4) : IVec ⟨2, ![2, 131072]⟩ 32) i).toInt ∧ ((m' ((c.tc : Thread Cert.ReferenceIdeal.nD Cert.ReferenceIdeal.τ).loc Cert.ReferenceIdeal.main_arg4) : IVec ⟨2, ![2, 131072]⟩ 32) i).toInt < 65536) →
    Holds (argsR m' c).outR (Cert.ReferenceIdeal.GenP.W32 m' g' c Cert.ReferenceIdeal.main_v63) (Cert.ReferenceIdeal.GenP.W32 m' g' c Cert.ReferenceIdeal.main_v56_0) (Cert.ReferenceIdeal.GenP.W32 m' g' c Cert.ReferenceIdeal.main_v40_0)

set_option maxHeartbeats 4000000 in
/-- The claim, from the two results theorems. -/
theorem algebraic_of_results (XK : FinK) (runK : RunK XK) (keptK : ArgsKeptK XK) (resK : ResultsK XK) (resR : ResultsR) :
    Cert.algebraic_KernelIdeal_ReferenceIdeal := by
  intro m g m' g' hpre hag
  refine ⟨fun c => m ((c.tc : Thread Cert.KernelIdeal.nD Cert.KernelIdeal.τ).loc Cert.KernelIdeal.main_arg4), fun c => m ((c.tc : Thread Cert.KernelIdeal.nD Cert.KernelIdeal.τ).loc Cert.KernelIdeal.main_arg3),
    fun c => XK m c Cert.KernelIdeal.main_v96_0, fun c => XK m c Cert.KernelIdeal.main_v107,
    fun c => XK m c Cert.KernelIdeal.main_v103_0, ?_, ?_⟩
  · refine (θ_run _ _ _).mono (fun r hr c => ?_) (runK m g)
    obtain ⟨k0, k1, k2, k3, k4, k5, k6, k7, k8, k9, k10, k11, k12, k13, k14, k15, k16, k17, k18, k19, k20, k21, k22, k23, k24, k25, k26, k27, k28, k29, k30, k31, k32, k33, k34, k35, k36, k37, k38, k39, k40, k41, k42, k43, k44, k45, k46, k47, k48, k49, k50, k51, k52, k53, k54, k55, k56, k57, k58, k59, k60⟩ := keptK m c
    exact ⟨(hr c _ (mem_ucK Cert.KernelIdeal.main_arg4 (by decide))).trans k4,
      (hr c _ (mem_ucK Cert.KernelIdeal.main_arg3 (by decide))).trans k3,
      hr c _ (mem_ucK Cert.KernelIdeal.main_v96_0 (by decide)),
      hr c _ (mem_ucK Cert.KernelIdeal.main_v107 (by decide)),
      hr c _ (mem_ucK Cert.KernelIdeal.main_v103_0 (by decide)),
      (hr c _ (mem_ucK Cert.KernelIdeal.main_arg0 (by decide))).trans k0,
      (hr c _ (mem_ucK Cert.KernelIdeal.main_arg1 (by decide))).trans k1,
      (hr c _ (mem_ucK Cert.KernelIdeal.main_arg2 (by decide))).trans k2,
      (hr c _ (mem_ucK Cert.KernelIdeal.main_arg3 (by decide))).trans k3,
      (hr c _ (mem_ucK Cert.KernelIdeal.main_arg4 (by decide))).trans k4,
      (hr c _ (mem_ucK Cert.KernelIdeal.main_arg5 (by decide))).trans k5,
      (hr c _ (mem_ucK Cert.KernelIdeal.main_arg6 (by decide))).trans k6,
      (hr c _ (mem_ucK Cert.KernelIdeal.main_arg7 (by decide))).trans k7,
      (hr c _ (mem_ucK Cert.KernelIdeal.main_arg8 (by decide))).trans k8,
      (hr c _ (mem_ucK Cert.KernelIdeal.main_arg9 (by decide))).trans k9,
      (hr c _ (mem_ucK Cert.KernelIdeal.main_arg10 (by decide))).trans k10,
      (hr c _ (mem_ucK Cert.KernelIdeal.main_arg11 (by decide))).trans k11,
      (hr c _ (mem_ucK Cert.KernelIdeal.main_arg12 (by decide))).trans k12,
      (hr c _ (mem_ucK Cert.KernelIdeal.main_arg13 (by decide))).trans k13,
      (hr c _ (mem_ucK Cert.KernelIdeal.main_arg14 (by decide))).trans k14,
      (hr c _ (mem_ucK Cert.KernelIdeal.main_arg15 (by decide))).trans k15,
      (hr c _ (mem_ucK Cert.KernelIdeal.main_arg16 (by decide))).trans k16,
      (hr c _ (mem_ucK Cert.KernelIdeal.main_arg17 (by decide))).trans k17,
      (hr c _ (mem_ucK Cert.KernelIdeal.main_arg18 (by decide))).trans k18,
      (hr c _ (mem_ucK Cert.KernelIdeal.main_arg19 (by decide))).trans k19,
      (hr c _ (mem_ucK Cert.KernelIdeal.main_arg20 (by decide))).trans k20,
      (hr c _ (mem_ucK Cert.KernelIdeal.main_arg21 (by decide))).trans k21,
      (hr c _ (mem_ucK Cert.KernelIdeal.main_arg22 (by decide))).trans k22,
      (hr c _ (mem_ucK Cert.KernelIdeal.main_arg23 (by decide))).trans k23,
      (hr c _ (mem_ucK Cert.KernelIdeal.main_arg24 (by decide))).trans k24,
      (hr c _ (mem_ucK Cert.KernelIdeal.main_arg25 (by decide))).trans k25,
      (hr c _ (mem_ucK Cert.KernelIdeal.main_arg26 (by decide))).trans k26,
      (hr c _ (mem_ucK Cert.KernelIdeal.main_arg27 (by decide))).trans k27,
      (hr c _ (mem_ucK Cert.KernelIdeal.main_arg28 (by decide))).trans k28,
      (hr c _ (mem_ucK Cert.KernelIdeal.main_arg29 (by decide))).trans k29,
      (hr c _ (mem_ucK Cert.KernelIdeal.main_arg30 (by decide))).trans k30,
      (hr c _ (mem_ucK Cert.KernelIdeal.main_arg31 (by decide))).trans k31,
      (hr c _ (mem_ucK Cert.KernelIdeal.main_arg32 (by decide))).trans k32,
      (hr c _ (mem_ucK Cert.KernelIdeal.main_arg33 (by decide))).trans k33,
      (hr c _ (mem_ucK Cert.KernelIdeal.main_arg34 (by decide))).trans k34,
      (hr c _ (mem_ucK Cert.KernelIdeal.main_arg35 (by decide))).trans k35,
      (hr c _ (mem_ucK Cert.KernelIdeal.main_arg36 (by decide))).trans k36,
      (hr c _ (mem_ucK Cert.KernelIdeal.main_arg37 (by decide))).trans k37,
      (hr c _ (mem_ucK Cert.KernelIdeal.main_arg38 (by decide))).trans k38,
      (hr c _ (mem_ucK Cert.KernelIdeal.main_arg39 (by decide))).trans k39,
      (hr c _ (mem_ucK Cert.KernelIdeal.main_arg40 (by decide))).trans k40,
      (hr c _ (mem_ucK Cert.KernelIdeal.main_arg41 (by decide))).trans k41,
      (hr c _ (mem_ucK Cert.KernelIdeal.main_arg42 (by decide))).trans k42,
      (hr c _ (mem_ucK Cert.KernelIdeal.main_arg43 (by decide))).trans k43,
      (hr c _ (mem_ucK Cert.KernelIdeal.main_arg44 (by decide))).trans k44,
      (hr c _ (mem_ucK Cert.KernelIdeal.main_arg45 (by decide))).trans k45,
      (hr c _ (mem_ucK Cert.KernelIdeal.main_arg46 (by decide))).trans k46,
      (hr c _ (mem_ucK Cert.KernelIdeal.main_arg47 (by decide))).trans k47,
      (hr c _ (mem_ucK Cert.KernelIdeal.main_arg48 (by decide))).trans k48,
      (hr c _ (mem_ucK Cert.KernelIdeal.main_arg49 (by decide))).trans k49,
      (hr c _ (mem_ucK Cert.KernelIdeal.main_arg50 (by decide))).trans k50,
      (hr c _ (mem_ucK Cert.KernelIdeal.main_arg51 (by decide))).trans k51,
      (hr c _ (mem_ucK Cert.KernelIdeal.main_arg52 (by decide))).trans k52,
      (hr c _ (mem_ucK Cert.KernelIdeal.main_arg53 (by decide))).trans k53,
      (hr c _ (mem_ucK Cert.KernelIdeal.main_arg54 (by decide))).trans k54,
      (hr c _ (mem_ucK Cert.KernelIdeal.main_arg55 (by decide))).trans k55,
      (hr c _ (mem_ucK Cert.KernelIdeal.main_arg56 (by decide))).trans k56,
      (hr c _ (mem_ucK Cert.KernelIdeal.main_arg57 (by decide))).trans k57,
      (hr c _ (mem_ucK Cert.KernelIdeal.main_arg58 (by decide))).trans k58,
      (hr c _ (mem_ucK Cert.KernelIdeal.main_arg59 (by decide))).trans k59,
      (hr c _ (mem_ucK Cert.KernelIdeal.main_arg60 (by decide))).trans k60⟩
  · refine (θ_run _ _ _).mono (fun r hr c => ?_) (Cert.ReferenceIdeal.Val.run_vals m' g')
    obtain ⟨e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, e42, e43, e44, e45, e46, e47, e48, e49, e50, e51, e52, e53, e54, e55, e56, e57, e58, e59, e60⟩ := hag c
    have hidx := Cert.PreRead.idx_in_range _ _ _ _ _ _ _ _ _ _ _ _ _ _ _ _ _ _ _ _ _ _ _ _ _ _ _ _ _ _ _ _ _ _ _ _ _ _ _ _ _ _ _ _ _ _ _ _ _ _ _ _ _ _ _ _ _ _ _ _ _ (hpre c)
    have HK := resK m c hidx.1 hidx.2
    have hargs : argsR m' c = argsK m c := by
      unfold argsR argsK
      rw [e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, e42, e43, e44, e45, e46, e47, e48, e49, e50, e51, e52, e53, e54, e55, e56, e57, e58, e59, e60]
    have HR := resR m' g' c (by rw [e3]; exact hidx.1) (by rw [e4]; exact hidx.2)
    rw [hargs, ← Args.outK_eq_outR] at HR
    obtain ⟨ha, hb, hg⟩ := Holds.ext HR HK
    exact ⟨((hr c _ (mem_ucR Cert.ReferenceIdeal.main_arg4 (by decide))).trans (Cert.ReferenceIdeal.GenP.W32_main_arg4 m' g' c)).trans e4,
      ((hr c _ (mem_ucR Cert.ReferenceIdeal.main_arg3 (by decide))).trans (Cert.ReferenceIdeal.GenP.W32_main_arg3 m' g' c)).trans e3,
      (hr c _ (mem_ucR Cert.ReferenceIdeal.main_v40_0 (by decide))).trans hg,
      (hr c _ (mem_ucR Cert.ReferenceIdeal.main_v63 (by decide))).trans ha,
      (hr c _ (mem_ucR Cert.ReferenceIdeal.main_v56_0 (by decide))).trans hb,
      (hr c _ (mem_ucR Cert.ReferenceIdeal.main_arg0 (by decide))).trans (Cert.ReferenceIdeal.GenP.W32_main_arg0 m' g' c),
      (hr c _ (mem_ucR Cert.ReferenceIdeal.main_arg1 (by decide))).trans (Cert.ReferenceIdeal.GenP.W32_main_arg1 m' g' c),
      (hr c _ (mem_ucR Cert.ReferenceIdeal.main_arg2 (by decide))).trans (Cert.ReferenceIdeal.GenP.W32_main_arg2 m' g' c),
      (hr c _ (mem_ucR Cert.ReferenceIdeal.main_arg3 (by decide))).trans (Cert.ReferenceIdeal.GenP.W32_main_arg3 m' g' c),
      (hr c _ (mem_ucR Cert.ReferenceIdeal.main_arg4 (by decide))).trans (Cert.ReferenceIdeal.GenP.W32_main_arg4 m' g' c),
      (hr c _ (mem_ucR Cert.ReferenceIdeal.main_arg5 (by decide))).trans (Cert.ReferenceIdeal.GenP.W32_main_arg5 m' g' c),
      (hr c _ (mem_ucR Cert.ReferenceIdeal.main_arg6 (by decide))).trans (Cert.ReferenceIdeal.GenP.W32_main_arg6 m' g' c),
      (hr c _ (mem_ucR Cert.ReferenceIdeal.main_arg7 (by decide))).trans (Cert.ReferenceIdeal.GenP.W32_main_arg7 m' g' c),
      (hr c _ (mem_ucR Cert.ReferenceIdeal.main_arg8 (by decide))).trans (Cert.ReferenceIdeal.GenP.W32_main_arg8 m' g' c),
      (hr c _ (mem_ucR Cert.ReferenceIdeal.main_arg9 (by decide))).trans (Cert.ReferenceIdeal.GenP.W32_main_arg9 m' g' c),
      (hr c _ (mem_ucR Cert.ReferenceIdeal.main_arg10 (by decide))).trans (Cert.ReferenceIdeal.GenP.W32_main_arg10 m' g' c),
      (hr c _ (mem_ucR Cert.ReferenceIdeal.main_arg11 (by decide))).trans (Cert.ReferenceIdeal.GenP.W32_main_arg11 m' g' c),
      (hr c _ (mem_ucR Cert.ReferenceIdeal.main_arg12 (by decide))).trans (Cert.ReferenceIdeal.GenP.W32_main_arg12 m' g' c),
      (hr c _ (mem_ucR Cert.ReferenceIdeal.main_arg13 (by decide))).trans (Cert.ReferenceIdeal.GenP.W32_main_arg13 m' g' c),
      (hr c _ (mem_ucR Cert.ReferenceIdeal.main_arg14 (by decide))).trans (Cert.ReferenceIdeal.GenP.W32_main_arg14 m' g' c),
      (hr c _ (mem_ucR Cert.ReferenceIdeal.main_arg15 (by decide))).trans (Cert.ReferenceIdeal.GenP.W32_main_arg15 m' g' c),
      (hr c _ (mem_ucR Cert.ReferenceIdeal.main_arg16 (by decide))).trans (Cert.ReferenceIdeal.GenP.W32_main_arg16 m' g' c),
      (hr c _ (mem_ucR Cert.ReferenceIdeal.main_arg17 (by decide))).trans (Cert.ReferenceIdeal.GenP.W32_main_arg17 m' g' c),
      (hr c _ (mem_ucR Cert.ReferenceIdeal.main_arg18 (by decide))).trans (Cert.ReferenceIdeal.GenP.W32_main_arg18 m' g' c),
      (hr c _ (mem_ucR Cert.ReferenceIdeal.main_arg19 (by decide))).trans (Cert.ReferenceIdeal.GenP.W32_main_arg19 m' g' c),
      (hr c _ (mem_ucR Cert.ReferenceIdeal.main_arg20 (by decide))).trans (Cert.ReferenceIdeal.GenP.W32_main_arg20 m' g' c),
      (hr c _ (mem_ucR Cert.ReferenceIdeal.main_arg21 (by decide))).trans (Cert.ReferenceIdeal.GenP.W32_main_arg21 m' g' c),
      (hr c _ (mem_ucR Cert.ReferenceIdeal.main_arg22 (by decide))).trans (Cert.ReferenceIdeal.GenP.W32_main_arg22 m' g' c),
      (hr c _ (mem_ucR Cert.ReferenceIdeal.main_arg23 (by decide))).trans (Cert.ReferenceIdeal.GenP.W32_main_arg23 m' g' c),
      (hr c _ (mem_ucR Cert.ReferenceIdeal.main_arg24 (by decide))).trans (Cert.ReferenceIdeal.GenP.W32_main_arg24 m' g' c),
      (hr c _ (mem_ucR Cert.ReferenceIdeal.main_arg25 (by decide))).trans (Cert.ReferenceIdeal.GenP.W32_main_arg25 m' g' c),
      (hr c _ (mem_ucR Cert.ReferenceIdeal.main_arg26 (by decide))).trans (Cert.ReferenceIdeal.GenP.W32_main_arg26 m' g' c),
      (hr c _ (mem_ucR Cert.ReferenceIdeal.main_arg27 (by decide))).trans (Cert.ReferenceIdeal.GenP.W32_main_arg27 m' g' c),
      (hr c _ (mem_ucR Cert.ReferenceIdeal.main_arg28 (by decide))).trans (Cert.ReferenceIdeal.GenP.W32_main_arg28 m' g' c),
      (hr c _ (mem_ucR Cert.ReferenceIdeal.main_arg29 (by decide))).trans (Cert.ReferenceIdeal.GenP.W32_main_arg29 m' g' c),
      (hr c _ (mem_ucR Cert.ReferenceIdeal.main_arg30 (by decide))).trans (Cert.ReferenceIdeal.GenP.W32_main_arg30 m' g' c),
      (hr c _ (mem_ucR Cert.ReferenceIdeal.main_arg31 (by decide))).trans (Cert.ReferenceIdeal.GenP.W32_main_arg31 m' g' c),
      (hr c _ (mem_ucR Cert.ReferenceIdeal.main_arg32 (by decide))).trans (Cert.ReferenceIdeal.GenP.W32_main_arg32 m' g' c),
      (hr c _ (mem_ucR Cert.ReferenceIdeal.main_arg33 (by decide))).trans (Cert.ReferenceIdeal.GenP.W32_main_arg33 m' g' c),
      (hr c _ (mem_ucR Cert.ReferenceIdeal.main_arg34 (by decide))).trans (Cert.ReferenceIdeal.GenP.W32_main_arg34 m' g' c),
      (hr c _ (mem_ucR Cert.ReferenceIdeal.main_arg35 (by decide))).trans (Cert.ReferenceIdeal.GenP.W32_main_arg35 m' g' c),
      (hr c _ (mem_ucR Cert.ReferenceIdeal.main_arg36 (by decide))).trans (Cert.ReferenceIdeal.GenP.W32_main_arg36 m' g' c),
      (hr c _ (mem_ucR Cert.ReferenceIdeal.main_arg37 (by decide))).trans (Cert.ReferenceIdeal.GenP.W32_main_arg37 m' g' c),
      (hr c _ (mem_ucR Cert.ReferenceIdeal.main_arg38 (by decide))).trans (Cert.ReferenceIdeal.GenP.W32_main_arg38 m' g' c),
      (hr c _ (mem_ucR Cert.ReferenceIdeal.main_arg39 (by decide))).trans (Cert.ReferenceIdeal.GenP.W32_main_arg39 m' g' c),
      (hr c _ (mem_ucR Cert.ReferenceIdeal.main_arg40 (by decide))).trans (Cert.ReferenceIdeal.GenP.W32_main_arg40 m' g' c),
      (hr c _ (mem_ucR Cert.ReferenceIdeal.main_arg41 (by decide))).trans (Cert.ReferenceIdeal.GenP.W32_main_arg41 m' g' c),
      (hr c _ (mem_ucR Cert.ReferenceIdeal.main_arg42 (by decide))).trans (Cert.ReferenceIdeal.GenP.W32_main_arg42 m' g' c),
      (hr c _ (mem_ucR Cert.ReferenceIdeal.main_arg43 (by decide))).trans (Cert.ReferenceIdeal.GenP.W32_main_arg43 m' g' c),
      (hr c _ (mem_ucR Cert.ReferenceIdeal.main_arg44 (by decide))).trans (Cert.ReferenceIdeal.GenP.W32_main_arg44 m' g' c),
      (hr c _ (mem_ucR Cert.ReferenceIdeal.main_arg45 (by decide))).trans (Cert.ReferenceIdeal.GenP.W32_main_arg45 m' g' c),
      (hr c _ (mem_ucR Cert.ReferenceIdeal.main_arg46 (by decide))).trans (Cert.ReferenceIdeal.GenP.W32_main_arg46 m' g' c),
      (hr c _ (mem_ucR Cert.ReferenceIdeal.main_arg47 (by decide))).trans (Cert.ReferenceIdeal.GenP.W32_main_arg47 m' g' c),
      (hr c _ (mem_ucR Cert.ReferenceIdeal.main_arg48 (by decide))).trans (Cert.ReferenceIdeal.GenP.W32_main_arg48 m' g' c),
      (hr c _ (mem_ucR Cert.ReferenceIdeal.main_arg49 (by decide))).trans (Cert.ReferenceIdeal.GenP.W32_main_arg49 m' g' c),
      (hr c _ (mem_ucR Cert.ReferenceIdeal.main_arg50 (by decide))).trans (Cert.ReferenceIdeal.GenP.W32_main_arg50 m' g' c),
      (hr c _ (mem_ucR Cert.ReferenceIdeal.main_arg51 (by decide))).trans (Cert.ReferenceIdeal.GenP.W32_main_arg51 m' g' c),
      (hr c _ (mem_ucR Cert.ReferenceIdeal.main_arg52 (by decide))).trans (Cert.ReferenceIdeal.GenP.W32_main_arg52 m' g' c),
      (hr c _ (mem_ucR Cert.ReferenceIdeal.main_arg53 (by decide))).trans (Cert.ReferenceIdeal.GenP.W32_main_arg53 m' g' c),
      (hr c _ (mem_ucR Cert.ReferenceIdeal.main_arg54 (by decide))).trans (Cert.ReferenceIdeal.GenP.W32_main_arg54 m' g' c),
      (hr c _ (mem_ucR Cert.ReferenceIdeal.main_arg55 (by decide))).trans (Cert.ReferenceIdeal.GenP.W32_main_arg55 m' g' c),
      (hr c _ (mem_ucR Cert.ReferenceIdeal.main_arg56 (by decide))).trans (Cert.ReferenceIdeal.GenP.W32_main_arg56 m' g' c),
      (hr c _ (mem_ucR Cert.ReferenceIdeal.main_arg57 (by decide))).trans (Cert.ReferenceIdeal.GenP.W32_main_arg57 m' g' c),
      (hr c _ (mem_ucR Cert.ReferenceIdeal.main_arg58 (by decide))).trans (Cert.ReferenceIdeal.GenP.W32_main_arg58 m' g' c),
      (hr c _ (mem_ucR Cert.ReferenceIdeal.main_arg59 (by decide))).trans (Cert.ReferenceIdeal.GenP.W32_main_arg59 m' g' c),
      (hr c _ (mem_ucR Cert.ReferenceIdeal.main_arg60 (by decide))).trans (Cert.ReferenceIdeal.GenP.W32_main_arg60 m' g' c)⟩

end Cert.Final
-- ==== Proof.KI.RunVals.lean ====
import proofs.«117664_g2000706958607885_pallasbulk_534_41_alg».proof.Proof.KI.Run

set_option maxRecDepth 16384

noncomputable section

namespace Cert.KernelIdeal.Fr

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Seg HostSeg RegionSeg)

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

/-! # The run's values: every unscoped buffer at the end of @main

The same launch over the same segments as the frame, with the last thread state read whole: every unscoped buffer of
every core ends holding the last boundary's contents `X24`. -/

set_option backward.isDefEq.respectTransparency.types false in
theorem run_vals : θ_run defs (onTc (τ := τ) (main (F := F))) ⟨m, fun _ => 0, ρ⟩
    (fun r => ∀ c : Dev nD, ∀ b ∈ Pipeline.ucRefs τ sig, r.2.mem ((c : Thread nD τ).1, b) = X24 m c b) := by
  refine Pipeline.θ_run_regions_kit_dev (pcfgs (F := F)) adm (pdats m) () cellOf_inj emb₁ defs₀ 𝒱₀ L lv m ρ main
    (segs m (outs m) 𝒱₀ L lv (fun _ c => R c) () (pdats m) (reg0 m) (reg1 m) (reg2 m) (reg3 m) (reg4 m) (reg5 m) (reg6 m) (reg7 m) (reg8 m) (reg9 m) (reg10 m) (reg11 m))
    (fun c Q => by
      rewrite [main_chain c, Seg.run_eq_chain,
        show (segs m (outs m) 𝒱₀ L lv (fun _ c => R c) () (pdats m) (reg0 m) (reg1 m) (reg2 m) (reg3 m) (reg4 m) (reg5 m) (reg6 m) (reg7 m) (reg8 m) (reg9 m) (reg10 m) (reg11 m) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          Prog.lift (.customCall (Pipeline.entry 10) ()),
          StableHlo.seq hostOps11,
          Prog.lift (.customCall (Pipeline.entry 11) ()) ] from rfl]
      exact .rfl)
    (fun c => by simp only [segs, Seg.pipes_host, Seg.pipes_region, Seg.pipes_nil]; decide)
    (fun _ => 0) (fun _ _ => rfl) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V24 m (outs m) c))
    (hch := fun c => ⟨.rfl,
      pre_fit0 m c, post_fit0 m c,
      pre_fit1 m c, post_fit1 m c,
      pre_fit2 m c, post_fit2 m c,
      pre_fit3 m c, post_fit3 m c,
      pre_fit4 m c, post_fit4 m c,
      pre_fit5 m c, post_fit5 m c,
      pre_fit6 m c, post_fit6 m c,
      pre_fit7 m c, post_fit7 m c,
      pre_fit8 m c, post_fit8 m c,
      pre_fit9 m c, post_fit9 m c,
      pre_fit10 m c, post_fit10 m c,
      pre_fit11 m c, (post_fit11 m c).trans (sep_mono .rfl (by iintro ⟨-, H⟩; iexact H))⟩)
    (hinit := ?_)
    (QY := fun c s => ∀ b ∈ Pipeline.ucRefs τ sig, s.mem ((c : Thread nD τ).1, b) = V24 m (outs m) c b)
    (hfin := fun c s' => ?_)
    (hQ := fun s h c b hb => (h c b hb).trans (congrFun (V24_eq m c) b))
  · -- the launch: the unscoped buffers are held at the launch contents; the rest makes the rest state on every core at once
    have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ : Dev nD => (0 : CellTallies nD τ sig Unit)) c ∗ prngReg c (ρ c) ∗ emp))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (0 : CellTallies nD τ sig Unit) ∅ ∗ Pipeline.launchCred (fun _ : Dev nD => (0 : CellTallies nD τ sig Unit)) c ∗ prngReg c (ρ c) ∗ emp))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, -⟩
    ihave H' := hsplit $$ H
    icases H' with ⟨Hh, Hr⟩
    ihave HE := (launch_rests ρ) $$ Hr
    imodintro
    rw [bigSep_sep' Finset.univ (fun c : Dev nD => StableHlo.held (c : Thread nD τ) (Pipeline.ucRefs τ sig) (V0 m c))
      (fun c : Dev nD => (R c : sProp 𝕄))]
    isplitl [Hh]; · iexact Hh
    iexact HE
  · -- the end: every unscoped buffer read off the last thread state
    unfold StableHlo.held
    iintro ⟨Hh, HSI⟩
    imodintro
    iapply (pointsTo_read_all (Pipeline.ucRefs τ sig) (fun b => ((c : Thread nD τ).1, b)) (V24 m (outs m) c) s')
    isplitl [Hh] <;> iassumption

/-! ## The arguments at the end

No host stretch writes an argument array and no region may change one, so the last boundary's contents hold each as launched. -/
theorem X24_arg0 (c : Dev nD) : X24 m c main_arg0 = m ((c : Thread nD τ).loc main_arg0) :=
  (congrFun (V24_eq m c) (Proc.devRef .tc main_arg0)).symm.trans (V24_main_arg0 m (outs m) c)
theorem X24_arg1 (c : Dev nD) : X24 m c main_arg1 = m ((c : Thread nD τ).loc main_arg1) :=
  (congrFun (V24_eq m c) (Proc.devRef .tc main_arg1)).symm.trans (V24_main_arg1 m (outs m) c)
theorem X24_arg2 (c : Dev nD) : X24 m c main_arg2 = m ((c : Thread nD τ).loc main_arg2) :=
  (congrFun (V24_eq m c) (Proc.devRef .tc main_arg2)).symm.trans (V24_main_arg2 m (outs m) c)
theorem X24_arg3 (c : Dev nD) : X24 m c main_arg3 = m ((c : Thread nD τ).loc main_arg3) :=
  (congrFun (V24_eq m c) (Proc.devRef .tc main_arg3)).symm.trans (V24_main_arg3 m (outs m) c)
theorem X24_arg4 (c : Dev nD) : X24 m c main_arg4 = m ((c : Thread nD τ).loc main_arg4) :=
  (congrFun (V24_eq m c) (Proc.devRef .tc main_arg4)).symm.trans (V24_main_arg4 m (outs m) c)
theorem X24_arg5 (c : Dev nD) : X24 m c main_arg5 = m ((c : Thread nD τ).loc main_arg5) :=
  (congrFun (V24_eq m c) (Proc.devRef .tc main_arg5)).symm.trans (V24_main_arg5 m (outs m) c)
theorem X24_arg6 (c : Dev nD) : X24 m c main_arg6 = m ((c : Thread nD τ).loc main_arg6) :=
  (congrFun (V24_eq m c) (Proc.devRef .tc main_arg6)).symm.trans (V24_main_arg6 m (outs m) c)
theorem X24_arg7 (c : Dev nD) : X24 m c main_arg7 = m ((c : Thread nD τ).loc main_arg7) :=
  (congrFun (V24_eq m c) (Proc.devRef .tc main_arg7)).symm.trans (V24_main_arg7 m (outs m) c)
theorem X24_arg8 (c : Dev nD) : X24 m c main_arg8 = m ((c : Thread nD τ).loc main_arg8) :=
  (congrFun (V24_eq m c) (Proc.devRef .tc main_arg8)).symm.trans (V24_main_arg8 m (outs m) c)
theorem X24_arg9 (c : Dev nD) : X24 m c main_arg9 = m ((c : Thread nD τ).loc main_arg9) :=
  (congrFun (V24_eq m c) (Proc.devRef .tc main_arg9)).symm.trans (V24_main_arg9 m (outs m) c)
theorem X24_arg10 (c : Dev nD) : X24 m c main_arg10 = m ((c : Thread nD τ).loc main_arg10) :=
  (congrFun (V24_eq m c) (Proc.devRef .tc main_arg10)).symm.trans (V24_main_arg10 m (outs m) c)
theorem X24_arg11 (c : Dev nD) : X24 m c main_arg11 = m ((c : Thread nD τ).loc main_arg11) :=
  (congrFun (V24_eq m c) (Proc.devRef .tc main_arg11)).symm.trans (V24_main_arg11 m (outs m) c)
theorem X24_arg12 (c : Dev nD) : X24 m c main_arg12 = m ((c : Thread nD τ).loc main_arg12) :=
  (congrFun (V24_eq m c) (Proc.devRef .tc main_arg12)).symm.trans (V24_main_arg12 m (outs m) c)
theorem X24_arg13 (c : Dev nD) : X24 m c main_arg13 = m ((c : Thread nD τ).loc main_arg13) :=
  (congrFun (V24_eq m c) (Proc.devRef .tc main_arg13)).symm.trans (V24_main_arg13 m (outs m) c)
theorem X24_arg14 (c : Dev nD) : X24 m c main_arg14 = m ((c : Thread nD τ).loc main_arg14) :=
  (congrFun (V24_eq m c) (Proc.devRef .tc main_arg14)).symm.trans (V24_main_arg14 m (outs m) c)
theorem X24_arg15 (c : Dev nD) : X24 m c main_arg15 = m ((c : Thread nD τ).loc main_arg15) :=
  (congrFun (V24_eq m c) (Proc.devRef .tc main_arg15)).symm.trans (V24_main_arg15 m (outs m) c)
theorem X24_arg16 (c : Dev nD) : X24 m c main_arg16 = m ((c : Thread nD τ).loc main_arg16) :=
  (congrFun (V24_eq m c) (Proc.devRef .tc main_arg16)).symm.trans (V24_main_arg16 m (outs m) c)
theorem X24_arg17 (c : Dev nD) : X24 m c main_arg17 = m ((c : Thread nD τ).loc main_arg17) :=
  (congrFun (V24_eq m c) (Proc.devRef .tc main_arg17)).symm.trans (V24_main_arg17 m (outs m) c)
theorem X24_arg18 (c : Dev nD) : X24 m c main_arg18 = m ((c : Thread nD τ).loc main_arg18) :=
  (congrFun (V24_eq m c) (Proc.devRef .tc main_arg18)).symm.trans (V24_main_arg18 m (outs m) c)
theorem X24_arg19 (c : Dev nD) : X24 m c main_arg19 = m ((c : Thread nD τ).loc main_arg19) :=
  (congrFun (V24_eq m c) (Proc.devRef .tc main_arg19)).symm.trans (V24_main_arg19 m (outs m) c)
theorem X24_arg20 (c : Dev nD) : X24 m c main_arg20 = m ((c : Thread nD τ).loc main_arg20) :=
  (congrFun (V24_eq m c) (Proc.devRef .tc main_arg20)).symm.trans (V24_main_arg20 m (outs m) c)
theorem X24_arg21 (c : Dev nD) : X24 m c main_arg21 = m ((c : Thread nD τ).loc main_arg21) :=
  (congrFun (V24_eq m c) (Proc.devRef .tc main_arg21)).symm.trans (V24_main_arg21 m (outs m) c)
theorem X24_arg22 (c : Dev nD) : X24 m c main_arg22 = m ((c : Thread nD τ).loc main_arg22) :=
  (congrFun (V24_eq m c) (Proc.devRef .tc main_arg22)).symm.trans (V24_main_arg22 m (outs m) c)
theorem X24_arg23 (c : Dev nD) : X24 m c main_arg23 = m ((c : Thread nD τ).loc main_arg23) :=
  (congrFun (V24_eq m c) (Proc.devRef .tc main_arg23)).symm.trans (V24_main_arg23 m (outs m) c)
theorem X24_arg24 (c : Dev nD) : X24 m c main_arg24 = m ((c : Thread nD τ).loc main_arg24) :=
  (congrFun (V24_eq m c) (Proc.devRef .tc main_arg24)).symm.trans (V24_main_arg24 m (outs m) c)
theorem X24_arg25 (c : Dev nD) : X24 m c main_arg25 = m ((c : Thread nD τ).loc main_arg25) :=
  (congrFun (V24_eq m c) (Proc.devRef .tc main_arg25)).symm.trans (V24_main_arg25 m (outs m) c)
theorem X24_arg26 (c : Dev nD) : X24 m c main_arg26 = m ((c : Thread nD τ).loc main_arg26) :=
  (congrFun (V24_eq m c) (Proc.devRef .tc main_arg26)).symm.trans (V24_main_arg26 m (outs m) c)
theorem X24_arg27 (c : Dev nD) : X24 m c main_arg27 = m ((c : Thread nD τ).loc main_arg27) :=
  (congrFun (V24_eq m c) (Proc.devRef .tc main_arg27)).symm.trans (V24_main_arg27 m (outs m) c)
theorem X24_arg28 (c : Dev nD) : X24 m c main_arg28 = m ((c : Thread nD τ).loc main_arg28) :=
  (congrFun (V24_eq m c) (Proc.devRef .tc main_arg28)).symm.trans (V24_main_arg28 m (outs m) c)
theorem X24_arg29 (c : Dev nD) : X24 m c main_arg29 = m ((c : Thread nD τ).loc main_arg29) :=
  (congrFun (V24_eq m c) (Proc.devRef .tc main_arg29)).symm.trans (V24_main_arg29 m (outs m) c)
theorem X24_arg30 (c : Dev nD) : X24 m c main_arg30 = m ((c : Thread nD τ).loc main_arg30) :=
  (congrFun (V24_eq m c) (Proc.devRef .tc main_arg30)).symm.trans (V24_main_arg30 m (outs m) c)
theorem X24_arg31 (c : Dev nD) : X24 m c main_arg31 = m ((c : Thread nD τ).loc main_arg31) :=
  (congrFun (V24_eq m c) (Proc.devRef .tc main_arg31)).symm.trans (V24_main_arg31 m (outs m) c)
theorem X24_arg32 (c : Dev nD) : X24 m c main_arg32 = m ((c : Thread nD τ).loc main_arg32) :=
  (congrFun (V24_eq m c) (Proc.devRef .tc main_arg32)).symm.trans (V24_main_arg32 m (outs m) c)
theorem X24_arg33 (c : Dev nD) : X24 m c main_arg33 = m ((c : Thread nD τ).loc main_arg33) :=
  (congrFun (V24_eq m c) (Proc.devRef .tc main_arg33)).symm.trans (V24_main_arg33 m (outs m) c)
theorem X24_arg34 (c : Dev nD) : X24 m c main_arg34 = m ((c : Thread nD τ).loc main_arg34) :=
  (congrFun (V24_eq m c) (Proc.devRef .tc main_arg34)).symm.trans (V24_main_arg34 m (outs m) c)
theorem X24_arg35 (c : Dev nD) : X24 m c main_arg35 = m ((c : Thread nD τ).loc main_arg35) :=
  (congrFun (V24_eq m c) (Proc.devRef .tc main_arg35)).symm.trans (V24_main_arg35 m (outs m) c)
theorem X24_arg36 (c : Dev nD) : X24 m c main_arg36 = m ((c : Thread nD τ).loc main_arg36) :=
  (congrFun (V24_eq m c) (Proc.devRef .tc main_arg36)).symm.trans (V24_main_arg36 m (outs m) c)
theorem X24_arg37 (c : Dev nD) : X24 m c main_arg37 = m ((c : Thread nD τ).loc main_arg37) :=
  (congrFun (V24_eq m c) (Proc.devRef .tc main_arg37)).symm.trans (V24_main_arg37 m (outs m) c)
theorem X24_arg38 (c : Dev nD) : X24 m c main_arg38 = m ((c : Thread nD τ).loc main_arg38) :=
  (congrFun (V24_eq m c) (Proc.devRef .tc main_arg38)).symm.trans (V24_main_arg38 m (outs m) c)
theorem X24_arg39 (c : Dev nD) : X24 m c main_arg39 = m ((c : Thread nD τ).loc main_arg39) :=
  (congrFun (V24_eq m c) (Proc.devRef .tc main_arg39)).symm.trans (V24_main_arg39 m (outs m) c)
theorem X24_arg40 (c : Dev nD) : X24 m c main_arg40 = m ((c : Thread nD τ).loc main_arg40) :=
  (congrFun (V24_eq m c) (Proc.devRef .tc main_arg40)).symm.trans (V24_main_arg40 m (outs m) c)
theorem X24_arg41 (c : Dev nD) : X24 m c main_arg41 = m ((c : Thread nD τ).loc main_arg41) :=
  (congrFun (V24_eq m c) (Proc.devRef .tc main_arg41)).symm.trans (V24_main_arg41 m (outs m) c)
theorem X24_arg42 (c : Dev nD) : X24 m c main_arg42 = m ((c : Thread nD τ).loc main_arg42) :=
  (congrFun (V24_eq m c) (Proc.devRef .tc main_arg42)).symm.trans (V24_main_arg42 m (outs m) c)
theorem X24_arg43 (c : Dev nD) : X24 m c main_arg43 = m ((c : Thread nD τ).loc main_arg43) :=
  (congrFun (V24_eq m c) (Proc.devRef .tc main_arg43)).symm.trans (V24_main_arg43 m (outs m) c)
theorem X24_arg44 (c : Dev nD) : X24 m c main_arg44 = m ((c : Thread nD τ).loc main_arg44) :=
  (congrFun (V24_eq m c) (Proc.devRef .tc main_arg44)).symm.trans (V24_main_arg44 m (outs m) c)
theorem X24_arg45 (c : Dev nD) : X24 m c main_arg45 = m ((c : Thread nD τ).loc main_arg45) :=
  (congrFun (V24_eq m c) (Proc.devRef .tc main_arg45)).symm.trans (V24_main_arg45 m (outs m) c)
theorem X24_arg46 (c : Dev nD) : X24 m c main_arg46 = m ((c : Thread nD τ).loc main_arg46) :=
  (congrFun (V24_eq m c) (Proc.devRef .tc main_arg46)).symm.trans (V24_main_arg46 m (outs m) c)
theorem X24_arg47 (c : Dev nD) : X24 m c main_arg47 = m ((c : Thread nD τ).loc main_arg47) :=
  (congrFun (V24_eq m c) (Proc.devRef .tc main_arg47)).symm.trans (V24_main_arg47 m (outs m) c)
theorem X24_arg48 (c : Dev nD) : X24 m c main_arg48 = m ((c : Thread nD τ).loc main_arg48) :=
  (congrFun (V24_eq m c) (Proc.devRef .tc main_arg48)).symm.trans (V24_main_arg48 m (outs m) c)
theorem X24_arg49 (c : Dev nD) : X24 m c main_arg49 = m ((c : Thread nD τ).loc main_arg49) :=
  (congrFun (V24_eq m c) (Proc.devRef .tc main_arg49)).symm.trans (V24_main_arg49 m (outs m) c)
theorem X24_arg50 (c : Dev nD) : X24 m c main_arg50 = m ((c : Thread nD τ).loc main_arg50) :=
  (congrFun (V24_eq m c) (Proc.devRef .tc main_arg50)).symm.trans (V24_main_arg50 m (outs m) c)
theorem X24_arg51 (c : Dev nD) : X24 m c main_arg51 = m ((c : Thread nD τ).loc main_arg51) :=
  (congrFun (V24_eq m c) (Proc.devRef .tc main_arg51)).symm.trans (V24_main_arg51 m (outs m) c)
theorem X24_arg52 (c : Dev nD) : X24 m c main_arg52 = m ((c : Thread nD τ).loc main_arg52) :=
  (congrFun (V24_eq m c) (Proc.devRef .tc main_arg52)).symm.trans (V24_main_arg52 m (outs m) c)
theorem X24_arg53 (c : Dev nD) : X24 m c main_arg53 = m ((c : Thread nD τ).loc main_arg53) :=
  (congrFun (V24_eq m c) (Proc.devRef .tc main_arg53)).symm.trans (V24_main_arg53 m (outs m) c)
theorem X24_arg54 (c : Dev nD) : X24 m c main_arg54 = m ((c : Thread nD τ).loc main_arg54) :=
  (congrFun (V24_eq m c) (Proc.devRef .tc main_arg54)).symm.trans (V24_main_arg54 m (outs m) c)
theorem X24_arg55 (c : Dev nD) : X24 m c main_arg55 = m ((c : Thread nD τ).loc main_arg55) :=
  (congrFun (V24_eq m c) (Proc.devRef .tc main_arg55)).symm.trans (V24_main_arg55 m (outs m) c)
theorem X24_arg56 (c : Dev nD) : X24 m c main_arg56 = m ((c : Thread nD τ).loc main_arg56) :=
  (congrFun (V24_eq m c) (Proc.devRef .tc main_arg56)).symm.trans (V24_main_arg56 m (outs m) c)
theorem X24_arg57 (c : Dev nD) : X24 m c main_arg57 = m ((c : Thread nD τ).loc main_arg57) :=
  (congrFun (V24_eq m c) (Proc.devRef .tc main_arg57)).symm.trans (V24_main_arg57 m (outs m) c)
theorem X24_arg58 (c : Dev nD) : X24 m c main_arg58 = m ((c : Thread nD τ).loc main_arg58) :=
  (congrFun (V24_eq m c) (Proc.devRef .tc main_arg58)).symm.trans (V24_main_arg58 m (outs m) c)
theorem X24_arg59 (c : Dev nD) : X24 m c main_arg59 = m ((c : Thread nD τ).loc main_arg59) :=
  (congrFun (V24_eq m c) (Proc.devRef .tc main_arg59)).symm.trans (V24_main_arg59 m (outs m) c)
theorem X24_arg60 (c : Dev nD) : X24 m c main_arg60 = m ((c : Thread nD τ).loc main_arg60) :=
  (congrFun (V24_eq m c) (Proc.devRef .tc main_arg60)).symm.trans (V24_main_arg60 m (outs m) c)

end Cert.KernelIdeal.Fr

end
-- ==== Proof.KV.Carry.lean ====
/-
  The buffer contents at the boundaries of the kernel program's run, step by step: a buffer that a host stretch does
  not write, or that is no output array of a region, holds after the step what it held before it.
-/
import proofs.«117664_g2000706958607885_pallasbulk_534_41_alg».proof.Proof.KI.RunDefs

noncomputable section

namespace Cert.KernelIdeal.Val

open Cert.KernelIdeal Cert.KernelIdeal.Gen Cert.KernelIdeal.Fr
open Idealize.ShloMosaic Idealize.ShloMosaic.TcCoe Idealize.SL.Sem

variable {F : FTy → Type} [FloatOps F]
variable (m : (ℓ : Loc nD τ sig) → Buf (Elt F) ℓ) (c : Dev nD)

theorem step1 (r : Ref sig .tc) (h : r ∉ hostOps0_W) : X1 m c r = X0 m c r :=
  V1_of m c r h
theorem step2 (r : Ref sig .tc) (h : r ∉ ([main_v11_0, main_v11_1, main_v11_2] : List (Ref sig .tc))) : X2 m c r = X1 m c r :=
  (congrFun (V2_eq m c) r).symm.trans ((V2_of m (outs m) c r h).trans (congrFun (V1_eq m c) r))
theorem step3 (r : Ref sig .tc) (h : r ∉ hostOps1_W) : X3 m c r = X2 m c r :=
  (congrFun (V3_eq m c) r).symm.trans ((V3_of m (outs m) c r h).trans (congrFun (V2_eq m c) r))
theorem step4 (r : Ref sig .tc) (h : r ∉ ([main_v29_0, main_v29_1, main_v29_2] : List (Ref sig .tc))) : X4 m c r = X3 m c r :=
  (congrFun (V4_eq m c) r).symm.trans ((V4_of m (outs m) c r h).trans (congrFun (V3_eq m c) r))
theorem step5 (r : Ref sig .tc) (h : r ∉ hostOps2_W) : X5 m c r = X4 m c r :=
  (congrFun (V5_eq m c) r).symm.trans ((V5_of m (outs m) c r h).trans (congrFun (V4_eq m c) r))
theorem step6 (r : Ref sig .tc) (h : r ∉ ([main_v46_0, main_v46_1] : List (Ref sig .tc))) : X6 m c r = X5 m c r :=
  (congrFun (V6_eq m c) r).symm.trans ((V6_of m (outs m) c r h).trans (congrFun (V5_eq m c) r))
theorem step7 (r : Ref sig .tc) (h : r ∉ hostOps3_W) : X7 m c r = X6 m c r :=
  (congrFun (V7_eq m c) r).symm.trans ((V7_of m (outs m) c r h).trans (congrFun (V6_eq m c) r))
theorem step8 (r : Ref sig .tc) (h : r ∉ ([main_v50] : List (Ref sig .tc))) : X8 m c r = X7 m c r :=
  (congrFun (V8_eq m c) r).symm.trans ((V8_of m (outs m) c r h).trans (congrFun (V7_eq m c) r))
theorem step9 (r : Ref sig .tc) (h : r ∉ hostOps4_W) : X9 m c r = X8 m c r :=
  (congrFun (V9_eq m c) r).symm.trans ((V9_of m (outs m) c r h).trans (congrFun (V8_eq m c) r))
theorem step10 (r : Ref sig .tc) (h : r ∉ ([main_v53_0, main_v53_1] : List (Ref sig .tc))) : X10 m c r = X9 m c r :=
  (congrFun (V10_eq m c) r).symm.trans ((V10_of m (outs m) c r h).trans (congrFun (V9_eq m c) r))
theorem step11 (r : Ref sig .tc) (h : r ∉ hostOps5_W) : X11 m c r = X10 m c r :=
  (congrFun (V11_eq m c) r).symm.trans ((V11_of m (outs m) c r h).trans (congrFun (V10_eq m c) r))
theorem step12 (r : Ref sig .tc) (h : r ∉ ([main_v57_0, main_v57_1, main_v57_2] : List (Ref sig .tc))) : X12 m c r = X11 m c r :=
  (congrFun (V12_eq m c) r).symm.trans ((V12_of m (outs m) c r h).trans (congrFun (V11_eq m c) r))
theorem step13 (r : Ref sig .tc) (h : r ∉ hostOps6_W) : X13 m c r = X12 m c r :=
  (congrFun (V13_eq m c) r).symm.trans ((V13_of m (outs m) c r h).trans (congrFun (V12_eq m c) r))
theorem step14 (r : Ref sig .tc) (h : r ∉ ([main_v75] : List (Ref sig .tc))) : X14 m c r = X13 m c r :=
  (congrFun (V14_eq m c) r).symm.trans ((V14_of m (outs m) c r h).trans (congrFun (V13_eq m c) r))
theorem step15 (r : Ref sig .tc) (h : r ∉ hostOps7_W) : X15 m c r = X14 m c r :=
  (congrFun (V15_eq m c) r).symm.trans ((V15_of m (outs m) c r h).trans (congrFun (V14_eq m c) r))
theorem step16 (r : Ref sig .tc) (h : r ∉ ([main_v79_0, main_v79_1, main_v79_2] : List (Ref sig .tc))) : X16 m c r = X15 m c r :=
  (congrFun (V16_eq m c) r).symm.trans ((V16_of m (outs m) c r h).trans (congrFun (V15_eq m c) r))
theorem step17 (r : Ref sig .tc) (h : r ∉ hostOps8_W) : X17 m c r = X16 m c r :=
  (congrFun (V17_eq m c) r).symm.trans ((V17_of m (outs m) c r h).trans (congrFun (V16_eq m c) r))
theorem step18 (r : Ref sig .tc) (h : r ∉ ([main_v96_0, main_v96_1] : List (Ref sig .tc))) : X18 m c r = X17 m c r :=
  (congrFun (V18_eq m c) r).symm.trans ((V18_of m (outs m) c r h).trans (congrFun (V17_eq m c) r))
theorem step19 (r : Ref sig .tc) (h : r ∉ hostOps9_W) : X19 m c r = X18 m c r :=
  (congrFun (V19_eq m c) r).symm.trans ((V19_of m (outs m) c r h).trans (congrFun (V18_eq m c) r))
theorem step20 (r : Ref sig .tc) (h : r ∉ ([main_v100] : List (Ref sig .tc))) : X20 m c r = X19 m c r :=
  (congrFun (V20_eq m c) r).symm.trans ((V20_of m (outs m) c r h).trans (congrFun (V19_eq m c) r))
theorem step21 (r : Ref sig .tc) (h : r ∉ hostOps10_W) : X21 m c r = X20 m c r :=
  (congrFun (V21_eq m c) r).symm.trans ((V21_of m (outs m) c r h).trans (congrFun (V20_eq m c) r))
theorem step22 (r : Ref sig .tc) (h : r ∉ ([main_v103_0, main_v103_1] : List (Ref sig .tc))) : X22 m c r = X21 m c r :=
  (congrFun (V22_eq m c) r).symm.trans ((V22_of m (outs m) c r h).trans (congrFun (V21_eq m c) r))
theorem step23 (r : Ref sig .tc) (h : r ∉ hostOps11_W) : X23 m c r = X22 m c r :=
  (congrFun (V23_eq m c) r).symm.trans ((V23_of m (outs m) c r h).trans (congrFun (V22_eq m c) r))
theorem step24 (r : Ref sig .tc) (h : r ∉ ([main_v107] : List (Ref sig .tc))) : X24 m c r = X23 m c r :=
  (congrFun (V24_eq m c) r).symm.trans ((V24_of m (outs m) c r h).trans (congrFun (V23_eq m c) r))

end Cert.KernelIdeal.Val

end
-- ==== Proof.KV.ArgsDef.lean ====
/-
  The kernel program's 61 argument arrays, as the launch memory holds them, in the language of the results
  theorem; and the two facts about the index arrays that the precondition gives.
-/
import proofs.«117664_g2000706958607885_pallasbulk_534_41_alg».proof.Proof.KI.RunDefs
import proofs.«117664_g2000706958607885_pallasbulk_534_41_alg».proof.Proof.ResultsSpec

noncomputable section

namespace Cert.KernelIdeal.Val

open Cert.KernelIdeal Cert.KernelIdeal.Gen Cert.KernelIdeal.Fr
open Idealize.ShloMosaic Idealize.ShloMosaic.ValueIdx Idealize.ShloMosaic.TcCoe Idealize.SL.Sem
open Cert.Spec Cert.Bridge Cert.ResultsSpec

variable (m : (ℓ : Loc nD τ sig) → Buf (Elt Ideal) ℓ) (c : Dev nD)

/-- The 61 arguments as the launch memory of core `c` holds them. -/
abbrev argsOf : Args :=
  Args.ofArrays (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35)) (m ((c : Thread nD τ).loc main_arg36)) (m ((c : Thread nD τ).loc main_arg37)) (m ((c : Thread nD τ).loc main_arg38)) (m ((c : Thread nD τ).loc main_arg39)) (m ((c : Thread nD τ).loc main_arg40)) (m ((c : Thread nD τ).loc main_arg41)) (m ((c : Thread nD τ).loc main_arg42)) (m ((c : Thread nD τ).loc main_arg43)) (m ((c : Thread nD τ).loc main_arg44)) (m ((c : Thread nD τ).loc main_arg45)) (m ((c : Thread nD τ).loc main_arg46)) (m ((c : Thread nD τ).loc main_arg47)) (m ((c : Thread nD τ).loc main_arg48)) (m ((c : Thread nD τ).loc main_arg49)) (m ((c : Thread nD τ).loc main_arg50)) (m ((c : Thread nD τ).loc main_arg51)) (m ((c : Thread nD τ).loc main_arg52)) (m ((c : Thread nD τ).loc main_arg53)) (m ((c : Thread nD τ).loc main_arg54)) (m ((c : Thread nD τ).loc main_arg55)) (m ((c : Thread nD τ).loc main_arg56)) (m ((c : Thread nD τ).loc main_arg57)) (m ((c : Thread nD τ).loc main_arg58)) (m ((c : Thread nD τ).loc main_arg59)) (m ((c : Thread nD τ).loc main_arg60))

/-- Every entry of the second index array is a row number of the 16384-row array. -/
abbrev InRangeG : Prop :=
  ∀ i, 0 ≤ ((m ((c : Thread nD τ).loc main_arg3) : IVec S2x65536 32) i).toInt ∧ ((m ((c : Thread nD τ).loc main_arg3) : IVec S2x65536 32) i).toInt < 16384
/-- Every entry of the first index array is a row number of the 65536-row array. -/
abbrev InRangeA : Prop :=
  ∀ i, 0 ≤ ((m ((c : Thread nD τ).loc main_arg4) : IVec S2x131072 32) i).toInt ∧ ((m ((c : Thread nD τ).loc main_arg4) : IVec S2x131072 32) i).toInt < 65536

end Cert.KernelIdeal.Val

end
-- ==== Proof.Host.lean ====
/-
  Host operations read at an index, at the extended reals: a gather of rows, the wrap of a negative
  index, the in-bounds mask of a filled gather, a scatter-add of rows into an array.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ReduceAll

noncomputable section

namespace Cert.HostRead

open Idealize.ShloMosaic Idealize.ShloMosaic.ValueIdx
open scoped BigOperators

section Gather
variable {α : Type}

/-- The dimension numbers of a gather of whole rows: operand N × C, one start index per result row
    (E × 1), result E × C; the row axis is collapsed and indexed, the lane axis is the offset axis. -/
abbrev rowGatherDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- A gather of rows read at (t, q): the operand's row at the start index of t (read signed and
    clamped into [0, N − 1]), lane q. -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (y : (⟨2, ![E, C]⟩ : Shape).Idx) :
    Host.gather (rowGatherDims N C E wf) x idx y
      = x (ix2 ⟨min (idx (ix2 (y 0) 0)).toInt.toNat (N - 1), by omega⟩ (y 1)) := by
  unfold Host.gather
  congr 1
  funext a
  refine Fin.ext ?_
  show (rowGatherDims N C E wf).start y idx a + (rowGatherDims N C E wf).batchCoord y a + (rowGatherDims N C E wf).offCoord y a = _
  rw [GatherDims.batchCoord_eq_zero _ _ _ List.not_mem_nil]
  obtain rfl | rfl : a = (0 : Fin 2) ∨ a = (1 : Fin 2) := by
    rcases a with ⟨v, hv⟩
    change v < 2 at hv
    interval_cases v
    · left; rfl
    · right; rfl
  ·
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C E wf).startIndexMap from List.mem_singleton.mpr rfl)]
    have hsi : (rowGatherDims N C E wf).siIdx y ⟨List.idxOf (0 : Fin 2) (rowGatherDims N C E wf).startIndexMap,
        List.idxOf_lt_length_iff.2 (List.mem_singleton.mpr rfl)⟩ = ix2 (y 0) 0 := by
      funext b; refine Fin.ext ?_
      match b with
      | ⟨0, _⟩ => rfl
      | ⟨1, _⟩ => rfl
    rw [hsi]
    rfl

  · rw [show (rowGatherDims N C E wf).start y idx (1 : Fin 2) = 0 from by
      unfold GatherDims.start
      rw [dif_neg (show ¬ ((1 : Fin 2) ∈ (rowGatherDims N C E wf).startIndexMap) from (show ¬ ((1 : Fin 2) ∈ ([0] : List (Fin 2))) from by decide))]]
    simp only [Nat.zero_add]
    unfold GatherDims.offCoord
    rw [dif_pos (show (1 : Fin 2) ∈ (rowGatherDims N C E wf).sKept from (GatherDims.mem_sKept _ _).mpr ⟨(show ¬ ((1 : Fin 2) ∈ ([0] : List (Fin 2))) from by decide), List.not_mem_nil⟩)]
    rfl

end Gather

section Scatter

/-- The dimension numbers of a scatter of whole rows: operand N × C, one row index per update row
    (E × 1), updates E × C; the row axis is inserted and indexed, the lane axis is the window axis. -/
abbrev rowScatterDims (N C E : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N C E w : Nat}
  (wf : ScatterDims.WF ⟨2, ![N, C]⟩ ⟨2, ![E, 1]⟩ ⟨2, ![E, C]⟩ [1] [0] [0] 1)

theorem scatter_start0 (j : (⟨2, ![E, C]⟩ : Shape).Idx) (idx : IVec ⟨2, ![E, 1]⟩ w) :
    (rowScatterDims N C E wf).start j idx (0 : Fin 2) = (idx (ix2 (j 0) 0)).toInt := by
  unfold ScatterDims.start
  rw [dif_pos (show (0 : Fin 2) ∈ (rowScatterDims N C E wf).scatterDimsToOperandDims from List.mem_singleton.mpr rfl)]
  have hsi : (rowScatterDims N C E wf).siIdx j ⟨List.idxOf (0 : Fin 2) (rowScatterDims N C E wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  exact congrArg (fun z => (idx z).toInt) hsi

theorem scatter_start1 (j : (⟨2, ![E, C]⟩ : Shape).Idx) (idx : IVec ⟨2, ![E, 1]⟩ w) :
    (rowScatterDims N C E wf).start j idx (1 : Fin 2) = 0 := by
  unfold ScatterDims.start
  rw [dif_neg (show ¬ ((1 : Fin 2) ∈ (rowScatterDims N C E wf).scatterDimsToOperandDims) from
    (show ¬ ((1 : Fin 2) ∈ ([0] : List (Fin 2))) from by decide))]

theorem scatter_window0 (j : (⟨2, ![E, C]⟩ : Shape).Idx) :
    (rowScatterDims N C E wf).window j (0 : Fin 2) = 0 := by
  unfold ScatterDims.window
  rw [dif_neg]
  show ¬ ((0 : Fin 2) ∈ (⟨2, ![N, C]⟩ : Shape).kept ([0] : List (Fin 2)))
  simp [Shape.kept]

theorem scatter_window1 (j : (⟨2, ![E, C]⟩ : Shape).Idx) :
    (rowScatterDims N C E wf).window j (1 : Fin 2) = (j 1).val := by
  unfold ScatterDims.window
  rw [dif_pos (show (1 : Fin 2) ∈ (rowScatterDims N C E wf).sKept from by
    show (1 : Fin 2) ∈ (⟨2, ![N, C]⟩ : Shape).kept ([0] : List (Fin 2))
    simp [Shape.kept])]
  rfl

/-- An update row lands on operand element (n, c) exactly when its index, read signed, is n and its
    lane is c. -/
theorem resultIdx?_eq_some_iff (j : (⟨2, ![E, C]⟩ : Shape).Idx) (idx : IVec ⟨2, ![E, 1]⟩ w)
    (i : (⟨2, ![N, C]⟩ : Shape).Idx) :
    (rowScatterDims N C E wf).resultIdx? j idx = some i
      ↔ (idx (ix2 (j 0) 0)).toInt = ((i 0).val : Int) ∧ (j 1).val = (i 1).val := by
  unfold ScatterDims.resultIdx?
  have h0 := scatter_start0 (N := N) wf j idx
  have h1 := scatter_start1 (N := N) wf j idx
  have w0 := scatter_window0 (N := N) (E := E) wf j
  have w1 := scatter_window1 (N := N) (E := E) wf j
  have hi0 : (i 0).val < N := (i 0).isLt
  have hi1 : (i 1).val < C := (i 1).isLt
  have hj1 : (j 1).val < C := (j 1).isLt
  constructor
  · intro h
    split at h
    · rename_i hc
      have hf := Option.some.inj h
      have e0 := congrArg (fun f => (f 0).val) hf
      have e1 := congrArg (fun f => (f 1).val) hf
      simp only [h0, h1, w0, w1] at e0 e1
      have c0 := hc 0
      rw [h0, w0] at c0
      constructor
      · omega
      · omega
    · exact absurd h (by simp)
  · rintro ⟨e0, e1⟩
    rw [dif_pos (by
      intro a
      obtain rfl | rfl : a = (0 : Fin 2) ∨ a = (1 : Fin 2) := by
        rcases a with ⟨v, hv⟩
        change v < 2 at hv
        interval_cases v
        · left; rfl
        · right; rfl
      · rw [h0, w0]; constructor
        · omega
        · show _ < (N : Int); omega
      · rw [h1, w1]; constructor
        · omega
        · show _ < (C : Int); omega)]
    congr 1
    funext a
    obtain rfl | rfl : a = (0 : Fin 2) ∨ a = (1 : Fin 2) := by
      rcases a with ⟨v, hv⟩
      change v < 2 at hv
      interval_cases v
      · left; rfl
      · right; rfl
    · refine Fin.ext ?_
      show ((rowScatterDims N C E wf).start j idx 0 + ((rowScatterDims N C E wf).window j 0 : Int)).toNat = (i 0).val
      rw [h0, w0]; omega
    · refine Fin.ext ?_
      show ((rowScatterDims N C E wf).start j idx 1 + ((rowScatterDims N C E wf).window j 1 : Int)).toNat = (i 1).val
      rw [h1, w1]; omega

/-- A scatter-add of rows read at (n, c): the operand there plus the sum, over the update rows whose
    index is n, of their lane c. -/
theorem scatterAdd_rows_apply (x : FVec Ideal ⟨2, ![N, C]⟩ .f32) (idx : IVec ⟨2, ![E, 1]⟩ w)
    (upd : FVec Ideal ⟨2, ![E, C]⟩ .f32) (n : Fin N) (c : Fin C) :
    Host.scatterAdd (rowScatterDims N C E wf) x idx upd (ix2 n c)
      = x (ix2 n c) + ∑ e : Fin E, if (idx (ix2 e 0)).toInt = (n.val : Int) then upd (ix2 e c) else 0 := by
  show Ideal.hostScatterAdd (rowScatterDims N C E wf) x idx upd (ix2 n c) = _
  unfold Ideal.hostScatterAdd
  congr 1
  rw [Finset.sum_filter, sum_idx2]
  refine Finset.sum_congr rfl fun e _ => ?_
  simp only [resultIdx?_eq_some_iff]
  by_cases he : (idx (ix2 e 0)).toInt = (n.val : Int)
  · rw [if_pos he]
    rw [Finset.sum_eq_single c]
    · rw [if_pos ⟨he, rfl⟩]
    · intro b _ hb
      rw [if_neg]
      rintro ⟨_, h⟩
      exact hb (Fin.ext h)
    · intro h; exact absurd (Finset.mem_univ c) h
  · rw [if_neg he]
    refine Finset.sum_eq_zero fun b _ => ?_
    rw [if_neg]
    rintro ⟨h, _⟩
    exact he h

end Scatter

section Words

/-- A nonnegative index is left alone by the wrap of negative indices:
    select (x < 0) (x + n) x = x. -/
theorem wrap_of_nonneg (x y : BitVec 32) (hx : 0 ≤ x.toInt) :
    Scalar.select (IntOp.cmpi .slt x 0#32) y x = x := by
  have hc : IntOp.cmpi .slt x 0#32 = 0#1 := by
    refine eq_zero_of_ne_one fun h => ?_
    have := IntOp.cmpi_slt.1 h
    have h0 : (0#32 : BitVec 32).toInt = 0 := by decide
    omega
  rw [hc, select_zero]

/-- A left fold by "and" of one-bit words, all 1, from 1, is 1. -/
theorem foldl_andi_of_all {ι : Type} (f : ι → BitVec 1) :
    ∀ (l : List ι) (init : BitVec 1), init = 1#1 → (∀ n ∈ l, f n = 1#1) →
      l.foldl (fun r n => IntOp.andi r (f n)) init = 1#1
  | [], _, hi, _ => hi
  | a :: l, init, hi, hl => by
    rw [List.foldl_cons]
    refine foldl_andi_of_all f l _ ?_ (fun n hn => hl n (List.mem_cons_of_mem _ hn))
    exact IntOp.andi_eq_one.2 ⟨hi, hl a List.mem_cons_self⟩

/-- A reduction by "and" whose operand is 1 wherever it reduces into j, from the initial value 1, is 1 at j. -/
theorem reduce_andi_of_all {s t u : Shape} {axes : List (Fin s.rank)} (x : s.Idx → BitVec 1) (init : u.Idx → BitVec 1)
    (h : s.ReducesTo axes t) (hu : 0 < u.numel) (j : t.Idx) (hinit : ∀ k, init k = 1#1)
    (hx : ∀ i, h.drop i = j → x i = 1#1) : Host.reduce IntOp.andi x init h hu j = 1#1 := by
  rw [Host.reduce_eq_foldl]
  refine foldl_andi_of_all x _ _ (hinit _) fun i hi => ?_
  rw [List.mem_filter] at hi
  exact hx i (by simpa using hi.2)

end Words

end Cert.HostRead
-- ==== Proof.HostChain.lean ====
/-
  The host's index arithmetic and data movement around a gather or a scatter of rows, read at an index,
  for index vectors whose entries are valid row numbers: a row of a two-row index array, the wrap of
  negative entries, the column form of an index vector, the gather itself, the in-bounds mask and the
  select against a fill value, and the scatter-add into zeros.
-/
import proofs.«117664_g2000706958607885_pallasbulk_534_41_alg».proof.Proof.Host

noncomputable section

namespace Cert.HostRead

open Idealize.ShloMosaic Idealize.ShloMosaic.ValueIdx
open scoped BigOperators

section Chain
variable {α : Type}

/-- A splat of an integer constant, broadcast to any shape, is that constant everywhere. -/
theorem bcast_constantI_apply {s t : Shape} (dims : Fin s.rank → Fin t.rank) (h : s.BroadcastsInDim t dims)
    (w : Nat) (c : BitVec w) (j : t.Idx) : broadcastInDim t dims h (constantI s w c) j = c := rfl

/-- A splat of a float constant, broadcast to any shape, is that constant's value everywhere. -/
theorem bcast_constant_apply {s t : Shape} (dims : Fin s.rank → Fin t.rank) (h : s.BroadcastsInDim t dims)
    (φ : FTy) (b : BitVec φ.bits) (j : t.Idx) :
    broadcastInDim t dims h (constant (F := Ideal) s φ b) j = Ideal.ofBits φ b := rfl

/-- Row r of a 2 × E array, flattened to a vector, at t. -/
theorem row_of_pair_apply {E : Nat} (r : Fin 2) (ei : (⟨2, ![2, E]⟩ : Shape).Idx → α)
    (hs : (⟨2, ![2, E]⟩ : Shape).Slices ![r.val, 0] ⟨2, ![1, E]⟩)
    (hc : (⟨2, ![1, E]⟩ : Shape).ShapeCasts ⟨1, ![E]⟩) (t : Fin E) :
    shapeCast ⟨1, ![E]⟩ (extractStridedSlice ⟨2, ![1, E]⟩ ![r.val, 0] ei hs) hc (ix1 t) = ei (ix2 r t) := by
  rw [shapeCast_apply _ hc (ix1 t) (ix2 (0 : Fin 1) t) (by
    rw [Shape.rowMajor_val_two, Shape.rowMajor_val_one]
    show (0 : Nat) * E + t.val = t.val
    omega)]
  refine extractStridedSlice_apply _ ei hs _ (ix2 r t) fun a => ?_
  obtain rfl | rfl : a = (0 : Fin 2) ∨ a = (1 : Fin 2) := by
    rcases a with ⟨v, hv⟩
    change v < 2 at hv
    interval_cases v
    · left; rfl
    · right; rfl
  · show r.val = r.val + 0
    omega
  · show t.val = 0 + t.val
    omega

/-- The column form (E × 1) of an index vector, at row t. -/
theorem col_apply {E : Nat} (v : (⟨1, ![E]⟩ : Shape).Idx → α)
    (h : (⟨1, ![E]⟩ : Shape).BroadcastsInDim ⟨2, ![E, 1]⟩ ![0]) (t : Fin E) :
    broadcastInDim ⟨2, ![E, 1]⟩ ![0] h v (ix2 t 0) = v (ix1 t) := by
  refine broadcastInDim_apply _ h v _ (ix1 t) fun a => ?_
  obtain rfl : a = (0 : Fin 1) := Subsingleton.elim _ _
  show t.val = if E = 1 then 0 else t.val
  split
  · have := t.isLt; omega
  · rfl

/-- The wrap of negative entries leaves an index vector with nonnegative entries as it is. -/
theorem wrap_apply {s : Shape} (v z n : IVec s 32) (i : s.Idx) (hz : z i = 0#32) (hv : 0 ≤ (v i).toInt) :
    select (cmpi .slt v z) (addi v n) v i = v i := by
  rw [select_apply]
  show Scalar.select (IntOp.cmpi .slt (v i) (z i)) _ _ = _
  rw [hz]
  exact wrap_of_nonneg _ _ hv

/-- A gather of rows at a column of valid row numbers: row t of the result is the operand's row of that number. -/
theorem gather_rows_of_inrange {N C E : Nat}
    (wf : GatherDims.WF ⟨2, ![N, C]⟩ ⟨2, ![E, 1]⟩ ⟨2, ![E, C]⟩ [1] [0] [] [0] [] 1 ![1, C])
    (x : (⟨2, ![N, C]⟩ : Shape).Idx → α) (I : IVec ⟨2, ![E, 1]⟩ 32) (t : Fin E) (q : Fin C)
    (wd : BitVec 32) (hI : I (ix2 t 0) = wd) (h0 : 0 ≤ wd.toInt) (hN : wd.toInt < (N : Int)) :
    Host.gather (rowGatherDims N C E wf) x I (ix2 t q) = x (ix2 ⟨wd.toInt.toNat, by omega⟩ q) := by
  have hNpos : 0 < N := by omega
  rw [gather_rows_apply hNpos wf x I (ix2 t q)]
  congr 1
  funext a
  obtain rfl | rfl : a = (0 : Fin 2) ∨ a = (1 : Fin 2) := by
    rcases a with ⟨v, hv⟩
    change v < 2 at hv
    interval_cases v
    · left; rfl
    · right; rfl
  · refine Fin.ext ?_
    show min (I (ix2 t 0)).toInt.toNat (N - 1) = wd.toInt.toNat
    rw [hI]
    omega
  · rfl

/-- The select against a fill value where the row's in-bounds bit is 1: the gathered value. -/
theorem fill_select_apply {E C : Nat} (inb : IVec ⟨1, ![E]⟩ 1)
    (h : (⟨1, ![E]⟩ : Shape).BroadcastsInDim ⟨2, ![E, C]⟩ ![0])
    (g fill : (⟨2, ![E, C]⟩ : Shape).Idx → α) (t : Fin E) (q : Fin C) (hinb : inb (ix1 t) = 1#1) :
    select (broadcastInDim ⟨2, ![E, C]⟩ ![0] h inb) g fill (ix2 t q) = g (ix2 t q) := by
  rw [select_apply]
  have : broadcastInDim ⟨2, ![E, C]⟩ ![0] h inb (ix2 t q) = inb (ix1 t) := by
    refine broadcastInDim_apply _ h inb _ (ix1 t) fun a => ?_
    obtain rfl : a = (0 : Fin 1) := Subsingleton.elim _ _
    show t.val = if E = 1 then 0 else t.val
    split
    · have := t.isLt; omega
    · rfl
  rw [this, hinb, select_one]

/-- The in-bounds bit of row t (the "and", over the one column, of 0 ≤ I and I ≤ top) is 1 at a valid row number. -/
theorem inbounds_apply {E : Nat} (I lo hi : IVec ⟨2, ![E, 1]⟩ 32) (init : IVec ⟨0, ![]⟩ 1)
    (h : (⟨2, ![E, 1]⟩ : Shape).ReducesTo [1] ⟨1, ![E]⟩) (hu : 0 < (⟨0, ![]⟩ : Shape).numel) (t : Fin E)
    (hinit : ∀ k, init k = 1#1)
    (hlo : ∀ i, h.drop i = ix1 t → (lo i).toInt ≤ (I i).toInt)
    (hhi : ∀ i, h.drop i = ix1 t → (I i).toInt ≤ (hi i).toInt) :
    Host.reduce IntOp.andi (andi (cmpi .sge I lo) (cmpi .sle I hi)) init h hu (ix1 t) = 1#1 := by
  refine reduce_andi_of_all _ _ h hu _ hinit fun i hi' => ?_
  show IntOp.andi (IntOp.cmpi .sge (I i) (lo i)) (IntOp.cmpi .sle (I i) (hi i)) = 1#1
  exact IntOp.andi_eq_one.2 ⟨IntOp.cmpi_sge.2 (hlo i hi'), IntOp.cmpi_sle.2 (hhi i hi')⟩

end Chain

section ScatterZero

/-- A scatter-add of rows into a zero array, at a column of valid row numbers given as a function to Fin N:
    the literal zero plus the sum of the update rows sent to n. -/
theorem scatterAdd_zero_apply {N C E : Nat}
    (wf : ScatterDims.WF ⟨2, ![N, C]⟩ ⟨2, ![E, 1]⟩ ⟨2, ![E, C]⟩ [1] [0] [0] 1)
    (x : FVec Ideal ⟨2, ![N, C]⟩ .f32) (I : IVec ⟨2, ![E, 1]⟩ 32) (upd : FVec Ideal ⟨2, ![E, C]⟩ .f32)
    (dst : Fin E → Fin N) (hI : ∀ e, (I (ix2 e 0)).toInt = ((dst e).val : Int))
    (z : EReal) (hx : ∀ i, x i = z) (n : Fin N) (c : Fin C) :
    Host.scatterAdd (rowScatterDims N C E wf) x I upd (ix2 n c)
      = z + ∑ e : Fin E, if dst e = n then upd (ix2 e c) else 0 := by
  rw [scatterAdd_rows_apply wf x I upd n c, hx]
  congr 1
  refine Finset.sum_congr rfl fun e _ => ?_
  rw [hI e]
  by_cases h : dst e = n
  · rw [if_pos h, if_pos (by rw [h])]
  · rw [if_neg h, if_neg (fun h' => h (Fin.ext (by exact_mod_cast h')))]

end ScatterZero

end Cert.HostRead
-- ==== Proof.KV.HostLib.lean ====
/-
  Reading the program's host operations at an index of the extended reals, for any contents of the buffers
  at the start of a host stretch: four 128-lane pieces laid side by side read at a lane, a gather of rows at
  an index vector whose negative entries are wrapped, and a scatter-add of rows into a zero array at the
  column form of an index vector.
-/
import proofs.«117664_g2000706958607885_pallasbulk_534_41_alg».proof.Proof.Gen.KernelIdeal.Regions
import proofs.«117664_g2000706958607885_pallasbulk_534_41_alg».proof.Proof.HostChain
import proofs.«117664_g2000706958607885_pallasbulk_534_41_alg».proof.Proof.Spec
import Idealize.ShloMosaic.Lib.StableHlo.Run
import Idealize.ShloMosaic.Lib.Pipeline.Value

set_option maxRecDepth 1876

noncomputable section

namespace Cert.KernelIdeal.Val

open Idealize.ShloMosaic Idealize.ShloMosaic.ValueIdx Idealize.ShloMosaic.TcCoe
open Cert.KernelIdeal Cert.KernelIdeal.Gen Cert.HostRead
open scoped BigOperators

/-- The contents of a 32-bit float buffer named as an array of extended reals (the identity on the contents). -/
abbrev asReal {s : Shape} (v : FVec Ideal s .f32) : s.Idx → EReal := v

/-! ## Four pieces of 128 lanes laid side by side, read at a lane -/

section Concat
variable {α : Type} {R : Nat}
  (x0 x1 x2 x3 : (⟨2, ![R, 128]⟩ : Shape).Idx → α)
  (h : Shape.Concatenates
    (([⟨⟨2, ![R, 128]⟩, x0⟩, ⟨⟨2, ![R, 128]⟩, x1⟩, ⟨⟨2, ![R, 128]⟩, x2⟩, ⟨⟨2, ![R, 128]⟩, x3⟩] :
      List ((s : Shape) × (s.Idx → α))).map (·.1)) ⟨2, ![R, 512]⟩ 1)

/-- A coordinate of a pair is one of the two. -/
private theorem fin2_cases (a : Fin 2) : a = (0 : Fin 2) ∨ a = (1 : Fin 2) := by
  rcases a with ⟨v, hv⟩
  change v < 2 at hv
  interval_cases v
  · left; rfl
  · right; rfl

/-- Lanes 0 … 127 of the concatenation are the first piece. -/
theorem concat4_lane0 (r : Fin R) (q : Fin 128) :
    concatenate ⟨2, ![R, 512]⟩ 1 [⟨⟨2, ![R, 128]⟩, x0⟩, ⟨⟨2, ![R, 128]⟩, x1⟩, ⟨⟨2, ![R, 128]⟩, x2⟩, ⟨⟨2, ![R, 128]⟩, x3⟩] h
      (ix2 r ⟨0 + q.val, by omega⟩) = x0 (ix2 r q) := by
  refine concatenate_apply_piece (t := ⟨2, ![R, 512]⟩) (1 : Fin 2) [⟨⟨2, ![R, 128]⟩, x0⟩, ⟨⟨2, ![R, 128]⟩, x1⟩, ⟨⟨2, ![R, 128]⟩, x2⟩, ⟨⟨2, ![R, 128]⟩, x3⟩] h _ 0 (by show (0 : Nat) < 4; omega) ⟨2, ![R, 128]⟩ x0 rfl rfl 0 rfl (ix2 r q) (fun b hb => ?_) ?_
  · obtain rfl | rfl := fin2_cases b
    · rfl
    · exact absurd rfl hb
  · show 0 + q.val = 0 + q.val
    rfl

/-- Lanes 128 … 255 are the second piece. -/
theorem concat4_lane1 (r : Fin R) (q : Fin 128) :
    concatenate ⟨2, ![R, 512]⟩ 1 [⟨⟨2, ![R, 128]⟩, x0⟩, ⟨⟨2, ![R, 128]⟩, x1⟩, ⟨⟨2, ![R, 128]⟩, x2⟩, ⟨⟨2, ![R, 128]⟩, x3⟩] h
      (ix2 r ⟨128 + q.val, by omega⟩) = x1 (ix2 r q) := by
  refine concatenate_apply_piece (t := ⟨2, ![R, 512]⟩) (1 : Fin 2) [⟨⟨2, ![R, 128]⟩, x0⟩, ⟨⟨2, ![R, 128]⟩, x1⟩, ⟨⟨2, ![R, 128]⟩, x2⟩, ⟨⟨2, ![R, 128]⟩, x3⟩] h _ 1 (by show (1 : Nat) < 4; omega) ⟨2, ![R, 128]⟩ x1 rfl rfl 128 rfl (ix2 r q) (fun b hb => ?_) ?_
  · obtain rfl | rfl := fin2_cases b
    · rfl
    · exact absurd rfl hb
  · show 128 + q.val = 128 + q.val
    rfl

/-- Lanes 256 … 383 are the third piece. -/
theorem concat4_lane2 (r : Fin R) (q : Fin 128) :
    concatenate ⟨2, ![R, 512]⟩ 1 [⟨⟨2, ![R, 128]⟩, x0⟩, ⟨⟨2, ![R, 128]⟩, x1⟩, ⟨⟨2, ![R, 128]⟩, x2⟩, ⟨⟨2, ![R, 128]⟩, x3⟩] h
      (ix2 r ⟨256 + q.val, by omega⟩) = x2 (ix2 r q) := by
  refine concatenate_apply_piece (t := ⟨2, ![R, 512]⟩) (1 : Fin 2) [⟨⟨2, ![R, 128]⟩, x0⟩, ⟨⟨2, ![R, 128]⟩, x1⟩, ⟨⟨2, ![R, 128]⟩, x2⟩, ⟨⟨2, ![R, 128]⟩, x3⟩] h _ 2 (by show (2 : Nat) < 4; omega) ⟨2, ![R, 128]⟩ x2 rfl rfl 256 rfl (ix2 r q) (fun b hb => ?_) ?_
  · obtain rfl | rfl := fin2_cases b
    · rfl
    · exact absurd rfl hb
  · show 256 + q.val = 256 + q.val
    rfl

/-- Lanes 384 … 511 are the fourth piece. -/
theorem concat4_lane3 (r : Fin R) (q : Fin 128) :
    concatenate ⟨2, ![R, 512]⟩ 1 [⟨⟨2, ![R, 128]⟩, x0⟩, ⟨⟨2, ![R, 128]⟩, x1⟩, ⟨⟨2, ![R, 128]⟩, x2⟩, ⟨⟨2, ![R, 128]⟩, x3⟩] h
      (ix2 r ⟨384 + q.val, by omega⟩) = x3 (ix2 r q) := by
  refine concatenate_apply_piece (t := ⟨2, ![R, 512]⟩) (1 : Fin 2) [⟨⟨2, ![R, 128]⟩, x0⟩, ⟨⟨2, ![R, 128]⟩, x1⟩, ⟨⟨2, ![R, 128]⟩, x2⟩, ⟨⟨2, ![R, 128]⟩, x3⟩] h _ 3 (by show (3 : Nat) < 4; omega) ⟨2, ![R, 128]⟩ x3 rfl rfl 384 rfl (ix2 r q) (fun b hb => ?_) ?_
  · obtain rfl | rfl := fin2_cases b
    · rfl
    · exact absurd rfl hb
  · show 384 + q.val = 384 + q.val
    rfl

end Concat

/-! ## A gather of rows at an index vector whose negative entries are wrapped -/

section Gather
variable {α : Type} {N C E : Nat}

/-- Where the index of row t, read signed, is the row number d, the gathered row t is the operand's row d:
    the wrap leaves a nonnegative entry alone and the gather's clamp leaves a valid row number alone. -/
theorem wrapped_gather_apply
    (wf : GatherDims.WF ⟨2, ![N, C]⟩ ⟨2, ![E, 1]⟩ ⟨2, ![E, C]⟩ [1] [0] [] [0] [] 1 ![1, C])
    (x : (⟨2, ![N, C]⟩ : Shape).Idx → α) (v z n : IVec ⟨1, ![E]⟩ 32)
    (hb : (⟨1, ![E]⟩ : Shape).BroadcastsInDim ⟨2, ![E, 1]⟩ ![0]) (hz : ∀ i, z i = 0#32)
    (t : Fin E) (q : Fin C) (d : Fin N) (hd : (v (ix1 t)).toInt = (d.val : Int)) :
    Host.gather (rowGatherDims N C E wf) x
        (broadcastInDim ⟨2, ![E, 1]⟩ ![0] hb (select (cmpi .slt v z) (addi v n) v)) (ix2 t q)
      = x (ix2 d q) := by
  have hd' := d.isLt
  have hI : broadcastInDim ⟨2, ![E, 1]⟩ ![0] hb (select (cmpi .slt v z) (addi v n) v) (ix2 t 0) = v (ix1 t) :=
    (col_apply _ hb t).trans (wrap_apply v z n (ix1 t) (hz _) (by omega))
  rw [gather_rows_of_inrange wf x _ t q (v (ix1 t)) hI (by omega) (by omega)]
  congr 1
  funext a
  obtain rfl | rfl := fin2_cases a
  · refine Fin.ext ?_
    show (v (ix1 t)).toInt.toNat = d.val
    omega
  · rfl

end Gather

/-! ## A scatter-add of rows into zeros at the column form of an index vector -/

section Scatter
variable {N C E : Nat}

/-- Where the index of every update row, read signed, is the row number dst gives, the scatter-add into a zero
    array reads at (n, c) as the literal zero plus the sum of the update rows sent to n, at lane c. -/
theorem col_scatterAdd_zero_apply
    (wf : ScatterDims.WF ⟨2, ![N, C]⟩ ⟨2, ![E, 1]⟩ ⟨2, ![E, C]⟩ [1] [0] [0] 1)
    (x : FVec Ideal ⟨2, ![N, C]⟩ .f32) (v : IVec ⟨1, ![E]⟩ 32)
    (hb : (⟨1, ![E]⟩ : Shape).BroadcastsInDim ⟨2, ![E, 1]⟩ ![0])
    (upd : FVec Ideal ⟨2, ![E, C]⟩ .f32)
    (dst : Fin E → Fin N) (hdst : ∀ t, (v (ix1 t)).toInt = ((dst t).val : Int))
    (z : EReal) (hx : ∀ i, x i = z) (n : Fin N) (c : Fin C) :
    Host.scatterAdd (rowScatterDims N C E wf) x (broadcastInDim ⟨2, ![E, 1]⟩ ![0] hb v) upd (ix2 n c)
      = z + ∑ t : Fin E, if dst t = n then upd (ix2 t c) else 0 :=
  scatterAdd_zero_apply wf x _ upd dst (fun e => by rw [col_apply v hb e]; exact hdst e) z hx n c

end Scatter

end Cert.KernelIdeal.Val
-- ==== Proof.KV.Host0.lean ====
/-
  The first host stretch, for any contents X of the buffers at its start: the four rows of the two index
  arrays as vectors, the four 128 × 128 weight matrices side by side as one 128 × 512 matrix, the two bias
  rows followed by two zero rows as one 1 × 512 row, each read at an index; and every buffer the stretch
  does not write keeps its contents.
-/
import proofs.«117664_g2000706958607885_pallasbulk_534_41_alg».proof.Proof.KV.HostLib

set_option maxRecDepth 1876

noncomputable section

namespace Cert.KernelIdeal.Val

open Idealize.ShloMosaic Idealize.ShloMosaic.ValueIdx Idealize.ShloMosaic.TcCoe
open Cert.KernelIdeal Cert.KernelIdeal.Gen Cert.HostRead
open scoped BigOperators

variable (X : Valuation τ sig (Elt Ideal))

/-- The buffer is row 0 of the two-row index array, flattened. -/
theorem host0_v1_term :
    StableHlo.after (hostOps0 (F := Ideal)) X (Proc.devRef .tc main_v1)
      = shapeCast S131072 (extractStridedSlice S1x131072 ![0, 0] (X (Proc.devRef .tc main_arg4)) slices_S2x131072_S1x131072_0_0) shapeCasts_S1x131072_S131072 := by
  after_results_simp <;> rfl

theorem host0_v1 (t : Fin 131072) :
    StableHlo.after hostOps0 X main_v1 (ix1 t) = X main_arg4 (ix2 (0 : Fin 2) t) := by
  rw [host0_v1_term]
  exact row_of_pair_apply (0 : Fin 2) _ _ _ t

/-- The buffer is row 1 of the two-row index array, flattened. -/
theorem host0_v3_term :
    StableHlo.after (hostOps0 (F := Ideal)) X (Proc.devRef .tc main_v3)
      = shapeCast S131072 (extractStridedSlice S1x131072 ![1, 0] (X (Proc.devRef .tc main_arg4)) slices_S2x131072_S1x131072_1_0) shapeCasts_S1x131072_S131072 := by
  after_results_simp <;> rfl

theorem host0_v3 (t : Fin 131072) :
    StableHlo.after hostOps0 X main_v3 (ix1 t) = X main_arg4 (ix2 (1 : Fin 2) t) := by
  rw [host0_v3_term]
  exact row_of_pair_apply (1 : Fin 2) _ _ _ t

/-- The buffer is row 0 of the two-row index array, flattened. -/
theorem host0_v5_term :
    StableHlo.after (hostOps0 (F := Ideal)) X (Proc.devRef .tc main_v5)
      = shapeCast S65536 (extractStridedSlice S1x65536 ![0, 0] (X (Proc.devRef .tc main_arg3)) slices_S2x65536_S1x65536_0_0) shapeCasts_S1x65536_S65536 := by
  after_results_simp <;> rfl

theorem host0_v5 (t : Fin 65536) :
    StableHlo.after hostOps0 X main_v5 (ix1 t) = X main_arg3 (ix2 (0 : Fin 2) t) := by
  rw [host0_v5_term]
  exact row_of_pair_apply (0 : Fin 2) _ _ _ t

/-- The buffer is row 1 of the two-row index array, flattened. -/
theorem host0_v7_term :
    StableHlo.after (hostOps0 (F := Ideal)) X (Proc.devRef .tc main_v7)
      = shapeCast S65536 (extractStridedSlice S1x65536 ![1, 0] (X (Proc.devRef .tc main_arg3)) slices_S2x65536_S1x65536_1_0) shapeCasts_S1x65536_S65536 := by
  after_results_simp <;> rfl

theorem host0_v7 (t : Fin 65536) :
    StableHlo.after hostOps0 X main_v7 (ix1 t) = X main_arg3 (ix2 (1 : Fin 2) t) := by
  rw [host0_v7_term]
  exact row_of_pair_apply (1 : Fin 2) _ _ _ t

/-- The buffer is the four 128 × 128 matrices side by side. -/
theorem host0_v8_term :
    StableHlo.after (hostOps0 (F := Ideal)) X (Proc.devRef .tc main_v8)
      = concatenate S128x512 1 [⟨S128x128, (X (Proc.devRef .tc main_arg5))⟩, ⟨S128x128, (X (Proc.devRef .tc main_arg7))⟩,
          ⟨S128x128, (X (Proc.devRef .tc main_arg11))⟩, ⟨S128x128, (X (Proc.devRef .tc main_arg9))⟩]
          concatenates_S128x128_S128x128_S128x128_S128x128_S128x512_d1 := by
  after_results_simp <;> rfl

theorem host0_v8_0 (k : Fin 128) (q : Fin 128) :
    StableHlo.after hostOps0 X main_v8 (ix2 k ⟨0 + q.val, by omega⟩) = X main_arg5 (ix2 k q) := by
  rw [host0_v8_term]
  exact concat4_lane0 (R := 128) _ _ _ _ _ k q

theorem host0_v8_1 (k : Fin 128) (q : Fin 128) :
    StableHlo.after hostOps0 X main_v8 (ix2 k ⟨128 + q.val, by omega⟩) = X main_arg7 (ix2 k q) := by
  rw [host0_v8_term]
  exact concat4_lane1 (R := 128) _ _ _ _ _ k q

theorem host0_v8_2 (k : Fin 128) (q : Fin 128) :
    StableHlo.after hostOps0 X main_v8 (ix2 k ⟨256 + q.val, by omega⟩) = X main_arg11 (ix2 k q) := by
  rw [host0_v8_term]
  exact concat4_lane2 (R := 128) _ _ _ _ _ k q

theorem host0_v8_3 (k : Fin 128) (q : Fin 128) :
    StableHlo.after hostOps0 X main_v8 (ix2 k ⟨384 + q.val, by omega⟩) = X main_arg9 (ix2 k q) := by
  rw [host0_v8_term]
  exact concat4_lane3 (R := 128) _ _ _ _ _ k q

/-- The buffer is two 1 × 128 rows followed by two rows of the literal zero. -/
theorem host0_v10_term :
    StableHlo.after (hostOps0 (F := Ideal)) X (Proc.devRef .tc main_v10)
      = concatenate S1x512 1 [⟨S1x128, (X (Proc.devRef .tc main_arg6))⟩, ⟨S1x128, (X (Proc.devRef .tc main_arg8))⟩,
          ⟨S1x128, broadcastInDim S1x128 ![] bcast_S_S1x128 (constant (F := Ideal) S_ .f32 0x00000000#32)⟩,
          ⟨S1x128, broadcastInDim S1x128 ![] bcast_S_S1x128 (constant (F := Ideal) S_ .f32 0x00000000#32)⟩]
          concatenates_S1x128_S1x128_S1x128_S1x128_S1x512_d1 := by
  after_results_simp <;> rfl

theorem host0_v10_0 (q : Fin 128) :
    StableHlo.after hostOps0 X main_v10 (ix2 (0 : Fin 1) ⟨0 + q.val, by omega⟩) = X main_arg6 (ix2 (0 : Fin 1) q) := by
  rw [host0_v10_term]
  exact concat4_lane0 (R := 1) _ _ _ _ _ 0 q

theorem host0_v10_1 (q : Fin 128) :
    StableHlo.after hostOps0 X main_v10 (ix2 (0 : Fin 1) ⟨128 + q.val, by omega⟩) = X main_arg8 (ix2 (0 : Fin 1) q) := by
  rw [host0_v10_term]
  exact concat4_lane1 (R := 1) _ _ _ _ _ 0 q

theorem host0_v10_2 (q : Fin 128) :
    StableHlo.after hostOps0 X main_v10 (ix2 (0 : Fin 1) ⟨256 + q.val, by omega⟩) = Cert.Spec.cZero := by
  rw [host0_v10_term]
  exact concat4_lane2 (R := 1) _ _ _ _ _ 0 q

theorem host0_v10_3 (q : Fin 128) :
    StableHlo.after hostOps0 X main_v10 (ix2 (0 : Fin 1) ⟨384 + q.val, by omega⟩) = Cert.Spec.cZero := by
  rw [host0_v10_term]
  exact concat4_lane3 (R := 1) _ _ _ _ _ 0 q

/-- A buffer the stretch does not write keeps its contents. -/
theorem host0_keep (b : DevRef τ sig) (hb : b ∉ (hostOps0_W.map (Proc.devRef (τ := τ) .tc)).toFinset) :
    StableHlo.after hostOps0 X b = X b :=
  StableHlo.after_of_forall_not_mem _ X fun op hop hb' => hb (List.forall_iff_forall_mem.mp hostOps0_writes op hop hb')

end Cert.KernelIdeal.Val
-- ==== Proof.KV.Chains.lean ====
/-
  What the run keeps: an argument array holds at every boundary what the launch memory holds, and the index vectors
  cut from the two index arrays hold, entry by entry, the row numbers the results theorem names.
-/
import proofs.«117664_g2000706958607885_pallasbulk_534_41_alg».proof.Proof.KV.Carry
import proofs.«117664_g2000706958607885_pallasbulk_534_41_alg».proof.Proof.KV.ArgsDef
import proofs.«117664_g2000706958607885_pallasbulk_534_41_alg».proof.Proof.KV.Host0

noncomputable section

namespace Cert.KernelIdeal.Val

open Cert.KernelIdeal Cert.KernelIdeal.Gen Cert.KernelIdeal.Fr
open Idealize.ShloMosaic Idealize.ShloMosaic.ValueIdx Idealize.ShloMosaic.TcCoe Idealize.SL.Sem
open Cert.Spec Cert.Bridge Cert.ResultsSpec

variable (m : (ℓ : Loc nD τ sig) → Buf (Elt Ideal) ℓ) (c : Dev nD)

/-! ## The arguments -/
theorem argv_0_5 : X0 m c main_arg5 = m ((c : Thread nD τ).loc main_arg5) :=
  rfl
theorem argv_0_6 : X0 m c main_arg6 = m ((c : Thread nD τ).loc main_arg6) :=
  rfl
theorem argv_0_7 : X0 m c main_arg7 = m ((c : Thread nD τ).loc main_arg7) :=
  rfl
theorem argv_0_8 : X0 m c main_arg8 = m ((c : Thread nD τ).loc main_arg8) :=
  rfl
theorem argv_0_9 : X0 m c main_arg9 = m ((c : Thread nD τ).loc main_arg9) :=
  rfl
theorem argv_0_11 : X0 m c main_arg11 = m ((c : Thread nD τ).loc main_arg11) :=
  rfl
theorem argv_2_33 : X2 m c main_arg33 = m ((c : Thread nD τ).loc main_arg33) :=
  ((step2 m c main_arg33 (by decide)).trans (step1 m c main_arg33 (by decide))).trans rfl
theorem argv_2_34 : X2 m c main_arg34 = m ((c : Thread nD τ).loc main_arg34) :=
  ((step2 m c main_arg34 (by decide)).trans (step1 m c main_arg34 (by decide))).trans rfl
theorem argv_2_35 : X2 m c main_arg35 = m ((c : Thread nD τ).loc main_arg35) :=
  ((step2 m c main_arg35 (by decide)).trans (step1 m c main_arg35 (by decide))).trans rfl
theorem argv_2_36 : X2 m c main_arg36 = m ((c : Thread nD τ).loc main_arg36) :=
  ((step2 m c main_arg36 (by decide)).trans (step1 m c main_arg36 (by decide))).trans rfl
theorem argv_2_37 : X2 m c main_arg37 = m ((c : Thread nD τ).loc main_arg37) :=
  ((step2 m c main_arg37 (by decide)).trans (step1 m c main_arg37 (by decide))).trans rfl
theorem argv_2_39 : X2 m c main_arg39 = m ((c : Thread nD τ).loc main_arg39) :=
  ((step2 m c main_arg39 (by decide)).trans (step1 m c main_arg39 (by decide))).trans rfl
theorem argv_4_10 : X4 m c main_arg10 = m ((c : Thread nD τ).loc main_arg10) :=
  ((((step4 m c main_arg10 (by decide)).trans (step3 m c main_arg10 (by decide))).trans (step2 m c main_arg10 (by decide))).trans (step1 m c main_arg10 (by decide))).trans rfl
theorem argv_4_12 : X4 m c main_arg12 = m ((c : Thread nD τ).loc main_arg12) :=
  ((((step4 m c main_arg12 (by decide)).trans (step3 m c main_arg12 (by decide))).trans (step2 m c main_arg12 (by decide))).trans (step1 m c main_arg12 (by decide))).trans rfl
theorem argv_4_14 : X4 m c main_arg14 = m ((c : Thread nD τ).loc main_arg14) :=
  ((((step4 m c main_arg14 (by decide)).trans (step3 m c main_arg14 (by decide))).trans (step2 m c main_arg14 (by decide))).trans (step1 m c main_arg14 (by decide))).trans rfl
theorem argv_5_13 : X5 m c main_arg13 = m ((c : Thread nD τ).loc main_arg13) :=
  (((((step5 m c main_arg13 (by decide)).trans (step4 m c main_arg13 (by decide))).trans (step3 m c main_arg13 (by decide))).trans (step2 m c main_arg13 (by decide))).trans (step1 m c main_arg13 (by decide))).trans rfl
theorem argv_5_17 : X5 m c main_arg17 = m ((c : Thread nD τ).loc main_arg17) :=
  (((((step5 m c main_arg17 (by decide)).trans (step4 m c main_arg17 (by decide))).trans (step3 m c main_arg17 (by decide))).trans (step2 m c main_arg17 (by decide))).trans (step1 m c main_arg17 (by decide))).trans rfl
theorem argv_5_18 : X5 m c main_arg18 = m ((c : Thread nD τ).loc main_arg18) :=
  (((((step5 m c main_arg18 (by decide)).trans (step4 m c main_arg18 (by decide))).trans (step3 m c main_arg18 (by decide))).trans (step2 m c main_arg18 (by decide))).trans (step1 m c main_arg18 (by decide))).trans rfl
theorem argv_7_15 : X7 m c main_arg15 = m ((c : Thread nD τ).loc main_arg15) :=
  (((((((step7 m c main_arg15 (by decide)).trans (step6 m c main_arg15 (by decide))).trans (step5 m c main_arg15 (by decide))).trans (step4 m c main_arg15 (by decide))).trans (step3 m c main_arg15 (by decide))).trans (step2 m c main_arg15 (by decide))).trans (step1 m c main_arg15 (by decide))).trans rfl
theorem argv_7_16 : X7 m c main_arg16 = m ((c : Thread nD τ).loc main_arg16) :=
  (((((((step7 m c main_arg16 (by decide)).trans (step6 m c main_arg16 (by decide))).trans (step5 m c main_arg16 (by decide))).trans (step4 m c main_arg16 (by decide))).trans (step3 m c main_arg16 (by decide))).trans (step2 m c main_arg16 (by decide))).trans (step1 m c main_arg16 (by decide))).trans rfl
theorem argv_8_38 : X8 m c main_arg38 = m ((c : Thread nD τ).loc main_arg38) :=
  ((((((((step8 m c main_arg38 (by decide)).trans (step7 m c main_arg38 (by decide))).trans (step6 m c main_arg38 (by decide))).trans (step5 m c main_arg38 (by decide))).trans (step4 m c main_arg38 (by decide))).trans (step3 m c main_arg38 (by decide))).trans (step2 m c main_arg38 (by decide))).trans (step1 m c main_arg38 (by decide))).trans rfl
theorem argv_8_40 : X8 m c main_arg40 = m ((c : Thread nD τ).loc main_arg40) :=
  ((((((((step8 m c main_arg40 (by decide)).trans (step7 m c main_arg40 (by decide))).trans (step6 m c main_arg40 (by decide))).trans (step5 m c main_arg40 (by decide))).trans (step4 m c main_arg40 (by decide))).trans (step3 m c main_arg40 (by decide))).trans (step2 m c main_arg40 (by decide))).trans (step1 m c main_arg40 (by decide))).trans rfl
theorem argv_8_42 : X8 m c main_arg42 = m ((c : Thread nD τ).loc main_arg42) :=
  ((((((((step8 m c main_arg42 (by decide)).trans (step7 m c main_arg42 (by decide))).trans (step6 m c main_arg42 (by decide))).trans (step5 m c main_arg42 (by decide))).trans (step4 m c main_arg42 (by decide))).trans (step3 m c main_arg42 (by decide))).trans (step2 m c main_arg42 (by decide))).trans (step1 m c main_arg42 (by decide))).trans rfl
theorem argv_9_41 : X9 m c main_arg41 = m ((c : Thread nD τ).loc main_arg41) :=
  (((((((((step9 m c main_arg41 (by decide)).trans (step8 m c main_arg41 (by decide))).trans (step7 m c main_arg41 (by decide))).trans (step6 m c main_arg41 (by decide))).trans (step5 m c main_arg41 (by decide))).trans (step4 m c main_arg41 (by decide))).trans (step3 m c main_arg41 (by decide))).trans (step2 m c main_arg41 (by decide))).trans (step1 m c main_arg41 (by decide))).trans rfl
theorem argv_9_45 : X9 m c main_arg45 = m ((c : Thread nD τ).loc main_arg45) :=
  (((((((((step9 m c main_arg45 (by decide)).trans (step8 m c main_arg45 (by decide))).trans (step7 m c main_arg45 (by decide))).trans (step6 m c main_arg45 (by decide))).trans (step5 m c main_arg45 (by decide))).trans (step4 m c main_arg45 (by decide))).trans (step3 m c main_arg45 (by decide))).trans (step2 m c main_arg45 (by decide))).trans (step1 m c main_arg45 (by decide))).trans rfl
theorem argv_9_46 : X9 m c main_arg46 = m ((c : Thread nD τ).loc main_arg46) :=
  (((((((((step9 m c main_arg46 (by decide)).trans (step8 m c main_arg46 (by decide))).trans (step7 m c main_arg46 (by decide))).trans (step6 m c main_arg46 (by decide))).trans (step5 m c main_arg46 (by decide))).trans (step4 m c main_arg46 (by decide))).trans (step3 m c main_arg46 (by decide))).trans (step2 m c main_arg46 (by decide))).trans (step1 m c main_arg46 (by decide))).trans rfl
theorem argv_10_19 : X10 m c main_arg19 = m ((c : Thread nD τ).loc main_arg19) :=
  ((((((((((step10 m c main_arg19 (by decide)).trans (step9 m c main_arg19 (by decide))).trans (step8 m c main_arg19 (by decide))).trans (step7 m c main_arg19 (by decide))).trans (step6 m c main_arg19 (by decide))).trans (step5 m c main_arg19 (by decide))).trans (step4 m c main_arg19 (by decide))).trans (step3 m c main_arg19 (by decide))).trans (step2 m c main_arg19 (by decide))).trans (step1 m c main_arg19 (by decide))).trans rfl
theorem argv_10_20 : X10 m c main_arg20 = m ((c : Thread nD τ).loc main_arg20) :=
  ((((((((((step10 m c main_arg20 (by decide)).trans (step9 m c main_arg20 (by decide))).trans (step8 m c main_arg20 (by decide))).trans (step7 m c main_arg20 (by decide))).trans (step6 m c main_arg20 (by decide))).trans (step5 m c main_arg20 (by decide))).trans (step4 m c main_arg20 (by decide))).trans (step3 m c main_arg20 (by decide))).trans (step2 m c main_arg20 (by decide))).trans (step1 m c main_arg20 (by decide))).trans rfl
theorem argv_10_21 : X10 m c main_arg21 = m ((c : Thread nD τ).loc main_arg21) :=
  ((((((((((step10 m c main_arg21 (by decide)).trans (step9 m c main_arg21 (by decide))).trans (step8 m c main_arg21 (by decide))).trans (step7 m c main_arg21 (by decide))).trans (step6 m c main_arg21 (by decide))).trans (step5 m c main_arg21 (by decide))).trans (step4 m c main_arg21 (by decide))).trans (step3 m c main_arg21 (by decide))).trans (step2 m c main_arg21 (by decide))).trans (step1 m c main_arg21 (by decide))).trans rfl
theorem argv_10_22 : X10 m c main_arg22 = m ((c : Thread nD τ).loc main_arg22) :=
  ((((((((((step10 m c main_arg22 (by decide)).trans (step9 m c main_arg22 (by decide))).trans (step8 m c main_arg22 (by decide))).trans (step7 m c main_arg22 (by decide))).trans (step6 m c main_arg22 (by decide))).trans (step5 m c main_arg22 (by decide))).trans (step4 m c main_arg22 (by decide))).trans (step3 m c main_arg22 (by decide))).trans (step2 m c main_arg22 (by decide))).trans (step1 m c main_arg22 (by decide))).trans rfl
theorem argv_10_23 : X10 m c main_arg23 = m ((c : Thread nD τ).loc main_arg23) :=
  ((((((((((step10 m c main_arg23 (by decide)).trans (step9 m c main_arg23 (by decide))).trans (step8 m c main_arg23 (by decide))).trans (step7 m c main_arg23 (by decide))).trans (step6 m c main_arg23 (by decide))).trans (step5 m c main_arg23 (by decide))).trans (step4 m c main_arg23 (by decide))).trans (step3 m c main_arg23 (by decide))).trans (step2 m c main_arg23 (by decide))).trans (step1 m c main_arg23 (by decide))).trans rfl
theorem argv_10_25 : X10 m c main_arg25 = m ((c : Thread nD τ).loc main_arg25) :=
  ((((((((((step10 m c main_arg25 (by decide)).trans (step9 m c main_arg25 (by decide))).trans (step8 m c main_arg25 (by decide))).trans (step7 m c main_arg25 (by decide))).trans (step6 m c main_arg25 (by decide))).trans (step5 m c main_arg25 (by decide))).trans (step4 m c main_arg25 (by decide))).trans (step3 m c main_arg25 (by decide))).trans (step2 m c main_arg25 (by decide))).trans (step1 m c main_arg25 (by decide))).trans rfl
theorem argv_13_43 : X13 m c main_arg43 = m ((c : Thread nD τ).loc main_arg43) :=
  (((((((((((((step13 m c main_arg43 (by decide)).trans (step12 m c main_arg43 (by decide))).trans (step11 m c main_arg43 (by decide))).trans (step10 m c main_arg43 (by decide))).trans (step9 m c main_arg43 (by decide))).trans (step8 m c main_arg43 (by decide))).trans (step7 m c main_arg43 (by decide))).trans (step6 m c main_arg43 (by decide))).trans (step5 m c main_arg43 (by decide))).trans (step4 m c main_arg43 (by decide))).trans (step3 m c main_arg43 (by decide))).trans (step2 m c main_arg43 (by decide))).trans (step1 m c main_arg43 (by decide))).trans rfl
theorem argv_13_44 : X13 m c main_arg44 = m ((c : Thread nD τ).loc main_arg44) :=
  (((((((((((((step13 m c main_arg44 (by decide)).trans (step12 m c main_arg44 (by decide))).trans (step11 m c main_arg44 (by decide))).trans (step10 m c main_arg44 (by decide))).trans (step9 m c main_arg44 (by decide))).trans (step8 m c main_arg44 (by decide))).trans (step7 m c main_arg44 (by decide))).trans (step6 m c main_arg44 (by decide))).trans (step5 m c main_arg44 (by decide))).trans (step4 m c main_arg44 (by decide))).trans (step3 m c main_arg44 (by decide))).trans (step2 m c main_arg44 (by decide))).trans (step1 m c main_arg44 (by decide))).trans rfl
theorem argv_14_47 : X14 m c main_arg47 = m ((c : Thread nD τ).loc main_arg47) :=
  ((((((((((((((step14 m c main_arg47 (by decide)).trans (step13 m c main_arg47 (by decide))).trans (step12 m c main_arg47 (by decide))).trans (step11 m c main_arg47 (by decide))).trans (step10 m c main_arg47 (by decide))).trans (step9 m c main_arg47 (by decide))).trans (step8 m c main_arg47 (by decide))).trans (step7 m c main_arg47 (by decide))).trans (step6 m c main_arg47 (by decide))).trans (step5 m c main_arg47 (by decide))).trans (step4 m c main_arg47 (by decide))).trans (step3 m c main_arg47 (by decide))).trans (step2 m c main_arg47 (by decide))).trans (step1 m c main_arg47 (by decide))).trans rfl
theorem argv_14_48 : X14 m c main_arg48 = m ((c : Thread nD τ).loc main_arg48) :=
  ((((((((((((((step14 m c main_arg48 (by decide)).trans (step13 m c main_arg48 (by decide))).trans (step12 m c main_arg48 (by decide))).trans (step11 m c main_arg48 (by decide))).trans (step10 m c main_arg48 (by decide))).trans (step9 m c main_arg48 (by decide))).trans (step8 m c main_arg48 (by decide))).trans (step7 m c main_arg48 (by decide))).trans (step6 m c main_arg48 (by decide))).trans (step5 m c main_arg48 (by decide))).trans (step4 m c main_arg48 (by decide))).trans (step3 m c main_arg48 (by decide))).trans (step2 m c main_arg48 (by decide))).trans (step1 m c main_arg48 (by decide))).trans rfl
theorem argv_14_49 : X14 m c main_arg49 = m ((c : Thread nD τ).loc main_arg49) :=
  ((((((((((((((step14 m c main_arg49 (by decide)).trans (step13 m c main_arg49 (by decide))).trans (step12 m c main_arg49 (by decide))).trans (step11 m c main_arg49 (by decide))).trans (step10 m c main_arg49 (by decide))).trans (step9 m c main_arg49 (by decide))).trans (step8 m c main_arg49 (by decide))).trans (step7 m c main_arg49 (by decide))).trans (step6 m c main_arg49 (by decide))).trans (step5 m c main_arg49 (by decide))).trans (step4 m c main_arg49 (by decide))).trans (step3 m c main_arg49 (by decide))).trans (step2 m c main_arg49 (by decide))).trans (step1 m c main_arg49 (by decide))).trans rfl
theorem argv_14_50 : X14 m c main_arg50 = m ((c : Thread nD τ).loc main_arg50) :=
  ((((((((((((((step14 m c main_arg50 (by decide)).trans (step13 m c main_arg50 (by decide))).trans (step12 m c main_arg50 (by decide))).trans (step11 m c main_arg50 (by decide))).trans (step10 m c main_arg50 (by decide))).trans (step9 m c main_arg50 (by decide))).trans (step8 m c main_arg50 (by decide))).trans (step7 m c main_arg50 (by decide))).trans (step6 m c main_arg50 (by decide))).trans (step5 m c main_arg50 (by decide))).trans (step4 m c main_arg50 (by decide))).trans (step3 m c main_arg50 (by decide))).trans (step2 m c main_arg50 (by decide))).trans (step1 m c main_arg50 (by decide))).trans rfl
theorem argv_14_51 : X14 m c main_arg51 = m ((c : Thread nD τ).loc main_arg51) :=
  ((((((((((((((step14 m c main_arg51 (by decide)).trans (step13 m c main_arg51 (by decide))).trans (step12 m c main_arg51 (by decide))).trans (step11 m c main_arg51 (by decide))).trans (step10 m c main_arg51 (by decide))).trans (step9 m c main_arg51 (by decide))).trans (step8 m c main_arg51 (by decide))).trans (step7 m c main_arg51 (by decide))).trans (step6 m c main_arg51 (by decide))).trans (step5 m c main_arg51 (by decide))).trans (step4 m c main_arg51 (by decide))).trans (step3 m c main_arg51 (by decide))).trans (step2 m c main_arg51 (by decide))).trans (step1 m c main_arg51 (by decide))).trans rfl
theorem argv_14_53 : X14 m c main_arg53 = m ((c : Thread nD τ).loc main_arg53) :=
  ((((((((((((((step14 m c main_arg53 (by decide)).trans (step13 m c main_arg53 (by decide))).trans (step12 m c main_arg53 (by decide))).trans (step11 m c main_arg53 (by decide))).trans (step10 m c main_arg53 (by decide))).trans (step9 m c main_arg53 (by decide))).trans (step8 m c main_arg53 (by decide))).trans (step7 m c main_arg53 (by decide))).trans (step6 m c main_arg53 (by decide))).trans (step5 m c main_arg53 (by decide))).trans (step4 m c main_arg53 (by decide))).trans (step3 m c main_arg53 (by decide))).trans (step2 m c main_arg53 (by decide))).trans (step1 m c main_arg53 (by decide))).trans rfl
theorem argv_16_24 : X16 m c main_arg24 = m ((c : Thread nD τ).loc main_arg24) :=
  ((((((((((((((((step16 m c main_arg24 (by decide)).trans (step15 m c main_arg24 (by decide))).trans (step14 m c main_arg24 (by decide))).trans (step13 m c main_arg24 (by decide))).trans (step12 m c main_arg24 (by decide))).trans (step11 m c main_arg24 (by decide))).trans (step10 m c main_arg24 (by decide))).trans (step9 m c main_arg24 (by decide))).trans (step8 m c main_arg24 (by decide))).trans (step7 m c main_arg24 (by decide))).trans (step6 m c main_arg24 (by decide))).trans (step5 m c main_arg24 (by decide))).trans (step4 m c main_arg24 (by decide))).trans (step3 m c main_arg24 (by decide))).trans (step2 m c main_arg24 (by decide))).trans (step1 m c main_arg24 (by decide))).trans rfl
theorem argv_16_26 : X16 m c main_arg26 = m ((c : Thread nD τ).loc main_arg26) :=
  ((((((((((((((((step16 m c main_arg26 (by decide)).trans (step15 m c main_arg26 (by decide))).trans (step14 m c main_arg26 (by decide))).trans (step13 m c main_arg26 (by decide))).trans (step12 m c main_arg26 (by decide))).trans (step11 m c main_arg26 (by decide))).trans (step10 m c main_arg26 (by decide))).trans (step9 m c main_arg26 (by decide))).trans (step8 m c main_arg26 (by decide))).trans (step7 m c main_arg26 (by decide))).trans (step6 m c main_arg26 (by decide))).trans (step5 m c main_arg26 (by decide))).trans (step4 m c main_arg26 (by decide))).trans (step3 m c main_arg26 (by decide))).trans (step2 m c main_arg26 (by decide))).trans (step1 m c main_arg26 (by decide))).trans rfl
theorem argv_16_28 : X16 m c main_arg28 = m ((c : Thread nD τ).loc main_arg28) :=
  ((((((((((((((((step16 m c main_arg28 (by decide)).trans (step15 m c main_arg28 (by decide))).trans (step14 m c main_arg28 (by decide))).trans (step13 m c main_arg28 (by decide))).trans (step12 m c main_arg28 (by decide))).trans (step11 m c main_arg28 (by decide))).trans (step10 m c main_arg28 (by decide))).trans (step9 m c main_arg28 (by decide))).trans (step8 m c main_arg28 (by decide))).trans (step7 m c main_arg28 (by decide))).trans (step6 m c main_arg28 (by decide))).trans (step5 m c main_arg28 (by decide))).trans (step4 m c main_arg28 (by decide))).trans (step3 m c main_arg28 (by decide))).trans (step2 m c main_arg28 (by decide))).trans (step1 m c main_arg28 (by decide))).trans rfl
theorem argv_17_27 : X17 m c main_arg27 = m ((c : Thread nD τ).loc main_arg27) :=
  (((((((((((((((((step17 m c main_arg27 (by decide)).trans (step16 m c main_arg27 (by decide))).trans (step15 m c main_arg27 (by decide))).trans (step14 m c main_arg27 (by decide))).trans (step13 m c main_arg27 (by decide))).trans (step12 m c main_arg27 (by decide))).trans (step11 m c main_arg27 (by decide))).trans (step10 m c main_arg27 (by decide))).trans (step9 m c main_arg27 (by decide))).trans (step8 m c main_arg27 (by decide))).trans (step7 m c main_arg27 (by decide))).trans (step6 m c main_arg27 (by decide))).trans (step5 m c main_arg27 (by decide))).trans (step4 m c main_arg27 (by decide))).trans (step3 m c main_arg27 (by decide))).trans (step2 m c main_arg27 (by decide))).trans (step1 m c main_arg27 (by decide))).trans rfl
theorem argv_17_31 : X17 m c main_arg31 = m ((c : Thread nD τ).loc main_arg31) :=
  (((((((((((((((((step17 m c main_arg31 (by decide)).trans (step16 m c main_arg31 (by decide))).trans (step15 m c main_arg31 (by decide))).trans (step14 m c main_arg31 (by decide))).trans (step13 m c main_arg31 (by decide))).trans (step12 m c main_arg31 (by decide))).trans (step11 m c main_arg31 (by decide))).trans (step10 m c main_arg31 (by decide))).trans (step9 m c main_arg31 (by decide))).trans (step8 m c main_arg31 (by decide))).trans (step7 m c main_arg31 (by decide))).trans (step6 m c main_arg31 (by decide))).trans (step5 m c main_arg31 (by decide))).trans (step4 m c main_arg31 (by decide))).trans (step3 m c main_arg31 (by decide))).trans (step2 m c main_arg31 (by decide))).trans (step1 m c main_arg31 (by decide))).trans rfl
theorem argv_17_32 : X17 m c main_arg32 = m ((c : Thread nD τ).loc main_arg32) :=
  (((((((((((((((((step17 m c main_arg32 (by decide)).trans (step16 m c main_arg32 (by decide))).trans (step15 m c main_arg32 (by decide))).trans (step14 m c main_arg32 (by decide))).trans (step13 m c main_arg32 (by decide))).trans (step12 m c main_arg32 (by decide))).trans (step11 m c main_arg32 (by decide))).trans (step10 m c main_arg32 (by decide))).trans (step9 m c main_arg32 (by decide))).trans (step8 m c main_arg32 (by decide))).trans (step7 m c main_arg32 (by decide))).trans (step6 m c main_arg32 (by decide))).trans (step5 m c main_arg32 (by decide))).trans (step4 m c main_arg32 (by decide))).trans (step3 m c main_arg32 (by decide))).trans (step2 m c main_arg32 (by decide))).trans (step1 m c main_arg32 (by decide))).trans rfl
theorem argv_19_29 : X19 m c main_arg29 = m ((c : Thread nD τ).loc main_arg29) :=
  (((((((((((((((((((step19 m c main_arg29 (by decide)).trans (step18 m c main_arg29 (by decide))).trans (step17 m c main_arg29 (by decide))).trans (step16 m c main_arg29 (by decide))).trans (step15 m c main_arg29 (by decide))).trans (step14 m c main_arg29 (by decide))).trans (step13 m c main_arg29 (by decide))).trans (step12 m c main_arg29 (by decide))).trans (step11 m c main_arg29 (by decide))).trans (step10 m c main_arg29 (by decide))).trans (step9 m c main_arg29 (by decide))).trans (step8 m c main_arg29 (by decide))).trans (step7 m c main_arg29 (by decide))).trans (step6 m c main_arg29 (by decide))).trans (step5 m c main_arg29 (by decide))).trans (step4 m c main_arg29 (by decide))).trans (step3 m c main_arg29 (by decide))).trans (step2 m c main_arg29 (by decide))).trans (step1 m c main_arg29 (by decide))).trans rfl
theorem argv_19_30 : X19 m c main_arg30 = m ((c : Thread nD τ).loc main_arg30) :=
  (((((((((((((((((((step19 m c main_arg30 (by decide)).trans (step18 m c main_arg30 (by decide))).trans (step17 m c main_arg30 (by decide))).trans (step16 m c main_arg30 (by decide))).trans (step15 m c main_arg30 (by decide))).trans (step14 m c main_arg30 (by decide))).trans (step13 m c main_arg30 (by decide))).trans (step12 m c main_arg30 (by decide))).trans (step11 m c main_arg30 (by decide))).trans (step10 m c main_arg30 (by decide))).trans (step9 m c main_arg30 (by decide))).trans (step8 m c main_arg30 (by decide))).trans (step7 m c main_arg30 (by decide))).trans (step6 m c main_arg30 (by decide))).trans (step5 m c main_arg30 (by decide))).trans (step4 m c main_arg30 (by decide))).trans (step3 m c main_arg30 (by decide))).trans (step2 m c main_arg30 (by decide))).trans (step1 m c main_arg30 (by decide))).trans rfl
theorem argv_20_52 : X20 m c main_arg52 = m ((c : Thread nD τ).loc main_arg52) :=
  ((((((((((((((((((((step20 m c main_arg52 (by decide)).trans (step19 m c main_arg52 (by decide))).trans (step18 m c main_arg52 (by decide))).trans (step17 m c main_arg52 (by decide))).trans (step16 m c main_arg52 (by decide))).trans (step15 m c main_arg52 (by decide))).trans (step14 m c main_arg52 (by decide))).trans (step13 m c main_arg52 (by decide))).trans (step12 m c main_arg52 (by decide))).trans (step11 m c main_arg52 (by decide))).trans (step10 m c main_arg52 (by decide))).trans (step9 m c main_arg52 (by decide))).trans (step8 m c main_arg52 (by decide))).trans (step7 m c main_arg52 (by decide))).trans (step6 m c main_arg52 (by decide))).trans (step5 m c main_arg52 (by decide))).trans (step4 m c main_arg52 (by decide))).trans (step3 m c main_arg52 (by decide))).trans (step2 m c main_arg52 (by decide))).trans (step1 m c main_arg52 (by decide))).trans rfl
theorem argv_20_54 : X20 m c main_arg54 = m ((c : Thread nD τ).loc main_arg54) :=
  ((((((((((((((((((((step20 m c main_arg54 (by decide)).trans (step19 m c main_arg54 (by decide))).trans (step18 m c main_arg54 (by decide))).trans (step17 m c main_arg54 (by decide))).trans (step16 m c main_arg54 (by decide))).trans (step15 m c main_arg54 (by decide))).trans (step14 m c main_arg54 (by decide))).trans (step13 m c main_arg54 (by decide))).trans (step12 m c main_arg54 (by decide))).trans (step11 m c main_arg54 (by decide))).trans (step10 m c main_arg54 (by decide))).trans (step9 m c main_arg54 (by decide))).trans (step8 m c main_arg54 (by decide))).trans (step7 m c main_arg54 (by decide))).trans (step6 m c main_arg54 (by decide))).trans (step5 m c main_arg54 (by decide))).trans (step4 m c main_arg54 (by decide))).trans (step3 m c main_arg54 (by decide))).trans (step2 m c main_arg54 (by decide))).trans (step1 m c main_arg54 (by decide))).trans rfl
theorem argv_20_56 : X20 m c main_arg56 = m ((c : Thread nD τ).loc main_arg56) :=
  ((((((((((((((((((((step20 m c main_arg56 (by decide)).trans (step19 m c main_arg56 (by decide))).trans (step18 m c main_arg56 (by decide))).trans (step17 m c main_arg56 (by decide))).trans (step16 m c main_arg56 (by decide))).trans (step15 m c main_arg56 (by decide))).trans (step14 m c main_arg56 (by decide))).trans (step13 m c main_arg56 (by decide))).trans (step12 m c main_arg56 (by decide))).trans (step11 m c main_arg56 (by decide))).trans (step10 m c main_arg56 (by decide))).trans (step9 m c main_arg56 (by decide))).trans (step8 m c main_arg56 (by decide))).trans (step7 m c main_arg56 (by decide))).trans (step6 m c main_arg56 (by decide))).trans (step5 m c main_arg56 (by decide))).trans (step4 m c main_arg56 (by decide))).trans (step3 m c main_arg56 (by decide))).trans (step2 m c main_arg56 (by decide))).trans (step1 m c main_arg56 (by decide))).trans rfl
theorem argv_21_55 : X21 m c main_arg55 = m ((c : Thread nD τ).loc main_arg55) :=
  (((((((((((((((((((((step21 m c main_arg55 (by decide)).trans (step20 m c main_arg55 (by decide))).trans (step19 m c main_arg55 (by decide))).trans (step18 m c main_arg55 (by decide))).trans (step17 m c main_arg55 (by decide))).trans (step16 m c main_arg55 (by decide))).trans (step15 m c main_arg55 (by decide))).trans (step14 m c main_arg55 (by decide))).trans (step13 m c main_arg55 (by decide))).trans (step12 m c main_arg55 (by decide))).trans (step11 m c main_arg55 (by decide))).trans (step10 m c main_arg55 (by decide))).trans (step9 m c main_arg55 (by decide))).trans (step8 m c main_arg55 (by decide))).trans (step7 m c main_arg55 (by decide))).trans (step6 m c main_arg55 (by decide))).trans (step5 m c main_arg55 (by decide))).trans (step4 m c main_arg55 (by decide))).trans (step3 m c main_arg55 (by decide))).trans (step2 m c main_arg55 (by decide))).trans (step1 m c main_arg55 (by decide))).trans rfl
theorem argv_21_59 : X21 m c main_arg59 = m ((c : Thread nD τ).loc main_arg59) :=
  (((((((((((((((((((((step21 m c main_arg59 (by decide)).trans (step20 m c main_arg59 (by decide))).trans (step19 m c main_arg59 (by decide))).trans (step18 m c main_arg59 (by decide))).trans (step17 m c main_arg59 (by decide))).trans (step16 m c main_arg59 (by decide))).trans (step15 m c main_arg59 (by decide))).trans (step14 m c main_arg59 (by decide))).trans (step13 m c main_arg59 (by decide))).trans (step12 m c main_arg59 (by decide))).trans (step11 m c main_arg59 (by decide))).trans (step10 m c main_arg59 (by decide))).trans (step9 m c main_arg59 (by decide))).trans (step8 m c main_arg59 (by decide))).trans (step7 m c main_arg59 (by decide))).trans (step6 m c main_arg59 (by decide))).trans (step5 m c main_arg59 (by decide))).trans (step4 m c main_arg59 (by decide))).trans (step3 m c main_arg59 (by decide))).trans (step2 m c main_arg59 (by decide))).trans (step1 m c main_arg59 (by decide))).trans rfl
theorem argv_21_60 : X21 m c main_arg60 = m ((c : Thread nD τ).loc main_arg60) :=
  (((((((((((((((((((((step21 m c main_arg60 (by decide)).trans (step20 m c main_arg60 (by decide))).trans (step19 m c main_arg60 (by decide))).trans (step18 m c main_arg60 (by decide))).trans (step17 m c main_arg60 (by decide))).trans (step16 m c main_arg60 (by decide))).trans (step15 m c main_arg60 (by decide))).trans (step14 m c main_arg60 (by decide))).trans (step13 m c main_arg60 (by decide))).trans (step12 m c main_arg60 (by decide))).trans (step11 m c main_arg60 (by decide))).trans (step10 m c main_arg60 (by decide))).trans (step9 m c main_arg60 (by decide))).trans (step8 m c main_arg60 (by decide))).trans (step7 m c main_arg60 (by decide))).trans (step6 m c main_arg60 (by decide))).trans (step5 m c main_arg60 (by decide))).trans (step4 m c main_arg60 (by decide))).trans (step3 m c main_arg60 (by decide))).trans (step2 m c main_arg60 (by decide))).trans (step1 m c main_arg60 (by decide))).trans rfl
theorem argv_23_57 : X23 m c main_arg57 = m ((c : Thread nD τ).loc main_arg57) :=
  (((((((((((((((((((((((step23 m c main_arg57 (by decide)).trans (step22 m c main_arg57 (by decide))).trans (step21 m c main_arg57 (by decide))).trans (step20 m c main_arg57 (by decide))).trans (step19 m c main_arg57 (by decide))).trans (step18 m c main_arg57 (by decide))).trans (step17 m c main_arg57 (by decide))).trans (step16 m c main_arg57 (by decide))).trans (step15 m c main_arg57 (by decide))).trans (step14 m c main_arg57 (by decide))).trans (step13 m c main_arg57 (by decide))).trans (step12 m c main_arg57 (by decide))).trans (step11 m c main_arg57 (by decide))).trans (step10 m c main_arg57 (by decide))).trans (step9 m c main_arg57 (by decide))).trans (step8 m c main_arg57 (by decide))).trans (step7 m c main_arg57 (by decide))).trans (step6 m c main_arg57 (by decide))).trans (step5 m c main_arg57 (by decide))).trans (step4 m c main_arg57 (by decide))).trans (step3 m c main_arg57 (by decide))).trans (step2 m c main_arg57 (by decide))).trans (step1 m c main_arg57 (by decide))).trans rfl
theorem argv_23_58 : X23 m c main_arg58 = m ((c : Thread nD τ).loc main_arg58) :=
  (((((((((((((((((((((((step23 m c main_arg58 (by decide)).trans (step22 m c main_arg58 (by decide))).trans (step21 m c main_arg58 (by decide))).trans (step20 m c main_arg58 (by decide))).trans (step19 m c main_arg58 (by decide))).trans (step18 m c main_arg58 (by decide))).trans (step17 m c main_arg58 (by decide))).trans (step16 m c main_arg58 (by decide))).trans (step15 m c main_arg58 (by decide))).trans (step14 m c main_arg58 (by decide))).trans (step13 m c main_arg58 (by decide))).trans (step12 m c main_arg58 (by decide))).trans (step11 m c main_arg58 (by decide))).trans (step10 m c main_arg58 (by decide))).trans (step9 m c main_arg58 (by decide))).trans (step8 m c main_arg58 (by decide))).trans (step7 m c main_arg58 (by decide))).trans (step6 m c main_arg58 (by decide))).trans (step5 m c main_arg58 (by decide))).trans (step4 m c main_arg58 (by decide))).trans (step3 m c main_arg58 (by decide))).trans (step2 m c main_arg58 (by decide))).trans (step1 m c main_arg58 (by decide))).trans rfl
theorem argv_1_1 : X1 m c main_arg1 = m ((c : Thread nD τ).loc main_arg1) :=
  (step1 m c main_arg1 (by decide)).trans rfl
theorem argv_5_2 : X5 m c main_arg2 = m ((c : Thread nD τ).loc main_arg2) :=
  (((((step5 m c main_arg2 (by decide)).trans (step4 m c main_arg2 (by decide))).trans (step3 m c main_arg2 (by decide))).trans (step2 m c main_arg2 (by decide))).trans (step1 m c main_arg2 (by decide))).trans rfl
theorem argv_3_0 : X3 m c main_arg0 = m ((c : Thread nD τ).loc main_arg0) :=
  (((step3 m c main_arg0 (by decide)).trans (step2 m c main_arg0 (by decide))).trans (step1 m c main_arg0 (by decide))).trans rfl

/-! ## The index vectors -/
variable (hG : InRangeG m c) (hA : InRangeA m c)
include hG hA
omit hG in
theorem v3_at2 (t : Fin 131072) : (X2 m c main_v3 (ix1 t)).toInt = (((argsOf m c).dstA t).val : Int) :=
  (congrArg BitVec.toInt ((congrFun (step2 m c main_v3 (by decide)) (ix1 t)).trans (host0_v3 (X0 m c) t))).trans
    (idxFn_val 65536 (by decide) (m ((c : Thread nD τ).loc main_arg4)) 1 t (hA _).1 (hA _).2).symm
omit hG in
theorem v3_at6 (t : Fin 131072) : (X6 m c main_v3 (ix1 t)).toInt = (((argsOf m c).dstA t).val : Int) :=
  (congrArg BitVec.toInt ((congrFun (((((step6 m c main_v3 (by decide)).trans (step5 m c main_v3 (by decide))).trans (step4 m c main_v3 (by decide))).trans (step3 m c main_v3 (by decide))).trans (step2 m c main_v3 (by decide))) (ix1 t)).trans (host0_v3 (X0 m c) t))).trans
    (idxFn_val 65536 (by decide) (m ((c : Thread nD τ).loc main_arg4)) 1 t (hA _).1 (hA _).2).symm
omit hG in
theorem v3_at12 (t : Fin 131072) : (X12 m c main_v3 (ix1 t)).toInt = (((argsOf m c).dstA t).val : Int) :=
  (congrArg BitVec.toInt ((congrFun (((((((((((step12 m c main_v3 (by decide)).trans (step11 m c main_v3 (by decide))).trans (step10 m c main_v3 (by decide))).trans (step9 m c main_v3 (by decide))).trans (step8 m c main_v3 (by decide))).trans (step7 m c main_v3 (by decide))).trans (step6 m c main_v3 (by decide))).trans (step5 m c main_v3 (by decide))).trans (step4 m c main_v3 (by decide))).trans (step3 m c main_v3 (by decide))).trans (step2 m c main_v3 (by decide))) (ix1 t)).trans (host0_v3 (X0 m c) t))).trans
    (idxFn_val 65536 (by decide) (m ((c : Thread nD τ).loc main_arg4)) 1 t (hA _).1 (hA _).2).symm
omit hG in
theorem v3_at18 (t : Fin 131072) : (X18 m c main_v3 (ix1 t)).toInt = (((argsOf m c).dstA t).val : Int) :=
  (congrArg BitVec.toInt ((congrFun (((((((((((((((((step18 m c main_v3 (by decide)).trans (step17 m c main_v3 (by decide))).trans (step16 m c main_v3 (by decide))).trans (step15 m c main_v3 (by decide))).trans (step14 m c main_v3 (by decide))).trans (step13 m c main_v3 (by decide))).trans (step12 m c main_v3 (by decide))).trans (step11 m c main_v3 (by decide))).trans (step10 m c main_v3 (by decide))).trans (step9 m c main_v3 (by decide))).trans (step8 m c main_v3 (by decide))).trans (step7 m c main_v3 (by decide))).trans (step6 m c main_v3 (by decide))).trans (step5 m c main_v3 (by decide))).trans (step4 m c main_v3 (by decide))).trans (step3 m c main_v3 (by decide))).trans (step2 m c main_v3 (by decide))) (ix1 t)).trans (host0_v3 (X0 m c) t))).trans
    (idxFn_val 65536 (by decide) (m ((c : Thread nD τ).loc main_arg4)) 1 t (hA _).1 (hA _).2).symm
omit hG in
theorem v1_at2 (t : Fin 131072) : (X2 m c main_v1 (ix1 t)).toInt = (((argsOf m c).srcA t).val : Int) :=
  (congrArg BitVec.toInt ((congrFun (step2 m c main_v1 (by decide)) (ix1 t)).trans (host0_v1 (X0 m c) t))).trans
    (idxFn_val 65536 (by decide) (m ((c : Thread nD τ).loc main_arg4)) 0 t (hA _).1 (hA _).2).symm
omit hG in
theorem v1_at12 (t : Fin 131072) : (X12 m c main_v1 (ix1 t)).toInt = (((argsOf m c).srcA t).val : Int) :=
  (congrArg BitVec.toInt ((congrFun (((((((((((step12 m c main_v1 (by decide)).trans (step11 m c main_v1 (by decide))).trans (step10 m c main_v1 (by decide))).trans (step9 m c main_v1 (by decide))).trans (step8 m c main_v1 (by decide))).trans (step7 m c main_v1 (by decide))).trans (step6 m c main_v1 (by decide))).trans (step5 m c main_v1 (by decide))).trans (step4 m c main_v1 (by decide))).trans (step3 m c main_v1 (by decide))).trans (step2 m c main_v1 (by decide))) (ix1 t)).trans (host0_v1 (X0 m c) t))).trans
    (idxFn_val 65536 (by decide) (m ((c : Thread nD τ).loc main_arg4)) 0 t (hA _).1 (hA _).2).symm
omit hA in
theorem v7_at4 (t : Fin 65536) : (X4 m c main_v7 (ix1 t)).toInt = (((argsOf m c).dstG t).val : Int) :=
  (congrArg BitVec.toInt ((congrFun (((step4 m c main_v7 (by decide)).trans (step3 m c main_v7 (by decide))).trans (step2 m c main_v7 (by decide))) (ix1 t)).trans (host0_v7 (X0 m c) t))).trans
    (idxFn_val 16384 (by decide) (m ((c : Thread nD τ).loc main_arg3)) 1 t (hG _).1 (hG _).2).symm
omit hA in
theorem v7_at12 (t : Fin 65536) : (X12 m c main_v7 (ix1 t)).toInt = (((argsOf m c).dstG t).val : Int) :=
  (congrArg BitVec.toInt ((congrFun (((((((((((step12 m c main_v7 (by decide)).trans (step11 m c main_v7 (by decide))).trans (step10 m c main_v7 (by decide))).trans (step9 m c main_v7 (by decide))).trans (step8 m c main_v7 (by decide))).trans (step7 m c main_v7 (by decide))).trans (step6 m c main_v7 (by decide))).trans (step5 m c main_v7 (by decide))).trans (step4 m c main_v7 (by decide))).trans (step3 m c main_v7 (by decide))).trans (step2 m c main_v7 (by decide))) (ix1 t)).trans (host0_v7 (X0 m c) t))).trans
    (idxFn_val 16384 (by decide) (m ((c : Thread nD τ).loc main_arg3)) 1 t (hG _).1 (hG _).2).symm
omit hA in
theorem v7_at16 (t : Fin 65536) : (X16 m c main_v7 (ix1 t)).toInt = (((argsOf m c).dstG t).val : Int) :=
  (congrArg BitVec.toInt ((congrFun (((((((((((((((step16 m c main_v7 (by decide)).trans (step15 m c main_v7 (by decide))).trans (step14 m c main_v7 (by decide))).trans (step13 m c main_v7 (by decide))).trans (step12 m c main_v7 (by decide))).trans (step11 m c main_v7 (by decide))).trans (step10 m c main_v7 (by decide))).trans (step9 m c main_v7 (by decide))).trans (step8 m c main_v7 (by decide))).trans (step7 m c main_v7 (by decide))).trans (step6 m c main_v7 (by decide))).trans (step5 m c main_v7 (by decide))).trans (step4 m c main_v7 (by decide))).trans (step3 m c main_v7 (by decide))).trans (step2 m c main_v7 (by decide))) (ix1 t)).trans (host0_v7 (X0 m c) t))).trans
    (idxFn_val 16384 (by decide) (m ((c : Thread nD τ).loc main_arg3)) 1 t (hG _).1 (hG _).2).symm
omit hA in
theorem v7_at22 (t : Fin 65536) : (X22 m c main_v7 (ix1 t)).toInt = (((argsOf m c).dstG t).val : Int) :=
  (congrArg BitVec.toInt ((congrFun (((((((((((((((((((((step22 m c main_v7 (by decide)).trans (step21 m c main_v7 (by decide))).trans (step20 m c main_v7 (by decide))).trans (step19 m c main_v7 (by decide))).trans (step18 m c main_v7 (by decide))).trans (step17 m c main_v7 (by decide))).trans (step16 m c main_v7 (by decide))).trans (step15 m c main_v7 (by decide))).trans (step14 m c main_v7 (by decide))).trans (step13 m c main_v7 (by decide))).trans (step12 m c main_v7 (by decide))).trans (step11 m c main_v7 (by decide))).trans (step10 m c main_v7 (by decide))).trans (step9 m c main_v7 (by decide))).trans (step8 m c main_v7 (by decide))).trans (step7 m c main_v7 (by decide))).trans (step6 m c main_v7 (by decide))).trans (step5 m c main_v7 (by decide))).trans (step4 m c main_v7 (by decide))).trans (step3 m c main_v7 (by decide))).trans (step2 m c main_v7 (by decide))) (ix1 t)).trans (host0_v7 (X0 m c) t))).trans
    (idxFn_val 16384 (by decide) (m ((c : Thread nD τ).loc main_arg3)) 1 t (hG _).1 (hG _).2).symm
omit hA in
theorem v5_at4 (t : Fin 65536) : (X4 m c main_v5 (ix1 t)).toInt = (((argsOf m c).srcG t).val : Int) :=
  (congrArg BitVec.toInt ((congrFun (((step4 m c main_v5 (by decide)).trans (step3 m c main_v5 (by decide))).trans (step2 m c main_v5 (by decide))) (ix1 t)).trans (host0_v5 (X0 m c) t))).trans
    (idxFn_val 16384 (by decide) (m ((c : Thread nD τ).loc main_arg3)) 0 t (hG _).1 (hG _).2).symm
omit hA in
theorem v5_at16 (t : Fin 65536) : (X16 m c main_v5 (ix1 t)).toInt = (((argsOf m c).srcG t).val : Int) :=
  (congrArg BitVec.toInt ((congrFun (((((((((((((((step16 m c main_v5 (by decide)).trans (step15 m c main_v5 (by decide))).trans (step14 m c main_v5 (by decide))).trans (step13 m c main_v5 (by decide))).trans (step12 m c main_v5 (by decide))).trans (step11 m c main_v5 (by decide))).trans (step10 m c main_v5 (by decide))).trans (step9 m c main_v5 (by decide))).trans (step8 m c main_v5 (by decide))).trans (step7 m c main_v5 (by decide))).trans (step6 m c main_v5 (by decide))).trans (step5 m c main_v5 (by decide))).trans (step4 m c main_v5 (by decide))).trans (step3 m c main_v5 (by decide))).trans (step2 m c main_v5 (by decide))) (ix1 t)).trans (host0_v5 (X0 m c) t))).trans
    (idxFn_val 16384 (by decide) (m ((c : Thread nD τ).loc main_arg3)) 0 t (hG _).1 (hG _).2).symm

end Cert.KernelIdeal.Val

end
-- ==== Proof.KV.Common.lean ====
/-
  Reading the kernel program's row arithmetic at an index of the extended reals: the layout steps a
  1024-row tile meets (a lane sum kept as a column, a column broadcast over the lanes, a one-row
  operand broadcast over the rows, a 128-lane window of a wider tile), the product of a tile with a
  matrix, and the layer normalisation of a tile as the layer normalisation of each of its rows.
-/
import proofs.«117664_g2000706958607885_pallasbulk_534_41_alg».proof.Proof.Gen.KernelIdeal.Skeleton
import proofs.«117664_g2000706958607885_pallasbulk_534_41_alg».proof.Proof.Spec
import Idealize.ShloMosaic.Lib.ValueLayout
import Idealize.ShloMosaic.PureOps.Ideal.Laws

noncomputable section

namespace Cert.KernelIdeal.Val

open Idealize.ShloMosaic Idealize.ShloMosaic.ValueIdx Cert.KernelIdeal Cert.KernelIdeal.Gen
open scoped BigOperators

/-! ## Layout steps at an index -/

section Layout
variable {α : Type}

/-- A vector of length `a` recast as an `a × 1` column reads, at `(p, 0)`, the vector at `p`. -/
theorem shapeCast_a_a1_apply {a : ℕ} (x : (⟨1, ![a]⟩ : Shape).Idx → α) (h : (⟨1, ![a]⟩ : Shape).ShapeCasts ⟨2, ![a, 1]⟩)
    (p : Fin a) : shapeCast ⟨2, ![a, 1]⟩ x h (ix2 p (0 : Fin 1)) = x (ix1 p) :=
  shapeCast_apply x h _ _ (by
    rw [Shape.rowMajor_val_two, Shape.rowMajor_val_one]
    show p.val = p.val * 1 + 0
    omega)

/-- An `a × 1` column broadcast over `b` lanes reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The pointwise operations the library leaves unnamed, at an index -/

theorem logistic_apply {s : Shape} (a : FVec Ideal s .f32) (i : s.Idx) : logistic a i = Ideal.logistic (a i) := rfl
theorem rsqrt_apply {s : Shape} (a : FVec Ideal s .f32) (i : s.Idx) : rsqrt a i = Ideal.rsqrt (a i) := rfl

/-! ## A lane sum -/

/-- The sum over the 128 lanes of a 1024 × 128 tile, at row `r`. -/
theorem laneSum_apply (w : FVec Ideal S1024x128 .f32) (hr : S1024x128.Reduces [1] S1024) (hφ : FKind.Formats .f32)
    (hacc : (0x00000000#32 : BitVec 32) = FKind.add.neutral .f32 hφ) (r : Fin 1024) :
    multiReduction .add [1] S1024 w 0x00000000#32 hr hφ hacc (ix1 r) = ∑ k : Fin 128, w (ix2 r k) := by
  refine (Ideal.multiReduction_add_single w 0x00000000#32 hr hφ hacc (ix1 r)).trans ?_
  refine Finset.sum_congr rfl fun k _ => congrArg w (funext fun a => Fin.ext ?_)
  match a with
  | ⟨0, _⟩ => rfl
  | ⟨1, _⟩ => rfl

/-- The lane sum kept as a column and divided by the lane count: the mean of each row, as a 1024 × 1 column. -/
def meanCol (hr : S1024x128.Reduces [1] S1024) (hc : S1024.ShapeCasts S1024x1) (w : FVec Ideal S1024x128 .f32) :
    FVec Ideal S1024x1 .f32 :=
  divf (shapeCast S1024x1 (multiReduction .add [1] S1024 w 0x00000000#32 hr (.inl rfl) rfl) hc)
    (broadcast S1024x1 (Scalar.ofBits .f32 0x43000000#32))

/-- At row `r` it is the mean of the row. -/
theorem meanCol_apply (hr : S1024x128.Reduces [1] S1024) (hc : S1024.ShapeCasts S1024x1) (w : FVec Ideal S1024x128 .f32)
    (r : Fin 1024) : meanCol hr hc w (ix2 r (0 : Fin 1)) = Spec.rowMean (fun k => w (ix2 r k)) := by
  show Ideal.div (shapeCast S1024x1 (multiReduction .add [1] S1024 w 0x00000000#32 hr (.inl rfl) rfl) hc (ix2 r (0 : Fin 1)))
      (Ideal.ofBits .f32 0x43000000#32) = _
  refine congrArg (fun t => Ideal.div t (Ideal.ofBits .f32 0x43000000#32)) ?_
  refine (shapeCast_a_a1_apply _ hc r).trans ?_
  exact laneSum_apply w hr _ _ r

/-! ## Layer normalisation of a tile -/

/-- The layer normalisation as the kernels spell it on a 1024 × 128 tile `v` with a one-row scale `g` and shift `b`:
    the deviation from the row mean, times the reciprocal root of the mean squared deviation plus ε, times the scale,
    plus the shift. -/
def lnTile (hr : S1024x128.Reduces [1] S1024) (hc : S1024.ShapeCasts S1024x1) (hb : S1024x1.Broadcasts S1024x128)
    (hg : S1x128.Broadcasts S1024x128) (v : FVec Ideal S1024x128 .f32) (g b : FVec Ideal S1x128 .f32) :
    FVec Ideal S1024x128 .f32 :=
  addf
    (mulf
      (mulf (subf v (broadcastTo S1024x128 (meanCol hr hc v) hb))
        (broadcastTo S1024x128
          (rsqrt (addf
            (meanCol hr hc (mulf (subf v (broadcastTo S1024x128 (meanCol hr hc v) hb))
              (subf v (broadcastTo S1024x128 (meanCol hr hc v) hb))))
            (broadcast S1024x1 (Scalar.ofBits .f32 0x3727C5AC#32)))) hb))
      (broadcastTo S1024x128 g hg))
    (broadcastTo S1024x128 b hg)

/-- At `(r, q)` it is the layer normalisation of row `r`, at lane `q`. -/
theorem lnTile_apply (hr : S1024x128.Reduces [1] S1024) (hc : S1024.ShapeCasts S1024x1) (hb : S1024x1.Broadcasts S1024x128)
    (hg : S1x128.Broadcasts S1024x128) (v : FVec Ideal S1024x128 .f32) (g b : FVec Ideal S1x128 .f32)
    (r : Fin 1024) (q : Fin 128) :
    lnTile hr hc hb hg v g b (ix2 r q)
      = Spec.layerNorm (fun k => v (ix2 r k)) (fun k => g (ix2 (0 : Fin 1) k)) (fun k => b (ix2 (0 : Fin 1) k)) q := by
  have hdev : ∀ k : Fin 128, subf v (broadcastTo S1024x128 (meanCol hr hc v) hb) (ix2 r k)
      = v (ix2 r k) - Spec.rowMean (fun k => v (ix2 r k)) := fun k => by
    rw [subf_apply, broadcastTo_a1_ab_apply, meanCol_apply]
  have hvar : meanCol hr hc (mulf (subf v (broadcastTo S1024x128 (meanCol hr hc v) hb))
      (subf v (broadcastTo S1024x128 (meanCol hr hc v) hb))) (ix2 r (0 : Fin 1)) = Spec.rowVar (fun k => v (ix2 r k)) := by
    rw [meanCol_apply]
    unfold Spec.rowVar Spec.rowMean
    refine congrArg (fun t => Ideal.div t Spec.c128) (Finset.sum_congr rfl fun k _ => ?_)
    beta_reduce
    rw [mulf_apply, hdev k]
    rfl
  unfold lnTile
  rw [addf_apply, mulf_apply, mulf_apply, hdev q, broadcastTo_a1_ab_apply, rsqrt_apply, addf_apply, hvar,
    broadcastTo_1b_ab_apply, broadcastTo_1b_ab_apply]
  rfl

/-! ## A tile times a matrix -/

/-! The operand indices of the 512-column product, coordinate by coordinate. -/
theorem lhs512_0 (i : S1024x512.Idx) (p : dot_S1024x128_S128x512_S1024x512_1_0_0_1_n_n.contr.Idx) : (dot_S1024x128_S128x512_S1024x512_1_0_0_1_n_n.lhsIdx i p 0).val = (i 0).val := by
  unfold DotDims.lhsIdx
  rw [dif_neg (show ¬(0 : Fin S1024x128.rank) ∈ dot_S1024x128_S128x512_S1024x512_1_0_0_1_n_n.lhsBatch by decide),
    dif_pos (show (0 : Fin S1024x128.rank) ∈ dot_S1024x128_S128x512_S1024x512_1_0_0_1_n_n.lhsNonContracting by decide)]
  rfl
theorem lhs512_1 (i : S1024x512.Idx) (p : dot_S1024x128_S128x512_S1024x512_1_0_0_1_n_n.contr.Idx) : (dot_S1024x128_S128x512_S1024x512_1_0_0_1_n_n.lhsIdx i p 1).val = (p ⟨0, by decide⟩).val :=
  dot_S1024x128_S128x512_S1024x512_1_0_0_1_n_n.lhsIdx_val_of_single rfl i p
theorem rhs512_0 (i : S1024x512.Idx) (p : dot_S1024x128_S128x512_S1024x512_1_0_0_1_n_n.contr.Idx) : (dot_S1024x128_S128x512_S1024x512_1_0_0_1_n_n.rhsIdx i p 0).val = (p ⟨0, by decide⟩).val :=
  dot_S1024x128_S128x512_S1024x512_1_0_0_1_n_n.rhsIdx_val_of_single rfl i p
theorem rhs512_1 (i : S1024x512.Idx) (p : dot_S1024x128_S128x512_S1024x512_1_0_0_1_n_n.contr.Idx) : (dot_S1024x128_S128x512_S1024x512_1_0_0_1_n_n.rhsIdx i p 1).val = (i 1).val := by
  unfold DotDims.rhsIdx
  rw [dif_neg (show ¬(1 : Fin S128x512.rank) ∈ dot_S1024x128_S128x512_S1024x512_1_0_0_1_n_n.rhsBatch by decide),
    dif_pos (show (1 : Fin S128x512.rank) ∈ dot_S1024x128_S128x512_S1024x512_1_0_0_1_n_n.rhsNonContracting by decide)]
  rfl

/-- The 1024 × 128 tile `x` times the 128 × 512 matrix `w`, onto zero: at `(r, q)` the row's product with column `q`. -/
theorem matmul512_apply (x : FVec Ideal S1024x128 .f32) (w : FVec Ideal S128x512 .f32) (r : Fin 1024) (q : Fin 512) :
    matmul dot_S1024x128_S128x512_S1024x512_1_0_0_1_n_n none x w (constant S1024x512 .f32 0x00000000#32) (ix2 r q)
      = ∑ k : Fin 128, x (ix2 r k) * w (ix2 k q) := by
  simp only [matmul]
  rw [Ideal.matmul_constant_zero_apply, ← Equiv.sum_comp (contrEquiv1 dot_S1024x128_S128x512_S1024x512_1_0_0_1_n_n 128 rfl rfl).symm]
  refine Finset.sum_congr rfl fun k _ => ?_
  have hk := contrEquiv1_symm_val dot_S1024x128_S128x512_S1024x512_1_0_0_1_n_n 128 rfl rfl k
  have el : dot_S1024x128_S128x512_S1024x512_1_0_0_1_n_n.lhsIdx (ix2 r q) ((contrEquiv1 dot_S1024x128_S128x512_S1024x512_1_0_0_1_n_n 128 rfl rfl).symm k) = ix2 r k :=
    funext fun a => Fin.ext (by
      match a with
      | ⟨0, _⟩ => exact lhs512_0 _ _
      | ⟨1, _⟩ => exact (lhs512_1 _ _).trans hk)
  have er : dot_S1024x128_S128x512_S1024x512_1_0_0_1_n_n.rhsIdx (ix2 r q) ((contrEquiv1 dot_S1024x128_S128x512_S1024x512_1_0_0_1_n_n 128 rfl rfl).symm k) = ix2 k q :=
    funext fun a => Fin.ext (by
      match a with
      | ⟨0, _⟩ => exact (rhs512_0 _ _).trans hk
      | ⟨1, _⟩ => exact rhs512_1 _ _)
  rw [el, er]

/-! The operand indices of the 128-column product, coordinate by coordinate. -/
theorem lhs128_0 (i : S1024x128.Idx) (p : dot_S1024x128_S128x128_S1024x128_1_0_0_1_n_n.contr.Idx) : (dot_S1024x128_S128x128_S1024x128_1_0_0_1_n_n.lhsIdx i p 0).val = (i 0).val := by
  unfold DotDims.lhsIdx
  rw [dif_neg (show ¬(0 : Fin S1024x128.rank) ∈ dot_S1024x128_S128x128_S1024x128_1_0_0_1_n_n.lhsBatch by decide),
    dif_pos (show (0 : Fin S1024x128.rank) ∈ dot_S1024x128_S128x128_S1024x128_1_0_0_1_n_n.lhsNonContracting by decide)]
  rfl
theorem lhs128_1 (i : S1024x128.Idx) (p : dot_S1024x128_S128x128_S1024x128_1_0_0_1_n_n.contr.Idx) : (dot_S1024x128_S128x128_S1024x128_1_0_0_1_n_n.lhsIdx i p 1).val = (p ⟨0, by decide⟩).val :=
  dot_S1024x128_S128x128_S1024x128_1_0_0_1_n_n.lhsIdx_val_of_single rfl i p
theorem rhs128_0 (i : S1024x128.Idx) (p : dot_S1024x128_S128x128_S1024x128_1_0_0_1_n_n.contr.Idx) : (dot_S1024x128_S128x128_S1024x128_1_0_0_1_n_n.rhsIdx i p 0).val = (p ⟨0, by decide⟩).val :=
  dot_S1024x128_S128x128_S1024x128_1_0_0_1_n_n.rhsIdx_val_of_single rfl i p
theorem rhs128_1 (i : S1024x128.Idx) (p : dot_S1024x128_S128x128_S1024x128_1_0_0_1_n_n.contr.Idx) : (dot_S1024x128_S128x128_S1024x128_1_0_0_1_n_n.rhsIdx i p 1).val = (i 1).val := by
  unfold DotDims.rhsIdx
  rw [dif_neg (show ¬(1 : Fin S128x128.rank) ∈ dot_S1024x128_S128x128_S1024x128_1_0_0_1_n_n.rhsBatch by decide),
    dif_pos (show (1 : Fin S128x128.rank) ∈ dot_S1024x128_S128x128_S1024x128_1_0_0_1_n_n.rhsNonContracting by decide)]
  rfl

/-- The 1024 × 128 tile `x` times the 128 × 128 matrix `w`, onto zero: at `(r, q)` the row's product with column `q`. -/
theorem matmul128_apply (x : FVec Ideal S1024x128 .f32) (w : FVec Ideal S128x128 .f32) (r : Fin 1024) (q : Fin 128) :
    matmul dot_S1024x128_S128x128_S1024x128_1_0_0_1_n_n none x w (constant S1024x128 .f32 0x00000000#32) (ix2 r q)
      = ∑ k : Fin 128, x (ix2 r k) * w (ix2 k q) := by
  simp only [matmul]
  rw [Ideal.matmul_constant_zero_apply, ← Equiv.sum_comp (contrEquiv1 dot_S1024x128_S128x128_S1024x128_1_0_0_1_n_n 128 rfl rfl).symm]
  refine Finset.sum_congr rfl fun k _ => ?_
  have hk := contrEquiv1_symm_val dot_S1024x128_S128x128_S1024x128_1_0_0_1_n_n 128 rfl rfl k
  have el : dot_S1024x128_S128x128_S1024x128_1_0_0_1_n_n.lhsIdx (ix2 r q) ((contrEquiv1 dot_S1024x128_S128x128_S1024x128_1_0_0_1_n_n 128 rfl rfl).symm k) = ix2 r k :=
    funext fun a => Fin.ext (by
      match a with
      | ⟨0, _⟩ => exact lhs128_0 _ _
      | ⟨1, _⟩ => exact (lhs128_1 _ _).trans hk)
  have er : dot_S1024x128_S128x128_S1024x128_1_0_0_1_n_n.rhsIdx (ix2 r q) ((contrEquiv1 dot_S1024x128_S128x128_S1024x128_1_0_0_1_n_n 128 rfl rfl).symm k) = ix2 k q :=
    funext fun a => Fin.ext (by
      match a with
      | ⟨0, _⟩ => exact (rhs128_0 _ _).trans hk
      | ⟨1, _⟩ => exact rhs128_1 _ _)
  rw [el, er]

end Cert.KernelIdeal.Val

end
-- ==== Proof.KV.FinCommon.lean ====
/-
  What the region finals share: the zero offsets of a whole-block access, the wide projection of a node row at a
  lane, the pre-activation of an edge, and two 128-lane stores side by side read at an index.
-/
import proofs.«117664_g2000706958607885_pallasbulk_534_41_alg».proof.Proof.KV.Common
import Idealize.ShloMosaic.Lib.Pipeline.Value

set_option maxRecDepth 16384

noncomputable section

namespace Cert.KernelIdeal.Val

open Cert.KernelIdeal Cert.KernelIdeal.Gen
open Idealize.ShloMosaic Idealize.ShloMosaic.ValueIdx Idealize.ShloMosaic.TcCoe Idealize.SL.Sem
open Idealize.ShloMosaic.Pipeline (Dat)
open scoped BigOperators

theorem hz2 : (![0, 0] : Fin 2 → Nat) = fun _ => 0 := funext fun a => by fin_cases a <;> rfl

/-- The wide projection of node `n` at lane `l`: the node's row times column `l` of the concatenated weights, plus
    the concatenated bias at `l`. -/
def proj {N : Nat} (X : (⟨2, ![N, 128]⟩ : Shape).Idx → EReal) (W : S128x512.Idx → EReal) (B : S1x512.Idx → EReal)
    (n : Fin N) (l : Fin 512) : EReal :=
  Spec.dot (fun k => X (ix2 n k)) (fun k j => W (ix2 k j)) l + B (ix2 (0 : Fin 1) l)

/-- The pre-activation of edge `n`, from the edge array, the gathered destination projection (an array of `L` lanes whose
    lanes 0–127 are read), the gathered source projection (256 lanes, lanes 128–255 read), W_C and the summed bias. -/
def ehatArr {N L : Nat} (hL : 128 ≤ L) (E : (⟨2, ![N, 128]⟩ : Shape).Idx → EReal) (GD : (⟨2, ![N, L]⟩ : Shape).Idx → EReal)
    (GS : (⟨2, ![N, 256]⟩ : Shape).Idx → EReal) (WC : S128x128.Idx → EReal) (BS : S1x128.Idx → EReal) (n : Fin N) : Spec.Row :=
  Spec.kerEhat (fun k => E (ix2 n k)) (fun k => GD (ix2 n ⟨k.val, by omega⟩)) (fun k => GS (ix2 n ⟨128 + k.val, by omega⟩))
    (fun k j => WC (ix2 k j)) (fun k => BS (ix2 (0 : Fin 1) k))

/-- The updated edge row `n` at lane `q`: the edge row plus the sigmoid-weighted layer normalisation of its pre-activation. -/
def enewAt {N L : Nat} (hL : 128 ≤ L) (E : (⟨2, ![N, 128]⟩ : Shape).Idx → EReal) (GD : (⟨2, ![N, L]⟩ : Shape).Idx → EReal)
    (GS : (⟨2, ![N, 256]⟩ : Shape).Idx → EReal) (WC : S128x128.Idx → EReal) (BS Gm Bt : S1x128.Idx → EReal) (n : Fin N) (q : Fin 128) : EReal :=
  Spec.resid (fun k => E (ix2 n k)) (ehatArr hL E GD GS WC BS n) (fun k => Gm (ix2 (0 : Fin 1) k)) (fun k => Bt (ix2 (0 : Fin 1) k)) q

/-- The message array at edge `n`, lane `l`: below lane 128 the gate times the gathered source projection, from it on the gate. -/
def msAt {N L : Nat} (hL : 128 ≤ L) (E : (⟨2, ![N, 128]⟩ : Shape).Idx → EReal) (GD : (⟨2, ![N, L]⟩ : Shape).Idx → EReal)
    (GS : (⟨2, ![N, 256]⟩ : Shape).Idx → EReal) (WC : S128x128.Idx → EReal) (BS : S1x128.Idx → EReal) (n : Fin N) (l : Fin 256) : EReal :=
  if h : l.val < 128 then Spec.gate (ehatArr hL E GD GS WC BS n) ⟨l.val, h⟩ * GS (ix2 n ⟨l.val, by omega⟩)
  else Spec.gate (ehatArr hL E GD GS WC BS n) ⟨l.val - 128, by omega⟩

/-- The updated node row `n` at lane `q`: the node row plus the sigmoid-weighted layer normalisation of the self
    projection plus the gated aggregate (lanes 0–127 of the aggregate array over its lanes 128–255 plus ε). -/
def updAt {N : Nat} (X HS : (⟨2, ![N, 128]⟩ : Shape).Idx → EReal) (AGG : (⟨2, ![N, 256]⟩ : Shape).Idx → EReal)
    (Gm Bt : S1x128.Idx → EReal) (n : Fin N) (q : Fin 128) : EReal :=
  Spec.resid (fun k => X (ix2 n k))
    (Spec.nodeRow (fun k => HS (ix2 n k)) (fun k => AGG (ix2 n ⟨k.val, by omega⟩)) (fun k => AGG (ix2 n ⟨128 + k.val, by omega⟩)))
    (fun k => Gm (ix2 (0 : Fin 1) k)) (fun k => Bt (ix2 (0 : Fin 1) k)) q

/-- Two stores of 1024 × 128 tiles side by side into a 1024 × 256 buffer, the store of lanes 128–255 listed first:
    the buffer at `(p, l)` is the low tile at `l` below lane 128 and the high tile at `l - 128` from it on. -/
theorem canon_halves (inbhi : ∀ a, (![0, 128] : Fin 2 → Nat) a + S1024x128.size a ≤ S1024x256.size a)
    (inblo : ∀ a, (![0, 0] : Fin 2 → Nat) a + S1024x128.size a ≤ S1024x256.size a)
    (Phi Plo : Vec Ideal S1024x128 .f32) (p : Fin 1024) (l : Fin 256) :
    View.canon (Val := Elt Ideal) (s := S1024x256) (e := .f32)
        [⟨Rect.unit (s := S1024x256) ![0, 128] S1024x128.size inbhi, Phi⟩, ⟨Rect.unit (s := S1024x256) ![0, 0] S1024x128.size inblo, Plo⟩]
        (ix2 p l)
      = if h : l.val < 128 then Plo (ix2 p ⟨l.val, h⟩) else Phi (ix2 p ⟨l.val - 128, by omega⟩) := by
  by_cases h : l.val < 128
  · rw [dif_pos h, View.canon_cons_of_not_mem _ _ (by
      rw [Rect.mem_set_unit]
      intro H
      have h1 := (H 1).1
      change 128 ≤ l.val at h1
      omega)]
    have e : ix2 p l = (Rect.unit (s := S1024x256) ![0, 0] S1024x128.size inblo).emb (ix2 p ⟨l.val, h⟩) :=
      funext fun a => Fin.ext (by
        match a with
        | ⟨0, _⟩ => show p.val = 0 + 1 * p.val; omega
        | ⟨1, _⟩ => show l.val = 0 + 1 * l.val; omega)
    rw [e, View.canon_cons_emb]
  · rw [dif_neg h]
    have e : ix2 p l = (Rect.unit (s := S1024x256) ![0, 128] S1024x128.size inbhi).emb (ix2 p ⟨l.val - 128, by omega⟩) :=
      funext fun a => Fin.ext (by
        match a with
        | ⟨0, _⟩ => show p.val = 0 + 1 * p.val; omega
        | ⟨1, _⟩ => show l.val = 128 + 1 * (l.val - 128); omega)
    rw [e, View.canon_cons_emb]

end Cert.KernelIdeal.Val

end
-- ==== Proof.KV.Layer.lean ====
/-
  One layer of the program with node-side projections, from the closed forms of its three regions' output arrays
  to the layer on rows: the lanes of the wide projection are the self, neighbour, source and destination
  projections; the gathered projections give the pre-activation of an edge; the two halves of the message array
  are the gated message and the gate; the node update reads the two halves of the scatter-added messages.
-/
import proofs.«117664_g2000706958607885_pallasbulk_534_41_alg».proof.Proof.KV.FinCommon
import proofs.«117664_g2000706958607885_pallasbulk_534_41_alg».proof.Proof.ResultsSpec

noncomputable section

namespace Cert.KernelIdeal.Val

open Idealize.ShloMosaic Idealize.ShloMosaic.ValueIdx Cert.KernelIdeal Cert.KernelIdeal.Gen
open Cert.Spec Cert.Bridge Cert.ResultsSpec
open scoped BigOperators

/-- The concatenated weight and bias arrays are those of the layer `P`: lanes 0–127 the self projection's, 128–255 the
    neighbour projection's, 256–383 the source projection's (zero bias), 384–511 the destination projection's (zero bias). -/
structure IsCat (P : Params) (W : S128x512.Idx → EReal) (B : S1x512.Idx → EReal) : Prop where
  w0 : ∀ (k : Fin 128) (q : Fin 128), W (ix2 k ⟨0 + q.val, by omega⟩) = P.Wself k q
  w1 : ∀ (k : Fin 128) (q : Fin 128), W (ix2 k ⟨128 + q.val, by omega⟩) = P.Wnbr k q
  w2 : ∀ (k : Fin 128) (q : Fin 128), W (ix2 k ⟨256 + q.val, by omega⟩) = P.WB k q
  w3 : ∀ (k : Fin 128) (q : Fin 128), W (ix2 k ⟨384 + q.val, by omega⟩) = P.WA k q
  b0 : ∀ q : Fin 128, B (ix2 (0 : Fin 1) ⟨0 + q.val, by omega⟩) = P.bself q
  b1 : ∀ q : Fin 128, B (ix2 (0 : Fin 1) ⟨128 + q.val, by omega⟩) = P.bnbr q
  b2 : ∀ q : Fin 128, B (ix2 (0 : Fin 1) ⟨256 + q.val, by omega⟩) = cZero
  b3 : ∀ q : Fin 128, B (ix2 (0 : Fin 1) ⟨384 + q.val, by omega⟩) = cZero

section Proj
variable {N : Nat} {P : Params} {W : S128x512.Idx → EReal} {B : S1x512.Idx → EReal}

theorem proj_hs (h : IsCat P W B) (X : A N 128) (n : Fin N) (q : Fin 128) :
    proj X W B n ⟨0 + q.val, by omega⟩ = hs P (rows X) n q := by
  show (∑ k : Fin 128, X (ix2 n k) * W (ix2 k ⟨0 + q.val, _⟩)) + B (ix2 (0 : Fin 1) ⟨0 + q.val, _⟩)
      = (∑ k : Fin 128, X (ix2 n k) * P.Wself k q) + P.bself q
  simp only [h.w0, h.b0]

theorem proj_hn (h : IsCat P W B) (X : A N 128) (n : Fin N) (q : Fin 128) :
    proj X W B n ⟨128 + q.val, by omega⟩ = hn P (rows X) n q := by
  show (∑ k : Fin 128, X (ix2 n k) * W (ix2 k ⟨128 + q.val, _⟩)) + B (ix2 (0 : Fin 1) ⟨128 + q.val, _⟩)
      = (∑ k : Fin 128, X (ix2 n k) * P.Wnbr k q) + P.bnbr q
  simp only [h.w1, h.b1]

theorem proj_psB (h : IsCat P W B) (X : A N 128) (n : Fin N) (q : Fin 128) :
    proj X W B n ⟨256 + q.val, by omega⟩ = psB P (rows X) n q := by
  show (∑ k : Fin 128, X (ix2 n k) * W (ix2 k ⟨256 + q.val, _⟩)) + B (ix2 (0 : Fin 1) ⟨256 + q.val, _⟩)
      = (∑ k : Fin 128, X (ix2 n k) * P.WB k q) + cZero
  simp only [h.w2, h.b2]

theorem proj_pd (h : IsCat P W B) (X : A N 128) (n : Fin N) (q : Fin 128) :
    proj X W B n ⟨384 + q.val, by omega⟩ = pd P (rows X) n q := by
  show (∑ k : Fin 128, X (ix2 n k) * W (ix2 k ⟨384 + q.val, _⟩)) + B (ix2 (0 : Fin 1) ⟨384 + q.val, _⟩)
      = (∑ k : Fin 128, X (ix2 n k) * P.WA k q) + cZero
  simp only [h.w3, h.b3]

end Proj

section Edge
variable {N M L : Nat} (hL : 128 ≤ L) (P : Params) (x : Fin N → Row) (src dst : Fin M → Fin N)
  (E : A M 128) (GD : A M L) (GS : A M 256) (WC : S128x128.Idx → EReal) (BS Gm Bt : S1x128.Idx → EReal)
  (hGD : ∀ (t : Fin M) (q : Fin 128), GD (ix2 t ⟨q.val, by omega⟩) = pd P x (dst t) q)
  (hGSlo : ∀ (t : Fin M) (q : Fin 128), GS (ix2 t ⟨q.val, by omega⟩) = hn P x (src t) q)
  (hGShi : ∀ (t : Fin M) (q : Fin 128), GS (ix2 t ⟨128 + q.val, by omega⟩) = psB P x (src t) q)
  (hWC : ∀ k q, WC (ix2 k q) = P.WC k q) (hBS : ∀ q, BS (ix2 (0 : Fin 1) q) = bsum P q)

include hGD hGShi hWC hBS in
/-- The pre-activation of an edge from the gathered projections is the layer's. -/
theorem ehatArr_eq (t : Fin M) : ehatArr hL E GD GS WC BS t = ehatK P x (rows E) src dst t := by
  unfold ehatArr ehatK
  rw [show (fun k : Fin 128 => GD (ix2 t ⟨k.val, by omega⟩)) = pd P x (dst t) from funext (hGD t),
    show (fun k : Fin 128 => GS (ix2 t ⟨128 + k.val, by omega⟩)) = psB P x (src t) from funext (hGShi t),
    show (fun k j => WC (ix2 k j)) = P.WC from funext fun k => funext (hWC k),
    show (fun k => BS (ix2 (0 : Fin 1) k)) = bsum P from funext hBS]
  rfl

include hGD hGShi hWC hBS in
/-- The updated edge rows are the layer's. -/
theorem enewAt_eq (hGm : ∀ q, Gm (ix2 (0 : Fin 1) q) = P.ge q) (hBt : ∀ q, Bt (ix2 (0 : Fin 1) q) = P.be q)
    (t : Fin M) (q : Fin 128) :
    enewAt hL E GD GS WC BS Gm Bt t q = eNewK P x (rows E) src dst t q := by
  unfold enewAt eNewK
  rw [ehatArr_eq hL P x src dst E GD GS WC BS hGD hGShi hWC hBS t,
    show (fun k => Gm (ix2 (0 : Fin 1) k)) = P.ge from funext hGm, show (fun k => Bt (ix2 (0 : Fin 1) k)) = P.be from funext hBt]
  rfl

include hGD hGSlo hGShi hWC hBS in
/-- Lanes 0–127 of the message array are the gated messages. -/
theorem msAt_lo (t : Fin M) (q : Fin 128) :
    msAt hL E GD GS WC BS t ⟨q.val, by omega⟩ = msLoK P x (rows E) src dst t q := by
  unfold msAt msLoK
  rw [dif_pos (show (⟨q.val, by omega⟩ : Fin 256).val < 128 from q.isLt),
    ehatArr_eq hL P x src dst E GD GS WC BS hGD hGShi hWC hBS t]
  exact congrArg (fun z => gate (ehatK P x (rows E) src dst t) q * z) (hGSlo t q)

include hGD hGShi hWC hBS in
/-- Lanes 128–255 of the message array are the gates. -/
theorem msAt_hi (t : Fin M) (q : Fin 128) :
    msAt hL E GD GS WC BS t ⟨128 + q.val, by omega⟩ = msHiK P x (rows E) src dst t q := by
  unfold msAt msHiK
  rw [dif_neg (show ¬(⟨128 + q.val, by omega⟩ : Fin 256).val < 128 from by show ¬(128 + q.val < 128); omega),
    ehatArr_eq hL P x src dst E GD GS WC BS hGD hGShi hWC hBS t]
  exact congrArg (gate (ehatK P x (rows E) src dst t)) (Fin.ext (by show 128 + q.val - 128 = q.val; omega))

end Edge

section Upd
variable {N M : Nat} (P : Params) (e : Fin M → Row) (src dst : Fin M → Fin N)
  (X HS : A N 128) (AGG : A N 256) (Gm Bt : S1x128.Idx → EReal)

/-- The updated node rows are the layer's. -/
theorem updAt_eq (hHS : ∀ n q, HS (ix2 n q) = hs P (rows X) n q)
    (hlo : ∀ (n : Fin N) (q : Fin 128), AGG (ix2 n ⟨q.val, by omega⟩) = segSum dst (msLoK P (rows X) e src dst) n q)
    (hhi : ∀ (n : Fin N) (q : Fin 128), AGG (ix2 n ⟨128 + q.val, by omega⟩) = segSum dst (msHiK P (rows X) e src dst) n q)
    (hGm : ∀ q, Gm (ix2 (0 : Fin 1) q) = P.gx q) (hBt : ∀ q, Bt (ix2 (0 : Fin 1) q) = P.bx q) (n : Fin N) (q : Fin 128) :
    updAt X HS AGG Gm Bt n q = xNewK P (rows X) e src dst n q := by
  unfold updAt xNewK
  rw [show (fun k => HS (ix2 n k)) = hs P (rows X) n from funext (hHS n),
    show (fun k : Fin 128 => AGG (ix2 n ⟨k.val, by omega⟩)) = segSum dst (msLoK P (rows X) e src dst) n from funext (hlo n),
    show (fun k : Fin 128 => AGG (ix2 n ⟨128 + k.val, by omega⟩)) = segSum dst (msHiK P (rows X) e src dst) n from funext (hhi n),
    show (fun k => Gm (ix2 (0 : Fin 1) k)) = P.gx from funext hGm, show (fun k => Bt (ix2 (0 : Fin 1) k)) = P.bx from funext hBt]
  rfl

end Upd

end Cert.KernelIdeal.Val

end
-- ==== Proof.KV.NodeProj.lean ====
/-
  The node projection kernels' stored values at an index: one wide product of the tile with the
  concatenated weights plus the concatenated bias row, and its three lane windows.
-/
import proofs.«117664_g2000706958607885_pallasbulk_534_41_alg».proof.Proof.KV.Common

noncomputable section

namespace Cert.KernelIdeal.Val

open Idealize.ShloMosaic Idealize.ShloMosaic.ValueIdx Cert.KernelIdeal Cert.KernelIdeal.Gen
open scoped BigOperators

/-! ## Region 0 -/

/-- The wide projection of the tile at `(r, q)`: the row times column `q` of the weight, plus the bias at `q`. -/
theorem k0_pay1_apply (x : Vec Ideal S1024x128 .f32) (w : Vec Ideal S128x512 .f32) (b : Vec Ideal S1x512 .f32)
    (r : Fin 1024) (q : Fin 512) :
    k0_pay1 x w b (ix2 r q)
      = Spec.dot (fun k => x (ix2 r k)) (fun k n => w (ix2 k n)) q + b (ix2 (0 : Fin 1) q) := by
  unfold k0_pay1
  show matmul (F := Ideal) dot_S1024x128_S128x512_S1024x512_1_0_0_1_n_n none x
        (shapeCast S128x512 w shapeCasts_S128x512_S128x512) (constant S1024x512 .f32 0x00000000#32) (ix2 r q)
      + broadcastTo S1024x512 (shapeCast S1x512 b shapeCasts_S1x512_S1x512) broadcasts_S1x512_S1024x512 (ix2 r q) = _
  rw [shapeCast_self, shapeCast_self, matmul512_apply, broadcastTo_1b_ab_apply]
  rfl

/-- Lanes 0–127 of the projection. -/
theorem k0_pay2_apply (x : Vec Ideal S1024x128 .f32) (w : Vec Ideal S128x512 .f32) (b : Vec Ideal S1x512 .f32)
    (r : Fin 1024) (q : Fin 128) :
    k0_pay2 x w b (ix2 r q) = k0_pay1 x w b (ix2 r ⟨0 + q.val, by omega⟩) := by
  unfold k0_pay2
  exact slice2_axis1_eq 0 _ _ r q

/-- Lanes 128–383 of the projection. -/
theorem k0_pay3_apply (x : Vec Ideal S1024x128 .f32) (w : Vec Ideal S128x512 .f32) (b : Vec Ideal S1x512 .f32)
    (r : Fin 1024) (q : Fin 256) :
    k0_pay3 x w b (ix2 r q) = k0_pay1 x w b (ix2 r ⟨128 + q.val, by omega⟩) := by
  unfold k0_pay3
  exact slice2_axis1_eq 128 _ _ r q

/-- Lanes 384–511 of the projection. -/
theorem k0_pay4_apply (x : Vec Ideal S1024x128 .f32) (w : Vec Ideal S128x512 .f32) (b : Vec Ideal S1x512 .f32)
    (r : Fin 1024) (q : Fin 128) :
    k0_pay4 x w b (ix2 r q) = k0_pay1 x w b (ix2 r ⟨384 + q.val, by omega⟩) := by
  unfold k0_pay4
  exact slice2_axis1_eq 384 _ _ r q

/-! ## Region 1 -/

/-- The wide projection of the tile at `(r, q)`: the row times column `q` of the weight, plus the bias at `q`. -/
theorem k1_pay1_apply (x : Vec Ideal S1024x128 .f32) (w : Vec Ideal S128x512 .f32) (b : Vec Ideal S1x512 .f32)
    (r : Fin 1024) (q : Fin 512) :
    k1_pay1 x w b (ix2 r q)
      = Spec.dot (fun k => x (ix2 r k)) (fun k n => w (ix2 k n)) q + b (ix2 (0 : Fin 1) q) := by
  unfold k1_pay1
  show matmul (F := Ideal) dot_S1024x128_S128x512_S1024x512_1_0_0_1_n_n none x
        (shapeCast S128x512 w shapeCasts_S128x512_S128x512) (constant S1024x512 .f32 0x00000000#32) (ix2 r q)
      + broadcastTo S1024x512 (shapeCast S1x512 b shapeCasts_S1x512_S1x512) broadcasts_S1x512_S1024x512 (ix2 r q) = _
  rw [shapeCast_self, shapeCast_self, matmul512_apply, broadcastTo_1b_ab_apply]
  rfl

/-- Lanes 0–127 of the projection. -/
theorem k1_pay2_apply (x : Vec Ideal S1024x128 .f32) (w : Vec Ideal S128x512 .f32) (b : Vec Ideal S1x512 .f32)
    (r : Fin 1024) (q : Fin 128) :
    k1_pay2 x w b (ix2 r q) = k1_pay1 x w b (ix2 r ⟨0 + q.val, by omega⟩) := by
  unfold k1_pay2
  exact slice2_axis1_eq 0 _ _ r q

/-- Lanes 128–383 of the projection. -/
theorem k1_pay3_apply (x : Vec Ideal S1024x128 .f32) (w : Vec Ideal S128x512 .f32) (b : Vec Ideal S1x512 .f32)
    (r : Fin 1024) (q : Fin 256) :
    k1_pay3 x w b (ix2 r q) = k1_pay1 x w b (ix2 r ⟨128 + q.val, by omega⟩) := by
  unfold k1_pay3
  exact slice2_axis1_eq 128 _ _ r q

/-- Lanes 384–511 of the projection. -/
theorem k1_pay4_apply (x : Vec Ideal S1024x128 .f32) (w : Vec Ideal S128x512 .f32) (b : Vec Ideal S1x512 .f32)
    (r : Fin 1024) (q : Fin 128) :
    k1_pay4 x w b (ix2 r q) = k1_pay1 x w b (ix2 r ⟨384 + q.val, by omega⟩) := by
  unfold k1_pay4
  exact slice2_axis1_eq 384 _ _ r q

/-! ## Region 5 -/

/-- The wide projection of the tile at `(r, q)`: the row times column `q` of the weight, plus the bias at `q`. -/
theorem k5_pay1_apply (x : Vec Ideal S1024x128 .f32) (w : Vec Ideal S128x512 .f32) (b : Vec Ideal S1x512 .f32)
    (r : Fin 1024) (q : Fin 512) :
    k5_pay1 x w b (ix2 r q)
      = Spec.dot (fun k => x (ix2 r k)) (fun k n => w (ix2 k n)) q + b (ix2 (0 : Fin 1) q) := by
  unfold k5_pay1
  show matmul (F := Ideal) dot_S1024x128_S128x512_S1024x512_1_0_0_1_n_n none (shapeCast S1024x128 x shapeCasts_S1024x128_S1024x128)
        (shapeCast S128x512 w shapeCasts_S128x512_S128x512) (constant S1024x512 .f32 0x00000000#32) (ix2 r q)
      + broadcastTo S1024x512 (shapeCast S1x512 b shapeCasts_S1x512_S1x512) broadcasts_S1x512_S1024x512 (ix2 r q) = _
  rw [shapeCast_self, shapeCast_self, shapeCast_self, matmul512_apply, broadcastTo_1b_ab_apply]
  rfl

/-- Lanes 0–127 of the projection. -/
theorem k5_pay2_apply (x : Vec Ideal S1024x128 .f32) (w : Vec Ideal S128x512 .f32) (b : Vec Ideal S1x512 .f32)
    (r : Fin 1024) (q : Fin 128) :
    k5_pay2 x w b (ix2 r q) = k5_pay1 x w b (ix2 r ⟨0 + q.val, by omega⟩) := by
  unfold k5_pay2
  exact slice2_axis1_eq 0 _ _ r q

/-- Lanes 128–383 of the projection. -/
theorem k5_pay3_apply (x : Vec Ideal S1024x128 .f32) (w : Vec Ideal S128x512 .f32) (b : Vec Ideal S1x512 .f32)
    (r : Fin 1024) (q : Fin 256) :
    k5_pay3 x w b (ix2 r q) = k5_pay1 x w b (ix2 r ⟨128 + q.val, by omega⟩) := by
  unfold k5_pay3
  exact slice2_axis1_eq 128 _ _ r q

/-- Lanes 384–511 of the projection. -/
theorem k5_pay4_apply (x : Vec Ideal S1024x128 .f32) (w : Vec Ideal S128x512 .f32) (b : Vec Ideal S1x512 .f32)
    (r : Fin 1024) (q : Fin 128) :
    k5_pay4 x w b (ix2 r q) = k5_pay1 x w b (ix2 r ⟨384 + q.val, by omega⟩) := by
  unfold k5_pay4
  exact slice2_axis1_eq 384 _ _ r q

/-! ## Region 7 -/

/-- The wide projection of the tile at `(r, q)`: the row times column `q` of the weight, plus the bias at `q`. -/
theorem k7_pay1_apply (x : Vec Ideal S1024x128 .f32) (w : Vec Ideal S128x512 .f32) (b : Vec Ideal S1x512 .f32)
    (r : Fin 1024) (q : Fin 512) :
    k7_pay1 x w b (ix2 r q)
      = Spec.dot (fun k => x (ix2 r k)) (fun k n => w (ix2 k n)) q + b (ix2 (0 : Fin 1) q) := by
  unfold k7_pay1
  show matmul (F := Ideal) dot_S1024x128_S128x512_S1024x512_1_0_0_1_n_n none (shapeCast S1024x128 x shapeCasts_S1024x128_S1024x128)
        (shapeCast S128x512 w shapeCasts_S128x512_S128x512) (constant S1024x512 .f32 0x00000000#32) (ix2 r q)
      + broadcastTo S1024x512 (shapeCast S1x512 b shapeCasts_S1x512_S1x512) broadcasts_S1x512_S1024x512 (ix2 r q) = _
  rw [shapeCast_self, shapeCast_self, shapeCast_self, matmul512_apply, broadcastTo_1b_ab_apply]
  rfl

/-- Lanes 0–127 of the projection. -/
theorem k7_pay2_apply (x : Vec Ideal S1024x128 .f32) (w : Vec Ideal S128x512 .f32) (b : Vec Ideal S1x512 .f32)
    (r : Fin 1024) (q : Fin 128) :
    k7_pay2 x w b (ix2 r q) = k7_pay1 x w b (ix2 r ⟨0 + q.val, by omega⟩) := by
  unfold k7_pay2
  exact slice2_axis1_eq 0 _ _ r q

/-- Lanes 128–383 of the projection. -/
theorem k7_pay3_apply (x : Vec Ideal S1024x128 .f32) (w : Vec Ideal S128x512 .f32) (b : Vec Ideal S1x512 .f32)
    (r : Fin 1024) (q : Fin 256) :
    k7_pay3 x w b (ix2 r q) = k7_pay1 x w b (ix2 r ⟨128 + q.val, by omega⟩) := by
  unfold k7_pay3
  exact slice2_axis1_eq 128 _ _ r q

/-- Lanes 384–511 of the projection. -/
theorem k7_pay4_apply (x : Vec Ideal S1024x128 .f32) (w : Vec Ideal S128x512 .f32) (b : Vec Ideal S1x512 .f32)
    (r : Fin 1024) (q : Fin 128) :
    k7_pay4 x w b (ix2 r q) = k7_pay1 x w b (ix2 r ⟨384 + q.val, by omega⟩) := by
  unfold k7_pay4
  exact slice2_axis1_eq 384 _ _ r q

end Cert.KernelIdeal.Val

end
-- ==== Proof.KV.Fin0.lean ====
/-
  Region 0 (a node projection): each output array after the region as one function of the region's input
  arrays, index by index.
-/
import proofs.«117664_g2000706958607885_pallasbulk_534_41_alg».proof.Proof.KI.Half0
import proofs.«117664_g2000706958607885_pallasbulk_534_41_alg».proof.Proof.KV.NodeProj
import proofs.«117664_g2000706958607885_pallasbulk_534_41_alg».proof.Proof.KV.FinCommon
import Idealize.ShloMosaic.Lib.Pipeline.Value

set_option maxRecDepth 16384

noncomputable section

namespace Cert.KernelIdeal.Val

open Cert.KernelIdeal Cert.KernelIdeal.Gen Cert.KernelIdeal.Fr
open Idealize.ShloMosaic Idealize.ShloMosaic.ValueIdx Idealize.ShloMosaic.TcCoe Idealize.SL.Sem
open Idealize.ShloMosaic.Pipeline (Dat)
open scoped BigOperators

section Region0
variable (V : (c : Dev nD) → (b : Ref sig .tc) → Buf (Elt Ideal) ((c : Thread nD τ).loc b))

/-- The printed index maps over the grid: a row window's block index is the grid point, a whole window's is zero. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

theorem t_lt0 (t : Fin cfg0.N) : t.val < 64 := lt_of_lt_of_eq t.isLt N_0

/-- Row `p` of window 0's block at point `t` is row `t · 1024 + p` of its array. -/
theorem blk0_0 (c : Dev nD) (t : Fin cfg0.N) (p : Fin 1024) (k : Fin 128) :
    iblk0 V c 0 t (ix2 p k) = V c main_arg1 (ix2 ⟨t.val * 1024 + p.val, by have := t_lt0 t; omega⟩ k) := by
  show V c main_arg1 (((cfg0.win 0).blk t).view.emb (ix2 p k)) = _
  refine congrArg (V c main_arg1) (funext fun a => Fin.ext ?_)
  obtain ⟨e0_0, e0_1, -, -, -, -, -, -, -, -, -, -⟩ := idx0 t
  match a with
  | ⟨0, _⟩ => show win0_0.index t (0 : Fin 2) * 1024 + 1 * p.val = t.val * 1024 + p.val; omega
  | ⟨1, _⟩ => show win0_0.index t (1 : Fin 2) * 128 + 1 * k.val = k.val; omega

/-- Window 1's block is its whole array. -/
theorem blk0_1 (c : Dev nD) (t : Fin cfg0.N) : iblk0 V c 1 t = V c main_v8 := by
  funext j
  show V c main_v8 (((cfg0.win 1).blk t).view.emb j) = V c main_v8 j
  refine congrArg (V c main_v8) (funext fun a => Fin.ext ?_)
  obtain ⟨-, -, e1_0, e1_1, -, -, -, -, -, -, -, -⟩ := idx0 t
  match a with
  | ⟨0, _⟩ => show win0_1.index t (0 : Fin 2) * 128 + 1 * (j 0).val = (j 0).val; omega
  | ⟨1, _⟩ => show win0_1.index t (1 : Fin 2) * 512 + 1 * (j 1).val = (j 1).val; omega

/-- Window 2's block is its whole array. -/
theorem blk0_2 (c : Dev nD) (t : Fin cfg0.N) : iblk0 V c 2 t = V c main_v10 := by
  funext j
  show V c main_v10 (((cfg0.win 2).blk t).view.emb j) = V c main_v10 j
  refine congrArg (V c main_v10) (funext fun a => Fin.ext ?_)
  obtain ⟨-, -, -, -, e2_0, e2_1, -, -, -, -, -, -⟩ := idx0 t
  match a with
  | ⟨0, _⟩ => show win0_2.index t (0 : Fin 2) * 1 + 1 * (j 0).val = (j 0).val; omega
  | ⟨1, _⟩ => show win0_2.index t (1 : Fin 2) * 512 + 1 * (j 1).val = (j 1).val; omega

/-- Window 3's array after region 0: lanes 0–127 of the projection of each node. -/
def G0_3 (X : (⟨2, ![65536, 128]⟩ : Shape).Idx → EReal) (W : S128x512.Idx → EReal) (B : S1x512.Idx → EReal) : S65536x128.Idx → EReal :=
  fun i => proj X W B ⟨(i 0).val, idx2_lt0 i⟩ ⟨0 + (i 1).val, by have := idx2_lt1 i; omega⟩

theorem pt0_3 (x0 : Vec Ideal S1024x128 .f32) (x1 : Vec Ideal S128x512 .f32) (x2 : Vec Ideal S1x512 .f32)
    (X : (⟨2, ![65536, 128]⟩ : Shape).Idx → EReal) (W : S128x512.Idx → EReal) (B : S1x512.Idx → EReal) (p : Fin 1024) (q : Fin 128) (n : Fin 65536)
    (h0 : ∀ k, x0 (ix2 p k) = X (ix2 n k)) (h1 : x1 = W) (h2 : x2 = B) :
    k0_pay2 x0 x1 x2 (ix2 p q) = proj X W B n ⟨0 + q.val, by omega⟩ := by
  subst h1 h2
  rw [k0_pay2_apply, k0_pay1_apply, show (fun k => x0 (ix2 p k)) = fun k => X (ix2 n k) from funext h0]
  rfl

theorem flushed0_3 (c : Dev nD) (t : Fin cfg0.N) :
    (dat0 V c).flushed 3 t = ((cfg0.win 3).blk t).view.read (Elt Ideal) (G0_3 (V c main_arg1) (V c main_v8) (V c main_v10)) := by
  show (cfg0.win 3).cut (grid0.coords t) ((dat0 V c).after 3 t) = _
  rw [after0_3]
  unfold out0_3
  rw [View.canon_unit_zero hz2]
  simp only [View.ld_unit_zero (S := S1024x128) hz2, View.ld_unit_zero (S := S128x512) hz2, View.ld_unit_zero (S := S1x512) hz2]
  funext j
  obtain ⟨p, q, rfl⟩ : ∃ (p : Fin 1024) (q : Fin 128), j = ix2 p q := ⟨j 0, j 1, eq_ix2 j⟩
  show k0_pay2 (iblk0 V c 0 t) (iblk0 V c 1 t) (iblk0 V c 2 t) (ix2 p q)
      = G0_3 (V c main_arg1) (V c main_v8) (V c main_v10) (((cfg0.win 3).blk t).view.emb (ix2 p q))
  refine (pt0_3 (iblk0 V c 0 t) (iblk0 V c 1 t) (iblk0 V c 2 t) (V c main_arg1) (V c main_v8) (V c main_v10) p q
    ⟨t.val * 1024 + p.val, by have := t_lt0 t; omega⟩ (fun k => blk0_0 V c t p k) (blk0_1 V c t) (blk0_2 V c t)).trans ?_
  obtain ⟨-, -, -, -, -, -, e3_0, e3_1, -, -, -, -⟩ := idx0 t
  have hemb : ((cfg0.win 3).blk t).view.emb (ix2 p q) = ix2 ⟨t.val * 1024 + p.val, by have := t_lt0 t; omega⟩ q :=
    funext fun a => Fin.ext (by
      match a with
      | ⟨0, _⟩ => show win0_3.index t (0 : Fin 2) * 1024 + 1 * p.val = t.val * 1024 + p.val; omega
      | ⟨1, _⟩ => show win0_3.index t (1 : Fin 2) * 128 + 1 * q.val = q.val; omega)
  exact ((congrArg (G0_3 (V c main_arg1) (V c main_v8) (V c main_v10)) hemb).trans rfl).symm

/-- Membership in window 3's block at point `t`, coordinate by coordinate. -/
theorem mem_blk0_3 (t : Fin cfg0.N) (i : S65536x128.Idx) :
    i ∈ ((cfg0.win 3).blk t).view.set ↔ ∀ a : Fin 2, win0_3.index t a * S1024x128.size a ≤ (i a).val ∧ (i a).val < win0_3.index t a * S1024x128.size a + S1024x128.size a := by
  show i ∈ ((View.whole main_v11_0).slice (win0_3.rect t)).set ↔ _
  rw [View.set_slice_whole, Rect.mem_set_unit]
  exact Iff.rfl

/-- Every row of the array lies in the block of the point `row / 1024`. -/
theorem covered0_3 (i : S65536x128.Idx) : ∃ t : Fin cfg0.N, (cfg0.win 3).flush t = true ∧ i ∈ ((cfg0.win 3).blk t).view.set := by
  have hi0 : (i 0).val < 65536 := (i 0).isLt
  have hi1 : (i 1).val < 128 := (i 1).isLt
  have hN : cfg0.N = 64 := N_0
  let t : Fin cfg0.N := ⟨(i 0).val / 1024, by rw [hN]; omega⟩
  obtain ⟨-, -, -, -, -, -, e3_0, e3_1, -, -, -, -⟩ := idx0 t
  refine ⟨t, flush0_3 t, ?_⟩
  rw [mem_blk0_3]
  intro a
  match a with
  | ⟨0, _⟩ =>
    show win0_3.index t (0 : Fin 2) * 1024 ≤ (i 0).val ∧ (i 0).val < win0_3.index t (0 : Fin 2) * 1024 + 1024
    rw [e3_0]
    show (i 0).val / 1024 * 1024 ≤ (i 0).val ∧ (i 0).val < (i 0).val / 1024 * 1024 + 1024
    omega
  | ⟨1, _⟩ =>
    show win0_3.index t (1 : Fin 2) * 128 ≤ (i 1).val ∧ (i 1).val < win0_3.index t (1 : Fin 2) * 128 + 128
    omega

/-- The array after the region. -/
theorem final0_3 (c : Dev nD) : (dat0 V c).arrAt 3 cfg0.N = G0_3 (V c main_arg1) (V c main_v8) (V c main_v10) :=
  (dat0 V c).arrAt_eq_of_cover 3 _ (fun t _ => flushed0_3 V c t) covered0_3

/-- Window 5's array after region 0: lanes 128–383 of the projection of each node. -/
def G0_5 (X : (⟨2, ![65536, 128]⟩ : Shape).Idx → EReal) (W : S128x512.Idx → EReal) (B : S1x512.Idx → EReal) : S65536x256.Idx → EReal :=
  fun i => proj X W B ⟨(i 0).val, idx2_lt0 i⟩ ⟨128 + (i 1).val, by have := idx2_lt1 i; omega⟩

theorem pt0_5 (x0 : Vec Ideal S1024x128 .f32) (x1 : Vec Ideal S128x512 .f32) (x2 : Vec Ideal S1x512 .f32)
    (X : (⟨2, ![65536, 128]⟩ : Shape).Idx → EReal) (W : S128x512.Idx → EReal) (B : S1x512.Idx → EReal) (p : Fin 1024) (q : Fin 256) (n : Fin 65536)
    (h0 : ∀ k, x0 (ix2 p k) = X (ix2 n k)) (h1 : x1 = W) (h2 : x2 = B) :
    k0_pay3 x0 x1 x2 (ix2 p q) = proj X W B n ⟨128 + q.val, by omega⟩ := by
  subst h1 h2
  rw [k0_pay3_apply, k0_pay1_apply, show (fun k => x0 (ix2 p k)) = fun k => X (ix2 n k) from funext h0]
  rfl

theorem flushed0_5 (c : Dev nD) (t : Fin cfg0.N) :
    (dat0 V c).flushed 5 t = ((cfg0.win 5).blk t).view.read (Elt Ideal) (G0_5 (V c main_arg1) (V c main_v8) (V c main_v10)) := by
  show (cfg0.win 5).cut (grid0.coords t) ((dat0 V c).after 5 t) = _
  rw [after0_5]
  unfold out0_5
  rw [View.canon_unit_zero hz2]
  simp only [View.ld_unit_zero (S := S1024x128) hz2, View.ld_unit_zero (S := S128x512) hz2, View.ld_unit_zero (S := S1x512) hz2]
  funext j
  obtain ⟨p, q, rfl⟩ : ∃ (p : Fin 1024) (q : Fin 256), j = ix2 p q := ⟨j 0, j 1, eq_ix2 j⟩
  show k0_pay3 (iblk0 V c 0 t) (iblk0 V c 1 t) (iblk0 V c 2 t) (ix2 p q)
      = G0_5 (V c main_arg1) (V c main_v8) (V c main_v10) (((cfg0.win 5).blk t).view.emb (ix2 p q))
  refine (pt0_5 (iblk0 V c 0 t) (iblk0 V c 1 t) (iblk0 V c 2 t) (V c main_arg1) (V c main_v8) (V c main_v10) p q
    ⟨t.val * 1024 + p.val, by have := t_lt0 t; omega⟩ (fun k => blk0_0 V c t p k) (blk0_1 V c t) (blk0_2 V c t)).trans ?_
  obtain ⟨-, -, -, -, -, -, -, -, -, -, e5_0, e5_1⟩ := idx0 t
  have hemb : ((cfg0.win 5).blk t).view.emb (ix2 p q) = ix2 ⟨t.val * 1024 + p.val, by have := t_lt0 t; omega⟩ q :=
    funext fun a => Fin.ext (by
      match a with
      | ⟨0, _⟩ => show win0_5.index t (0 : Fin 2) * 1024 + 1 * p.val = t.val * 1024 + p.val; omega
      | ⟨1, _⟩ => show win0_5.index t (1 : Fin 2) * 256 + 1 * q.val = q.val; omega)
  exact ((congrArg (G0_5 (V c main_arg1) (V c main_v8) (V c main_v10)) hemb).trans rfl).symm

/-- Membership in window 5's block at point `t`, coordinate by coordinate. -/
theorem mem_blk0_5 (t : Fin cfg0.N) (i : S65536x256.Idx) :
    i ∈ ((cfg0.win 5).blk t).view.set ↔ ∀ a : Fin 2, win0_5.index t a * S1024x256.size a ≤ (i a).val ∧ (i a).val < win0_5.index t a * S1024x256.size a + S1024x256.size a := by
  show i ∈ ((View.whole main_v11_2).slice (win0_5.rect t)).set ↔ _
  rw [View.set_slice_whole, Rect.mem_set_unit]
  exact Iff.rfl

/-- Every row of the array lies in the block of the point `row / 1024`. -/
theorem covered0_5 (i : S65536x256.Idx) : ∃ t : Fin cfg0.N, (cfg0.win 5).flush t = true ∧ i ∈ ((cfg0.win 5).blk t).view.set := by
  have hi0 : (i 0).val < 65536 := (i 0).isLt
  have hi1 : (i 1).val < 256 := (i 1).isLt
  have hN : cfg0.N = 64 := N_0
  let t : Fin cfg0.N := ⟨(i 0).val / 1024, by rw [hN]; omega⟩
  obtain ⟨-, -, -, -, -, -, -, -, -, -, e5_0, e5_1⟩ := idx0 t
  refine ⟨t, flush0_5 t, ?_⟩
  rw [mem_blk0_5]
  intro a
  match a with
  | ⟨0, _⟩ =>
    show win0_5.index t (0 : Fin 2) * 1024 ≤ (i 0).val ∧ (i 0).val < win0_5.index t (0 : Fin 2) * 1024 + 1024
    rw [e5_0]
    show (i 0).val / 1024 * 1024 ≤ (i 0).val ∧ (i 0).val < (i 0).val / 1024 * 1024 + 1024
    omega
  | ⟨1, _⟩ =>
    show win0_5.index t (1 : Fin 2) * 256 ≤ (i 1).val ∧ (i 1).val < win0_5.index t (1 : Fin 2) * 256 + 256
    omega

/-- The array after the region. -/
theorem final0_5 (c : Dev nD) : (dat0 V c).arrAt 5 cfg0.N = G0_5 (V c main_arg1) (V c main_v8) (V c main_v10) :=
  (dat0 V c).arrAt_eq_of_cover 5 _ (fun t _ => flushed0_5 V c t) covered0_5

/-- Window 4's array after region 0: lanes 384–511 of the projection of each node, stored twice side by side. -/
def G0_4 (X : (⟨2, ![65536, 128]⟩ : Shape).Idx → EReal) (W : S128x512.Idx → EReal) (B : S1x512.Idx → EReal) : S65536x256.Idx → EReal :=
  fun i => proj X W B ⟨(i 0).val, idx2_lt0 i⟩ ⟨384 + (i 1).val % 128, by omega⟩

theorem pt0_4 (x0 : Vec Ideal S1024x128 .f32) (x1 : Vec Ideal S128x512 .f32) (x2 : Vec Ideal S1x512 .f32)
    (X : (⟨2, ![65536, 128]⟩ : Shape).Idx → EReal) (W : S128x512.Idx → EReal) (B : S1x512.Idx → EReal) (p : Fin 1024) (q : Fin 128) (n : Fin 65536)
    (h0 : ∀ k, x0 (ix2 p k) = X (ix2 n k)) (h1 : x1 = W) (h2 : x2 = B) :
    k0_pay4 x0 x1 x2 (ix2 p q) = proj X W B n ⟨384 + q.val, by omega⟩ := by
  subst h1 h2
  rw [k0_pay4_apply, k0_pay1_apply, show (fun k => x0 (ix2 p k)) = fun k => X (ix2 n k) from funext h0]
  rfl

theorem flushed0_4 (c : Dev nD) (t : Fin cfg0.N) :
    (dat0 V c).flushed 4 t = ((cfg0.win 4).blk t).view.read (Elt Ideal) (G0_4 (V c main_arg1) (V c main_v8) (V c main_v10)) := by
  show (cfg0.win 4).cut (grid0.coords t) ((dat0 V c).after 4 t) = _
  rw [after0_4]
  unfold out0_4
  simp only [View.ld_unit_zero (S := S1024x128) hz2, View.ld_unit_zero (S := S128x512) hz2, View.ld_unit_zero (S := S1x512) hz2]
  funext j
  obtain ⟨p, l, rfl⟩ : ∃ (p : Fin 1024) (l : Fin 256), j = ix2 p l := ⟨j 0, j 1, eq_ix2 j⟩
  show View.canon (Val := Elt Ideal) (s := S1024x256) (e := .f32)
        [⟨rhi0, k0_pay4 (iblk0 V c 0 t) (iblk0 V c 1 t) (iblk0 V c 2 t)⟩, ⟨rlo0, k0_pay4 (iblk0 V c 0 t) (iblk0 V c 1 t) (iblk0 V c 2 t)⟩] (ix2 p l)
      = G0_4 (V c main_arg1) (V c main_v8) (V c main_v10) (((cfg0.win 4).blk t).view.emb (ix2 p l))
  rw [canon_halves]
  obtain ⟨-, -, -, -, -, -, -, -, e4_0, e4_1, -, -⟩ := idx0 t
  have hn : ∀ q : Fin 128, k0_pay4 (iblk0 V c 0 t) (iblk0 V c 1 t) (iblk0 V c 2 t) (ix2 p q)
      = proj (V c main_arg1) (V c main_v8) (V c main_v10) ⟨t.val * 1024 + p.val, by have := t_lt0 t; omega⟩ ⟨384 + q.val, by omega⟩ := fun q =>
    pt0_4 (iblk0 V c 0 t) (iblk0 V c 1 t) (iblk0 V c 2 t) (V c main_arg1) (V c main_v8) (V c main_v10) p q _ (fun k => blk0_0 V c t p k) (blk0_1 V c t) (blk0_2 V c t)
  have hl := l.isLt
  have hemb : ((cfg0.win 4).blk t).view.emb (ix2 p l) = ix2 ⟨t.val * 1024 + p.val, by have := t_lt0 t; omega⟩ l :=
    funext fun a => Fin.ext (by
      match a with
      | ⟨0, _⟩ => show win0_4.index t (0 : Fin 2) * 1024 + 1 * p.val = t.val * 1024 + p.val; omega
      | ⟨1, _⟩ => show win0_4.index t (1 : Fin 2) * 256 + 1 * l.val = l.val; omega)
  refine Eq.trans ?_ (congrArg (G0_4 (V c main_arg1) (V c main_v8) (V c main_v10)) hemb).symm
  show _ = proj (V c main_arg1) (V c main_v8) (V c main_v10) ⟨t.val * 1024 + p.val, by have := t_lt0 t; omega⟩ ⟨384 + l.val % 128, by omega⟩
  by_cases h : l.val < 128
  · rw [dif_pos h, hn]
    exact congrArg (proj (V c main_arg1) (V c main_v8) (V c main_v10) _) (Fin.ext (by show 384 + l.val = 384 + l.val % 128; omega))
  · rw [dif_neg h, hn]
    exact congrArg (proj (V c main_arg1) (V c main_v8) (V c main_v10) _) (Fin.ext (by show 384 + (l.val - 128) = 384 + l.val % 128; omega))

/-- Membership in window 4's block at point `t`, coordinate by coordinate. -/
theorem mem_blk0_4 (t : Fin cfg0.N) (i : S65536x256.Idx) :
    i ∈ ((cfg0.win 4).blk t).view.set ↔ ∀ a : Fin 2, win0_4.index t a * S1024x256.size a ≤ (i a).val ∧ (i a).val < win0_4.index t a * S1024x256.size a + S1024x256.size a := by
  show i ∈ ((View.whole main_v11_1).slice (win0_4.rect t)).set ↔ _
  rw [View.set_slice_whole, Rect.mem_set_unit]
  exact Iff.rfl

/-- Every row of the array lies in the block of the point `row / 1024`. -/
theorem covered0_4 (i : S65536x256.Idx) : ∃ t : Fin cfg0.N, (cfg0.win 4).flush t = true ∧ i ∈ ((cfg0.win 4).blk t).view.set := by
  have hi0 : (i 0).val < 65536 := (i 0).isLt
  have hi1 : (i 1).val < 256 := (i 1).isLt
  have hN : cfg0.N = 64 := N_0
  let t : Fin cfg0.N := ⟨(i 0).val / 1024, by rw [hN]; omega⟩
  obtain ⟨-, -, -, -, -, -, -, -, e4_0, e4_1, -, -⟩ := idx0 t
  refine ⟨t, flush0_4 t, ?_⟩
  rw [mem_blk0_4]
  intro a
  match a with
  | ⟨0, _⟩ =>
    show win0_4.index t (0 : Fin 2) * 1024 ≤ (i 0).val ∧ (i 0).val < win0_4.index t (0 : Fin 2) * 1024 + 1024
    rw [e4_0]
    show (i 0).val / 1024 * 1024 ≤ (i 0).val ∧ (i 0).val < (i 0).val / 1024 * 1024 + 1024
    omega
  | ⟨1, _⟩ =>
    show win0_4.index t (1 : Fin 2) * 256 ≤ (i 1).val ∧ (i 1).val < win0_4.index t (1 : Fin 2) * 256 + 256
    omega

/-- The array after the region. -/
theorem final0_4 (c : Dev nD) : (dat0 V c).arrAt 4 cfg0.N = G0_4 (V c main_arg1) (V c main_v8) (V c main_v10) :=
  (dat0 V c).arrAt_eq_of_cover 4 _ (fun t _ => flushed0_4 V c t) covered0_4

end Region0

end Cert.KernelIdeal.Val

end
-- ==== Proof.KV.Edge.lean ====
/-
  The edge kernels' stored values at an index: the pre-activation of an edge row from the edge row, the two
  gathered projections and the summed bias; its layer normalisation; the residual update of the edge row;
  the gate and the gated message.
-/
import proofs.«117664_g2000706958607885_pallasbulk_534_41_alg».proof.Proof.KV.Common

noncomputable section

namespace Cert.KernelIdeal.Val

open Idealize.ShloMosaic Idealize.ShloMosaic.ValueIdx Cert.KernelIdeal Cert.KernelIdeal.Gen
open scoped BigOperators

/-- The pre-activation of row `r` of an edge tile: the edge row times W_C, plus the gathered destination projection,
    plus lanes 128–255 of the gathered source projection, plus the summed bias. -/
def ehatRow (e : Vec Ideal S1024x128 .f32) (gs : Vec Ideal S1024x256 .f32) (wc : Vec Ideal S128x128 .f32) (gd : Vec Ideal S1024x128 .f32) (bs : Vec Ideal S1x128 .f32) (r : Fin 1024) : Spec.Row :=
  Spec.kerEhat (fun k => e (ix2 r k)) (fun k => gd (ix2 r k)) (fun k => gs (ix2 r ⟨128 + k.val, by omega⟩))
    (fun k n => wc (ix2 k n)) (fun k => bs (ix2 (0 : Fin 1) k))

/-! ## Region 2 -/

/-- The pre-activation tile at `(r, q)`. -/
theorem k2_pay5_apply (e : Vec Ideal S1024x128 .f32) (gs : Vec Ideal S1024x256 .f32) (wc : Vec Ideal S128x128 .f32) (gd : Vec Ideal S1024x128 .f32) (bs : Vec Ideal S1x128 .f32) (r : Fin 1024) (q : Fin 128) :
    k2_pay5 e gs wc gd bs (ix2 r q) = ehatRow e gs wc gd bs r q := by
  unfold k2_pay5 k2_pay4
  show matmul (F := Ideal) dot_S1024x128_S128x128_S1024x128_1_0_0_1_n_n none e wc (constant S1024x128 .f32 0x00000000#32) (ix2 r q)
        + shapeCast S1024x128 gd shapeCasts_S1024x128_S1024x128 (ix2 r q)
        + extractStridedSlice S1024x128 ![0, 128] (shapeCast S1024x256 gs shapeCasts_S1024x256_S1024x256)
            slices_S1024x256_o0_128_S1024x128 (ix2 r q)
        + broadcastTo S1024x128 (shapeCast S1x128 bs shapeCasts_S1x128_S1x128) broadcasts_S1x128_S1024x128 (ix2 r q) = _
  rw [shapeCast_self, shapeCast_self, shapeCast_self, matmul128_apply, slice2_axis1_eq, broadcastTo_1b_ab_apply]
  rfl

/-- Its layer normalisation is the layer normalisation of the tile. -/
theorem k2_pay6_eq (e : Vec Ideal S1024x128 .f32) (gs : Vec Ideal S1024x256 .f32) (wc : Vec Ideal S128x128 .f32) (gd : Vec Ideal S1024x128 .f32) (bs : Vec Ideal S1x128 .f32) (g b : Vec Ideal S1x128 .f32) :
    k2_pay6 e gs wc gd bs g b = lnTile reduces_S1024x128_S1024 shapeCasts_S1024_S1024x1 broadcasts_S1024x1_S1024x128 broadcasts_S1x128_S1024x128 (k2_pay5 e gs wc gd bs) g b := rfl

theorem k2_pay6_apply (e : Vec Ideal S1024x128 .f32) (gs : Vec Ideal S1024x256 .f32) (wc : Vec Ideal S128x128 .f32) (gd : Vec Ideal S1024x128 .f32) (bs : Vec Ideal S1x128 .f32) (g b : Vec Ideal S1x128 .f32) (r : Fin 1024) (q : Fin 128) :
    k2_pay6 e gs wc gd bs g b (ix2 r q)
      = Spec.layerNorm (ehatRow e gs wc gd bs r) (fun k => g (ix2 (0 : Fin 1) k)) (fun k => b (ix2 (0 : Fin 1) k)) q := by
  have h : (fun k => k2_pay5 e gs wc gd bs (ix2 r k)) = ehatRow e gs wc gd bs r := funext fun k => k2_pay5_apply e gs wc gd bs r k
  rw [k2_pay6_eq, lnTile_apply, h]

/-- The stored edge rows: the residual update of the edge row by its normalised, gated pre-activation. -/
theorem edge2_new_apply (e : Vec Ideal S1024x128 .f32) (gs : Vec Ideal S1024x256 .f32) (wc : Vec Ideal S128x128 .f32) (gd : Vec Ideal S1024x128 .f32) (bs : Vec Ideal S1x128 .f32) (g b : Vec Ideal S1x128 .f32) (r : Fin 1024) (q : Fin 128) :
    k2_pay1 e (k2_pay6 e gs wc gd bs g b) (k2_pay7 e gs wc gd bs g b) (ix2 r q)
      = Spec.resid (fun k => e (ix2 r k)) (ehatRow e gs wc gd bs r) (fun k => g (ix2 (0 : Fin 1) k)) (fun k => b (ix2 (0 : Fin 1) k)) q := by
  unfold k2_pay1 k2_pay7
  show e (ix2 r q) + k2_pay6 e gs wc gd bs g b (ix2 r q) * Ideal.logistic (k2_pay6 e gs wc gd bs g b (ix2 r q)) = _
  rw [k2_pay6_apply]
  rfl

/-- The stored gate (the message array's lanes 128–255). -/
theorem edge2_gate_apply (e : Vec Ideal S1024x128 .f32) (gs : Vec Ideal S1024x256 .f32) (wc : Vec Ideal S128x128 .f32) (gd : Vec Ideal S1024x128 .f32) (bs : Vec Ideal S1x128 .f32) (r : Fin 1024) (q : Fin 128) :
    k2_pay2 (k2_pay5 e gs wc gd bs) (ix2 r q) = Spec.gate (ehatRow e gs wc gd bs r) q := by
  unfold k2_pay2
  show Ideal.logistic (k2_pay5 e gs wc gd bs (ix2 r q)) = _
  rw [k2_pay5_apply]
  rfl

/-- The stored message (the message array's lanes 0–127): the gate times lanes 0–127 of the gathered source projection. -/
theorem edge2_msg_apply (e : Vec Ideal S1024x128 .f32) (gs : Vec Ideal S1024x256 .f32) (wc : Vec Ideal S128x128 .f32) (gd : Vec Ideal S1024x128 .f32) (bs : Vec Ideal S1x128 .f32) (r : Fin 1024) (q : Fin 128) :
    k2_pay3 (k2_pay4 gs) (k2_pay5 e gs wc gd bs) (ix2 r q)
      = Spec.gate (ehatRow e gs wc gd bs r) q * gs (ix2 r ⟨0 + q.val, by omega⟩) := by
  unfold k2_pay3 k2_pay2 k2_pay4
  show Ideal.logistic (k2_pay5 e gs wc gd bs (ix2 r q))
      * extractStridedSlice S1024x128 ![0, 0] (shapeCast S1024x256 gs shapeCasts_S1024x256_S1024x256)
          slices_S1024x256_o0_0_S1024x128 (ix2 r q) = _
  rw [shapeCast_self, k2_pay5_apply, slice2_axis1_eq]
  rfl

/-! ## Region 4 -/

/-- The pre-activation tile at `(r, q)`. -/
theorem k4_pay6_apply (e : Vec Ideal S1024x128 .f32) (gs : Vec Ideal S1024x256 .f32) (wc : Vec Ideal S128x128 .f32) (gd : Vec Ideal S1024x128 .f32) (bs : Vec Ideal S1x128 .f32) (r : Fin 1024) (q : Fin 128) :
    k4_pay6 e gs wc gd bs (ix2 r q) = ehatRow e gs wc gd bs r q := by
  unfold k4_pay6 k4_pay4 k4_pay5
  show matmul (F := Ideal) dot_S1024x128_S128x128_S1024x128_1_0_0_1_n_n none (shapeCast S1024x128 e shapeCasts_S1024x128_S1024x128) wc (constant S1024x128 .f32 0x00000000#32) (ix2 r q)
        + shapeCast S1024x128 gd shapeCasts_S1024x128_S1024x128 (ix2 r q)
        + extractStridedSlice S1024x128 ![0, 128] (shapeCast S1024x256 gs shapeCasts_S1024x256_S1024x256)
            slices_S1024x256_o0_128_S1024x128 (ix2 r q)
        + broadcastTo S1024x128 (shapeCast S1x128 bs shapeCasts_S1x128_S1x128) broadcasts_S1x128_S1024x128 (ix2 r q) = _
  rw [shapeCast_self, shapeCast_self, shapeCast_self, shapeCast_self, matmul128_apply, slice2_axis1_eq, broadcastTo_1b_ab_apply]
  rfl

/-- Its layer normalisation is the layer normalisation of the tile. -/
theorem k4_pay7_eq (e : Vec Ideal S1024x128 .f32) (gs : Vec Ideal S1024x256 .f32) (wc : Vec Ideal S128x128 .f32) (gd : Vec Ideal S1024x128 .f32) (bs : Vec Ideal S1x128 .f32) (g b : Vec Ideal S1x128 .f32) :
    k4_pay7 e gs wc gd bs g b = lnTile reduces_S1024x128_S1024 shapeCasts_S1024_S1024x1 broadcasts_S1024x1_S1024x128 broadcasts_S1x128_S1024x128 (k4_pay6 e gs wc gd bs) g b := rfl

theorem k4_pay7_apply (e : Vec Ideal S1024x128 .f32) (gs : Vec Ideal S1024x256 .f32) (wc : Vec Ideal S128x128 .f32) (gd : Vec Ideal S1024x128 .f32) (bs : Vec Ideal S1x128 .f32) (g b : Vec Ideal S1x128 .f32) (r : Fin 1024) (q : Fin 128) :
    k4_pay7 e gs wc gd bs g b (ix2 r q)
      = Spec.layerNorm (ehatRow e gs wc gd bs r) (fun k => g (ix2 (0 : Fin 1) k)) (fun k => b (ix2 (0 : Fin 1) k)) q := by
  have h : (fun k => k4_pay6 e gs wc gd bs (ix2 r k)) = ehatRow e gs wc gd bs r := funext fun k => k4_pay6_apply e gs wc gd bs r k
  rw [k4_pay7_eq, lnTile_apply, h]

/-- The stored edge rows: the residual update of the edge row by its normalised, gated pre-activation. -/
theorem edge4_new_apply (e : Vec Ideal S1024x128 .f32) (gs : Vec Ideal S1024x256 .f32) (wc : Vec Ideal S128x128 .f32) (gd : Vec Ideal S1024x128 .f32) (bs : Vec Ideal S1x128 .f32) (g b : Vec Ideal S1x128 .f32) (r : Fin 1024) (q : Fin 128) :
    k4_pay1 (k4_pay4 e) (k4_pay7 e gs wc gd bs g b) (ix2 r q)
      = Spec.resid (fun k => e (ix2 r k)) (ehatRow e gs wc gd bs r) (fun k => g (ix2 (0 : Fin 1) k)) (fun k => b (ix2 (0 : Fin 1) k)) q := by
  unfold k4_pay1 k4_pay4
  show shapeCast S1024x128 e shapeCasts_S1024x128_S1024x128 (ix2 r q) + k4_pay7 e gs wc gd bs g b (ix2 r q) * Ideal.logistic (k4_pay7 e gs wc gd bs g b (ix2 r q)) = _
  rw [shapeCast_self, k4_pay7_apply]
  rfl

/-- The stored gate (the message array's lanes 128–255). -/
theorem edge4_gate_apply (e : Vec Ideal S1024x128 .f32) (gs : Vec Ideal S1024x256 .f32) (wc : Vec Ideal S128x128 .f32) (gd : Vec Ideal S1024x128 .f32) (bs : Vec Ideal S1x128 .f32) (r : Fin 1024) (q : Fin 128) :
    k4_pay2 (k4_pay6 e gs wc gd bs) (ix2 r q) = Spec.gate (ehatRow e gs wc gd bs r) q := by
  unfold k4_pay2
  show Ideal.logistic (k4_pay6 e gs wc gd bs (ix2 r q)) = _
  rw [k4_pay6_apply]
  rfl

/-- The stored message (the message array's lanes 0–127): the gate times lanes 0–127 of the gathered source projection. -/
theorem edge4_msg_apply (e : Vec Ideal S1024x128 .f32) (gs : Vec Ideal S1024x256 .f32) (wc : Vec Ideal S128x128 .f32) (gd : Vec Ideal S1024x128 .f32) (bs : Vec Ideal S1x128 .f32) (r : Fin 1024) (q : Fin 128) :
    k4_pay3 (k4_pay5 gs) (k4_pay6 e gs wc gd bs) (ix2 r q)
      = Spec.gate (ehatRow e gs wc gd bs r) q * gs (ix2 r ⟨0 + q.val, by omega⟩) := by
  unfold k4_pay3 k4_pay2 k4_pay5
  show Ideal.logistic (k4_pay6 e gs wc gd bs (ix2 r q))
      * extractStridedSlice S1024x128 ![0, 0] (shapeCast S1024x256 gs shapeCasts_S1024x256_S1024x256)
          slices_S1024x256_o0_0_S1024x128 (ix2 r q) = _
  rw [shapeCast_self, k4_pay6_apply, slice2_axis1_eq]
  rfl

/-! ## Region 8 -/

/-- The pre-activation tile at `(r, q)`. -/
theorem k8_pay6_apply (e : Vec Ideal S1024x128 .f32) (gs : Vec Ideal S1024x256 .f32) (wc : Vec Ideal S128x128 .f32) (gd : Vec Ideal S1024x128 .f32) (bs : Vec Ideal S1x128 .f32) (r : Fin 1024) (q : Fin 128) :
    k8_pay6 e gs wc gd bs (ix2 r q) = ehatRow e gs wc gd bs r q := by
  unfold k8_pay6 k8_pay4 k8_pay5
  show matmul (F := Ideal) dot_S1024x128_S128x128_S1024x128_1_0_0_1_n_n none (shapeCast S1024x128 e shapeCasts_S1024x128_S1024x128) wc (constant S1024x128 .f32 0x00000000#32) (ix2 r q)
        + shapeCast S1024x128 gd shapeCasts_S1024x128_S1024x128 (ix2 r q)
        + extractStridedSlice S1024x128 ![0, 128] (shapeCast S1024x256 gs shapeCasts_S1024x256_S1024x256)
            slices_S1024x256_o0_128_S1024x128 (ix2 r q)
        + broadcastTo S1024x128 (shapeCast S1x128 bs shapeCasts_S1x128_S1x128) broadcasts_S1x128_S1024x128 (ix2 r q) = _
  rw [shapeCast_self, shapeCast_self, shapeCast_self, shapeCast_self, matmul128_apply, slice2_axis1_eq, broadcastTo_1b_ab_apply]
  rfl

/-- Its layer normalisation is the layer normalisation of the tile. -/
theorem k8_pay7_eq (e : Vec Ideal S1024x128 .f32) (gs : Vec Ideal S1024x256 .f32) (wc : Vec Ideal S128x128 .f32) (gd : Vec Ideal S1024x128 .f32) (bs : Vec Ideal S1x128 .f32) (g b : Vec Ideal S1x128 .f32) :
    k8_pay7 e gs wc gd bs g b = lnTile reduces_S1024x128_S1024 shapeCasts_S1024_S1024x1 broadcasts_S1024x1_S1024x128 broadcasts_S1x128_S1024x128 (k8_pay6 e gs wc gd bs) g b := rfl

theorem k8_pay7_apply (e : Vec Ideal S1024x128 .f32) (gs : Vec Ideal S1024x256 .f32) (wc : Vec Ideal S128x128 .f32) (gd : Vec Ideal S1024x128 .f32) (bs : Vec Ideal S1x128 .f32) (g b : Vec Ideal S1x128 .f32) (r : Fin 1024) (q : Fin 128) :
    k8_pay7 e gs wc gd bs g b (ix2 r q)
      = Spec.layerNorm (ehatRow e gs wc gd bs r) (fun k => g (ix2 (0 : Fin 1) k)) (fun k => b (ix2 (0 : Fin 1) k)) q := by
  have h : (fun k => k8_pay6 e gs wc gd bs (ix2 r k)) = ehatRow e gs wc gd bs r := funext fun k => k8_pay6_apply e gs wc gd bs r k
  rw [k8_pay7_eq, lnTile_apply, h]

/-- The stored edge rows: the residual update of the edge row by its normalised, gated pre-activation. -/
theorem edge8_new_apply (e : Vec Ideal S1024x128 .f32) (gs : Vec Ideal S1024x256 .f32) (wc : Vec Ideal S128x128 .f32) (gd : Vec Ideal S1024x128 .f32) (bs : Vec Ideal S1x128 .f32) (g b : Vec Ideal S1x128 .f32) (r : Fin 1024) (q : Fin 128) :
    k8_pay1 (k8_pay4 e) (k8_pay7 e gs wc gd bs g b) (ix2 r q)
      = Spec.resid (fun k => e (ix2 r k)) (ehatRow e gs wc gd bs r) (fun k => g (ix2 (0 : Fin 1) k)) (fun k => b (ix2 (0 : Fin 1) k)) q := by
  unfold k8_pay1 k8_pay4
  show shapeCast S1024x128 e shapeCasts_S1024x128_S1024x128 (ix2 r q) + k8_pay7 e gs wc gd bs g b (ix2 r q) * Ideal.logistic (k8_pay7 e gs wc gd bs g b (ix2 r q)) = _
  rw [shapeCast_self, k8_pay7_apply]
  rfl

/-- The stored gate (the message array's lanes 128–255). -/
theorem edge8_gate_apply (e : Vec Ideal S1024x128 .f32) (gs : Vec Ideal S1024x256 .f32) (wc : Vec Ideal S128x128 .f32) (gd : Vec Ideal S1024x128 .f32) (bs : Vec Ideal S1x128 .f32) (r : Fin 1024) (q : Fin 128) :
    k8_pay2 (k8_pay6 e gs wc gd bs) (ix2 r q) = Spec.gate (ehatRow e gs wc gd bs r) q := by
  unfold k8_pay2
  show Ideal.logistic (k8_pay6 e gs wc gd bs (ix2 r q)) = _
  rw [k8_pay6_apply]
  rfl

/-- The stored message (the message array's lanes 0–127): the gate times lanes 0–127 of the gathered source projection. -/
theorem edge8_msg_apply (e : Vec Ideal S1024x128 .f32) (gs : Vec Ideal S1024x256 .f32) (wc : Vec Ideal S128x128 .f32) (gd : Vec Ideal S1024x128 .f32) (bs : Vec Ideal S1x128 .f32) (r : Fin 1024) (q : Fin 128) :
    k8_pay3 (k8_pay5 gs) (k8_pay6 e gs wc gd bs) (ix2 r q)
      = Spec.gate (ehatRow e gs wc gd bs r) q * gs (ix2 r ⟨0 + q.val, by omega⟩) := by
  unfold k8_pay3 k8_pay2 k8_pay5
  show Ideal.logistic (k8_pay6 e gs wc gd bs (ix2 r q))
      * extractStridedSlice S1024x128 ![0, 0] (shapeCast S1024x256 gs shapeCasts_S1024x256_S1024x256)
          slices_S1024x256_o0_0_S1024x128 (ix2 r q) = _
  rw [shapeCast_self, k8_pay6_apply, slice2_axis1_eq]
  rfl

/-! ## Region 10 -/

/-- The pre-activation tile at `(r, q)`. -/
theorem k10_pay6_apply (e : Vec Ideal S1024x128 .f32) (gs : Vec Ideal S1024x256 .f32) (wc : Vec Ideal S128x128 .f32) (gd : Vec Ideal S1024x128 .f32) (bs : Vec Ideal S1x128 .f32) (r : Fin 1024) (q : Fin 128) :
    k10_pay6 e gs wc gd bs (ix2 r q) = ehatRow e gs wc gd bs r q := by
  unfold k10_pay6 k10_pay4 k10_pay5
  show matmul (F := Ideal) dot_S1024x128_S128x128_S1024x128_1_0_0_1_n_n none (shapeCast S1024x128 e shapeCasts_S1024x128_S1024x128) wc (constant S1024x128 .f32 0x00000000#32) (ix2 r q)
        + shapeCast S1024x128 gd shapeCasts_S1024x128_S1024x128 (ix2 r q)
        + extractStridedSlice S1024x128 ![0, 128] (shapeCast S1024x256 gs shapeCasts_S1024x256_S1024x256)
            slices_S1024x256_o0_128_S1024x128 (ix2 r q)
        + broadcastTo S1024x128 (shapeCast S1x128 bs shapeCasts_S1x128_S1x128) broadcasts_S1x128_S1024x128 (ix2 r q) = _
  rw [shapeCast_self, shapeCast_self, shapeCast_self, shapeCast_self, matmul128_apply, slice2_axis1_eq, broadcastTo_1b_ab_apply]
  rfl

/-- Its layer normalisation is the layer normalisation of the tile. -/
theorem k10_pay7_eq (e : Vec Ideal S1024x128 .f32) (gs : Vec Ideal S1024x256 .f32) (wc : Vec Ideal S128x128 .f32) (gd : Vec Ideal S1024x128 .f32) (bs : Vec Ideal S1x128 .f32) (g b : Vec Ideal S1x128 .f32) :
    k10_pay7 e gs wc gd bs g b = lnTile reduces_S1024x128_S1024 shapeCasts_S1024_S1024x1 broadcasts_S1024x1_S1024x128 broadcasts_S1x128_S1024x128 (k10_pay6 e gs wc gd bs) g b := rfl

theorem k10_pay7_apply (e : Vec Ideal S1024x128 .f32) (gs : Vec Ideal S1024x256 .f32) (wc : Vec Ideal S128x128 .f32) (gd : Vec Ideal S1024x128 .f32) (bs : Vec Ideal S1x128 .f32) (g b : Vec Ideal S1x128 .f32) (r : Fin 1024) (q : Fin 128) :
    k10_pay7 e gs wc gd bs g b (ix2 r q)
      = Spec.layerNorm (ehatRow e gs wc gd bs r) (fun k => g (ix2 (0 : Fin 1) k)) (fun k => b (ix2 (0 : Fin 1) k)) q := by
  have h : (fun k => k10_pay6 e gs wc gd bs (ix2 r k)) = ehatRow e gs wc gd bs r := funext fun k => k10_pay6_apply e gs wc gd bs r k
  rw [k10_pay7_eq, lnTile_apply, h]

/-- The stored edge rows: the residual update of the edge row by its normalised, gated pre-activation. -/
theorem edge10_new_apply (e : Vec Ideal S1024x128 .f32) (gs : Vec Ideal S1024x256 .f32) (wc : Vec Ideal S128x128 .f32) (gd : Vec Ideal S1024x128 .f32) (bs : Vec Ideal S1x128 .f32) (g b : Vec Ideal S1x128 .f32) (r : Fin 1024) (q : Fin 128) :
    k10_pay1 (k10_pay4 e) (k10_pay7 e gs wc gd bs g b) (ix2 r q)
      = Spec.resid (fun k => e (ix2 r k)) (ehatRow e gs wc gd bs r) (fun k => g (ix2 (0 : Fin 1) k)) (fun k => b (ix2 (0 : Fin 1) k)) q := by
  unfold k10_pay1 k10_pay4
  show shapeCast S1024x128 e shapeCasts_S1024x128_S1024x128 (ix2 r q) + k10_pay7 e gs wc gd bs g b (ix2 r q) * Ideal.logistic (k10_pay7 e gs wc gd bs g b (ix2 r q)) = _
  rw [shapeCast_self, k10_pay7_apply]
  rfl

/-- The stored gate (the message array's lanes 128–255). -/
theorem edge10_gate_apply (e : Vec Ideal S1024x128 .f32) (gs : Vec Ideal S1024x256 .f32) (wc : Vec Ideal S128x128 .f32) (gd : Vec Ideal S1024x128 .f32) (bs : Vec Ideal S1x128 .f32) (r : Fin 1024) (q : Fin 128) :
    k10_pay2 (k10_pay6 e gs wc gd bs) (ix2 r q) = Spec.gate (ehatRow e gs wc gd bs r) q := by
  unfold k10_pay2
  show Ideal.logistic (k10_pay6 e gs wc gd bs (ix2 r q)) = _
  rw [k10_pay6_apply]
  rfl

/-- The stored message (the message array's lanes 0–127): the gate times lanes 0–127 of the gathered source projection. -/
theorem edge10_msg_apply (e : Vec Ideal S1024x128 .f32) (gs : Vec Ideal S1024x256 .f32) (wc : Vec Ideal S128x128 .f32) (gd : Vec Ideal S1024x128 .f32) (bs : Vec Ideal S1x128 .f32) (r : Fin 1024) (q : Fin 128) :
    k10_pay3 (k10_pay5 gs) (k10_pay6 e gs wc gd bs) (ix2 r q)
      = Spec.gate (ehatRow e gs wc gd bs r) q * gs (ix2 r ⟨0 + q.val, by omega⟩) := by
  unfold k10_pay3 k10_pay2 k10_pay5
  show Ideal.logistic (k10_pay6 e gs wc gd bs (ix2 r q))
      * extractStridedSlice S1024x128 ![0, 0] (shapeCast S1024x256 gs shapeCasts_S1024x256_S1024x256)
          slices_S1024x256_o0_0_S1024x128 (ix2 r q) = _
  rw [shapeCast_self, k10_pay6_apply, slice2_axis1_eq]
  rfl

end Cert.KernelIdeal.Val

end
-- ==== Proof.KV.Fin2.lean ====
/-
  Region 2 (an edge update): each output array after the region as one function of the region's input arrays,
  index by index.
-/
import proofs.«117664_g2000706958607885_pallasbulk_534_41_alg».proof.Proof.KI.Half2
import proofs.«117664_g2000706958607885_pallasbulk_534_41_alg».proof.Proof.KV.Edge
import proofs.«117664_g2000706958607885_pallasbulk_534_41_alg».proof.Proof.KV.FinCommon
import Idealize.ShloMosaic.Lib.Pipeline.Value

set_option maxRecDepth 16384

noncomputable section

namespace Cert.KernelIdeal.Val

open Cert.KernelIdeal Cert.KernelIdeal.Gen Cert.KernelIdeal.Fr
open Idealize.ShloMosaic Idealize.ShloMosaic.ValueIdx Idealize.ShloMosaic.TcCoe Idealize.SL.Sem
open Idealize.ShloMosaic.Pipeline (Dat)
open scoped BigOperators

section Region2
variable (V : (c : Dev nD) → (b : Ref sig .tc) → Buf (Elt Ideal) ((c : Thread nD τ).loc b))

/-- The printed index maps over the grid: a row window's block index is the grid point, a whole window's is zero. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0
    ∧ win2_8.index t (0 : Fin 2) = t.val ∧ win2_8.index t (1 : Fin 2) = 0 :=
  (by decide +kernel : ∀ t : Fin grid2.N, _)

theorem t_lt2 (t : Fin cfg2.N) : t.val < 128 := lt_of_lt_of_eq t.isLt N_2

/-- Row `p` of window 0's block at point `t` is row `t · 1024 + p` of its array. -/
theorem blk2_0 (c : Dev nD) (t : Fin cfg2.N) (p : Fin 1024) (k : Fin 128) :
    iblk2 V c 0 t (ix2 p k) = V c main_arg2 (ix2 ⟨t.val * 1024 + p.val, by have := t_lt2 t; omega⟩ k) := by
  show V c main_arg2 (((cfg2.win 0).blk t).view.emb (ix2 p k)) = _
  refine congrArg (V c main_arg2) (funext fun a => Fin.ext ?_)
  obtain ⟨e0_0, e0_1, -, -, -, -, -, -, -, -, -, -, -, -, -, -, -, -⟩ := idx2 t
  match a with
  | ⟨0, _⟩ => show win2_0.index t (0 : Fin 2) * 1024 + 1 * p.val = t.val * 1024 + p.val; omega
  | ⟨1, _⟩ => show win2_0.index t (1 : Fin 2) * 128 + 1 * k.val = k.val; omega

/-- Row `p` of window 1's block at point `t` is row `t · 1024 + p` of its array. -/
theorem blk2_1 (c : Dev nD) (t : Fin cfg2.N) (p : Fin 1024) (k : Fin 128) :
    iblk2 V c 1 t (ix2 p k) = V c main_v18 (ix2 ⟨t.val * 1024 + p.val, by have := t_lt2 t; omega⟩ ⟨k.val, by omega⟩) := by
  show V c main_v18 (((cfg2.win 1).blk t).view.emb (ix2 p k)) = _
  refine congrArg (V c main_v18) (funext fun a => Fin.ext ?_)
  obtain ⟨-, -, e1_0, e1_1, -, -, -, -, -, -, -, -, -, -, -, -, -, -⟩ := idx2 t
  match a with
  | ⟨0, _⟩ => show win2_1.index t (0 : Fin 2) * 1024 + 1 * p.val = t.val * 1024 + p.val; omega
  | ⟨1, _⟩ => show win2_1.index t (1 : Fin 2) * 128 + 1 * k.val = k.val; omega

/-- Row `p` of window 2's block at point `t` is row `t · 1024 + p` of its array. -/
theorem blk2_2 (c : Dev nD) (t : Fin cfg2.N) (p : Fin 1024) (k : Fin 256) :
    iblk2 V c 2 t (ix2 p k) = V c main_v25 (ix2 ⟨t.val * 1024 + p.val, by have := t_lt2 t; omega⟩ k) := by
  show V c main_v25 (((cfg2.win 2).blk t).view.emb (ix2 p k)) = _
  refine congrArg (V c main_v25) (funext fun a => Fin.ext ?_)
  obtain ⟨-, -, -, -, e2_0, e2_1, -, -, -, -, -, -, -, -, -, -, -, -⟩ := idx2 t
  match a with
  | ⟨0, _⟩ => show win2_2.index t (0 : Fin 2) * 1024 + 1 * p.val = t.val * 1024 + p.val; omega
  | ⟨1, _⟩ => show win2_2.index t (1 : Fin 2) * 256 + 1 * k.val = k.val; omega

/-- Window 3's block is its whole array. -/
theorem blk2_3 (c : Dev nD) (t : Fin cfg2.N) : iblk2 V c 3 t = V c main_arg13 := by
  funext j
  show V c main_arg13 (((cfg2.win 3).blk t).view.emb j) = V c main_arg13 j
  refine congrArg (V c main_arg13) (funext fun a => Fin.ext ?_)
  obtain ⟨-, -, -, -, -, -, e3_0, e3_1, -, -, -, -, -, -, -, -, -, -⟩ := idx2 t
  match a with
  | ⟨0, _⟩ => show win2_3.index t (0 : Fin 2) * 128 + 1 * (j 0).val = (j 0).val; omega
  | ⟨1, _⟩ => show win2_3.index t (1 : Fin 2) * 128 + 1 * (j 1).val = (j 1).val; omega

/-- Window 4's block is its whole array. -/
theorem blk2_4 (c : Dev nD) (t : Fin cfg2.N) : iblk2 V c 4 t = V c main_v45 := by
  funext j
  show V c main_v45 (((cfg2.win 4).blk t).view.emb j) = V c main_v45 j
  refine congrArg (V c main_v45) (funext fun a => Fin.ext ?_)
  obtain ⟨-, -, -, -, -, -, -, -, e4_0, e4_1, -, -, -, -, -, -, -, -⟩ := idx2 t
  match a with
  | ⟨0, _⟩ => show win2_4.index t (0 : Fin 2) * 1 + 1 * (j 0).val = (j 0).val; omega
  | ⟨1, _⟩ => show win2_4.index t (1 : Fin 2) * 128 + 1 * (j 1).val = (j 1).val; omega

/-- Window 5's block is its whole array. -/
theorem blk2_5 (c : Dev nD) (t : Fin cfg2.N) : iblk2 V c 5 t = V c main_arg17 := by
  funext j
  show V c main_arg17 (((cfg2.win 5).blk t).view.emb j) = V c main_arg17 j
  refine congrArg (V c main_arg17) (funext fun a => Fin.ext ?_)
  obtain ⟨-, -, -, -, -, -, -, -, -, -, e5_0, e5_1, -, -, -, -, -, -⟩ := idx2 t
  match a with
  | ⟨0, _⟩ => show win2_5.index t (0 : Fin 2) * 1 + 1 * (j 0).val = (j 0).val; omega
  | ⟨1, _⟩ => show win2_5.index t (1 : Fin 2) * 128 + 1 * (j 1).val = (j 1).val; omega

/-- Window 6's block is its whole array. -/
theorem blk2_6 (c : Dev nD) (t : Fin cfg2.N) : iblk2 V c 6 t = V c main_arg18 := by
  funext j
  show V c main_arg18 (((cfg2.win 6).blk t).view.emb j) = V c main_arg18 j
  refine congrArg (V c main_arg18) (funext fun a => Fin.ext ?_)
  obtain ⟨-, -, -, -, -, -, -, -, -, -, -, -, e6_0, e6_1, -, -, -, -⟩ := idx2 t
  match a with
  | ⟨0, _⟩ => show win2_6.index t (0 : Fin 2) * 1 + 1 * (j 0).val = (j 0).val; omega
  | ⟨1, _⟩ => show win2_6.index t (1 : Fin 2) * 128 + 1 * (j 1).val = (j 1).val; omega

/-- The pre-activation row of a tile's row `p` is that of the edge `n` its blocks' rows come from. -/
theorem ehat2_row (x0 x1 : Vec Ideal S1024x128 .f32) (x2 : Vec Ideal S1024x256 .f32) (x3 : Vec Ideal S128x128 .f32) (x4 : Vec Ideal S1x128 .f32)
    (E : (⟨2, ![131072, 128]⟩ : Shape).Idx → EReal) (GD : (⟨2, ![131072, 256]⟩ : Shape).Idx → EReal) (GS : (⟨2, ![131072, 256]⟩ : Shape).Idx → EReal) (WC : S128x128.Idx → EReal) (BS : S1x128.Idx → EReal) (p : Fin 1024) (n : Fin 131072)
    (h0 : ∀ k, x0 (ix2 p k) = E (ix2 n k)) (h1 : ∀ k, x1 (ix2 p k) = GD (ix2 n ⟨k.val, by omega⟩)) (h2 : ∀ k, x2 (ix2 p k) = GS (ix2 n k))
    (h3 : x3 = WC) (h4 : x4 = BS) :
    ehatRow x0 x2 x3 x1 x4 p = ehatArr (by omega : 128 ≤ 256) E GD GS WC BS n := by
  subst h3 h4
  unfold ehatRow ehatArr
  rw [show (fun k => x0 (ix2 p k)) = fun k => E (ix2 n k) from funext h0,
    show (fun k => x1 (ix2 p k)) = fun k => GD (ix2 n ⟨k.val, by omega⟩) from funext h1,
    show (fun k : Fin 128 => x2 (ix2 p ⟨128 + k.val, by omega⟩)) = fun k => GS (ix2 n ⟨128 + k.val, by omega⟩) from funext fun k => h2 _]

/-- Window 7's array after region 2. -/
def G2_7 (E : (⟨2, ![131072, 128]⟩ : Shape).Idx → EReal) (GD : (⟨2, ![131072, 256]⟩ : Shape).Idx → EReal) (GS : (⟨2, ![131072, 256]⟩ : Shape).Idx → EReal) (WC : S128x128.Idx → EReal) (BS : S1x128.Idx → EReal) (Gm Bt : S1x128.Idx → EReal) : S131072x128.Idx → EReal :=
  fun i => enewAt (by omega : 128 ≤ 256) E GD GS WC BS Gm Bt ⟨(i 0).val, idx2_lt0 i⟩ ⟨(i 1).val, idx2_lt1 i⟩
/-- Window 8's array after region 2. -/
def G2_8 (E : (⟨2, ![131072, 128]⟩ : Shape).Idx → EReal) (GD : (⟨2, ![131072, 256]⟩ : Shape).Idx → EReal) (GS : (⟨2, ![131072, 256]⟩ : Shape).Idx → EReal) (WC : S128x128.Idx → EReal) (BS : S1x128.Idx → EReal) : S131072x256.Idx → EReal :=
  fun i => msAt (by omega : 128 ≤ 256) E GD GS WC BS ⟨(i 0).val, idx2_lt0 i⟩ ⟨(i 1).val, idx2_lt1 i⟩

theorem pt2_7 (x0 x1 : Vec Ideal S1024x128 .f32) (x2 : Vec Ideal S1024x256 .f32) (x3 : Vec Ideal S128x128 .f32) (x4 : Vec Ideal S1x128 .f32) (x5 x6 : Vec Ideal S1x128 .f32)
    (E : (⟨2, ![131072, 128]⟩ : Shape).Idx → EReal) (GD : (⟨2, ![131072, 256]⟩ : Shape).Idx → EReal) (GS : (⟨2, ![131072, 256]⟩ : Shape).Idx → EReal) (WC : S128x128.Idx → EReal) (BS : S1x128.Idx → EReal) (Gm Bt : S1x128.Idx → EReal) (p : Fin 1024) (q : Fin 128) (n : Fin 131072)
    (h0 : ∀ k, x0 (ix2 p k) = E (ix2 n k)) (h1 : ∀ k, x1 (ix2 p k) = GD (ix2 n ⟨k.val, by omega⟩)) (h2 : ∀ k, x2 (ix2 p k) = GS (ix2 n k))
    (h3 : x3 = WC) (h4 : x4 = BS) (h5 : x5 = Gm) (h6 : x6 = Bt) :
    k2_pay1 x0 (k2_pay6 x0 x2 x3 x1 x4 x5 x6) (k2_pay7 x0 x2 x3 x1 x4 x5 x6) (ix2 p q) = enewAt (by omega : 128 ≤ 256) E GD GS WC BS Gm Bt n q := by
  subst h5 h6
  rw [edge2_new_apply, ehat2_row x0 x1 x2 x3 x4 E GD GS WC BS p n h0 h1 h2 h3 h4,
    show (fun k => x0 (ix2 p k)) = fun k => E (ix2 n k) from funext h0]
  rfl

theorem pt2_8hi (x0 x1 : Vec Ideal S1024x128 .f32) (x2 : Vec Ideal S1024x256 .f32) (x3 : Vec Ideal S128x128 .f32) (x4 : Vec Ideal S1x128 .f32)
    (E : (⟨2, ![131072, 128]⟩ : Shape).Idx → EReal) (GD : (⟨2, ![131072, 256]⟩ : Shape).Idx → EReal) (GS : (⟨2, ![131072, 256]⟩ : Shape).Idx → EReal) (WC : S128x128.Idx → EReal) (BS : S1x128.Idx → EReal) (p : Fin 1024) (q : Fin 128) (n : Fin 131072)
    (h0 : ∀ k, x0 (ix2 p k) = E (ix2 n k)) (h1 : ∀ k, x1 (ix2 p k) = GD (ix2 n ⟨k.val, by omega⟩)) (h2 : ∀ k, x2 (ix2 p k) = GS (ix2 n k))
    (h3 : x3 = WC) (h4 : x4 = BS) :
    k2_pay2 (k2_pay5 x0 x2 x3 x1 x4) (ix2 p q) = Spec.gate (ehatArr (by omega : 128 ≤ 256) E GD GS WC BS n) q := by
  rw [edge2_gate_apply, ehat2_row x0 x1 x2 x3 x4 E GD GS WC BS p n h0 h1 h2 h3 h4]

theorem pt2_8lo (x0 x1 : Vec Ideal S1024x128 .f32) (x2 : Vec Ideal S1024x256 .f32) (x3 : Vec Ideal S128x128 .f32) (x4 : Vec Ideal S1x128 .f32)
    (E : (⟨2, ![131072, 128]⟩ : Shape).Idx → EReal) (GD : (⟨2, ![131072, 256]⟩ : Shape).Idx → EReal) (GS : (⟨2, ![131072, 256]⟩ : Shape).Idx → EReal) (WC : S128x128.Idx → EReal) (BS : S1x128.Idx → EReal) (p : Fin 1024) (q : Fin 128) (n : Fin 131072)
    (h0 : ∀ k, x0 (ix2 p k) = E (ix2 n k)) (h1 : ∀ k, x1 (ix2 p k) = GD (ix2 n ⟨k.val, by omega⟩)) (h2 : ∀ k, x2 (ix2 p k) = GS (ix2 n k))
    (h3 : x3 = WC) (h4 : x4 = BS) :
    k2_pay3 (k2_pay4 x2) (k2_pay5 x0 x2 x3 x1 x4) (ix2 p q)
      = Spec.gate (ehatArr (by omega : 128 ≤ 256) E GD GS WC BS n) q * GS (ix2 n ⟨q.val, by omega⟩) := by
  rw [edge2_msg_apply, ehat2_row x0 x1 x2 x3 x4 E GD GS WC BS p n h0 h1 h2 h3 h4, h2]
  exact congrArg (fun z => Spec.gate (ehatArr (by omega : 128 ≤ 256) E GD GS WC BS n) q * GS (ix2 n z)) (Fin.ext (Nat.zero_add _))

theorem flushed2_7 (c : Dev nD) (t : Fin cfg2.N) :
    (dat2 V c).flushed 7 t = ((cfg2.win 7).blk t).view.read (Elt Ideal) (G2_7 (V c main_arg2) (V c main_v18) (V c main_v25) (V c main_arg13) (V c main_v45) (V c main_arg17) (V c main_arg18)) := by
  show (cfg2.win 7).cut (grid2.coords t) ((dat2 V c).after 7 t) = _
  rw [after2_7]
  unfold out2_7
  rw [View.canon_unit_zero hz2]
  simp only [View.ld_unit_zero (S := S1024x128) hz2, View.ld_unit_zero (S := S1024x256) hz2, View.ld_unit_zero (S := S128x128) hz2, View.ld_unit_zero (S := S1x128) hz2]
  funext j
  obtain ⟨p, q, rfl⟩ : ∃ (p : Fin 1024) (q : Fin 128), j = ix2 p q := ⟨j 0, j 1, eq_ix2 j⟩
  show k2_pay1 (iblk2 V c 0 t) (k2_pay6 (iblk2 V c 0 t) (iblk2 V c 2 t) (iblk2 V c 3 t) (iblk2 V c 1 t) (iblk2 V c 4 t) (iblk2 V c 5 t) (iblk2 V c 6 t)) (k2_pay7 (iblk2 V c 0 t) (iblk2 V c 2 t) (iblk2 V c 3 t) (iblk2 V c 1 t) (iblk2 V c 4 t) (iblk2 V c 5 t) (iblk2 V c 6 t)) (ix2 p q)
      = G2_7 (V c main_arg2) (V c main_v18) (V c main_v25) (V c main_arg13) (V c main_v45) (V c main_arg17) (V c main_arg18) (((cfg2.win 7).blk t).view.emb (ix2 p q))
  refine (pt2_7 (iblk2 V c 0 t) (iblk2 V c 1 t) (iblk2 V c 2 t) (iblk2 V c 3 t) (iblk2 V c 4 t) (iblk2 V c 5 t) (iblk2 V c 6 t) (V c main_arg2) (V c main_v18) (V c main_v25) (V c main_arg13) (V c main_v45) (V c main_arg17) (V c main_arg18) p q
    ⟨t.val * 1024 + p.val, by have := t_lt2 t; omega⟩ (fun k => blk2_0 V c t p k) (fun k => blk2_1 V c t p k) (fun k => blk2_2 V c t p k) (blk2_3 V c t) (blk2_4 V c t) (blk2_5 V c t) (blk2_6 V c t)).trans ?_
  obtain ⟨-, -, -, -, -, -, -, -, -, -, -, -, -, -, e7_0, e7_1, -, -⟩ := idx2 t
  have hemb : ((cfg2.win 7).blk t).view.emb (ix2 p q) = ix2 ⟨t.val * 1024 + p.val, by have := t_lt2 t; omega⟩ q :=
    funext fun a => Fin.ext (by
      match a with
      | ⟨0, _⟩ => show win2_7.index t (0 : Fin 2) * 1024 + 1 * p.val = t.val * 1024 + p.val; omega
      | ⟨1, _⟩ => show win2_7.index t (1 : Fin 2) * 128 + 1 * q.val = q.val; omega)
  exact ((congrArg (G2_7 (V c main_arg2) (V c main_v18) (V c main_v25) (V c main_arg13) (V c main_v45) (V c main_arg17) (V c main_arg18)) hemb).trans rfl).symm

theorem flushed2_8 (c : Dev nD) (t : Fin cfg2.N) :
    (dat2 V c).flushed 8 t = ((cfg2.win 8).blk t).view.read (Elt Ideal) (G2_8 (V c main_arg2) (V c main_v18) (V c main_v25) (V c main_arg13) (V c main_v45)) := by
  show (cfg2.win 8).cut (grid2.coords t) ((dat2 V c).after 8 t) = _
  rw [after2_8]
  unfold out2_8
  simp only [View.ld_unit_zero (S := S1024x128) hz2, View.ld_unit_zero (S := S1024x256) hz2, View.ld_unit_zero (S := S128x128) hz2, View.ld_unit_zero (S := S1x128) hz2]
  funext j
  obtain ⟨p, l, rfl⟩ : ∃ (p : Fin 1024) (l : Fin 256), j = ix2 p l := ⟨j 0, j 1, eq_ix2 j⟩
  show View.canon (Val := Elt Ideal) (s := S1024x256) (e := .f32)
        [⟨r2_5, k2_pay2 (k2_pay5 (iblk2 V c 0 t) (iblk2 V c 2 t) (iblk2 V c 3 t) (iblk2 V c 1 t) (iblk2 V c 4 t))⟩, ⟨r2_4, k2_pay3 (k2_pay4 (iblk2 V c 2 t)) (k2_pay5 (iblk2 V c 0 t) (iblk2 V c 2 t) (iblk2 V c 3 t) (iblk2 V c 1 t) (iblk2 V c 4 t))⟩] (ix2 p l)
      = G2_8 (V c main_arg2) (V c main_v18) (V c main_v25) (V c main_arg13) (V c main_v45) (((cfg2.win 8).blk t).view.emb (ix2 p l))
  rw [canon_halves]
  obtain ⟨-, -, -, -, -, -, -, -, -, -, -, -, -, -, -, -, e8_0, e8_1⟩ := idx2 t
  have hemb : ((cfg2.win 8).blk t).view.emb (ix2 p l) = ix2 ⟨t.val * 1024 + p.val, by have := t_lt2 t; omega⟩ l :=
    funext fun a => Fin.ext (by
      match a with
      | ⟨0, _⟩ => show win2_8.index t (0 : Fin 2) * 1024 + 1 * p.val = t.val * 1024 + p.val; omega
      | ⟨1, _⟩ => show win2_8.index t (1 : Fin 2) * 256 + 1 * l.val = l.val; omega)
  refine Eq.trans ?_ ((congrArg (G2_8 (V c main_arg2) (V c main_v18) (V c main_v25) (V c main_arg13) (V c main_v45)) hemb).trans rfl).symm
  show _ = msAt (by omega : 128 ≤ 256) (V c main_arg2) (V c main_v18) (V c main_v25) (V c main_arg13) (V c main_v45) ⟨t.val * 1024 + p.val, by have := t_lt2 t; omega⟩ l
  unfold msAt
  by_cases h : l.val < 128
  · rw [dif_pos h, dif_pos h]
    exact pt2_8lo (iblk2 V c 0 t) (iblk2 V c 1 t) (iblk2 V c 2 t) (iblk2 V c 3 t) (iblk2 V c 4 t) (V c main_arg2) (V c main_v18) (V c main_v25) (V c main_arg13) (V c main_v45) p ⟨l.val, h⟩ _ (fun k => blk2_0 V c t p k) (fun k => blk2_1 V c t p k) (fun k => blk2_2 V c t p k) (blk2_3 V c t) (blk2_4 V c t)
  · rw [dif_neg h, dif_neg h]
    exact pt2_8hi (iblk2 V c 0 t) (iblk2 V c 1 t) (iblk2 V c 2 t) (iblk2 V c 3 t) (iblk2 V c 4 t) (V c main_arg2) (V c main_v18) (V c main_v25) (V c main_arg13) (V c main_v45) p ⟨l.val - 128, by omega⟩ _ (fun k => blk2_0 V c t p k) (fun k => blk2_1 V c t p k) (fun k => blk2_2 V c t p k) (blk2_3 V c t) (blk2_4 V c t)

/-- Membership in window 7's block at point `t`, coordinate by coordinate. -/
theorem mem_blk2_7 (t : Fin cfg2.N) (i : S131072x128.Idx) :
    i ∈ ((cfg2.win 7).blk t).view.set ↔ ∀ a : Fin 2, win2_7.index t a * S1024x128.size a ≤ (i a).val ∧ (i a).val < win2_7.index t a * S1024x128.size a + S1024x128.size a := by
  show i ∈ ((View.whole main_v46_0).slice (win2_7.rect t)).set ↔ _
  rw [View.set_slice_whole, Rect.mem_set_unit]
  exact Iff.rfl

/-- Every row of the array lies in the block of the point `row / 1024`. -/
theorem covered2_7 (i : S131072x128.Idx) : ∃ t : Fin cfg2.N, (cfg2.win 7).flush t = true ∧ i ∈ ((cfg2.win 7).blk t).view.set := by
  have hi0 : (i 0).val < 131072 := (i 0).isLt
  have hi1 : (i 1).val < 128 := (i 1).isLt
  have hN : cfg2.N = 128 := N_2
  let t : Fin cfg2.N := ⟨(i 0).val / 1024, by rw [hN]; omega⟩
  obtain ⟨-, -, -, -, -, -, -, -, -, -, -, -, -, -, e7_0, e7_1, -, -⟩ := idx2 t
  refine ⟨t, flush2_7 t, ?_⟩
  rw [mem_blk2_7]
  intro a
  match a with
  | ⟨0, _⟩ =>
    show win2_7.index t (0 : Fin 2) * 1024 ≤ (i 0).val ∧ (i 0).val < win2_7.index t (0 : Fin 2) * 1024 + 1024
    rw [e7_0]
    show (i 0).val / 1024 * 1024 ≤ (i 0).val ∧ (i 0).val < (i 0).val / 1024 * 1024 + 1024
    omega
  | ⟨1, _⟩ =>
    show win2_7.index t (1 : Fin 2) * 128 ≤ (i 1).val ∧ (i 1).val < win2_7.index t (1 : Fin 2) * 128 + 128
    omega

/-- Membership in window 8's block at point `t`, coordinate by coordinate. -/
theorem mem_blk2_8 (t : Fin cfg2.N) (i : S131072x256.Idx) :
    i ∈ ((cfg2.win 8).blk t).view.set ↔ ∀ a : Fin 2, win2_8.index t a * S1024x256.size a ≤ (i a).val ∧ (i a).val < win2_8.index t a * S1024x256.size a + S1024x256.size a := by
  show i ∈ ((View.whole main_v46_1).slice (win2_8.rect t)).set ↔ _
  rw [View.set_slice_whole, Rect.mem_set_unit]
  exact Iff.rfl

/-- Every row of the array lies in the block of the point `row / 1024`. -/
theorem covered2_8 (i : S131072x256.Idx) : ∃ t : Fin cfg2.N, (cfg2.win 8).flush t = true ∧ i ∈ ((cfg2.win 8).blk t).view.set := by
  have hi0 : (i 0).val < 131072 := (i 0).isLt
  have hi1 : (i 1).val < 256 := (i 1).isLt
  have hN : cfg2.N = 128 := N_2
  let t : Fin cfg2.N := ⟨(i 0).val / 1024, by rw [hN]; omega⟩
  obtain ⟨-, -, -, -, -, -, -, -, -, -, -, -, -, -, -, -, e8_0, e8_1⟩ := idx2 t
  refine ⟨t, flush2_8 t, ?_⟩
  rw [mem_blk2_8]
  intro a
  match a with
  | ⟨0, _⟩ =>
    show win2_8.index t (0 : Fin 2) * 1024 ≤ (i 0).val ∧ (i 0).val < win2_8.index t (0 : Fin 2) * 1024 + 1024
    rw [e8_0]
    show (i 0).val / 1024 * 1024 ≤ (i 0).val ∧ (i 0).val < (i 0).val / 1024 * 1024 + 1024
    omega
  | ⟨1, _⟩ =>
    show win2_8.index t (1 : Fin 2) * 256 ≤ (i 1).val ∧ (i 1).val < win2_8.index t (1 : Fin 2) * 256 + 256
    omega

/-- The arrays after the region. -/
theorem final2_7 (c : Dev nD) : (dat2 V c).arrAt 7 cfg2.N = G2_7 (V c main_arg2) (V c main_v18) (V c main_v25) (V c main_arg13) (V c main_v45) (V c main_arg17) (V c main_arg18) :=
  (dat2 V c).arrAt_eq_of_cover 7 _ (fun t _ => flushed2_7 V c t) covered2_7
theorem final2_8 (c : Dev nD) : (dat2 V c).arrAt 8 cfg2.N = G2_8 (V c main_arg2) (V c main_v18) (V c main_v25) (V c main_arg13) (V c main_v45) :=
  (dat2 V c).arrAt_eq_of_cover 8 _ (fun t _ => flushed2_8 V c t) covered2_8

end Region2

end Cert.KernelIdeal.Val

end
-- ==== Proof.KV.NodeUpd.lean ====
/-
  The node update kernels' stored value at an index: the node row plus the sigmoid-weighted layer
  normalisation of the self projection plus the gated aggregate (lanes 0–127 of the scatter-added array divided by
  its lanes 128–255 plus ε).
-/
import proofs.«117664_g2000706958607885_pallasbulk_534_41_alg».proof.Proof.KV.Common

noncomputable section

namespace Cert.KernelIdeal.Val

open Idealize.ShloMosaic Idealize.ShloMosaic.ValueIdx Cert.KernelIdeal Cert.KernelIdeal.Gen
open scoped BigOperators

/-- The self projection plus the gated aggregate, as a tile. -/
def aggTile (agg : FVec Ideal S1024x256 .f32) (hs : FVec Ideal S1024x128 .f32) : FVec Ideal S1024x128 .f32 :=
  addf (shapeCast S1024x128 hs shapeCasts_S1024x128_S1024x128)
    (divf (extractStridedSlice S1024x128 ![0, 0] (shapeCast S1024x256 agg shapeCasts_S1024x256_S1024x256) slices_S1024x256_o0_0_S1024x128)
      (addf (extractStridedSlice S1024x128 ![0, 128] (shapeCast S1024x256 agg shapeCasts_S1024x256_S1024x256) slices_S1024x256_o0_128_S1024x128)
        (broadcast S1024x128 (Scalar.ofBits .f32 0x3727C5AC#32))))

theorem aggTile_apply (agg : FVec Ideal S1024x256 .f32) (hs : FVec Ideal S1024x128 .f32) (r : Fin 1024) (q : Fin 128) :
    aggTile agg hs (ix2 r q)
      = Spec.nodeRow (fun k => hs (ix2 r k)) (fun k => agg (ix2 r ⟨0 + k.val, by omega⟩)) (fun k => agg (ix2 r ⟨128 + k.val, by omega⟩)) q := by
  unfold aggTile
  rw [addf_apply, divf_apply, addf_apply, shapeCast_self, shapeCast_self, slice2_axis1_eq, slice2_axis1_eq]
  rfl

/-- The node update of a tile: x + silu (LN (hs + num / (den + ε))). -/
def updTile (hr : S1024x128.Reduces [1] S1024) (hc : S1024.ShapeCasts S1024x1) (hb : S1024x1.Broadcasts S1024x128)
    (hg : S1x128.Broadcasts S1024x128) (agg : FVec Ideal S1024x256 .f32) (hs x : FVec Ideal S1024x128 .f32)
    (g b : FVec Ideal S1x128 .f32) : FVec Ideal S1024x128 .f32 :=
  addf x (mulf (lnTile hr hc hb hg (aggTile agg hs) g b) (logistic (lnTile hr hc hb hg (aggTile agg hs) g b)))

theorem updTile_apply (hr : S1024x128.Reduces [1] S1024) (hc : S1024.ShapeCasts S1024x1) (hb : S1024x1.Broadcasts S1024x128)
    (hg : S1x128.Broadcasts S1024x128) (agg : FVec Ideal S1024x256 .f32) (hs x : FVec Ideal S1024x128 .f32)
    (g b : FVec Ideal S1x128 .f32) (r : Fin 1024) (q : Fin 128) :
    updTile hr hc hb hg agg hs x g b (ix2 r q)
      = Spec.resid (fun k => x (ix2 r k))
          (Spec.nodeRow (fun k => hs (ix2 r k)) (fun k => agg (ix2 r ⟨0 + k.val, by omega⟩)) (fun k => agg (ix2 r ⟨128 + k.val, by omega⟩)))
          (fun k => g (ix2 (0 : Fin 1) k)) (fun k => b (ix2 (0 : Fin 1) k)) q := by
  have h : (fun k => aggTile agg hs (ix2 r k))
      = Spec.nodeRow (fun k => hs (ix2 r k)) (fun k => agg (ix2 r ⟨0 + k.val, by omega⟩)) (fun k => agg (ix2 r ⟨128 + k.val, by omega⟩)) :=
    funext fun k => aggTile_apply agg hs r k
  unfold updTile
  rw [addf_apply, mulf_apply, logistic_apply, lnTile_apply, h]
  rfl

/-! ## Region 3 -/

theorem k3_pay1_eq (agg : Vec Ideal S1024x256 .f32) (hs x : Vec Ideal S1024x128 .f32) (g b : Vec Ideal S1x128 .f32) :
    k3_pay1 agg hs x g b = updTile reduces_S1024x128_S1024 shapeCasts_S1024_S1024x1 broadcasts_S1024x1_S1024x128 broadcasts_S1x128_S1024x128 agg hs x g b := rfl

/-- The stored node rows at `(r, q)`. -/
theorem k3_pay1_apply (agg : Vec Ideal S1024x256 .f32) (hs x : Vec Ideal S1024x128 .f32) (g b : Vec Ideal S1x128 .f32) (r : Fin 1024) (q : Fin 128) :
    k3_pay1 agg hs x g b (ix2 r q)
      = Spec.resid (fun k => x (ix2 r k))
          (Spec.nodeRow (fun k => hs (ix2 r k)) (fun k => agg (ix2 r ⟨0 + k.val, by omega⟩)) (fun k => agg (ix2 r ⟨128 + k.val, by omega⟩)))
          (fun k => g (ix2 (0 : Fin 1) k)) (fun k => b (ix2 (0 : Fin 1) k)) q := by
  rw [k3_pay1_eq, updTile_apply]

/-! ## Region 6 -/

theorem k6_pay1_eq (agg : Vec Ideal S1024x256 .f32) (hs x : Vec Ideal S1024x128 .f32) (g b : Vec Ideal S1x128 .f32) :
    k6_pay1 agg hs x g b = updTile reduces_S1024x128_S1024 shapeCasts_S1024_S1024x1 broadcasts_S1024x1_S1024x128 broadcasts_S1x128_S1024x128 agg hs x g b := rfl

/-- The stored node rows at `(r, q)`. -/
theorem k6_pay1_apply (agg : Vec Ideal S1024x256 .f32) (hs x : Vec Ideal S1024x128 .f32) (g b : Vec Ideal S1x128 .f32) (r : Fin 1024) (q : Fin 128) :
    k6_pay1 agg hs x g b (ix2 r q)
      = Spec.resid (fun k => x (ix2 r k))
          (Spec.nodeRow (fun k => hs (ix2 r k)) (fun k => agg (ix2 r ⟨0 + k.val, by omega⟩)) (fun k => agg (ix2 r ⟨128 + k.val, by omega⟩)))
          (fun k => g (ix2 (0 : Fin 1) k)) (fun k => b (ix2 (0 : Fin 1) k)) q := by
  rw [k6_pay1_eq, updTile_apply]

/-! ## Region 9 -/

theorem k9_pay1_eq (agg : Vec Ideal S1024x256 .f32) (hs x : Vec Ideal S1024x128 .f32) (g b : Vec Ideal S1x128 .f32) :
    k9_pay1 agg hs x g b = updTile reduces_S1024x128_S1024 shapeCasts_S1024_S1024x1 broadcasts_S1024x1_S1024x128 broadcasts_S1x128_S1024x128 agg hs (shapeCast S1024x128 x shapeCasts_S1024x128_S1024x128) g b := rfl

/-- The stored node rows at `(r, q)`. -/
theorem k9_pay1_apply (agg : Vec Ideal S1024x256 .f32) (hs x : Vec Ideal S1024x128 .f32) (g b : Vec Ideal S1x128 .f32) (r : Fin 1024) (q : Fin 128) :
    k9_pay1 agg hs x g b (ix2 r q)
      = Spec.resid (fun k => x (ix2 r k))
          (Spec.nodeRow (fun k => hs (ix2 r k)) (fun k => agg (ix2 r ⟨0 + k.val, by omega⟩)) (fun k => agg (ix2 r ⟨128 + k.val, by omega⟩)))
          (fun k => g (ix2 (0 : Fin 1) k)) (fun k => b (ix2 (0 : Fin 1) k)) q := by
  rw [k9_pay1_eq, shapeCast_self, updTile_apply]

/-! ## Region 11 -/

theorem k11_pay1_eq (agg : Vec Ideal S1024x256 .f32) (hs x : Vec Ideal S1024x128 .f32) (g b : Vec Ideal S1x128 .f32) :
    k11_pay1 agg hs x g b = updTile reduces_S1024x128_S1024 shapeCasts_S1024_S1024x1 broadcasts_S1024x1_S1024x128 broadcasts_S1x128_S1024x128 agg hs (shapeCast S1024x128 x shapeCasts_S1024x128_S1024x128) g b := rfl

/-- The stored node rows at `(r, q)`. -/
theorem k11_pay1_apply (agg : Vec Ideal S1024x256 .f32) (hs x : Vec Ideal S1024x128 .f32) (g b : Vec Ideal S1x128 .f32) (r : Fin 1024) (q : Fin 128) :
    k11_pay1 agg hs x g b (ix2 r q)
      = Spec.resid (fun k => x (ix2 r k))
          (Spec.nodeRow (fun k => hs (ix2 r k)) (fun k => agg (ix2 r ⟨0 + k.val, by omega⟩)) (fun k => agg (ix2 r ⟨128 + k.val, by omega⟩)))
          (fun k => g (ix2 (0 : Fin 1) k)) (fun k => b (ix2 (0 : Fin 1) k)) q := by
  rw [k11_pay1_eq, shapeCast_self, updTile_apply]

end Cert.KernelIdeal.Val

end
-- ==== Proof.KV.Fin3.lean ====
/-
  Region 3 (a node update): the output array after the region as one function of the region's input arrays,
  index by index.
-/
import proofs.«117664_g2000706958607885_pallasbulk_534_41_alg».proof.Proof.KI.Half3
import proofs.«117664_g2000706958607885_pallasbulk_534_41_alg».proof.Proof.KV.NodeUpd
import proofs.«117664_g2000706958607885_pallasbulk_534_41_alg».proof.Proof.KV.FinCommon
import Idealize.ShloMosaic.Lib.Pipeline.Value

set_option maxRecDepth 16384

noncomputable section

namespace Cert.KernelIdeal.Val

open Cert.KernelIdeal Cert.KernelIdeal.Gen Cert.KernelIdeal.Fr
open Idealize.ShloMosaic Idealize.ShloMosaic.ValueIdx Idealize.ShloMosaic.TcCoe Idealize.SL.Sem
open Idealize.ShloMosaic.Pipeline (Dat)
open scoped BigOperators

section Region3
variable (V : (c : Dev nD) → (b : Ref sig .tc) → Buf (Elt Ideal) ((c : Thread nD τ).loc b))

/-- The printed index maps over the grid: a row window's block index is the grid point, a whole window's is zero. -/
theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

theorem t_lt3 (t : Fin cfg3.N) : t.val < 64 := lt_of_lt_of_eq t.isLt N_3

/-- Row `p` of window 0's block at point `t` is row `t · 1024 + p` of its array. -/
theorem blk3_0 (c : Dev nD) (t : Fin cfg3.N) (p : Fin 1024) (k : Fin 128) :
    iblk3 V c 0 t (ix2 p k) = V c main_arg1 (ix2 ⟨t.val * 1024 + p.val, by have := t_lt3 t; omega⟩ k) := by
  show V c main_arg1 (((cfg3.win 0).blk t).view.emb (ix2 p k)) = _
  refine congrArg (V c main_arg1) (funext fun a => Fin.ext ?_)
  obtain ⟨e0_0, e0_1, -, -, -, -, -, -, -, -, -, -⟩ := idx3 t
  match a with
  | ⟨0, _⟩ => show win3_0.index t (0 : Fin 2) * 1024 + 1 * p.val = t.val * 1024 + p.val; omega
  | ⟨1, _⟩ => show win3_0.index t (1 : Fin 2) * 128 + 1 * k.val = k.val; omega

/-- Row `p` of window 1's block at point `t` is row `t · 1024 + p` of its array. -/
theorem blk3_1 (c : Dev nD) (t : Fin cfg3.N) (p : Fin 1024) (k : Fin 128) :
    iblk3 V c 1 t (ix2 p k) = V c main_v11_0 (ix2 ⟨t.val * 1024 + p.val, by have := t_lt3 t; omega⟩ k) := by
  show V c main_v11_0 (((cfg3.win 1).blk t).view.emb (ix2 p k)) = _
  refine congrArg (V c main_v11_0) (funext fun a => Fin.ext ?_)
  obtain ⟨-, -, e1_0, e1_1, -, -, -, -, -, -, -, -⟩ := idx3 t
  match a with
  | ⟨0, _⟩ => show win3_1.index t (0 : Fin 2) * 1024 + 1 * p.val = t.val * 1024 + p.val; omega
  | ⟨1, _⟩ => show win3_1.index t (1 : Fin 2) * 128 + 1 * k.val = k.val; omega

/-- Row `p` of window 2's block at point `t` is row `t · 1024 + p` of its array. -/
theorem blk3_2 (c : Dev nD) (t : Fin cfg3.N) (p : Fin 1024) (k : Fin 256) :
    iblk3 V c 2 t (ix2 p k) = V c main_v49 (ix2 ⟨t.val * 1024 + p.val, by have := t_lt3 t; omega⟩ k) := by
  show V c main_v49 (((cfg3.win 2).blk t).view.emb (ix2 p k)) = _
  refine congrArg (V c main_v49) (funext fun a => Fin.ext ?_)
  obtain ⟨-, -, -, -, e2_0, e2_1, -, -, -, -, -, -⟩ := idx3 t
  match a with
  | ⟨0, _⟩ => show win3_2.index t (0 : Fin 2) * 1024 + 1 * p.val = t.val * 1024 + p.val; omega
  | ⟨1, _⟩ => show win3_2.index t (1 : Fin 2) * 256 + 1 * k.val = k.val; omega

/-- Window 3's block is its whole array. -/
theorem blk3_3 (c : Dev nD) (t : Fin cfg3.N) : iblk3 V c 3 t = V c main_arg15 := by
  funext j
  show V c main_arg15 (((cfg3.win 3).blk t).view.emb j) = V c main_arg15 j
  refine congrArg (V c main_arg15) (funext fun a => Fin.ext ?_)
  obtain ⟨-, -, -, -, -, -, e3_0, e3_1, -, -, -, -⟩ := idx3 t
  match a with
  | ⟨0, _⟩ => show win3_3.index t (0 : Fin 2) * 1 + 1 * (j 0).val = (j 0).val; omega
  | ⟨1, _⟩ => show win3_3.index t (1 : Fin 2) * 128 + 1 * (j 1).val = (j 1).val; omega

/-- Window 4's block is its whole array. -/
theorem blk3_4 (c : Dev nD) (t : Fin cfg3.N) : iblk3 V c 4 t = V c main_arg16 := by
  funext j
  show V c main_arg16 (((cfg3.win 4).blk t).view.emb j) = V c main_arg16 j
  refine congrArg (V c main_arg16) (funext fun a => Fin.ext ?_)
  obtain ⟨-, -, -, -, -, -, -, -, e4_0, e4_1, -, -⟩ := idx3 t
  match a with
  | ⟨0, _⟩ => show win3_4.index t (0 : Fin 2) * 1 + 1 * (j 0).val = (j 0).val; omega
  | ⟨1, _⟩ => show win3_4.index t (1 : Fin 2) * 128 + 1 * (j 1).val = (j 1).val; omega

/-- Window 5's array after region 3. -/
def G3_5 (X HS : (⟨2, ![65536, 128]⟩ : Shape).Idx → EReal) (AGG : (⟨2, ![65536, 256]⟩ : Shape).Idx → EReal) (Gm Bt : S1x128.Idx → EReal) : S65536x128.Idx → EReal :=
  fun i => updAt X HS AGG Gm Bt ⟨(i 0).val, idx2_lt0 i⟩ ⟨(i 1).val, idx2_lt1 i⟩

theorem pt3_5 (x0 x1 : Vec Ideal S1024x128 .f32) (x2 : Vec Ideal S1024x256 .f32) (x3 x4 : Vec Ideal S1x128 .f32)
    (X HS : (⟨2, ![65536, 128]⟩ : Shape).Idx → EReal) (AGG : (⟨2, ![65536, 256]⟩ : Shape).Idx → EReal) (Gm Bt : S1x128.Idx → EReal) (p : Fin 1024) (q : Fin 128) (n : Fin 65536)
    (h0 : ∀ k, x0 (ix2 p k) = X (ix2 n k)) (h1 : ∀ k, x1 (ix2 p k) = HS (ix2 n k)) (h2 : ∀ k, x2 (ix2 p k) = AGG (ix2 n k))
    (h3 : x3 = Gm) (h4 : x4 = Bt) :
    k3_pay1 x2 x1 x0 x3 x4 (ix2 p q) = updAt X HS AGG Gm Bt n q := by
  subst h3 h4
  rw [k3_pay1_apply]
  unfold updAt
  rw [show (fun k => x0 (ix2 p k)) = fun k => X (ix2 n k) from funext h0,
    show (fun k => x1 (ix2 p k)) = fun k => HS (ix2 n k) from funext h1,
    show (fun k : Fin 128 => x2 (ix2 p ⟨0 + k.val, by omega⟩)) = fun k => AGG (ix2 n ⟨k.val, by omega⟩) from
      funext fun k => (h2 _).trans (congrArg AGG (congrArg (ix2 n) (Fin.ext (Nat.zero_add _)))),
    show (fun k : Fin 128 => x2 (ix2 p ⟨128 + k.val, by omega⟩)) = fun k => AGG (ix2 n ⟨128 + k.val, by omega⟩) from
      funext fun k => h2 _]

theorem flushed3_5 (c : Dev nD) (t : Fin cfg3.N) :
    (dat3 V c).flushed 5 t = ((cfg3.win 5).blk t).view.read (Elt Ideal) (G3_5 (V c main_arg1) (V c main_v11_0) (V c main_v49) (V c main_arg15) (V c main_arg16)) := by
  show (cfg3.win 5).cut (grid3.coords t) ((dat3 V c).after 5 t) = _
  rw [after3_5]
  unfold out3_5
  rw [View.canon_unit_zero hz2]
  simp only [View.ld_unit_zero (S := S1024x128) hz2, View.ld_unit_zero (S := S1024x256) hz2, View.ld_unit_zero (S := S1x128) hz2]
  funext j
  obtain ⟨p, q, rfl⟩ : ∃ (p : Fin 1024) (q : Fin 128), j = ix2 p q := ⟨j 0, j 1, eq_ix2 j⟩
  show k3_pay1 (iblk3 V c 2 t) (iblk3 V c 1 t) (iblk3 V c 0 t) (iblk3 V c 3 t) (iblk3 V c 4 t) (ix2 p q)
      = G3_5 (V c main_arg1) (V c main_v11_0) (V c main_v49) (V c main_arg15) (V c main_arg16) (((cfg3.win 5).blk t).view.emb (ix2 p q))
  refine (pt3_5 (iblk3 V c 0 t) (iblk3 V c 1 t) (iblk3 V c 2 t) (iblk3 V c 3 t) (iblk3 V c 4 t) (V c main_arg1) (V c main_v11_0) (V c main_v49) (V c main_arg15) (V c main_arg16) p q
    ⟨t.val * 1024 + p.val, by have := t_lt3 t; omega⟩ (fun k => blk3_0 V c t p k) (fun k => blk3_1 V c t p k)
    (fun k => blk3_2 V c t p k) (blk3_3 V c t) (blk3_4 V c t)).trans ?_
  obtain ⟨-, -, -, -, -, -, -, -, -, -, e5_0, e5_1⟩ := idx3 t
  have hemb : ((cfg3.win 5).blk t).view.emb (ix2 p q) = ix2 ⟨t.val * 1024 + p.val, by have := t_lt3 t; omega⟩ q :=
    funext fun a => Fin.ext (by
      match a with
      | ⟨0, _⟩ => show win3_5.index t (0 : Fin 2) * 1024 + 1 * p.val = t.val * 1024 + p.val; omega
      | ⟨1, _⟩ => show win3_5.index t (1 : Fin 2) * 128 + 1 * q.val = q.val; omega)
  exact ((congrArg (G3_5 (V c main_arg1) (V c main_v11_0) (V c main_v49) (V c main_arg15) (V c main_arg16)) hemb).trans rfl).symm

/-- Membership in window 5's block at point `t`, coordinate by coordinate. -/
theorem mem_blk3_5 (t : Fin cfg3.N) (i : S65536x128.Idx) :
    i ∈ ((cfg3.win 5).blk t).view.set ↔ ∀ a : Fin 2, win3_5.index t a * S1024x128.size a ≤ (i a).val ∧ (i a).val < win3_5.index t a * S1024x128.size a + S1024x128.size a := by
  show i ∈ ((View.whole main_v50).slice (win3_5.rect t)).set ↔ _
  rw [View.set_slice_whole, Rect.mem_set_unit]
  exact Iff.rfl

/-- Every row of the array lies in the block of the point `row / 1024`. -/
theorem covered3_5 (i : S65536x128.Idx) : ∃ t : Fin cfg3.N, (cfg3.win 5).flush t = true ∧ i ∈ ((cfg3.win 5).blk t).view.set := by
  have hi0 : (i 0).val < 65536 := (i 0).isLt
  have hi1 : (i 1).val < 128 := (i 1).isLt
  have hN : cfg3.N = 64 := N_3
  let t : Fin cfg3.N := ⟨(i 0).val / 1024, by rw [hN]; omega⟩
  obtain ⟨-, -, -, -, -, -, -, -, -, -, e5_0, e5_1⟩ := idx3 t
  refine ⟨t, flush3_5 t, ?_⟩
  rw [mem_blk3_5]
  intro a
  match a with
  | ⟨0, _⟩ =>
    show win3_5.index t (0 : Fin 2) * 1024 ≤ (i 0).val ∧ (i 0).val < win3_5.index t (0 : Fin 2) * 1024 + 1024
    rw [e5_0]
    show (i 0).val / 1024 * 1024 ≤ (i 0).val ∧ (i 0).val < (i 0).val / 1024 * 1024 + 1024
    omega
  | ⟨1, _⟩ =>
    show win3_5.index t (1 : Fin 2) * 128 ≤ (i 1).val ∧ (i 1).val < win3_5.index t (1 : Fin 2) * 128 + 128
    omega

/-- The array after the region. -/
theorem final3_5 (c : Dev nD) : (dat3 V c).arrAt 5 cfg3.N = G3_5 (V c main_arg1) (V c main_v11_0) (V c main_v49) (V c main_arg15) (V c main_arg16) :=
  (dat3 V c).arrAt_eq_of_cover 5 _ (fun t _ => flushed3_5 V c t) covered3_5

end Region3

end Cert.KernelIdeal.Val

end
-- ==== Proof.KV.Host1to5.lean ====
/-
  The second to sixth host stretches, for any contents X of the buffers at the start of each: the gathers of
  projected node rows at the destination and source indices (row t of the result is the source's row at the
  index of t, for an index that is a valid row number), the concatenated weights and biases of the next
  layer read at a lane, the sum of the three edge biases, and the scatter-add of the message rows over the
  destination indices read as a sum over the edges sent to a node; and every buffer a stretch does not
  write keeps its contents.
-/
import proofs.«117664_g2000706958607885_pallasbulk_534_41_alg».proof.Proof.KV.HostLib

set_option maxRecDepth 1876

noncomputable section

namespace Cert.KernelIdeal.Val

open Idealize.ShloMosaic Idealize.ShloMosaic.ValueIdx Idealize.ShloMosaic.TcCoe
open Cert.KernelIdeal Cert.KernelIdeal.Gen Cert.HostRead
open scoped BigOperators

variable (X : Valuation τ sig (Elt Ideal))

/-! ## Host stretch 1 -/

/-- The buffer is the gather of rows at the index vector, its negative entries wrapped by 65536. -/
theorem host1_v18_term :
    StableHlo.after (hostOps1 (F := Ideal)) X (Proc.devRef .tc main_v18)
      = Host.gather gather_S65536x256_S131072x1_S131072x256_1_0_n_n_0_1_1256 (X (Proc.devRef .tc main_v11_1))
          (broadcastInDim S131072x1 ![0] bcast_S131072_S131072x1_0
            (select (cmpi .slt (X (Proc.devRef .tc main_v3)) (broadcastInDim S131072 ![] bcast_S_S131072 (constantI S_ 32 0#32)))
              (addi (X (Proc.devRef .tc main_v3)) (broadcastInDim S131072 ![] bcast_S_S131072 (constantI S_ 32 65536#32)))
              (X (Proc.devRef .tc main_v3)))) := by
  after_results_simp <;> rfl

/-- Row t of the buffer is row d of the source, where d is the index of t. -/
theorem host1_v18 (t : Fin 131072) (q : Fin 256) (d : Fin 65536) (hd : (X main_v3 (ix1 t)).toInt = (d.val : Int)) :
    StableHlo.after hostOps1 X main_v18 (ix2 t q) = X main_v11_1 (ix2 d q) := by
  rw [host1_v18_term]
  exact wrapped_gather_apply (N := 65536) (C := 256) (E := 131072) gather_S65536x256_S131072x1_S131072x256_1_0_n_n_0_1_1256_wf
    _ _ _ _ _ (fun _ => rfl) t q d hd

/-- The buffer is the gather of rows at the index vector, its negative entries wrapped by 65536. -/
theorem host1_v25_term :
    StableHlo.after (hostOps1 (F := Ideal)) X (Proc.devRef .tc main_v25)
      = Host.gather gather_S65536x256_S131072x1_S131072x256_1_0_n_n_0_1_1256 (X (Proc.devRef .tc main_v11_2))
          (broadcastInDim S131072x1 ![0] bcast_S131072_S131072x1_0
            (select (cmpi .slt (X (Proc.devRef .tc main_v1)) (broadcastInDim S131072 ![] bcast_S_S131072 (constantI S_ 32 0#32)))
              (addi (X (Proc.devRef .tc main_v1)) (broadcastInDim S131072 ![] bcast_S_S131072 (constantI S_ 32 65536#32)))
              (X (Proc.devRef .tc main_v1)))) := by
  after_results_simp <;> rfl

/-- Row t of the buffer is row d of the source, where d is the index of t. -/
theorem host1_v25 (t : Fin 131072) (q : Fin 256) (d : Fin 65536) (hd : (X main_v1 (ix1 t)).toInt = (d.val : Int)) :
    StableHlo.after hostOps1 X main_v25 (ix2 t q) = X main_v11_2 (ix2 d q) := by
  rw [host1_v25_term]
  exact wrapped_gather_apply (N := 65536) (C := 256) (E := 131072) gather_S65536x256_S131072x1_S131072x256_1_0_n_n_0_1_1256_wf
    _ _ _ _ _ (fun _ => rfl) t q d hd

/-- The buffer is the four 128 × 128 matrices side by side. -/
theorem host1_v26_term :
    StableHlo.after (hostOps1 (F := Ideal)) X (Proc.devRef .tc main_v26)
      = concatenate S128x512 1 [⟨S128x128, (X (Proc.devRef .tc main_arg33))⟩, ⟨S128x128, (X (Proc.devRef .tc main_arg35))⟩,
          ⟨S128x128, (X (Proc.devRef .tc main_arg39))⟩, ⟨S128x128, (X (Proc.devRef .tc main_arg37))⟩]
          concatenates_S128x128_S128x128_S128x128_S128x128_S128x512_d1 := by
  after_results_simp <;> rfl

theorem host1_v26_0 (k : Fin 128) (q : Fin 128) :
    StableHlo.after hostOps1 X main_v26 (ix2 k ⟨0 + q.val, by omega⟩) = X main_arg33 (ix2 k q) := by
  rw [host1_v26_term]
  exact concat4_lane0 (R := 128) _ _ _ _ _ k q

theorem host1_v26_1 (k : Fin 128) (q : Fin 128) :
    StableHlo.after hostOps1 X main_v26 (ix2 k ⟨128 + q.val, by omega⟩) = X main_arg35 (ix2 k q) := by
  rw [host1_v26_term]
  exact concat4_lane1 (R := 128) _ _ _ _ _ k q

theorem host1_v26_2 (k : Fin 128) (q : Fin 128) :
    StableHlo.after hostOps1 X main_v26 (ix2 k ⟨256 + q.val, by omega⟩) = X main_arg39 (ix2 k q) := by
  rw [host1_v26_term]
  exact concat4_lane2 (R := 128) _ _ _ _ _ k q

theorem host1_v26_3 (k : Fin 128) (q : Fin 128) :
    StableHlo.after hostOps1 X main_v26 (ix2 k ⟨384 + q.val, by omega⟩) = X main_arg37 (ix2 k q) := by
  rw [host1_v26_term]
  exact concat4_lane3 (R := 128) _ _ _ _ _ k q

/-- The buffer is two 1 × 128 rows followed by two rows of the literal zero. -/
theorem host1_v28_term :
    StableHlo.after (hostOps1 (F := Ideal)) X (Proc.devRef .tc main_v28)
      = concatenate S1x512 1 [⟨S1x128, (X (Proc.devRef .tc main_arg34))⟩, ⟨S1x128, (X (Proc.devRef .tc main_arg36))⟩,
          ⟨S1x128, broadcastInDim S1x128 ![] bcast_S_S1x128 (constant (F := Ideal) S_ .f32 0x00000000#32)⟩,
          ⟨S1x128, broadcastInDim S1x128 ![] bcast_S_S1x128 (constant (F := Ideal) S_ .f32 0x00000000#32)⟩]
          concatenates_S1x128_S1x128_S1x128_S1x128_S1x512_d1 := by
  after_results_simp <;> rfl

theorem host1_v28_0 (q : Fin 128) :
    StableHlo.after hostOps1 X main_v28 (ix2 (0 : Fin 1) ⟨0 + q.val, by omega⟩) = X main_arg34 (ix2 (0 : Fin 1) q) := by
  rw [host1_v28_term]
  exact concat4_lane0 (R := 1) _ _ _ _ _ 0 q

theorem host1_v28_1 (q : Fin 128) :
    StableHlo.after hostOps1 X main_v28 (ix2 (0 : Fin 1) ⟨128 + q.val, by omega⟩) = X main_arg36 (ix2 (0 : Fin 1) q) := by
  rw [host1_v28_term]
  exact concat4_lane1 (R := 1) _ _ _ _ _ 0 q

theorem host1_v28_2 (q : Fin 128) :
    StableHlo.after hostOps1 X main_v28 (ix2 (0 : Fin 1) ⟨256 + q.val, by omega⟩) = Cert.Spec.cZero := by
  rw [host1_v28_term]
  exact concat4_lane2 (R := 1) _ _ _ _ _ 0 q

theorem host1_v28_3 (q : Fin 128) :
    StableHlo.after hostOps1 X main_v28 (ix2 (0 : Fin 1) ⟨384 + q.val, by omega⟩) = Cert.Spec.cZero := by
  rw [host1_v28_term]
  exact concat4_lane3 (R := 1) _ _ _ _ _ 0 q

/-- A buffer the stretch does not write keeps its contents. -/
theorem host1_keep (b : DevRef τ sig) (hb : b ∉ (hostOps1_W.map (Proc.devRef (τ := τ) .tc)).toFinset) :
    StableHlo.after hostOps1 X b = X b :=
  StableHlo.after_of_forall_not_mem _ X fun op hop hb' => hb (List.forall_iff_forall_mem.mp hostOps1_writes op hop hb')

/-! ## Host stretch 2 -/

/-- The buffer is the gather of rows at the index vector, its negative entries wrapped by 16384. -/
theorem host2_v36_term :
    StableHlo.after (hostOps2 (F := Ideal)) X (Proc.devRef .tc main_v36)
      = Host.gather gather_S16384x128_S65536x1_S65536x128_1_0_n_n_0_1_1128 (X (Proc.devRef .tc main_v29_1))
          (broadcastInDim S65536x1 ![0] bcast_S65536_S65536x1_0
            (select (cmpi .slt (X (Proc.devRef .tc main_v7)) (broadcastInDim S65536 ![] bcast_S_S65536 (constantI S_ 32 0#32)))
              (addi (X (Proc.devRef .tc main_v7)) (broadcastInDim S65536 ![] bcast_S_S65536 (constantI S_ 32 16384#32)))
              (X (Proc.devRef .tc main_v7)))) := by
  after_results_simp <;> rfl

/-- Row t of the buffer is row d of the source, where d is the index of t. -/
theorem host2_v36 (t : Fin 65536) (q : Fin 128) (d : Fin 16384) (hd : (X main_v7 (ix1 t)).toInt = (d.val : Int)) :
    StableHlo.after hostOps2 X main_v36 (ix2 t q) = X main_v29_1 (ix2 d q) := by
  rw [host2_v36_term]
  exact wrapped_gather_apply (N := 16384) (C := 128) (E := 65536) gather_S16384x128_S65536x1_S65536x128_1_0_n_n_0_1_1128_wf
    _ _ _ _ _ (fun _ => rfl) t q d hd

/-- The buffer is the gather of rows at the index vector, its negative entries wrapped by 16384. -/
theorem host2_v43_term :
    StableHlo.after (hostOps2 (F := Ideal)) X (Proc.devRef .tc main_v43)
      = Host.gather gather_S16384x256_S65536x1_S65536x256_1_0_n_n_0_1_1256 (X (Proc.devRef .tc main_v29_2))
          (broadcastInDim S65536x1 ![0] bcast_S65536_S65536x1_0
            (select (cmpi .slt (X (Proc.devRef .tc main_v5)) (broadcastInDim S65536 ![] bcast_S_S65536 (constantI S_ 32 0#32)))
              (addi (X (Proc.devRef .tc main_v5)) (broadcastInDim S65536 ![] bcast_S_S65536 (constantI S_ 32 16384#32)))
              (X (Proc.devRef .tc main_v5)))) := by
  after_results_simp <;> rfl

/-- Row t of the buffer is row d of the source, where d is the index of t. -/
theorem host2_v43 (t : Fin 65536) (q : Fin 256) (d : Fin 16384) (hd : (X main_v5 (ix1 t)).toInt = (d.val : Int)) :
    StableHlo.after hostOps2 X main_v43 (ix2 t q) = X main_v29_2 (ix2 d q) := by
  rw [host2_v43_term]
  exact wrapped_gather_apply (N := 16384) (C := 256) (E := 65536) gather_S16384x256_S65536x1_S65536x256_1_0_n_n_0_1_1256_wf
    _ _ _ _ _ (fun _ => rfl) t q d hd

/-- The buffer is the sum of the three bias rows, added in this order. -/
theorem host2_v45_term :
    StableHlo.after (hostOps2 (F := Ideal)) X (Proc.devRef .tc main_v45)
      = (addf (addf (X (Proc.devRef .tc main_arg10)) (X (Proc.devRef .tc main_arg12))) (X (Proc.devRef .tc main_arg14)) : FVec Ideal S1x128 .f32) := by
  after_results_simp <;> rfl

theorem host2_v45 (q : Fin 128) :
    StableHlo.after hostOps2 X main_v45 (ix2 (0 : Fin 1) q)
      = asReal (s := S1x128) (X main_arg10) (ix2 (0 : Fin 1) q) + asReal (s := S1x128) (X main_arg12) (ix2 (0 : Fin 1) q) + asReal (s := S1x128) (X main_arg14) (ix2 (0 : Fin 1) q) := by
  rw [host2_v45_term]
  rfl

/-- A buffer the stretch does not write keeps its contents. -/
theorem host2_keep (b : DevRef τ sig) (hb : b ∉ (hostOps2_W.map (Proc.devRef (τ := τ) .tc)).toFinset) :
    StableHlo.after hostOps2 X b = X b :=
  StableHlo.after_of_forall_not_mem _ X fun op hop hb' => hb (List.forall_iff_forall_mem.mp hostOps2_writes op hop hb')

/-! ## Host stretch 3 -/

/-- The buffer is the scatter-add of the update rows into a zero array at the index vector. -/
theorem host3_v49_term :
    StableHlo.after (hostOps3 (F := Ideal)) X (Proc.devRef .tc main_v49)
      = Host.scatterAdd scatter_S65536x256_S131072x1_S131072x256_1_0_0_1
          (broadcastInDim S65536x256 ![] bcast_S_S65536x256 (constant (F := Ideal) S_ .f32 0x00000000#32))
          (broadcastInDim S131072x1 ![0] bcast_S131072_S131072x1_0 (X (Proc.devRef .tc main_v3)))
          (X (Proc.devRef .tc main_v46_1)) := by
  after_results_simp <;> rfl

/-- At (n, q) the buffer is the literal zero plus the sum of the update rows whose index is n, at lane q. -/
theorem host3_v49 (dst : Fin 131072 → Fin 65536) (hdst : ∀ t, (X main_v3 (ix1 t)).toInt = ((dst t).val : Int))
    (n : Fin 65536) (q : Fin 256) :
    StableHlo.after hostOps3 X main_v49 (ix2 n q)
      = Cert.Spec.cZero + ∑ t : Fin 131072, if dst t = n then asReal (s := S131072x256) (X main_v46_1) (ix2 t q) else 0 := by
  rw [host3_v49_term]
  exact col_scatterAdd_zero_apply (N := 65536) (C := 256) (E := 131072) scatter_S65536x256_S131072x1_S131072x256_1_0_0_1_wf
    _ _ _ _ dst hdst Cert.Spec.cZero (fun _ => rfl) n q

/-- A buffer the stretch does not write keeps its contents. -/
theorem host3_keep (b : DevRef τ sig) (hb : b ∉ (hostOps3_W.map (Proc.devRef (τ := τ) .tc)).toFinset) :
    StableHlo.after hostOps3 X b = X b :=
  StableHlo.after_of_forall_not_mem _ X fun op hop hb' => hb (List.forall_iff_forall_mem.mp hostOps3_writes op hop hb')

/-! ## Host stretch 4 -/

/-- The buffer is the sum of the three bias rows, added in this order. -/
theorem host4_v52_term :
    StableHlo.after (hostOps4 (F := Ideal)) X (Proc.devRef .tc main_v52)
      = (addf (addf (X (Proc.devRef .tc main_arg38)) (X (Proc.devRef .tc main_arg40))) (X (Proc.devRef .tc main_arg42)) : FVec Ideal S1x128 .f32) := by
  after_results_simp <;> rfl

theorem host4_v52 (q : Fin 128) :
    StableHlo.after hostOps4 X main_v52 (ix2 (0 : Fin 1) q)
      = asReal (s := S1x128) (X main_arg38) (ix2 (0 : Fin 1) q) + asReal (s := S1x128) (X main_arg40) (ix2 (0 : Fin 1) q) + asReal (s := S1x128) (X main_arg42) (ix2 (0 : Fin 1) q) := by
  rw [host4_v52_term]
  rfl

/-- A buffer the stretch does not write keeps its contents. -/
theorem host4_keep (b : DevRef τ sig) (hb : b ∉ (hostOps4_W.map (Proc.devRef (τ := τ) .tc)).toFinset) :
    StableHlo.after hostOps4 X b = X b :=
  StableHlo.after_of_forall_not_mem _ X fun op hop hb' => hb (List.forall_iff_forall_mem.mp hostOps4_writes op hop hb')

/-! ## Host stretch 5 -/

/-- The buffer is the four 128 × 128 matrices side by side. -/
theorem host5_v54_term :
    StableHlo.after (hostOps5 (F := Ideal)) X (Proc.devRef .tc main_v54)
      = concatenate S128x512 1 [⟨S128x128, (X (Proc.devRef .tc main_arg19))⟩, ⟨S128x128, (X (Proc.devRef .tc main_arg21))⟩,
          ⟨S128x128, (X (Proc.devRef .tc main_arg25))⟩, ⟨S128x128, (X (Proc.devRef .tc main_arg23))⟩]
          concatenates_S128x128_S128x128_S128x128_S128x128_S128x512_d1 := by
  after_results_simp <;> rfl

theorem host5_v54_0 (k : Fin 128) (q : Fin 128) :
    StableHlo.after hostOps5 X main_v54 (ix2 k ⟨0 + q.val, by omega⟩) = X main_arg19 (ix2 k q) := by
  rw [host5_v54_term]
  exact concat4_lane0 (R := 128) _ _ _ _ _ k q

theorem host5_v54_1 (k : Fin 128) (q : Fin 128) :
    StableHlo.after hostOps5 X main_v54 (ix2 k ⟨128 + q.val, by omega⟩) = X main_arg21 (ix2 k q) := by
  rw [host5_v54_term]
  exact concat4_lane1 (R := 128) _ _ _ _ _ k q

theorem host5_v54_2 (k : Fin 128) (q : Fin 128) :
    StableHlo.after hostOps5 X main_v54 (ix2 k ⟨256 + q.val, by omega⟩) = X main_arg25 (ix2 k q) := by
  rw [host5_v54_term]
  exact concat4_lane2 (R := 128) _ _ _ _ _ k q

theorem host5_v54_3 (k : Fin 128) (q : Fin 128) :
    StableHlo.after hostOps5 X main_v54 (ix2 k ⟨384 + q.val, by omega⟩) = X main_arg23 (ix2 k q) := by
  rw [host5_v54_term]
  exact concat4_lane3 (R := 128) _ _ _ _ _ k q

/-- The buffer is two 1 × 128 rows followed by two rows of the literal zero. -/
theorem host5_v56_term :
    StableHlo.after (hostOps5 (F := Ideal)) X (Proc.devRef .tc main_v56)
      = concatenate S1x512 1 [⟨S1x128, (X (Proc.devRef .tc main_arg20))⟩, ⟨S1x128, (X (Proc.devRef .tc main_arg22))⟩,
          ⟨S1x128, broadcastInDim S1x128 ![] bcast_S_S1x128 (constant (F := Ideal) S_ .f32 0x00000000#32)⟩,
          ⟨S1x128, broadcastInDim S1x128 ![] bcast_S_S1x128 (constant (F := Ideal) S_ .f32 0x00000000#32)⟩]
          concatenates_S1x128_S1x128_S1x128_S1x128_S1x512_d1 := by
  after_results_simp <;> rfl

theorem host5_v56_0 (q : Fin 128) :
    StableHlo.after hostOps5 X main_v56 (ix2 (0 : Fin 1) ⟨0 + q.val, by omega⟩) = X main_arg20 (ix2 (0 : Fin 1) q) := by
  rw [host5_v56_term]
  exact concat4_lane0 (R := 1) _ _ _ _ _ 0 q

theorem host5_v56_1 (q : Fin 128) :
    StableHlo.after hostOps5 X main_v56 (ix2 (0 : Fin 1) ⟨128 + q.val, by omega⟩) = X main_arg22 (ix2 (0 : Fin 1) q) := by
  rw [host5_v56_term]
  exact concat4_lane1 (R := 1) _ _ _ _ _ 0 q

theorem host5_v56_2 (q : Fin 128) :
    StableHlo.after hostOps5 X main_v56 (ix2 (0 : Fin 1) ⟨256 + q.val, by omega⟩) = Cert.Spec.cZero := by
  rw [host5_v56_term]
  exact concat4_lane2 (R := 1) _ _ _ _ _ 0 q

theorem host5_v56_3 (q : Fin 128) :
    StableHlo.after hostOps5 X main_v56 (ix2 (0 : Fin 1) ⟨384 + q.val, by omega⟩) = Cert.Spec.cZero := by
  rw [host5_v56_term]
  exact concat4_lane3 (R := 1) _ _ _ _ _ 0 q

/-- A buffer the stretch does not write keeps its contents. -/
theorem host5_keep (b : DevRef τ sig) (hb : b ∉ (hostOps5_W.map (Proc.devRef (τ := τ) .tc)).toFinset) :
    StableHlo.after hostOps5 X b = X b :=
  StableHlo.after_of_forall_not_mem _ X fun op hop hb' => hb (List.forall_iff_forall_mem.mp hostOps5_writes op hop hb')

end Cert.KernelIdeal.Val
-- ==== Proof.KV.Lay1.lean ====
/-
  Layer 1 of the program with node-side projections, along the run: what its three regions leave, in the layer's
  own terms, from what they find.
-/
import proofs.«117664_g2000706958607885_pallasbulk_534_41_alg».proof.Proof.KV.Chains
import proofs.«117664_g2000706958607885_pallasbulk_534_41_alg».proof.Proof.KV.Layer
import proofs.«117664_g2000706958607885_pallasbulk_534_41_alg».proof.Proof.KV.Fin0
import proofs.«117664_g2000706958607885_pallasbulk_534_41_alg».proof.Proof.KV.Fin2
import proofs.«117664_g2000706958607885_pallasbulk_534_41_alg».proof.Proof.KV.Fin3
import proofs.«117664_g2000706958607885_pallasbulk_534_41_alg».proof.Proof.KV.Host0
import proofs.«117664_g2000706958607885_pallasbulk_534_41_alg».proof.Proof.KV.Host1to5

set_option maxRecDepth 16384

noncomputable section

namespace Cert.KernelIdeal.Val

open Cert.KernelIdeal Cert.KernelIdeal.Gen Cert.KernelIdeal.Fr
open Idealize.ShloMosaic Idealize.ShloMosaic.ValueIdx Idealize.ShloMosaic.TcCoe Idealize.SL.Sem
open Cert.Spec Cert.Bridge Cert.ResultsSpec
open scoped BigOperators

variable (m : (ℓ : Loc nD τ sig) → Buf (Elt Ideal) ℓ) (c : Dev nD)

/-! ## Layer 1 (parameters bg0: regions 0, 2, 3) -/

/-- The concatenated weights and bias that region 0 reads are the layer's. -/
theorem cat1 : IsCat (argsOf m c).bg0.params (X1 m c main_v8) (X1 m c main_v10) where
  w0 := fun k q => (host0_v8_0 (X0 m c) k q).trans (congrFun (argv_0_5 m c) (ix2 k q))
  w1 := fun k q => (host0_v8_1 (X0 m c) k q).trans (congrFun (argv_0_7 m c) (ix2 k q))
  w2 := fun k q => (host0_v8_2 (X0 m c) k q).trans (congrFun (argv_0_11 m c) (ix2 k q))
  w3 := fun k q => (host0_v8_3 (X0 m c) k q).trans (congrFun (argv_0_9 m c) (ix2 k q))
  b0 := fun q => (host0_v10_0 (X0 m c) q).trans (congrFun (argv_0_6 m c) (ix2 (0 : Fin 1) q))
  b1 := fun q => (host0_v10_1 (X0 m c) q).trans (congrFun (argv_0_8 m c) (ix2 (0 : Fin 1) q))
  b2 := fun q => host0_v10_2 (X0 m c) q
  b3 := fun q => host0_v10_3 (X0 m c) q

section L1
variable (xrows : Fin 65536 → Row) (erows : Fin 131072 → Row)
    (hX : ∀ n q, X1 m c main_arg1 (ix2 n q) = xrows n q)
include hX

theorem rowsX1 : rows (N := 65536) (X1 m c main_arg1) = xrows := funext fun n => funext fun q => hX n q

/-- Region 0's outputs: the self projection, the destination projection, the neighbour and source projections. -/
theorem hs1_val (n : Fin 65536) (q : Fin 128) : X2 m c main_v11_0 (ix2 n q) = hs (argsOf m c).bg0.params xrows n q :=
  (congrFun ((X2_arr m c 3).trans (final0_3 (XT1 m) c)) (ix2 n q)).trans
    ((proj_hs (cat1 m c) (X1 m c main_arg1) n q).trans (by rw [rowsX1 m c xrows hX]))

theorem pd1_val (n : Fin 65536) (q : Fin 128) : X2 m c main_v11_1 (ix2 n ⟨q.val, by omega⟩) = pd (argsOf m c).bg0.params xrows n q :=
  (congrFun ((X2_arr m c 4).trans (final0_4 (XT1 m) c)) (ix2 n ⟨q.val, by omega⟩)).trans
    ((congrArg (proj (X1 m c main_arg1) (X1 m c main_v8) (X1 m c main_v10) n) (Fin.ext (by
        show 384 + q.val % 128 = 384 + q.val
        rw [Nat.mod_eq_of_lt q.isLt]))).trans
      ((proj_pd (cat1 m c) (X1 m c main_arg1) n q).trans (by rw [rowsX1 m c xrows hX])))

theorem pslo1_val (n : Fin 65536) (q : Fin 128) : X2 m c main_v11_2 (ix2 n ⟨q.val, by omega⟩) = hn (argsOf m c).bg0.params xrows n q :=
  (congrFun ((X2_arr m c 5).trans (final0_5 (XT1 m) c)) (ix2 n ⟨q.val, by omega⟩)).trans
    ((proj_hn (cat1 m c) (X1 m c main_arg1) n q).trans (by rw [rowsX1 m c xrows hX]))

theorem pshi1_val (n : Fin 65536) (q : Fin 128) : X2 m c main_v11_2 (ix2 n ⟨128 + q.val, by omega⟩) = psB (argsOf m c).bg0.params xrows n q :=
  (congrFun ((X2_arr m c 5).trans (final0_5 (XT1 m) c)) (ix2 n ⟨128 + q.val, by omega⟩)).trans
    ((congrArg (proj (X1 m c main_arg1) (X1 m c main_v8) (X1 m c main_v10) n) (Fin.ext (by
        show 128 + (128 + q.val) = 256 + q.val
        omega))).trans
      ((proj_psB (cat1 m c) (X1 m c main_arg1) n q).trans (by rw [rowsX1 m c xrows hX])))

variable (hG : InRangeG m c) (hA : InRangeA m c)
include hG hA

/-- The gathered projections, as region 2 finds them. -/
theorem gd1_val (t : Fin 131072) (q : Fin 128) : X5 m c main_v18 (ix2 t ⟨q.val, by omega⟩) = pd (argsOf m c).bg0.params xrows ((argsOf m c).dstA t) q :=
  (congrFun ((step5 m c main_v18 (by decide)).trans (step4 m c main_v18 (by decide))) (ix2 t ⟨q.val, by omega⟩)).trans
    ((host1_v18 (X2 m c) t ⟨q.val, by omega⟩ ((argsOf m c).dstA t) (v3_at2 m c hA t)).trans (pd1_val m c xrows hX ((argsOf m c).dstA t) q))

theorem gslo1_val (t : Fin 131072) (q : Fin 128) : X5 m c main_v25 (ix2 t ⟨q.val, by omega⟩) = hn (argsOf m c).bg0.params xrows ((argsOf m c).srcA t) q :=
  (congrFun ((step5 m c main_v25 (by decide)).trans (step4 m c main_v25 (by decide))) (ix2 t ⟨q.val, by omega⟩)).trans
    ((host1_v25 (X2 m c) t ⟨q.val, by omega⟩ ((argsOf m c).srcA t) (v1_at2 m c hA t)).trans (pslo1_val m c xrows hX ((argsOf m c).srcA t) q))

theorem gshi1_val (t : Fin 131072) (q : Fin 128) : X5 m c main_v25 (ix2 t ⟨128 + q.val, by omega⟩) = psB (argsOf m c).bg0.params xrows ((argsOf m c).srcA t) q :=
  (congrFun ((step5 m c main_v25 (by decide)).trans (step4 m c main_v25 (by decide))) (ix2 t ⟨128 + q.val, by omega⟩)).trans
    ((host1_v25 (X2 m c) t ⟨128 + q.val, by omega⟩ ((argsOf m c).srcA t) (v1_at2 m c hA t)).trans (pshi1_val m c xrows hX ((argsOf m c).srcA t) q))

omit hX hG hA in
theorem wc1_val (k q : Fin 128) : X5 m c main_arg13 (ix2 k q) = (argsOf m c).bg0.params.WC k q :=
  congrFun (argv_5_13 m c) (ix2 k q)
omit hX hG hA in
theorem ge1_val (q : Fin 128) : X5 m c main_arg17 (ix2 (0 : Fin 1) q) = (argsOf m c).bg0.params.ge q :=
  congrFun (argv_5_17 m c) (ix2 (0 : Fin 1) q)
omit hX hG hA in
theorem be1_val (q : Fin 128) : X5 m c main_arg18 (ix2 (0 : Fin 1) q) = (argsOf m c).bg0.params.be q :=
  congrFun (argv_5_18 m c) (ix2 (0 : Fin 1) q)
omit hX hG hA in
theorem bs1_val (q : Fin 128) : X5 m c main_v45 (ix2 (0 : Fin 1) q) = bsum (argsOf m c).bg0.params q := by
  refine (host2_v45 (X4 m c) q).trans ?_
  rw [argv_4_10 m c, argv_4_12 m c, argv_4_14 m c]
  rfl
omit hX hG hA in
theorem gx1_val (q : Fin 128) : X7 m c main_arg15 (ix2 (0 : Fin 1) q) = (argsOf m c).bg0.params.gx q :=
  congrFun (argv_7_15 m c) (ix2 (0 : Fin 1) q)
omit hX hG hA in
theorem bx1_val (q : Fin 128) : X7 m c main_arg16 (ix2 (0 : Fin 1) q) = (argsOf m c).bg0.params.bx q :=
  congrFun (argv_7_16 m c) (ix2 (0 : Fin 1) q)

variable (hE : ∀ t q, X5 m c main_arg2 (ix2 t q) = erows t q)
include hE

omit hG hA in
theorem rowsE1 : rows (N := 131072) (X5 m c main_arg2) = erows := funext fun t => funext fun q => hE t q

/-- Region 2's outputs: the updated edge rows, the gated messages and the gates. -/
theorem enew1_val (t : Fin 131072) (q : Fin 128) :
    X6 m c main_v46_0 (ix2 t q) = eNewK (argsOf m c).bg0.params xrows erows (argsOf m c).srcA (argsOf m c).dstA t q :=
  (congrFun ((X6_arr m c 7).trans (final2_7 (XT5 m) c)) (ix2 t q)).trans
    ((enewAt_eq (by omega : 128 ≤ 256) (argsOf m c).bg0.params xrows (argsOf m c).srcA (argsOf m c).dstA (X5 m c main_arg2) (X5 m c main_v18) (X5 m c main_v25)
        (X5 m c main_arg13) (X5 m c main_v45) (X5 m c main_arg17) (X5 m c main_arg18)
        (gd1_val m c xrows hX hG hA) (gshi1_val m c xrows hX hG hA) (wc1_val m c) (bs1_val m c)
        (ge1_val m c) (be1_val m c) t q).trans (by rw [rowsE1 m c xrows erows hX hE]))

theorem mslo1_val (t : Fin 131072) (q : Fin 128) :
    X6 m c main_v46_1 (ix2 t ⟨q.val, by omega⟩) = msLoK (argsOf m c).bg0.params xrows erows (argsOf m c).srcA (argsOf m c).dstA t q :=
  (congrFun ((X6_arr m c 8).trans (final2_8 (XT5 m) c)) (ix2 t ⟨q.val, by omega⟩)).trans
    ((msAt_lo (by omega : 128 ≤ 256) (argsOf m c).bg0.params xrows (argsOf m c).srcA (argsOf m c).dstA (X5 m c main_arg2) (X5 m c main_v18) (X5 m c main_v25)
        (X5 m c main_arg13) (X5 m c main_v45)
        (gd1_val m c xrows hX hG hA) (gslo1_val m c xrows hX hG hA) (gshi1_val m c xrows hX hG hA) (wc1_val m c) (bs1_val m c) t q).trans
      (by rw [rowsE1 m c xrows erows hX hE]))

theorem mshi1_val (t : Fin 131072) (q : Fin 128) :
    X6 m c main_v46_1 (ix2 t ⟨128 + q.val, by omega⟩) = msHiK (argsOf m c).bg0.params xrows erows (argsOf m c).srcA (argsOf m c).dstA t q :=
  (congrFun ((X6_arr m c 8).trans (final2_8 (XT5 m) c)) (ix2 t ⟨128 + q.val, by omega⟩)).trans
    ((msAt_hi (by omega : 128 ≤ 256) (argsOf m c).bg0.params xrows (argsOf m c).srcA (argsOf m c).dstA (X5 m c main_arg2) (X5 m c main_v18) (X5 m c main_v25)
        (X5 m c main_arg13) (X5 m c main_v45)
        (gd1_val m c xrows hX hG hA) (gshi1_val m c xrows hX hG hA) (wc1_val m c) (bs1_val m c) t q).trans
      (by rw [rowsE1 m c xrows erows hX hE]))

/-- The scatter-added messages, as region 3 finds them. -/
theorem agglo1_val (n : Fin 65536) (q : Fin 128) :
    X7 m c main_v49 (ix2 n ⟨q.val, by omega⟩) = segSum (argsOf m c).dstA (msLoK (argsOf m c).bg0.params xrows erows (argsOf m c).srcA (argsOf m c).dstA) n q :=
  (host3_v49 (X6 m c) (argsOf m c).dstA (v3_at6 m c hA) n ⟨q.val, by omega⟩).trans
    (congrArg (cZero + ·) (Finset.sum_congr rfl fun t _ => by
      rw [show asReal (s := S131072x256) (X6 m c main_v46_1) (ix2 t ⟨q.val, by omega⟩) = msLoK (argsOf m c).bg0.params xrows erows (argsOf m c).srcA (argsOf m c).dstA t q from
        (congrFun rfl (ix2 t ⟨q.val, by omega⟩)).trans (mslo1_val m c xrows erows hX hG hA hE t q)]))

theorem agghi1_val (n : Fin 65536) (q : Fin 128) :
    X7 m c main_v49 (ix2 n ⟨128 + q.val, by omega⟩) = segSum (argsOf m c).dstA (msHiK (argsOf m c).bg0.params xrows erows (argsOf m c).srcA (argsOf m c).dstA) n q :=
  (host3_v49 (X6 m c) (argsOf m c).dstA (v3_at6 m c hA) n ⟨128 + q.val, by omega⟩).trans
    (congrArg (cZero + ·) (Finset.sum_congr rfl fun t _ => by
      rw [show asReal (s := S131072x256) (X6 m c main_v46_1) (ix2 t ⟨128 + q.val, by omega⟩) = msHiK (argsOf m c).bg0.params xrows erows (argsOf m c).srcA (argsOf m c).dstA t q from
        (congrFun rfl (ix2 t ⟨128 + q.val, by omega⟩)).trans (mshi1_val m c xrows erows hX hG hA hE t q)]))

/-- Region 3's output: the updated node rows. -/
theorem xnew1_val (n : Fin 65536) (q : Fin 128) :
    X8 m c main_v50 (ix2 n q) = xNewK (argsOf m c).bg0.params xrows erows (argsOf m c).srcA (argsOf m c).dstA n q := by
  have hXu : rows (N := 65536) (X7 m c main_arg1) = xrows := funext fun n => funext fun q =>
    (congrFun ((((((step7 m c main_arg1 (by decide)).trans (step6 m c main_arg1 (by decide))).trans (step5 m c main_arg1 (by decide))).trans (step4 m c main_arg1 (by decide))).trans (step3 m c main_arg1 (by decide))).trans (step2 m c main_arg1 (by decide))) (ix2 n q)).trans (hX n q)
  refine (congrFun ((X8_arr m c 5).trans (final3_5 (XT7 m) c)) (ix2 n q)).trans ?_
  refine (updAt_eq (argsOf m c).bg0.params erows (argsOf m c).srcA (argsOf m c).dstA (X7 m c main_arg1) (X7 m c main_v11_0) (X7 m c main_v49)
    (X7 m c main_arg15) (X7 m c main_arg16) ?_ ?_ ?_ (gx1_val m c) (bx1_val m c) n q).trans (by rw [hXu])
  · intro n q
    rw [hXu]
    exact (congrFun (((((step7 m c main_v11_0 (by decide)).trans (step6 m c main_v11_0 (by decide))).trans (step5 m c main_v11_0 (by decide))).trans (step4 m c main_v11_0 (by decide))).trans (step3 m c main_v11_0 (by decide))) (ix2 n q)).trans (hs1_val m c xrows hX n q)
  · intro n q
    rw [hXu]
    exact agglo1_val m c xrows erows hX hG hA hE n q
  · intro n q
    rw [hXu]
    exact agghi1_val m c xrows erows hX hG hA hE n q

end L1

end Cert.KernelIdeal.Val

end
-- ==== Proof.KV.Fin1.lean ====
/-
  Region 1 (a node projection): each output array after the region as one function of the region's input
  arrays, index by index.
-/
import proofs.«117664_g2000706958607885_pallasbulk_534_41_alg».proof.Proof.KI.Half1
import proofs.«117664_g2000706958607885_pallasbulk_534_41_alg».proof.Proof.KV.NodeProj
import proofs.«117664_g2000706958607885_pallasbulk_534_41_alg».proof.Proof.KV.FinCommon
import Idealize.ShloMosaic.Lib.Pipeline.Value

set_option maxRecDepth 16384

noncomputable section

namespace Cert.KernelIdeal.Val

open Cert.KernelIdeal Cert.KernelIdeal.Gen Cert.KernelIdeal.Fr
open Idealize.ShloMosaic Idealize.ShloMosaic.ValueIdx Idealize.ShloMosaic.TcCoe Idealize.SL.Sem
open Idealize.ShloMosaic.Pipeline (Dat)
open scoped BigOperators

section Region1
variable (V : (c : Dev nD) → (b : Ref sig .tc) → Buf (Elt Ideal) ((c : Thread nD τ).loc b))

/-- The printed index maps over the grid: a row window's block index is the grid point, a whole window's is zero. -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

theorem t_lt1 (t : Fin cfg1.N) : t.val < 16 := lt_of_lt_of_eq t.isLt N_1

/-- Row `p` of window 0's block at point `t` is row `t · 1024 + p` of its array. -/
theorem blk1_0 (c : Dev nD) (t : Fin cfg1.N) (p : Fin 1024) (k : Fin 128) :
    iblk1 V c 0 t (ix2 p k) = V c main_arg0 (ix2 ⟨t.val * 1024 + p.val, by have := t_lt1 t; omega⟩ k) := by
  show V c main_arg0 (((cfg1.win 0).blk t).view.emb (ix2 p k)) = _
  refine congrArg (V c main_arg0) (funext fun a => Fin.ext ?_)
  obtain ⟨e0_0, e0_1, -, -, -, -, -, -, -, -, -, -⟩ := idx1 t
  match a with
  | ⟨0, _⟩ => show win1_0.index t (0 : Fin 2) * 1024 + 1 * p.val = t.val * 1024 + p.val; omega
  | ⟨1, _⟩ => show win1_0.index t (1 : Fin 2) * 128 + 1 * k.val = k.val; omega

/-- Window 1's block is its whole array. -/
theorem blk1_1 (c : Dev nD) (t : Fin cfg1.N) : iblk1 V c 1 t = V c main_v26 := by
  funext j
  show V c main_v26 (((cfg1.win 1).blk t).view.emb j) = V c main_v26 j
  refine congrArg (V c main_v26) (funext fun a => Fin.ext ?_)
  obtain ⟨-, -, e1_0, e1_1, -, -, -, -, -, -, -, -⟩ := idx1 t
  match a with
  | ⟨0, _⟩ => show win1_1.index t (0 : Fin 2) * 128 + 1 * (j 0).val = (j 0).val; omega
  | ⟨1, _⟩ => show win1_1.index t (1 : Fin 2) * 512 + 1 * (j 1).val = (j 1).val; omega

/-- Window 2's block is its whole array. -/
theorem blk1_2 (c : Dev nD) (t : Fin cfg1.N) : iblk1 V c 2 t = V c main_v28 := by
  funext j
  show V c main_v28 (((cfg1.win 2).blk t).view.emb j) = V c main_v28 j
  refine congrArg (V c main_v28) (funext fun a => Fin.ext ?_)
  obtain ⟨-, -, -, -, e2_0, e2_1, -, -, -, -, -, -⟩ := idx1 t
  match a with
  | ⟨0, _⟩ => show win1_2.index t (0 : Fin 2) * 1 + 1 * (j 0).val = (j 0).val; omega
  | ⟨1, _⟩ => show win1_2.index t (1 : Fin 2) * 512 + 1 * (j 1).val = (j 1).val; omega

/-- Window 3's array after region 1: lanes 0–127 of the projection of each node. -/
def G1_3 (X : (⟨2, ![16384, 128]⟩ : Shape).Idx → EReal) (W : S128x512.Idx → EReal) (B : S1x512.Idx → EReal) : S16384x128.Idx → EReal :=
  fun i => proj X W B ⟨(i 0).val, idx2_lt0 i⟩ ⟨0 + (i 1).val, by have := idx2_lt1 i; omega⟩

theorem pt1_3 (x0 : Vec Ideal S1024x128 .f32) (x1 : Vec Ideal S128x512 .f32) (x2 : Vec Ideal S1x512 .f32)
    (X : (⟨2, ![16384, 128]⟩ : Shape).Idx → EReal) (W : S128x512.Idx → EReal) (B : S1x512.Idx → EReal) (p : Fin 1024) (q : Fin 128) (n : Fin 16384)
    (h0 : ∀ k, x0 (ix2 p k) = X (ix2 n k)) (h1 : x1 = W) (h2 : x2 = B) :
    k1_pay2 x0 x1 x2 (ix2 p q) = proj X W B n ⟨0 + q.val, by omega⟩ := by
  subst h1 h2
  rw [k1_pay2_apply, k1_pay1_apply, show (fun k => x0 (ix2 p k)) = fun k => X (ix2 n k) from funext h0]
  rfl

theorem flushed1_3 (c : Dev nD) (t : Fin cfg1.N) :
    (dat1 V c).flushed 3 t = ((cfg1.win 3).blk t).view.read (Elt Ideal) (G1_3 (V c main_arg0) (V c main_v26) (V c main_v28)) := by
  show (cfg1.win 3).cut (grid1.coords t) ((dat1 V c).after 3 t) = _
  rw [after1_3]
  unfold out1_3
  rw [View.canon_unit_zero hz2]
  simp only [View.ld_unit_zero (S := S1024x128) hz2, View.ld_unit_zero (S := S128x512) hz2, View.ld_unit_zero (S := S1x512) hz2]
  funext j
  obtain ⟨p, q, rfl⟩ : ∃ (p : Fin 1024) (q : Fin 128), j = ix2 p q := ⟨j 0, j 1, eq_ix2 j⟩
  show k1_pay2 (iblk1 V c 0 t) (iblk1 V c 1 t) (iblk1 V c 2 t) (ix2 p q)
      = G1_3 (V c main_arg0) (V c main_v26) (V c main_v28) (((cfg1.win 3).blk t).view.emb (ix2 p q))
  refine (pt1_3 (iblk1 V c 0 t) (iblk1 V c 1 t) (iblk1 V c 2 t) (V c main_arg0) (V c main_v26) (V c main_v28) p q
    ⟨t.val * 1024 + p.val, by have := t_lt1 t; omega⟩ (fun k => blk1_0 V c t p k) (blk1_1 V c t) (blk1_2 V c t)).trans ?_
  obtain ⟨-, -, -, -, -, -, e3_0, e3_1, -, -, -, -⟩ := idx1 t
  have hemb : ((cfg1.win 3).blk t).view.emb (ix2 p q) = ix2 ⟨t.val * 1024 + p.val, by have := t_lt1 t; omega⟩ q :=
    funext fun a => Fin.ext (by
      match a with
      | ⟨0, _⟩ => show win1_3.index t (0 : Fin 2) * 1024 + 1 * p.val = t.val * 1024 + p.val; omega
      | ⟨1, _⟩ => show win1_3.index t (1 : Fin 2) * 128 + 1 * q.val = q.val; omega)
  exact ((congrArg (G1_3 (V c main_arg0) (V c main_v26) (V c main_v28)) hemb).trans rfl).symm

/-- Membership in window 3's block at point `t`, coordinate by coordinate. -/
theorem mem_blk1_3 (t : Fin cfg1.N) (i : S16384x128.Idx) :
    i ∈ ((cfg1.win 3).blk t).view.set ↔ ∀ a : Fin 2, win1_3.index t a * S1024x128.size a ≤ (i a).val ∧ (i a).val < win1_3.index t a * S1024x128.size a + S1024x128.size a := by
  show i ∈ ((View.whole main_v29_0).slice (win1_3.rect t)).set ↔ _
  rw [View.set_slice_whole, Rect.mem_set_unit]
  exact Iff.rfl

/-- Every row of the array lies in the block of the point `row / 1024`. -/
theorem covered1_3 (i : S16384x128.Idx) : ∃ t : Fin cfg1.N, (cfg1.win 3).flush t = true ∧ i ∈ ((cfg1.win 3).blk t).view.set := by
  have hi0 : (i 0).val < 16384 := (i 0).isLt
  have hi1 : (i 1).val < 128 := (i 1).isLt
  have hN : cfg1.N = 16 := N_1
  let t : Fin cfg1.N := ⟨(i 0).val / 1024, by rw [hN]; omega⟩
  obtain ⟨-, -, -, -, -, -, e3_0, e3_1, -, -, -, -⟩ := idx1 t
  refine ⟨t, flush1_3 t, ?_⟩
  rw [mem_blk1_3]
  intro a
  match a with
  | ⟨0, _⟩ =>
    show win1_3.index t (0 : Fin 2) * 1024 ≤ (i 0).val ∧ (i 0).val < win1_3.index t (0 : Fin 2) * 1024 + 1024
    rw [e3_0]
    show (i 0).val / 1024 * 1024 ≤ (i 0).val ∧ (i 0).val < (i 0).val / 1024 * 1024 + 1024
    omega
  | ⟨1, _⟩ =>
    show win1_3.index t (1 : Fin 2) * 128 ≤ (i 1).val ∧ (i 1).val < win1_3.index t (1 : Fin 2) * 128 + 128
    omega

/-- The array after the region. -/
theorem final1_3 (c : Dev nD) : (dat1 V c).arrAt 3 cfg1.N = G1_3 (V c main_arg0) (V c main_v26) (V c main_v28) :=
  (dat1 V c).arrAt_eq_of_cover 3 _ (fun t _ => flushed1_3 V c t) covered1_3

/-- Window 5's array after region 1: lanes 128–383 of the projection of each node. -/
def G1_5 (X : (⟨2, ![16384, 128]⟩ : Shape).Idx → EReal) (W : S128x512.Idx → EReal) (B : S1x512.Idx → EReal) : S16384x256.Idx → EReal :=
  fun i => proj X W B ⟨(i 0).val, idx2_lt0 i⟩ ⟨128 + (i 1).val, by have := idx2_lt1 i; omega⟩

theorem pt1_5 (x0 : Vec Ideal S1024x128 .f32) (x1 : Vec Ideal S128x512 .f32) (x2 : Vec Ideal S1x512 .f32)
    (X : (⟨2, ![16384, 128]⟩ : Shape).Idx → EReal) (W : S128x512.Idx → EReal) (B : S1x512.Idx → EReal) (p : Fin 1024) (q : Fin 256) (n : Fin 16384)
    (h0 : ∀ k, x0 (ix2 p k) = X (ix2 n k)) (h1 : x1 = W) (h2 : x2 = B) :
    k1_pay3 x0 x1 x2 (ix2 p q) = proj X W B n ⟨128 + q.val, by omega⟩ := by
  subst h1 h2
  rw [k1_pay3_apply, k1_pay1_apply, show (fun k => x0 (ix2 p k)) = fun k => X (ix2 n k) from funext h0]
  rfl

theorem flushed1_5 (c : Dev nD) (t : Fin cfg1.N) :
    (dat1 V c).flushed 5 t = ((cfg1.win 5).blk t).view.read (Elt Ideal) (G1_5 (V c main_arg0) (V c main_v26) (V c main_v28)) := by
  show (cfg1.win 5).cut (grid1.coords t) ((dat1 V c).after 5 t) = _
  rw [after1_5]
  unfold out1_5
  rw [View.canon_unit_zero hz2]
  simp only [View.ld_unit_zero (S := S1024x128) hz2, View.ld_unit_zero (S := S128x512) hz2, View.ld_unit_zero (S := S1x512) hz2]
  funext j
  obtain ⟨p, q, rfl⟩ : ∃ (p : Fin 1024) (q : Fin 256), j = ix2 p q := ⟨j 0, j 1, eq_ix2 j⟩
  show k1_pay3 (iblk1 V c 0 t) (iblk1 V c 1 t) (iblk1 V c 2 t) (ix2 p q)
      = G1_5 (V c main_arg0) (V c main_v26) (V c main_v28) (((cfg1.win 5).blk t).view.emb (ix2 p q))
  refine (pt1_5 (iblk1 V c 0 t) (iblk1 V c 1 t) (iblk1 V c 2 t) (V c main_arg0) (V c main_v26) (V c main_v28) p q
    ⟨t.val * 1024 + p.val, by have := t_lt1 t; omega⟩ (fun k => blk1_0 V c t p k) (blk1_1 V c t) (blk1_2 V c t)).trans ?_
  obtain ⟨-, -, -, -, -, -, -, -, -, -, e5_0, e5_1⟩ := idx1 t
  have hemb : ((cfg1.win 5).blk t).view.emb (ix2 p q) = ix2 ⟨t.val * 1024 + p.val, by have := t_lt1 t; omega⟩ q :=
    funext fun a => Fin.ext (by
      match a with
      | ⟨0, _⟩ => show win1_5.index t (0 : Fin 2) * 1024 + 1 * p.val = t.val * 1024 + p.val; omega
      | ⟨1, _⟩ => show win1_5.index t (1 : Fin 2) * 256 + 1 * q.val = q.val; omega)
  exact ((congrArg (G1_5 (V c main_arg0) (V c main_v26) (V c main_v28)) hemb).trans rfl).symm

/-- Membership in window 5's block at point `t`, coordinate by coordinate. -/
theorem mem_blk1_5 (t : Fin cfg1.N) (i : S16384x256.Idx) :
    i ∈ ((cfg1.win 5).blk t).view.set ↔ ∀ a : Fin 2, win1_5.index t a * S1024x256.size a ≤ (i a).val ∧ (i a).val < win1_5.index t a * S1024x256.size a + S1024x256.size a := by
  show i ∈ ((View.whole main_v29_2).slice (win1_5.rect t)).set ↔ _
  rw [View.set_slice_whole, Rect.mem_set_unit]
  exact Iff.rfl

/-- Every row of the array lies in the block of the point `row / 1024`. -/
theorem covered1_5 (i : S16384x256.Idx) : ∃ t : Fin cfg1.N, (cfg1.win 5).flush t = true ∧ i ∈ ((cfg1.win 5).blk t).view.set := by
  have hi0 : (i 0).val < 16384 := (i 0).isLt
  have hi1 : (i 1).val < 256 := (i 1).isLt
  have hN : cfg1.N = 16 := N_1
  let t : Fin cfg1.N := ⟨(i 0).val / 1024, by rw [hN]; omega⟩
  obtain ⟨-, -, -, -, -, -, -, -, -, -, e5_0, e5_1⟩ := idx1 t
  refine ⟨t, flush1_5 t, ?_⟩
  rw [mem_blk1_5]
  intro a
  match a with
  | ⟨0, _⟩ =>
    show win1_5.index t (0 : Fin 2) * 1024 ≤ (i 0).val ∧ (i 0).val < win1_5.index t (0 : Fin 2) * 1024 + 1024
    rw [e5_0]
    show (i 0).val / 1024 * 1024 ≤ (i 0).val ∧ (i 0).val < (i 0).val / 1024 * 1024 + 1024
    omega
  | ⟨1, _⟩ =>
    show win1_5.index t (1 : Fin 2) * 256 ≤ (i 1).val ∧ (i 1).val < win1_5.index t (1 : Fin 2) * 256 + 256
    omega

/-- The array after the region. -/
theorem final1_5 (c : Dev nD) : (dat1 V c).arrAt 5 cfg1.N = G1_5 (V c main_arg0) (V c main_v26) (V c main_v28) :=
  (dat1 V c).arrAt_eq_of_cover 5 _ (fun t _ => flushed1_5 V c t) covered1_5

/-- Window 4's array after region 1: lanes 384–511 of the projection of each node. -/
def G1_4 (X : (⟨2, ![16384, 128]⟩ : Shape).Idx → EReal) (W : S128x512.Idx → EReal) (B : S1x512.Idx → EReal) : S16384x128.Idx → EReal :=
  fun i => proj X W B ⟨(i 0).val, idx2_lt0 i⟩ ⟨384 + (i 1).val, by have := idx2_lt1 i; omega⟩

theorem pt1_4 (x0 : Vec Ideal S1024x128 .f32) (x1 : Vec Ideal S128x512 .f32) (x2 : Vec Ideal S1x512 .f32)
    (X : (⟨2, ![16384, 128]⟩ : Shape).Idx → EReal) (W : S128x512.Idx → EReal) (B : S1x512.Idx → EReal) (p : Fin 1024) (q : Fin 128) (n : Fin 16384)
    (h0 : ∀ k, x0 (ix2 p k) = X (ix2 n k)) (h1 : x1 = W) (h2 : x2 = B) :
    k1_pay4 x0 x1 x2 (ix2 p q) = proj X W B n ⟨384 + q.val, by omega⟩ := by
  subst h1 h2
  rw [k1_pay4_apply, k1_pay1_apply, show (fun k => x0 (ix2 p k)) = fun k => X (ix2 n k) from funext h0]
  rfl

theorem flushed1_4 (c : Dev nD) (t : Fin cfg1.N) :
    (dat1 V c).flushed 4 t = ((cfg1.win 4).blk t).view.read (Elt Ideal) (G1_4 (V c main_arg0) (V c main_v26) (V c main_v28)) := by
  show (cfg1.win 4).cut (grid1.coords t) ((dat1 V c).after 4 t) = _
  rw [after1_4]
  unfold out1_4
  rw [View.canon_unit_zero hz2]
  simp only [View.ld_unit_zero (S := S1024x128) hz2, View.ld_unit_zero (S := S128x512) hz2, View.ld_unit_zero (S := S1x512) hz2]
  funext j
  obtain ⟨p, q, rfl⟩ : ∃ (p : Fin 1024) (q : Fin 128), j = ix2 p q := ⟨j 0, j 1, eq_ix2 j⟩
  show k1_pay4 (iblk1 V c 0 t) (iblk1 V c 1 t) (iblk1 V c 2 t) (ix2 p q)
      = G1_4 (V c main_arg0) (V c main_v26) (V c main_v28) (((cfg1.win 4).blk t).view.emb (ix2 p q))
  refine (pt1_4 (iblk1 V c 0 t) (iblk1 V c 1 t) (iblk1 V c 2 t) (V c main_arg0) (V c main_v26) (V c main_v28) p q
    ⟨t.val * 1024 + p.val, by have := t_lt1 t; omega⟩ (fun k => blk1_0 V c t p k) (blk1_1 V c t) (blk1_2 V c t)).trans ?_
  obtain ⟨-, -, -, -, -, -, -, -, e4_0, e4_1, -, -⟩ := idx1 t
  have hemb : ((cfg1.win 4).blk t).view.emb (ix2 p q) = ix2 ⟨t.val * 1024 + p.val, by have := t_lt1 t; omega⟩ q :=
    funext fun a => Fin.ext (by
      match a with
      | ⟨0, _⟩ => show win1_4.index t (0 : Fin 2) * 1024 + 1 * p.val = t.val * 1024 + p.val; omega
      | ⟨1, _⟩ => show win1_4.index t (1 : Fin 2) * 128 + 1 * q.val = q.val; omega)
  exact ((congrArg (G1_4 (V c main_arg0) (V c main_v26) (V c main_v28)) hemb).trans rfl).symm

/-- Membership in window 4's block at point `t`, coordinate by coordinate. -/
theorem mem_blk1_4 (t : Fin cfg1.N) (i : S16384x128.Idx) :
    i ∈ ((cfg1.win 4).blk t).view.set ↔ ∀ a : Fin 2, win1_4.index t a * S1024x128.size a ≤ (i a).val ∧ (i a).val < win1_4.index t a * S1024x128.size a + S1024x128.size a := by
  show i ∈ ((View.whole main_v29_1).slice (win1_4.rect t)).set ↔ _
  rw [View.set_slice_whole, Rect.mem_set_unit]
  exact Iff.rfl

/-- Every row of the array lies in the block of the point `row / 1024`. -/
theorem covered1_4 (i : S16384x128.Idx) : ∃ t : Fin cfg1.N, (cfg1.win 4).flush t = true ∧ i ∈ ((cfg1.win 4).blk t).view.set := by
  have hi0 : (i 0).val < 16384 := (i 0).isLt
  have hi1 : (i 1).val < 128 := (i 1).isLt
  have hN : cfg1.N = 16 := N_1
  let t : Fin cfg1.N := ⟨(i 0).val / 1024, by rw [hN]; omega⟩
  obtain ⟨-, -, -, -, -, -, -, -, e4_0, e4_1, -, -⟩ := idx1 t
  refine ⟨t, flush1_4 t, ?_⟩
  rw [mem_blk1_4]
  intro a
  match a with
  | ⟨0, _⟩ =>
    show win1_4.index t (0 : Fin 2) * 1024 ≤ (i 0).val ∧ (i 0).val < win1_4.index t (0 : Fin 2) * 1024 + 1024
    rw [e4_0]
    show (i 0).val / 1024 * 1024 ≤ (i 0).val ∧ (i 0).val < (i 0).val / 1024 * 1024 + 1024
    omega
  | ⟨1, _⟩ =>
    show win1_4.index t (1 : Fin 2) * 128 ≤ (i 1).val ∧ (i 1).val < win1_4.index t (1 : Fin 2) * 128 + 128
    omega

/-- The array after the region. -/
theorem final1_4 (c : Dev nD) : (dat1 V c).arrAt 4 cfg1.N = G1_4 (V c main_arg0) (V c main_v26) (V c main_v28) :=
  (dat1 V c).arrAt_eq_of_cover 4 _ (fun t _ => flushed1_4 V c t) covered1_4

end Region1

end Cert.KernelIdeal.Val

end
-- ==== Proof.KV.Fin4.lean ====
/-
  Region 4 (an edge update): each output array after the region as one function of the region's input arrays,
  index by index.
-/
import proofs.«117664_g2000706958607885_pallasbulk_534_41_alg».proof.Proof.KI.Half4
import proofs.«117664_g2000706958607885_pallasbulk_534_41_alg».proof.Proof.KV.Edge
import proofs.«117664_g2000706958607885_pallasbulk_534_41_alg».proof.Proof.KV.FinCommon
import Idealize.ShloMosaic.Lib.Pipeline.Value

set_option maxRecDepth 16384

noncomputable section

namespace Cert.KernelIdeal.Val

open Cert.KernelIdeal Cert.KernelIdeal.Gen Cert.KernelIdeal.Fr
open Idealize.ShloMosaic Idealize.ShloMosaic.ValueIdx Idealize.ShloMosaic.TcCoe Idealize.SL.Sem
open Idealize.ShloMosaic.Pipeline (Dat)
open scoped BigOperators

section Region4
variable (V : (c : Dev nD) → (b : Ref sig .tc) → Buf (Elt Ideal) ((c : Thread nD τ).loc b))

/-- The printed index maps over the grid: a row window's block index is the grid point, a whole window's is zero. -/
theorem idx4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = t.val ∧ win4_7.index t (1 : Fin 2) = 0
    ∧ win4_8.index t (0 : Fin 2) = t.val ∧ win4_8.index t (1 : Fin 2) = 0 :=
  (by decide +kernel : ∀ t : Fin grid4.N, _)

theorem t_lt4 (t : Fin cfg4.N) : t.val < 64 := lt_of_lt_of_eq t.isLt N_4

/-- Row `p` of window 0's block at point `t` is row `t · 1024 + p` of its array. -/
theorem blk4_0 (c : Dev nD) (t : Fin cfg4.N) (p : Fin 1024) (k : Fin 128) :
    iblk4 V c 0 t (ix2 p k) = V c main_v50 (ix2 ⟨t.val * 1024 + p.val, by have := t_lt4 t; omega⟩ k) := by
  show V c main_v50 (((cfg4.win 0).blk t).view.emb (ix2 p k)) = _
  refine congrArg (V c main_v50) (funext fun a => Fin.ext ?_)
  obtain ⟨e0_0, e0_1, -, -, -, -, -, -, -, -, -, -, -, -, -, -, -, -⟩ := idx4 t
  match a with
  | ⟨0, _⟩ => show win4_0.index t (0 : Fin 2) * 1024 + 1 * p.val = t.val * 1024 + p.val; omega
  | ⟨1, _⟩ => show win4_0.index t (1 : Fin 2) * 128 + 1 * k.val = k.val; omega

/-- Row `p` of window 1's block at point `t` is row `t · 1024 + p` of its array. -/
theorem blk4_1 (c : Dev nD) (t : Fin cfg4.N) (p : Fin 1024) (k : Fin 128) :
    iblk4 V c 1 t (ix2 p k) = V c main_v36 (ix2 ⟨t.val * 1024 + p.val, by have := t_lt4 t; omega⟩ k) := by
  show V c main_v36 (((cfg4.win 1).blk t).view.emb (ix2 p k)) = _
  refine congrArg (V c main_v36) (funext fun a => Fin.ext ?_)
  obtain ⟨-, -, e1_0, e1_1, -, -, -, -, -, -, -, -, -, -, -, -, -, -⟩ := idx4 t
  match a with
  | ⟨0, _⟩ => show win4_1.index t (0 : Fin 2) * 1024 + 1 * p.val = t.val * 1024 + p.val; omega
  | ⟨1, _⟩ => show win4_1.index t (1 : Fin 2) * 128 + 1 * k.val = k.val; omega

/-- Row `p` of window 2's block at point `t` is row `t · 1024 + p` of its array. -/
theorem blk4_2 (c : Dev nD) (t : Fin cfg4.N) (p : Fin 1024) (k : Fin 256) :
    iblk4 V c 2 t (ix2 p k) = V c main_v43 (ix2 ⟨t.val * 1024 + p.val, by have := t_lt4 t; omega⟩ k) := by
  show V c main_v43 (((cfg4.win 2).blk t).view.emb (ix2 p k)) = _
  refine congrArg (V c main_v43) (funext fun a => Fin.ext ?_)
  obtain ⟨-, -, -, -, e2_0, e2_1, -, -, -, -, -, -, -, -, -, -, -, -⟩ := idx4 t
  match a with
  | ⟨0, _⟩ => show win4_2.index t (0 : Fin 2) * 1024 + 1 * p.val = t.val * 1024 + p.val; omega
  | ⟨1, _⟩ => show win4_2.index t (1 : Fin 2) * 256 + 1 * k.val = k.val; omega

/-- Window 3's block is its whole array. -/
theorem blk4_3 (c : Dev nD) (t : Fin cfg4.N) : iblk4 V c 3 t = V c main_arg41 := by
  funext j
  show V c main_arg41 (((cfg4.win 3).blk t).view.emb j) = V c main_arg41 j
  refine congrArg (V c main_arg41) (funext fun a => Fin.ext ?_)
  obtain ⟨-, -, -, -, -, -, e3_0, e3_1, -, -, -, -, -, -, -, -, -, -⟩ := idx4 t
  match a with
  | ⟨0, _⟩ => show win4_3.index t (0 : Fin 2) * 128 + 1 * (j 0).val = (j 0).val; omega
  | ⟨1, _⟩ => show win4_3.index t (1 : Fin 2) * 128 + 1 * (j 1).val = (j 1).val; omega

/-- Window 4's block is its whole array. -/
theorem blk4_4 (c : Dev nD) (t : Fin cfg4.N) : iblk4 V c 4 t = V c main_v52 := by
  funext j
  show V c main_v52 (((cfg4.win 4).blk t).view.emb j) = V c main_v52 j
  refine congrArg (V c main_v52) (funext fun a => Fin.ext ?_)
  obtain ⟨-, -, -, -, -, -, -, -, e4_0, e4_1, -, -, -, -, -, -, -, -⟩ := idx4 t
  match a with
  | ⟨0, _⟩ => show win4_4.index t (0 : Fin 2) * 1 + 1 * (j 0).val = (j 0).val; omega
  | ⟨1, _⟩ => show win4_4.index t (1 : Fin 2) * 128 + 1 * (j 1).val = (j 1).val; omega

/-- Window 5's block is its whole array. -/
theorem blk4_5 (c : Dev nD) (t : Fin cfg4.N) : iblk4 V c 5 t = V c main_arg45 := by
  funext j
  show V c main_arg45 (((cfg4.win 5).blk t).view.emb j) = V c main_arg45 j
  refine congrArg (V c main_arg45) (funext fun a => Fin.ext ?_)
  obtain ⟨-, -, -, -, -, -, -, -, -, -, e5_0, e5_1, -, -, -, -, -, -⟩ := idx4 t
  match a with
  | ⟨0, _⟩ => show win4_5.index t (0 : Fin 2) * 1 + 1 * (j 0).val = (j 0).val; omega
  | ⟨1, _⟩ => show win4_5.index t (1 : Fin 2) * 128 + 1 * (j 1).val = (j 1).val; omega

/-- Window 6's block is its whole array. -/
theorem blk4_6 (c : Dev nD) (t : Fin cfg4.N) : iblk4 V c 6 t = V c main_arg46 := by
  funext j
  show V c main_arg46 (((cfg4.win 6).blk t).view.emb j) = V c main_arg46 j
  refine congrArg (V c main_arg46) (funext fun a => Fin.ext ?_)
  obtain ⟨-, -, -, -, -, -, -, -, -, -, -, -, e6_0, e6_1, -, -, -, -⟩ := idx4 t
  match a with
  | ⟨0, _⟩ => show win4_6.index t (0 : Fin 2) * 1 + 1 * (j 0).val = (j 0).val; omega
  | ⟨1, _⟩ => show win4_6.index t (1 : Fin 2) * 128 + 1 * (j 1).val = (j 1).val; omega

/-- The pre-activation row of a tile's row `p` is that of the edge `n` its blocks' rows come from. -/
theorem ehat4_row (x0 x1 : Vec Ideal S1024x128 .f32) (x2 : Vec Ideal S1024x256 .f32) (x3 : Vec Ideal S128x128 .f32) (x4 : Vec Ideal S1x128 .f32)
    (E : (⟨2, ![65536, 128]⟩ : Shape).Idx → EReal) (GD : (⟨2, ![65536, 128]⟩ : Shape).Idx → EReal) (GS : (⟨2, ![65536, 256]⟩ : Shape).Idx → EReal) (WC : S128x128.Idx → EReal) (BS : S1x128.Idx → EReal) (p : Fin 1024) (n : Fin 65536)
    (h0 : ∀ k, x0 (ix2 p k) = E (ix2 n k)) (h1 : ∀ k, x1 (ix2 p k) = GD (ix2 n ⟨k.val, by omega⟩)) (h2 : ∀ k, x2 (ix2 p k) = GS (ix2 n k))
    (h3 : x3 = WC) (h4 : x4 = BS) :
    ehatRow x0 x2 x3 x1 x4 p = ehatArr (by omega : 128 ≤ 128) E GD GS WC BS n := by
  subst h3 h4
  unfold ehatRow ehatArr
  rw [show (fun k => x0 (ix2 p k)) = fun k => E (ix2 n k) from funext h0,
    show (fun k => x1 (ix2 p k)) = fun k => GD (ix2 n ⟨k.val, by omega⟩) from funext h1,
    show (fun k : Fin 128 => x2 (ix2 p ⟨128 + k.val, by omega⟩)) = fun k => GS (ix2 n ⟨128 + k.val, by omega⟩) from funext fun k => h2 _]

/-- Window 7's array after region 4. -/
def G4_7 (E : (⟨2, ![65536, 128]⟩ : Shape).Idx → EReal) (GD : (⟨2, ![65536, 128]⟩ : Shape).Idx → EReal) (GS : (⟨2, ![65536, 256]⟩ : Shape).Idx → EReal) (WC : S128x128.Idx → EReal) (BS : S1x128.Idx → EReal) (Gm Bt : S1x128.Idx → EReal) : S65536x128.Idx → EReal :=
  fun i => enewAt (by omega : 128 ≤ 128) E GD GS WC BS Gm Bt ⟨(i 0).val, idx2_lt0 i⟩ ⟨(i 1).val, idx2_lt1 i⟩
/-- Window 8's array after region 4. -/
def G4_8 (E : (⟨2, ![65536, 128]⟩ : Shape).Idx → EReal) (GD : (⟨2, ![65536, 128]⟩ : Shape).Idx → EReal) (GS : (⟨2, ![65536, 256]⟩ : Shape).Idx → EReal) (WC : S128x128.Idx → EReal) (BS : S1x128.Idx → EReal) : S65536x256.Idx → EReal :=
  fun i => msAt (by omega : 128 ≤ 128) E GD GS WC BS ⟨(i 0).val, idx2_lt0 i⟩ ⟨(i 1).val, idx2_lt1 i⟩

theorem pt4_7 (x0 x1 : Vec Ideal S1024x128 .f32) (x2 : Vec Ideal S1024x256 .f32) (x3 : Vec Ideal S128x128 .f32) (x4 : Vec Ideal S1x128 .f32) (x5 x6 : Vec Ideal S1x128 .f32)
    (E : (⟨2, ![65536, 128]⟩ : Shape).Idx → EReal) (GD : (⟨2, ![65536, 128]⟩ : Shape).Idx → EReal) (GS : (⟨2, ![65536, 256]⟩ : Shape).Idx → EReal) (WC : S128x128.Idx → EReal) (BS : S1x128.Idx → EReal) (Gm Bt : S1x128.Idx → EReal) (p : Fin 1024) (q : Fin 128) (n : Fin 65536)
    (h0 : ∀ k, x0 (ix2 p k) = E (ix2 n k)) (h1 : ∀ k, x1 (ix2 p k) = GD (ix2 n ⟨k.val, by omega⟩)) (h2 : ∀ k, x2 (ix2 p k) = GS (ix2 n k))
    (h3 : x3 = WC) (h4 : x4 = BS) (h5 : x5 = Gm) (h6 : x6 = Bt) :
    k4_pay1 (k4_pay4 x0) (k4_pay7 x0 x2 x3 x1 x4 x5 x6) (ix2 p q) = enewAt (by omega : 128 ≤ 128) E GD GS WC BS Gm Bt n q := by
  subst h5 h6
  rw [edge4_new_apply, ehat4_row x0 x1 x2 x3 x4 E GD GS WC BS p n h0 h1 h2 h3 h4,
    show (fun k => x0 (ix2 p k)) = fun k => E (ix2 n k) from funext h0]
  rfl

theorem pt4_8hi (x0 x1 : Vec Ideal S1024x128 .f32) (x2 : Vec Ideal S1024x256 .f32) (x3 : Vec Ideal S128x128 .f32) (x4 : Vec Ideal S1x128 .f32)
    (E : (⟨2, ![65536, 128]⟩ : Shape).Idx → EReal) (GD : (⟨2, ![65536, 128]⟩ : Shape).Idx → EReal) (GS : (⟨2, ![65536, 256]⟩ : Shape).Idx → EReal) (WC : S128x128.Idx → EReal) (BS : S1x128.Idx → EReal) (p : Fin 1024) (q : Fin 128) (n : Fin 65536)
    (h0 : ∀ k, x0 (ix2 p k) = E (ix2 n k)) (h1 : ∀ k, x1 (ix2 p k) = GD (ix2 n ⟨k.val, by omega⟩)) (h2 : ∀ k, x2 (ix2 p k) = GS (ix2 n k))
    (h3 : x3 = WC) (h4 : x4 = BS) :
    k4_pay2 (k4_pay6 x0 x2 x3 x1 x4) (ix2 p q) = Spec.gate (ehatArr (by omega : 128 ≤ 128) E GD GS WC BS n) q := by
  rw [edge4_gate_apply, ehat4_row x0 x1 x2 x3 x4 E GD GS WC BS p n h0 h1 h2 h3 h4]

theorem pt4_8lo (x0 x1 : Vec Ideal S1024x128 .f32) (x2 : Vec Ideal S1024x256 .f32) (x3 : Vec Ideal S128x128 .f32) (x4 : Vec Ideal S1x128 .f32)
    (E : (⟨2, ![65536, 128]⟩ : Shape).Idx → EReal) (GD : (⟨2, ![65536, 128]⟩ : Shape).Idx → EReal) (GS : (⟨2, ![65536, 256]⟩ : Shape).Idx → EReal) (WC : S128x128.Idx → EReal) (BS : S1x128.Idx → EReal) (p : Fin 1024) (q : Fin 128) (n : Fin 65536)
    (h0 : ∀ k, x0 (ix2 p k) = E (ix2 n k)) (h1 : ∀ k, x1 (ix2 p k) = GD (ix2 n ⟨k.val, by omega⟩)) (h2 : ∀ k, x2 (ix2 p k) = GS (ix2 n k))
    (h3 : x3 = WC) (h4 : x4 = BS) :
    k4_pay3 (k4_pay5 x2) (k4_pay6 x0 x2 x3 x1 x4) (ix2 p q)
      = Spec.gate (ehatArr (by omega : 128 ≤ 128) E GD GS WC BS n) q * GS (ix2 n ⟨q.val, by omega⟩) := by
  rw [edge4_msg_apply, ehat4_row x0 x1 x2 x3 x4 E GD GS WC BS p n h0 h1 h2 h3 h4, h2]
  exact congrArg (fun z => Spec.gate (ehatArr (by omega : 128 ≤ 128) E GD GS WC BS n) q * GS (ix2 n z)) (Fin.ext (Nat.zero_add _))

theorem flushed4_7 (c : Dev nD) (t : Fin cfg4.N) :
    (dat4 V c).flushed 7 t = ((cfg4.win 7).blk t).view.read (Elt Ideal) (G4_7 (V c main_v50) (V c main_v36) (V c main_v43) (V c main_arg41) (V c main_v52) (V c main_arg45) (V c main_arg46)) := by
  show (cfg4.win 7).cut (grid4.coords t) ((dat4 V c).after 7 t) = _
  rw [after4_7]
  unfold out4_7
  rw [View.canon_unit_zero hz2]
  simp only [View.ld_unit_zero (S := S1024x128) hz2, View.ld_unit_zero (S := S1024x256) hz2, View.ld_unit_zero (S := S128x128) hz2, View.ld_unit_zero (S := S1x128) hz2]
  funext j
  obtain ⟨p, q, rfl⟩ : ∃ (p : Fin 1024) (q : Fin 128), j = ix2 p q := ⟨j 0, j 1, eq_ix2 j⟩
  show k4_pay1 (k4_pay4 (iblk4 V c 0 t)) (k4_pay7 (iblk4 V c 0 t) (iblk4 V c 2 t) (iblk4 V c 3 t) (iblk4 V c 1 t) (iblk4 V c 4 t) (iblk4 V c 5 t) (iblk4 V c 6 t)) (ix2 p q)
      = G4_7 (V c main_v50) (V c main_v36) (V c main_v43) (V c main_arg41) (V c main_v52) (V c main_arg45) (V c main_arg46) (((cfg4.win 7).blk t).view.emb (ix2 p q))
  refine (pt4_7 (iblk4 V c 0 t) (iblk4 V c 1 t) (iblk4 V c 2 t) (iblk4 V c 3 t) (iblk4 V c 4 t) (iblk4 V c 5 t) (iblk4 V c 6 t) (V c main_v50) (V c main_v36) (V c main_v43) (V c main_arg41) (V c main_v52) (V c main_arg45) (V c main_arg46) p q
    ⟨t.val * 1024 + p.val, by have := t_lt4 t; omega⟩ (fun k => blk4_0 V c t p k) (fun k => blk4_1 V c t p k) (fun k => blk4_2 V c t p k) (blk4_3 V c t) (blk4_4 V c t) (blk4_5 V c t) (blk4_6 V c t)).trans ?_
  obtain ⟨-, -, -, -, -, -, -, -, -, -, -, -, -, -, e7_0, e7_1, -, -⟩ := idx4 t
  have hemb : ((cfg4.win 7).blk t).view.emb (ix2 p q) = ix2 ⟨t.val * 1024 + p.val, by have := t_lt4 t; omega⟩ q :=
    funext fun a => Fin.ext (by
      match a with
      | ⟨0, _⟩ => show win4_7.index t (0 : Fin 2) * 1024 + 1 * p.val = t.val * 1024 + p.val; omega
      | ⟨1, _⟩ => show win4_7.index t (1 : Fin 2) * 128 + 1 * q.val = q.val; omega)
  exact ((congrArg (G4_7 (V c main_v50) (V c main_v36) (V c main_v43) (V c main_arg41) (V c main_v52) (V c main_arg45) (V c main_arg46)) hemb).trans rfl).symm

theorem flushed4_8 (c : Dev nD) (t : Fin cfg4.N) :
    (dat4 V c).flushed 8 t = ((cfg4.win 8).blk t).view.read (Elt Ideal) (G4_8 (V c main_v50) (V c main_v36) (V c main_v43) (V c main_arg41) (V c main_v52)) := by
  show (cfg4.win 8).cut (grid4.coords t) ((dat4 V c).after 8 t) = _
  rw [after4_8]
  unfold out4_8
  simp only [View.ld_unit_zero (S := S1024x128) hz2, View.ld_unit_zero (S := S1024x256) hz2, View.ld_unit_zero (S := S128x128) hz2, View.ld_unit_zero (S := S1x128) hz2]
  funext j
  obtain ⟨p, l, rfl⟩ : ∃ (p : Fin 1024) (l : Fin 256), j = ix2 p l := ⟨j 0, j 1, eq_ix2 j⟩
  show View.canon (Val := Elt Ideal) (s := S1024x256) (e := .f32)
        [⟨r4_5, k4_pay2 (k4_pay6 (iblk4 V c 0 t) (iblk4 V c 2 t) (iblk4 V c 3 t) (iblk4 V c 1 t) (iblk4 V c 4 t))⟩, ⟨r4_4, k4_pay3 (k4_pay5 (iblk4 V c 2 t)) (k4_pay6 (iblk4 V c 0 t) (iblk4 V c 2 t) (iblk4 V c 3 t) (iblk4 V c 1 t) (iblk4 V c 4 t))⟩] (ix2 p l)
      = G4_8 (V c main_v50) (V c main_v36) (V c main_v43) (V c main_arg41) (V c main_v52) (((cfg4.win 8).blk t).view.emb (ix2 p l))
  rw [canon_halves]
  obtain ⟨-, -, -, -, -, -, -, -, -, -, -, -, -, -, -, -, e8_0, e8_1⟩ := idx4 t
  have hemb : ((cfg4.win 8).blk t).view.emb (ix2 p l) = ix2 ⟨t.val * 1024 + p.val, by have := t_lt4 t; omega⟩ l :=
    funext fun a => Fin.ext (by
      match a with
      | ⟨0, _⟩ => show win4_8.index t (0 : Fin 2) * 1024 + 1 * p.val = t.val * 1024 + p.val; omega
      | ⟨1, _⟩ => show win4_8.index t (1 : Fin 2) * 256 + 1 * l.val = l.val; omega)
  refine Eq.trans ?_ ((congrArg (G4_8 (V c main_v50) (V c main_v36) (V c main_v43) (V c main_arg41) (V c main_v52)) hemb).trans rfl).symm
  show _ = msAt (by omega : 128 ≤ 128) (V c main_v50) (V c main_v36) (V c main_v43) (V c main_arg41) (V c main_v52) ⟨t.val * 1024 + p.val, by have := t_lt4 t; omega⟩ l
  unfold msAt
  by_cases h : l.val < 128
  · rw [dif_pos h, dif_pos h]
    exact pt4_8lo (iblk4 V c 0 t) (iblk4 V c 1 t) (iblk4 V c 2 t) (iblk4 V c 3 t) (iblk4 V c 4 t) (V c main_v50) (V c main_v36) (V c main_v43) (V c main_arg41) (V c main_v52) p ⟨l.val, h⟩ _ (fun k => blk4_0 V c t p k) (fun k => blk4_1 V c t p k) (fun k => blk4_2 V c t p k) (blk4_3 V c t) (blk4_4 V c t)
  · rw [dif_neg h, dif_neg h]
    exact pt4_8hi (iblk4 V c 0 t) (iblk4 V c 1 t) (iblk4 V c 2 t) (iblk4 V c 3 t) (iblk4 V c 4 t) (V c main_v50) (V c main_v36) (V c main_v43) (V c main_arg41) (V c main_v52) p ⟨l.val - 128, by omega⟩ _ (fun k => blk4_0 V c t p k) (fun k => blk4_1 V c t p k) (fun k => blk4_2 V c t p k) (blk4_3 V c t) (blk4_4 V c t)

/-- Membership in window 7's block at point `t`, coordinate by coordinate. -/
theorem mem_blk4_7 (t : Fin cfg4.N) (i : S65536x128.Idx) :
    i ∈ ((cfg4.win 7).blk t).view.set ↔ ∀ a : Fin 2, win4_7.index t a * S1024x128.size a ≤ (i a).val ∧ (i a).val < win4_7.index t a * S1024x128.size a + S1024x128.size a := by
  show i ∈ ((View.whole main_v53_0).slice (win4_7.rect t)).set ↔ _
  rw [View.set_slice_whole, Rect.mem_set_unit]
  exact Iff.rfl

/-- Every row of the array lies in the block of the point `row / 1024`. -/
theorem covered4_7 (i : S65536x128.Idx) : ∃ t : Fin cfg4.N, (cfg4.win 7).flush t = true ∧ i ∈ ((cfg4.win 7).blk t).view.set := by
  have hi0 : (i 0).val < 65536 := (i 0).isLt
  have hi1 : (i 1).val < 128 := (i 1).isLt
  have hN : cfg4.N = 64 := N_4
  let t : Fin cfg4.N := ⟨(i 0).val / 1024, by rw [hN]; omega⟩
  obtain ⟨-, -, -, -, -, -, -, -, -, -, -, -, -, -, e7_0, e7_1, -, -⟩ := idx4 t
  refine ⟨t, flush4_7 t, ?_⟩
  rw [mem_blk4_7]
  intro a
  match a with
  | ⟨0, _⟩ =>
    show win4_7.index t (0 : Fin 2) * 1024 ≤ (i 0).val ∧ (i 0).val < win4_7.index t (0 : Fin 2) * 1024 + 1024
    rw [e7_0]
    show (i 0).val / 1024 * 1024 ≤ (i 0).val ∧ (i 0).val < (i 0).val / 1024 * 1024 + 1024
    omega
  | ⟨1, _⟩ =>
    show win4_7.index t (1 : Fin 2) * 128 ≤ (i 1).val ∧ (i 1).val < win4_7.index t (1 : Fin 2) * 128 + 128
    omega

/-- Membership in window 8's block at point `t`, coordinate by coordinate. -/
theorem mem_blk4_8 (t : Fin cfg4.N) (i : S65536x256.Idx) :
    i ∈ ((cfg4.win 8).blk t).view.set ↔ ∀ a : Fin 2, win4_8.index t a * S1024x256.size a ≤ (i a).val ∧ (i a).val < win4_8.index t a * S1024x256.size a + S1024x256.size a := by
  show i ∈ ((View.whole main_v53_1).slice (win4_8.rect t)).set ↔ _
  rw [View.set_slice_whole, Rect.mem_set_unit]
  exact Iff.rfl

/-- Every row of the array lies in the block of the point `row / 1024`. -/
theorem covered4_8 (i : S65536x256.Idx) : ∃ t : Fin cfg4.N, (cfg4.win 8).flush t = true ∧ i ∈ ((cfg4.win 8).blk t).view.set := by
  have hi0 : (i 0).val < 65536 := (i 0).isLt
  have hi1 : (i 1).val < 256 := (i 1).isLt
  have hN : cfg4.N = 64 := N_4
  let t : Fin cfg4.N := ⟨(i 0).val / 1024, by rw [hN]; omega⟩
  obtain ⟨-, -, -, -, -, -, -, -, -, -, -, -, -, -, -, -, e8_0, e8_1⟩ := idx4 t
  refine ⟨t, flush4_8 t, ?_⟩
  rw [mem_blk4_8]
  intro a
  match a with
  | ⟨0, _⟩ =>
    show win4_8.index t (0 : Fin 2) * 1024 ≤ (i 0).val ∧ (i 0).val < win4_8.index t (0 : Fin 2) * 1024 + 1024
    rw [e8_0]
    show (i 0).val / 1024 * 1024 ≤ (i 0).val ∧ (i 0).val < (i 0).val / 1024 * 1024 + 1024
    omega
  | ⟨1, _⟩ =>
    show win4_8.index t (1 : Fin 2) * 256 ≤ (i 1).val ∧ (i 1).val < win4_8.index t (1 : Fin 2) * 256 + 256
    omega

/-- The arrays after the region. -/
theorem final4_7 (c : Dev nD) : (dat4 V c).arrAt 7 cfg4.N = G4_7 (V c main_v50) (V c main_v36) (V c main_v43) (V c main_arg41) (V c main_v52) (V c main_arg45) (V c main_arg46) :=
  (dat4 V c).arrAt_eq_of_cover 7 _ (fun t _ => flushed4_7 V c t) covered4_7
theorem final4_8 (c : Dev nD) : (dat4 V c).arrAt 8 cfg4.N = G4_8 (V c main_v50) (V c main_v36) (V c main_v43) (V c main_arg41) (V c main_v52) :=
  (dat4 V c).arrAt_eq_of_cover 8 _ (fun t _ => flushed4_8 V c t) covered4_8

end Region4

end Cert.KernelIdeal.Val

end
-- ==== Proof.KV.Fin6.lean ====
/-
  Region 6 (a node update): the output array after the region as one function of the region's input arrays,
  index by index.
-/
import proofs.«117664_g2000706958607885_pallasbulk_534_41_alg».proof.Proof.KI.Half6
import proofs.«117664_g2000706958607885_pallasbulk_534_41_alg».proof.Proof.KV.NodeUpd
import proofs.«117664_g2000706958607885_pallasbulk_534_41_alg».proof.Proof.KV.FinCommon
import Idealize.ShloMosaic.Lib.Pipeline.Value

set_option maxRecDepth 16384

noncomputable section

namespace Cert.KernelIdeal.Val

open Cert.KernelIdeal Cert.KernelIdeal.Gen Cert.KernelIdeal.Fr
open Idealize.ShloMosaic Idealize.ShloMosaic.ValueIdx Idealize.ShloMosaic.TcCoe Idealize.SL.Sem
open Idealize.ShloMosaic.Pipeline (Dat)
open scoped BigOperators

section Region6
variable (V : (c : Dev nD) → (b : Ref sig .tc) → Buf (Elt Ideal) ((c : Thread nD τ).loc b))

/-- The printed index maps over the grid: a row window's block index is the grid point, a whole window's is zero. -/
theorem idx6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

theorem t_lt6 (t : Fin cfg6.N) : t.val < 16 := lt_of_lt_of_eq t.isLt N_6

/-- Row `p` of window 0's block at point `t` is row `t · 1024 + p` of its array. -/
theorem blk6_0 (c : Dev nD) (t : Fin cfg6.N) (p : Fin 1024) (k : Fin 128) :
    iblk6 V c 0 t (ix2 p k) = V c main_arg0 (ix2 ⟨t.val * 1024 + p.val, by have := t_lt6 t; omega⟩ k) := by
  show V c main_arg0 (((cfg6.win 0).blk t).view.emb (ix2 p k)) = _
  refine congrArg (V c main_arg0) (funext fun a => Fin.ext ?_)
  obtain ⟨e0_0, e0_1, -, -, -, -, -, -, -, -, -, -⟩ := idx6 t
  match a with
  | ⟨0, _⟩ => show win6_0.index t (0 : Fin 2) * 1024 + 1 * p.val = t.val * 1024 + p.val; omega
  | ⟨1, _⟩ => show win6_0.index t (1 : Fin 2) * 128 + 1 * k.val = k.val; omega

/-- Row `p` of window 1's block at point `t` is row `t · 1024 + p` of its array. -/
theorem blk6_1 (c : Dev nD) (t : Fin cfg6.N) (p : Fin 1024) (k : Fin 128) :
    iblk6 V c 1 t (ix2 p k) = V c main_v29_0 (ix2 ⟨t.val * 1024 + p.val, by have := t_lt6 t; omega⟩ k) := by
  show V c main_v29_0 (((cfg6.win 1).blk t).view.emb (ix2 p k)) = _
  refine congrArg (V c main_v29_0) (funext fun a => Fin.ext ?_)
  obtain ⟨-, -, e1_0, e1_1, -, -, -, -, -, -, -, -⟩ := idx6 t
  match a with
  | ⟨0, _⟩ => show win6_1.index t (0 : Fin 2) * 1024 + 1 * p.val = t.val * 1024 + p.val; omega
  | ⟨1, _⟩ => show win6_1.index t (1 : Fin 2) * 128 + 1 * k.val = k.val; omega

/-- Row `p` of window 2's block at point `t` is row `t · 1024 + p` of its array. -/
theorem blk6_2 (c : Dev nD) (t : Fin cfg6.N) (p : Fin 1024) (k : Fin 256) :
    iblk6 V c 2 t (ix2 p k) = V c main_v74 (ix2 ⟨t.val * 1024 + p.val, by have := t_lt6 t; omega⟩ k) := by
  show V c main_v74 (((cfg6.win 2).blk t).view.emb (ix2 p k)) = _
  refine congrArg (V c main_v74) (funext fun a => Fin.ext ?_)
  obtain ⟨-, -, -, -, e2_0, e2_1, -, -, -, -, -, -⟩ := idx6 t
  match a with
  | ⟨0, _⟩ => show win6_2.index t (0 : Fin 2) * 1024 + 1 * p.val = t.val * 1024 + p.val; omega
  | ⟨1, _⟩ => show win6_2.index t (1 : Fin 2) * 256 + 1 * k.val = k.val; omega

/-- Window 3's block is its whole array. -/
theorem blk6_3 (c : Dev nD) (t : Fin cfg6.N) : iblk6 V c 3 t = V c main_arg43 := by
  funext j
  show V c main_arg43 (((cfg6.win 3).blk t).view.emb j) = V c main_arg43 j
  refine congrArg (V c main_arg43) (funext fun a => Fin.ext ?_)
  obtain ⟨-, -, -, -, -, -, e3_0, e3_1, -, -, -, -⟩ := idx6 t
  match a with
  | ⟨0, _⟩ => show win6_3.index t (0 : Fin 2) * 1 + 1 * (j 0).val = (j 0).val; omega
  | ⟨1, _⟩ => show win6_3.index t (1 : Fin 2) * 128 + 1 * (j 1).val = (j 1).val; omega

/-- Window 4's block is its whole array. -/
theorem blk6_4 (c : Dev nD) (t : Fin cfg6.N) : iblk6 V c 4 t = V c main_arg44 := by
  funext j
  show V c main_arg44 (((cfg6.win 4).blk t).view.emb j) = V c main_arg44 j
  refine congrArg (V c main_arg44) (funext fun a => Fin.ext ?_)
  obtain ⟨-, -, -, -, -, -, -, -, e4_0, e4_1, -, -⟩ := idx6 t
  match a with
  | ⟨0, _⟩ => show win6_4.index t (0 : Fin 2) * 1 + 1 * (j 0).val = (j 0).val; omega
  | ⟨1, _⟩ => show win6_4.index t (1 : Fin 2) * 128 + 1 * (j 1).val = (j 1).val; omega

/-- Window 5's array after region 6. -/
def G6_5 (X HS : (⟨2, ![16384, 128]⟩ : Shape).Idx → EReal) (AGG : (⟨2, ![16384, 256]⟩ : Shape).Idx → EReal) (Gm Bt : S1x128.Idx → EReal) : S16384x128.Idx → EReal :=
  fun i => updAt X HS AGG Gm Bt ⟨(i 0).val, idx2_lt0 i⟩ ⟨(i 1).val, idx2_lt1 i⟩

theorem pt6_5 (x0 x1 : Vec Ideal S1024x128 .f32) (x2 : Vec Ideal S1024x256 .f32) (x3 x4 : Vec Ideal S1x128 .f32)
    (X HS : (⟨2, ![16384, 128]⟩ : Shape).Idx → EReal) (AGG : (⟨2, ![16384, 256]⟩ : Shape).Idx → EReal) (Gm Bt : S1x128.Idx → EReal) (p : Fin 1024) (q : Fin 128) (n : Fin 16384)
    (h0 : ∀ k, x0 (ix2 p k) = X (ix2 n k)) (h1 : ∀ k, x1 (ix2 p k) = HS (ix2 n k)) (h2 : ∀ k, x2 (ix2 p k) = AGG (ix2 n k))
    (h3 : x3 = Gm) (h4 : x4 = Bt) :
    k6_pay1 x2 x1 x0 x3 x4 (ix2 p q) = updAt X HS AGG Gm Bt n q := by
  subst h3 h4
  rw [k6_pay1_apply]
  unfold updAt
  rw [show (fun k => x0 (ix2 p k)) = fun k => X (ix2 n k) from funext h0,
    show (fun k => x1 (ix2 p k)) = fun k => HS (ix2 n k) from funext h1,
    show (fun k : Fin 128 => x2 (ix2 p ⟨0 + k.val, by omega⟩)) = fun k => AGG (ix2 n ⟨k.val, by omega⟩) from
      funext fun k => (h2 _).trans (congrArg AGG (congrArg (ix2 n) (Fin.ext (Nat.zero_add _)))),
    show (fun k : Fin 128 => x2 (ix2 p ⟨128 + k.val, by omega⟩)) = fun k => AGG (ix2 n ⟨128 + k.val, by omega⟩) from
      funext fun k => h2 _]

theorem flushed6_5 (c : Dev nD) (t : Fin cfg6.N) :
    (dat6 V c).flushed 5 t = ((cfg6.win 5).blk t).view.read (Elt Ideal) (G6_5 (V c main_arg0) (V c main_v29_0) (V c main_v74) (V c main_arg43) (V c main_arg44)) := by
  show (cfg6.win 5).cut (grid6.coords t) ((dat6 V c).after 5 t) = _
  rw [after6_5]
  unfold out6_5
  rw [View.canon_unit_zero hz2]
  simp only [View.ld_unit_zero (S := S1024x128) hz2, View.ld_unit_zero (S := S1024x256) hz2, View.ld_unit_zero (S := S1x128) hz2]
  funext j
  obtain ⟨p, q, rfl⟩ : ∃ (p : Fin 1024) (q : Fin 128), j = ix2 p q := ⟨j 0, j 1, eq_ix2 j⟩
  show k6_pay1 (iblk6 V c 2 t) (iblk6 V c 1 t) (iblk6 V c 0 t) (iblk6 V c 3 t) (iblk6 V c 4 t) (ix2 p q)
      = G6_5 (V c main_arg0) (V c main_v29_0) (V c main_v74) (V c main_arg43) (V c main_arg44) (((cfg6.win 5).blk t).view.emb (ix2 p q))
  refine (pt6_5 (iblk6 V c 0 t) (iblk6 V c 1 t) (iblk6 V c 2 t) (iblk6 V c 3 t) (iblk6 V c 4 t) (V c main_arg0) (V c main_v29_0) (V c main_v74) (V c main_arg43) (V c main_arg44) p q
    ⟨t.val * 1024 + p.val, by have := t_lt6 t; omega⟩ (fun k => blk6_0 V c t p k) (fun k => blk6_1 V c t p k)
    (fun k => blk6_2 V c t p k) (blk6_3 V c t) (blk6_4 V c t)).trans ?_
  obtain ⟨-, -, -, -, -, -, -, -, -, -, e5_0, e5_1⟩ := idx6 t
  have hemb : ((cfg6.win 5).blk t).view.emb (ix2 p q) = ix2 ⟨t.val * 1024 + p.val, by have := t_lt6 t; omega⟩ q :=
    funext fun a => Fin.ext (by
      match a with
      | ⟨0, _⟩ => show win6_5.index t (0 : Fin 2) * 1024 + 1 * p.val = t.val * 1024 + p.val; omega
      | ⟨1, _⟩ => show win6_5.index t (1 : Fin 2) * 128 + 1 * q.val = q.val; omega)
  exact ((congrArg (G6_5 (V c main_arg0) (V c main_v29_0) (V c main_v74) (V c main_arg43) (V c main_arg44)) hemb).trans rfl).symm

/-- Membership in window 5's block at point `t`, coordinate by coordinate. -/
theorem mem_blk6_5 (t : Fin cfg6.N) (i : S16384x128.Idx) :
    i ∈ ((cfg6.win 5).blk t).view.set ↔ ∀ a : Fin 2, win6_5.index t a * S1024x128.size a ≤ (i a).val ∧ (i a).val < win6_5.index t a * S1024x128.size a + S1024x128.size a := by
  show i ∈ ((View.whole main_v75).slice (win6_5.rect t)).set ↔ _
  rw [View.set_slice_whole, Rect.mem_set_unit]
  exact Iff.rfl

/-- Every row of the array lies in the block of the point `row / 1024`. -/
theorem covered6_5 (i : S16384x128.Idx) : ∃ t : Fin cfg6.N, (cfg6.win 5).flush t = true ∧ i ∈ ((cfg6.win 5).blk t).view.set := by
  have hi0 : (i 0).val < 16384 := (i 0).isLt
  have hi1 : (i 1).val < 128 := (i 1).isLt
  have hN : cfg6.N = 16 := N_6
  let t : Fin cfg6.N := ⟨(i 0).val / 1024, by rw [hN]; omega⟩
  obtain ⟨-, -, -, -, -, -, -, -, -, -, e5_0, e5_1⟩ := idx6 t
  refine ⟨t, flush6_5 t, ?_⟩
  rw [mem_blk6_5]
  intro a
  match a with
  | ⟨0, _⟩ =>
    show win6_5.index t (0 : Fin 2) * 1024 ≤ (i 0).val ∧ (i 0).val < win6_5.index t (0 : Fin 2) * 1024 + 1024
    rw [e5_0]
    show (i 0).val / 1024 * 1024 ≤ (i 0).val ∧ (i 0).val < (i 0).val / 1024 * 1024 + 1024
    omega
  | ⟨1, _⟩ =>
    show win6_5.index t (1 : Fin 2) * 128 ≤ (i 1).val ∧ (i 1).val < win6_5.index t (1 : Fin 2) * 128 + 128
    omega

/-- The array after the region. -/
theorem final6_5 (c : Dev nD) : (dat6 V c).arrAt 5 cfg6.N = G6_5 (V c main_arg0) (V c main_v29_0) (V c main_v74) (V c main_arg43) (V c main_arg44) :=
  (dat6 V c).arrAt_eq_of_cover 5 _ (fun t _ => flushed6_5 V c t) covered6_5

end Region6

end Cert.KernelIdeal.Val

end
-- ==== Proof.KV.Host6to11.lean ====
/-
  The seventh to twelfth host stretches, for any contents X of the buffers at the start of each: the second
  round's gathers, scatter-adds, concatenated weights and biases, and bias sums, each read at an index as in
  the first round; and every buffer a stretch does not write keeps its contents.
-/
import proofs.«117664_g2000706958607885_pallasbulk_534_41_alg».proof.Proof.KV.HostLib

set_option maxRecDepth 1876

noncomputable section

namespace Cert.KernelIdeal.Val

open Idealize.ShloMosaic Idealize.ShloMosaic.ValueIdx Idealize.ShloMosaic.TcCoe
open Cert.KernelIdeal Cert.KernelIdeal.Gen Cert.HostRead
open scoped BigOperators

variable (X : Valuation τ sig (Elt Ideal))

/-! ## Host stretch 6 -/

/-- The buffer is the gather of rows at the index vector, its negative entries wrapped by 65536. -/
theorem host6_v64_term :
    StableHlo.after (hostOps6 (F := Ideal)) X (Proc.devRef .tc main_v64)
      = Host.gather gather_S65536x256_S131072x1_S131072x256_1_0_n_n_0_1_1256 (X (Proc.devRef .tc main_v57_1))
          (broadcastInDim S131072x1 ![0] bcast_S131072_S131072x1_0
            (select (cmpi .slt (X (Proc.devRef .tc main_v3)) (broadcastInDim S131072 ![] bcast_S_S131072 (constantI S_ 32 0#32)))
              (addi (X (Proc.devRef .tc main_v3)) (broadcastInDim S131072 ![] bcast_S_S131072 (constantI S_ 32 65536#32)))
              (X (Proc.devRef .tc main_v3)))) := by
  after_results_simp <;> rfl

/-- Row t of the buffer is row d of the source, where d is the index of t. -/
theorem host6_v64 (t : Fin 131072) (q : Fin 256) (d : Fin 65536) (hd : (X main_v3 (ix1 t)).toInt = (d.val : Int)) :
    StableHlo.after hostOps6 X main_v64 (ix2 t q) = X main_v57_1 (ix2 d q) := by
  rw [host6_v64_term]
  exact wrapped_gather_apply (N := 65536) (C := 256) (E := 131072) gather_S65536x256_S131072x1_S131072x256_1_0_n_n_0_1_1256_wf
    _ _ _ _ _ (fun _ => rfl) t q d hd

/-- The buffer is the gather of rows at the index vector, its negative entries wrapped by 65536. -/
theorem host6_v71_term :
    StableHlo.after (hostOps6 (F := Ideal)) X (Proc.devRef .tc main_v71)
      = Host.gather gather_S65536x256_S131072x1_S131072x256_1_0_n_n_0_1_1256 (X (Proc.devRef .tc main_v57_2))
          (broadcastInDim S131072x1 ![0] bcast_S131072_S131072x1_0
            (select (cmpi .slt (X (Proc.devRef .tc main_v1)) (broadcastInDim S131072 ![] bcast_S_S131072 (constantI S_ 32 0#32)))
              (addi (X (Proc.devRef .tc main_v1)) (broadcastInDim S131072 ![] bcast_S_S131072 (constantI S_ 32 65536#32)))
              (X (Proc.devRef .tc main_v1)))) := by
  after_results_simp <;> rfl

/-- Row t of the buffer is row d of the source, where d is the index of t. -/
theorem host6_v71 (t : Fin 131072) (q : Fin 256) (d : Fin 65536) (hd : (X main_v1 (ix1 t)).toInt = (d.val : Int)) :
    StableHlo.after hostOps6 X main_v71 (ix2 t q) = X main_v57_2 (ix2 d q) := by
  rw [host6_v71_term]
  exact wrapped_gather_apply (N := 65536) (C := 256) (E := 131072) gather_S65536x256_S131072x1_S131072x256_1_0_n_n_0_1_1256_wf
    _ _ _ _ _ (fun _ => rfl) t q d hd

/-- The buffer is the scatter-add of the update rows into a zero array at the index vector. -/
theorem host6_v74_term :
    StableHlo.after (hostOps6 (F := Ideal)) X (Proc.devRef .tc main_v74)
      = Host.scatterAdd scatter_S16384x256_S65536x1_S65536x256_1_0_0_1
          (broadcastInDim S16384x256 ![] bcast_S_S16384x256 (constant (F := Ideal) S_ .f32 0x00000000#32))
          (broadcastInDim S65536x1 ![0] bcast_S65536_S65536x1_0 (X (Proc.devRef .tc main_v7)))
          (X (Proc.devRef .tc main_v53_1)) := by
  after_results_simp <;> rfl

/-- At (n, q) the buffer is the literal zero plus the sum of the update rows whose index is n, at lane q. -/
theorem host6_v74 (dst : Fin 65536 → Fin 16384) (hdst : ∀ t, (X main_v7 (ix1 t)).toInt = ((dst t).val : Int))
    (n : Fin 16384) (q : Fin 256) :
    StableHlo.after hostOps6 X main_v74 (ix2 n q)
      = Cert.Spec.cZero + ∑ t : Fin 65536, if dst t = n then asReal (s := S65536x256) (X main_v53_1) (ix2 t q) else 0 := by
  rw [host6_v74_term]
  exact col_scatterAdd_zero_apply (N := 16384) (C := 256) (E := 65536) scatter_S16384x256_S65536x1_S65536x256_1_0_0_1_wf
    _ _ _ _ dst hdst Cert.Spec.cZero (fun _ => rfl) n q

/-- A buffer the stretch does not write keeps its contents. -/
theorem host6_keep (b : DevRef τ sig) (hb : b ∉ (hostOps6_W.map (Proc.devRef (τ := τ) .tc)).toFinset) :
    StableHlo.after hostOps6 X b = X b :=
  StableHlo.after_of_forall_not_mem _ X fun op hop hb' => hb (List.forall_iff_forall_mem.mp hostOps6_writes op hop hb')

/-! ## Host stretch 7 -/

/-- The buffer is the four 128 × 128 matrices side by side. -/
theorem host7_v76_term :
    StableHlo.after (hostOps7 (F := Ideal)) X (Proc.devRef .tc main_v76)
      = concatenate S128x512 1 [⟨S128x128, (X (Proc.devRef .tc main_arg47))⟩, ⟨S128x128, (X (Proc.devRef .tc main_arg49))⟩,
          ⟨S128x128, (X (Proc.devRef .tc main_arg53))⟩, ⟨S128x128, (X (Proc.devRef .tc main_arg51))⟩]
          concatenates_S128x128_S128x128_S128x128_S128x128_S128x512_d1 := by
  after_results_simp <;> rfl

theorem host7_v76_0 (k : Fin 128) (q : Fin 128) :
    StableHlo.after hostOps7 X main_v76 (ix2 k ⟨0 + q.val, by omega⟩) = X main_arg47 (ix2 k q) := by
  rw [host7_v76_term]
  exact concat4_lane0 (R := 128) _ _ _ _ _ k q

theorem host7_v76_1 (k : Fin 128) (q : Fin 128) :
    StableHlo.after hostOps7 X main_v76 (ix2 k ⟨128 + q.val, by omega⟩) = X main_arg49 (ix2 k q) := by
  rw [host7_v76_term]
  exact concat4_lane1 (R := 128) _ _ _ _ _ k q

theorem host7_v76_2 (k : Fin 128) (q : Fin 128) :
    StableHlo.after hostOps7 X main_v76 (ix2 k ⟨256 + q.val, by omega⟩) = X main_arg53 (ix2 k q) := by
  rw [host7_v76_term]
  exact concat4_lane2 (R := 128) _ _ _ _ _ k q

theorem host7_v76_3 (k : Fin 128) (q : Fin 128) :
    StableHlo.after hostOps7 X main_v76 (ix2 k ⟨384 + q.val, by omega⟩) = X main_arg51 (ix2 k q) := by
  rw [host7_v76_term]
  exact concat4_lane3 (R := 128) _ _ _ _ _ k q

/-- The buffer is two 1 × 128 rows followed by two rows of the literal zero. -/
theorem host7_v78_term :
    StableHlo.after (hostOps7 (F := Ideal)) X (Proc.devRef .tc main_v78)
      = concatenate S1x512 1 [⟨S1x128, (X (Proc.devRef .tc main_arg48))⟩, ⟨S1x128, (X (Proc.devRef .tc main_arg50))⟩,
          ⟨S1x128, broadcastInDim S1x128 ![] bcast_S_S1x128 (constant (F := Ideal) S_ .f32 0x00000000#32)⟩,
          ⟨S1x128, broadcastInDim S1x128 ![] bcast_S_S1x128 (constant (F := Ideal) S_ .f32 0x00000000#32)⟩]
          concatenates_S1x128_S1x128_S1x128_S1x128_S1x512_d1 := by
  after_results_simp <;> rfl

theorem host7_v78_0 (q : Fin 128) :
    StableHlo.after hostOps7 X main_v78 (ix2 (0 : Fin 1) ⟨0 + q.val, by omega⟩) = X main_arg48 (ix2 (0 : Fin 1) q) := by
  rw [host7_v78_term]
  exact concat4_lane0 (R := 1) _ _ _ _ _ 0 q

theorem host7_v78_1 (q : Fin 128) :
    StableHlo.after hostOps7 X main_v78 (ix2 (0 : Fin 1) ⟨128 + q.val, by omega⟩) = X main_arg50 (ix2 (0 : Fin 1) q) := by
  rw [host7_v78_term]
  exact concat4_lane1 (R := 1) _ _ _ _ _ 0 q

theorem host7_v78_2 (q : Fin 128) :
    StableHlo.after hostOps7 X main_v78 (ix2 (0 : Fin 1) ⟨256 + q.val, by omega⟩) = Cert.Spec.cZero := by
  rw [host7_v78_term]
  exact concat4_lane2 (R := 1) _ _ _ _ _ 0 q

theorem host7_v78_3 (q : Fin 128) :
    StableHlo.after hostOps7 X main_v78 (ix2 (0 : Fin 1) ⟨384 + q.val, by omega⟩) = Cert.Spec.cZero := by
  rw [host7_v78_term]
  exact concat4_lane3 (R := 1) _ _ _ _ _ 0 q

/-- A buffer the stretch does not write keeps its contents. -/
theorem host7_keep (b : DevRef τ sig) (hb : b ∉ (hostOps7_W.map (Proc.devRef (τ := τ) .tc)).toFinset) :
    StableHlo.after hostOps7 X b = X b :=
  StableHlo.after_of_forall_not_mem _ X fun op hop hb' => hb (List.forall_iff_forall_mem.mp hostOps7_writes op hop hb')

/-! ## Host stretch 8 -/

/-- The buffer is the gather of rows at the index vector, its negative entries wrapped by 16384. -/
theorem host8_v86_term :
    StableHlo.after (hostOps8 (F := Ideal)) X (Proc.devRef .tc main_v86)
      = Host.gather gather_S16384x128_S65536x1_S65536x128_1_0_n_n_0_1_1128 (X (Proc.devRef .tc main_v79_1))
          (broadcastInDim S65536x1 ![0] bcast_S65536_S65536x1_0
            (select (cmpi .slt (X (Proc.devRef .tc main_v7)) (broadcastInDim S65536 ![] bcast_S_S65536 (constantI S_ 32 0#32)))
              (addi (X (Proc.devRef .tc main_v7)) (broadcastInDim S65536 ![] bcast_S_S65536 (constantI S_ 32 16384#32)))
              (X (Proc.devRef .tc main_v7)))) := by
  after_results_simp <;> rfl

/-- Row t of the buffer is row d of the source, where d is the index of t. -/
theorem host8_v86 (t : Fin 65536) (q : Fin 128) (d : Fin 16384) (hd : (X main_v7 (ix1 t)).toInt = (d.val : Int)) :
    StableHlo.after hostOps8 X main_v86 (ix2 t q) = X main_v79_1 (ix2 d q) := by
  rw [host8_v86_term]
  exact wrapped_gather_apply (N := 16384) (C := 128) (E := 65536) gather_S16384x128_S65536x1_S65536x128_1_0_n_n_0_1_1128_wf
    _ _ _ _ _ (fun _ => rfl) t q d hd

/-- The buffer is the gather of rows at the index vector, its negative entries wrapped by 16384. -/
theorem host8_v93_term :
    StableHlo.after (hostOps8 (F := Ideal)) X (Proc.devRef .tc main_v93)
      = Host.gather gather_S16384x256_S65536x1_S65536x256_1_0_n_n_0_1_1256 (X (Proc.devRef .tc main_v79_2))
          (broadcastInDim S65536x1 ![0] bcast_S65536_S65536x1_0
            (select (cmpi .slt (X (Proc.devRef .tc main_v5)) (broadcastInDim S65536 ![] bcast_S_S65536 (constantI S_ 32 0#32)))
              (addi (X (Proc.devRef .tc main_v5)) (broadcastInDim S65536 ![] bcast_S_S65536 (constantI S_ 32 16384#32)))
              (X (Proc.devRef .tc main_v5)))) := by
  after_results_simp <;> rfl

/-- Row t of the buffer is row d of the source, where d is the index of t. -/
theorem host8_v93 (t : Fin 65536) (q : Fin 256) (d : Fin 16384) (hd : (X main_v5 (ix1 t)).toInt = (d.val : Int)) :
    StableHlo.after hostOps8 X main_v93 (ix2 t q) = X main_v79_2 (ix2 d q) := by
  rw [host8_v93_term]
  exact wrapped_gather_apply (N := 16384) (C := 256) (E := 65536) gather_S16384x256_S65536x1_S65536x256_1_0_n_n_0_1_1256_wf
    _ _ _ _ _ (fun _ => rfl) t q d hd

/-- The buffer is the sum of the three bias rows, added in this order. -/
theorem host8_v95_term :
    StableHlo.after (hostOps8 (F := Ideal)) X (Proc.devRef .tc main_v95)
      = (addf (addf (X (Proc.devRef .tc main_arg24)) (X (Proc.devRef .tc main_arg26))) (X (Proc.devRef .tc main_arg28)) : FVec Ideal S1x128 .f32) := by
  after_results_simp <;> rfl

theorem host8_v95 (q : Fin 128) :
    StableHlo.after hostOps8 X main_v95 (ix2 (0 : Fin 1) q)
      = asReal (s := S1x128) (X main_arg24) (ix2 (0 : Fin 1) q) + asReal (s := S1x128) (X main_arg26) (ix2 (0 : Fin 1) q) + asReal (s := S1x128) (X main_arg28) (ix2 (0 : Fin 1) q) := by
  rw [host8_v95_term]
  rfl

/-- A buffer the stretch does not write keeps its contents. -/
theorem host8_keep (b : DevRef τ sig) (hb : b ∉ (hostOps8_W.map (Proc.devRef (τ := τ) .tc)).toFinset) :
    StableHlo.after hostOps8 X b = X b :=
  StableHlo.after_of_forall_not_mem _ X fun op hop hb' => hb (List.forall_iff_forall_mem.mp hostOps8_writes op hop hb')

/-! ## Host stretch 9 -/

/-- The buffer is the scatter-add of the update rows into a zero array at the index vector. -/
theorem host9_v99_term :
    StableHlo.after (hostOps9 (F := Ideal)) X (Proc.devRef .tc main_v99)
      = Host.scatterAdd scatter_S65536x256_S131072x1_S131072x256_1_0_0_1
          (broadcastInDim S65536x256 ![] bcast_S_S65536x256 (constant (F := Ideal) S_ .f32 0x00000000#32))
          (broadcastInDim S131072x1 ![0] bcast_S131072_S131072x1_0 (X (Proc.devRef .tc main_v3)))
          (X (Proc.devRef .tc main_v96_1)) := by
  after_results_simp <;> rfl

/-- At (n, q) the buffer is the literal zero plus the sum of the update rows whose index is n, at lane q. -/
theorem host9_v99 (dst : Fin 131072 → Fin 65536) (hdst : ∀ t, (X main_v3 (ix1 t)).toInt = ((dst t).val : Int))
    (n : Fin 65536) (q : Fin 256) :
    StableHlo.after hostOps9 X main_v99 (ix2 n q)
      = Cert.Spec.cZero + ∑ t : Fin 131072, if dst t = n then asReal (s := S131072x256) (X main_v96_1) (ix2 t q) else 0 := by
  rw [host9_v99_term]
  exact col_scatterAdd_zero_apply (N := 65536) (C := 256) (E := 131072) scatter_S65536x256_S131072x1_S131072x256_1_0_0_1_wf
    _ _ _ _ dst hdst Cert.Spec.cZero (fun _ => rfl) n q

/-- A buffer the stretch does not write keeps its contents. -/
theorem host9_keep (b : DevRef τ sig) (hb : b ∉ (hostOps9_W.map (Proc.devRef (τ := τ) .tc)).toFinset) :
    StableHlo.after hostOps9 X b = X b :=
  StableHlo.after_of_forall_not_mem _ X fun op hop hb' => hb (List.forall_iff_forall_mem.mp hostOps9_writes op hop hb')

/-! ## Host stretch 10 -/

/-- The buffer is the sum of the three bias rows, added in this order. -/
theorem host10_v102_term :
    StableHlo.after (hostOps10 (F := Ideal)) X (Proc.devRef .tc main_v102)
      = (addf (addf (X (Proc.devRef .tc main_arg52)) (X (Proc.devRef .tc main_arg54))) (X (Proc.devRef .tc main_arg56)) : FVec Ideal S1x128 .f32) := by
  after_results_simp <;> rfl

theorem host10_v102 (q : Fin 128) :
    StableHlo.after hostOps10 X main_v102 (ix2 (0 : Fin 1) q)
      = asReal (s := S1x128) (X main_arg52) (ix2 (0 : Fin 1) q) + asReal (s := S1x128) (X main_arg54) (ix2 (0 : Fin 1) q) + asReal (s := S1x128) (X main_arg56) (ix2 (0 : Fin 1) q) := by
  rw [host10_v102_term]
  rfl

/-- A buffer the stretch does not write keeps its contents. -/
theorem host10_keep (b : DevRef τ sig) (hb : b ∉ (hostOps10_W.map (Proc.devRef (τ := τ) .tc)).toFinset) :
    StableHlo.after hostOps10 X b = X b :=
  StableHlo.after_of_forall_not_mem _ X fun op hop hb' => hb (List.forall_iff_forall_mem.mp hostOps10_writes op hop hb')

/-! ## Host stretch 11 -/

/-- The buffer is the scatter-add of the update rows into a zero array at the index vector. -/
theorem host11_v106_term :
    StableHlo.after (hostOps11 (F := Ideal)) X (Proc.devRef .tc main_v106)
      = Host.scatterAdd scatter_S16384x256_S65536x1_S65536x256_1_0_0_1
          (broadcastInDim S16384x256 ![] bcast_S_S16384x256 (constant (F := Ideal) S_ .f32 0x00000000#32))
          (broadcastInDim S65536x1 ![0] bcast_S65536_S65536x1_0 (X (Proc.devRef .tc main_v7)))
          (X (Proc.devRef .tc main_v103_1)) := by
  after_results_simp <;> rfl

/-- At (n, q) the buffer is the literal zero plus the sum of the update rows whose index is n, at lane q. -/
theorem host11_v106 (dst : Fin 65536 → Fin 16384) (hdst : ∀ t, (X main_v7 (ix1 t)).toInt = ((dst t).val : Int))
    (n : Fin 16384) (q : Fin 256) :
    StableHlo.after hostOps11 X main_v106 (ix2 n q)
      = Cert.Spec.cZero + ∑ t : Fin 65536, if dst t = n then asReal (s := S65536x256) (X main_v103_1) (ix2 t q) else 0 := by
  rw [host11_v106_term]
  exact col_scatterAdd_zero_apply (N := 16384) (C := 256) (E := 65536) scatter_S16384x256_S65536x1_S65536x256_1_0_0_1_wf
    _ _ _ _ dst hdst Cert.Spec.cZero (fun _ => rfl) n q

/-- A buffer the stretch does not write keeps its contents. -/
theorem host11_keep (b : DevRef τ sig) (hb : b ∉ (hostOps11_W.map (Proc.devRef (τ := τ) .tc)).toFinset) :
    StableHlo.after hostOps11 X b = X b :=
  StableHlo.after_of_forall_not_mem _ X fun op hop hb' => hb (List.forall_iff_forall_mem.mp hostOps11_writes op hop hb')

end Cert.KernelIdeal.Val
-- ==== Proof.KV.Lay2.lean ====
/-
  Layer 2 of the program with node-side projections, along the run: what its three regions leave, in the layer's
  own terms, from what they find.
-/
import proofs.«117664_g2000706958607885_pallasbulk_534_41_alg».proof.Proof.KV.Chains
import proofs.«117664_g2000706958607885_pallasbulk_534_41_alg».proof.Proof.KV.Layer
import proofs.«117664_g2000706958607885_pallasbulk_534_41_alg».proof.Proof.KV.Fin1
import proofs.«117664_g2000706958607885_pallasbulk_534_41_alg».proof.Proof.KV.Fin4
import proofs.«117664_g2000706958607885_pallasbulk_534_41_alg».proof.Proof.KV.Fin6
import proofs.«117664_g2000706958607885_pallasbulk_534_41_alg».proof.Proof.KV.Host1to5
import proofs.«117664_g2000706958607885_pallasbulk_534_41_alg».proof.Proof.KV.Host6to11

set_option maxRecDepth 16384

noncomputable section

namespace Cert.KernelIdeal.Val

open Cert.KernelIdeal Cert.KernelIdeal.Gen Cert.KernelIdeal.Fr
open Idealize.ShloMosaic Idealize.ShloMosaic.ValueIdx Idealize.ShloMosaic.TcCoe Idealize.SL.Sem
open Cert.Spec Cert.Bridge Cert.ResultsSpec
open scoped BigOperators

variable (m : (ℓ : Loc nD τ sig) → Buf (Elt Ideal) ℓ) (c : Dev nD)

/-! ## Layer 2 (parameters ab0: regions 1, 4, 6) -/

/-- The concatenated weights and bias that region 1 reads are the layer's. -/
theorem cat2 : IsCat (argsOf m c).ab0.params (X3 m c main_v26) (X3 m c main_v28) where
  w0 := fun k q => (host1_v26_0 (X2 m c) k q).trans (congrFun (argv_2_33 m c) (ix2 k q))
  w1 := fun k q => (host1_v26_1 (X2 m c) k q).trans (congrFun (argv_2_35 m c) (ix2 k q))
  w2 := fun k q => (host1_v26_2 (X2 m c) k q).trans (congrFun (argv_2_39 m c) (ix2 k q))
  w3 := fun k q => (host1_v26_3 (X2 m c) k q).trans (congrFun (argv_2_37 m c) (ix2 k q))
  b0 := fun q => (host1_v28_0 (X2 m c) q).trans (congrFun (argv_2_34 m c) (ix2 (0 : Fin 1) q))
  b1 := fun q => (host1_v28_1 (X2 m c) q).trans (congrFun (argv_2_36 m c) (ix2 (0 : Fin 1) q))
  b2 := fun q => host1_v28_2 (X2 m c) q
  b3 := fun q => host1_v28_3 (X2 m c) q

section L2
variable (xrows : Fin 16384 → Row) (erows : Fin 65536 → Row)
    (hX : ∀ n q, X3 m c main_arg0 (ix2 n q) = xrows n q)
include hX

theorem rowsX2 : rows (N := 16384) (X3 m c main_arg0) = xrows := funext fun n => funext fun q => hX n q

/-- Region 1's outputs: the self projection, the destination projection, the neighbour and source projections. -/
theorem hs2_val (n : Fin 16384) (q : Fin 128) : X4 m c main_v29_0 (ix2 n q) = hs (argsOf m c).ab0.params xrows n q :=
  (congrFun ((X4_arr m c 3).trans (final1_3 (XT3 m) c)) (ix2 n q)).trans
    ((proj_hs (cat2 m c) (X3 m c main_arg0) n q).trans (by rw [rowsX2 m c xrows hX]))

theorem pd2_val (n : Fin 16384) (q : Fin 128) : X4 m c main_v29_1 (ix2 n ⟨q.val, by omega⟩) = pd (argsOf m c).ab0.params xrows n q :=
  (congrFun ((X4_arr m c 4).trans (final1_4 (XT3 m) c)) (ix2 n ⟨q.val, by omega⟩)).trans
    ((congrArg (proj (X3 m c main_arg0) (X3 m c main_v26) (X3 m c main_v28) n) (Fin.ext (by
        show 384 + q.val = 384 + q.val
        rfl))).trans
      ((proj_pd (cat2 m c) (X3 m c main_arg0) n q).trans (by rw [rowsX2 m c xrows hX])))

theorem pslo2_val (n : Fin 16384) (q : Fin 128) : X4 m c main_v29_2 (ix2 n ⟨q.val, by omega⟩) = hn (argsOf m c).ab0.params xrows n q :=
  (congrFun ((X4_arr m c 5).trans (final1_5 (XT3 m) c)) (ix2 n ⟨q.val, by omega⟩)).trans
    ((proj_hn (cat2 m c) (X3 m c main_arg0) n q).trans (by rw [rowsX2 m c xrows hX]))

theorem pshi2_val (n : Fin 16384) (q : Fin 128) : X4 m c main_v29_2 (ix2 n ⟨128 + q.val, by omega⟩) = psB (argsOf m c).ab0.params xrows n q :=
  (congrFun ((X4_arr m c 5).trans (final1_5 (XT3 m) c)) (ix2 n ⟨128 + q.val, by omega⟩)).trans
    ((congrArg (proj (X3 m c main_arg0) (X3 m c main_v26) (X3 m c main_v28) n) (Fin.ext (by
        show 128 + (128 + q.val) = 256 + q.val
        omega))).trans
      ((proj_psB (cat2 m c) (X3 m c main_arg0) n q).trans (by rw [rowsX2 m c xrows hX])))

variable (hG : InRangeG m c) (hA : InRangeA m c)
include hG hA

/-- The gathered projections, as region 4 finds them. -/
theorem gd2_val (t : Fin 65536) (q : Fin 128) : X9 m c main_v36 (ix2 t ⟨q.val, by omega⟩) = pd (argsOf m c).ab0.params xrows ((argsOf m c).dstG t) q :=
  (congrFun ((((step9 m c main_v36 (by decide)).trans (step8 m c main_v36 (by decide))).trans (step7 m c main_v36 (by decide))).trans (step6 m c main_v36 (by decide))) (ix2 t ⟨q.val, by omega⟩)).trans
    ((host2_v36 (X4 m c) t ⟨q.val, by omega⟩ ((argsOf m c).dstG t) (v7_at4 m c hG t)).trans (pd2_val m c xrows hX ((argsOf m c).dstG t) q))

theorem gslo2_val (t : Fin 65536) (q : Fin 128) : X9 m c main_v43 (ix2 t ⟨q.val, by omega⟩) = hn (argsOf m c).ab0.params xrows ((argsOf m c).srcG t) q :=
  (congrFun ((((step9 m c main_v43 (by decide)).trans (step8 m c main_v43 (by decide))).trans (step7 m c main_v43 (by decide))).trans (step6 m c main_v43 (by decide))) (ix2 t ⟨q.val, by omega⟩)).trans
    ((host2_v43 (X4 m c) t ⟨q.val, by omega⟩ ((argsOf m c).srcG t) (v5_at4 m c hG t)).trans (pslo2_val m c xrows hX ((argsOf m c).srcG t) q))

theorem gshi2_val (t : Fin 65536) (q : Fin 128) : X9 m c main_v43 (ix2 t ⟨128 + q.val, by omega⟩) = psB (argsOf m c).ab0.params xrows ((argsOf m c).srcG t) q :=
  (congrFun ((((step9 m c main_v43 (by decide)).trans (step8 m c main_v43 (by decide))).trans (step7 m c main_v43 (by decide))).trans (step6 m c main_v43 (by decide))) (ix2 t ⟨128 + q.val, by omega⟩)).trans
    ((host2_v43 (X4 m c) t ⟨128 + q.val, by omega⟩ ((argsOf m c).srcG t) (v5_at4 m c hG t)).trans (pshi2_val m c xrows hX ((argsOf m c).srcG t) q))

omit hX hG hA in
theorem wc2_val (k q : Fin 128) : X9 m c main_arg41 (ix2 k q) = (argsOf m c).ab0.params.WC k q :=
  congrFun (argv_9_41 m c) (ix2 k q)
omit hX hG hA in
theorem ge2_val (q : Fin 128) : X9 m c main_arg45 (ix2 (0 : Fin 1) q) = (argsOf m c).ab0.params.ge q :=
  congrFun (argv_9_45 m c) (ix2 (0 : Fin 1) q)
omit hX hG hA in
theorem be2_val (q : Fin 128) : X9 m c main_arg46 (ix2 (0 : Fin 1) q) = (argsOf m c).ab0.params.be q :=
  congrFun (argv_9_46 m c) (ix2 (0 : Fin 1) q)
omit hX hG hA in
theorem bs2_val (q : Fin 128) : X9 m c main_v52 (ix2 (0 : Fin 1) q) = bsum (argsOf m c).ab0.params q := by
  refine (host4_v52 (X8 m c) q).trans ?_
  rw [argv_8_38 m c, argv_8_40 m c, argv_8_42 m c]
  rfl
omit hX hG hA in
theorem gx2_val (q : Fin 128) : X13 m c main_arg43 (ix2 (0 : Fin 1) q) = (argsOf m c).ab0.params.gx q :=
  congrFun (argv_13_43 m c) (ix2 (0 : Fin 1) q)
omit hX hG hA in
theorem bx2_val (q : Fin 128) : X13 m c main_arg44 (ix2 (0 : Fin 1) q) = (argsOf m c).ab0.params.bx q :=
  congrFun (argv_13_44 m c) (ix2 (0 : Fin 1) q)

variable (hE : ∀ t q, X9 m c main_v50 (ix2 t q) = erows t q)
include hE

omit hG hA in
theorem rowsE2 : rows (N := 65536) (X9 m c main_v50) = erows := funext fun t => funext fun q => hE t q

/-- Region 4's outputs: the updated edge rows, the gated messages and the gates. -/
theorem enew2_val (t : Fin 65536) (q : Fin 128) :
    X10 m c main_v53_0 (ix2 t q) = eNewK (argsOf m c).ab0.params xrows erows (argsOf m c).srcG (argsOf m c).dstG t q :=
  (congrFun ((X10_arr m c 7).trans (final4_7 (XT9 m) c)) (ix2 t q)).trans
    ((enewAt_eq (by omega : 128 ≤ 128) (argsOf m c).ab0.params xrows (argsOf m c).srcG (argsOf m c).dstG (X9 m c main_v50) (X9 m c main_v36) (X9 m c main_v43)
        (X9 m c main_arg41) (X9 m c main_v52) (X9 m c main_arg45) (X9 m c main_arg46)
        (gd2_val m c xrows hX hG hA) (gshi2_val m c xrows hX hG hA) (wc2_val m c) (bs2_val m c)
        (ge2_val m c) (be2_val m c) t q).trans (by rw [rowsE2 m c xrows erows hX hE]))

theorem mslo2_val (t : Fin 65536) (q : Fin 128) :
    X10 m c main_v53_1 (ix2 t ⟨q.val, by omega⟩) = msLoK (argsOf m c).ab0.params xrows erows (argsOf m c).srcG (argsOf m c).dstG t q :=
  (congrFun ((X10_arr m c 8).trans (final4_8 (XT9 m) c)) (ix2 t ⟨q.val, by omega⟩)).trans
    ((msAt_lo (by omega : 128 ≤ 128) (argsOf m c).ab0.params xrows (argsOf m c).srcG (argsOf m c).dstG (X9 m c main_v50) (X9 m c main_v36) (X9 m c main_v43)
        (X9 m c main_arg41) (X9 m c main_v52)
        (gd2_val m c xrows hX hG hA) (gslo2_val m c xrows hX hG hA) (gshi2_val m c xrows hX hG hA) (wc2_val m c) (bs2_val m c) t q).trans
      (by rw [rowsE2 m c xrows erows hX hE]))

theorem mshi2_val (t : Fin 65536) (q : Fin 128) :
    X10 m c main_v53_1 (ix2 t ⟨128 + q.val, by omega⟩) = msHiK (argsOf m c).ab0.params xrows erows (argsOf m c).srcG (argsOf m c).dstG t q :=
  (congrFun ((X10_arr m c 8).trans (final4_8 (XT9 m) c)) (ix2 t ⟨128 + q.val, by omega⟩)).trans
    ((msAt_hi (by omega : 128 ≤ 128) (argsOf m c).ab0.params xrows (argsOf m c).srcG (argsOf m c).dstG (X9 m c main_v50) (X9 m c main_v36) (X9 m c main_v43)
        (X9 m c main_arg41) (X9 m c main_v52)
        (gd2_val m c xrows hX hG hA) (gshi2_val m c xrows hX hG hA) (wc2_val m c) (bs2_val m c) t q).trans
      (by rw [rowsE2 m c xrows erows hX hE]))

/-- The scatter-added messages, as region 6 finds them. -/
theorem agglo2_val (n : Fin 16384) (q : Fin 128) :
    X13 m c main_v74 (ix2 n ⟨q.val, by omega⟩) = segSum (argsOf m c).dstG (msLoK (argsOf m c).ab0.params xrows erows (argsOf m c).srcG (argsOf m c).dstG) n q :=
  (host6_v74 (X12 m c) (argsOf m c).dstG (v7_at12 m c hG) n ⟨q.val, by omega⟩).trans
    (congrArg (cZero + ·) (Finset.sum_congr rfl fun t _ => by
      rw [show asReal (s := S65536x256) (X12 m c main_v53_1) (ix2 t ⟨q.val, by omega⟩) = msLoK (argsOf m c).ab0.params xrows erows (argsOf m c).srcG (argsOf m c).dstG t q from
        (congrFun ((step12 m c main_v53_1 (by decide)).trans (step11 m c main_v53_1 (by decide))) (ix2 t ⟨q.val, by omega⟩)).trans (mslo2_val m c xrows erows hX hG hA hE t q)]))

theorem agghi2_val (n : Fin 16384) (q : Fin 128) :
    X13 m c main_v74 (ix2 n ⟨128 + q.val, by omega⟩) = segSum (argsOf m c).dstG (msHiK (argsOf m c).ab0.params xrows erows (argsOf m c).srcG (argsOf m c).dstG) n q :=
  (host6_v74 (X12 m c) (argsOf m c).dstG (v7_at12 m c hG) n ⟨128 + q.val, by omega⟩).trans
    (congrArg (cZero + ·) (Finset.sum_congr rfl fun t _ => by
      rw [show asReal (s := S65536x256) (X12 m c main_v53_1) (ix2 t ⟨128 + q.val, by omega⟩) = msHiK (argsOf m c).ab0.params xrows erows (argsOf m c).srcG (argsOf m c).dstG t q from
        (congrFun ((step12 m c main_v53_1 (by decide)).trans (step11 m c main_v53_1 (by decide))) (ix2 t ⟨128 + q.val, by omega⟩)).trans (mshi2_val m c xrows erows hX hG hA hE t q)]))

/-- Region 6's output: the updated node rows. -/
theorem xnew2_val (n : Fin 16384) (q : Fin 128) :
    X14 m c main_v75 (ix2 n q) = xNewK (argsOf m c).ab0.params xrows erows (argsOf m c).srcG (argsOf m c).dstG n q := by
  have hXu : rows (N := 16384) (X13 m c main_arg0) = xrows := funext fun n => funext fun q =>
    (congrFun ((((((((((step13 m c main_arg0 (by decide)).trans (step12 m c main_arg0 (by decide))).trans (step11 m c main_arg0 (by decide))).trans (step10 m c main_arg0 (by decide))).trans (step9 m c main_arg0 (by decide))).trans (step8 m c main_arg0 (by decide))).trans (step7 m c main_arg0 (by decide))).trans (step6 m c main_arg0 (by decide))).trans (step5 m c main_arg0 (by decide))).trans (step4 m c main_arg0 (by decide))) (ix2 n q)).trans (hX n q)
  refine (congrFun ((X14_arr m c 5).trans (final6_5 (XT13 m) c)) (ix2 n q)).trans ?_
  refine (updAt_eq (argsOf m c).ab0.params erows (argsOf m c).srcG (argsOf m c).dstG (X13 m c main_arg0) (X13 m c main_v29_0) (X13 m c main_v74)
    (X13 m c main_arg43) (X13 m c main_arg44) ?_ ?_ ?_ (gx2_val m c) (bx2_val m c) n q).trans (by rw [hXu])
  · intro n q
    rw [hXu]
    exact (congrFun (((((((((step13 m c main_v29_0 (by decide)).trans (step12 m c main_v29_0 (by decide))).trans (step11 m c main_v29_0 (by decide))).trans (step10 m c main_v29_0 (by decide))).trans (step9 m c main_v29_0 (by decide))).trans (step8 m c main_v29_0 (by decide))).trans (step7 m c main_v29_0 (by decide))).trans (step6 m c main_v29_0 (by decide))).trans (step5 m c main_v29_0 (by decide))) (ix2 n q)).trans (hs2_val m c xrows hX n q)
  · intro n q
    rw [hXu]
    exact agglo2_val m c xrows erows hX hG hA hE n q
  · intro n q
    rw [hXu]
    exact agghi2_val m c xrows erows hX hG hA hE n q

end L2

end Cert.KernelIdeal.Val

end
-- ==== Proof.KV.Fin5.lean ====
/-
  Region 5 (the node projection of the 65536-row array, second layer): each output array after the region as one
  function of the region's input arrays, index by index.
-/
import proofs.«117664_g2000706958607885_pallasbulk_534_41_alg».proof.Proof.KI.Half5
import proofs.«117664_g2000706958607885_pallasbulk_534_41_alg».proof.Proof.KV.NodeProj
import proofs.«117664_g2000706958607885_pallasbulk_534_41_alg».proof.Proof.KV.FinCommon
import Idealize.ShloMosaic.Lib.Pipeline.Value

set_option maxRecDepth 16384

noncomputable section

namespace Cert.KernelIdeal.Val

open Cert.KernelIdeal Cert.KernelIdeal.Gen Cert.KernelIdeal.Fr
open Idealize.ShloMosaic Idealize.ShloMosaic.ValueIdx Idealize.ShloMosaic.TcCoe Idealize.SL.Sem
open Idealize.ShloMosaic.Pipeline (Dat)
open scoped BigOperators

section Region5
variable (V : (c : Dev nD) → (b : Ref sig .tc) → Buf (Elt Ideal) ((c : Thread nD τ).loc b))

/-- The printed index maps over the grid: a row window's block index is the grid point, a whole window's is zero. -/
theorem idx5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0
    ∧ win5_4.index t (0 : Fin 2) = t.val ∧ win5_4.index t (1 : Fin 2) = 0
    ∧ win5_5.index t (0 : Fin 2) = t.val ∧ win5_5.index t (1 : Fin 2) = 0 :=
  (by decide +kernel : ∀ t : Fin grid5.N, _)

theorem t_lt5 (t : Fin cfg5.N) : t.val < 64 := lt_of_lt_of_eq t.isLt N_5

/-- Row `p` of window 0's block at point `t` is row `t · 1024 + p` of its array. -/
theorem blk5_0 (c : Dev nD) (t : Fin cfg5.N) (p : Fin 1024) (k : Fin 128) :
    iblk5 V c 0 t (ix2 p k) = V c main_v53_0 (ix2 ⟨t.val * 1024 + p.val, by have := t_lt5 t; omega⟩ k) := by
  show V c main_v53_0 (((cfg5.win 0).blk t).view.emb (ix2 p k)) = _
  refine congrArg (V c main_v53_0) (funext fun a => Fin.ext ?_)
  obtain ⟨e0_0, e0_1, -, -, -, -, -, -, -, -, -, -⟩ := idx5 t
  match a with
  | ⟨0, _⟩ => show win5_0.index t (0 : Fin 2) * 1024 + 1 * p.val = t.val * 1024 + p.val; omega
  | ⟨1, _⟩ => show win5_0.index t (1 : Fin 2) * 128 + 1 * k.val = k.val; omega

/-- Window 1's block is its whole array. -/
theorem blk5_1 (c : Dev nD) (t : Fin cfg5.N) : iblk5 V c 1 t = V c main_v54 := by
  funext j
  show V c main_v54 (((cfg5.win 1).blk t).view.emb j) = V c main_v54 j
  refine congrArg (V c main_v54) (funext fun a => Fin.ext ?_)
  obtain ⟨-, -, e1_0, e1_1, -, -, -, -, -, -, -, -⟩ := idx5 t
  match a with
  | ⟨0, _⟩ => show win5_1.index t (0 : Fin 2) * 128 + 1 * (j 0).val = (j 0).val; omega
  | ⟨1, _⟩ => show win5_1.index t (1 : Fin 2) * 512 + 1 * (j 1).val = (j 1).val; omega

/-- Window 2's block is its whole array. -/
theorem blk5_2 (c : Dev nD) (t : Fin cfg5.N) : iblk5 V c 2 t = V c main_v56 := by
  funext j
  show V c main_v56 (((cfg5.win 2).blk t).view.emb j) = V c main_v56 j
  refine congrArg (V c main_v56) (funext fun a => Fin.ext ?_)
  obtain ⟨-, -, -, -, e2_0, e2_1, -, -, -, -, -, -⟩ := idx5 t
  match a with
  | ⟨0, _⟩ => show win5_2.index t (0 : Fin 2) * 1 + 1 * (j 0).val = (j 0).val; omega
  | ⟨1, _⟩ => show win5_2.index t (1 : Fin 2) * 512 + 1 * (j 1).val = (j 1).val; omega

/-- Window 3's array after region 5: lanes 0–127 of the projection of each node. -/
def G5_3 (X : (⟨2, ![65536, 128]⟩ : Shape).Idx → EReal) (W : S128x512.Idx → EReal) (B : S1x512.Idx → EReal) : S65536x128.Idx → EReal :=
  fun i => proj X W B ⟨(i 0).val, idx2_lt0 i⟩ ⟨0 + (i 1).val, by have := idx2_lt1 i; omega⟩

theorem pt5_3 (x0 : Vec Ideal S1024x128 .f32) (x1 : Vec Ideal S128x512 .f32) (x2 : Vec Ideal S1x512 .f32)
    (X : (⟨2, ![65536, 128]⟩ : Shape).Idx → EReal) (W : S128x512.Idx → EReal) (B : S1x512.Idx → EReal) (p : Fin 1024) (q : Fin 128) (n : Fin 65536)
    (h0 : ∀ k, x0 (ix2 p k) = X (ix2 n k)) (h1 : x1 = W) (h2 : x2 = B) :
    k5_pay2 x0 x1 x2 (ix2 p q) = proj X W B n ⟨0 + q.val, by omega⟩ := by
  subst h1 h2
  rw [k5_pay2_apply, k5_pay1_apply, show (fun k => x0 (ix2 p k)) = fun k => X (ix2 n k) from funext h0]
  rfl

theorem flushed5_3 (c : Dev nD) (t : Fin cfg5.N) :
    (dat5 V c).flushed 3 t = ((cfg5.win 3).blk t).view.read (Elt Ideal) (G5_3 (V c main_v53_0) (V c main_v54) (V c main_v56)) := by
  show (cfg5.win 3).cut (grid5.coords t) ((dat5 V c).after 3 t) = _
  rw [after5_3]
  unfold out5_3
  rw [View.canon_unit_zero hz2]
  simp only [View.ld_unit_zero (S := S1024x128) hz2, View.ld_unit_zero (S := S128x512) hz2, View.ld_unit_zero (S := S1x512) hz2]
  funext j
  obtain ⟨p, q, rfl⟩ : ∃ (p : Fin 1024) (q : Fin 128), j = ix2 p q := ⟨j 0, j 1, eq_ix2 j⟩
  show k5_pay2 (iblk5 V c 0 t) (iblk5 V c 1 t) (iblk5 V c 2 t) (ix2 p q)
      = G5_3 (V c main_v53_0) (V c main_v54) (V c main_v56) (((cfg5.win 3).blk t).view.emb (ix2 p q))
  refine (pt5_3 (iblk5 V c 0 t) (iblk5 V c 1 t) (iblk5 V c 2 t) (V c main_v53_0) (V c main_v54) (V c main_v56) p q
    ⟨t.val * 1024 + p.val, by have := t_lt5 t; omega⟩ (fun k => blk5_0 V c t p k) (blk5_1 V c t) (blk5_2 V c t)).trans ?_
  obtain ⟨-, -, -, -, -, -, e3_0, e3_1, -, -, -, -⟩ := idx5 t
  have hemb : ((cfg5.win 3).blk t).view.emb (ix2 p q) = ix2 ⟨t.val * 1024 + p.val, by have := t_lt5 t; omega⟩ q :=
    funext fun a => Fin.ext (by
      match a with
      | ⟨0, _⟩ => show win5_3.index t (0 : Fin 2) * 1024 + 1 * p.val = t.val * 1024 + p.val; omega
      | ⟨1, _⟩ => show win5_3.index t (1 : Fin 2) * 128 + 1 * q.val = q.val; omega)
  exact ((congrArg (G5_3 (V c main_v53_0) (V c main_v54) (V c main_v56)) hemb).trans rfl).symm

/-- Membership in window 3's block at point `t`, coordinate by coordinate. -/
theorem mem_blk5_3 (t : Fin cfg5.N) (i : S65536x128.Idx) :
    i ∈ ((cfg5.win 3).blk t).view.set ↔ ∀ a : Fin 2, win5_3.index t a * S1024x128.size a ≤ (i a).val ∧ (i a).val < win5_3.index t a * S1024x128.size a + S1024x128.size a := by
  show i ∈ ((View.whole main_v57_0).slice (win5_3.rect t)).set ↔ _
  rw [View.set_slice_whole, Rect.mem_set_unit]
  exact Iff.rfl

/-- Every row of the array lies in the block of the point `row / 1024`. -/
theorem covered5_3 (i : S65536x128.Idx) : ∃ t : Fin cfg5.N, (cfg5.win 3).flush t = true ∧ i ∈ ((cfg5.win 3).blk t).view.set := by
  have hi0 : (i 0).val < 65536 := (i 0).isLt
  have hi1 : (i 1).val < 128 := (i 1).isLt
  have hN : cfg5.N = 64 := N_5
  let t : Fin cfg5.N := ⟨(i 0).val / 1024, by rw [hN]; omega⟩
  obtain ⟨-, -, -, -, -, -, e3_0, e3_1, -, -, -, -⟩ := idx5 t
  refine ⟨t, flush5_3 t, ?_⟩
  rw [mem_blk5_3]
  intro a
  match a with
  | ⟨0, _⟩ =>
    show win5_3.index t (0 : Fin 2) * 1024 ≤ (i 0).val ∧ (i 0).val < win5_3.index t (0 : Fin 2) * 1024 + 1024
    rw [e3_0]
    show (i 0).val / 1024 * 1024 ≤ (i 0).val ∧ (i 0).val < (i 0).val / 1024 * 1024 + 1024
    omega
  | ⟨1, _⟩ =>
    show win5_3.index t (1 : Fin 2) * 128 ≤ (i 1).val ∧ (i 1).val < win5_3.index t (1 : Fin 2) * 128 + 128
    omega

/-- The array after the region. -/
theorem final5_3 (c : Dev nD) : (dat5 V c).arrAt 3 cfg5.N = G5_3 (V c main_v53_0) (V c main_v54) (V c main_v56) :=
  (dat5 V c).arrAt_eq_of_cover 3 _ (fun t _ => flushed5_3 V c t) covered5_3

/-- Window 5's array after region 5: lanes 128–383 of the projection of each node. -/
def G5_5 (X : (⟨2, ![65536, 128]⟩ : Shape).Idx → EReal) (W : S128x512.Idx → EReal) (B : S1x512.Idx → EReal) : S65536x256.Idx → EReal :=
  fun i => proj X W B ⟨(i 0).val, idx2_lt0 i⟩ ⟨128 + (i 1).val, by have := idx2_lt1 i; omega⟩

theorem pt5_5 (x0 : Vec Ideal S1024x128 .f32) (x1 : Vec Ideal S128x512 .f32) (x2 : Vec Ideal S1x512 .f32)
    (X : (⟨2, ![65536, 128]⟩ : Shape).Idx → EReal) (W : S128x512.Idx → EReal) (B : S1x512.Idx → EReal) (p : Fin 1024) (q : Fin 256) (n : Fin 65536)
    (h0 : ∀ k, x0 (ix2 p k) = X (ix2 n k)) (h1 : x1 = W) (h2 : x2 = B) :
    k5_pay3 x0 x1 x2 (ix2 p q) = proj X W B n ⟨128 + q.val, by omega⟩ := by
  subst h1 h2
  rw [k5_pay3_apply, k5_pay1_apply, show (fun k => x0 (ix2 p k)) = fun k => X (ix2 n k) from funext h0]
  rfl

theorem flushed5_5 (c : Dev nD) (t : Fin cfg5.N) :
    (dat5 V c).flushed 5 t = ((cfg5.win 5).blk t).view.read (Elt Ideal) (G5_5 (V c main_v53_0) (V c main_v54) (V c main_v56)) := by
  show (cfg5.win 5).cut (grid5.coords t) ((dat5 V c).after 5 t) = _
  rw [after5_5]
  unfold out5_5
  rw [View.canon_unit_zero hz2]
  simp only [View.ld_unit_zero (S := S1024x128) hz2, View.ld_unit_zero (S := S128x512) hz2, View.ld_unit_zero (S := S1x512) hz2]
  funext j
  obtain ⟨p, q, rfl⟩ : ∃ (p : Fin 1024) (q : Fin 256), j = ix2 p q := ⟨j 0, j 1, eq_ix2 j⟩
  show k5_pay3 (iblk5 V c 0 t) (iblk5 V c 1 t) (iblk5 V c 2 t) (ix2 p q)
      = G5_5 (V c main_v53_0) (V c main_v54) (V c main_v56) (((cfg5.win 5).blk t).view.emb (ix2 p q))
  refine (pt5_5 (iblk5 V c 0 t) (iblk5 V c 1 t) (iblk5 V c 2 t) (V c main_v53_0) (V c main_v54) (V c main_v56) p q
    ⟨t.val * 1024 + p.val, by have := t_lt5 t; omega⟩ (fun k => blk5_0 V c t p k) (blk5_1 V c t) (blk5_2 V c t)).trans ?_
  obtain ⟨-, -, -, -, -, -, -, -, -, -, e5_0, e5_1⟩ := idx5 t
  have hemb : ((cfg5.win 5).blk t).view.emb (ix2 p q) = ix2 ⟨t.val * 1024 + p.val, by have := t_lt5 t; omega⟩ q :=
    funext fun a => Fin.ext (by
      match a with
      | ⟨0, _⟩ => show win5_5.index t (0 : Fin 2) * 1024 + 1 * p.val = t.val * 1024 + p.val; omega
      | ⟨1, _⟩ => show win5_5.index t (1 : Fin 2) * 256 + 1 * q.val = q.val; omega)
  exact ((congrArg (G5_5 (V c main_v53_0) (V c main_v54) (V c main_v56)) hemb).trans rfl).symm

/-- Membership in window 5's block at point `t`, coordinate by coordinate. -/
theorem mem_blk5_5 (t : Fin cfg5.N) (i : S65536x256.Idx) :
    i ∈ ((cfg5.win 5).blk t).view.set ↔ ∀ a : Fin 2, win5_5.index t a * S1024x256.size a ≤ (i a).val ∧ (i a).val < win5_5.index t a * S1024x256.size a + S1024x256.size a := by
  show i ∈ ((View.whole main_v57_2).slice (win5_5.rect t)).set ↔ _
  rw [View.set_slice_whole, Rect.mem_set_unit]
  exact Iff.rfl

/-- Every row of the array lies in the block of the point `row / 1024`. -/
theorem covered5_5 (i : S65536x256.Idx) : ∃ t : Fin cfg5.N, (cfg5.win 5).flush t = true ∧ i ∈ ((cfg5.win 5).blk t).view.set := by
  have hi0 : (i 0).val < 65536 := (i 0).isLt
  have hi1 : (i 1).val < 256 := (i 1).isLt
  have hN : cfg5.N = 64 := N_5
  let t : Fin cfg5.N := ⟨(i 0).val / 1024, by rw [hN]; omega⟩
  obtain ⟨-, -, -, -, -, -, -, -, -, -, e5_0, e5_1⟩ := idx5 t
  refine ⟨t, flush5_5 t, ?_⟩
  rw [mem_blk5_5]
  intro a
  match a with
  | ⟨0, _⟩ =>
    show win5_5.index t (0 : Fin 2) * 1024 ≤ (i 0).val ∧ (i 0).val < win5_5.index t (0 : Fin 2) * 1024 + 1024
    rw [e5_0]
    show (i 0).val / 1024 * 1024 ≤ (i 0).val ∧ (i 0).val < (i 0).val / 1024 * 1024 + 1024
    omega
  | ⟨1, _⟩ =>
    show win5_5.index t (1 : Fin 2) * 256 ≤ (i 1).val ∧ (i 1).val < win5_5.index t (1 : Fin 2) * 256 + 256
    omega

/-- The array after the region. -/
theorem final5_5 (c : Dev nD) : (dat5 V c).arrAt 5 cfg5.N = G5_5 (V c main_v53_0) (V c main_v54) (V c main_v56) :=
  (dat5 V c).arrAt_eq_of_cover 5 _ (fun t _ => flushed5_5 V c t) covered5_5

/-- Window 4's array after region 5: lanes 384–511 of the projection of each node, stored twice side by side. -/
def G5_4 (X : (⟨2, ![65536, 128]⟩ : Shape).Idx → EReal) (W : S128x512.Idx → EReal) (B : S1x512.Idx → EReal) : S65536x256.Idx → EReal :=
  fun i => proj X W B ⟨(i 0).val, idx2_lt0 i⟩ ⟨384 + (i 1).val % 128, by omega⟩

theorem pt5_4 (x0 : Vec Ideal S1024x128 .f32) (x1 : Vec Ideal S128x512 .f32) (x2 : Vec Ideal S1x512 .f32)
    (X : (⟨2, ![65536, 128]⟩ : Shape).Idx → EReal) (W : S128x512.Idx → EReal) (B : S1x512.Idx → EReal) (p : Fin 1024) (q : Fin 128) (n : Fin 65536)
    (h0 : ∀ k, x0 (ix2 p k) = X (ix2 n k)) (h1 : x1 = W) (h2 : x2 = B) :
    k5_pay4 x0 x1 x2 (ix2 p q) = proj X W B n ⟨384 + q.val, by omega⟩ := by
  subst h1 h2
  rw [k5_pay4_apply, k5_pay1_apply, show (fun k => x0 (ix2 p k)) = fun k => X (ix2 n k) from funext h0]
  rfl

theorem flushed5_4 (c : Dev nD) (t : Fin cfg5.N) :
    (dat5 V c).flushed 4 t = ((cfg5.win 4).blk t).view.read (Elt Ideal) (G5_4 (V c main_v53_0) (V c main_v54) (V c main_v56)) := by
  show (cfg5.win 4).cut (grid5.coords t) ((dat5 V c).after 4 t) = _
  rw [after5_4]
  unfold out5_4
  simp only [View.ld_unit_zero (S := S1024x128) hz2, View.ld_unit_zero (S := S128x512) hz2, View.ld_unit_zero (S := S1x512) hz2]
  funext j
  obtain ⟨p, l, rfl⟩ : ∃ (p : Fin 1024) (l : Fin 256), j = ix2 p l := ⟨j 0, j 1, eq_ix2 j⟩
  show View.canon (Val := Elt Ideal) (s := S1024x256) (e := .f32)
        [⟨rhi5, k5_pay4 (iblk5 V c 0 t) (iblk5 V c 1 t) (iblk5 V c 2 t)⟩, ⟨rlo5, k5_pay4 (iblk5 V c 0 t) (iblk5 V c 1 t) (iblk5 V c 2 t)⟩] (ix2 p l)
      = G5_4 (V c main_v53_0) (V c main_v54) (V c main_v56) (((cfg5.win 4).blk t).view.emb (ix2 p l))
  rw [canon_halves]
  obtain ⟨-, -, -, -, -, -, -, -, e4_0, e4_1, -, -⟩ := idx5 t
  have hn : ∀ q : Fin 128, k5_pay4 (iblk5 V c 0 t) (iblk5 V c 1 t) (iblk5 V c 2 t) (ix2 p q)
      = proj (V c main_v53_0) (V c main_v54) (V c main_v56) ⟨t.val * 1024 + p.val, by have := t_lt5 t; omega⟩ ⟨384 + q.val, by omega⟩ := fun q =>
    pt5_4 (iblk5 V c 0 t) (iblk5 V c 1 t) (iblk5 V c 2 t) (V c main_v53_0) (V c main_v54) (V c main_v56) p q _ (fun k => blk5_0 V c t p k) (blk5_1 V c t) (blk5_2 V c t)
  have hl := l.isLt
  have hemb : ((cfg5.win 4).blk t).view.emb (ix2 p l) = ix2 ⟨t.val * 1024 + p.val, by have := t_lt5 t; omega⟩ l :=
    funext fun a => Fin.ext (by
      match a with
      | ⟨0, _⟩ => show win5_4.index t (0 : Fin 2) * 1024 + 1 * p.val = t.val * 1024 + p.val; omega
      | ⟨1, _⟩ => show win5_4.index t (1 : Fin 2) * 256 + 1 * l.val = l.val; omega)
  refine Eq.trans ?_ (congrArg (G5_4 (V c main_v53_0) (V c main_v54) (V c main_v56)) hemb).symm
  show _ = proj (V c main_v53_0) (V c main_v54) (V c main_v56) ⟨t.val * 1024 + p.val, by have := t_lt5 t; omega⟩ ⟨384 + l.val % 128, by omega⟩
  by_cases h : l.val < 128
  · rw [dif_pos h, hn]
    exact congrArg (proj (V c main_v53_0) (V c main_v54) (V c main_v56) _) (Fin.ext (by show 384 + l.val = 384 + l.val % 128; omega))
  · rw [dif_neg h, hn]
    exact congrArg (proj (V c main_v53_0) (V c main_v54) (V c main_v56) _) (Fin.ext (by show 384 + (l.val - 128) = 384 + l.val % 128; omega))

/-- Membership in window 4's block at point `t`, coordinate by coordinate. -/
theorem mem_blk5_4 (t : Fin cfg5.N) (i : S65536x256.Idx) :
    i ∈ ((cfg5.win 4).blk t).view.set ↔ ∀ a : Fin 2, win5_4.index t a * S1024x256.size a ≤ (i a).val ∧ (i a).val < win5_4.index t a * S1024x256.size a + S1024x256.size a := by
  show i ∈ ((View.whole main_v57_1).slice (win5_4.rect t)).set ↔ _
  rw [View.set_slice_whole, Rect.mem_set_unit]
  exact Iff.rfl

/-- Every row of the array lies in the block of the point `row / 1024`. -/
theorem covered5_4 (i : S65536x256.Idx) : ∃ t : Fin cfg5.N, (cfg5.win 4).flush t = true ∧ i ∈ ((cfg5.win 4).blk t).view.set := by
  have hi0 : (i 0).val < 65536 := (i 0).isLt
  have hi1 : (i 1).val < 256 := (i 1).isLt
  have hN : cfg5.N = 64 := N_5
  let t : Fin cfg5.N := ⟨(i 0).val / 1024, by rw [hN]; omega⟩
  obtain ⟨-, -, -, -, -, -, -, -, e4_0, e4_1, -, -⟩ := idx5 t
  refine ⟨t, flush5_4 t, ?_⟩
  rw [mem_blk5_4]
  intro a
  match a with
  | ⟨0, _⟩ =>
    show win5_4.index t (0 : Fin 2) * 1024 ≤ (i 0).val ∧ (i 0).val < win5_4.index t (0 : Fin 2) * 1024 + 1024
    rw [e4_0]
    show (i 0).val / 1024 * 1024 ≤ (i 0).val ∧ (i 0).val < (i 0).val / 1024 * 1024 + 1024
    omega
  | ⟨1, _⟩ =>
    show win5_4.index t (1 : Fin 2) * 256 ≤ (i 1).val ∧ (i 1).val < win5_4.index t (1 : Fin 2) * 256 + 256
    omega

/-- The array after the region. -/
theorem final5_4 (c : Dev nD) : (dat5 V c).arrAt 4 cfg5.N = G5_4 (V c main_v53_0) (V c main_v54) (V c main_v56) :=
  (dat5 V c).arrAt_eq_of_cover 4 _ (fun t _ => flushed5_4 V c t) covered5_4

end Region5

end Cert.KernelIdeal.Val

end
-- ==== Proof.KV.Fin8.lean ====
/-
  Region 8 (an edge update): each output array after the region as one function of the region's input arrays,
  index by index.
-/
import proofs.«117664_g2000706958607885_pallasbulk_534_41_alg».proof.Proof.KI.Half8
import proofs.«117664_g2000706958607885_pallasbulk_534_41_alg».proof.Proof.KV.Edge
import proofs.«117664_g2000706958607885_pallasbulk_534_41_alg».proof.Proof.KV.FinCommon
import Idealize.ShloMosaic.Lib.Pipeline.Value

set_option maxRecDepth 16384

noncomputable section

namespace Cert.KernelIdeal.Val

open Cert.KernelIdeal Cert.KernelIdeal.Gen Cert.KernelIdeal.Fr
open Idealize.ShloMosaic Idealize.ShloMosaic.ValueIdx Idealize.ShloMosaic.TcCoe Idealize.SL.Sem
open Idealize.ShloMosaic.Pipeline (Dat)
open scoped BigOperators

section Region8
variable (V : (c : Dev nD) → (b : Ref sig .tc) → Buf (Elt Ideal) ((c : Thread nD τ).loc b))

/-- The printed index maps over the grid: a row window's block index is the grid point, a whole window's is zero. -/
theorem idx8 : ∀ t : Fin cfg8.N,
    win8_0.index t (0 : Fin 2) = t.val ∧ win8_0.index t (1 : Fin 2) = 0
    ∧ win8_1.index t (0 : Fin 2) = t.val ∧ win8_1.index t (1 : Fin 2) = 0
    ∧ win8_2.index t (0 : Fin 2) = t.val ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = 0 ∧ win8_5.index t (1 : Fin 2) = 0
    ∧ win8_6.index t (0 : Fin 2) = 0 ∧ win8_6.index t (1 : Fin 2) = 0
    ∧ win8_7.index t (0 : Fin 2) = t.val ∧ win8_7.index t (1 : Fin 2) = 0
    ∧ win8_8.index t (0 : Fin 2) = t.val ∧ win8_8.index t (1 : Fin 2) = 0 :=
  (by decide +kernel : ∀ t : Fin grid8.N, _)

theorem t_lt8 (t : Fin cfg8.N) : t.val < 128 := lt_of_lt_of_eq t.isLt N_8

/-- Row `p` of window 0's block at point `t` is row `t · 1024 + p` of its array. -/
theorem blk8_0 (c : Dev nD) (t : Fin cfg8.N) (p : Fin 1024) (k : Fin 128) :
    iblk8 V c 0 t (ix2 p k) = V c main_v46_0 (ix2 ⟨t.val * 1024 + p.val, by have := t_lt8 t; omega⟩ k) := by
  show V c main_v46_0 (((cfg8.win 0).blk t).view.emb (ix2 p k)) = _
  refine congrArg (V c main_v46_0) (funext fun a => Fin.ext ?_)
  obtain ⟨e0_0, e0_1, -, -, -, -, -, -, -, -, -, -, -, -, -, -, -, -⟩ := idx8 t
  match a with
  | ⟨0, _⟩ => show win8_0.index t (0 : Fin 2) * 1024 + 1 * p.val = t.val * 1024 + p.val; omega
  | ⟨1, _⟩ => show win8_0.index t (1 : Fin 2) * 128 + 1 * k.val = k.val; omega

/-- Row `p` of window 1's block at point `t` is row `t · 1024 + p` of its array. -/
theorem blk8_1 (c : Dev nD) (t : Fin cfg8.N) (p : Fin 1024) (k : Fin 128) :
    iblk8 V c 1 t (ix2 p k) = V c main_v64 (ix2 ⟨t.val * 1024 + p.val, by have := t_lt8 t; omega⟩ ⟨k.val, by omega⟩) := by
  show V c main_v64 (((cfg8.win 1).blk t).view.emb (ix2 p k)) = _
  refine congrArg (V c main_v64) (funext fun a => Fin.ext ?_)
  obtain ⟨-, -, e1_0, e1_1, -, -, -, -, -, -, -, -, -, -, -, -, -, -⟩ := idx8 t
  match a with
  | ⟨0, _⟩ => show win8_1.index t (0 : Fin 2) * 1024 + 1 * p.val = t.val * 1024 + p.val; omega
  | ⟨1, _⟩ => show win8_1.index t (1 : Fin 2) * 128 + 1 * k.val = k.val; omega

/-- Row `p` of window 2's block at point `t` is row `t · 1024 + p` of its array. -/
theorem blk8_2 (c : Dev nD) (t : Fin cfg8.N) (p : Fin 1024) (k : Fin 256) :
    iblk8 V c 2 t (ix2 p k) = V c main_v71 (ix2 ⟨t.val * 1024 + p.val, by have := t_lt8 t; omega⟩ k) := by
  show V c main_v71 (((cfg8.win 2).blk t).view.emb (ix2 p k)) = _
  refine congrArg (V c main_v71) (funext fun a => Fin.ext ?_)
  obtain ⟨-, -, -, -, e2_0, e2_1, -, -, -, -, -, -, -, -, -, -, -, -⟩ := idx8 t
  match a with
  | ⟨0, _⟩ => show win8_2.index t (0 : Fin 2) * 1024 + 1 * p.val = t.val * 1024 + p.val; omega
  | ⟨1, _⟩ => show win8_2.index t (1 : Fin 2) * 256 + 1 * k.val = k.val; omega

/-- Window 3's block is its whole array. -/
theorem blk8_3 (c : Dev nD) (t : Fin cfg8.N) : iblk8 V c 3 t = V c main_arg27 := by
  funext j
  show V c main_arg27 (((cfg8.win 3).blk t).view.emb j) = V c main_arg27 j
  refine congrArg (V c main_arg27) (funext fun a => Fin.ext ?_)
  obtain ⟨-, -, -, -, -, -, e3_0, e3_1, -, -, -, -, -, -, -, -, -, -⟩ := idx8 t
  match a with
  | ⟨0, _⟩ => show win8_3.index t (0 : Fin 2) * 128 + 1 * (j 0).val = (j 0).val; omega
  | ⟨1, _⟩ => show win8_3.index t (1 : Fin 2) * 128 + 1 * (j 1).val = (j 1).val; omega

/-- Window 4's block is its whole array. -/
theorem blk8_4 (c : Dev nD) (t : Fin cfg8.N) : iblk8 V c 4 t = V c main_v95 := by
  funext j
  show V c main_v95 (((cfg8.win 4).blk t).view.emb j) = V c main_v95 j
  refine congrArg (V c main_v95) (funext fun a => Fin.ext ?_)
  obtain ⟨-, -, -, -, -, -, -, -, e4_0, e4_1, -, -, -, -, -, -, -, -⟩ := idx8 t
  match a with
  | ⟨0, _⟩ => show win8_4.index t (0 : Fin 2) * 1 + 1 * (j 0).val = (j 0).val; omega
  | ⟨1, _⟩ => show win8_4.index t (1 : Fin 2) * 128 + 1 * (j 1).val = (j 1).val; omega

/-- Window 5's block is its whole array. -/
theorem blk8_5 (c : Dev nD) (t : Fin cfg8.N) : iblk8 V c 5 t = V c main_arg31 := by
  funext j
  show V c main_arg31 (((cfg8.win 5).blk t).view.emb j) = V c main_arg31 j
  refine congrArg (V c main_arg31) (funext fun a => Fin.ext ?_)
  obtain ⟨-, -, -, -, -, -, -, -, -, -, e5_0, e5_1, -, -, -, -, -, -⟩ := idx8 t
  match a with
  | ⟨0, _⟩ => show win8_5.index t (0 : Fin 2) * 1 + 1 * (j 0).val = (j 0).val; omega
  | ⟨1, _⟩ => show win8_5.index t (1 : Fin 2) * 128 + 1 * (j 1).val = (j 1).val; omega

/-- Window 6's block is its whole array. -/
theorem blk8_6 (c : Dev nD) (t : Fin cfg8.N) : iblk8 V c 6 t = V c main_arg32 := by
  funext j
  show V c main_arg32 (((cfg8.win 6).blk t).view.emb j) = V c main_arg32 j
  refine congrArg (V c main_arg32) (funext fun a => Fin.ext ?_)
  obtain ⟨-, -, -, -, -, -, -, -, -, -, -, -, e6_0, e6_1, -, -, -, -⟩ := idx8 t
  match a with
  | ⟨0, _⟩ => show win8_6.index t (0 : Fin 2) * 1 + 1 * (j 0).val = (j 0).val; omega
  | ⟨1, _⟩ => show win8_6.index t (1 : Fin 2) * 128 + 1 * (j 1).val = (j 1).val; omega

/-- The pre-activation row of a tile's row `p` is that of the edge `n` its blocks' rows come from. -/
theorem ehat8_row (x0 x1 : Vec Ideal S1024x128 .f32) (x2 : Vec Ideal S1024x256 .f32) (x3 : Vec Ideal S128x128 .f32) (x4 : Vec Ideal S1x128 .f32)
    (E : (⟨2, ![131072, 128]⟩ : Shape).Idx → EReal) (GD : (⟨2, ![131072, 256]⟩ : Shape).Idx → EReal) (GS : (⟨2, ![131072, 256]⟩ : Shape).Idx → EReal) (WC : S128x128.Idx → EReal) (BS : S1x128.Idx → EReal) (p : Fin 1024) (n : Fin 131072)
    (h0 : ∀ k, x0 (ix2 p k) = E (ix2 n k)) (h1 : ∀ k, x1 (ix2 p k) = GD (ix2 n ⟨k.val, by omega⟩)) (h2 : ∀ k, x2 (ix2 p k) = GS (ix2 n k))
    (h3 : x3 = WC) (h4 : x4 = BS) :
    ehatRow x0 x2 x3 x1 x4 p = ehatArr (by omega : 128 ≤ 256) E GD GS WC BS n := by
  subst h3 h4
  unfold ehatRow ehatArr
  rw [show (fun k => x0 (ix2 p k)) = fun k => E (ix2 n k) from funext h0,
    show (fun k => x1 (ix2 p k)) = fun k => GD (ix2 n ⟨k.val, by omega⟩) from funext h1,
    show (fun k : Fin 128 => x2 (ix2 p ⟨128 + k.val, by omega⟩)) = fun k => GS (ix2 n ⟨128 + k.val, by omega⟩) from funext fun k => h2 _]

/-- Window 7's array after region 8. -/
def G8_7 (E : (⟨2, ![131072, 128]⟩ : Shape).Idx → EReal) (GD : (⟨2, ![131072, 256]⟩ : Shape).Idx → EReal) (GS : (⟨2, ![131072, 256]⟩ : Shape).Idx → EReal) (WC : S128x128.Idx → EReal) (BS : S1x128.Idx → EReal) (Gm Bt : S1x128.Idx → EReal) : S131072x128.Idx → EReal :=
  fun i => enewAt (by omega : 128 ≤ 256) E GD GS WC BS Gm Bt ⟨(i 0).val, idx2_lt0 i⟩ ⟨(i 1).val, idx2_lt1 i⟩
/-- Window 8's array after region 8. -/
def G8_8 (E : (⟨2, ![131072, 128]⟩ : Shape).Idx → EReal) (GD : (⟨2, ![131072, 256]⟩ : Shape).Idx → EReal) (GS : (⟨2, ![131072, 256]⟩ : Shape).Idx → EReal) (WC : S128x128.Idx → EReal) (BS : S1x128.Idx → EReal) : S131072x256.Idx → EReal :=
  fun i => msAt (by omega : 128 ≤ 256) E GD GS WC BS ⟨(i 0).val, idx2_lt0 i⟩ ⟨(i 1).val, idx2_lt1 i⟩

theorem pt8_7 (x0 x1 : Vec Ideal S1024x128 .f32) (x2 : Vec Ideal S1024x256 .f32) (x3 : Vec Ideal S128x128 .f32) (x4 : Vec Ideal S1x128 .f32) (x5 x6 : Vec Ideal S1x128 .f32)
    (E : (⟨2, ![131072, 128]⟩ : Shape).Idx → EReal) (GD : (⟨2, ![131072, 256]⟩ : Shape).Idx → EReal) (GS : (⟨2, ![131072, 256]⟩ : Shape).Idx → EReal) (WC : S128x128.Idx → EReal) (BS : S1x128.Idx → EReal) (Gm Bt : S1x128.Idx → EReal) (p : Fin 1024) (q : Fin 128) (n : Fin 131072)
    (h0 : ∀ k, x0 (ix2 p k) = E (ix2 n k)) (h1 : ∀ k, x1 (ix2 p k) = GD (ix2 n ⟨k.val, by omega⟩)) (h2 : ∀ k, x2 (ix2 p k) = GS (ix2 n k))
    (h3 : x3 = WC) (h4 : x4 = BS) (h5 : x5 = Gm) (h6 : x6 = Bt) :
    k8_pay1 (k8_pay4 x0) (k8_pay7 x0 x2 x3 x1 x4 x5 x6) (ix2 p q) = enewAt (by omega : 128 ≤ 256) E GD GS WC BS Gm Bt n q := by
  subst h5 h6
  rw [edge8_new_apply, ehat8_row x0 x1 x2 x3 x4 E GD GS WC BS p n h0 h1 h2 h3 h4,
    show (fun k => x0 (ix2 p k)) = fun k => E (ix2 n k) from funext h0]
  rfl

theorem pt8_8hi (x0 x1 : Vec Ideal S1024x128 .f32) (x2 : Vec Ideal S1024x256 .f32) (x3 : Vec Ideal S128x128 .f32) (x4 : Vec Ideal S1x128 .f32)
    (E : (⟨2, ![131072, 128]⟩ : Shape).Idx → EReal) (GD : (⟨2, ![131072, 256]⟩ : Shape).Idx → EReal) (GS : (⟨2, ![131072, 256]⟩ : Shape).Idx → EReal) (WC : S128x128.Idx → EReal) (BS : S1x128.Idx → EReal) (p : Fin 1024) (q : Fin 128) (n : Fin 131072)
    (h0 : ∀ k, x0 (ix2 p k) = E (ix2 n k)) (h1 : ∀ k, x1 (ix2 p k) = GD (ix2 n ⟨k.val, by omega⟩)) (h2 : ∀ k, x2 (ix2 p k) = GS (ix2 n k))
    (h3 : x3 = WC) (h4 : x4 = BS) :
    k8_pay2 (k8_pay6 x0 x2 x3 x1 x4) (ix2 p q) = Spec.gate (ehatArr (by omega : 128 ≤ 256) E GD GS WC BS n) q := by
  rw [edge8_gate_apply, ehat8_row x0 x1 x2 x3 x4 E GD GS WC BS p n h0 h1 h2 h3 h4]

theorem pt8_8lo (x0 x1 : Vec Ideal S1024x128 .f32) (x2 : Vec Ideal S1024x256 .f32) (x3 : Vec Ideal S128x128 .f32) (x4 : Vec Ideal S1x128 .f32)
    (E : (⟨2, ![131072, 128]⟩ : Shape).Idx → EReal) (GD : (⟨2, ![131072, 256]⟩ : Shape).Idx → EReal) (GS : (⟨2, ![131072, 256]⟩ : Shape).Idx → EReal) (WC : S128x128.Idx → EReal) (BS : S1x128.Idx → EReal) (p : Fin 1024) (q : Fin 128) (n : Fin 131072)
    (h0 : ∀ k, x0 (ix2 p k) = E (ix2 n k)) (h1 : ∀ k, x1 (ix2 p k) = GD (ix2 n ⟨k.val, by omega⟩)) (h2 : ∀ k, x2 (ix2 p k) = GS (ix2 n k))
    (h3 : x3 = WC) (h4 : x4 = BS) :
    k8_pay3 (k8_pay5 x2) (k8_pay6 x0 x2 x3 x1 x4) (ix2 p q)
      = Spec.gate (ehatArr (by omega : 128 ≤ 256) E GD GS WC BS n) q * GS (ix2 n ⟨q.val, by omega⟩) := by
  rw [edge8_msg_apply, ehat8_row x0 x1 x2 x3 x4 E GD GS WC BS p n h0 h1 h2 h3 h4, h2]
  exact congrArg (fun z => Spec.gate (ehatArr (by omega : 128 ≤ 256) E GD GS WC BS n) q * GS (ix2 n z)) (Fin.ext (Nat.zero_add _))

theorem flushed8_7 (c : Dev nD) (t : Fin cfg8.N) :
    (dat8 V c).flushed 7 t = ((cfg8.win 7).blk t).view.read (Elt Ideal) (G8_7 (V c main_v46_0) (V c main_v64) (V c main_v71) (V c main_arg27) (V c main_v95) (V c main_arg31) (V c main_arg32)) := by
  show (cfg8.win 7).cut (grid8.coords t) ((dat8 V c).after 7 t) = _
  rw [after8_7]
  unfold out8_7
  rw [View.canon_unit_zero hz2]
  simp only [View.ld_unit_zero (S := S1024x128) hz2, View.ld_unit_zero (S := S1024x256) hz2, View.ld_unit_zero (S := S128x128) hz2, View.ld_unit_zero (S := S1x128) hz2]
  funext j
  obtain ⟨p, q, rfl⟩ : ∃ (p : Fin 1024) (q : Fin 128), j = ix2 p q := ⟨j 0, j 1, eq_ix2 j⟩
  show k8_pay1 (k8_pay4 (iblk8 V c 0 t)) (k8_pay7 (iblk8 V c 0 t) (iblk8 V c 2 t) (iblk8 V c 3 t) (iblk8 V c 1 t) (iblk8 V c 4 t) (iblk8 V c 5 t) (iblk8 V c 6 t)) (ix2 p q)
      = G8_7 (V c main_v46_0) (V c main_v64) (V c main_v71) (V c main_arg27) (V c main_v95) (V c main_arg31) (V c main_arg32) (((cfg8.win 7).blk t).view.emb (ix2 p q))
  refine (pt8_7 (iblk8 V c 0 t) (iblk8 V c 1 t) (iblk8 V c 2 t) (iblk8 V c 3 t) (iblk8 V c 4 t) (iblk8 V c 5 t) (iblk8 V c 6 t) (V c main_v46_0) (V c main_v64) (V c main_v71) (V c main_arg27) (V c main_v95) (V c main_arg31) (V c main_arg32) p q
    ⟨t.val * 1024 + p.val, by have := t_lt8 t; omega⟩ (fun k => blk8_0 V c t p k) (fun k => blk8_1 V c t p k) (fun k => blk8_2 V c t p k) (blk8_3 V c t) (blk8_4 V c t) (blk8_5 V c t) (blk8_6 V c t)).trans ?_
  obtain ⟨-, -, -, -, -, -, -, -, -, -, -, -, -, -, e7_0, e7_1, -, -⟩ := idx8 t
  have hemb : ((cfg8.win 7).blk t).view.emb (ix2 p q) = ix2 ⟨t.val * 1024 + p.val, by have := t_lt8 t; omega⟩ q :=
    funext fun a => Fin.ext (by
      match a with
      | ⟨0, _⟩ => show win8_7.index t (0 : Fin 2) * 1024 + 1 * p.val = t.val * 1024 + p.val; omega
      | ⟨1, _⟩ => show win8_7.index t (1 : Fin 2) * 128 + 1 * q.val = q.val; omega)
  exact ((congrArg (G8_7 (V c main_v46_0) (V c main_v64) (V c main_v71) (V c main_arg27) (V c main_v95) (V c main_arg31) (V c main_arg32)) hemb).trans rfl).symm

theorem flushed8_8 (c : Dev nD) (t : Fin cfg8.N) :
    (dat8 V c).flushed 8 t = ((cfg8.win 8).blk t).view.read (Elt Ideal) (G8_8 (V c main_v46_0) (V c main_v64) (V c main_v71) (V c main_arg27) (V c main_v95)) := by
  show (cfg8.win 8).cut (grid8.coords t) ((dat8 V c).after 8 t) = _
  rw [after8_8]
  unfold out8_8
  simp only [View.ld_unit_zero (S := S1024x128) hz2, View.ld_unit_zero (S := S1024x256) hz2, View.ld_unit_zero (S := S128x128) hz2, View.ld_unit_zero (S := S1x128) hz2]
  funext j
  obtain ⟨p, l, rfl⟩ : ∃ (p : Fin 1024) (l : Fin 256), j = ix2 p l := ⟨j 0, j 1, eq_ix2 j⟩
  show View.canon (Val := Elt Ideal) (s := S1024x256) (e := .f32)
        [⟨r8_5, k8_pay2 (k8_pay6 (iblk8 V c 0 t) (iblk8 V c 2 t) (iblk8 V c 3 t) (iblk8 V c 1 t) (iblk8 V c 4 t))⟩, ⟨r8_4, k8_pay3 (k8_pay5 (iblk8 V c 2 t)) (k8_pay6 (iblk8 V c 0 t) (iblk8 V c 2 t) (iblk8 V c 3 t) (iblk8 V c 1 t) (iblk8 V c 4 t))⟩] (ix2 p l)
      = G8_8 (V c main_v46_0) (V c main_v64) (V c main_v71) (V c main_arg27) (V c main_v95) (((cfg8.win 8).blk t).view.emb (ix2 p l))
  rw [canon_halves]
  obtain ⟨-, -, -, -, -, -, -, -, -, -, -, -, -, -, -, -, e8_0, e8_1⟩ := idx8 t
  have hemb : ((cfg8.win 8).blk t).view.emb (ix2 p l) = ix2 ⟨t.val * 1024 + p.val, by have := t_lt8 t; omega⟩ l :=
    funext fun a => Fin.ext (by
      match a with
      | ⟨0, _⟩ => show win8_8.index t (0 : Fin 2) * 1024 + 1 * p.val = t.val * 1024 + p.val; omega
      | ⟨1, _⟩ => show win8_8.index t (1 : Fin 2) * 256 + 1 * l.val = l.val; omega)
  refine Eq.trans ?_ ((congrArg (G8_8 (V c main_v46_0) (V c main_v64) (V c main_v71) (V c main_arg27) (V c main_v95)) hemb).trans rfl).symm
  show _ = msAt (by omega : 128 ≤ 256) (V c main_v46_0) (V c main_v64) (V c main_v71) (V c main_arg27) (V c main_v95) ⟨t.val * 1024 + p.val, by have := t_lt8 t; omega⟩ l
  unfold msAt
  by_cases h : l.val < 128
  · rw [dif_pos h, dif_pos h]
    exact pt8_8lo (iblk8 V c 0 t) (iblk8 V c 1 t) (iblk8 V c 2 t) (iblk8 V c 3 t) (iblk8 V c 4 t) (V c main_v46_0) (V c main_v64) (V c main_v71) (V c main_arg27) (V c main_v95) p ⟨l.val, h⟩ _ (fun k => blk8_0 V c t p k) (fun k => blk8_1 V c t p k) (fun k => blk8_2 V c t p k) (blk8_3 V c t) (blk8_4 V c t)
  · rw [dif_neg h, dif_neg h]
    exact pt8_8hi (iblk8 V c 0 t) (iblk8 V c 1 t) (iblk8 V c 2 t) (iblk8 V c 3 t) (iblk8 V c 4 t) (V c main_v46_0) (V c main_v64) (V c main_v71) (V c main_arg27) (V c main_v95) p ⟨l.val - 128, by omega⟩ _ (fun k => blk8_0 V c t p k) (fun k => blk8_1 V c t p k) (fun k => blk8_2 V c t p k) (blk8_3 V c t) (blk8_4 V c t)

/-- Membership in window 7's block at point `t`, coordinate by coordinate. -/
theorem mem_blk8_7 (t : Fin cfg8.N) (i : S131072x128.Idx) :
    i ∈ ((cfg8.win 7).blk t).view.set ↔ ∀ a : Fin 2, win8_7.index t a * S1024x128.size a ≤ (i a).val ∧ (i a).val < win8_7.index t a * S1024x128.size a + S1024x128.size a := by
  show i ∈ ((View.whole main_v96_0).slice (win8_7.rect t)).set ↔ _
  rw [View.set_slice_whole, Rect.mem_set_unit]
  exact Iff.rfl

/-- Every row of the array lies in the block of the point `row / 1024`. -/
theorem covered8_7 (i : S131072x128.Idx) : ∃ t : Fin cfg8.N, (cfg8.win 7).flush t = true ∧ i ∈ ((cfg8.win 7).blk t).view.set := by
  have hi0 : (i 0).val < 131072 := (i 0).isLt
  have hi1 : (i 1).val < 128 := (i 1).isLt
  have hN : cfg8.N = 128 := N_8
  let t : Fin cfg8.N := ⟨(i 0).val / 1024, by rw [hN]; omega⟩
  obtain ⟨-, -, -, -, -, -, -, -, -, -, -, -, -, -, e7_0, e7_1, -, -⟩ := idx8 t
  refine ⟨t, flush8_7 t, ?_⟩
  rw [mem_blk8_7]
  intro a
  match a with
  | ⟨0, _⟩ =>
    show win8_7.index t (0 : Fin 2) * 1024 ≤ (i 0).val ∧ (i 0).val < win8_7.index t (0 : Fin 2) * 1024 + 1024
    rw [e7_0]
    show (i 0).val / 1024 * 1024 ≤ (i 0).val ∧ (i 0).val < (i 0).val / 1024 * 1024 + 1024
    omega
  | ⟨1, _⟩ =>
    show win8_7.index t (1 : Fin 2) * 128 ≤ (i 1).val ∧ (i 1).val < win8_7.index t (1 : Fin 2) * 128 + 128
    omega

/-- Membership in window 8's block at point `t`, coordinate by coordinate. -/
theorem mem_blk8_8 (t : Fin cfg8.N) (i : S131072x256.Idx) :
    i ∈ ((cfg8.win 8).blk t).view.set ↔ ∀ a : Fin 2, win8_8.index t a * S1024x256.size a ≤ (i a).val ∧ (i a).val < win8_8.index t a * S1024x256.size a + S1024x256.size a := by
  show i ∈ ((View.whole main_v96_1).slice (win8_8.rect t)).set ↔ _
  rw [View.set_slice_whole, Rect.mem_set_unit]
  exact Iff.rfl

/-- Every row of the array lies in the block of the point `row / 1024`. -/
theorem covered8_8 (i : S131072x256.Idx) : ∃ t : Fin cfg8.N, (cfg8.win 8).flush t = true ∧ i ∈ ((cfg8.win 8).blk t).view.set := by
  have hi0 : (i 0).val < 131072 := (i 0).isLt
  have hi1 : (i 1).val < 256 := (i 1).isLt
  have hN : cfg8.N = 128 := N_8
  let t : Fin cfg8.N := ⟨(i 0).val / 1024, by rw [hN]; omega⟩
  obtain ⟨-, -, -, -, -, -, -, -, -, -, -, -, -, -, -, -, e8_0, e8_1⟩ := idx8 t
  refine ⟨t, flush8_8 t, ?_⟩
  rw [mem_blk8_8]
  intro a
  match a with
  | ⟨0, _⟩ =>
    show win8_8.index t (0 : Fin 2) * 1024 ≤ (i 0).val ∧ (i 0).val < win8_8.index t (0 : Fin 2) * 1024 + 1024
    rw [e8_0]
    show (i 0).val / 1024 * 1024 ≤ (i 0).val ∧ (i 0).val < (i 0).val / 1024 * 1024 + 1024
    omega
  | ⟨1, _⟩ =>
    show win8_8.index t (1 : Fin 2) * 256 ≤ (i 1).val ∧ (i 1).val < win8_8.index t (1 : Fin 2) * 256 + 256
    omega

/-- The arrays after the region. -/
theorem final8_7 (c : Dev nD) : (dat8 V c).arrAt 7 cfg8.N = G8_7 (V c main_v46_0) (V c main_v64) (V c main_v71) (V c main_arg27) (V c main_v95) (V c main_arg31) (V c main_arg32) :=
  (dat8 V c).arrAt_eq_of_cover 7 _ (fun t _ => flushed8_7 V c t) covered8_7
theorem final8_8 (c : Dev nD) : (dat8 V c).arrAt 8 cfg8.N = G8_8 (V c main_v46_0) (V c main_v64) (V c main_v71) (V c main_arg27) (V c main_v95) :=
  (dat8 V c).arrAt_eq_of_cover 8 _ (fun t _ => flushed8_8 V c t) covered8_8

end Region8

end Cert.KernelIdeal.Val

end
-- ==== Proof.KV.Fin9.lean ====
/-
  Region 9 (a node update): the output array after the region as one function of the region's input arrays,
  index by index.
-/
import proofs.«117664_g2000706958607885_pallasbulk_534_41_alg».proof.Proof.KI.Half9
import proofs.«117664_g2000706958607885_pallasbulk_534_41_alg».proof.Proof.KV.NodeUpd
import proofs.«117664_g2000706958607885_pallasbulk_534_41_alg».proof.Proof.KV.FinCommon
import Idealize.ShloMosaic.Lib.Pipeline.Value

set_option maxRecDepth 16384

noncomputable section

namespace Cert.KernelIdeal.Val

open Cert.KernelIdeal Cert.KernelIdeal.Gen Cert.KernelIdeal.Fr
open Idealize.ShloMosaic Idealize.ShloMosaic.ValueIdx Idealize.ShloMosaic.TcCoe Idealize.SL.Sem
open Idealize.ShloMosaic.Pipeline (Dat)
open scoped BigOperators

section Region9
variable (V : (c : Dev nD) → (b : Ref sig .tc) → Buf (Elt Ideal) ((c : Thread nD τ).loc b))

/-- The printed index maps over the grid: a row window's block index is the grid point, a whole window's is zero. -/
theorem idx9 : ∀ t : Fin cfg9.N,
    win9_0.index t (0 : Fin 2) = t.val ∧ win9_0.index t (1 : Fin 2) = 0
    ∧ win9_1.index t (0 : Fin 2) = t.val ∧ win9_1.index t (1 : Fin 2) = 0
    ∧ win9_2.index t (0 : Fin 2) = t.val ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = t.val ∧ win9_5.index t (1 : Fin 2) = 0 :=
  (by decide +kernel : ∀ t : Fin grid9.N, _)

theorem t_lt9 (t : Fin cfg9.N) : t.val < 64 := lt_of_lt_of_eq t.isLt N_9

/-- Row `p` of window 0's block at point `t` is row `t · 1024 + p` of its array. -/
theorem blk9_0 (c : Dev nD) (t : Fin cfg9.N) (p : Fin 1024) (k : Fin 128) :
    iblk9 V c 0 t (ix2 p k) = V c main_v53_0 (ix2 ⟨t.val * 1024 + p.val, by have := t_lt9 t; omega⟩ k) := by
  show V c main_v53_0 (((cfg9.win 0).blk t).view.emb (ix2 p k)) = _
  refine congrArg (V c main_v53_0) (funext fun a => Fin.ext ?_)
  obtain ⟨e0_0, e0_1, -, -, -, -, -, -, -, -, -, -⟩ := idx9 t
  match a with
  | ⟨0, _⟩ => show win9_0.index t (0 : Fin 2) * 1024 + 1 * p.val = t.val * 1024 + p.val; omega
  | ⟨1, _⟩ => show win9_0.index t (1 : Fin 2) * 128 + 1 * k.val = k.val; omega

/-- Row `p` of window 1's block at point `t` is row `t · 1024 + p` of its array. -/
theorem blk9_1 (c : Dev nD) (t : Fin cfg9.N) (p : Fin 1024) (k : Fin 128) :
    iblk9 V c 1 t (ix2 p k) = V c main_v57_0 (ix2 ⟨t.val * 1024 + p.val, by have := t_lt9 t; omega⟩ k) := by
  show V c main_v57_0 (((cfg9.win 1).blk t).view.emb (ix2 p k)) = _
  refine congrArg (V c main_v57_0) (funext fun a => Fin.ext ?_)
  obtain ⟨-, -, e1_0, e1_1, -, -, -, -, -, -, -, -⟩ := idx9 t
  match a with
  | ⟨0, _⟩ => show win9_1.index t (0 : Fin 2) * 1024 + 1 * p.val = t.val * 1024 + p.val; omega
  | ⟨1, _⟩ => show win9_1.index t (1 : Fin 2) * 128 + 1 * k.val = k.val; omega

/-- Row `p` of window 2's block at point `t` is row `t · 1024 + p` of its array. -/
theorem blk9_2 (c : Dev nD) (t : Fin cfg9.N) (p : Fin 1024) (k : Fin 256) :
    iblk9 V c 2 t (ix2 p k) = V c main_v99 (ix2 ⟨t.val * 1024 + p.val, by have := t_lt9 t; omega⟩ k) := by
  show V c main_v99 (((cfg9.win 2).blk t).view.emb (ix2 p k)) = _
  refine congrArg (V c main_v99) (funext fun a => Fin.ext ?_)
  obtain ⟨-, -, -, -, e2_0, e2_1, -, -, -, -, -, -⟩ := idx9 t
  match a with
  | ⟨0, _⟩ => show win9_2.index t (0 : Fin 2) * 1024 + 1 * p.val = t.val * 1024 + p.val; omega
  | ⟨1, _⟩ => show win9_2.index t (1 : Fin 2) * 256 + 1 * k.val = k.val; omega

/-- Window 3's block is its whole array. -/
theorem blk9_3 (c : Dev nD) (t : Fin cfg9.N) : iblk9 V c 3 t = V c main_arg29 := by
  funext j
  show V c main_arg29 (((cfg9.win 3).blk t).view.emb j) = V c main_arg29 j
  refine congrArg (V c main_arg29) (funext fun a => Fin.ext ?_)
  obtain ⟨-, -, -, -, -, -, e3_0, e3_1, -, -, -, -⟩ := idx9 t
  match a with
  | ⟨0, _⟩ => show win9_3.index t (0 : Fin 2) * 1 + 1 * (j 0).val = (j 0).val; omega
  | ⟨1, _⟩ => show win9_3.index t (1 : Fin 2) * 128 + 1 * (j 1).val = (j 1).val; omega

/-- Window 4's block is its whole array. -/
theorem blk9_4 (c : Dev nD) (t : Fin cfg9.N) : iblk9 V c 4 t = V c main_arg30 := by
  funext j
  show V c main_arg30 (((cfg9.win 4).blk t).view.emb j) = V c main_arg30 j
  refine congrArg (V c main_arg30) (funext fun a => Fin.ext ?_)
  obtain ⟨-, -, -, -, -, -, -, -, e4_0, e4_1, -, -⟩ := idx9 t
  match a with
  | ⟨0, _⟩ => show win9_4.index t (0 : Fin 2) * 1 + 1 * (j 0).val = (j 0).val; omega
  | ⟨1, _⟩ => show win9_4.index t (1 : Fin 2) * 128 + 1 * (j 1).val = (j 1).val; omega

/-- Window 5's array after region 9. -/
def G9_5 (X HS : (⟨2, ![65536, 128]⟩ : Shape).Idx → EReal) (AGG : (⟨2, ![65536, 256]⟩ : Shape).Idx → EReal) (Gm Bt : S1x128.Idx → EReal) : S65536x128.Idx → EReal :=
  fun i => updAt X HS AGG Gm Bt ⟨(i 0).val, idx2_lt0 i⟩ ⟨(i 1).val, idx2_lt1 i⟩

theorem pt9_5 (x0 x1 : Vec Ideal S1024x128 .f32) (x2 : Vec Ideal S1024x256 .f32) (x3 x4 : Vec Ideal S1x128 .f32)
    (X HS : (⟨2, ![65536, 128]⟩ : Shape).Idx → EReal) (AGG : (⟨2, ![65536, 256]⟩ : Shape).Idx → EReal) (Gm Bt : S1x128.Idx → EReal) (p : Fin 1024) (q : Fin 128) (n : Fin 65536)
    (h0 : ∀ k, x0 (ix2 p k) = X (ix2 n k)) (h1 : ∀ k, x1 (ix2 p k) = HS (ix2 n k)) (h2 : ∀ k, x2 (ix2 p k) = AGG (ix2 n k))
    (h3 : x3 = Gm) (h4 : x4 = Bt) :
    k9_pay1 x2 x1 x0 x3 x4 (ix2 p q) = updAt X HS AGG Gm Bt n q := by
  subst h3 h4
  rw [k9_pay1_apply]
  unfold updAt
  rw [show (fun k => x0 (ix2 p k)) = fun k => X (ix2 n k) from funext h0,
    show (fun k => x1 (ix2 p k)) = fun k => HS (ix2 n k) from funext h1,
    show (fun k : Fin 128 => x2 (ix2 p ⟨0 + k.val, by omega⟩)) = fun k => AGG (ix2 n ⟨k.val, by omega⟩) from
      funext fun k => (h2 _).trans (congrArg AGG (congrArg (ix2 n) (Fin.ext (Nat.zero_add _)))),
    show (fun k : Fin 128 => x2 (ix2 p ⟨128 + k.val, by omega⟩)) = fun k => AGG (ix2 n ⟨128 + k.val, by omega⟩) from
      funext fun k => h2 _]

theorem flushed9_5 (c : Dev nD) (t : Fin cfg9.N) :
    (dat9 V c).flushed 5 t = ((cfg9.win 5).blk t).view.read (Elt Ideal) (G9_5 (V c main_v53_0) (V c main_v57_0) (V c main_v99) (V c main_arg29) (V c main_arg30)) := by
  show (cfg9.win 5).cut (grid9.coords t) ((dat9 V c).after 5 t) = _
  rw [after9_5]
  unfold out9_5
  rw [View.canon_unit_zero hz2]
  simp only [View.ld_unit_zero (S := S1024x128) hz2, View.ld_unit_zero (S := S1024x256) hz2, View.ld_unit_zero (S := S1x128) hz2]
  funext j
  obtain ⟨p, q, rfl⟩ : ∃ (p : Fin 1024) (q : Fin 128), j = ix2 p q := ⟨j 0, j 1, eq_ix2 j⟩
  show k9_pay1 (iblk9 V c 2 t) (iblk9 V c 1 t) (iblk9 V c 0 t) (iblk9 V c 3 t) (iblk9 V c 4 t) (ix2 p q)
      = G9_5 (V c main_v53_0) (V c main_v57_0) (V c main_v99) (V c main_arg29) (V c main_arg30) (((cfg9.win 5).blk t).view.emb (ix2 p q))
  refine (pt9_5 (iblk9 V c 0 t) (iblk9 V c 1 t) (iblk9 V c 2 t) (iblk9 V c 3 t) (iblk9 V c 4 t) (V c main_v53_0) (V c main_v57_0) (V c main_v99) (V c main_arg29) (V c main_arg30) p q
    ⟨t.val * 1024 + p.val, by have := t_lt9 t; omega⟩ (fun k => blk9_0 V c t p k) (fun k => blk9_1 V c t p k)
    (fun k => blk9_2 V c t p k) (blk9_3 V c t) (blk9_4 V c t)).trans ?_
  obtain ⟨-, -, -, -, -, -, -, -, -, -, e5_0, e5_1⟩ := idx9 t
  have hemb : ((cfg9.win 5).blk t).view.emb (ix2 p q) = ix2 ⟨t.val * 1024 + p.val, by have := t_lt9 t; omega⟩ q :=
    funext fun a => Fin.ext (by
      match a with
      | ⟨0, _⟩ => show win9_5.index t (0 : Fin 2) * 1024 + 1 * p.val = t.val * 1024 + p.val; omega
      | ⟨1, _⟩ => show win9_5.index t (1 : Fin 2) * 128 + 1 * q.val = q.val; omega)
  exact ((congrArg (G9_5 (V c main_v53_0) (V c main_v57_0) (V c main_v99) (V c main_arg29) (V c main_arg30)) hemb).trans rfl).symm

/-- Membership in window 5's block at point `t`, coordinate by coordinate. -/
theorem mem_blk9_5 (t : Fin cfg9.N) (i : S65536x128.Idx) :
    i ∈ ((cfg9.win 5).blk t).view.set ↔ ∀ a : Fin 2, win9_5.index t a * S1024x128.size a ≤ (i a).val ∧ (i a).val < win9_5.index t a * S1024x128.size a + S1024x128.size a := by
  show i ∈ ((View.whole main_v100).slice (win9_5.rect t)).set ↔ _
  rw [View.set_slice_whole, Rect.mem_set_unit]
  exact Iff.rfl

/-- Every row of the array lies in the block of the point `row / 1024`. -/
theorem covered9_5 (i : S65536x128.Idx) : ∃ t : Fin cfg9.N, (cfg9.win 5).flush t = true ∧ i ∈ ((cfg9.win 5).blk t).view.set := by
  have hi0 : (i 0).val < 65536 := (i 0).isLt
  have hi1 : (i 1).val < 128 := (i 1).isLt
  have hN : cfg9.N = 64 := N_9
  let t : Fin cfg9.N := ⟨(i 0).val / 1024, by rw [hN]; omega⟩
  obtain ⟨-, -, -, -, -, -, -, -, -, -, e5_0, e5_1⟩ := idx9 t
  refine ⟨t, flush9_5 t, ?_⟩
  rw [mem_blk9_5]
  intro a
  match a with
  | ⟨0, _⟩ =>
    show win9_5.index t (0 : Fin 2) * 1024 ≤ (i 0).val ∧ (i 0).val < win9_5.index t (0 : Fin 2) * 1024 + 1024
    rw [e5_0]
    show (i 0).val / 1024 * 1024 ≤ (i 0).val ∧ (i 0).val < (i 0).val / 1024 * 1024 + 1024
    omega
  | ⟨1, _⟩ =>
    show win9_5.index t (1 : Fin 2) * 128 ≤ (i 1).val ∧ (i 1).val < win9_5.index t (1 : Fin 2) * 128 + 128
    omega

/-- The array after the region. -/
theorem final9_5 (c : Dev nD) : (dat9 V c).arrAt 5 cfg9.N = G9_5 (V c main_v53_0) (V c main_v57_0) (V c main_v99) (V c main_arg29) (V c main_arg30) :=
  (dat9 V c).arrAt_eq_of_cover 5 _ (fun t _ => flushed9_5 V c t) covered9_5

end Region9

end Cert.KernelIdeal.Val

end
-- ==== Proof.KV.Lay3.lean ====
/-
  Layer 3 of the program with node-side projections, along the run: what its three regions leave, in the layer's
  own terms, from what they find.
-/
import proofs.«117664_g2000706958607885_pallasbulk_534_41_alg».proof.Proof.KV.Chains
import proofs.«117664_g2000706958607885_pallasbulk_534_41_alg».proof.Proof.KV.Layer
import proofs.«117664_g2000706958607885_pallasbulk_534_41_alg».proof.Proof.KV.Fin5
import proofs.«117664_g2000706958607885_pallasbulk_534_41_alg».proof.Proof.KV.Fin8
import proofs.«117664_g2000706958607885_pallasbulk_534_41_alg».proof.Proof.KV.Fin9
import proofs.«117664_g2000706958607885_pallasbulk_534_41_alg».proof.Proof.KV.Host1to5
import proofs.«117664_g2000706958607885_pallasbulk_534_41_alg».proof.Proof.KV.Host6to11

set_option maxRecDepth 16384

noncomputable section

namespace Cert.KernelIdeal.Val

open Cert.KernelIdeal Cert.KernelIdeal.Gen Cert.KernelIdeal.Fr
open Idealize.ShloMosaic Idealize.ShloMosaic.ValueIdx Idealize.ShloMosaic.TcCoe Idealize.SL.Sem
open Cert.Spec Cert.Bridge Cert.ResultsSpec
open scoped BigOperators

variable (m : (ℓ : Loc nD τ sig) → Buf (Elt Ideal) ℓ) (c : Dev nD)

/-! ## Layer 3 (parameters bg1: regions 5, 8, 9) -/

/-- The concatenated weights and bias that region 5 reads are the layer's. -/
theorem cat3 : IsCat (argsOf m c).bg1.params (X11 m c main_v54) (X11 m c main_v56) where
  w0 := fun k q => (host5_v54_0 (X10 m c) k q).trans (congrFun (argv_10_19 m c) (ix2 k q))
  w1 := fun k q => (host5_v54_1 (X10 m c) k q).trans (congrFun (argv_10_21 m c) (ix2 k q))
  w2 := fun k q => (host5_v54_2 (X10 m c) k q).trans (congrFun (argv_10_25 m c) (ix2 k q))
  w3 := fun k q => (host5_v54_3 (X10 m c) k q).trans (congrFun (argv_10_23 m c) (ix2 k q))
  b0 := fun q => (host5_v56_0 (X10 m c) q).trans (congrFun (argv_10_20 m c) (ix2 (0 : Fin 1) q))
  b1 := fun q => (host5_v56_1 (X10 m c) q).trans (congrFun (argv_10_22 m c) (ix2 (0 : Fin 1) q))
  b2 := fun q => host5_v56_2 (X10 m c) q
  b3 := fun q => host5_v56_3 (X10 m c) q

section L3
variable (xrows : Fin 65536 → Row) (erows : Fin 131072 → Row)
    (hX : ∀ n q, X11 m c main_v53_0 (ix2 n q) = xrows n q)
include hX

theorem rowsX3 : rows (N := 65536) (X11 m c main_v53_0) = xrows := funext fun n => funext fun q => hX n q

/-- Region 5's outputs: the self projection, the destination projection, the neighbour and source projections. -/
theorem hs3_val (n : Fin 65536) (q : Fin 128) : X12 m c main_v57_0 (ix2 n q) = hs (argsOf m c).bg1.params xrows n q :=
  (congrFun ((X12_arr m c 3).trans (final5_3 (XT11 m) c)) (ix2 n q)).trans
    ((proj_hs (cat3 m c) (X11 m c main_v53_0) n q).trans (by rw [rowsX3 m c xrows hX]))

theorem pd3_val (n : Fin 65536) (q : Fin 128) : X12 m c main_v57_1 (ix2 n ⟨q.val, by omega⟩) = pd (argsOf m c).bg1.params xrows n q :=
  (congrFun ((X12_arr m c 4).trans (final5_4 (XT11 m) c)) (ix2 n ⟨q.val, by omega⟩)).trans
    ((congrArg (proj (X11 m c main_v53_0) (X11 m c main_v54) (X11 m c main_v56) n) (Fin.ext (by
        show 384 + q.val % 128 = 384 + q.val
        rw [Nat.mod_eq_of_lt q.isLt]))).trans
      ((proj_pd (cat3 m c) (X11 m c main_v53_0) n q).trans (by rw [rowsX3 m c xrows hX])))

theorem pslo3_val (n : Fin 65536) (q : Fin 128) : X12 m c main_v57_2 (ix2 n ⟨q.val, by omega⟩) = hn (argsOf m c).bg1.params xrows n q :=
  (congrFun ((X12_arr m c 5).trans (final5_5 (XT11 m) c)) (ix2 n ⟨q.val, by omega⟩)).trans
    ((proj_hn (cat3 m c) (X11 m c main_v53_0) n q).trans (by rw [rowsX3 m c xrows hX]))

theorem pshi3_val (n : Fin 65536) (q : Fin 128) : X12 m c main_v57_2 (ix2 n ⟨128 + q.val, by omega⟩) = psB (argsOf m c).bg1.params xrows n q :=
  (congrFun ((X12_arr m c 5).trans (final5_5 (XT11 m) c)) (ix2 n ⟨128 + q.val, by omega⟩)).trans
    ((congrArg (proj (X11 m c main_v53_0) (X11 m c main_v54) (X11 m c main_v56) n) (Fin.ext (by
        show 128 + (128 + q.val) = 256 + q.val
        omega))).trans
      ((proj_psB (cat3 m c) (X11 m c main_v53_0) n q).trans (by rw [rowsX3 m c xrows hX])))

variable (hG : InRangeG m c) (hA : InRangeA m c)
include hG hA

/-- The gathered projections, as region 8 finds them. -/
theorem gd3_val (t : Fin 131072) (q : Fin 128) : X17 m c main_v64 (ix2 t ⟨q.val, by omega⟩) = pd (argsOf m c).bg1.params xrows ((argsOf m c).dstA t) q :=
  (congrFun ((((step17 m c main_v64 (by decide)).trans (step16 m c main_v64 (by decide))).trans (step15 m c main_v64 (by decide))).trans (step14 m c main_v64 (by decide))) (ix2 t ⟨q.val, by omega⟩)).trans
    ((host6_v64 (X12 m c) t ⟨q.val, by omega⟩ ((argsOf m c).dstA t) (v3_at12 m c hA t)).trans (pd3_val m c xrows hX ((argsOf m c).dstA t) q))

theorem gslo3_val (t : Fin 131072) (q : Fin 128) : X17 m c main_v71 (ix2 t ⟨q.val, by omega⟩) = hn (argsOf m c).bg1.params xrows ((argsOf m c).srcA t) q :=
  (congrFun ((((step17 m c main_v71 (by decide)).trans (step16 m c main_v71 (by decide))).trans (step15 m c main_v71 (by decide))).trans (step14 m c main_v71 (by decide))) (ix2 t ⟨q.val, by omega⟩)).trans
    ((host6_v71 (X12 m c) t ⟨q.val, by omega⟩ ((argsOf m c).srcA t) (v1_at12 m c hA t)).trans (pslo3_val m c xrows hX ((argsOf m c).srcA t) q))

theorem gshi3_val (t : Fin 131072) (q : Fin 128) : X17 m c main_v71 (ix2 t ⟨128 + q.val, by omega⟩) = psB (argsOf m c).bg1.params xrows ((argsOf m c).srcA t) q :=
  (congrFun ((((step17 m c main_v71 (by decide)).trans (step16 m c main_v71 (by decide))).trans (step15 m c main_v71 (by decide))).trans (step14 m c main_v71 (by decide))) (ix2 t ⟨128 + q.val, by omega⟩)).trans
    ((host6_v71 (X12 m c) t ⟨128 + q.val, by omega⟩ ((argsOf m c).srcA t) (v1_at12 m c hA t)).trans (pshi3_val m c xrows hX ((argsOf m c).srcA t) q))

omit hX hG hA in
theorem wc3_val (k q : Fin 128) : X17 m c main_arg27 (ix2 k q) = (argsOf m c).bg1.params.WC k q :=
  congrFun (argv_17_27 m c) (ix2 k q)
omit hX hG hA in
theorem ge3_val (q : Fin 128) : X17 m c main_arg31 (ix2 (0 : Fin 1) q) = (argsOf m c).bg1.params.ge q :=
  congrFun (argv_17_31 m c) (ix2 (0 : Fin 1) q)
omit hX hG hA in
theorem be3_val (q : Fin 128) : X17 m c main_arg32 (ix2 (0 : Fin 1) q) = (argsOf m c).bg1.params.be q :=
  congrFun (argv_17_32 m c) (ix2 (0 : Fin 1) q)
omit hX hG hA in
theorem bs3_val (q : Fin 128) : X17 m c main_v95 (ix2 (0 : Fin 1) q) = bsum (argsOf m c).bg1.params q := by
  refine (host8_v95 (X16 m c) q).trans ?_
  rw [argv_16_24 m c, argv_16_26 m c, argv_16_28 m c]
  rfl
omit hX hG hA in
theorem gx3_val (q : Fin 128) : X19 m c main_arg29 (ix2 (0 : Fin 1) q) = (argsOf m c).bg1.params.gx q :=
  congrFun (argv_19_29 m c) (ix2 (0 : Fin 1) q)
omit hX hG hA in
theorem bx3_val (q : Fin 128) : X19 m c main_arg30 (ix2 (0 : Fin 1) q) = (argsOf m c).bg1.params.bx q :=
  congrFun (argv_19_30 m c) (ix2 (0 : Fin 1) q)

variable (hE : ∀ t q, X17 m c main_v46_0 (ix2 t q) = erows t q)
include hE

omit hG hA in
theorem rowsE3 : rows (N := 131072) (X17 m c main_v46_0) = erows := funext fun t => funext fun q => hE t q

/-- Region 8's outputs: the updated edge rows, the gated messages and the gates. -/
theorem enew3_val (t : Fin 131072) (q : Fin 128) :
    X18 m c main_v96_0 (ix2 t q) = eNewK (argsOf m c).bg1.params xrows erows (argsOf m c).srcA (argsOf m c).dstA t q :=
  (congrFun ((X18_arr m c 7).trans (final8_7 (XT17 m) c)) (ix2 t q)).trans
    ((enewAt_eq (by omega : 128 ≤ 256) (argsOf m c).bg1.params xrows (argsOf m c).srcA (argsOf m c).dstA (X17 m c main_v46_0) (X17 m c main_v64) (X17 m c main_v71)
        (X17 m c main_arg27) (X17 m c main_v95) (X17 m c main_arg31) (X17 m c main_arg32)
        (gd3_val m c xrows hX hG hA) (gshi3_val m c xrows hX hG hA) (wc3_val m c) (bs3_val m c)
        (ge3_val m c) (be3_val m c) t q).trans (by rw [rowsE3 m c xrows erows hX hE]))

theorem mslo3_val (t : Fin 131072) (q : Fin 128) :
    X18 m c main_v96_1 (ix2 t ⟨q.val, by omega⟩) = msLoK (argsOf m c).bg1.params xrows erows (argsOf m c).srcA (argsOf m c).dstA t q :=
  (congrFun ((X18_arr m c 8).trans (final8_8 (XT17 m) c)) (ix2 t ⟨q.val, by omega⟩)).trans
    ((msAt_lo (by omega : 128 ≤ 256) (argsOf m c).bg1.params xrows (argsOf m c).srcA (argsOf m c).dstA (X17 m c main_v46_0) (X17 m c main_v64) (X17 m c main_v71)
        (X17 m c main_arg27) (X17 m c main_v95)
        (gd3_val m c xrows hX hG hA) (gslo3_val m c xrows hX hG hA) (gshi3_val m c xrows hX hG hA) (wc3_val m c) (bs3_val m c) t q).trans
      (by rw [rowsE3 m c xrows erows hX hE]))

theorem mshi3_val (t : Fin 131072) (q : Fin 128) :
    X18 m c main_v96_1 (ix2 t ⟨128 + q.val, by omega⟩) = msHiK (argsOf m c).bg1.params xrows erows (argsOf m c).srcA (argsOf m c).dstA t q :=
  (congrFun ((X18_arr m c 8).trans (final8_8 (XT17 m) c)) (ix2 t ⟨128 + q.val, by omega⟩)).trans
    ((msAt_hi (by omega : 128 ≤ 256) (argsOf m c).bg1.params xrows (argsOf m c).srcA (argsOf m c).dstA (X17 m c main_v46_0) (X17 m c main_v64) (X17 m c main_v71)
        (X17 m c main_arg27) (X17 m c main_v95)
        (gd3_val m c xrows hX hG hA) (gshi3_val m c xrows hX hG hA) (wc3_val m c) (bs3_val m c) t q).trans
      (by rw [rowsE3 m c xrows erows hX hE]))

/-- The scatter-added messages, as region 9 finds them. -/
theorem agglo3_val (n : Fin 65536) (q : Fin 128) :
    X19 m c main_v99 (ix2 n ⟨q.val, by omega⟩) = segSum (argsOf m c).dstA (msLoK (argsOf m c).bg1.params xrows erows (argsOf m c).srcA (argsOf m c).dstA) n q :=
  (host9_v99 (X18 m c) (argsOf m c).dstA (v3_at18 m c hA) n ⟨q.val, by omega⟩).trans
    (congrArg (cZero + ·) (Finset.sum_congr rfl fun t _ => by
      rw [show asReal (s := S131072x256) (X18 m c main_v96_1) (ix2 t ⟨q.val, by omega⟩) = msLoK (argsOf m c).bg1.params xrows erows (argsOf m c).srcA (argsOf m c).dstA t q from
        (congrFun rfl (ix2 t ⟨q.val, by omega⟩)).trans (mslo3_val m c xrows erows hX hG hA hE t q)]))

theorem agghi3_val (n : Fin 65536) (q : Fin 128) :
    X19 m c main_v99 (ix2 n ⟨128 + q.val, by omega⟩) = segSum (argsOf m c).dstA (msHiK (argsOf m c).bg1.params xrows erows (argsOf m c).srcA (argsOf m c).dstA) n q :=
  (host9_v99 (X18 m c) (argsOf m c).dstA (v3_at18 m c hA) n ⟨128 + q.val, by omega⟩).trans
    (congrArg (cZero + ·) (Finset.sum_congr rfl fun t _ => by
      rw [show asReal (s := S131072x256) (X18 m c main_v96_1) (ix2 t ⟨128 + q.val, by omega⟩) = msHiK (argsOf m c).bg1.params xrows erows (argsOf m c).srcA (argsOf m c).dstA t q from
        (congrFun rfl (ix2 t ⟨128 + q.val, by omega⟩)).trans (mshi3_val m c xrows erows hX hG hA hE t q)]))

/-- Region 9's output: the updated node rows. -/
theorem xnew3_val (n : Fin 65536) (q : Fin 128) :
    X20 m c main_v100 (ix2 n q) = xNewK (argsOf m c).bg1.params xrows erows (argsOf m c).srcA (argsOf m c).dstA n q := by
  have hXu : rows (N := 65536) (X19 m c main_v53_0) = xrows := funext fun n => funext fun q =>
    (congrFun ((((((((step19 m c main_v53_0 (by decide)).trans (step18 m c main_v53_0 (by decide))).trans (step17 m c main_v53_0 (by decide))).trans (step16 m c main_v53_0 (by decide))).trans (step15 m c main_v53_0 (by decide))).trans (step14 m c main_v53_0 (by decide))).trans (step13 m c main_v53_0 (by decide))).trans (step12 m c main_v53_0 (by decide))) (ix2 n q)).trans (hX n q)
  refine (congrFun ((X20_arr m c 5).trans (final9_5 (XT19 m) c)) (ix2 n q)).trans ?_
  refine (updAt_eq (argsOf m c).bg1.params erows (argsOf m c).srcA (argsOf m c).dstA (X19 m c main_v53_0) (X19 m c main_v57_0) (X19 m c main_v99)
    (X19 m c main_arg29) (X19 m c main_arg30) ?_ ?_ ?_ (gx3_val m c) (bx3_val m c) n q).trans (by rw [hXu])
  · intro n q
    rw [hXu]
    exact (congrFun (((((((step19 m c main_v57_0 (by decide)).trans (step18 m c main_v57_0 (by decide))).trans (step17 m c main_v57_0 (by decide))).trans (step16 m c main_v57_0 (by decide))).trans (step15 m c main_v57_0 (by decide))).trans (step14 m c main_v57_0 (by decide))).trans (step13 m c main_v57_0 (by decide))) (ix2 n q)).trans (hs3_val m c xrows hX n q)
  · intro n q
    rw [hXu]
    exact agglo3_val m c xrows erows hX hG hA hE n q
  · intro n q
    rw [hXu]
    exact agghi3_val m c xrows erows hX hG hA hE n q

end L3

end Cert.KernelIdeal.Val

end
-- ==== Proof.KV.Fin7.lean ====
/-
  Region 7 (a node projection): each output array after the region as one function of the region's input
  arrays, index by index.
-/
import proofs.«117664_g2000706958607885_pallasbulk_534_41_alg».proof.Proof.KI.Half7
import proofs.«117664_g2000706958607885_pallasbulk_534_41_alg».proof.Proof.KV.NodeProj
import proofs.«117664_g2000706958607885_pallasbulk_534_41_alg».proof.Proof.KV.FinCommon
import Idealize.ShloMosaic.Lib.Pipeline.Value

set_option maxRecDepth 16384

noncomputable section

namespace Cert.KernelIdeal.Val

open Cert.KernelIdeal Cert.KernelIdeal.Gen Cert.KernelIdeal.Fr
open Idealize.ShloMosaic Idealize.ShloMosaic.ValueIdx Idealize.ShloMosaic.TcCoe Idealize.SL.Sem
open Idealize.ShloMosaic.Pipeline (Dat)
open scoped BigOperators

section Region7
variable (V : (c : Dev nD) → (b : Ref sig .tc) → Buf (Elt Ideal) ((c : Thread nD τ).loc b))

/-- The printed index maps over the grid: a row window's block index is the grid point, a whole window's is zero. -/
theorem idx7 : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0
    ∧ win7_4.index t (0 : Fin 2) = t.val ∧ win7_4.index t (1 : Fin 2) = 0
    ∧ win7_5.index t (0 : Fin 2) = t.val ∧ win7_5.index t (1 : Fin 2) = 0 :=
  (by decide +kernel : ∀ t : Fin grid7.N, _)

theorem t_lt7 (t : Fin cfg7.N) : t.val < 16 := lt_of_lt_of_eq t.isLt N_7

/-- Row `p` of window 0's block at point `t` is row `t · 1024 + p` of its array. -/
theorem blk7_0 (c : Dev nD) (t : Fin cfg7.N) (p : Fin 1024) (k : Fin 128) :
    iblk7 V c 0 t (ix2 p k) = V c main_v75 (ix2 ⟨t.val * 1024 + p.val, by have := t_lt7 t; omega⟩ k) := by
  show V c main_v75 (((cfg7.win 0).blk t).view.emb (ix2 p k)) = _
  refine congrArg (V c main_v75) (funext fun a => Fin.ext ?_)
  obtain ⟨e0_0, e0_1, -, -, -, -, -, -, -, -, -, -⟩ := idx7 t
  match a with
  | ⟨0, _⟩ => show win7_0.index t (0 : Fin 2) * 1024 + 1 * p.val = t.val * 1024 + p.val; omega
  | ⟨1, _⟩ => show win7_0.index t (1 : Fin 2) * 128 + 1 * k.val = k.val; omega

/-- Window 1's block is its whole array. -/
theorem blk7_1 (c : Dev nD) (t : Fin cfg7.N) : iblk7 V c 1 t = V c main_v76 := by
  funext j
  show V c main_v76 (((cfg7.win 1).blk t).view.emb j) = V c main_v76 j
  refine congrArg (V c main_v76) (funext fun a => Fin.ext ?_)
  obtain ⟨-, -, e1_0, e1_1, -, -, -, -, -, -, -, -⟩ := idx7 t
  match a with
  | ⟨0, _⟩ => show win7_1.index t (0 : Fin 2) * 128 + 1 * (j 0).val = (j 0).val; omega
  | ⟨1, _⟩ => show win7_1.index t (1 : Fin 2) * 512 + 1 * (j 1).val = (j 1).val; omega

/-- Window 2's block is its whole array. -/
theorem blk7_2 (c : Dev nD) (t : Fin cfg7.N) : iblk7 V c 2 t = V c main_v78 := by
  funext j
  show V c main_v78 (((cfg7.win 2).blk t).view.emb j) = V c main_v78 j
  refine congrArg (V c main_v78) (funext fun a => Fin.ext ?_)
  obtain ⟨-, -, -, -, e2_0, e2_1, -, -, -, -, -, -⟩ := idx7 t
  match a with
  | ⟨0, _⟩ => show win7_2.index t (0 : Fin 2) * 1 + 1 * (j 0).val = (j 0).val; omega
  | ⟨1, _⟩ => show win7_2.index t (1 : Fin 2) * 512 + 1 * (j 1).val = (j 1).val; omega

/-- Window 3's array after region 7: lanes 0–127 of the projection of each node. -/
def G7_3 (X : (⟨2, ![16384, 128]⟩ : Shape).Idx → EReal) (W : S128x512.Idx → EReal) (B : S1x512.Idx → EReal) : S16384x128.Idx → EReal :=
  fun i => proj X W B ⟨(i 0).val, idx2_lt0 i⟩ ⟨0 + (i 1).val, by have := idx2_lt1 i; omega⟩

theorem pt7_3 (x0 : Vec Ideal S1024x128 .f32) (x1 : Vec Ideal S128x512 .f32) (x2 : Vec Ideal S1x512 .f32)
    (X : (⟨2, ![16384, 128]⟩ : Shape).Idx → EReal) (W : S128x512.Idx → EReal) (B : S1x512.Idx → EReal) (p : Fin 1024) (q : Fin 128) (n : Fin 16384)
    (h0 : ∀ k, x0 (ix2 p k) = X (ix2 n k)) (h1 : x1 = W) (h2 : x2 = B) :
    k7_pay2 x0 x1 x2 (ix2 p q) = proj X W B n ⟨0 + q.val, by omega⟩ := by
  subst h1 h2
  rw [k7_pay2_apply, k7_pay1_apply, show (fun k => x0 (ix2 p k)) = fun k => X (ix2 n k) from funext h0]
  rfl

theorem flushed7_3 (c : Dev nD) (t : Fin cfg7.N) :
    (dat7 V c).flushed 3 t = ((cfg7.win 3).blk t).view.read (Elt Ideal) (G7_3 (V c main_v75) (V c main_v76) (V c main_v78)) := by
  show (cfg7.win 3).cut (grid7.coords t) ((dat7 V c).after 3 t) = _
  rw [after7_3]
  unfold out7_3
  rw [View.canon_unit_zero hz2]
  simp only [View.ld_unit_zero (S := S1024x128) hz2, View.ld_unit_zero (S := S128x512) hz2, View.ld_unit_zero (S := S1x512) hz2]
  funext j
  obtain ⟨p, q, rfl⟩ : ∃ (p : Fin 1024) (q : Fin 128), j = ix2 p q := ⟨j 0, j 1, eq_ix2 j⟩
  show k7_pay2 (iblk7 V c 0 t) (iblk7 V c 1 t) (iblk7 V c 2 t) (ix2 p q)
      = G7_3 (V c main_v75) (V c main_v76) (V c main_v78) (((cfg7.win 3).blk t).view.emb (ix2 p q))
  refine (pt7_3 (iblk7 V c 0 t) (iblk7 V c 1 t) (iblk7 V c 2 t) (V c main_v75) (V c main_v76) (V c main_v78) p q
    ⟨t.val * 1024 + p.val, by have := t_lt7 t; omega⟩ (fun k => blk7_0 V c t p k) (blk7_1 V c t) (blk7_2 V c t)).trans ?_
  obtain ⟨-, -, -, -, -, -, e3_0, e3_1, -, -, -, -⟩ := idx7 t
  have hemb : ((cfg7.win 3).blk t).view.emb (ix2 p q) = ix2 ⟨t.val * 1024 + p.val, by have := t_lt7 t; omega⟩ q :=
    funext fun a => Fin.ext (by
      match a with
      | ⟨0, _⟩ => show win7_3.index t (0 : Fin 2) * 1024 + 1 * p.val = t.val * 1024 + p.val; omega
      | ⟨1, _⟩ => show win7_3.index t (1 : Fin 2) * 128 + 1 * q.val = q.val; omega)
  exact ((congrArg (G7_3 (V c main_v75) (V c main_v76) (V c main_v78)) hemb).trans rfl).symm

/-- Membership in window 3's block at point `t`, coordinate by coordinate. -/
theorem mem_blk7_3 (t : Fin cfg7.N) (i : S16384x128.Idx) :
    i ∈ ((cfg7.win 3).blk t).view.set ↔ ∀ a : Fin 2, win7_3.index t a * S1024x128.size a ≤ (i a).val ∧ (i a).val < win7_3.index t a * S1024x128.size a + S1024x128.size a := by
  show i ∈ ((View.whole main_v79_0).slice (win7_3.rect t)).set ↔ _
  rw [View.set_slice_whole, Rect.mem_set_unit]
  exact Iff.rfl

/-- Every row of the array lies in the block of the point `row / 1024`. -/
theorem covered7_3 (i : S16384x128.Idx) : ∃ t : Fin cfg7.N, (cfg7.win 3).flush t = true ∧ i ∈ ((cfg7.win 3).blk t).view.set := by
  have hi0 : (i 0).val < 16384 := (i 0).isLt
  have hi1 : (i 1).val < 128 := (i 1).isLt
  have hN : cfg7.N = 16 := N_7
  let t : Fin cfg7.N := ⟨(i 0).val / 1024, by rw [hN]; omega⟩
  obtain ⟨-, -, -, -, -, -, e3_0, e3_1, -, -, -, -⟩ := idx7 t
  refine ⟨t, flush7_3 t, ?_⟩
  rw [mem_blk7_3]
  intro a
  match a with
  | ⟨0, _⟩ =>
    show win7_3.index t (0 : Fin 2) * 1024 ≤ (i 0).val ∧ (i 0).val < win7_3.index t (0 : Fin 2) * 1024 + 1024
    rw [e3_0]
    show (i 0).val / 1024 * 1024 ≤ (i 0).val ∧ (i 0).val < (i 0).val / 1024 * 1024 + 1024
    omega
  | ⟨1, _⟩ =>
    show win7_3.index t (1 : Fin 2) * 128 ≤ (i 1).val ∧ (i 1).val < win7_3.index t (1 : Fin 2) * 128 + 128
    omega

/-- The array after the region. -/
theorem final7_3 (c : Dev nD) : (dat7 V c).arrAt 3 cfg7.N = G7_3 (V c main_v75) (V c main_v76) (V c main_v78) :=
  (dat7 V c).arrAt_eq_of_cover 3 _ (fun t _ => flushed7_3 V c t) covered7_3

/-- Window 5's array after region 7: lanes 128–383 of the projection of each node. -/
def G7_5 (X : (⟨2, ![16384, 128]⟩ : Shape).Idx → EReal) (W : S128x512.Idx → EReal) (B : S1x512.Idx → EReal) : S16384x256.Idx → EReal :=
  fun i => proj X W B ⟨(i 0).val, idx2_lt0 i⟩ ⟨128 + (i 1).val, by have := idx2_lt1 i; omega⟩

theorem pt7_5 (x0 : Vec Ideal S1024x128 .f32) (x1 : Vec Ideal S128x512 .f32) (x2 : Vec Ideal S1x512 .f32)
    (X : (⟨2, ![16384, 128]⟩ : Shape).Idx → EReal) (W : S128x512.Idx → EReal) (B : S1x512.Idx → EReal) (p : Fin 1024) (q : Fin 256) (n : Fin 16384)
    (h0 : ∀ k, x0 (ix2 p k) = X (ix2 n k)) (h1 : x1 = W) (h2 : x2 = B) :
    k7_pay3 x0 x1 x2 (ix2 p q) = proj X W B n ⟨128 + q.val, by omega⟩ := by
  subst h1 h2
  rw [k7_pay3_apply, k7_pay1_apply, show (fun k => x0 (ix2 p k)) = fun k => X (ix2 n k) from funext h0]
  rfl

theorem flushed7_5 (c : Dev nD) (t : Fin cfg7.N) :
    (dat7 V c).flushed 5 t = ((cfg7.win 5).blk t).view.read (Elt Ideal) (G7_5 (V c main_v75) (V c main_v76) (V c main_v78)) := by
  show (cfg7.win 5).cut (grid7.coords t) ((dat7 V c).after 5 t) = _
  rw [after7_5]
  unfold out7_5
  rw [View.canon_unit_zero hz2]
  simp only [View.ld_unit_zero (S := S1024x128) hz2, View.ld_unit_zero (S := S128x512) hz2, View.ld_unit_zero (S := S1x512) hz2]
  funext j
  obtain ⟨p, q, rfl⟩ : ∃ (p : Fin 1024) (q : Fin 256), j = ix2 p q := ⟨j 0, j 1, eq_ix2 j⟩
  show k7_pay3 (iblk7 V c 0 t) (iblk7 V c 1 t) (iblk7 V c 2 t) (ix2 p q)
      = G7_5 (V c main_v75) (V c main_v76) (V c main_v78) (((cfg7.win 5).blk t).view.emb (ix2 p q))
  refine (pt7_5 (iblk7 V c 0 t) (iblk7 V c 1 t) (iblk7 V c 2 t) (V c main_v75) (V c main_v76) (V c main_v78) p q
    ⟨t.val * 1024 + p.val, by have := t_lt7 t; omega⟩ (fun k => blk7_0 V c t p k) (blk7_1 V c t) (blk7_2 V c t)).trans ?_
  obtain ⟨-, -, -, -, -, -, -, -, -, -, e5_0, e5_1⟩ := idx7 t
  have hemb : ((cfg7.win 5).blk t).view.emb (ix2 p q) = ix2 ⟨t.val * 1024 + p.val, by have := t_lt7 t; omega⟩ q :=
    funext fun a => Fin.ext (by
      match a with
      | ⟨0, _⟩ => show win7_5.index t (0 : Fin 2) * 1024 + 1 * p.val = t.val * 1024 + p.val; omega
      | ⟨1, _⟩ => show win7_5.index t (1 : Fin 2) * 256 + 1 * q.val = q.val; omega)
  exact ((congrArg (G7_5 (V c main_v75) (V c main_v76) (V c main_v78)) hemb).trans rfl).symm

/-- Membership in window 5's block at point `t`, coordinate by coordinate. -/
theorem mem_blk7_5 (t : Fin cfg7.N) (i : S16384x256.Idx) :
    i ∈ ((cfg7.win 5).blk t).view.set ↔ ∀ a : Fin 2, win7_5.index t a * S1024x256.size a ≤ (i a).val ∧ (i a).val < win7_5.index t a * S1024x256.size a + S1024x256.size a := by
  show i ∈ ((View.whole main_v79_2).slice (win7_5.rect t)).set ↔ _
  rw [View.set_slice_whole, Rect.mem_set_unit]
  exact Iff.rfl

/-- Every row of the array lies in the block of the point `row / 1024`. -/
theorem covered7_5 (i : S16384x256.Idx) : ∃ t : Fin cfg7.N, (cfg7.win 5).flush t = true ∧ i ∈ ((cfg7.win 5).blk t).view.set := by
  have hi0 : (i 0).val < 16384 := (i 0).isLt
  have hi1 : (i 1).val < 256 := (i 1).isLt
  have hN : cfg7.N = 16 := N_7
  let t : Fin cfg7.N := ⟨(i 0).val / 1024, by rw [hN]; omega⟩
  obtain ⟨-, -, -, -, -, -, -, -, -, -, e5_0, e5_1⟩ := idx7 t
  refine ⟨t, flush7_5 t, ?_⟩
  rw [mem_blk7_5]
  intro a
  match a with
  | ⟨0, _⟩ =>
    show win7_5.index t (0 : Fin 2) * 1024 ≤ (i 0).val ∧ (i 0).val < win7_5.index t (0 : Fin 2) * 1024 + 1024
    rw [e5_0]
    show (i 0).val / 1024 * 1024 ≤ (i 0).val ∧ (i 0).val < (i 0).val / 1024 * 1024 + 1024
    omega
  | ⟨1, _⟩ =>
    show win7_5.index t (1 : Fin 2) * 256 ≤ (i 1).val ∧ (i 1).val < win7_5.index t (1 : Fin 2) * 256 + 256
    omega

/-- The array after the region. -/
theorem final7_5 (c : Dev nD) : (dat7 V c).arrAt 5 cfg7.N = G7_5 (V c main_v75) (V c main_v76) (V c main_v78) :=
  (dat7 V c).arrAt_eq_of_cover 5 _ (fun t _ => flushed7_5 V c t) covered7_5

/-- Window 4's array after region 7: lanes 384–511 of the projection of each node. -/
def G7_4 (X : (⟨2, ![16384, 128]⟩ : Shape).Idx → EReal) (W : S128x512.Idx → EReal) (B : S1x512.Idx → EReal) : S16384x128.Idx → EReal :=
  fun i => proj X W B ⟨(i 0).val, idx2_lt0 i⟩ ⟨384 + (i 1).val, by have := idx2_lt1 i; omega⟩

theorem pt7_4 (x0 : Vec Ideal S1024x128 .f32) (x1 : Vec Ideal S128x512 .f32) (x2 : Vec Ideal S1x512 .f32)
    (X : (⟨2, ![16384, 128]⟩ : Shape).Idx → EReal) (W : S128x512.Idx → EReal) (B : S1x512.Idx → EReal) (p : Fin 1024) (q : Fin 128) (n : Fin 16384)
    (h0 : ∀ k, x0 (ix2 p k) = X (ix2 n k)) (h1 : x1 = W) (h2 : x2 = B) :
    k7_pay4 x0 x1 x2 (ix2 p q) = proj X W B n ⟨384 + q.val, by omega⟩ := by
  subst h1 h2
  rw [k7_pay4_apply, k7_pay1_apply, show (fun k => x0 (ix2 p k)) = fun k => X (ix2 n k) from funext h0]
  rfl

theorem flushed7_4 (c : Dev nD) (t : Fin cfg7.N) :
    (dat7 V c).flushed 4 t = ((cfg7.win 4).blk t).view.read (Elt Ideal) (G7_4 (V c main_v75) (V c main_v76) (V c main_v78)) := by
  show (cfg7.win 4).cut (grid7.coords t) ((dat7 V c).after 4 t) = _
  rw [after7_4]
  unfold out7_4
  rw [View.canon_unit_zero hz2]
  simp only [View.ld_unit_zero (S := S1024x128) hz2, View.ld_unit_zero (S := S128x512) hz2, View.ld_unit_zero (S := S1x512) hz2]
  funext j
  obtain ⟨p, q, rfl⟩ : ∃ (p : Fin 1024) (q : Fin 128), j = ix2 p q := ⟨j 0, j 1, eq_ix2 j⟩
  show k7_pay4 (iblk7 V c 0 t) (iblk7 V c 1 t) (iblk7 V c 2 t) (ix2 p q)
      = G7_4 (V c main_v75) (V c main_v76) (V c main_v78) (((cfg7.win 4).blk t).view.emb (ix2 p q))
  refine (pt7_4 (iblk7 V c 0 t) (iblk7 V c 1 t) (iblk7 V c 2 t) (V c main_v75) (V c main_v76) (V c main_v78) p q
    ⟨t.val * 1024 + p.val, by have := t_lt7 t; omega⟩ (fun k => blk7_0 V c t p k) (blk7_1 V c t) (blk7_2 V c t)).trans ?_
  obtain ⟨-, -, -, -, -, -, -, -, e4_0, e4_1, -, -⟩ := idx7 t
  have hemb : ((cfg7.win 4).blk t).view.emb (ix2 p q) = ix2 ⟨t.val * 1024 + p.val, by have := t_lt7 t; omega⟩ q :=
    funext fun a => Fin.ext (by
      match a with
      | ⟨0, _⟩ => show win7_4.index t (0 : Fin 2) * 1024 + 1 * p.val = t.val * 1024 + p.val; omega
      | ⟨1, _⟩ => show win7_4.index t (1 : Fin 2) * 128 + 1 * q.val = q.val; omega)
  exact ((congrArg (G7_4 (V c main_v75) (V c main_v76) (V c main_v78)) hemb).trans rfl).symm

/-- Membership in window 4's block at point `t`, coordinate by coordinate. -/
theorem mem_blk7_4 (t : Fin cfg7.N) (i : S16384x128.Idx) :
    i ∈ ((cfg7.win 4).blk t).view.set ↔ ∀ a : Fin 2, win7_4.index t a * S1024x128.size a ≤ (i a).val ∧ (i a).val < win7_4.index t a * S1024x128.size a + S1024x128.size a := by
  show i ∈ ((View.whole main_v79_1).slice (win7_4.rect t)).set ↔ _
  rw [View.set_slice_whole, Rect.mem_set_unit]
  exact Iff.rfl

/-- Every row of the array lies in the block of the point `row / 1024`. -/
theorem covered7_4 (i : S16384x128.Idx) : ∃ t : Fin cfg7.N, (cfg7.win 4).flush t = true ∧ i ∈ ((cfg7.win 4).blk t).view.set := by
  have hi0 : (i 0).val < 16384 := (i 0).isLt
  have hi1 : (i 1).val < 128 := (i 1).isLt
  have hN : cfg7.N = 16 := N_7
  let t : Fin cfg7.N := ⟨(i 0).val / 1024, by rw [hN]; omega⟩
  obtain ⟨-, -, -, -, -, -, -, -, e4_0, e4_1, -, -⟩ := idx7 t
  refine ⟨t, flush7_4 t, ?_⟩
  rw [mem_blk7_4]
  intro a
  match a with
  | ⟨0, _⟩ =>
    show win7_4.index t (0 : Fin 2) * 1024 ≤ (i 0).val ∧ (i 0).val < win7_4.index t (0 : Fin 2) * 1024 + 1024
    rw [e4_0]
    show (i 0).val / 1024 * 1024 ≤ (i 0).val ∧ (i 0).val < (i 0).val / 1024 * 1024 + 1024
    omega
  | ⟨1, _⟩ =>
    show win7_4.index t (1 : Fin 2) * 128 ≤ (i 1).val ∧ (i 1).val < win7_4.index t (1 : Fin 2) * 128 + 128
    omega

/-- The array after the region. -/
theorem final7_4 (c : Dev nD) : (dat7 V c).arrAt 4 cfg7.N = G7_4 (V c main_v75) (V c main_v76) (V c main_v78) :=
  (dat7 V c).arrAt_eq_of_cover 4 _ (fun t _ => flushed7_4 V c t) covered7_4

end Region7

end Cert.KernelIdeal.Val

end
-- ==== Proof.KV.Fin10.lean ====
/-
  Region 10 (an edge update): each output array after the region as one function of the region's input arrays,
  index by index.
-/
import proofs.«117664_g2000706958607885_pallasbulk_534_41_alg».proof.Proof.KI.Half10
import proofs.«117664_g2000706958607885_pallasbulk_534_41_alg».proof.Proof.KV.Edge
import proofs.«117664_g2000706958607885_pallasbulk_534_41_alg».proof.Proof.KV.FinCommon
import Idealize.ShloMosaic.Lib.Pipeline.Value

set_option maxRecDepth 16384

noncomputable section

namespace Cert.KernelIdeal.Val

open Cert.KernelIdeal Cert.KernelIdeal.Gen Cert.KernelIdeal.Fr
open Idealize.ShloMosaic Idealize.ShloMosaic.ValueIdx Idealize.ShloMosaic.TcCoe Idealize.SL.Sem
open Idealize.ShloMosaic.Pipeline (Dat)
open scoped BigOperators

section Region10
variable (V : (c : Dev nD) → (b : Ref sig .tc) → Buf (Elt Ideal) ((c : Thread nD τ).loc b))

/-- The printed index maps over the grid: a row window's block index is the grid point, a whole window's is zero. -/
theorem idx10 : ∀ t : Fin cfg10.N,
    win10_0.index t (0 : Fin 2) = t.val ∧ win10_0.index t (1 : Fin 2) = 0
    ∧ win10_1.index t (0 : Fin 2) = t.val ∧ win10_1.index t (1 : Fin 2) = 0
    ∧ win10_2.index t (0 : Fin 2) = t.val ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0
    ∧ win10_5.index t (0 : Fin 2) = 0 ∧ win10_5.index t (1 : Fin 2) = 0
    ∧ win10_6.index t (0 : Fin 2) = 0 ∧ win10_6.index t (1 : Fin 2) = 0
    ∧ win10_7.index t (0 : Fin 2) = t.val ∧ win10_7.index t (1 : Fin 2) = 0
    ∧ win10_8.index t (0 : Fin 2) = t.val ∧ win10_8.index t (1 : Fin 2) = 0 :=
  (by decide +kernel : ∀ t : Fin grid10.N, _)

theorem t_lt10 (t : Fin cfg10.N) : t.val < 64 := lt_of_lt_of_eq t.isLt N_10

/-- Row `p` of window 0's block at point `t` is row `t · 1024 + p` of its array. -/
theorem blk10_0 (c : Dev nD) (t : Fin cfg10.N) (p : Fin 1024) (k : Fin 128) :
    iblk10 V c 0 t (ix2 p k) = V c main_v100 (ix2 ⟨t.val * 1024 + p.val, by have := t_lt10 t; omega⟩ k) := by
  show V c main_v100 (((cfg10.win 0).blk t).view.emb (ix2 p k)) = _
  refine congrArg (V c main_v100) (funext fun a => Fin.ext ?_)
  obtain ⟨e0_0, e0_1, -, -, -, -, -, -, -, -, -, -, -, -, -, -, -, -⟩ := idx10 t
  match a with
  | ⟨0, _⟩ => show win10_0.index t (0 : Fin 2) * 1024 + 1 * p.val = t.val * 1024 + p.val; omega
  | ⟨1, _⟩ => show win10_0.index t (1 : Fin 2) * 128 + 1 * k.val = k.val; omega

/-- Row `p` of window 1's block at point `t` is row `t · 1024 + p` of its array. -/
theorem blk10_1 (c : Dev nD) (t : Fin cfg10.N) (p : Fin 1024) (k : Fin 128) :
    iblk10 V c 1 t (ix2 p k) = V c main_v86 (ix2 ⟨t.val * 1024 + p.val, by have := t_lt10 t; omega⟩ k) := by
  show V c main_v86 (((cfg10.win 1).blk t).view.emb (ix2 p k)) = _
  refine congrArg (V c main_v86) (funext fun a => Fin.ext ?_)
  obtain ⟨-, -, e1_0, e1_1, -, -, -, -, -, -, -, -, -, -, -, -, -, -⟩ := idx10 t
  match a with
  | ⟨0, _⟩ => show win10_1.index t (0 : Fin 2) * 1024 + 1 * p.val = t.val * 1024 + p.val; omega
  | ⟨1, _⟩ => show win10_1.index t (1 : Fin 2) * 128 + 1 * k.val = k.val; omega

/-- Row `p` of window 2's block at point `t` is row `t · 1024 + p` of its array. -/
theorem blk10_2 (c : Dev nD) (t : Fin cfg10.N) (p : Fin 1024) (k : Fin 256) :
    iblk10 V c 2 t (ix2 p k) = V c main_v93 (ix2 ⟨t.val * 1024 + p.val, by have := t_lt10 t; omega⟩ k) := by
  show V c main_v93 (((cfg10.win 2).blk t).view.emb (ix2 p k)) = _
  refine congrArg (V c main_v93) (funext fun a => Fin.ext ?_)
  obtain ⟨-, -, -, -, e2_0, e2_1, -, -, -, -, -, -, -, -, -, -, -, -⟩ := idx10 t
  match a with
  | ⟨0, _⟩ => show win10_2.index t (0 : Fin 2) * 1024 + 1 * p.val = t.val * 1024 + p.val; omega
  | ⟨1, _⟩ => show win10_2.index t (1 : Fin 2) * 256 + 1 * k.val = k.val; omega

/-- Window 3's block is its whole array. -/
theorem blk10_3 (c : Dev nD) (t : Fin cfg10.N) : iblk10 V c 3 t = V c main_arg55 := by
  funext j
  show V c main_arg55 (((cfg10.win 3).blk t).view.emb j) = V c main_arg55 j
  refine congrArg (V c main_arg55) (funext fun a => Fin.ext ?_)
  obtain ⟨-, -, -, -, -, -, e3_0, e3_1, -, -, -, -, -, -, -, -, -, -⟩ := idx10 t
  match a with
  | ⟨0, _⟩ => show win10_3.index t (0 : Fin 2) * 128 + 1 * (j 0).val = (j 0).val; omega
  | ⟨1, _⟩ => show win10_3.index t (1 : Fin 2) * 128 + 1 * (j 1).val = (j 1).val; omega

/-- Window 4's block is its whole array. -/
theorem blk10_4 (c : Dev nD) (t : Fin cfg10.N) : iblk10 V c 4 t = V c main_v102 := by
  funext j
  show V c main_v102 (((cfg10.win 4).blk t).view.emb j) = V c main_v102 j
  refine congrArg (V c main_v102) (funext fun a => Fin.ext ?_)
  obtain ⟨-, -, -, -, -, -, -, -, e4_0, e4_1, -, -, -, -, -, -, -, -⟩ := idx10 t
  match a with
  | ⟨0, _⟩ => show win10_4.index t (0 : Fin 2) * 1 + 1 * (j 0).val = (j 0).val; omega
  | ⟨1, _⟩ => show win10_4.index t (1 : Fin 2) * 128 + 1 * (j 1).val = (j 1).val; omega

/-- Window 5's block is its whole array. -/
theorem blk10_5 (c : Dev nD) (t : Fin cfg10.N) : iblk10 V c 5 t = V c main_arg59 := by
  funext j
  show V c main_arg59 (((cfg10.win 5).blk t).view.emb j) = V c main_arg59 j
  refine congrArg (V c main_arg59) (funext fun a => Fin.ext ?_)
  obtain ⟨-, -, -, -, -, -, -, -, -, -, e5_0, e5_1, -, -, -, -, -, -⟩ := idx10 t
  match a with
  | ⟨0, _⟩ => show win10_5.index t (0 : Fin 2) * 1 + 1 * (j 0).val = (j 0).val; omega
  | ⟨1, _⟩ => show win10_5.index t (1 : Fin 2) * 128 + 1 * (j 1).val = (j 1).val; omega

/-- Window 6's block is its whole array. -/
theorem blk10_6 (c : Dev nD) (t : Fin cfg10.N) : iblk10 V c 6 t = V c main_arg60 := by
  funext j
  show V c main_arg60 (((cfg10.win 6).blk t).view.emb j) = V c main_arg60 j
  refine congrArg (V c main_arg60) (funext fun a => Fin.ext ?_)
  obtain ⟨-, -, -, -, -, -, -, -, -, -, -, -, e6_0, e6_1, -, -, -, -⟩ := idx10 t
  match a with
  | ⟨0, _⟩ => show win10_6.index t (0 : Fin 2) * 1 + 1 * (j 0).val = (j 0).val; omega
  | ⟨1, _⟩ => show win10_6.index t (1 : Fin 2) * 128 + 1 * (j 1).val = (j 1).val; omega

/-- The pre-activation row of a tile's row `p` is that of the edge `n` its blocks' rows come from. -/
theorem ehat10_row (x0 x1 : Vec Ideal S1024x128 .f32) (x2 : Vec Ideal S1024x256 .f32) (x3 : Vec Ideal S128x128 .f32) (x4 : Vec Ideal S1x128 .f32)
    (E : (⟨2, ![65536, 128]⟩ : Shape).Idx → EReal) (GD : (⟨2, ![65536, 128]⟩ : Shape).Idx → EReal) (GS : (⟨2, ![65536, 256]⟩ : Shape).Idx → EReal) (WC : S128x128.Idx → EReal) (BS : S1x128.Idx → EReal) (p : Fin 1024) (n : Fin 65536)
    (h0 : ∀ k, x0 (ix2 p k) = E (ix2 n k)) (h1 : ∀ k, x1 (ix2 p k) = GD (ix2 n ⟨k.val, by omega⟩)) (h2 : ∀ k, x2 (ix2 p k) = GS (ix2 n k))
    (h3 : x3 = WC) (h4 : x4 = BS) :
    ehatRow x0 x2 x3 x1 x4 p = ehatArr (by omega : 128 ≤ 128) E GD GS WC BS n := by
  subst h3 h4
  unfold ehatRow ehatArr
  rw [show (fun k => x0 (ix2 p k)) = fun k => E (ix2 n k) from funext h0,
    show (fun k => x1 (ix2 p k)) = fun k => GD (ix2 n ⟨k.val, by omega⟩) from funext h1,
    show (fun k : Fin 128 => x2 (ix2 p ⟨128 + k.val, by omega⟩)) = fun k => GS (ix2 n ⟨128 + k.val, by omega⟩) from funext fun k => h2 _]

/-- Window 7's array after region 10. -/
def G10_7 (E : (⟨2, ![65536, 128]⟩ : Shape).Idx → EReal) (GD : (⟨2, ![65536, 128]⟩ : Shape).Idx → EReal) (GS : (⟨2, ![65536, 256]⟩ : Shape).Idx → EReal) (WC : S128x128.Idx → EReal) (BS : S1x128.Idx → EReal) (Gm Bt : S1x128.Idx → EReal) : S65536x128.Idx → EReal :=
  fun i => enewAt (by omega : 128 ≤ 128) E GD GS WC BS Gm Bt ⟨(i 0).val, idx2_lt0 i⟩ ⟨(i 1).val, idx2_lt1 i⟩
/-- Window 8's array after region 10. -/
def G10_8 (E : (⟨2, ![65536, 128]⟩ : Shape).Idx → EReal) (GD : (⟨2, ![65536, 128]⟩ : Shape).Idx → EReal) (GS : (⟨2, ![65536, 256]⟩ : Shape).Idx → EReal) (WC : S128x128.Idx → EReal) (BS : S1x128.Idx → EReal) : S65536x256.Idx → EReal :=
  fun i => msAt (by omega : 128 ≤ 128) E GD GS WC BS ⟨(i 0).val, idx2_lt0 i⟩ ⟨(i 1).val, idx2_lt1 i⟩

theorem pt10_7 (x0 x1 : Vec Ideal S1024x128 .f32) (x2 : Vec Ideal S1024x256 .f32) (x3 : Vec Ideal S128x128 .f32) (x4 : Vec Ideal S1x128 .f32) (x5 x6 : Vec Ideal S1x128 .f32)
    (E : (⟨2, ![65536, 128]⟩ : Shape).Idx → EReal) (GD : (⟨2, ![65536, 128]⟩ : Shape).Idx → EReal) (GS : (⟨2, ![65536, 256]⟩ : Shape).Idx → EReal) (WC : S128x128.Idx → EReal) (BS : S1x128.Idx → EReal) (Gm Bt : S1x128.Idx → EReal) (p : Fin 1024) (q : Fin 128) (n : Fin 65536)
    (h0 : ∀ k, x0 (ix2 p k) = E (ix2 n k)) (h1 : ∀ k, x1 (ix2 p k) = GD (ix2 n ⟨k.val, by omega⟩)) (h2 : ∀ k, x2 (ix2 p k) = GS (ix2 n k))
    (h3 : x3 = WC) (h4 : x4 = BS) (h5 : x5 = Gm) (h6 : x6 = Bt) :
    k10_pay1 (k10_pay4 x0) (k10_pay7 x0 x2 x3 x1 x4 x5 x6) (ix2 p q) = enewAt (by omega : 128 ≤ 128) E GD GS WC BS Gm Bt n q := by
  subst h5 h6
  rw [edge10_new_apply, ehat10_row x0 x1 x2 x3 x4 E GD GS WC BS p n h0 h1 h2 h3 h4,
    show (fun k => x0 (ix2 p k)) = fun k => E (ix2 n k) from funext h0]
  rfl

theorem pt10_8hi (x0 x1 : Vec Ideal S1024x128 .f32) (x2 : Vec Ideal S1024x256 .f32) (x3 : Vec Ideal S128x128 .f32) (x4 : Vec Ideal S1x128 .f32)
    (E : (⟨2, ![65536, 128]⟩ : Shape).Idx → EReal) (GD : (⟨2, ![65536, 128]⟩ : Shape).Idx → EReal) (GS : (⟨2, ![65536, 256]⟩ : Shape).Idx → EReal) (WC : S128x128.Idx → EReal) (BS : S1x128.Idx → EReal) (p : Fin 1024) (q : Fin 128) (n : Fin 65536)
    (h0 : ∀ k, x0 (ix2 p k) = E (ix2 n k)) (h1 : ∀ k, x1 (ix2 p k) = GD (ix2 n ⟨k.val, by omega⟩)) (h2 : ∀ k, x2 (ix2 p k) = GS (ix2 n k))
    (h3 : x3 = WC) (h4 : x4 = BS) :
    k10_pay2 (k10_pay6 x0 x2 x3 x1 x4) (ix2 p q) = Spec.gate (ehatArr (by omega : 128 ≤ 128) E GD GS WC BS n) q := by
  rw [edge10_gate_apply, ehat10_row x0 x1 x2 x3 x4 E GD GS WC BS p n h0 h1 h2 h3 h4]

theorem pt10_8lo (x0 x1 : Vec Ideal S1024x128 .f32) (x2 : Vec Ideal S1024x256 .f32) (x3 : Vec Ideal S128x128 .f32) (x4 : Vec Ideal S1x128 .f32)
    (E : (⟨2, ![65536, 128]⟩ : Shape).Idx → EReal) (GD : (⟨2, ![65536, 128]⟩ : Shape).Idx → EReal) (GS : (⟨2, ![65536, 256]⟩ : Shape).Idx → EReal) (WC : S128x128.Idx → EReal) (BS : S1x128.Idx → EReal) (p : Fin 1024) (q : Fin 128) (n : Fin 65536)
    (h0 : ∀ k, x0 (ix2 p k) = E (ix2 n k)) (h1 : ∀ k, x1 (ix2 p k) = GD (ix2 n ⟨k.val, by omega⟩)) (h2 : ∀ k, x2 (ix2 p k) = GS (ix2 n k))
    (h3 : x3 = WC) (h4 : x4 = BS) :
    k10_pay3 (k10_pay5 x2) (k10_pay6 x0 x2 x3 x1 x4) (ix2 p q)
      = Spec.gate (ehatArr (by omega : 128 ≤ 128) E GD GS WC BS n) q * GS (ix2 n ⟨q.val, by omega⟩) := by
  rw [edge10_msg_apply, ehat10_row x0 x1 x2 x3 x4 E GD GS WC BS p n h0 h1 h2 h3 h4, h2]
  exact congrArg (fun z => Spec.gate (ehatArr (by omega : 128 ≤ 128) E GD GS WC BS n) q * GS (ix2 n z)) (Fin.ext (Nat.zero_add _))

theorem flushed10_7 (c : Dev nD) (t : Fin cfg10.N) :
    (dat10 V c).flushed 7 t = ((cfg10.win 7).blk t).view.read (Elt Ideal) (G10_7 (V c main_v100) (V c main_v86) (V c main_v93) (V c main_arg55) (V c main_v102) (V c main_arg59) (V c main_arg60)) := by
  show (cfg10.win 7).cut (grid10.coords t) ((dat10 V c).after 7 t) = _
  rw [after10_7]
  unfold out10_7
  rw [View.canon_unit_zero hz2]
  simp only [View.ld_unit_zero (S := S1024x128) hz2, View.ld_unit_zero (S := S1024x256) hz2, View.ld_unit_zero (S := S128x128) hz2, View.ld_unit_zero (S := S1x128) hz2]
  funext j
  obtain ⟨p, q, rfl⟩ : ∃ (p : Fin 1024) (q : Fin 128), j = ix2 p q := ⟨j 0, j 1, eq_ix2 j⟩
  show k10_pay1 (k10_pay4 (iblk10 V c 0 t)) (k10_pay7 (iblk10 V c 0 t) (iblk10 V c 2 t) (iblk10 V c 3 t) (iblk10 V c 1 t) (iblk10 V c 4 t) (iblk10 V c 5 t) (iblk10 V c 6 t)) (ix2 p q)
      = G10_7 (V c main_v100) (V c main_v86) (V c main_v93) (V c main_arg55) (V c main_v102) (V c main_arg59) (V c main_arg60) (((cfg10.win 7).blk t).view.emb (ix2 p q))
  refine (pt10_7 (iblk10 V c 0 t) (iblk10 V c 1 t) (iblk10 V c 2 t) (iblk10 V c 3 t) (iblk10 V c 4 t) (iblk10 V c 5 t) (iblk10 V c 6 t) (V c main_v100) (V c main_v86) (V c main_v93) (V c main_arg55) (V c main_v102) (V c main_arg59) (V c main_arg60) p q
    ⟨t.val * 1024 + p.val, by have := t_lt10 t; omega⟩ (fun k => blk10_0 V c t p k) (fun k => blk10_1 V c t p k) (fun k => blk10_2 V c t p k) (blk10_3 V c t) (blk10_4 V c t) (blk10_5 V c t) (blk10_6 V c t)).trans ?_
  obtain ⟨-, -, -, -, -, -, -, -, -, -, -, -, -, -, e7_0, e7_1, -, -⟩ := idx10 t
  have hemb : ((cfg10.win 7).blk t).view.emb (ix2 p q) = ix2 ⟨t.val * 1024 + p.val, by have := t_lt10 t; omega⟩ q :=
    funext fun a => Fin.ext (by
      match a with
      | ⟨0, _⟩ => show win10_7.index t (0 : Fin 2) * 1024 + 1 * p.val = t.val * 1024 + p.val; omega
      | ⟨1, _⟩ => show win10_7.index t (1 : Fin 2) * 128 + 1 * q.val = q.val; omega)
  exact ((congrArg (G10_7 (V c main_v100) (V c main_v86) (V c main_v93) (V c main_arg55) (V c main_v102) (V c main_arg59) (V c main_arg60)) hemb).trans rfl).symm

theorem flushed10_8 (c : Dev nD) (t : Fin cfg10.N) :
    (dat10 V c).flushed 8 t = ((cfg10.win 8).blk t).view.read (Elt Ideal) (G10_8 (V c main_v100) (V c main_v86) (V c main_v93) (V c main_arg55) (V c main_v102)) := by
  show (cfg10.win 8).cut (grid10.coords t) ((dat10 V c).after 8 t) = _
  rw [after10_8]
  unfold out10_8
  simp only [View.ld_unit_zero (S := S1024x128) hz2, View.ld_unit_zero (S := S1024x256) hz2, View.ld_unit_zero (S := S128x128) hz2, View.ld_unit_zero (S := S1x128) hz2]
  funext j
  obtain ⟨p, l, rfl⟩ : ∃ (p : Fin 1024) (l : Fin 256), j = ix2 p l := ⟨j 0, j 1, eq_ix2 j⟩
  show View.canon (Val := Elt Ideal) (s := S1024x256) (e := .f32)
        [⟨r10_5, k10_pay2 (k10_pay6 (iblk10 V c 0 t) (iblk10 V c 2 t) (iblk10 V c 3 t) (iblk10 V c 1 t) (iblk10 V c 4 t))⟩, ⟨r10_4, k10_pay3 (k10_pay5 (iblk10 V c 2 t)) (k10_pay6 (iblk10 V c 0 t) (iblk10 V c 2 t) (iblk10 V c 3 t) (iblk10 V c 1 t) (iblk10 V c 4 t))⟩] (ix2 p l)
      = G10_8 (V c main_v100) (V c main_v86) (V c main_v93) (V c main_arg55) (V c main_v102) (((cfg10.win 8).blk t).view.emb (ix2 p l))
  rw [canon_halves]
  obtain ⟨-, -, -, -, -, -, -, -, -, -, -, -, -, -, -, -, e8_0, e8_1⟩ := idx10 t
  have hemb : ((cfg10.win 8).blk t).view.emb (ix2 p l) = ix2 ⟨t.val * 1024 + p.val, by have := t_lt10 t; omega⟩ l :=
    funext fun a => Fin.ext (by
      match a with
      | ⟨0, _⟩ => show win10_8.index t (0 : Fin 2) * 1024 + 1 * p.val = t.val * 1024 + p.val; omega
      | ⟨1, _⟩ => show win10_8.index t (1 : Fin 2) * 256 + 1 * l.val = l.val; omega)
  refine Eq.trans ?_ ((congrArg (G10_8 (V c main_v100) (V c main_v86) (V c main_v93) (V c main_arg55) (V c main_v102)) hemb).trans rfl).symm
  show _ = msAt (by omega : 128 ≤ 128) (V c main_v100) (V c main_v86) (V c main_v93) (V c main_arg55) (V c main_v102) ⟨t.val * 1024 + p.val, by have := t_lt10 t; omega⟩ l
  unfold msAt
  by_cases h : l.val < 128
  · rw [dif_pos h, dif_pos h]
    exact pt10_8lo (iblk10 V c 0 t) (iblk10 V c 1 t) (iblk10 V c 2 t) (iblk10 V c 3 t) (iblk10 V c 4 t) (V c main_v100) (V c main_v86) (V c main_v93) (V c main_arg55) (V c main_v102) p ⟨l.val, h⟩ _ (fun k => blk10_0 V c t p k) (fun k => blk10_1 V c t p k) (fun k => blk10_2 V c t p k) (blk10_3 V c t) (blk10_4 V c t)
  · rw [dif_neg h, dif_neg h]
    exact pt10_8hi (iblk10 V c 0 t) (iblk10 V c 1 t) (iblk10 V c 2 t) (iblk10 V c 3 t) (iblk10 V c 4 t) (V c main_v100) (V c main_v86) (V c main_v93) (V c main_arg55) (V c main_v102) p ⟨l.val - 128, by omega⟩ _ (fun k => blk10_0 V c t p k) (fun k => blk10_1 V c t p k) (fun k => blk10_2 V c t p k) (blk10_3 V c t) (blk10_4 V c t)

/-- Membership in window 7's block at point `t`, coordinate by coordinate. -/
theorem mem_blk10_7 (t : Fin cfg10.N) (i : S65536x128.Idx) :
    i ∈ ((cfg10.win 7).blk t).view.set ↔ ∀ a : Fin 2, win10_7.index t a * S1024x128.size a ≤ (i a).val ∧ (i a).val < win10_7.index t a * S1024x128.size a + S1024x128.size a := by
  show i ∈ ((View.whole main_v103_0).slice (win10_7.rect t)).set ↔ _
  rw [View.set_slice_whole, Rect.mem_set_unit]
  exact Iff.rfl

/-- Every row of the array lies in the block of the point `row / 1024`. -/
theorem covered10_7 (i : S65536x128.Idx) : ∃ t : Fin cfg10.N, (cfg10.win 7).flush t = true ∧ i ∈ ((cfg10.win 7).blk t).view.set := by
  have hi0 : (i 0).val < 65536 := (i 0).isLt
  have hi1 : (i 1).val < 128 := (i 1).isLt
  have hN : cfg10.N = 64 := N_10
  let t : Fin cfg10.N := ⟨(i 0).val / 1024, by rw [hN]; omega⟩
  obtain ⟨-, -, -, -, -, -, -, -, -, -, -, -, -, -, e7_0, e7_1, -, -⟩ := idx10 t
  refine ⟨t, flush10_7 t, ?_⟩
  rw [mem_blk10_7]
  intro a
  match a with
  | ⟨0, _⟩ =>
    show win10_7.index t (0 : Fin 2) * 1024 ≤ (i 0).val ∧ (i 0).val < win10_7.index t (0 : Fin 2) * 1024 + 1024
    rw [e7_0]
    show (i 0).val / 1024 * 1024 ≤ (i 0).val ∧ (i 0).val < (i 0).val / 1024 * 1024 + 1024
    omega
  | ⟨1, _⟩ =>
    show win10_7.index t (1 : Fin 2) * 128 ≤ (i 1).val ∧ (i 1).val < win10_7.index t (1 : Fin 2) * 128 + 128
    omega

/-- Membership in window 8's block at point `t`, coordinate by coordinate. -/
theorem mem_blk10_8 (t : Fin cfg10.N) (i : S65536x256.Idx) :
    i ∈ ((cfg10.win 8).blk t).view.set ↔ ∀ a : Fin 2, win10_8.index t a * S1024x256.size a ≤ (i a).val ∧ (i a).val < win10_8.index t a * S1024x256.size a + S1024x256.size a := by
  show i ∈ ((View.whole main_v103_1).slice (win10_8.rect t)).set ↔ _
  rw [View.set_slice_whole, Rect.mem_set_unit]
  exact Iff.rfl

/-- Every row of the array lies in the block of the point `row / 1024`. -/
theorem covered10_8 (i : S65536x256.Idx) : ∃ t : Fin cfg10.N, (cfg10.win 8).flush t = true ∧ i ∈ ((cfg10.win 8).blk t).view.set := by
  have hi0 : (i 0).val < 65536 := (i 0).isLt
  have hi1 : (i 1).val < 256 := (i 1).isLt
  have hN : cfg10.N = 64 := N_10
  let t : Fin cfg10.N := ⟨(i 0).val / 1024, by rw [hN]; omega⟩
  obtain ⟨-, -, -, -, -, -, -, -, -, -, -, -, -, -, -, -, e8_0, e8_1⟩ := idx10 t
  refine ⟨t, flush10_8 t, ?_⟩
  rw [mem_blk10_8]
  intro a
  match a with
  | ⟨0, _⟩ =>
    show win10_8.index t (0 : Fin 2) * 1024 ≤ (i 0).val ∧ (i 0).val < win10_8.index t (0 : Fin 2) * 1024 + 1024
    rw [e8_0]
    show (i 0).val / 1024 * 1024 ≤ (i 0).val ∧ (i 0).val < (i 0).val / 1024 * 1024 + 1024
    omega
  | ⟨1, _⟩ =>
    show win10_8.index t (1 : Fin 2) * 256 ≤ (i 1).val ∧ (i 1).val < win10_8.index t (1 : Fin 2) * 256 + 256
    omega

/-- The arrays after the region. -/
theorem final10_7 (c : Dev nD) : (dat10 V c).arrAt 7 cfg10.N = G10_7 (V c main_v100) (V c main_v86) (V c main_v93) (V c main_arg55) (V c main_v102) (V c main_arg59) (V c main_arg60) :=
  (dat10 V c).arrAt_eq_of_cover 7 _ (fun t _ => flushed10_7 V c t) covered10_7
theorem final10_8 (c : Dev nD) : (dat10 V c).arrAt 8 cfg10.N = G10_8 (V c main_v100) (V c main_v86) (V c main_v93) (V c main_arg55) (V c main_v102) :=
  (dat10 V c).arrAt_eq_of_cover 8 _ (fun t _ => flushed10_8 V c t) covered10_8

end Region10

end Cert.KernelIdeal.Val

end
-- ==== Proof.KV.Fin11.lean ====
/-
  Region 11 (a node update): the output array after the region as one function of the region's input arrays,
  index by index.
-/
import proofs.«117664_g2000706958607885_pallasbulk_534_41_alg».proof.Proof.KI.Half11
import proofs.«117664_g2000706958607885_pallasbulk_534_41_alg».proof.Proof.KV.NodeUpd
import proofs.«117664_g2000706958607885_pallasbulk_534_41_alg».proof.Proof.KV.FinCommon
import Idealize.ShloMosaic.Lib.Pipeline.Value

set_option maxRecDepth 16384

noncomputable section

namespace Cert.KernelIdeal.Val

open Cert.KernelIdeal Cert.KernelIdeal.Gen Cert.KernelIdeal.Fr
open Idealize.ShloMosaic Idealize.ShloMosaic.ValueIdx Idealize.ShloMosaic.TcCoe Idealize.SL.Sem
open Idealize.ShloMosaic.Pipeline (Dat)
open scoped BigOperators

section Region11
variable (V : (c : Dev nD) → (b : Ref sig .tc) → Buf (Elt Ideal) ((c : Thread nD τ).loc b))

/-- The printed index maps over the grid: a row window's block index is the grid point, a whole window's is zero. -/
theorem idx11 : ∀ t : Fin cfg11.N,
    win11_0.index t (0 : Fin 2) = t.val ∧ win11_0.index t (1 : Fin 2) = 0
    ∧ win11_1.index t (0 : Fin 2) = t.val ∧ win11_1.index t (1 : Fin 2) = 0
    ∧ win11_2.index t (0 : Fin 2) = t.val ∧ win11_2.index t (1 : Fin 2) = 0
    ∧ win11_3.index t (0 : Fin 2) = 0 ∧ win11_3.index t (1 : Fin 2) = 0
    ∧ win11_4.index t (0 : Fin 2) = 0 ∧ win11_4.index t (1 : Fin 2) = 0
    ∧ win11_5.index t (0 : Fin 2) = t.val ∧ win11_5.index t (1 : Fin 2) = 0 :=
  (by decide +kernel : ∀ t : Fin grid11.N, _)

theorem t_lt11 (t : Fin cfg11.N) : t.val < 16 := lt_of_lt_of_eq t.isLt N_11

/-- Row `p` of window 0's block at point `t` is row `t · 1024 + p` of its array. -/
theorem blk11_0 (c : Dev nD) (t : Fin cfg11.N) (p : Fin 1024) (k : Fin 128) :
    iblk11 V c 0 t (ix2 p k) = V c main_v75 (ix2 ⟨t.val * 1024 + p.val, by have := t_lt11 t; omega⟩ k) := by
  show V c main_v75 (((cfg11.win 0).blk t).view.emb (ix2 p k)) = _
  refine congrArg (V c main_v75) (funext fun a => Fin.ext ?_)
  obtain ⟨e0_0, e0_1, -, -, -, -, -, -, -, -, -, -⟩ := idx11 t
  match a with
  | ⟨0, _⟩ => show win11_0.index t (0 : Fin 2) * 1024 + 1 * p.val = t.val * 1024 + p.val; omega
  | ⟨1, _⟩ => show win11_0.index t (1 : Fin 2) * 128 + 1 * k.val = k.val; omega

/-- Row `p` of window 1's block at point `t` is row `t · 1024 + p` of its array. -/
theorem blk11_1 (c : Dev nD) (t : Fin cfg11.N) (p : Fin 1024) (k : Fin 128) :
    iblk11 V c 1 t (ix2 p k) = V c main_v79_0 (ix2 ⟨t.val * 1024 + p.val, by have := t_lt11 t; omega⟩ k) := by
  show V c main_v79_0 (((cfg11.win 1).blk t).view.emb (ix2 p k)) = _
  refine congrArg (V c main_v79_0) (funext fun a => Fin.ext ?_)
  obtain ⟨-, -, e1_0, e1_1, -, -, -, -, -, -, -, -⟩ := idx11 t
  match a with
  | ⟨0, _⟩ => show win11_1.index t (0 : Fin 2) * 1024 + 1 * p.val = t.val * 1024 + p.val; omega
  | ⟨1, _⟩ => show win11_1.index t (1 : Fin 2) * 128 + 1 * k.val = k.val; omega

/-- Row `p` of window 2's block at point `t` is row `t · 1024 + p` of its array. -/
theorem blk11_2 (c : Dev nD) (t : Fin cfg11.N) (p : Fin 1024) (k : Fin 256) :
    iblk11 V c 2 t (ix2 p k) = V c main_v106 (ix2 ⟨t.val * 1024 + p.val, by have := t_lt11 t; omega⟩ k) := by
  show V c main_v106 (((cfg11.win 2).blk t).view.emb (ix2 p k)) = _
  refine congrArg (V c main_v106) (funext fun a => Fin.ext ?_)
  obtain ⟨-, -, -, -, e2_0, e2_1, -, -, -, -, -, -⟩ := idx11 t
  match a with
  | ⟨0, _⟩ => show win11_2.index t (0 : Fin 2) * 1024 + 1 * p.val = t.val * 1024 + p.val; omega
  | ⟨1, _⟩ => show win11_2.index t (1 : Fin 2) * 256 + 1 * k.val = k.val; omega

/-- Window 3's block is its whole array. -/
theorem blk11_3 (c : Dev nD) (t : Fin cfg11.N) : iblk11 V c 3 t = V c main_arg57 := by
  funext j
  show V c main_arg57 (((cfg11.win 3).blk t).view.emb j) = V c main_arg57 j
  refine congrArg (V c main_arg57) (funext fun a => Fin.ext ?_)
  obtain ⟨-, -, -, -, -, -, e3_0, e3_1, -, -, -, -⟩ := idx11 t
  match a with
  | ⟨0, _⟩ => show win11_3.index t (0 : Fin 2) * 1 + 1 * (j 0).val = (j 0).val; omega
  | ⟨1, _⟩ => show win11_3.index t (1 : Fin 2) * 128 + 1 * (j 1).val = (j 1).val; omega

/-- Window 4's block is its whole array. -/
theorem blk11_4 (c : Dev nD) (t : Fin cfg11.N) : iblk11 V c 4 t = V c main_arg58 := by
  funext j
  show V c main_arg58 (((cfg11.win 4).blk t).view.emb j) = V c main_arg58 j
  refine congrArg (V c main_arg58) (funext fun a => Fin.ext ?_)
  obtain ⟨-, -, -, -, -, -, -, -, e4_0, e4_1, -, -⟩ := idx11 t
  match a with
  | ⟨0, _⟩ => show win11_4.index t (0 : Fin 2) * 1 + 1 * (j 0).val = (j 0).val; omega
  | ⟨1, _⟩ => show win11_4.index t (1 : Fin 2) * 128 + 1 * (j 1).val = (j 1).val; omega

/-- Window 5's array after region 11. -/
def G11_5 (X HS : (⟨2, ![16384, 128]⟩ : Shape).Idx → EReal) (AGG : (⟨2, ![16384, 256]⟩ : Shape).Idx → EReal) (Gm Bt : S1x128.Idx → EReal) : S16384x128.Idx → EReal :=
  fun i => updAt X HS AGG Gm Bt ⟨(i 0).val, idx2_lt0 i⟩ ⟨(i 1).val, idx2_lt1 i⟩

theorem pt11_5 (x0 x1 : Vec Ideal S1024x128 .f32) (x2 : Vec Ideal S1024x256 .f32) (x3 x4 : Vec Ideal S1x128 .f32)
    (X HS : (⟨2, ![16384, 128]⟩ : Shape).Idx → EReal) (AGG : (⟨2, ![16384, 256]⟩ : Shape).Idx → EReal) (Gm Bt : S1x128.Idx → EReal) (p : Fin 1024) (q : Fin 128) (n : Fin 16384)
    (h0 : ∀ k, x0 (ix2 p k) = X (ix2 n k)) (h1 : ∀ k, x1 (ix2 p k) = HS (ix2 n k)) (h2 : ∀ k, x2 (ix2 p k) = AGG (ix2 n k))
    (h3 : x3 = Gm) (h4 : x4 = Bt) :
    k11_pay1 x2 x1 x0 x3 x4 (ix2 p q) = updAt X HS AGG Gm Bt n q := by
  subst h3 h4
  rw [k11_pay1_apply]
  unfold updAt
  rw [show (fun k => x0 (ix2 p k)) = fun k => X (ix2 n k) from funext h0,
    show (fun k => x1 (ix2 p k)) = fun k => HS (ix2 n k) from funext h1,
    show (fun k : Fin 128 => x2 (ix2 p ⟨0 + k.val, by omega⟩)) = fun k => AGG (ix2 n ⟨k.val, by omega⟩) from
      funext fun k => (h2 _).trans (congrArg AGG (congrArg (ix2 n) (Fin.ext (Nat.zero_add _)))),
    show (fun k : Fin 128 => x2 (ix2 p ⟨128 + k.val, by omega⟩)) = fun k => AGG (ix2 n ⟨128 + k.val, by omega⟩) from
      funext fun k => h2 _]

theorem flushed11_5 (c : Dev nD) (t : Fin cfg11.N) :
    (dat11 V c).flushed 5 t = ((cfg11.win 5).blk t).view.read (Elt Ideal) (G11_5 (V c main_v75) (V c main_v79_0) (V c main_v106) (V c main_arg57) (V c main_arg58)) := by
  show (cfg11.win 5).cut (grid11.coords t) ((dat11 V c).after 5 t) = _
  rw [after11_5]
  unfold out11_5
  rw [View.canon_unit_zero hz2]
  simp only [View.ld_unit_zero (S := S1024x128) hz2, View.ld_unit_zero (S := S1024x256) hz2, View.ld_unit_zero (S := S1x128) hz2]
  funext j
  obtain ⟨p, q, rfl⟩ : ∃ (p : Fin 1024) (q : Fin 128), j = ix2 p q := ⟨j 0, j 1, eq_ix2 j⟩
  show k11_pay1 (iblk11 V c 2 t) (iblk11 V c 1 t) (iblk11 V c 0 t) (iblk11 V c 3 t) (iblk11 V c 4 t) (ix2 p q)
      = G11_5 (V c main_v75) (V c main_v79_0) (V c main_v106) (V c main_arg57) (V c main_arg58) (((cfg11.win 5).blk t).view.emb (ix2 p q))
  refine (pt11_5 (iblk11 V c 0 t) (iblk11 V c 1 t) (iblk11 V c 2 t) (iblk11 V c 3 t) (iblk11 V c 4 t) (V c main_v75) (V c main_v79_0) (V c main_v106) (V c main_arg57) (V c main_arg58) p q
    ⟨t.val * 1024 + p.val, by have := t_lt11 t; omega⟩ (fun k => blk11_0 V c t p k) (fun k => blk11_1 V c t p k)
    (fun k => blk11_2 V c t p k) (blk11_3 V c t) (blk11_4 V c t)).trans ?_
  obtain ⟨-, -, -, -, -, -, -, -, -, -, e5_0, e5_1⟩ := idx11 t
  have hemb : ((cfg11.win 5).blk t).view.emb (ix2 p q) = ix2 ⟨t.val * 1024 + p.val, by have := t_lt11 t; omega⟩ q :=
    funext fun a => Fin.ext (by
      match a with
      | ⟨0, _⟩ => show win11_5.index t (0 : Fin 2) * 1024 + 1 * p.val = t.val * 1024 + p.val; omega
      | ⟨1, _⟩ => show win11_5.index t (1 : Fin 2) * 128 + 1 * q.val = q.val; omega)
  exact ((congrArg (G11_5 (V c main_v75) (V c main_v79_0) (V c main_v106) (V c main_arg57) (V c main_arg58)) hemb).trans rfl).symm

/-- Membership in window 5's block at point `t`, coordinate by coordinate. -/
theorem mem_blk11_5 (t : Fin cfg11.N) (i : S16384x128.Idx) :
    i ∈ ((cfg11.win 5).blk t).view.set ↔ ∀ a : Fin 2, win11_5.index t a * S1024x128.size a ≤ (i a).val ∧ (i a).val < win11_5.index t a * S1024x128.size a + S1024x128.size a := by
  show i ∈ ((View.whole main_v107).slice (win11_5.rect t)).set ↔ _
  rw [View.set_slice_whole, Rect.mem_set_unit]
  exact Iff.rfl

/-- Every row of the array lies in the block of the point `row / 1024`. -/
theorem covered11_5 (i : S16384x128.Idx) : ∃ t : Fin cfg11.N, (cfg11.win 5).flush t = true ∧ i ∈ ((cfg11.win 5).blk t).view.set := by
  have hi0 : (i 0).val < 16384 := (i 0).isLt
  have hi1 : (i 1).val < 128 := (i 1).isLt
  have hN : cfg11.N = 16 := N_11
  let t : Fin cfg11.N := ⟨(i 0).val / 1024, by rw [hN]; omega⟩
  obtain ⟨-, -, -, -, -, -, -, -, -, -, e5_0, e5_1⟩ := idx11 t
  refine ⟨t, flush11_5 t, ?_⟩
  rw [mem_blk11_5]
  intro a
  match a with
  | ⟨0, _⟩ =>
    show win11_5.index t (0 : Fin 2) * 1024 ≤ (i 0).val ∧ (i 0).val < win11_5.index t (0 : Fin 2) * 1024 + 1024
    rw [e5_0]
    show (i 0).val / 1024 * 1024 ≤ (i 0).val ∧ (i 0).val < (i 0).val / 1024 * 1024 + 1024
    omega
  | ⟨1, _⟩ =>
    show win11_5.index t (1 : Fin 2) * 128 ≤ (i 1).val ∧ (i 1).val < win11_5.index t (1 : Fin 2) * 128 + 128
    omega

/-- The array after the region. -/
theorem final11_5 (c : Dev nD) : (dat11 V c).arrAt 5 cfg11.N = G11_5 (V c main_v75) (V c main_v79_0) (V c main_v106) (V c main_arg57) (V c main_arg58) :=
  (dat11 V c).arrAt_eq_of_cover 5 _ (fun t _ => flushed11_5 V c t) covered11_5

end Region11

end Cert.KernelIdeal.Val

end
-- ==== Proof.KV.Lay4.lean ====
/-
  Layer 4 of the program with node-side projections, along the run: what its three regions leave, in the layer's
  own terms, from what they find.
-/
import proofs.«117664_g2000706958607885_pallasbulk_534_41_alg».proof.Proof.KV.Chains
import proofs.«117664_g2000706958607885_pallasbulk_534_41_alg».proof.Proof.KV.Layer
import proofs.«117664_g2000706958607885_pallasbulk_534_41_alg».proof.Proof.KV.Fin7
import proofs.«117664_g2000706958607885_pallasbulk_534_41_alg».proof.Proof.KV.Fin10
import proofs.«117664_g2000706958607885_pallasbulk_534_41_alg».proof.Proof.KV.Fin11
import proofs.«117664_g2000706958607885_pallasbulk_534_41_alg».proof.Proof.KV.Host6to11

set_option maxRecDepth 16384

noncomputable section

namespace Cert.KernelIdeal.Val

open Cert.KernelIdeal Cert.KernelIdeal.Gen Cert.KernelIdeal.Fr
open Idealize.ShloMosaic Idealize.ShloMosaic.ValueIdx Idealize.ShloMosaic.TcCoe Idealize.SL.Sem
open Cert.Spec Cert.Bridge Cert.ResultsSpec
open scoped BigOperators

variable (m : (ℓ : Loc nD τ sig) → Buf (Elt Ideal) ℓ) (c : Dev nD)

/-! ## Layer 4 (parameters ab1: regions 7, 10, 11) -/

/-- The concatenated weights and bias that region 7 reads are the layer's. -/
theorem cat4 : IsCat (argsOf m c).ab1.params (X15 m c main_v76) (X15 m c main_v78) where
  w0 := fun k q => (host7_v76_0 (X14 m c) k q).trans (congrFun (argv_14_47 m c) (ix2 k q))
  w1 := fun k q => (host7_v76_1 (X14 m c) k q).trans (congrFun (argv_14_49 m c) (ix2 k q))
  w2 := fun k q => (host7_v76_2 (X14 m c) k q).trans (congrFun (argv_14_53 m c) (ix2 k q))
  w3 := fun k q => (host7_v76_3 (X14 m c) k q).trans (congrFun (argv_14_51 m c) (ix2 k q))
  b0 := fun q => (host7_v78_0 (X14 m c) q).trans (congrFun (argv_14_48 m c) (ix2 (0 : Fin 1) q))
  b1 := fun q => (host7_v78_1 (X14 m c) q).trans (congrFun (argv_14_50 m c) (ix2 (0 : Fin 1) q))
  b2 := fun q => host7_v78_2 (X14 m c) q
  b3 := fun q => host7_v78_3 (X14 m c) q

section L4
variable (xrows : Fin 16384 → Row) (erows : Fin 65536 → Row)
    (hX : ∀ n q, X15 m c main_v75 (ix2 n q) = xrows n q)
include hX

theorem rowsX4 : rows (N := 16384) (X15 m c main_v75) = xrows := funext fun n => funext fun q => hX n q

/-- Region 7's outputs: the self projection, the destination projection, the neighbour and source projections. -/
theorem hs4_val (n : Fin 16384) (q : Fin 128) : X16 m c main_v79_0 (ix2 n q) = hs (argsOf m c).ab1.params xrows n q :=
  (congrFun ((X16_arr m c 3).trans (final7_3 (XT15 m) c)) (ix2 n q)).trans
    ((proj_hs (cat4 m c) (X15 m c main_v75) n q).trans (by rw [rowsX4 m c xrows hX]))

theorem pd4_val (n : Fin 16384) (q : Fin 128) : X16 m c main_v79_1 (ix2 n ⟨q.val, by omega⟩) = pd (argsOf m c).ab1.params xrows n q :=
  (congrFun ((X16_arr m c 4).trans (final7_4 (XT15 m) c)) (ix2 n ⟨q.val, by omega⟩)).trans
    ((congrArg (proj (X15 m c main_v75) (X15 m c main_v76) (X15 m c main_v78) n) (Fin.ext (by
        show 384 + q.val = 384 + q.val
        rfl))).trans
      ((proj_pd (cat4 m c) (X15 m c main_v75) n q).trans (by rw [rowsX4 m c xrows hX])))

theorem pslo4_val (n : Fin 16384) (q : Fin 128) : X16 m c main_v79_2 (ix2 n ⟨q.val, by omega⟩) = hn (argsOf m c).ab1.params xrows n q :=
  (congrFun ((X16_arr m c 5).trans (final7_5 (XT15 m) c)) (ix2 n ⟨q.val, by omega⟩)).trans
    ((proj_hn (cat4 m c) (X15 m c main_v75) n q).trans (by rw [rowsX4 m c xrows hX]))

theorem pshi4_val (n : Fin 16384) (q : Fin 128) : X16 m c main_v79_2 (ix2 n ⟨128 + q.val, by omega⟩) = psB (argsOf m c).ab1.params xrows n q :=
  (congrFun ((X16_arr m c 5).trans (final7_5 (XT15 m) c)) (ix2 n ⟨128 + q.val, by omega⟩)).trans
    ((congrArg (proj (X15 m c main_v75) (X15 m c main_v76) (X15 m c main_v78) n) (Fin.ext (by
        show 128 + (128 + q.val) = 256 + q.val
        omega))).trans
      ((proj_psB (cat4 m c) (X15 m c main_v75) n q).trans (by rw [rowsX4 m c xrows hX])))

variable (hG : InRangeG m c) (hA : InRangeA m c)
include hG hA

/-- The gathered projections, as region 10 finds them. -/
theorem gd4_val (t : Fin 65536) (q : Fin 128) : X21 m c main_v86 (ix2 t ⟨q.val, by omega⟩) = pd (argsOf m c).ab1.params xrows ((argsOf m c).dstG t) q :=
  (congrFun ((((step21 m c main_v86 (by decide)).trans (step20 m c main_v86 (by decide))).trans (step19 m c main_v86 (by decide))).trans (step18 m c main_v86 (by decide))) (ix2 t ⟨q.val, by omega⟩)).trans
    ((host8_v86 (X16 m c) t ⟨q.val, by omega⟩ ((argsOf m c).dstG t) (v7_at16 m c hG t)).trans (pd4_val m c xrows hX ((argsOf m c).dstG t) q))

theorem gslo4_val (t : Fin 65536) (q : Fin 128) : X21 m c main_v93 (ix2 t ⟨q.val, by omega⟩) = hn (argsOf m c).ab1.params xrows ((argsOf m c).srcG t) q :=
  (congrFun ((((step21 m c main_v93 (by decide)).trans (step20 m c main_v93 (by decide))).trans (step19 m c main_v93 (by decide))).trans (step18 m c main_v93 (by decide))) (ix2 t ⟨q.val, by omega⟩)).trans
    ((host8_v93 (X16 m c) t ⟨q.val, by omega⟩ ((argsOf m c).srcG t) (v5_at16 m c hG t)).trans (pslo4_val m c xrows hX ((argsOf m c).srcG t) q))

theorem gshi4_val (t : Fin 65536) (q : Fin 128) : X21 m c main_v93 (ix2 t ⟨128 + q.val, by omega⟩) = psB (argsOf m c).ab1.params xrows ((argsOf m c).srcG t) q :=
  (congrFun ((((step21 m c main_v93 (by decide)).trans (step20 m c main_v93 (by decide))).trans (step19 m c main_v93 (by decide))).trans (step18 m c main_v93 (by decide))) (ix2 t ⟨128 + q.val, by omega⟩)).trans
    ((host8_v93 (X16 m c) t ⟨128 + q.val, by omega⟩ ((argsOf m c).srcG t) (v5_at16 m c hG t)).trans (pshi4_val m c xrows hX ((argsOf m c).srcG t) q))

omit hX hG hA in
theorem wc4_val (k q : Fin 128) : X21 m c main_arg55 (ix2 k q) = (argsOf m c).ab1.params.WC k q :=
  congrFun (argv_21_55 m c) (ix2 k q)
omit hX hG hA in
theorem ge4_val (q : Fin 128) : X21 m c main_arg59 (ix2 (0 : Fin 1) q) = (argsOf m c).ab1.params.ge q :=
  congrFun (argv_21_59 m c) (ix2 (0 : Fin 1) q)
omit hX hG hA in
theorem be4_val (q : Fin 128) : X21 m c main_arg60 (ix2 (0 : Fin 1) q) = (argsOf m c).ab1.params.be q :=
  congrFun (argv_21_60 m c) (ix2 (0 : Fin 1) q)
omit hX hG hA in
theorem bs4_val (q : Fin 128) : X21 m c main_v102 (ix2 (0 : Fin 1) q) = bsum (argsOf m c).ab1.params q := by
  refine (host10_v102 (X20 m c) q).trans ?_
  rw [argv_20_52 m c, argv_20_54 m c, argv_20_56 m c]
  rfl
omit hX hG hA in
theorem gx4_val (q : Fin 128) : X23 m c main_arg57 (ix2 (0 : Fin 1) q) = (argsOf m c).ab1.params.gx q :=
  congrFun (argv_23_57 m c) (ix2 (0 : Fin 1) q)
omit hX hG hA in
theorem bx4_val (q : Fin 128) : X23 m c main_arg58 (ix2 (0 : Fin 1) q) = (argsOf m c).ab1.params.bx q :=
  congrFun (argv_23_58 m c) (ix2 (0 : Fin 1) q)

variable (hE : ∀ t q, X21 m c main_v100 (ix2 t q) = erows t q)
include hE

omit hG hA in
theorem rowsE4 : rows (N := 65536) (X21 m c main_v100) = erows := funext fun t => funext fun q => hE t q

/-- Region 10's outputs: the updated edge rows, the gated messages and the gates. -/
theorem enew4_val (t : Fin 65536) (q : Fin 128) :
    X22 m c main_v103_0 (ix2 t q) = eNewK (argsOf m c).ab1.params xrows erows (argsOf m c).srcG (argsOf m c).dstG t q :=
  (congrFun ((X22_arr m c 7).trans (final10_7 (XT21 m) c)) (ix2 t q)).trans
    ((enewAt_eq (by omega : 128 ≤ 128) (argsOf m c).ab1.params xrows (argsOf m c).srcG (argsOf m c).dstG (X21 m c main_v100) (X21 m c main_v86) (X21 m c main_v93)
        (X21 m c main_arg55) (X21 m c main_v102) (X21 m c main_arg59) (X21 m c main_arg60)
        (gd4_val m c xrows hX hG hA) (gshi4_val m c xrows hX hG hA) (wc4_val m c) (bs4_val m c)
        (ge4_val m c) (be4_val m c) t q).trans (by rw [rowsE4 m c xrows erows hX hE]))

theorem mslo4_val (t : Fin 65536) (q : Fin 128) :
    X22 m c main_v103_1 (ix2 t ⟨q.val, by omega⟩) = msLoK (argsOf m c).ab1.params xrows erows (argsOf m c).srcG (argsOf m c).dstG t q :=
  (congrFun ((X22_arr m c 8).trans (final10_8 (XT21 m) c)) (ix2 t ⟨q.val, by omega⟩)).trans
    ((msAt_lo (by omega : 128 ≤ 128) (argsOf m c).ab1.params xrows (argsOf m c).srcG (argsOf m c).dstG (X21 m c main_v100) (X21 m c main_v86) (X21 m c main_v93)
        (X21 m c main_arg55) (X21 m c main_v102)
        (gd4_val m c xrows hX hG hA) (gslo4_val m c xrows hX hG hA) (gshi4_val m c xrows hX hG hA) (wc4_val m c) (bs4_val m c) t q).trans
      (by rw [rowsE4 m c xrows erows hX hE]))

theorem mshi4_val (t : Fin 65536) (q : Fin 128) :
    X22 m c main_v103_1 (ix2 t ⟨128 + q.val, by omega⟩) = msHiK (argsOf m c).ab1.params xrows erows (argsOf m c).srcG (argsOf m c).dstG t q :=
  (congrFun ((X22_arr m c 8).trans (final10_8 (XT21 m) c)) (ix2 t ⟨128 + q.val, by omega⟩)).trans
    ((msAt_hi (by omega : 128 ≤ 128) (argsOf m c).ab1.params xrows (argsOf m c).srcG (argsOf m c).dstG (X21 m c main_v100) (X21 m c main_v86) (X21 m c main_v93)
        (X21 m c main_arg55) (X21 m c main_v102)
        (gd4_val m c xrows hX hG hA) (gshi4_val m c xrows hX hG hA) (wc4_val m c) (bs4_val m c) t q).trans
      (by rw [rowsE4 m c xrows erows hX hE]))

/-- The scatter-added messages, as region 11 finds them. -/
theorem agglo4_val (n : Fin 16384) (q : Fin 128) :
    X23 m c main_v106 (ix2 n ⟨q.val, by omega⟩) = segSum (argsOf m c).dstG (msLoK (argsOf m c).ab1.params xrows erows (argsOf m c).srcG (argsOf m c).dstG) n q :=
  (host11_v106 (X22 m c) (argsOf m c).dstG (v7_at22 m c hG) n ⟨q.val, by omega⟩).trans
    (congrArg (cZero + ·) (Finset.sum_congr rfl fun t _ => by
      rw [show asReal (s := S65536x256) (X22 m c main_v103_1) (ix2 t ⟨q.val, by omega⟩) = msLoK (argsOf m c).ab1.params xrows erows (argsOf m c).srcG (argsOf m c).dstG t q from
        (congrFun rfl (ix2 t ⟨q.val, by omega⟩)).trans (mslo4_val m c xrows erows hX hG hA hE t q)]))

theorem agghi4_val (n : Fin 16384) (q : Fin 128) :
    X23 m c main_v106 (ix2 n ⟨128 + q.val, by omega⟩) = segSum (argsOf m c).dstG (msHiK (argsOf m c).ab1.params xrows erows (argsOf m c).srcG (argsOf m c).dstG) n q :=
  (host11_v106 (X22 m c) (argsOf m c).dstG (v7_at22 m c hG) n ⟨128 + q.val, by omega⟩).trans
    (congrArg (cZero + ·) (Finset.sum_congr rfl fun t _ => by
      rw [show asReal (s := S65536x256) (X22 m c main_v103_1) (ix2 t ⟨128 + q.val, by omega⟩) = msHiK (argsOf m c).ab1.params xrows erows (argsOf m c).srcG (argsOf m c).dstG t q from
        (congrFun rfl (ix2 t ⟨128 + q.val, by omega⟩)).trans (mshi4_val m c xrows erows hX hG hA hE t q)]))

/-- Region 11's output: the updated node rows. -/
theorem xnew4_val (n : Fin 16384) (q : Fin 128) :
    X24 m c main_v107 (ix2 n q) = xNewK (argsOf m c).ab1.params xrows erows (argsOf m c).srcG (argsOf m c).dstG n q := by
  have hXu : rows (N := 16384) (X23 m c main_v75) = xrows := funext fun n => funext fun q =>
    (congrFun ((((((((step23 m c main_v75 (by decide)).trans (step22 m c main_v75 (by decide))).trans (step21 m c main_v75 (by decide))).trans (step20 m c main_v75 (by decide))).trans (step19 m c main_v75 (by decide))).trans (step18 m c main_v75 (by decide))).trans (step17 m c main_v75 (by decide))).trans (step16 m c main_v75 (by decide))) (ix2 n q)).trans (hX n q)
  refine (congrFun ((X24_arr m c 5).trans (final11_5 (XT23 m) c)) (ix2 n q)).trans ?_
  refine (updAt_eq (argsOf m c).ab1.params erows (argsOf m c).srcG (argsOf m c).dstG (X23 m c main_v75) (X23 m c main_v79_0) (X23 m c main_v106)
    (X23 m c main_arg57) (X23 m c main_arg58) ?_ ?_ ?_ (gx4_val m c) (bx4_val m c) n q).trans (by rw [hXu])
  · intro n q
    rw [hXu]
    exact (congrFun (((((((step23 m c main_v79_0 (by decide)).trans (step22 m c main_v79_0 (by decide))).trans (step21 m c main_v79_0 (by decide))).trans (step20 m c main_v79_0 (by decide))).trans (step19 m c main_v79_0 (by decide))).trans (step18 m c main_v79_0 (by decide))).trans (step17 m c main_v79_0 (by decide))) (ix2 n q)).trans (hs4_val m c xrows hX n q)
  · intro n q
    rw [hXu]
    exact agglo4_val m c xrows erows hX hG hA hE n q
  · intro n q
    rw [hXu]
    exact agghi4_val m c xrows erows hX hG hA hE n q

end L4

end Cert.KernelIdeal.Val

end
-- ==== Proof.KV.Results.lean ====
/-
  The three float results of the kernel program's run are, entry by entry, the three components of the four-layer
  function on rows applied to the argument arrays: the four layers chained along the run's boundaries.
-/
import proofs.«117664_g2000706958607885_pallasbulk_534_41_alg».proof.Proof.KV.Lay1
import proofs.«117664_g2000706958607885_pallasbulk_534_41_alg».proof.Proof.KV.Lay2
import proofs.«117664_g2000706958607885_pallasbulk_534_41_alg».proof.Proof.KV.Lay3
import proofs.«117664_g2000706958607885_pallasbulk_534_41_alg».proof.Proof.KV.Lay4
import proofs.«117664_g2000706958607885_pallasbulk_534_41_alg».proof.Proof.KI.RunVals

set_option maxRecDepth 16384

noncomputable section

namespace Cert.KernelIdeal.Val

open Cert.KernelIdeal Cert.KernelIdeal.Gen Cert.KernelIdeal.Fr
open Idealize.ShloMosaic Idealize.ShloMosaic.ValueIdx Idealize.ShloMosaic.TcCoe Idealize.SL.Sem
open Cert.Spec Cert.Bridge Cert.ResultsSpec
open scoped BigOperators

variable (m : (ℓ : Loc nD τ sig) → Buf (Elt Ideal) ℓ) (c : Dev nD)

/-- The rows after the first round's (b, g) layer, (a, b) layer, and the second round's. -/
def b1 : Fin 65536 → Row := xNewK (argsOf m c).bg0.params (argsOf m c).st.b (argsOf m c).st.g (argsOf m c).srcA (argsOf m c).dstA
def g1 : Fin 131072 → Row := eNewK (argsOf m c).bg0.params (argsOf m c).st.b (argsOf m c).st.g (argsOf m c).srcA (argsOf m c).dstA
def a1 : Fin 16384 → Row := xNewK (argsOf m c).ab0.params (argsOf m c).st.a (b1 m c) (argsOf m c).srcG (argsOf m c).dstG
def b2 : Fin 65536 → Row := eNewK (argsOf m c).ab0.params (argsOf m c).st.a (b1 m c) (argsOf m c).srcG (argsOf m c).dstG
def b3 : Fin 65536 → Row := xNewK (argsOf m c).bg1.params (b2 m c) (g1 m c) (argsOf m c).srcA (argsOf m c).dstA
def g2 : Fin 131072 → Row := eNewK (argsOf m c).bg1.params (b2 m c) (g1 m c) (argsOf m c).srcA (argsOf m c).dstA
def a2 : Fin 16384 → Row := xNewK (argsOf m c).ab1.params (a1 m c) (b3 m c) (argsOf m c).srcG (argsOf m c).dstG
def b4 : Fin 65536 → Row := eNewK (argsOf m c).ab1.params (a1 m c) (b3 m c) (argsOf m c).srcG (argsOf m c).dstG

/-- The four-layer function's result is these. -/
theorem outK_eq : (argsOf m c).outK = ⟨a2 m c, b4 m c, g2 m c⟩ := rfl

variable (hG : InRangeG m c) (hA : InRangeA m c)
include hG hA

/-! ## What each layer finds -/

omit hG hA in
theorem hX1 (n : Fin 65536) (q : Fin 128) : X1 m c main_arg1 (ix2 n q) = (argsOf m c).st.b n q :=
  congrFun (argv_1_1 m c) (ix2 n q)
omit hG hA in
theorem hE1 (t : Fin 131072) (q : Fin 128) : X5 m c main_arg2 (ix2 t q) = (argsOf m c).st.g t q :=
  congrFun (argv_5_2 m c) (ix2 t q)
omit hG hA in
theorem hX2 (n : Fin 16384) (q : Fin 128) : X3 m c main_arg0 (ix2 n q) = (argsOf m c).st.a n q :=
  congrFun (argv_3_0 m c) (ix2 n q)

theorem hE2 (t : Fin 65536) (q : Fin 128) : X9 m c main_v50 (ix2 t q) = b1 m c t q :=
  (congrFun (step9 m c main_v50 (by decide)) (ix2 t q)).trans
    (xnew1_val m c (argsOf m c).st.b (argsOf m c).st.g (hX1 m c) hG hA (hE1 m c) t q)

theorem hX3 (n : Fin 65536) (q : Fin 128) : X11 m c main_v53_0 (ix2 n q) = b2 m c n q :=
  (congrFun (step11 m c main_v53_0 (by decide)) (ix2 n q)).trans
    (enew2_val m c (argsOf m c).st.a (b1 m c) (hX2 m c) hG hA (hE2 m c hG hA) n q)

theorem hE3 (t : Fin 131072) (q : Fin 128) : X17 m c main_v46_0 (ix2 t q) = g1 m c t q :=
  (congrFun (((((((((((step17 m c main_v46_0 (by decide)).trans (step16 m c main_v46_0 (by decide))).trans (step15 m c main_v46_0 (by decide))).trans (step14 m c main_v46_0 (by decide))).trans (step13 m c main_v46_0 (by decide))).trans (step12 m c main_v46_0 (by decide))).trans (step11 m c main_v46_0 (by decide))).trans (step10 m c main_v46_0 (by decide))).trans (step9 m c main_v46_0 (by decide))).trans (step8 m c main_v46_0 (by decide))).trans (step7 m c main_v46_0 (by decide))) (ix2 t q)).trans
    (enew1_val m c (argsOf m c).st.b (argsOf m c).st.g (hX1 m c) hG hA (hE1 m c) t q)

theorem hX4 (n : Fin 16384) (q : Fin 128) : X15 m c main_v75 (ix2 n q) = a1 m c n q :=
  (congrFun (step15 m c main_v75 (by decide)) (ix2 n q)).trans
    (xnew2_val m c (argsOf m c).st.a (b1 m c) (hX2 m c) hG hA (hE2 m c hG hA) n q)

theorem hE4 (t : Fin 65536) (q : Fin 128) : X21 m c main_v100 (ix2 t q) = b3 m c t q :=
  (congrFun (step21 m c main_v100 (by decide)) (ix2 t q)).trans
    (xnew3_val m c (b2 m c) (g1 m c) (hX3 m c hG hA) hG hA (hE3 m c hG hA) t q)

/-! ## The results -/

/-- The three float results read off the run's last contents hold the four-layer function of the arguments. -/
theorem results' : Holds (argsOf m c).outK (X24 m c main_v107) (X24 m c main_v103_0) (X24 m c main_v96_0) := by
  rw [outK_eq]
  refine ⟨fun r q => ?_, fun r q => ?_, fun r q => ?_⟩
  · exact xnew4_val m c (a1 m c) (b3 m c) (hX4 m c hG hA) hG hA (hE4 m c hG hA) r q
  · exact (congrFun ((step24 m c main_v103_0 (by decide)).trans (step23 m c main_v103_0 (by decide))) (ix2 r q)).trans
      (enew4_val m c (a1 m c) (b3 m c) (hX4 m c hG hA) hG hA (hE4 m c hG hA) r q)
  · exact (congrFun ((((((step24 m c main_v96_0 (by decide)).trans (step23 m c main_v96_0 (by decide))).trans (step22 m c main_v96_0 (by decide))).trans (step21 m c main_v96_0 (by decide))).trans (step20 m c main_v96_0 (by decide))).trans (step19 m c main_v96_0 (by decide))) (ix2 r q)).trans
      (enew3_val m c (b2 m c) (g1 m c) (hX3 m c hG hA) hG hA (hE3 m c hG hA) r q)

end Cert.KernelIdeal.Val

namespace Cert.KernelIdeal.Val

open Cert.KernelIdeal Cert.KernelIdeal.Gen Cert.KernelIdeal.Fr
open Idealize.ShloMosaic Idealize.ShloMosaic.ValueIdx Idealize.ShloMosaic.TcCoe Idealize.SL.Sem

/-- The results theorem, in the form the final module reads. -/
theorem results (m : (ℓ : Loc nD τ sig) → Buf (Elt Ideal) ℓ) (c : Dev nD)
    (hG : ∀ i, 0 ≤ ((m ((c : Thread nD τ).loc main_arg3) : IVec S2x65536 32) i).toInt ∧ ((m ((c : Thread nD τ).loc main_arg3) : IVec S2x65536 32) i).toInt < 16384)
    (hA : ∀ i, 0 ≤ ((m ((c : Thread nD τ).loc main_arg4) : IVec S2x131072 32) i).toInt ∧ ((m ((c : Thread nD τ).loc main_arg4) : IVec S2x131072 32) i).toInt < 65536) :
    Cert.ResultsSpec.Holds (Cert.ResultsSpec.Args.ofArrays (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35)) (m ((c : Thread nD τ).loc main_arg36)) (m ((c : Thread nD τ).loc main_arg37)) (m ((c : Thread nD τ).loc main_arg38)) (m ((c : Thread nD τ).loc main_arg39)) (m ((c : Thread nD τ).loc main_arg40)) (m ((c : Thread nD τ).loc main_arg41)) (m ((c : Thread nD τ).loc main_arg42)) (m ((c : Thread nD τ).loc main_arg43)) (m ((c : Thread nD τ).loc main_arg44)) (m ((c : Thread nD τ).loc main_arg45)) (m ((c : Thread nD τ).loc main_arg46)) (m ((c : Thread nD τ).loc main_arg47)) (m ((c : Thread nD τ).loc main_arg48)) (m ((c : Thread nD τ).loc main_arg49)) (m ((c : Thread nD τ).loc main_arg50)) (m ((c : Thread nD τ).loc main_arg51)) (m ((c : Thread nD τ).loc main_arg52)) (m ((c : Thread nD τ).loc main_arg53)) (m ((c : Thread nD τ).loc main_arg54)) (m ((c : Thread nD τ).loc main_arg55)) (m ((c : Thread nD τ).loc main_arg56)) (m ((c : Thread nD τ).loc main_arg57)) (m ((c : Thread nD τ).loc main_arg58)) (m ((c : Thread nD τ).loc main_arg59)) (m ((c : Thread nD τ).loc main_arg60))).outK
      (Cert.KernelIdeal.Fr.X24 m c main_v107) (Cert.KernelIdeal.Fr.X24 m c main_v103_0) (Cert.KernelIdeal.Fr.X24 m c main_v96_0) :=
  results' m c hG hA

end Cert.KernelIdeal.Val

end
-- ==== Proof.RV.HostKeep.lean ====
/-
  What each host stretch of the program leaves alone: the list of the references its operations write, and
  that every other reference holds after the stretch what it held before.
-/
import proofs.«117664_g2000706958607885_pallasbulk_534_41_alg».proof.Proof.RefLaunch
import Idealize.ShloMosaic.PureOps.Ideal

set_option maxRecDepth 16384

noncomputable section

namespace Cert.ReferenceIdeal.Val

open Cert.ReferenceIdeal Cert.ReferenceIdeal.Gen Cert.ReferenceIdeal.GenP
open Idealize.ShloMosaic Idealize.ShloMosaic.TcCoe

/-- One operation writes one reference, and that reference is in the list. -/
local macro "writes_one" : tactic =>
  `(tactic| (simp only [StableHlo.nullary_writes, StableHlo.unary_writes, StableHlo.binary_writes, StableHlo.ternary_writes,
      StableHlo.reshape_writes, Finset.singleton_subset_iff, List.mem_toFinset]
             exact List.mem_map_of_mem (by decide)))

/-- The references `hostOps0`'s operations write, in order. -/
abbrev hostOps0_W : List (Ref sig .tc) := [main_v0, main_v1, main_v2, main_v3]
theorem hostOps0_writes : (hostOps0 : List (HloOp τ sig (Elt Ideal))).Forall fun op => op.writes ⊆ (hostOps0_W.map (Proc.devRef (τ := τ) .tc)).toFinset := by
  simp only [List.Forall]
  exact ⟨by writes_one, by writes_one, by writes_one, by writes_one⟩
/-- A reference `hostOps0` does not write holds afterwards what it held before. -/
theorem host0_keep (W : Valuation τ sig (Elt Ideal)) (b : Ref sig .tc) (hb : b ∉ hostOps0_W) :
    StableHlo.after (hostOps0 (F := Ideal)) W (Proc.devRef .tc b) = W (Proc.devRef .tc b) :=
  StableHlo.after_of_writes_sub hostOps0 W hostOps0_writes hb

/-- The references `hostOps1`'s operations write, in order. -/
abbrev hostOps1_W : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v5]
theorem hostOps1_writes : (hostOps1 : List (HloOp τ sig (Elt Ideal))).Forall fun op => op.writes ⊆ (hostOps1_W.map (Proc.devRef (τ := τ) .tc)).toFinset := by
  simp only [List.Forall]
  exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩
/-- A reference `hostOps1` does not write holds afterwards what it held before. -/
theorem host1_keep (W : Valuation τ sig (Elt Ideal)) (b : Ref sig .tc) (hb : b ∉ hostOps1_W) :
    StableHlo.after (hostOps1 (F := Ideal)) W (Proc.devRef .tc b) = W (Proc.devRef .tc b) :=
  StableHlo.after_of_writes_sub hostOps1 W hostOps1_writes hb

/-- The references `hostOps1_1`'s operations write, in order. -/
abbrev hostOps1_1_W : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v6]
theorem hostOps1_1_writes : (hostOps1_1 : List (HloOp τ sig (Elt Ideal))).Forall fun op => op.writes ⊆ (hostOps1_1_W.map (Proc.devRef (τ := τ) .tc)).toFinset := by
  simp only [List.Forall]
  exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩
/-- A reference `hostOps1_1` does not write holds afterwards what it held before. -/
theorem host1_1_keep (W : Valuation τ sig (Elt Ideal)) (b : Ref sig .tc) (hb : b ∉ hostOps1_1_W) :
    StableHlo.after (hostOps1_1 (F := Ideal)) W (Proc.devRef .tc b) = W (Proc.devRef .tc b) :=
  StableHlo.after_of_writes_sub hostOps1_1 W hostOps1_1_writes hb

/-- The references `hostOps1_2`'s operations write, in order. -/
abbrev hostOps1_2_W : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v7]
theorem hostOps1_2_writes : (hostOps1_2 : List (HloOp τ sig (Elt Ideal))).Forall fun op => op.writes ⊆ (hostOps1_2_W.map (Proc.devRef (τ := τ) .tc)).toFinset := by
  simp only [List.Forall]
  exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩
/-- A reference `hostOps1_2` does not write holds afterwards what it held before. -/
theorem host1_2_keep (W : Valuation τ sig (Elt Ideal)) (b : Ref sig .tc) (hb : b ∉ hostOps1_2_W) :
    StableHlo.after (hostOps1_2 (F := Ideal)) W (Proc.devRef .tc b) = W (Proc.devRef .tc b) :=
  StableHlo.after_of_writes_sub hostOps1_2 W hostOps1_2_writes hb

/-- The references `hostOps2`'s operations write, in order. -/
abbrev hostOps2_W : List (Ref sig .tc) := [main_cst, main_v9, main_v10, main_v11, main_cst_0, main_v12, main_v13, main_v14]
theorem hostOps2_writes : (hostOps2 : List (HloOp τ sig (Elt Ideal))).Forall fun op => op.writes ⊆ (hostOps2_W.map (Proc.devRef (τ := τ) .tc)).toFinset := by
  simp only [List.Forall]
  exact ⟨by writes_one, by writes_one, by writes_one, by writes_one, by writes_one, by writes_one, by writes_one, by writes_one⟩
/-- A reference `hostOps2` does not write holds afterwards what it held before. -/
theorem host2_keep (W : Valuation τ sig (Elt Ideal)) (b : Ref sig .tc) (hb : b ∉ hostOps2_W) :
    StableHlo.after (hostOps2 (F := Ideal)) W (Proc.devRef .tc b) = W (Proc.devRef .tc b) :=
  StableHlo.after_of_writes_sub hostOps2 W hostOps2_writes hb

/-- The references `hostOps3`'s operations write, in order. -/
abbrev hostOps3_W : List (Ref sig .tc) := [main_v16, main_v17, main_v18, main_v19]
theorem hostOps3_writes : (hostOps3 : List (HloOp τ sig (Elt Ideal))).Forall fun op => op.writes ⊆ (hostOps3_W.map (Proc.devRef (τ := τ) .tc)).toFinset := by
  simp only [List.Forall]
  exact ⟨by writes_one, by writes_one, by writes_one, by writes_one⟩
/-- A reference `hostOps3` does not write holds afterwards what it held before. -/
theorem host3_keep (W : Valuation τ sig (Elt Ideal)) (b : Ref sig .tc) (hb : b ∉ hostOps3_W) :
    StableHlo.after (hostOps3 (F := Ideal)) W (Proc.devRef .tc b) = W (Proc.devRef .tc b) :=
  StableHlo.after_of_writes_sub hostOps3 W hostOps3_writes hb

/-- The references `hostOps4`'s operations write, in order. -/
abbrev hostOps4_W : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v21]
theorem hostOps4_writes : (hostOps4 : List (HloOp τ sig (Elt Ideal))).Forall fun op => op.writes ⊆ (hostOps4_W.map (Proc.devRef (τ := τ) .tc)).toFinset := by
  simp only [List.Forall]
  exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩
/-- A reference `hostOps4` does not write holds afterwards what it held before. -/
theorem host4_keep (W : Valuation τ sig (Elt Ideal)) (b : Ref sig .tc) (hb : b ∉ hostOps4_W) :
    StableHlo.after (hostOps4 (F := Ideal)) W (Proc.devRef .tc b) = W (Proc.devRef .tc b) :=
  StableHlo.after_of_writes_sub hostOps4 W hostOps4_writes hb

/-- The references `hostOps4_1`'s operations write, in order. -/
abbrev hostOps4_1_W : List (Ref sig .tc) := [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v22]
theorem hostOps4_1_writes : (hostOps4_1 : List (HloOp τ sig (Elt Ideal))).Forall fun op => op.writes ⊆ (hostOps4_1_W.map (Proc.devRef (τ := τ) .tc)).toFinset := by
  simp only [List.Forall]
  exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩
/-- A reference `hostOps4_1` does not write holds afterwards what it held before. -/
theorem host4_1_keep (W : Valuation τ sig (Elt Ideal)) (b : Ref sig .tc) (hb : b ∉ hostOps4_1_W) :
    StableHlo.after (hostOps4_1 (F := Ideal)) W (Proc.devRef .tc b) = W (Proc.devRef .tc b) :=
  StableHlo.after_of_writes_sub hostOps4_1 W hostOps4_1_writes hb

/-- The references `hostOps4_2`'s operations write, in order. -/
abbrev hostOps4_2_W : List (Ref sig .tc) := [main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_v14, main_call5_cst, main_call5_v15, main_v23]
theorem hostOps4_2_writes : (hostOps4_2 : List (HloOp τ sig (Elt Ideal))).Forall fun op => op.writes ⊆ (hostOps4_2_W.map (Proc.devRef (τ := τ) .tc)).toFinset := by
  simp only [List.Forall]
  exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩
/-- A reference `hostOps4_2` does not write holds afterwards what it held before. -/
theorem host4_2_keep (W : Valuation τ sig (Elt Ideal)) (b : Ref sig .tc) (hb : b ∉ hostOps4_2_W) :
    StableHlo.after (hostOps4_2 (F := Ideal)) W (Proc.devRef .tc b) = W (Proc.devRef .tc b) :=
  StableHlo.after_of_writes_sub hostOps4_2 W hostOps4_2_writes hb

/-- The references `hostOps5`'s operations write, in order. -/
abbrev hostOps5_W : List (Ref sig .tc) := [main_cst_1, main_v25, main_v26, main_v27, main_cst_2, main_v28, main_v29, main_v30]
theorem hostOps5_writes : (hostOps5 : List (HloOp τ sig (Elt Ideal))).Forall fun op => op.writes ⊆ (hostOps5_W.map (Proc.devRef (τ := τ) .tc)).toFinset := by
  simp only [List.Forall]
  exact ⟨by writes_one, by writes_one, by writes_one, by writes_one, by writes_one, by writes_one, by writes_one, by writes_one⟩
/-- A reference `hostOps5` does not write holds afterwards what it held before. -/
theorem host5_keep (W : Valuation τ sig (Elt Ideal)) (b : Ref sig .tc) (hb : b ∉ hostOps5_W) :
    StableHlo.after (hostOps5 (F := Ideal)) W (Proc.devRef .tc b) = W (Proc.devRef .tc b) :=
  StableHlo.after_of_writes_sub hostOps5 W hostOps5_writes hb

/-- The references `hostOps6`'s operations write, in order. -/
abbrev hostOps6_W : List (Ref sig .tc) := [main_v32, main_v33, main_v34, main_v35]
theorem hostOps6_writes : (hostOps6 : List (HloOp τ sig (Elt Ideal))).Forall fun op => op.writes ⊆ (hostOps6_W.map (Proc.devRef (τ := τ) .tc)).toFinset := by
  simp only [List.Forall]
  exact ⟨by writes_one, by writes_one, by writes_one, by writes_one⟩
/-- A reference `hostOps6` does not write holds afterwards what it held before. -/
theorem host6_keep (W : Valuation τ sig (Elt Ideal)) (b : Ref sig .tc) (hb : b ∉ hostOps6_W) :
    StableHlo.after (hostOps6 (F := Ideal)) W (Proc.devRef .tc b) = W (Proc.devRef .tc b) :=
  StableHlo.after_of_writes_sub hostOps6 W hostOps6_writes hb

/-- The references `hostOps7`'s operations write, in order. -/
abbrev hostOps7_W : List (Ref sig .tc) := [main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_v14, main_call6_cst, main_call6_v15, main_v37]
theorem hostOps7_writes : (hostOps7 : List (HloOp τ sig (Elt Ideal))).Forall fun op => op.writes ⊆ (hostOps7_W.map (Proc.devRef (τ := τ) .tc)).toFinset := by
  simp only [List.Forall]
  exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩
/-- A reference `hostOps7` does not write holds afterwards what it held before. -/
theorem host7_keep (W : Valuation τ sig (Elt Ideal)) (b : Ref sig .tc) (hb : b ∉ hostOps7_W) :
    StableHlo.after (hostOps7 (F := Ideal)) W (Proc.devRef .tc b) = W (Proc.devRef .tc b) :=
  StableHlo.after_of_writes_sub hostOps7 W hostOps7_writes hb

/-- The references `hostOps7_1`'s operations write, in order. -/
abbrev hostOps7_1_W : List (Ref sig .tc) := [main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_v11, main_call7_c_3, main_call7_v12, main_call7_v13, main_call7_v14, main_call7_cst, main_call7_v15, main_v38]
theorem hostOps7_1_writes : (hostOps7_1 : List (HloOp τ sig (Elt Ideal))).Forall fun op => op.writes ⊆ (hostOps7_1_W.map (Proc.devRef (τ := τ) .tc)).toFinset := by
  simp only [List.Forall]
  exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩
/-- A reference `hostOps7_1` does not write holds afterwards what it held before. -/
theorem host7_1_keep (W : Valuation τ sig (Elt Ideal)) (b : Ref sig .tc) (hb : b ∉ hostOps7_1_W) :
    StableHlo.after (hostOps7_1 (F := Ideal)) W (Proc.devRef .tc b) = W (Proc.devRef .tc b) :=
  StableHlo.after_of_writes_sub hostOps7_1 W hostOps7_1_writes hb

/-- The references `hostOps7_2`'s operations write, in order. -/
abbrev hostOps7_2_W : List (Ref sig .tc) := [main_call8_c, main_call8_v0, main_call8_v1, main_call8_c_0, main_call8_v2, main_call8_v3, main_call8_v4, main_call8_v5, main_call8_c_1, main_call8_c_2, main_call8_v6, main_call8_v7, main_call8_v8, main_call8_v9, main_call8_v10, main_call8_v11, main_call8_c_3, main_call8_v12, main_call8_v13, main_call8_v14, main_call8_cst, main_call8_v15, main_v39]
theorem hostOps7_2_writes : (hostOps7_2 : List (HloOp τ sig (Elt Ideal))).Forall fun op => op.writes ⊆ (hostOps7_2_W.map (Proc.devRef (τ := τ) .tc)).toFinset := by
  simp only [List.Forall]
  exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩
/-- A reference `hostOps7_2` does not write holds afterwards what it held before. -/
theorem host7_2_keep (W : Valuation τ sig (Elt Ideal)) (b : Ref sig .tc) (hb : b ∉ hostOps7_2_W) :
    StableHlo.after (hostOps7_2 (F := Ideal)) W (Proc.devRef .tc b) = W (Proc.devRef .tc b) :=
  StableHlo.after_of_writes_sub hostOps7_2 W hostOps7_2_writes hb

/-- The references `hostOps8`'s operations write, in order. -/
abbrev hostOps8_W : List (Ref sig .tc) := [main_cst_3, main_v41, main_v42, main_v43, main_cst_4, main_v44, main_v45, main_v46]
theorem hostOps8_writes : (hostOps8 : List (HloOp τ sig (Elt Ideal))).Forall fun op => op.writes ⊆ (hostOps8_W.map (Proc.devRef (τ := τ) .tc)).toFinset := by
  simp only [List.Forall]
  exact ⟨by writes_one, by writes_one, by writes_one, by writes_one, by writes_one, by writes_one, by writes_one, by writes_one⟩
/-- A reference `hostOps8` does not write holds afterwards what it held before. -/
theorem host8_keep (W : Valuation τ sig (Elt Ideal)) (b : Ref sig .tc) (hb : b ∉ hostOps8_W) :
    StableHlo.after (hostOps8 (F := Ideal)) W (Proc.devRef .tc b) = W (Proc.devRef .tc b) :=
  StableHlo.after_of_writes_sub hostOps8 W hostOps8_writes hb

/-- The references `hostOps9`'s operations write, in order. -/
abbrev hostOps9_W : List (Ref sig .tc) := [main_v48, main_v49, main_v50, main_v51]
theorem hostOps9_writes : (hostOps9 : List (HloOp τ sig (Elt Ideal))).Forall fun op => op.writes ⊆ (hostOps9_W.map (Proc.devRef (τ := τ) .tc)).toFinset := by
  simp only [List.Forall]
  exact ⟨by writes_one, by writes_one, by writes_one, by writes_one⟩
/-- A reference `hostOps9` does not write holds afterwards what it held before. -/
theorem host9_keep (W : Valuation τ sig (Elt Ideal)) (b : Ref sig .tc) (hb : b ∉ hostOps9_W) :
    StableHlo.after (hostOps9 (F := Ideal)) W (Proc.devRef .tc b) = W (Proc.devRef .tc b) :=
  StableHlo.after_of_writes_sub hostOps9 W hostOps9_writes hb

/-- The references `hostOps10`'s operations write, in order. -/
abbrev hostOps10_W : List (Ref sig .tc) := [main_call9_c, main_call9_v0, main_call9_v1, main_call9_c_0, main_call9_v2, main_call9_v3, main_call9_v4, main_call9_v5, main_call9_c_1, main_call9_c_2, main_call9_v6, main_call9_v7, main_call9_v8, main_call9_v9, main_call9_v10, main_call9_v11, main_call9_c_3, main_call9_v12, main_call9_v13, main_call9_v14, main_call9_cst, main_call9_v15, main_v53]
theorem hostOps10_writes : (hostOps10 : List (HloOp τ sig (Elt Ideal))).Forall fun op => op.writes ⊆ (hostOps10_W.map (Proc.devRef (τ := τ) .tc)).toFinset := by
  simp only [List.Forall]
  exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩
/-- A reference `hostOps10` does not write holds afterwards what it held before. -/
theorem host10_keep (W : Valuation τ sig (Elt Ideal)) (b : Ref sig .tc) (hb : b ∉ hostOps10_W) :
    StableHlo.after (hostOps10 (F := Ideal)) W (Proc.devRef .tc b) = W (Proc.devRef .tc b) :=
  StableHlo.after_of_writes_sub hostOps10 W hostOps10_writes hb

/-- The references `hostOps10_1`'s operations write, in order. -/
abbrev hostOps10_1_W : List (Ref sig .tc) := [main_call10_c, main_call10_v0, main_call10_v1, main_call10_c_0, main_call10_v2, main_call10_v3, main_call10_v4, main_call10_v5, main_call10_c_1, main_call10_c_2, main_call10_v6, main_call10_v7, main_call10_v8, main_call10_v9, main_call10_v10, main_call10_v11, main_call10_c_3, main_call10_v12, main_call10_v13, main_call10_v14, main_call10_cst, main_call10_v15, main_v54]
theorem hostOps10_1_writes : (hostOps10_1 : List (HloOp τ sig (Elt Ideal))).Forall fun op => op.writes ⊆ (hostOps10_1_W.map (Proc.devRef (τ := τ) .tc)).toFinset := by
  simp only [List.Forall]
  exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩
/-- A reference `hostOps10_1` does not write holds afterwards what it held before. -/
theorem host10_1_keep (W : Valuation τ sig (Elt Ideal)) (b : Ref sig .tc) (hb : b ∉ hostOps10_1_W) :
    StableHlo.after (hostOps10_1 (F := Ideal)) W (Proc.devRef .tc b) = W (Proc.devRef .tc b) :=
  StableHlo.after_of_writes_sub hostOps10_1 W hostOps10_1_writes hb

/-- The references `hostOps10_2`'s operations write, in order. -/
abbrev hostOps10_2_W : List (Ref sig .tc) := [main_call11_c, main_call11_v0, main_call11_v1, main_call11_c_0, main_call11_v2, main_call11_v3, main_call11_v4, main_call11_v5, main_call11_c_1, main_call11_c_2, main_call11_v6, main_call11_v7, main_call11_v8, main_call11_v9, main_call11_v10, main_call11_v11, main_call11_c_3, main_call11_v12, main_call11_v13, main_call11_v14, main_call11_cst, main_call11_v15, main_v55]
theorem hostOps10_2_writes : (hostOps10_2 : List (HloOp τ sig (Elt Ideal))).Forall fun op => op.writes ⊆ (hostOps10_2_W.map (Proc.devRef (τ := τ) .tc)).toFinset := by
  simp only [List.Forall]
  exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩
/-- A reference `hostOps10_2` does not write holds afterwards what it held before. -/
theorem host10_2_keep (W : Valuation τ sig (Elt Ideal)) (b : Ref sig .tc) (hb : b ∉ hostOps10_2_W) :
    StableHlo.after (hostOps10_2 (F := Ideal)) W (Proc.devRef .tc b) = W (Proc.devRef .tc b) :=
  StableHlo.after_of_writes_sub hostOps10_2 W hostOps10_2_writes hb

/-- The references `hostOps11`'s operations write, in order. -/
abbrev hostOps11_W : List (Ref sig .tc) := [main_cst_5, main_v57, main_v58, main_v59, main_cst_6, main_v60, main_v61, main_v62]
theorem hostOps11_writes : (hostOps11 : List (HloOp τ sig (Elt Ideal))).Forall fun op => op.writes ⊆ (hostOps11_W.map (Proc.devRef (τ := τ) .tc)).toFinset := by
  simp only [List.Forall]
  exact ⟨by writes_one, by writes_one, by writes_one, by writes_one, by writes_one, by writes_one, by writes_one, by writes_one⟩
/-- A reference `hostOps11` does not write holds afterwards what it held before. -/
theorem host11_keep (W : Valuation τ sig (Elt Ideal)) (b : Ref sig .tc) (hb : b ∉ hostOps11_W) :
    StableHlo.after (hostOps11 (F := Ideal)) W (Proc.devRef .tc b) = W (Proc.devRef .tc b) :=
  StableHlo.after_of_writes_sub hostOps11 W hostOps11_writes hb

end Cert.ReferenceIdeal.Val

end
-- ==== Proof.RV.Chains.lean ====
/-
  A buffer that no segment between two boundaries of the reference's run writes holds at the later boundary
  what it held at the earlier one: each host stretch keeps the buffers it does not write, each region keeps the
  buffers that are not its outputs (an input array is staged and never written back).
-/
import proofs.«117664_g2000706958607885_pallasbulk_534_41_alg».proof.Proof.RefFrame
import Idealize.ShloMosaic.Lib.ValueIdx
import proofs.«117664_g2000706958607885_pallasbulk_534_41_alg».proof.Proof.RV.HostKeep

set_option maxRecDepth 16384

noncomputable section

namespace Cert.ReferenceIdeal.Val

open Cert.ReferenceIdeal Cert.ReferenceIdeal.Gen Cert.ReferenceIdeal.GenP
open Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ) (ρ : Dev nD → PrngReg) (c : Dev nD)

theorem kp_main_arg9_0_5 : W5 m ρ c (Proc.devRef .tc main_arg9) = m ((c : Thread nD τ).loc main_arg9) :=
  ((host1_2_keep (W4 m ρ c) main_arg9 (by decide)).trans
    ((host1_1_keep (W3 m ρ c) main_arg9 (by decide)).trans
    ((host1_keep (W2 m ρ c) main_arg9 (by decide)).trans
    ((W2_of_ne m ρ c main_arg9 (by decide)).trans
    ((host0_keep (W0 m ρ c) main_arg9 (by decide))))))).trans rfl

theorem kp_main_arg11_0_5 : W5 m ρ c (Proc.devRef .tc main_arg11) = m ((c : Thread nD τ).loc main_arg11) :=
  ((host1_2_keep (W4 m ρ c) main_arg11 (by decide)).trans
    ((host1_1_keep (W3 m ρ c) main_arg11 (by decide)).trans
    ((host1_keep (W2 m ρ c) main_arg11 (by decide)).trans
    ((W2_of_ne m ρ c main_arg11 (by decide)).trans
    ((host0_keep (W0 m ρ c) main_arg11 (by decide))))))).trans rfl

theorem kp_main_arg13_0_5 : W5 m ρ c (Proc.devRef .tc main_arg13) = m ((c : Thread nD τ).loc main_arg13) :=
  ((host1_2_keep (W4 m ρ c) main_arg13 (by decide)).trans
    ((host1_1_keep (W3 m ρ c) main_arg13 (by decide)).trans
    ((host1_keep (W2 m ρ c) main_arg13 (by decide)).trans
    ((W2_of_ne m ρ c main_arg13 (by decide)).trans
    ((host0_keep (W0 m ρ c) main_arg13 (by decide))))))).trans rfl

theorem kp_main_arg10_0_5 : W5 m ρ c (Proc.devRef .tc main_arg10) = m ((c : Thread nD τ).loc main_arg10) :=
  ((host1_2_keep (W4 m ρ c) main_arg10 (by decide)).trans
    ((host1_1_keep (W3 m ρ c) main_arg10 (by decide)).trans
    ((host1_keep (W2 m ρ c) main_arg10 (by decide)).trans
    ((W2_of_ne m ρ c main_arg10 (by decide)).trans
    ((host0_keep (W0 m ρ c) main_arg10 (by decide))))))).trans rfl

theorem kp_main_arg12_0_5 : W5 m ρ c (Proc.devRef .tc main_arg12) = m ((c : Thread nD τ).loc main_arg12) :=
  ((host1_2_keep (W4 m ρ c) main_arg12 (by decide)).trans
    ((host1_1_keep (W3 m ρ c) main_arg12 (by decide)).trans
    ((host1_keep (W2 m ρ c) main_arg12 (by decide)).trans
    ((W2_of_ne m ρ c main_arg12 (by decide)).trans
    ((host0_keep (W0 m ρ c) main_arg12 (by decide))))))).trans rfl

theorem kp_main_arg14_0_5 : W5 m ρ c (Proc.devRef .tc main_arg14) = m ((c : Thread nD τ).loc main_arg14) :=
  ((host1_2_keep (W4 m ρ c) main_arg14 (by decide)).trans
    ((host1_1_keep (W3 m ρ c) main_arg14 (by decide)).trans
    ((host1_keep (W2 m ρ c) main_arg14 (by decide)).trans
    ((W2_of_ne m ρ c main_arg14 (by decide)).trans
    ((host0_keep (W0 m ρ c) main_arg14 (by decide))))))).trans rfl

theorem kp_main_v5_3_5 : W5 m ρ c (Proc.devRef .tc main_v5) = W3 m ρ c (Proc.devRef .tc main_v5) :=
  (host1_2_keep (W4 m ρ c) main_v5 (by decide)).trans
    ((host1_1_keep (W3 m ρ c) main_v5 (by decide)))

theorem kp_main_v6_4_5 : W5 m ρ c (Proc.devRef .tc main_v6) = W4 m ρ c (Proc.devRef .tc main_v6) :=
  (host1_2_keep (W4 m ρ c) main_v6 (by decide))

theorem kp_main_arg2_0_5 : W5 m ρ c (Proc.devRef .tc main_arg2) = m ((c : Thread nD τ).loc main_arg2) :=
  ((host1_2_keep (W4 m ρ c) main_arg2 (by decide)).trans
    ((host1_1_keep (W3 m ρ c) main_arg2 (by decide)).trans
    ((host1_keep (W2 m ρ c) main_arg2 (by decide)).trans
    ((W2_of_ne m ρ c main_arg2 (by decide)).trans
    ((host0_keep (W0 m ρ c) main_arg2 (by decide))))))).trans rfl

theorem kp_main_arg1_0_1 : W1 m ρ c (Proc.devRef .tc main_arg1) = m ((c : Thread nD τ).loc main_arg1) :=
  ((host0_keep (W0 m ρ c) main_arg1 (by decide))).trans rfl

theorem kp_main_arg1_0_2 : W2 m ρ c (Proc.devRef .tc main_arg1) = m ((c : Thread nD τ).loc main_arg1) :=
  (((W2_arr m ρ c 0).trans (((dat0 (V1 m ρ) c).arrAt_in 0 rfl _).trans (A_eq0 (V1 m ρ) c 0)))).trans (kp_main_arg1_0_1 m ρ c)

theorem kp_main_arg1_0_3 : W3 m ρ c (Proc.devRef .tc main_arg1) = m ((c : Thread nD τ).loc main_arg1) :=
  ((host1_keep (W2 m ρ c) main_arg1 (by decide))).trans (kp_main_arg1_0_2 m ρ c)

theorem kp_main_arg1_0_7 : W7 m ρ c (Proc.devRef .tc main_arg1) = m ((c : Thread nD τ).loc main_arg1) :=
  ((host2_keep (W6 m ρ c) main_arg1 (by decide)).trans
    ((W6_of_ne m ρ c main_arg1 (by decide)).trans
    ((host1_2_keep (W4 m ρ c) main_arg1 (by decide)).trans
    ((host1_1_keep (W3 m ρ c) main_arg1 (by decide)))))).trans (kp_main_arg1_0_3 m ρ c)

theorem kp_main_arg5_0_1 : W1 m ρ c (Proc.devRef .tc main_arg5) = m ((c : Thread nD τ).loc main_arg5) :=
  ((host0_keep (W0 m ρ c) main_arg5 (by decide))).trans rfl

theorem kp_main_arg6_0_1 : W1 m ρ c (Proc.devRef .tc main_arg6) = m ((c : Thread nD τ).loc main_arg6) :=
  ((host0_keep (W0 m ρ c) main_arg6 (by decide))).trans rfl

theorem kp_main_arg7_0_1 : W1 m ρ c (Proc.devRef .tc main_arg7) = m ((c : Thread nD τ).loc main_arg7) :=
  ((host0_keep (W0 m ρ c) main_arg7 (by decide))).trans rfl

theorem kp_main_arg8_0_1 : W1 m ρ c (Proc.devRef .tc main_arg8) = m ((c : Thread nD τ).loc main_arg8) :=
  ((host0_keep (W0 m ρ c) main_arg8 (by decide))).trans rfl

theorem kp_main_v3_1_2 : W2 m ρ c (Proc.devRef .tc main_v3) = W1 m ρ c (Proc.devRef .tc main_v3) :=
  (W2_of_ne m ρ c main_v3 (by decide))

theorem kp_main_v3_1_6 : W6 m ρ c (Proc.devRef .tc main_v3) = W1 m ρ c (Proc.devRef .tc main_v3) :=
  ((W6_of_ne m ρ c main_v3 (by decide)).trans
    ((host1_2_keep (W4 m ρ c) main_v3 (by decide)).trans
    ((host1_1_keep (W3 m ρ c) main_v3 (by decide)).trans
    ((host1_keep (W2 m ρ c) main_v3 (by decide)))))).trans (kp_main_v3_1_2 m ρ c)

theorem kp_main_arg4_0_2 : W2 m ρ c (Proc.devRef .tc main_arg4) = m ((c : Thread nD τ).loc main_arg4) :=
  ((W2_of_ne m ρ c main_arg4 (by decide)).trans
    ((host0_keep (W0 m ρ c) main_arg4 (by decide)))).trans rfl

theorem kp_main_arg4_0_3 : W3 m ρ c (Proc.devRef .tc main_arg4) = m ((c : Thread nD τ).loc main_arg4) :=
  ((host1_keep (W2 m ρ c) main_arg4 (by decide))).trans (kp_main_arg4_0_2 m ρ c)

theorem kp_main_arg4_0_4 : W4 m ρ c (Proc.devRef .tc main_arg4) = m ((c : Thread nD τ).loc main_arg4) :=
  ((host1_1_keep (W3 m ρ c) main_arg4 (by decide))).trans (kp_main_arg4_0_3 m ρ c)

theorem kp_main_arg4_0_6 : W6 m ρ c (Proc.devRef .tc main_arg4) = m ((c : Thread nD τ).loc main_arg4) :=
  ((W6_of_ne m ρ c main_arg4 (by decide)).trans
    ((host1_2_keep (W4 m ρ c) main_arg4 (by decide)))).trans (kp_main_arg4_0_4 m ρ c)

theorem kp_main_arg4_0_16 : W16 m ρ c (Proc.devRef .tc main_arg4) = m ((c : Thread nD τ).loc main_arg4) :=
  ((W16_of_ne m ρ c main_arg4 (by decide)).trans
    ((host5_keep (W14 m ρ c) main_arg4 (by decide)).trans
    ((W14_of_ne m ρ c main_arg4 (by decide)).trans
    ((host4_2_keep (W12 m ρ c) main_arg4 (by decide)).trans
    ((host4_1_keep (W11 m ρ c) main_arg4 (by decide)).trans
    ((host4_keep (W10 m ρ c) main_arg4 (by decide)).trans
    ((W10_of_ne m ρ c main_arg4 (by decide)).trans
    ((host3_keep (W8 m ρ c) main_arg4 (by decide)).trans
    ((W8_of_ne m ρ c main_arg4 (by decide)).trans
    ((host2_keep (W6 m ρ c) main_arg4 (by decide)))))))))))).trans (kp_main_arg4_0_6 m ρ c)

theorem kp_main_arg4_0_18 : W18 m ρ c (Proc.devRef .tc main_arg4) = m ((c : Thread nD τ).loc main_arg4) :=
  ((W18_of_ne m ρ c main_arg4 (by decide)).trans
    ((host6_keep (W16 m ρ c) main_arg4 (by decide)))).trans (kp_main_arg4_0_16 m ρ c)

theorem kp_main_arg4_0_19 : W19 m ρ c (Proc.devRef .tc main_arg4) = m ((c : Thread nD τ).loc main_arg4) :=
  ((host7_keep (W18 m ρ c) main_arg4 (by decide))).trans (kp_main_arg4_0_18 m ρ c)

theorem kp_main_arg4_0_20 : W20 m ρ c (Proc.devRef .tc main_arg4) = m ((c : Thread nD τ).loc main_arg4) :=
  ((host7_1_keep (W19 m ρ c) main_arg4 (by decide))).trans (kp_main_arg4_0_19 m ρ c)

theorem kp_main_arg4_0_22 : W22 m ρ c (Proc.devRef .tc main_arg4) = m ((c : Thread nD τ).loc main_arg4) :=
  ((W22_of_ne m ρ c main_arg4 (by decide)).trans
    ((host7_2_keep (W20 m ρ c) main_arg4 (by decide)))).trans (kp_main_arg4_0_20 m ρ c)

theorem kp_main_v1_1_3 : W3 m ρ c (Proc.devRef .tc main_v1) = W1 m ρ c (Proc.devRef .tc main_v1) :=
  (host1_keep (W2 m ρ c) main_v1 (by decide)).trans
    ((W2_of_ne m ρ c main_v1 (by decide)))

theorem kp_main_v1_1_4 : W4 m ρ c (Proc.devRef .tc main_v1) = W1 m ρ c (Proc.devRef .tc main_v1) :=
  ((host1_1_keep (W3 m ρ c) main_v1 (by decide))).trans (kp_main_v1_1_3 m ρ c)

theorem kp_main_v4_1_2_4 : W4 m ρ c (Proc.devRef .tc main_v4_1) = W2 m ρ c (Proc.devRef .tc main_v4_1) :=
  (host1_1_keep (W3 m ρ c) main_v4_1 (by decide)).trans
    ((host1_keep (W2 m ρ c) main_v4_1 (by decide)))

theorem kp_main_arg17_0_5 : W5 m ρ c (Proc.devRef .tc main_arg17) = m ((c : Thread nD τ).loc main_arg17) :=
  ((host1_2_keep (W4 m ρ c) main_arg17 (by decide)).trans
    ((host1_1_keep (W3 m ρ c) main_arg17 (by decide)).trans
    ((host1_keep (W2 m ρ c) main_arg17 (by decide)).trans
    ((W2_of_ne m ρ c main_arg17 (by decide)).trans
    ((host0_keep (W0 m ρ c) main_arg17 (by decide))))))).trans rfl

theorem kp_main_arg18_0_5 : W5 m ρ c (Proc.devRef .tc main_arg18) = m ((c : Thread nD τ).loc main_arg18) :=
  ((host1_2_keep (W4 m ρ c) main_arg18 (by decide)).trans
    ((host1_1_keep (W3 m ρ c) main_arg18 (by decide)).trans
    ((host1_keep (W2 m ρ c) main_arg18 (by decide)).trans
    ((W2_of_ne m ρ c main_arg18 (by decide)).trans
    ((host0_keep (W0 m ρ c) main_arg18 (by decide))))))).trans rfl

theorem kp_main_v4_0_2_7 : W7 m ρ c (Proc.devRef .tc main_v4_0) = W2 m ρ c (Proc.devRef .tc main_v4_0) :=
  (host2_keep (W6 m ρ c) main_v4_0 (by decide)).trans
    ((W6_of_ne m ρ c main_v4_0 (by decide)).trans
    ((host1_2_keep (W4 m ρ c) main_v4_0 (by decide)).trans
    ((host1_1_keep (W3 m ρ c) main_v4_0 (by decide)).trans
    ((host1_keep (W2 m ρ c) main_v4_0 (by decide))))))

theorem kp_main_arg15_0_7 : W7 m ρ c (Proc.devRef .tc main_arg15) = m ((c : Thread nD τ).loc main_arg15) :=
  ((host2_keep (W6 m ρ c) main_arg15 (by decide)).trans
    ((W6_of_ne m ρ c main_arg15 (by decide)).trans
    ((host1_2_keep (W4 m ρ c) main_arg15 (by decide)).trans
    ((host1_1_keep (W3 m ρ c) main_arg15 (by decide)).trans
    ((host1_keep (W2 m ρ c) main_arg15 (by decide)).trans
    ((W2_of_ne m ρ c main_arg15 (by decide)).trans
    ((host0_keep (W0 m ρ c) main_arg15 (by decide))))))))).trans rfl

theorem kp_main_arg16_0_7 : W7 m ρ c (Proc.devRef .tc main_arg16) = m ((c : Thread nD τ).loc main_arg16) :=
  ((host2_keep (W6 m ρ c) main_arg16 (by decide)).trans
    ((W6_of_ne m ρ c main_arg16 (by decide)).trans
    ((host1_2_keep (W4 m ρ c) main_arg16 (by decide)).trans
    ((host1_1_keep (W3 m ρ c) main_arg16 (by decide)).trans
    ((host1_keep (W2 m ρ c) main_arg16 (by decide)).trans
    ((W2_of_ne m ρ c main_arg16 (by decide)).trans
    ((host0_keep (W0 m ρ c) main_arg16 (by decide))))))))).trans rfl

theorem kp_main_arg37_0_13 : W13 m ρ c (Proc.devRef .tc main_arg37) = m ((c : Thread nD τ).loc main_arg37) :=
  ((host4_2_keep (W12 m ρ c) main_arg37 (by decide)).trans
    ((host4_1_keep (W11 m ρ c) main_arg37 (by decide)).trans
    ((host4_keep (W10 m ρ c) main_arg37 (by decide)).trans
    ((W10_of_ne m ρ c main_arg37 (by decide)).trans
    ((host3_keep (W8 m ρ c) main_arg37 (by decide)).trans
    ((W8_of_ne m ρ c main_arg37 (by decide)).trans
    ((host2_keep (W6 m ρ c) main_arg37 (by decide)).trans
    ((W6_of_ne m ρ c main_arg37 (by decide)).trans
    ((host1_2_keep (W4 m ρ c) main_arg37 (by decide)).trans
    ((host1_1_keep (W3 m ρ c) main_arg37 (by decide)).trans
    ((host1_keep (W2 m ρ c) main_arg37 (by decide)).trans
    ((W2_of_ne m ρ c main_arg37 (by decide)).trans
    ((host0_keep (W0 m ρ c) main_arg37 (by decide))))))))))))))).trans rfl

theorem kp_main_arg39_0_13 : W13 m ρ c (Proc.devRef .tc main_arg39) = m ((c : Thread nD τ).loc main_arg39) :=
  ((host4_2_keep (W12 m ρ c) main_arg39 (by decide)).trans
    ((host4_1_keep (W11 m ρ c) main_arg39 (by decide)).trans
    ((host4_keep (W10 m ρ c) main_arg39 (by decide)).trans
    ((W10_of_ne m ρ c main_arg39 (by decide)).trans
    ((host3_keep (W8 m ρ c) main_arg39 (by decide)).trans
    ((W8_of_ne m ρ c main_arg39 (by decide)).trans
    ((host2_keep (W6 m ρ c) main_arg39 (by decide)).trans
    ((W6_of_ne m ρ c main_arg39 (by decide)).trans
    ((host1_2_keep (W4 m ρ c) main_arg39 (by decide)).trans
    ((host1_1_keep (W3 m ρ c) main_arg39 (by decide)).trans
    ((host1_keep (W2 m ρ c) main_arg39 (by decide)).trans
    ((W2_of_ne m ρ c main_arg39 (by decide)).trans
    ((host0_keep (W0 m ρ c) main_arg39 (by decide))))))))))))))).trans rfl

theorem kp_main_arg41_0_13 : W13 m ρ c (Proc.devRef .tc main_arg41) = m ((c : Thread nD τ).loc main_arg41) :=
  ((host4_2_keep (W12 m ρ c) main_arg41 (by decide)).trans
    ((host4_1_keep (W11 m ρ c) main_arg41 (by decide)).trans
    ((host4_keep (W10 m ρ c) main_arg41 (by decide)).trans
    ((W10_of_ne m ρ c main_arg41 (by decide)).trans
    ((host3_keep (W8 m ρ c) main_arg41 (by decide)).trans
    ((W8_of_ne m ρ c main_arg41 (by decide)).trans
    ((host2_keep (W6 m ρ c) main_arg41 (by decide)).trans
    ((W6_of_ne m ρ c main_arg41 (by decide)).trans
    ((host1_2_keep (W4 m ρ c) main_arg41 (by decide)).trans
    ((host1_1_keep (W3 m ρ c) main_arg41 (by decide)).trans
    ((host1_keep (W2 m ρ c) main_arg41 (by decide)).trans
    ((W2_of_ne m ρ c main_arg41 (by decide)).trans
    ((host0_keep (W0 m ρ c) main_arg41 (by decide))))))))))))))).trans rfl

theorem kp_main_arg38_0_13 : W13 m ρ c (Proc.devRef .tc main_arg38) = m ((c : Thread nD τ).loc main_arg38) :=
  ((host4_2_keep (W12 m ρ c) main_arg38 (by decide)).trans
    ((host4_1_keep (W11 m ρ c) main_arg38 (by decide)).trans
    ((host4_keep (W10 m ρ c) main_arg38 (by decide)).trans
    ((W10_of_ne m ρ c main_arg38 (by decide)).trans
    ((host3_keep (W8 m ρ c) main_arg38 (by decide)).trans
    ((W8_of_ne m ρ c main_arg38 (by decide)).trans
    ((host2_keep (W6 m ρ c) main_arg38 (by decide)).trans
    ((W6_of_ne m ρ c main_arg38 (by decide)).trans
    ((host1_2_keep (W4 m ρ c) main_arg38 (by decide)).trans
    ((host1_1_keep (W3 m ρ c) main_arg38 (by decide)).trans
    ((host1_keep (W2 m ρ c) main_arg38 (by decide)).trans
    ((W2_of_ne m ρ c main_arg38 (by decide)).trans
    ((host0_keep (W0 m ρ c) main_arg38 (by decide))))))))))))))).trans rfl

theorem kp_main_arg40_0_13 : W13 m ρ c (Proc.devRef .tc main_arg40) = m ((c : Thread nD τ).loc main_arg40) :=
  ((host4_2_keep (W12 m ρ c) main_arg40 (by decide)).trans
    ((host4_1_keep (W11 m ρ c) main_arg40 (by decide)).trans
    ((host4_keep (W10 m ρ c) main_arg40 (by decide)).trans
    ((W10_of_ne m ρ c main_arg40 (by decide)).trans
    ((host3_keep (W8 m ρ c) main_arg40 (by decide)).trans
    ((W8_of_ne m ρ c main_arg40 (by decide)).trans
    ((host2_keep (W6 m ρ c) main_arg40 (by decide)).trans
    ((W6_of_ne m ρ c main_arg40 (by decide)).trans
    ((host1_2_keep (W4 m ρ c) main_arg40 (by decide)).trans
    ((host1_1_keep (W3 m ρ c) main_arg40 (by decide)).trans
    ((host1_keep (W2 m ρ c) main_arg40 (by decide)).trans
    ((W2_of_ne m ρ c main_arg40 (by decide)).trans
    ((host0_keep (W0 m ρ c) main_arg40 (by decide))))))))))))))).trans rfl

theorem kp_main_arg42_0_13 : W13 m ρ c (Proc.devRef .tc main_arg42) = m ((c : Thread nD τ).loc main_arg42) :=
  ((host4_2_keep (W12 m ρ c) main_arg42 (by decide)).trans
    ((host4_1_keep (W11 m ρ c) main_arg42 (by decide)).trans
    ((host4_keep (W10 m ρ c) main_arg42 (by decide)).trans
    ((W10_of_ne m ρ c main_arg42 (by decide)).trans
    ((host3_keep (W8 m ρ c) main_arg42 (by decide)).trans
    ((W8_of_ne m ρ c main_arg42 (by decide)).trans
    ((host2_keep (W6 m ρ c) main_arg42 (by decide)).trans
    ((W6_of_ne m ρ c main_arg42 (by decide)).trans
    ((host1_2_keep (W4 m ρ c) main_arg42 (by decide)).trans
    ((host1_1_keep (W3 m ρ c) main_arg42 (by decide)).trans
    ((host1_keep (W2 m ρ c) main_arg42 (by decide)).trans
    ((W2_of_ne m ρ c main_arg42 (by decide)).trans
    ((host0_keep (W0 m ρ c) main_arg42 (by decide))))))))))))))).trans rfl

theorem kp_main_v21_11_13 : W13 m ρ c (Proc.devRef .tc main_v21) = W11 m ρ c (Proc.devRef .tc main_v21) :=
  (host4_2_keep (W12 m ρ c) main_v21 (by decide)).trans
    ((host4_1_keep (W11 m ρ c) main_v21 (by decide)))

theorem kp_main_v22_12_13 : W13 m ρ c (Proc.devRef .tc main_v22) = W12 m ρ c (Proc.devRef .tc main_v22) :=
  (host4_2_keep (W12 m ρ c) main_v22 (by decide))

theorem kp_main_v15_8_13 : W13 m ρ c (Proc.devRef .tc main_v15) = W8 m ρ c (Proc.devRef .tc main_v15) :=
  (host4_2_keep (W12 m ρ c) main_v15 (by decide)).trans
    ((host4_1_keep (W11 m ρ c) main_v15 (by decide)).trans
    ((host4_keep (W10 m ρ c) main_v15 (by decide)).trans
    ((W10_of_ne m ρ c main_v15 (by decide)).trans
    ((host3_keep (W8 m ρ c) main_v15 (by decide))))))

theorem kp_main_arg0_0_9 : W9 m ρ c (Proc.devRef .tc main_arg0) = m ((c : Thread nD τ).loc main_arg0) :=
  ((host3_keep (W8 m ρ c) main_arg0 (by decide)).trans
    ((W8_of_ne m ρ c main_arg0 (by decide)).trans
    ((host2_keep (W6 m ρ c) main_arg0 (by decide)).trans
    ((W6_of_ne m ρ c main_arg0 (by decide)).trans
    ((host1_2_keep (W4 m ρ c) main_arg0 (by decide)).trans
    ((host1_1_keep (W3 m ρ c) main_arg0 (by decide)).trans
    ((host1_keep (W2 m ρ c) main_arg0 (by decide)).trans
    ((W2_of_ne m ρ c main_arg0 (by decide)).trans
    ((host0_keep (W0 m ρ c) main_arg0 (by decide))))))))))).trans rfl

theorem kp_main_arg0_0_10 : W10 m ρ c (Proc.devRef .tc main_arg0) = m ((c : Thread nD τ).loc main_arg0) :=
  (((W10_arr m ρ c 0).trans (((dat3 (V9 m ρ) c).arrAt_in 0 rfl _).trans (A_eq3 (V9 m ρ) c 0)))).trans (kp_main_arg0_0_9 m ρ c)

theorem kp_main_arg0_0_11 : W11 m ρ c (Proc.devRef .tc main_arg0) = m ((c : Thread nD τ).loc main_arg0) :=
  ((host4_keep (W10 m ρ c) main_arg0 (by decide))).trans (kp_main_arg0_0_10 m ρ c)

theorem kp_main_arg0_0_15 : W15 m ρ c (Proc.devRef .tc main_arg0) = m ((c : Thread nD τ).loc main_arg0) :=
  ((host5_keep (W14 m ρ c) main_arg0 (by decide)).trans
    ((W14_of_ne m ρ c main_arg0 (by decide)).trans
    ((host4_2_keep (W12 m ρ c) main_arg0 (by decide)).trans
    ((host4_1_keep (W11 m ρ c) main_arg0 (by decide)))))).trans (kp_main_arg0_0_11 m ρ c)

theorem kp_main_arg33_0_9 : W9 m ρ c (Proc.devRef .tc main_arg33) = m ((c : Thread nD τ).loc main_arg33) :=
  ((host3_keep (W8 m ρ c) main_arg33 (by decide)).trans
    ((W8_of_ne m ρ c main_arg33 (by decide)).trans
    ((host2_keep (W6 m ρ c) main_arg33 (by decide)).trans
    ((W6_of_ne m ρ c main_arg33 (by decide)).trans
    ((host1_2_keep (W4 m ρ c) main_arg33 (by decide)).trans
    ((host1_1_keep (W3 m ρ c) main_arg33 (by decide)).trans
    ((host1_keep (W2 m ρ c) main_arg33 (by decide)).trans
    ((W2_of_ne m ρ c main_arg33 (by decide)).trans
    ((host0_keep (W0 m ρ c) main_arg33 (by decide))))))))))).trans rfl

theorem kp_main_arg34_0_9 : W9 m ρ c (Proc.devRef .tc main_arg34) = m ((c : Thread nD τ).loc main_arg34) :=
  ((host3_keep (W8 m ρ c) main_arg34 (by decide)).trans
    ((W8_of_ne m ρ c main_arg34 (by decide)).trans
    ((host2_keep (W6 m ρ c) main_arg34 (by decide)).trans
    ((W6_of_ne m ρ c main_arg34 (by decide)).trans
    ((host1_2_keep (W4 m ρ c) main_arg34 (by decide)).trans
    ((host1_1_keep (W3 m ρ c) main_arg34 (by decide)).trans
    ((host1_keep (W2 m ρ c) main_arg34 (by decide)).trans
    ((W2_of_ne m ρ c main_arg34 (by decide)).trans
    ((host0_keep (W0 m ρ c) main_arg34 (by decide))))))))))).trans rfl

theorem kp_main_arg35_0_9 : W9 m ρ c (Proc.devRef .tc main_arg35) = m ((c : Thread nD τ).loc main_arg35) :=
  ((host3_keep (W8 m ρ c) main_arg35 (by decide)).trans
    ((W8_of_ne m ρ c main_arg35 (by decide)).trans
    ((host2_keep (W6 m ρ c) main_arg35 (by decide)).trans
    ((W6_of_ne m ρ c main_arg35 (by decide)).trans
    ((host1_2_keep (W4 m ρ c) main_arg35 (by decide)).trans
    ((host1_1_keep (W3 m ρ c) main_arg35 (by decide)).trans
    ((host1_keep (W2 m ρ c) main_arg35 (by decide)).trans
    ((W2_of_ne m ρ c main_arg35 (by decide)).trans
    ((host0_keep (W0 m ρ c) main_arg35 (by decide))))))))))).trans rfl

theorem kp_main_arg36_0_9 : W9 m ρ c (Proc.devRef .tc main_arg36) = m ((c : Thread nD τ).loc main_arg36) :=
  ((host3_keep (W8 m ρ c) main_arg36 (by decide)).trans
    ((W8_of_ne m ρ c main_arg36 (by decide)).trans
    ((host2_keep (W6 m ρ c) main_arg36 (by decide)).trans
    ((W6_of_ne m ρ c main_arg36 (by decide)).trans
    ((host1_2_keep (W4 m ρ c) main_arg36 (by decide)).trans
    ((host1_1_keep (W3 m ρ c) main_arg36 (by decide)).trans
    ((host1_keep (W2 m ρ c) main_arg36 (by decide)).trans
    ((W2_of_ne m ρ c main_arg36 (by decide)).trans
    ((host0_keep (W0 m ρ c) main_arg36 (by decide))))))))))).trans rfl

theorem kp_main_v19_9_10 : W10 m ρ c (Proc.devRef .tc main_v19) = W9 m ρ c (Proc.devRef .tc main_v19) :=
  (W10_of_ne m ρ c main_v19 (by decide))

theorem kp_main_v19_9_14 : W14 m ρ c (Proc.devRef .tc main_v19) = W9 m ρ c (Proc.devRef .tc main_v19) :=
  ((W14_of_ne m ρ c main_v19 (by decide)).trans
    ((host4_2_keep (W12 m ρ c) main_v19 (by decide)).trans
    ((host4_1_keep (W11 m ρ c) main_v19 (by decide)).trans
    ((host4_keep (W10 m ρ c) main_v19 (by decide)))))).trans (kp_main_v19_9_10 m ρ c)

theorem kp_main_arg3_0_8 : W8 m ρ c (Proc.devRef .tc main_arg3) = m ((c : Thread nD τ).loc main_arg3) :=
  ((W8_of_ne m ρ c main_arg3 (by decide)).trans
    ((host2_keep (W6 m ρ c) main_arg3 (by decide)).trans
    ((W6_of_ne m ρ c main_arg3 (by decide)).trans
    ((host1_2_keep (W4 m ρ c) main_arg3 (by decide)).trans
    ((host1_1_keep (W3 m ρ c) main_arg3 (by decide)).trans
    ((host1_keep (W2 m ρ c) main_arg3 (by decide)).trans
    ((W2_of_ne m ρ c main_arg3 (by decide)).trans
    ((host0_keep (W0 m ρ c) main_arg3 (by decide)))))))))).trans rfl

theorem kp_main_arg3_0_10 : W10 m ρ c (Proc.devRef .tc main_arg3) = m ((c : Thread nD τ).loc main_arg3) :=
  ((W10_of_ne m ρ c main_arg3 (by decide)).trans
    ((host3_keep (W8 m ρ c) main_arg3 (by decide)))).trans (kp_main_arg3_0_8 m ρ c)

theorem kp_main_arg3_0_11 : W11 m ρ c (Proc.devRef .tc main_arg3) = m ((c : Thread nD τ).loc main_arg3) :=
  ((host4_keep (W10 m ρ c) main_arg3 (by decide))).trans (kp_main_arg3_0_10 m ρ c)

theorem kp_main_arg3_0_12 : W12 m ρ c (Proc.devRef .tc main_arg3) = m ((c : Thread nD τ).loc main_arg3) :=
  ((host4_1_keep (W11 m ρ c) main_arg3 (by decide))).trans (kp_main_arg3_0_11 m ρ c)

theorem kp_main_arg3_0_14 : W14 m ρ c (Proc.devRef .tc main_arg3) = m ((c : Thread nD τ).loc main_arg3) :=
  ((W14_of_ne m ρ c main_arg3 (by decide)).trans
    ((host4_2_keep (W12 m ρ c) main_arg3 (by decide)))).trans (kp_main_arg3_0_12 m ρ c)

theorem kp_main_arg3_0_24 : W24 m ρ c (Proc.devRef .tc main_arg3) = m ((c : Thread nD τ).loc main_arg3) :=
  ((W24_of_ne m ρ c main_arg3 (by decide)).trans
    ((host8_keep (W22 m ρ c) main_arg3 (by decide)).trans
    ((W22_of_ne m ρ c main_arg3 (by decide)).trans
    ((host7_2_keep (W20 m ρ c) main_arg3 (by decide)).trans
    ((host7_1_keep (W19 m ρ c) main_arg3 (by decide)).trans
    ((host7_keep (W18 m ρ c) main_arg3 (by decide)).trans
    ((W18_of_ne m ρ c main_arg3 (by decide)).trans
    ((host6_keep (W16 m ρ c) main_arg3 (by decide)).trans
    ((W16_of_ne m ρ c main_arg3 (by decide)).trans
    ((host5_keep (W14 m ρ c) main_arg3 (by decide)))))))))))).trans (kp_main_arg3_0_14 m ρ c)

theorem kp_main_arg3_0_26 : W26 m ρ c (Proc.devRef .tc main_arg3) = m ((c : Thread nD τ).loc main_arg3) :=
  ((W26_of_ne m ρ c main_arg3 (by decide)).trans
    ((host9_keep (W24 m ρ c) main_arg3 (by decide)))).trans (kp_main_arg3_0_24 m ρ c)

theorem kp_main_arg3_0_27 : W27 m ρ c (Proc.devRef .tc main_arg3) = m ((c : Thread nD τ).loc main_arg3) :=
  ((host10_keep (W26 m ρ c) main_arg3 (by decide))).trans (kp_main_arg3_0_26 m ρ c)

theorem kp_main_arg3_0_28 : W28 m ρ c (Proc.devRef .tc main_arg3) = m ((c : Thread nD τ).loc main_arg3) :=
  ((host10_1_keep (W27 m ρ c) main_arg3 (by decide))).trans (kp_main_arg3_0_27 m ρ c)

theorem kp_main_arg3_0_30 : W30 m ρ c (Proc.devRef .tc main_arg3) = m ((c : Thread nD τ).loc main_arg3) :=
  ((W30_of_ne m ρ c main_arg3 (by decide)).trans
    ((host10_2_keep (W28 m ρ c) main_arg3 (by decide)))).trans (kp_main_arg3_0_28 m ρ c)

theorem kp_main_v17_9_11 : W11 m ρ c (Proc.devRef .tc main_v17) = W9 m ρ c (Proc.devRef .tc main_v17) :=
  (host4_keep (W10 m ρ c) main_v17 (by decide)).trans
    ((W10_of_ne m ρ c main_v17 (by decide)))

theorem kp_main_v17_9_12 : W12 m ρ c (Proc.devRef .tc main_v17) = W9 m ρ c (Proc.devRef .tc main_v17) :=
  ((host4_1_keep (W11 m ρ c) main_v17 (by decide))).trans (kp_main_v17_9_11 m ρ c)

theorem kp_main_v20_1_10_12 : W12 m ρ c (Proc.devRef .tc main_v20_1) = W10 m ρ c (Proc.devRef .tc main_v20_1) :=
  (host4_1_keep (W11 m ρ c) main_v20_1 (by decide)).trans
    ((host4_keep (W10 m ρ c) main_v20_1 (by decide)))

theorem kp_main_arg45_0_13 : W13 m ρ c (Proc.devRef .tc main_arg45) = m ((c : Thread nD τ).loc main_arg45) :=
  ((host4_2_keep (W12 m ρ c) main_arg45 (by decide)).trans
    ((host4_1_keep (W11 m ρ c) main_arg45 (by decide)).trans
    ((host4_keep (W10 m ρ c) main_arg45 (by decide)).trans
    ((W10_of_ne m ρ c main_arg45 (by decide)).trans
    ((host3_keep (W8 m ρ c) main_arg45 (by decide)).trans
    ((W8_of_ne m ρ c main_arg45 (by decide)).trans
    ((host2_keep (W6 m ρ c) main_arg45 (by decide)).trans
    ((W6_of_ne m ρ c main_arg45 (by decide)).trans
    ((host1_2_keep (W4 m ρ c) main_arg45 (by decide)).trans
    ((host1_1_keep (W3 m ρ c) main_arg45 (by decide)).trans
    ((host1_keep (W2 m ρ c) main_arg45 (by decide)).trans
    ((W2_of_ne m ρ c main_arg45 (by decide)).trans
    ((host0_keep (W0 m ρ c) main_arg45 (by decide))))))))))))))).trans rfl

theorem kp_main_arg46_0_13 : W13 m ρ c (Proc.devRef .tc main_arg46) = m ((c : Thread nD τ).loc main_arg46) :=
  ((host4_2_keep (W12 m ρ c) main_arg46 (by decide)).trans
    ((host4_1_keep (W11 m ρ c) main_arg46 (by decide)).trans
    ((host4_keep (W10 m ρ c) main_arg46 (by decide)).trans
    ((W10_of_ne m ρ c main_arg46 (by decide)).trans
    ((host3_keep (W8 m ρ c) main_arg46 (by decide)).trans
    ((W8_of_ne m ρ c main_arg46 (by decide)).trans
    ((host2_keep (W6 m ρ c) main_arg46 (by decide)).trans
    ((W6_of_ne m ρ c main_arg46 (by decide)).trans
    ((host1_2_keep (W4 m ρ c) main_arg46 (by decide)).trans
    ((host1_1_keep (W3 m ρ c) main_arg46 (by decide)).trans
    ((host1_keep (W2 m ρ c) main_arg46 (by decide)).trans
    ((W2_of_ne m ρ c main_arg46 (by decide)).trans
    ((host0_keep (W0 m ρ c) main_arg46 (by decide))))))))))))))).trans rfl

theorem kp_main_v20_0_10_15 : W15 m ρ c (Proc.devRef .tc main_v20_0) = W10 m ρ c (Proc.devRef .tc main_v20_0) :=
  (host5_keep (W14 m ρ c) main_v20_0 (by decide)).trans
    ((W14_of_ne m ρ c main_v20_0 (by decide)).trans
    ((host4_2_keep (W12 m ρ c) main_v20_0 (by decide)).trans
    ((host4_1_keep (W11 m ρ c) main_v20_0 (by decide)).trans
    ((host4_keep (W10 m ρ c) main_v20_0 (by decide))))))

theorem kp_main_arg43_0_15 : W15 m ρ c (Proc.devRef .tc main_arg43) = m ((c : Thread nD τ).loc main_arg43) :=
  ((host5_keep (W14 m ρ c) main_arg43 (by decide)).trans
    ((W14_of_ne m ρ c main_arg43 (by decide)).trans
    ((host4_2_keep (W12 m ρ c) main_arg43 (by decide)).trans
    ((host4_1_keep (W11 m ρ c) main_arg43 (by decide)).trans
    ((host4_keep (W10 m ρ c) main_arg43 (by decide)).trans
    ((W10_of_ne m ρ c main_arg43 (by decide)).trans
    ((host3_keep (W8 m ρ c) main_arg43 (by decide)).trans
    ((W8_of_ne m ρ c main_arg43 (by decide)).trans
    ((host2_keep (W6 m ρ c) main_arg43 (by decide)).trans
    ((W6_of_ne m ρ c main_arg43 (by decide)).trans
    ((host1_2_keep (W4 m ρ c) main_arg43 (by decide)).trans
    ((host1_1_keep (W3 m ρ c) main_arg43 (by decide)).trans
    ((host1_keep (W2 m ρ c) main_arg43 (by decide)).trans
    ((W2_of_ne m ρ c main_arg43 (by decide)).trans
    ((host0_keep (W0 m ρ c) main_arg43 (by decide))))))))))))))))).trans rfl

theorem kp_main_arg44_0_15 : W15 m ρ c (Proc.devRef .tc main_arg44) = m ((c : Thread nD τ).loc main_arg44) :=
  ((host5_keep (W14 m ρ c) main_arg44 (by decide)).trans
    ((W14_of_ne m ρ c main_arg44 (by decide)).trans
    ((host4_2_keep (W12 m ρ c) main_arg44 (by decide)).trans
    ((host4_1_keep (W11 m ρ c) main_arg44 (by decide)).trans
    ((host4_keep (W10 m ρ c) main_arg44 (by decide)).trans
    ((W10_of_ne m ρ c main_arg44 (by decide)).trans
    ((host3_keep (W8 m ρ c) main_arg44 (by decide)).trans
    ((W8_of_ne m ρ c main_arg44 (by decide)).trans
    ((host2_keep (W6 m ρ c) main_arg44 (by decide)).trans
    ((W6_of_ne m ρ c main_arg44 (by decide)).trans
    ((host1_2_keep (W4 m ρ c) main_arg44 (by decide)).trans
    ((host1_1_keep (W3 m ρ c) main_arg44 (by decide)).trans
    ((host1_keep (W2 m ρ c) main_arg44 (by decide)).trans
    ((W2_of_ne m ρ c main_arg44 (by decide)).trans
    ((host0_keep (W0 m ρ c) main_arg44 (by decide))))))))))))))))).trans rfl

theorem kp_main_arg23_0_21 : W21 m ρ c (Proc.devRef .tc main_arg23) = m ((c : Thread nD τ).loc main_arg23) :=
  ((host7_2_keep (W20 m ρ c) main_arg23 (by decide)).trans
    ((host7_1_keep (W19 m ρ c) main_arg23 (by decide)).trans
    ((host7_keep (W18 m ρ c) main_arg23 (by decide)).trans
    ((W18_of_ne m ρ c main_arg23 (by decide)).trans
    ((host6_keep (W16 m ρ c) main_arg23 (by decide)).trans
    ((W16_of_ne m ρ c main_arg23 (by decide)).trans
    ((host5_keep (W14 m ρ c) main_arg23 (by decide)).trans
    ((W14_of_ne m ρ c main_arg23 (by decide)).trans
    ((host4_2_keep (W12 m ρ c) main_arg23 (by decide)).trans
    ((host4_1_keep (W11 m ρ c) main_arg23 (by decide)).trans
    ((host4_keep (W10 m ρ c) main_arg23 (by decide)).trans
    ((W10_of_ne m ρ c main_arg23 (by decide)).trans
    ((host3_keep (W8 m ρ c) main_arg23 (by decide)).trans
    ((W8_of_ne m ρ c main_arg23 (by decide)).trans
    ((host2_keep (W6 m ρ c) main_arg23 (by decide)).trans
    ((W6_of_ne m ρ c main_arg23 (by decide)).trans
    ((host1_2_keep (W4 m ρ c) main_arg23 (by decide)).trans
    ((host1_1_keep (W3 m ρ c) main_arg23 (by decide)).trans
    ((host1_keep (W2 m ρ c) main_arg23 (by decide)).trans
    ((W2_of_ne m ρ c main_arg23 (by decide)).trans
    ((host0_keep (W0 m ρ c) main_arg23 (by decide))))))))))))))))))))))).trans rfl

theorem kp_main_arg25_0_21 : W21 m ρ c (Proc.devRef .tc main_arg25) = m ((c : Thread nD τ).loc main_arg25) :=
  ((host7_2_keep (W20 m ρ c) main_arg25 (by decide)).trans
    ((host7_1_keep (W19 m ρ c) main_arg25 (by decide)).trans
    ((host7_keep (W18 m ρ c) main_arg25 (by decide)).trans
    ((W18_of_ne m ρ c main_arg25 (by decide)).trans
    ((host6_keep (W16 m ρ c) main_arg25 (by decide)).trans
    ((W16_of_ne m ρ c main_arg25 (by decide)).trans
    ((host5_keep (W14 m ρ c) main_arg25 (by decide)).trans
    ((W14_of_ne m ρ c main_arg25 (by decide)).trans
    ((host4_2_keep (W12 m ρ c) main_arg25 (by decide)).trans
    ((host4_1_keep (W11 m ρ c) main_arg25 (by decide)).trans
    ((host4_keep (W10 m ρ c) main_arg25 (by decide)).trans
    ((W10_of_ne m ρ c main_arg25 (by decide)).trans
    ((host3_keep (W8 m ρ c) main_arg25 (by decide)).trans
    ((W8_of_ne m ρ c main_arg25 (by decide)).trans
    ((host2_keep (W6 m ρ c) main_arg25 (by decide)).trans
    ((W6_of_ne m ρ c main_arg25 (by decide)).trans
    ((host1_2_keep (W4 m ρ c) main_arg25 (by decide)).trans
    ((host1_1_keep (W3 m ρ c) main_arg25 (by decide)).trans
    ((host1_keep (W2 m ρ c) main_arg25 (by decide)).trans
    ((W2_of_ne m ρ c main_arg25 (by decide)).trans
    ((host0_keep (W0 m ρ c) main_arg25 (by decide))))))))))))))))))))))).trans rfl

theorem kp_main_arg27_0_21 : W21 m ρ c (Proc.devRef .tc main_arg27) = m ((c : Thread nD τ).loc main_arg27) :=
  ((host7_2_keep (W20 m ρ c) main_arg27 (by decide)).trans
    ((host7_1_keep (W19 m ρ c) main_arg27 (by decide)).trans
    ((host7_keep (W18 m ρ c) main_arg27 (by decide)).trans
    ((W18_of_ne m ρ c main_arg27 (by decide)).trans
    ((host6_keep (W16 m ρ c) main_arg27 (by decide)).trans
    ((W16_of_ne m ρ c main_arg27 (by decide)).trans
    ((host5_keep (W14 m ρ c) main_arg27 (by decide)).trans
    ((W14_of_ne m ρ c main_arg27 (by decide)).trans
    ((host4_2_keep (W12 m ρ c) main_arg27 (by decide)).trans
    ((host4_1_keep (W11 m ρ c) main_arg27 (by decide)).trans
    ((host4_keep (W10 m ρ c) main_arg27 (by decide)).trans
    ((W10_of_ne m ρ c main_arg27 (by decide)).trans
    ((host3_keep (W8 m ρ c) main_arg27 (by decide)).trans
    ((W8_of_ne m ρ c main_arg27 (by decide)).trans
    ((host2_keep (W6 m ρ c) main_arg27 (by decide)).trans
    ((W6_of_ne m ρ c main_arg27 (by decide)).trans
    ((host1_2_keep (W4 m ρ c) main_arg27 (by decide)).trans
    ((host1_1_keep (W3 m ρ c) main_arg27 (by decide)).trans
    ((host1_keep (W2 m ρ c) main_arg27 (by decide)).trans
    ((W2_of_ne m ρ c main_arg27 (by decide)).trans
    ((host0_keep (W0 m ρ c) main_arg27 (by decide))))))))))))))))))))))).trans rfl

theorem kp_main_arg24_0_21 : W21 m ρ c (Proc.devRef .tc main_arg24) = m ((c : Thread nD τ).loc main_arg24) :=
  ((host7_2_keep (W20 m ρ c) main_arg24 (by decide)).trans
    ((host7_1_keep (W19 m ρ c) main_arg24 (by decide)).trans
    ((host7_keep (W18 m ρ c) main_arg24 (by decide)).trans
    ((W18_of_ne m ρ c main_arg24 (by decide)).trans
    ((host6_keep (W16 m ρ c) main_arg24 (by decide)).trans
    ((W16_of_ne m ρ c main_arg24 (by decide)).trans
    ((host5_keep (W14 m ρ c) main_arg24 (by decide)).trans
    ((W14_of_ne m ρ c main_arg24 (by decide)).trans
    ((host4_2_keep (W12 m ρ c) main_arg24 (by decide)).trans
    ((host4_1_keep (W11 m ρ c) main_arg24 (by decide)).trans
    ((host4_keep (W10 m ρ c) main_arg24 (by decide)).trans
    ((W10_of_ne m ρ c main_arg24 (by decide)).trans
    ((host3_keep (W8 m ρ c) main_arg24 (by decide)).trans
    ((W8_of_ne m ρ c main_arg24 (by decide)).trans
    ((host2_keep (W6 m ρ c) main_arg24 (by decide)).trans
    ((W6_of_ne m ρ c main_arg24 (by decide)).trans
    ((host1_2_keep (W4 m ρ c) main_arg24 (by decide)).trans
    ((host1_1_keep (W3 m ρ c) main_arg24 (by decide)).trans
    ((host1_keep (W2 m ρ c) main_arg24 (by decide)).trans
    ((W2_of_ne m ρ c main_arg24 (by decide)).trans
    ((host0_keep (W0 m ρ c) main_arg24 (by decide))))))))))))))))))))))).trans rfl

theorem kp_main_arg26_0_21 : W21 m ρ c (Proc.devRef .tc main_arg26) = m ((c : Thread nD τ).loc main_arg26) :=
  ((host7_2_keep (W20 m ρ c) main_arg26 (by decide)).trans
    ((host7_1_keep (W19 m ρ c) main_arg26 (by decide)).trans
    ((host7_keep (W18 m ρ c) main_arg26 (by decide)).trans
    ((W18_of_ne m ρ c main_arg26 (by decide)).trans
    ((host6_keep (W16 m ρ c) main_arg26 (by decide)).trans
    ((W16_of_ne m ρ c main_arg26 (by decide)).trans
    ((host5_keep (W14 m ρ c) main_arg26 (by decide)).trans
    ((W14_of_ne m ρ c main_arg26 (by decide)).trans
    ((host4_2_keep (W12 m ρ c) main_arg26 (by decide)).trans
    ((host4_1_keep (W11 m ρ c) main_arg26 (by decide)).trans
    ((host4_keep (W10 m ρ c) main_arg26 (by decide)).trans
    ((W10_of_ne m ρ c main_arg26 (by decide)).trans
    ((host3_keep (W8 m ρ c) main_arg26 (by decide)).trans
    ((W8_of_ne m ρ c main_arg26 (by decide)).trans
    ((host2_keep (W6 m ρ c) main_arg26 (by decide)).trans
    ((W6_of_ne m ρ c main_arg26 (by decide)).trans
    ((host1_2_keep (W4 m ρ c) main_arg26 (by decide)).trans
    ((host1_1_keep (W3 m ρ c) main_arg26 (by decide)).trans
    ((host1_keep (W2 m ρ c) main_arg26 (by decide)).trans
    ((W2_of_ne m ρ c main_arg26 (by decide)).trans
    ((host0_keep (W0 m ρ c) main_arg26 (by decide))))))))))))))))))))))).trans rfl

theorem kp_main_arg28_0_21 : W21 m ρ c (Proc.devRef .tc main_arg28) = m ((c : Thread nD τ).loc main_arg28) :=
  ((host7_2_keep (W20 m ρ c) main_arg28 (by decide)).trans
    ((host7_1_keep (W19 m ρ c) main_arg28 (by decide)).trans
    ((host7_keep (W18 m ρ c) main_arg28 (by decide)).trans
    ((W18_of_ne m ρ c main_arg28 (by decide)).trans
    ((host6_keep (W16 m ρ c) main_arg28 (by decide)).trans
    ((W16_of_ne m ρ c main_arg28 (by decide)).trans
    ((host5_keep (W14 m ρ c) main_arg28 (by decide)).trans
    ((W14_of_ne m ρ c main_arg28 (by decide)).trans
    ((host4_2_keep (W12 m ρ c) main_arg28 (by decide)).trans
    ((host4_1_keep (W11 m ρ c) main_arg28 (by decide)).trans
    ((host4_keep (W10 m ρ c) main_arg28 (by decide)).trans
    ((W10_of_ne m ρ c main_arg28 (by decide)).trans
    ((host3_keep (W8 m ρ c) main_arg28 (by decide)).trans
    ((W8_of_ne m ρ c main_arg28 (by decide)).trans
    ((host2_keep (W6 m ρ c) main_arg28 (by decide)).trans
    ((W6_of_ne m ρ c main_arg28 (by decide)).trans
    ((host1_2_keep (W4 m ρ c) main_arg28 (by decide)).trans
    ((host1_1_keep (W3 m ρ c) main_arg28 (by decide)).trans
    ((host1_keep (W2 m ρ c) main_arg28 (by decide)).trans
    ((W2_of_ne m ρ c main_arg28 (by decide)).trans
    ((host0_keep (W0 m ρ c) main_arg28 (by decide))))))))))))))))))))))).trans rfl

theorem kp_main_v37_19_21 : W21 m ρ c (Proc.devRef .tc main_v37) = W19 m ρ c (Proc.devRef .tc main_v37) :=
  (host7_2_keep (W20 m ρ c) main_v37 (by decide)).trans
    ((host7_1_keep (W19 m ρ c) main_v37 (by decide)))

theorem kp_main_v38_20_21 : W21 m ρ c (Proc.devRef .tc main_v38) = W20 m ρ c (Proc.devRef .tc main_v38) :=
  (host7_2_keep (W20 m ρ c) main_v38 (by decide))

theorem kp_main_v8_0_6_21 : W21 m ρ c (Proc.devRef .tc main_v8_0) = W6 m ρ c (Proc.devRef .tc main_v8_0) :=
  (host7_2_keep (W20 m ρ c) main_v8_0 (by decide)).trans
    ((host7_1_keep (W19 m ρ c) main_v8_0 (by decide)).trans
    ((host7_keep (W18 m ρ c) main_v8_0 (by decide)).trans
    ((W18_of_ne m ρ c main_v8_0 (by decide)).trans
    ((host6_keep (W16 m ρ c) main_v8_0 (by decide)).trans
    ((W16_of_ne m ρ c main_v8_0 (by decide)).trans
    ((host5_keep (W14 m ρ c) main_v8_0 (by decide)).trans
    ((W14_of_ne m ρ c main_v8_0 (by decide)).trans
    ((host4_2_keep (W12 m ρ c) main_v8_0 (by decide)).trans
    ((host4_1_keep (W11 m ρ c) main_v8_0 (by decide)).trans
    ((host4_keep (W10 m ρ c) main_v8_0 (by decide)).trans
    ((W10_of_ne m ρ c main_v8_0 (by decide)).trans
    ((host3_keep (W8 m ρ c) main_v8_0 (by decide)).trans
    ((W8_of_ne m ρ c main_v8_0 (by decide)).trans
    ((host2_keep (W6 m ρ c) main_v8_0 (by decide))))))))))))))))

theorem kp_main_v24_0_14_17 : W17 m ρ c (Proc.devRef .tc main_v24_0) = W14 m ρ c (Proc.devRef .tc main_v24_0) :=
  (host6_keep (W16 m ρ c) main_v24_0 (by decide)).trans
    ((W16_of_ne m ρ c main_v24_0 (by decide)).trans
    ((host5_keep (W14 m ρ c) main_v24_0 (by decide))))

theorem kp_main_v24_0_14_18 : W18 m ρ c (Proc.devRef .tc main_v24_0) = W14 m ρ c (Proc.devRef .tc main_v24_0) :=
  (((W18_arr m ρ c 0).trans (((dat6 (V17 m ρ) c).arrAt_in 0 rfl _).trans (A_eq6 (V17 m ρ) c 0)))).trans (kp_main_v24_0_14_17 m ρ c)

theorem kp_main_v24_0_14_19 : W19 m ρ c (Proc.devRef .tc main_v24_0) = W14 m ρ c (Proc.devRef .tc main_v24_0) :=
  ((host7_keep (W18 m ρ c) main_v24_0 (by decide))).trans (kp_main_v24_0_14_18 m ρ c)

theorem kp_main_v24_0_14_23 : W23 m ρ c (Proc.devRef .tc main_v24_0) = W14 m ρ c (Proc.devRef .tc main_v24_0) :=
  ((host8_keep (W22 m ρ c) main_v24_0 (by decide)).trans
    ((W22_of_ne m ρ c main_v24_0 (by decide)).trans
    ((host7_2_keep (W20 m ρ c) main_v24_0 (by decide)).trans
    ((host7_1_keep (W19 m ρ c) main_v24_0 (by decide)))))).trans (kp_main_v24_0_14_19 m ρ c)

theorem kp_main_arg19_0_17 : W17 m ρ c (Proc.devRef .tc main_arg19) = m ((c : Thread nD τ).loc main_arg19) :=
  ((host6_keep (W16 m ρ c) main_arg19 (by decide)).trans
    ((W16_of_ne m ρ c main_arg19 (by decide)).trans
    ((host5_keep (W14 m ρ c) main_arg19 (by decide)).trans
    ((W14_of_ne m ρ c main_arg19 (by decide)).trans
    ((host4_2_keep (W12 m ρ c) main_arg19 (by decide)).trans
    ((host4_1_keep (W11 m ρ c) main_arg19 (by decide)).trans
    ((host4_keep (W10 m ρ c) main_arg19 (by decide)).trans
    ((W10_of_ne m ρ c main_arg19 (by decide)).trans
    ((host3_keep (W8 m ρ c) main_arg19 (by decide)).trans
    ((W8_of_ne m ρ c main_arg19 (by decide)).trans
    ((host2_keep (W6 m ρ c) main_arg19 (by decide)).trans
    ((W6_of_ne m ρ c main_arg19 (by decide)).trans
    ((host1_2_keep (W4 m ρ c) main_arg19 (by decide)).trans
    ((host1_1_keep (W3 m ρ c) main_arg19 (by decide)).trans
    ((host1_keep (W2 m ρ c) main_arg19 (by decide)).trans
    ((W2_of_ne m ρ c main_arg19 (by decide)).trans
    ((host0_keep (W0 m ρ c) main_arg19 (by decide))))))))))))))))))).trans rfl

theorem kp_main_arg20_0_17 : W17 m ρ c (Proc.devRef .tc main_arg20) = m ((c : Thread nD τ).loc main_arg20) :=
  ((host6_keep (W16 m ρ c) main_arg20 (by decide)).trans
    ((W16_of_ne m ρ c main_arg20 (by decide)).trans
    ((host5_keep (W14 m ρ c) main_arg20 (by decide)).trans
    ((W14_of_ne m ρ c main_arg20 (by decide)).trans
    ((host4_2_keep (W12 m ρ c) main_arg20 (by decide)).trans
    ((host4_1_keep (W11 m ρ c) main_arg20 (by decide)).trans
    ((host4_keep (W10 m ρ c) main_arg20 (by decide)).trans
    ((W10_of_ne m ρ c main_arg20 (by decide)).trans
    ((host3_keep (W8 m ρ c) main_arg20 (by decide)).trans
    ((W8_of_ne m ρ c main_arg20 (by decide)).trans
    ((host2_keep (W6 m ρ c) main_arg20 (by decide)).trans
    ((W6_of_ne m ρ c main_arg20 (by decide)).trans
    ((host1_2_keep (W4 m ρ c) main_arg20 (by decide)).trans
    ((host1_1_keep (W3 m ρ c) main_arg20 (by decide)).trans
    ((host1_keep (W2 m ρ c) main_arg20 (by decide)).trans
    ((W2_of_ne m ρ c main_arg20 (by decide)).trans
    ((host0_keep (W0 m ρ c) main_arg20 (by decide))))))))))))))))))).trans rfl

theorem kp_main_arg21_0_17 : W17 m ρ c (Proc.devRef .tc main_arg21) = m ((c : Thread nD τ).loc main_arg21) :=
  ((host6_keep (W16 m ρ c) main_arg21 (by decide)).trans
    ((W16_of_ne m ρ c main_arg21 (by decide)).trans
    ((host5_keep (W14 m ρ c) main_arg21 (by decide)).trans
    ((W14_of_ne m ρ c main_arg21 (by decide)).trans
    ((host4_2_keep (W12 m ρ c) main_arg21 (by decide)).trans
    ((host4_1_keep (W11 m ρ c) main_arg21 (by decide)).trans
    ((host4_keep (W10 m ρ c) main_arg21 (by decide)).trans
    ((W10_of_ne m ρ c main_arg21 (by decide)).trans
    ((host3_keep (W8 m ρ c) main_arg21 (by decide)).trans
    ((W8_of_ne m ρ c main_arg21 (by decide)).trans
    ((host2_keep (W6 m ρ c) main_arg21 (by decide)).trans
    ((W6_of_ne m ρ c main_arg21 (by decide)).trans
    ((host1_2_keep (W4 m ρ c) main_arg21 (by decide)).trans
    ((host1_1_keep (W3 m ρ c) main_arg21 (by decide)).trans
    ((host1_keep (W2 m ρ c) main_arg21 (by decide)).trans
    ((W2_of_ne m ρ c main_arg21 (by decide)).trans
    ((host0_keep (W0 m ρ c) main_arg21 (by decide))))))))))))))))))).trans rfl

theorem kp_main_arg22_0_17 : W17 m ρ c (Proc.devRef .tc main_arg22) = m ((c : Thread nD τ).loc main_arg22) :=
  ((host6_keep (W16 m ρ c) main_arg22 (by decide)).trans
    ((W16_of_ne m ρ c main_arg22 (by decide)).trans
    ((host5_keep (W14 m ρ c) main_arg22 (by decide)).trans
    ((W14_of_ne m ρ c main_arg22 (by decide)).trans
    ((host4_2_keep (W12 m ρ c) main_arg22 (by decide)).trans
    ((host4_1_keep (W11 m ρ c) main_arg22 (by decide)).trans
    ((host4_keep (W10 m ρ c) main_arg22 (by decide)).trans
    ((W10_of_ne m ρ c main_arg22 (by decide)).trans
    ((host3_keep (W8 m ρ c) main_arg22 (by decide)).trans
    ((W8_of_ne m ρ c main_arg22 (by decide)).trans
    ((host2_keep (W6 m ρ c) main_arg22 (by decide)).trans
    ((W6_of_ne m ρ c main_arg22 (by decide)).trans
    ((host1_2_keep (W4 m ρ c) main_arg22 (by decide)).trans
    ((host1_1_keep (W3 m ρ c) main_arg22 (by decide)).trans
    ((host1_keep (W2 m ρ c) main_arg22 (by decide)).trans
    ((W2_of_ne m ρ c main_arg22 (by decide)).trans
    ((host0_keep (W0 m ρ c) main_arg22 (by decide))))))))))))))))))).trans rfl

theorem kp_main_v35_17_18 : W18 m ρ c (Proc.devRef .tc main_v35) = W17 m ρ c (Proc.devRef .tc main_v35) :=
  (W18_of_ne m ρ c main_v35 (by decide))

theorem kp_main_v35_17_22 : W22 m ρ c (Proc.devRef .tc main_v35) = W17 m ρ c (Proc.devRef .tc main_v35) :=
  ((W22_of_ne m ρ c main_v35 (by decide)).trans
    ((host7_2_keep (W20 m ρ c) main_v35 (by decide)).trans
    ((host7_1_keep (W19 m ρ c) main_v35 (by decide)).trans
    ((host7_keep (W18 m ρ c) main_v35 (by decide)))))).trans (kp_main_v35_17_18 m ρ c)

theorem kp_main_v33_17_19 : W19 m ρ c (Proc.devRef .tc main_v33) = W17 m ρ c (Proc.devRef .tc main_v33) :=
  (host7_keep (W18 m ρ c) main_v33 (by decide)).trans
    ((W18_of_ne m ρ c main_v33 (by decide)))

theorem kp_main_v33_17_20 : W20 m ρ c (Proc.devRef .tc main_v33) = W17 m ρ c (Proc.devRef .tc main_v33) :=
  ((host7_1_keep (W19 m ρ c) main_v33 (by decide))).trans (kp_main_v33_17_19 m ρ c)

theorem kp_main_v36_1_18_20 : W20 m ρ c (Proc.devRef .tc main_v36_1) = W18 m ρ c (Proc.devRef .tc main_v36_1) :=
  (host7_1_keep (W19 m ρ c) main_v36_1 (by decide)).trans
    ((host7_keep (W18 m ρ c) main_v36_1 (by decide)))

theorem kp_main_arg31_0_21 : W21 m ρ c (Proc.devRef .tc main_arg31) = m ((c : Thread nD τ).loc main_arg31) :=
  ((host7_2_keep (W20 m ρ c) main_arg31 (by decide)).trans
    ((host7_1_keep (W19 m ρ c) main_arg31 (by decide)).trans
    ((host7_keep (W18 m ρ c) main_arg31 (by decide)).trans
    ((W18_of_ne m ρ c main_arg31 (by decide)).trans
    ((host6_keep (W16 m ρ c) main_arg31 (by decide)).trans
    ((W16_of_ne m ρ c main_arg31 (by decide)).trans
    ((host5_keep (W14 m ρ c) main_arg31 (by decide)).trans
    ((W14_of_ne m ρ c main_arg31 (by decide)).trans
    ((host4_2_keep (W12 m ρ c) main_arg31 (by decide)).trans
    ((host4_1_keep (W11 m ρ c) main_arg31 (by decide)).trans
    ((host4_keep (W10 m ρ c) main_arg31 (by decide)).trans
    ((W10_of_ne m ρ c main_arg31 (by decide)).trans
    ((host3_keep (W8 m ρ c) main_arg31 (by decide)).trans
    ((W8_of_ne m ρ c main_arg31 (by decide)).trans
    ((host2_keep (W6 m ρ c) main_arg31 (by decide)).trans
    ((W6_of_ne m ρ c main_arg31 (by decide)).trans
    ((host1_2_keep (W4 m ρ c) main_arg31 (by decide)).trans
    ((host1_1_keep (W3 m ρ c) main_arg31 (by decide)).trans
    ((host1_keep (W2 m ρ c) main_arg31 (by decide)).trans
    ((W2_of_ne m ρ c main_arg31 (by decide)).trans
    ((host0_keep (W0 m ρ c) main_arg31 (by decide))))))))))))))))))))))).trans rfl

theorem kp_main_arg32_0_21 : W21 m ρ c (Proc.devRef .tc main_arg32) = m ((c : Thread nD τ).loc main_arg32) :=
  ((host7_2_keep (W20 m ρ c) main_arg32 (by decide)).trans
    ((host7_1_keep (W19 m ρ c) main_arg32 (by decide)).trans
    ((host7_keep (W18 m ρ c) main_arg32 (by decide)).trans
    ((W18_of_ne m ρ c main_arg32 (by decide)).trans
    ((host6_keep (W16 m ρ c) main_arg32 (by decide)).trans
    ((W16_of_ne m ρ c main_arg32 (by decide)).trans
    ((host5_keep (W14 m ρ c) main_arg32 (by decide)).trans
    ((W14_of_ne m ρ c main_arg32 (by decide)).trans
    ((host4_2_keep (W12 m ρ c) main_arg32 (by decide)).trans
    ((host4_1_keep (W11 m ρ c) main_arg32 (by decide)).trans
    ((host4_keep (W10 m ρ c) main_arg32 (by decide)).trans
    ((W10_of_ne m ρ c main_arg32 (by decide)).trans
    ((host3_keep (W8 m ρ c) main_arg32 (by decide)).trans
    ((W8_of_ne m ρ c main_arg32 (by decide)).trans
    ((host2_keep (W6 m ρ c) main_arg32 (by decide)).trans
    ((W6_of_ne m ρ c main_arg32 (by decide)).trans
    ((host1_2_keep (W4 m ρ c) main_arg32 (by decide)).trans
    ((host1_1_keep (W3 m ρ c) main_arg32 (by decide)).trans
    ((host1_keep (W2 m ρ c) main_arg32 (by decide)).trans
    ((W2_of_ne m ρ c main_arg32 (by decide)).trans
    ((host0_keep (W0 m ρ c) main_arg32 (by decide))))))))))))))))))))))).trans rfl

theorem kp_main_v36_0_18_23 : W23 m ρ c (Proc.devRef .tc main_v36_0) = W18 m ρ c (Proc.devRef .tc main_v36_0) :=
  (host8_keep (W22 m ρ c) main_v36_0 (by decide)).trans
    ((W22_of_ne m ρ c main_v36_0 (by decide)).trans
    ((host7_2_keep (W20 m ρ c) main_v36_0 (by decide)).trans
    ((host7_1_keep (W19 m ρ c) main_v36_0 (by decide)).trans
    ((host7_keep (W18 m ρ c) main_v36_0 (by decide))))))

theorem kp_main_arg29_0_23 : W23 m ρ c (Proc.devRef .tc main_arg29) = m ((c : Thread nD τ).loc main_arg29) :=
  ((host8_keep (W22 m ρ c) main_arg29 (by decide)).trans
    ((W22_of_ne m ρ c main_arg29 (by decide)).trans
    ((host7_2_keep (W20 m ρ c) main_arg29 (by decide)).trans
    ((host7_1_keep (W19 m ρ c) main_arg29 (by decide)).trans
    ((host7_keep (W18 m ρ c) main_arg29 (by decide)).trans
    ((W18_of_ne m ρ c main_arg29 (by decide)).trans
    ((host6_keep (W16 m ρ c) main_arg29 (by decide)).trans
    ((W16_of_ne m ρ c main_arg29 (by decide)).trans
    ((host5_keep (W14 m ρ c) main_arg29 (by decide)).trans
    ((W14_of_ne m ρ c main_arg29 (by decide)).trans
    ((host4_2_keep (W12 m ρ c) main_arg29 (by decide)).trans
    ((host4_1_keep (W11 m ρ c) main_arg29 (by decide)).trans
    ((host4_keep (W10 m ρ c) main_arg29 (by decide)).trans
    ((W10_of_ne m ρ c main_arg29 (by decide)).trans
    ((host3_keep (W8 m ρ c) main_arg29 (by decide)).trans
    ((W8_of_ne m ρ c main_arg29 (by decide)).trans
    ((host2_keep (W6 m ρ c) main_arg29 (by decide)).trans
    ((W6_of_ne m ρ c main_arg29 (by decide)).trans
    ((host1_2_keep (W4 m ρ c) main_arg29 (by decide)).trans
    ((host1_1_keep (W3 m ρ c) main_arg29 (by decide)).trans
    ((host1_keep (W2 m ρ c) main_arg29 (by decide)).trans
    ((W2_of_ne m ρ c main_arg29 (by decide)).trans
    ((host0_keep (W0 m ρ c) main_arg29 (by decide))))))))))))))))))))))))).trans rfl

theorem kp_main_arg30_0_23 : W23 m ρ c (Proc.devRef .tc main_arg30) = m ((c : Thread nD τ).loc main_arg30) :=
  ((host8_keep (W22 m ρ c) main_arg30 (by decide)).trans
    ((W22_of_ne m ρ c main_arg30 (by decide)).trans
    ((host7_2_keep (W20 m ρ c) main_arg30 (by decide)).trans
    ((host7_1_keep (W19 m ρ c) main_arg30 (by decide)).trans
    ((host7_keep (W18 m ρ c) main_arg30 (by decide)).trans
    ((W18_of_ne m ρ c main_arg30 (by decide)).trans
    ((host6_keep (W16 m ρ c) main_arg30 (by decide)).trans
    ((W16_of_ne m ρ c main_arg30 (by decide)).trans
    ((host5_keep (W14 m ρ c) main_arg30 (by decide)).trans
    ((W14_of_ne m ρ c main_arg30 (by decide)).trans
    ((host4_2_keep (W12 m ρ c) main_arg30 (by decide)).trans
    ((host4_1_keep (W11 m ρ c) main_arg30 (by decide)).trans
    ((host4_keep (W10 m ρ c) main_arg30 (by decide)).trans
    ((W10_of_ne m ρ c main_arg30 (by decide)).trans
    ((host3_keep (W8 m ρ c) main_arg30 (by decide)).trans
    ((W8_of_ne m ρ c main_arg30 (by decide)).trans
    ((host2_keep (W6 m ρ c) main_arg30 (by decide)).trans
    ((W6_of_ne m ρ c main_arg30 (by decide)).trans
    ((host1_2_keep (W4 m ρ c) main_arg30 (by decide)).trans
    ((host1_1_keep (W3 m ρ c) main_arg30 (by decide)).trans
    ((host1_keep (W2 m ρ c) main_arg30 (by decide)).trans
    ((W2_of_ne m ρ c main_arg30 (by decide)).trans
    ((host0_keep (W0 m ρ c) main_arg30 (by decide))))))))))))))))))))))))).trans rfl

theorem kp_main_arg51_0_29 : W29 m ρ c (Proc.devRef .tc main_arg51) = m ((c : Thread nD τ).loc main_arg51) :=
  ((host10_2_keep (W28 m ρ c) main_arg51 (by decide)).trans
    ((host10_1_keep (W27 m ρ c) main_arg51 (by decide)).trans
    ((host10_keep (W26 m ρ c) main_arg51 (by decide)).trans
    ((W26_of_ne m ρ c main_arg51 (by decide)).trans
    ((host9_keep (W24 m ρ c) main_arg51 (by decide)).trans
    ((W24_of_ne m ρ c main_arg51 (by decide)).trans
    ((host8_keep (W22 m ρ c) main_arg51 (by decide)).trans
    ((W22_of_ne m ρ c main_arg51 (by decide)).trans
    ((host7_2_keep (W20 m ρ c) main_arg51 (by decide)).trans
    ((host7_1_keep (W19 m ρ c) main_arg51 (by decide)).trans
    ((host7_keep (W18 m ρ c) main_arg51 (by decide)).trans
    ((W18_of_ne m ρ c main_arg51 (by decide)).trans
    ((host6_keep (W16 m ρ c) main_arg51 (by decide)).trans
    ((W16_of_ne m ρ c main_arg51 (by decide)).trans
    ((host5_keep (W14 m ρ c) main_arg51 (by decide)).trans
    ((W14_of_ne m ρ c main_arg51 (by decide)).trans
    ((host4_2_keep (W12 m ρ c) main_arg51 (by decide)).trans
    ((host4_1_keep (W11 m ρ c) main_arg51 (by decide)).trans
    ((host4_keep (W10 m ρ c) main_arg51 (by decide)).trans
    ((W10_of_ne m ρ c main_arg51 (by decide)).trans
    ((host3_keep (W8 m ρ c) main_arg51 (by decide)).trans
    ((W8_of_ne m ρ c main_arg51 (by decide)).trans
    ((host2_keep (W6 m ρ c) main_arg51 (by decide)).trans
    ((W6_of_ne m ρ c main_arg51 (by decide)).trans
    ((host1_2_keep (W4 m ρ c) main_arg51 (by decide)).trans
    ((host1_1_keep (W3 m ρ c) main_arg51 (by decide)).trans
    ((host1_keep (W2 m ρ c) main_arg51 (by decide)).trans
    ((W2_of_ne m ρ c main_arg51 (by decide)).trans
    ((host0_keep (W0 m ρ c) main_arg51 (by decide))))))))))))))))))))))))))))))).trans rfl

theorem kp_main_arg53_0_29 : W29 m ρ c (Proc.devRef .tc main_arg53) = m ((c : Thread nD τ).loc main_arg53) :=
  ((host10_2_keep (W28 m ρ c) main_arg53 (by decide)).trans
    ((host10_1_keep (W27 m ρ c) main_arg53 (by decide)).trans
    ((host10_keep (W26 m ρ c) main_arg53 (by decide)).trans
    ((W26_of_ne m ρ c main_arg53 (by decide)).trans
    ((host9_keep (W24 m ρ c) main_arg53 (by decide)).trans
    ((W24_of_ne m ρ c main_arg53 (by decide)).trans
    ((host8_keep (W22 m ρ c) main_arg53 (by decide)).trans
    ((W22_of_ne m ρ c main_arg53 (by decide)).trans
    ((host7_2_keep (W20 m ρ c) main_arg53 (by decide)).trans
    ((host7_1_keep (W19 m ρ c) main_arg53 (by decide)).trans
    ((host7_keep (W18 m ρ c) main_arg53 (by decide)).trans
    ((W18_of_ne m ρ c main_arg53 (by decide)).trans
    ((host6_keep (W16 m ρ c) main_arg53 (by decide)).trans
    ((W16_of_ne m ρ c main_arg53 (by decide)).trans
    ((host5_keep (W14 m ρ c) main_arg53 (by decide)).trans
    ((W14_of_ne m ρ c main_arg53 (by decide)).trans
    ((host4_2_keep (W12 m ρ c) main_arg53 (by decide)).trans
    ((host4_1_keep (W11 m ρ c) main_arg53 (by decide)).trans
    ((host4_keep (W10 m ρ c) main_arg53 (by decide)).trans
    ((W10_of_ne m ρ c main_arg53 (by decide)).trans
    ((host3_keep (W8 m ρ c) main_arg53 (by decide)).trans
    ((W8_of_ne m ρ c main_arg53 (by decide)).trans
    ((host2_keep (W6 m ρ c) main_arg53 (by decide)).trans
    ((W6_of_ne m ρ c main_arg53 (by decide)).trans
    ((host1_2_keep (W4 m ρ c) main_arg53 (by decide)).trans
    ((host1_1_keep (W3 m ρ c) main_arg53 (by decide)).trans
    ((host1_keep (W2 m ρ c) main_arg53 (by decide)).trans
    ((W2_of_ne m ρ c main_arg53 (by decide)).trans
    ((host0_keep (W0 m ρ c) main_arg53 (by decide))))))))))))))))))))))))))))))).trans rfl

theorem kp_main_arg55_0_29 : W29 m ρ c (Proc.devRef .tc main_arg55) = m ((c : Thread nD τ).loc main_arg55) :=
  ((host10_2_keep (W28 m ρ c) main_arg55 (by decide)).trans
    ((host10_1_keep (W27 m ρ c) main_arg55 (by decide)).trans
    ((host10_keep (W26 m ρ c) main_arg55 (by decide)).trans
    ((W26_of_ne m ρ c main_arg55 (by decide)).trans
    ((host9_keep (W24 m ρ c) main_arg55 (by decide)).trans
    ((W24_of_ne m ρ c main_arg55 (by decide)).trans
    ((host8_keep (W22 m ρ c) main_arg55 (by decide)).trans
    ((W22_of_ne m ρ c main_arg55 (by decide)).trans
    ((host7_2_keep (W20 m ρ c) main_arg55 (by decide)).trans
    ((host7_1_keep (W19 m ρ c) main_arg55 (by decide)).trans
    ((host7_keep (W18 m ρ c) main_arg55 (by decide)).trans
    ((W18_of_ne m ρ c main_arg55 (by decide)).trans
    ((host6_keep (W16 m ρ c) main_arg55 (by decide)).trans
    ((W16_of_ne m ρ c main_arg55 (by decide)).trans
    ((host5_keep (W14 m ρ c) main_arg55 (by decide)).trans
    ((W14_of_ne m ρ c main_arg55 (by decide)).trans
    ((host4_2_keep (W12 m ρ c) main_arg55 (by decide)).trans
    ((host4_1_keep (W11 m ρ c) main_arg55 (by decide)).trans
    ((host4_keep (W10 m ρ c) main_arg55 (by decide)).trans
    ((W10_of_ne m ρ c main_arg55 (by decide)).trans
    ((host3_keep (W8 m ρ c) main_arg55 (by decide)).trans
    ((W8_of_ne m ρ c main_arg55 (by decide)).trans
    ((host2_keep (W6 m ρ c) main_arg55 (by decide)).trans
    ((W6_of_ne m ρ c main_arg55 (by decide)).trans
    ((host1_2_keep (W4 m ρ c) main_arg55 (by decide)).trans
    ((host1_1_keep (W3 m ρ c) main_arg55 (by decide)).trans
    ((host1_keep (W2 m ρ c) main_arg55 (by decide)).trans
    ((W2_of_ne m ρ c main_arg55 (by decide)).trans
    ((host0_keep (W0 m ρ c) main_arg55 (by decide))))))))))))))))))))))))))))))).trans rfl

theorem kp_main_arg52_0_29 : W29 m ρ c (Proc.devRef .tc main_arg52) = m ((c : Thread nD τ).loc main_arg52) :=
  ((host10_2_keep (W28 m ρ c) main_arg52 (by decide)).trans
    ((host10_1_keep (W27 m ρ c) main_arg52 (by decide)).trans
    ((host10_keep (W26 m ρ c) main_arg52 (by decide)).trans
    ((W26_of_ne m ρ c main_arg52 (by decide)).trans
    ((host9_keep (W24 m ρ c) main_arg52 (by decide)).trans
    ((W24_of_ne m ρ c main_arg52 (by decide)).trans
    ((host8_keep (W22 m ρ c) main_arg52 (by decide)).trans
    ((W22_of_ne m ρ c main_arg52 (by decide)).trans
    ((host7_2_keep (W20 m ρ c) main_arg52 (by decide)).trans
    ((host7_1_keep (W19 m ρ c) main_arg52 (by decide)).trans
    ((host7_keep (W18 m ρ c) main_arg52 (by decide)).trans
    ((W18_of_ne m ρ c main_arg52 (by decide)).trans
    ((host6_keep (W16 m ρ c) main_arg52 (by decide)).trans
    ((W16_of_ne m ρ c main_arg52 (by decide)).trans
    ((host5_keep (W14 m ρ c) main_arg52 (by decide)).trans
    ((W14_of_ne m ρ c main_arg52 (by decide)).trans
    ((host4_2_keep (W12 m ρ c) main_arg52 (by decide)).trans
    ((host4_1_keep (W11 m ρ c) main_arg52 (by decide)).trans
    ((host4_keep (W10 m ρ c) main_arg52 (by decide)).trans
    ((W10_of_ne m ρ c main_arg52 (by decide)).trans
    ((host3_keep (W8 m ρ c) main_arg52 (by decide)).trans
    ((W8_of_ne m ρ c main_arg52 (by decide)).trans
    ((host2_keep (W6 m ρ c) main_arg52 (by decide)).trans
    ((W6_of_ne m ρ c main_arg52 (by decide)).trans
    ((host1_2_keep (W4 m ρ c) main_arg52 (by decide)).trans
    ((host1_1_keep (W3 m ρ c) main_arg52 (by decide)).trans
    ((host1_keep (W2 m ρ c) main_arg52 (by decide)).trans
    ((W2_of_ne m ρ c main_arg52 (by decide)).trans
    ((host0_keep (W0 m ρ c) main_arg52 (by decide))))))))))))))))))))))))))))))).trans rfl

theorem kp_main_arg54_0_29 : W29 m ρ c (Proc.devRef .tc main_arg54) = m ((c : Thread nD τ).loc main_arg54) :=
  ((host10_2_keep (W28 m ρ c) main_arg54 (by decide)).trans
    ((host10_1_keep (W27 m ρ c) main_arg54 (by decide)).trans
    ((host10_keep (W26 m ρ c) main_arg54 (by decide)).trans
    ((W26_of_ne m ρ c main_arg54 (by decide)).trans
    ((host9_keep (W24 m ρ c) main_arg54 (by decide)).trans
    ((W24_of_ne m ρ c main_arg54 (by decide)).trans
    ((host8_keep (W22 m ρ c) main_arg54 (by decide)).trans
    ((W22_of_ne m ρ c main_arg54 (by decide)).trans
    ((host7_2_keep (W20 m ρ c) main_arg54 (by decide)).trans
    ((host7_1_keep (W19 m ρ c) main_arg54 (by decide)).trans
    ((host7_keep (W18 m ρ c) main_arg54 (by decide)).trans
    ((W18_of_ne m ρ c main_arg54 (by decide)).trans
    ((host6_keep (W16 m ρ c) main_arg54 (by decide)).trans
    ((W16_of_ne m ρ c main_arg54 (by decide)).trans
    ((host5_keep (W14 m ρ c) main_arg54 (by decide)).trans
    ((W14_of_ne m ρ c main_arg54 (by decide)).trans
    ((host4_2_keep (W12 m ρ c) main_arg54 (by decide)).trans
    ((host4_1_keep (W11 m ρ c) main_arg54 (by decide)).trans
    ((host4_keep (W10 m ρ c) main_arg54 (by decide)).trans
    ((W10_of_ne m ρ c main_arg54 (by decide)).trans
    ((host3_keep (W8 m ρ c) main_arg54 (by decide)).trans
    ((W8_of_ne m ρ c main_arg54 (by decide)).trans
    ((host2_keep (W6 m ρ c) main_arg54 (by decide)).trans
    ((W6_of_ne m ρ c main_arg54 (by decide)).trans
    ((host1_2_keep (W4 m ρ c) main_arg54 (by decide)).trans
    ((host1_1_keep (W3 m ρ c) main_arg54 (by decide)).trans
    ((host1_keep (W2 m ρ c) main_arg54 (by decide)).trans
    ((W2_of_ne m ρ c main_arg54 (by decide)).trans
    ((host0_keep (W0 m ρ c) main_arg54 (by decide))))))))))))))))))))))))))))))).trans rfl

theorem kp_main_arg56_0_29 : W29 m ρ c (Proc.devRef .tc main_arg56) = m ((c : Thread nD τ).loc main_arg56) :=
  ((host10_2_keep (W28 m ρ c) main_arg56 (by decide)).trans
    ((host10_1_keep (W27 m ρ c) main_arg56 (by decide)).trans
    ((host10_keep (W26 m ρ c) main_arg56 (by decide)).trans
    ((W26_of_ne m ρ c main_arg56 (by decide)).trans
    ((host9_keep (W24 m ρ c) main_arg56 (by decide)).trans
    ((W24_of_ne m ρ c main_arg56 (by decide)).trans
    ((host8_keep (W22 m ρ c) main_arg56 (by decide)).trans
    ((W22_of_ne m ρ c main_arg56 (by decide)).trans
    ((host7_2_keep (W20 m ρ c) main_arg56 (by decide)).trans
    ((host7_1_keep (W19 m ρ c) main_arg56 (by decide)).trans
    ((host7_keep (W18 m ρ c) main_arg56 (by decide)).trans
    ((W18_of_ne m ρ c main_arg56 (by decide)).trans
    ((host6_keep (W16 m ρ c) main_arg56 (by decide)).trans
    ((W16_of_ne m ρ c main_arg56 (by decide)).trans
    ((host5_keep (W14 m ρ c) main_arg56 (by decide)).trans
    ((W14_of_ne m ρ c main_arg56 (by decide)).trans
    ((host4_2_keep (W12 m ρ c) main_arg56 (by decide)).trans
    ((host4_1_keep (W11 m ρ c) main_arg56 (by decide)).trans
    ((host4_keep (W10 m ρ c) main_arg56 (by decide)).trans
    ((W10_of_ne m ρ c main_arg56 (by decide)).trans
    ((host3_keep (W8 m ρ c) main_arg56 (by decide)).trans
    ((W8_of_ne m ρ c main_arg56 (by decide)).trans
    ((host2_keep (W6 m ρ c) main_arg56 (by decide)).trans
    ((W6_of_ne m ρ c main_arg56 (by decide)).trans
    ((host1_2_keep (W4 m ρ c) main_arg56 (by decide)).trans
    ((host1_1_keep (W3 m ρ c) main_arg56 (by decide)).trans
    ((host1_keep (W2 m ρ c) main_arg56 (by decide)).trans
    ((W2_of_ne m ρ c main_arg56 (by decide)).trans
    ((host0_keep (W0 m ρ c) main_arg56 (by decide))))))))))))))))))))))))))))))).trans rfl

theorem kp_main_v53_27_29 : W29 m ρ c (Proc.devRef .tc main_v53) = W27 m ρ c (Proc.devRef .tc main_v53) :=
  (host10_2_keep (W28 m ρ c) main_v53 (by decide)).trans
    ((host10_1_keep (W27 m ρ c) main_v53 (by decide)))

theorem kp_main_v54_28_29 : W29 m ρ c (Proc.devRef .tc main_v54) = W28 m ρ c (Proc.devRef .tc main_v54) :=
  (host10_2_keep (W28 m ρ c) main_v54 (by decide))

theorem kp_main_v47_24_29 : W29 m ρ c (Proc.devRef .tc main_v47) = W24 m ρ c (Proc.devRef .tc main_v47) :=
  (host10_2_keep (W28 m ρ c) main_v47 (by decide)).trans
    ((host10_1_keep (W27 m ρ c) main_v47 (by decide)).trans
    ((host10_keep (W26 m ρ c) main_v47 (by decide)).trans
    ((W26_of_ne m ρ c main_v47 (by decide)).trans
    ((host9_keep (W24 m ρ c) main_v47 (by decide))))))

theorem kp_main_v31_16_25 : W25 m ρ c (Proc.devRef .tc main_v31) = W16 m ρ c (Proc.devRef .tc main_v31) :=
  (host9_keep (W24 m ρ c) main_v31 (by decide)).trans
    ((W24_of_ne m ρ c main_v31 (by decide)).trans
    ((host8_keep (W22 m ρ c) main_v31 (by decide)).trans
    ((W22_of_ne m ρ c main_v31 (by decide)).trans
    ((host7_2_keep (W20 m ρ c) main_v31 (by decide)).trans
    ((host7_1_keep (W19 m ρ c) main_v31 (by decide)).trans
    ((host7_keep (W18 m ρ c) main_v31 (by decide)).trans
    ((W18_of_ne m ρ c main_v31 (by decide)).trans
    ((host6_keep (W16 m ρ c) main_v31 (by decide))))))))))

theorem kp_main_v31_16_26 : W26 m ρ c (Proc.devRef .tc main_v31) = W16 m ρ c (Proc.devRef .tc main_v31) :=
  (((W26_arr m ρ c 0).trans (((dat9 (V25 m ρ) c).arrAt_in 0 rfl _).trans (A_eq9 (V25 m ρ) c 0)))).trans (kp_main_v31_16_25 m ρ c)

theorem kp_main_v31_16_27 : W27 m ρ c (Proc.devRef .tc main_v31) = W16 m ρ c (Proc.devRef .tc main_v31) :=
  ((host10_keep (W26 m ρ c) main_v31 (by decide))).trans (kp_main_v31_16_26 m ρ c)

theorem kp_main_v31_16_31 : W31 m ρ c (Proc.devRef .tc main_v31) = W16 m ρ c (Proc.devRef .tc main_v31) :=
  ((host11_keep (W30 m ρ c) main_v31 (by decide)).trans
    ((W30_of_ne m ρ c main_v31 (by decide)).trans
    ((host10_2_keep (W28 m ρ c) main_v31 (by decide)).trans
    ((host10_1_keep (W27 m ρ c) main_v31 (by decide)))))).trans (kp_main_v31_16_27 m ρ c)

theorem kp_main_arg47_0_25 : W25 m ρ c (Proc.devRef .tc main_arg47) = m ((c : Thread nD τ).loc main_arg47) :=
  ((host9_keep (W24 m ρ c) main_arg47 (by decide)).trans
    ((W24_of_ne m ρ c main_arg47 (by decide)).trans
    ((host8_keep (W22 m ρ c) main_arg47 (by decide)).trans
    ((W22_of_ne m ρ c main_arg47 (by decide)).trans
    ((host7_2_keep (W20 m ρ c) main_arg47 (by decide)).trans
    ((host7_1_keep (W19 m ρ c) main_arg47 (by decide)).trans
    ((host7_keep (W18 m ρ c) main_arg47 (by decide)).trans
    ((W18_of_ne m ρ c main_arg47 (by decide)).trans
    ((host6_keep (W16 m ρ c) main_arg47 (by decide)).trans
    ((W16_of_ne m ρ c main_arg47 (by decide)).trans
    ((host5_keep (W14 m ρ c) main_arg47 (by decide)).trans
    ((W14_of_ne m ρ c main_arg47 (by decide)).trans
    ((host4_2_keep (W12 m ρ c) main_arg47 (by decide)).trans
    ((host4_1_keep (W11 m ρ c) main_arg47 (by decide)).trans
    ((host4_keep (W10 m ρ c) main_arg47 (by decide)).trans
    ((W10_of_ne m ρ c main_arg47 (by decide)).trans
    ((host3_keep (W8 m ρ c) main_arg47 (by decide)).trans
    ((W8_of_ne m ρ c main_arg47 (by decide)).trans
    ((host2_keep (W6 m ρ c) main_arg47 (by decide)).trans
    ((W6_of_ne m ρ c main_arg47 (by decide)).trans
    ((host1_2_keep (W4 m ρ c) main_arg47 (by decide)).trans
    ((host1_1_keep (W3 m ρ c) main_arg47 (by decide)).trans
    ((host1_keep (W2 m ρ c) main_arg47 (by decide)).trans
    ((W2_of_ne m ρ c main_arg47 (by decide)).trans
    ((host0_keep (W0 m ρ c) main_arg47 (by decide))))))))))))))))))))))))))).trans rfl

theorem kp_main_arg48_0_25 : W25 m ρ c (Proc.devRef .tc main_arg48) = m ((c : Thread nD τ).loc main_arg48) :=
  ((host9_keep (W24 m ρ c) main_arg48 (by decide)).trans
    ((W24_of_ne m ρ c main_arg48 (by decide)).trans
    ((host8_keep (W22 m ρ c) main_arg48 (by decide)).trans
    ((W22_of_ne m ρ c main_arg48 (by decide)).trans
    ((host7_2_keep (W20 m ρ c) main_arg48 (by decide)).trans
    ((host7_1_keep (W19 m ρ c) main_arg48 (by decide)).trans
    ((host7_keep (W18 m ρ c) main_arg48 (by decide)).trans
    ((W18_of_ne m ρ c main_arg48 (by decide)).trans
    ((host6_keep (W16 m ρ c) main_arg48 (by decide)).trans
    ((W16_of_ne m ρ c main_arg48 (by decide)).trans
    ((host5_keep (W14 m ρ c) main_arg48 (by decide)).trans
    ((W14_of_ne m ρ c main_arg48 (by decide)).trans
    ((host4_2_keep (W12 m ρ c) main_arg48 (by decide)).trans
    ((host4_1_keep (W11 m ρ c) main_arg48 (by decide)).trans
    ((host4_keep (W10 m ρ c) main_arg48 (by decide)).trans
    ((W10_of_ne m ρ c main_arg48 (by decide)).trans
    ((host3_keep (W8 m ρ c) main_arg48 (by decide)).trans
    ((W8_of_ne m ρ c main_arg48 (by decide)).trans
    ((host2_keep (W6 m ρ c) main_arg48 (by decide)).trans
    ((W6_of_ne m ρ c main_arg48 (by decide)).trans
    ((host1_2_keep (W4 m ρ c) main_arg48 (by decide)).trans
    ((host1_1_keep (W3 m ρ c) main_arg48 (by decide)).trans
    ((host1_keep (W2 m ρ c) main_arg48 (by decide)).trans
    ((W2_of_ne m ρ c main_arg48 (by decide)).trans
    ((host0_keep (W0 m ρ c) main_arg48 (by decide))))))))))))))))))))))))))).trans rfl

theorem kp_main_arg49_0_25 : W25 m ρ c (Proc.devRef .tc main_arg49) = m ((c : Thread nD τ).loc main_arg49) :=
  ((host9_keep (W24 m ρ c) main_arg49 (by decide)).trans
    ((W24_of_ne m ρ c main_arg49 (by decide)).trans
    ((host8_keep (W22 m ρ c) main_arg49 (by decide)).trans
    ((W22_of_ne m ρ c main_arg49 (by decide)).trans
    ((host7_2_keep (W20 m ρ c) main_arg49 (by decide)).trans
    ((host7_1_keep (W19 m ρ c) main_arg49 (by decide)).trans
    ((host7_keep (W18 m ρ c) main_arg49 (by decide)).trans
    ((W18_of_ne m ρ c main_arg49 (by decide)).trans
    ((host6_keep (W16 m ρ c) main_arg49 (by decide)).trans
    ((W16_of_ne m ρ c main_arg49 (by decide)).trans
    ((host5_keep (W14 m ρ c) main_arg49 (by decide)).trans
    ((W14_of_ne m ρ c main_arg49 (by decide)).trans
    ((host4_2_keep (W12 m ρ c) main_arg49 (by decide)).trans
    ((host4_1_keep (W11 m ρ c) main_arg49 (by decide)).trans
    ((host4_keep (W10 m ρ c) main_arg49 (by decide)).trans
    ((W10_of_ne m ρ c main_arg49 (by decide)).trans
    ((host3_keep (W8 m ρ c) main_arg49 (by decide)).trans
    ((W8_of_ne m ρ c main_arg49 (by decide)).trans
    ((host2_keep (W6 m ρ c) main_arg49 (by decide)).trans
    ((W6_of_ne m ρ c main_arg49 (by decide)).trans
    ((host1_2_keep (W4 m ρ c) main_arg49 (by decide)).trans
    ((host1_1_keep (W3 m ρ c) main_arg49 (by decide)).trans
    ((host1_keep (W2 m ρ c) main_arg49 (by decide)).trans
    ((W2_of_ne m ρ c main_arg49 (by decide)).trans
    ((host0_keep (W0 m ρ c) main_arg49 (by decide))))))))))))))))))))))))))).trans rfl

theorem kp_main_arg50_0_25 : W25 m ρ c (Proc.devRef .tc main_arg50) = m ((c : Thread nD τ).loc main_arg50) :=
  ((host9_keep (W24 m ρ c) main_arg50 (by decide)).trans
    ((W24_of_ne m ρ c main_arg50 (by decide)).trans
    ((host8_keep (W22 m ρ c) main_arg50 (by decide)).trans
    ((W22_of_ne m ρ c main_arg50 (by decide)).trans
    ((host7_2_keep (W20 m ρ c) main_arg50 (by decide)).trans
    ((host7_1_keep (W19 m ρ c) main_arg50 (by decide)).trans
    ((host7_keep (W18 m ρ c) main_arg50 (by decide)).trans
    ((W18_of_ne m ρ c main_arg50 (by decide)).trans
    ((host6_keep (W16 m ρ c) main_arg50 (by decide)).trans
    ((W16_of_ne m ρ c main_arg50 (by decide)).trans
    ((host5_keep (W14 m ρ c) main_arg50 (by decide)).trans
    ((W14_of_ne m ρ c main_arg50 (by decide)).trans
    ((host4_2_keep (W12 m ρ c) main_arg50 (by decide)).trans
    ((host4_1_keep (W11 m ρ c) main_arg50 (by decide)).trans
    ((host4_keep (W10 m ρ c) main_arg50 (by decide)).trans
    ((W10_of_ne m ρ c main_arg50 (by decide)).trans
    ((host3_keep (W8 m ρ c) main_arg50 (by decide)).trans
    ((W8_of_ne m ρ c main_arg50 (by decide)).trans
    ((host2_keep (W6 m ρ c) main_arg50 (by decide)).trans
    ((W6_of_ne m ρ c main_arg50 (by decide)).trans
    ((host1_2_keep (W4 m ρ c) main_arg50 (by decide)).trans
    ((host1_1_keep (W3 m ρ c) main_arg50 (by decide)).trans
    ((host1_keep (W2 m ρ c) main_arg50 (by decide)).trans
    ((W2_of_ne m ρ c main_arg50 (by decide)).trans
    ((host0_keep (W0 m ρ c) main_arg50 (by decide))))))))))))))))))))))))))).trans rfl

theorem kp_main_v51_25_26 : W26 m ρ c (Proc.devRef .tc main_v51) = W25 m ρ c (Proc.devRef .tc main_v51) :=
  (W26_of_ne m ρ c main_v51 (by decide))

theorem kp_main_v51_25_30 : W30 m ρ c (Proc.devRef .tc main_v51) = W25 m ρ c (Proc.devRef .tc main_v51) :=
  ((W30_of_ne m ρ c main_v51 (by decide)).trans
    ((host10_2_keep (W28 m ρ c) main_v51 (by decide)).trans
    ((host10_1_keep (W27 m ρ c) main_v51 (by decide)).trans
    ((host10_keep (W26 m ρ c) main_v51 (by decide)))))).trans (kp_main_v51_25_26 m ρ c)

theorem kp_main_v49_25_27 : W27 m ρ c (Proc.devRef .tc main_v49) = W25 m ρ c (Proc.devRef .tc main_v49) :=
  (host10_keep (W26 m ρ c) main_v49 (by decide)).trans
    ((W26_of_ne m ρ c main_v49 (by decide)))

theorem kp_main_v49_25_28 : W28 m ρ c (Proc.devRef .tc main_v49) = W25 m ρ c (Proc.devRef .tc main_v49) :=
  ((host10_1_keep (W27 m ρ c) main_v49 (by decide))).trans (kp_main_v49_25_27 m ρ c)

theorem kp_main_v52_1_26_28 : W28 m ρ c (Proc.devRef .tc main_v52_1) = W26 m ρ c (Proc.devRef .tc main_v52_1) :=
  (host10_1_keep (W27 m ρ c) main_v52_1 (by decide)).trans
    ((host10_keep (W26 m ρ c) main_v52_1 (by decide)))

theorem kp_main_arg59_0_29 : W29 m ρ c (Proc.devRef .tc main_arg59) = m ((c : Thread nD τ).loc main_arg59) :=
  ((host10_2_keep (W28 m ρ c) main_arg59 (by decide)).trans
    ((host10_1_keep (W27 m ρ c) main_arg59 (by decide)).trans
    ((host10_keep (W26 m ρ c) main_arg59 (by decide)).trans
    ((W26_of_ne m ρ c main_arg59 (by decide)).trans
    ((host9_keep (W24 m ρ c) main_arg59 (by decide)).trans
    ((W24_of_ne m ρ c main_arg59 (by decide)).trans
    ((host8_keep (W22 m ρ c) main_arg59 (by decide)).trans
    ((W22_of_ne m ρ c main_arg59 (by decide)).trans
    ((host7_2_keep (W20 m ρ c) main_arg59 (by decide)).trans
    ((host7_1_keep (W19 m ρ c) main_arg59 (by decide)).trans
    ((host7_keep (W18 m ρ c) main_arg59 (by decide)).trans
    ((W18_of_ne m ρ c main_arg59 (by decide)).trans
    ((host6_keep (W16 m ρ c) main_arg59 (by decide)).trans
    ((W16_of_ne m ρ c main_arg59 (by decide)).trans
    ((host5_keep (W14 m ρ c) main_arg59 (by decide)).trans
    ((W14_of_ne m ρ c main_arg59 (by decide)).trans
    ((host4_2_keep (W12 m ρ c) main_arg59 (by decide)).trans
    ((host4_1_keep (W11 m ρ c) main_arg59 (by decide)).trans
    ((host4_keep (W10 m ρ c) main_arg59 (by decide)).trans
    ((W10_of_ne m ρ c main_arg59 (by decide)).trans
    ((host3_keep (W8 m ρ c) main_arg59 (by decide)).trans
    ((W8_of_ne m ρ c main_arg59 (by decide)).trans
    ((host2_keep (W6 m ρ c) main_arg59 (by decide)).trans
    ((W6_of_ne m ρ c main_arg59 (by decide)).trans
    ((host1_2_keep (W4 m ρ c) main_arg59 (by decide)).trans
    ((host1_1_keep (W3 m ρ c) main_arg59 (by decide)).trans
    ((host1_keep (W2 m ρ c) main_arg59 (by decide)).trans
    ((W2_of_ne m ρ c main_arg59 (by decide)).trans
    ((host0_keep (W0 m ρ c) main_arg59 (by decide))))))))))))))))))))))))))))))).trans rfl

theorem kp_main_arg60_0_29 : W29 m ρ c (Proc.devRef .tc main_arg60) = m ((c : Thread nD τ).loc main_arg60) :=
  ((host10_2_keep (W28 m ρ c) main_arg60 (by decide)).trans
    ((host10_1_keep (W27 m ρ c) main_arg60 (by decide)).trans
    ((host10_keep (W26 m ρ c) main_arg60 (by decide)).trans
    ((W26_of_ne m ρ c main_arg60 (by decide)).trans
    ((host9_keep (W24 m ρ c) main_arg60 (by decide)).trans
    ((W24_of_ne m ρ c main_arg60 (by decide)).trans
    ((host8_keep (W22 m ρ c) main_arg60 (by decide)).trans
    ((W22_of_ne m ρ c main_arg60 (by decide)).trans
    ((host7_2_keep (W20 m ρ c) main_arg60 (by decide)).trans
    ((host7_1_keep (W19 m ρ c) main_arg60 (by decide)).trans
    ((host7_keep (W18 m ρ c) main_arg60 (by decide)).trans
    ((W18_of_ne m ρ c main_arg60 (by decide)).trans
    ((host6_keep (W16 m ρ c) main_arg60 (by decide)).trans
    ((W16_of_ne m ρ c main_arg60 (by decide)).trans
    ((host5_keep (W14 m ρ c) main_arg60 (by decide)).trans
    ((W14_of_ne m ρ c main_arg60 (by decide)).trans
    ((host4_2_keep (W12 m ρ c) main_arg60 (by decide)).trans
    ((host4_1_keep (W11 m ρ c) main_arg60 (by decide)).trans
    ((host4_keep (W10 m ρ c) main_arg60 (by decide)).trans
    ((W10_of_ne m ρ c main_arg60 (by decide)).trans
    ((host3_keep (W8 m ρ c) main_arg60 (by decide)).trans
    ((W8_of_ne m ρ c main_arg60 (by decide)).trans
    ((host2_keep (W6 m ρ c) main_arg60 (by decide)).trans
    ((W6_of_ne m ρ c main_arg60 (by decide)).trans
    ((host1_2_keep (W4 m ρ c) main_arg60 (by decide)).trans
    ((host1_1_keep (W3 m ρ c) main_arg60 (by decide)).trans
    ((host1_keep (W2 m ρ c) main_arg60 (by decide)).trans
    ((W2_of_ne m ρ c main_arg60 (by decide)).trans
    ((host0_keep (W0 m ρ c) main_arg60 (by decide))))))))))))))))))))))))))))))).trans rfl

theorem kp_main_v52_0_26_31 : W31 m ρ c (Proc.devRef .tc main_v52_0) = W26 m ρ c (Proc.devRef .tc main_v52_0) :=
  (host11_keep (W30 m ρ c) main_v52_0 (by decide)).trans
    ((W30_of_ne m ρ c main_v52_0 (by decide)).trans
    ((host10_2_keep (W28 m ρ c) main_v52_0 (by decide)).trans
    ((host10_1_keep (W27 m ρ c) main_v52_0 (by decide)).trans
    ((host10_keep (W26 m ρ c) main_v52_0 (by decide))))))

theorem kp_main_arg57_0_31 : W31 m ρ c (Proc.devRef .tc main_arg57) = m ((c : Thread nD τ).loc main_arg57) :=
  ((host11_keep (W30 m ρ c) main_arg57 (by decide)).trans
    ((W30_of_ne m ρ c main_arg57 (by decide)).trans
    ((host10_2_keep (W28 m ρ c) main_arg57 (by decide)).trans
    ((host10_1_keep (W27 m ρ c) main_arg57 (by decide)).trans
    ((host10_keep (W26 m ρ c) main_arg57 (by decide)).trans
    ((W26_of_ne m ρ c main_arg57 (by decide)).trans
    ((host9_keep (W24 m ρ c) main_arg57 (by decide)).trans
    ((W24_of_ne m ρ c main_arg57 (by decide)).trans
    ((host8_keep (W22 m ρ c) main_arg57 (by decide)).trans
    ((W22_of_ne m ρ c main_arg57 (by decide)).trans
    ((host7_2_keep (W20 m ρ c) main_arg57 (by decide)).trans
    ((host7_1_keep (W19 m ρ c) main_arg57 (by decide)).trans
    ((host7_keep (W18 m ρ c) main_arg57 (by decide)).trans
    ((W18_of_ne m ρ c main_arg57 (by decide)).trans
    ((host6_keep (W16 m ρ c) main_arg57 (by decide)).trans
    ((W16_of_ne m ρ c main_arg57 (by decide)).trans
    ((host5_keep (W14 m ρ c) main_arg57 (by decide)).trans
    ((W14_of_ne m ρ c main_arg57 (by decide)).trans
    ((host4_2_keep (W12 m ρ c) main_arg57 (by decide)).trans
    ((host4_1_keep (W11 m ρ c) main_arg57 (by decide)).trans
    ((host4_keep (W10 m ρ c) main_arg57 (by decide)).trans
    ((W10_of_ne m ρ c main_arg57 (by decide)).trans
    ((host3_keep (W8 m ρ c) main_arg57 (by decide)).trans
    ((W8_of_ne m ρ c main_arg57 (by decide)).trans
    ((host2_keep (W6 m ρ c) main_arg57 (by decide)).trans
    ((W6_of_ne m ρ c main_arg57 (by decide)).trans
    ((host1_2_keep (W4 m ρ c) main_arg57 (by decide)).trans
    ((host1_1_keep (W3 m ρ c) main_arg57 (by decide)).trans
    ((host1_keep (W2 m ρ c) main_arg57 (by decide)).trans
    ((W2_of_ne m ρ c main_arg57 (by decide)).trans
    ((host0_keep (W0 m ρ c) main_arg57 (by decide))))))))))))))))))))))))))))))))).trans rfl

theorem kp_main_arg58_0_31 : W31 m ρ c (Proc.devRef .tc main_arg58) = m ((c : Thread nD τ).loc main_arg58) :=
  ((host11_keep (W30 m ρ c) main_arg58 (by decide)).trans
    ((W30_of_ne m ρ c main_arg58 (by decide)).trans
    ((host10_2_keep (W28 m ρ c) main_arg58 (by decide)).trans
    ((host10_1_keep (W27 m ρ c) main_arg58 (by decide)).trans
    ((host10_keep (W26 m ρ c) main_arg58 (by decide)).trans
    ((W26_of_ne m ρ c main_arg58 (by decide)).trans
    ((host9_keep (W24 m ρ c) main_arg58 (by decide)).trans
    ((W24_of_ne m ρ c main_arg58 (by decide)).trans
    ((host8_keep (W22 m ρ c) main_arg58 (by decide)).trans
    ((W22_of_ne m ρ c main_arg58 (by decide)).trans
    ((host7_2_keep (W20 m ρ c) main_arg58 (by decide)).trans
    ((host7_1_keep (W19 m ρ c) main_arg58 (by decide)).trans
    ((host7_keep (W18 m ρ c) main_arg58 (by decide)).trans
    ((W18_of_ne m ρ c main_arg58 (by decide)).trans
    ((host6_keep (W16 m ρ c) main_arg58 (by decide)).trans
    ((W16_of_ne m ρ c main_arg58 (by decide)).trans
    ((host5_keep (W14 m ρ c) main_arg58 (by decide)).trans
    ((W14_of_ne m ρ c main_arg58 (by decide)).trans
    ((host4_2_keep (W12 m ρ c) main_arg58 (by decide)).trans
    ((host4_1_keep (W11 m ρ c) main_arg58 (by decide)).trans
    ((host4_keep (W10 m ρ c) main_arg58 (by decide)).trans
    ((W10_of_ne m ρ c main_arg58 (by decide)).trans
    ((host3_keep (W8 m ρ c) main_arg58 (by decide)).trans
    ((W8_of_ne m ρ c main_arg58 (by decide)).trans
    ((host2_keep (W6 m ρ c) main_arg58 (by decide)).trans
    ((W6_of_ne m ρ c main_arg58 (by decide)).trans
    ((host1_2_keep (W4 m ρ c) main_arg58 (by decide)).trans
    ((host1_1_keep (W3 m ρ c) main_arg58 (by decide)).trans
    ((host1_keep (W2 m ρ c) main_arg58 (by decide)).trans
    ((W2_of_ne m ρ c main_arg58 (by decide)).trans
    ((host0_keep (W0 m ρ c) main_arg58 (by decide))))))))))))))))))))))))))))))))).trans rfl

theorem kp_main_v56_0_30_32 : W32 m ρ c (Proc.devRef .tc main_v56_0) = W30 m ρ c (Proc.devRef .tc main_v56_0) :=
  (W32_of_ne m ρ c main_v56_0 (by decide)).trans
    ((host11_keep (W30 m ρ c) main_v56_0 (by decide)))

theorem kp_main_v40_0_22_32 : W32 m ρ c (Proc.devRef .tc main_v40_0) = W22 m ρ c (Proc.devRef .tc main_v40_0) :=
  (W32_of_ne m ρ c main_v40_0 (by decide)).trans
    ((host11_keep (W30 m ρ c) main_v40_0 (by decide)).trans
    ((W30_of_ne m ρ c main_v40_0 (by decide)).trans
    ((host10_2_keep (W28 m ρ c) main_v40_0 (by decide)).trans
    ((host10_1_keep (W27 m ρ c) main_v40_0 (by decide)).trans
    ((host10_keep (W26 m ρ c) main_v40_0 (by decide)).trans
    ((W26_of_ne m ρ c main_v40_0 (by decide)).trans
    ((host9_keep (W24 m ρ c) main_v40_0 (by decide)).trans
    ((W24_of_ne m ρ c main_v40_0 (by decide)).trans
    ((host8_keep (W22 m ρ c) main_v40_0 (by decide)))))))))))

end Cert.ReferenceIdeal.Val

end
-- ==== Proof.RV.HostLib.lean ====
/-
  A filled gather of rows ("take": wrap the negative indices, gather, mask the rows whose index is out of
  bounds with a fill value) and a scatter-add of rows into zeros, read at an index, when every index is a
  valid row number: the take is the plain gathered row, the scatter-add is the sum over the rows sent there.
-/
import proofs.«117664_g2000706958607885_pallasbulk_534_41_alg».proof.Proof.HostChain
import proofs.«117664_g2000706958607885_pallasbulk_534_41_alg».proof.Proof.ResultsSpec

noncomputable section

namespace Cert.ReferenceIdeal.Val

open Idealize.ShloMosaic Idealize.ShloMosaic.ValueIdx
open Cert.HostRead
open scoped BigOperators

section Take
variable {α : Type}

/-- The take at (t, q): the operand's row whose number is the t-th index, lane q. The wrapped index vector is the
    index vector itself (no entry is negative), the in-bounds bit of every row is 1, so the select keeps the
    gathered value, and the gather reads the row of that number. -/
theorem take_read {N E C : Nat}
    (wf : GatherDims.WF ⟨2, ![N, C]⟩ ⟨2, ![E, 1]⟩ ⟨2, ![E, C]⟩ [1] [0] [] [0] [] 1 ![1, C])
    (x : (⟨2, ![N, C]⟩ : Shape).Idx → α) (v z n : IVec ⟨1, ![E]⟩ 32)
    (hcol : (⟨1, ![E]⟩ : Shape).BroadcastsInDim ⟨2, ![E, 1]⟩ ![0])
    (lo hi : IVec ⟨2, ![E, 1]⟩ 32) (init : IVec ⟨0, ![]⟩ 1)
    (hred : (⟨2, ![E, 1]⟩ : Shape).ReducesTo [1] ⟨1, ![E]⟩) (hu : 0 < (⟨0, ![]⟩ : Shape).numel)
    (hb : (⟨1, ![E]⟩ : Shape).BroadcastsInDim ⟨2, ![E, C]⟩ ![0])
    (fill : (⟨2, ![E, C]⟩ : Shape).Idx → α)
    (top : BitVec 32) (hz : ∀ i, z i = 0#32) (hlo : ∀ i, lo i = 0#32) (hhi : ∀ i, hi i = top) (htop : top.toInt = (N : Int) - 1)
    (hinit : ∀ k, init k = 1#1)
    (h0 : ∀ s, 0 ≤ (v (ix1 s)).toInt) (hN : ∀ s, (v (ix1 s)).toInt < (N : Int)) (t : Fin E) (q : Fin C) :
    select (broadcastInDim ⟨2, ![E, C]⟩ ![0] hb
        (Host.reduce IntOp.andi
          (andi (cmpi .sge (broadcastInDim ⟨2, ![E, 1]⟩ ![0] hcol (select (cmpi .slt v z) (addi v n) v)) lo)
                (cmpi .sle (broadcastInDim ⟨2, ![E, 1]⟩ ![0] hcol (select (cmpi .slt v z) (addi v n) v)) hi))
          init hred hu))
      (Host.gather (rowGatherDims N C E wf) x (broadcastInDim ⟨2, ![E, 1]⟩ ![0] hcol (select (cmpi .slt v z) (addi v n) v)))
      fill (ix2 t q)
    = x (ix2 ⟨(v (ix1 t)).toInt.toNat, by have := h0 t; have := hN t; omega⟩ q) := by
  have hzero : (0#32 : BitVec 32).toInt = 0 := by decide
  have hI : ∀ s : Fin E,
      broadcastInDim ⟨2, ![E, 1]⟩ ![0] hcol (select (cmpi .slt v z) (addi v n) v) (ix2 s 0) = v (ix1 s) := fun s => by
    rw [col_apply]
    exact wrap_apply v z n (ix1 s) (hz _) (h0 s)
  have hI' : ∀ i : (⟨2, ![E, 1]⟩ : Shape).Idx,
      broadcastInDim ⟨2, ![E, 1]⟩ ![0] hcol (select (cmpi .slt v z) (addi v n) v) i = v (ix1 (i 0)) := fun i => by
    have e : i = ix2 (i 0) (0 : Fin 1) := by
      rw [eq_ix2 i]
      congr 1
      exact Fin.ext (Nat.lt_one_iff.mp (i 1).isLt)
    rw [e]
    exact hI (i 0)
  rw [fill_select_apply _ hb _ _ t q
    (inbounds_apply _ lo hi init hred hu t hinit
      (fun i _ => by rw [hlo, hI', hzero]; exact h0 _)
      (fun i _ => by rw [hhi, hI', htop]; have := hN (i 0); omega))]
  exact gather_rows_of_inrange wf x _ t q (v (ix1 t)) (hI t) (h0 t) (hN t)

/-- The same with the index vector given as row r of a two-row index array all of whose entries are valid row
    numbers: the operand's row at that entry, as a function into Fin N. -/
theorem take_read_idx {N E C : Nat} (hNpos : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (v z n : IVec ⟨1, ![E]⟩ 32)
    (hcol : (⟨1, ![E]⟩ : Shape).BroadcastsInDim ⟨2, ![E, 1]⟩ ![0])
    (lo hi : IVec ⟨2, ![E, 1]⟩ 32) (init : IVec ⟨0, ![]⟩ 1)
    (hred : (⟨2, ![E, 1]⟩ : Shape).ReducesTo [1] ⟨1, ![E]⟩) (hu : 0 < (⟨0, ![]⟩ : Shape).numel)
    (hb : (⟨1, ![E]⟩ : Shape).BroadcastsInDim ⟨2, ![E, C]⟩ ![0])
    (fill : (⟨2, ![E, C]⟩ : Shape).Idx → α)
    (ei : IVec ⟨2, ![2, E]⟩ 32) (r : Fin 2)
    (top : BitVec 32) (hz : ∀ i, z i = 0#32) (hlo : ∀ i, lo i = 0#32) (hhi : ∀ i, hi i = top) (htop : top.toInt = (N : Int) - 1)
    (hinit : ∀ k, init k = 1#1)
    (hv : ∀ s, v (ix1 s) = ei (ix2 r s))
    (hin : ∀ i, 0 ≤ (ei i).toInt ∧ (ei i).toInt < (N : Int)) (t : Fin E) (q : Fin C) :
    select (broadcastInDim ⟨2, ![E, C]⟩ ![0] hb
        (Host.reduce IntOp.andi
          (andi (cmpi .sge (broadcastInDim ⟨2, ![E, 1]⟩ ![0] hcol (select (cmpi .slt v z) (addi v n) v)) lo)
                (cmpi .sle (broadcastInDim ⟨2, ![E, 1]⟩ ![0] hcol (select (cmpi .slt v z) (addi v n) v)) hi))
          init hred hu))
      (Host.gather (rowGatherDims N C E wf) x (broadcastInDim ⟨2, ![E, 1]⟩ ![0] hcol (select (cmpi .slt v z) (addi v n) v)))
      fill (ix2 t q)
    = x (ix2 (Cert.ResultsSpec.idxFn N hNpos ei r t) q) := by
  have h0 : ∀ s, 0 ≤ (v (ix1 s)).toInt := fun s => by rw [hv]; exact (hin _).1
  have hN : ∀ s, (v (ix1 s)).toInt < (N : Int) := fun s => by rw [hv]; exact (hin _).2
  rw [take_read wf x v z n hcol lo hi init hred hu hb fill top hz hlo hhi htop hinit h0 hN t q]
  congr 2
  refine Fin.ext ?_
  show (v (ix1 t)).toInt.toNat = (ei (ix2 r t)).toInt.toNat % N
  rw [hv t, Nat.mod_eq_of_lt]
  have := (hin (ix2 r t)).1
  have := (hin (ix2 r t)).2
  omega

end Take

section Scatter

/-- A scatter-add of rows into zeros, the indices being row r of a two-row index array of valid row numbers,
    at (n, q): the literal zero plus the sum of lane q of the update rows sent to n. -/
theorem scatter_read {N E : Nat} (hNpos : 0 < N)
    (wf : ScatterDims.WF ⟨2, ![N, 128]⟩ ⟨2, ![E, 1]⟩ ⟨2, ![E, 128]⟩ [1] [0] [0] 1)
    (x : FVec Ideal ⟨2, ![N, 128]⟩ .f32) (v : IVec ⟨1, ![E]⟩ 32)
    (hcol : (⟨1, ![E]⟩ : Shape).BroadcastsInDim ⟨2, ![E, 1]⟩ ![0])
    (upd : FVec Ideal ⟨2, ![E, 128]⟩ .f32)
    (ei : IVec ⟨2, ![2, E]⟩ 32) (r : Fin 2)
    (hx : ∀ i, x i = Cert.Spec.cZero)
    (hv : ∀ s, v (ix1 s) = ei (ix2 r s))
    (hin : ∀ i, 0 ≤ (ei i).toInt ∧ (ei i).toInt < (N : Int)) (n : Fin N) (q : Fin 128) :
    Host.scatterAdd (rowScatterDims N 128 E wf) x (broadcastInDim ⟨2, ![E, 1]⟩ ![0] hcol v) upd (ix2 n q)
      = Cert.Bridge.segSum (Cert.ResultsSpec.idxFn N hNpos ei r) (Cert.ResultsSpec.rows upd) n q := by
  rw [scatterAdd_zero_apply wf x _ upd (Cert.ResultsSpec.idxFn N hNpos ei r)
    (fun e => by
      rw [col_apply, hv e]
      exact (Cert.ResultsSpec.idxFn_val N hNpos ei r e (hin _).1 (hin _).2).symm)
    Cert.Spec.cZero hx n q]
  rfl

end Scatter

end Cert.ReferenceIdeal.Val

end
-- ==== Proof.RV.HostSlice.lean ====
/-
  The four stretches that cut the two rows out of an index array (sources in row 0, destinations in row 1)
  and flatten each to a vector: the vector at s is the array's entry (row, s).
-/
import proofs.«117664_g2000706958607885_pallasbulk_534_41_alg».proof.Proof.RefLaunch
import proofs.«117664_g2000706958607885_pallasbulk_534_41_alg».proof.Proof.RV.HostLib

set_option maxRecDepth 200000

noncomputable section

namespace Cert.ReferenceIdeal.Val

open Cert.ReferenceIdeal Cert.ReferenceIdeal.Gen Cert.ReferenceIdeal.GenP
open Idealize.ShloMosaic Idealize.ShloMosaic.TcCoe Idealize.ShloMosaic.ValueIdx
open Cert.HostRead
open scoped BigOperators

/-- Row 0 of the index array, as a vector: what `hostOps0` leaves in its first vector. -/
theorem host0_v1 (W : Valuation τ sig (Elt Ideal)) (s : Fin 131072) :
    StableHlo.after (hostOps0 (F := Ideal)) W (Proc.devRef .tc main_v1) (ix1 s) = W (Proc.devRef .tc main_arg4) (ix2 (0 : Fin 2) s) := by
  after_results_simp
  exact row_of_pair_apply (0 : Fin 2) (W (Proc.devRef .tc main_arg4)) slices_S2x131072_S1x131072_0_0 shapeCasts_S1x131072_S131072 s

/-- Row 1 of the index array, as a vector: what `hostOps0` leaves in its second vector. -/
theorem host0_v3 (W : Valuation τ sig (Elt Ideal)) (s : Fin 131072) :
    StableHlo.after (hostOps0 (F := Ideal)) W (Proc.devRef .tc main_v3) (ix1 s) = W (Proc.devRef .tc main_arg4) (ix2 (1 : Fin 2) s) := by
  after_results_simp
  exact row_of_pair_apply (1 : Fin 2) (W (Proc.devRef .tc main_arg4)) slices_S2x131072_S1x131072_1_0 shapeCasts_S1x131072_S131072 s

/-- Row 0 of the index array, as a vector: what `hostOps3` leaves in its first vector. -/
theorem host3_v17 (W : Valuation τ sig (Elt Ideal)) (s : Fin 65536) :
    StableHlo.after (hostOps3 (F := Ideal)) W (Proc.devRef .tc main_v17) (ix1 s) = W (Proc.devRef .tc main_arg3) (ix2 (0 : Fin 2) s) := by
  after_results_simp
  exact row_of_pair_apply (0 : Fin 2) (W (Proc.devRef .tc main_arg3)) slices_S2x65536_S1x65536_0_0 shapeCasts_S1x65536_S65536 s

/-- Row 1 of the index array, as a vector: what `hostOps3` leaves in its second vector. -/
theorem host3_v19 (W : Valuation τ sig (Elt Ideal)) (s : Fin 65536) :
    StableHlo.after (hostOps3 (F := Ideal)) W (Proc.devRef .tc main_v19) (ix1 s) = W (Proc.devRef .tc main_arg3) (ix2 (1 : Fin 2) s) := by
  after_results_simp
  exact row_of_pair_apply (1 : Fin 2) (W (Proc.devRef .tc main_arg3)) slices_S2x65536_S1x65536_1_0 shapeCasts_S1x65536_S65536 s

/-- Row 0 of the index array, as a vector: what `hostOps6` leaves in its first vector. -/
theorem host6_v33 (W : Valuation τ sig (Elt Ideal)) (s : Fin 131072) :
    StableHlo.after (hostOps6 (F := Ideal)) W (Proc.devRef .tc main_v33) (ix1 s) = W (Proc.devRef .tc main_arg4) (ix2 (0 : Fin 2) s) := by
  after_results_simp
  exact row_of_pair_apply (0 : Fin 2) (W (Proc.devRef .tc main_arg4)) slices_S2x131072_S1x131072_0_0 shapeCasts_S1x131072_S131072 s

/-- Row 1 of the index array, as a vector: what `hostOps6` leaves in its second vector. -/
theorem host6_v35 (W : Valuation τ sig (Elt Ideal)) (s : Fin 131072) :
    StableHlo.after (hostOps6 (F := Ideal)) W (Proc.devRef .tc main_v35) (ix1 s) = W (Proc.devRef .tc main_arg4) (ix2 (1 : Fin 2) s) := by
  after_results_simp
  exact row_of_pair_apply (1 : Fin 2) (W (Proc.devRef .tc main_arg4)) slices_S2x131072_S1x131072_1_0 shapeCasts_S1x131072_S131072 s

/-- Row 0 of the index array, as a vector: what `hostOps9` leaves in its first vector. -/
theorem host9_v49 (W : Valuation τ sig (Elt Ideal)) (s : Fin 65536) :
    StableHlo.after (hostOps9 (F := Ideal)) W (Proc.devRef .tc main_v49) (ix1 s) = W (Proc.devRef .tc main_arg3) (ix2 (0 : Fin 2) s) := by
  after_results_simp
  exact row_of_pair_apply (0 : Fin 2) (W (Proc.devRef .tc main_arg3)) slices_S2x65536_S1x65536_0_0 shapeCasts_S1x65536_S65536 s

/-- Row 1 of the index array, as a vector: what `hostOps9` leaves in its second vector. -/
theorem host9_v51 (W : Valuation τ sig (Elt Ideal)) (s : Fin 65536) :
    StableHlo.after (hostOps9 (F := Ideal)) W (Proc.devRef .tc main_v51) (ix1 s) = W (Proc.devRef .tc main_arg3) (ix2 (1 : Fin 2) s) := by
  after_results_simp
  exact row_of_pair_apply (1 : Fin 2) (W (Proc.devRef .tc main_arg3)) slices_S2x65536_S1x65536_1_0 shapeCasts_S1x65536_S65536 s

end Cert.ReferenceIdeal.Val

end
-- ==== Proof.RV.HostTake1.lean ====
/-
  Three filled gathers of rows ("take") of one layer: the node rows at the edges' destinations, the node rows at
  the edges' sources, and the projected neighbour rows at the sources. Every index is a valid row number, so each
  result row is the operand's row of that number.
-/
import proofs.«117664_g2000706958607885_pallasbulk_534_41_alg».proof.Proof.RefLaunch
import proofs.«117664_g2000706958607885_pallasbulk_534_41_alg».proof.Proof.RV.HostLib

set_option maxRecDepth 200000

noncomputable section

namespace Cert.ReferenceIdeal.Val

open Cert.ReferenceIdeal Cert.ReferenceIdeal.Gen Cert.ReferenceIdeal.GenP
open Idealize.ShloMosaic Idealize.ShloMosaic.TcCoe Idealize.ShloMosaic.ValueIdx
open Cert.HostRead
open scoped BigOperators

set_option maxHeartbeats 4000000 in
/-- The take of `hostOps1` at (t, q): row (index t) of the operand, lane q; the index vector is row 1 of the index array. -/
theorem host1_v5 (W : Valuation τ sig (Elt Ideal))
    (hv : ∀ s : Fin 131072, W (Proc.devRef .tc main_v3) (ix1 s) = W (Proc.devRef .tc main_arg4) (ix2 (1 : Fin 2) s))
    (hin : ∀ i : S2x131072.Idx, 0 ≤ BitVec.toInt (W (Proc.devRef .tc main_arg4) i) ∧ BitVec.toInt (W (Proc.devRef .tc main_arg4) i) < 65536)
    (t : Fin 131072) (q : Fin 128) :
    StableHlo.after (hostOps1 (F := Ideal)) W (Proc.devRef .tc main_v5) (ix2 t q)
      = W (Proc.devRef .tc main_arg1) (ix2 (Cert.ResultsSpec.idxFn 65536 (by decide) (W (Proc.devRef .tc main_arg4)) 1 t) q) := by
  after_results_simp
  refine take_read_idx (N := 65536) (E := 131072) (C := 128) (by decide) gather_S65536x128_S131072x1_S131072x128_1_0_n_n_0_1_1128_wf
    (W (Proc.devRef .tc main_arg1)) (W (Proc.devRef .tc main_v3))
    (broadcastInDim S131072 ![] bcast_S_S131072 (constantI S_ 32 0#32))
    (broadcastInDim S131072 ![] bcast_S_S131072 (constantI S_ 32 65536#32))
    bcast_S131072_S131072x1_0
    (broadcastInDim S131072x1 ![] bcast_S_S131072x1 (constantI S_ 32 0#32))
    (broadcastInDim S131072x1 ![0, 1] bcast_S1x1_S131072x1_0_1 (broadcastInDim S1x1 ![1] bcast_S1_S1x1_1 (constantI S1 32 65535#32)))
    (constantI S_ 1 1#1) reducesTo_S131072x1_S131072_d1 h_S_ bcast_S131072_S131072x128_0
    (broadcastInDim S131072x128 ![] bcast_S_S131072x128 (constant (F := Ideal) S_ .f32 0x7FC00000#32))
    (W (Proc.devRef .tc main_arg4)) 1 65535#32 ?_ ?_ ?_ ?_ ?_ hv hin t q
  · intro i; rfl
  · intro i; rfl
  · intro i; rfl
  · decide
  · intro k; rfl

set_option maxHeartbeats 4000000 in
/-- The take of `hostOps1_1` at (t, q): row (index t) of the operand, lane q; the index vector is row 0 of the index array. -/
theorem host1_1_v6 (W : Valuation τ sig (Elt Ideal))
    (hv : ∀ s : Fin 131072, W (Proc.devRef .tc main_v1) (ix1 s) = W (Proc.devRef .tc main_arg4) (ix2 (0 : Fin 2) s))
    (hin : ∀ i : S2x131072.Idx, 0 ≤ BitVec.toInt (W (Proc.devRef .tc main_arg4) i) ∧ BitVec.toInt (W (Proc.devRef .tc main_arg4) i) < 65536)
    (t : Fin 131072) (q : Fin 128) :
    StableHlo.after (hostOps1_1 (F := Ideal)) W (Proc.devRef .tc main_v6) (ix2 t q)
      = W (Proc.devRef .tc main_arg1) (ix2 (Cert.ResultsSpec.idxFn 65536 (by decide) (W (Proc.devRef .tc main_arg4)) 0 t) q) := by
  after_results_simp
  refine take_read_idx (N := 65536) (E := 131072) (C := 128) (by decide) gather_S65536x128_S131072x1_S131072x128_1_0_n_n_0_1_1128_wf
    (W (Proc.devRef .tc main_arg1)) (W (Proc.devRef .tc main_v1))
    (broadcastInDim S131072 ![] bcast_S_S131072 (constantI S_ 32 0#32))
    (broadcastInDim S131072 ![] bcast_S_S131072 (constantI S_ 32 65536#32))
    bcast_S131072_S131072x1_0
    (broadcastInDim S131072x1 ![] bcast_S_S131072x1 (constantI S_ 32 0#32))
    (broadcastInDim S131072x1 ![0, 1] bcast_S1x1_S131072x1_0_1 (broadcastInDim S1x1 ![1] bcast_S1_S1x1_1 (constantI S1 32 65535#32)))
    (constantI S_ 1 1#1) reducesTo_S131072x1_S131072_d1 h_S_ bcast_S131072_S131072x128_0
    (broadcastInDim S131072x128 ![] bcast_S_S131072x128 (constant (F := Ideal) S_ .f32 0x7FC00000#32))
    (W (Proc.devRef .tc main_arg4)) 0 65535#32 ?_ ?_ ?_ ?_ ?_ hv hin t q
  · intro i; rfl
  · intro i; rfl
  · intro i; rfl
  · decide
  · intro k; rfl

set_option maxHeartbeats 4000000 in
/-- The take of `hostOps1_2` at (t, q): row (index t) of the operand, lane q; the index vector is row 0 of the index array. -/
theorem host1_2_v7 (W : Valuation τ sig (Elt Ideal))
    (hv : ∀ s : Fin 131072, W (Proc.devRef .tc main_v1) (ix1 s) = W (Proc.devRef .tc main_arg4) (ix2 (0 : Fin 2) s))
    (hin : ∀ i : S2x131072.Idx, 0 ≤ BitVec.toInt (W (Proc.devRef .tc main_arg4) i) ∧ BitVec.toInt (W (Proc.devRef .tc main_arg4) i) < 65536)
    (t : Fin 131072) (q : Fin 128) :
    StableHlo.after (hostOps1_2 (F := Ideal)) W (Proc.devRef .tc main_v7) (ix2 t q)
      = W (Proc.devRef .tc main_v4_1) (ix2 (Cert.ResultsSpec.idxFn 65536 (by decide) (W (Proc.devRef .tc main_arg4)) 0 t) q) := by
  after_results_simp
  refine take_read_idx (N := 65536) (E := 131072) (C := 128) (by decide) gather_S65536x128_S131072x1_S131072x128_1_0_n_n_0_1_1128_wf
    (W (Proc.devRef .tc main_v4_1)) (W (Proc.devRef .tc main_v1))
    (broadcastInDim S131072 ![] bcast_S_S131072 (constantI S_ 32 0#32))
    (broadcastInDim S131072 ![] bcast_S_S131072 (constantI S_ 32 65536#32))
    bcast_S131072_S131072x1_0
    (broadcastInDim S131072x1 ![] bcast_S_S131072x1 (constantI S_ 32 0#32))
    (broadcastInDim S131072x1 ![0, 1] bcast_S1x1_S131072x1_0_1 (broadcastInDim S1x1 ![1] bcast_S1_S1x1_1 (constantI S1 32 65535#32)))
    (constantI S_ 1 1#1) reducesTo_S131072x1_S131072_d1 h_S_ bcast_S131072_S131072x128_0
    (broadcastInDim S131072x128 ![] bcast_S_S131072x128 (constant (F := Ideal) S_ .f32 0x7FC00000#32))
    (W (Proc.devRef .tc main_arg4)) 0 65535#32 ?_ ?_ ?_ ?_ ?_ hv hin t q
  · intro i; rfl
  · intro i; rfl
  · intro i; rfl
  · decide
  · intro k; rfl

end Cert.ReferenceIdeal.Val

end
-- ==== Proof.RV.HostTake4.lean ====
/-
  Three filled gathers of rows ("take") of one layer: the node rows at the edges' destinations, the node rows at
  the edges' sources, and the projected neighbour rows at the sources. Every index is a valid row number, so each
  result row is the operand's row of that number.
-/
import proofs.«117664_g2000706958607885_pallasbulk_534_41_alg».proof.Proof.RefLaunch
import proofs.«117664_g2000706958607885_pallasbulk_534_41_alg».proof.Proof.RV.HostLib

set_option maxRecDepth 200000

noncomputable section

namespace Cert.ReferenceIdeal.Val

open Cert.ReferenceIdeal Cert.ReferenceIdeal.Gen Cert.ReferenceIdeal.GenP
open Idealize.ShloMosaic Idealize.ShloMosaic.TcCoe Idealize.ShloMosaic.ValueIdx
open Cert.HostRead
open scoped BigOperators

set_option maxHeartbeats 4000000 in
/-- The take of `hostOps4` at (t, q): row (index t) of the operand, lane q; the index vector is row 1 of the index array. -/
theorem host4_v21 (W : Valuation τ sig (Elt Ideal))
    (hv : ∀ s : Fin 65536, W (Proc.devRef .tc main_v19) (ix1 s) = W (Proc.devRef .tc main_arg3) (ix2 (1 : Fin 2) s))
    (hin : ∀ i : S2x65536.Idx, 0 ≤ BitVec.toInt (W (Proc.devRef .tc main_arg3) i) ∧ BitVec.toInt (W (Proc.devRef .tc main_arg3) i) < 16384)
    (t : Fin 65536) (q : Fin 128) :
    StableHlo.after (hostOps4 (F := Ideal)) W (Proc.devRef .tc main_v21) (ix2 t q)
      = W (Proc.devRef .tc main_arg0) (ix2 (Cert.ResultsSpec.idxFn 16384 (by decide) (W (Proc.devRef .tc main_arg3)) 1 t) q) := by
  after_results_simp
  refine take_read_idx (N := 16384) (E := 65536) (C := 128) (by decide) gather_S16384x128_S65536x1_S65536x128_1_0_n_n_0_1_1128_wf
    (W (Proc.devRef .tc main_arg0)) (W (Proc.devRef .tc main_v19))
    (broadcastInDim S65536 ![] bcast_S_S65536 (constantI S_ 32 0#32))
    (broadcastInDim S65536 ![] bcast_S_S65536 (constantI S_ 32 16384#32))
    bcast_S65536_S65536x1_0
    (broadcastInDim S65536x1 ![] bcast_S_S65536x1 (constantI S_ 32 0#32))
    (broadcastInDim S65536x1 ![0, 1] bcast_S1x1_S65536x1_0_1 (broadcastInDim S1x1 ![1] bcast_S1_S1x1_1 (constantI S1 32 16383#32)))
    (constantI S_ 1 1#1) reducesTo_S65536x1_S65536_d1 h_S_ bcast_S65536_S65536x128_0
    (broadcastInDim S65536x128 ![] bcast_S_S65536x128 (constant (F := Ideal) S_ .f32 0x7FC00000#32))
    (W (Proc.devRef .tc main_arg3)) 1 16383#32 ?_ ?_ ?_ ?_ ?_ hv hin t q
  · intro i; rfl
  · intro i; rfl
  · intro i; rfl
  · decide
  · intro k; rfl

set_option maxHeartbeats 4000000 in
/-- The take of `hostOps4_1` at (t, q): row (index t) of the operand, lane q; the index vector is row 0 of the index array. -/
theorem host4_1_v22 (W : Valuation τ sig (Elt Ideal))
    (hv : ∀ s : Fin 65536, W (Proc.devRef .tc main_v17) (ix1 s) = W (Proc.devRef .tc main_arg3) (ix2 (0 : Fin 2) s))
    (hin : ∀ i : S2x65536.Idx, 0 ≤ BitVec.toInt (W (Proc.devRef .tc main_arg3) i) ∧ BitVec.toInt (W (Proc.devRef .tc main_arg3) i) < 16384)
    (t : Fin 65536) (q : Fin 128) :
    StableHlo.after (hostOps4_1 (F := Ideal)) W (Proc.devRef .tc main_v22) (ix2 t q)
      = W (Proc.devRef .tc main_arg0) (ix2 (Cert.ResultsSpec.idxFn 16384 (by decide) (W (Proc.devRef .tc main_arg3)) 0 t) q) := by
  after_results_simp
  refine take_read_idx (N := 16384) (E := 65536) (C := 128) (by decide) gather_S16384x128_S65536x1_S65536x128_1_0_n_n_0_1_1128_wf
    (W (Proc.devRef .tc main_arg0)) (W (Proc.devRef .tc main_v17))
    (broadcastInDim S65536 ![] bcast_S_S65536 (constantI S_ 32 0#32))
    (broadcastInDim S65536 ![] bcast_S_S65536 (constantI S_ 32 16384#32))
    bcast_S65536_S65536x1_0
    (broadcastInDim S65536x1 ![] bcast_S_S65536x1 (constantI S_ 32 0#32))
    (broadcastInDim S65536x1 ![0, 1] bcast_S1x1_S65536x1_0_1 (broadcastInDim S1x1 ![1] bcast_S1_S1x1_1 (constantI S1 32 16383#32)))
    (constantI S_ 1 1#1) reducesTo_S65536x1_S65536_d1 h_S_ bcast_S65536_S65536x128_0
    (broadcastInDim S65536x128 ![] bcast_S_S65536x128 (constant (F := Ideal) S_ .f32 0x7FC00000#32))
    (W (Proc.devRef .tc main_arg3)) 0 16383#32 ?_ ?_ ?_ ?_ ?_ hv hin t q
  · intro i; rfl
  · intro i; rfl
  · intro i; rfl
  · decide
  · intro k; rfl

set_option maxHeartbeats 4000000 in
/-- The take of `hostOps4_2` at (t, q): row (index t) of the operand, lane q; the index vector is row 0 of the index array. -/
theorem host4_2_v23 (W : Valuation τ sig (Elt Ideal))
    (hv : ∀ s : Fin 65536, W (Proc.devRef .tc main_v17) (ix1 s) = W (Proc.devRef .tc main_arg3) (ix2 (0 : Fin 2) s))
    (hin : ∀ i : S2x65536.Idx, 0 ≤ BitVec.toInt (W (Proc.devRef .tc main_arg3) i) ∧ BitVec.toInt (W (Proc.devRef .tc main_arg3) i) < 16384)
    (t : Fin 65536) (q : Fin 128) :
    StableHlo.after (hostOps4_2 (F := Ideal)) W (Proc.devRef .tc main_v23) (ix2 t q)
      = W (Proc.devRef .tc main_v20_1) (ix2 (Cert.ResultsSpec.idxFn 16384 (by decide) (W (Proc.devRef .tc main_arg3)) 0 t) q) := by
  after_results_simp
  refine take_read_idx (N := 16384) (E := 65536) (C := 128) (by decide) gather_S16384x128_S65536x1_S65536x128_1_0_n_n_0_1_1128_wf
    (W (Proc.devRef .tc main_v20_1)) (W (Proc.devRef .tc main_v17))
    (broadcastInDim S65536 ![] bcast_S_S65536 (constantI S_ 32 0#32))
    (broadcastInDim S65536 ![] bcast_S_S65536 (constantI S_ 32 16384#32))
    bcast_S65536_S65536x1_0
    (broadcastInDim S65536x1 ![] bcast_S_S65536x1 (constantI S_ 32 0#32))
    (broadcastInDim S65536x1 ![0, 1] bcast_S1x1_S65536x1_0_1 (broadcastInDim S1x1 ![1] bcast_S1_S1x1_1 (constantI S1 32 16383#32)))
    (constantI S_ 1 1#1) reducesTo_S65536x1_S65536_d1 h_S_ bcast_S65536_S65536x128_0
    (broadcastInDim S65536x128 ![] bcast_S_S65536x128 (constant (F := Ideal) S_ .f32 0x7FC00000#32))
    (W (Proc.devRef .tc main_arg3)) 0 16383#32 ?_ ?_ ?_ ?_ ?_ hv hin t q
  · intro i; rfl
  · intro i; rfl
  · intro i; rfl
  · decide
  · intro k; rfl

end Cert.ReferenceIdeal.Val

end
-- ==== Proof.RV.HostTake7.lean ====
/-
  Three filled gathers of rows ("take") of one layer: the node rows at the edges' destinations, the node rows at
  the edges' sources, and the projected neighbour rows at the sources. Every index is a valid row number, so each
  result row is the operand's row of that number.
-/
import proofs.«117664_g2000706958607885_pallasbulk_534_41_alg».proof.Proof.RefLaunch
import proofs.«117664_g2000706958607885_pallasbulk_534_41_alg».proof.Proof.RV.HostLib

set_option maxRecDepth 200000

noncomputable section

namespace Cert.ReferenceIdeal.Val

open Cert.ReferenceIdeal Cert.ReferenceIdeal.Gen Cert.ReferenceIdeal.GenP
open Idealize.ShloMosaic Idealize.ShloMosaic.TcCoe Idealize.ShloMosaic.ValueIdx
open Cert.HostRead
open scoped BigOperators

set_option maxHeartbeats 4000000 in
/-- The take of `hostOps7` at (t, q): row (index t) of the operand, lane q; the index vector is row 1 of the index array. -/
theorem host7_v37 (W : Valuation τ sig (Elt Ideal))
    (hv : ∀ s : Fin 131072, W (Proc.devRef .tc main_v35) (ix1 s) = W (Proc.devRef .tc main_arg4) (ix2 (1 : Fin 2) s))
    (hin : ∀ i : S2x131072.Idx, 0 ≤ BitVec.toInt (W (Proc.devRef .tc main_arg4) i) ∧ BitVec.toInt (W (Proc.devRef .tc main_arg4) i) < 65536)
    (t : Fin 131072) (q : Fin 128) :
    StableHlo.after (hostOps7 (F := Ideal)) W (Proc.devRef .tc main_v37) (ix2 t q)
      = W (Proc.devRef .tc main_v24_0) (ix2 (Cert.ResultsSpec.idxFn 65536 (by decide) (W (Proc.devRef .tc main_arg4)) 1 t) q) := by
  after_results_simp
  refine take_read_idx (N := 65536) (E := 131072) (C := 128) (by decide) gather_S65536x128_S131072x1_S131072x128_1_0_n_n_0_1_1128_wf
    (W (Proc.devRef .tc main_v24_0)) (W (Proc.devRef .tc main_v35))
    (broadcastInDim S131072 ![] bcast_S_S131072 (constantI S_ 32 0#32))
    (broadcastInDim S131072 ![] bcast_S_S131072 (constantI S_ 32 65536#32))
    bcast_S131072_S131072x1_0
    (broadcastInDim S131072x1 ![] bcast_S_S131072x1 (constantI S_ 32 0#32))
    (broadcastInDim S131072x1 ![0, 1] bcast_S1x1_S131072x1_0_1 (broadcastInDim S1x1 ![1] bcast_S1_S1x1_1 (constantI S1 32 65535#32)))
    (constantI S_ 1 1#1) reducesTo_S131072x1_S131072_d1 h_S_ bcast_S131072_S131072x128_0
    (broadcastInDim S131072x128 ![] bcast_S_S131072x128 (constant (F := Ideal) S_ .f32 0x7FC00000#32))
    (W (Proc.devRef .tc main_arg4)) 1 65535#32 ?_ ?_ ?_ ?_ ?_ hv hin t q
  · intro i; rfl
  · intro i; rfl
  · intro i; rfl
  · decide
  · intro k; rfl

set_option maxHeartbeats 4000000 in
/-- The take of `hostOps7_1` at (t, q): row (index t) of the operand, lane q; the index vector is row 0 of the index array. -/
theorem host7_1_v38 (W : Valuation τ sig (Elt Ideal))
    (hv : ∀ s : Fin 131072, W (Proc.devRef .tc main_v33) (ix1 s) = W (Proc.devRef .tc main_arg4) (ix2 (0 : Fin 2) s))
    (hin : ∀ i : S2x131072.Idx, 0 ≤ BitVec.toInt (W (Proc.devRef .tc main_arg4) i) ∧ BitVec.toInt (W (Proc.devRef .tc main_arg4) i) < 65536)
    (t : Fin 131072) (q : Fin 128) :
    StableHlo.after (hostOps7_1 (F := Ideal)) W (Proc.devRef .tc main_v38) (ix2 t q)
      = W (Proc.devRef .tc main_v24_0) (ix2 (Cert.ResultsSpec.idxFn 65536 (by decide) (W (Proc.devRef .tc main_arg4)) 0 t) q) := by
  after_results_simp
  refine take_read_idx (N := 65536) (E := 131072) (C := 128) (by decide) gather_S65536x128_S131072x1_S131072x128_1_0_n_n_0_1_1128_wf
    (W (Proc.devRef .tc main_v24_0)) (W (Proc.devRef .tc main_v33))
    (broadcastInDim S131072 ![] bcast_S_S131072 (constantI S_ 32 0#32))
    (broadcastInDim S131072 ![] bcast_S_S131072 (constantI S_ 32 65536#32))
    bcast_S131072_S131072x1_0
    (broadcastInDim S131072x1 ![] bcast_S_S131072x1 (constantI S_ 32 0#32))
    (broadcastInDim S131072x1 ![0, 1] bcast_S1x1_S131072x1_0_1 (broadcastInDim S1x1 ![1] bcast_S1_S1x1_1 (constantI S1 32 65535#32)))
    (constantI S_ 1 1#1) reducesTo_S131072x1_S131072_d1 h_S_ bcast_S131072_S131072x128_0
    (broadcastInDim S131072x128 ![] bcast_S_S131072x128 (constant (F := Ideal) S_ .f32 0x7FC00000#32))
    (W (Proc.devRef .tc main_arg4)) 0 65535#32 ?_ ?_ ?_ ?_ ?_ hv hin t q
  · intro i; rfl
  · intro i; rfl
  · intro i; rfl
  · decide
  · intro k; rfl

set_option maxHeartbeats 4000000 in
/-- The take of `hostOps7_2` at (t, q): row (index t) of the operand, lane q; the index vector is row 0 of the index array. -/
theorem host7_2_v39 (W : Valuation τ sig (Elt Ideal))
    (hv : ∀ s : Fin 131072, W (Proc.devRef .tc main_v33) (ix1 s) = W (Proc.devRef .tc main_arg4) (ix2 (0 : Fin 2) s))
    (hin : ∀ i : S2x131072.Idx, 0 ≤ BitVec.toInt (W (Proc.devRef .tc main_arg4) i) ∧ BitVec.toInt (W (Proc.devRef .tc main_arg4) i) < 65536)
    (t : Fin 131072) (q : Fin 128) :
    StableHlo.after (hostOps7_2 (F := Ideal)) W (Proc.devRef .tc main_v39) (ix2 t q)
      = W (Proc.devRef .tc main_v36_1) (ix2 (Cert.ResultsSpec.idxFn 65536 (by decide) (W (Proc.devRef .tc main_arg4)) 0 t) q) := by
  after_results_simp
  refine take_read_idx (N := 65536) (E := 131072) (C := 128) (by decide) gather_S65536x128_S131072x1_S131072x128_1_0_n_n_0_1_1128_wf
    (W (Proc.devRef .tc main_v36_1)) (W (Proc.devRef .tc main_v33))
    (broadcastInDim S131072 ![] bcast_S_S131072 (constantI S_ 32 0#32))
    (broadcastInDim S131072 ![] bcast_S_S131072 (constantI S_ 32 65536#32))
    bcast_S131072_S131072x1_0
    (broadcastInDim S131072x1 ![] bcast_S_S131072x1 (constantI S_ 32 0#32))
    (broadcastInDim S131072x1 ![0, 1] bcast_S1x1_S131072x1_0_1 (broadcastInDim S1x1 ![1] bcast_S1_S1x1_1 (constantI S1 32 65535#32)))
    (constantI S_ 1 1#1) reducesTo_S131072x1_S131072_d1 h_S_ bcast_S131072_S131072x128_0
    (broadcastInDim S131072x128 ![] bcast_S_S131072x128 (constant (F := Ideal) S_ .f32 0x7FC00000#32))
    (W (Proc.devRef .tc main_arg4)) 0 65535#32 ?_ ?_ ?_ ?_ ?_ hv hin t q
  · intro i; rfl
  · intro i; rfl
  · intro i; rfl
  · decide
  · intro k; rfl

end Cert.ReferenceIdeal.Val

end
-- ==== Proof.RV.HostTake10.lean ====
/-
  Three filled gathers of rows ("take") of one layer: the node rows at the edges' destinations, the node rows at
  the edges' sources, and the projected neighbour rows at the sources. Every index is a valid row number, so each
  result row is the operand's row of that number.
-/
import proofs.«117664_g2000706958607885_pallasbulk_534_41_alg».proof.Proof.RefLaunch
import proofs.«117664_g2000706958607885_pallasbulk_534_41_alg».proof.Proof.RV.HostLib

set_option maxRecDepth 200000

noncomputable section

namespace Cert.ReferenceIdeal.Val

open Cert.ReferenceIdeal Cert.ReferenceIdeal.Gen Cert.ReferenceIdeal.GenP
open Idealize.ShloMosaic Idealize.ShloMosaic.TcCoe Idealize.ShloMosaic.ValueIdx
open Cert.HostRead
open scoped BigOperators

set_option maxHeartbeats 4000000 in
/-- The take of `hostOps10` at (t, q): row (index t) of the operand, lane q; the index vector is row 1 of the index array. -/
theorem host10_v53 (W : Valuation τ sig (Elt Ideal))
    (hv : ∀ s : Fin 65536, W (Proc.devRef .tc main_v51) (ix1 s) = W (Proc.devRef .tc main_arg3) (ix2 (1 : Fin 2) s))
    (hin : ∀ i : S2x65536.Idx, 0 ≤ BitVec.toInt (W (Proc.devRef .tc main_arg3) i) ∧ BitVec.toInt (W (Proc.devRef .tc main_arg3) i) < 16384)
    (t : Fin 65536) (q : Fin 128) :
    StableHlo.after (hostOps10 (F := Ideal)) W (Proc.devRef .tc main_v53) (ix2 t q)
      = W (Proc.devRef .tc main_v31) (ix2 (Cert.ResultsSpec.idxFn 16384 (by decide) (W (Proc.devRef .tc main_arg3)) 1 t) q) := by
  after_results_simp
  refine take_read_idx (N := 16384) (E := 65536) (C := 128) (by decide) gather_S16384x128_S65536x1_S65536x128_1_0_n_n_0_1_1128_wf
    (W (Proc.devRef .tc main_v31)) (W (Proc.devRef .tc main_v51))
    (broadcastInDim S65536 ![] bcast_S_S65536 (constantI S_ 32 0#32))
    (broadcastInDim S65536 ![] bcast_S_S65536 (constantI S_ 32 16384#32))
    bcast_S65536_S65536x1_0
    (broadcastInDim S65536x1 ![] bcast_S_S65536x1 (constantI S_ 32 0#32))
    (broadcastInDim S65536x1 ![0, 1] bcast_S1x1_S65536x1_0_1 (broadcastInDim S1x1 ![1] bcast_S1_S1x1_1 (constantI S1 32 16383#32)))
    (constantI S_ 1 1#1) reducesTo_S65536x1_S65536_d1 h_S_ bcast_S65536_S65536x128_0
    (broadcastInDim S65536x128 ![] bcast_S_S65536x128 (constant (F := Ideal) S_ .f32 0x7FC00000#32))
    (W (Proc.devRef .tc main_arg3)) 1 16383#32 ?_ ?_ ?_ ?_ ?_ hv hin t q
  · intro i; rfl
  · intro i; rfl
  · intro i; rfl
  · decide
  · intro k; rfl

set_option maxHeartbeats 4000000 in
/-- The take of `hostOps10_1` at (t, q): row (index t) of the operand, lane q; the index vector is row 0 of the index array. -/
theorem host10_1_v54 (W : Valuation τ sig (Elt Ideal))
    (hv : ∀ s : Fin 65536, W (Proc.devRef .tc main_v49) (ix1 s) = W (Proc.devRef .tc main_arg3) (ix2 (0 : Fin 2) s))
    (hin : ∀ i : S2x65536.Idx, 0 ≤ BitVec.toInt (W (Proc.devRef .tc main_arg3) i) ∧ BitVec.toInt (W (Proc.devRef .tc main_arg3) i) < 16384)
    (t : Fin 65536) (q : Fin 128) :
    StableHlo.after (hostOps10_1 (F := Ideal)) W (Proc.devRef .tc main_v54) (ix2 t q)
      = W (Proc.devRef .tc main_v31) (ix2 (Cert.ResultsSpec.idxFn 16384 (by decide) (W (Proc.devRef .tc main_arg3)) 0 t) q) := by
  after_results_simp
  refine take_read_idx (N := 16384) (E := 65536) (C := 128) (by decide) gather_S16384x128_S65536x1_S65536x128_1_0_n_n_0_1_1128_wf
    (W (Proc.devRef .tc main_v31)) (W (Proc.devRef .tc main_v49))
    (broadcastInDim S65536 ![] bcast_S_S65536 (constantI S_ 32 0#32))
    (broadcastInDim S65536 ![] bcast_S_S65536 (constantI S_ 32 16384#32))
    bcast_S65536_S65536x1_0
    (broadcastInDim S65536x1 ![] bcast_S_S65536x1 (constantI S_ 32 0#32))
    (broadcastInDim S65536x1 ![0, 1] bcast_S1x1_S65536x1_0_1 (broadcastInDim S1x1 ![1] bcast_S1_S1x1_1 (constantI S1 32 16383#32)))
    (constantI S_ 1 1#1) reducesTo_S65536x1_S65536_d1 h_S_ bcast_S65536_S65536x128_0
    (broadcastInDim S65536x128 ![] bcast_S_S65536x128 (constant (F := Ideal) S_ .f32 0x7FC00000#32))
    (W (Proc.devRef .tc main_arg3)) 0 16383#32 ?_ ?_ ?_ ?_ ?_ hv hin t q
  · intro i; rfl
  · intro i; rfl
  · intro i; rfl
  · decide
  · intro k; rfl

set_option maxHeartbeats 4000000 in
/-- The take of `hostOps10_2` at (t, q): row (index t) of the operand, lane q; the index vector is row 0 of the index array. -/
theorem host10_2_v55 (W : Valuation τ sig (Elt Ideal))
    (hv : ∀ s : Fin 65536, W (Proc.devRef .tc main_v49) (ix1 s) = W (Proc.devRef .tc main_arg3) (ix2 (0 : Fin 2) s))
    (hin : ∀ i : S2x65536.Idx, 0 ≤ BitVec.toInt (W (Proc.devRef .tc main_arg3) i) ∧ BitVec.toInt (W (Proc.devRef .tc main_arg3) i) < 16384)
    (t : Fin 65536) (q : Fin 128) :
    StableHlo.after (hostOps10_2 (F := Ideal)) W (Proc.devRef .tc main_v55) (ix2 t q)
      = W (Proc.devRef .tc main_v52_1) (ix2 (Cert.ResultsSpec.idxFn 16384 (by decide) (W (Proc.devRef .tc main_arg3)) 0 t) q) := by
  after_results_simp
  refine take_read_idx (N := 16384) (E := 65536) (C := 128) (by decide) gather_S16384x128_S65536x1_S65536x128_1_0_n_n_0_1_1128_wf
    (W (Proc.devRef .tc main_v52_1)) (W (Proc.devRef .tc main_v49))
    (broadcastInDim S65536 ![] bcast_S_S65536 (constantI S_ 32 0#32))
    (broadcastInDim S65536 ![] bcast_S_S65536 (constantI S_ 32 16384#32))
    bcast_S65536_S65536x1_0
    (broadcastInDim S65536x1 ![] bcast_S_S65536x1 (constantI S_ 32 0#32))
    (broadcastInDim S65536x1 ![0, 1] bcast_S1x1_S65536x1_0_1 (broadcastInDim S1x1 ![1] bcast_S1_S1x1_1 (constantI S1 32 16383#32)))
    (constantI S_ 1 1#1) reducesTo_S65536x1_S65536_d1 h_S_ bcast_S65536_S65536x128_0
    (broadcastInDim S65536x128 ![] bcast_S_S65536x128 (constant (F := Ideal) S_ .f32 0x7FC00000#32))
    (W (Proc.devRef .tc main_arg3)) 0 16383#32 ?_ ?_ ?_ ?_ ?_ hv hin t q
  · intro i; rfl
  · intro i; rfl
  · intro i; rfl
  · decide
  · intro k; rfl

end Cert.ReferenceIdeal.Val

end
-- ==== Proof.RV.HostScatter.lean ====
/-
  The four stretches that aggregate edge rows at their destination nodes: each runs two scatter-adds of rows
  into a zero array, and each result at (n, q) is the sum of lane q of the update rows whose destination is n.
-/
import proofs.«117664_g2000706958607885_pallasbulk_534_41_alg».proof.Proof.RefLaunch
import proofs.«117664_g2000706958607885_pallasbulk_534_41_alg».proof.Proof.RV.HostLib

set_option maxRecDepth 200000

noncomputable section

namespace Cert.ReferenceIdeal.Val

open Cert.ReferenceIdeal Cert.ReferenceIdeal.Gen Cert.ReferenceIdeal.GenP
open Idealize.ShloMosaic Idealize.ShloMosaic.TcCoe Idealize.ShloMosaic.ValueIdx
open Cert.HostRead
open scoped BigOperators

set_option maxHeartbeats 1000000 in
/-- The first scatter-add of `hostOps2` at (n, q): the sum, into zero, of lane q of the update rows whose
    destination (row 1 of the index array) is n. -/
theorem host2_v11 (W : Valuation τ sig (Elt Ideal))
    (hv : ∀ s : Fin 131072, W (Proc.devRef .tc main_v3) (ix1 s) = W (Proc.devRef .tc main_arg4) (ix2 (1 : Fin 2) s))
    (hin : ∀ i : S2x131072.Idx, 0 ≤ BitVec.toInt (W (Proc.devRef .tc main_arg4) i) ∧ BitVec.toInt (W (Proc.devRef .tc main_arg4) i) < 65536)
    (n : Fin 65536) (q : Fin 128) :
    StableHlo.after (hostOps2 (F := Ideal)) W (Proc.devRef .tc main_v11) (ix2 n q)
      = Cert.Bridge.segSum (Cert.ResultsSpec.idxFn 65536 (by decide) (W (Proc.devRef .tc main_arg4)) 1)
          (Cert.ResultsSpec.rows (N := 131072) (W (Proc.devRef .tc main_v8_1))) n q := by
  after_results_simp
  exact scatter_read (N := 65536) (E := 131072) (by decide) scatter_S65536x128_S131072x1_S131072x128_1_0_0_1_wf
    (broadcastInDim S65536x128 ![] bcast_S_S65536x128 (constant (F := Ideal) S_ .f32 0x00000000#32))
    (W (Proc.devRef .tc main_v3)) bcast_S131072_S131072x1_0 (W (Proc.devRef .tc main_v8_1)) (W (Proc.devRef .tc main_arg4)) 1 (fun _ => rfl) hv hin n q

set_option maxHeartbeats 1000000 in
/-- The second scatter-add of `hostOps2` at (n, q): the sum, into zero, of lane q of the update rows whose
    destination (row 1 of the index array) is n. -/
theorem host2_v14 (W : Valuation τ sig (Elt Ideal))
    (hv : ∀ s : Fin 131072, W (Proc.devRef .tc main_v3) (ix1 s) = W (Proc.devRef .tc main_arg4) (ix2 (1 : Fin 2) s))
    (hin : ∀ i : S2x131072.Idx, 0 ≤ BitVec.toInt (W (Proc.devRef .tc main_arg4) i) ∧ BitVec.toInt (W (Proc.devRef .tc main_arg4) i) < 65536)
    (n : Fin 65536) (q : Fin 128) :
    StableHlo.after (hostOps2 (F := Ideal)) W (Proc.devRef .tc main_v14) (ix2 n q)
      = Cert.Bridge.segSum (Cert.ResultsSpec.idxFn 65536 (by decide) (W (Proc.devRef .tc main_arg4)) 1)
          (Cert.ResultsSpec.rows (N := 131072) (W (Proc.devRef .tc main_v8_2))) n q := by
  after_results_simp
  exact scatter_read (N := 65536) (E := 131072) (by decide) scatter_S65536x128_S131072x1_S131072x128_1_0_0_1_wf
    (broadcastInDim S65536x128 ![] bcast_S_S65536x128 (constant (F := Ideal) S_ .f32 0x00000000#32))
    (W (Proc.devRef .tc main_v3)) bcast_S131072_S131072x1_0 (W (Proc.devRef .tc main_v8_2)) (W (Proc.devRef .tc main_arg4)) 1 (fun _ => rfl) hv hin n q

set_option maxHeartbeats 1000000 in
/-- The first scatter-add of `hostOps5` at (n, q): the sum, into zero, of lane q of the update rows whose
    destination (row 1 of the index array) is n. -/
theorem host5_v27 (W : Valuation τ sig (Elt Ideal))
    (hv : ∀ s : Fin 65536, W (Proc.devRef .tc main_v19) (ix1 s) = W (Proc.devRef .tc main_arg3) (ix2 (1 : Fin 2) s))
    (hin : ∀ i : S2x65536.Idx, 0 ≤ BitVec.toInt (W (Proc.devRef .tc main_arg3) i) ∧ BitVec.toInt (W (Proc.devRef .tc main_arg3) i) < 16384)
    (n : Fin 16384) (q : Fin 128) :
    StableHlo.after (hostOps5 (F := Ideal)) W (Proc.devRef .tc main_v27) (ix2 n q)
      = Cert.Bridge.segSum (Cert.ResultsSpec.idxFn 16384 (by decide) (W (Proc.devRef .tc main_arg3)) 1)
          (Cert.ResultsSpec.rows (N := 65536) (W (Proc.devRef .tc main_v24_1))) n q := by
  after_results_simp
  exact scatter_read (N := 16384) (E := 65536) (by decide) scatter_S16384x128_S65536x1_S65536x128_1_0_0_1_wf
    (broadcastInDim S16384x128 ![] bcast_S_S16384x128 (constant (F := Ideal) S_ .f32 0x00000000#32))
    (W (Proc.devRef .tc main_v19)) bcast_S65536_S65536x1_0 (W (Proc.devRef .tc main_v24_1)) (W (Proc.devRef .tc main_arg3)) 1 (fun _ => rfl) hv hin n q

set_option maxHeartbeats 1000000 in
/-- The second scatter-add of `hostOps5` at (n, q): the sum, into zero, of lane q of the update rows whose
    destination (row 1 of the index array) is n. -/
theorem host5_v30 (W : Valuation τ sig (Elt Ideal))
    (hv : ∀ s : Fin 65536, W (Proc.devRef .tc main_v19) (ix1 s) = W (Proc.devRef .tc main_arg3) (ix2 (1 : Fin 2) s))
    (hin : ∀ i : S2x65536.Idx, 0 ≤ BitVec.toInt (W (Proc.devRef .tc main_arg3) i) ∧ BitVec.toInt (W (Proc.devRef .tc main_arg3) i) < 16384)
    (n : Fin 16384) (q : Fin 128) :
    StableHlo.after (hostOps5 (F := Ideal)) W (Proc.devRef .tc main_v30) (ix2 n q)
      = Cert.Bridge.segSum (Cert.ResultsSpec.idxFn 16384 (by decide) (W (Proc.devRef .tc main_arg3)) 1)
          (Cert.ResultsSpec.rows (N := 65536) (W (Proc.devRef .tc main_v24_2))) n q := by
  after_results_simp
  exact scatter_read (N := 16384) (E := 65536) (by decide) scatter_S16384x128_S65536x1_S65536x128_1_0_0_1_wf
    (broadcastInDim S16384x128 ![] bcast_S_S16384x128 (constant (F := Ideal) S_ .f32 0x00000000#32))
    (W (Proc.devRef .tc main_v19)) bcast_S65536_S65536x1_0 (W (Proc.devRef .tc main_v24_2)) (W (Proc.devRef .tc main_arg3)) 1 (fun _ => rfl) hv hin n q

set_option maxHeartbeats 1000000 in
/-- The first scatter-add of `hostOps8` at (n, q): the sum, into zero, of lane q of the update rows whose
    destination (row 1 of the index array) is n. -/
theorem host8_v43 (W : Valuation τ sig (Elt Ideal))
    (hv : ∀ s : Fin 131072, W (Proc.devRef .tc main_v35) (ix1 s) = W (Proc.devRef .tc main_arg4) (ix2 (1 : Fin 2) s))
    (hin : ∀ i : S2x131072.Idx, 0 ≤ BitVec.toInt (W (Proc.devRef .tc main_arg4) i) ∧ BitVec.toInt (W (Proc.devRef .tc main_arg4) i) < 65536)
    (n : Fin 65536) (q : Fin 128) :
    StableHlo.after (hostOps8 (F := Ideal)) W (Proc.devRef .tc main_v43) (ix2 n q)
      = Cert.Bridge.segSum (Cert.ResultsSpec.idxFn 65536 (by decide) (W (Proc.devRef .tc main_arg4)) 1)
          (Cert.ResultsSpec.rows (N := 131072) (W (Proc.devRef .tc main_v40_1))) n q := by
  after_results_simp
  exact scatter_read (N := 65536) (E := 131072) (by decide) scatter_S65536x128_S131072x1_S131072x128_1_0_0_1_wf
    (broadcastInDim S65536x128 ![] bcast_S_S65536x128 (constant (F := Ideal) S_ .f32 0x00000000#32))
    (W (Proc.devRef .tc main_v35)) bcast_S131072_S131072x1_0 (W (Proc.devRef .tc main_v40_1)) (W (Proc.devRef .tc main_arg4)) 1 (fun _ => rfl) hv hin n q

set_option maxHeartbeats 1000000 in
/-- The second scatter-add of `hostOps8` at (n, q): the sum, into zero, of lane q of the update rows whose
    destination (row 1 of the index array) is n. -/
theorem host8_v46 (W : Valuation τ sig (Elt Ideal))
    (hv : ∀ s : Fin 131072, W (Proc.devRef .tc main_v35) (ix1 s) = W (Proc.devRef .tc main_arg4) (ix2 (1 : Fin 2) s))
    (hin : ∀ i : S2x131072.Idx, 0 ≤ BitVec.toInt (W (Proc.devRef .tc main_arg4) i) ∧ BitVec.toInt (W (Proc.devRef .tc main_arg4) i) < 65536)
    (n : Fin 65536) (q : Fin 128) :
    StableHlo.after (hostOps8 (F := Ideal)) W (Proc.devRef .tc main_v46) (ix2 n q)
      = Cert.Bridge.segSum (Cert.ResultsSpec.idxFn 65536 (by decide) (W (Proc.devRef .tc main_arg4)) 1)
          (Cert.ResultsSpec.rows (N := 131072) (W (Proc.devRef .tc main_v40_2))) n q := by
  after_results_simp
  exact scatter_read (N := 65536) (E := 131072) (by decide) scatter_S65536x128_S131072x1_S131072x128_1_0_0_1_wf
    (broadcastInDim S65536x128 ![] bcast_S_S65536x128 (constant (F := Ideal) S_ .f32 0x00000000#32))
    (W (Proc.devRef .tc main_v35)) bcast_S131072_S131072x1_0 (W (Proc.devRef .tc main_v40_2)) (W (Proc.devRef .tc main_arg4)) 1 (fun _ => rfl) hv hin n q

set_option maxHeartbeats 1000000 in
/-- The first scatter-add of `hostOps11` at (n, q): the sum, into zero, of lane q of the update rows whose
    destination (row 1 of the index array) is n. -/
theorem host11_v59 (W : Valuation τ sig (Elt Ideal))
    (hv : ∀ s : Fin 65536, W (Proc.devRef .tc main_v51) (ix1 s) = W (Proc.devRef .tc main_arg3) (ix2 (1 : Fin 2) s))
    (hin : ∀ i : S2x65536.Idx, 0 ≤ BitVec.toInt (W (Proc.devRef .tc main_arg3) i) ∧ BitVec.toInt (W (Proc.devRef .tc main_arg3) i) < 16384)
    (n : Fin 16384) (q : Fin 128) :
    StableHlo.after (hostOps11 (F := Ideal)) W (Proc.devRef .tc main_v59) (ix2 n q)
      = Cert.Bridge.segSum (Cert.ResultsSpec.idxFn 16384 (by decide) (W (Proc.devRef .tc main_arg3)) 1)
          (Cert.ResultsSpec.rows (N := 65536) (W (Proc.devRef .tc main_v56_1))) n q := by
  after_results_simp
  exact scatter_read (N := 16384) (E := 65536) (by decide) scatter_S16384x128_S65536x1_S65536x128_1_0_0_1_wf
    (broadcastInDim S16384x128 ![] bcast_S_S16384x128 (constant (F := Ideal) S_ .f32 0x00000000#32))
    (W (Proc.devRef .tc main_v51)) bcast_S65536_S65536x1_0 (W (Proc.devRef .tc main_v56_1)) (W (Proc.devRef .tc main_arg3)) 1 (fun _ => rfl) hv hin n q

set_option maxHeartbeats 1000000 in
/-- The second scatter-add of `hostOps11` at (n, q): the sum, into zero, of lane q of the update rows whose
    destination (row 1 of the index array) is n. -/
theorem host11_v62 (W : Valuation τ sig (Elt Ideal))
    (hv : ∀ s : Fin 65536, W (Proc.devRef .tc main_v51) (ix1 s) = W (Proc.devRef .tc main_arg3) (ix2 (1 : Fin 2) s))
    (hin : ∀ i : S2x65536.Idx, 0 ≤ BitVec.toInt (W (Proc.devRef .tc main_arg3) i) ∧ BitVec.toInt (W (Proc.devRef .tc main_arg3) i) < 16384)
    (n : Fin 16384) (q : Fin 128) :
    StableHlo.after (hostOps11 (F := Ideal)) W (Proc.devRef .tc main_v62) (ix2 n q)
      = Cert.Bridge.segSum (Cert.ResultsSpec.idxFn 16384 (by decide) (W (Proc.devRef .tc main_arg3)) 1)
          (Cert.ResultsSpec.rows (N := 65536) (W (Proc.devRef .tc main_v56_2))) n q := by
  after_results_simp
  exact scatter_read (N := 16384) (E := 65536) (by decide) scatter_S16384x128_S65536x1_S65536x128_1_0_0_1_wf
    (broadcastInDim S16384x128 ![] bcast_S_S16384x128 (constant (F := Ideal) S_ .f32 0x00000000#32))
    (W (Proc.devRef .tc main_v51)) bcast_S65536_S65536x1_0 (W (Proc.devRef .tc main_v56_2)) (W (Proc.devRef .tc main_arg3)) 1 (fun _ => rfl) hv hin n q

end Cert.ReferenceIdeal.Val

end
-- ==== Proof.RV.Block.lean ====
/-
  One 256 × 128 block of extended reals read at an index: the operations the reference's kernel bodies
  apply to a block — the product with a 128 × 128 matrix, the broadcast of a 1 × 128 row down the rows,
  the sum along the lanes, its 256 × 1 column form and that column's broadcast along the lanes — each
  read at row r and lane q.
-/
import proofs.«117664_g2000706958607885_pallasbulk_534_41_alg».proof.Proof.Gen.ReferenceIdeal.Skeleton
import proofs.«117664_g2000706958607885_pallasbulk_534_41_alg».proof.Proof.Spec
import Idealize.ShloMosaic.Lib.ValueIdx
import Idealize.ShloMosaic.Lib.Pipeline.Value
import Idealize.ShloMosaic.PureOps.Ideal.Laws

noncomputable section

namespace Cert.ReferenceIdeal.Val

open Idealize.ShloMosaic Idealize.ShloMosaic.ValueIdx Cert.ReferenceIdeal Cert.ReferenceIdeal.Gen
open scoped BigOperators

/-- Row r of a block, as a row of 128 lanes. -/
abbrev rowOf {n : Nat} (v : (⟨2, ![n, 128]⟩ : Shape).Idx → EReal) (r : Fin n) : Spec.Row := fun k => v (ix2 r k)

/-- A 128 × 128 matrix by its two coordinates. -/
abbrev matOf (w : (⟨2, ![128, 128]⟩ : Shape).Idx → EReal) : Fin 128 → Fin 128 → EReal := fun k q => w (ix2 k q)

/-- A 1 × 128 array as a row. -/
abbrev vecOf (b : (⟨2, ![1, 128]⟩ : Shape).Idx → EReal) : Spec.Row := fun q => b (ix2 (0 : Fin 1) q)

/-- The block times the matrix, accumulated into the zero splat, at (r, q): the sum over the contracted lane. -/
theorem matmul_at (x : FVec Ideal S256x128 .f32) (w : FVec Ideal S128x128 .f32) (r : Fin 256) (q : Fin 128) :
    matmul dot_S256x128_S128x128_S256x128_1_0_0_1_n_n none x w (constant (F := Ideal) S256x128 .f32 0x00000000#32) (ix2 r q)
      = ∑ k : Fin 128, x (ix2 r k) * w (ix2 k q) := by
  show FloatOps.matmul _ none x w (constant (F := Ideal) S256x128 .f32 0x00000000#32) (ix2 r q) = _
  rw [Ideal.matmul_constant_zero_apply,
    ← Equiv.sum_comp (contrEquiv1 dot_S256x128_S128x128_S256x128_1_0_0_1_n_n 128 rfl rfl).symm]
  refine Finset.sum_congr rfl fun c _ => ?_
  have c2 := contrEquiv1_symm_val dot_S256x128_S128x128_S256x128_1_0_0_1_n_n 128 rfl rfl c
  have l2 : dot_S256x128_S128x128_S256x128_1_0_0_1_n_n.lhsIdx (ix2 r q) ((contrEquiv1 _ 128 rfl rfl).symm c) = ix2 r c := by
    funext ax; apply Fin.ext
    match ax with
    | ⟨0, _⟩ => simp [DotDims.lhsIdx, dot_S256x128_S128x128_S256x128_1_0_0_1_n_n]; rfl
    | ⟨1, _⟩ => simp [DotDims.lhsIdx, dot_S256x128_S128x128_S256x128_1_0_0_1_n_n]; exact c2
  have r2 : dot_S256x128_S128x128_S256x128_1_0_0_1_n_n.rhsIdx (ix2 r q) ((contrEquiv1 _ 128 rfl rfl).symm c) = ix2 c q := by
    funext ax; apply Fin.ext
    match ax with
    | ⟨0, _⟩ => simp [DotDims.rhsIdx, dot_S256x128_S128x128_S256x128_1_0_0_1_n_n]; exact c2
    | ⟨1, _⟩ => simp [DotDims.rhsIdx, dot_S256x128_S128x128_S256x128_1_0_0_1_n_n]; rfl
  rw [l2, r2]

/-- A 1 × 128 row broadcast down the 256 rows reads its lane. -/
theorem bcast_row_at (b : FVec Ideal S1x128 .f32) (r : Fin 256) (q : Fin 128) :
    broadcastTo S256x128 b broadcasts_S1x128_S256x128 (ix2 r q) = b (ix2 (0 : Fin 1) q) :=
  broadcastTo_apply b broadcasts_S1x128_S256x128 (ix2 r q) (ix2 (0 : Fin 1) q) (by
    intro a
    match a with
    | ⟨0, _⟩ => rfl
    | ⟨1, _⟩ => rfl)

/-- The sum along the lanes, at row r. -/
theorem lanesum_at (v : FVec Ideal S256x128 .f32) (hφ : FKind.Formats .f32)
    (hacc : (0x00000000#32 : BitVec 32) = FKind.add.neutral .f32 hφ) (r : Fin 256) :
    multiReduction .add [1] S256 v 0x00000000#32 reduces_S256x128_S256 hφ hacc (ix1 r) = ∑ k : Fin 128, v (ix2 r k) := by
  refine (Ideal.multiReduction_add_single v 0x00000000#32 reduces_S256x128_S256 hφ hacc (ix1 r)).trans ?_
  refine Finset.sum_congr rfl fun k _ => congrArg v ?_
  funext a; apply Fin.ext
  match a with
  | ⟨0, _⟩ => rfl
  | ⟨1, _⟩ => rfl

/-- A vector of 256 entries viewed as a 256 × 1 column. -/
theorem col_at (v : FVec Ideal S256 .f32) (r : Fin 256) :
    shapeCast S256x1 v shapeCasts_S256_S256x1 (ix2 r (0 : Fin 1)) = v (ix1 r) :=
  shapeCast_apply v shapeCasts_S256_S256x1 (ix2 r (0 : Fin 1)) (ix1 r) (by
    rw [Shape.rowMajor_val_one, Shape.rowMajor_val_two]; show r.val = r.val * 1 + 0; omega)

/-- A 256 × 1 column broadcast along the 128 lanes reads its row. -/
theorem bcast_col_at (v : FVec Ideal S256x1 .f32) (r : Fin 256) (q : Fin 128) :
    broadcastTo S256x128 v broadcasts_S256x1_S256x128 (ix2 r q) = v (ix2 r (0 : Fin 1)) :=
  broadcastTo_apply v broadcasts_S256x1_S256x128 (ix2 r q) (ix2 r (0 : Fin 1)) (by
    intro a
    match a with
    | ⟨0, _⟩ => rfl
    | ⟨1, _⟩ => rfl)

/-- The reciprocal square root, the logistic function and a splat scalar, lane by lane. -/
theorem rsqrt_at {s : Shape} (v : FVec Ideal s .f32) (i : s.Idx) : rsqrt v i = Ideal.rsqrt (v i) := rfl
theorem logistic_at {s : Shape} (v : FVec Ideal s .f32) (i : s.Idx) : logistic v i = Ideal.logistic (v i) := rfl

end Cert.ReferenceIdeal.Val

end
-- ==== Proof.RV.Pay.lean ====
/-
  The reference's three kernel bodies read at an index of their 256 × 128 block (row r, lane q), as the
  row functions of the specification applied to row r of the input blocks:
    node_linear : x·W + b;
    edge_update : the pre-activation ((((xd·W_A + b_A) + xs·W_B) + b_B) + e·W_C) + b_C, its residual update
                  e + silu (LN …), the gate logistic(…) times the validity mask (which is 1 on every row,
                  the row count being a multiple of the tile), and the gated message;
    node_update : x + silu (LN (hs + num / (den + ε))).
  The lane sums carry a proof that the accumulator word is the sum's neutral element; the general lemmas
  below take that proof as a variable, and a body's own text is matched against them up to unfolding.
-/
import proofs.«117664_g2000706958607885_pallasbulk_534_41_alg».proof.Proof.RV.Block

noncomputable section

namespace Cert.ReferenceIdeal.Val

open Idealize.ShloMosaic Idealize.ShloMosaic.ValueIdx Cert.ReferenceIdeal Cert.ReferenceIdeal.Gen
open scoped BigOperators

/-! ## The mean of a row, and the layer normalisation of a block, as the bodies spell them -/

/-- The 256 × 1 column of row means: the lane sum, as a column, divided by the splat 128. -/
def meanCol (v : FVec Ideal S256x128 .f32) (hφ : FKind.Formats .f32)
    (hacc : (0x00000000#32 : BitVec 32) = FKind.add.neutral .f32 hφ) : FVec Ideal S256x1 .f32 :=
  divf (shapeCast S256x1 (multiReduction .add [1] S256 v 0x00000000#32 reduces_S256x128_S256 hφ hacc) shapeCasts_S256_S256x1)
    (broadcast S256x1 (Scalar.ofBits .f32 0x43000000#32 : Ideal .f32))

theorem meanCol_at (v : FVec Ideal S256x128 .f32) (hφ : FKind.Formats .f32)
    (hacc : (0x00000000#32 : BitVec 32) = FKind.add.neutral .f32 hφ) (r : Fin 256) :
    meanCol v hφ hacc (ix2 r (0 : Fin 1)) = Spec.rowMean (rowOf v r) :=
  congrArg (fun s => Ideal.div s Spec.c128) ((col_at _ r).trans (lanesum_at v hφ hacc r))

/-- The normalised block: ((v - mean) * rsqrt (var + ε)) * g + b, with the variance's mean given as a block
    (m1) and the centring's as a column (m2). -/
def lnBody (v m1 : FVec Ideal S256x128 .f32) (m2 : FVec Ideal S256x1 .f32) (g b : FVec Ideal S1x128 .f32)
    (hφ : FKind.Formats .f32) (hacc : (0x00000000#32 : BitVec 32) = FKind.add.neutral .f32 hφ) : FVec Ideal S256x128 .f32 :=
  addf (mulf (mulf (subf v (broadcastTo S256x128 m2 broadcasts_S256x1_S256x128))
        (broadcastTo S256x128 (rsqrt (addf (divf (shapeCast S256x1 (multiReduction .add [1] S256 (mulf (subf v m1) (subf v m1))
            0x00000000#32 reduces_S256x128_S256 hφ hacc) shapeCasts_S256_S256x1)
            (broadcast S256x1 (Scalar.ofBits .f32 0x43000000#32 : Ideal .f32)))
          (broadcast S256x1 (Scalar.ofBits .f32 0x3727C5AC#32 : Ideal .f32)))) broadcasts_S256x1_S256x128))
      (broadcastTo S256x128 g broadcasts_S1x128_S256x128))
    (broadcastTo S256x128 b broadcasts_S1x128_S256x128)

theorem lnBody_at (v m1 : FVec Ideal S256x128 .f32) (m2 : FVec Ideal S256x1 .f32) (g b : FVec Ideal S1x128 .f32)
    (hφ : FKind.Formats .f32) (hacc : (0x00000000#32 : BitVec 32) = FKind.add.neutral .f32 hφ) (r : Fin 256) (q : Fin 128)
    (h1 : ∀ k, m1 (ix2 r k) = Spec.rowMean (rowOf v r)) (h2 : m2 (ix2 r (0 : Fin 1)) = Spec.rowMean (rowOf v r)) :
    lnBody v m1 m2 g b hφ hacc (ix2 r q) = Spec.layerNorm (rowOf v r) (vecOf g) (vecOf b) q :=
  have e1 : broadcastTo S256x128 m2 broadcasts_S256x1_S256x128 (ix2 r q) = Spec.rowMean (rowOf v r) :=
    (bcast_col_at m2 r q).trans h2
  have e2 : divf (shapeCast S256x1 (multiReduction .add [1] S256 (mulf (subf v m1) (subf v m1))
        0x00000000#32 reduces_S256x128_S256 hφ hacc) shapeCasts_S256_S256x1)
        (broadcast S256x1 (Scalar.ofBits .f32 0x43000000#32 : Ideal .f32)) (ix2 r (0 : Fin 1)) = Spec.rowVar (rowOf v r) :=
    congrArg (fun s => Ideal.div s Spec.c128) ((col_at _ r).trans ((lanesum_at _ hφ hacc r).trans
      (Finset.sum_congr rfl fun k _ => congrArg (fun m => (v (ix2 r k) - m) * (v (ix2 r k) - m)) (h1 k))))
  have e3 : broadcastTo S256x128 (rsqrt (addf (divf (shapeCast S256x1 (multiReduction .add [1] S256 (mulf (subf v m1) (subf v m1))
            0x00000000#32 reduces_S256x128_S256 hφ hacc) shapeCasts_S256_S256x1)
            (broadcast S256x1 (Scalar.ofBits .f32 0x43000000#32 : Ideal .f32)))
          (broadcast S256x1 (Scalar.ofBits .f32 0x3727C5AC#32 : Ideal .f32)))) broadcasts_S256x1_S256x128 (ix2 r q)
        = Ideal.rsqrt (Spec.rowVar (rowOf v r) + Spec.cEps) :=
    (bcast_col_at _ r q).trans (congrArg (fun s => Ideal.rsqrt (s + Spec.cEps)) e2)
  congrArg₂ (· + ·) (congrArg₂ (· * ·) (congrArg₂ (· * ·) (congrArg (fun m => v (ix2 r q) - m) e1) e3) (bcast_row_at g r q))
    (bcast_row_at b r q)

/-! ## node_linear -/

theorem k0_pay1_at (x : FVec Ideal S256x128 .f32) (w : FVec Ideal S128x128 .f32) (b : FVec Ideal S1x128 .f32) (r : Fin 256) (q : Fin 128) :
    k0_pay1 (F := Ideal) x w b (ix2 r q) = Spec.dot (rowOf x r) (matOf w) q + vecOf b q := by
  unfold k0_pay1
  simp only [addf_apply, matmul_at, bcast_row_at]
  rfl

theorem k0_pay2_at (x : FVec Ideal S256x128 .f32) (w : FVec Ideal S128x128 .f32) (b : FVec Ideal S1x128 .f32) (r : Fin 256) (q : Fin 128) :
    k0_pay2 (F := Ideal) x w b (ix2 r q) = Spec.dot (rowOf x r) (matOf w) q + vecOf b q := by
  unfold k0_pay2
  simp only [addf_apply, matmul_at, bcast_row_at]
  rfl

/-! ## edge_update -/

theorem k1_pay4_at (xd : FVec Ideal S256x128 .f32) (wA : FVec Ideal S128x128 .f32) (bA : FVec Ideal S1x128 .f32)
    (xs : FVec Ideal S256x128 .f32) (wB : FVec Ideal S128x128 .f32) (bB : FVec Ideal S1x128 .f32)
    (e : FVec Ideal S256x128 .f32) (wC : FVec Ideal S128x128 .f32) (bC : FVec Ideal S1x128 .f32) (r : Fin 256) (q : Fin 128) :
    k1_pay4 (F := Ideal) xd wA bA xs wB bB e wC bC (ix2 r q)
      = Spec.refEhat (rowOf xd r) (rowOf xs r) (rowOf e r) (matOf wA) (matOf wB) (matOf wC) (vecOf bA) (vecOf bB) (vecOf bC) q := by
  unfold k1_pay4
  simp only [addf_apply, shapeCast_self, matmul_at, bcast_row_at]
  rfl

/-- The pre-activation's row r. -/
theorem k1_pay4_row (xd : FVec Ideal S256x128 .f32) (wA : FVec Ideal S128x128 .f32) (bA : FVec Ideal S1x128 .f32)
    (xs : FVec Ideal S256x128 .f32) (wB : FVec Ideal S128x128 .f32) (bB : FVec Ideal S1x128 .f32)
    (e : FVec Ideal S256x128 .f32) (wC : FVec Ideal S128x128 .f32) (bC : FVec Ideal S1x128 .f32) (r : Fin 256) :
    rowOf (k1_pay4 (F := Ideal) xd wA bA xs wB bB e wC bC) r
      = Spec.refEhat (rowOf xd r) (rowOf xs r) (rowOf e r) (matOf wA) (matOf wB) (matOf wC) (vecOf bA) (vecOf bB) (vecOf bC) :=
  funext fun q => k1_pay4_at xd wA bA xs wB bB e wC bC r q

/-- The residual update of the edge features, for any pre-activation block v with its means. -/
theorem k1_pay1_at (v e : FVec Ideal S256x128 .f32) (g b : FVec Ideal S1x128 .f32)
    (hφ : FKind.Formats .f32) (hacc : (0x00000000#32 : BitVec 32) = FKind.add.neutral .f32 hφ) (r : Fin 256) (q : Fin 128) :
    k1_pay1 (F := Ideal) v e g b (meanCol v hφ hacc) (broadcastTo S256x128 (meanCol v hφ hacc) broadcasts_S256x1_S256x128) (ix2 r q)
      = Spec.resid (rowOf e r) (rowOf v r) (vecOf g) (vecOf b) q :=
  congrArg (fun z => e (ix2 r q) + z * Ideal.logistic z)
    (lnBody_at v (broadcastTo S256x128 (meanCol v hφ hacc) broadcasts_S256x1_S256x128) (meanCol v hφ hacc) g b _ _ r q
      (fun k => (bcast_col_at _ r k).trans (meanCol_at v hφ hacc r)) (meanCol_at v hφ hacc r))

/-! ## node_update -/

/-- The block the node update normalises: hs + num / (den + ε). -/
def nodeBlk (num den hs : FVec Ideal S256x128 .f32) : FVec Ideal S256x128 .f32 :=
  addf (shapeCast S256x128 hs shapeCasts_S256x128_S256x128)
    (divf (shapeCast S256x128 num shapeCasts_S256x128_S256x128)
      (addf (shapeCast S256x128 den shapeCasts_S256x128_S256x128) (broadcast S256x128 (Scalar.ofBits .f32 0x3727C5AC#32 : Ideal .f32))))

theorem nodeBlk_row (num den hs : FVec Ideal S256x128 .f32) (r : Fin 256) :
    rowOf (nodeBlk num den hs) r = Spec.nodeRow (rowOf hs r) (rowOf num r) (rowOf den r) := by
  funext k
  unfold nodeBlk
  simp only [addf_apply, divf_apply, shapeCast_self, broadcast_apply]
  rfl

theorem k2_pay1_at (num den hs x : FVec Ideal S256x128 .f32) (g b : FVec Ideal S1x128 .f32) (r : Fin 256) (q : Fin 128) :
    k2_pay1 (F := Ideal) num den hs x g b (ix2 r q)
      = Spec.resid (rowOf x r) (Spec.nodeRow (rowOf hs r) (rowOf num r) (rowOf den r)) (vecOf g) (vecOf b) q :=
  (congrArg (fun z => x (ix2 r q) + z * Ideal.logistic z)
    (lnBody_at (nodeBlk num den hs) (broadcastTo S256x128 (meanCol (nodeBlk num den hs) _ _) broadcasts_S256x1_S256x128)
      (meanCol (nodeBlk num den hs) _ _) g b _ _ r q
      (fun k => (bcast_col_at _ r k).trans (meanCol_at _ _ _ r)) (meanCol_at _ _ _ r))).trans
    (congrArg (fun v => Spec.resid (rowOf x r) v (vecOf g) (vecOf b) q) (nodeBlk_row num den hs r))

end Cert.ReferenceIdeal.Val

end
-- ==== Proof.RV.Mask.lean ====
/-
  The edge kernel's validity mask and what it multiplies. The body compares the global row number
  i·256 + r (i the grid position, r the row inside the tile) with the row count, as signed 32-bit words;
  below the row count the comparison's bit is 1, whose conversion is the extended real 1, so the gate is
  logistic of the pre-activation and the message is the gate times the gathered neighbour row.
-/
import proofs.«117664_g2000706958607885_pallasbulk_534_41_alg».proof.Proof.RV.Block

noncomputable section

namespace Cert.ReferenceIdeal.Val

open Idealize.ShloMosaic Idealize.ShloMosaic.ValueIdx Cert.ReferenceIdeal Cert.ReferenceIdeal.Gen
open scoped BigOperators

/-- For naturals with i·256 + r < N < 2³¹ the signed comparison of the words (i·256 + r) and N says "less". -/
theorem mask_word (i r N : Nat) (h : i * 256 + r < N) (hN : N < 2147483648) :
    IntOp.cmpi .slt (IntOp.addi (Scalar.muli (BitVec.ofNat 32 i) 256#32) (BitVec.ofNat 32 r)) (BitVec.ofNat 32 N) = 1#1 := by
  have e : IntOp.addi (Scalar.muli (BitVec.ofNat 32 i) 256#32) (BitVec.ofNat 32 r) = BitVec.ofNat 32 (i * 256 + r) := by
    apply BitVec.eq_of_toNat_eq
    show (BitVec.ofNat 32 i * BitVec.ofNat 32 256 + BitVec.ofNat 32 r).toNat = _
    simp only [BitVec.toNat_add, BitVec.toNat_mul, BitVec.toNat_ofNat]
    omega
  rw [e]
  have hx : (BitVec.ofNat 32 (i * 256 + r)).toNat = i * 256 + r := by
    rw [BitVec.toNat_ofNat]; exact Nat.mod_eq_of_lt (by omega)
  have hy : (BitVec.ofNat 32 N).toNat = N := by
    rw [BitVec.toNat_ofNat]; exact Nat.mod_eq_of_lt (by omega)
  have hs : BitVec.slt (BitVec.ofNat 32 (i * 256 + r)) (BitVec.ofNat 32 N) = true := by
    unfold BitVec.slt BitVec.toInt
    rw [hx, hy, if_pos (by omega), if_pos (by omega)]
    exact decide_eq_true (by omega)
  show BitVec.ofBool (BitVec.slt (BitVec.ofNat 32 (i * 256 + r)) (BitVec.ofNat 32 N)) = 1#1
  rw [hs]; rfl

/-- The one-bit word 1, widened and converted, is the extended real 1. -/
theorem sitofp_one : (FloatOps.sitofp .f32 ((1#1 : BitVec 1).setWidth 32) : Ideal .f32) = (1 : EReal) := by
  show (((((1#1 : BitVec 1).setWidth 32).toInt : ℤ) : ℝ) : EReal) = 1
  rw [show ((1#1 : BitVec 1).setWidth 32).toInt = 1 from by decide]
  simp

/-- The gate: logistic of the pre-activation times the mask, the mask being 1 (N the row count the body compares with). -/
theorem gate_mask_at (N : BitVec 32) (i : BitVec 32) (v : FVec Ideal S256x128 .f32) (r : Fin 256) (q : Fin 128)
    (hm : IntOp.cmpi .slt (IntOp.addi (Scalar.muli i 256#32) (BitVec.ofNat 32 r.val)) N = 1#1) :
    mulf (logistic v) (broadcastTo S256x128 (sitofp .f32 (extui 32 (cmpi .slt (addi (broadcast S256x1 (Scalar.muli i 256#32))
      (iota .tc S256x1 32 [0] iota_S256x1_d0_w32)) (broadcast S256x1 N)) natLt_1_32) : FVec Ideal S256x1 .f32)
      broadcasts_S256x1_S256x128) (ix2 r q) = Spec.gate (rowOf v r) q := by
  show Ideal.logistic (v (ix2 r q)) * (broadcastTo S256x128 (sitofp .f32 (extui 32 (cmpi .slt (addi (broadcast S256x1 (Scalar.muli i 256#32))
      (iota .tc S256x1 32 [0] iota_S256x1_d0_w32)) (broadcast S256x1 N)) natLt_1_32) : FVec Ideal S256x1 .f32)
      broadcasts_S256x1_S256x128 (ix2 r q)) = _
  rw [bcast_col_at]
  show Ideal.logistic (v (ix2 r q)) * (FloatOps.sitofp .f32 ((IntOp.cmpi .slt (IntOp.addi (Scalar.muli i 256#32)
      (iota .tc S256x1 32 [0] iota_S256x1_d0_w32 (ix2 r (0 : Fin 1)))) N).setWidth 32) : Ideal .f32) = _
  rw [iota_single_apply]
  show Ideal.logistic (v (ix2 r q)) * (FloatOps.sitofp .f32 ((IntOp.cmpi .slt (IntOp.addi (Scalar.muli i 256#32)
      (BitVec.ofNat 32 r.val)) N).setWidth 32) : Ideal .f32) = _
  rw [hm, sitofp_one, mul_one]
  rfl

/-- The gate of the edge kernel over 131072 rows. -/
theorem k1_pay2_at (i : BitVec 32) (v : FVec Ideal S256x128 .f32) (r : Fin 256) (q : Fin 128)
    (hm : IntOp.cmpi .slt (IntOp.addi (Scalar.muli i 256#32) (BitVec.ofNat 32 r.val)) 131072#32 = 1#1) :
    k1_pay2 (F := Ideal) i v (ix2 r q) = Spec.gate (rowOf v r) q :=
  gate_mask_at 131072#32 i v r q hm

/-- Its gated message. -/
theorem k1_pay3_at (i : BitVec 32) (v ms : FVec Ideal S256x128 .f32) (r : Fin 256) (q : Fin 128)
    (hm : IntOp.cmpi .slt (IntOp.addi (Scalar.muli i 256#32) (BitVec.ofNat 32 r.val)) 131072#32 = 1#1) :
    k1_pay3 (F := Ideal) i v ms (ix2 r q) = Spec.gate (rowOf v r) q * ms (ix2 r q) := by
  show k1_pay2 (F := Ideal) i v (ix2 r q) * shapeCast S256x128 ms shapeCasts_S256x128_S256x128 (ix2 r q) = _
  rw [shapeCast_self, k1_pay2_at i v r q hm]

/-- The gate of the edge kernel over 65536 rows. -/
theorem k4_pay2_at (i : BitVec 32) (v : FVec Ideal S256x128 .f32) (r : Fin 256) (q : Fin 128)
    (hm : IntOp.cmpi .slt (IntOp.addi (Scalar.muli i 256#32) (BitVec.ofNat 32 r.val)) 65536#32 = 1#1) :
    k4_pay2 (F := Ideal) i v (ix2 r q) = Spec.gate (rowOf v r) q :=
  gate_mask_at 65536#32 i v r q hm

/-- Its gated message. -/
theorem k4_pay3_at (i : BitVec 32) (v ms : FVec Ideal S256x128 .f32) (r : Fin 256) (q : Fin 128)
    (hm : IntOp.cmpi .slt (IntOp.addi (Scalar.muli i 256#32) (BitVec.ofNat 32 r.val)) 65536#32 = 1#1) :
    k4_pay3 (F := Ideal) i v ms (ix2 r q) = Spec.gate (rowOf v r) q * ms (ix2 r q) := by
  show k4_pay2 (F := Ideal) i v (ix2 r q) * shapeCast S256x128 ms shapeCasts_S256x128_S256x128 (ix2 r q) = _
  rw [shapeCast_self, k4_pay2_at i v r q hm]

end Cert.ReferenceIdeal.Val

end
-- ==== Proof.RV.ArrDefs.lean ====
/-
  What is common to the reference's regions when their blocks are read back into arrays: the zero
  offset of a whole-buffer rectangle, and the three array functions of a layer on N × 128 arrays —
  the linear map of the node rows, the edge kernel's three results, the node update.
-/
import proofs.«117664_g2000706958607885_pallasbulk_534_41_alg».proof.Proof.RefFrame
import proofs.«117664_g2000706958607885_pallasbulk_534_41_alg».proof.Proof.RV.Pay
import proofs.«117664_g2000706958607885_pallasbulk_534_41_alg».proof.Proof.RV.Mask

set_option maxRecDepth 16384

noncomputable section

namespace Cert.ReferenceIdeal.Val

open Cert.ReferenceIdeal Cert.ReferenceIdeal.Gen Cert.ReferenceIdeal.GenP
open Idealize.ShloMosaic Idealize.ShloMosaic.TcCoe Idealize.ShloMosaic.ValueIdx Idealize.SL.Sem
open Idealize.ShloMosaic.Pipeline (Dat)
open scoped BigOperators

-- (no section variable here)
-- variable (V : (c : Dev nD) → (b : Ref sig .tc) → Buf (Elt Ideal) ((c : Thread nD τ).loc b))

theorem hz2 : (![0, 0] : Fin 2 → Nat) = fun _ => 0 := funext fun a => by fin_cases a <;> rfl

/-- x·W + b, row by row. -/
def linArr {n : Nat} (x : (⟨2, ![n, 128]⟩ : Shape).Idx → EReal) (w : (⟨2, ![128, 128]⟩ : Shape).Idx → EReal)
    (b : (⟨2, ![1, 128]⟩ : Shape).Idx → EReal) : (⟨2, ![n, 128]⟩ : Shape).Idx → EReal :=
  fun i => Spec.dot (rowOf x (i 0)) (matOf w) (i 1) + vecOf b (i 1)

/-- The edge pre-activation of row j. -/
def ehatArr {n : Nat} (xd xs e : (⟨2, ![n, 128]⟩ : Shape).Idx → EReal) (wA wB wC : (⟨2, ![128, 128]⟩ : Shape).Idx → EReal)
    (bA bB bC : (⟨2, ![1, 128]⟩ : Shape).Idx → EReal) (j : Fin n) : Spec.Row :=
  Spec.refEhat (rowOf xd j) (rowOf xs j) (rowOf e j) (matOf wA) (matOf wB) (matOf wC) (vecOf bA) (vecOf bB) (vecOf bC)

/-- The edge features after the layer. -/
def eNewArr {n : Nat} (xd xs e : (⟨2, ![n, 128]⟩ : Shape).Idx → EReal) (wA wB wC : (⟨2, ![128, 128]⟩ : Shape).Idx → EReal)
    (bA bB bC g b : (⟨2, ![1, 128]⟩ : Shape).Idx → EReal) : (⟨2, ![n, 128]⟩ : Shape).Idx → EReal :=
  fun i => Spec.resid (rowOf e (i 0)) (ehatArr xd xs e wA wB wC bA bB bC (i 0)) (vecOf g) (vecOf b) (i 1)

/-- The gate. -/
def sigArr {n : Nat} (xd xs e : (⟨2, ![n, 128]⟩ : Shape).Idx → EReal) (wA wB wC : (⟨2, ![128, 128]⟩ : Shape).Idx → EReal)
    (bA bB bC : (⟨2, ![1, 128]⟩ : Shape).Idx → EReal) : (⟨2, ![n, 128]⟩ : Shape).Idx → EReal :=
  fun i => Spec.gate (ehatArr xd xs e wA wB wC bA bB bC (i 0)) (i 1)

/-- The gated message. -/
def msgArr {n : Nat} (xd xs e ms : (⟨2, ![n, 128]⟩ : Shape).Idx → EReal) (wA wB wC : (⟨2, ![128, 128]⟩ : Shape).Idx → EReal)
    (bA bB bC : (⟨2, ![1, 128]⟩ : Shape).Idx → EReal) : (⟨2, ![n, 128]⟩ : Shape).Idx → EReal :=
  fun i => Spec.gate (ehatArr xd xs e wA wB wC bA bB bC (i 0)) (i 1) * ms i

/-- The node features after the layer. -/
def updArr {n : Nat} (x hs num den : (⟨2, ![n, 128]⟩ : Shape).Idx → EReal) (g b : (⟨2, ![1, 128]⟩ : Shape).Idx → EReal) :
    (⟨2, ![n, 128]⟩ : Shape).Idx → EReal :=
  fun i => Spec.resid (rowOf x (i 0)) (Spec.nodeRow (rowOf hs (i 0)) (rowOf num (i 0)) (rowOf den (i 0))) (vecOf g) (vecOf b) (i 1)

end Cert.ReferenceIdeal.Val

end
-- ==== Proof.RV.Layer.lean ====
/-
  One layer of the reference as equations between arrays — the two linear maps of the node rows, the three
  gathers, the edge kernel's three results, the two scatter-adds, the node update — gives the layer's two
  results as functions of rows: the updated node rows and the updated edge rows.
-/
import proofs.«117664_g2000706958607885_pallasbulk_534_41_alg».proof.Proof.RV.ArrDefs
import proofs.«117664_g2000706958607885_pallasbulk_534_41_alg».proof.Proof.ResultsSpec

noncomputable section

namespace Cert.ReferenceIdeal.Val

open Idealize.ShloMosaic Idealize.ShloMosaic.ValueIdx
open Cert.ResultsSpec Cert.Bridge
open scoped BigOperators

theorem layer_eq {N E : Nat} (L : LayerArgs) (src dst : Fin E → Fin N)
    (x hs hn num den x' : A N 128) (e xd xs ms e' msg sig : A E 128)
    (h_hs : hs = linArr x L.Wself L.bself) (h_hn : hn = linArr x L.Wnbr L.bnbr)
    (h_xd : ∀ j q, xd (ix2 j q) = x (ix2 (dst j) q)) (h_xs : ∀ j q, xs (ix2 j q) = x (ix2 (src j) q))
    (h_ms : ∀ j q, ms (ix2 j q) = hn (ix2 (src j) q))
    (h_e' : e' = eNewArr xd xs e L.WA L.WB L.WC L.bA L.bB L.bC L.ge L.be)
    (h_msg : msg = msgArr xd xs e ms L.WA L.WB L.WC L.bA L.bB L.bC)
    (h_sig : sig = sigArr xd xs e L.WA L.WB L.WC L.bA L.bB L.bC)
    (h_num : ∀ n q, num (ix2 n q) = segSum dst (rows msg) n q)
    (h_den : ∀ n q, den (ix2 n q) = segSum dst (rows sig) n q)
    (h_x' : x' = updArr x hs num den L.gx L.bx) :
    rows x' = xNewR L.params (rows x) (rows e) src dst ∧ rows e' = eNewR L.params (rows x) (rows e) src dst := by
  have hxd : ∀ j, rowOf xd j = rows x (dst j) := fun j => funext fun q => h_xd j q
  have hxs : ∀ j, rowOf xs j = rows x (src j) := fun j => funext fun q => h_xs j q
  have hehat : ∀ j, ehatArr xd xs e L.WA L.WB L.WC L.bA L.bB L.bC j = ehatR L.params (rows x) (rows e) src dst j := fun j => by
    unfold ehatArr ehatR
    rw [hxd j, hxs j]
    rfl
  have hsig : ∀ j, rows sig j = sigR L.params (rows x) (rows e) src dst j := fun j => by
    funext q
    rw [h_sig]
    show Spec.gate (ehatArr xd xs e L.WA L.WB L.WC L.bA L.bB L.bC j) q = _
    rw [hehat j]; rfl
  have hmsg : ∀ j, rows msg j = msgR L.params (rows x) (rows e) src dst j := fun j => by
    funext q
    rw [h_msg]
    show Spec.gate (ehatArr xd xs e L.WA L.WB L.WC L.bA L.bB L.bC j) q * ms (ix2 j q) = _
    rw [hehat j, h_ms j q, h_hn]
    rfl
  constructor
  · funext n q
    rw [h_x']
    show Spec.resid (rowOf x n) (Spec.nodeRow (rowOf hs n) (rowOf num n) (rowOf den n)) (vecOf L.gx) (vecOf L.bx) q = _
    have e1 : rowOf hs n = Bridge.hs L.params (rows x) n := by rw [h_hs]; rfl
    have e2 : rowOf num n = segSum dst (msgR L.params (rows x) (rows e) src dst) n := by
      funext q'
      show num (ix2 n q') = _
      rw [h_num, segSum_congr dst _ _ hmsg]
    have e3 : rowOf den n = segSum dst (sigR L.params (rows x) (rows e) src dst) n := by
      funext q'
      show den (ix2 n q') = _
      rw [h_den, segSum_congr dst _ _ hsig]
    rw [e1, e2, e3]; rfl
  · funext j q
    rw [h_e']
    show Spec.resid (rowOf e j) (ehatArr xd xs e L.WA L.WB L.WC L.bA L.bB L.bC j) (vecOf L.ge) (vecOf L.be) q = _
    rw [hehat j]; rfl

end Cert.ReferenceIdeal.Val

end
-- ==== Proof.RV.Fin0.lean ====
/-
  Region 0 of the reference (the linear maps of the node rows), blocks read back into arrays: each of
  its two output arrays ends holding x·W + b row by row, x, W, b the region's input arrays as it finds them.
-/
import proofs.«117664_g2000706958607885_pallasbulk_534_41_alg».proof.Proof.RV.ArrDefs

set_option maxRecDepth 16384

noncomputable section

namespace Cert.ReferenceIdeal.Val

open Cert.ReferenceIdeal Cert.ReferenceIdeal.Gen Cert.ReferenceIdeal.GenP
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The printed index maps over the grid: a row-tiled window's block index is the grid point, a parameter's is zero. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- What the body leaves in output window 5's buffer, at row r and lane q. -/
theorem out0_5_at (x0 : Vec Ideal S256x128 .f32) (x1 : Vec Ideal S128x128 .f32) (x2 : Vec Ideal S1x128 .f32)
    (x3 : Vec Ideal S128x128 .f32) (x4 : Vec Ideal S1x128 .f32) (r : Fin 256) (q : Fin 128) :
    out0_5 x0 x1 x2 x3 x4 (ix2 r q) = Spec.dot (rowOf x0 r) (matOf x1) q + vecOf x2 q := by
  unfold out0_5
  rw [View.canon_unit_zero hz2]
  simp only [View.ld_unit_zero (S := S256x128) hz2, View.ld_unit_zero (S := S128x128) hz2, View.ld_unit_zero (S := S1x128) hz2]
  exact k0_pay1_at x0 x1 x2 r q

/-- What point t writes back to output window 5's array is block t of the closed form. -/
theorem flushed0_5_eq (c : Dev nD) (t : Fin cfg0.N) :
    (dat0 V c).flushed 5 t = ((cfg0.win 5).blk t).view.read (Elt Ideal)
      (linArr (V c main_arg1 : (⟨2, ![65536, 128]⟩ : Shape).Idx → EReal) (V c main_arg5) (V c main_arg6)) := by
  show (cfg0.win 5).cut (grid0.coords t) ((dat0 V c).after 5 t) = _
  rw [after0_5]
  obtain ⟨i0a, i0b, i1a, i1b, i2a, i2b, i3a, i3b, i4a, i4b, i5a, i5b, i6a, i6b⟩ := idx0 t
  have hN : cfg0.N = 256 := N_0
  have htl : t.val < 256 := lt_of_lt_of_eq t.isLt hN
  funext j
  obtain ⟨r, q, rfl⟩ : ∃ (r : Fin 256) (q : Fin 128), j = ix2 r q := ⟨j 0, j 1, eq_ix2 j⟩
  have hr := r.isLt
  refine (out0_5_at (iblk0 V c 0 t) (iblk0 V c 1 t) (iblk0 V c 2 t) (iblk0 V c 3 t) (iblk0 V c 4 t) r q).trans ?_
  have hemb : ((cfg0.win 5).blk t).view.emb (ix2 r q) = ix2 (⟨t.val * 256 + r.val, by omega⟩ : Fin 65536) q := by
    funext a; apply Fin.ext
    match a with
    | ⟨0, _⟩ => show win0_5.index t (0 : Fin 2) * 256 + 1 * r.val = t.val * 256 + r.val; omega
    | ⟨1, _⟩ => show win0_5.index t (1 : Fin 2) * 128 + 1 * q.val = q.val; omega
  show _ = linArr (V c main_arg1 : (⟨2, ![65536, 128]⟩ : Shape).Idx → EReal) (V c main_arg5) (V c main_arg6) (((cfg0.win 5).blk t).view.emb (ix2 r q))
  rw [hemb]
  show _ = Spec.dot (rowOf (V c main_arg1 : (⟨2, ![65536, 128]⟩ : Shape).Idx → EReal) (⟨t.val * 256 + r.val, by omega⟩ : Fin 65536)) (matOf (V c main_arg5)) q + vecOf (V c main_arg6) q
  have hr0 : rowOf (n := 256) (iblk0 V c 0 t) r = rowOf (V c main_arg1 : (⟨2, ![65536, 128]⟩ : Shape).Idx → EReal) (⟨t.val * 256 + r.val, by omega⟩ : Fin 65536) := by
    funext k
    show V c main_arg1 (((cfg0.win 0).blk t).view.emb (ix2 r k)) = V c main_arg1 (ix2 (⟨t.val * 256 + r.val, by omega⟩ : Fin 65536) k)
    refine congrArg (V c main_arg1) (funext fun a => Fin.ext ?_)
    match a with
    | ⟨0, _⟩ => show win0_0.index t (0 : Fin 2) * 256 + 1 * r.val = t.val * 256 + r.val; omega
    | ⟨1, _⟩ => show win0_0.index t (1 : Fin 2) * 128 + 1 * k.val = k.val; omega
  have hm1 : matOf (iblk0 V c 1 t) = matOf (V c main_arg5 : (⟨2, ![128, 128]⟩ : Shape).Idx → EReal) := by
    funext k q'
    show V c main_arg5 (((cfg0.win 1).blk t).view.emb (ix2 k q')) = V c main_arg5 (ix2 k q')
    refine congrArg (V c main_arg5) (funext fun a => Fin.ext ?_)
    match a with
    | ⟨0, _⟩ => show win0_1.index t (0 : Fin 2) * 128 + 1 * k.val = k.val; omega
    | ⟨1, _⟩ => show win0_1.index t (1 : Fin 2) * 128 + 1 * q'.val = q'.val; omega
  have hv2 : vecOf (iblk0 V c 2 t) = vecOf (V c main_arg6 : (⟨2, ![1, 128]⟩ : Shape).Idx → EReal) := by
    funext q'
    show V c main_arg6 (((cfg0.win 2).blk t).view.emb (ix2 (0 : Fin 1) q')) = V c main_arg6 (ix2 (0 : Fin 1) q')
    refine congrArg (V c main_arg6) (funext fun a => Fin.ext ?_)
    match a with
    | ⟨0, _⟩ => show win0_2.index t (0 : Fin 2) * 1 + 1 * 0 = 0; omega
    | ⟨1, _⟩ => show win0_2.index t (1 : Fin 2) * 128 + 1 * q'.val = q'.val; omega
  rw [hr0, hm1, hv2]

/-- An index of the array is in point t's block iff each coordinate is in the block's range on its axis. -/
theorem mem_blk0_5 (t : Fin cfg0.N) (i : (⟨2, ![65536, 128]⟩ : Shape).Idx) :
    i ∈ ((cfg0.win 5).blk t).view.set ↔ ∀ a : Fin 2, win0_5.index t a * S256x128.size a ≤ (i a).val ∧ (i a).val < win0_5.index t a * S256x128.size a + S256x128.size a := by
  show i ∈ ((View.whole main_v4_0).slice (win0_5.rect t)).set ↔ _
  rw [View.set_slice_whole, Rect.mem_set_unit]
  exact Iff.rfl

/-- Every row lies in the block of the point row / 256. -/
theorem covered0_5 (i : (⟨2, ![65536, 128]⟩ : Shape).Idx) :
    ∃ t : Fin cfg0.N, (cfg0.win 5).flush t = true ∧ i ∈ ((cfg0.win 5).blk t).view.set := by
  have hi0 : (i 0).val < 65536 := (i 0).isLt
  have hi1 : (i 1).val < 128 := (i 1).isLt
  have hN : cfg0.N = 256 := N_0
  let t : Fin cfg0.N := ⟨(i 0).val / 256, by rw [hN]; omega⟩
  have ht : t.val = (i 0).val / 256 := rfl
  have e0 : win0_5.index t (0 : Fin 2) = t.val := (idx0 t).2.2.2.2.2.2.2.2.2.2.1
  have e1 : win0_5.index t (1 : Fin 2) = 0 := (idx0 t).2.2.2.2.2.2.2.2.2.2.2.1
  refine ⟨t, flush0_5 t, ?_⟩
  rw [mem_blk0_5]
  intro a
  match a with
  | ⟨0, _⟩ => show win0_5.index t (0 : Fin 2) * 256 ≤ (i 0).val ∧ (i 0).val < win0_5.index t (0 : Fin 2) * 256 + 256; omega
  | ⟨1, _⟩ => show win0_5.index t (1 : Fin 2) * 128 ≤ (i 1).val ∧ (i 1).val < win0_5.index t (1 : Fin 2) * 128 + 128; omega

/-- THE ARRAY of output window 5 after region 0: x·W + b row by row, of the region-entry arrays. -/
theorem fin0_5 (c : Dev nD) : (dat0 V c).arrAt 5 cfg0.N
    = linArr (V c main_arg1 : (⟨2, ![65536, 128]⟩ : Shape).Idx → EReal) (V c main_arg5) (V c main_arg6) :=
  (dat0 V c).arrAt_eq_of_cover 5 _ (fun t _ => flushed0_5_eq V c t) covered0_5

/-- What the body leaves in output window 6's buffer, at row r and lane q. -/
theorem out0_6_at (x0 : Vec Ideal S256x128 .f32) (x1 : Vec Ideal S128x128 .f32) (x2 : Vec Ideal S1x128 .f32)
    (x3 : Vec Ideal S128x128 .f32) (x4 : Vec Ideal S1x128 .f32) (r : Fin 256) (q : Fin 128) :
    out0_6 x0 x1 x2 x3 x4 (ix2 r q) = Spec.dot (rowOf x0 r) (matOf x3) q + vecOf x4 q := by
  unfold out0_6
  rw [View.canon_unit_zero hz2]
  simp only [View.ld_unit_zero (S := S256x128) hz2, View.ld_unit_zero (S := S128x128) hz2, View.ld_unit_zero (S := S1x128) hz2]
  exact k0_pay2_at x0 x3 x4 r q

/-- What point t writes back to output window 6's array is block t of the closed form. -/
theorem flushed0_6_eq (c : Dev nD) (t : Fin cfg0.N) :
    (dat0 V c).flushed 6 t = ((cfg0.win 6).blk t).view.read (Elt Ideal)
      (linArr (V c main_arg1 : (⟨2, ![65536, 128]⟩ : Shape).Idx → EReal) (V c main_arg7) (V c main_arg8)) := by
  show (cfg0.win 6).cut (grid0.coords t) ((dat0 V c).after 6 t) = _
  rw [after0_6]
  obtain ⟨i0a, i0b, i1a, i1b, i2a, i2b, i3a, i3b, i4a, i4b, i5a, i5b, i6a, i6b⟩ := idx0 t
  have hN : cfg0.N = 256 := N_0
  have htl : t.val < 256 := lt_of_lt_of_eq t.isLt hN
  funext j
  obtain ⟨r, q, rfl⟩ : ∃ (r : Fin 256) (q : Fin 128), j = ix2 r q := ⟨j 0, j 1, eq_ix2 j⟩
  have hr := r.isLt
  refine (out0_6_at (iblk0 V c 0 t) (iblk0 V c 1 t) (iblk0 V c 2 t) (iblk0 V c 3 t) (iblk0 V c 4 t) r q).trans ?_
  have hemb : ((cfg0.win 6).blk t).view.emb (ix2 r q) = ix2 (⟨t.val * 256 + r.val, by omega⟩ : Fin 65536) q := by
    funext a; apply Fin.ext
    match a with
    | ⟨0, _⟩ => show win0_6.index t (0 : Fin 2) * 256 + 1 * r.val = t.val * 256 + r.val; omega
    | ⟨1, _⟩ => show win0_6.index t (1 : Fin 2) * 128 + 1 * q.val = q.val; omega
  show _ = linArr (V c main_arg1 : (⟨2, ![65536, 128]⟩ : Shape).Idx → EReal) (V c main_arg7) (V c main_arg8) (((cfg0.win 6).blk t).view.emb (ix2 r q))
  rw [hemb]
  show _ = Spec.dot (rowOf (V c main_arg1 : (⟨2, ![65536, 128]⟩ : Shape).Idx → EReal) (⟨t.val * 256 + r.val, by omega⟩ : Fin 65536)) (matOf (V c main_arg7)) q + vecOf (V c main_arg8) q
  have hr0 : rowOf (n := 256) (iblk0 V c 0 t) r = rowOf (V c main_arg1 : (⟨2, ![65536, 128]⟩ : Shape).Idx → EReal) (⟨t.val * 256 + r.val, by omega⟩ : Fin 65536) := by
    funext k
    show V c main_arg1 (((cfg0.win 0).blk t).view.emb (ix2 r k)) = V c main_arg1 (ix2 (⟨t.val * 256 + r.val, by omega⟩ : Fin 65536) k)
    refine congrArg (V c main_arg1) (funext fun a => Fin.ext ?_)
    match a with
    | ⟨0, _⟩ => show win0_0.index t (0 : Fin 2) * 256 + 1 * r.val = t.val * 256 + r.val; omega
    | ⟨1, _⟩ => show win0_0.index t (1 : Fin 2) * 128 + 1 * k.val = k.val; omega
  have hm3 : matOf (iblk0 V c 3 t) = matOf (V c main_arg7 : (⟨2, ![128, 128]⟩ : Shape).Idx → EReal) := by
    funext k q'
    show V c main_arg7 (((cfg0.win 3).blk t).view.emb (ix2 k q')) = V c main_arg7 (ix2 k q')
    refine congrArg (V c main_arg7) (funext fun a => Fin.ext ?_)
    match a with
    | ⟨0, _⟩ => show win0_3.index t (0 : Fin 2) * 128 + 1 * k.val = k.val; omega
    | ⟨1, _⟩ => show win0_3.index t (1 : Fin 2) * 128 + 1 * q'.val = q'.val; omega
  have hv4 : vecOf (iblk0 V c 4 t) = vecOf (V c main_arg8 : (⟨2, ![1, 128]⟩ : Shape).Idx → EReal) := by
    funext q'
    show V c main_arg8 (((cfg0.win 4).blk t).view.emb (ix2 (0 : Fin 1) q')) = V c main_arg8 (ix2 (0 : Fin 1) q')
    refine congrArg (V c main_arg8) (funext fun a => Fin.ext ?_)
    match a with
    | ⟨0, _⟩ => show win0_4.index t (0 : Fin 2) * 1 + 1 * 0 = 0; omega
    | ⟨1, _⟩ => show win0_4.index t (1 : Fin 2) * 128 + 1 * q'.val = q'.val; omega
  rw [hr0, hm3, hv4]

/-- An index of the array is in point t's block iff each coordinate is in the block's range on its axis. -/
theorem mem_blk0_6 (t : Fin cfg0.N) (i : (⟨2, ![65536, 128]⟩ : Shape).Idx) :
    i ∈ ((cfg0.win 6).blk t).view.set ↔ ∀ a : Fin 2, win0_6.index t a * S256x128.size a ≤ (i a).val ∧ (i a).val < win0_6.index t a * S256x128.size a + S256x128.size a := by
  show i ∈ ((View.whole main_v4_1).slice (win0_6.rect t)).set ↔ _
  rw [View.set_slice_whole, Rect.mem_set_unit]
  exact Iff.rfl

/-- Every row lies in the block of the point row / 256. -/
theorem covered0_6 (i : (⟨2, ![65536, 128]⟩ : Shape).Idx) :
    ∃ t : Fin cfg0.N, (cfg0.win 6).flush t = true ∧ i ∈ ((cfg0.win 6).blk t).view.set := by
  have hi0 : (i 0).val < 65536 := (i 0).isLt
  have hi1 : (i 1).val < 128 := (i 1).isLt
  have hN : cfg0.N = 256 := N_0
  let t : Fin cfg0.N := ⟨(i 0).val / 256, by rw [hN]; omega⟩
  have ht : t.val = (i 0).val / 256 := rfl
  have e0 : win0_6.index t (0 : Fin 2) = t.val := (idx0 t).2.2.2.2.2.2.2.2.2.2.2.2.1
  have e1 : win0_6.index t (1 : Fin 2) = 0 := (idx0 t).2.2.2.2.2.2.2.2.2.2.2.2.2
  refine ⟨t, flush0_6 t, ?_⟩
  rw [mem_blk0_6]
  intro a
  match a with
  | ⟨0, _⟩ => show win0_6.index t (0 : Fin 2) * 256 ≤ (i 0).val ∧ (i 0).val < win0_6.index t (0 : Fin 2) * 256 + 256; omega
  | ⟨1, _⟩ => show win0_6.index t (1 : Fin 2) * 128 ≤ (i 1).val ∧ (i 1).val < win0_6.index t (1 : Fin 2) * 128 + 128; omega

/-- THE ARRAY of output window 6 after region 0: x·W + b row by row, of the region-entry arrays. -/
theorem fin0_6 (c : Dev nD) : (dat0 V c).arrAt 6 cfg0.N
    = linArr (V c main_arg1 : (⟨2, ![65536, 128]⟩ : Shape).Idx → EReal) (V c main_arg7) (V c main_arg8) :=
  (dat0 V c).arrAt_eq_of_cover 6 _ (fun t _ => flushed0_6_eq V c t) covered0_6

end Cert.ReferenceIdeal.Val

end
-- ==== Proof.RV.Fin1.lean ====
/-
  Region 1 of the reference (the edge kernel), blocks read back into arrays: its three output arrays end
  holding the updated edge rows, the gated messages and the gates, as functions of the region's input arrays
  as it finds them. The validity mask is 1 on every row: 131072 rows are 512 tiles of 256.
-/
import proofs.«117664_g2000706958607885_pallasbulk_534_41_alg».proof.Proof.RV.ArrDefs

set_option maxRecDepth 16384

noncomputable section

namespace Cert.ReferenceIdeal.Val

open Cert.ReferenceIdeal Cert.ReferenceIdeal.Gen Cert.ReferenceIdeal.GenP
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The printed index maps over the grid: a row-tiled window's block index is the grid point, a parameter's is zero. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = 0 ∧ win1_10.index t (1 : Fin 2) = 0
    ∧ win1_11.index t (0 : Fin 2) = 0 ∧ win1_11.index t (1 : Fin 2) = 0
    ∧ win1_12.index t (0 : Fin 2) = t.val ∧ win1_12.index t (1 : Fin 2) = 0
    ∧ win1_13.index t (0 : Fin 2) = t.val ∧ win1_13.index t (1 : Fin 2) = 0
    ∧ win1_14.index t (0 : Fin 2) = t.val ∧ win1_14.index t (1 : Fin 2) = 0 :=
  (by decide +kernel : ∀ t : Fin grid1.N, _)

/-- What the body leaves in output window 12's buffer, at row r and lane q: the updated edge row. -/
theorem out1_12_at (x0 x1 x2 x3 : Vec Ideal S256x128 .f32) (x4 : Vec Ideal S128x128 .f32) (x5 : Vec Ideal S1x128 .f32) (x6 : Vec Ideal S128x128 .f32) (x7 : Vec Ideal S1x128 .f32) (x8 : Vec Ideal S128x128 .f32) (x9 : Vec Ideal S1x128 .f32) (x10 x11 : Vec Ideal S1x128 .f32) (r : Fin 256) (q : Fin 128) :
    out1_12 x0 x1 x2 x3 x4 x5 x6 x7 x8 x9 x10 x11 (ix2 r q) = Spec.resid (rowOf x2 r) (Spec.refEhat (rowOf x0 r) (rowOf x1 r) (rowOf x2 r) (matOf x4) (matOf x6) (matOf x8) (vecOf x5) (vecOf x7) (vecOf x9)) (vecOf x10) (vecOf x11) q := by
  unfold out1_12
  rw [View.canon_unit_zero hz2]
  simp only [View.ld_unit_zero (S := S256x128) hz2, View.ld_unit_zero (S := S128x128) hz2, View.ld_unit_zero (S := S1x128) hz2]
  exact (k1_pay1_at (k1_pay4 (F := Ideal) x0 x4 x5 x1 x6 x7 x2 x8 x9) x2 x10 x11 _ _ r q).trans
    (congrArg (fun v => Spec.resid (rowOf x2 r) v (vecOf x10) (vecOf x11) q) (k1_pay4_row x0 x4 x5 x1 x6 x7 x2 x8 x9 r))

/-- Output window 14: the gate. -/
theorem out1_14_at (i : grid1.Coords) (x0 x1 x2 x3 : Vec Ideal S256x128 .f32) (x4 : Vec Ideal S128x128 .f32) (x5 : Vec Ideal S1x128 .f32) (x6 : Vec Ideal S128x128 .f32) (x7 : Vec Ideal S1x128 .f32) (x8 : Vec Ideal S128x128 .f32) (x9 : Vec Ideal S1x128 .f32) (x10 x11 : Vec Ideal S1x128 .f32) (r : Fin 256) (q : Fin 128)
    (hm : IntOp.cmpi .slt (IntOp.addi (Scalar.muli (BitVec.ofNat 32 (i 0).val) 256#32) (BitVec.ofNat 32 r.val)) 131072#32 = 1#1) :
    out1_14 i x0 x1 x2 x3 x4 x5 x6 x7 x8 x9 x10 x11 (ix2 r q) = Spec.gate (Spec.refEhat (rowOf x0 r) (rowOf x1 r) (rowOf x2 r) (matOf x4) (matOf x6) (matOf x8) (vecOf x5) (vecOf x7) (vecOf x9)) q := by
  unfold out1_14
  rw [View.canon_unit_zero hz2]
  simp only [View.ld_unit_zero (S := S256x128) hz2, View.ld_unit_zero (S := S128x128) hz2, View.ld_unit_zero (S := S1x128) hz2]
  exact (k1_pay2_at _ (k1_pay4 (F := Ideal) x0 x4 x5 x1 x6 x7 x2 x8 x9) r q hm).trans
    (congrArg (fun v => Spec.gate v q) (k1_pay4_row x0 x4 x5 x1 x6 x7 x2 x8 x9 r))

/-- Output window 13: the gated message. -/
theorem out1_13_at (i : grid1.Coords) (x0 x1 x2 x3 : Vec Ideal S256x128 .f32) (x4 : Vec Ideal S128x128 .f32) (x5 : Vec Ideal S1x128 .f32) (x6 : Vec Ideal S128x128 .f32) (x7 : Vec Ideal S1x128 .f32) (x8 : Vec Ideal S128x128 .f32) (x9 : Vec Ideal S1x128 .f32) (x10 x11 : Vec Ideal S1x128 .f32) (r : Fin 256) (q : Fin 128)
    (hm : IntOp.cmpi .slt (IntOp.addi (Scalar.muli (BitVec.ofNat 32 (i 0).val) 256#32) (BitVec.ofNat 32 r.val)) 131072#32 = 1#1) :
    out1_13 i x0 x1 x2 x3 x4 x5 x6 x7 x8 x9 x10 x11 (ix2 r q) = Spec.gate (Spec.refEhat (rowOf x0 r) (rowOf x1 r) (rowOf x2 r) (matOf x4) (matOf x6) (matOf x8) (vecOf x5) (vecOf x7) (vecOf x9)) q * rowOf x3 r q := by
  unfold out1_13
  rw [View.canon_unit_zero hz2]
  simp only [View.ld_unit_zero (S := S256x128) hz2, View.ld_unit_zero (S := S128x128) hz2, View.ld_unit_zero (S := S1x128) hz2]
  exact (k1_pay3_at _ (k1_pay4 (F := Ideal) x0 x4 x5 x1 x6 x7 x2 x8 x9) x3 r q hm).trans
    (congrArg (fun v => Spec.gate v q * x3 (ix2 r q)) (k1_pay4_row x0 x4 x5 x1 x6 x7 x2 x8 x9 r))

/-- What point t writes back to output window 12's array is block t of the closed form. -/
theorem flushed1_12_eq (c : Dev nD) (t : Fin cfg1.N) :
    (dat1 V c).flushed 12 t = ((cfg1.win 12).blk t).view.read (Elt Ideal)
      (eNewArr (V c main_v5 : (⟨2, ![131072, 128]⟩ : Shape).Idx → EReal) (V c main_v6 : (⟨2, ![131072, 128]⟩ : Shape).Idx → EReal) (V c main_arg2 : (⟨2, ![131072, 128]⟩ : Shape).Idx → EReal) (V c main_arg9) (V c main_arg11) (V c main_arg13) (V c main_arg10) (V c main_arg12) (V c main_arg14) (V c main_arg17) (V c main_arg18)) := by
  show (cfg1.win 12).cut (grid1.coords t) ((dat1 V c).after 12 t) = _
  rw [after1_12]
  obtain ⟨i0a, i0b, i1a, i1b, i2a, i2b, i3a, i3b, i4a, i4b, i5a, i5b, i6a, i6b, i7a, i7b, i8a, i8b, i9a, i9b, i10a, i10b, i11a, i11b, i12a, i12b, i13a, i13b, i14a, i14b⟩ := idx1 t
  have hN : cfg1.N = 512 := N_1
  have htl : t.val < 512 := lt_of_lt_of_eq t.isLt hN
  funext j
  obtain ⟨r, q, rfl⟩ : ∃ (r : Fin 256) (q : Fin 128), j = ix2 r q := ⟨j 0, j 1, eq_ix2 j⟩
  have hr := r.isLt
  refine (out1_12_at (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) r q).trans ?_
  have hemb : ((cfg1.win 12).blk t).view.emb (ix2 r q) = ix2 (⟨t.val * 256 + r.val, by omega⟩ : Fin 131072) q := by
    funext a; apply Fin.ext
    match a with
    | ⟨0, _⟩ => show win1_12.index t (0 : Fin 2) * 256 + 1 * r.val = t.val * 256 + r.val; omega
    | ⟨1, _⟩ => show win1_12.index t (1 : Fin 2) * 128 + 1 * q.val = q.val; omega
  show _ = (eNewArr (V c main_v5 : (⟨2, ![131072, 128]⟩ : Shape).Idx → EReal) (V c main_v6 : (⟨2, ![131072, 128]⟩ : Shape).Idx → EReal) (V c main_arg2 : (⟨2, ![131072, 128]⟩ : Shape).Idx → EReal) (V c main_arg9) (V c main_arg11) (V c main_arg13) (V c main_arg10) (V c main_arg12) (V c main_arg14) (V c main_arg17) (V c main_arg18)) (((cfg1.win 12).blk t).view.emb (ix2 r q))
  rw [hemb]
  show _ = Spec.resid (rowOf (V c main_arg2 : (⟨2, ![131072, 128]⟩ : Shape).Idx → EReal) (⟨t.val * 256 + r.val, by omega⟩ : Fin 131072)) (Spec.refEhat (rowOf (V c main_v5 : (⟨2, ![131072, 128]⟩ : Shape).Idx → EReal) (⟨t.val * 256 + r.val, by omega⟩ : Fin 131072)) (rowOf (V c main_v6 : (⟨2, ![131072, 128]⟩ : Shape).Idx → EReal) (⟨t.val * 256 + r.val, by omega⟩ : Fin 131072)) (rowOf (V c main_arg2 : (⟨2, ![131072, 128]⟩ : Shape).Idx → EReal) (⟨t.val * 256 + r.val, by omega⟩ : Fin 131072)) (matOf (V c main_arg9)) (matOf (V c main_arg11)) (matOf (V c main_arg13)) (vecOf (V c main_arg10)) (vecOf (V c main_arg12)) (vecOf (V c main_arg14))) (vecOf (V c main_arg17)) (vecOf (V c main_arg18)) q
  have hr0 : rowOf (n := 256) (iblk1 V c 0 t) r = rowOf (V c main_v5 : (⟨2, ![131072, 128]⟩ : Shape).Idx → EReal) (⟨t.val * 256 + r.val, by omega⟩ : Fin 131072) := by
    funext k
    show V c main_v5 (((cfg1.win 0).blk t).view.emb (ix2 r k)) = V c main_v5 (ix2 (⟨t.val * 256 + r.val, by omega⟩ : Fin 131072) k)
    refine congrArg (V c main_v5) (funext fun a => Fin.ext ?_)
    match a with
    | ⟨0, _⟩ => show win1_0.index t (0 : Fin 2) * 256 + 1 * r.val = t.val * 256 + r.val; omega
    | ⟨1, _⟩ => show win1_0.index t (1 : Fin 2) * 128 + 1 * k.val = k.val; omega
  have hr1 : rowOf (n := 256) (iblk1 V c 1 t) r = rowOf (V c main_v6 : (⟨2, ![131072, 128]⟩ : Shape).Idx → EReal) (⟨t.val * 256 + r.val, by omega⟩ : Fin 131072) := by
    funext k
    show V c main_v6 (((cfg1.win 1).blk t).view.emb (ix2 r k)) = V c main_v6 (ix2 (⟨t.val * 256 + r.val, by omega⟩ : Fin 131072) k)
    refine congrArg (V c main_v6) (funext fun a => Fin.ext ?_)
    match a with
    | ⟨0, _⟩ => show win1_1.index t (0 : Fin 2) * 256 + 1 * r.val = t.val * 256 + r.val; omega
    | ⟨1, _⟩ => show win1_1.index t (1 : Fin 2) * 128 + 1 * k.val = k.val; omega
  have hr2 : rowOf (n := 256) (iblk1 V c 2 t) r = rowOf (V c main_arg2 : (⟨2, ![131072, 128]⟩ : Shape).Idx → EReal) (⟨t.val * 256 + r.val, by omega⟩ : Fin 131072) := by
    funext k
    show V c main_arg2 (((cfg1.win 2).blk t).view.emb (ix2 r k)) = V c main_arg2 (ix2 (⟨t.val * 256 + r.val, by omega⟩ : Fin 131072) k)
    refine congrArg (V c main_arg2) (funext fun a => Fin.ext ?_)
    match a with
    | ⟨0, _⟩ => show win1_2.index t (0 : Fin 2) * 256 + 1 * r.val = t.val * 256 + r.val; omega
    | ⟨1, _⟩ => show win1_2.index t (1 : Fin 2) * 128 + 1 * k.val = k.val; omega
  have hm4 : matOf (iblk1 V c 4 t) = matOf (V c main_arg9 : (⟨2, ![128, 128]⟩ : Shape).Idx → EReal) := by
    funext k q'
    show V c main_arg9 (((cfg1.win 4).blk t).view.emb (ix2 k q')) = V c main_arg9 (ix2 k q')
    refine congrArg (V c main_arg9) (funext fun a => Fin.ext ?_)
    match a with
    | ⟨0, _⟩ => show win1_4.index t (0 : Fin 2) * 128 + 1 * k.val = k.val; omega
    | ⟨1, _⟩ => show win1_4.index t (1 : Fin 2) * 128 + 1 * q'.val = q'.val; omega
  have hm6 : matOf (iblk1 V c 6 t) = matOf (V c main_arg11 : (⟨2, ![128, 128]⟩ : Shape).Idx → EReal) := by
    funext k q'
    show V c main_arg11 (((cfg1.win 6).blk t).view.emb (ix2 k q')) = V c main_arg11 (ix2 k q')
    refine congrArg (V c main_arg11) (funext fun a => Fin.ext ?_)
    match a with
    | ⟨0, _⟩ => show win1_6.index t (0 : Fin 2) * 128 + 1 * k.val = k.val; omega
    | ⟨1, _⟩ => show win1_6.index t (1 : Fin 2) * 128 + 1 * q'.val = q'.val; omega
  have hm8 : matOf (iblk1 V c 8 t) = matOf (V c main_arg13 : (⟨2, ![128, 128]⟩ : Shape).Idx → EReal) := by
    funext k q'
    show V c main_arg13 (((cfg1.win 8).blk t).view.emb (ix2 k q')) = V c main_arg13 (ix2 k q')
    refine congrArg (V c main_arg13) (funext fun a => Fin.ext ?_)
    match a with
    | ⟨0, _⟩ => show win1_8.index t (0 : Fin 2) * 128 + 1 * k.val = k.val; omega
    | ⟨1, _⟩ => show win1_8.index t (1 : Fin 2) * 128 + 1 * q'.val = q'.val; omega
  have hv5 : vecOf (iblk1 V c 5 t) = vecOf (V c main_arg10 : (⟨2, ![1, 128]⟩ : Shape).Idx → EReal) := by
    funext q'
    show V c main_arg10 (((cfg1.win 5).blk t).view.emb (ix2 (0 : Fin 1) q')) = V c main_arg10 (ix2 (0 : Fin 1) q')
    refine congrArg (V c main_arg10) (funext fun a => Fin.ext ?_)
    match a with
    | ⟨0, _⟩ => show win1_5.index t (0 : Fin 2) * 1 + 1 * 0 = 0; omega
    | ⟨1, _⟩ => show win1_5.index t (1 : Fin 2) * 128 + 1 * q'.val = q'.val; omega
  have hv7 : vecOf (iblk1 V c 7 t) = vecOf (V c main_arg12 : (⟨2, ![1, 128]⟩ : Shape).Idx → EReal) := by
    funext q'
    show V c main_arg12 (((cfg1.win 7).blk t).view.emb (ix2 (0 : Fin 1) q')) = V c main_arg12 (ix2 (0 : Fin 1) q')
    refine congrArg (V c main_arg12) (funext fun a => Fin.ext ?_)
    match a with
    | ⟨0, _⟩ => show win1_7.index t (0 : Fin 2) * 1 + 1 * 0 = 0; omega
    | ⟨1, _⟩ => show win1_7.index t (1 : Fin 2) * 128 + 1 * q'.val = q'.val; omega
  have hv9 : vecOf (iblk1 V c 9 t) = vecOf (V c main_arg14 : (⟨2, ![1, 128]⟩ : Shape).Idx → EReal) := by
    funext q'
    show V c main_arg14 (((cfg1.win 9).blk t).view.emb (ix2 (0 : Fin 1) q')) = V c main_arg14 (ix2 (0 : Fin 1) q')
    refine congrArg (V c main_arg14) (funext fun a => Fin.ext ?_)
    match a with
    | ⟨0, _⟩ => show win1_9.index t (0 : Fin 2) * 1 + 1 * 0 = 0; omega
    | ⟨1, _⟩ => show win1_9.index t (1 : Fin 2) * 128 + 1 * q'.val = q'.val; omega
  have hv10 : vecOf (iblk1 V c 10 t) = vecOf (V c main_arg17 : (⟨2, ![1, 128]⟩ : Shape).Idx → EReal) := by
    funext q'
    show V c main_arg17 (((cfg1.win 10).blk t).view.emb (ix2 (0 : Fin 1) q')) = V c main_arg17 (ix2 (0 : Fin 1) q')
    refine congrArg (V c main_arg17) (funext fun a => Fin.ext ?_)
    match a with
    | ⟨0, _⟩ => show win1_10.index t (0 : Fin 2) * 1 + 1 * 0 = 0; omega
    | ⟨1, _⟩ => show win1_10.index t (1 : Fin 2) * 128 + 1 * q'.val = q'.val; omega
  have hv11 : vecOf (iblk1 V c 11 t) = vecOf (V c main_arg18 : (⟨2, ![1, 128]⟩ : Shape).Idx → EReal) := by
    funext q'
    show V c main_arg18 (((cfg1.win 11).blk t).view.emb (ix2 (0 : Fin 1) q')) = V c main_arg18 (ix2 (0 : Fin 1) q')
    refine congrArg (V c main_arg18) (funext fun a => Fin.ext ?_)
    match a with
    | ⟨0, _⟩ => show win1_11.index t (0 : Fin 2) * 1 + 1 * 0 = 0; omega
    | ⟨1, _⟩ => show win1_11.index t (1 : Fin 2) * 128 + 1 * q'.val = q'.val; omega
  rw [hr0, hr1, hr2, hm4, hm6, hm8, hv5, hv7, hv9, hv10, hv11]

/-- An index of the array is in point t's block iff each coordinate is in the block's range on its axis. -/
theorem mem_blk1_12 (t : Fin cfg1.N) (i : (⟨2, ![131072, 128]⟩ : Shape).Idx) :
    i ∈ ((cfg1.win 12).blk t).view.set ↔ ∀ a : Fin 2, win1_12.index t a * S256x128.size a ≤ (i a).val ∧ (i a).val < win1_12.index t a * S256x128.size a + S256x128.size a := by
  show i ∈ ((View.whole main_v8_0).slice (win1_12.rect t)).set ↔ _
  rw [View.set_slice_whole, Rect.mem_set_unit]
  exact Iff.rfl

/-- Every row lies in the block of the point row / 256. -/
theorem covered1_12 (i : (⟨2, ![131072, 128]⟩ : Shape).Idx) :
    ∃ t : Fin cfg1.N, (cfg1.win 12).flush t = true ∧ i ∈ ((cfg1.win 12).blk t).view.set := by
  have hi0 : (i 0).val < 131072 := (i 0).isLt
  have hi1 : (i 1).val < 128 := (i 1).isLt
  have hN : cfg1.N = 512 := N_1
  let t : Fin cfg1.N := ⟨(i 0).val / 256, by rw [hN]; omega⟩
  have ht : t.val = (i 0).val / 256 := rfl
  have e0 : win1_12.index t (0 : Fin 2) = t.val := (idx1 t).2.2.2.2.2.2.2.2.2.2.2.2.2.2.2.2.2.2.2.2.2.2.2.2.1
  have e1 : win1_12.index t (1 : Fin 2) = 0 := (idx1 t).2.2.2.2.2.2.2.2.2.2.2.2.2.2.2.2.2.2.2.2.2.2.2.2.2.1
  refine ⟨t, flush1_12 t, ?_⟩
  rw [mem_blk1_12]
  intro a
  match a with
  | ⟨0, _⟩ => show win1_12.index t (0 : Fin 2) * 256 ≤ (i 0).val ∧ (i 0).val < win1_12.index t (0 : Fin 2) * 256 + 256; omega
  | ⟨1, _⟩ => show win1_12.index t (1 : Fin 2) * 128 ≤ (i 1).val ∧ (i 1).val < win1_12.index t (1 : Fin 2) * 128 + 128; omega

/-- THE ARRAY of output window 12 after region 1, as a function of the region-entry arrays. -/
theorem fin1_12 (c : Dev nD) : (dat1 V c).arrAt 12 cfg1.N
    = eNewArr (V c main_v5 : (⟨2, ![131072, 128]⟩ : Shape).Idx → EReal) (V c main_v6 : (⟨2, ![131072, 128]⟩ : Shape).Idx → EReal) (V c main_arg2 : (⟨2, ![131072, 128]⟩ : Shape).Idx → EReal) (V c main_arg9) (V c main_arg11) (V c main_arg13) (V c main_arg10) (V c main_arg12) (V c main_arg14) (V c main_arg17) (V c main_arg18) :=
  (dat1 V c).arrAt_eq_of_cover 12 _ (fun t _ => flushed1_12_eq V c t) covered1_12

/-- What point t writes back to output window 14's array is block t of the closed form. -/
theorem flushed1_14_eq (c : Dev nD) (t : Fin cfg1.N) :
    (dat1 V c).flushed 14 t = ((cfg1.win 14).blk t).view.read (Elt Ideal)
      (sigArr (V c main_v5 : (⟨2, ![131072, 128]⟩ : Shape).Idx → EReal) (V c main_v6 : (⟨2, ![131072, 128]⟩ : Shape).Idx → EReal) (V c main_arg2 : (⟨2, ![131072, 128]⟩ : Shape).Idx → EReal) (V c main_arg9) (V c main_arg11) (V c main_arg13) (V c main_arg10) (V c main_arg12) (V c main_arg14)) := by
  show (cfg1.win 14).cut (grid1.coords t) ((dat1 V c).after 14 t) = _
  rw [after1_14]
  obtain ⟨i0a, i0b, i1a, i1b, i2a, i2b, i3a, i3b, i4a, i4b, i5a, i5b, i6a, i6b, i7a, i7b, i8a, i8b, i9a, i9b, i10a, i10b, i11a, i11b, i12a, i12b, i13a, i13b, i14a, i14b⟩ := idx1 t
  have hN : cfg1.N = 512 := N_1
  have htl : t.val < 512 := lt_of_lt_of_eq t.isLt hN
  funext j
  obtain ⟨r, q, rfl⟩ : ∃ (r : Fin 256) (q : Fin 128), j = ix2 r q := ⟨j 0, j 1, eq_ix2 j⟩
  have hr := r.isLt
  have hc : ((grid1.coords t) 0).val < 512 := ((grid1.coords t) 0).isLt
  refine (out1_14_at (grid1.coords t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) r q (mask_word _ _ 131072 (by omega) (by decide))).trans ?_
  have hemb : ((cfg1.win 14).blk t).view.emb (ix2 r q) = ix2 (⟨t.val * 256 + r.val, by omega⟩ : Fin 131072) q := by
    funext a; apply Fin.ext
    match a with
    | ⟨0, _⟩ => show win1_14.index t (0 : Fin 2) * 256 + 1 * r.val = t.val * 256 + r.val; omega
    | ⟨1, _⟩ => show win1_14.index t (1 : Fin 2) * 128 + 1 * q.val = q.val; omega
  show _ = (sigArr (V c main_v5 : (⟨2, ![131072, 128]⟩ : Shape).Idx → EReal) (V c main_v6 : (⟨2, ![131072, 128]⟩ : Shape).Idx → EReal) (V c main_arg2 : (⟨2, ![131072, 128]⟩ : Shape).Idx → EReal) (V c main_arg9) (V c main_arg11) (V c main_arg13) (V c main_arg10) (V c main_arg12) (V c main_arg14)) (((cfg1.win 14).blk t).view.emb (ix2 r q))
  rw [hemb]
  show _ = Spec.gate (Spec.refEhat (rowOf (V c main_v5 : (⟨2, ![131072, 128]⟩ : Shape).Idx → EReal) (⟨t.val * 256 + r.val, by omega⟩ : Fin 131072)) (rowOf (V c main_v6 : (⟨2, ![131072, 128]⟩ : Shape).Idx → EReal) (⟨t.val * 256 + r.val, by omega⟩ : Fin 131072)) (rowOf (V c main_arg2 : (⟨2, ![131072, 128]⟩ : Shape).Idx → EReal) (⟨t.val * 256 + r.val, by omega⟩ : Fin 131072)) (matOf (V c main_arg9)) (matOf (V c main_arg11)) (matOf (V c main_arg13)) (vecOf (V c main_arg10)) (vecOf (V c main_arg12)) (vecOf (V c main_arg14))) q
  have hr0 : rowOf (n := 256) (iblk1 V c 0 t) r = rowOf (V c main_v5 : (⟨2, ![131072, 128]⟩ : Shape).Idx → EReal) (⟨t.val * 256 + r.val, by omega⟩ : Fin 131072) := by
    funext k
    show V c main_v5 (((cfg1.win 0).blk t).view.emb (ix2 r k)) = V c main_v5 (ix2 (⟨t.val * 256 + r.val, by omega⟩ : Fin 131072) k)
    refine congrArg (V c main_v5) (funext fun a => Fin.ext ?_)
    match a with
    | ⟨0, _⟩ => show win1_0.index t (0 : Fin 2) * 256 + 1 * r.val = t.val * 256 + r.val; omega
    | ⟨1, _⟩ => show win1_0.index t (1 : Fin 2) * 128 + 1 * k.val = k.val; omega
  have hr1 : rowOf (n := 256) (iblk1 V c 1 t) r = rowOf (V c main_v6 : (⟨2, ![131072, 128]⟩ : Shape).Idx → EReal) (⟨t.val * 256 + r.val, by omega⟩ : Fin 131072) := by
    funext k
    show V c main_v6 (((cfg1.win 1).blk t).view.emb (ix2 r k)) = V c main_v6 (ix2 (⟨t.val * 256 + r.val, by omega⟩ : Fin 131072) k)
    refine congrArg (V c main_v6) (funext fun a => Fin.ext ?_)
    match a with
    | ⟨0, _⟩ => show win1_1.index t (0 : Fin 2) * 256 + 1 * r.val = t.val * 256 + r.val; omega
    | ⟨1, _⟩ => show win1_1.index t (1 : Fin 2) * 128 + 1 * k.val = k.val; omega
  have hr2 : rowOf (n := 256) (iblk1 V c 2 t) r = rowOf (V c main_arg2 : (⟨2, ![131072, 128]⟩ : Shape).Idx → EReal) (⟨t.val * 256 + r.val, by omega⟩ : Fin 131072) := by
    funext k
    show V c main_arg2 (((cfg1.win 2).blk t).view.emb (ix2 r k)) = V c main_arg2 (ix2 (⟨t.val * 256 + r.val, by omega⟩ : Fin 131072) k)
    refine congrArg (V c main_arg2) (funext fun a => Fin.ext ?_)
    match a with
    | ⟨0, _⟩ => show win1_2.index t (0 : Fin 2) * 256 + 1 * r.val = t.val * 256 + r.val; omega
    | ⟨1, _⟩ => show win1_2.index t (1 : Fin 2) * 128 + 1 * k.val = k.val; omega
  have hm4 : matOf (iblk1 V c 4 t) = matOf (V c main_arg9 : (⟨2, ![128, 128]⟩ : Shape).Idx → EReal) := by
    funext k q'
    show V c main_arg9 (((cfg1.win 4).blk t).view.emb (ix2 k q')) = V c main_arg9 (ix2 k q')
    refine congrArg (V c main_arg9) (funext fun a => Fin.ext ?_)
    match a with
    | ⟨0, _⟩ => show win1_4.index t (0 : Fin 2) * 128 + 1 * k.val = k.val; omega
    | ⟨1, _⟩ => show win1_4.index t (1 : Fin 2) * 128 + 1 * q'.val = q'.val; omega
  have hm6 : matOf (iblk1 V c 6 t) = matOf (V c main_arg11 : (⟨2, ![128, 128]⟩ : Shape).Idx → EReal) := by
    funext k q'
    show V c main_arg11 (((cfg1.win 6).blk t).view.emb (ix2 k q')) = V c main_arg11 (ix2 k q')
    refine congrArg (V c main_arg11) (funext fun a => Fin.ext ?_)
    match a with
    | ⟨0, _⟩ => show win1_6.index t (0 : Fin 2) * 128 + 1 * k.val = k.val; omega
    | ⟨1, _⟩ => show win1_6.index t (1 : Fin 2) * 128 + 1 * q'.val = q'.val; omega
  have hm8 : matOf (iblk1 V c 8 t) = matOf (V c main_arg13 : (⟨2, ![128, 128]⟩ : Shape).Idx → EReal) := by
    funext k q'
    show V c main_arg13 (((cfg1.win 8).blk t).view.emb (ix2 k q')) = V c main_arg13 (ix2 k q')
    refine congrArg (V c main_arg13) (funext fun a => Fin.ext ?_)
    match a with
    | ⟨0, _⟩ => show win1_8.index t (0 : Fin 2) * 128 + 1 * k.val = k.val; omega
    | ⟨1, _⟩ => show win1_8.index t (1 : Fin 2) * 128 + 1 * q'.val = q'.val; omega
  have hv5 : vecOf (iblk1 V c 5 t) = vecOf (V c main_arg10 : (⟨2, ![1, 128]⟩ : Shape).Idx → EReal) := by
    funext q'
    show V c main_arg10 (((cfg1.win 5).blk t).view.emb (ix2 (0 : Fin 1) q')) = V c main_arg10 (ix2 (0 : Fin 1) q')
    refine congrArg (V c main_arg10) (funext fun a => Fin.ext ?_)
    match a with
    | ⟨0, _⟩ => show win1_5.index t (0 : Fin 2) * 1 + 1 * 0 = 0; omega
    | ⟨1, _⟩ => show win1_5.index t (1 : Fin 2) * 128 + 1 * q'.val = q'.val; omega
  have hv7 : vecOf (iblk1 V c 7 t) = vecOf (V c main_arg12 : (⟨2, ![1, 128]⟩ : Shape).Idx → EReal) := by
    funext q'
    show V c main_arg12 (((cfg1.win 7).blk t).view.emb (ix2 (0 : Fin 1) q')) = V c main_arg12 (ix2 (0 : Fin 1) q')
    refine congrArg (V c main_arg12) (funext fun a => Fin.ext ?_)
    match a with
    | ⟨0, _⟩ => show win1_7.index t (0 : Fin 2) * 1 + 1 * 0 = 0; omega
    | ⟨1, _⟩ => show win1_7.index t (1 : Fin 2) * 128 + 1 * q'.val = q'.val; omega
  have hv9 : vecOf (iblk1 V c 9 t) = vecOf (V c main_arg14 : (⟨2, ![1, 128]⟩ : Shape).Idx → EReal) := by
    funext q'
    show V c main_arg14 (((cfg1.win 9).blk t).view.emb (ix2 (0 : Fin 1) q')) = V c main_arg14 (ix2 (0 : Fin 1) q')
    refine congrArg (V c main_arg14) (funext fun a => Fin.ext ?_)
    match a with
    | ⟨0, _⟩ => show win1_9.index t (0 : Fin 2) * 1 + 1 * 0 = 0; omega
    | ⟨1, _⟩ => show win1_9.index t (1 : Fin 2) * 128 + 1 * q'.val = q'.val; omega
  rw [hr0, hr1, hr2, hm4, hm6, hm8, hv5, hv7, hv9]

/-- An index of the array is in point t's block iff each coordinate is in the block's range on its axis. -/
theorem mem_blk1_14 (t : Fin cfg1.N) (i : (⟨2, ![131072, 128]⟩ : Shape).Idx) :
    i ∈ ((cfg1.win 14).blk t).view.set ↔ ∀ a : Fin 2, win1_14.index t a * S256x128.size a ≤ (i a).val ∧ (i a).val < win1_14.index t a * S256x128.size a + S256x128.size a := by
  show i ∈ ((View.whole main_v8_2).slice (win1_14.rect t)).set ↔ _
  rw [View.set_slice_whole, Rect.mem_set_unit]
  exact Iff.rfl

/-- Every row lies in the block of the point row / 256. -/
theorem covered1_14 (i : (⟨2, ![131072, 128]⟩ : Shape).Idx) :
    ∃ t : Fin cfg1.N, (cfg1.win 14).flush t = true ∧ i ∈ ((cfg1.win 14).blk t).view.set := by
  have hi0 : (i 0).val < 131072 := (i 0).isLt
  have hi1 : (i 1).val < 128 := (i 1).isLt
  have hN : cfg1.N = 512 := N_1
  let t : Fin cfg1.N := ⟨(i 0).val / 256, by rw [hN]; omega⟩
  have ht : t.val = (i 0).val / 256 := rfl
  have e0 : win1_14.index t (0 : Fin 2) = t.val := (idx1 t).2.2.2.2.2.2.2.2.2.2.2.2.2.2.2.2.2.2.2.2.2.2.2.2.2.2.2.2.1
  have e1 : win1_14.index t (1 : Fin 2) = 0 := (idx1 t).2.2.2.2.2.2.2.2.2.2.2.2.2.2.2.2.2.2.2.2.2.2.2.2.2.2.2.2.2
  refine ⟨t, flush1_14 t, ?_⟩
  rw [mem_blk1_14]
  intro a
  match a with
  | ⟨0, _⟩ => show win1_14.index t (0 : Fin 2) * 256 ≤ (i 0).val ∧ (i 0).val < win1_14.index t (0 : Fin 2) * 256 + 256; omega
  | ⟨1, _⟩ => show win1_14.index t (1 : Fin 2) * 128 ≤ (i 1).val ∧ (i 1).val < win1_14.index t (1 : Fin 2) * 128 + 128; omega

/-- THE ARRAY of output window 14 after region 1, as a function of the region-entry arrays. -/
theorem fin1_14 (c : Dev nD) : (dat1 V c).arrAt 14 cfg1.N
    = sigArr (V c main_v5 : (⟨2, ![131072, 128]⟩ : Shape).Idx → EReal) (V c main_v6 : (⟨2, ![131072, 128]⟩ : Shape).Idx → EReal) (V c main_arg2 : (⟨2, ![131072, 128]⟩ : Shape).Idx → EReal) (V c main_arg9) (V c main_arg11) (V c main_arg13) (V c main_arg10) (V c main_arg12) (V c main_arg14) :=
  (dat1 V c).arrAt_eq_of_cover 14 _ (fun t _ => flushed1_14_eq V c t) covered1_14

/-- What point t writes back to output window 13's array is block t of the closed form. -/
theorem flushed1_13_eq (c : Dev nD) (t : Fin cfg1.N) :
    (dat1 V c).flushed 13 t = ((cfg1.win 13).blk t).view.read (Elt Ideal)
      (msgArr (V c main_v5 : (⟨2, ![131072, 128]⟩ : Shape).Idx → EReal) (V c main_v6 : (⟨2, ![131072, 128]⟩ : Shape).Idx → EReal) (V c main_arg2 : (⟨2, ![131072, 128]⟩ : Shape).Idx → EReal) (V c main_v7 : (⟨2, ![131072, 128]⟩ : Shape).Idx → EReal) (V c main_arg9) (V c main_arg11) (V c main_arg13) (V c main_arg10) (V c main_arg12) (V c main_arg14)) := by
  show (cfg1.win 13).cut (grid1.coords t) ((dat1 V c).after 13 t) = _
  rw [after1_13]
  obtain ⟨i0a, i0b, i1a, i1b, i2a, i2b, i3a, i3b, i4a, i4b, i5a, i5b, i6a, i6b, i7a, i7b, i8a, i8b, i9a, i9b, i10a, i10b, i11a, i11b, i12a, i12b, i13a, i13b, i14a, i14b⟩ := idx1 t
  have hN : cfg1.N = 512 := N_1
  have htl : t.val < 512 := lt_of_lt_of_eq t.isLt hN
  funext j
  obtain ⟨r, q, rfl⟩ : ∃ (r : Fin 256) (q : Fin 128), j = ix2 r q := ⟨j 0, j 1, eq_ix2 j⟩
  have hr := r.isLt
  have hc : ((grid1.coords t) 0).val < 512 := ((grid1.coords t) 0).isLt
  refine (out1_13_at (grid1.coords t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) r q (mask_word _ _ 131072 (by omega) (by decide))).trans ?_
  have hemb : ((cfg1.win 13).blk t).view.emb (ix2 r q) = ix2 (⟨t.val * 256 + r.val, by omega⟩ : Fin 131072) q := by
    funext a; apply Fin.ext
    match a with
    | ⟨0, _⟩ => show win1_13.index t (0 : Fin 2) * 256 + 1 * r.val = t.val * 256 + r.val; omega
    | ⟨1, _⟩ => show win1_13.index t (1 : Fin 2) * 128 + 1 * q.val = q.val; omega
  show _ = (msgArr (V c main_v5 : (⟨2, ![131072, 128]⟩ : Shape).Idx → EReal) (V c main_v6 : (⟨2, ![131072, 128]⟩ : Shape).Idx → EReal) (V c main_arg2 : (⟨2, ![131072, 128]⟩ : Shape).Idx → EReal) (V c main_v7 : (⟨2, ![131072, 128]⟩ : Shape).Idx → EReal) (V c main_arg9) (V c main_arg11) (V c main_arg13) (V c main_arg10) (V c main_arg12) (V c main_arg14)) (((cfg1.win 13).blk t).view.emb (ix2 r q))
  rw [hemb]
  show _ = Spec.gate (Spec.refEhat (rowOf (V c main_v5 : (⟨2, ![131072, 128]⟩ : Shape).Idx → EReal) (⟨t.val * 256 + r.val, by omega⟩ : Fin 131072)) (rowOf (V c main_v6 : (⟨2, ![131072, 128]⟩ : Shape).Idx → EReal) (⟨t.val * 256 + r.val, by omega⟩ : Fin 131072)) (rowOf (V c main_arg2 : (⟨2, ![131072, 128]⟩ : Shape).Idx → EReal) (⟨t.val * 256 + r.val, by omega⟩ : Fin 131072)) (matOf (V c main_arg9)) (matOf (V c main_arg11)) (matOf (V c main_arg13)) (vecOf (V c main_arg10)) (vecOf (V c main_arg12)) (vecOf (V c main_arg14))) q * rowOf (V c main_v7 : (⟨2, ![131072, 128]⟩ : Shape).Idx → EReal) (⟨t.val * 256 + r.val, by omega⟩ : Fin 131072) q
  have hr0 : rowOf (n := 256) (iblk1 V c 0 t) r = rowOf (V c main_v5 : (⟨2, ![131072, 128]⟩ : Shape).Idx → EReal) (⟨t.val * 256 + r.val, by omega⟩ : Fin 131072) := by
    funext k
    show V c main_v5 (((cfg1.win 0).blk t).view.emb (ix2 r k)) = V c main_v5 (ix2 (⟨t.val * 256 + r.val, by omega⟩ : Fin 131072) k)
    refine congrArg (V c main_v5) (funext fun a => Fin.ext ?_)
    match a with
    | ⟨0, _⟩ => show win1_0.index t (0 : Fin 2) * 256 + 1 * r.val = t.val * 256 + r.val; omega
    | ⟨1, _⟩ => show win1_0.index t (1 : Fin 2) * 128 + 1 * k.val = k.val; omega
  have hr1 : rowOf (n := 256) (iblk1 V c 1 t) r = rowOf (V c main_v6 : (⟨2, ![131072, 128]⟩ : Shape).Idx → EReal) (⟨t.val * 256 + r.val, by omega⟩ : Fin 131072) := by
    funext k
    show V c main_v6 (((cfg1.win 1).blk t).view.emb (ix2 r k)) = V c main_v6 (ix2 (⟨t.val * 256 + r.val, by omega⟩ : Fin 131072) k)
    refine congrArg (V c main_v6) (funext fun a => Fin.ext ?_)
    match a with
    | ⟨0, _⟩ => show win1_1.index t (0 : Fin 2) * 256 + 1 * r.val = t.val * 256 + r.val; omega
    | ⟨1, _⟩ => show win1_1.index t (1 : Fin 2) * 128 + 1 * k.val = k.val; omega
  have hr2 : rowOf (n := 256) (iblk1 V c 2 t) r = rowOf (V c main_arg2 : (⟨2, ![131072, 128]⟩ : Shape).Idx → EReal) (⟨t.val * 256 + r.val, by omega⟩ : Fin 131072) := by
    funext k
    show V c main_arg2 (((cfg1.win 2).blk t).view.emb (ix2 r k)) = V c main_arg2 (ix2 (⟨t.val * 256 + r.val, by omega⟩ : Fin 131072) k)
    refine congrArg (V c main_arg2) (funext fun a => Fin.ext ?_)
    match a with
    | ⟨0, _⟩ => show win1_2.index t (0 : Fin 2) * 256 + 1 * r.val = t.val * 256 + r.val; omega
    | ⟨1, _⟩ => show win1_2.index t (1 : Fin 2) * 128 + 1 * k.val = k.val; omega
  have hr3 : rowOf (n := 256) (iblk1 V c 3 t) r = rowOf (V c main_v7 : (⟨2, ![131072, 128]⟩ : Shape).Idx → EReal) (⟨t.val * 256 + r.val, by omega⟩ : Fin 131072) := by
    funext k
    show V c main_v7 (((cfg1.win 3).blk t).view.emb (ix2 r k)) = V c main_v7 (ix2 (⟨t.val * 256 + r.val, by omega⟩ : Fin 131072) k)
    refine congrArg (V c main_v7) (funext fun a => Fin.ext ?_)
    match a with
    | ⟨0, _⟩ => show win1_3.index t (0 : Fin 2) * 256 + 1 * r.val = t.val * 256 + r.val; omega
    | ⟨1, _⟩ => show win1_3.index t (1 : Fin 2) * 128 + 1 * k.val = k.val; omega
  have hm4 : matOf (iblk1 V c 4 t) = matOf (V c main_arg9 : (⟨2, ![128, 128]⟩ : Shape).Idx → EReal) := by
    funext k q'
    show V c main_arg9 (((cfg1.win 4).blk t).view.emb (ix2 k q')) = V c main_arg9 (ix2 k q')
    refine congrArg (V c main_arg9) (funext fun a => Fin.ext ?_)
    match a with
    | ⟨0, _⟩ => show win1_4.index t (0 : Fin 2) * 128 + 1 * k.val = k.val; omega
    | ⟨1, _⟩ => show win1_4.index t (1 : Fin 2) * 128 + 1 * q'.val = q'.val; omega
  have hm6 : matOf (iblk1 V c 6 t) = matOf (V c main_arg11 : (⟨2, ![128, 128]⟩ : Shape).Idx → EReal) := by
    funext k q'
    show V c main_arg11 (((cfg1.win 6).blk t).view.emb (ix2 k q')) = V c main_arg11 (ix2 k q')
    refine congrArg (V c main_arg11) (funext fun a => Fin.ext ?_)
    match a with
    | ⟨0, _⟩ => show win1_6.index t (0 : Fin 2) * 128 + 1 * k.val = k.val; omega
    | ⟨1, _⟩ => show win1_6.index t (1 : Fin 2) * 128 + 1 * q'.val = q'.val; omega
  have hm8 : matOf (iblk1 V c 8 t) = matOf (V c main_arg13 : (⟨2, ![128, 128]⟩ : Shape).Idx → EReal) := by
    funext k q'
    show V c main_arg13 (((cfg1.win 8).blk t).view.emb (ix2 k q')) = V c main_arg13 (ix2 k q')
    refine congrArg (V c main_arg13) (funext fun a => Fin.ext ?_)
    match a with
    | ⟨0, _⟩ => show win1_8.index t (0 : Fin 2) * 128 + 1 * k.val = k.val; omega
    | ⟨1, _⟩ => show win1_8.index t (1 : Fin 2) * 128 + 1 * q'.val = q'.val; omega
  have hv5 : vecOf (iblk1 V c 5 t) = vecOf (V c main_arg10 : (⟨2, ![1, 128]⟩ : Shape).Idx → EReal) := by
    funext q'
    show V c main_arg10 (((cfg1.win 5).blk t).view.emb (ix2 (0 : Fin 1) q')) = V c main_arg10 (ix2 (0 : Fin 1) q')
    refine congrArg (V c main_arg10) (funext fun a => Fin.ext ?_)
    match a with
    | ⟨0, _⟩ => show win1_5.index t (0 : Fin 2) * 1 + 1 * 0 = 0; omega
    | ⟨1, _⟩ => show win1_5.index t (1 : Fin 2) * 128 + 1 * q'.val = q'.val; omega
  have hv7 : vecOf (iblk1 V c 7 t) = vecOf (V c main_arg12 : (⟨2, ![1, 128]⟩ : Shape).Idx → EReal) := by
    funext q'
    show V c main_arg12 (((cfg1.win 7).blk t).view.emb (ix2 (0 : Fin 1) q')) = V c main_arg12 (ix2 (0 : Fin 1) q')
    refine congrArg (V c main_arg12) (funext fun a => Fin.ext ?_)
    match a with
    | ⟨0, _⟩ => show win1_7.index t (0 : Fin 2) * 1 + 1 * 0 = 0; omega
    | ⟨1, _⟩ => show win1_7.index t (1 : Fin 2) * 128 + 1 * q'.val = q'.val; omega
  have hv9 : vecOf (iblk1 V c 9 t) = vecOf (V c main_arg14 : (⟨2, ![1, 128]⟩ : Shape).Idx → EReal) := by
    funext q'
    show V c main_arg14 (((cfg1.win 9).blk t).view.emb (ix2 (0 : Fin 1) q')) = V c main_arg14 (ix2 (0 : Fin 1) q')
    refine congrArg (V c main_arg14) (funext fun a => Fin.ext ?_)
    match a with
    | ⟨0, _⟩ => show win1_9.index t (0 : Fin 2) * 1 + 1 * 0 = 0; omega
    | ⟨1, _⟩ => show win1_9.index t (1 : Fin 2) * 128 + 1 * q'.val = q'.val; omega
  rw [hr0, hr1, hr2, hr3, hm4, hm6, hm8, hv5, hv7, hv9]

/-- An index of the array is in point t's block iff each coordinate is in the block's range on its axis. -/
theorem mem_blk1_13 (t : Fin cfg1.N) (i : (⟨2, ![131072, 128]⟩ : Shape).Idx) :
    i ∈ ((cfg1.win 13).blk t).view.set ↔ ∀ a : Fin 2, win1_13.index t a * S256x128.size a ≤ (i a).val ∧ (i a).val < win1_13.index t a * S256x128.size a + S256x128.size a := by
  show i ∈ ((View.whole main_v8_1).slice (win1_13.rect t)).set ↔ _
  rw [View.set_slice_whole, Rect.mem_set_unit]
  exact Iff.rfl

/-- Every row lies in the block of the point row / 256. -/
theorem covered1_13 (i : (⟨2, ![131072, 128]⟩ : Shape).Idx) :
    ∃ t : Fin cfg1.N, (cfg1.win 13).flush t = true ∧ i ∈ ((cfg1.win 13).blk t).view.set := by
  have hi0 : (i 0).val < 131072 := (i 0).isLt
  have hi1 : (i 1).val < 128 := (i 1).isLt
  have hN : cfg1.N = 512 := N_1
  let t : Fin cfg1.N := ⟨(i 0).val / 256, by rw [hN]; omega⟩
  have ht : t.val = (i 0).val / 256 := rfl
  have e0 : win1_13.index t (0 : Fin 2) = t.val := (idx1 t).2.2.2.2.2.2.2.2.2.2.2.2.2.2.2.2.2.2.2.2.2.2.2.2.2.2.1
  have e1 : win1_13.index t (1 : Fin 2) = 0 := (idx1 t).2.2.2.2.2.2.2.2.2.2.2.2.2.2.2.2.2.2.2.2.2.2.2.2.2.2.2.1
  refine ⟨t, flush1_13 t, ?_⟩
  rw [mem_blk1_13]
  intro a
  match a with
  | ⟨0, _⟩ => show win1_13.index t (0 : Fin 2) * 256 ≤ (i 0).val ∧ (i 0).val < win1_13.index t (0 : Fin 2) * 256 + 256; omega
  | ⟨1, _⟩ => show win1_13.index t (1 : Fin 2) * 128 ≤ (i 1).val ∧ (i 1).val < win1_13.index t (1 : Fin 2) * 128 + 128; omega

/-- THE ARRAY of output window 13 after region 1, as a function of the region-entry arrays. -/
theorem fin1_13 (c : Dev nD) : (dat1 V c).arrAt 13 cfg1.N
    = msgArr (V c main_v5 : (⟨2, ![131072, 128]⟩ : Shape).Idx → EReal) (V c main_v6 : (⟨2, ![131072, 128]⟩ : Shape).Idx → EReal) (V c main_arg2 : (⟨2, ![131072, 128]⟩ : Shape).Idx → EReal) (V c main_v7 : (⟨2, ![131072, 128]⟩ : Shape).Idx → EReal) (V c main_arg9) (V c main_arg11) (V c main_arg13) (V c main_arg10) (V c main_arg12) (V c main_arg14) :=
  (dat1 V c).arrAt_eq_of_cover 13 _ (fun t _ => flushed1_13_eq V c t) covered1_13

end Cert.ReferenceIdeal.Val

end
-- ==== Proof.RV.Fin2.lean ====
/-
  Region 2 of the reference (the node update), blocks read back into arrays: its output array ends holding
  x + silu (LN (hs + num / (den + ε))) row by row, of the region's input arrays as it finds them.
-/
import proofs.«117664_g2000706958607885_pallasbulk_534_41_alg».proof.Proof.RV.ArrDefs

set_option maxRecDepth 16384

noncomputable section

namespace Cert.ReferenceIdeal.Val

open Cert.ReferenceIdeal Cert.ReferenceIdeal.Gen Cert.ReferenceIdeal.GenP
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The printed index maps over the grid: a row-tiled window's block index is the grid point, a parameter's is zero. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- What the body leaves in the output window's buffer, at row r and lane q. -/
theorem out2_6_at (x0 x1 x2 x3 : Vec Ideal S256x128 .f32) (x4 x5 : Vec Ideal S1x128 .f32) (r : Fin 256) (q : Fin 128) :
    out2_6 x0 x1 x2 x3 x4 x5 (ix2 r q)
      = Spec.resid (rowOf x0 r) (Spec.nodeRow (rowOf x1 r) (rowOf x2 r) (rowOf x3 r)) (vecOf x4) (vecOf x5) q := by
  unfold out2_6
  rw [View.canon_unit_zero hz2]
  simp only [View.ld_unit_zero (S := S256x128) hz2, View.ld_unit_zero (S := S1x128) hz2]
  exact k2_pay1_at x2 x3 x1 x0 x4 x5 r q

/-- What point t writes back to the output window's array is block t of the closed form. -/
theorem flushed2_6_eq (c : Dev nD) (t : Fin cfg2.N) :
    (dat2 V c).flushed 6 t = ((cfg2.win 6).blk t).view.read (Elt Ideal)
      (updArr (V c main_arg1 : (⟨2, ![65536, 128]⟩ : Shape).Idx → EReal) (V c main_v4_0 : (⟨2, ![65536, 128]⟩ : Shape).Idx → EReal) (V c main_v11 : (⟨2, ![65536, 128]⟩ : Shape).Idx → EReal) (V c main_v14 : (⟨2, ![65536, 128]⟩ : Shape).Idx → EReal) (V c main_arg15) (V c main_arg16)) := by
  show (cfg2.win 6).cut (grid2.coords t) ((dat2 V c).after 6 t) = _
  rw [after2_6]
  obtain ⟨i0a, i0b, i1a, i1b, i2a, i2b, i3a, i3b, i4a, i4b, i5a, i5b, i6a, i6b⟩ := idx2 t
  have hN : cfg2.N = 256 := N_2
  have htl : t.val < 256 := lt_of_lt_of_eq t.isLt hN
  funext j
  obtain ⟨r, q, rfl⟩ : ∃ (r : Fin 256) (q : Fin 128), j = ix2 r q := ⟨j 0, j 1, eq_ix2 j⟩
  have hr := r.isLt
  refine (out2_6_at (iblk2 V c 0 t) (iblk2 V c 1 t) (iblk2 V c 2 t) (iblk2 V c 3 t) (iblk2 V c 4 t) (iblk2 V c 5 t) r q).trans ?_
  have hemb : ((cfg2.win 6).blk t).view.emb (ix2 r q) = ix2 (⟨t.val * 256 + r.val, by omega⟩ : Fin 65536) q := by
    funext a; apply Fin.ext
    match a with
    | ⟨0, _⟩ => show win2_6.index t (0 : Fin 2) * 256 + 1 * r.val = t.val * 256 + r.val; omega
    | ⟨1, _⟩ => show win2_6.index t (1 : Fin 2) * 128 + 1 * q.val = q.val; omega
  show _ = (updArr (V c main_arg1 : (⟨2, ![65536, 128]⟩ : Shape).Idx → EReal) (V c main_v4_0 : (⟨2, ![65536, 128]⟩ : Shape).Idx → EReal) (V c main_v11 : (⟨2, ![65536, 128]⟩ : Shape).Idx → EReal) (V c main_v14 : (⟨2, ![65536, 128]⟩ : Shape).Idx → EReal) (V c main_arg15) (V c main_arg16)) (((cfg2.win 6).blk t).view.emb (ix2 r q))
  rw [hemb]
  show _ = Spec.resid (rowOf (V c main_arg1 : (⟨2, ![65536, 128]⟩ : Shape).Idx → EReal) (⟨t.val * 256 + r.val, by omega⟩ : Fin 65536)) (Spec.nodeRow (rowOf (V c main_v4_0 : (⟨2, ![65536, 128]⟩ : Shape).Idx → EReal) (⟨t.val * 256 + r.val, by omega⟩ : Fin 65536)) (rowOf (V c main_v11 : (⟨2, ![65536, 128]⟩ : Shape).Idx → EReal) (⟨t.val * 256 + r.val, by omega⟩ : Fin 65536)) (rowOf (V c main_v14 : (⟨2, ![65536, 128]⟩ : Shape).Idx → EReal) (⟨t.val * 256 + r.val, by omega⟩ : Fin 65536))) (vecOf (V c main_arg15)) (vecOf (V c main_arg16)) q
  have hr0 : rowOf (n := 256) (iblk2 V c 0 t) r = rowOf (V c main_arg1 : (⟨2, ![65536, 128]⟩ : Shape).Idx → EReal) (⟨t.val * 256 + r.val, by omega⟩ : Fin 65536) := by
    funext k
    show V c main_arg1 (((cfg2.win 0).blk t).view.emb (ix2 r k)) = V c main_arg1 (ix2 (⟨t.val * 256 + r.val, by omega⟩ : Fin 65536) k)
    refine congrArg (V c main_arg1) (funext fun a => Fin.ext ?_)
    match a with
    | ⟨0, _⟩ => show win2_0.index t (0 : Fin 2) * 256 + 1 * r.val = t.val * 256 + r.val; omega
    | ⟨1, _⟩ => show win2_0.index t (1 : Fin 2) * 128 + 1 * k.val = k.val; omega
  have hr1 : rowOf (n := 256) (iblk2 V c 1 t) r = rowOf (V c main_v4_0 : (⟨2, ![65536, 128]⟩ : Shape).Idx → EReal) (⟨t.val * 256 + r.val, by omega⟩ : Fin 65536) := by
    funext k
    show V c main_v4_0 (((cfg2.win 1).blk t).view.emb (ix2 r k)) = V c main_v4_0 (ix2 (⟨t.val * 256 + r.val, by omega⟩ : Fin 65536) k)
    refine congrArg (V c main_v4_0) (funext fun a => Fin.ext ?_)
    match a with
    | ⟨0, _⟩ => show win2_1.index t (0 : Fin 2) * 256 + 1 * r.val = t.val * 256 + r.val; omega
    | ⟨1, _⟩ => show win2_1.index t (1 : Fin 2) * 128 + 1 * k.val = k.val; omega
  have hr2 : rowOf (n := 256) (iblk2 V c 2 t) r = rowOf (V c main_v11 : (⟨2, ![65536, 128]⟩ : Shape).Idx → EReal) (⟨t.val * 256 + r.val, by omega⟩ : Fin 65536) := by
    funext k
    show V c main_v11 (((cfg2.win 2).blk t).view.emb (ix2 r k)) = V c main_v11 (ix2 (⟨t.val * 256 + r.val, by omega⟩ : Fin 65536) k)
    refine congrArg (V c main_v11) (funext fun a => Fin.ext ?_)
    match a with
    | ⟨0, _⟩ => show win2_2.index t (0 : Fin 2) * 256 + 1 * r.val = t.val * 256 + r.val; omega
    | ⟨1, _⟩ => show win2_2.index t (1 : Fin 2) * 128 + 1 * k.val = k.val; omega
  have hr3 : rowOf (n := 256) (iblk2 V c 3 t) r = rowOf (V c main_v14 : (⟨2, ![65536, 128]⟩ : Shape).Idx → EReal) (⟨t.val * 256 + r.val, by omega⟩ : Fin 65536) := by
    funext k
    show V c main_v14 (((cfg2.win 3).blk t).view.emb (ix2 r k)) = V c main_v14 (ix2 (⟨t.val * 256 + r.val, by omega⟩ : Fin 65536) k)
    refine congrArg (V c main_v14) (funext fun a => Fin.ext ?_)
    match a with
    | ⟨0, _⟩ => show win2_3.index t (0 : Fin 2) * 256 + 1 * r.val = t.val * 256 + r.val; omega
    | ⟨1, _⟩ => show win2_3.index t (1 : Fin 2) * 128 + 1 * k.val = k.val; omega
  have hv4 : vecOf (iblk2 V c 4 t) = vecOf (V c main_arg15 : (⟨2, ![1, 128]⟩ : Shape).Idx → EReal) := by
    funext q'
    show V c main_arg15 (((cfg2.win 4).blk t).view.emb (ix2 (0 : Fin 1) q')) = V c main_arg15 (ix2 (0 : Fin 1) q')
    refine congrArg (V c main_arg15) (funext fun a => Fin.ext ?_)
    match a with
    | ⟨0, _⟩ => show win2_4.index t (0 : Fin 2) * 1 + 1 * 0 = 0; omega
    | ⟨1, _⟩ => show win2_4.index t (1 : Fin 2) * 128 + 1 * q'.val = q'.val; omega
  have hv5 : vecOf (iblk2 V c 5 t) = vecOf (V c main_arg16 : (⟨2, ![1, 128]⟩ : Shape).Idx → EReal) := by
    funext q'
    show V c main_arg16 (((cfg2.win 5).blk t).view.emb (ix2 (0 : Fin 1) q')) = V c main_arg16 (ix2 (0 : Fin 1) q')
    refine congrArg (V c main_arg16) (funext fun a => Fin.ext ?_)
    match a with
    | ⟨0, _⟩ => show win2_5.index t (0 : Fin 2) * 1 + 1 * 0 = 0; omega
    | ⟨1, _⟩ => show win2_5.index t (1 : Fin 2) * 128 + 1 * q'.val = q'.val; omega
  rw [hr0, hr1, hr2, hr3, hv4, hv5]

/-- An index of the array is in point t's block iff each coordinate is in the block's range on its axis. -/
theorem mem_blk2_6 (t : Fin cfg2.N) (i : (⟨2, ![65536, 128]⟩ : Shape).Idx) :
    i ∈ ((cfg2.win 6).blk t).view.set ↔ ∀ a : Fin 2, win2_6.index t a * S256x128.size a ≤ (i a).val ∧ (i a).val < win2_6.index t a * S256x128.size a + S256x128.size a := by
  show i ∈ ((View.whole main_v15).slice (win2_6.rect t)).set ↔ _
  rw [View.set_slice_whole, Rect.mem_set_unit]
  exact Iff.rfl

/-- Every row lies in the block of the point row / 256. -/
theorem covered2_6 (i : (⟨2, ![65536, 128]⟩ : Shape).Idx) :
    ∃ t : Fin cfg2.N, (cfg2.win 6).flush t = true ∧ i ∈ ((cfg2.win 6).blk t).view.set := by
  have hi0 : (i 0).val < 65536 := (i 0).isLt
  have hi1 : (i 1).val < 128 := (i 1).isLt
  have hN : cfg2.N = 256 := N_2
  let t : Fin cfg2.N := ⟨(i 0).val / 256, by rw [hN]; omega⟩
  have ht : t.val = (i 0).val / 256 := rfl
  have e0 : win2_6.index t (0 : Fin 2) = t.val := (idx2 t).2.2.2.2.2.2.2.2.2.2.2.2.1
  have e1 : win2_6.index t (1 : Fin 2) = 0 := (idx2 t).2.2.2.2.2.2.2.2.2.2.2.2.2
  refine ⟨t, flush2_6 t, ?_⟩
  rw [mem_blk2_6]
  intro a
  match a with
  | ⟨0, _⟩ => show win2_6.index t (0 : Fin 2) * 256 ≤ (i 0).val ∧ (i 0).val < win2_6.index t (0 : Fin 2) * 256 + 256; omega
  | ⟨1, _⟩ => show win2_6.index t (1 : Fin 2) * 128 ≤ (i 1).val ∧ (i 1).val < win2_6.index t (1 : Fin 2) * 128 + 128; omega

/-- THE ARRAY of the output window after region 2, as a function of the region-entry arrays. -/
theorem fin2_6 (c : Dev nD) : (dat2 V c).arrAt 6 cfg2.N
    = updArr (V c main_arg1 : (⟨2, ![65536, 128]⟩ : Shape).Idx → EReal) (V c main_v4_0 : (⟨2, ![65536, 128]⟩ : Shape).Idx → EReal) (V c main_v11 : (⟨2, ![65536, 128]⟩ : Shape).Idx → EReal) (V c main_v14 : (⟨2, ![65536, 128]⟩ : Shape).Idx → EReal) (V c main_arg15) (V c main_arg16) :=
  (dat2 V c).arrAt_eq_of_cover 6 _ (fun t _ => flushed2_6_eq V c t) covered2_6

end Cert.ReferenceIdeal.Val

end
-- ==== Proof.RV.Fin3.lean ====
/-
  Region 3 of the reference (the linear maps of the node rows), blocks read back into arrays: each of
  its two output arrays ends holding x·W + b row by row, x, W, b the region's input arrays as it finds them.
-/
import proofs.«117664_g2000706958607885_pallasbulk_534_41_alg».proof.Proof.RV.ArrDefs

set_option maxRecDepth 16384

noncomputable section

namespace Cert.ReferenceIdeal.Val

open Cert.ReferenceIdeal Cert.ReferenceIdeal.Gen Cert.ReferenceIdeal.GenP
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The printed index maps over the grid: a row-tiled window's block index is the grid point, a parameter's is zero. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0
    ∧ win3_6.index t (0 : Fin 2) = t.val ∧ win3_6.index t (1 : Fin 2) = 0 :=
  (by decide +kernel : ∀ t : Fin grid3.N, _)

/-- What the body leaves in output window 5's buffer, at row r and lane q. -/
theorem out3_5_at (x0 : Vec Ideal S256x128 .f32) (x1 : Vec Ideal S128x128 .f32) (x2 : Vec Ideal S1x128 .f32)
    (x3 : Vec Ideal S128x128 .f32) (x4 : Vec Ideal S1x128 .f32) (r : Fin 256) (q : Fin 128) :
    out3_5 x0 x1 x2 x3 x4 (ix2 r q) = Spec.dot (rowOf x0 r) (matOf x1) q + vecOf x2 q := by
  unfold out3_5
  rw [View.canon_unit_zero hz2]
  simp only [View.ld_unit_zero (S := S256x128) hz2, View.ld_unit_zero (S := S128x128) hz2, View.ld_unit_zero (S := S1x128) hz2]
  exact k0_pay1_at x0 x1 x2 r q

/-- What point t writes back to output window 5's array is block t of the closed form. -/
theorem flushed3_5_eq (c : Dev nD) (t : Fin cfg3.N) :
    (dat3 V c).flushed 5 t = ((cfg3.win 5).blk t).view.read (Elt Ideal)
      (linArr (V c main_arg0 : (⟨2, ![16384, 128]⟩ : Shape).Idx → EReal) (V c main_arg33) (V c main_arg34)) := by
  show (cfg3.win 5).cut (grid3.coords t) ((dat3 V c).after 5 t) = _
  rw [after3_5]
  obtain ⟨i0a, i0b, i1a, i1b, i2a, i2b, i3a, i3b, i4a, i4b, i5a, i5b, i6a, i6b⟩ := idx3 t
  have hN : cfg3.N = 64 := N_3
  have htl : t.val < 64 := lt_of_lt_of_eq t.isLt hN
  funext j
  obtain ⟨r, q, rfl⟩ : ∃ (r : Fin 256) (q : Fin 128), j = ix2 r q := ⟨j 0, j 1, eq_ix2 j⟩
  have hr := r.isLt
  refine (out3_5_at (iblk3 V c 0 t) (iblk3 V c 1 t) (iblk3 V c 2 t) (iblk3 V c 3 t) (iblk3 V c 4 t) r q).trans ?_
  have hemb : ((cfg3.win 5).blk t).view.emb (ix2 r q) = ix2 (⟨t.val * 256 + r.val, by omega⟩ : Fin 16384) q := by
    funext a; apply Fin.ext
    match a with
    | ⟨0, _⟩ => show win3_5.index t (0 : Fin 2) * 256 + 1 * r.val = t.val * 256 + r.val; omega
    | ⟨1, _⟩ => show win3_5.index t (1 : Fin 2) * 128 + 1 * q.val = q.val; omega
  show _ = linArr (V c main_arg0 : (⟨2, ![16384, 128]⟩ : Shape).Idx → EReal) (V c main_arg33) (V c main_arg34) (((cfg3.win 5).blk t).view.emb (ix2 r q))
  rw [hemb]
  show _ = Spec.dot (rowOf (V c main_arg0 : (⟨2, ![16384, 128]⟩ : Shape).Idx → EReal) (⟨t.val * 256 + r.val, by omega⟩ : Fin 16384)) (matOf (V c main_arg33)) q + vecOf (V c main_arg34) q
  have hr0 : rowOf (n := 256) (iblk3 V c 0 t) r = rowOf (V c main_arg0 : (⟨2, ![16384, 128]⟩ : Shape).Idx → EReal) (⟨t.val * 256 + r.val, by omega⟩ : Fin 16384) := by
    funext k
    show V c main_arg0 (((cfg3.win 0).blk t).view.emb (ix2 r k)) = V c main_arg0 (ix2 (⟨t.val * 256 + r.val, by omega⟩ : Fin 16384) k)
    refine congrArg (V c main_arg0) (funext fun a => Fin.ext ?_)
    match a with
    | ⟨0, _⟩ => show win3_0.index t (0 : Fin 2) * 256 + 1 * r.val = t.val * 256 + r.val; omega
    | ⟨1, _⟩ => show win3_0.index t (1 : Fin 2) * 128 + 1 * k.val = k.val; omega
  have hm1 : matOf (iblk3 V c 1 t) = matOf (V c main_arg33 : (⟨2, ![128, 128]⟩ : Shape).Idx → EReal) := by
    funext k q'
    show V c main_arg33 (((cfg3.win 1).blk t).view.emb (ix2 k q')) = V c main_arg33 (ix2 k q')
    refine congrArg (V c main_arg33) (funext fun a => Fin.ext ?_)
    match a with
    | ⟨0, _⟩ => show win3_1.index t (0 : Fin 2) * 128 + 1 * k.val = k.val; omega
    | ⟨1, _⟩ => show win3_1.index t (1 : Fin 2) * 128 + 1 * q'.val = q'.val; omega
  have hv2 : vecOf (iblk3 V c 2 t) = vecOf (V c main_arg34 : (⟨2, ![1, 128]⟩ : Shape).Idx → EReal) := by
    funext q'
    show V c main_arg34 (((cfg3.win 2).blk t).view.emb (ix2 (0 : Fin 1) q')) = V c main_arg34 (ix2 (0 : Fin 1) q')
    refine congrArg (V c main_arg34) (funext fun a => Fin.ext ?_)
    match a with
    | ⟨0, _⟩ => show win3_2.index t (0 : Fin 2) * 1 + 1 * 0 = 0; omega
    | ⟨1, _⟩ => show win3_2.index t (1 : Fin 2) * 128 + 1 * q'.val = q'.val; omega
  rw [hr0, hm1, hv2]

/-- An index of the array is in point t's block iff each coordinate is in the block's range on its axis. -/
theorem mem_blk3_5 (t : Fin cfg3.N) (i : (⟨2, ![16384, 128]⟩ : Shape).Idx) :
    i ∈ ((cfg3.win 5).blk t).view.set ↔ ∀ a : Fin 2, win3_5.index t a * S256x128.size a ≤ (i a).val ∧ (i a).val < win3_5.index t a * S256x128.size a + S256x128.size a := by
  show i ∈ ((View.whole main_v20_0).slice (win3_5.rect t)).set ↔ _
  rw [View.set_slice_whole, Rect.mem_set_unit]
  exact Iff.rfl

/-- Every row lies in the block of the point row / 256. -/
theorem covered3_5 (i : (⟨2, ![16384, 128]⟩ : Shape).Idx) :
    ∃ t : Fin cfg3.N, (cfg3.win 5).flush t = true ∧ i ∈ ((cfg3.win 5).blk t).view.set := by
  have hi0 : (i 0).val < 16384 := (i 0).isLt
  have hi1 : (i 1).val < 128 := (i 1).isLt
  have hN : cfg3.N = 64 := N_3
  let t : Fin cfg3.N := ⟨(i 0).val / 256, by rw [hN]; omega⟩
  have ht : t.val = (i 0).val / 256 := rfl
  have e0 : win3_5.index t (0 : Fin 2) = t.val := (idx3 t).2.2.2.2.2.2.2.2.2.2.1
  have e1 : win3_5.index t (1 : Fin 2) = 0 := (idx3 t).2.2.2.2.2.2.2.2.2.2.2.1
  refine ⟨t, flush3_5 t, ?_⟩
  rw [mem_blk3_5]
  intro a
  match a with
  | ⟨0, _⟩ => show win3_5.index t (0 : Fin 2) * 256 ≤ (i 0).val ∧ (i 0).val < win3_5.index t (0 : Fin 2) * 256 + 256; omega
  | ⟨1, _⟩ => show win3_5.index t (1 : Fin 2) * 128 ≤ (i 1).val ∧ (i 1).val < win3_5.index t (1 : Fin 2) * 128 + 128; omega

/-- THE ARRAY of output window 5 after region 3: x·W + b row by row, of the region-entry arrays. -/
theorem fin3_5 (c : Dev nD) : (dat3 V c).arrAt 5 cfg3.N
    = linArr (V c main_arg0 : (⟨2, ![16384, 128]⟩ : Shape).Idx → EReal) (V c main_arg33) (V c main_arg34) :=
  (dat3 V c).arrAt_eq_of_cover 5 _ (fun t _ => flushed3_5_eq V c t) covered3_5

/-- What the body leaves in output window 6's buffer, at row r and lane q. -/
theorem out3_6_at (x0 : Vec Ideal S256x128 .f32) (x1 : Vec Ideal S128x128 .f32) (x2 : Vec Ideal S1x128 .f32)
    (x3 : Vec Ideal S128x128 .f32) (x4 : Vec Ideal S1x128 .f32) (r : Fin 256) (q : Fin 128) :
    out3_6 x0 x1 x2 x3 x4 (ix2 r q) = Spec.dot (rowOf x0 r) (matOf x3) q + vecOf x4 q := by
  unfold out3_6
  rw [View.canon_unit_zero hz2]
  simp only [View.ld_unit_zero (S := S256x128) hz2, View.ld_unit_zero (S := S128x128) hz2, View.ld_unit_zero (S := S1x128) hz2]
  exact k0_pay2_at x0 x3 x4 r q

/-- What point t writes back to output window 6's array is block t of the closed form. -/
theorem flushed3_6_eq (c : Dev nD) (t : Fin cfg3.N) :
    (dat3 V c).flushed 6 t = ((cfg3.win 6).blk t).view.read (Elt Ideal)
      (linArr (V c main_arg0 : (⟨2, ![16384, 128]⟩ : Shape).Idx → EReal) (V c main_arg35) (V c main_arg36)) := by
  show (cfg3.win 6).cut (grid3.coords t) ((dat3 V c).after 6 t) = _
  rw [after3_6]
  obtain ⟨i0a, i0b, i1a, i1b, i2a, i2b, i3a, i3b, i4a, i4b, i5a, i5b, i6a, i6b⟩ := idx3 t
  have hN : cfg3.N = 64 := N_3
  have htl : t.val < 64 := lt_of_lt_of_eq t.isLt hN
  funext j
  obtain ⟨r, q, rfl⟩ : ∃ (r : Fin 256) (q : Fin 128), j = ix2 r q := ⟨j 0, j 1, eq_ix2 j⟩
  have hr := r.isLt
  refine (out3_6_at (iblk3 V c 0 t) (iblk3 V c 1 t) (iblk3 V c 2 t) (iblk3 V c 3 t) (iblk3 V c 4 t) r q).trans ?_
  have hemb : ((cfg3.win 6).blk t).view.emb (ix2 r q) = ix2 (⟨t.val * 256 + r.val, by omega⟩ : Fin 16384) q := by
    funext a; apply Fin.ext
    match a with
    | ⟨0, _⟩ => show win3_6.index t (0 : Fin 2) * 256 + 1 * r.val = t.val * 256 + r.val; omega
    | ⟨1, _⟩ => show win3_6.index t (1 : Fin 2) * 128 + 1 * q.val = q.val; omega
  show _ = linArr (V c main_arg0 : (⟨2, ![16384, 128]⟩ : Shape).Idx → EReal) (V c main_arg35) (V c main_arg36) (((cfg3.win 6).blk t).view.emb (ix2 r q))
  rw [hemb]
  show _ = Spec.dot (rowOf (V c main_arg0 : (⟨2, ![16384, 128]⟩ : Shape).Idx → EReal) (⟨t.val * 256 + r.val, by omega⟩ : Fin 16384)) (matOf (V c main_arg35)) q + vecOf (V c main_arg36) q
  have hr0 : rowOf (n := 256) (iblk3 V c 0 t) r = rowOf (V c main_arg0 : (⟨2, ![16384, 128]⟩ : Shape).Idx → EReal) (⟨t.val * 256 + r.val, by omega⟩ : Fin 16384) := by
    funext k
    show V c main_arg0 (((cfg3.win 0).blk t).view.emb (ix2 r k)) = V c main_arg0 (ix2 (⟨t.val * 256 + r.val, by omega⟩ : Fin 16384) k)
    refine congrArg (V c main_arg0) (funext fun a => Fin.ext ?_)
    match a with
    | ⟨0, _⟩ => show win3_0.index t (0 : Fin 2) * 256 + 1 * r.val = t.val * 256 + r.val; omega
    | ⟨1, _⟩ => show win3_0.index t (1 : Fin 2) * 128 + 1 * k.val = k.val; omega
  have hm3 : matOf (iblk3 V c 3 t) = matOf (V c main_arg35 : (⟨2, ![128, 128]⟩ : Shape).Idx → EReal) := by
    funext k q'
    show V c main_arg35 (((cfg3.win 3).blk t).view.emb (ix2 k q')) = V c main_arg35 (ix2 k q')
    refine congrArg (V c main_arg35) (funext fun a => Fin.ext ?_)
    match a with
    | ⟨0, _⟩ => show win3_3.index t (0 : Fin 2) * 128 + 1 * k.val = k.val; omega
    | ⟨1, _⟩ => show win3_3.index t (1 : Fin 2) * 128 + 1 * q'.val = q'.val; omega
  have hv4 : vecOf (iblk3 V c 4 t) = vecOf (V c main_arg36 : (⟨2, ![1, 128]⟩ : Shape).Idx → EReal) := by
    funext q'
    show V c main_arg36 (((cfg3.win 4).blk t).view.emb (ix2 (0 : Fin 1) q')) = V c main_arg36 (ix2 (0 : Fin 1) q')
    refine congrArg (V c main_arg36) (funext fun a => Fin.ext ?_)
    match a with
    | ⟨0, _⟩ => show win3_4.index t (0 : Fin 2) * 1 + 1 * 0 = 0; omega
    | ⟨1, _⟩ => show win3_4.index t (1 : Fin 2) * 128 + 1 * q'.val = q'.val; omega
  rw [hr0, hm3, hv4]

/-- An index of the array is in point t's block iff each coordinate is in the block's range on its axis. -/
theorem mem_blk3_6 (t : Fin cfg3.N) (i : (⟨2, ![16384, 128]⟩ : Shape).Idx) :
    i ∈ ((cfg3.win 6).blk t).view.set ↔ ∀ a : Fin 2, win3_6.index t a * S256x128.size a ≤ (i a).val ∧ (i a).val < win3_6.index t a * S256x128.size a + S256x128.size a := by
  show i ∈ ((View.whole main_v20_1).slice (win3_6.rect t)).set ↔ _
  rw [View.set_slice_whole, Rect.mem_set_unit]
  exact Iff.rfl

/-- Every row lies in the block of the point row / 256. -/
theorem covered3_6 (i : (⟨2, ![16384, 128]⟩ : Shape).Idx) :
    ∃ t : Fin cfg3.N, (cfg3.win 6).flush t = true ∧ i ∈ ((cfg3.win 6).blk t).view.set := by
  have hi0 : (i 0).val < 16384 := (i 0).isLt
  have hi1 : (i 1).val < 128 := (i 1).isLt
  have hN : cfg3.N = 64 := N_3
  let t : Fin cfg3.N := ⟨(i 0).val / 256, by rw [hN]; omega⟩
  have ht : t.val = (i 0).val / 256 := rfl
  have e0 : win3_6.index t (0 : Fin 2) = t.val := (idx3 t).2.2.2.2.2.2.2.2.2.2.2.2.1
  have e1 : win3_6.index t (1 : Fin 2) = 0 := (idx3 t).2.2.2.2.2.2.2.2.2.2.2.2.2
  refine ⟨t, flush3_6 t, ?_⟩
  rw [mem_blk3_6]
  intro a
  match a with
  | ⟨0, _⟩ => show win3_6.index t (0 : Fin 2) * 256 ≤ (i 0).val ∧ (i 0).val < win3_6.index t (0 : Fin 2) * 256 + 256; omega
  | ⟨1, _⟩ => show win3_6.index t (1 : Fin 2) * 128 ≤ (i 1).val ∧ (i 1).val < win3_6.index t (1 : Fin 2) * 128 + 128; omega

/-- THE ARRAY of output window 6 after region 3: x·W + b row by row, of the region-entry arrays. -/
theorem fin3_6 (c : Dev nD) : (dat3 V c).arrAt 6 cfg3.N
    = linArr (V c main_arg0 : (⟨2, ![16384, 128]⟩ : Shape).Idx → EReal) (V c main_arg35) (V c main_arg36) :=
  (dat3 V c).arrAt_eq_of_cover 6 _ (fun t _ => flushed3_6_eq V c t) covered3_6

end Cert.ReferenceIdeal.Val

end
-- ==== Proof.RV.PayB.lean ====
/-
  The reference's kernel bodies of the second textual form, read at an index of their 256 × 128 block
  (row r, lane q) as the row functions of the specification applied to row r of the input blocks:
    node_linear  (pallas_calls 6, 9):     x·W + b, the node block entering through an identity reshape;
    edge_update  (pallas_calls 4, 7, 10): the pre-activation, the residual update e + silu (LN …) — here the body
                 is handed the lane-sum column and the splat 128 and divides them itself, and the edge block
                 enters through an identity reshape —, the gate and the gated message;
    node_update  (pallas_calls 8, 11):    x + silu (LN (hs + num / (den + ε))), x entering through an identity reshape.
  Steps that cross a lane sum are composed as terms (congruence and transitivity), never by rewriting.
-/
import proofs.«117664_g2000706958607885_pallasbulk_534_41_alg».proof.Proof.RV.Pay
import proofs.«117664_g2000706958607885_pallasbulk_534_41_alg».proof.Proof.RV.Mask

noncomputable section

namespace Cert.ReferenceIdeal.Val

open Idealize.ShloMosaic Idealize.ShloMosaic.ValueIdx Cert.ReferenceIdeal Cert.ReferenceIdeal.Gen
open scoped BigOperators

/-! ## node_linear -/

theorem k6_pay2_at (x : FVec Ideal S256x128 .f32) (w : FVec Ideal S128x128 .f32) (b : FVec Ideal S1x128 .f32) (r : Fin 256) (q : Fin 128) :
    k6_pay2 (F := Ideal) x w b (ix2 r q) = Spec.dot (rowOf x r) (matOf w) q + vecOf b q := by
  unfold k6_pay2 k6_pay1
  simp only [addf_apply, shapeCast_self, matmul_at, bcast_row_at]
  rfl

theorem k6_pay3_at (x : FVec Ideal S256x128 .f32) (w : FVec Ideal S128x128 .f32) (b : FVec Ideal S1x128 .f32) (r : Fin 256) (q : Fin 128) :
    k6_pay3 (F := Ideal) x w b (ix2 r q) = Spec.dot (rowOf x r) (matOf w) q + vecOf b q := by
  unfold k6_pay3 k6_pay1
  simp only [addf_apply, shapeCast_self, matmul_at, bcast_row_at]
  rfl

theorem k9_pay2_at (x : FVec Ideal S256x128 .f32) (w : FVec Ideal S128x128 .f32) (b : FVec Ideal S1x128 .f32) (r : Fin 256) (q : Fin 128) :
    k9_pay2 (F := Ideal) x w b (ix2 r q) = Spec.dot (rowOf x r) (matOf w) q + vecOf b q := by
  unfold k9_pay2 k9_pay1
  simp only [addf_apply, shapeCast_self, matmul_at, bcast_row_at]
  rfl

theorem k9_pay3_at (x : FVec Ideal S256x128 .f32) (w : FVec Ideal S128x128 .f32) (b : FVec Ideal S1x128 .f32) (r : Fin 256) (q : Fin 128) :
    k9_pay3 (F := Ideal) x w b (ix2 r q) = Spec.dot (rowOf x r) (matOf w) q + vecOf b q := by
  unfold k9_pay3 k9_pay1
  simp only [addf_apply, shapeCast_self, matmul_at, bcast_row_at]
  rfl

/-! ## edge_update -/

/-- The pre-activation of pallas_call 4 at (r, q). -/
theorem k4_pay4_at (xd : FVec Ideal S256x128 .f32) (wA : FVec Ideal S128x128 .f32) (bA : FVec Ideal S1x128 .f32)
    (xs : FVec Ideal S256x128 .f32) (wB : FVec Ideal S128x128 .f32) (bB : FVec Ideal S1x128 .f32)
    (e : FVec Ideal S256x128 .f32) (wC : FVec Ideal S128x128 .f32) (bC : FVec Ideal S1x128 .f32) (r : Fin 256) (q : Fin 128) :
    k4_pay4 (F := Ideal) xd wA bA xs wB bB e wC bC (ix2 r q)
      = Spec.refEhat (rowOf xd r) (rowOf xs r) (rowOf e r) (matOf wA) (matOf wB) (matOf wC) (vecOf bA) (vecOf bB) (vecOf bC) q := by
  unfold k4_pay4
  simp only [addf_apply, shapeCast_self, matmul_at, bcast_row_at]
  rfl

/-- Its row r. -/
theorem k4_pay4_row (xd : FVec Ideal S256x128 .f32) (wA : FVec Ideal S128x128 .f32) (bA : FVec Ideal S1x128 .f32)
    (xs : FVec Ideal S256x128 .f32) (wB : FVec Ideal S128x128 .f32) (bB : FVec Ideal S1x128 .f32)
    (e : FVec Ideal S256x128 .f32) (wC : FVec Ideal S128x128 .f32) (bC : FVec Ideal S1x128 .f32) (r : Fin 256) :
    rowOf (k4_pay4 (F := Ideal) xd wA bA xs wB bB e wC bC) r
      = Spec.refEhat (rowOf xd r) (rowOf xs r) (rowOf e r) (matOf wA) (matOf wB) (matOf wC) (vecOf bA) (vecOf bB) (vecOf bC) :=
  funext fun q => k4_pay4_at xd wA bA xs wB bB e wC bC r q

/-- The residual update for any pre-activation block v: the body is handed the lane-sum column of v and the
    splat 128 and forms the mean column itself; the edge block enters through an identity reshape. -/
theorem k4_pay1_at (v e : FVec Ideal S256x128 .f32) (g b : FVec Ideal S1x128 .f32)
    (hφ : FKind.Formats .f32) (hacc : (0x00000000#32 : BitVec 32) = FKind.add.neutral .f32 hφ) (r : Fin 256) (q : Fin 128) :
    k4_pay1 (F := Ideal) v (shapeCast S256x128 e shapeCasts_S256x128_S256x128) g b
        (shapeCast S256x1 (multiReduction .add [1] S256 v 0x00000000#32 reduces_S256x128_S256 hφ hacc) shapeCasts_S256_S256x1)
        (broadcast S256x1 (Scalar.ofBits .f32 0x43000000#32 : Ideal .f32)) (ix2 r q)
      = Spec.resid (rowOf e r) (rowOf v r) (vecOf g) (vecOf b) q :=
  congrArg₂ (· + ·) (congrFun (shapeCast_self e shapeCasts_S256x128_S256x128) (ix2 r q))
    (congrArg (fun z => z * Ideal.logistic z)
      (lnBody_at v (broadcastTo S256x128 (meanCol v hφ hacc) broadcasts_S256x1_S256x128) (meanCol v hφ hacc) g b _ _ r q
        (fun k => (bcast_col_at _ r k).trans (meanCol_at v hφ hacc r)) (meanCol_at v hφ hacc r)))

/-- The new edge block as the body's store spells it, at (r, q). -/
theorem k4_enew_at (xd : FVec Ideal S256x128 .f32) (wA : FVec Ideal S128x128 .f32) (bA : FVec Ideal S1x128 .f32)
    (xs : FVec Ideal S256x128 .f32) (wB : FVec Ideal S128x128 .f32) (bB : FVec Ideal S1x128 .f32)
    (e : FVec Ideal S256x128 .f32) (wC : FVec Ideal S128x128 .f32) (bC : FVec Ideal S1x128 .f32) (g b : FVec Ideal S1x128 .f32) (r : Fin 256) (q : Fin 128) :
    k4_pay1 (F := Ideal) (k4_pay4 xd wA bA xs wB bB e wC bC) (k4_pay5 e) g b (k4_pay6 xd wA bA xs wB bB e wC bC) (k4_pay7 (F := Ideal)) (ix2 r q)
      = Spec.resid (rowOf e r) (Spec.refEhat (rowOf xd r) (rowOf xs r) (rowOf e r) (matOf wA) (matOf wB) (matOf wC) (vecOf bA) (vecOf bB) (vecOf bC)) (vecOf g) (vecOf b) q :=
  (k4_pay1_at (k4_pay4 (F := Ideal) xd wA bA xs wB bB e wC bC) e g b _ _ r q).trans
    (congrArg (fun v => Spec.resid (rowOf e r) v (vecOf g) (vecOf b) q) (k4_pay4_row xd wA bA xs wB bB e wC bC r))

/-- The pre-activation of pallas_call 7 at (r, q). -/
theorem k7_pay4_at (xd : FVec Ideal S256x128 .f32) (wA : FVec Ideal S128x128 .f32) (bA : FVec Ideal S1x128 .f32)
    (xs : FVec Ideal S256x128 .f32) (wB : FVec Ideal S128x128 .f32) (bB : FVec Ideal S1x128 .f32)
    (e : FVec Ideal S256x128 .f32) (wC : FVec Ideal S128x128 .f32) (bC : FVec Ideal S1x128 .f32) (r : Fin 256) (q : Fin 128) :
    k7_pay4 (F := Ideal) xd wA bA xs wB bB e wC bC (ix2 r q)
      = Spec.refEhat (rowOf xd r) (rowOf xs r) (rowOf e r) (matOf wA) (matOf wB) (matOf wC) (vecOf bA) (vecOf bB) (vecOf bC) q := by
  unfold k7_pay4
  simp only [addf_apply, shapeCast_self, matmul_at, bcast_row_at]
  rfl

/-- Its row r. -/
theorem k7_pay4_row (xd : FVec Ideal S256x128 .f32) (wA : FVec Ideal S128x128 .f32) (bA : FVec Ideal S1x128 .f32)
    (xs : FVec Ideal S256x128 .f32) (wB : FVec Ideal S128x128 .f32) (bB : FVec Ideal S1x128 .f32)
    (e : FVec Ideal S256x128 .f32) (wC : FVec Ideal S128x128 .f32) (bC : FVec Ideal S1x128 .f32) (r : Fin 256) :
    rowOf (k7_pay4 (F := Ideal) xd wA bA xs wB bB e wC bC) r
      = Spec.refEhat (rowOf xd r) (rowOf xs r) (rowOf e r) (matOf wA) (matOf wB) (matOf wC) (vecOf bA) (vecOf bB) (vecOf bC) :=
  funext fun q => k7_pay4_at xd wA bA xs wB bB e wC bC r q

/-- The residual update for any pre-activation block v: the body is handed the lane-sum column of v and the
    splat 128 and forms the mean column itself; the edge block enters through an identity reshape. -/
theorem k7_pay1_at (v e : FVec Ideal S256x128 .f32) (g b : FVec Ideal S1x128 .f32)
    (hφ : FKind.Formats .f32) (hacc : (0x00000000#32 : BitVec 32) = FKind.add.neutral .f32 hφ) (r : Fin 256) (q : Fin 128) :
    k7_pay1 (F := Ideal) v (shapeCast S256x128 e shapeCasts_S256x128_S256x128) g b
        (shapeCast S256x1 (multiReduction .add [1] S256 v 0x00000000#32 reduces_S256x128_S256 hφ hacc) shapeCasts_S256_S256x1)
        (broadcast S256x1 (Scalar.ofBits .f32 0x43000000#32 : Ideal .f32)) (ix2 r q)
      = Spec.resid (rowOf e r) (rowOf v r) (vecOf g) (vecOf b) q :=
  congrArg₂ (· + ·) (congrFun (shapeCast_self e shapeCasts_S256x128_S256x128) (ix2 r q))
    (congrArg (fun z => z * Ideal.logistic z)
      (lnBody_at v (broadcastTo S256x128 (meanCol v hφ hacc) broadcasts_S256x1_S256x128) (meanCol v hφ hacc) g b _ _ r q
        (fun k => (bcast_col_at _ r k).trans (meanCol_at v hφ hacc r)) (meanCol_at v hφ hacc r)))

/-- The new edge block as the body's store spells it, at (r, q). -/
theorem k7_enew_at (xd : FVec Ideal S256x128 .f32) (wA : FVec Ideal S128x128 .f32) (bA : FVec Ideal S1x128 .f32)
    (xs : FVec Ideal S256x128 .f32) (wB : FVec Ideal S128x128 .f32) (bB : FVec Ideal S1x128 .f32)
    (e : FVec Ideal S256x128 .f32) (wC : FVec Ideal S128x128 .f32) (bC : FVec Ideal S1x128 .f32) (g b : FVec Ideal S1x128 .f32) (r : Fin 256) (q : Fin 128) :
    k7_pay1 (F := Ideal) (k7_pay4 xd wA bA xs wB bB e wC bC) (k7_pay5 e) g b (k7_pay6 xd wA bA xs wB bB e wC bC) (k7_pay7 (F := Ideal)) (ix2 r q)
      = Spec.resid (rowOf e r) (Spec.refEhat (rowOf xd r) (rowOf xs r) (rowOf e r) (matOf wA) (matOf wB) (matOf wC) (vecOf bA) (vecOf bB) (vecOf bC)) (vecOf g) (vecOf b) q :=
  (k7_pay1_at (k7_pay4 (F := Ideal) xd wA bA xs wB bB e wC bC) e g b _ _ r q).trans
    (congrArg (fun v => Spec.resid (rowOf e r) v (vecOf g) (vecOf b) q) (k7_pay4_row xd wA bA xs wB bB e wC bC r))

/-- The pre-activation of pallas_call 10 at (r, q). -/
theorem k10_pay4_at (xd : FVec Ideal S256x128 .f32) (wA : FVec Ideal S128x128 .f32) (bA : FVec Ideal S1x128 .f32)
    (xs : FVec Ideal S256x128 .f32) (wB : FVec Ideal S128x128 .f32) (bB : FVec Ideal S1x128 .f32)
    (e : FVec Ideal S256x128 .f32) (wC : FVec Ideal S128x128 .f32) (bC : FVec Ideal S1x128 .f32) (r : Fin 256) (q : Fin 128) :
    k10_pay4 (F := Ideal) xd wA bA xs wB bB e wC bC (ix2 r q)
      = Spec.refEhat (rowOf xd r) (rowOf xs r) (rowOf e r) (matOf wA) (matOf wB) (matOf wC) (vecOf bA) (vecOf bB) (vecOf bC) q := by
  unfold k10_pay4
  simp only [addf_apply, shapeCast_self, matmul_at, bcast_row_at]
  rfl

/-- Its row r. -/
theorem k10_pay4_row (xd : FVec Ideal S256x128 .f32) (wA : FVec Ideal S128x128 .f32) (bA : FVec Ideal S1x128 .f32)
    (xs : FVec Ideal S256x128 .f32) (wB : FVec Ideal S128x128 .f32) (bB : FVec Ideal S1x128 .f32)
    (e : FVec Ideal S256x128 .f32) (wC : FVec Ideal S128x128 .f32) (bC : FVec Ideal S1x128 .f32) (r : Fin 256) :
    rowOf (k10_pay4 (F := Ideal) xd wA bA xs wB bB e wC bC) r
      = Spec.refEhat (rowOf xd r) (rowOf xs r) (rowOf e r) (matOf wA) (matOf wB) (matOf wC) (vecOf bA) (vecOf bB) (vecOf bC) :=
  funext fun q => k10_pay4_at xd wA bA xs wB bB e wC bC r q

/-- The residual update for any pre-activation block v: the body is handed the lane-sum column of v and the
    splat 128 and forms the mean column itself; the edge block enters through an identity reshape. -/
theorem k10_pay1_at (v e : FVec Ideal S256x128 .f32) (g b : FVec Ideal S1x128 .f32)
    (hφ : FKind.Formats .f32) (hacc : (0x00000000#32 : BitVec 32) = FKind.add.neutral .f32 hφ) (r : Fin 256) (q : Fin 128) :
    k10_pay1 (F := Ideal) v (shapeCast S256x128 e shapeCasts_S256x128_S256x128) g b
        (shapeCast S256x1 (multiReduction .add [1] S256 v 0x00000000#32 reduces_S256x128_S256 hφ hacc) shapeCasts_S256_S256x1)
        (broadcast S256x1 (Scalar.ofBits .f32 0x43000000#32 : Ideal .f32)) (ix2 r q)
      = Spec.resid (rowOf e r) (rowOf v r) (vecOf g) (vecOf b) q :=
  congrArg₂ (· + ·) (congrFun (shapeCast_self e shapeCasts_S256x128_S256x128) (ix2 r q))
    (congrArg (fun z => z * Ideal.logistic z)
      (lnBody_at v (broadcastTo S256x128 (meanCol v hφ hacc) broadcasts_S256x1_S256x128) (meanCol v hφ hacc) g b _ _ r q
        (fun k => (bcast_col_at _ r k).trans (meanCol_at v hφ hacc r)) (meanCol_at v hφ hacc r)))

/-- The new edge block as the body's store spells it, at (r, q). -/
theorem k10_enew_at (xd : FVec Ideal S256x128 .f32) (wA : FVec Ideal S128x128 .f32) (bA : FVec Ideal S1x128 .f32)
    (xs : FVec Ideal S256x128 .f32) (wB : FVec Ideal S128x128 .f32) (bB : FVec Ideal S1x128 .f32)
    (e : FVec Ideal S256x128 .f32) (wC : FVec Ideal S128x128 .f32) (bC : FVec Ideal S1x128 .f32) (g b : FVec Ideal S1x128 .f32) (r : Fin 256) (q : Fin 128) :
    k10_pay1 (F := Ideal) (k10_pay4 xd wA bA xs wB bB e wC bC) (k10_pay5 e) g b (k10_pay6 xd wA bA xs wB bB e wC bC) (k10_pay7 (F := Ideal)) (ix2 r q)
      = Spec.resid (rowOf e r) (Spec.refEhat (rowOf xd r) (rowOf xs r) (rowOf e r) (matOf wA) (matOf wB) (matOf wC) (vecOf bA) (vecOf bB) (vecOf bC)) (vecOf g) (vecOf b) q :=
  (k10_pay1_at (k10_pay4 (F := Ideal) xd wA bA xs wB bB e wC bC) e g b _ _ r q).trans
    (congrArg (fun v => Spec.resid (rowOf e r) v (vecOf g) (vecOf b) q) (k10_pay4_row xd wA bA xs wB bB e wC bC r))

/-- The gate of pallas_call 7 (131072 rows). -/
theorem k7_pay2_at (i : BitVec 32) (v : FVec Ideal S256x128 .f32) (r : Fin 256) (q : Fin 128)
    (hm : IntOp.cmpi .slt (IntOp.addi (Scalar.muli i 256#32) (BitVec.ofNat 32 r.val)) 131072#32 = 1#1) :
    k7_pay2 (F := Ideal) i v (ix2 r q) = Spec.gate (rowOf v r) q :=
  gate_mask_at 131072#32 i v r q hm

/-- Its gated message. -/
theorem k7_pay3_at (i : BitVec 32) (v ms : FVec Ideal S256x128 .f32) (r : Fin 256) (q : Fin 128)
    (hm : IntOp.cmpi .slt (IntOp.addi (Scalar.muli i 256#32) (BitVec.ofNat 32 r.val)) 131072#32 = 1#1) :
    k7_pay3 (F := Ideal) i v ms (ix2 r q) = Spec.gate (rowOf v r) q * ms (ix2 r q) := by
  show k7_pay2 (F := Ideal) i v (ix2 r q) * shapeCast S256x128 ms shapeCasts_S256x128_S256x128 (ix2 r q) = _
  rw [shapeCast_self, k7_pay2_at i v r q hm]

/-- The gate of pallas_call 10 (65536 rows). -/
theorem k10_pay2_at (i : BitVec 32) (v : FVec Ideal S256x128 .f32) (r : Fin 256) (q : Fin 128)
    (hm : IntOp.cmpi .slt (IntOp.addi (Scalar.muli i 256#32) (BitVec.ofNat 32 r.val)) 65536#32 = 1#1) :
    k10_pay2 (F := Ideal) i v (ix2 r q) = Spec.gate (rowOf v r) q :=
  gate_mask_at 65536#32 i v r q hm

/-- Its gated message. -/
theorem k10_pay3_at (i : BitVec 32) (v ms : FVec Ideal S256x128 .f32) (r : Fin 256) (q : Fin 128)
    (hm : IntOp.cmpi .slt (IntOp.addi (Scalar.muli i 256#32) (BitVec.ofNat 32 r.val)) 65536#32 = 1#1) :
    k10_pay3 (F := Ideal) i v ms (ix2 r q) = Spec.gate (rowOf v r) q * ms (ix2 r q) := by
  show k10_pay2 (F := Ideal) i v (ix2 r q) * shapeCast S256x128 ms shapeCasts_S256x128_S256x128 (ix2 r q) = _
  rw [shapeCast_self, k10_pay2_at i v r q hm]

/-! ## node_update -/

theorem k8_pay1_at (num den hs x : FVec Ideal S256x128 .f32) (g b : FVec Ideal S1x128 .f32) (r : Fin 256) (q : Fin 128) :
    k8_pay1 (F := Ideal) num den hs x g b (ix2 r q)
      = Spec.resid (rowOf x r) (Spec.nodeRow (rowOf hs r) (rowOf num r) (rowOf den r)) (vecOf g) (vecOf b) q :=
  (congrArg₂ (· + ·) (congrFun (shapeCast_self x shapeCasts_S256x128_S256x128) (ix2 r q))
    (congrArg (fun z => z * Ideal.logistic z)
      (lnBody_at (nodeBlk num den hs) (broadcastTo S256x128 (meanCol (nodeBlk num den hs) _ _) broadcasts_S256x1_S256x128)
        (meanCol (nodeBlk num den hs) _ _) g b _ _ r q
        (fun k => (bcast_col_at _ r k).trans (meanCol_at _ _ _ r)) (meanCol_at _ _ _ r)))).trans
    (congrArg (fun v => Spec.resid (rowOf x r) v (vecOf g) (vecOf b) q) (nodeBlk_row num den hs r))

theorem k11_pay1_at (num den hs x : FVec Ideal S256x128 .f32) (g b : FVec Ideal S1x128 .f32) (r : Fin 256) (q : Fin 128) :
    k11_pay1 (F := Ideal) num den hs x g b (ix2 r q)
      = Spec.resid (rowOf x r) (Spec.nodeRow (rowOf hs r) (rowOf num r) (rowOf den r)) (vecOf g) (vecOf b) q :=
  (congrArg₂ (· + ·) (congrFun (shapeCast_self x shapeCasts_S256x128_S256x128) (ix2 r q))
    (congrArg (fun z => z * Ideal.logistic z)
      (lnBody_at (nodeBlk num den hs) (broadcastTo S256x128 (meanCol (nodeBlk num den hs) _ _) broadcasts_S256x1_S256x128)
        (meanCol (nodeBlk num den hs) _ _) g b _ _ r q
        (fun k => (bcast_col_at _ r k).trans (meanCol_at _ _ _ r)) (meanCol_at _ _ _ r)))).trans
    (congrArg (fun v => Spec.resid (rowOf x r) v (vecOf g) (vecOf b) q) (nodeBlk_row num den hs r))

end Cert.ReferenceIdeal.Val

end
-- ==== Proof.RV.Fin4.lean ====
/-
  Region 4 of the reference (the edge kernel), blocks read back into arrays: its three output arrays end
  holding the updated edge rows, the gated messages and the gates, as functions of the region's input arrays
  as it finds them. The validity mask is 1 on every row: 65536 rows are 256 tiles of 256.
-/
import proofs.«117664_g2000706958607885_pallasbulk_534_41_alg».proof.Proof.RV.ArrDefs
import proofs.«117664_g2000706958607885_pallasbulk_534_41_alg».proof.Proof.RV.PayB

set_option maxRecDepth 16384

noncomputable section

namespace Cert.ReferenceIdeal.Val

open Cert.ReferenceIdeal Cert.ReferenceIdeal.Gen Cert.ReferenceIdeal.GenP
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The printed index maps over the grid: a row-tiled window's block index is the grid point, a parameter's is zero. -/
theorem idx4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = 0 ∧ win4_7.index t (1 : Fin 2) = 0
    ∧ win4_8.index t (0 : Fin 2) = 0 ∧ win4_8.index t (1 : Fin 2) = 0
    ∧ win4_9.index t (0 : Fin 2) = 0 ∧ win4_9.index t (1 : Fin 2) = 0
    ∧ win4_10.index t (0 : Fin 2) = 0 ∧ win4_10.index t (1 : Fin 2) = 0
    ∧ win4_11.index t (0 : Fin 2) = 0 ∧ win4_11.index t (1 : Fin 2) = 0
    ∧ win4_12.index t (0 : Fin 2) = t.val ∧ win4_12.index t (1 : Fin 2) = 0
    ∧ win4_13.index t (0 : Fin 2) = t.val ∧ win4_13.index t (1 : Fin 2) = 0
    ∧ win4_14.index t (0 : Fin 2) = t.val ∧ win4_14.index t (1 : Fin 2) = 0 :=
  (by decide +kernel : ∀ t : Fin grid4.N, _)

/-- What the body leaves in output window 12's buffer, at row r and lane q: the updated edge row. -/
theorem out4_12_at (x0 x1 x2 x3 : Vec Ideal S256x128 .f32) (x4 : Vec Ideal S128x128 .f32) (x5 : Vec Ideal S1x128 .f32) (x6 : Vec Ideal S128x128 .f32) (x7 : Vec Ideal S1x128 .f32) (x8 : Vec Ideal S128x128 .f32) (x9 : Vec Ideal S1x128 .f32) (x10 x11 : Vec Ideal S1x128 .f32) (r : Fin 256) (q : Fin 128) :
    out4_12 x0 x1 x2 x3 x4 x5 x6 x7 x8 x9 x10 x11 (ix2 r q) = Spec.resid (rowOf x2 r) (Spec.refEhat (rowOf x0 r) (rowOf x1 r) (rowOf x2 r) (matOf x4) (matOf x6) (matOf x8) (vecOf x5) (vecOf x7) (vecOf x9)) (vecOf x10) (vecOf x11) q := by
  unfold out4_12
  rw [View.canon_unit_zero hz2]
  simp only [View.ld_unit_zero (S := S256x128) hz2, View.ld_unit_zero (S := S128x128) hz2, View.ld_unit_zero (S := S1x128) hz2]
  exact k4_enew_at x0 x4 x5 x1 x6 x7 x2 x8 x9 x10 x11 r q

/-- Output window 14: the gate. -/
theorem out4_14_at (i : grid4.Coords) (x0 x1 x2 x3 : Vec Ideal S256x128 .f32) (x4 : Vec Ideal S128x128 .f32) (x5 : Vec Ideal S1x128 .f32) (x6 : Vec Ideal S128x128 .f32) (x7 : Vec Ideal S1x128 .f32) (x8 : Vec Ideal S128x128 .f32) (x9 : Vec Ideal S1x128 .f32) (x10 x11 : Vec Ideal S1x128 .f32) (r : Fin 256) (q : Fin 128)
    (hm : IntOp.cmpi .slt (IntOp.addi (Scalar.muli (BitVec.ofNat 32 (i 0).val) 256#32) (BitVec.ofNat 32 r.val)) 65536#32 = 1#1) :
    out4_14 i x0 x1 x2 x3 x4 x5 x6 x7 x8 x9 x10 x11 (ix2 r q) = Spec.gate (Spec.refEhat (rowOf x0 r) (rowOf x1 r) (rowOf x2 r) (matOf x4) (matOf x6) (matOf x8) (vecOf x5) (vecOf x7) (vecOf x9)) q := by
  unfold out4_14
  rw [View.canon_unit_zero hz2]
  simp only [View.ld_unit_zero (S := S256x128) hz2, View.ld_unit_zero (S := S128x128) hz2, View.ld_unit_zero (S := S1x128) hz2]
  exact (k4_pay2_at _ (k4_pay4 (F := Ideal) x0 x4 x5 x1 x6 x7 x2 x8 x9) r q hm).trans
    (congrArg (fun v => Spec.gate v q) (k4_pay4_row x0 x4 x5 x1 x6 x7 x2 x8 x9 r))

/-- Output window 13: the gated message. -/
theorem out4_13_at (i : grid4.Coords) (x0 x1 x2 x3 : Vec Ideal S256x128 .f32) (x4 : Vec Ideal S128x128 .f32) (x5 : Vec Ideal S1x128 .f32) (x6 : Vec Ideal S128x128 .f32) (x7 : Vec Ideal S1x128 .f32) (x8 : Vec Ideal S128x128 .f32) (x9 : Vec Ideal S1x128 .f32) (x10 x11 : Vec Ideal S1x128 .f32) (r : Fin 256) (q : Fin 128)
    (hm : IntOp.cmpi .slt (IntOp.addi (Scalar.muli (BitVec.ofNat 32 (i 0).val) 256#32) (BitVec.ofNat 32 r.val)) 65536#32 = 1#1) :
    out4_13 i x0 x1 x2 x3 x4 x5 x6 x7 x8 x9 x10 x11 (ix2 r q) = Spec.gate (Spec.refEhat (rowOf x0 r) (rowOf x1 r) (rowOf x2 r) (matOf x4) (matOf x6) (matOf x8) (vecOf x5) (vecOf x7) (vecOf x9)) q * rowOf x3 r q := by
  unfold out4_13
  rw [View.canon_unit_zero hz2]
  simp only [View.ld_unit_zero (S := S256x128) hz2, View.ld_unit_zero (S := S128x128) hz2, View.ld_unit_zero (S := S1x128) hz2]
  exact (k4_pay3_at _ (k4_pay4 (F := Ideal) x0 x4 x5 x1 x6 x7 x2 x8 x9) x3 r q hm).trans
    (congrArg (fun v => Spec.gate v q * x3 (ix2 r q)) (k4_pay4_row x0 x4 x5 x1 x6 x7 x2 x8 x9 r))

/-- What point t writes back to output window 12's array is block t of the closed form. -/
theorem flushed4_12_eq (c : Dev nD) (t : Fin cfg4.N) :
    (dat4 V c).flushed 12 t = ((cfg4.win 12).blk t).view.read (Elt Ideal)
      (eNewArr (V c main_v21 : (⟨2, ![65536, 128]⟩ : Shape).Idx → EReal) (V c main_v22 : (⟨2, ![65536, 128]⟩ : Shape).Idx → EReal) (V c main_v15 : (⟨2, ![65536, 128]⟩ : Shape).Idx → EReal) (V c main_arg37) (V c main_arg39) (V c main_arg41) (V c main_arg38) (V c main_arg40) (V c main_arg42) (V c main_arg45) (V c main_arg46)) := by
  show (cfg4.win 12).cut (grid4.coords t) ((dat4 V c).after 12 t) = _
  rw [after4_12]
  obtain ⟨i0a, i0b, i1a, i1b, i2a, i2b, i3a, i3b, i4a, i4b, i5a, i5b, i6a, i6b, i7a, i7b, i8a, i8b, i9a, i9b, i10a, i10b, i11a, i11b, i12a, i12b, i13a, i13b, i14a, i14b⟩ := idx4 t
  have hN : cfg4.N = 256 := N_4
  have htl : t.val < 256 := lt_of_lt_of_eq t.isLt hN
  funext j
  obtain ⟨r, q, rfl⟩ : ∃ (r : Fin 256) (q : Fin 128), j = ix2 r q := ⟨j 0, j 1, eq_ix2 j⟩
  have hr := r.isLt
  refine (out4_12_at (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) r q).trans ?_
  have hemb : ((cfg4.win 12).blk t).view.emb (ix2 r q) = ix2 (⟨t.val * 256 + r.val, by omega⟩ : Fin 65536) q := by
    funext a; apply Fin.ext
    match a with
    | ⟨0, _⟩ => show win4_12.index t (0 : Fin 2) * 256 + 1 * r.val = t.val * 256 + r.val; omega
    | ⟨1, _⟩ => show win4_12.index t (1 : Fin 2) * 128 + 1 * q.val = q.val; omega
  show _ = (eNewArr (V c main_v21 : (⟨2, ![65536, 128]⟩ : Shape).Idx → EReal) (V c main_v22 : (⟨2, ![65536, 128]⟩ : Shape).Idx → EReal) (V c main_v15 : (⟨2, ![65536, 128]⟩ : Shape).Idx → EReal) (V c main_arg37) (V c main_arg39) (V c main_arg41) (V c main_arg38) (V c main_arg40) (V c main_arg42) (V c main_arg45) (V c main_arg46)) (((cfg4.win 12).blk t).view.emb (ix2 r q))
  rw [hemb]
  show _ = Spec.resid (rowOf (V c main_v15 : (⟨2, ![65536, 128]⟩ : Shape).Idx → EReal) (⟨t.val * 256 + r.val, by omega⟩ : Fin 65536)) (Spec.refEhat (rowOf (V c main_v21 : (⟨2, ![65536, 128]⟩ : Shape).Idx → EReal) (⟨t.val * 256 + r.val, by omega⟩ : Fin 65536)) (rowOf (V c main_v22 : (⟨2, ![65536, 128]⟩ : Shape).Idx → EReal) (⟨t.val * 256 + r.val, by omega⟩ : Fin 65536)) (rowOf (V c main_v15 : (⟨2, ![65536, 128]⟩ : Shape).Idx → EReal) (⟨t.val * 256 + r.val, by omega⟩ : Fin 65536)) (matOf (V c main_arg37)) (matOf (V c main_arg39)) (matOf (V c main_arg41)) (vecOf (V c main_arg38)) (vecOf (V c main_arg40)) (vecOf (V c main_arg42))) (vecOf (V c main_arg45)) (vecOf (V c main_arg46)) q
  have hr0 : rowOf (n := 256) (iblk4 V c 0 t) r = rowOf (V c main_v21 : (⟨2, ![65536, 128]⟩ : Shape).Idx → EReal) (⟨t.val * 256 + r.val, by omega⟩ : Fin 65536) := by
    funext k
    show V c main_v21 (((cfg4.win 0).blk t).view.emb (ix2 r k)) = V c main_v21 (ix2 (⟨t.val * 256 + r.val, by omega⟩ : Fin 65536) k)
    refine congrArg (V c main_v21) (funext fun a => Fin.ext ?_)
    match a with
    | ⟨0, _⟩ => show win4_0.index t (0 : Fin 2) * 256 + 1 * r.val = t.val * 256 + r.val; omega
    | ⟨1, _⟩ => show win4_0.index t (1 : Fin 2) * 128 + 1 * k.val = k.val; omega
  have hr1 : rowOf (n := 256) (iblk4 V c 1 t) r = rowOf (V c main_v22 : (⟨2, ![65536, 128]⟩ : Shape).Idx → EReal) (⟨t.val * 256 + r.val, by omega⟩ : Fin 65536) := by
    funext k
    show V c main_v22 (((cfg4.win 1).blk t).view.emb (ix2 r k)) = V c main_v22 (ix2 (⟨t.val * 256 + r.val, by omega⟩ : Fin 65536) k)
    refine congrArg (V c main_v22) (funext fun a => Fin.ext ?_)
    match a with
    | ⟨0, _⟩ => show win4_1.index t (0 : Fin 2) * 256 + 1 * r.val = t.val * 256 + r.val; omega
    | ⟨1, _⟩ => show win4_1.index t (1 : Fin 2) * 128 + 1 * k.val = k.val; omega
  have hr2 : rowOf (n := 256) (iblk4 V c 2 t) r = rowOf (V c main_v15 : (⟨2, ![65536, 128]⟩ : Shape).Idx → EReal) (⟨t.val * 256 + r.val, by omega⟩ : Fin 65536) := by
    funext k
    show V c main_v15 (((cfg4.win 2).blk t).view.emb (ix2 r k)) = V c main_v15 (ix2 (⟨t.val * 256 + r.val, by omega⟩ : Fin 65536) k)
    refine congrArg (V c main_v15) (funext fun a => Fin.ext ?_)
    match a with
    | ⟨0, _⟩ => show win4_2.index t (0 : Fin 2) * 256 + 1 * r.val = t.val * 256 + r.val; omega
    | ⟨1, _⟩ => show win4_2.index t (1 : Fin 2) * 128 + 1 * k.val = k.val; omega
  have hm4 : matOf (iblk4 V c 4 t) = matOf (V c main_arg37 : (⟨2, ![128, 128]⟩ : Shape).Idx → EReal) := by
    funext k q'
    show V c main_arg37 (((cfg4.win 4).blk t).view.emb (ix2 k q')) = V c main_arg37 (ix2 k q')
    refine congrArg (V c main_arg37) (funext fun a => Fin.ext ?_)
    match a with
    | ⟨0, _⟩ => show win4_4.index t (0 : Fin 2) * 128 + 1 * k.val = k.val; omega
    | ⟨1, _⟩ => show win4_4.index t (1 : Fin 2) * 128 + 1 * q'.val = q'.val; omega
  have hm6 : matOf (iblk4 V c 6 t) = matOf (V c main_arg39 : (⟨2, ![128, 128]⟩ : Shape).Idx → EReal) := by
    funext k q'
    show V c main_arg39 (((cfg4.win 6).blk t).view.emb (ix2 k q')) = V c main_arg39 (ix2 k q')
    refine congrArg (V c main_arg39) (funext fun a => Fin.ext ?_)
    match a with
    | ⟨0, _⟩ => show win4_6.index t (0 : Fin 2) * 128 + 1 * k.val = k.val; omega
    | ⟨1, _⟩ => show win4_6.index t (1 : Fin 2) * 128 + 1 * q'.val = q'.val; omega
  have hm8 : matOf (iblk4 V c 8 t) = matOf (V c main_arg41 : (⟨2, ![128, 128]⟩ : Shape).Idx → EReal) := by
    funext k q'
    show V c main_arg41 (((cfg4.win 8).blk t).view.emb (ix2 k q')) = V c main_arg41 (ix2 k q')
    refine congrArg (V c main_arg41) (funext fun a => Fin.ext ?_)
    match a with
    | ⟨0, _⟩ => show win4_8.index t (0 : Fin 2) * 128 + 1 * k.val = k.val; omega
    | ⟨1, _⟩ => show win4_8.index t (1 : Fin 2) * 128 + 1 * q'.val = q'.val; omega
  have hv5 : vecOf (iblk4 V c 5 t) = vecOf (V c main_arg38 : (⟨2, ![1, 128]⟩ : Shape).Idx → EReal) := by
    funext q'
    show V c main_arg38 (((cfg4.win 5).blk t).view.emb (ix2 (0 : Fin 1) q')) = V c main_arg38 (ix2 (0 : Fin 1) q')
    refine congrArg (V c main_arg38) (funext fun a => Fin.ext ?_)
    match a with
    | ⟨0, _⟩ => show win4_5.index t (0 : Fin 2) * 1 + 1 * 0 = 0; omega
    | ⟨1, _⟩ => show win4_5.index t (1 : Fin 2) * 128 + 1 * q'.val = q'.val; omega
  have hv7 : vecOf (iblk4 V c 7 t) = vecOf (V c main_arg40 : (⟨2, ![1, 128]⟩ : Shape).Idx → EReal) := by
    funext q'
    show V c main_arg40 (((cfg4.win 7).blk t).view.emb (ix2 (0 : Fin 1) q')) = V c main_arg40 (ix2 (0 : Fin 1) q')
    refine congrArg (V c main_arg40) (funext fun a => Fin.ext ?_)
    match a with
    | ⟨0, _⟩ => show win4_7.index t (0 : Fin 2) * 1 + 1 * 0 = 0; omega
    | ⟨1, _⟩ => show win4_7.index t (1 : Fin 2) * 128 + 1 * q'.val = q'.val; omega
  have hv9 : vecOf (iblk4 V c 9 t) = vecOf (V c main_arg42 : (⟨2, ![1, 128]⟩ : Shape).Idx → EReal) := by
    funext q'
    show V c main_arg42 (((cfg4.win 9).blk t).view.emb (ix2 (0 : Fin 1) q')) = V c main_arg42 (ix2 (0 : Fin 1) q')
    refine congrArg (V c main_arg42) (funext fun a => Fin.ext ?_)
    match a with
    | ⟨0, _⟩ => show win4_9.index t (0 : Fin 2) * 1 + 1 * 0 = 0; omega
    | ⟨1, _⟩ => show win4_9.index t (1 : Fin 2) * 128 + 1 * q'.val = q'.val; omega
  have hv10 : vecOf (iblk4 V c 10 t) = vecOf (V c main_arg45 : (⟨2, ![1, 128]⟩ : Shape).Idx → EReal) := by
    funext q'
    show V c main_arg45 (((cfg4.win 10).blk t).view.emb (ix2 (0 : Fin 1) q')) = V c main_arg45 (ix2 (0 : Fin 1) q')
    refine congrArg (V c main_arg45) (funext fun a => Fin.ext ?_)
    match a with
    | ⟨0, _⟩ => show win4_10.index t (0 : Fin 2) * 1 + 1 * 0 = 0; omega
    | ⟨1, _⟩ => show win4_10.index t (1 : Fin 2) * 128 + 1 * q'.val = q'.val; omega
  have hv11 : vecOf (iblk4 V c 11 t) = vecOf (V c main_arg46 : (⟨2, ![1, 128]⟩ : Shape).Idx → EReal) := by
    funext q'
    show V c main_arg46 (((cfg4.win 11).blk t).view.emb (ix2 (0 : Fin 1) q')) = V c main_arg46 (ix2 (0 : Fin 1) q')
    refine congrArg (V c main_arg46) (funext fun a => Fin.ext ?_)
    match a with
    | ⟨0, _⟩ => show win4_11.index t (0 : Fin 2) * 1 + 1 * 0 = 0; omega
    | ⟨1, _⟩ => show win4_11.index t (1 : Fin 2) * 128 + 1 * q'.val = q'.val; omega
  rw [hr0, hr1, hr2, hm4, hm6, hm8, hv5, hv7, hv9, hv10, hv11]

/-- An index of the array is in point t's block iff each coordinate is in the block's range on its axis. -/
theorem mem_blk4_12 (t : Fin cfg4.N) (i : (⟨2, ![65536, 128]⟩ : Shape).Idx) :
    i ∈ ((cfg4.win 12).blk t).view.set ↔ ∀ a : Fin 2, win4_12.index t a * S256x128.size a ≤ (i a).val ∧ (i a).val < win4_12.index t a * S256x128.size a + S256x128.size a := by
  show i ∈ ((View.whole main_v24_0).slice (win4_12.rect t)).set ↔ _
  rw [View.set_slice_whole, Rect.mem_set_unit]
  exact Iff.rfl

/-- Every row lies in the block of the point row / 256. -/
theorem covered4_12 (i : (⟨2, ![65536, 128]⟩ : Shape).Idx) :
    ∃ t : Fin cfg4.N, (cfg4.win 12).flush t = true ∧ i ∈ ((cfg4.win 12).blk t).view.set := by
  have hi0 : (i 0).val < 65536 := (i 0).isLt
  have hi1 : (i 1).val < 128 := (i 1).isLt
  have hN : cfg4.N = 256 := N_4
  let t : Fin cfg4.N := ⟨(i 0).val / 256, by rw [hN]; omega⟩
  have ht : t.val = (i 0).val / 256 := rfl
  have e0 : win4_12.index t (0 : Fin 2) = t.val := (idx4 t).2.2.2.2.2.2.2.2.2.2.2.2.2.2.2.2.2.2.2.2.2.2.2.2.1
  have e1 : win4_12.index t (1 : Fin 2) = 0 := (idx4 t).2.2.2.2.2.2.2.2.2.2.2.2.2.2.2.2.2.2.2.2.2.2.2.2.2.1
  refine ⟨t, flush4_12 t, ?_⟩
  rw [mem_blk4_12]
  intro a
  match a with
  | ⟨0, _⟩ => show win4_12.index t (0 : Fin 2) * 256 ≤ (i 0).val ∧ (i 0).val < win4_12.index t (0 : Fin 2) * 256 + 256; omega
  | ⟨1, _⟩ => show win4_12.index t (1 : Fin 2) * 128 ≤ (i 1).val ∧ (i 1).val < win4_12.index t (1 : Fin 2) * 128 + 128; omega

/-- THE ARRAY of output window 12 after region 4, as a function of the region-entry arrays. -/
theorem fin4_12 (c : Dev nD) : (dat4 V c).arrAt 12 cfg4.N
    = eNewArr (V c main_v21 : (⟨2, ![65536, 128]⟩ : Shape).Idx → EReal) (V c main_v22 : (⟨2, ![65536, 128]⟩ : Shape).Idx → EReal) (V c main_v15 : (⟨2, ![65536, 128]⟩ : Shape).Idx → EReal) (V c main_arg37) (V c main_arg39) (V c main_arg41) (V c main_arg38) (V c main_arg40) (V c main_arg42) (V c main_arg45) (V c main_arg46) :=
  (dat4 V c).arrAt_eq_of_cover 12 _ (fun t _ => flushed4_12_eq V c t) covered4_12

/-- What point t writes back to output window 14's array is block t of the closed form. -/
theorem flushed4_14_eq (c : Dev nD) (t : Fin cfg4.N) :
    (dat4 V c).flushed 14 t = ((cfg4.win 14).blk t).view.read (Elt Ideal)
      (sigArr (V c main_v21 : (⟨2, ![65536, 128]⟩ : Shape).Idx → EReal) (V c main_v22 : (⟨2, ![65536, 128]⟩ : Shape).Idx → EReal) (V c main_v15 : (⟨2, ![65536, 128]⟩ : Shape).Idx → EReal) (V c main_arg37) (V c main_arg39) (V c main_arg41) (V c main_arg38) (V c main_arg40) (V c main_arg42)) := by
  show (cfg4.win 14).cut (grid4.coords t) ((dat4 V c).after 14 t) = _
  rw [after4_14]
  obtain ⟨i0a, i0b, i1a, i1b, i2a, i2b, i3a, i3b, i4a, i4b, i5a, i5b, i6a, i6b, i7a, i7b, i8a, i8b, i9a, i9b, i10a, i10b, i11a, i11b, i12a, i12b, i13a, i13b, i14a, i14b⟩ := idx4 t
  have hN : cfg4.N = 256 := N_4
  have htl : t.val < 256 := lt_of_lt_of_eq t.isLt hN
  funext j
  obtain ⟨r, q, rfl⟩ : ∃ (r : Fin 256) (q : Fin 128), j = ix2 r q := ⟨j 0, j 1, eq_ix2 j⟩
  have hr := r.isLt
  have hc : ((grid4.coords t) 0).val < 256 := ((grid4.coords t) 0).isLt
  refine (out4_14_at (grid4.coords t) (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) r q (mask_word _ _ 65536 (by omega) (by decide))).trans ?_
  have hemb : ((cfg4.win 14).blk t).view.emb (ix2 r q) = ix2 (⟨t.val * 256 + r.val, by omega⟩ : Fin 65536) q := by
    funext a; apply Fin.ext
    match a with
    | ⟨0, _⟩ => show win4_14.index t (0 : Fin 2) * 256 + 1 * r.val = t.val * 256 + r.val; omega
    | ⟨1, _⟩ => show win4_14.index t (1 : Fin 2) * 128 + 1 * q.val = q.val; omega
  show _ = (sigArr (V c main_v21 : (⟨2, ![65536, 128]⟩ : Shape).Idx → EReal) (V c main_v22 : (⟨2, ![65536, 128]⟩ : Shape).Idx → EReal) (V c main_v15 : (⟨2, ![65536, 128]⟩ : Shape).Idx → EReal) (V c main_arg37) (V c main_arg39) (V c main_arg41) (V c main_arg38) (V c main_arg40) (V c main_arg42)) (((cfg4.win 14).blk t).view.emb (ix2 r q))
  rw [hemb]
  show _ = Spec.gate (Spec.refEhat (rowOf (V c main_v21 : (⟨2, ![65536, 128]⟩ : Shape).Idx → EReal) (⟨t.val * 256 + r.val, by omega⟩ : Fin 65536)) (rowOf (V c main_v22 : (⟨2, ![65536, 128]⟩ : Shape).Idx → EReal) (⟨t.val * 256 + r.val, by omega⟩ : Fin 65536)) (rowOf (V c main_v15 : (⟨2, ![65536, 128]⟩ : Shape).Idx → EReal) (⟨t.val * 256 + r.val, by omega⟩ : Fin 65536)) (matOf (V c main_arg37)) (matOf (V c main_arg39)) (matOf (V c main_arg41)) (vecOf (V c main_arg38)) (vecOf (V c main_arg40)) (vecOf (V c main_arg42))) q
  have hr0 : rowOf (n := 256) (iblk4 V c 0 t) r = rowOf (V c main_v21 : (⟨2, ![65536, 128]⟩ : Shape).Idx → EReal) (⟨t.val * 256 + r.val, by omega⟩ : Fin 65536) := by
    funext k
    show V c main_v21 (((cfg4.win 0).blk t).view.emb (ix2 r k)) = V c main_v21 (ix2 (⟨t.val * 256 + r.val, by omega⟩ : Fin 65536) k)
    refine congrArg (V c main_v21) (funext fun a => Fin.ext ?_)
    match a with
    | ⟨0, _⟩ => show win4_0.index t (0 : Fin 2) * 256 + 1 * r.val = t.val * 256 + r.val; omega
    | ⟨1, _⟩ => show win4_0.index t (1 : Fin 2) * 128 + 1 * k.val = k.val; omega
  have hr1 : rowOf (n := 256) (iblk4 V c 1 t) r = rowOf (V c main_v22 : (⟨2, ![65536, 128]⟩ : Shape).Idx → EReal) (⟨t.val * 256 + r.val, by omega⟩ : Fin 65536) := by
    funext k
    show V c main_v22 (((cfg4.win 1).blk t).view.emb (ix2 r k)) = V c main_v22 (ix2 (⟨t.val * 256 + r.val, by omega⟩ : Fin 65536) k)
    refine congrArg (V c main_v22) (funext fun a => Fin.ext ?_)
    match a with
    | ⟨0, _⟩ => show win4_1.index t (0 : Fin 2) * 256 + 1 * r.val = t.val * 256 + r.val; omega
    | ⟨1, _⟩ => show win4_1.index t (1 : Fin 2) * 128 + 1 * k.val = k.val; omega
  have hr2 : rowOf (n := 256) (iblk4 V c 2 t) r = rowOf (V c main_v15 : (⟨2, ![65536, 128]⟩ : Shape).Idx → EReal) (⟨t.val * 256 + r.val, by omega⟩ : Fin 65536) := by
    funext k
    show V c main_v15 (((cfg4.win 2).blk t).view.emb (ix2 r k)) = V c main_v15 (ix2 (⟨t.val * 256 + r.val, by omega⟩ : Fin 65536) k)
    refine congrArg (V c main_v15) (funext fun a => Fin.ext ?_)
    match a with
    | ⟨0, _⟩ => show win4_2.index t (0 : Fin 2) * 256 + 1 * r.val = t.val * 256 + r.val; omega
    | ⟨1, _⟩ => show win4_2.index t (1 : Fin 2) * 128 + 1 * k.val = k.val; omega
  have hm4 : matOf (iblk4 V c 4 t) = matOf (V c main_arg37 : (⟨2, ![128, 128]⟩ : Shape).Idx → EReal) := by
    funext k q'
    show V c main_arg37 (((cfg4.win 4).blk t).view.emb (ix2 k q')) = V c main_arg37 (ix2 k q')
    refine congrArg (V c main_arg37) (funext fun a => Fin.ext ?_)
    match a with
    | ⟨0, _⟩ => show win4_4.index t (0 : Fin 2) * 128 + 1 * k.val = k.val; omega
    | ⟨1, _⟩ => show win4_4.index t (1 : Fin 2) * 128 + 1 * q'.val = q'.val; omega
  have hm6 : matOf (iblk4 V c 6 t) = matOf (V c main_arg39 : (⟨2, ![128, 128]⟩ : Shape).Idx → EReal) := by
    funext k q'
    show V c main_arg39 (((cfg4.win 6).blk t).view.emb (ix2 k q')) = V c main_arg39 (ix2 k q')
    refine congrArg (V c main_arg39) (funext fun a => Fin.ext ?_)
    match a with
    | ⟨0, _⟩ => show win4_6.index t (0 : Fin 2) * 128 + 1 * k.val = k.val; omega
    | ⟨1, _⟩ => show win4_6.index t (1 : Fin 2) * 128 + 1 * q'.val = q'.val; omega
  have hm8 : matOf (iblk4 V c 8 t) = matOf (V c main_arg41 : (⟨2, ![128, 128]⟩ : Shape).Idx → EReal) := by
    funext k q'
    show V c main_arg41 (((cfg4.win 8).blk t).view.emb (ix2 k q')) = V c main_arg41 (ix2 k q')
    refine congrArg (V c main_arg41) (funext fun a => Fin.ext ?_)
    match a with
    | ⟨0, _⟩ => show win4_8.index t (0 : Fin 2) * 128 + 1 * k.val = k.val; omega
    | ⟨1, _⟩ => show win4_8.index t (1 : Fin 2) * 128 + 1 * q'.val = q'.val; omega
  have hv5 : vecOf (iblk4 V c 5 t) = vecOf (V c main_arg38 : (⟨2, ![1, 128]⟩ : Shape).Idx → EReal) := by
    funext q'
    show V c main_arg38 (((cfg4.win 5).blk t).view.emb (ix2 (0 : Fin 1) q')) = V c main_arg38 (ix2 (0 : Fin 1) q')
    refine congrArg (V c main_arg38) (funext fun a => Fin.ext ?_)
    match a with
    | ⟨0, _⟩ => show win4_5.index t (0 : Fin 2) * 1 + 1 * 0 = 0; omega
    | ⟨1, _⟩ => show win4_5.index t (1 : Fin 2) * 128 + 1 * q'.val = q'.val; omega
  have hv7 : vecOf (iblk4 V c 7 t) = vecOf (V c main_arg40 : (⟨2, ![1, 128]⟩ : Shape).Idx → EReal) := by
    funext q'
    show V c main_arg40 (((cfg4.win 7).blk t).view.emb (ix2 (0 : Fin 1) q')) = V c main_arg40 (ix2 (0 : Fin 1) q')
    refine congrArg (V c main_arg40) (funext fun a => Fin.ext ?_)
    match a with
    | ⟨0, _⟩ => show win4_7.index t (0 : Fin 2) * 1 + 1 * 0 = 0; omega
    | ⟨1, _⟩ => show win4_7.index t (1 : Fin 2) * 128 + 1 * q'.val = q'.val; omega
  have hv9 : vecOf (iblk4 V c 9 t) = vecOf (V c main_arg42 : (⟨2, ![1, 128]⟩ : Shape).Idx → EReal) := by
    funext q'
    show V c main_arg42 (((cfg4.win 9).blk t).view.emb (ix2 (0 : Fin 1) q')) = V c main_arg42 (ix2 (0 : Fin 1) q')
    refine congrArg (V c main_arg42) (funext fun a => Fin.ext ?_)
    match a with
    | ⟨0, _⟩ => show win4_9.index t (0 : Fin 2) * 1 + 1 * 0 = 0; omega
    | ⟨1, _⟩ => show win4_9.index t (1 : Fin 2) * 128 + 1 * q'.val = q'.val; omega
  rw [hr0, hr1, hr2, hm4, hm6, hm8, hv5, hv7, hv9]

/-- An index of the array is in point t's block iff each coordinate is in the block's range on its axis. -/
theorem mem_blk4_14 (t : Fin cfg4.N) (i : (⟨2, ![65536, 128]⟩ : Shape).Idx) :
    i ∈ ((cfg4.win 14).blk t).view.set ↔ ∀ a : Fin 2, win4_14.index t a * S256x128.size a ≤ (i a).val ∧ (i a).val < win4_14.index t a * S256x128.size a + S256x128.size a := by
  show i ∈ ((View.whole main_v24_2).slice (win4_14.rect t)).set ↔ _
  rw [View.set_slice_whole, Rect.mem_set_unit]
  exact Iff.rfl

/-- Every row lies in the block of the point row / 256. -/
theorem covered4_14 (i : (⟨2, ![65536, 128]⟩ : Shape).Idx) :
    ∃ t : Fin cfg4.N, (cfg4.win 14).flush t = true ∧ i ∈ ((cfg4.win 14).blk t).view.set := by
  have hi0 : (i 0).val < 65536 := (i 0).isLt
  have hi1 : (i 1).val < 128 := (i 1).isLt
  have hN : cfg4.N = 256 := N_4
  let t : Fin cfg4.N := ⟨(i 0).val / 256, by rw [hN]; omega⟩
  have ht : t.val = (i 0).val / 256 := rfl
  have e0 : win4_14.index t (0 : Fin 2) = t.val := (idx4 t).2.2.2.2.2.2.2.2.2.2.2.2.2.2.2.2.2.2.2.2.2.2.2.2.2.2.2.2.1
  have e1 : win4_14.index t (1 : Fin 2) = 0 := (idx4 t).2.2.2.2.2.2.2.2.2.2.2.2.2.2.2.2.2.2.2.2.2.2.2.2.2.2.2.2.2
  refine ⟨t, flush4_14 t, ?_⟩
  rw [mem_blk4_14]
  intro a
  match a with
  | ⟨0, _⟩ => show win4_14.index t (0 : Fin 2) * 256 ≤ (i 0).val ∧ (i 0).val < win4_14.index t (0 : Fin 2) * 256 + 256; omega
  | ⟨1, _⟩ => show win4_14.index t (1 : Fin 2) * 128 ≤ (i 1).val ∧ (i 1).val < win4_14.index t (1 : Fin 2) * 128 + 128; omega

/-- THE ARRAY of output window 14 after region 4, as a function of the region-entry arrays. -/
theorem fin4_14 (c : Dev nD) : (dat4 V c).arrAt 14 cfg4.N
    = sigArr (V c main_v21 : (⟨2, ![65536, 128]⟩ : Shape).Idx → EReal) (V c main_v22 : (⟨2, ![65536, 128]⟩ : Shape).Idx → EReal) (V c main_v15 : (⟨2, ![65536, 128]⟩ : Shape).Idx → EReal) (V c main_arg37) (V c main_arg39) (V c main_arg41) (V c main_arg38) (V c main_arg40) (V c main_arg42) :=
  (dat4 V c).arrAt_eq_of_cover 14 _ (fun t _ => flushed4_14_eq V c t) covered4_14

/-- What point t writes back to output window 13's array is block t of the closed form. -/
theorem flushed4_13_eq (c : Dev nD) (t : Fin cfg4.N) :
    (dat4 V c).flushed 13 t = ((cfg4.win 13).blk t).view.read (Elt Ideal)
      (msgArr (V c main_v21 : (⟨2, ![65536, 128]⟩ : Shape).Idx → EReal) (V c main_v22 : (⟨2, ![65536, 128]⟩ : Shape).Idx → EReal) (V c main_v15 : (⟨2, ![65536, 128]⟩ : Shape).Idx → EReal) (V c main_v23 : (⟨2, ![65536, 128]⟩ : Shape).Idx → EReal) (V c main_arg37) (V c main_arg39) (V c main_arg41) (V c main_arg38) (V c main_arg40) (V c main_arg42)) := by
  show (cfg4.win 13).cut (grid4.coords t) ((dat4 V c).after 13 t) = _
  rw [after4_13]
  obtain ⟨i0a, i0b, i1a, i1b, i2a, i2b, i3a, i3b, i4a, i4b, i5a, i5b, i6a, i6b, i7a, i7b, i8a, i8b, i9a, i9b, i10a, i10b, i11a, i11b, i12a, i12b, i13a, i13b, i14a, i14b⟩ := idx4 t
  have hN : cfg4.N = 256 := N_4
  have htl : t.val < 256 := lt_of_lt_of_eq t.isLt hN
  funext j
  obtain ⟨r, q, rfl⟩ : ∃ (r : Fin 256) (q : Fin 128), j = ix2 r q := ⟨j 0, j 1, eq_ix2 j⟩
  have hr := r.isLt
  have hc : ((grid4.coords t) 0).val < 256 := ((grid4.coords t) 0).isLt
  refine (out4_13_at (grid4.coords t) (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) r q (mask_word _ _ 65536 (by omega) (by decide))).trans ?_
  have hemb : ((cfg4.win 13).blk t).view.emb (ix2 r q) = ix2 (⟨t.val * 256 + r.val, by omega⟩ : Fin 65536) q := by
    funext a; apply Fin.ext
    match a with
    | ⟨0, _⟩ => show win4_13.index t (0 : Fin 2) * 256 + 1 * r.val = t.val * 256 + r.val; omega
    | ⟨1, _⟩ => show win4_13.index t (1 : Fin 2) * 128 + 1 * q.val = q.val; omega
  show _ = (msgArr (V c main_v21 : (⟨2, ![65536, 128]⟩ : Shape).Idx → EReal) (V c main_v22 : (⟨2, ![65536, 128]⟩ : Shape).Idx → EReal) (V c main_v15 : (⟨2, ![65536, 128]⟩ : Shape).Idx → EReal) (V c main_v23 : (⟨2, ![65536, 128]⟩ : Shape).Idx → EReal) (V c main_arg37) (V c main_arg39) (V c main_arg41) (V c main_arg38) (V c main_arg40) (V c main_arg42)) (((cfg4.win 13).blk t).view.emb (ix2 r q))
  rw [hemb]
  show _ = Spec.gate (Spec.refEhat (rowOf (V c main_v21 : (⟨2, ![65536, 128]⟩ : Shape).Idx → EReal) (⟨t.val * 256 + r.val, by omega⟩ : Fin 65536)) (rowOf (V c main_v22 : (⟨2, ![65536, 128]⟩ : Shape).Idx → EReal) (⟨t.val * 256 + r.val, by omega⟩ : Fin 65536)) (rowOf (V c main_v15 : (⟨2, ![65536, 128]⟩ : Shape).Idx → EReal) (⟨t.val * 256 + r.val, by omega⟩ : Fin 65536)) (matOf (V c main_arg37)) (matOf (V c main_arg39)) (matOf (V c main_arg41)) (vecOf (V c main_arg38)) (vecOf (V c main_arg40)) (vecOf (V c main_arg42))) q * rowOf (V c main_v23 : (⟨2, ![65536, 128]⟩ : Shape).Idx → EReal) (⟨t.val * 256 + r.val, by omega⟩ : Fin 65536) q
  have hr0 : rowOf (n := 256) (iblk4 V c 0 t) r = rowOf (V c main_v21 : (⟨2, ![65536, 128]⟩ : Shape).Idx → EReal) (⟨t.val * 256 + r.val, by omega⟩ : Fin 65536) := by
    funext k
    show V c main_v21 (((cfg4.win 0).blk t).view.emb (ix2 r k)) = V c main_v21 (ix2 (⟨t.val * 256 + r.val, by omega⟩ : Fin 65536) k)
    refine congrArg (V c main_v21) (funext fun a => Fin.ext ?_)
    match a with
    | ⟨0, _⟩ => show win4_0.index t (0 : Fin 2) * 256 + 1 * r.val = t.val * 256 + r.val; omega
    | ⟨1, _⟩ => show win4_0.index t (1 : Fin 2) * 128 + 1 * k.val = k.val; omega
  have hr1 : rowOf (n := 256) (iblk4 V c 1 t) r = rowOf (V c main_v22 : (⟨2, ![65536, 128]⟩ : Shape).Idx → EReal) (⟨t.val * 256 + r.val, by omega⟩ : Fin 65536) := by
    funext k
    show V c main_v22 (((cfg4.win 1).blk t).view.emb (ix2 r k)) = V c main_v22 (ix2 (⟨t.val * 256 + r.val, by omega⟩ : Fin 65536) k)
    refine congrArg (V c main_v22) (funext fun a => Fin.ext ?_)
    match a with
    | ⟨0, _⟩ => show win4_1.index t (0 : Fin 2) * 256 + 1 * r.val = t.val * 256 + r.val; omega
    | ⟨1, _⟩ => show win4_1.index t (1 : Fin 2) * 128 + 1 * k.val = k.val; omega
  have hr2 : rowOf (n := 256) (iblk4 V c 2 t) r = rowOf (V c main_v15 : (⟨2, ![65536, 128]⟩ : Shape).Idx → EReal) (⟨t.val * 256 + r.val, by omega⟩ : Fin 65536) := by
    funext k
    show V c main_v15 (((cfg4.win 2).blk t).view.emb (ix2 r k)) = V c main_v15 (ix2 (⟨t.val * 256 + r.val, by omega⟩ : Fin 65536) k)
    refine congrArg (V c main_v15) (funext fun a => Fin.ext ?_)
    match a with
    | ⟨0, _⟩ => show win4_2.index t (0 : Fin 2) * 256 + 1 * r.val = t.val * 256 + r.val; omega
    | ⟨1, _⟩ => show win4_2.index t (1 : Fin 2) * 128 + 1 * k.val = k.val; omega
  have hr3 : rowOf (n := 256) (iblk4 V c 3 t) r = rowOf (V c main_v23 : (⟨2, ![65536, 128]⟩ : Shape).Idx → EReal) (⟨t.val * 256 + r.val, by omega⟩ : Fin 65536) := by
    funext k
    show V c main_v23 (((cfg4.win 3).blk t).view.emb (ix2 r k)) = V c main_v23 (ix2 (⟨t.val * 256 + r.val, by omega⟩ : Fin 65536) k)
    refine congrArg (V c main_v23) (funext fun a => Fin.ext ?_)
    match a with
    | ⟨0, _⟩ => show win4_3.index t (0 : Fin 2) * 256 + 1 * r.val = t.val * 256 + r.val; omega
    | ⟨1, _⟩ => show win4_3.index t (1 : Fin 2) * 128 + 1 * k.val = k.val; omega
  have hm4 : matOf (iblk4 V c 4 t) = matOf (V c main_arg37 : (⟨2, ![128, 128]⟩ : Shape).Idx → EReal) := by
    funext k q'
    show V c main_arg37 (((cfg4.win 4).blk t).view.emb (ix2 k q')) = V c main_arg37 (ix2 k q')
    refine congrArg (V c main_arg37) (funext fun a => Fin.ext ?_)
    match a with
    | ⟨0, _⟩ => show win4_4.index t (0 : Fin 2) * 128 + 1 * k.val = k.val; omega
    | ⟨1, _⟩ => show win4_4.index t (1 : Fin 2) * 128 + 1 * q'.val = q'.val; omega
  have hm6 : matOf (iblk4 V c 6 t) = matOf (V c main_arg39 : (⟨2, ![128, 128]⟩ : Shape).Idx → EReal) := by
    funext k q'
    show V c main_arg39 (((cfg4.win 6).blk t).view.emb (ix2 k q')) = V c main_arg39 (ix2 k q')
    refine congrArg (V c main_arg39) (funext fun a => Fin.ext ?_)
    match a with
    | ⟨0, _⟩ => show win4_6.index t (0 : Fin 2) * 128 + 1 * k.val = k.val; omega
    | ⟨1, _⟩ => show win4_6.index t (1 : Fin 2) * 128 + 1 * q'.val = q'.val; omega
  have hm8 : matOf (iblk4 V c 8 t) = matOf (V c main_arg41 : (⟨2, ![128, 128]⟩ : Shape).Idx → EReal) := by
    funext k q'
    show V c main_arg41 (((cfg4.win 8).blk t).view.emb (ix2 k q')) = V c main_arg41 (ix2 k q')
    refine congrArg (V c main_arg41) (funext fun a => Fin.ext ?_)
    match a with
    | ⟨0, _⟩ => show win4_8.index t (0 : Fin 2) * 128 + 1 * k.val = k.val; omega
    | ⟨1, _⟩ => show win4_8.index t (1 : Fin 2) * 128 + 1 * q'.val = q'.val; omega
  have hv5 : vecOf (iblk4 V c 5 t) = vecOf (V c main_arg38 : (⟨2, ![1, 128]⟩ : Shape).Idx → EReal) := by
    funext q'
    show V c main_arg38 (((cfg4.win 5).blk t).view.emb (ix2 (0 : Fin 1) q')) = V c main_arg38 (ix2 (0 : Fin 1) q')
    refine congrArg (V c main_arg38) (funext fun a => Fin.ext ?_)
    match a with
    | ⟨0, _⟩ => show win4_5.index t (0 : Fin 2) * 1 + 1 * 0 = 0; omega
    | ⟨1, _⟩ => show win4_5.index t (1 : Fin 2) * 128 + 1 * q'.val = q'.val; omega
  have hv7 : vecOf (iblk4 V c 7 t) = vecOf (V c main_arg40 : (⟨2, ![1, 128]⟩ : Shape).Idx → EReal) := by
    funext q'
    show V c main_arg40 (((cfg4.win 7).blk t).view.emb (ix2 (0 : Fin 1) q')) = V c main_arg40 (ix2 (0 : Fin 1) q')
    refine congrArg (V c main_arg40) (funext fun a => Fin.ext ?_)
    match a with
    | ⟨0, _⟩ => show win4_7.index t (0 : Fin 2) * 1 + 1 * 0 = 0; omega
    | ⟨1, _⟩ => show win4_7.index t (1 : Fin 2) * 128 + 1 * q'.val = q'.val; omega
  have hv9 : vecOf (iblk4 V c 9 t) = vecOf (V c main_arg42 : (⟨2, ![1, 128]⟩ : Shape).Idx → EReal) := by
    funext q'
    show V c main_arg42 (((cfg4.win 9).blk t).view.emb (ix2 (0 : Fin 1) q')) = V c main_arg42 (ix2 (0 : Fin 1) q')
    refine congrArg (V c main_arg42) (funext fun a => Fin.ext ?_)
    match a with
    | ⟨0, _⟩ => show win4_9.index t (0 : Fin 2) * 1 + 1 * 0 = 0; omega
    | ⟨1, _⟩ => show win4_9.index t (1 : Fin 2) * 128 + 1 * q'.val = q'.val; omega
  rw [hr0, hr1, hr2, hr3, hm4, hm6, hm8, hv5, hv7, hv9]

/-- An index of the array is in point t's block iff each coordinate is in the block's range on its axis. -/
theorem mem_blk4_13 (t : Fin cfg4.N) (i : (⟨2, ![65536, 128]⟩ : Shape).Idx) :
    i ∈ ((cfg4.win 13).blk t).view.set ↔ ∀ a : Fin 2, win4_13.index t a * S256x128.size a ≤ (i a).val ∧ (i a).val < win4_13.index t a * S256x128.size a + S256x128.size a := by
  show i ∈ ((View.whole main_v24_1).slice (win4_13.rect t)).set ↔ _
  rw [View.set_slice_whole, Rect.mem_set_unit]
  exact Iff.rfl

/-- Every row lies in the block of the point row / 256. -/
theorem covered4_13 (i : (⟨2, ![65536, 128]⟩ : Shape).Idx) :
    ∃ t : Fin cfg4.N, (cfg4.win 13).flush t = true ∧ i ∈ ((cfg4.win 13).blk t).view.set := by
  have hi0 : (i 0).val < 65536 := (i 0).isLt
  have hi1 : (i 1).val < 128 := (i 1).isLt
  have hN : cfg4.N = 256 := N_4
  let t : Fin cfg4.N := ⟨(i 0).val / 256, by rw [hN]; omega⟩
  have ht : t.val = (i 0).val / 256 := rfl
  have e0 : win4_13.index t (0 : Fin 2) = t.val := (idx4 t).2.2.2.2.2.2.2.2.2.2.2.2.2.2.2.2.2.2.2.2.2.2.2.2.2.2.1
  have e1 : win4_13.index t (1 : Fin 2) = 0 := (idx4 t).2.2.2.2.2.2.2.2.2.2.2.2.2.2.2.2.2.2.2.2.2.2.2.2.2.2.2.1
  refine ⟨t, flush4_13 t, ?_⟩
  rw [mem_blk4_13]
  intro a
  match a with
  | ⟨0, _⟩ => show win4_13.index t (0 : Fin 2) * 256 ≤ (i 0).val ∧ (i 0).val < win4_13.index t (0 : Fin 2) * 256 + 256; omega
  | ⟨1, _⟩ => show win4_13.index t (1 : Fin 2) * 128 ≤ (i 1).val ∧ (i 1).val < win4_13.index t (1 : Fin 2) * 128 + 128; omega

/-- THE ARRAY of output window 13 after region 4, as a function of the region-entry arrays. -/
theorem fin4_13 (c : Dev nD) : (dat4 V c).arrAt 13 cfg4.N
    = msgArr (V c main_v21 : (⟨2, ![65536, 128]⟩ : Shape).Idx → EReal) (V c main_v22 : (⟨2, ![65536, 128]⟩ : Shape).Idx → EReal) (V c main_v15 : (⟨2, ![65536, 128]⟩ : Shape).Idx → EReal) (V c main_v23 : (⟨2, ![65536, 128]⟩ : Shape).Idx → EReal) (V c main_arg37) (V c main_arg39) (V c main_arg41) (V c main_arg38) (V c main_arg40) (V c main_arg42) :=
  (dat4 V c).arrAt_eq_of_cover 13 _ (fun t _ => flushed4_13_eq V c t) covered4_13

end Cert.ReferenceIdeal.Val

end
-- ==== Proof.RV.Fin5.lean ====
/-
  Region 5 of the reference (the node update), blocks read back into arrays: its output array ends holding
  x + silu (LN (hs + num / (den + ε))) row by row, of the region's input arrays as it finds them.
-/
import proofs.«117664_g2000706958607885_pallasbulk_534_41_alg».proof.Proof.RV.ArrDefs

set_option maxRecDepth 16384

noncomputable section

namespace Cert.ReferenceIdeal.Val

open Cert.ReferenceIdeal Cert.ReferenceIdeal.Gen Cert.ReferenceIdeal.GenP
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The printed index maps over the grid: a row-tiled window's block index is the grid point, a parameter's is zero. -/
theorem idx5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0 :=
  (by decide +kernel : ∀ t : Fin grid5.N, _)

/-- What the body leaves in the output window's buffer, at row r and lane q. -/
theorem out5_6_at (x0 x1 x2 x3 : Vec Ideal S256x128 .f32) (x4 x5 : Vec Ideal S1x128 .f32) (r : Fin 256) (q : Fin 128) :
    out5_6 x0 x1 x2 x3 x4 x5 (ix2 r q)
      = Spec.resid (rowOf x0 r) (Spec.nodeRow (rowOf x1 r) (rowOf x2 r) (rowOf x3 r)) (vecOf x4) (vecOf x5) q := by
  unfold out5_6
  rw [View.canon_unit_zero hz2]
  simp only [View.ld_unit_zero (S := S256x128) hz2, View.ld_unit_zero (S := S1x128) hz2]
  exact k2_pay1_at x2 x3 x1 x0 x4 x5 r q

/-- What point t writes back to the output window's array is block t of the closed form. -/
theorem flushed5_6_eq (c : Dev nD) (t : Fin cfg5.N) :
    (dat5 V c).flushed 6 t = ((cfg5.win 6).blk t).view.read (Elt Ideal)
      (updArr (V c main_arg0 : (⟨2, ![16384, 128]⟩ : Shape).Idx → EReal) (V c main_v20_0 : (⟨2, ![16384, 128]⟩ : Shape).Idx → EReal) (V c main_v27 : (⟨2, ![16384, 128]⟩ : Shape).Idx → EReal) (V c main_v30 : (⟨2, ![16384, 128]⟩ : Shape).Idx → EReal) (V c main_arg43) (V c main_arg44)) := by
  show (cfg5.win 6).cut (grid5.coords t) ((dat5 V c).after 6 t) = _
  rw [after5_6]
  obtain ⟨i0a, i0b, i1a, i1b, i2a, i2b, i3a, i3b, i4a, i4b, i5a, i5b, i6a, i6b⟩ := idx5 t
  have hN : cfg5.N = 64 := N_5
  have htl : t.val < 64 := lt_of_lt_of_eq t.isLt hN
  funext j
  obtain ⟨r, q, rfl⟩ : ∃ (r : Fin 256) (q : Fin 128), j = ix2 r q := ⟨j 0, j 1, eq_ix2 j⟩
  have hr := r.isLt
  refine (out5_6_at (iblk5 V c 0 t) (iblk5 V c 1 t) (iblk5 V c 2 t) (iblk5 V c 3 t) (iblk5 V c 4 t) (iblk5 V c 5 t) r q).trans ?_
  have hemb : ((cfg5.win 6).blk t).view.emb (ix2 r q) = ix2 (⟨t.val * 256 + r.val, by omega⟩ : Fin 16384) q := by
    funext a; apply Fin.ext
    match a with
    | ⟨0, _⟩ => show win5_6.index t (0 : Fin 2) * 256 + 1 * r.val = t.val * 256 + r.val; omega
    | ⟨1, _⟩ => show win5_6.index t (1 : Fin 2) * 128 + 1 * q.val = q.val; omega
  show _ = (updArr (V c main_arg0 : (⟨2, ![16384, 128]⟩ : Shape).Idx → EReal) (V c main_v20_0 : (⟨2, ![16384, 128]⟩ : Shape).Idx → EReal) (V c main_v27 : (⟨2, ![16384, 128]⟩ : Shape).Idx → EReal) (V c main_v30 : (⟨2, ![16384, 128]⟩ : Shape).Idx → EReal) (V c main_arg43) (V c main_arg44)) (((cfg5.win 6).blk t).view.emb (ix2 r q))
  rw [hemb]
  show _ = Spec.resid (rowOf (V c main_arg0 : (⟨2, ![16384, 128]⟩ : Shape).Idx → EReal) (⟨t.val * 256 + r.val, by omega⟩ : Fin 16384)) (Spec.nodeRow (rowOf (V c main_v20_0 : (⟨2, ![16384, 128]⟩ : Shape).Idx → EReal) (⟨t.val * 256 + r.val, by omega⟩ : Fin 16384)) (rowOf (V c main_v27 : (⟨2, ![16384, 128]⟩ : Shape).Idx → EReal) (⟨t.val * 256 + r.val, by omega⟩ : Fin 16384)) (rowOf (V c main_v30 : (⟨2, ![16384, 128]⟩ : Shape).Idx → EReal) (⟨t.val * 256 + r.val, by omega⟩ : Fin 16384))) (vecOf (V c main_arg43)) (vecOf (V c main_arg44)) q
  have hr0 : rowOf (n := 256) (iblk5 V c 0 t) r = rowOf (V c main_arg0 : (⟨2, ![16384, 128]⟩ : Shape).Idx → EReal) (⟨t.val * 256 + r.val, by omega⟩ : Fin 16384) := by
    funext k
    show V c main_arg0 (((cfg5.win 0).blk t).view.emb (ix2 r k)) = V c main_arg0 (ix2 (⟨t.val * 256 + r.val, by omega⟩ : Fin 16384) k)
    refine congrArg (V c main_arg0) (funext fun a => Fin.ext ?_)
    match a with
    | ⟨0, _⟩ => show win5_0.index t (0 : Fin 2) * 256 + 1 * r.val = t.val * 256 + r.val; omega
    | ⟨1, _⟩ => show win5_0.index t (1 : Fin 2) * 128 + 1 * k.val = k.val; omega
  have hr1 : rowOf (n := 256) (iblk5 V c 1 t) r = rowOf (V c main_v20_0 : (⟨2, ![16384, 128]⟩ : Shape).Idx → EReal) (⟨t.val * 256 + r.val, by omega⟩ : Fin 16384) := by
    funext k
    show V c main_v20_0 (((cfg5.win 1).blk t).view.emb (ix2 r k)) = V c main_v20_0 (ix2 (⟨t.val * 256 + r.val, by omega⟩ : Fin 16384) k)
    refine congrArg (V c main_v20_0) (funext fun a => Fin.ext ?_)
    match a with
    | ⟨0, _⟩ => show win5_1.index t (0 : Fin 2) * 256 + 1 * r.val = t.val * 256 + r.val; omega
    | ⟨1, _⟩ => show win5_1.index t (1 : Fin 2) * 128 + 1 * k.val = k.val; omega
  have hr2 : rowOf (n := 256) (iblk5 V c 2 t) r = rowOf (V c main_v27 : (⟨2, ![16384, 128]⟩ : Shape).Idx → EReal) (⟨t.val * 256 + r.val, by omega⟩ : Fin 16384) := by
    funext k
    show V c main_v27 (((cfg5.win 2).blk t).view.emb (ix2 r k)) = V c main_v27 (ix2 (⟨t.val * 256 + r.val, by omega⟩ : Fin 16384) k)
    refine congrArg (V c main_v27) (funext fun a => Fin.ext ?_)
    match a with
    | ⟨0, _⟩ => show win5_2.index t (0 : Fin 2) * 256 + 1 * r.val = t.val * 256 + r.val; omega
    | ⟨1, _⟩ => show win5_2.index t (1 : Fin 2) * 128 + 1 * k.val = k.val; omega
  have hr3 : rowOf (n := 256) (iblk5 V c 3 t) r = rowOf (V c main_v30 : (⟨2, ![16384, 128]⟩ : Shape).Idx → EReal) (⟨t.val * 256 + r.val, by omega⟩ : Fin 16384) := by
    funext k
    show V c main_v30 (((cfg5.win 3).blk t).view.emb (ix2 r k)) = V c main_v30 (ix2 (⟨t.val * 256 + r.val, by omega⟩ : Fin 16384) k)
    refine congrArg (V c main_v30) (funext fun a => Fin.ext ?_)
    match a with
    | ⟨0, _⟩ => show win5_3.index t (0 : Fin 2) * 256 + 1 * r.val = t.val * 256 + r.val; omega
    | ⟨1, _⟩ => show win5_3.index t (1 : Fin 2) * 128 + 1 * k.val = k.val; omega
  have hv4 : vecOf (iblk5 V c 4 t) = vecOf (V c main_arg43 : (⟨2, ![1, 128]⟩ : Shape).Idx → EReal) := by
    funext q'
    show V c main_arg43 (((cfg5.win 4).blk t).view.emb (ix2 (0 : Fin 1) q')) = V c main_arg43 (ix2 (0 : Fin 1) q')
    refine congrArg (V c main_arg43) (funext fun a => Fin.ext ?_)
    match a with
    | ⟨0, _⟩ => show win5_4.index t (0 : Fin 2) * 1 + 1 * 0 = 0; omega
    | ⟨1, _⟩ => show win5_4.index t (1 : Fin 2) * 128 + 1 * q'.val = q'.val; omega
  have hv5 : vecOf (iblk5 V c 5 t) = vecOf (V c main_arg44 : (⟨2, ![1, 128]⟩ : Shape).Idx → EReal) := by
    funext q'
    show V c main_arg44 (((cfg5.win 5).blk t).view.emb (ix2 (0 : Fin 1) q')) = V c main_arg44 (ix2 (0 : Fin 1) q')
    refine congrArg (V c main_arg44) (funext fun a => Fin.ext ?_)
    match a with
    | ⟨0, _⟩ => show win5_5.index t (0 : Fin 2) * 1 + 1 * 0 = 0; omega
    | ⟨1, _⟩ => show win5_5.index t (1 : Fin 2) * 128 + 1 * q'.val = q'.val; omega
  rw [hr0, hr1, hr2, hr3, hv4, hv5]

/-- An index of the array is in point t's block iff each coordinate is in the block's range on its axis. -/
theorem mem_blk5_6 (t : Fin cfg5.N) (i : (⟨2, ![16384, 128]⟩ : Shape).Idx) :
    i ∈ ((cfg5.win 6).blk t).view.set ↔ ∀ a : Fin 2, win5_6.index t a * S256x128.size a ≤ (i a).val ∧ (i a).val < win5_6.index t a * S256x128.size a + S256x128.size a := by
  show i ∈ ((View.whole main_v31).slice (win5_6.rect t)).set ↔ _
  rw [View.set_slice_whole, Rect.mem_set_unit]
  exact Iff.rfl

/-- Every row lies in the block of the point row / 256. -/
theorem covered5_6 (i : (⟨2, ![16384, 128]⟩ : Shape).Idx) :
    ∃ t : Fin cfg5.N, (cfg5.win 6).flush t = true ∧ i ∈ ((cfg5.win 6).blk t).view.set := by
  have hi0 : (i 0).val < 16384 := (i 0).isLt
  have hi1 : (i 1).val < 128 := (i 1).isLt
  have hN : cfg5.N = 64 := N_5
  let t : Fin cfg5.N := ⟨(i 0).val / 256, by rw [hN]; omega⟩
  have ht : t.val = (i 0).val / 256 := rfl
  have e0 : win5_6.index t (0 : Fin 2) = t.val := (idx5 t).2.2.2.2.2.2.2.2.2.2.2.2.1
  have e1 : win5_6.index t (1 : Fin 2) = 0 := (idx5 t).2.2.2.2.2.2.2.2.2.2.2.2.2
  refine ⟨t, flush5_6 t, ?_⟩
  rw [mem_blk5_6]
  intro a
  match a with
  | ⟨0, _⟩ => show win5_6.index t (0 : Fin 2) * 256 ≤ (i 0).val ∧ (i 0).val < win5_6.index t (0 : Fin 2) * 256 + 256; omega
  | ⟨1, _⟩ => show win5_6.index t (1 : Fin 2) * 128 ≤ (i 1).val ∧ (i 1).val < win5_6.index t (1 : Fin 2) * 128 + 128; omega

/-- THE ARRAY of the output window after region 5, as a function of the region-entry arrays. -/
theorem fin5_6 (c : Dev nD) : (dat5 V c).arrAt 6 cfg5.N
    = updArr (V c main_arg0 : (⟨2, ![16384, 128]⟩ : Shape).Idx → EReal) (V c main_v20_0 : (⟨2, ![16384, 128]⟩ : Shape).Idx → EReal) (V c main_v27 : (⟨2, ![16384, 128]⟩ : Shape).Idx → EReal) (V c main_v30 : (⟨2, ![16384, 128]⟩ : Shape).Idx → EReal) (V c main_arg43) (V c main_arg44) :=
  (dat5 V c).arrAt_eq_of_cover 6 _ (fun t _ => flushed5_6_eq V c t) covered5_6

end Cert.ReferenceIdeal.Val

end
-- ==== Proof.RV.Fin6.lean ====
/-
  Region 6 of the reference (the linear maps of the node rows), blocks read back into arrays: each of
  its two output arrays ends holding x·W + b row by row, x, W, b the region's input arrays as it finds them.
-/
import proofs.«117664_g2000706958607885_pallasbulk_534_41_alg».proof.Proof.RV.ArrDefs
import proofs.«117664_g2000706958607885_pallasbulk_534_41_alg».proof.Proof.RV.PayB

set_option maxRecDepth 16384

noncomputable section

namespace Cert.ReferenceIdeal.Val

open Cert.ReferenceIdeal Cert.ReferenceIdeal.Gen Cert.ReferenceIdeal.GenP
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The printed index maps over the grid: a row-tiled window's block index is the grid point, a parameter's is zero. -/
theorem idx6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0
    ∧ win6_6.index t (0 : Fin 2) = t.val ∧ win6_6.index t (1 : Fin 2) = 0 :=
  (by decide +kernel : ∀ t : Fin grid6.N, _)

/-- What the body leaves in output window 5's buffer, at row r and lane q. -/
theorem out6_5_at (x0 : Vec Ideal S256x128 .f32) (x1 : Vec Ideal S128x128 .f32) (x2 : Vec Ideal S1x128 .f32)
    (x3 : Vec Ideal S128x128 .f32) (x4 : Vec Ideal S1x128 .f32) (r : Fin 256) (q : Fin 128) :
    out6_5 x0 x1 x2 x3 x4 (ix2 r q) = Spec.dot (rowOf x0 r) (matOf x1) q + vecOf x2 q := by
  unfold out6_5
  rw [View.canon_unit_zero hz2]
  simp only [View.ld_unit_zero (S := S256x128) hz2, View.ld_unit_zero (S := S128x128) hz2, View.ld_unit_zero (S := S1x128) hz2]
  exact k6_pay2_at x0 x1 x2 r q

/-- What point t writes back to output window 5's array is block t of the closed form. -/
theorem flushed6_5_eq (c : Dev nD) (t : Fin cfg6.N) :
    (dat6 V c).flushed 5 t = ((cfg6.win 5).blk t).view.read (Elt Ideal)
      (linArr (V c main_v24_0 : (⟨2, ![65536, 128]⟩ : Shape).Idx → EReal) (V c main_arg19) (V c main_arg20)) := by
  show (cfg6.win 5).cut (grid6.coords t) ((dat6 V c).after 5 t) = _
  rw [after6_5]
  obtain ⟨i0a, i0b, i1a, i1b, i2a, i2b, i3a, i3b, i4a, i4b, i5a, i5b, i6a, i6b⟩ := idx6 t
  have hN : cfg6.N = 256 := N_6
  have htl : t.val < 256 := lt_of_lt_of_eq t.isLt hN
  funext j
  obtain ⟨r, q, rfl⟩ : ∃ (r : Fin 256) (q : Fin 128), j = ix2 r q := ⟨j 0, j 1, eq_ix2 j⟩
  have hr := r.isLt
  refine (out6_5_at (iblk6 V c 0 t) (iblk6 V c 1 t) (iblk6 V c 2 t) (iblk6 V c 3 t) (iblk6 V c 4 t) r q).trans ?_
  have hemb : ((cfg6.win 5).blk t).view.emb (ix2 r q) = ix2 (⟨t.val * 256 + r.val, by omega⟩ : Fin 65536) q := by
    funext a; apply Fin.ext
    match a with
    | ⟨0, _⟩ => show win6_5.index t (0 : Fin 2) * 256 + 1 * r.val = t.val * 256 + r.val; omega
    | ⟨1, _⟩ => show win6_5.index t (1 : Fin 2) * 128 + 1 * q.val = q.val; omega
  show _ = linArr (V c main_v24_0 : (⟨2, ![65536, 128]⟩ : Shape).Idx → EReal) (V c main_arg19) (V c main_arg20) (((cfg6.win 5).blk t).view.emb (ix2 r q))
  rw [hemb]
  show _ = Spec.dot (rowOf (V c main_v24_0 : (⟨2, ![65536, 128]⟩ : Shape).Idx → EReal) (⟨t.val * 256 + r.val, by omega⟩ : Fin 65536)) (matOf (V c main_arg19)) q + vecOf (V c main_arg20) q
  have hr0 : rowOf (n := 256) (iblk6 V c 0 t) r = rowOf (V c main_v24_0 : (⟨2, ![65536, 128]⟩ : Shape).Idx → EReal) (⟨t.val * 256 + r.val, by omega⟩ : Fin 65536) := by
    funext k
    show V c main_v24_0 (((cfg6.win 0).blk t).view.emb (ix2 r k)) = V c main_v24_0 (ix2 (⟨t.val * 256 + r.val, by omega⟩ : Fin 65536) k)
    refine congrArg (V c main_v24_0) (funext fun a => Fin.ext ?_)
    match a with
    | ⟨0, _⟩ => show win6_0.index t (0 : Fin 2) * 256 + 1 * r.val = t.val * 256 + r.val; omega
    | ⟨1, _⟩ => show win6_0.index t (1 : Fin 2) * 128 + 1 * k.val = k.val; omega
  have hm1 : matOf (iblk6 V c 1 t) = matOf (V c main_arg19 : (⟨2, ![128, 128]⟩ : Shape).Idx → EReal) := by
    funext k q'
    show V c main_arg19 (((cfg6.win 1).blk t).view.emb (ix2 k q')) = V c main_arg19 (ix2 k q')
    refine congrArg (V c main_arg19) (funext fun a => Fin.ext ?_)
    match a with
    | ⟨0, _⟩ => show win6_1.index t (0 : Fin 2) * 128 + 1 * k.val = k.val; omega
    | ⟨1, _⟩ => show win6_1.index t (1 : Fin 2) * 128 + 1 * q'.val = q'.val; omega
  have hv2 : vecOf (iblk6 V c 2 t) = vecOf (V c main_arg20 : (⟨2, ![1, 128]⟩ : Shape).Idx → EReal) := by
    funext q'
    show V c main_arg20 (((cfg6.win 2).blk t).view.emb (ix2 (0 : Fin 1) q')) = V c main_arg20 (ix2 (0 : Fin 1) q')
    refine congrArg (V c main_arg20) (funext fun a => Fin.ext ?_)
    match a with
    | ⟨0, _⟩ => show win6_2.index t (0 : Fin 2) * 1 + 1 * 0 = 0; omega
    | ⟨1, _⟩ => show win6_2.index t (1 : Fin 2) * 128 + 1 * q'.val = q'.val; omega
  rw [hr0, hm1, hv2]

/-- An index of the array is in point t's block iff each coordinate is in the block's range on its axis. -/
theorem mem_blk6_5 (t : Fin cfg6.N) (i : (⟨2, ![65536, 128]⟩ : Shape).Idx) :
    i ∈ ((cfg6.win 5).blk t).view.set ↔ ∀ a : Fin 2, win6_5.index t a * S256x128.size a ≤ (i a).val ∧ (i a).val < win6_5.index t a * S256x128.size a + S256x128.size a := by
  show i ∈ ((View.whole main_v36_0).slice (win6_5.rect t)).set ↔ _
  rw [View.set_slice_whole, Rect.mem_set_unit]
  exact Iff.rfl

/-- Every row lies in the block of the point row / 256. -/
theorem covered6_5 (i : (⟨2, ![65536, 128]⟩ : Shape).Idx) :
    ∃ t : Fin cfg6.N, (cfg6.win 5).flush t = true ∧ i ∈ ((cfg6.win 5).blk t).view.set := by
  have hi0 : (i 0).val < 65536 := (i 0).isLt
  have hi1 : (i 1).val < 128 := (i 1).isLt
  have hN : cfg6.N = 256 := N_6
  let t : Fin cfg6.N := ⟨(i 0).val / 256, by rw [hN]; omega⟩
  have ht : t.val = (i 0).val / 256 := rfl
  have e0 : win6_5.index t (0 : Fin 2) = t.val := (idx6 t).2.2.2.2.2.2.2.2.2.2.1
  have e1 : win6_5.index t (1 : Fin 2) = 0 := (idx6 t).2.2.2.2.2.2.2.2.2.2.2.1
  refine ⟨t, flush6_5 t, ?_⟩
  rw [mem_blk6_5]
  intro a
  match a with
  | ⟨0, _⟩ => show win6_5.index t (0 : Fin 2) * 256 ≤ (i 0).val ∧ (i 0).val < win6_5.index t (0 : Fin 2) * 256 + 256; omega
  | ⟨1, _⟩ => show win6_5.index t (1 : Fin 2) * 128 ≤ (i 1).val ∧ (i 1).val < win6_5.index t (1 : Fin 2) * 128 + 128; omega

/-- THE ARRAY of output window 5 after region 6: x·W + b row by row, of the region-entry arrays. -/
theorem fin6_5 (c : Dev nD) : (dat6 V c).arrAt 5 cfg6.N
    = linArr (V c main_v24_0 : (⟨2, ![65536, 128]⟩ : Shape).Idx → EReal) (V c main_arg19) (V c main_arg20) :=
  (dat6 V c).arrAt_eq_of_cover 5 _ (fun t _ => flushed6_5_eq V c t) covered6_5

/-- What the body leaves in output window 6's buffer, at row r and lane q. -/
theorem out6_6_at (x0 : Vec Ideal S256x128 .f32) (x1 : Vec Ideal S128x128 .f32) (x2 : Vec Ideal S1x128 .f32)
    (x3 : Vec Ideal S128x128 .f32) (x4 : Vec Ideal S1x128 .f32) (r : Fin 256) (q : Fin 128) :
    out6_6 x0 x1 x2 x3 x4 (ix2 r q) = Spec.dot (rowOf x0 r) (matOf x3) q + vecOf x4 q := by
  unfold out6_6
  rw [View.canon_unit_zero hz2]
  simp only [View.ld_unit_zero (S := S256x128) hz2, View.ld_unit_zero (S := S128x128) hz2, View.ld_unit_zero (S := S1x128) hz2]
  exact k6_pay3_at x0 x3 x4 r q

/-- What point t writes back to output window 6's array is block t of the closed form. -/
theorem flushed6_6_eq (c : Dev nD) (t : Fin cfg6.N) :
    (dat6 V c).flushed 6 t = ((cfg6.win 6).blk t).view.read (Elt Ideal)
      (linArr (V c main_v24_0 : (⟨2, ![65536, 128]⟩ : Shape).Idx → EReal) (V c main_arg21) (V c main_arg22)) := by
  show (cfg6.win 6).cut (grid6.coords t) ((dat6 V c).after 6 t) = _
  rw [after6_6]
  obtain ⟨i0a, i0b, i1a, i1b, i2a, i2b, i3a, i3b, i4a, i4b, i5a, i5b, i6a, i6b⟩ := idx6 t
  have hN : cfg6.N = 256 := N_6
  have htl : t.val < 256 := lt_of_lt_of_eq t.isLt hN
  funext j
  obtain ⟨r, q, rfl⟩ : ∃ (r : Fin 256) (q : Fin 128), j = ix2 r q := ⟨j 0, j 1, eq_ix2 j⟩
  have hr := r.isLt
  refine (out6_6_at (iblk6 V c 0 t) (iblk6 V c 1 t) (iblk6 V c 2 t) (iblk6 V c 3 t) (iblk6 V c 4 t) r q).trans ?_
  have hemb : ((cfg6.win 6).blk t).view.emb (ix2 r q) = ix2 (⟨t.val * 256 + r.val, by omega⟩ : Fin 65536) q := by
    funext a; apply Fin.ext
    match a with
    | ⟨0, _⟩ => show win6_6.index t (0 : Fin 2) * 256 + 1 * r.val = t.val * 256 + r.val; omega
    | ⟨1, _⟩ => show win6_6.index t (1 : Fin 2) * 128 + 1 * q.val = q.val; omega
  show _ = linArr (V c main_v24_0 : (⟨2, ![65536, 128]⟩ : Shape).Idx → EReal) (V c main_arg21) (V c main_arg22) (((cfg6.win 6).blk t).view.emb (ix2 r q))
  rw [hemb]
  show _ = Spec.dot (rowOf (V c main_v24_0 : (⟨2, ![65536, 128]⟩ : Shape).Idx → EReal) (⟨t.val * 256 + r.val, by omega⟩ : Fin 65536)) (matOf (V c main_arg21)) q + vecOf (V c main_arg22) q
  have hr0 : rowOf (n := 256) (iblk6 V c 0 t) r = rowOf (V c main_v24_0 : (⟨2, ![65536, 128]⟩ : Shape).Idx → EReal) (⟨t.val * 256 + r.val, by omega⟩ : Fin 65536) := by
    funext k
    show V c main_v24_0 (((cfg6.win 0).blk t).view.emb (ix2 r k)) = V c main_v24_0 (ix2 (⟨t.val * 256 + r.val, by omega⟩ : Fin 65536) k)
    refine congrArg (V c main_v24_0) (funext fun a => Fin.ext ?_)
    match a with
    | ⟨0, _⟩ => show win6_0.index t (0 : Fin 2) * 256 + 1 * r.val = t.val * 256 + r.val; omega
    | ⟨1, _⟩ => show win6_0.index t (1 : Fin 2) * 128 + 1 * k.val = k.val; omega
  have hm3 : matOf (iblk6 V c 3 t) = matOf (V c main_arg21 : (⟨2, ![128, 128]⟩ : Shape).Idx → EReal) := by
    funext k q'
    show V c main_arg21 (((cfg6.win 3).blk t).view.emb (ix2 k q')) = V c main_arg21 (ix2 k q')
    refine congrArg (V c main_arg21) (funext fun a => Fin.ext ?_)
    match a with
    | ⟨0, _⟩ => show win6_3.index t (0 : Fin 2) * 128 + 1 * k.val = k.val; omega
    | ⟨1, _⟩ => show win6_3.index t (1 : Fin 2) * 128 + 1 * q'.val = q'.val; omega
  have hv4 : vecOf (iblk6 V c 4 t) = vecOf (V c main_arg22 : (⟨2, ![1, 128]⟩ : Shape).Idx → EReal) := by
    funext q'
    show V c main_arg22 (((cfg6.win 4).blk t).view.emb (ix2 (0 : Fin 1) q')) = V c main_arg22 (ix2 (0 : Fin 1) q')
    refine congrArg (V c main_arg22) (funext fun a => Fin.ext ?_)
    match a with
    | ⟨0, _⟩ => show win6_4.index t (0 : Fin 2) * 1 + 1 * 0 = 0; omega
    | ⟨1, _⟩ => show win6_4.index t (1 : Fin 2) * 128 + 1 * q'.val = q'.val; omega
  rw [hr0, hm3, hv4]

/-- An index of the array is in point t's block iff each coordinate is in the block's range on its axis. -/
theorem mem_blk6_6 (t : Fin cfg6.N) (i : (⟨2, ![65536, 128]⟩ : Shape).Idx) :
    i ∈ ((cfg6.win 6).blk t).view.set ↔ ∀ a : Fin 2, win6_6.index t a * S256x128.size a ≤ (i a).val ∧ (i a).val < win6_6.index t a * S256x128.size a + S256x128.size a := by
  show i ∈ ((View.whole main_v36_1).slice (win6_6.rect t)).set ↔ _
  rw [View.set_slice_whole, Rect.mem_set_unit]
  exact Iff.rfl

/-- Every row lies in the block of the point row / 256. -/
theorem covered6_6 (i : (⟨2, ![65536, 128]⟩ : Shape).Idx) :
    ∃ t : Fin cfg6.N, (cfg6.win 6).flush t = true ∧ i ∈ ((cfg6.win 6).blk t).view.set := by
  have hi0 : (i 0).val < 65536 := (i 0).isLt
  have hi1 : (i 1).val < 128 := (i 1).isLt
  have hN : cfg6.N = 256 := N_6
  let t : Fin cfg6.N := ⟨(i 0).val / 256, by rw [hN]; omega⟩
  have ht : t.val = (i 0).val / 256 := rfl
  have e0 : win6_6.index t (0 : Fin 2) = t.val := (idx6 t).2.2.2.2.2.2.2.2.2.2.2.2.1
  have e1 : win6_6.index t (1 : Fin 2) = 0 := (idx6 t).2.2.2.2.2.2.2.2.2.2.2.2.2
  refine ⟨t, flush6_6 t, ?_⟩
  rw [mem_blk6_6]
  intro a
  match a with
  | ⟨0, _⟩ => show win6_6.index t (0 : Fin 2) * 256 ≤ (i 0).val ∧ (i 0).val < win6_6.index t (0 : Fin 2) * 256 + 256; omega
  | ⟨1, _⟩ => show win6_6.index t (1 : Fin 2) * 128 ≤ (i 1).val ∧ (i 1).val < win6_6.index t (1 : Fin 2) * 128 + 128; omega

/-- THE ARRAY of output window 6 after region 6: x·W + b row by row, of the region-entry arrays. -/
theorem fin6_6 (c : Dev nD) : (dat6 V c).arrAt 6 cfg6.N
    = linArr (V c main_v24_0 : (⟨2, ![65536, 128]⟩ : Shape).Idx → EReal) (V c main_arg21) (V c main_arg22) :=
  (dat6 V c).arrAt_eq_of_cover 6 _ (fun t _ => flushed6_6_eq V c t) covered6_6

end Cert.ReferenceIdeal.Val

end
-- ==== Proof.RV.Fin7.lean ====
/-
  Region 7 of the reference (the edge kernel), blocks read back into arrays: its three output arrays end
  holding the updated edge rows, the gated messages and the gates, as functions of the region's input arrays
  as it finds them. The validity mask is 1 on every row: 131072 rows are 512 tiles of 256.
-/
import proofs.«117664_g2000706958607885_pallasbulk_534_41_alg».proof.Proof.RV.ArrDefs
import proofs.«117664_g2000706958607885_pallasbulk_534_41_alg».proof.Proof.RV.PayB

set_option maxRecDepth 16384

noncomputable section

namespace Cert.ReferenceIdeal.Val

open Cert.ReferenceIdeal Cert.ReferenceIdeal.Gen Cert.ReferenceIdeal.GenP
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The printed index maps over the grid: a row-tiled window's block index is the grid point, a parameter's is zero. -/
theorem idx7 : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = t.val ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = 0 ∧ win7_6.index t (1 : Fin 2) = 0
    ∧ win7_7.index t (0 : Fin 2) = 0 ∧ win7_7.index t (1 : Fin 2) = 0
    ∧ win7_8.index t (0 : Fin 2) = 0 ∧ win7_8.index t (1 : Fin 2) = 0
    ∧ win7_9.index t (0 : Fin 2) = 0 ∧ win7_9.index t (1 : Fin 2) = 0
    ∧ win7_10.index t (0 : Fin 2) = 0 ∧ win7_10.index t (1 : Fin 2) = 0
    ∧ win7_11.index t (0 : Fin 2) = 0 ∧ win7_11.index t (1 : Fin 2) = 0
    ∧ win7_12.index t (0 : Fin 2) = t.val ∧ win7_12.index t (1 : Fin 2) = 0
    ∧ win7_13.index t (0 : Fin 2) = t.val ∧ win7_13.index t (1 : Fin 2) = 0
    ∧ win7_14.index t (0 : Fin 2) = t.val ∧ win7_14.index t (1 : Fin 2) = 0 :=
  (by decide +kernel : ∀ t : Fin grid7.N, _)

/-- What the body leaves in output window 12's buffer, at row r and lane q: the updated edge row. -/
theorem out7_12_at (x0 x1 x2 x3 : Vec Ideal S256x128 .f32) (x4 : Vec Ideal S128x128 .f32) (x5 : Vec Ideal S1x128 .f32) (x6 : Vec Ideal S128x128 .f32) (x7 : Vec Ideal S1x128 .f32) (x8 : Vec Ideal S128x128 .f32) (x9 : Vec Ideal S1x128 .f32) (x10 x11 : Vec Ideal S1x128 .f32) (r : Fin 256) (q : Fin 128) :
    out7_12 x0 x1 x2 x3 x4 x5 x6 x7 x8 x9 x10 x11 (ix2 r q) = Spec.resid (rowOf x2 r) (Spec.refEhat (rowOf x0 r) (rowOf x1 r) (rowOf x2 r) (matOf x4) (matOf x6) (matOf x8) (vecOf x5) (vecOf x7) (vecOf x9)) (vecOf x10) (vecOf x11) q := by
  unfold out7_12
  rw [View.canon_unit_zero hz2]
  simp only [View.ld_unit_zero (S := S256x128) hz2, View.ld_unit_zero (S := S128x128) hz2, View.ld_unit_zero (S := S1x128) hz2]
  exact k7_enew_at x0 x4 x5 x1 x6 x7 x2 x8 x9 x10 x11 r q

/-- Output window 14: the gate. -/
theorem out7_14_at (i : grid7.Coords) (x0 x1 x2 x3 : Vec Ideal S256x128 .f32) (x4 : Vec Ideal S128x128 .f32) (x5 : Vec Ideal S1x128 .f32) (x6 : Vec Ideal S128x128 .f32) (x7 : Vec Ideal S1x128 .f32) (x8 : Vec Ideal S128x128 .f32) (x9 : Vec Ideal S1x128 .f32) (x10 x11 : Vec Ideal S1x128 .f32) (r : Fin 256) (q : Fin 128)
    (hm : IntOp.cmpi .slt (IntOp.addi (Scalar.muli (BitVec.ofNat 32 (i 0).val) 256#32) (BitVec.ofNat 32 r.val)) 131072#32 = 1#1) :
    out7_14 i x0 x1 x2 x3 x4 x5 x6 x7 x8 x9 x10 x11 (ix2 r q) = Spec.gate (Spec.refEhat (rowOf x0 r) (rowOf x1 r) (rowOf x2 r) (matOf x4) (matOf x6) (matOf x8) (vecOf x5) (vecOf x7) (vecOf x9)) q := by
  unfold out7_14
  rw [View.canon_unit_zero hz2]
  simp only [View.ld_unit_zero (S := S256x128) hz2, View.ld_unit_zero (S := S128x128) hz2, View.ld_unit_zero (S := S1x128) hz2]
  exact (k7_pay2_at _ (k7_pay4 (F := Ideal) x0 x4 x5 x1 x6 x7 x2 x8 x9) r q hm).trans
    (congrArg (fun v => Spec.gate v q) (k7_pay4_row x0 x4 x5 x1 x6 x7 x2 x8 x9 r))

/-- Output window 13: the gated message. -/
theorem out7_13_at (i : grid7.Coords) (x0 x1 x2 x3 : Vec Ideal S256x128 .f32) (x4 : Vec Ideal S128x128 .f32) (x5 : Vec Ideal S1x128 .f32) (x6 : Vec Ideal S128x128 .f32) (x7 : Vec Ideal S1x128 .f32) (x8 : Vec Ideal S128x128 .f32) (x9 : Vec Ideal S1x128 .f32) (x10 x11 : Vec Ideal S1x128 .f32) (r : Fin 256) (q : Fin 128)
    (hm : IntOp.cmpi .slt (IntOp.addi (Scalar.muli (BitVec.ofNat 32 (i 0).val) 256#32) (BitVec.ofNat 32 r.val)) 131072#32 = 1#1) :
    out7_13 i x0 x1 x2 x3 x4 x5 x6 x7 x8 x9 x10 x11 (ix2 r q) = Spec.gate (Spec.refEhat (rowOf x0 r) (rowOf x1 r) (rowOf x2 r) (matOf x4) (matOf x6) (matOf x8) (vecOf x5) (vecOf x7) (vecOf x9)) q * rowOf x3 r q := by
  unfold out7_13
  rw [View.canon_unit_zero hz2]
  simp only [View.ld_unit_zero (S := S256x128) hz2, View.ld_unit_zero (S := S128x128) hz2, View.ld_unit_zero (S := S1x128) hz2]
  exact (k7_pay3_at _ (k7_pay4 (F := Ideal) x0 x4 x5 x1 x6 x7 x2 x8 x9) x3 r q hm).trans
    (congrArg (fun v => Spec.gate v q * x3 (ix2 r q)) (k7_pay4_row x0 x4 x5 x1 x6 x7 x2 x8 x9 r))

/-- What point t writes back to output window 12's array is block t of the closed form. -/
theorem flushed7_12_eq (c : Dev nD) (t : Fin cfg7.N) :
    (dat7 V c).flushed 12 t = ((cfg7.win 12).blk t).view.read (Elt Ideal)
      (eNewArr (V c main_v37 : (⟨2, ![131072, 128]⟩ : Shape).Idx → EReal) (V c main_v38 : (⟨2, ![131072, 128]⟩ : Shape).Idx → EReal) (V c main_v8_0 : (⟨2, ![131072, 128]⟩ : Shape).Idx → EReal) (V c main_arg23) (V c main_arg25) (V c main_arg27) (V c main_arg24) (V c main_arg26) (V c main_arg28) (V c main_arg31) (V c main_arg32)) := by
  show (cfg7.win 12).cut (grid7.coords t) ((dat7 V c).after 12 t) = _
  rw [after7_12]
  obtain ⟨i0a, i0b, i1a, i1b, i2a, i2b, i3a, i3b, i4a, i4b, i5a, i5b, i6a, i6b, i7a, i7b, i8a, i8b, i9a, i9b, i10a, i10b, i11a, i11b, i12a, i12b, i13a, i13b, i14a, i14b⟩ := idx7 t
  have hN : cfg7.N = 512 := N_7
  have htl : t.val < 512 := lt_of_lt_of_eq t.isLt hN
  funext j
  obtain ⟨r, q, rfl⟩ : ∃ (r : Fin 256) (q : Fin 128), j = ix2 r q := ⟨j 0, j 1, eq_ix2 j⟩
  have hr := r.isLt
  refine (out7_12_at (iblk7 V c 0 t) (iblk7 V c 1 t) (iblk7 V c 2 t) (iblk7 V c 3 t) (iblk7 V c 4 t) (iblk7 V c 5 t) (iblk7 V c 6 t) (iblk7 V c 7 t) (iblk7 V c 8 t) (iblk7 V c 9 t) (iblk7 V c 10 t) (iblk7 V c 11 t) r q).trans ?_
  have hemb : ((cfg7.win 12).blk t).view.emb (ix2 r q) = ix2 (⟨t.val * 256 + r.val, by omega⟩ : Fin 131072) q := by
    funext a; apply Fin.ext
    match a with
    | ⟨0, _⟩ => show win7_12.index t (0 : Fin 2) * 256 + 1 * r.val = t.val * 256 + r.val; omega
    | ⟨1, _⟩ => show win7_12.index t (1 : Fin 2) * 128 + 1 * q.val = q.val; omega
  show _ = (eNewArr (V c main_v37 : (⟨2, ![131072, 128]⟩ : Shape).Idx → EReal) (V c main_v38 : (⟨2, ![131072, 128]⟩ : Shape).Idx → EReal) (V c main_v8_0 : (⟨2, ![131072, 128]⟩ : Shape).Idx → EReal) (V c main_arg23) (V c main_arg25) (V c main_arg27) (V c main_arg24) (V c main_arg26) (V c main_arg28) (V c main_arg31) (V c main_arg32)) (((cfg7.win 12).blk t).view.emb (ix2 r q))
  rw [hemb]
  show _ = Spec.resid (rowOf (V c main_v8_0 : (⟨2, ![131072, 128]⟩ : Shape).Idx → EReal) (⟨t.val * 256 + r.val, by omega⟩ : Fin 131072)) (Spec.refEhat (rowOf (V c main_v37 : (⟨2, ![131072, 128]⟩ : Shape).Idx → EReal) (⟨t.val * 256 + r.val, by omega⟩ : Fin 131072)) (rowOf (V c main_v38 : (⟨2, ![131072, 128]⟩ : Shape).Idx → EReal) (⟨t.val * 256 + r.val, by omega⟩ : Fin 131072)) (rowOf (V c main_v8_0 : (⟨2, ![131072, 128]⟩ : Shape).Idx → EReal) (⟨t.val * 256 + r.val, by omega⟩ : Fin 131072)) (matOf (V c main_arg23)) (matOf (V c main_arg25)) (matOf (V c main_arg27)) (vecOf (V c main_arg24)) (vecOf (V c main_arg26)) (vecOf (V c main_arg28))) (vecOf (V c main_arg31)) (vecOf (V c main_arg32)) q
  have hr0 : rowOf (n := 256) (iblk7 V c 0 t) r = rowOf (V c main_v37 : (⟨2, ![131072, 128]⟩ : Shape).Idx → EReal) (⟨t.val * 256 + r.val, by omega⟩ : Fin 131072) := by
    funext k
    show V c main_v37 (((cfg7.win 0).blk t).view.emb (ix2 r k)) = V c main_v37 (ix2 (⟨t.val * 256 + r.val, by omega⟩ : Fin 131072) k)
    refine congrArg (V c main_v37) (funext fun a => Fin.ext ?_)
    match a with
    | ⟨0, _⟩ => show win7_0.index t (0 : Fin 2) * 256 + 1 * r.val = t.val * 256 + r.val; omega
    | ⟨1, _⟩ => show win7_0.index t (1 : Fin 2) * 128 + 1 * k.val = k.val; omega
  have hr1 : rowOf (n := 256) (iblk7 V c 1 t) r = rowOf (V c main_v38 : (⟨2, ![131072, 128]⟩ : Shape).Idx → EReal) (⟨t.val * 256 + r.val, by omega⟩ : Fin 131072) := by
    funext k
    show V c main_v38 (((cfg7.win 1).blk t).view.emb (ix2 r k)) = V c main_v38 (ix2 (⟨t.val * 256 + r.val, by omega⟩ : Fin 131072) k)
    refine congrArg (V c main_v38) (funext fun a => Fin.ext ?_)
    match a with
    | ⟨0, _⟩ => show win7_1.index t (0 : Fin 2) * 256 + 1 * r.val = t.val * 256 + r.val; omega
    | ⟨1, _⟩ => show win7_1.index t (1 : Fin 2) * 128 + 1 * k.val = k.val; omega
  have hr2 : rowOf (n := 256) (iblk7 V c 2 t) r = rowOf (V c main_v8_0 : (⟨2, ![131072, 128]⟩ : Shape).Idx → EReal) (⟨t.val * 256 + r.val, by omega⟩ : Fin 131072) := by
    funext k
    show V c main_v8_0 (((cfg7.win 2).blk t).view.emb (ix2 r k)) = V c main_v8_0 (ix2 (⟨t.val * 256 + r.val, by omega⟩ : Fin 131072) k)
    refine congrArg (V c main_v8_0) (funext fun a => Fin.ext ?_)
    match a with
    | ⟨0, _⟩ => show win7_2.index t (0 : Fin 2) * 256 + 1 * r.val = t.val * 256 + r.val; omega
    | ⟨1, _⟩ => show win7_2.index t (1 : Fin 2) * 128 + 1 * k.val = k.val; omega
  have hm4 : matOf (iblk7 V c 4 t) = matOf (V c main_arg23 : (⟨2, ![128, 128]⟩ : Shape).Idx → EReal) := by
    funext k q'
    show V c main_arg23 (((cfg7.win 4).blk t).view.emb (ix2 k q')) = V c main_arg23 (ix2 k q')
    refine congrArg (V c main_arg23) (funext fun a => Fin.ext ?_)
    match a with
    | ⟨0, _⟩ => show win7_4.index t (0 : Fin 2) * 128 + 1 * k.val = k.val; omega
    | ⟨1, _⟩ => show win7_4.index t (1 : Fin 2) * 128 + 1 * q'.val = q'.val; omega
  have hm6 : matOf (iblk7 V c 6 t) = matOf (V c main_arg25 : (⟨2, ![128, 128]⟩ : Shape).Idx → EReal) := by
    funext k q'
    show V c main_arg25 (((cfg7.win 6).blk t).view.emb (ix2 k q')) = V c main_arg25 (ix2 k q')
    refine congrArg (V c main_arg25) (funext fun a => Fin.ext ?_)
    match a with
    | ⟨0, _⟩ => show win7_6.index t (0 : Fin 2) * 128 + 1 * k.val = k.val; omega
    | ⟨1, _⟩ => show win7_6.index t (1 : Fin 2) * 128 + 1 * q'.val = q'.val; omega
  have hm8 : matOf (iblk7 V c 8 t) = matOf (V c main_arg27 : (⟨2, ![128, 128]⟩ : Shape).Idx → EReal) := by
    funext k q'
    show V c main_arg27 (((cfg7.win 8).blk t).view.emb (ix2 k q')) = V c main_arg27 (ix2 k q')
    refine congrArg (V c main_arg27) (funext fun a => Fin.ext ?_)
    match a with
    | ⟨0, _⟩ => show win7_8.index t (0 : Fin 2) * 128 + 1 * k.val = k.val; omega
    | ⟨1, _⟩ => show win7_8.index t (1 : Fin 2) * 128 + 1 * q'.val = q'.val; omega
  have hv5 : vecOf (iblk7 V c 5 t) = vecOf (V c main_arg24 : (⟨2, ![1, 128]⟩ : Shape).Idx → EReal) := by
    funext q'
    show V c main_arg24 (((cfg7.win 5).blk t).view.emb (ix2 (0 : Fin 1) q')) = V c main_arg24 (ix2 (0 : Fin 1) q')
    refine congrArg (V c main_arg24) (funext fun a => Fin.ext ?_)
    match a with
    | ⟨0, _⟩ => show win7_5.index t (0 : Fin 2) * 1 + 1 * 0 = 0; omega
    | ⟨1, _⟩ => show win7_5.index t (1 : Fin 2) * 128 + 1 * q'.val = q'.val; omega
  have hv7 : vecOf (iblk7 V c 7 t) = vecOf (V c main_arg26 : (⟨2, ![1, 128]⟩ : Shape).Idx → EReal) := by
    funext q'
    show V c main_arg26 (((cfg7.win 7).blk t).view.emb (ix2 (0 : Fin 1) q')) = V c main_arg26 (ix2 (0 : Fin 1) q')
    refine congrArg (V c main_arg26) (funext fun a => Fin.ext ?_)
    match a with
    | ⟨0, _⟩ => show win7_7.index t (0 : Fin 2) * 1 + 1 * 0 = 0; omega
    | ⟨1, _⟩ => show win7_7.index t (1 : Fin 2) * 128 + 1 * q'.val = q'.val; omega
  have hv9 : vecOf (iblk7 V c 9 t) = vecOf (V c main_arg28 : (⟨2, ![1, 128]⟩ : Shape).Idx → EReal) := by
    funext q'
    show V c main_arg28 (((cfg7.win 9).blk t).view.emb (ix2 (0 : Fin 1) q')) = V c main_arg28 (ix2 (0 : Fin 1) q')
    refine congrArg (V c main_arg28) (funext fun a => Fin.ext ?_)
    match a with
    | ⟨0, _⟩ => show win7_9.index t (0 : Fin 2) * 1 + 1 * 0 = 0; omega
    | ⟨1, _⟩ => show win7_9.index t (1 : Fin 2) * 128 + 1 * q'.val = q'.val; omega
  have hv10 : vecOf (iblk7 V c 10 t) = vecOf (V c main_arg31 : (⟨2, ![1, 128]⟩ : Shape).Idx → EReal) := by
    funext q'
    show V c main_arg31 (((cfg7.win 10).blk t).view.emb (ix2 (0 : Fin 1) q')) = V c main_arg31 (ix2 (0 : Fin 1) q')
    refine congrArg (V c main_arg31) (funext fun a => Fin.ext ?_)
    match a with
    | ⟨0, _⟩ => show win7_10.index t (0 : Fin 2) * 1 + 1 * 0 = 0; omega
    | ⟨1, _⟩ => show win7_10.index t (1 : Fin 2) * 128 + 1 * q'.val = q'.val; omega
  have hv11 : vecOf (iblk7 V c 11 t) = vecOf (V c main_arg32 : (⟨2, ![1, 128]⟩ : Shape).Idx → EReal) := by
    funext q'
    show V c main_arg32 (((cfg7.win 11).blk t).view.emb (ix2 (0 : Fin 1) q')) = V c main_arg32 (ix2 (0 : Fin 1) q')
    refine congrArg (V c main_arg32) (funext fun a => Fin.ext ?_)
    match a with
    | ⟨0, _⟩ => show win7_11.index t (0 : Fin 2) * 1 + 1 * 0 = 0; omega
    | ⟨1, _⟩ => show win7_11.index t (1 : Fin 2) * 128 + 1 * q'.val = q'.val; omega
  rw [hr0, hr1, hr2, hm4, hm6, hm8, hv5, hv7, hv9, hv10, hv11]

/-- An index of the array is in point t's block iff each coordinate is in the block's range on its axis. -/
theorem mem_blk7_12 (t : Fin cfg7.N) (i : (⟨2, ![131072, 128]⟩ : Shape).Idx) :
    i ∈ ((cfg7.win 12).blk t).view.set ↔ ∀ a : Fin 2, win7_12.index t a * S256x128.size a ≤ (i a).val ∧ (i a).val < win7_12.index t a * S256x128.size a + S256x128.size a := by
  show i ∈ ((View.whole main_v40_0).slice (win7_12.rect t)).set ↔ _
  rw [View.set_slice_whole, Rect.mem_set_unit]
  exact Iff.rfl

/-- Every row lies in the block of the point row / 256. -/
theorem covered7_12 (i : (⟨2, ![131072, 128]⟩ : Shape).Idx) :
    ∃ t : Fin cfg7.N, (cfg7.win 12).flush t = true ∧ i ∈ ((cfg7.win 12).blk t).view.set := by
  have hi0 : (i 0).val < 131072 := (i 0).isLt
  have hi1 : (i 1).val < 128 := (i 1).isLt
  have hN : cfg7.N = 512 := N_7
  let t : Fin cfg7.N := ⟨(i 0).val / 256, by rw [hN]; omega⟩
  have ht : t.val = (i 0).val / 256 := rfl
  have e0 : win7_12.index t (0 : Fin 2) = t.val := (idx7 t).2.2.2.2.2.2.2.2.2.2.2.2.2.2.2.2.2.2.2.2.2.2.2.2.1
  have e1 : win7_12.index t (1 : Fin 2) = 0 := (idx7 t).2.2.2.2.2.2.2.2.2.2.2.2.2.2.2.2.2.2.2.2.2.2.2.2.2.1
  refine ⟨t, flush7_12 t, ?_⟩
  rw [mem_blk7_12]
  intro a
  match a with
  | ⟨0, _⟩ => show win7_12.index t (0 : Fin 2) * 256 ≤ (i 0).val ∧ (i 0).val < win7_12.index t (0 : Fin 2) * 256 + 256; omega
  | ⟨1, _⟩ => show win7_12.index t (1 : Fin 2) * 128 ≤ (i 1).val ∧ (i 1).val < win7_12.index t (1 : Fin 2) * 128 + 128; omega

/-- THE ARRAY of output window 12 after region 7, as a function of the region-entry arrays. -/
theorem fin7_12 (c : Dev nD) : (dat7 V c).arrAt 12 cfg7.N
    = eNewArr (V c main_v37 : (⟨2, ![131072, 128]⟩ : Shape).Idx → EReal) (V c main_v38 : (⟨2, ![131072, 128]⟩ : Shape).Idx → EReal) (V c main_v8_0 : (⟨2, ![131072, 128]⟩ : Shape).Idx → EReal) (V c main_arg23) (V c main_arg25) (V c main_arg27) (V c main_arg24) (V c main_arg26) (V c main_arg28) (V c main_arg31) (V c main_arg32) :=
  (dat7 V c).arrAt_eq_of_cover 12 _ (fun t _ => flushed7_12_eq V c t) covered7_12

/-- What point t writes back to output window 14's array is block t of the closed form. -/
theorem flushed7_14_eq (c : Dev nD) (t : Fin cfg7.N) :
    (dat7 V c).flushed 14 t = ((cfg7.win 14).blk t).view.read (Elt Ideal)
      (sigArr (V c main_v37 : (⟨2, ![131072, 128]⟩ : Shape).Idx → EReal) (V c main_v38 : (⟨2, ![131072, 128]⟩ : Shape).Idx → EReal) (V c main_v8_0 : (⟨2, ![131072, 128]⟩ : Shape).Idx → EReal) (V c main_arg23) (V c main_arg25) (V c main_arg27) (V c main_arg24) (V c main_arg26) (V c main_arg28)) := by
  show (cfg7.win 14).cut (grid7.coords t) ((dat7 V c).after 14 t) = _
  rw [after7_14]
  obtain ⟨i0a, i0b, i1a, i1b, i2a, i2b, i3a, i3b, i4a, i4b, i5a, i5b, i6a, i6b, i7a, i7b, i8a, i8b, i9a, i9b, i10a, i10b, i11a, i11b, i12a, i12b, i13a, i13b, i14a, i14b⟩ := idx7 t
  have hN : cfg7.N = 512 := N_7
  have htl : t.val < 512 := lt_of_lt_of_eq t.isLt hN
  funext j
  obtain ⟨r, q, rfl⟩ : ∃ (r : Fin 256) (q : Fin 128), j = ix2 r q := ⟨j 0, j 1, eq_ix2 j⟩
  have hr := r.isLt
  have hc : ((grid7.coords t) 0).val < 512 := ((grid7.coords t) 0).isLt
  refine (out7_14_at (grid7.coords t) (iblk7 V c 0 t) (iblk7 V c 1 t) (iblk7 V c 2 t) (iblk7 V c 3 t) (iblk7 V c 4 t) (iblk7 V c 5 t) (iblk7 V c 6 t) (iblk7 V c 7 t) (iblk7 V c 8 t) (iblk7 V c 9 t) (iblk7 V c 10 t) (iblk7 V c 11 t) r q (mask_word _ _ 131072 (by omega) (by decide))).trans ?_
  have hemb : ((cfg7.win 14).blk t).view.emb (ix2 r q) = ix2 (⟨t.val * 256 + r.val, by omega⟩ : Fin 131072) q := by
    funext a; apply Fin.ext
    match a with
    | ⟨0, _⟩ => show win7_14.index t (0 : Fin 2) * 256 + 1 * r.val = t.val * 256 + r.val; omega
    | ⟨1, _⟩ => show win7_14.index t (1 : Fin 2) * 128 + 1 * q.val = q.val; omega
  show _ = (sigArr (V c main_v37 : (⟨2, ![131072, 128]⟩ : Shape).Idx → EReal) (V c main_v38 : (⟨2, ![131072, 128]⟩ : Shape).Idx → EReal) (V c main_v8_0 : (⟨2, ![131072, 128]⟩ : Shape).Idx → EReal) (V c main_arg23) (V c main_arg25) (V c main_arg27) (V c main_arg24) (V c main_arg26) (V c main_arg28)) (((cfg7.win 14).blk t).view.emb (ix2 r q))
  rw [hemb]
  show _ = Spec.gate (Spec.refEhat (rowOf (V c main_v37 : (⟨2, ![131072, 128]⟩ : Shape).Idx → EReal) (⟨t.val * 256 + r.val, by omega⟩ : Fin 131072)) (rowOf (V c main_v38 : (⟨2, ![131072, 128]⟩ : Shape).Idx → EReal) (⟨t.val * 256 + r.val, by omega⟩ : Fin 131072)) (rowOf (V c main_v8_0 : (⟨2, ![131072, 128]⟩ : Shape).Idx → EReal) (⟨t.val * 256 + r.val, by omega⟩ : Fin 131072)) (matOf (V c main_arg23)) (matOf (V c main_arg25)) (matOf (V c main_arg27)) (vecOf (V c main_arg24)) (vecOf (V c main_arg26)) (vecOf (V c main_arg28))) q
  have hr0 : rowOf (n := 256) (iblk7 V c 0 t) r = rowOf (V c main_v37 : (⟨2, ![131072, 128]⟩ : Shape).Idx → EReal) (⟨t.val * 256 + r.val, by omega⟩ : Fin 131072) := by
    funext k
    show V c main_v37 (((cfg7.win 0).blk t).view.emb (ix2 r k)) = V c main_v37 (ix2 (⟨t.val * 256 + r.val, by omega⟩ : Fin 131072) k)
    refine congrArg (V c main_v37) (funext fun a => Fin.ext ?_)
    match a with
    | ⟨0, _⟩ => show win7_0.index t (0 : Fin 2) * 256 + 1 * r.val = t.val * 256 + r.val; omega
    | ⟨1, _⟩ => show win7_0.index t (1 : Fin 2) * 128 + 1 * k.val = k.val; omega
  have hr1 : rowOf (n := 256) (iblk7 V c 1 t) r = rowOf (V c main_v38 : (⟨2, ![131072, 128]⟩ : Shape).Idx → EReal) (⟨t.val * 256 + r.val, by omega⟩ : Fin 131072) := by
    funext k
    show V c main_v38 (((cfg7.win 1).blk t).view.emb (ix2 r k)) = V c main_v38 (ix2 (⟨t.val * 256 + r.val, by omega⟩ : Fin 131072) k)
    refine congrArg (V c main_v38) (funext fun a => Fin.ext ?_)
    match a with
    | ⟨0, _⟩ => show win7_1.index t (0 : Fin 2) * 256 + 1 * r.val = t.val * 256 + r.val; omega
    | ⟨1, _⟩ => show win7_1.index t (1 : Fin 2) * 128 + 1 * k.val = k.val; omega
  have hr2 : rowOf (n := 256) (iblk7 V c 2 t) r = rowOf (V c main_v8_0 : (⟨2, ![131072, 128]⟩ : Shape).Idx → EReal) (⟨t.val * 256 + r.val, by omega⟩ : Fin 131072) := by
    funext k
    show V c main_v8_0 (((cfg7.win 2).blk t).view.emb (ix2 r k)) = V c main_v8_0 (ix2 (⟨t.val * 256 + r.val, by omega⟩ : Fin 131072) k)
    refine congrArg (V c main_v8_0) (funext fun a => Fin.ext ?_)
    match a with
    | ⟨0, _⟩ => show win7_2.index t (0 : Fin 2) * 256 + 1 * r.val = t.val * 256 + r.val; omega
    | ⟨1, _⟩ => show win7_2.index t (1 : Fin 2) * 128 + 1 * k.val = k.val; omega
  have hm4 : matOf (iblk7 V c 4 t) = matOf (V c main_arg23 : (⟨2, ![128, 128]⟩ : Shape).Idx → EReal) := by
    funext k q'
    show V c main_arg23 (((cfg7.win 4).blk t).view.emb (ix2 k q')) = V c main_arg23 (ix2 k q')
    refine congrArg (V c main_arg23) (funext fun a => Fin.ext ?_)
    match a with
    | ⟨0, _⟩ => show win7_4.index t (0 : Fin 2) * 128 + 1 * k.val = k.val; omega
    | ⟨1, _⟩ => show win7_4.index t (1 : Fin 2) * 128 + 1 * q'.val = q'.val; omega
  have hm6 : matOf (iblk7 V c 6 t) = matOf (V c main_arg25 : (⟨2, ![128, 128]⟩ : Shape).Idx → EReal) := by
    funext k q'
    show V c main_arg25 (((cfg7.win 6).blk t).view.emb (ix2 k q')) = V c main_arg25 (ix2 k q')
    refine congrArg (V c main_arg25) (funext fun a => Fin.ext ?_)
    match a with
    | ⟨0, _⟩ => show win7_6.index t (0 : Fin 2) * 128 + 1 * k.val = k.val; omega
    | ⟨1, _⟩ => show win7_6.index t (1 : Fin 2) * 128 + 1 * q'.val = q'.val; omega
  have hm8 : matOf (iblk7 V c 8 t) = matOf (V c main_arg27 : (⟨2, ![128, 128]⟩ : Shape).Idx → EReal) := by
    funext k q'
    show V c main_arg27 (((cfg7.win 8).blk t).view.emb (ix2 k q')) = V c main_arg27 (ix2 k q')
    refine congrArg (V c main_arg27) (funext fun a => Fin.ext ?_)
    match a with
    | ⟨0, _⟩ => show win7_8.index t (0 : Fin 2) * 128 + 1 * k.val = k.val; omega
    | ⟨1, _⟩ => show win7_8.index t (1 : Fin 2) * 128 + 1 * q'.val = q'.val; omega
  have hv5 : vecOf (iblk7 V c 5 t) = vecOf (V c main_arg24 : (⟨2, ![1, 128]⟩ : Shape).Idx → EReal) := by
    funext q'
    show V c main_arg24 (((cfg7.win 5).blk t).view.emb (ix2 (0 : Fin 1) q')) = V c main_arg24 (ix2 (0 : Fin 1) q')
    refine congrArg (V c main_arg24) (funext fun a => Fin.ext ?_)
    match a with
    | ⟨0, _⟩ => show win7_5.index t (0 : Fin 2) * 1 + 1 * 0 = 0; omega
    | ⟨1, _⟩ => show win7_5.index t (1 : Fin 2) * 128 + 1 * q'.val = q'.val; omega
  have hv7 : vecOf (iblk7 V c 7 t) = vecOf (V c main_arg26 : (⟨2, ![1, 128]⟩ : Shape).Idx → EReal) := by
    funext q'
    show V c main_arg26 (((cfg7.win 7).blk t).view.emb (ix2 (0 : Fin 1) q')) = V c main_arg26 (ix2 (0 : Fin 1) q')
    refine congrArg (V c main_arg26) (funext fun a => Fin.ext ?_)
    match a with
    | ⟨0, _⟩ => show win7_7.index t (0 : Fin 2) * 1 + 1 * 0 = 0; omega
    | ⟨1, _⟩ => show win7_7.index t (1 : Fin 2) * 128 + 1 * q'.val = q'.val; omega
  have hv9 : vecOf (iblk7 V c 9 t) = vecOf (V c main_arg28 : (⟨2, ![1, 128]⟩ : Shape).Idx → EReal) := by
    funext q'
    show V c main_arg28 (((cfg7.win 9).blk t).view.emb (ix2 (0 : Fin 1) q')) = V c main_arg28 (ix2 (0 : Fin 1) q')
    refine congrArg (V c main_arg28) (funext fun a => Fin.ext ?_)
    match a with
    | ⟨0, _⟩ => show win7_9.index t (0 : Fin 2) * 1 + 1 * 0 = 0; omega
    | ⟨1, _⟩ => show win7_9.index t (1 : Fin 2) * 128 + 1 * q'.val = q'.val; omega
  rw [hr0, hr1, hr2, hm4, hm6, hm8, hv5, hv7, hv9]

/-- An index of the array is in point t's block iff each coordinate is in the block's range on its axis. -/
theorem mem_blk7_14 (t : Fin cfg7.N) (i : (⟨2, ![131072, 128]⟩ : Shape).Idx) :
    i ∈ ((cfg7.win 14).blk t).view.set ↔ ∀ a : Fin 2, win7_14.index t a * S256x128.size a ≤ (i a).val ∧ (i a).val < win7_14.index t a * S256x128.size a + S256x128.size a := by
  show i ∈ ((View.whole main_v40_2).slice (win7_14.rect t)).set ↔ _
  rw [View.set_slice_whole, Rect.mem_set_unit]
  exact Iff.rfl

/-- Every row lies in the block of the point row / 256. -/
theorem covered7_14 (i : (⟨2, ![131072, 128]⟩ : Shape).Idx) :
    ∃ t : Fin cfg7.N, (cfg7.win 14).flush t = true ∧ i ∈ ((cfg7.win 14).blk t).view.set := by
  have hi0 : (i 0).val < 131072 := (i 0).isLt
  have hi1 : (i 1).val < 128 := (i 1).isLt
  have hN : cfg7.N = 512 := N_7
  let t : Fin cfg7.N := ⟨(i 0).val / 256, by rw [hN]; omega⟩
  have ht : t.val = (i 0).val / 256 := rfl
  have e0 : win7_14.index t (0 : Fin 2) = t.val := (idx7 t).2.2.2.2.2.2.2.2.2.2.2.2.2.2.2.2.2.2.2.2.2.2.2.2.2.2.2.2.1
  have e1 : win7_14.index t (1 : Fin 2) = 0 := (idx7 t).2.2.2.2.2.2.2.2.2.2.2.2.2.2.2.2.2.2.2.2.2.2.2.2.2.2.2.2.2
  refine ⟨t, flush7_14 t, ?_⟩
  rw [mem_blk7_14]
  intro a
  match a with
  | ⟨0, _⟩ => show win7_14.index t (0 : Fin 2) * 256 ≤ (i 0).val ∧ (i 0).val < win7_14.index t (0 : Fin 2) * 256 + 256; omega
  | ⟨1, _⟩ => show win7_14.index t (1 : Fin 2) * 128 ≤ (i 1).val ∧ (i 1).val < win7_14.index t (1 : Fin 2) * 128 + 128; omega

/-- THE ARRAY of output window 14 after region 7, as a function of the region-entry arrays. -/
theorem fin7_14 (c : Dev nD) : (dat7 V c).arrAt 14 cfg7.N
    = sigArr (V c main_v37 : (⟨2, ![131072, 128]⟩ : Shape).Idx → EReal) (V c main_v38 : (⟨2, ![131072, 128]⟩ : Shape).Idx → EReal) (V c main_v8_0 : (⟨2, ![131072, 128]⟩ : Shape).Idx → EReal) (V c main_arg23) (V c main_arg25) (V c main_arg27) (V c main_arg24) (V c main_arg26) (V c main_arg28) :=
  (dat7 V c).arrAt_eq_of_cover 14 _ (fun t _ => flushed7_14_eq V c t) covered7_14

/-- What point t writes back to output window 13's array is block t of the closed form. -/
theorem flushed7_13_eq (c : Dev nD) (t : Fin cfg7.N) :
    (dat7 V c).flushed 13 t = ((cfg7.win 13).blk t).view.read (Elt Ideal)
      (msgArr (V c main_v37 : (⟨2, ![131072, 128]⟩ : Shape).Idx → EReal) (V c main_v38 : (⟨2, ![131072, 128]⟩ : Shape).Idx → EReal) (V c main_v8_0 : (⟨2, ![131072, 128]⟩ : Shape).Idx → EReal) (V c main_v39 : (⟨2, ![131072, 128]⟩ : Shape).Idx → EReal) (V c main_arg23) (V c main_arg25) (V c main_arg27) (V c main_arg24) (V c main_arg26) (V c main_arg28)) := by
  show (cfg7.win 13).cut (grid7.coords t) ((dat7 V c).after 13 t) = _
  rw [after7_13]
  obtain ⟨i0a, i0b, i1a, i1b, i2a, i2b, i3a, i3b, i4a, i4b, i5a, i5b, i6a, i6b, i7a, i7b, i8a, i8b, i9a, i9b, i10a, i10b, i11a, i11b, i12a, i12b, i13a, i13b, i14a, i14b⟩ := idx7 t
  have hN : cfg7.N = 512 := N_7
  have htl : t.val < 512 := lt_of_lt_of_eq t.isLt hN
  funext j
  obtain ⟨r, q, rfl⟩ : ∃ (r : Fin 256) (q : Fin 128), j = ix2 r q := ⟨j 0, j 1, eq_ix2 j⟩
  have hr := r.isLt
  have hc : ((grid7.coords t) 0).val < 512 := ((grid7.coords t) 0).isLt
  refine (out7_13_at (grid7.coords t) (iblk7 V c 0 t) (iblk7 V c 1 t) (iblk7 V c 2 t) (iblk7 V c 3 t) (iblk7 V c 4 t) (iblk7 V c 5 t) (iblk7 V c 6 t) (iblk7 V c 7 t) (iblk7 V c 8 t) (iblk7 V c 9 t) (iblk7 V c 10 t) (iblk7 V c 11 t) r q (mask_word _ _ 131072 (by omega) (by decide))).trans ?_
  have hemb : ((cfg7.win 13).blk t).view.emb (ix2 r q) = ix2 (⟨t.val * 256 + r.val, by omega⟩ : Fin 131072) q := by
    funext a; apply Fin.ext
    match a with
    | ⟨0, _⟩ => show win7_13.index t (0 : Fin 2) * 256 + 1 * r.val = t.val * 256 + r.val; omega
    | ⟨1, _⟩ => show win7_13.index t (1 : Fin 2) * 128 + 1 * q.val = q.val; omega
  show _ = (msgArr (V c main_v37 : (⟨2, ![131072, 128]⟩ : Shape).Idx → EReal) (V c main_v38 : (⟨2, ![131072, 128]⟩ : Shape).Idx → EReal) (V c main_v8_0 : (⟨2, ![131072, 128]⟩ : Shape).Idx → EReal) (V c main_v39 : (⟨2, ![131072, 128]⟩ : Shape).Idx → EReal) (V c main_arg23) (V c main_arg25) (V c main_arg27) (V c main_arg24) (V c main_arg26) (V c main_arg28)) (((cfg7.win 13).blk t).view.emb (ix2 r q))
  rw [hemb]
  show _ = Spec.gate (Spec.refEhat (rowOf (V c main_v37 : (⟨2, ![131072, 128]⟩ : Shape).Idx → EReal) (⟨t.val * 256 + r.val, by omega⟩ : Fin 131072)) (rowOf (V c main_v38 : (⟨2, ![131072, 128]⟩ : Shape).Idx → EReal) (⟨t.val * 256 + r.val, by omega⟩ : Fin 131072)) (rowOf (V c main_v8_0 : (⟨2, ![131072, 128]⟩ : Shape).Idx → EReal) (⟨t.val * 256 + r.val, by omega⟩ : Fin 131072)) (matOf (V c main_arg23)) (matOf (V c main_arg25)) (matOf (V c main_arg27)) (vecOf (V c main_arg24)) (vecOf (V c main_arg26)) (vecOf (V c main_arg28))) q * rowOf (V c main_v39 : (⟨2, ![131072, 128]⟩ : Shape).Idx → EReal) (⟨t.val * 256 + r.val, by omega⟩ : Fin 131072) q
  have hr0 : rowOf (n := 256) (iblk7 V c 0 t) r = rowOf (V c main_v37 : (⟨2, ![131072, 128]⟩ : Shape).Idx → EReal) (⟨t.val * 256 + r.val, by omega⟩ : Fin 131072) := by
    funext k
    show V c main_v37 (((cfg7.win 0).blk t).view.emb (ix2 r k)) = V c main_v37 (ix2 (⟨t.val * 256 + r.val, by omega⟩ : Fin 131072) k)
    refine congrArg (V c main_v37) (funext fun a => Fin.ext ?_)
    match a with
    | ⟨0, _⟩ => show win7_0.index t (0 : Fin 2) * 256 + 1 * r.val = t.val * 256 + r.val; omega
    | ⟨1, _⟩ => show win7_0.index t (1 : Fin 2) * 128 + 1 * k.val = k.val; omega
  have hr1 : rowOf (n := 256) (iblk7 V c 1 t) r = rowOf (V c main_v38 : (⟨2, ![131072, 128]⟩ : Shape).Idx → EReal) (⟨t.val * 256 + r.val, by omega⟩ : Fin 131072) := by
    funext k
    show V c main_v38 (((cfg7.win 1).blk t).view.emb (ix2 r k)) = V c main_v38 (ix2 (⟨t.val * 256 + r.val, by omega⟩ : Fin 131072) k)
    refine congrArg (V c main_v38) (funext fun a => Fin.ext ?_)
    match a with
    | ⟨0, _⟩ => show win7_1.index t (0 : Fin 2) * 256 + 1 * r.val = t.val * 256 + r.val; omega
    | ⟨1, _⟩ => show win7_1.index t (1 : Fin 2) * 128 + 1 * k.val = k.val; omega
  have hr2 : rowOf (n := 256) (iblk7 V c 2 t) r = rowOf (V c main_v8_0 : (⟨2, ![131072, 128]⟩ : Shape).Idx → EReal) (⟨t.val * 256 + r.val, by omega⟩ : Fin 131072) := by
    funext k
    show V c main_v8_0 (((cfg7.win 2).blk t).view.emb (ix2 r k)) = V c main_v8_0 (ix2 (⟨t.val * 256 + r.val, by omega⟩ : Fin 131072) k)
    refine congrArg (V c main_v8_0) (funext fun a => Fin.ext ?_)
    match a with
    | ⟨0, _⟩ => show win7_2.index t (0 : Fin 2) * 256 + 1 * r.val = t.val * 256 + r.val; omega
    | ⟨1, _⟩ => show win7_2.index t (1 : Fin 2) * 128 + 1 * k.val = k.val; omega
  have hr3 : rowOf (n := 256) (iblk7 V c 3 t) r = rowOf (V c main_v39 : (⟨2, ![131072, 128]⟩ : Shape).Idx → EReal) (⟨t.val * 256 + r.val, by omega⟩ : Fin 131072) := by
    funext k
    show V c main_v39 (((cfg7.win 3).blk t).view.emb (ix2 r k)) = V c main_v39 (ix2 (⟨t.val * 256 + r.val, by omega⟩ : Fin 131072) k)
    refine congrArg (V c main_v39) (funext fun a => Fin.ext ?_)
    match a with
    | ⟨0, _⟩ => show win7_3.index t (0 : Fin 2) * 256 + 1 * r.val = t.val * 256 + r.val; omega
    | ⟨1, _⟩ => show win7_3.index t (1 : Fin 2) * 128 + 1 * k.val = k.val; omega
  have hm4 : matOf (iblk7 V c 4 t) = matOf (V c main_arg23 : (⟨2, ![128, 128]⟩ : Shape).Idx → EReal) := by
    funext k q'
    show V c main_arg23 (((cfg7.win 4).blk t).view.emb (ix2 k q')) = V c main_arg23 (ix2 k q')
    refine congrArg (V c main_arg23) (funext fun a => Fin.ext ?_)
    match a with
    | ⟨0, _⟩ => show win7_4.index t (0 : Fin 2) * 128 + 1 * k.val = k.val; omega
    | ⟨1, _⟩ => show win7_4.index t (1 : Fin 2) * 128 + 1 * q'.val = q'.val; omega
  have hm6 : matOf (iblk7 V c 6 t) = matOf (V c main_arg25 : (⟨2, ![128, 128]⟩ : Shape).Idx → EReal) := by
    funext k q'
    show V c main_arg25 (((cfg7.win 6).blk t).view.emb (ix2 k q')) = V c main_arg25 (ix2 k q')
    refine congrArg (V c main_arg25) (funext fun a => Fin.ext ?_)
    match a with
    | ⟨0, _⟩ => show win7_6.index t (0 : Fin 2) * 128 + 1 * k.val = k.val; omega
    | ⟨1, _⟩ => show win7_6.index t (1 : Fin 2) * 128 + 1 * q'.val = q'.val; omega
  have hm8 : matOf (iblk7 V c 8 t) = matOf (V c main_arg27 : (⟨2, ![128, 128]⟩ : Shape).Idx → EReal) := by
    funext k q'
    show V c main_arg27 (((cfg7.win 8).blk t).view.emb (ix2 k q')) = V c main_arg27 (ix2 k q')
    refine congrArg (V c main_arg27) (funext fun a => Fin.ext ?_)
    match a with
    | ⟨0, _⟩ => show win7_8.index t (0 : Fin 2) * 128 + 1 * k.val = k.val; omega
    | ⟨1, _⟩ => show win7_8.index t (1 : Fin 2) * 128 + 1 * q'.val = q'.val; omega
  have hv5 : vecOf (iblk7 V c 5 t) = vecOf (V c main_arg24 : (⟨2, ![1, 128]⟩ : Shape).Idx → EReal) := by
    funext q'
    show V c main_arg24 (((cfg7.win 5).blk t).view.emb (ix2 (0 : Fin 1) q')) = V c main_arg24 (ix2 (0 : Fin 1) q')
    refine congrArg (V c main_arg24) (funext fun a => Fin.ext ?_)
    match a with
    | ⟨0, _⟩ => show win7_5.index t (0 : Fin 2) * 1 + 1 * 0 = 0; omega
    | ⟨1, _⟩ => show win7_5.index t (1 : Fin 2) * 128 + 1 * q'.val = q'.val; omega
  have hv7 : vecOf (iblk7 V c 7 t) = vecOf (V c main_arg26 : (⟨2, ![1, 128]⟩ : Shape).Idx → EReal) := by
    funext q'
    show V c main_arg26 (((cfg7.win 7).blk t).view.emb (ix2 (0 : Fin 1) q')) = V c main_arg26 (ix2 (0 : Fin 1) q')
    refine congrArg (V c main_arg26) (funext fun a => Fin.ext ?_)
    match a with
    | ⟨0, _⟩ => show win7_7.index t (0 : Fin 2) * 1 + 1 * 0 = 0; omega
    | ⟨1, _⟩ => show win7_7.index t (1 : Fin 2) * 128 + 1 * q'.val = q'.val; omega
  have hv9 : vecOf (iblk7 V c 9 t) = vecOf (V c main_arg28 : (⟨2, ![1, 128]⟩ : Shape).Idx → EReal) := by
    funext q'
    show V c main_arg28 (((cfg7.win 9).blk t).view.emb (ix2 (0 : Fin 1) q')) = V c main_arg28 (ix2 (0 : Fin 1) q')
    refine congrArg (V c main_arg28) (funext fun a => Fin.ext ?_)
    match a with
    | ⟨0, _⟩ => show win7_9.index t (0 : Fin 2) * 1 + 1 * 0 = 0; omega
    | ⟨1, _⟩ => show win7_9.index t (1 : Fin 2) * 128 + 1 * q'.val = q'.val; omega
  rw [hr0, hr1, hr2, hr3, hm4, hm6, hm8, hv5, hv7, hv9]

/-- An index of the array is in point t's block iff each coordinate is in the block's range on its axis. -/
theorem mem_blk7_13 (t : Fin cfg7.N) (i : (⟨2, ![131072, 128]⟩ : Shape).Idx) :
    i ∈ ((cfg7.win 13).blk t).view.set ↔ ∀ a : Fin 2, win7_13.index t a * S256x128.size a ≤ (i a).val ∧ (i a).val < win7_13.index t a * S256x128.size a + S256x128.size a := by
  show i ∈ ((View.whole main_v40_1).slice (win7_13.rect t)).set ↔ _
  rw [View.set_slice_whole, Rect.mem_set_unit]
  exact Iff.rfl

/-- Every row lies in the block of the point row / 256. -/
theorem covered7_13 (i : (⟨2, ![131072, 128]⟩ : Shape).Idx) :
    ∃ t : Fin cfg7.N, (cfg7.win 13).flush t = true ∧ i ∈ ((cfg7.win 13).blk t).view.set := by
  have hi0 : (i 0).val < 131072 := (i 0).isLt
  have hi1 : (i 1).val < 128 := (i 1).isLt
  have hN : cfg7.N = 512 := N_7
  let t : Fin cfg7.N := ⟨(i 0).val / 256, by rw [hN]; omega⟩
  have ht : t.val = (i 0).val / 256 := rfl
  have e0 : win7_13.index t (0 : Fin 2) = t.val := (idx7 t).2.2.2.2.2.2.2.2.2.2.2.2.2.2.2.2.2.2.2.2.2.2.2.2.2.2.1
  have e1 : win7_13.index t (1 : Fin 2) = 0 := (idx7 t).2.2.2.2.2.2.2.2.2.2.2.2.2.2.2.2.2.2.2.2.2.2.2.2.2.2.2.1
  refine ⟨t, flush7_13 t, ?_⟩
  rw [mem_blk7_13]
  intro a
  match a with
  | ⟨0, _⟩ => show win7_13.index t (0 : Fin 2) * 256 ≤ (i 0).val ∧ (i 0).val < win7_13.index t (0 : Fin 2) * 256 + 256; omega
  | ⟨1, _⟩ => show win7_13.index t (1 : Fin 2) * 128 ≤ (i 1).val ∧ (i 1).val < win7_13.index t (1 : Fin 2) * 128 + 128; omega

/-- THE ARRAY of output window 13 after region 7, as a function of the region-entry arrays. -/
theorem fin7_13 (c : Dev nD) : (dat7 V c).arrAt 13 cfg7.N
    = msgArr (V c main_v37 : (⟨2, ![131072, 128]⟩ : Shape).Idx → EReal) (V c main_v38 : (⟨2, ![131072, 128]⟩ : Shape).Idx → EReal) (V c main_v8_0 : (⟨2, ![131072, 128]⟩ : Shape).Idx → EReal) (V c main_v39 : (⟨2, ![131072, 128]⟩ : Shape).Idx → EReal) (V c main_arg23) (V c main_arg25) (V c main_arg27) (V c main_arg24) (V c main_arg26) (V c main_arg28) :=
  (dat7 V c).arrAt_eq_of_cover 13 _ (fun t _ => flushed7_13_eq V c t) covered7_13

end Cert.ReferenceIdeal.Val

end
-- ==== Proof.RV.Fin8.lean ====
/-
  Pallas_call 8 of the reference (a node update over 65536 rows), blocks read back into arrays: its output
  array ends holding x + silu (LN (hs + num / (den + ε))) row by row, of the input arrays as the region finds them.
-/
import proofs.«117664_g2000706958607885_pallasbulk_534_41_alg».proof.Proof.RV.ArrDefs
import proofs.«117664_g2000706958607885_pallasbulk_534_41_alg».proof.Proof.RV.PayB

set_option maxRecDepth 16384

noncomputable section

namespace Cert.ReferenceIdeal.Val

open Cert.ReferenceIdeal Cert.ReferenceIdeal.Gen Cert.ReferenceIdeal.GenP
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The index maps over the grid: a row-tiled window's block index is the grid point, a parameter row's is zero. -/
theorem idx8 : ∀ t : Fin cfg8.N, win8_0.index t (0 : Fin 2) = t.val ∧ win8_0.index t (1 : Fin 2) = 0
    ∧ win8_1.index t (0 : Fin 2) = t.val ∧ win8_1.index t (1 : Fin 2) = 0
    ∧ win8_2.index t (0 : Fin 2) = t.val ∧ win8_2.index t (1 : Fin 2) = 0
    ∧ win8_3.index t (0 : Fin 2) = t.val ∧ win8_3.index t (1 : Fin 2) = 0
    ∧ win8_4.index t (0 : Fin 2) = 0 ∧ win8_4.index t (1 : Fin 2) = 0
    ∧ win8_5.index t (0 : Fin 2) = 0 ∧ win8_5.index t (1 : Fin 2) = 0
    ∧ win8_6.index t (0 : Fin 2) = t.val ∧ win8_6.index t (1 : Fin 2) = 0 :=
  (by decide +kernel : ∀ t : Fin grid8.N, _)

/-- What the body leaves in the output window's buffer, at row r and lane q. -/
theorem out8_6_at (x0 x1 x2 x3 : Vec Ideal S256x128 .f32) (x4 x5 : Vec Ideal S1x128 .f32) (r : Fin 256) (q : Fin 128) :
    out8_6 x0 x1 x2 x3 x4 x5 (ix2 r q)
      = Spec.resid (rowOf x0 r) (Spec.nodeRow (rowOf x1 r) (rowOf x2 r) (rowOf x3 r)) (vecOf x4) (vecOf x5) q := by
  unfold out8_6
  rw [View.canon_unit_zero hz2]
  simp only [View.ld_unit_zero (S := S256x128) hz2, View.ld_unit_zero (S := S1x128) hz2]
  exact k8_pay1_at x2 x3 x1 x0 x4 x5 r q

/-- What grid point t writes back to the output array is block t of the closed form. -/
theorem flushed8_6_eq (c : Dev nD) (t : Fin cfg8.N) :
    (dat8 V c).flushed 6 t = ((cfg8.win 6).blk t).view.read (Elt Ideal)
      (updArr (V c main_v24_0 : (⟨2, ![65536, 128]⟩ : Shape).Idx → EReal) (V c main_v36_0 : (⟨2, ![65536, 128]⟩ : Shape).Idx → EReal) (V c main_v43 : (⟨2, ![65536, 128]⟩ : Shape).Idx → EReal) (V c main_v46 : (⟨2, ![65536, 128]⟩ : Shape).Idx → EReal) (V c main_arg29) (V c main_arg30)) := by
  show (cfg8.win 6).cut (grid8.coords t) ((dat8 V c).after 6 t) = _
  rw [after8_6]
  obtain ⟨i0a, i0b, i1a, i1b, i2a, i2b, i3a, i3b, i4a, i4b, i5a, i5b, i6a, i6b⟩ := idx8 t
  have hN : cfg8.N = 256 := N_8
  have htl : t.val < 256 := lt_of_lt_of_eq t.isLt hN
  funext j
  obtain ⟨r, q, rfl⟩ : ∃ (r : Fin 256) (q : Fin 128), j = ix2 r q := ⟨j 0, j 1, eq_ix2 j⟩
  have hr := r.isLt
  refine (out8_6_at (iblk8 V c 0 t) (iblk8 V c 1 t) (iblk8 V c 2 t) (iblk8 V c 3 t) (iblk8 V c 4 t) (iblk8 V c 5 t) r q).trans ?_
  have hemb : ((cfg8.win 6).blk t).view.emb (ix2 r q) = ix2 (⟨t.val * 256 + r.val, by omega⟩ : Fin 65536) q := by
    funext a; apply Fin.ext
    match a with
    | ⟨0, _⟩ => show win8_6.index t (0 : Fin 2) * 256 + 1 * r.val = t.val * 256 + r.val; omega
    | ⟨1, _⟩ => show win8_6.index t (1 : Fin 2) * 128 + 1 * q.val = q.val; omega
  show _ = (updArr (V c main_v24_0 : (⟨2, ![65536, 128]⟩ : Shape).Idx → EReal) (V c main_v36_0 : (⟨2, ![65536, 128]⟩ : Shape).Idx → EReal) (V c main_v43 : (⟨2, ![65536, 128]⟩ : Shape).Idx → EReal) (V c main_v46 : (⟨2, ![65536, 128]⟩ : Shape).Idx → EReal) (V c main_arg29) (V c main_arg30)) (((cfg8.win 6).blk t).view.emb (ix2 r q))
  rw [hemb]
  show _ = Spec.resid (rowOf (V c main_v24_0 : (⟨2, ![65536, 128]⟩ : Shape).Idx → EReal) (⟨t.val * 256 + r.val, by omega⟩ : Fin 65536)) (Spec.nodeRow (rowOf (V c main_v36_0 : (⟨2, ![65536, 128]⟩ : Shape).Idx → EReal) (⟨t.val * 256 + r.val, by omega⟩ : Fin 65536)) (rowOf (V c main_v43 : (⟨2, ![65536, 128]⟩ : Shape).Idx → EReal) (⟨t.val * 256 + r.val, by omega⟩ : Fin 65536)) (rowOf (V c main_v46 : (⟨2, ![65536, 128]⟩ : Shape).Idx → EReal) (⟨t.val * 256 + r.val, by omega⟩ : Fin 65536))) (vecOf (V c main_arg29)) (vecOf (V c main_arg30)) q
  have hr0 : rowOf (n := 256) (iblk8 V c 0 t) r = rowOf (V c main_v24_0 : (⟨2, ![65536, 128]⟩ : Shape).Idx → EReal) (⟨t.val * 256 + r.val, by omega⟩ : Fin 65536) := by
    funext k
    show V c main_v24_0 (((cfg8.win 0).blk t).view.emb (ix2 r k)) = V c main_v24_0 (ix2 (⟨t.val * 256 + r.val, by omega⟩ : Fin 65536) k)
    refine congrArg (V c main_v24_0) (funext fun a => Fin.ext ?_)
    match a with
    | ⟨0, _⟩ => show win8_0.index t (0 : Fin 2) * 256 + 1 * r.val = t.val * 256 + r.val; omega
    | ⟨1, _⟩ => show win8_0.index t (1 : Fin 2) * 128 + 1 * k.val = k.val; omega
  have hr1 : rowOf (n := 256) (iblk8 V c 1 t) r = rowOf (V c main_v36_0 : (⟨2, ![65536, 128]⟩ : Shape).Idx → EReal) (⟨t.val * 256 + r.val, by omega⟩ : Fin 65536) := by
    funext k
    show V c main_v36_0 (((cfg8.win 1).blk t).view.emb (ix2 r k)) = V c main_v36_0 (ix2 (⟨t.val * 256 + r.val, by omega⟩ : Fin 65536) k)
    refine congrArg (V c main_v36_0) (funext fun a => Fin.ext ?_)
    match a with
    | ⟨0, _⟩ => show win8_1.index t (0 : Fin 2) * 256 + 1 * r.val = t.val * 256 + r.val; omega
    | ⟨1, _⟩ => show win8_1.index t (1 : Fin 2) * 128 + 1 * k.val = k.val; omega
  have hr2 : rowOf (n := 256) (iblk8 V c 2 t) r = rowOf (V c main_v43 : (⟨2, ![65536, 128]⟩ : Shape).Idx → EReal) (⟨t.val * 256 + r.val, by omega⟩ : Fin 65536) := by
    funext k
    show V c main_v43 (((cfg8.win 2).blk t).view.emb (ix2 r k)) = V c main_v43 (ix2 (⟨t.val * 256 + r.val, by omega⟩ : Fin 65536) k)
    refine congrArg (V c main_v43) (funext fun a => Fin.ext ?_)
    match a with
    | ⟨0, _⟩ => show win8_2.index t (0 : Fin 2) * 256 + 1 * r.val = t.val * 256 + r.val; omega
    | ⟨1, _⟩ => show win8_2.index t (1 : Fin 2) * 128 + 1 * k.val = k.val; omega
  have hr3 : rowOf (n := 256) (iblk8 V c 3 t) r = rowOf (V c main_v46 : (⟨2, ![65536, 128]⟩ : Shape).Idx → EReal) (⟨t.val * 256 + r.val, by omega⟩ : Fin 65536) := by
    funext k
    show V c main_v46 (((cfg8.win 3).blk t).view.emb (ix2 r k)) = V c main_v46 (ix2 (⟨t.val * 256 + r.val, by omega⟩ : Fin 65536) k)
    refine congrArg (V c main_v46) (funext fun a => Fin.ext ?_)
    match a with
    | ⟨0, _⟩ => show win8_3.index t (0 : Fin 2) * 256 + 1 * r.val = t.val * 256 + r.val; omega
    | ⟨1, _⟩ => show win8_3.index t (1 : Fin 2) * 128 + 1 * k.val = k.val; omega
  have hv4 : vecOf (iblk8 V c 4 t) = vecOf (V c main_arg29 : (⟨2, ![1, 128]⟩ : Shape).Idx → EReal) := by
    funext q'
    show V c main_arg29 (((cfg8.win 4).blk t).view.emb (ix2 (0 : Fin 1) q')) = V c main_arg29 (ix2 (0 : Fin 1) q')
    refine congrArg (V c main_arg29) (funext fun a => Fin.ext ?_)
    match a with
    | ⟨0, _⟩ => show win8_4.index t (0 : Fin 2) * 1 + 1 * 0 = 0; omega
    | ⟨1, _⟩ => show win8_4.index t (1 : Fin 2) * 128 + 1 * q'.val = q'.val; omega
  have hv5 : vecOf (iblk8 V c 5 t) = vecOf (V c main_arg30 : (⟨2, ![1, 128]⟩ : Shape).Idx → EReal) := by
    funext q'
    show V c main_arg30 (((cfg8.win 5).blk t).view.emb (ix2 (0 : Fin 1) q')) = V c main_arg30 (ix2 (0 : Fin 1) q')
    refine congrArg (V c main_arg30) (funext fun a => Fin.ext ?_)
    match a with
    | ⟨0, _⟩ => show win8_5.index t (0 : Fin 2) * 1 + 1 * 0 = 0; omega
    | ⟨1, _⟩ => show win8_5.index t (1 : Fin 2) * 128 + 1 * q'.val = q'.val; omega
  rw [hr0, hr1, hr2, hr3, hv4, hv5]

/-- An index of the array is in point t's block iff each coordinate is in the block's range on its axis. -/
theorem mem_blk8_6 (t : Fin cfg8.N) (i : (⟨2, ![65536, 128]⟩ : Shape).Idx) :
    i ∈ ((cfg8.win 6).blk t).view.set ↔ ∀ a : Fin 2, win8_6.index t a * S256x128.size a ≤ (i a).val ∧ (i a).val < win8_6.index t a * S256x128.size a + S256x128.size a := by
  show i ∈ ((View.whole main_v47).slice (win8_6.rect t)).set ↔ _
  rw [View.set_slice_whole, Rect.mem_set_unit]
  exact Iff.rfl

/-- Every row lies in the block of the point row / 256. -/
theorem covered8_6 (i : (⟨2, ![65536, 128]⟩ : Shape).Idx) :
    ∃ t : Fin cfg8.N, (cfg8.win 6).flush t = true ∧ i ∈ ((cfg8.win 6).blk t).view.set := by
  have hi0 : (i 0).val < 65536 := (i 0).isLt
  have hi1 : (i 1).val < 128 := (i 1).isLt
  have hN : cfg8.N = 256 := N_8
  let t : Fin cfg8.N := ⟨(i 0).val / 256, by rw [hN]; omega⟩
  have ht : t.val = (i 0).val / 256 := rfl
  have e0 : win8_6.index t (0 : Fin 2) = t.val := (idx8 t).2.2.2.2.2.2.2.2.2.2.2.2.1
  have e1 : win8_6.index t (1 : Fin 2) = 0 := (idx8 t).2.2.2.2.2.2.2.2.2.2.2.2.2
  refine ⟨t, flush8_6 t, ?_⟩
  rw [mem_blk8_6]
  intro a
  match a with
  | ⟨0, _⟩ => show win8_6.index t (0 : Fin 2) * 256 ≤ (i 0).val ∧ (i 0).val < win8_6.index t (0 : Fin 2) * 256 + 256; omega
  | ⟨1, _⟩ => show win8_6.index t (1 : Fin 2) * 128 ≤ (i 1).val ∧ (i 1).val < win8_6.index t (1 : Fin 2) * 128 + 128; omega

/-- The output array after pallas_call 8, as a function of the region-entry arrays. -/
theorem fin8_6 (c : Dev nD) : (dat8 V c).arrAt 6 cfg8.N
    = updArr (V c main_v24_0 : (⟨2, ![65536, 128]⟩ : Shape).Idx → EReal) (V c main_v36_0 : (⟨2, ![65536, 128]⟩ : Shape).Idx → EReal) (V c main_v43 : (⟨2, ![65536, 128]⟩ : Shape).Idx → EReal) (V c main_v46 : (⟨2, ![65536, 128]⟩ : Shape).Idx → EReal) (V c main_arg29) (V c main_arg30) :=
  (dat8 V c).arrAt_eq_of_cover 6 _ (fun t _ => flushed8_6_eq V c t) covered8_6

end Cert.ReferenceIdeal.Val

end
-- ==== Proof.RV.Fin9.lean ====
/-
  Region 9 of the reference (the linear maps of the node rows), blocks read back into arrays: each of
  its two output arrays ends holding x·W + b row by row, x, W, b the region's input arrays as it finds them.
-/
import proofs.«117664_g2000706958607885_pallasbulk_534_41_alg».proof.Proof.RV.ArrDefs
import proofs.«117664_g2000706958607885_pallasbulk_534_41_alg».proof.Proof.RV.PayB

set_option maxRecDepth 16384

noncomputable section

namespace Cert.ReferenceIdeal.Val

open Cert.ReferenceIdeal Cert.ReferenceIdeal.Gen Cert.ReferenceIdeal.GenP
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The printed index maps over the grid: a row-tiled window's block index is the grid point, a parameter's is zero. -/
theorem idx9 : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = t.val ∧ win9_5.index t (1 : Fin 2) = 0
    ∧ win9_6.index t (0 : Fin 2) = t.val ∧ win9_6.index t (1 : Fin 2) = 0 :=
  (by decide +kernel : ∀ t : Fin grid9.N, _)

/-- What the body leaves in output window 5's buffer, at row r and lane q. -/
theorem out9_5_at (x0 : Vec Ideal S256x128 .f32) (x1 : Vec Ideal S128x128 .f32) (x2 : Vec Ideal S1x128 .f32)
    (x3 : Vec Ideal S128x128 .f32) (x4 : Vec Ideal S1x128 .f32) (r : Fin 256) (q : Fin 128) :
    out9_5 x0 x1 x2 x3 x4 (ix2 r q) = Spec.dot (rowOf x0 r) (matOf x1) q + vecOf x2 q := by
  unfold out9_5
  rw [View.canon_unit_zero hz2]
  simp only [View.ld_unit_zero (S := S256x128) hz2, View.ld_unit_zero (S := S128x128) hz2, View.ld_unit_zero (S := S1x128) hz2]
  exact k9_pay2_at x0 x1 x2 r q

/-- What point t writes back to output window 5's array is block t of the closed form. -/
theorem flushed9_5_eq (c : Dev nD) (t : Fin cfg9.N) :
    (dat9 V c).flushed 5 t = ((cfg9.win 5).blk t).view.read (Elt Ideal)
      (linArr (V c main_v31 : (⟨2, ![16384, 128]⟩ : Shape).Idx → EReal) (V c main_arg47) (V c main_arg48)) := by
  show (cfg9.win 5).cut (grid9.coords t) ((dat9 V c).after 5 t) = _
  rw [after9_5]
  obtain ⟨i0a, i0b, i1a, i1b, i2a, i2b, i3a, i3b, i4a, i4b, i5a, i5b, i6a, i6b⟩ := idx9 t
  have hN : cfg9.N = 64 := N_9
  have htl : t.val < 64 := lt_of_lt_of_eq t.isLt hN
  funext j
  obtain ⟨r, q, rfl⟩ : ∃ (r : Fin 256) (q : Fin 128), j = ix2 r q := ⟨j 0, j 1, eq_ix2 j⟩
  have hr := r.isLt
  refine (out9_5_at (iblk9 V c 0 t) (iblk9 V c 1 t) (iblk9 V c 2 t) (iblk9 V c 3 t) (iblk9 V c 4 t) r q).trans ?_
  have hemb : ((cfg9.win 5).blk t).view.emb (ix2 r q) = ix2 (⟨t.val * 256 + r.val, by omega⟩ : Fin 16384) q := by
    funext a; apply Fin.ext
    match a with
    | ⟨0, _⟩ => show win9_5.index t (0 : Fin 2) * 256 + 1 * r.val = t.val * 256 + r.val; omega
    | ⟨1, _⟩ => show win9_5.index t (1 : Fin 2) * 128 + 1 * q.val = q.val; omega
  show _ = linArr (V c main_v31 : (⟨2, ![16384, 128]⟩ : Shape).Idx → EReal) (V c main_arg47) (V c main_arg48) (((cfg9.win 5).blk t).view.emb (ix2 r q))
  rw [hemb]
  show _ = Spec.dot (rowOf (V c main_v31 : (⟨2, ![16384, 128]⟩ : Shape).Idx → EReal) (⟨t.val * 256 + r.val, by omega⟩ : Fin 16384)) (matOf (V c main_arg47)) q + vecOf (V c main_arg48) q
  have hr0 : rowOf (n := 256) (iblk9 V c 0 t) r = rowOf (V c main_v31 : (⟨2, ![16384, 128]⟩ : Shape).Idx → EReal) (⟨t.val * 256 + r.val, by omega⟩ : Fin 16384) := by
    funext k
    show V c main_v31 (((cfg9.win 0).blk t).view.emb (ix2 r k)) = V c main_v31 (ix2 (⟨t.val * 256 + r.val, by omega⟩ : Fin 16384) k)
    refine congrArg (V c main_v31) (funext fun a => Fin.ext ?_)
    match a with
    | ⟨0, _⟩ => show win9_0.index t (0 : Fin 2) * 256 + 1 * r.val = t.val * 256 + r.val; omega
    | ⟨1, _⟩ => show win9_0.index t (1 : Fin 2) * 128 + 1 * k.val = k.val; omega
  have hm1 : matOf (iblk9 V c 1 t) = matOf (V c main_arg47 : (⟨2, ![128, 128]⟩ : Shape).Idx → EReal) := by
    funext k q'
    show V c main_arg47 (((cfg9.win 1).blk t).view.emb (ix2 k q')) = V c main_arg47 (ix2 k q')
    refine congrArg (V c main_arg47) (funext fun a => Fin.ext ?_)
    match a with
    | ⟨0, _⟩ => show win9_1.index t (0 : Fin 2) * 128 + 1 * k.val = k.val; omega
    | ⟨1, _⟩ => show win9_1.index t (1 : Fin 2) * 128 + 1 * q'.val = q'.val; omega
  have hv2 : vecOf (iblk9 V c 2 t) = vecOf (V c main_arg48 : (⟨2, ![1, 128]⟩ : Shape).Idx → EReal) := by
    funext q'
    show V c main_arg48 (((cfg9.win 2).blk t).view.emb (ix2 (0 : Fin 1) q')) = V c main_arg48 (ix2 (0 : Fin 1) q')
    refine congrArg (V c main_arg48) (funext fun a => Fin.ext ?_)
    match a with
    | ⟨0, _⟩ => show win9_2.index t (0 : Fin 2) * 1 + 1 * 0 = 0; omega
    | ⟨1, _⟩ => show win9_2.index t (1 : Fin 2) * 128 + 1 * q'.val = q'.val; omega
  rw [hr0, hm1, hv2]

/-- An index of the array is in point t's block iff each coordinate is in the block's range on its axis. -/
theorem mem_blk9_5 (t : Fin cfg9.N) (i : (⟨2, ![16384, 128]⟩ : Shape).Idx) :
    i ∈ ((cfg9.win 5).blk t).view.set ↔ ∀ a : Fin 2, win9_5.index t a * S256x128.size a ≤ (i a).val ∧ (i a).val < win9_5.index t a * S256x128.size a + S256x128.size a := by
  show i ∈ ((View.whole main_v52_0).slice (win9_5.rect t)).set ↔ _
  rw [View.set_slice_whole, Rect.mem_set_unit]
  exact Iff.rfl

/-- Every row lies in the block of the point row / 256. -/
theorem covered9_5 (i : (⟨2, ![16384, 128]⟩ : Shape).Idx) :
    ∃ t : Fin cfg9.N, (cfg9.win 5).flush t = true ∧ i ∈ ((cfg9.win 5).blk t).view.set := by
  have hi0 : (i 0).val < 16384 := (i 0).isLt
  have hi1 : (i 1).val < 128 := (i 1).isLt
  have hN : cfg9.N = 64 := N_9
  let t : Fin cfg9.N := ⟨(i 0).val / 256, by rw [hN]; omega⟩
  have ht : t.val = (i 0).val / 256 := rfl
  have e0 : win9_5.index t (0 : Fin 2) = t.val := (idx9 t).2.2.2.2.2.2.2.2.2.2.1
  have e1 : win9_5.index t (1 : Fin 2) = 0 := (idx9 t).2.2.2.2.2.2.2.2.2.2.2.1
  refine ⟨t, flush9_5 t, ?_⟩
  rw [mem_blk9_5]
  intro a
  match a with
  | ⟨0, _⟩ => show win9_5.index t (0 : Fin 2) * 256 ≤ (i 0).val ∧ (i 0).val < win9_5.index t (0 : Fin 2) * 256 + 256; omega
  | ⟨1, _⟩ => show win9_5.index t (1 : Fin 2) * 128 ≤ (i 1).val ∧ (i 1).val < win9_5.index t (1 : Fin 2) * 128 + 128; omega

/-- THE ARRAY of output window 5 after region 9: x·W + b row by row, of the region-entry arrays. -/
theorem fin9_5 (c : Dev nD) : (dat9 V c).arrAt 5 cfg9.N
    = linArr (V c main_v31 : (⟨2, ![16384, 128]⟩ : Shape).Idx → EReal) (V c main_arg47) (V c main_arg48) :=
  (dat9 V c).arrAt_eq_of_cover 5 _ (fun t _ => flushed9_5_eq V c t) covered9_5

/-- What the body leaves in output window 6's buffer, at row r and lane q. -/
theorem out9_6_at (x0 : Vec Ideal S256x128 .f32) (x1 : Vec Ideal S128x128 .f32) (x2 : Vec Ideal S1x128 .f32)
    (x3 : Vec Ideal S128x128 .f32) (x4 : Vec Ideal S1x128 .f32) (r : Fin 256) (q : Fin 128) :
    out9_6 x0 x1 x2 x3 x4 (ix2 r q) = Spec.dot (rowOf x0 r) (matOf x3) q + vecOf x4 q := by
  unfold out9_6
  rw [View.canon_unit_zero hz2]
  simp only [View.ld_unit_zero (S := S256x128) hz2, View.ld_unit_zero (S := S128x128) hz2, View.ld_unit_zero (S := S1x128) hz2]
  exact k9_pay3_at x0 x3 x4 r q

/-- What point t writes back to output window 6's array is block t of the closed form. -/
theorem flushed9_6_eq (c : Dev nD) (t : Fin cfg9.N) :
    (dat9 V c).flushed 6 t = ((cfg9.win 6).blk t).view.read (Elt Ideal)
      (linArr (V c main_v31 : (⟨2, ![16384, 128]⟩ : Shape).Idx → EReal) (V c main_arg49) (V c main_arg50)) := by
  show (cfg9.win 6).cut (grid9.coords t) ((dat9 V c).after 6 t) = _
  rw [after9_6]
  obtain ⟨i0a, i0b, i1a, i1b, i2a, i2b, i3a, i3b, i4a, i4b, i5a, i5b, i6a, i6b⟩ := idx9 t
  have hN : cfg9.N = 64 := N_9
  have htl : t.val < 64 := lt_of_lt_of_eq t.isLt hN
  funext j
  obtain ⟨r, q, rfl⟩ : ∃ (r : Fin 256) (q : Fin 128), j = ix2 r q := ⟨j 0, j 1, eq_ix2 j⟩
  have hr := r.isLt
  refine (out9_6_at (iblk9 V c 0 t) (iblk9 V c 1 t) (iblk9 V c 2 t) (iblk9 V c 3 t) (iblk9 V c 4 t) r q).trans ?_
  have hemb : ((cfg9.win 6).blk t).view.emb (ix2 r q) = ix2 (⟨t.val * 256 + r.val, by omega⟩ : Fin 16384) q := by
    funext a; apply Fin.ext
    match a with
    | ⟨0, _⟩ => show win9_6.index t (0 : Fin 2) * 256 + 1 * r.val = t.val * 256 + r.val; omega
    | ⟨1, _⟩ => show win9_6.index t (1 : Fin 2) * 128 + 1 * q.val = q.val; omega
  show _ = linArr (V c main_v31 : (⟨2, ![16384, 128]⟩ : Shape).Idx → EReal) (V c main_arg49) (V c main_arg50) (((cfg9.win 6).blk t).view.emb (ix2 r q))
  rw [hemb]
  show _ = Spec.dot (rowOf (V c main_v31 : (⟨2, ![16384, 128]⟩ : Shape).Idx → EReal) (⟨t.val * 256 + r.val, by omega⟩ : Fin 16384)) (matOf (V c main_arg49)) q + vecOf (V c main_arg50) q
  have hr0 : rowOf (n := 256) (iblk9 V c 0 t) r = rowOf (V c main_v31 : (⟨2, ![16384, 128]⟩ : Shape).Idx → EReal) (⟨t.val * 256 + r.val, by omega⟩ : Fin 16384) := by
    funext k
    show V c main_v31 (((cfg9.win 0).blk t).view.emb (ix2 r k)) = V c main_v31 (ix2 (⟨t.val * 256 + r.val, by omega⟩ : Fin 16384) k)
    refine congrArg (V c main_v31) (funext fun a => Fin.ext ?_)
    match a with
    | ⟨0, _⟩ => show win9_0.index t (0 : Fin 2) * 256 + 1 * r.val = t.val * 256 + r.val; omega
    | ⟨1, _⟩ => show win9_0.index t (1 : Fin 2) * 128 + 1 * k.val = k.val; omega
  have hm3 : matOf (iblk9 V c 3 t) = matOf (V c main_arg49 : (⟨2, ![128, 128]⟩ : Shape).Idx → EReal) := by
    funext k q'
    show V c main_arg49 (((cfg9.win 3).blk t).view.emb (ix2 k q')) = V c main_arg49 (ix2 k q')
    refine congrArg (V c main_arg49) (funext fun a => Fin.ext ?_)
    match a with
    | ⟨0, _⟩ => show win9_3.index t (0 : Fin 2) * 128 + 1 * k.val = k.val; omega
    | ⟨1, _⟩ => show win9_3.index t (1 : Fin 2) * 128 + 1 * q'.val = q'.val; omega
  have hv4 : vecOf (iblk9 V c 4 t) = vecOf (V c main_arg50 : (⟨2, ![1, 128]⟩ : Shape).Idx → EReal) := by
    funext q'
    show V c main_arg50 (((cfg9.win 4).blk t).view.emb (ix2 (0 : Fin 1) q')) = V c main_arg50 (ix2 (0 : Fin 1) q')
    refine congrArg (V c main_arg50) (funext fun a => Fin.ext ?_)
    match a with
    | ⟨0, _⟩ => show win9_4.index t (0 : Fin 2) * 1 + 1 * 0 = 0; omega
    | ⟨1, _⟩ => show win9_4.index t (1 : Fin 2) * 128 + 1 * q'.val = q'.val; omega
  rw [hr0, hm3, hv4]

/-- An index of the array is in point t's block iff each coordinate is in the block's range on its axis. -/
theorem mem_blk9_6 (t : Fin cfg9.N) (i : (⟨2, ![16384, 128]⟩ : Shape).Idx) :
    i ∈ ((cfg9.win 6).blk t).view.set ↔ ∀ a : Fin 2, win9_6.index t a * S256x128.size a ≤ (i a).val ∧ (i a).val < win9_6.index t a * S256x128.size a + S256x128.size a := by
  show i ∈ ((View.whole main_v52_1).slice (win9_6.rect t)).set ↔ _
  rw [View.set_slice_whole, Rect.mem_set_unit]
  exact Iff.rfl

/-- Every row lies in the block of the point row / 256. -/
theorem covered9_6 (i : (⟨2, ![16384, 128]⟩ : Shape).Idx) :
    ∃ t : Fin cfg9.N, (cfg9.win 6).flush t = true ∧ i ∈ ((cfg9.win 6).blk t).view.set := by
  have hi0 : (i 0).val < 16384 := (i 0).isLt
  have hi1 : (i 1).val < 128 := (i 1).isLt
  have hN : cfg9.N = 64 := N_9
  let t : Fin cfg9.N := ⟨(i 0).val / 256, by rw [hN]; omega⟩
  have ht : t.val = (i 0).val / 256 := rfl
  have e0 : win9_6.index t (0 : Fin 2) = t.val := (idx9 t).2.2.2.2.2.2.2.2.2.2.2.2.1
  have e1 : win9_6.index t (1 : Fin 2) = 0 := (idx9 t).2.2.2.2.2.2.2.2.2.2.2.2.2
  refine ⟨t, flush9_6 t, ?_⟩
  rw [mem_blk9_6]
  intro a
  match a with
  | ⟨0, _⟩ => show win9_6.index t (0 : Fin 2) * 256 ≤ (i 0).val ∧ (i 0).val < win9_6.index t (0 : Fin 2) * 256 + 256; omega
  | ⟨1, _⟩ => show win9_6.index t (1 : Fin 2) * 128 ≤ (i 1).val ∧ (i 1).val < win9_6.index t (1 : Fin 2) * 128 + 128; omega

/-- THE ARRAY of output window 6 after region 9: x·W + b row by row, of the region-entry arrays. -/
theorem fin9_6 (c : Dev nD) : (dat9 V c).arrAt 6 cfg9.N
    = linArr (V c main_v31 : (⟨2, ![16384, 128]⟩ : Shape).Idx → EReal) (V c main_arg49) (V c main_arg50) :=
  (dat9 V c).arrAt_eq_of_cover 6 _ (fun t _ => flushed9_6_eq V c t) covered9_6

end Cert.ReferenceIdeal.Val

end
-- ==== Proof.RV.Fin10.lean ====
/-
  Region 10 of the reference (the edge kernel), blocks read back into arrays: its three output arrays end
  holding the updated edge rows, the gated messages and the gates, as functions of the region's input arrays
  as it finds them. The validity mask is 1 on every row: 65536 rows are 256 tiles of 256.
-/
import proofs.«117664_g2000706958607885_pallasbulk_534_41_alg».proof.Proof.RV.ArrDefs
import proofs.«117664_g2000706958607885_pallasbulk_534_41_alg».proof.Proof.RV.PayB

set_option maxRecDepth 16384

noncomputable section

namespace Cert.ReferenceIdeal.Val

open Cert.ReferenceIdeal Cert.ReferenceIdeal.Gen Cert.ReferenceIdeal.GenP
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The printed index maps over the grid: a row-tiled window's block index is the grid point, a parameter's is zero. -/
theorem idx10 : ∀ t : Fin cfg10.N, win10_0.index t (0 : Fin 2) = t.val ∧ win10_0.index t (1 : Fin 2) = 0
    ∧ win10_1.index t (0 : Fin 2) = t.val ∧ win10_1.index t (1 : Fin 2) = 0
    ∧ win10_2.index t (0 : Fin 2) = t.val ∧ win10_2.index t (1 : Fin 2) = 0
    ∧ win10_3.index t (0 : Fin 2) = t.val ∧ win10_3.index t (1 : Fin 2) = 0
    ∧ win10_4.index t (0 : Fin 2) = 0 ∧ win10_4.index t (1 : Fin 2) = 0
    ∧ win10_5.index t (0 : Fin 2) = 0 ∧ win10_5.index t (1 : Fin 2) = 0
    ∧ win10_6.index t (0 : Fin 2) = 0 ∧ win10_6.index t (1 : Fin 2) = 0
    ∧ win10_7.index t (0 : Fin 2) = 0 ∧ win10_7.index t (1 : Fin 2) = 0
    ∧ win10_8.index t (0 : Fin 2) = 0 ∧ win10_8.index t (1 : Fin 2) = 0
    ∧ win10_9.index t (0 : Fin 2) = 0 ∧ win10_9.index t (1 : Fin 2) = 0
    ∧ win10_10.index t (0 : Fin 2) = 0 ∧ win10_10.index t (1 : Fin 2) = 0
    ∧ win10_11.index t (0 : Fin 2) = 0 ∧ win10_11.index t (1 : Fin 2) = 0
    ∧ win10_12.index t (0 : Fin 2) = t.val ∧ win10_12.index t (1 : Fin 2) = 0
    ∧ win10_13.index t (0 : Fin 2) = t.val ∧ win10_13.index t (1 : Fin 2) = 0
    ∧ win10_14.index t (0 : Fin 2) = t.val ∧ win10_14.index t (1 : Fin 2) = 0 :=
  (by decide +kernel : ∀ t : Fin grid10.N, _)

/-- What the body leaves in output window 12's buffer, at row r and lane q: the updated edge row. -/
theorem out10_12_at (x0 x1 x2 x3 : Vec Ideal S256x128 .f32) (x4 : Vec Ideal S128x128 .f32) (x5 : Vec Ideal S1x128 .f32) (x6 : Vec Ideal S128x128 .f32) (x7 : Vec Ideal S1x128 .f32) (x8 : Vec Ideal S128x128 .f32) (x9 : Vec Ideal S1x128 .f32) (x10 x11 : Vec Ideal S1x128 .f32) (r : Fin 256) (q : Fin 128) :
    out10_12 x0 x1 x2 x3 x4 x5 x6 x7 x8 x9 x10 x11 (ix2 r q) = Spec.resid (rowOf x2 r) (Spec.refEhat (rowOf x0 r) (rowOf x1 r) (rowOf x2 r) (matOf x4) (matOf x6) (matOf x8) (vecOf x5) (vecOf x7) (vecOf x9)) (vecOf x10) (vecOf x11) q := by
  unfold out10_12
  rw [View.canon_unit_zero hz2]
  simp only [View.ld_unit_zero (S := S256x128) hz2, View.ld_unit_zero (S := S128x128) hz2, View.ld_unit_zero (S := S1x128) hz2]
  exact k10_enew_at x0 x4 x5 x1 x6 x7 x2 x8 x9 x10 x11 r q

/-- Output window 14: the gate. -/
theorem out10_14_at (i : grid10.Coords) (x0 x1 x2 x3 : Vec Ideal S256x128 .f32) (x4 : Vec Ideal S128x128 .f32) (x5 : Vec Ideal S1x128 .f32) (x6 : Vec Ideal S128x128 .f32) (x7 : Vec Ideal S1x128 .f32) (x8 : Vec Ideal S128x128 .f32) (x9 : Vec Ideal S1x128 .f32) (x10 x11 : Vec Ideal S1x128 .f32) (r : Fin 256) (q : Fin 128)
    (hm : IntOp.cmpi .slt (IntOp.addi (Scalar.muli (BitVec.ofNat 32 (i 0).val) 256#32) (BitVec.ofNat 32 r.val)) 65536#32 = 1#1) :
    out10_14 i x0 x1 x2 x3 x4 x5 x6 x7 x8 x9 x10 x11 (ix2 r q) = Spec.gate (Spec.refEhat (rowOf x0 r) (rowOf x1 r) (rowOf x2 r) (matOf x4) (matOf x6) (matOf x8) (vecOf x5) (vecOf x7) (vecOf x9)) q := by
  unfold out10_14
  rw [View.canon_unit_zero hz2]
  simp only [View.ld_unit_zero (S := S256x128) hz2, View.ld_unit_zero (S := S128x128) hz2, View.ld_unit_zero (S := S1x128) hz2]
  exact (k10_pay2_at _ (k10_pay4 (F := Ideal) x0 x4 x5 x1 x6 x7 x2 x8 x9) r q hm).trans
    (congrArg (fun v => Spec.gate v q) (k10_pay4_row x0 x4 x5 x1 x6 x7 x2 x8 x9 r))

/-- Output window 13: the gated message. -/
theorem out10_13_at (i : grid10.Coords) (x0 x1 x2 x3 : Vec Ideal S256x128 .f32) (x4 : Vec Ideal S128x128 .f32) (x5 : Vec Ideal S1x128 .f32) (x6 : Vec Ideal S128x128 .f32) (x7 : Vec Ideal S1x128 .f32) (x8 : Vec Ideal S128x128 .f32) (x9 : Vec Ideal S1x128 .f32) (x10 x11 : Vec Ideal S1x128 .f32) (r : Fin 256) (q : Fin 128)
    (hm : IntOp.cmpi .slt (IntOp.addi (Scalar.muli (BitVec.ofNat 32 (i 0).val) 256#32) (BitVec.ofNat 32 r.val)) 65536#32 = 1#1) :
    out10_13 i x0 x1 x2 x3 x4 x5 x6 x7 x8 x9 x10 x11 (ix2 r q) = Spec.gate (Spec.refEhat (rowOf x0 r) (rowOf x1 r) (rowOf x2 r) (matOf x4) (matOf x6) (matOf x8) (vecOf x5) (vecOf x7) (vecOf x9)) q * rowOf x3 r q := by
  unfold out10_13
  rw [View.canon_unit_zero hz2]
  simp only [View.ld_unit_zero (S := S256x128) hz2, View.ld_unit_zero (S := S128x128) hz2, View.ld_unit_zero (S := S1x128) hz2]
  exact (k10_pay3_at _ (k10_pay4 (F := Ideal) x0 x4 x5 x1 x6 x7 x2 x8 x9) x3 r q hm).trans
    (congrArg (fun v => Spec.gate v q * x3 (ix2 r q)) (k10_pay4_row x0 x4 x5 x1 x6 x7 x2 x8 x9 r))

/-- What point t writes back to output window 12's array is block t of the closed form. -/
theorem flushed10_12_eq (c : Dev nD) (t : Fin cfg10.N) :
    (dat10 V c).flushed 12 t = ((cfg10.win 12).blk t).view.read (Elt Ideal)
      (eNewArr (V c main_v53 : (⟨2, ![65536, 128]⟩ : Shape).Idx → EReal) (V c main_v54 : (⟨2, ![65536, 128]⟩ : Shape).Idx → EReal) (V c main_v47 : (⟨2, ![65536, 128]⟩ : Shape).Idx → EReal) (V c main_arg51) (V c main_arg53) (V c main_arg55) (V c main_arg52) (V c main_arg54) (V c main_arg56) (V c main_arg59) (V c main_arg60)) := by
  show (cfg10.win 12).cut (grid10.coords t) ((dat10 V c).after 12 t) = _
  rw [after10_12]
  obtain ⟨i0a, i0b, i1a, i1b, i2a, i2b, i3a, i3b, i4a, i4b, i5a, i5b, i6a, i6b, i7a, i7b, i8a, i8b, i9a, i9b, i10a, i10b, i11a, i11b, i12a, i12b, i13a, i13b, i14a, i14b⟩ := idx10 t
  have hN : cfg10.N = 256 := N_10
  have htl : t.val < 256 := lt_of_lt_of_eq t.isLt hN
  funext j
  obtain ⟨r, q, rfl⟩ : ∃ (r : Fin 256) (q : Fin 128), j = ix2 r q := ⟨j 0, j 1, eq_ix2 j⟩
  have hr := r.isLt
  refine (out10_12_at (iblk10 V c 0 t) (iblk10 V c 1 t) (iblk10 V c 2 t) (iblk10 V c 3 t) (iblk10 V c 4 t) (iblk10 V c 5 t) (iblk10 V c 6 t) (iblk10 V c 7 t) (iblk10 V c 8 t) (iblk10 V c 9 t) (iblk10 V c 10 t) (iblk10 V c 11 t) r q).trans ?_
  have hemb : ((cfg10.win 12).blk t).view.emb (ix2 r q) = ix2 (⟨t.val * 256 + r.val, by omega⟩ : Fin 65536) q := by
    funext a; apply Fin.ext
    match a with
    | ⟨0, _⟩ => show win10_12.index t (0 : Fin 2) * 256 + 1 * r.val = t.val * 256 + r.val; omega
    | ⟨1, _⟩ => show win10_12.index t (1 : Fin 2) * 128 + 1 * q.val = q.val; omega
  show _ = (eNewArr (V c main_v53 : (⟨2, ![65536, 128]⟩ : Shape).Idx → EReal) (V c main_v54 : (⟨2, ![65536, 128]⟩ : Shape).Idx → EReal) (V c main_v47 : (⟨2, ![65536, 128]⟩ : Shape).Idx → EReal) (V c main_arg51) (V c main_arg53) (V c main_arg55) (V c main_arg52) (V c main_arg54) (V c main_arg56) (V c main_arg59) (V c main_arg60)) (((cfg10.win 12).blk t).view.emb (ix2 r q))
  rw [hemb]
  show _ = Spec.resid (rowOf (V c main_v47 : (⟨2, ![65536, 128]⟩ : Shape).Idx → EReal) (⟨t.val * 256 + r.val, by omega⟩ : Fin 65536)) (Spec.refEhat (rowOf (V c main_v53 : (⟨2, ![65536, 128]⟩ : Shape).Idx → EReal) (⟨t.val * 256 + r.val, by omega⟩ : Fin 65536)) (rowOf (V c main_v54 : (⟨2, ![65536, 128]⟩ : Shape).Idx → EReal) (⟨t.val * 256 + r.val, by omega⟩ : Fin 65536)) (rowOf (V c main_v47 : (⟨2, ![65536, 128]⟩ : Shape).Idx → EReal) (⟨t.val * 256 + r.val, by omega⟩ : Fin 65536)) (matOf (V c main_arg51)) (matOf (V c main_arg53)) (matOf (V c main_arg55)) (vecOf (V c main_arg52)) (vecOf (V c main_arg54)) (vecOf (V c main_arg56))) (vecOf (V c main_arg59)) (vecOf (V c main_arg60)) q
  have hr0 : rowOf (n := 256) (iblk10 V c 0 t) r = rowOf (V c main_v53 : (⟨2, ![65536, 128]⟩ : Shape).Idx → EReal) (⟨t.val * 256 + r.val, by omega⟩ : Fin 65536) := by
    funext k
    show V c main_v53 (((cfg10.win 0).blk t).view.emb (ix2 r k)) = V c main_v53 (ix2 (⟨t.val * 256 + r.val, by omega⟩ : Fin 65536) k)
    refine congrArg (V c main_v53) (funext fun a => Fin.ext ?_)
    match a with
    | ⟨0, _⟩ => show win10_0.index t (0 : Fin 2) * 256 + 1 * r.val = t.val * 256 + r.val; omega
    | ⟨1, _⟩ => show win10_0.index t (1 : Fin 2) * 128 + 1 * k.val = k.val; omega
  have hr1 : rowOf (n := 256) (iblk10 V c 1 t) r = rowOf (V c main_v54 : (⟨2, ![65536, 128]⟩ : Shape).Idx → EReal) (⟨t.val * 256 + r.val, by omega⟩ : Fin 65536) := by
    funext k
    show V c main_v54 (((cfg10.win 1).blk t).view.emb (ix2 r k)) = V c main_v54 (ix2 (⟨t.val * 256 + r.val, by omega⟩ : Fin 65536) k)
    refine congrArg (V c main_v54) (funext fun a => Fin.ext ?_)
    match a with
    | ⟨0, _⟩ => show win10_1.index t (0 : Fin 2) * 256 + 1 * r.val = t.val * 256 + r.val; omega
    | ⟨1, _⟩ => show win10_1.index t (1 : Fin 2) * 128 + 1 * k.val = k.val; omega
  have hr2 : rowOf (n := 256) (iblk10 V c 2 t) r = rowOf (V c main_v47 : (⟨2, ![65536, 128]⟩ : Shape).Idx → EReal) (⟨t.val * 256 + r.val, by omega⟩ : Fin 65536) := by
    funext k
    show V c main_v47 (((cfg10.win 2).blk t).view.emb (ix2 r k)) = V c main_v47 (ix2 (⟨t.val * 256 + r.val, by omega⟩ : Fin 65536) k)
    refine congrArg (V c main_v47) (funext fun a => Fin.ext ?_)
    match a with
    | ⟨0, _⟩ => show win10_2.index t (0 : Fin 2) * 256 + 1 * r.val = t.val * 256 + r.val; omega
    | ⟨1, _⟩ => show win10_2.index t (1 : Fin 2) * 128 + 1 * k.val = k.val; omega
  have hm4 : matOf (iblk10 V c 4 t) = matOf (V c main_arg51 : (⟨2, ![128, 128]⟩ : Shape).Idx → EReal) := by
    funext k q'
    show V c main_arg51 (((cfg10.win 4).blk t).view.emb (ix2 k q')) = V c main_arg51 (ix2 k q')
    refine congrArg (V c main_arg51) (funext fun a => Fin.ext ?_)
    match a with
    | ⟨0, _⟩ => show win10_4.index t (0 : Fin 2) * 128 + 1 * k.val = k.val; omega
    | ⟨1, _⟩ => show win10_4.index t (1 : Fin 2) * 128 + 1 * q'.val = q'.val; omega
  have hm6 : matOf (iblk10 V c 6 t) = matOf (V c main_arg53 : (⟨2, ![128, 128]⟩ : Shape).Idx → EReal) := by
    funext k q'
    show V c main_arg53 (((cfg10.win 6).blk t).view.emb (ix2 k q')) = V c main_arg53 (ix2 k q')
    refine congrArg (V c main_arg53) (funext fun a => Fin.ext ?_)
    match a with
    | ⟨0, _⟩ => show win10_6.index t (0 : Fin 2) * 128 + 1 * k.val = k.val; omega
    | ⟨1, _⟩ => show win10_6.index t (1 : Fin 2) * 128 + 1 * q'.val = q'.val; omega
  have hm8 : matOf (iblk10 V c 8 t) = matOf (V c main_arg55 : (⟨2, ![128, 128]⟩ : Shape).Idx → EReal) := by
    funext k q'
    show V c main_arg55 (((cfg10.win 8).blk t).view.emb (ix2 k q')) = V c main_arg55 (ix2 k q')
    refine congrArg (V c main_arg55) (funext fun a => Fin.ext ?_)
    match a with
    | ⟨0, _⟩ => show win10_8.index t (0 : Fin 2) * 128 + 1 * k.val = k.val; omega
    | ⟨1, _⟩ => show win10_8.index t (1 : Fin 2) * 128 + 1 * q'.val = q'.val; omega
  have hv5 : vecOf (iblk10 V c 5 t) = vecOf (V c main_arg52 : (⟨2, ![1, 128]⟩ : Shape).Idx → EReal) := by
    funext q'
    show V c main_arg52 (((cfg10.win 5).blk t).view.emb (ix2 (0 : Fin 1) q')) = V c main_arg52 (ix2 (0 : Fin 1) q')
    refine congrArg (V c main_arg52) (funext fun a => Fin.ext ?_)
    match a with
    | ⟨0, _⟩ => show win10_5.index t (0 : Fin 2) * 1 + 1 * 0 = 0; omega
    | ⟨1, _⟩ => show win10_5.index t (1 : Fin 2) * 128 + 1 * q'.val = q'.val; omega
  have hv7 : vecOf (iblk10 V c 7 t) = vecOf (V c main_arg54 : (⟨2, ![1, 128]⟩ : Shape).Idx → EReal) := by
    funext q'
    show V c main_arg54 (((cfg10.win 7).blk t).view.emb (ix2 (0 : Fin 1) q')) = V c main_arg54 (ix2 (0 : Fin 1) q')
    refine congrArg (V c main_arg54) (funext fun a => Fin.ext ?_)
    match a with
    | ⟨0, _⟩ => show win10_7.index t (0 : Fin 2) * 1 + 1 * 0 = 0; omega
    | ⟨1, _⟩ => show win10_7.index t (1 : Fin 2) * 128 + 1 * q'.val = q'.val; omega
  have hv9 : vecOf (iblk10 V c 9 t) = vecOf (V c main_arg56 : (⟨2, ![1, 128]⟩ : Shape).Idx → EReal) := by
    funext q'
    show V c main_arg56 (((cfg10.win 9).blk t).view.emb (ix2 (0 : Fin 1) q')) = V c main_arg56 (ix2 (0 : Fin 1) q')
    refine congrArg (V c main_arg56) (funext fun a => Fin.ext ?_)
    match a with
    | ⟨0, _⟩ => show win10_9.index t (0 : Fin 2) * 1 + 1 * 0 = 0; omega
    | ⟨1, _⟩ => show win10_9.index t (1 : Fin 2) * 128 + 1 * q'.val = q'.val; omega
  have hv10 : vecOf (iblk10 V c 10 t) = vecOf (V c main_arg59 : (⟨2, ![1, 128]⟩ : Shape).Idx → EReal) := by
    funext q'
    show V c main_arg59 (((cfg10.win 10).blk t).view.emb (ix2 (0 : Fin 1) q')) = V c main_arg59 (ix2 (0 : Fin 1) q')
    refine congrArg (V c main_arg59) (funext fun a => Fin.ext ?_)
    match a with
    | ⟨0, _⟩ => show win10_10.index t (0 : Fin 2) * 1 + 1 * 0 = 0; omega
    | ⟨1, _⟩ => show win10_10.index t (1 : Fin 2) * 128 + 1 * q'.val = q'.val; omega
  have hv11 : vecOf (iblk10 V c 11 t) = vecOf (V c main_arg60 : (⟨2, ![1, 128]⟩ : Shape).Idx → EReal) := by
    funext q'
    show V c main_arg60 (((cfg10.win 11).blk t).view.emb (ix2 (0 : Fin 1) q')) = V c main_arg60 (ix2 (0 : Fin 1) q')
    refine congrArg (V c main_arg60) (funext fun a => Fin.ext ?_)
    match a with
    | ⟨0, _⟩ => show win10_11.index t (0 : Fin 2) * 1 + 1 * 0 = 0; omega
    | ⟨1, _⟩ => show win10_11.index t (1 : Fin 2) * 128 + 1 * q'.val = q'.val; omega
  rw [hr0, hr1, hr2, hm4, hm6, hm8, hv5, hv7, hv9, hv10, hv11]

/-- An index of the array is in point t's block iff each coordinate is in the block's range on its axis. -/
theorem mem_blk10_12 (t : Fin cfg10.N) (i : (⟨2, ![65536, 128]⟩ : Shape).Idx) :
    i ∈ ((cfg10.win 12).blk t).view.set ↔ ∀ a : Fin 2, win10_12.index t a * S256x128.size a ≤ (i a).val ∧ (i a).val < win10_12.index t a * S256x128.size a + S256x128.size a := by
  show i ∈ ((View.whole main_v56_0).slice (win10_12.rect t)).set ↔ _
  rw [View.set_slice_whole, Rect.mem_set_unit]
  exact Iff.rfl

/-- Every row lies in the block of the point row / 256. -/
theorem covered10_12 (i : (⟨2, ![65536, 128]⟩ : Shape).Idx) :
    ∃ t : Fin cfg10.N, (cfg10.win 12).flush t = true ∧ i ∈ ((cfg10.win 12).blk t).view.set := by
  have hi0 : (i 0).val < 65536 := (i 0).isLt
  have hi1 : (i 1).val < 128 := (i 1).isLt
  have hN : cfg10.N = 256 := N_10
  let t : Fin cfg10.N := ⟨(i 0).val / 256, by rw [hN]; omega⟩
  have ht : t.val = (i 0).val / 256 := rfl
  have e0 : win10_12.index t (0 : Fin 2) = t.val := (idx10 t).2.2.2.2.2.2.2.2.2.2.2.2.2.2.2.2.2.2.2.2.2.2.2.2.1
  have e1 : win10_12.index t (1 : Fin 2) = 0 := (idx10 t).2.2.2.2.2.2.2.2.2.2.2.2.2.2.2.2.2.2.2.2.2.2.2.2.2.1
  refine ⟨t, flush10_12 t, ?_⟩
  rw [mem_blk10_12]
  intro a
  match a with
  | ⟨0, _⟩ => show win10_12.index t (0 : Fin 2) * 256 ≤ (i 0).val ∧ (i 0).val < win10_12.index t (0 : Fin 2) * 256 + 256; omega
  | ⟨1, _⟩ => show win10_12.index t (1 : Fin 2) * 128 ≤ (i 1).val ∧ (i 1).val < win10_12.index t (1 : Fin 2) * 128 + 128; omega

/-- THE ARRAY of output window 12 after region 10, as a function of the region-entry arrays. -/
theorem fin10_12 (c : Dev nD) : (dat10 V c).arrAt 12 cfg10.N
    = eNewArr (V c main_v53 : (⟨2, ![65536, 128]⟩ : Shape).Idx → EReal) (V c main_v54 : (⟨2, ![65536, 128]⟩ : Shape).Idx → EReal) (V c main_v47 : (⟨2, ![65536, 128]⟩ : Shape).Idx → EReal) (V c main_arg51) (V c main_arg53) (V c main_arg55) (V c main_arg52) (V c main_arg54) (V c main_arg56) (V c main_arg59) (V c main_arg60) :=
  (dat10 V c).arrAt_eq_of_cover 12 _ (fun t _ => flushed10_12_eq V c t) covered10_12

/-- What point t writes back to output window 14's array is block t of the closed form. -/
theorem flushed10_14_eq (c : Dev nD) (t : Fin cfg10.N) :
    (dat10 V c).flushed 14 t = ((cfg10.win 14).blk t).view.read (Elt Ideal)
      (sigArr (V c main_v53 : (⟨2, ![65536, 128]⟩ : Shape).Idx → EReal) (V c main_v54 : (⟨2, ![65536, 128]⟩ : Shape).Idx → EReal) (V c main_v47 : (⟨2, ![65536, 128]⟩ : Shape).Idx → EReal) (V c main_arg51) (V c main_arg53) (V c main_arg55) (V c main_arg52) (V c main_arg54) (V c main_arg56)) := by
  show (cfg10.win 14).cut (grid10.coords t) ((dat10 V c).after 14 t) = _
  rw [after10_14]
  obtain ⟨i0a, i0b, i1a, i1b, i2a, i2b, i3a, i3b, i4a, i4b, i5a, i5b, i6a, i6b, i7a, i7b, i8a, i8b, i9a, i9b, i10a, i10b, i11a, i11b, i12a, i12b, i13a, i13b, i14a, i14b⟩ := idx10 t
  have hN : cfg10.N = 256 := N_10
  have htl : t.val < 256 := lt_of_lt_of_eq t.isLt hN
  funext j
  obtain ⟨r, q, rfl⟩ : ∃ (r : Fin 256) (q : Fin 128), j = ix2 r q := ⟨j 0, j 1, eq_ix2 j⟩
  have hr := r.isLt
  have hc : ((grid10.coords t) 0).val < 256 := ((grid10.coords t) 0).isLt
  refine (out10_14_at (grid10.coords t) (iblk10 V c 0 t) (iblk10 V c 1 t) (iblk10 V c 2 t) (iblk10 V c 3 t) (iblk10 V c 4 t) (iblk10 V c 5 t) (iblk10 V c 6 t) (iblk10 V c 7 t) (iblk10 V c 8 t) (iblk10 V c 9 t) (iblk10 V c 10 t) (iblk10 V c 11 t) r q (mask_word _ _ 65536 (by omega) (by decide))).trans ?_
  have hemb : ((cfg10.win 14).blk t).view.emb (ix2 r q) = ix2 (⟨t.val * 256 + r.val, by omega⟩ : Fin 65536) q := by
    funext a; apply Fin.ext
    match a with
    | ⟨0, _⟩ => show win10_14.index t (0 : Fin 2) * 256 + 1 * r.val = t.val * 256 + r.val; omega
    | ⟨1, _⟩ => show win10_14.index t (1 : Fin 2) * 128 + 1 * q.val = q.val; omega
  show _ = (sigArr (V c main_v53 : (⟨2, ![65536, 128]⟩ : Shape).Idx → EReal) (V c main_v54 : (⟨2, ![65536, 128]⟩ : Shape).Idx → EReal) (V c main_v47 : (⟨2, ![65536, 128]⟩ : Shape).Idx → EReal) (V c main_arg51) (V c main_arg53) (V c main_arg55) (V c main_arg52) (V c main_arg54) (V c main_arg56)) (((cfg10.win 14).blk t).view.emb (ix2 r q))
  rw [hemb]
  show _ = Spec.gate (Spec.refEhat (rowOf (V c main_v53 : (⟨2, ![65536, 128]⟩ : Shape).Idx → EReal) (⟨t.val * 256 + r.val, by omega⟩ : Fin 65536)) (rowOf (V c main_v54 : (⟨2, ![65536, 128]⟩ : Shape).Idx → EReal) (⟨t.val * 256 + r.val, by omega⟩ : Fin 65536)) (rowOf (V c main_v47 : (⟨2, ![65536, 128]⟩ : Shape).Idx → EReal) (⟨t.val * 256 + r.val, by omega⟩ : Fin 65536)) (matOf (V c main_arg51)) (matOf (V c main_arg53)) (matOf (V c main_arg55)) (vecOf (V c main_arg52)) (vecOf (V c main_arg54)) (vecOf (V c main_arg56))) q
  have hr0 : rowOf (n := 256) (iblk10 V c 0 t) r = rowOf (V c main_v53 : (⟨2, ![65536, 128]⟩ : Shape).Idx → EReal) (⟨t.val * 256 + r.val, by omega⟩ : Fin 65536) := by
    funext k
    show V c main_v53 (((cfg10.win 0).blk t).view.emb (ix2 r k)) = V c main_v53 (ix2 (⟨t.val * 256 + r.val, by omega⟩ : Fin 65536) k)
    refine congrArg (V c main_v53) (funext fun a => Fin.ext ?_)
    match a with
    | ⟨0, _⟩ => show win10_0.index t (0 : Fin 2) * 256 + 1 * r.val = t.val * 256 + r.val; omega
    | ⟨1, _⟩ => show win10_0.index t (1 : Fin 2) * 128 + 1 * k.val = k.val; omega
  have hr1 : rowOf (n := 256) (iblk10 V c 1 t) r = rowOf (V c main_v54 : (⟨2, ![65536, 128]⟩ : Shape).Idx → EReal) (⟨t.val * 256 + r.val, by omega⟩ : Fin 65536) := by
    funext k
    show V c main_v54 (((cfg10.win 1).blk t).view.emb (ix2 r k)) = V c main_v54 (ix2 (⟨t.val * 256 + r.val, by omega⟩ : Fin 65536) k)
    refine congrArg (V c main_v54) (funext fun a => Fin.ext ?_)
    match a with
    | ⟨0, _⟩ => show win10_1.index t (0 : Fin 2) * 256 + 1 * r.val = t.val * 256 + r.val; omega
    | ⟨1, _⟩ => show win10_1.index t (1 : Fin 2) * 128 + 1 * k.val = k.val; omega
  have hr2 : rowOf (n := 256) (iblk10 V c 2 t) r = rowOf (V c main_v47 : (⟨2, ![65536, 128]⟩ : Shape).Idx → EReal) (⟨t.val * 256 + r.val, by omega⟩ : Fin 65536) := by
    funext k
    show V c main_v47 (((cfg10.win 2).blk t).view.emb (ix2 r k)) = V c main_v47 (ix2 (⟨t.val * 256 + r.val, by omega⟩ : Fin 65536) k)
    refine congrArg (V c main_v47) (funext fun a => Fin.ext ?_)
    match a with
    | ⟨0, _⟩ => show win10_2.index t (0 : Fin 2) * 256 + 1 * r.val = t.val * 256 + r.val; omega
    | ⟨1, _⟩ => show win10_2.index t (1 : Fin 2) * 128 + 1 * k.val = k.val; omega
  have hm4 : matOf (iblk10 V c 4 t) = matOf (V c main_arg51 : (⟨2, ![128, 128]⟩ : Shape).Idx → EReal) := by
    funext k q'
    show V c main_arg51 (((cfg10.win 4).blk t).view.emb (ix2 k q')) = V c main_arg51 (ix2 k q')
    refine congrArg (V c main_arg51) (funext fun a => Fin.ext ?_)
    match a with
    | ⟨0, _⟩ => show win10_4.index t (0 : Fin 2) * 128 + 1 * k.val = k.val; omega
    | ⟨1, _⟩ => show win10_4.index t (1 : Fin 2) * 128 + 1 * q'.val = q'.val; omega
  have hm6 : matOf (iblk10 V c 6 t) = matOf (V c main_arg53 : (⟨2, ![128, 128]⟩ : Shape).Idx → EReal) := by
    funext k q'
    show V c main_arg53 (((cfg10.win 6).blk t).view.emb (ix2 k q')) = V c main_arg53 (ix2 k q')
    refine congrArg (V c main_arg53) (funext fun a => Fin.ext ?_)
    match a with
    | ⟨0, _⟩ => show win10_6.index t (0 : Fin 2) * 128 + 1 * k.val = k.val; omega
    | ⟨1, _⟩ => show win10_6.index t (1 : Fin 2) * 128 + 1 * q'.val = q'.val; omega
  have hm8 : matOf (iblk10 V c 8 t) = matOf (V c main_arg55 : (⟨2, ![128, 128]⟩ : Shape).Idx → EReal) := by
    funext k q'
    show V c main_arg55 (((cfg10.win 8).blk t).view.emb (ix2 k q')) = V c main_arg55 (ix2 k q')
    refine congrArg (V c main_arg55) (funext fun a => Fin.ext ?_)
    match a with
    | ⟨0, _⟩ => show win10_8.index t (0 : Fin 2) * 128 + 1 * k.val = k.val; omega
    | ⟨1, _⟩ => show win10_8.index t (1 : Fin 2) * 128 + 1 * q'.val = q'.val; omega
  have hv5 : vecOf (iblk10 V c 5 t) = vecOf (V c main_arg52 : (⟨2, ![1, 128]⟩ : Shape).Idx → EReal) := by
    funext q'
    show V c main_arg52 (((cfg10.win 5).blk t).view.emb (ix2 (0 : Fin 1) q')) = V c main_arg52 (ix2 (0 : Fin 1) q')
    refine congrArg (V c main_arg52) (funext fun a => Fin.ext ?_)
    match a with
    | ⟨0, _⟩ => show win10_5.index t (0 : Fin 2) * 1 + 1 * 0 = 0; omega
    | ⟨1, _⟩ => show win10_5.index t (1 : Fin 2) * 128 + 1 * q'.val = q'.val; omega
  have hv7 : vecOf (iblk10 V c 7 t) = vecOf (V c main_arg54 : (⟨2, ![1, 128]⟩ : Shape).Idx → EReal) := by
    funext q'
    show V c main_arg54 (((cfg10.win 7).blk t).view.emb (ix2 (0 : Fin 1) q')) = V c main_arg54 (ix2 (0 : Fin 1) q')
    refine congrArg (V c main_arg54) (funext fun a => Fin.ext ?_)
    match a with
    | ⟨0, _⟩ => show win10_7.index t (0 : Fin 2) * 1 + 1 * 0 = 0; omega
    | ⟨1, _⟩ => show win10_7.index t (1 : Fin 2) * 128 + 1 * q'.val = q'.val; omega
  have hv9 : vecOf (iblk10 V c 9 t) = vecOf (V c main_arg56 : (⟨2, ![1, 128]⟩ : Shape).Idx → EReal) := by
    funext q'
    show V c main_arg56 (((cfg10.win 9).blk t).view.emb (ix2 (0 : Fin 1) q')) = V c main_arg56 (ix2 (0 : Fin 1) q')
    refine congrArg (V c main_arg56) (funext fun a => Fin.ext ?_)
    match a with
    | ⟨0, _⟩ => show win10_9.index t (0 : Fin 2) * 1 + 1 * 0 = 0; omega
    | ⟨1, _⟩ => show win10_9.index t (1 : Fin 2) * 128 + 1 * q'.val = q'.val; omega
  rw [hr0, hr1, hr2, hm4, hm6, hm8, hv5, hv7, hv9]

/-- An index of the array is in point t's block iff each coordinate is in the block's range on its axis. -/
theorem mem_blk10_14 (t : Fin cfg10.N) (i : (⟨2, ![65536, 128]⟩ : Shape).Idx) :
    i ∈ ((cfg10.win 14).blk t).view.set ↔ ∀ a : Fin 2, win10_14.index t a * S256x128.size a ≤ (i a).val ∧ (i a).val < win10_14.index t a * S256x128.size a + S256x128.size a := by
  show i ∈ ((View.whole main_v56_2).slice (win10_14.rect t)).set ↔ _
  rw [View.set_slice_whole, Rect.mem_set_unit]
  exact Iff.rfl

/-- Every row lies in the block of the point row / 256. -/
theorem covered10_14 (i : (⟨2, ![65536, 128]⟩ : Shape).Idx) :
    ∃ t : Fin cfg10.N, (cfg10.win 14).flush t = true ∧ i ∈ ((cfg10.win 14).blk t).view.set := by
  have hi0 : (i 0).val < 65536 := (i 0).isLt
  have hi1 : (i 1).val < 128 := (i 1).isLt
  have hN : cfg10.N = 256 := N_10
  let t : Fin cfg10.N := ⟨(i 0).val / 256, by rw [hN]; omega⟩
  have ht : t.val = (i 0).val / 256 := rfl
  have e0 : win10_14.index t (0 : Fin 2) = t.val := (idx10 t).2.2.2.2.2.2.2.2.2.2.2.2.2.2.2.2.2.2.2.2.2.2.2.2.2.2.2.2.1
  have e1 : win10_14.index t (1 : Fin 2) = 0 := (idx10 t).2.2.2.2.2.2.2.2.2.2.2.2.2.2.2.2.2.2.2.2.2.2.2.2.2.2.2.2.2
  refine ⟨t, flush10_14 t, ?_⟩
  rw [mem_blk10_14]
  intro a
  match a with
  | ⟨0, _⟩ => show win10_14.index t (0 : Fin 2) * 256 ≤ (i 0).val ∧ (i 0).val < win10_14.index t (0 : Fin 2) * 256 + 256; omega
  | ⟨1, _⟩ => show win10_14.index t (1 : Fin 2) * 128 ≤ (i 1).val ∧ (i 1).val < win10_14.index t (1 : Fin 2) * 128 + 128; omega

/-- THE ARRAY of output window 14 after region 10, as a function of the region-entry arrays. -/
theorem fin10_14 (c : Dev nD) : (dat10 V c).arrAt 14 cfg10.N
    = sigArr (V c main_v53 : (⟨2, ![65536, 128]⟩ : Shape).Idx → EReal) (V c main_v54 : (⟨2, ![65536, 128]⟩ : Shape).Idx → EReal) (V c main_v47 : (⟨2, ![65536, 128]⟩ : Shape).Idx → EReal) (V c main_arg51) (V c main_arg53) (V c main_arg55) (V c main_arg52) (V c main_arg54) (V c main_arg56) :=
  (dat10 V c).arrAt_eq_of_cover 14 _ (fun t _ => flushed10_14_eq V c t) covered10_14

/-- What point t writes back to output window 13's array is block t of the closed form. -/
theorem flushed10_13_eq (c : Dev nD) (t : Fin cfg10.N) :
    (dat10 V c).flushed 13 t = ((cfg10.win 13).blk t).view.read (Elt Ideal)
      (msgArr (V c main_v53 : (⟨2, ![65536, 128]⟩ : Shape).Idx → EReal) (V c main_v54 : (⟨2, ![65536, 128]⟩ : Shape).Idx → EReal) (V c main_v47 : (⟨2, ![65536, 128]⟩ : Shape).Idx → EReal) (V c main_v55 : (⟨2, ![65536, 128]⟩ : Shape).Idx → EReal) (V c main_arg51) (V c main_arg53) (V c main_arg55) (V c main_arg52) (V c main_arg54) (V c main_arg56)) := by
  show (cfg10.win 13).cut (grid10.coords t) ((dat10 V c).after 13 t) = _
  rw [after10_13]
  obtain ⟨i0a, i0b, i1a, i1b, i2a, i2b, i3a, i3b, i4a, i4b, i5a, i5b, i6a, i6b, i7a, i7b, i8a, i8b, i9a, i9b, i10a, i10b, i11a, i11b, i12a, i12b, i13a, i13b, i14a, i14b⟩ := idx10 t
  have hN : cfg10.N = 256 := N_10
  have htl : t.val < 256 := lt_of_lt_of_eq t.isLt hN
  funext j
  obtain ⟨r, q, rfl⟩ : ∃ (r : Fin 256) (q : Fin 128), j = ix2 r q := ⟨j 0, j 1, eq_ix2 j⟩
  have hr := r.isLt
  have hc : ((grid10.coords t) 0).val < 256 := ((grid10.coords t) 0).isLt
  refine (out10_13_at (grid10.coords t) (iblk10 V c 0 t) (iblk10 V c 1 t) (iblk10 V c 2 t) (iblk10 V c 3 t) (iblk10 V c 4 t) (iblk10 V c 5 t) (iblk10 V c 6 t) (iblk10 V c 7 t) (iblk10 V c 8 t) (iblk10 V c 9 t) (iblk10 V c 10 t) (iblk10 V c 11 t) r q (mask_word _ _ 65536 (by omega) (by decide))).trans ?_
  have hemb : ((cfg10.win 13).blk t).view.emb (ix2 r q) = ix2 (⟨t.val * 256 + r.val, by omega⟩ : Fin 65536) q := by
    funext a; apply Fin.ext
    match a with
    | ⟨0, _⟩ => show win10_13.index t (0 : Fin 2) * 256 + 1 * r.val = t.val * 256 + r.val; omega
    | ⟨1, _⟩ => show win10_13.index t (1 : Fin 2) * 128 + 1 * q.val = q.val; omega
  show _ = (msgArr (V c main_v53 : (⟨2, ![65536, 128]⟩ : Shape).Idx → EReal) (V c main_v54 : (⟨2, ![65536, 128]⟩ : Shape).Idx → EReal) (V c main_v47 : (⟨2, ![65536, 128]⟩ : Shape).Idx → EReal) (V c main_v55 : (⟨2, ![65536, 128]⟩ : Shape).Idx → EReal) (V c main_arg51) (V c main_arg53) (V c main_arg55) (V c main_arg52) (V c main_arg54) (V c main_arg56)) (((cfg10.win 13).blk t).view.emb (ix2 r q))
  rw [hemb]
  show _ = Spec.gate (Spec.refEhat (rowOf (V c main_v53 : (⟨2, ![65536, 128]⟩ : Shape).Idx → EReal) (⟨t.val * 256 + r.val, by omega⟩ : Fin 65536)) (rowOf (V c main_v54 : (⟨2, ![65536, 128]⟩ : Shape).Idx → EReal) (⟨t.val * 256 + r.val, by omega⟩ : Fin 65536)) (rowOf (V c main_v47 : (⟨2, ![65536, 128]⟩ : Shape).Idx → EReal) (⟨t.val * 256 + r.val, by omega⟩ : Fin 65536)) (matOf (V c main_arg51)) (matOf (V c main_arg53)) (matOf (V c main_arg55)) (vecOf (V c main_arg52)) (vecOf (V c main_arg54)) (vecOf (V c main_arg56))) q * rowOf (V c main_v55 : (⟨2, ![65536, 128]⟩ : Shape).Idx → EReal) (⟨t.val * 256 + r.val, by omega⟩ : Fin 65536) q
  have hr0 : rowOf (n := 256) (iblk10 V c 0 t) r = rowOf (V c main_v53 : (⟨2, ![65536, 128]⟩ : Shape).Idx → EReal) (⟨t.val * 256 + r.val, by omega⟩ : Fin 65536) := by
    funext k
    show V c main_v53 (((cfg10.win 0).blk t).view.emb (ix2 r k)) = V c main_v53 (ix2 (⟨t.val * 256 + r.val, by omega⟩ : Fin 65536) k)
    refine congrArg (V c main_v53) (funext fun a => Fin.ext ?_)
    match a with
    | ⟨0, _⟩ => show win10_0.index t (0 : Fin 2) * 256 + 1 * r.val = t.val * 256 + r.val; omega
    | ⟨1, _⟩ => show win10_0.index t (1 : Fin 2) * 128 + 1 * k.val = k.val; omega
  have hr1 : rowOf (n := 256) (iblk10 V c 1 t) r = rowOf (V c main_v54 : (⟨2, ![65536, 128]⟩ : Shape).Idx → EReal) (⟨t.val * 256 + r.val, by omega⟩ : Fin 65536) := by
    funext k
    show V c main_v54 (((cfg10.win 1).blk t).view.emb (ix2 r k)) = V c main_v54 (ix2 (⟨t.val * 256 + r.val, by omega⟩ : Fin 65536) k)
    refine congrArg (V c main_v54) (funext fun a => Fin.ext ?_)
    match a with
    | ⟨0, _⟩ => show win10_1.index t (0 : Fin 2) * 256 + 1 * r.val = t.val * 256 + r.val; omega
    | ⟨1, _⟩ => show win10_1.index t (1 : Fin 2) * 128 + 1 * k.val = k.val; omega
  have hr2 : rowOf (n := 256) (iblk10 V c 2 t) r = rowOf (V c main_v47 : (⟨2, ![65536, 128]⟩ : Shape).Idx → EReal) (⟨t.val * 256 + r.val, by omega⟩ : Fin 65536) := by
    funext k
    show V c main_v47 (((cfg10.win 2).blk t).view.emb (ix2 r k)) = V c main_v47 (ix2 (⟨t.val * 256 + r.val, by omega⟩ : Fin 65536) k)
    refine congrArg (V c main_v47) (funext fun a => Fin.ext ?_)
    match a with
    | ⟨0, _⟩ => show win10_2.index t (0 : Fin 2) * 256 + 1 * r.val = t.val * 256 + r.val; omega
    | ⟨1, _⟩ => show win10_2.index t (1 : Fin 2) * 128 + 1 * k.val = k.val; omega
  have hr3 : rowOf (n := 256) (iblk10 V c 3 t) r = rowOf (V c main_v55 : (⟨2, ![65536, 128]⟩ : Shape).Idx → EReal) (⟨t.val * 256 + r.val, by omega⟩ : Fin 65536) := by
    funext k
    show V c main_v55 (((cfg10.win 3).blk t).view.emb (ix2 r k)) = V c main_v55 (ix2 (⟨t.val * 256 + r.val, by omega⟩ : Fin 65536) k)
    refine congrArg (V c main_v55) (funext fun a => Fin.ext ?_)
    match a with
    | ⟨0, _⟩ => show win10_3.index t (0 : Fin 2) * 256 + 1 * r.val = t.val * 256 + r.val; omega
    | ⟨1, _⟩ => show win10_3.index t (1 : Fin 2) * 128 + 1 * k.val = k.val; omega
  have hm4 : matOf (iblk10 V c 4 t) = matOf (V c main_arg51 : (⟨2, ![128, 128]⟩ : Shape).Idx → EReal) := by
    funext k q'
    show V c main_arg51 (((cfg10.win 4).blk t).view.emb (ix2 k q')) = V c main_arg51 (ix2 k q')
    refine congrArg (V c main_arg51) (funext fun a => Fin.ext ?_)
    match a with
    | ⟨0, _⟩ => show win10_4.index t (0 : Fin 2) * 128 + 1 * k.val = k.val; omega
    | ⟨1, _⟩ => show win10_4.index t (1 : Fin 2) * 128 + 1 * q'.val = q'.val; omega
  have hm6 : matOf (iblk10 V c 6 t) = matOf (V c main_arg53 : (⟨2, ![128, 128]⟩ : Shape).Idx → EReal) := by
    funext k q'
    show V c main_arg53 (((cfg10.win 6).blk t).view.emb (ix2 k q')) = V c main_arg53 (ix2 k q')
    refine congrArg (V c main_arg53) (funext fun a => Fin.ext ?_)
    match a with
    | ⟨0, _⟩ => show win10_6.index t (0 : Fin 2) * 128 + 1 * k.val = k.val; omega
    | ⟨1, _⟩ => show win10_6.index t (1 : Fin 2) * 128 + 1 * q'.val = q'.val; omega
  have hm8 : matOf (iblk10 V c 8 t) = matOf (V c main_arg55 : (⟨2, ![128, 128]⟩ : Shape).Idx → EReal) := by
    funext k q'
    show V c main_arg55 (((cfg10.win 8).blk t).view.emb (ix2 k q')) = V c main_arg55 (ix2 k q')
    refine congrArg (V c main_arg55) (funext fun a => Fin.ext ?_)
    match a with
    | ⟨0, _⟩ => show win10_8.index t (0 : Fin 2) * 128 + 1 * k.val = k.val; omega
    | ⟨1, _⟩ => show win10_8.index t (1 : Fin 2) * 128 + 1 * q'.val = q'.val; omega
  have hv5 : vecOf (iblk10 V c 5 t) = vecOf (V c main_arg52 : (⟨2, ![1, 128]⟩ : Shape).Idx → EReal) := by
    funext q'
    show V c main_arg52 (((cfg10.win 5).blk t).view.emb (ix2 (0 : Fin 1) q')) = V c main_arg52 (ix2 (0 : Fin 1) q')
    refine congrArg (V c main_arg52) (funext fun a => Fin.ext ?_)
    match a with
    | ⟨0, _⟩ => show win10_5.index t (0 : Fin 2) * 1 + 1 * 0 = 0; omega
    | ⟨1, _⟩ => show win10_5.index t (1 : Fin 2) * 128 + 1 * q'.val = q'.val; omega
  have hv7 : vecOf (iblk10 V c 7 t) = vecOf (V c main_arg54 : (⟨2, ![1, 128]⟩ : Shape).Idx → EReal) := by
    funext q'
    show V c main_arg54 (((cfg10.win 7).blk t).view.emb (ix2 (0 : Fin 1) q')) = V c main_arg54 (ix2 (0 : Fin 1) q')
    refine congrArg (V c main_arg54) (funext fun a => Fin.ext ?_)
    match a with
    | ⟨0, _⟩ => show win10_7.index t (0 : Fin 2) * 1 + 1 * 0 = 0; omega
    | ⟨1, _⟩ => show win10_7.index t (1 : Fin 2) * 128 + 1 * q'.val = q'.val; omega
  have hv9 : vecOf (iblk10 V c 9 t) = vecOf (V c main_arg56 : (⟨2, ![1, 128]⟩ : Shape).Idx → EReal) := by
    funext q'
    show V c main_arg56 (((cfg10.win 9).blk t).view.emb (ix2 (0 : Fin 1) q')) = V c main_arg56 (ix2 (0 : Fin 1) q')
    refine congrArg (V c main_arg56) (funext fun a => Fin.ext ?_)
    match a with
    | ⟨0, _⟩ => show win10_9.index t (0 : Fin 2) * 1 + 1 * 0 = 0; omega
    | ⟨1, _⟩ => show win10_9.index t (1 : Fin 2) * 128 + 1 * q'.val = q'.val; omega
  rw [hr0, hr1, hr2, hr3, hm4, hm6, hm8, hv5, hv7, hv9]

/-- An index of the array is in point t's block iff each coordinate is in the block's range on its axis. -/
theorem mem_blk10_13 (t : Fin cfg10.N) (i : (⟨2, ![65536, 128]⟩ : Shape).Idx) :
    i ∈ ((cfg10.win 13).blk t).view.set ↔ ∀ a : Fin 2, win10_13.index t a * S256x128.size a ≤ (i a).val ∧ (i a).val < win10_13.index t a * S256x128.size a + S256x128.size a := by
  show i ∈ ((View.whole main_v56_1).slice (win10_13.rect t)).set ↔ _
  rw [View.set_slice_whole, Rect.mem_set_unit]
  exact Iff.rfl

/-- Every row lies in the block of the point row / 256. -/
theorem covered10_13 (i : (⟨2, ![65536, 128]⟩ : Shape).Idx) :
    ∃ t : Fin cfg10.N, (cfg10.win 13).flush t = true ∧ i ∈ ((cfg10.win 13).blk t).view.set := by
  have hi0 : (i 0).val < 65536 := (i 0).isLt
  have hi1 : (i 1).val < 128 := (i 1).isLt
  have hN : cfg10.N = 256 := N_10
  let t : Fin cfg10.N := ⟨(i 0).val / 256, by rw [hN]; omega⟩
  have ht : t.val = (i 0).val / 256 := rfl
  have e0 : win10_13.index t (0 : Fin 2) = t.val := (idx10 t).2.2.2.2.2.2.2.2.2.2.2.2.2.2.2.2.2.2.2.2.2.2.2.2.2.2.1
  have e1 : win10_13.index t (1 : Fin 2) = 0 := (idx10 t).2.2.2.2.2.2.2.2.2.2.2.2.2.2.2.2.2.2.2.2.2.2.2.2.2.2.2.1
  refine ⟨t, flush10_13 t, ?_⟩
  rw [mem_blk10_13]
  intro a
  match a with
  | ⟨0, _⟩ => show win10_13.index t (0 : Fin 2) * 256 ≤ (i 0).val ∧ (i 0).val < win10_13.index t (0 : Fin 2) * 256 + 256; omega
  | ⟨1, _⟩ => show win10_13.index t (1 : Fin 2) * 128 ≤ (i 1).val ∧ (i 1).val < win10_13.index t (1 : Fin 2) * 128 + 128; omega

/-- THE ARRAY of output window 13 after region 10, as a function of the region-entry arrays. -/
theorem fin10_13 (c : Dev nD) : (dat10 V c).arrAt 13 cfg10.N
    = msgArr (V c main_v53 : (⟨2, ![65536, 128]⟩ : Shape).Idx → EReal) (V c main_v54 : (⟨2, ![65536, 128]⟩ : Shape).Idx → EReal) (V c main_v47 : (⟨2, ![65536, 128]⟩ : Shape).Idx → EReal) (V c main_v55 : (⟨2, ![65536, 128]⟩ : Shape).Idx → EReal) (V c main_arg51) (V c main_arg53) (V c main_arg55) (V c main_arg52) (V c main_arg54) (V c main_arg56) :=
  (dat10 V c).arrAt_eq_of_cover 13 _ (fun t _ => flushed10_13_eq V c t) covered10_13

end Cert.ReferenceIdeal.Val

end
-- ==== Proof.RV.Fin11.lean ====
/-
  Pallas_call 11 of the reference (a node update over 16384 rows), blocks read back into arrays: its output
  array ends holding x + silu (LN (hs + num / (den + ε))) row by row, of the input arrays as the region finds them.
-/
import proofs.«117664_g2000706958607885_pallasbulk_534_41_alg».proof.Proof.RV.ArrDefs
import proofs.«117664_g2000706958607885_pallasbulk_534_41_alg».proof.Proof.RV.PayB

set_option maxRecDepth 16384

noncomputable section

namespace Cert.ReferenceIdeal.Val

open Cert.ReferenceIdeal Cert.ReferenceIdeal.Gen Cert.ReferenceIdeal.GenP
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The index maps over the grid: a row-tiled window's block index is the grid point, a parameter row's is zero. -/
theorem idx11 : ∀ t : Fin cfg11.N, win11_0.index t (0 : Fin 2) = t.val ∧ win11_0.index t (1 : Fin 2) = 0
    ∧ win11_1.index t (0 : Fin 2) = t.val ∧ win11_1.index t (1 : Fin 2) = 0
    ∧ win11_2.index t (0 : Fin 2) = t.val ∧ win11_2.index t (1 : Fin 2) = 0
    ∧ win11_3.index t (0 : Fin 2) = t.val ∧ win11_3.index t (1 : Fin 2) = 0
    ∧ win11_4.index t (0 : Fin 2) = 0 ∧ win11_4.index t (1 : Fin 2) = 0
    ∧ win11_5.index t (0 : Fin 2) = 0 ∧ win11_5.index t (1 : Fin 2) = 0
    ∧ win11_6.index t (0 : Fin 2) = t.val ∧ win11_6.index t (1 : Fin 2) = 0 :=
  (by decide +kernel : ∀ t : Fin grid11.N, _)

/-- What the body leaves in the output window's buffer, at row r and lane q. -/
theorem out11_6_at (x0 x1 x2 x3 : Vec Ideal S256x128 .f32) (x4 x5 : Vec Ideal S1x128 .f32) (r : Fin 256) (q : Fin 128) :
    out11_6 x0 x1 x2 x3 x4 x5 (ix2 r q)
      = Spec.resid (rowOf x0 r) (Spec.nodeRow (rowOf x1 r) (rowOf x2 r) (rowOf x3 r)) (vecOf x4) (vecOf x5) q := by
  unfold out11_6
  rw [View.canon_unit_zero hz2]
  simp only [View.ld_unit_zero (S := S256x128) hz2, View.ld_unit_zero (S := S1x128) hz2]
  exact k11_pay1_at x2 x3 x1 x0 x4 x5 r q

/-- What grid point t writes back to the output array is block t of the closed form. -/
theorem flushed11_6_eq (c : Dev nD) (t : Fin cfg11.N) :
    (dat11 V c).flushed 6 t = ((cfg11.win 6).blk t).view.read (Elt Ideal)
      (updArr (V c main_v31 : (⟨2, ![16384, 128]⟩ : Shape).Idx → EReal) (V c main_v52_0 : (⟨2, ![16384, 128]⟩ : Shape).Idx → EReal) (V c main_v59 : (⟨2, ![16384, 128]⟩ : Shape).Idx → EReal) (V c main_v62 : (⟨2, ![16384, 128]⟩ : Shape).Idx → EReal) (V c main_arg57) (V c main_arg58)) := by
  show (cfg11.win 6).cut (grid11.coords t) ((dat11 V c).after 6 t) = _
  rw [after11_6]
  obtain ⟨i0a, i0b, i1a, i1b, i2a, i2b, i3a, i3b, i4a, i4b, i5a, i5b, i6a, i6b⟩ := idx11 t
  have hN : cfg11.N = 64 := N_11
  have htl : t.val < 64 := lt_of_lt_of_eq t.isLt hN
  funext j
  obtain ⟨r, q, rfl⟩ : ∃ (r : Fin 256) (q : Fin 128), j = ix2 r q := ⟨j 0, j 1, eq_ix2 j⟩
  have hr := r.isLt
  refine (out11_6_at (iblk11 V c 0 t) (iblk11 V c 1 t) (iblk11 V c 2 t) (iblk11 V c 3 t) (iblk11 V c 4 t) (iblk11 V c 5 t) r q).trans ?_
  have hemb : ((cfg11.win 6).blk t).view.emb (ix2 r q) = ix2 (⟨t.val * 256 + r.val, by omega⟩ : Fin 16384) q := by
    funext a; apply Fin.ext
    match a with
    | ⟨0, _⟩ => show win11_6.index t (0 : Fin 2) * 256 + 1 * r.val = t.val * 256 + r.val; omega
    | ⟨1, _⟩ => show win11_6.index t (1 : Fin 2) * 128 + 1 * q.val = q.val; omega
  show _ = (updArr (V c main_v31 : (⟨2, ![16384, 128]⟩ : Shape).Idx → EReal) (V c main_v52_0 : (⟨2, ![16384, 128]⟩ : Shape).Idx → EReal) (V c main_v59 : (⟨2, ![16384, 128]⟩ : Shape).Idx → EReal) (V c main_v62 : (⟨2, ![16384, 128]⟩ : Shape).Idx → EReal) (V c main_arg57) (V c main_arg58)) (((cfg11.win 6).blk t).view.emb (ix2 r q))
  rw [hemb]
  show _ = Spec.resid (rowOf (V c main_v31 : (⟨2, ![16384, 128]⟩ : Shape).Idx → EReal) (⟨t.val * 256 + r.val, by omega⟩ : Fin 16384)) (Spec.nodeRow (rowOf (V c main_v52_0 : (⟨2, ![16384, 128]⟩ : Shape).Idx → EReal) (⟨t.val * 256 + r.val, by omega⟩ : Fin 16384)) (rowOf (V c main_v59 : (⟨2, ![16384, 128]⟩ : Shape).Idx → EReal) (⟨t.val * 256 + r.val, by omega⟩ : Fin 16384)) (rowOf (V c main_v62 : (⟨2, ![16384, 128]⟩ : Shape).Idx → EReal) (⟨t.val * 256 + r.val, by omega⟩ : Fin 16384))) (vecOf (V c main_arg57)) (vecOf (V c main_arg58)) q
  have hr0 : rowOf (n := 256) (iblk11 V c 0 t) r = rowOf (V c main_v31 : (⟨2, ![16384, 128]⟩ : Shape).Idx → EReal) (⟨t.val * 256 + r.val, by omega⟩ : Fin 16384) := by
    funext k
    show V c main_v31 (((cfg11.win 0).blk t).view.emb (ix2 r k)) = V c main_v31 (ix2 (⟨t.val * 256 + r.val, by omega⟩ : Fin 16384) k)
    refine congrArg (V c main_v31) (funext fun a => Fin.ext ?_)
    match a with
    | ⟨0, _⟩ => show win11_0.index t (0 : Fin 2) * 256 + 1 * r.val = t.val * 256 + r.val; omega
    | ⟨1, _⟩ => show win11_0.index t (1 : Fin 2) * 128 + 1 * k.val = k.val; omega
  have hr1 : rowOf (n := 256) (iblk11 V c 1 t) r = rowOf (V c main_v52_0 : (⟨2, ![16384, 128]⟩ : Shape).Idx → EReal) (⟨t.val * 256 + r.val, by omega⟩ : Fin 16384) := by
    funext k
    show V c main_v52_0 (((cfg11.win 1).blk t).view.emb (ix2 r k)) = V c main_v52_0 (ix2 (⟨t.val * 256 + r.val, by omega⟩ : Fin 16384) k)
    refine congrArg (V c main_v52_0) (funext fun a => Fin.ext ?_)
    match a with
    | ⟨0, _⟩ => show win11_1.index t (0 : Fin 2) * 256 + 1 * r.val = t.val * 256 + r.val; omega
    | ⟨1, _⟩ => show win11_1.index t (1 : Fin 2) * 128 + 1 * k.val = k.val; omega
  have hr2 : rowOf (n := 256) (iblk11 V c 2 t) r = rowOf (V c main_v59 : (⟨2, ![16384, 128]⟩ : Shape).Idx → EReal) (⟨t.val * 256 + r.val, by omega⟩ : Fin 16384) := by
    funext k
    show V c main_v59 (((cfg11.win 2).blk t).view.emb (ix2 r k)) = V c main_v59 (ix2 (⟨t.val * 256 + r.val, by omega⟩ : Fin 16384) k)
    refine congrArg (V c main_v59) (funext fun a => Fin.ext ?_)
    match a with
    | ⟨0, _⟩ => show win11_2.index t (0 : Fin 2) * 256 + 1 * r.val = t.val * 256 + r.val; omega
    | ⟨1, _⟩ => show win11_2.index t (1 : Fin 2) * 128 + 1 * k.val = k.val; omega
  have hr3 : rowOf (n := 256) (iblk11 V c 3 t) r = rowOf (V c main_v62 : (⟨2, ![16384, 128]⟩ : Shape).Idx → EReal) (⟨t.val * 256 + r.val, by omega⟩ : Fin 16384) := by
    funext k
    show V c main_v62 (((cfg11.win 3).blk t).view.emb (ix2 r k)) = V c main_v62 (ix2 (⟨t.val * 256 + r.val, by omega⟩ : Fin 16384) k)
    refine congrArg (V c main_v62) (funext fun a => Fin.ext ?_)
    match a with
    | ⟨0, _⟩ => show win11_3.index t (0 : Fin 2) * 256 + 1 * r.val = t.val * 256 + r.val; omega
    | ⟨1, _⟩ => show win11_3.index t (1 : Fin 2) * 128 + 1 * k.val = k.val; omega
  have hv4 : vecOf (iblk11 V c 4 t) = vecOf (V c main_arg57 : (⟨2, ![1, 128]⟩ : Shape).Idx → EReal) := by
    funext q'
    show V c main_arg57 (((cfg11.win 4).blk t).view.emb (ix2 (0 : Fin 1) q')) = V c main_arg57 (ix2 (0 : Fin 1) q')
    refine congrArg (V c main_arg57) (funext fun a => Fin.ext ?_)
    match a with
    | ⟨0, _⟩ => show win11_4.index t (0 : Fin 2) * 1 + 1 * 0 = 0; omega
    | ⟨1, _⟩ => show win11_4.index t (1 : Fin 2) * 128 + 1 * q'.val = q'.val; omega
  have hv5 : vecOf (iblk11 V c 5 t) = vecOf (V c main_arg58 : (⟨2, ![1, 128]⟩ : Shape).Idx → EReal) := by
    funext q'
    show V c main_arg58 (((cfg11.win 5).blk t).view.emb (ix2 (0 : Fin 1) q')) = V c main_arg58 (ix2 (0 : Fin 1) q')
    refine congrArg (V c main_arg58) (funext fun a => Fin.ext ?_)
    match a with
    | ⟨0, _⟩ => show win11_5.index t (0 : Fin 2) * 1 + 1 * 0 = 0; omega
    | ⟨1, _⟩ => show win11_5.index t (1 : Fin 2) * 128 + 1 * q'.val = q'.val; omega
  rw [hr0, hr1, hr2, hr3, hv4, hv5]

/-- An index of the array is in point t's block iff each coordinate is in the block's range on its axis. -/
theorem mem_blk11_6 (t : Fin cfg11.N) (i : (⟨2, ![16384, 128]⟩ : Shape).Idx) :
    i ∈ ((cfg11.win 6).blk t).view.set ↔ ∀ a : Fin 2, win11_6.index t a * S256x128.size a ≤ (i a).val ∧ (i a).val < win11_6.index t a * S256x128.size a + S256x128.size a := by
  show i ∈ ((View.whole main_v63).slice (win11_6.rect t)).set ↔ _
  rw [View.set_slice_whole, Rect.mem_set_unit]
  exact Iff.rfl

/-- Every row lies in the block of the point row / 256. -/
theorem covered11_6 (i : (⟨2, ![16384, 128]⟩ : Shape).Idx) :
    ∃ t : Fin cfg11.N, (cfg11.win 6).flush t = true ∧ i ∈ ((cfg11.win 6).blk t).view.set := by
  have hi0 : (i 0).val < 16384 := (i 0).isLt
  have hi1 : (i 1).val < 128 := (i 1).isLt
  have hN : cfg11.N = 64 := N_11
  let t : Fin cfg11.N := ⟨(i 0).val / 256, by rw [hN]; omega⟩
  have ht : t.val = (i 0).val / 256 := rfl
  have e0 : win11_6.index t (0 : Fin 2) = t.val := (idx11 t).2.2.2.2.2.2.2.2.2.2.2.2.1
  have e1 : win11_6.index t (1 : Fin 2) = 0 := (idx11 t).2.2.2.2.2.2.2.2.2.2.2.2.2
  refine ⟨t, flush11_6 t, ?_⟩
  rw [mem_blk11_6]
  intro a
  match a with
  | ⟨0, _⟩ => show win11_6.index t (0 : Fin 2) * 256 ≤ (i 0).val ∧ (i 0).val < win11_6.index t (0 : Fin 2) * 256 + 256; omega
  | ⟨1, _⟩ => show win11_6.index t (1 : Fin 2) * 128 ≤ (i 1).val ∧ (i 1).val < win11_6.index t (1 : Fin 2) * 128 + 128; omega

/-- The output array after pallas_call 11, as a function of the region-entry arrays. -/
theorem fin11_6 (c : Dev nD) : (dat11 V c).arrAt 6 cfg11.N
    = updArr (V c main_v31 : (⟨2, ![16384, 128]⟩ : Shape).Idx → EReal) (V c main_v52_0 : (⟨2, ![16384, 128]⟩ : Shape).Idx → EReal) (V c main_v59 : (⟨2, ![16384, 128]⟩ : Shape).Idx → EReal) (V c main_v62 : (⟨2, ![16384, 128]⟩ : Shape).Idx → EReal) (V c main_arg57) (V c main_arg58) :=
  (dat11 V c).arrAt_eq_of_cover 6 _ (fun t _ => flushed11_6_eq V c t) covered11_6

end Cert.ReferenceIdeal.Val

end
-- ==== Proof.RV.Layers.lean ====
/-
  The reference's four layers, each as the layer function on rows of what it reads: the region finals, the
  host stretches read at an index, and the buffers kept between them, put together.
-/
import proofs.«117664_g2000706958607885_pallasbulk_534_41_alg».proof.Proof.RV.Chains
import proofs.«117664_g2000706958607885_pallasbulk_534_41_alg».proof.Proof.RV.HostSlice
import proofs.«117664_g2000706958607885_pallasbulk_534_41_alg».proof.Proof.RV.HostTake1
import proofs.«117664_g2000706958607885_pallasbulk_534_41_alg».proof.Proof.RV.HostTake4
import proofs.«117664_g2000706958607885_pallasbulk_534_41_alg».proof.Proof.RV.HostTake7
import proofs.«117664_g2000706958607885_pallasbulk_534_41_alg».proof.Proof.RV.HostTake10
import proofs.«117664_g2000706958607885_pallasbulk_534_41_alg».proof.Proof.RV.HostScatter
import proofs.«117664_g2000706958607885_pallasbulk_534_41_alg».proof.Proof.RV.Layer
import proofs.«117664_g2000706958607885_pallasbulk_534_41_alg».proof.Proof.RV.Fin0
import proofs.«117664_g2000706958607885_pallasbulk_534_41_alg».proof.Proof.RV.Fin1
import proofs.«117664_g2000706958607885_pallasbulk_534_41_alg».proof.Proof.RV.Fin2
import proofs.«117664_g2000706958607885_pallasbulk_534_41_alg».proof.Proof.RV.Fin3
import proofs.«117664_g2000706958607885_pallasbulk_534_41_alg».proof.Proof.RV.Fin4
import proofs.«117664_g2000706958607885_pallasbulk_534_41_alg».proof.Proof.RV.Fin5
import proofs.«117664_g2000706958607885_pallasbulk_534_41_alg».proof.Proof.RV.Fin6
import proofs.«117664_g2000706958607885_pallasbulk_534_41_alg».proof.Proof.RV.Fin7
import proofs.«117664_g2000706958607885_pallasbulk_534_41_alg».proof.Proof.RV.Fin8
import proofs.«117664_g2000706958607885_pallasbulk_534_41_alg».proof.Proof.RV.Fin9
import proofs.«117664_g2000706958607885_pallasbulk_534_41_alg».proof.Proof.RV.Fin10
import proofs.«117664_g2000706958607885_pallasbulk_534_41_alg».proof.Proof.RV.Fin11

set_option maxRecDepth 16384

noncomputable section

namespace Cert.ReferenceIdeal.Val

open Cert.ReferenceIdeal Cert.ReferenceIdeal.Gen Cert.ReferenceIdeal.GenP
open Idealize.ShloMosaic Idealize.ShloMosaic.TcCoe Idealize.ShloMosaic.ValueIdx Idealize.SL.Sem
open Idealize.ShloMosaic.Pipeline (Dat)
open Cert.ResultsSpec Cert.Bridge
open scoped BigOperators

variable (m : (ℓ : Loc nD τ sig) → Buf (Elt Ideal) ℓ) (ρ : Dev nD → PrngReg) (c : Dev nD)

theorem linArr_congr {n : Nat} {x x' : A n 128} {w w' : A 128 128} {b b' : A 1 128} (hx : x = x') (hw : w = w') (hb : b = b') :
    linArr x w b = linArr x' w' b' := by subst hx hw hb; rfl

theorem eNewArr_congr {n : Nat} {xd xd' xs xs' e e' : A n 128} {wA wA' wB wB' wC wC' : A 128 128} {bA bA' bB bB' bC bC' g g' b b' : A 1 128}
    (h1 : xd = xd') (h2 : xs = xs') (h3 : e = e') (h4 : wA = wA') (h5 : wB = wB') (h6 : wC = wC') (h7 : bA = bA') (h8 : bB = bB') (h9 : bC = bC')
    (h10 : g = g') (h11 : b = b') :
    eNewArr xd xs e wA wB wC bA bB bC g b = eNewArr xd' xs' e' wA' wB' wC' bA' bB' bC' g' b' := by
  subst h1 h2 h3 h4 h5 h6 h7 h8 h9 h10 h11; rfl

theorem msgArr_congr {n : Nat} {xd xd' xs xs' e e' ms ms' : A n 128} {wA wA' wB wB' wC wC' : A 128 128} {bA bA' bB bB' bC bC' : A 1 128}
    (h1 : xd = xd') (h2 : xs = xs') (h3 : e = e') (h0 : ms = ms') (h4 : wA = wA') (h5 : wB = wB') (h6 : wC = wC') (h7 : bA = bA') (h8 : bB = bB') (h9 : bC = bC') :
    msgArr xd xs e ms wA wB wC bA bB bC = msgArr xd' xs' e' ms' wA' wB' wC' bA' bB' bC' := by
  subst h1 h2 h3 h0 h4 h5 h6 h7 h8 h9; rfl

theorem sigArr_congr {n : Nat} {xd xd' xs xs' e e' : A n 128} {wA wA' wB wB' wC wC' : A 128 128} {bA bA' bB bB' bC bC' : A 1 128}
    (h1 : xd = xd') (h2 : xs = xs') (h3 : e = e') (h4 : wA = wA') (h5 : wB = wB') (h6 : wC = wC') (h7 : bA = bA') (h8 : bB = bB') (h9 : bC = bC') :
    sigArr xd xs e wA wB wC bA bB bC = sigArr xd' xs' e' wA' wB' wC' bA' bB' bC' := by
  subst h1 h2 h3 h4 h5 h6 h7 h8 h9; rfl

theorem updArr_congr {n : Nat} {x x' hs hs' num num' den den' : A n 128} {g g' b b' : A 1 128}
    (h1 : x = x') (h2 : hs = hs') (h3 : num = num') (h4 : den = den') (h5 : g = g') (h6 : b = b') :
    updArr x hs num den g b = updArr x' hs' num' den' g' b' := by
  subst h1 h2 h3 h4 h5 h6; rfl

/-- The layer bg0: regions 0, 1, 2 and the host stretches between them. -/
theorem layer_bg0 (hA : ∀ i, 0 ≤ ((m ((c : Thread nD τ).loc main_arg4) : IVec S2x131072 32) i).toInt ∧ ((m ((c : Thread nD τ).loc main_arg4) : IVec S2x131072 32) i).toInt < 65536) :
    rows (W8 m ρ c (Proc.devRef .tc main_v15) : A 65536 128) = xNewR (⟨m ((c : Thread nD τ).loc main_arg5), m ((c : Thread nD τ).loc main_arg6), m ((c : Thread nD τ).loc main_arg7), m ((c : Thread nD τ).loc main_arg8), m ((c : Thread nD τ).loc main_arg9), m ((c : Thread nD τ).loc main_arg10), m ((c : Thread nD τ).loc main_arg11), m ((c : Thread nD τ).loc main_arg12), m ((c : Thread nD τ).loc main_arg13), m ((c : Thread nD τ).loc main_arg14), m ((c : Thread nD τ).loc main_arg15), m ((c : Thread nD τ).loc main_arg16), m ((c : Thread nD τ).loc main_arg17), m ((c : Thread nD τ).loc main_arg18)⟩ : LayerArgs).params (rows (m ((c : Thread nD τ).loc main_arg1) : A 65536 128)) (rows (m ((c : Thread nD τ).loc main_arg2) : A 131072 128)) (idxFn 65536 (by decide) (m ((c : Thread nD τ).loc main_arg4) : IVec S2x131072 32) 0) (idxFn 65536 (by decide) (m ((c : Thread nD τ).loc main_arg4) : IVec S2x131072 32) 1)
    ∧ rows (W6 m ρ c (Proc.devRef .tc main_v8_0) : A 131072 128) = eNewR (⟨m ((c : Thread nD τ).loc main_arg5), m ((c : Thread nD τ).loc main_arg6), m ((c : Thread nD τ).loc main_arg7), m ((c : Thread nD τ).loc main_arg8), m ((c : Thread nD τ).loc main_arg9), m ((c : Thread nD τ).loc main_arg10), m ((c : Thread nD τ).loc main_arg11), m ((c : Thread nD τ).loc main_arg12), m ((c : Thread nD τ).loc main_arg13), m ((c : Thread nD τ).loc main_arg14), m ((c : Thread nD τ).loc main_arg15), m ((c : Thread nD τ).loc main_arg16), m ((c : Thread nD τ).loc main_arg17), m ((c : Thread nD τ).loc main_arg18)⟩ : LayerArgs).params (rows (m ((c : Thread nD τ).loc main_arg1) : A 65536 128)) (rows (m ((c : Thread nD τ).loc main_arg2) : A 131072 128)) (idxFn 65536 (by decide) (m ((c : Thread nD τ).loc main_arg4) : IVec S2x131072 32) 0) (idxFn 65536 (by decide) (m ((c : Thread nD τ).loc main_arg4) : IVec S2x131072 32) 1) :=
  layer_eq (⟨m ((c : Thread nD τ).loc main_arg5), m ((c : Thread nD τ).loc main_arg6), m ((c : Thread nD τ).loc main_arg7), m ((c : Thread nD τ).loc main_arg8), m ((c : Thread nD τ).loc main_arg9), m ((c : Thread nD τ).loc main_arg10), m ((c : Thread nD τ).loc main_arg11), m ((c : Thread nD τ).loc main_arg12), m ((c : Thread nD τ).loc main_arg13), m ((c : Thread nD τ).loc main_arg14), m ((c : Thread nD τ).loc main_arg15), m ((c : Thread nD τ).loc main_arg16), m ((c : Thread nD τ).loc main_arg17), m ((c : Thread nD τ).loc main_arg18)⟩ : LayerArgs) (idxFn 65536 (by decide) (m ((c : Thread nD τ).loc main_arg4) : IVec S2x131072 32) 0) (idxFn 65536 (by decide) (m ((c : Thread nD τ).loc main_arg4) : IVec S2x131072 32) 1)
    (m ((c : Thread nD τ).loc main_arg1) : A 65536 128) (W2 m ρ c (Proc.devRef .tc main_v4_0) : A 65536 128) (W2 m ρ c (Proc.devRef .tc main_v4_1) : A 65536 128) (W7 m ρ c (Proc.devRef .tc main_v11) : A 65536 128) (W7 m ρ c (Proc.devRef .tc main_v14) : A 65536 128) (W8 m ρ c (Proc.devRef .tc main_v15) : A 65536 128)
    (m ((c : Thread nD τ).loc main_arg2) : A 131072 128) (W3 m ρ c (Proc.devRef .tc main_v5) : A 131072 128) (W4 m ρ c (Proc.devRef .tc main_v6) : A 131072 128) (W5 m ρ c (Proc.devRef .tc main_v7) : A 131072 128) (W6 m ρ c (Proc.devRef .tc main_v8_0) : A 131072 128) (W6 m ρ c (Proc.devRef .tc main_v8_1) : A 131072 128) (W6 m ρ c (Proc.devRef .tc main_v8_2) : A 131072 128)
    ((W2_arr m ρ c 5).trans ((fin0_5 (V1 m ρ) c).trans (linArr_congr (kp_main_arg1_0_1 m ρ c) (kp_main_arg5_0_1 m ρ c) (kp_main_arg6_0_1 m ρ c))))
    ((W2_arr m ρ c 6).trans ((fin0_6 (V1 m ρ) c).trans (linArr_congr (kp_main_arg1_0_1 m ρ c) (kp_main_arg7_0_1 m ρ c) (kp_main_arg8_0_1 m ρ c))))
    (fun j q => (host1_v5 (W2 m ρ c) (fun s => (congrFun (kp_main_v3_1_2 m ρ c) (ix1 s)).trans ((host0_v3 (W0 m ρ c) s).trans ((congrFun rfl (ix2 (1 : Fin 2) s)).trans (congrFun (kp_main_arg4_0_2 m ρ c) (ix2 (1 : Fin 2) s)).symm))) (fun i => by rw [kp_main_arg4_0_2 m ρ c]; exact hA i) j q).trans (by rw [kp_main_arg1_0_2 m ρ c, kp_main_arg4_0_2 m ρ c]))
    (fun j q => (host1_1_v6 (W3 m ρ c) (fun s => (congrFun (kp_main_v1_1_3 m ρ c) (ix1 s)).trans ((host0_v1 (W0 m ρ c) s).trans ((congrFun rfl (ix2 (0 : Fin 2) s)).trans (congrFun (kp_main_arg4_0_3 m ρ c) (ix2 (0 : Fin 2) s)).symm))) (fun i => by rw [kp_main_arg4_0_3 m ρ c]; exact hA i) j q).trans (by rw [kp_main_arg1_0_3 m ρ c, kp_main_arg4_0_3 m ρ c]))
    (fun j q => (host1_2_v7 (W4 m ρ c) (fun s => (congrFun (kp_main_v1_1_4 m ρ c) (ix1 s)).trans ((host0_v1 (W0 m ρ c) s).trans ((congrFun rfl (ix2 (0 : Fin 2) s)).trans (congrFun (kp_main_arg4_0_4 m ρ c) (ix2 (0 : Fin 2) s)).symm))) (fun i => by rw [kp_main_arg4_0_4 m ρ c]; exact hA i) j q).trans (by rw [kp_main_v4_1_2_4 m ρ c, kp_main_arg4_0_4 m ρ c]))
    ((W6_arr m ρ c 12).trans ((fin1_12 (V5 m ρ) c).trans (eNewArr_congr (kp_main_v5_3_5 m ρ c) (kp_main_v6_4_5 m ρ c) (kp_main_arg2_0_5 m ρ c) (kp_main_arg9_0_5 m ρ c) (kp_main_arg11_0_5 m ρ c) (kp_main_arg13_0_5 m ρ c) (kp_main_arg10_0_5 m ρ c) (kp_main_arg12_0_5 m ρ c) (kp_main_arg14_0_5 m ρ c) (kp_main_arg17_0_5 m ρ c) (kp_main_arg18_0_5 m ρ c))))
    ((W6_arr m ρ c 13).trans ((fin1_13 (V5 m ρ) c).trans (msgArr_congr (kp_main_v5_3_5 m ρ c) (kp_main_v6_4_5 m ρ c) (kp_main_arg2_0_5 m ρ c) rfl (kp_main_arg9_0_5 m ρ c) (kp_main_arg11_0_5 m ρ c) (kp_main_arg13_0_5 m ρ c) (kp_main_arg10_0_5 m ρ c) (kp_main_arg12_0_5 m ρ c) (kp_main_arg14_0_5 m ρ c))))
    ((W6_arr m ρ c 14).trans ((fin1_14 (V5 m ρ) c).trans (sigArr_congr (kp_main_v5_3_5 m ρ c) (kp_main_v6_4_5 m ρ c) (kp_main_arg2_0_5 m ρ c) (kp_main_arg9_0_5 m ρ c) (kp_main_arg11_0_5 m ρ c) (kp_main_arg13_0_5 m ρ c) (kp_main_arg10_0_5 m ρ c) (kp_main_arg12_0_5 m ρ c) (kp_main_arg14_0_5 m ρ c))))
    (fun n q => (host2_v11 (W6 m ρ c) (fun s => (congrFun (kp_main_v3_1_6 m ρ c) (ix1 s)).trans ((host0_v3 (W0 m ρ c) s).trans ((congrFun rfl (ix2 (1 : Fin 2) s)).trans (congrFun (kp_main_arg4_0_6 m ρ c) (ix2 (1 : Fin 2) s)).symm))) (fun i => by rw [kp_main_arg4_0_6 m ρ c]; exact hA i) n q).trans (by rw [kp_main_arg4_0_6 m ρ c]))
    (fun n q => (host2_v14 (W6 m ρ c) (fun s => (congrFun (kp_main_v3_1_6 m ρ c) (ix1 s)).trans ((host0_v3 (W0 m ρ c) s).trans ((congrFun rfl (ix2 (1 : Fin 2) s)).trans (congrFun (kp_main_arg4_0_6 m ρ c) (ix2 (1 : Fin 2) s)).symm))) (fun i => by rw [kp_main_arg4_0_6 m ρ c]; exact hA i) n q).trans (by rw [kp_main_arg4_0_6 m ρ c]))
    ((W8_arr m ρ c 6).trans ((fin2_6 (V7 m ρ) c).trans (updArr_congr (kp_main_arg1_0_7 m ρ c) (kp_main_v4_0_2_7 m ρ c) rfl rfl (kp_main_arg15_0_7 m ρ c) (kp_main_arg16_0_7 m ρ c))))

/-- The layer ab0: regions 3, 4, 5 and the host stretches between them. -/
theorem layer_ab0 (hG : ∀ i, 0 ≤ ((m ((c : Thread nD τ).loc main_arg3) : IVec S2x65536 32) i).toInt ∧ ((m ((c : Thread nD τ).loc main_arg3) : IVec S2x65536 32) i).toInt < 16384) :
    rows (W16 m ρ c (Proc.devRef .tc main_v31) : A 16384 128) = xNewR (⟨m ((c : Thread nD τ).loc main_arg33), m ((c : Thread nD τ).loc main_arg34), m ((c : Thread nD τ).loc main_arg35), m ((c : Thread nD τ).loc main_arg36), m ((c : Thread nD τ).loc main_arg37), m ((c : Thread nD τ).loc main_arg38), m ((c : Thread nD τ).loc main_arg39), m ((c : Thread nD τ).loc main_arg40), m ((c : Thread nD τ).loc main_arg41), m ((c : Thread nD τ).loc main_arg42), m ((c : Thread nD τ).loc main_arg43), m ((c : Thread nD τ).loc main_arg44), m ((c : Thread nD τ).loc main_arg45), m ((c : Thread nD τ).loc main_arg46)⟩ : LayerArgs).params (rows (m ((c : Thread nD τ).loc main_arg0) : A 16384 128)) (rows (W8 m ρ c (Proc.devRef .tc main_v15) : A 65536 128)) (idxFn 16384 (by decide) (m ((c : Thread nD τ).loc main_arg3) : IVec S2x65536 32) 0) (idxFn 16384 (by decide) (m ((c : Thread nD τ).loc main_arg3) : IVec S2x65536 32) 1)
    ∧ rows (W14 m ρ c (Proc.devRef .tc main_v24_0) : A 65536 128) = eNewR (⟨m ((c : Thread nD τ).loc main_arg33), m ((c : Thread nD τ).loc main_arg34), m ((c : Thread nD τ).loc main_arg35), m ((c : Thread nD τ).loc main_arg36), m ((c : Thread nD τ).loc main_arg37), m ((c : Thread nD τ).loc main_arg38), m ((c : Thread nD τ).loc main_arg39), m ((c : Thread nD τ).loc main_arg40), m ((c : Thread nD τ).loc main_arg41), m ((c : Thread nD τ).loc main_arg42), m ((c : Thread nD τ).loc main_arg43), m ((c : Thread nD τ).loc main_arg44), m ((c : Thread nD τ).loc main_arg45), m ((c : Thread nD τ).loc main_arg46)⟩ : LayerArgs).params (rows (m ((c : Thread nD τ).loc main_arg0) : A 16384 128)) (rows (W8 m ρ c (Proc.devRef .tc main_v15) : A 65536 128)) (idxFn 16384 (by decide) (m ((c : Thread nD τ).loc main_arg3) : IVec S2x65536 32) 0) (idxFn 16384 (by decide) (m ((c : Thread nD τ).loc main_arg3) : IVec S2x65536 32) 1) :=
  layer_eq (⟨m ((c : Thread nD τ).loc main_arg33), m ((c : Thread nD τ).loc main_arg34), m ((c : Thread nD τ).loc main_arg35), m ((c : Thread nD τ).loc main_arg36), m ((c : Thread nD τ).loc main_arg37), m ((c : Thread nD τ).loc main_arg38), m ((c : Thread nD τ).loc main_arg39), m ((c : Thread nD τ).loc main_arg40), m ((c : Thread nD τ).loc main_arg41), m ((c : Thread nD τ).loc main_arg42), m ((c : Thread nD τ).loc main_arg43), m ((c : Thread nD τ).loc main_arg44), m ((c : Thread nD τ).loc main_arg45), m ((c : Thread nD τ).loc main_arg46)⟩ : LayerArgs) (idxFn 16384 (by decide) (m ((c : Thread nD τ).loc main_arg3) : IVec S2x65536 32) 0) (idxFn 16384 (by decide) (m ((c : Thread nD τ).loc main_arg3) : IVec S2x65536 32) 1)
    (m ((c : Thread nD τ).loc main_arg0) : A 16384 128) (W10 m ρ c (Proc.devRef .tc main_v20_0) : A 16384 128) (W10 m ρ c (Proc.devRef .tc main_v20_1) : A 16384 128) (W15 m ρ c (Proc.devRef .tc main_v27) : A 16384 128) (W15 m ρ c (Proc.devRef .tc main_v30) : A 16384 128) (W16 m ρ c (Proc.devRef .tc main_v31) : A 16384 128)
    (W8 m ρ c (Proc.devRef .tc main_v15) : A 65536 128) (W11 m ρ c (Proc.devRef .tc main_v21) : A 65536 128) (W12 m ρ c (Proc.devRef .tc main_v22) : A 65536 128) (W13 m ρ c (Proc.devRef .tc main_v23) : A 65536 128) (W14 m ρ c (Proc.devRef .tc main_v24_0) : A 65536 128) (W14 m ρ c (Proc.devRef .tc main_v24_1) : A 65536 128) (W14 m ρ c (Proc.devRef .tc main_v24_2) : A 65536 128)
    ((W10_arr m ρ c 5).trans ((fin3_5 (V9 m ρ) c).trans (linArr_congr (kp_main_arg0_0_9 m ρ c) (kp_main_arg33_0_9 m ρ c) (kp_main_arg34_0_9 m ρ c))))
    ((W10_arr m ρ c 6).trans ((fin3_6 (V9 m ρ) c).trans (linArr_congr (kp_main_arg0_0_9 m ρ c) (kp_main_arg35_0_9 m ρ c) (kp_main_arg36_0_9 m ρ c))))
    (fun j q => (host4_v21 (W10 m ρ c) (fun s => (congrFun (kp_main_v19_9_10 m ρ c) (ix1 s)).trans ((host3_v19 (W8 m ρ c) s).trans ((congrFun (kp_main_arg3_0_8 m ρ c) (ix2 (1 : Fin 2) s)).trans (congrFun (kp_main_arg3_0_10 m ρ c) (ix2 (1 : Fin 2) s)).symm))) (fun i => by rw [kp_main_arg3_0_10 m ρ c]; exact hG i) j q).trans (by rw [kp_main_arg0_0_10 m ρ c, kp_main_arg3_0_10 m ρ c]))
    (fun j q => (host4_1_v22 (W11 m ρ c) (fun s => (congrFun (kp_main_v17_9_11 m ρ c) (ix1 s)).trans ((host3_v17 (W8 m ρ c) s).trans ((congrFun (kp_main_arg3_0_8 m ρ c) (ix2 (0 : Fin 2) s)).trans (congrFun (kp_main_arg3_0_11 m ρ c) (ix2 (0 : Fin 2) s)).symm))) (fun i => by rw [kp_main_arg3_0_11 m ρ c]; exact hG i) j q).trans (by rw [kp_main_arg0_0_11 m ρ c, kp_main_arg3_0_11 m ρ c]))
    (fun j q => (host4_2_v23 (W12 m ρ c) (fun s => (congrFun (kp_main_v17_9_12 m ρ c) (ix1 s)).trans ((host3_v17 (W8 m ρ c) s).trans ((congrFun (kp_main_arg3_0_8 m ρ c) (ix2 (0 : Fin 2) s)).trans (congrFun (kp_main_arg3_0_12 m ρ c) (ix2 (0 : Fin 2) s)).symm))) (fun i => by rw [kp_main_arg3_0_12 m ρ c]; exact hG i) j q).trans (by rw [kp_main_v20_1_10_12 m ρ c, kp_main_arg3_0_12 m ρ c]))
    ((W14_arr m ρ c 12).trans ((fin4_12 (V13 m ρ) c).trans (eNewArr_congr (kp_main_v21_11_13 m ρ c) (kp_main_v22_12_13 m ρ c) (kp_main_v15_8_13 m ρ c) (kp_main_arg37_0_13 m ρ c) (kp_main_arg39_0_13 m ρ c) (kp_main_arg41_0_13 m ρ c) (kp_main_arg38_0_13 m ρ c) (kp_main_arg40_0_13 m ρ c) (kp_main_arg42_0_13 m ρ c) (kp_main_arg45_0_13 m ρ c) (kp_main_arg46_0_13 m ρ c))))
    ((W14_arr m ρ c 13).trans ((fin4_13 (V13 m ρ) c).trans (msgArr_congr (kp_main_v21_11_13 m ρ c) (kp_main_v22_12_13 m ρ c) (kp_main_v15_8_13 m ρ c) rfl (kp_main_arg37_0_13 m ρ c) (kp_main_arg39_0_13 m ρ c) (kp_main_arg41_0_13 m ρ c) (kp_main_arg38_0_13 m ρ c) (kp_main_arg40_0_13 m ρ c) (kp_main_arg42_0_13 m ρ c))))
    ((W14_arr m ρ c 14).trans ((fin4_14 (V13 m ρ) c).trans (sigArr_congr (kp_main_v21_11_13 m ρ c) (kp_main_v22_12_13 m ρ c) (kp_main_v15_8_13 m ρ c) (kp_main_arg37_0_13 m ρ c) (kp_main_arg39_0_13 m ρ c) (kp_main_arg41_0_13 m ρ c) (kp_main_arg38_0_13 m ρ c) (kp_main_arg40_0_13 m ρ c) (kp_main_arg42_0_13 m ρ c))))
    (fun n q => (host5_v27 (W14 m ρ c) (fun s => (congrFun (kp_main_v19_9_14 m ρ c) (ix1 s)).trans ((host3_v19 (W8 m ρ c) s).trans ((congrFun (kp_main_arg3_0_8 m ρ c) (ix2 (1 : Fin 2) s)).trans (congrFun (kp_main_arg3_0_14 m ρ c) (ix2 (1 : Fin 2) s)).symm))) (fun i => by rw [kp_main_arg3_0_14 m ρ c]; exact hG i) n q).trans (by rw [kp_main_arg3_0_14 m ρ c]))
    (fun n q => (host5_v30 (W14 m ρ c) (fun s => (congrFun (kp_main_v19_9_14 m ρ c) (ix1 s)).trans ((host3_v19 (W8 m ρ c) s).trans ((congrFun (kp_main_arg3_0_8 m ρ c) (ix2 (1 : Fin 2) s)).trans (congrFun (kp_main_arg3_0_14 m ρ c) (ix2 (1 : Fin 2) s)).symm))) (fun i => by rw [kp_main_arg3_0_14 m ρ c]; exact hG i) n q).trans (by rw [kp_main_arg3_0_14 m ρ c]))
    ((W16_arr m ρ c 6).trans ((fin5_6 (V15 m ρ) c).trans (updArr_congr (kp_main_arg0_0_15 m ρ c) (kp_main_v20_0_10_15 m ρ c) rfl rfl (kp_main_arg43_0_15 m ρ c) (kp_main_arg44_0_15 m ρ c))))

/-- The layer bg1: regions 6, 7, 8 and the host stretches between them. -/
theorem layer_bg1 (hA : ∀ i, 0 ≤ ((m ((c : Thread nD τ).loc main_arg4) : IVec S2x131072 32) i).toInt ∧ ((m ((c : Thread nD τ).loc main_arg4) : IVec S2x131072 32) i).toInt < 65536) :
    rows (W24 m ρ c (Proc.devRef .tc main_v47) : A 65536 128) = xNewR (⟨m ((c : Thread nD τ).loc main_arg19), m ((c : Thread nD τ).loc main_arg20), m ((c : Thread nD τ).loc main_arg21), m ((c : Thread nD τ).loc main_arg22), m ((c : Thread nD τ).loc main_arg23), m ((c : Thread nD τ).loc main_arg24), m ((c : Thread nD τ).loc main_arg25), m ((c : Thread nD τ).loc main_arg26), m ((c : Thread nD τ).loc main_arg27), m ((c : Thread nD τ).loc main_arg28), m ((c : Thread nD τ).loc main_arg29), m ((c : Thread nD τ).loc main_arg30), m ((c : Thread nD τ).loc main_arg31), m ((c : Thread nD τ).loc main_arg32)⟩ : LayerArgs).params (rows (W14 m ρ c (Proc.devRef .tc main_v24_0) : A 65536 128)) (rows (W6 m ρ c (Proc.devRef .tc main_v8_0) : A 131072 128)) (idxFn 65536 (by decide) (m ((c : Thread nD τ).loc main_arg4) : IVec S2x131072 32) 0) (idxFn 65536 (by decide) (m ((c : Thread nD τ).loc main_arg4) : IVec S2x131072 32) 1)
    ∧ rows (W22 m ρ c (Proc.devRef .tc main_v40_0) : A 131072 128) = eNewR (⟨m ((c : Thread nD τ).loc main_arg19), m ((c : Thread nD τ).loc main_arg20), m ((c : Thread nD τ).loc main_arg21), m ((c : Thread nD τ).loc main_arg22), m ((c : Thread nD τ).loc main_arg23), m ((c : Thread nD τ).loc main_arg24), m ((c : Thread nD τ).loc main_arg25), m ((c : Thread nD τ).loc main_arg26), m ((c : Thread nD τ).loc main_arg27), m ((c : Thread nD τ).loc main_arg28), m ((c : Thread nD τ).loc main_arg29), m ((c : Thread nD τ).loc main_arg30), m ((c : Thread nD τ).loc main_arg31), m ((c : Thread nD τ).loc main_arg32)⟩ : LayerArgs).params (rows (W14 m ρ c (Proc.devRef .tc main_v24_0) : A 65536 128)) (rows (W6 m ρ c (Proc.devRef .tc main_v8_0) : A 131072 128)) (idxFn 65536 (by decide) (m ((c : Thread nD τ).loc main_arg4) : IVec S2x131072 32) 0) (idxFn 65536 (by decide) (m ((c : Thread nD τ).loc main_arg4) : IVec S2x131072 32) 1) :=
  layer_eq (⟨m ((c : Thread nD τ).loc main_arg19), m ((c : Thread nD τ).loc main_arg20), m ((c : Thread nD τ).loc main_arg21), m ((c : Thread nD τ).loc main_arg22), m ((c : Thread nD τ).loc main_arg23), m ((c : Thread nD τ).loc main_arg24), m ((c : Thread nD τ).loc main_arg25), m ((c : Thread nD τ).loc main_arg26), m ((c : Thread nD τ).loc main_arg27), m ((c : Thread nD τ).loc main_arg28), m ((c : Thread nD τ).loc main_arg29), m ((c : Thread nD τ).loc main_arg30), m ((c : Thread nD τ).loc main_arg31), m ((c : Thread nD τ).loc main_arg32)⟩ : LayerArgs) (idxFn 65536 (by decide) (m ((c : Thread nD τ).loc main_arg4) : IVec S2x131072 32) 0) (idxFn 65536 (by decide) (m ((c : Thread nD τ).loc main_arg4) : IVec S2x131072 32) 1)
    (W14 m ρ c (Proc.devRef .tc main_v24_0) : A 65536 128) (W18 m ρ c (Proc.devRef .tc main_v36_0) : A 65536 128) (W18 m ρ c (Proc.devRef .tc main_v36_1) : A 65536 128) (W23 m ρ c (Proc.devRef .tc main_v43) : A 65536 128) (W23 m ρ c (Proc.devRef .tc main_v46) : A 65536 128) (W24 m ρ c (Proc.devRef .tc main_v47) : A 65536 128)
    (W6 m ρ c (Proc.devRef .tc main_v8_0) : A 131072 128) (W19 m ρ c (Proc.devRef .tc main_v37) : A 131072 128) (W20 m ρ c (Proc.devRef .tc main_v38) : A 131072 128) (W21 m ρ c (Proc.devRef .tc main_v39) : A 131072 128) (W22 m ρ c (Proc.devRef .tc main_v40_0) : A 131072 128) (W22 m ρ c (Proc.devRef .tc main_v40_1) : A 131072 128) (W22 m ρ c (Proc.devRef .tc main_v40_2) : A 131072 128)
    ((W18_arr m ρ c 5).trans ((fin6_5 (V17 m ρ) c).trans (linArr_congr (kp_main_v24_0_14_17 m ρ c) (kp_main_arg19_0_17 m ρ c) (kp_main_arg20_0_17 m ρ c))))
    ((W18_arr m ρ c 6).trans ((fin6_6 (V17 m ρ) c).trans (linArr_congr (kp_main_v24_0_14_17 m ρ c) (kp_main_arg21_0_17 m ρ c) (kp_main_arg22_0_17 m ρ c))))
    (fun j q => (host7_v37 (W18 m ρ c) (fun s => (congrFun (kp_main_v35_17_18 m ρ c) (ix1 s)).trans ((host6_v35 (W16 m ρ c) s).trans ((congrFun (kp_main_arg4_0_16 m ρ c) (ix2 (1 : Fin 2) s)).trans (congrFun (kp_main_arg4_0_18 m ρ c) (ix2 (1 : Fin 2) s)).symm))) (fun i => by rw [kp_main_arg4_0_18 m ρ c]; exact hA i) j q).trans (by rw [kp_main_v24_0_14_18 m ρ c, kp_main_arg4_0_18 m ρ c]))
    (fun j q => (host7_1_v38 (W19 m ρ c) (fun s => (congrFun (kp_main_v33_17_19 m ρ c) (ix1 s)).trans ((host6_v33 (W16 m ρ c) s).trans ((congrFun (kp_main_arg4_0_16 m ρ c) (ix2 (0 : Fin 2) s)).trans (congrFun (kp_main_arg4_0_19 m ρ c) (ix2 (0 : Fin 2) s)).symm))) (fun i => by rw [kp_main_arg4_0_19 m ρ c]; exact hA i) j q).trans (by rw [kp_main_v24_0_14_19 m ρ c, kp_main_arg4_0_19 m ρ c]))
    (fun j q => (host7_2_v39 (W20 m ρ c) (fun s => (congrFun (kp_main_v33_17_20 m ρ c) (ix1 s)).trans ((host6_v33 (W16 m ρ c) s).trans ((congrFun (kp_main_arg4_0_16 m ρ c) (ix2 (0 : Fin 2) s)).trans (congrFun (kp_main_arg4_0_20 m ρ c) (ix2 (0 : Fin 2) s)).symm))) (fun i => by rw [kp_main_arg4_0_20 m ρ c]; exact hA i) j q).trans (by rw [kp_main_v36_1_18_20 m ρ c, kp_main_arg4_0_20 m ρ c]))
    ((W22_arr m ρ c 12).trans ((fin7_12 (V21 m ρ) c).trans (eNewArr_congr (kp_main_v37_19_21 m ρ c) (kp_main_v38_20_21 m ρ c) (kp_main_v8_0_6_21 m ρ c) (kp_main_arg23_0_21 m ρ c) (kp_main_arg25_0_21 m ρ c) (kp_main_arg27_0_21 m ρ c) (kp_main_arg24_0_21 m ρ c) (kp_main_arg26_0_21 m ρ c) (kp_main_arg28_0_21 m ρ c) (kp_main_arg31_0_21 m ρ c) (kp_main_arg32_0_21 m ρ c))))
    ((W22_arr m ρ c 13).trans ((fin7_13 (V21 m ρ) c).trans (msgArr_congr (kp_main_v37_19_21 m ρ c) (kp_main_v38_20_21 m ρ c) (kp_main_v8_0_6_21 m ρ c) rfl (kp_main_arg23_0_21 m ρ c) (kp_main_arg25_0_21 m ρ c) (kp_main_arg27_0_21 m ρ c) (kp_main_arg24_0_21 m ρ c) (kp_main_arg26_0_21 m ρ c) (kp_main_arg28_0_21 m ρ c))))
    ((W22_arr m ρ c 14).trans ((fin7_14 (V21 m ρ) c).trans (sigArr_congr (kp_main_v37_19_21 m ρ c) (kp_main_v38_20_21 m ρ c) (kp_main_v8_0_6_21 m ρ c) (kp_main_arg23_0_21 m ρ c) (kp_main_arg25_0_21 m ρ c) (kp_main_arg27_0_21 m ρ c) (kp_main_arg24_0_21 m ρ c) (kp_main_arg26_0_21 m ρ c) (kp_main_arg28_0_21 m ρ c))))
    (fun n q => (host8_v43 (W22 m ρ c) (fun s => (congrFun (kp_main_v35_17_22 m ρ c) (ix1 s)).trans ((host6_v35 (W16 m ρ c) s).trans ((congrFun (kp_main_arg4_0_16 m ρ c) (ix2 (1 : Fin 2) s)).trans (congrFun (kp_main_arg4_0_22 m ρ c) (ix2 (1 : Fin 2) s)).symm))) (fun i => by rw [kp_main_arg4_0_22 m ρ c]; exact hA i) n q).trans (by rw [kp_main_arg4_0_22 m ρ c]))
    (fun n q => (host8_v46 (W22 m ρ c) (fun s => (congrFun (kp_main_v35_17_22 m ρ c) (ix1 s)).trans ((host6_v35 (W16 m ρ c) s).trans ((congrFun (kp_main_arg4_0_16 m ρ c) (ix2 (1 : Fin 2) s)).trans (congrFun (kp_main_arg4_0_22 m ρ c) (ix2 (1 : Fin 2) s)).symm))) (fun i => by rw [kp_main_arg4_0_22 m ρ c]; exact hA i) n q).trans (by rw [kp_main_arg4_0_22 m ρ c]))
    ((W24_arr m ρ c 6).trans ((fin8_6 (V23 m ρ) c).trans (updArr_congr (kp_main_v24_0_14_23 m ρ c) (kp_main_v36_0_18_23 m ρ c) rfl rfl (kp_main_arg29_0_23 m ρ c) (kp_main_arg30_0_23 m ρ c))))

/-- The layer ab1: regions 9, 10, 11 and the host stretches between them. -/
theorem layer_ab1 (hG : ∀ i, 0 ≤ ((m ((c : Thread nD τ).loc main_arg3) : IVec S2x65536 32) i).toInt ∧ ((m ((c : Thread nD τ).loc main_arg3) : IVec S2x65536 32) i).toInt < 16384) :
    rows (W32 m ρ c (Proc.devRef .tc main_v63) : A 16384 128) = xNewR (⟨m ((c : Thread nD τ).loc main_arg47), m ((c : Thread nD τ).loc main_arg48), m ((c : Thread nD τ).loc main_arg49), m ((c : Thread nD τ).loc main_arg50), m ((c : Thread nD τ).loc main_arg51), m ((c : Thread nD τ).loc main_arg52), m ((c : Thread nD τ).loc main_arg53), m ((c : Thread nD τ).loc main_arg54), m ((c : Thread nD τ).loc main_arg55), m ((c : Thread nD τ).loc main_arg56), m ((c : Thread nD τ).loc main_arg57), m ((c : Thread nD τ).loc main_arg58), m ((c : Thread nD τ).loc main_arg59), m ((c : Thread nD τ).loc main_arg60)⟩ : LayerArgs).params (rows (W16 m ρ c (Proc.devRef .tc main_v31) : A 16384 128)) (rows (W24 m ρ c (Proc.devRef .tc main_v47) : A 65536 128)) (idxFn 16384 (by decide) (m ((c : Thread nD τ).loc main_arg3) : IVec S2x65536 32) 0) (idxFn 16384 (by decide) (m ((c : Thread nD τ).loc main_arg3) : IVec S2x65536 32) 1)
    ∧ rows (W30 m ρ c (Proc.devRef .tc main_v56_0) : A 65536 128) = eNewR (⟨m ((c : Thread nD τ).loc main_arg47), m ((c : Thread nD τ).loc main_arg48), m ((c : Thread nD τ).loc main_arg49), m ((c : Thread nD τ).loc main_arg50), m ((c : Thread nD τ).loc main_arg51), m ((c : Thread nD τ).loc main_arg52), m ((c : Thread nD τ).loc main_arg53), m ((c : Thread nD τ).loc main_arg54), m ((c : Thread nD τ).loc main_arg55), m ((c : Thread nD τ).loc main_arg56), m ((c : Thread nD τ).loc main_arg57), m ((c : Thread nD τ).loc main_arg58), m ((c : Thread nD τ).loc main_arg59), m ((c : Thread nD τ).loc main_arg60)⟩ : LayerArgs).params (rows (W16 m ρ c (Proc.devRef .tc main_v31) : A 16384 128)) (rows (W24 m ρ c (Proc.devRef .tc main_v47) : A 65536 128)) (idxFn 16384 (by decide) (m ((c : Thread nD τ).loc main_arg3) : IVec S2x65536 32) 0) (idxFn 16384 (by decide) (m ((c : Thread nD τ).loc main_arg3) : IVec S2x65536 32) 1) :=
  layer_eq (⟨m ((c : Thread nD τ).loc main_arg47), m ((c : Thread nD τ).loc main_arg48), m ((c : Thread nD τ).loc main_arg49), m ((c : Thread nD τ).loc main_arg50), m ((c : Thread nD τ).loc main_arg51), m ((c : Thread nD τ).loc main_arg52), m ((c : Thread nD τ).loc main_arg53), m ((c : Thread nD τ).loc main_arg54), m ((c : Thread nD τ).loc main_arg55), m ((c : Thread nD τ).loc main_arg56), m ((c : Thread nD τ).loc main_arg57), m ((c : Thread nD τ).loc main_arg58), m ((c : Thread nD τ).loc main_arg59), m ((c : Thread nD τ).loc main_arg60)⟩ : LayerArgs) (idxFn 16384 (by decide) (m ((c : Thread nD τ).loc main_arg3) : IVec S2x65536 32) 0) (idxFn 16384 (by decide) (m ((c : Thread nD τ).loc main_arg3) : IVec S2x65536 32) 1)
    (W16 m ρ c (Proc.devRef .tc main_v31) : A 16384 128) (W26 m ρ c (Proc.devRef .tc main_v52_0) : A 16384 128) (W26 m ρ c (Proc.devRef .tc main_v52_1) : A 16384 128) (W31 m ρ c (Proc.devRef .tc main_v59) : A 16384 128) (W31 m ρ c (Proc.devRef .tc main_v62) : A 16384 128) (W32 m ρ c (Proc.devRef .tc main_v63) : A 16384 128)
    (W24 m ρ c (Proc.devRef .tc main_v47) : A 65536 128) (W27 m ρ c (Proc.devRef .tc main_v53) : A 65536 128) (W28 m ρ c (Proc.devRef .tc main_v54) : A 65536 128) (W29 m ρ c (Proc.devRef .tc main_v55) : A 65536 128) (W30 m ρ c (Proc.devRef .tc main_v56_0) : A 65536 128) (W30 m ρ c (Proc.devRef .tc main_v56_1) : A 65536 128) (W30 m ρ c (Proc.devRef .tc main_v56_2) : A 65536 128)
    ((W26_arr m ρ c 5).trans ((fin9_5 (V25 m ρ) c).trans (linArr_congr (kp_main_v31_16_25 m ρ c) (kp_main_arg47_0_25 m ρ c) (kp_main_arg48_0_25 m ρ c))))
    ((W26_arr m ρ c 6).trans ((fin9_6 (V25 m ρ) c).trans (linArr_congr (kp_main_v31_16_25 m ρ c) (kp_main_arg49_0_25 m ρ c) (kp_main_arg50_0_25 m ρ c))))
    (fun j q => (host10_v53 (W26 m ρ c) (fun s => (congrFun (kp_main_v51_25_26 m ρ c) (ix1 s)).trans ((host9_v51 (W24 m ρ c) s).trans ((congrFun (kp_main_arg3_0_24 m ρ c) (ix2 (1 : Fin 2) s)).trans (congrFun (kp_main_arg3_0_26 m ρ c) (ix2 (1 : Fin 2) s)).symm))) (fun i => by rw [kp_main_arg3_0_26 m ρ c]; exact hG i) j q).trans (by rw [kp_main_v31_16_26 m ρ c, kp_main_arg3_0_26 m ρ c]))
    (fun j q => (host10_1_v54 (W27 m ρ c) (fun s => (congrFun (kp_main_v49_25_27 m ρ c) (ix1 s)).trans ((host9_v49 (W24 m ρ c) s).trans ((congrFun (kp_main_arg3_0_24 m ρ c) (ix2 (0 : Fin 2) s)).trans (congrFun (kp_main_arg3_0_27 m ρ c) (ix2 (0 : Fin 2) s)).symm))) (fun i => by rw [kp_main_arg3_0_27 m ρ c]; exact hG i) j q).trans (by rw [kp_main_v31_16_27 m ρ c, kp_main_arg3_0_27 m ρ c]))
    (fun j q => (host10_2_v55 (W28 m ρ c) (fun s => (congrFun (kp_main_v49_25_28 m ρ c) (ix1 s)).trans ((host9_v49 (W24 m ρ c) s).trans ((congrFun (kp_main_arg3_0_24 m ρ c) (ix2 (0 : Fin 2) s)).trans (congrFun (kp_main_arg3_0_28 m ρ c) (ix2 (0 : Fin 2) s)).symm))) (fun i => by rw [kp_main_arg3_0_28 m ρ c]; exact hG i) j q).trans (by rw [kp_main_v52_1_26_28 m ρ c, kp_main_arg3_0_28 m ρ c]))
    ((W30_arr m ρ c 12).trans ((fin10_12 (V29 m ρ) c).trans (eNewArr_congr (kp_main_v53_27_29 m ρ c) (kp_main_v54_28_29 m ρ c) (kp_main_v47_24_29 m ρ c) (kp_main_arg51_0_29 m ρ c) (kp_main_arg53_0_29 m ρ c) (kp_main_arg55_0_29 m ρ c) (kp_main_arg52_0_29 m ρ c) (kp_main_arg54_0_29 m ρ c) (kp_main_arg56_0_29 m ρ c) (kp_main_arg59_0_29 m ρ c) (kp_main_arg60_0_29 m ρ c))))
    ((W30_arr m ρ c 13).trans ((fin10_13 (V29 m ρ) c).trans (msgArr_congr (kp_main_v53_27_29 m ρ c) (kp_main_v54_28_29 m ρ c) (kp_main_v47_24_29 m ρ c) rfl (kp_main_arg51_0_29 m ρ c) (kp_main_arg53_0_29 m ρ c) (kp_main_arg55_0_29 m ρ c) (kp_main_arg52_0_29 m ρ c) (kp_main_arg54_0_29 m ρ c) (kp_main_arg56_0_29 m ρ c))))
    ((W30_arr m ρ c 14).trans ((fin10_14 (V29 m ρ) c).trans (sigArr_congr (kp_main_v53_27_29 m ρ c) (kp_main_v54_28_29 m ρ c) (kp_main_v47_24_29 m ρ c) (kp_main_arg51_0_29 m ρ c) (kp_main_arg53_0_29 m ρ c) (kp_main_arg55_0_29 m ρ c) (kp_main_arg52_0_29 m ρ c) (kp_main_arg54_0_29 m ρ c) (kp_main_arg56_0_29 m ρ c))))
    (fun n q => (host11_v59 (W30 m ρ c) (fun s => (congrFun (kp_main_v51_25_30 m ρ c) (ix1 s)).trans ((host9_v51 (W24 m ρ c) s).trans ((congrFun (kp_main_arg3_0_24 m ρ c) (ix2 (1 : Fin 2) s)).trans (congrFun (kp_main_arg3_0_30 m ρ c) (ix2 (1 : Fin 2) s)).symm))) (fun i => by rw [kp_main_arg3_0_30 m ρ c]; exact hG i) n q).trans (by rw [kp_main_arg3_0_30 m ρ c]))
    (fun n q => (host11_v62 (W30 m ρ c) (fun s => (congrFun (kp_main_v51_25_30 m ρ c) (ix1 s)).trans ((host9_v51 (W24 m ρ c) s).trans ((congrFun (kp_main_arg3_0_24 m ρ c) (ix2 (1 : Fin 2) s)).trans (congrFun (kp_main_arg3_0_30 m ρ c) (ix2 (1 : Fin 2) s)).symm))) (fun i => by rw [kp_main_arg3_0_30 m ρ c]; exact hG i) n q).trans (by rw [kp_main_arg3_0_30 m ρ c]))
    ((W32_arr m ρ c 6).trans ((fin11_6 (V31 m ρ) c).trans (updArr_congr (kp_main_v31_16_31 m ρ c) (kp_main_v52_0_26_31 m ρ c) rfl rfl (kp_main_arg57_0_31 m ρ c) (kp_main_arg58_0_31 m ρ c))))

end Cert.ReferenceIdeal.Val

end
-- ==== Proof.RV.Results.lean ====
/-
  THE REFERENCE'S RESULTS. From a launch memory whose two index arrays hold valid row numbers, the three
  float arrays the reference returns — read off the last valuation of the fold through its segments — hold,
  entry by entry, the three components of the four-layer function on rows of the argument arrays.
-/
import proofs.«117664_g2000706958607885_pallasbulk_534_41_alg».proof.Proof.RV.Layers

set_option maxRecDepth 16384

noncomputable section

namespace Cert.ReferenceIdeal.Val

open Cert.ReferenceIdeal Cert.ReferenceIdeal.Gen Cert.ReferenceIdeal.GenP
open Idealize.ShloMosaic Idealize.ShloMosaic.TcCoe Idealize.ShloMosaic.ValueIdx Idealize.SL.Sem
open Idealize.ShloMosaic.Pipeline (Dat)
open Cert.ResultsSpec Cert.Bridge
open scoped BigOperators

variable (m : (ℓ : Loc nD τ sig) → Buf (Elt Ideal) ℓ) (ρ : Dev nD → PrngReg) (c : Dev nD)

theorem results (hG : ∀ i, 0 ≤ ((m ((c : Thread nD τ).loc main_arg3) : IVec S2x65536 32) i).toInt ∧ ((m ((c : Thread nD τ).loc main_arg3) : IVec S2x65536 32) i).toInt < 16384)
    (hA : ∀ i, 0 ≤ ((m ((c : Thread nD τ).loc main_arg4) : IVec S2x131072 32) i).toInt ∧ ((m ((c : Thread nD τ).loc main_arg4) : IVec S2x131072 32) i).toInt < 65536) :
    Holds (Args.ofArrays
      (m ((c : Thread nD τ).loc main_arg0) : A 16384 128)
      (m ((c : Thread nD τ).loc main_arg1) : A 65536 128)
      (m ((c : Thread nD τ).loc main_arg2) : A 131072 128)
      (m ((c : Thread nD τ).loc main_arg3) : IVec S2x65536 32)
      (m ((c : Thread nD τ).loc main_arg4) : IVec S2x131072 32)
      (m ((c : Thread nD τ).loc main_arg5) : A 128 128)
      (m ((c : Thread nD τ).loc main_arg6) : A 1 128)
      (m ((c : Thread nD τ).loc main_arg7) : A 128 128)
      (m ((c : Thread nD τ).loc main_arg8) : A 1 128)
      (m ((c : Thread nD τ).loc main_arg9) : A 128 128)
      (m ((c : Thread nD τ).loc main_arg10) : A 1 128)
      (m ((c : Thread nD τ).loc main_arg11) : A 128 128)
      (m ((c : Thread nD τ).loc main_arg12) : A 1 128)
      (m ((c : Thread nD τ).loc main_arg13) : A 128 128)
      (m ((c : Thread nD τ).loc main_arg14) : A 1 128)
      (m ((c : Thread nD τ).loc main_arg15) : A 1 128)
      (m ((c : Thread nD τ).loc main_arg16) : A 1 128)
      (m ((c : Thread nD τ).loc main_arg17) : A 1 128)
      (m ((c : Thread nD τ).loc main_arg18) : A 1 128)
      (m ((c : Thread nD τ).loc main_arg19) : A 128 128)
      (m ((c : Thread nD τ).loc main_arg20) : A 1 128)
      (m ((c : Thread nD τ).loc main_arg21) : A 128 128)
      (m ((c : Thread nD τ).loc main_arg22) : A 1 128)
      (m ((c : Thread nD τ).loc main_arg23) : A 128 128)
      (m ((c : Thread nD τ).loc main_arg24) : A 1 128)
      (m ((c : Thread nD τ).loc main_arg25) : A 128 128)
      (m ((c : Thread nD τ).loc main_arg26) : A 1 128)
      (m ((c : Thread nD τ).loc main_arg27) : A 128 128)
      (m ((c : Thread nD τ).loc main_arg28) : A 1 128)
      (m ((c : Thread nD τ).loc main_arg29) : A 1 128)
      (m ((c : Thread nD τ).loc main_arg30) : A 1 128)
      (m ((c : Thread nD τ).loc main_arg31) : A 1 128)
      (m ((c : Thread nD τ).loc main_arg32) : A 1 128)
      (m ((c : Thread nD τ).loc main_arg33) : A 128 128)
      (m ((c : Thread nD τ).loc main_arg34) : A 1 128)
      (m ((c : Thread nD τ).loc main_arg35) : A 128 128)
      (m ((c : Thread nD τ).loc main_arg36) : A 1 128)
      (m ((c : Thread nD τ).loc main_arg37) : A 128 128)
      (m ((c : Thread nD τ).loc main_arg38) : A 1 128)
      (m ((c : Thread nD τ).loc main_arg39) : A 128 128)
      (m ((c : Thread nD τ).loc main_arg40) : A 1 128)
      (m ((c : Thread nD τ).loc main_arg41) : A 128 128)
      (m ((c : Thread nD τ).loc main_arg42) : A 1 128)
      (m ((c : Thread nD τ).loc main_arg43) : A 1 128)
      (m ((c : Thread nD τ).loc main_arg44) : A 1 128)
      (m ((c : Thread nD τ).loc main_arg45) : A 1 128)
      (m ((c : Thread nD τ).loc main_arg46) : A 1 128)
      (m ((c : Thread nD τ).loc main_arg47) : A 128 128)
      (m ((c : Thread nD τ).loc main_arg48) : A 1 128)
      (m ((c : Thread nD τ).loc main_arg49) : A 128 128)
      (m ((c : Thread nD τ).loc main_arg50) : A 1 128)
      (m ((c : Thread nD τ).loc main_arg51) : A 128 128)
      (m ((c : Thread nD τ).loc main_arg52) : A 1 128)
      (m ((c : Thread nD τ).loc main_arg53) : A 128 128)
      (m ((c : Thread nD τ).loc main_arg54) : A 1 128)
      (m ((c : Thread nD τ).loc main_arg55) : A 128 128)
      (m ((c : Thread nD τ).loc main_arg56) : A 1 128)
      (m ((c : Thread nD τ).loc main_arg57) : A 1 128)
      (m ((c : Thread nD τ).loc main_arg58) : A 1 128)
      (m ((c : Thread nD τ).loc main_arg59) : A 1 128)
      (m ((c : Thread nD τ).loc main_arg60) : A 1 128)).outR
      (W32 m ρ c (Proc.devRef .tc main_v63)) (W32 m ρ c (Proc.devRef .tc main_v56_0)) (W32 m ρ c (Proc.devRef .tc main_v40_0)) := by
  obtain ⟨hb1, hg1⟩ := layer_bg0 m ρ c hA
  obtain ⟨ha1, hb2⟩ := layer_ab0 m ρ c hG
  obtain ⟨hb3, hg2⟩ := layer_bg1 m ρ c hA
  obtain ⟨ha2, hb4⟩ := layer_ab1 m ρ c hG
  refine ⟨fun r q => ?_, fun r q => ?_, fun r q => ?_⟩
  · show rows (W32 m ρ c (Proc.devRef .tc main_v63) : A 16384 128) r q = _
    rw [ha2, ha1, hb3, hb2, hg1, hb1]
    rfl
  · show rows (W32 m ρ c (Proc.devRef .tc main_v56_0) : A 65536 128) r q = _
    rw [show (W32 m ρ c (Proc.devRef .tc main_v56_0) : A 65536 128) = W30 m ρ c (Proc.devRef .tc main_v56_0) from kp_main_v56_0_30_32 m ρ c]
    rw [hb4, ha1, hb3, hb2, hg1, hb1]
    rfl
  · show rows (W32 m ρ c (Proc.devRef .tc main_v40_0) : A 131072 128) r q = _
    rw [show (W32 m ρ c (Proc.devRef .tc main_v40_0) : A 131072 128) = W22 m ρ c (Proc.devRef .tc main_v40_0) from kp_main_v40_0_22_32 m ρ c]
    rw [hg2, hb2, hg1, hb1]
    rfl

end Cert.ReferenceIdeal.Val

end
-- ==== Proof.Final.lean ====
/-
  The fifth conjunct: the two programs, run from memories that agree on the 61 arguments and satisfy the
  precondition, both terminate with equal results and unchanged arguments.
-/
import proofs.«117664_g2000706958607885_pallasbulk_534_41_alg».proof.Proof.FinalCore
import proofs.«117664_g2000706958607885_pallasbulk_534_41_alg».proof.Proof.KI.RunVals
import proofs.«117664_g2000706958607885_pallasbulk_534_41_alg».proof.Proof.KV.Results
import proofs.«117664_g2000706958607885_pallasbulk_534_41_alg».proof.Proof.RV.Results

set_option maxRecDepth 16384

noncomputable section

namespace Cert.Final

open Idealize.ShloMosaic Idealize.ShloMosaic.TcCoe Idealize.SL.Sem

set_option maxHeartbeats 4000000 in
theorem algebraic : Cert.algebraic_KernelIdeal_ReferenceIdeal :=
  algebraic_of_results (fun m c => Cert.KernelIdeal.Fr.X24 m c)
    (fun m g => Cert.KernelIdeal.Fr.run_vals m g)
    (fun m c => ⟨Cert.KernelIdeal.Fr.X24_arg0 m c,
      Cert.KernelIdeal.Fr.X24_arg1 m c,
      Cert.KernelIdeal.Fr.X24_arg2 m c,
      Cert.KernelIdeal.Fr.X24_arg3 m c,
      Cert.KernelIdeal.Fr.X24_arg4 m c,
      Cert.KernelIdeal.Fr.X24_arg5 m c,
      Cert.KernelIdeal.Fr.X24_arg6 m c,
      Cert.KernelIdeal.Fr.X24_arg7 m c,
      Cert.KernelIdeal.Fr.X24_arg8 m c,
      Cert.KernelIdeal.Fr.X24_arg9 m c,
      Cert.KernelIdeal.Fr.X24_arg10 m c,
      Cert.KernelIdeal.Fr.X24_arg11 m c,
      Cert.KernelIdeal.Fr.X24_arg12 m c,
      Cert.KernelIdeal.Fr.X24_arg13 m c,
      Cert.KernelIdeal.Fr.X24_arg14 m c,
      Cert.KernelIdeal.Fr.X24_arg15 m c,
      Cert.KernelIdeal.Fr.X24_arg16 m c,
      Cert.KernelIdeal.Fr.X24_arg17 m c,
      Cert.KernelIdeal.Fr.X24_arg18 m c,
      Cert.KernelIdeal.Fr.X24_arg19 m c,
      Cert.KernelIdeal.Fr.X24_arg20 m c,
      Cert.KernelIdeal.Fr.X24_arg21 m c,
      Cert.KernelIdeal.Fr.X24_arg22 m c,
      Cert.KernelIdeal.Fr.X24_arg23 m c,
      Cert.KernelIdeal.Fr.X24_arg24 m c,
      Cert.KernelIdeal.Fr.X24_arg25 m c,
      Cert.KernelIdeal.Fr.X24_arg26 m c,
      Cert.KernelIdeal.Fr.X24_arg27 m c,
      Cert.KernelIdeal.Fr.X24_arg28 m c,
      Cert.KernelIdeal.Fr.X24_arg29 m c,
      Cert.KernelIdeal.Fr.X24_arg30 m c,
      Cert.KernelIdeal.Fr.X24_arg31 m c,
      Cert.KernelIdeal.Fr.X24_arg32 m c,
      Cert.KernelIdeal.Fr.X24_arg33 m c,
      Cert.KernelIdeal.Fr.X24_arg34 m c,
      Cert.KernelIdeal.Fr.X24_arg35 m c,
      Cert.KernelIdeal.Fr.X24_arg36 m c,
      Cert.KernelIdeal.Fr.X24_arg37 m c,
      Cert.KernelIdeal.Fr.X24_arg38 m c,
      Cert.KernelIdeal.Fr.X24_arg39 m c,
      Cert.KernelIdeal.Fr.X24_arg40 m c,
      Cert.KernelIdeal.Fr.X24_arg41 m c,
      Cert.KernelIdeal.Fr.X24_arg42 m c,
      Cert.KernelIdeal.Fr.X24_arg43 m c,
      Cert.KernelIdeal.Fr.X24_arg44 m c,
      Cert.KernelIdeal.Fr.X24_arg45 m c,
      Cert.KernelIdeal.Fr.X24_arg46 m c,
      Cert.KernelIdeal.Fr.X24_arg47 m c,
      Cert.KernelIdeal.Fr.X24_arg48 m c,
      Cert.KernelIdeal.Fr.X24_arg49 m c,
      Cert.KernelIdeal.Fr.X24_arg50 m c,
      Cert.KernelIdeal.Fr.X24_arg51 m c,
      Cert.KernelIdeal.Fr.X24_arg52 m c,
      Cert.KernelIdeal.Fr.X24_arg53 m c,
      Cert.KernelIdeal.Fr.X24_arg54 m c,
      Cert.KernelIdeal.Fr.X24_arg55 m c,
      Cert.KernelIdeal.Fr.X24_arg56 m c,
      Cert.KernelIdeal.Fr.X24_arg57 m c,
      Cert.KernelIdeal.Fr.X24_arg58 m c,
      Cert.KernelIdeal.Fr.X24_arg59 m c,
      Cert.KernelIdeal.Fr.X24_arg60 m c⟩)
    (fun m c hG hA => Cert.KernelIdeal.Val.results m c hG hA)
    (fun m' g' c hG hA => Cert.ReferenceIdeal.Val.results m' g' c hG hA)

/-- info: 'Cert.Final.algebraic' depends on axioms: [propext, Classical.choice, Quot.sound] -/
#guard_msgs in #print axioms algebraic

end Cert.Final
-- ==== Proof.lean ====
/-
  A GatedGCN processor (two convolutions, each of two edge-gated layers) as twelve tiled TensorCore kernels around host
  gathers and segment sums, against a reference of the same twelve-kernel shape at another tiling.

  The kernel reads each layer as
      h      = x · [W_self | W_nbr | W_B | W_A] + [b_self | b_nbr | 0 | 0]          (one 128 × 512 product per node row)
      e_hat  = e · W_C + (h_A)[dst] + (h_B)[src] + (b_A + b_B + b_C)
      e'     = e + silu (LN (e_hat)),   σ = logistic e_hat,   (σ · (h_nbr)[src] | σ) scattered as ONE 256-lane segment sum over dst
      x'     = x + silu (LN (h_self + num / (den + ε)))
  and the reference as
      e_hat  = x[dst] · W_A + b_A + x[src] · W_B + b_B + e · W_C + b_C,   msg = (σ · mask) · (x · W_nbr + b_nbr)[src],
      num, den = two 128-lane segment sums over dst,   the same node update.
  On the extended reals the two agree index by index when every index is in range: a gathered row of a product is the
  product of the gathered row (the same finite sum over k), x + 0 = x, addition is commutative and associative at the
  infinities too, the padding mask is all ones because the row counts are multiples of the tile, and a sum over 256 lanes
  read on its two halves is the two 128-lane sums.  Out of range they differ: the reference's gather fills the row with
  the NaN pattern (the least extended real) where the kernel's gather clamps the index; hence the precondition also asks
  0 ≤ edge_index_G < 16384 and 0 ≤ edge_index_A < 65536.  No finiteness of a float input is used.

  The frames: each program's @main is twelve regions among stretches of host operations; every region's body runs on whole
  staging blocks and stores each output block through rectangles that tile it, so each region is a segment record over
  the host side's chaining, and every argument array ends as launched.  The values: the same run read at every buffer, the
  regions' blocks assembled into whole arrays, the host stretches read at an index, and the four layers composed.
-/
import proofs.«117664_g2000706958607885_pallasbulk_534_41_alg».proof.Defs
import proofs.«117664_g2000706958607885_pallasbulk_534_41_alg».proof.Proof.Gen.Kernel
import proofs.«117664_g2000706958607885_pallasbulk_534_41_alg».proof.Proof.Gen.KernelIdeal
import proofs.«117664_g2000706958607885_pallasbulk_534_41_alg».proof.Proof.Gen.ReferenceIdeal
import proofs.«117664_g2000706958607885_pallasbulk_534_41_alg».proof.Proof.K.Run
import proofs.«117664_g2000706958607885_pallasbulk_534_41_alg».proof.Proof.KI.Run
import proofs.«117664_g2000706958607885_pallasbulk_534_41_alg».proof.Proof.RefFrame
import proofs.«117664_g2000706958607885_pallasbulk_534_41_alg».proof.Proof.Final
import proofs.«117664_g2000706958607885_pallasbulk_534_41_alg».proof.Proof.Gen.Pre_finite_inputs
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Fr.frame m ρ,
  fun m ρ _ => Cert.KernelIdeal.Fr.frame m ρ,
  fun m ρ _ => Cert.ReferenceIdeal.GenP.frame m ρ,
  trivial,
  Cert.Final.algebraic⟩

end Cert.Proof

end
